-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5)) (m ((c.tc : Thread Cert.Kernel.nD Cert.Kernel.τ).loc Cert.Kernel.main_arg6)) (m ((c.tc : Thread Cert.Kernel.nD Cert.Kernel.τ).loc Cert.Kernel.main_arg7)) (m ((c.tc : Thread Cert.Kernel.nD Cert.Kernel.τ).loc Cert.Kernel.main_arg8))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7)
      ∧ r.2.mem ((c.tc : Thread Cert.Kernel.nD Cert.Kernel.τ).loc Cert.Kernel.main_arg8) = m ((c.tc : Thread Cert.Kernel.nD Cert.Kernel.τ).loc Cert.Kernel.main_arg8))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)
      ∧ m' ((c.tc : Thread Cert.ReferenceIdeal.nD Cert.ReferenceIdeal.τ).loc Cert.ReferenceIdeal.main_arg8) = m ((c.tc : Thread Cert.KernelIdeal.nD Cert.KernelIdeal.τ).loc Cert.KernelIdeal.main_arg8)) →
    ∃ (v0 : (c : Dev Cert.KernelIdeal.nD) → Buf (Elt Ideal) ((c.tc : Thread Cert.KernelIdeal.nD Cert.KernelIdeal.τ).loc Cert.KernelIdeal.main_v113)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v113) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
          ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v176) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7)
          ∧ r.2.mem ((c.tc : Thread Cert.ReferenceIdeal.nD Cert.ReferenceIdeal.τ).loc Cert.ReferenceIdeal.main_arg8) = m' ((c.tc : Thread Cert.ReferenceIdeal.nD Cert.ReferenceIdeal.τ).loc Cert.ReferenceIdeal.main_arg8))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S10000x128 : Shape := ⟨2, ![10000, 128]⟩
abbrev S2x160000 : Shape := ⟨2, ![2, 160000]⟩
abbrev S160000 : Shape := ⟨1, ![160000]⟩
abbrev S128x1000 : Shape := ⟨2, ![128, 1000]⟩
abbrev S1000 : Shape := ⟨1, ![1000]⟩
abbrev S5x1000x1000 : Shape := ⟨3, ![5, 1000, 1000]⟩
abbrev S5x1000 : Shape := ⟨2, ![5, 1000]⟩
abbrev S1000x256 : Shape := ⟨2, ![1000, 256]⟩
abbrev S256 : Shape := ⟨1, ![256]⟩
abbrev S_ : Shape := ⟨0, ![]⟩

class Facts : Prop where
  bcast_S_S10000x128 : S_.BroadcastsInDim S10000x128 (![] : Fin 0 → Fin S10000x128.rank)
  reducesTo_S10000x128_S_d0_1 : S10000x128.ReducesTo [0, 1] S_
  h_S_ : 0 < S_.numel
  bcast_S_S160000 : S_.BroadcastsInDim S160000 (![] : Fin 0 → Fin S160000.rank)
  reducesTo_S160000_S_d0 : S160000.ReducesTo [0] S_
  bcast_S_S128x1000 : S_.BroadcastsInDim S128x1000 (![] : Fin 0 → Fin S128x1000.rank)
  reducesTo_S128x1000_S_d0_1 : S128x1000.ReducesTo [0, 1] S_
  bcast_S_S1000 : S_.BroadcastsInDim S1000 (![] : Fin 0 → Fin S1000.rank)
  reducesTo_S1000_S_d0 : S1000.ReducesTo [0] S_
  bcast_S_S5x1000x1000 : S_.BroadcastsInDim S5x1000x1000 (![] : Fin 0 → Fin S5x1000x1000.rank)
  reducesTo_S5x1000x1000_S_d0_1_2 : S5x1000x1000.ReducesTo [0, 1, 2] S_
  bcast_S_S5x1000 : S_.BroadcastsInDim S5x1000 (![] : Fin 0 → Fin S5x1000.rank)
  reducesTo_S5x1000_S_d0_1 : S5x1000.ReducesTo [0, 1] S_
  bcast_S_S1000x256 : S_.BroadcastsInDim S1000x256 (![] : Fin 0 → Fin S1000x256.rank)
  reducesTo_S1000x256_S_d0_1 : S1000x256.ReducesTo [0, 1] S_
  bcast_S_S256 : S_.BroadcastsInDim S256 (![] : Fin 0 → Fin S256.rank)
  reducesTo_S256_S_d0 : S256.ReducesTo [0] S_
  bcast_S_S2x160000 : S_.BroadcastsInDim S2x160000 (![] : Fin 0 → Fin S2x160000.rank)
  reducesTo_S2x160000_S_d0_1 : S2x160000.ReducesTo [0, 1] S_

variable [Facts]

def fn_part2 {F : FTy → Type} [FloatOps F] (main_arg1 : IVec S2x160000 32) (main_arg8 : FVec F S256 .f32) (main_v33 : IVec S_ 1) : IVec S_ 1 :=
  let main_v34 : FVec F S256 .f32 := Host.absf main_arg8
  let main_cst_12 : FVec F S_ .f32 := constant S_ .f32 0x7F800000#32
  let main_v35 : FVec F S256 .f32 := broadcastInDim S256 ![] bcast_S_S256 main_cst_12
  let main_v36 : IVec S256 1 := cmpf .olt main_v34 main_v35
  let main_c_13 : IVec S_ 1 := constantI S_ 1 1#1
  let main_v37 : IVec S_ 1 := (fun x v => Host.reduce IntOp.andi x v reducesTo_S256_S_d0 h_S_) main_v36 main_c_13
  let main_v38 : IVec S_ 1 := andi main_v33 main_v37
  let main_c_14 : IVec S_ 32 := constantI S_ 32 0#32
  let main_v39 : IVec S2x160000 32 := broadcastInDim S2x160000 ![] bcast_S_S2x160000 main_c_14
  let main_v40 : IVec S2x160000 1 := cmpi .sge main_arg1 main_v39
  let main_c_15 : IVec S_ 1 := constantI S_ 1 1#1
  let main_v41 : IVec S_ 1 := (fun x v => Host.reduce IntOp.andi x v reducesTo_S2x160000_S_d0_1 h_S_) main_v40 main_c_15
  let main_v42 : IVec S_ 1 := andi main_v38 main_v41
  let main_c_16 : IVec S_ 32 := constantI S_ 32 10000#32
  let main_v43 : IVec S2x160000 32 := broadcastInDim S2x160000 ![] bcast_S_S2x160000 main_c_16
  let main_v44 : IVec S2x160000 1 := cmpi .slt main_arg1 main_v43
  let main_c_17 : IVec S_ 1 := constantI S_ 1 1#1
  let main_v45 : IVec S_ 1 := (fun x v => Host.reduce IntOp.andi x v reducesTo_S2x160000_S_d0_1 h_S_) main_v44 main_c_17
  let main_v46 : IVec S_ 1 := andi main_v42 main_v45
  main_v46

def fn_part1 {F : FTy → Type} [FloatOps F] (main_arg1 : IVec S2x160000 32) (main_arg5 : FVec F S5x1000x1000 .f32) (main_arg6 : FVec F S5x1000 .f32) (main_arg7 : FVec F S1000x256 .f32) (main_arg8 : FVec F S256 .f32) (main_v13 : IVec S_ 1) (main_v16 : IVec S1000 1) : IVec S_ 1 :=
  let main_c_5 : IVec S_ 1 := constantI S_ 1 1#1
  let main_v17 : IVec S_ 1 := (fun x v => Host.reduce IntOp.andi x v reducesTo_S1000_S_d0 h_S_) main_v16 main_c_5
  let main_v18 : IVec S_ 1 := andi main_v13 main_v17
  let main_v19 : FVec F S5x1000x1000 .f32 := Host.absf main_arg5
  let main_cst_6 : FVec F S_ .f32 := constant S_ .f32 0x7F800000#32
  let main_v20 : FVec F S5x1000x1000 .f32 := broadcastInDim S5x1000x1000 ![] bcast_S_S5x1000x1000 main_cst_6
  let main_v21 : IVec S5x1000x1000 1 := cmpf .olt main_v19 main_v20
  let main_c_7 : IVec S_ 1 := constantI S_ 1 1#1
  let main_v22 : IVec S_ 1 := (fun x v => Host.reduce IntOp.andi x v reducesTo_S5x1000x1000_S_d0_1_2 h_S_) main_v21 main_c_7
  let main_v23 : IVec S_ 1 := andi main_v18 main_v22
  let main_v24 : FVec F S5x1000 .f32 := Host.absf main_arg6
  let main_cst_8 : FVec F S_ .f32 := constant S_ .f32 0x7F800000#32
  let main_v25 : FVec F S5x1000 .f32 := broadcastInDim S5x1000 ![] bcast_S_S5x1000 main_cst_8
  let main_v26 : IVec S5x1000 1 := cmpf .olt main_v24 main_v25
  let main_c_9 : IVec S_ 1 := constantI S_ 1 1#1
  let main_v27 : IVec S_ 1 := (fun x v => Host.reduce IntOp.andi x v reducesTo_S5x1000_S_d0_1 h_S_) main_v26 main_c_9
  let main_v28 : IVec S_ 1 := andi main_v23 main_v27
  let main_v29 : FVec F S1000x256 .f32 := Host.absf main_arg7
  let main_cst_10 : FVec F S_ .f32 := constant S_ .f32 0x7F800000#32
  let main_v30 : FVec F S1000x256 .f32 := broadcastInDim S1000x256 ![] bcast_S_S1000x256 main_cst_10
  let main_v31 : IVec S1000x256 1 := cmpf .olt main_v29 main_v30
  let main_c_11 : IVec S_ 1 := constantI S_ 1 1#1
  let main_v32 : IVec S_ 1 := (fun x v => Host.reduce IntOp.andi x v reducesTo_S1000x256_S_d0_1 h_S_) main_v31 main_c_11
  let main_v33 : IVec S_ 1 := andi main_v28 main_v32
  fn_part2 (F := F) main_arg1 main_arg8 main_v33

def fn {F : FTy → Type} [FloatOps F] (main_arg0 : FVec F S10000x128 .f32) (main_arg1 : IVec S2x160000 32) (main_arg2 : FVec F S160000 .f32) (main_arg3 : FVec F S128x1000 .f32) (main_arg4 : FVec F S1000 .f32) (main_arg5 : FVec F S5x1000x1000 .f32) (main_arg6 : FVec F S5x1000 .f32) (main_arg7 : FVec F S1000x256 .f32) (main_arg8 : FVec F S256 .f32) : IVec S_ 1 :=
  let main_v0 : FVec F S10000x128 .f32 := Host.absf main_arg0
  let main_cst : FVec F S_ .f32 := constant S_ .f32 0x7F800000#32
  let main_v1 : FVec F S10000x128 .f32 := broadcastInDim S10000x128 ![] bcast_S_S10000x128 main_cst
  let main_v2 : IVec S10000x128 1 := cmpf .olt main_v0 main_v1
  let main_c : IVec S_ 1 := constantI S_ 1 1#1
  let main_v3 : IVec S_ 1 := (fun x v => Host.reduce IntOp.andi x v reducesTo_S10000x128_S_d0_1 h_S_) main_v2 main_c
  let main_v4 : FVec F S160000 .f32 := Host.absf main_arg2
  let main_cst_0 : FVec F S_ .f32 := constant S_ .f32 0x7F800000#32
  let main_v5 : FVec F S160000 .f32 := broadcastInDim S160000 ![] bcast_S_S160000 main_cst_0
  let main_v6 : IVec S160000 1 := cmpf .olt main_v4 main_v5
  let main_c_1 : IVec S_ 1 := constantI S_ 1 1#1
  let main_v7 : IVec S_ 1 := (fun x v => Host.reduce IntOp.andi x v reducesTo_S160000_S_d0 h_S_) main_v6 main_c_1
  let main_v8 : IVec S_ 1 := andi main_v3 main_v7
  let main_v9 : FVec F S128x1000 .f32 := Host.absf main_arg3
  let main_cst_2 : FVec F S_ .f32 := constant S_ .f32 0x7F800000#32
  let main_v10 : FVec F S128x1000 .f32 := broadcastInDim S128x1000 ![] bcast_S_S128x1000 main_cst_2
  let main_v11 : IVec S128x1000 1 := cmpf .olt main_v9 main_v10
  let main_c_3 : IVec S_ 1 := constantI S_ 1 1#1
  let main_v12 : IVec S_ 1 := (fun x v => Host.reduce IntOp.andi x v reducesTo_S128x1000_S_d0_1 h_S_) main_v11 main_c_3
  let main_v13 : IVec S_ 1 := andi main_v8 main_v12
  let main_v14 : FVec F S1000 .f32 := Host.absf main_arg4
  let main_cst_4 : FVec F S_ .f32 := constant S_ .f32 0x7F800000#32
  let main_v15 : FVec F S1000 .f32 := broadcastInDim S1000 ![] bcast_S_S1000 main_cst_4
  let main_v16 : IVec S1000 1 := cmpf .olt main_v14 main_v15
  fn_part1 (F := F) main_arg1 main_arg5 main_arg6 main_arg7 main_arg8 main_v13 main_v16
-- ==== Kernel.lean ====
abbrev S10000x128 : Shape := ⟨2, ![10000, 128]⟩
abbrev S2x160000 : Shape := ⟨2, ![2, 160000]⟩
abbrev S160000 : Shape := ⟨1, ![160000]⟩
abbrev S128x1000 : Shape := ⟨2, ![128, 1000]⟩
abbrev S1000 : Shape := ⟨1, ![1000]⟩
abbrev S5x1000x1000 : Shape := ⟨3, ![5, 1000, 1000]⟩
abbrev S5x1000 : Shape := ⟨2, ![5, 1000]⟩
abbrev S1000x256 : Shape := ⟨2, ![1000, 256]⟩
abbrev S256 : Shape := ⟨1, ![256]⟩
abbrev S10000 : Shape := ⟨1, ![10000]⟩
abbrev S1x160000 : Shape := ⟨2, ![1, 160000]⟩
abbrev S170000 : Shape := ⟨1, ![170000]⟩
abbrev S_ : Shape := ⟨0, ![]⟩
abbrev S170000x1 : Shape := ⟨2, ![170000, 1]⟩
abbrev S10240x10240 : Shape := ⟨2, ![10240, 10240]⟩
abbrev S170000x2 : Shape := ⟨2, ![170000, 2]⟩
abbrev S10240x128 : Shape := ⟨2, ![10240, 128]⟩
abbrev S128x1024 : Shape := ⟨2, ![128, 1024]⟩
abbrev S1024 : Shape := ⟨1, ![1024]⟩
abbrev S5x1024x1024 : Shape := ⟨3, ![5, 1024, 1024]⟩
abbrev S5x1024 : Shape := ⟨2, ![5, 1024]⟩
abbrev S1024x256 : Shape := ⟨2, ![1024, 256]⟩
abbrev S128 : Shape := ⟨1, ![128]⟩
abbrev S1x128 : Shape := ⟨2, ![1, 128]⟩
abbrev S512x1024 : Shape := ⟨2, ![512, 1024]⟩
abbrev S512x128 : Shape := ⟨2, ![512, 128]⟩
abbrev S1024x128 : Shape := ⟨2, ![1024, 128]⟩
abbrev S1x1024 : Shape := ⟨2, ![1, 1024]⟩
abbrev S10240x1024 : Shape := ⟨2, ![10240, 1024]⟩
abbrev S1024x1024 : Shape := ⟨2, ![1024, 1024]⟩
abbrev S1x1024x1024 : Shape := ⟨3, ![1, 1024, 1024]⟩
abbrev S1x256 : Shape := ⟨2, ![1, 256]⟩
abbrev S10240x256 : Shape := ⟨2, ![10240, 256]⟩
abbrev S512x256 : Shape := ⟨2, ![512, 256]⟩
abbrev S10000x256 : Shape := ⟨2, ![10000, 256]⟩

abbrev nBuf : Space → Nat
  | .hbm => 157
  | .vmem => 91
  | .smem => 0
  | _ => 0

abbrev hbmTy0_0 (i : Nat) : BufTy := match i % 128 with
  | 0 => ⟨S10000x128, .f32⟩
  | 1 => ⟨S2x160000, .i32⟩
  | 2 => ⟨S160000, .f32⟩
  | 3 => ⟨S128x1000, .f32⟩
  | 4 => ⟨S1000, .f32⟩
  | 5 => ⟨S5x1000x1000, .f32⟩
  | 6 => ⟨S5x1000, .f32⟩
  | 7 => ⟨S1000x256, .f32⟩
  | 8 => ⟨S256, .f32⟩
  | 9 => ⟨S10000, .i32⟩
  | 10 => ⟨S1x160000, .i32⟩
  | 11 => ⟨S160000, .i32⟩
  | 12 => ⟨S170000, .i32⟩
  | 13 => ⟨S1x160000, .i32⟩
  | 14 => ⟨S160000, .i32⟩
  | 15 => ⟨S170000, .i32⟩
  | 16 => ⟨S_, .f32⟩
  | 17 => ⟨S10000, .f32⟩
  | 18 => ⟨S170000, .f32⟩
  | 19 => ⟨S_, .f32⟩
  | 20 => ⟨S10000, .f32⟩
  | 21 => ⟨S170000x1, .i32⟩
  | 22 => ⟨S10000, .f32⟩
  | 23 => ⟨S_, .f32⟩
  | 24 => ⟨S10000, .f32⟩
  | 25 => ⟨S10000, .i1⟩
  | 26 => ⟨S10000, .f32⟩
  | 27 => ⟨S_, .f32⟩
  | 28 => ⟨S_, .f32⟩
  | 29 => ⟨S10000, .f32⟩
  | 30 => ⟨S10000, .f32⟩
  | 31 => ⟨S_, .i32⟩
  | 32 => ⟨S170000, .i32⟩
  | 33 => ⟨S170000, .i1⟩
  | 34 => ⟨S_, .i32⟩
  | 35 => ⟨S170000, .i32⟩
  | 36 => ⟨S170000, .i32⟩
  | 37 => ⟨S170000, .i32⟩
  | 38 => ⟨S170000x1, .i32⟩
  | 39 => ⟨S170000, .f32⟩
  | 40 => ⟨S170000, .f32⟩
  | 41 => ⟨S_, .i32⟩
  | 42 => ⟨S170000, .i32⟩
  | 43 => ⟨S170000, .i1⟩
  | 44 => ⟨S_, .i32⟩
  | 45 => ⟨S170000, .i32⟩
  | 46 => ⟨S170000, .i32⟩
  | 47 => ⟨S170000, .i32⟩
  | 48 => ⟨S170000x1, .i32⟩
  | 49 => ⟨S170000, .f32⟩
  | 50 => ⟨S170000, .f32⟩
  | 51 => ⟨S_, .f32⟩
  | 52 => ⟨S10240x10240, .f32⟩
  | 53 => ⟨S_, .i32⟩
  | 54 => ⟨S170000, .i32⟩
  | 55 => ⟨S170000, .i1⟩
  | 56 => ⟨S_, .i32⟩
  | 57 => ⟨S170000, .i32⟩
  | 58 => ⟨S170000, .i32⟩
  | 59 => ⟨S170000, .i32⟩
  | 60 => ⟨S_, .i32⟩
  | 61 => ⟨S170000, .i32⟩
  | 62 => ⟨S170000, .i1⟩
  | 63 => ⟨S_, .i32⟩
  | 64 => ⟨S170000, .i32⟩
  | 65 => ⟨S170000, .i32⟩
  | 66 => ⟨S170000, .i32⟩
  | 67 => ⟨S170000x1, .i32⟩
  | 68 => ⟨S170000x1, .i32⟩
  | 69 => ⟨S170000x2, .i32⟩
  | 70 => ⟨S10240x10240, .f32⟩
  | 71 => ⟨S10240x10240, .bf16⟩
  | 72 => ⟨S_, .i32⟩
  | 73 => ⟨S_, .f32⟩
  | 74 => ⟨S10240x128, .f32⟩
  | 75 => ⟨S10240x128, .bf16⟩
  | 76 => ⟨S_, .i32⟩
  | 77 => ⟨S_, .f32⟩
  | 78 => ⟨S128x1024, .f32⟩
  | 79 => ⟨S128x1024, .bf16⟩
  | 80 => ⟨S_, .i32⟩
  | 81 => ⟨S_, .f32⟩
  | 82 => ⟨S1024, .f32⟩
  | 83 => ⟨S_, .i32⟩
  | 84 => ⟨S_, .f32⟩
  | 85 => ⟨S5x1024x1024, .f32⟩
  | 86 => ⟨S5x1024x1024, .bf16⟩
  | 87 => ⟨S_, .i32⟩
  | 88 => ⟨S_, .f32⟩
  | 89 => ⟨S5x1024, .f32⟩
  | 90 => ⟨S_, .i32⟩
  | 91 => ⟨S_, .f32⟩
  | 92 => ⟨S1024x256, .f32⟩
  | 93 => ⟨S1024x256, .bf16⟩
  | 94 => ⟨S_, .f32⟩
  | 95 => ⟨S128, .f32⟩
  | 96 => ⟨S1x128, .f32⟩
  | 97 => ⟨S10240x128, .bf16⟩
  | 98 => ⟨S1x1024, .f32⟩
  | 99 => ⟨S10240x1024, .bf16⟩
  | 100 => ⟨S1x1024x1024, .bf16⟩
  | 101 => ⟨S1024x1024, .bf16⟩
  | 102 => ⟨S1x1024, .f32⟩
  | 103 => ⟨S1024, .f32⟩
  | 104 => ⟨S_, .f32⟩
  | 105 => ⟨S1024, .f32⟩
  | 106 => ⟨S1x1024, .f32⟩
  | 107 => ⟨S10240x1024, .bf16⟩
  | 108 => ⟨S1x1024, .f32⟩
  | 109 => ⟨S10240x1024, .bf16⟩
  | 110 => ⟨S1x1024x1024, .bf16⟩
  | 111 => ⟨S1024x1024, .bf16⟩
  | 112 => ⟨S1x1024, .f32⟩
  | 113 => ⟨S1024, .f32⟩
  | 114 => ⟨S_, .f32⟩
  | 115 => ⟨S1024, .f32⟩
  | 116 => ⟨S1x1024, .f32⟩
  | 117 => ⟨S10240x1024, .bf16⟩
  | 118 => ⟨S1x1024, .f32⟩
  | 119 => ⟨S10240x1024, .bf16⟩
  | 120 => ⟨S1x1024x1024, .bf16⟩
  | 121 => ⟨S1024x1024, .bf16⟩
  | 122 => ⟨S1x1024, .f32⟩
  | 123 => ⟨S1024, .f32⟩
  | 124 => ⟨S_, .f32⟩
  | 125 => ⟨S1024, .f32⟩
  | 126 => ⟨S1x1024, .f32⟩
  | 127 => ⟨S10240x1024, .bf16⟩
  | _ => ⟨S10000x128, .f32⟩

abbrev hbmTy0_1 (i : Nat) : BufTy := match i % 128 with
  | 0 => ⟨S1x1024, .f32⟩
  | 1 => ⟨S10240x1024, .bf16⟩
  | 2 => ⟨S1x1024x1024, .bf16⟩
  | 3 => ⟨S1024x1024, .bf16⟩
  | 4 => ⟨S1x1024, .f32⟩
  | 5 => ⟨S1024, .f32⟩
  | 6 => ⟨S_, .f32⟩
  | 7 => ⟨S1024, .f32⟩
  | 8 => ⟨S1x1024, .f32⟩
  | 9 => ⟨S10240x1024, .bf16⟩
  | 10 => ⟨S1x1024, .f32⟩
  | 11 => ⟨S10240x1024, .bf16⟩
  | 12 => ⟨S1x1024x1024, .bf16⟩
  | 13 => ⟨S1024x1024, .bf16⟩
  | 14 => ⟨S1x1024, .f32⟩
  | 15 => ⟨S1024, .f32⟩
  | 16 => ⟨S_, .f32⟩
  | 17 => ⟨S1024, .f32⟩
  | 18 => ⟨S1x1024, .f32⟩
  | 19 => ⟨S10240x1024, .bf16⟩
  | 20 => ⟨S1x1024, .f32⟩
  | 21 => ⟨S10240x1024, .bf16⟩
  | 22 => ⟨S_, .f32⟩
  | 23 => ⟨S256, .f32⟩
  | 24 => ⟨S1x256, .f32⟩
  | 25 => ⟨S10240x256, .bf16⟩
  | 26 => ⟨S1x256, .f32⟩
  | 27 => ⟨S10240x256, .f32⟩
  | 28 => ⟨S10000x256, .f32⟩
  | _ => ⟨S10000x128, .f32⟩

abbrev hbmTy (i : Nat) : BufTy := match i / 128 with
  | 0 => hbmTy0_0 i
  | 1 => hbmTy0_1 i
  | _ => ⟨S10000x128, .f32⟩

abbrev bufTy : (tb : Table) → Fin (tcTables nBuf tb) → BufTy
  | .hbm, ⟨i, _⟩ => hbmTy i
  | .local _ .vmem, ⟨0, _⟩ => ⟨S512x1024, .bf16⟩
  | .local _ .vmem, ⟨1, _⟩ => ⟨S512x1024, .bf16⟩
  | .local _ .vmem, ⟨2, _⟩ => ⟨S10240x128, .bf16⟩
  | .local _ .vmem, ⟨3, _⟩ => ⟨S1x128, .f32⟩
  | .local _ .vmem, ⟨4, _⟩ => ⟨S512x128, .bf16⟩
  | .local _ .vmem, ⟨5, _⟩ => ⟨S512x128, .bf16⟩
  | .local _ .vmem, ⟨6, _⟩ => ⟨S512x128, .f32⟩
  | .local _ .vmem, ⟨7, _⟩ => ⟨S1024x128, .bf16⟩
  | .local _ .vmem, ⟨8, _⟩ => ⟨S1024x128, .bf16⟩
  | .local _ .vmem, ⟨9, _⟩ => ⟨S128x1024, .bf16⟩
  | .local _ .vmem, ⟨10, _⟩ => ⟨S1x1024, .f32⟩
  | .local _ .vmem, ⟨11, _⟩ => ⟨S1024x1024, .bf16⟩
  | .local _ .vmem, ⟨12, _⟩ => ⟨S1024x1024, .bf16⟩
  | .local _ .vmem, ⟨13, _⟩ => ⟨S1024x1024, .bf16⟩
  | .local _ .vmem, ⟨14, _⟩ => ⟨S1024x1024, .bf16⟩
  | .local _ .vmem, ⟨15, _⟩ => ⟨S1024x1024, .bf16⟩
  | .local _ .vmem, ⟨16, _⟩ => ⟨S1x1024, .f32⟩
  | .local _ .vmem, ⟨17, _⟩ => ⟨S1024x1024, .bf16⟩
  | .local _ .vmem, ⟨18, _⟩ => ⟨S1024x1024, .bf16⟩
  | .local _ .vmem, ⟨19, _⟩ => ⟨S512x1024, .bf16⟩
  | .local _ .vmem, ⟨20, _⟩ => ⟨S512x1024, .bf16⟩
  | .local _ .vmem, ⟨21, _⟩ => ⟨S10240x1024, .bf16⟩
  | .local _ .vmem, ⟨22, _⟩ => ⟨S1x1024, .f32⟩
  | .local _ .vmem, ⟨23, _⟩ => ⟨S512x1024, .bf16⟩
  | .local _ .vmem, ⟨24, _⟩ => ⟨S512x1024, .bf16⟩
  | .local _ .vmem, ⟨25, _⟩ => ⟨S512x1024, .f32⟩
  | .local _ .vmem, ⟨26, _⟩ => ⟨S1024x1024, .bf16⟩
  | .local _ .vmem, ⟨27, _⟩ => ⟨S1024x1024, .bf16⟩
  | .local _ .vmem, ⟨28, _⟩ => ⟨S1024x1024, .bf16⟩
  | .local _ .vmem, ⟨29, _⟩ => ⟨S1x1024, .f32⟩
  | .local _ .vmem, ⟨30, _⟩ => ⟨S1024x1024, .bf16⟩
  | .local _ .vmem, ⟨31, _⟩ => ⟨S1024x1024, .bf16⟩
  | .local _ .vmem, ⟨32, _⟩ => ⟨S512x1024, .bf16⟩
  | .local _ .vmem, ⟨33, _⟩ => ⟨S512x1024, .bf16⟩
  | .local _ .vmem, ⟨34, _⟩ => ⟨S10240x1024, .bf16⟩
  | .local _ .vmem, ⟨35, _⟩ => ⟨S1x1024, .f32⟩
  | .local _ .vmem, ⟨36, _⟩ => ⟨S512x1024, .bf16⟩
  | .local _ .vmem, ⟨37, _⟩ => ⟨S512x1024, .bf16⟩
  | .local _ .vmem, ⟨38, _⟩ => ⟨S512x1024, .f32⟩
  | .local _ .vmem, ⟨39, _⟩ => ⟨S1024x1024, .bf16⟩
  | .local _ .vmem, ⟨40, _⟩ => ⟨S1024x1024, .bf16⟩
  | .local _ .vmem, ⟨41, _⟩ => ⟨S1024x1024, .bf16⟩
  | .local _ .vmem, ⟨42, _⟩ => ⟨S1x1024, .f32⟩
  | .local _ .vmem, ⟨43, _⟩ => ⟨S1024x1024, .bf16⟩
  | .local _ .vmem, ⟨44, _⟩ => ⟨S1024x1024, .bf16⟩
  | .local _ .vmem, ⟨45, _⟩ => ⟨S512x1024, .bf16⟩
  | .local _ .vmem, ⟨46, _⟩ => ⟨S512x1024, .bf16⟩
  | .local _ .vmem, ⟨47, _⟩ => ⟨S10240x1024, .bf16⟩
  | .local _ .vmem, ⟨48, _⟩ => ⟨S1x1024, .f32⟩
  | .local _ .vmem, ⟨49, _⟩ => ⟨S512x1024, .bf16⟩
  | .local _ .vmem, ⟨50, _⟩ => ⟨S512x1024, .bf16⟩
  | .local _ .vmem, ⟨51, _⟩ => ⟨S512x1024, .f32⟩
  | .local _ .vmem, ⟨52, _⟩ => ⟨S1024x1024, .bf16⟩
  | .local _ .vmem, ⟨53, _⟩ => ⟨S1024x1024, .bf16⟩
  | .local _ .vmem, ⟨54, _⟩ => ⟨S1024x1024, .bf16⟩
  | .local _ .vmem, ⟨55, _⟩ => ⟨S1x1024, .f32⟩
  | .local _ .vmem, ⟨56, _⟩ => ⟨S1024x1024, .bf16⟩
  | .local _ .vmem, ⟨57, _⟩ => ⟨S1024x1024, .bf16⟩
  | .local _ .vmem, ⟨58, _⟩ => ⟨S512x1024, .bf16⟩
  | .local _ .vmem, ⟨59, _⟩ => ⟨S512x1024, .bf16⟩
  | .local _ .vmem, ⟨60, _⟩ => ⟨S10240x1024, .bf16⟩
  | .local _ .vmem, ⟨61, _⟩ => ⟨S1x1024, .f32⟩
  | .local _ .vmem, ⟨62, _⟩ => ⟨S512x1024, .bf16⟩
  | .local _ .vmem, ⟨63, _⟩ => ⟨S512x1024, .bf16⟩
  | .local _ .vmem, ⟨64, _⟩ => ⟨S512x1024, .f32⟩
  | .local _ .vmem, ⟨65, _⟩ => ⟨S1024x1024, .bf16⟩
  | .local _ .vmem, ⟨66, _⟩ => ⟨S1024x1024, .bf16⟩
  | .local _ .vmem, ⟨67, _⟩ => ⟨S1024x1024, .bf16⟩
  | .local _ .vmem, ⟨68, _⟩ => ⟨S1x1024, .f32⟩
  | .local _ .vmem, ⟨69, _⟩ => ⟨S1024x1024, .bf16⟩
  | .local _ .vmem, ⟨70, _⟩ => ⟨S1024x1024, .bf16⟩
  | .local _ .vmem, ⟨71, _⟩ => ⟨S512x1024, .bf16⟩
  | .local _ .vmem, ⟨72, _⟩ => ⟨S512x1024, .bf16⟩
  | .local _ .vmem, ⟨73, _⟩ => ⟨S10240x1024, .bf16⟩
  | .local _ .vmem, ⟨74, _⟩ => ⟨S1x1024, .f32⟩
  | .local _ .vmem, ⟨75, _⟩ => ⟨S512x1024, .bf16⟩
  | .local _ .vmem, ⟨76, _⟩ => ⟨S512x1024, .bf16⟩
  | .local _ .vmem, ⟨77, _⟩ => ⟨S512x1024, .f32⟩
  | .local _ .vmem, ⟨78, _⟩ => ⟨S1024x1024, .bf16⟩
  | .local _ .vmem, ⟨79, _⟩ => ⟨S1024x1024, .bf16⟩
  | .local _ .vmem, ⟨80, _⟩ => ⟨S1024x256, .bf16⟩
  | .local _ .vmem, ⟨81, _⟩ => ⟨S1x256, .f32⟩
  | .local _ .vmem, ⟨82, _⟩ => ⟨S1024x256, .bf16⟩
  | .local _ .vmem, ⟨83, _⟩ => ⟨S1024x256, .bf16⟩
  | .local _ .vmem, ⟨84, _⟩ => ⟨S512x1024, .bf16⟩
  | .local _ .vmem, ⟨85, _⟩ => ⟨S512x1024, .bf16⟩
  | .local _ .vmem, ⟨86, _⟩ => ⟨S10240x256, .bf16⟩
  | .local _ .vmem, ⟨87, _⟩ => ⟨S1x256, .f32⟩
  | .local _ .vmem, ⟨88, _⟩ => ⟨S512x256, .f32⟩
  | .local _ .vmem, ⟨89, _⟩ => ⟨S512x256, .f32⟩
  | .local _ .vmem, ⟨90, _⟩ => ⟨S512x256, .f32⟩
  | _, _ => ⟨S10000x128, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | .vmem, ⟨25, _⟩ => true
  | .vmem, ⟨26, _⟩ => true
  | .vmem, ⟨27, _⟩ => true
  | .vmem, ⟨28, _⟩ => true
  | .vmem, ⟨29, _⟩ => true
  | .vmem, ⟨30, _⟩ => true
  | .vmem, ⟨31, _⟩ => true
  | .vmem, ⟨32, _⟩ => true
  | .vmem, ⟨33, _⟩ => true
  | .vmem, ⟨34, _⟩ => true
  | .vmem, ⟨35, _⟩ => true
  | .vmem, ⟨36, _⟩ => true
  | .vmem, ⟨37, _⟩ => true
  | .vmem, ⟨38, _⟩ => true
  | .vmem, ⟨39, _⟩ => true
  | .vmem, ⟨40, _⟩ => true
  | .vmem, ⟨41, _⟩ => true
  | .vmem, ⟨42, _⟩ => true
  | .vmem, ⟨43, _⟩ => true
  | .vmem, ⟨44, _⟩ => true
  | .vmem, ⟨45, _⟩ => true
  | .vmem, ⟨46, _⟩ => true
  | .vmem, ⟨47, _⟩ => true
  | .vmem, ⟨48, _⟩ => true
  | .vmem, ⟨49, _⟩ => true
  | .vmem, ⟨50, _⟩ => true
  | .vmem, ⟨51, _⟩ => true
  | .vmem, ⟨52, _⟩ => true
  | .vmem, ⟨53, _⟩ => true
  | .vmem, ⟨54, _⟩ => true
  | .vmem, ⟨55, _⟩ => true
  | .vmem, ⟨56, _⟩ => true
  | .vmem, ⟨57, _⟩ => true
  | .vmem, ⟨58, _⟩ => true
  | .vmem, ⟨59, _⟩ => true
  | .vmem, ⟨60, _⟩ => true
  | .vmem, ⟨61, _⟩ => true
  | .vmem, ⟨62, _⟩ => true
  | .vmem, ⟨63, _⟩ => true
  | .vmem, ⟨64, _⟩ => true
  | .vmem, ⟨65, _⟩ => true
  | .vmem, ⟨66, _⟩ => true
  | .vmem, ⟨67, _⟩ => true
  | .vmem, ⟨68, _⟩ => true
  | .vmem, ⟨69, _⟩ => true
  | .vmem, ⟨70, _⟩ => true
  | .vmem, ⟨71, _⟩ => true
  | .vmem, ⟨72, _⟩ => true
  | .vmem, ⟨73, _⟩ => true
  | .vmem, ⟨74, _⟩ => true
  | .vmem, ⟨75, _⟩ => true
  | .vmem, ⟨76, _⟩ => true
  | .vmem, ⟨77, _⟩ => true
  | .vmem, ⟨78, _⟩ => true
  | .vmem, ⟨79, _⟩ => true
  | .vmem, ⟨80, _⟩ => true
  | .vmem, ⟨81, _⟩ => true
  | .vmem, ⟨82, _⟩ => true
  | .vmem, ⟨83, _⟩ => true
  | .vmem, ⟨84, _⟩ => true
  | .vmem, ⟨85, _⟩ => true
  | .vmem, ⟨86, _⟩ => true
  | .vmem, ⟨87, _⟩ => true
  | .vmem, ⟨88, _⟩ => true
  | .vmem, ⟨89, _⟩ => true
  | .vmem, ⟨90, _⟩ => true
  | _, _ => false

abbrev semScoped : Fin 0 → Bool
  | ⟨_, h⟩ => absurd h (Nat.not_lt_zero _)

abbrev dmaSemScoped : Fin 84 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | ⟨26, _⟩ => true
  | ⟨27, _⟩ => true
  | ⟨28, _⟩ => true
  | ⟨29, _⟩ => true
  | ⟨30, _⟩ => true
  | ⟨31, _⟩ => true
  | ⟨32, _⟩ => true
  | ⟨33, _⟩ => true
  | ⟨34, _⟩ => true
  | ⟨35, _⟩ => true
  | ⟨36, _⟩ => true
  | ⟨37, _⟩ => true
  | ⟨38, _⟩ => true
  | ⟨39, _⟩ => true
  | ⟨40, _⟩ => true
  | ⟨41, _⟩ => true
  | ⟨42, _⟩ => true
  | ⟨43, _⟩ => true
  | ⟨44, _⟩ => true
  | ⟨45, _⟩ => true
  | ⟨46, _⟩ => true
  | ⟨47, _⟩ => true
  | ⟨48, _⟩ => true
  | ⟨49, _⟩ => true
  | ⟨50, _⟩ => true
  | ⟨51, _⟩ => true
  | ⟨52, _⟩ => true
  | ⟨53, _⟩ => true
  | ⟨54, _⟩ => true
  | ⟨55, _⟩ => true
  | ⟨56, _⟩ => true
  | ⟨57, _⟩ => true
  | ⟨58, _⟩ => true
  | ⟨59, _⟩ => true
  | ⟨60, _⟩ => true
  | ⟨61, _⟩ => true
  | ⟨62, _⟩ => true
  | ⟨63, _⟩ => true
  | ⟨64, _⟩ => true
  | ⟨65, _⟩ => true
  | ⟨66, _⟩ => true
  | ⟨67, _⟩ => true
  | ⟨68, _⟩ => true
  | ⟨69, _⟩ => true
  | ⟨70, _⟩ => true
  | ⟨71, _⟩ => true
  | ⟨72, _⟩ => true
  | ⟨73, _⟩ => true
  | ⟨74, _⟩ => true
  | ⟨75, _⟩ => true
  | ⟨76, _⟩ => true
  | ⟨77, _⟩ => true
  | ⟨78, _⟩ => true
  | ⟨79, _⟩ => true
  | ⟨80, _⟩ => true
  | ⟨81, _⟩ => true
  | ⟨82, _⟩ => true
  | ⟨83, _⟩ => true
  | _ => false

abbrev sig : RefSig :=
  ofTc nBuf bufTy 0 84 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_v0 : Ref sig .tc := ⟨.hbm, 9, rfl⟩
abbrev main_v1 : Ref sig .tc := ⟨.hbm, 10, rfl⟩
abbrev main_v2 : Ref sig .tc := ⟨.hbm, 11, rfl⟩
abbrev main_v3 : Ref sig .tc := ⟨.hbm, 12, rfl⟩
abbrev main_v4 : Ref sig .tc := ⟨.hbm, 13, rfl⟩
abbrev main_v5 : Ref sig .tc := ⟨.hbm, 14, rfl⟩
abbrev main_v6 : Ref sig .tc := ⟨.hbm, 15, rfl⟩
abbrev main_cst : Ref sig .tc := ⟨.hbm, 16, rfl⟩
abbrev main_v7 : Ref sig .tc := ⟨.hbm, 17, rfl⟩
abbrev main_v8 : Ref sig .tc := ⟨.hbm, 18, rfl⟩
abbrev main_cst_0 : Ref sig .tc := ⟨.hbm, 19, rfl⟩
abbrev main_v9 : Ref sig .tc := ⟨.hbm, 20, rfl⟩
abbrev main_v10 : Ref sig .tc := ⟨.hbm, 21, rfl⟩
abbrev main_v11 : Ref sig .tc := ⟨.hbm, 22, rfl⟩
abbrev main_cst_1 : Ref sig .tc := ⟨.hbm, 23, rfl⟩
abbrev main_v12 : Ref sig .tc := ⟨.hbm, 24, rfl⟩
abbrev main_v13 : Ref sig .tc := ⟨.hbm, 25, rfl⟩
abbrev main_v14 : Ref sig .tc := ⟨.hbm, 26, rfl⟩
abbrev main_cst_2 : Ref sig .tc := ⟨.hbm, 27, rfl⟩
abbrev main_call0_v0 : Ref sig .tc := ⟨.hbm, 28, rfl⟩
abbrev main_call0_v1 : Ref sig .tc := ⟨.hbm, 29, rfl⟩
abbrev main_v15 : Ref sig .tc := ⟨.hbm, 30, rfl⟩
abbrev main_c : Ref sig .tc := ⟨.hbm, 31, rfl⟩
abbrev main_v16 : Ref sig .tc := ⟨.hbm, 32, rfl⟩
abbrev main_v17 : Ref sig .tc := ⟨.hbm, 33, rfl⟩
abbrev main_c_3 : Ref sig .tc := ⟨.hbm, 34, rfl⟩
abbrev main_v18 : Ref sig .tc := ⟨.hbm, 35, rfl⟩
abbrev main_v19 : Ref sig .tc := ⟨.hbm, 36, rfl⟩
abbrev main_v20 : Ref sig .tc := ⟨.hbm, 37, rfl⟩
abbrev main_v21 : Ref sig .tc := ⟨.hbm, 38, rfl⟩
abbrev main_v22 : Ref sig .tc := ⟨.hbm, 39, rfl⟩
abbrev main_v23 : Ref sig .tc := ⟨.hbm, 40, rfl⟩
abbrev main_c_4 : Ref sig .tc := ⟨.hbm, 41, rfl⟩
abbrev main_v24 : Ref sig .tc := ⟨.hbm, 42, rfl⟩
abbrev main_v25 : Ref sig .tc := ⟨.hbm, 43, rfl⟩
abbrev main_c_5 : Ref sig .tc := ⟨.hbm, 44, rfl⟩
abbrev main_v26 : Ref sig .tc := ⟨.hbm, 45, rfl⟩
abbrev main_v27 : Ref sig .tc := ⟨.hbm, 46, rfl⟩
abbrev main_v28 : Ref sig .tc := ⟨.hbm, 47, rfl⟩
abbrev main_v29 : Ref sig .tc := ⟨.hbm, 48, rfl⟩
abbrev main_v30 : Ref sig .tc := ⟨.hbm, 49, rfl⟩
abbrev main_v31 : Ref sig .tc := ⟨.hbm, 50, rfl⟩
abbrev main_cst_6 : Ref sig .tc := ⟨.hbm, 51, rfl⟩
abbrev main_v32 : Ref sig .tc := ⟨.hbm, 52, rfl⟩
abbrev main_c_7 : Ref sig .tc := ⟨.hbm, 53, rfl⟩
abbrev main_v33 : Ref sig .tc := ⟨.hbm, 54, rfl⟩
abbrev main_v34 : Ref sig .tc := ⟨.hbm, 55, rfl⟩
abbrev main_c_8 : Ref sig .tc := ⟨.hbm, 56, rfl⟩
abbrev main_v35 : Ref sig .tc := ⟨.hbm, 57, rfl⟩
abbrev main_v36 : Ref sig .tc := ⟨.hbm, 58, rfl⟩
abbrev main_v37 : Ref sig .tc := ⟨.hbm, 59, rfl⟩
abbrev main_c_9 : Ref sig .tc := ⟨.hbm, 60, rfl⟩
abbrev main_v38 : Ref sig .tc := ⟨.hbm, 61, rfl⟩
abbrev main_v39 : Ref sig .tc := ⟨.hbm, 62, rfl⟩
abbrev main_c_10 : Ref sig .tc := ⟨.hbm, 63, rfl⟩
abbrev main_v40 : Ref sig .tc := ⟨.hbm, 64, rfl⟩
abbrev main_v41 : Ref sig .tc := ⟨.hbm, 65, rfl⟩
abbrev main_v42 : Ref sig .tc := ⟨.hbm, 66, rfl⟩
abbrev main_v43 : Ref sig .tc := ⟨.hbm, 67, rfl⟩
abbrev main_v44 : Ref sig .tc := ⟨.hbm, 68, rfl⟩
abbrev main_v45 : Ref sig .tc := ⟨.hbm, 69, rfl⟩
abbrev main_v46 : Ref sig .tc := ⟨.hbm, 70, rfl⟩
abbrev main_v47 : Ref sig .tc := ⟨.hbm, 71, rfl⟩
abbrev main_c_11 : Ref sig .tc := ⟨.hbm, 72, rfl⟩
abbrev main_call1_v0 : Ref sig .tc := ⟨.hbm, 73, rfl⟩
abbrev main_v48 : Ref sig .tc := ⟨.hbm, 74, rfl⟩
abbrev main_v49 : Ref sig .tc := ⟨.hbm, 75, rfl⟩
abbrev main_c_12 : Ref sig .tc := ⟨.hbm, 76, rfl⟩
abbrev main_call2_v0 : Ref sig .tc := ⟨.hbm, 77, rfl⟩
abbrev main_v50 : Ref sig .tc := ⟨.hbm, 78, rfl⟩
abbrev main_v51 : Ref sig .tc := ⟨.hbm, 79, rfl⟩
abbrev main_c_13 : Ref sig .tc := ⟨.hbm, 80, rfl⟩
abbrev main_call3_v0 : Ref sig .tc := ⟨.hbm, 81, rfl⟩
abbrev main_v52 : Ref sig .tc := ⟨.hbm, 82, rfl⟩
abbrev main_c_14 : Ref sig .tc := ⟨.hbm, 83, rfl⟩
abbrev main_call4_v0 : Ref sig .tc := ⟨.hbm, 84, rfl⟩
abbrev main_v53 : Ref sig .tc := ⟨.hbm, 85, rfl⟩
abbrev main_v54 : Ref sig .tc := ⟨.hbm, 86, rfl⟩
abbrev main_c_15 : Ref sig .tc := ⟨.hbm, 87, rfl⟩
abbrev main_call5_v0 : Ref sig .tc := ⟨.hbm, 88, rfl⟩
abbrev main_v55 : Ref sig .tc := ⟨.hbm, 89, rfl⟩
abbrev main_c_16 : Ref sig .tc := ⟨.hbm, 90, rfl⟩
abbrev main_call6_v0 : Ref sig .tc := ⟨.hbm, 91, rfl⟩
abbrev main_v56 : Ref sig .tc := ⟨.hbm, 92, rfl⟩
abbrev main_v57 : Ref sig .tc := ⟨.hbm, 93, rfl⟩
abbrev main_cst_17 : Ref sig .tc := ⟨.hbm, 94, rfl⟩
abbrev main_v58 : Ref sig .tc := ⟨.hbm, 95, rfl⟩
abbrev main_v59 : Ref sig .tc := ⟨.hbm, 96, rfl⟩
abbrev main_v60 : Ref sig .tc := ⟨.hbm, 97, rfl⟩
abbrev main_v61 : Ref sig .tc := ⟨.hbm, 98, rfl⟩
abbrev main_v62 : Ref sig .tc := ⟨.hbm, 99, rfl⟩
abbrev main_v63 : Ref sig .tc := ⟨.hbm, 100, rfl⟩
abbrev main_v64 : Ref sig .tc := ⟨.hbm, 101, rfl⟩
abbrev main_v65 : Ref sig .tc := ⟨.hbm, 102, rfl⟩
abbrev main_v66 : Ref sig .tc := ⟨.hbm, 103, rfl⟩
abbrev main_cst_18 : Ref sig .tc := ⟨.hbm, 104, rfl⟩
abbrev main_v67 : Ref sig .tc := ⟨.hbm, 105, rfl⟩
abbrev main_v68 : Ref sig .tc := ⟨.hbm, 106, rfl⟩
abbrev main_v69 : Ref sig .tc := ⟨.hbm, 107, rfl⟩
abbrev main_v70 : Ref sig .tc := ⟨.hbm, 108, rfl⟩
abbrev main_v71 : Ref sig .tc := ⟨.hbm, 109, rfl⟩
abbrev main_v72 : Ref sig .tc := ⟨.hbm, 110, rfl⟩
abbrev main_v73 : Ref sig .tc := ⟨.hbm, 111, rfl⟩
abbrev main_v74 : Ref sig .tc := ⟨.hbm, 112, rfl⟩
abbrev main_v75 : Ref sig .tc := ⟨.hbm, 113, rfl⟩
abbrev main_cst_19 : Ref sig .tc := ⟨.hbm, 114, rfl⟩
abbrev main_v76 : Ref sig .tc := ⟨.hbm, 115, rfl⟩
abbrev main_v77 : Ref sig .tc := ⟨.hbm, 116, rfl⟩
abbrev main_v78 : Ref sig .tc := ⟨.hbm, 117, rfl⟩
abbrev main_v79 : Ref sig .tc := ⟨.hbm, 118, rfl⟩
abbrev main_v80 : Ref sig .tc := ⟨.hbm, 119, rfl⟩
abbrev main_v81 : Ref sig .tc := ⟨.hbm, 120, rfl⟩
abbrev main_v82 : Ref sig .tc := ⟨.hbm, 121, rfl⟩
abbrev main_v83 : Ref sig .tc := ⟨.hbm, 122, rfl⟩
abbrev main_v84 : Ref sig .tc := ⟨.hbm, 123, rfl⟩
abbrev main_cst_20 : Ref sig .tc := ⟨.hbm, 124, rfl⟩
abbrev main_v85 : Ref sig .tc := ⟨.hbm, 125, rfl⟩
abbrev main_v86 : Ref sig .tc := ⟨.hbm, 126, rfl⟩
abbrev main_v87 : Ref sig .tc := ⟨.hbm, 127, rfl⟩
abbrev main_v88 : Ref sig .tc := ⟨.hbm, 128, rfl⟩
abbrev main_v89 : Ref sig .tc := ⟨.hbm, 129, rfl⟩
abbrev main_v90 : Ref sig .tc := ⟨.hbm, 130, rfl⟩
abbrev main_v91 : Ref sig .tc := ⟨.hbm, 131, rfl⟩
abbrev main_v92 : Ref sig .tc := ⟨.hbm, 132, rfl⟩
abbrev main_v93 : Ref sig .tc := ⟨.hbm, 133, rfl⟩
abbrev main_cst_21 : Ref sig .tc := ⟨.hbm, 134, rfl⟩
abbrev main_v94 : Ref sig .tc := ⟨.hbm, 135, rfl⟩
abbrev main_v95 : Ref sig .tc := ⟨.hbm, 136, rfl⟩
abbrev main_v96 : Ref sig .tc := ⟨.hbm, 137, rfl⟩
abbrev main_v97 : Ref sig .tc := ⟨.hbm, 138, rfl⟩
abbrev main_v98 : Ref sig .tc := ⟨.hbm, 139, rfl⟩
abbrev main_v99 : Ref sig .tc := ⟨.hbm, 140, rfl⟩
abbrev main_v100 : Ref sig .tc := ⟨.hbm, 141, rfl⟩
abbrev main_v101 : Ref sig .tc := ⟨.hbm, 142, rfl⟩
abbrev main_v102 : Ref sig .tc := ⟨.hbm, 143, rfl⟩
abbrev main_cst_22 : Ref sig .tc := ⟨.hbm, 144, rfl⟩
abbrev main_v103 : Ref sig .tc := ⟨.hbm, 145, rfl⟩
abbrev main_v104 : Ref sig .tc := ⟨.hbm, 146, rfl⟩
abbrev main_v105 : Ref sig .tc := ⟨.hbm, 147, rfl⟩
abbrev main_v106 : Ref sig .tc := ⟨.hbm, 148, rfl⟩
abbrev main_v107 : Ref sig .tc := ⟨.hbm, 149, rfl⟩
abbrev main_cst_23 : Ref sig .tc := ⟨.hbm, 150, rfl⟩
abbrev main_v108 : Ref sig .tc := ⟨.hbm, 151, rfl⟩
abbrev main_v109 : Ref sig .tc := ⟨.hbm, 152, rfl⟩
abbrev main_v110 : Ref sig .tc := ⟨.hbm, 153, rfl⟩
abbrev main_v111 : Ref sig .tc := ⟨.hbm, 154, rfl⟩
abbrev main_v112 : Ref sig .tc := ⟨.hbm, 155, rfl⟩
abbrev main_v113 : Ref sig .tc := ⟨.hbm, 156, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg3_1 : Ref sig .tc := ⟨.vmem, 5, rfl⟩
abbrev cc0_scratch0 : Ref sig .tc := ⟨.vmem, 6, rfl⟩
abbrev cc1_stg0_0 : Ref sig .tc := ⟨.vmem, 7, rfl⟩
abbrev cc1_stg0_1 : Ref sig .tc := ⟨.vmem, 8, rfl⟩
abbrev cc1_stg1_0 : Ref sig .tc := ⟨.vmem, 9, rfl⟩
abbrev cc1_stg2_0 : Ref sig .tc := ⟨.vmem, 10, rfl⟩
abbrev cc1_stg3_0 : Ref sig .tc := ⟨.vmem, 11, rfl⟩
abbrev cc1_stg3_1 : Ref sig .tc := ⟨.vmem, 12, rfl⟩
abbrev cc2_stg0_0 : Ref sig .tc := ⟨.vmem, 13, rfl⟩
abbrev cc2_stg0_1 : Ref sig .tc := ⟨.vmem, 14, rfl⟩
abbrev cc2_stg1_0 : Ref sig .tc := ⟨.vmem, 15, rfl⟩
abbrev cc2_stg2_0 : Ref sig .tc := ⟨.vmem, 16, rfl⟩
abbrev cc2_stg3_0 : Ref sig .tc := ⟨.vmem, 17, rfl⟩
abbrev cc2_stg3_1 : Ref sig .tc := ⟨.vmem, 18, rfl⟩
abbrev cc3_stg0_0 : Ref sig .tc := ⟨.vmem, 19, rfl⟩
abbrev cc3_stg0_1 : Ref sig .tc := ⟨.vmem, 20, rfl⟩
abbrev cc3_stg1_0 : Ref sig .tc := ⟨.vmem, 21, rfl⟩
abbrev cc3_stg2_0 : Ref sig .tc := ⟨.vmem, 22, rfl⟩
abbrev cc3_stg3_0 : Ref sig .tc := ⟨.vmem, 23, rfl⟩
abbrev cc3_stg3_1 : Ref sig .tc := ⟨.vmem, 24, rfl⟩
abbrev cc3_scratch0 : Ref sig .tc := ⟨.vmem, 25, rfl⟩
abbrev cc4_stg0_0 : Ref sig .tc := ⟨.vmem, 26, rfl⟩
abbrev cc4_stg0_1 : Ref sig .tc := ⟨.vmem, 27, rfl⟩
abbrev cc4_stg1_0 : Ref sig .tc := ⟨.vmem, 28, rfl⟩
abbrev cc4_stg2_0 : Ref sig .tc := ⟨.vmem, 29, rfl⟩
abbrev cc4_stg3_0 : Ref sig .tc := ⟨.vmem, 30, rfl⟩
abbrev cc4_stg3_1 : Ref sig .tc := ⟨.vmem, 31, rfl⟩
abbrev cc5_stg0_0 : Ref sig .tc := ⟨.vmem, 32, rfl⟩
abbrev cc5_stg0_1 : Ref sig .tc := ⟨.vmem, 33, rfl⟩
abbrev cc5_stg1_0 : Ref sig .tc := ⟨.vmem, 34, rfl⟩
abbrev cc5_stg2_0 : Ref sig .tc := ⟨.vmem, 35, rfl⟩
abbrev cc5_stg3_0 : Ref sig .tc := ⟨.vmem, 36, rfl⟩
abbrev cc5_stg3_1 : Ref sig .tc := ⟨.vmem, 37, rfl⟩
abbrev cc5_scratch0 : Ref sig .tc := ⟨.vmem, 38, rfl⟩
abbrev cc6_stg0_0 : Ref sig .tc := ⟨.vmem, 39, rfl⟩
abbrev cc6_stg0_1 : Ref sig .tc := ⟨.vmem, 40, rfl⟩
abbrev cc6_stg1_0 : Ref sig .tc := ⟨.vmem, 41, rfl⟩
abbrev cc6_stg2_0 : Ref sig .tc := ⟨.vmem, 42, rfl⟩
abbrev cc6_stg3_0 : Ref sig .tc := ⟨.vmem, 43, rfl⟩
abbrev cc6_stg3_1 : Ref sig .tc := ⟨.vmem, 44, rfl⟩
abbrev cc7_stg0_0 : Ref sig .tc := ⟨.vmem, 45, rfl⟩
abbrev cc7_stg0_1 : Ref sig .tc := ⟨.vmem, 46, rfl⟩
abbrev cc7_stg1_0 : Ref sig .tc := ⟨.vmem, 47, rfl⟩
abbrev cc7_stg2_0 : Ref sig .tc := ⟨.vmem, 48, rfl⟩
abbrev cc7_stg3_0 : Ref sig .tc := ⟨.vmem, 49, rfl⟩
abbrev cc7_stg3_1 : Ref sig .tc := ⟨.vmem, 50, rfl⟩
abbrev cc7_scratch0 : Ref sig .tc := ⟨.vmem, 51, rfl⟩
abbrev cc8_stg0_0 : Ref sig .tc := ⟨.vmem, 52, rfl⟩
abbrev cc8_stg0_1 : Ref sig .tc := ⟨.vmem, 53, rfl⟩
abbrev cc8_stg1_0 : Ref sig .tc := ⟨.vmem, 54, rfl⟩
abbrev cc8_stg2_0 : Ref sig .tc := ⟨.vmem, 55, rfl⟩
abbrev cc8_stg3_0 : Ref sig .tc := ⟨.vmem, 56, rfl⟩
abbrev cc8_stg3_1 : Ref sig .tc := ⟨.vmem, 57, rfl⟩
abbrev cc9_stg0_0 : Ref sig .tc := ⟨.vmem, 58, rfl⟩
abbrev cc9_stg0_1 : Ref sig .tc := ⟨.vmem, 59, rfl⟩
abbrev cc9_stg1_0 : Ref sig .tc := ⟨.vmem, 60, rfl⟩
abbrev cc9_stg2_0 : Ref sig .tc := ⟨.vmem, 61, rfl⟩
abbrev cc9_stg3_0 : Ref sig .tc := ⟨.vmem, 62, rfl⟩
abbrev cc9_stg3_1 : Ref sig .tc := ⟨.vmem, 63, rfl⟩
abbrev cc9_scratch0 : Ref sig .tc := ⟨.vmem, 64, rfl⟩
abbrev cc10_stg0_0 : Ref sig .tc := ⟨.vmem, 65, rfl⟩
abbrev cc10_stg0_1 : Ref sig .tc := ⟨.vmem, 66, rfl⟩
abbrev cc10_stg1_0 : Ref sig .tc := ⟨.vmem, 67, rfl⟩
abbrev cc10_stg2_0 : Ref sig .tc := ⟨.vmem, 68, rfl⟩
abbrev cc10_stg3_0 : Ref sig .tc := ⟨.vmem, 69, rfl⟩
abbrev cc10_stg3_1 : Ref sig .tc := ⟨.vmem, 70, rfl⟩
abbrev cc11_stg0_0 : Ref sig .tc := ⟨.vmem, 71, rfl⟩
abbrev cc11_stg0_1 : Ref sig .tc := ⟨.vmem, 72, rfl⟩
abbrev cc11_stg1_0 : Ref sig .tc := ⟨.vmem, 73, rfl⟩
abbrev cc11_stg2_0 : Ref sig .tc := ⟨.vmem, 74, rfl⟩
abbrev cc11_stg3_0 : Ref sig .tc := ⟨.vmem, 75, rfl⟩
abbrev cc11_stg3_1 : Ref sig .tc := ⟨.vmem, 76, rfl⟩
abbrev cc11_scratch0 : Ref sig .tc := ⟨.vmem, 77, rfl⟩
abbrev cc12_stg0_0 : Ref sig .tc := ⟨.vmem, 78, rfl⟩
abbrev cc12_stg0_1 : Ref sig .tc := ⟨.vmem, 79, rfl⟩
abbrev cc12_stg1_0 : Ref sig .tc := ⟨.vmem, 80, rfl⟩
abbrev cc12_stg2_0 : Ref sig .tc := ⟨.vmem, 81, rfl⟩
abbrev cc12_stg3_0 : Ref sig .tc := ⟨.vmem, 82, rfl⟩
abbrev cc12_stg3_1 : Ref sig .tc := ⟨.vmem, 83, rfl⟩
abbrev cc13_stg0_0 : Ref sig .tc := ⟨.vmem, 84, rfl⟩
abbrev cc13_stg0_1 : Ref sig .tc := ⟨.vmem, 85, rfl⟩
abbrev cc13_stg1_0 : Ref sig .tc := ⟨.vmem, 86, rfl⟩
abbrev cc13_stg2_0 : Ref sig .tc := ⟨.vmem, 87, rfl⟩
abbrev cc13_stg3_0 : Ref sig .tc := ⟨.vmem, 88, rfl⟩
abbrev cc13_stg3_1 : Ref sig .tc := ⟨.vmem, 89, rfl⟩
abbrev cc13_scratch0 : Ref sig .tc := ⟨.vmem, 90, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem3_1 : DmaSem sig := 5
abbrev cc1_sem0_0 : DmaSem sig := 6
abbrev cc1_sem0_1 : DmaSem sig := 7
abbrev cc1_sem1_0 : DmaSem sig := 8
abbrev cc1_sem2_0 : DmaSem sig := 9
abbrev cc1_sem3_0 : DmaSem sig := 10
abbrev cc1_sem3_1 : DmaSem sig := 11
abbrev cc2_sem0_0 : DmaSem sig := 12
abbrev cc2_sem0_1 : DmaSem sig := 13
abbrev cc2_sem1_0 : DmaSem sig := 14
abbrev cc2_sem2_0 : DmaSem sig := 15
abbrev cc2_sem3_0 : DmaSem sig := 16
abbrev cc2_sem3_1 : DmaSem sig := 17
abbrev cc3_sem0_0 : DmaSem sig := 18
abbrev cc3_sem0_1 : DmaSem sig := 19
abbrev cc3_sem1_0 : DmaSem sig := 20
abbrev cc3_sem2_0 : DmaSem sig := 21
abbrev cc3_sem3_0 : DmaSem sig := 22
abbrev cc3_sem3_1 : DmaSem sig := 23
abbrev cc4_sem0_0 : DmaSem sig := 24
abbrev cc4_sem0_1 : DmaSem sig := 25
abbrev cc4_sem1_0 : DmaSem sig := 26
abbrev cc4_sem2_0 : DmaSem sig := 27
abbrev cc4_sem3_0 : DmaSem sig := 28
abbrev cc4_sem3_1 : DmaSem sig := 29
abbrev cc5_sem0_0 : DmaSem sig := 30
abbrev cc5_sem0_1 : DmaSem sig := 31
abbrev cc5_sem1_0 : DmaSem sig := 32
abbrev cc5_sem2_0 : DmaSem sig := 33
abbrev cc5_sem3_0 : DmaSem sig := 34
abbrev cc5_sem3_1 : DmaSem sig := 35
abbrev cc6_sem0_0 : DmaSem sig := 36
abbrev cc6_sem0_1 : DmaSem sig := 37
abbrev cc6_sem1_0 : DmaSem sig := 38
abbrev cc6_sem2_0 : DmaSem sig := 39
abbrev cc6_sem3_0 : DmaSem sig := 40
abbrev cc6_sem3_1 : DmaSem sig := 41
abbrev cc7_sem0_0 : DmaSem sig := 42
abbrev cc7_sem0_1 : DmaSem sig := 43
abbrev cc7_sem1_0 : DmaSem sig := 44
abbrev cc7_sem2_0 : DmaSem sig := 45
abbrev cc7_sem3_0 : DmaSem sig := 46
abbrev cc7_sem3_1 : DmaSem sig := 47
abbrev cc8_sem0_0 : DmaSem sig := 48
abbrev cc8_sem0_1 : DmaSem sig := 49
abbrev cc8_sem1_0 : DmaSem sig := 50
abbrev cc8_sem2_0 : DmaSem sig := 51
abbrev cc8_sem3_0 : DmaSem sig := 52
abbrev cc8_sem3_1 : DmaSem sig := 53
abbrev cc9_sem0_0 : DmaSem sig := 54
abbrev cc9_sem0_1 : DmaSem sig := 55
abbrev cc9_sem1_0 : DmaSem sig := 56
abbrev cc9_sem2_0 : DmaSem sig := 57
abbrev cc9_sem3_0 : DmaSem sig := 58
abbrev cc9_sem3_1 : DmaSem sig := 59
abbrev cc10_sem0_0 : DmaSem sig := 60
abbrev cc10_sem0_1 : DmaSem sig := 61
abbrev cc10_sem1_0 : DmaSem sig := 62
abbrev cc10_sem2_0 : DmaSem sig := 63
abbrev cc10_sem3_0 : DmaSem sig := 64
abbrev cc10_sem3_1 : DmaSem sig := 65
abbrev cc11_sem0_0 : DmaSem sig := 66
abbrev cc11_sem0_1 : DmaSem sig := 67
abbrev cc11_sem1_0 : DmaSem sig := 68
abbrev cc11_sem2_0 : DmaSem sig := 69
abbrev cc11_sem3_0 : DmaSem sig := 70
abbrev cc11_sem3_1 : DmaSem sig := 71
abbrev cc12_sem0_0 : DmaSem sig := 72
abbrev cc12_sem0_1 : DmaSem sig := 73
abbrev cc12_sem1_0 : DmaSem sig := 74
abbrev cc12_sem2_0 : DmaSem sig := 75
abbrev cc12_sem3_0 : DmaSem sig := 76
abbrev cc12_sem3_1 : DmaSem sig := 77
abbrev cc13_sem0_0 : DmaSem sig := 78
abbrev cc13_sem0_1 : DmaSem sig := 79
abbrev cc13_sem1_0 : DmaSem sig := 80
abbrev cc13_sem2_0 : DmaSem sig := 81
abbrev cc13_sem3_0 : DmaSem sig := 82
abbrev cc13_sem3_1 : DmaSem sig := 83

abbrev nD : Nat := 1
abbrev τ : Topo := Topo.v7x

variable {F : FTy → Type} [FloatOps F]

abbrev grid0 : Pipeline.Grid := ⟨2, ![20, 10], ![false, false]⟩

def k0_mult1 (i : grid0.Coords) : BitVec 32 :=
  let arg1 : BitVec 32 := BitVec.ofNat 32 (i 1).val
  let c1024_i32 : BitVec 32 := 1024#32
  let v3 : BitVec 32 := Scalar.muli arg1 c1024_i32
  v3
def k0_off1 (i : grid0.Coords) : Fin 2 → Nat :=
  let arg1 : BitVec 32 := BitVec.ofNat 32 (i 1).val
  let c1024_i32 : BitVec 32 := 1024#32
  let v3 : BitVec 32 := Scalar.muli arg1 c1024_i32
  let v4 : BitVec 32 := v3
  let v5 : Index := Scalar.indexCast v4
  let c0 : Index := 0#32
  ![v5.toNat, 0]
def k0_cond2 (i : grid0.Coords) : BitVec 1 :=
  let arg1 : BitVec 32 := BitVec.ofNat 32 (i 1).val
  let c9_i32 : BitVec 32 := 9#32
  let v16 : BitVec 1 := Scalar.cmpi .eq arg1 c9_i32
  let v17 : BitVec 32 := Scalar.extui v16
  let c0_i32_7 : BitVec 32 := 0#32
  let v18 : BitVec 1 := Scalar.cmpi .ne v17 c0_i32_7
  v18

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

abbrev stage0_0 : Fin 2 → Memref sig .tc .vmem S512x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 1 → Memref sig .tc .vmem S10240x128 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false, false]

abbrev stage0_2 : Fin 1 → Memref sig .tc .vmem S1x128 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false, false]

abbrev stage0_3 : Fin 2 → Memref sig .tc .vmem S512x128 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, false]

abbrev grid1 : Pipeline.Grid := ⟨1, ![10], ![false]⟩

def cc1_transform_0 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_1 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_2 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_3 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage1_0 : Fin 2 → Memref sig .tc .vmem S1024x128 .bf16 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true]

abbrev stage1_1 : Fin 1 → Memref sig .tc .vmem S128x1024 .bf16 := fun | 0 => Memref.whole cc1_stg1_0 | ⟨_ + 1, h⟩ => absurd h (Nat.not_lt.2 (Nat.le_add_left _ _))
abbrev sem1_1 : Fin 1 → DmaSem sig := fun | 0 => cc1_sem1_0 | ⟨_ + 1, h⟩ => absurd h (Nat.not_lt.2 (Nat.le_add_left _ _))
abbrev reads1_1 : Fin grid1.rank → Bool := ![false]

abbrev stage1_2 : Fin 1 → Memref sig .tc .vmem S1x1024 .f32 := fun | 0 => Memref.whole cc1_stg2_0 | ⟨_ + 1, h⟩ => absurd h (Nat.not_lt.2 (Nat.le_add_left _ _))
abbrev sem1_2 : Fin 1 → DmaSem sig := fun | 0 => cc1_sem2_0 | ⟨_ + 1, h⟩ => absurd h (Nat.not_lt.2 (Nat.le_add_left _ _))
abbrev reads1_2 : Fin grid1.rank → Bool := ![false]

abbrev stage1_3 : Fin 2 → Memref sig .tc .vmem S1024x1024 .bf16 := fun | 0 => Memref.whole cc1_stg3_0 | 1 => Memref.whole cc1_stg3_1 | ⟨_ + 2, h⟩ => absurd h (Nat.not_lt.2 (Nat.le_add_left _ _))
abbrev sem1_3 : Fin 2 → DmaSem sig := fun | 0 => cc1_sem3_0 | 1 => cc1_sem3_1 | ⟨_ + 2, h⟩ => absurd h (Nat.not_lt.2 (Nat.le_add_left _ _))
abbrev reads1_3 : Fin grid1.rank → Bool := ![true]

abbrev grid2 : Pipeline.Grid := ⟨1, ![10], ![false]⟩

def cc2_transform_0 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

def cc2_transform_1 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_2 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_3 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage2_0 : Fin 2 → Memref sig .tc .vmem S1024x1024 .bf16 := fun | 0 => Memref.whole cc2_stg0_0 | 1 => Memref.whole cc2_stg0_1 | ⟨_ + 2, h⟩ => absurd h (Nat.not_lt.2 (Nat.le_add_left _ _))
abbrev sem2_0 : Fin 2 → DmaSem sig := fun | 0 => cc2_sem0_0 | 1 => cc2_sem0_1 | ⟨_ + 2, h⟩ => absurd h (Nat.not_lt.2 (Nat.le_add_left _ _))
abbrev reads2_0 : Fin grid2.rank → Bool := ![true]

abbrev stage2_1 : Fin 1 → Memref sig .tc .vmem S1024x1024 .bf16 := fun | 0 => Memref.whole cc2_stg1_0 | ⟨_ + 1, h⟩ => absurd h (Nat.not_lt.2 (Nat.le_add_left _ _))
abbrev sem2_1 : Fin 1 → DmaSem sig := fun | 0 => cc2_sem1_0 | ⟨_ + 1, h⟩ => absurd h (Nat.not_lt.2 (Nat.le_add_left _ _))
abbrev reads2_1 : Fin grid2.rank → Bool := ![false]

abbrev stage2_2 : Fin 1 → Memref sig .tc .vmem S1x1024 .f32 := fun | 0 => Memref.whole cc2_stg2_0 | ⟨_ + 1, h⟩ => absurd h (Nat.not_lt.2 (Nat.le_add_left _ _))
abbrev sem2_2 : Fin 1 → DmaSem sig := fun | 0 => cc2_sem2_0 | ⟨_ + 1, h⟩ => absurd h (Nat.not_lt.2 (Nat.le_add_left _ _))
abbrev reads2_2 : Fin grid2.rank → Bool := ![false]

abbrev stage2_3 : Fin 2 → Memref sig .tc .vmem S1024x1024 .bf16 := fun | 0 => Memref.whole cc2_stg3_0 | 1 => Memref.whole cc2_stg3_1 | ⟨_ + 2, h⟩ => absurd h (Nat.not_lt.2 (Nat.le_add_left _ _))
abbrev sem2_3 : Fin 2 → DmaSem sig := fun | 0 => cc2_sem3_0 | 1 => cc2_sem3_1 | ⟨_ + 2, h⟩ => absurd h (Nat.not_lt.2 (Nat.le_add_left _ _))
abbrev reads2_3 : Fin grid2.rank → Bool := ![true]

abbrev grid3 : Pipeline.Grid := ⟨2, ![20, 10], ![false, false]⟩

def k3_mult1 (i : grid3.Coords) : BitVec 32 :=
  let arg1 : BitVec 32 := BitVec.ofNat 32 (i 1).val
  let c1024_i32 : BitVec 32 := 1024#32
  let v3 : BitVec 32 := Scalar.muli arg1 c1024_i32
  v3
def k3_off1 (i : grid3.Coords) : Fin 2 → Nat :=
  let arg1 : BitVec 32 := BitVec.ofNat 32 (i 1).val
  let c1024_i32 : BitVec 32 := 1024#32
  let v3 : BitVec 32 := Scalar.muli arg1 c1024_i32
  let v4 : BitVec 32 := v3
  let v5 : Index := Scalar.indexCast v4
  let c0 : Index := 0#32
  ![v5.toNat, 0]
def k3_cond2 (i : grid3.Coords) : BitVec 1 :=
  let arg1 : BitVec 32 := BitVec.ofNat 32 (i 1).val
  let c9_i32 : BitVec 32 := 9#32
  let v16 : BitVec 1 := Scalar.cmpi .eq arg1 c9_i32
  let v17 : BitVec 32 := Scalar.extui v16
  let c0_i32_7 : BitVec 32 := 0#32
  let v18 : BitVec 1 := Scalar.cmpi .ne v17 c0_i32_7
  v18

def cc3_transform_0 (i : grid3.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

def cc3_transform_1 (i : grid3.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc3_transform_2 (i : grid3.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc3_transform_3 (i : grid3.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

abbrev stage3_0 : Fin 2 → Memref sig .tc .vmem S512x1024 .bf16 := fun | 0 => Memref.whole cc3_stg0_0 | 1 => Memref.whole cc3_stg0_1 | ⟨_ + 2, h⟩ => absurd h (Nat.not_lt.2 (Nat.le_add_left _ _))
abbrev sem3_0 : Fin 2 → DmaSem sig := fun | 0 => cc3_sem0_0 | 1 => cc3_sem0_1 | ⟨_ + 2, h⟩ => absurd h (Nat.not_lt.2 (Nat.le_add_left _ _))
abbrev reads3_0 : Fin grid3.rank → Bool := ![true, true]

abbrev stage3_1 : Fin 1 → Memref sig .tc .vmem S10240x1024 .bf16 := fun | 0 => Memref.whole cc3_stg1_0 | ⟨_ + 1, h⟩ => absurd h (Nat.not_lt.2 (Nat.le_add_left _ _))
abbrev sem3_1 : Fin 1 → DmaSem sig := fun | 0 => cc3_sem1_0 | ⟨_ + 1, h⟩ => absurd h (Nat.not_lt.2 (Nat.le_add_left _ _))
abbrev reads3_1 : Fin grid3.rank → Bool := ![false, false]

abbrev stage3_2 : Fin 1 → Memref sig .tc .vmem S1x1024 .f32 := fun | 0 => Memref.whole cc3_stg2_0 | ⟨_ + 1, h⟩ => absurd h (Nat.not_lt.2 (Nat.le_add_left _ _))
abbrev sem3_2 : Fin 1 → DmaSem sig := fun | 0 => cc3_sem2_0 | ⟨_ + 1, h⟩ => absurd h (Nat.not_lt.2 (Nat.le_add_left _ _))
abbrev reads3_2 : Fin grid3.rank → Bool := ![false, false]

abbrev stage3_3 : Fin 2 → Memref sig .tc .vmem S512x1024 .bf16 := fun | 0 => Memref.whole cc3_stg3_0 | 1 => Memref.whole cc3_stg3_1 | ⟨_ + 2, h⟩ => absurd h (Nat.not_lt.2 (Nat.le_add_left _ _))
abbrev sem3_3 : Fin 2 → DmaSem sig := fun | 0 => cc3_sem3_0 | 1 => cc3_sem3_1 | ⟨_ + 2, h⟩ => absurd h (Nat.not_lt.2 (Nat.le_add_left _ _))
abbrev reads3_3 : Fin grid3.rank → Bool := ![true, false]

abbrev grid4 : Pipeline.Grid := ⟨1, ![10], ![false]⟩

def cc4_transform_0 (i : grid4.Coords) : Fin 2 → Nat :=
  let arg0 : BitVec 32 := BitVec.ofNat 32 (i 0).val
  let c0_i32 : BitVec 32 := 0#32
  let c0_i32_0 : BitVec 32 := 0#32
  ![arg0.toNat, c0_i32.toNat]

def cc4_transform_1 (i : grid4.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc4_transform_2 (i : grid4.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc4_transform_3 (i : grid4.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage4_0 : Fin 2 → Memref sig .tc .vmem S1024x1024 .bf16 := fun | 0 => Memref.whole cc4_stg0_0 | 1 => Memref.whole cc4_stg0_1 | ⟨_ + 2, h⟩ => absurd h (Nat.not_lt.2 (Nat.le_add_left _ _))
abbrev sem4_0 : Fin 2 → DmaSem sig := fun | 0 => cc4_sem0_0 | 1 => cc4_sem0_1 | ⟨_ + 2, h⟩ => absurd h (Nat.not_lt.2 (Nat.le_add_left _ _))
abbrev reads4_0 : Fin grid4.rank → Bool := ![true]

abbrev stage4_1 : Fin 1 → Memref sig .tc .vmem S1024x1024 .bf16 := fun | 0 => Memref.whole cc4_stg1_0 | ⟨_ + 1, h⟩ => absurd h (Nat.not_lt.2 (Nat.le_add_left _ _))
abbrev sem4_1 : Fin 1 → DmaSem sig := fun | 0 => cc4_sem1_0 | ⟨_ + 1, h⟩ => absurd h (Nat.not_lt.2 (Nat.le_add_left _ _))
abbrev reads4_1 : Fin grid4.rank → Bool := ![false]

abbrev stage4_2 : Fin 1 → Memref sig .tc .vmem S1x1024 .f32 := fun | 0 => Memref.whole cc4_stg2_0 | ⟨_ + 1, h⟩ => absurd h (Nat.not_lt.2 (Nat.le_add_left _ _))
abbrev sem4_2 : Fin 1 → DmaSem sig := fun | 0 => cc4_sem2_0 | ⟨_ + 1, h⟩ => absurd h (Nat.not_lt.2 (Nat.le_add_left _ _))
abbrev reads4_2 : Fin grid4.rank → Bool := ![false]

abbrev stage4_3 : Fin 2 → Memref sig .tc .vmem S1024x1024 .bf16 := fun | 0 => Memref.whole cc4_stg3_0 | 1 => Memref.whole cc4_stg3_1 | ⟨_ + 2, h⟩ => absurd h (Nat.not_lt.2 (Nat.le_add_left _ _))
abbrev sem4_3 : Fin 2 → DmaSem sig := fun | 0 => cc4_sem3_0 | 1 => cc4_sem3_1 | ⟨_ + 2, h⟩ => absurd h (Nat.not_lt.2 (Nat.le_add_left _ _))
abbrev reads4_3 : Fin grid4.rank → Bool := ![true]

abbrev grid5 : Pipeline.Grid := ⟨2, ![20, 10], ![false, false]⟩

def k5_mult1 (i : grid5.Coords) : BitVec 32 :=
  let arg1 : BitVec 32 := BitVec.ofNat 32 (i 1).val
  let c1024_i32 : BitVec 32 := 1024#32
  let v3 : BitVec 32 := Scalar.muli arg1 c1024_i32
  v3
def k5_off1 (i : grid5.Coords) : Fin 2 → Nat :=
  let arg1 : BitVec 32 := BitVec.ofNat 32 (i 1).val
  let c1024_i32 : BitVec 32 := 1024#32
  let v3 : BitVec 32 := Scalar.muli arg1 c1024_i32
  let v4 : BitVec 32 := v3
  let v5 : Index := Scalar.indexCast v4
  let c0 : Index := 0#32
  ![v5.toNat, 0]
def k5_cond2 (i : grid5.Coords) : BitVec 1 :=
  let arg1 : BitVec 32 := BitVec.ofNat 32 (i 1).val
  let c9_i32 : BitVec 32 := 9#32
  let v16 : BitVec 1 := Scalar.cmpi .eq arg1 c9_i32
  let v17 : BitVec 32 := Scalar.extui v16
  let c0_i32_7 : BitVec 32 := 0#32
  let v18 : BitVec 1 := Scalar.cmpi .ne v17 c0_i32_7
  v18

def cc5_transform_0 (i : grid5.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

def cc5_transform_1 (i : grid5.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc5_transform_2 (i : grid5.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc5_transform_3 (i : grid5.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

abbrev stage5_0 : Fin 2 → Memref sig .tc .vmem S512x1024 .bf16 := fun | 0 => Memref.whole cc5_stg0_0 | 1 => Memref.whole cc5_stg0_1 | ⟨_ + 2, h⟩ => absurd h (Nat.not_lt.2 (Nat.le_add_left _ _))
abbrev sem5_0 : Fin 2 → DmaSem sig := fun | 0 => cc5_sem0_0 | 1 => cc5_sem0_1 | ⟨_ + 2, h⟩ => absurd h (Nat.not_lt.2 (Nat.le_add_left _ _))
abbrev reads5_0 : Fin grid5.rank → Bool := ![true, true]

abbrev stage5_1 : Fin 1 → Memref sig .tc .vmem S10240x1024 .bf16 := fun | 0 => Memref.whole cc5_stg1_0 | ⟨_ + 1, h⟩ => absurd h (Nat.not_lt.2 (Nat.le_add_left _ _))
abbrev sem5_1 : Fin 1 → DmaSem sig := fun | 0 => cc5_sem1_0 | ⟨_ + 1, h⟩ => absurd h (Nat.not_lt.2 (Nat.le_add_left _ _))
abbrev reads5_1 : Fin grid5.rank → Bool := ![false, false]

abbrev stage5_2 : Fin 1 → Memref sig .tc .vmem S1x1024 .f32 := fun | 0 => Memref.whole cc5_stg2_0 | ⟨_ + 1, h⟩ => absurd h (Nat.not_lt.2 (Nat.le_add_left _ _))
abbrev sem5_2 : Fin 1 → DmaSem sig := fun | 0 => cc5_sem2_0 | ⟨_ + 1, h⟩ => absurd h (Nat.not_lt.2 (Nat.le_add_left _ _))
abbrev reads5_2 : Fin grid5.rank → Bool := ![false, false]

abbrev stage5_3 : Fin 2 → Memref sig .tc .vmem S512x1024 .bf16 := fun | 0 => Memref.whole cc5_stg3_0 | 1 => Memref.whole cc5_stg3_1 | ⟨_ + 2, h⟩ => absurd h (Nat.not_lt.2 (Nat.le_add_left _ _))
abbrev sem5_3 : Fin 2 → DmaSem sig := fun | 0 => cc5_sem3_0 | 1 => cc5_sem3_1 | ⟨_ + 2, h⟩ => absurd h (Nat.not_lt.2 (Nat.le_add_left _ _))
abbrev reads5_3 : Fin grid5.rank → Bool := ![true, false]

abbrev grid6 : Pipeline.Grid := ⟨1, ![10], ![false]⟩

def cc6_transform_0 (i : grid6.Coords) : Fin 2 → Nat :=
  let arg0 : BitVec 32 := BitVec.ofNat 32 (i 0).val
  let c0_i32 : BitVec 32 := 0#32
  let c0_i32_0 : BitVec 32 := 0#32
  ![arg0.toNat, c0_i32.toNat]

def cc6_transform_1 (i : grid6.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc6_transform_2 (i : grid6.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc6_transform_3 (i : grid6.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage6_0 : Fin 2 → Memref sig .tc .vmem S1024x1024 .bf16 := fun | 0 => Memref.whole cc6_stg0_0 | 1 => Memref.whole cc6_stg0_1 | ⟨_ + 2, h⟩ => absurd h (Nat.not_lt.2 (Nat.le_add_left _ _))
abbrev sem6_0 : Fin 2 → DmaSem sig := fun | 0 => cc6_sem0_0 | 1 => cc6_sem0_1 | ⟨_ + 2, h⟩ => absurd h (Nat.not_lt.2 (Nat.le_add_left _ _))
abbrev reads6_0 : Fin grid6.rank → Bool := ![true]

abbrev stage6_1 : Fin 1 → Memref sig .tc .vmem S1024x1024 .bf16 := fun | 0 => Memref.whole cc6_stg1_0 | ⟨_ + 1, h⟩ => absurd h (Nat.not_lt.2 (Nat.le_add_left _ _))
abbrev sem6_1 : Fin 1 → DmaSem sig := fun | 0 => cc6_sem1_0 | ⟨_ + 1, h⟩ => absurd h (Nat.not_lt.2 (Nat.le_add_left _ _))
abbrev reads6_1 : Fin grid6.rank → Bool := ![false]

abbrev stage6_2 : Fin 1 → Memref sig .tc .vmem S1x1024 .f32 := fun | 0 => Memref.whole cc6_stg2_0 | ⟨_ + 1, h⟩ => absurd h (Nat.not_lt.2 (Nat.le_add_left _ _))
abbrev sem6_2 : Fin 1 → DmaSem sig := fun | 0 => cc6_sem2_0 | ⟨_ + 1, h⟩ => absurd h (Nat.not_lt.2 (Nat.le_add_left _ _))
abbrev reads6_2 : Fin grid6.rank → Bool := ![false]

abbrev stage6_3 : Fin 2 → Memref sig .tc .vmem S1024x1024 .bf16 := fun | 0 => Memref.whole cc6_stg3_0 | 1 => Memref.whole cc6_stg3_1 | ⟨_ + 2, h⟩ => absurd h (Nat.not_lt.2 (Nat.le_add_left _ _))
abbrev sem6_3 : Fin 2 → DmaSem sig := fun | 0 => cc6_sem3_0 | 1 => cc6_sem3_1 | ⟨_ + 2, h⟩ => absurd h (Nat.not_lt.2 (Nat.le_add_left _ _))
abbrev reads6_3 : Fin grid6.rank → Bool := ![true]

abbrev grid7 : Pipeline.Grid := ⟨2, ![20, 10], ![false, false]⟩

def k7_mult1 (i : grid7.Coords) : BitVec 32 :=
  let arg1 : BitVec 32 := BitVec.ofNat 32 (i 1).val
  let c1024_i32 : BitVec 32 := 1024#32
  let v3 : BitVec 32 := Scalar.muli arg1 c1024_i32
  v3
def k7_off1 (i : grid7.Coords) : Fin 2 → Nat :=
  let arg1 : BitVec 32 := BitVec.ofNat 32 (i 1).val
  let c1024_i32 : BitVec 32 := 1024#32
  let v3 : BitVec 32 := Scalar.muli arg1 c1024_i32
  let v4 : BitVec 32 := v3
  let v5 : Index := Scalar.indexCast v4
  let c0 : Index := 0#32
  ![v5.toNat, 0]
def k7_cond2 (i : grid7.Coords) : BitVec 1 :=
  let arg1 : BitVec 32 := BitVec.ofNat 32 (i 1).val
  let c9_i32 : BitVec 32 := 9#32
  let v16 : BitVec 1 := Scalar.cmpi .eq arg1 c9_i32
  let v17 : BitVec 32 := Scalar.extui v16
  let c0_i32_7 : BitVec 32 := 0#32
  let v18 : BitVec 1 := Scalar.cmpi .ne v17 c0_i32_7
  v18

def cc7_transform_0 (i : grid7.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

def cc7_transform_1 (i : grid7.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc7_transform_2 (i : grid7.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc7_transform_3 (i : grid7.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

abbrev stage7_0 : Fin 2 → Memref sig .tc .vmem S512x1024 .bf16 := fun | 0 => Memref.whole cc7_stg0_0 | 1 => Memref.whole cc7_stg0_1 | ⟨_ + 2, h⟩ => absurd h (Nat.not_lt.2 (Nat.le_add_left _ _))
abbrev sem7_0 : Fin 2 → DmaSem sig := fun | 0 => cc7_sem0_0 | 1 => cc7_sem0_1 | ⟨_ + 2, h⟩ => absurd h (Nat.not_lt.2 (Nat.le_add_left _ _))
abbrev reads7_0 : Fin grid7.rank → Bool := ![true, true]

abbrev stage7_1 : Fin 1 → Memref sig .tc .vmem S10240x1024 .bf16 := fun | 0 => Memref.whole cc7_stg1_0 | ⟨_ + 1, h⟩ => absurd h (Nat.not_lt.2 (Nat.le_add_left _ _))
abbrev sem7_1 : Fin 1 → DmaSem sig := fun | 0 => cc7_sem1_0 | ⟨_ + 1, h⟩ => absurd h (Nat.not_lt.2 (Nat.le_add_left _ _))
abbrev reads7_1 : Fin grid7.rank → Bool := ![false, false]

abbrev stage7_2 : Fin 1 → Memref sig .tc .vmem S1x1024 .f32 := fun | 0 => Memref.whole cc7_stg2_0 | ⟨_ + 1, h⟩ => absurd h (Nat.not_lt.2 (Nat.le_add_left _ _))
abbrev sem7_2 : Fin 1 → DmaSem sig := fun | 0 => cc7_sem2_0 | ⟨_ + 1, h⟩ => absurd h (Nat.not_lt.2 (Nat.le_add_left _ _))
abbrev reads7_2 : Fin grid7.rank → Bool := ![false, false]

abbrev stage7_3 : Fin 2 → Memref sig .tc .vmem S512x1024 .bf16 := fun | 0 => Memref.whole cc7_stg3_0 | 1 => Memref.whole cc7_stg3_1 | ⟨_ + 2, h⟩ => absurd h (Nat.not_lt.2 (Nat.le_add_left _ _))
abbrev sem7_3 : Fin 2 → DmaSem sig := fun | 0 => cc7_sem3_0 | 1 => cc7_sem3_1 | ⟨_ + 2, h⟩ => absurd h (Nat.not_lt.2 (Nat.le_add_left _ _))
abbrev reads7_3 : Fin grid7.rank → Bool := ![true, false]

abbrev grid8 : Pipeline.Grid := ⟨1, ![10], ![false]⟩

def cc8_transform_0 (i : grid8.Coords) : Fin 2 → Nat :=
  let arg0 : BitVec 32 := BitVec.ofNat 32 (i 0).val
  let c0_i32 : BitVec 32 := 0#32
  let c0_i32_0 : BitVec 32 := 0#32
  ![arg0.toNat, c0_i32.toNat]

def cc8_transform_1 (i : grid8.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc8_transform_2 (i : grid8.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc8_transform_3 (i : grid8.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage8_0 : Fin 2 → Memref sig .tc .vmem S1024x1024 .bf16 := fun | 0 => Memref.whole cc8_stg0_0 | 1 => Memref.whole cc8_stg0_1 | ⟨_ + 2, h⟩ => absurd h (Nat.not_lt.2 (Nat.le_add_left _ _))
abbrev sem8_0 : Fin 2 → DmaSem sig := fun | 0 => cc8_sem0_0 | 1 => cc8_sem0_1 | ⟨_ + 2, h⟩ => absurd h (Nat.not_lt.2 (Nat.le_add_left _ _))
abbrev reads8_0 : Fin grid8.rank → Bool := ![true]

abbrev stage8_1 : Fin 1 → Memref sig .tc .vmem S1024x1024 .bf16 := fun | 0 => Memref.whole cc8_stg1_0 | ⟨_ + 1, h⟩ => absurd h (Nat.not_lt.2 (Nat.le_add_left _ _))
abbrev sem8_1 : Fin 1 → DmaSem sig := fun | 0 => cc8_sem1_0 | ⟨_ + 1, h⟩ => absurd h (Nat.not_lt.2 (Nat.le_add_left _ _))
abbrev reads8_1 : Fin grid8.rank → Bool := ![false]

abbrev stage8_2 : Fin 1 → Memref sig .tc .vmem S1x1024 .f32 := fun | 0 => Memref.whole cc8_stg2_0 | ⟨_ + 1, h⟩ => absurd h (Nat.not_lt.2 (Nat.le_add_left _ _))
abbrev sem8_2 : Fin 1 → DmaSem sig := fun | 0 => cc8_sem2_0 | ⟨_ + 1, h⟩ => absurd h (Nat.not_lt.2 (Nat.le_add_left _ _))
abbrev reads8_2 : Fin grid8.rank → Bool := ![false]

abbrev stage8_3 : Fin 2 → Memref sig .tc .vmem S1024x1024 .bf16 := fun | 0 => Memref.whole cc8_stg3_0 | 1 => Memref.whole cc8_stg3_1 | ⟨_ + 2, h⟩ => absurd h (Nat.not_lt.2 (Nat.le_add_left _ _))
abbrev sem8_3 : Fin 2 → DmaSem sig := fun | 0 => cc8_sem3_0 | 1 => cc8_sem3_1 | ⟨_ + 2, h⟩ => absurd h (Nat.not_lt.2 (Nat.le_add_left _ _))
abbrev reads8_3 : Fin grid8.rank → Bool := ![true]

abbrev grid9 : Pipeline.Grid := ⟨2, ![20, 10], ![false, false]⟩

def k9_mult1 (i : grid9.Coords) : BitVec 32 :=
  let arg1 : BitVec 32 := BitVec.ofNat 32 (i 1).val
  let c1024_i32 : BitVec 32 := 1024#32
  let v3 : BitVec 32 := Scalar.muli arg1 c1024_i32
  v3
def k9_off1 (i : grid9.Coords) : Fin 2 → Nat :=
  let arg1 : BitVec 32 := BitVec.ofNat 32 (i 1).val
  let c1024_i32 : BitVec 32 := 1024#32
  let v3 : BitVec 32 := Scalar.muli arg1 c1024_i32
  let v4 : BitVec 32 := v3
  let v5 : Index := Scalar.indexCast v4
  let c0 : Index := 0#32
  ![v5.toNat, 0]
def k9_cond2 (i : grid9.Coords) : BitVec 1 :=
  let arg1 : BitVec 32 := BitVec.ofNat 32 (i 1).val
  let c9_i32 : BitVec 32 := 9#32
  let v16 : BitVec 1 := Scalar.cmpi .eq arg1 c9_i32
  let v17 : BitVec 32 := Scalar.extui v16
  let c0_i32_7 : BitVec 32 := 0#32
  let v18 : BitVec 1 := Scalar.cmpi .ne v17 c0_i32_7
  v18

def cc9_transform_0 (i : grid9.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

def cc9_transform_1 (i : grid9.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc9_transform_2 (i : grid9.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc9_transform_3 (i : grid9.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

abbrev stage9_0 : Fin 2 → Memref sig .tc .vmem S512x1024 .bf16 := fun | 0 => Memref.whole cc9_stg0_0 | 1 => Memref.whole cc9_stg0_1 | ⟨_ + 2, h⟩ => absurd h (Nat.not_lt.2 (Nat.le_add_left _ _))
abbrev sem9_0 : Fin 2 → DmaSem sig := fun | 0 => cc9_sem0_0 | 1 => cc9_sem0_1 | ⟨_ + 2, h⟩ => absurd h (Nat.not_lt.2 (Nat.le_add_left _ _))
abbrev reads9_0 : Fin grid9.rank → Bool := ![true, true]

abbrev stage9_1 : Fin 1 → Memref sig .tc .vmem S10240x1024 .bf16 := fun | 0 => Memref.whole cc9_stg1_0 | ⟨_ + 1, h⟩ => absurd h (Nat.not_lt.2 (Nat.le_add_left _ _))
abbrev sem9_1 : Fin 1 → DmaSem sig := fun | 0 => cc9_sem1_0 | ⟨_ + 1, h⟩ => absurd h (Nat.not_lt.2 (Nat.le_add_left _ _))
abbrev reads9_1 : Fin grid9.rank → Bool := ![false, false]

abbrev stage9_2 : Fin 1 → Memref sig .tc .vmem S1x1024 .f32 := fun | 0 => Memref.whole cc9_stg2_0 | ⟨_ + 1, h⟩ => absurd h (Nat.not_lt.2 (Nat.le_add_left _ _))
abbrev sem9_2 : Fin 1 → DmaSem sig := fun | 0 => cc9_sem2_0 | ⟨_ + 1, h⟩ => absurd h (Nat.not_lt.2 (Nat.le_add_left _ _))
abbrev reads9_2 : Fin grid9.rank → Bool := ![false, false]

abbrev stage9_3 : Fin 2 → Memref sig .tc .vmem S512x1024 .bf16 := fun | 0 => Memref.whole cc9_stg3_0 | 1 => Memref.whole cc9_stg3_1 | ⟨_ + 2, h⟩ => absurd h (Nat.not_lt.2 (Nat.le_add_left _ _))
abbrev sem9_3 : Fin 2 → DmaSem sig := fun | 0 => cc9_sem3_0 | 1 => cc9_sem3_1 | ⟨_ + 2, h⟩ => absurd h (Nat.not_lt.2 (Nat.le_add_left _ _))
abbrev reads9_3 : Fin grid9.rank → Bool := ![true, false]

abbrev grid10 : Pipeline.Grid := ⟨1, ![10], ![false]⟩

def cc10_transform_0 (i : grid10.Coords) : Fin 2 → Nat :=
  let arg0 : BitVec 32 := BitVec.ofNat 32 (i 0).val
  let c0_i32 : BitVec 32 := 0#32
  let c0_i32_0 : BitVec 32 := 0#32
  ![arg0.toNat, c0_i32.toNat]

def cc10_transform_1 (i : grid10.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc10_transform_2 (i : grid10.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc10_transform_3 (i : grid10.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage10_0 : Fin 2 → Memref sig .tc .vmem S1024x1024 .bf16 := fun | 0 => Memref.whole cc10_stg0_0 | 1 => Memref.whole cc10_stg0_1 | ⟨_ + 2, h⟩ => absurd h (Nat.not_lt.2 (Nat.le_add_left _ _))
abbrev sem10_0 : Fin 2 → DmaSem sig := fun | 0 => cc10_sem0_0 | 1 => cc10_sem0_1 | ⟨_ + 2, h⟩ => absurd h (Nat.not_lt.2 (Nat.le_add_left _ _))
abbrev reads10_0 : Fin grid10.rank → Bool := ![true]

abbrev stage10_1 : Fin 1 → Memref sig .tc .vmem S1024x1024 .bf16 := fun | 0 => Memref.whole cc10_stg1_0 | ⟨_ + 1, h⟩ => absurd h (Nat.not_lt.2 (Nat.le_add_left _ _))
abbrev sem10_1 : Fin 1 → DmaSem sig := fun | 0 => cc10_sem1_0 | ⟨_ + 1, h⟩ => absurd h (Nat.not_lt.2 (Nat.le_add_left _ _))
abbrev reads10_1 : Fin grid10.rank → Bool := ![false]

abbrev stage10_2 : Fin 1 → Memref sig .tc .vmem S1x1024 .f32 := fun | 0 => Memref.whole cc10_stg2_0 | ⟨_ + 1, h⟩ => absurd h (Nat.not_lt.2 (Nat.le_add_left _ _))
abbrev sem10_2 : Fin 1 → DmaSem sig := fun | 0 => cc10_sem2_0 | ⟨_ + 1, h⟩ => absurd h (Nat.not_lt.2 (Nat.le_add_left _ _))
abbrev reads10_2 : Fin grid10.rank → Bool := ![false]

abbrev stage10_3 : Fin 2 → Memref sig .tc .vmem S1024x1024 .bf16 := fun | 0 => Memref.whole cc10_stg3_0 | 1 => Memref.whole cc10_stg3_1 | ⟨_ + 2, h⟩ => absurd h (Nat.not_lt.2 (Nat.le_add_left _ _))
abbrev sem10_3 : Fin 2 → DmaSem sig := fun | 0 => cc10_sem3_0 | 1 => cc10_sem3_1 | ⟨_ + 2, h⟩ => absurd h (Nat.not_lt.2 (Nat.le_add_left _ _))
abbrev reads10_3 : Fin grid10.rank → Bool := ![true]

abbrev grid11 : Pipeline.Grid := ⟨2, ![20, 10], ![false, false]⟩

def k11_mult1 (i : grid11.Coords) : BitVec 32 :=
  let arg1 : BitVec 32 := BitVec.ofNat 32 (i 1).val
  let c1024_i32 : BitVec 32 := 1024#32
  let v3 : BitVec 32 := Scalar.muli arg1 c1024_i32
  v3
def k11_off1 (i : grid11.Coords) : Fin 2 → Nat :=
  let arg1 : BitVec 32 := BitVec.ofNat 32 (i 1).val
  let c1024_i32 : BitVec 32 := 1024#32
  let v3 : BitVec 32 := Scalar.muli arg1 c1024_i32
  let v4 : BitVec 32 := v3
  let v5 : Index := Scalar.indexCast v4
  let c0 : Index := 0#32
  ![v5.toNat, 0]
def k11_cond2 (i : grid11.Coords) : BitVec 1 :=
  let arg1 : BitVec 32 := BitVec.ofNat 32 (i 1).val
  let c9_i32 : BitVec 32 := 9#32
  let v16 : BitVec 1 := Scalar.cmpi .eq arg1 c9_i32
  let v17 : BitVec 32 := Scalar.extui v16
  let c0_i32_7 : BitVec 32 := 0#32
  let v18 : BitVec 1 := Scalar.cmpi .ne v17 c0_i32_7
  v18

def cc11_transform_0 (i : grid11.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

def cc11_transform_1 (i : grid11.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc11_transform_2 (i : grid11.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc11_transform_3 (i : grid11.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

abbrev stage11_0 : Fin 2 → Memref sig .tc .vmem S512x1024 .bf16 := fun | 0 => Memref.whole cc11_stg0_0 | 1 => Memref.whole cc11_stg0_1 | ⟨_ + 2, h⟩ => absurd h (Nat.not_lt.2 (Nat.le_add_left _ _))
abbrev sem11_0 : Fin 2 → DmaSem sig := fun | 0 => cc11_sem0_0 | 1 => cc11_sem0_1 | ⟨_ + 2, h⟩ => absurd h (Nat.not_lt.2 (Nat.le_add_left _ _))
abbrev reads11_0 : Fin grid11.rank → Bool := ![true, true]

abbrev stage11_1 : Fin 1 → Memref sig .tc .vmem S10240x1024 .bf16 := fun | 0 => Memref.whole cc11_stg1_0 | ⟨_ + 1, h⟩ => absurd h (Nat.not_lt.2 (Nat.le_add_left _ _))
abbrev sem11_1 : Fin 1 → DmaSem sig := fun | 0 => cc11_sem1_0 | ⟨_ + 1, h⟩ => absurd h (Nat.not_lt.2 (Nat.le_add_left _ _))
abbrev reads11_1 : Fin grid11.rank → Bool := ![false, false]

abbrev stage11_2 : Fin 1 → Memref sig .tc .vmem S1x1024 .f32 := fun | 0 => Memref.whole cc11_stg2_0 | ⟨_ + 1, h⟩ => absurd h (Nat.not_lt.2 (Nat.le_add_left _ _))
abbrev sem11_2 : Fin 1 → DmaSem sig := fun | 0 => cc11_sem2_0 | ⟨_ + 1, h⟩ => absurd h (Nat.not_lt.2 (Nat.le_add_left _ _))
abbrev reads11_2 : Fin grid11.rank → Bool := ![false, false]

abbrev stage11_3 : Fin 2 → Memref sig .tc .vmem S512x1024 .bf16 := fun | 0 => Memref.whole cc11_stg3_0 | 1 => Memref.whole cc11_stg3_1 | ⟨_ + 2, h⟩ => absurd h (Nat.not_lt.2 (Nat.le_add_left _ _))
abbrev sem11_3 : Fin 2 → DmaSem sig := fun | 0 => cc11_sem3_0 | 1 => cc11_sem3_1 | ⟨_ + 2, h⟩ => absurd h (Nat.not_lt.2 (Nat.le_add_left _ _))
abbrev reads11_3 : Fin grid11.rank → Bool := ![true, false]

abbrev grid12 : Pipeline.Grid := ⟨1, ![10], ![false]⟩

def cc12_transform_0 (i : grid12.Coords) : Fin 2 → Nat :=
  let arg0 : BitVec 32 := BitVec.ofNat 32 (i 0).val
  let c0_i32 : BitVec 32 := 0#32
  let c0_i32_0 : BitVec 32 := 0#32
  ![arg0.toNat, c0_i32.toNat]

def cc12_transform_1 (i : grid12.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc12_transform_2 (i : grid12.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc12_transform_3 (i : grid12.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage12_0 : Fin 2 → Memref sig .tc .vmem S1024x1024 .bf16 := fun | 0 => Memref.whole cc12_stg0_0 | 1 => Memref.whole cc12_stg0_1 | ⟨_ + 2, h⟩ => absurd h (Nat.not_lt.2 (Nat.le_add_left _ _))
abbrev sem12_0 : Fin 2 → DmaSem sig := fun | 0 => cc12_sem0_0 | 1 => cc12_sem0_1 | ⟨_ + 2, h⟩ => absurd h (Nat.not_lt.2 (Nat.le_add_left _ _))
abbrev reads12_0 : Fin grid12.rank → Bool := ![true]

abbrev stage12_1 : Fin 1 → Memref sig .tc .vmem S1024x256 .bf16 := fun | 0 => Memref.whole cc12_stg1_0 | ⟨_ + 1, h⟩ => absurd h (Nat.not_lt.2 (Nat.le_add_left _ _))
abbrev sem12_1 : Fin 1 → DmaSem sig := fun | 0 => cc12_sem1_0 | ⟨_ + 1, h⟩ => absurd h (Nat.not_lt.2 (Nat.le_add_left _ _))
abbrev reads12_1 : Fin grid12.rank → Bool := ![false]

abbrev stage12_2 : Fin 1 → Memref sig .tc .vmem S1x256 .f32 := fun | 0 => Memref.whole cc12_stg2_0 | ⟨_ + 1, h⟩ => absurd h (Nat.not_lt.2 (Nat.le_add_left _ _))
abbrev sem12_2 : Fin 1 → DmaSem sig := fun | 0 => cc12_sem2_0 | ⟨_ + 1, h⟩ => absurd h (Nat.not_lt.2 (Nat.le_add_left _ _))
abbrev reads12_2 : Fin grid12.rank → Bool := ![false]

abbrev stage12_3 : Fin 2 → Memref sig .tc .vmem S1024x256 .bf16 := fun | 0 => Memref.whole cc12_stg3_0 | 1 => Memref.whole cc12_stg3_1 | ⟨_ + 2, h⟩ => absurd h (Nat.not_lt.2 (Nat.le_add_left _ _))
abbrev sem12_3 : Fin 2 → DmaSem sig := fun | 0 => cc12_sem3_0 | 1 => cc12_sem3_1 | ⟨_ + 2, h⟩ => absurd h (Nat.not_lt.2 (Nat.le_add_left _ _))
abbrev reads12_3 : Fin grid12.rank → Bool := ![true]

abbrev grid13 : Pipeline.Grid := ⟨2, ![20, 10], ![false, false]⟩

def k13_mult1 (i : grid13.Coords) : BitVec 32 :=
  let arg1 : BitVec 32 := BitVec.ofNat 32 (i 1).val
  let c1024_i32 : BitVec 32 := 1024#32
  let v3 : BitVec 32 := Scalar.muli arg1 c1024_i32
  v3
def k13_off1 (i : grid13.Coords) : Fin 2 → Nat :=
  let arg1 : BitVec 32 := BitVec.ofNat 32 (i 1).val
  let c1024_i32 : BitVec 32 := 1024#32
  let v3 : BitVec 32 := Scalar.muli arg1 c1024_i32
  let v4 : BitVec 32 := v3
  let v5 : Index := Scalar.indexCast v4
  let c0 : Index := 0#32
  ![v5.toNat, 0]
def k13_cond2 (i : grid13.Coords) : BitVec 1 :=
  let arg1 : BitVec 32 := BitVec.ofNat 32 (i 1).val
  let c9_i32 : BitVec 32 := 9#32
  let v16 : BitVec 1 := Scalar.cmpi .eq arg1 c9_i32
  let v17 : BitVec 32 := Scalar.extui v16
  let c0_i32_7 : BitVec 32 := 0#32
  let v18 : BitVec 1 := Scalar.cmpi .ne v17 c0_i32_7
  v18

def cc13_transform_0 (i : grid13.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

def cc13_transform_1 (i : grid13.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc13_transform_2 (i : grid13.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc13_transform_3 (i : grid13.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

abbrev stage13_0 : Fin 2 → Memref sig .tc .vmem S512x1024 .bf16 := fun | 0 => Memref.whole cc13_stg0_0 | 1 => Memref.whole cc13_stg0_1 | ⟨_ + 2, h⟩ => absurd h (Nat.not_lt.2 (Nat.le_add_left _ _))
abbrev sem13_0 : Fin 2 → DmaSem sig := fun | 0 => cc13_sem0_0 | 1 => cc13_sem0_1 | ⟨_ + 2, h⟩ => absurd h (Nat.not_lt.2 (Nat.le_add_left _ _))
abbrev reads13_0 : Fin grid13.rank → Bool := ![true, true]

abbrev stage13_1 : Fin 1 → Memref sig .tc .vmem S10240x256 .bf16 := fun | 0 => Memref.whole cc13_stg1_0 | ⟨_ + 1, h⟩ => absurd h (Nat.not_lt.2 (Nat.le_add_left _ _))
abbrev sem13_1 : Fin 1 → DmaSem sig := fun | 0 => cc13_sem1_0 | ⟨_ + 1, h⟩ => absurd h (Nat.not_lt.2 (Nat.le_add_left _ _))
abbrev reads13_1 : Fin grid13.rank → Bool := ![false, false]

abbrev stage13_2 : Fin 1 → Memref sig .tc .vmem S1x256 .f32 := fun | 0 => Memref.whole cc13_stg2_0 | ⟨_ + 1, h⟩ => absurd h (Nat.not_lt.2 (Nat.le_add_left _ _))
abbrev sem13_2 : Fin 1 → DmaSem sig := fun | 0 => cc13_sem2_0 | ⟨_ + 1, h⟩ => absurd h (Nat.not_lt.2 (Nat.le_add_left _ _))
abbrev reads13_2 : Fin grid13.rank → Bool := ![false, false]

abbrev stage13_3 : Fin 2 → Memref sig .tc .vmem S512x256 .f32 := fun | 0 => Memref.whole cc13_stg3_0 | 1 => Memref.whole cc13_stg3_1 | ⟨_ + 2, h⟩ => absurd h (Nat.not_lt.2 (Nat.le_add_left _ _))
abbrev sem13_3 : Fin 2 → DmaSem sig := fun | 0 => cc13_sem3_0 | 1 => cc13_sem3_1 | ⟨_ + 2, h⟩ => absurd h (Nat.not_lt.2 (Nat.le_add_left _ _))
abbrev reads13_3 : Fin grid13.rank → Bool := ![true, false]

class Facts₀ : Prop where
  slices_S2x160000_S1x160000_0_0 : S2x160000.Slices ![0, 0] S1x160000
  shapeCasts_S1x160000_S160000 : S1x160000.ShapeCasts S160000
  concatenates_S160000_S10000_S170000_d0 : Shape.Concatenates [S160000, S10000] S170000 0
  slices_S2x160000_S1x160000_1_0 : S2x160000.Slices ![1, 0] S1x160000
  bcast_S_S10000 : S_.BroadcastsInDim S10000 (![] : Fin 0 → Fin S10000.rank)
  bcast_S170000_S170000x1_0 : S170000.BroadcastsInDim S170000x1 (![0] : Fin 1 → Fin S170000x1.rank)
  bcast_S_S170000 : S_.BroadcastsInDim S170000 (![] : Fin 0 → Fin S170000.rank)
  bcast_S_S10240x10240 : S_.BroadcastsInDim S10240x10240 (![] : Fin 0 → Fin S10240x10240.rank)
  concatenates_S170000x1_S170000x1_S170000x2_d1 : Shape.Concatenates [S170000x1, S170000x1] S170000x2 1
  bitsLt_bf16_f32 : FTy.bits .bf16 < FTy.bits .f32
  pads_S10000x128_S10240x128_02400_000 : S10000x128.Pads (![0, 0] : Fin 2 → Nat) ![240, 0] ![0, 0] S10240x128
  h_S_ : 0 < S_.numel
  pads_S128x1000_S128x1024_000_0240 : S128x1000.Pads (![0, 0] : Fin 2 → Nat) ![0, 24] ![0, 0] S128x1024
  pads_S1000_S1024_0240 : S1000.Pads (![0] : Fin 1 → Nat) ![24] ![0] S1024
  pads_S5x1000x1000_S5x1024x1024_000_0240_0240 : S5x1000x1000.Pads (![0, 0, 0] : Fin 3 → Nat) ![0, 24, 24] ![0, 0, 0] S5x1024x1024
  pads_S5x1000_S5x1024_000_0240 : S5x1000.Pads (![0, 0] : Fin 2 → Nat) ![0, 24] ![0, 0] S5x1024
  pads_S1000x256_S1024x256_0240_000 : S1000x256.Pads (![0, 0] : Fin 2 → Nat) ![24, 0] ![0, 0] S1024x256
  bcast_S_S128 : S_.BroadcastsInDim S128 (![] : Fin 0 → Fin S128.rank)
  shapeCasts_S128_S1x128 : S128.ShapeCasts S1x128
  inb_S512x128_S512x128_0_0 : ∀ a, (![0, 0] : Fin 2 → Nat) a + S512x128.size a ≤ S512x128.size a
  h_S512x128 : 0 < S512x128.numel
  shapeCasts_S512x128_S512x128 : S512x128.ShapeCasts S512x128
  h_S1024x128 : 0 < S1024x128.numel
  shapeCasts_S1024x128_S1024x128 : S1024x128.ShapeCasts S1024x128
  inb_S512x1024_S512x1024_0_0 : ∀ a, (![0, 0] : Fin 2 → Nat) a + S512x1024.size a ≤ S512x1024.size a
  h_S512x1024 : 0 < S512x1024.numel
  shapeCasts_S512x1024_S512x1024 : S512x1024.ShapeCasts S512x1024
  inb_S1x128_S1x128_0_0 : ∀ a, (![0, 0] : Fin 2 → Nat) a + S1x128.size a ≤ S1x128.size a
  h_S1x128 : 0 < S1x128.numel
  shapeCasts_S1x128_S1x128 : S1x128.ShapeCasts S1x128
  broadcasts_S1x128_S512x128 : S1x128.Broadcasts S512x128
  packedbf16_S512x128_S512x128_0_0 : (Rect.unit (s := S512x128) ![0, 0] S512x128.size inb_S512x128_S512x128_0_0).PackedRows (EltTy.packing .bf16)
  shapeCasts_S1024_S1x1024 : S1024.ShapeCasts S1x1024
  inb_S1024x128_S1024x128_0_0 : ∀ a, (![0, 0] : Fin 2 → Nat) a + S1024x128.size a ≤ S1024x128.size a
  inb_S128x1024_S128x1024_0_0 : ∀ a, (![0, 0] : Fin 2 → Nat) a + S128x1024.size a ≤ S128x1024.size a
  h_S128x1024 : 0 < S128x1024.numel
  shapeCasts_S128x1024_S128x1024 : S128x1024.ShapeCasts S128x1024
  inb_S1x1024_S1x1024_0_0 : ∀ a, (![0, 0] : Fin 2 → Nat) a + S1x1024.size a ≤ S1x1024.size a
  h_S1x1024 : 0 < S1x1024.numel
  shapeCasts_S1x1024_S1x1024 : S1x1024.ShapeCasts S1x1024
  broadcasts_S1x1024_S1024x1024 : S1x1024.Broadcasts S1024x1024
  inb_S1024x1024_S1024x1024_0_0 : ∀ a, (![0, 0] : Fin 2 → Nat) a + S1024x1024.size a ≤ S1024x1024.size a
  h_S1024x1024 : 0 < S1024x1024.numel
  packedbf16_S1024x1024_S1024x1024_0_0 : (Rect.unit (s := S1024x1024) ![0, 0] S1024x1024.size inb_S1024x1024_S1024x1024_0_0).PackedRows (EltTy.packing .bf16)
  slices_S5x1024x1024_S1x1024x1024_0_0_0 : S5x1024x1024.Slices ![0, 0, 0] S1x1024x1024
  shapeCasts_S1x1024x1024_S1024x1024 : S1x1024x1024.ShapeCasts S1024x1024
  slices_S5x1024_S1x1024_0_0 : S5x1024.Slices ![0, 0] S1x1024
  shapeCasts_S1x1024_S1024 : S1x1024.ShapeCasts S1024
  bcast_S_S1024 : S_.BroadcastsInDim S1024 (![] : Fin 0 → Fin S1024.rank)
  shapeCasts_S1024x1024_S1024x1024 : S1024x1024.ShapeCasts S1024x1024
  broadcasts_S1x1024_S512x1024 : S1x1024.Broadcasts S512x1024
  packedbf16_S512x1024_S512x1024_0_0 : (Rect.unit (s := S512x1024) ![0, 0] S512x1024.size inb_S512x1024_S512x1024_0_0).PackedRows (EltTy.packing .bf16)
  slices_S5x1024x1024_S1x1024x1024_1_0_0 : S5x1024x1024.Slices ![1, 0, 0] S1x1024x1024
  slices_S5x1024_S1x1024_1_0 : S5x1024.Slices ![1, 0] S1x1024
  slices_S5x1024x1024_S1x1024x1024_2_0_0 : S5x1024x1024.Slices ![2, 0, 0] S1x1024x1024
  slices_S5x1024_S1x1024_2_0 : S5x1024.Slices ![2, 0] S1x1024
  slices_S5x1024x1024_S1x1024x1024_3_0_0 : S5x1024x1024.Slices ![3, 0, 0] S1x1024x1024
  slices_S5x1024_S1x1024_3_0 : S5x1024.Slices ![3, 0] S1x1024
  slices_S5x1024x1024_S1x1024x1024_4_0_0 : S5x1024x1024.Slices ![4, 0, 0] S1x1024x1024
  slices_S5x1024_S1x1024_4_0 : S5x1024.Slices ![4, 0] S1x1024
  bcast_S_S256 : S_.BroadcastsInDim S256 (![] : Fin 0 → Fin S256.rank)
  shapeCasts_S256_S1x256 : S256.ShapeCasts S1x256
  inb_S1024x256_S1024x256_0_0 : ∀ a, (![0, 0] : Fin 2 → Nat) a + S1024x256.size a ≤ S1024x256.size a
  h_S1024x256 : 0 < S1024x256.numel
  shapeCasts_S1024x256_S1024x256 : S1024x256.ShapeCasts S1024x256
  inb_S1x256_S1x256_0_0 : ∀ a, (![0, 0] : Fin 2 → Nat) a + S1x256.size a ≤ S1x256.size a
  h_S1x256 : 0 < S1x256.numel
  shapeCasts_S1x256_S1x256 : S1x256.ShapeCasts S1x256
  broadcasts_S1x256_S1024x256 : S1x256.Broadcasts S1024x256
  packedbf16_S1024x256_S1024x256_0_0 : (Rect.unit (s := S1024x256) ![0, 0] S1024x256.size inb_S1024x256_S1024x256_0_0).PackedRows (EltTy.packing .bf16)
  inb_S512x256_S512x256_0_0 : ∀ a, (![0, 0] : Fin 2 → Nat) a + S512x256.size a ≤ S512x256.size a
  h_S512x256 : 0 < S512x256.numel
  shapeCasts_S512x256_S512x256 : S512x256.ShapeCasts S512x256
  broadcasts_S1x256_S512x256 : S1x256.Broadcasts S512x256
  slices_S10240x256_S10000x256_0_0 : S10240x256.Slices ![0, 0] S10000x256
  scatter_S10000_S170000x1_S170000_n_0_0_1_wf : ScatterDims.WF S10000 S170000x1 S170000 [] [0] [0] 1
  gather_S10000_S170000x1_S170000_n_0_n_n_0_1_1_wf : GatherDims.WF S10000 S170000x1 S170000 [] [0] [] [0] [] 1 ![1]
  scatter_S10240x10240_S170000x2_S170000_n_01_01_1_wf : ScatterDims.WF S10240x10240 S170000x2 S170000 [] [0, 1] [0, 1] 1
  dot_S512x1024_S1024x128_S512x128_1_0_0_1_n_n_wf : DotDims.WF S512x1024 S1024x128 S512x128 [1] [0] [0] [1] [] []
  dot_S1024x128_S128x1024_S1024x1024_1_0_0_1_n_n_wf : DotDims.WF S1024x128 S128x1024 S1024x1024 [1] [0] [0] [1] [] []
  dot_S1024x1024_S1024x1024_S1024x1024_1_0_0_1_n_n_wf : DotDims.WF S1024x1024 S1024x1024 S1024x1024 [1] [0] [0] [1] [] []
  dot_S512x1024_S1024x1024_S512x1024_1_0_0_1_n_n_wf : DotDims.WF S512x1024 S1024x1024 S512x1024 [1] [0] [0] [1] [] []
  dot_S1024x1024_S1024x256_S1024x256_1_0_0_1_n_n_wf : DotDims.WF S1024x1024 S1024x256 S1024x256 [1] [0] [0] [1] [] []
  dot_S512x1024_S1024x256_S512x256_1_0_0_1_n_n_wf : DotDims.WF S512x1024 S1024x256 S512x256 [1] [0] [0] [1] [] []
  hrank0 : 0 < grid0.rank
  k0_mult1_dvd : ∀ i : grid0.Coords, 1024 ∣ (k0_mult1 i).toNat
  k0_off1_inb : ∀ i : grid0.Coords, ∀ a, (k0_off1 i) a + S1024x128.size a ≤ S10240x128.size a
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S512x1024.size a ≤ S10240x10240.size a
  hwx0_0 : ∀ i : grid0.Coords, EltTy.bits .bf16 = 32 ∨ (Rect.block (s := S10240x10240) S512x1024.size (cc0_transform_0 i) (hinb0_0 i)).WholeWords (EltTy.packing .bf16)
  hstage0_1 : ∀ j, (stage0_1 j).IsWhole
  nbuf0_1 : grid0.bufCount reads0_1 true = 1
  hreads0_1 : ∀ i i' : grid0.Coords, (∀ a, reads0_1 a = true → i a = i' a) → cc0_transform_1 i = cc0_transform_1 i'
  hinb0_1 : ∀ (i : grid0.Coords) a, (cc0_transform_1 i a + 1) * S10240x128.size a ≤ S10240x128.size a
  hwx0_1 : ∀ i : grid0.Coords, EltTy.bits .bf16 = 32 ∨ (Rect.block (s := S10240x128) S10240x128.size (cc0_transform_1 i) (hinb0_1 i)).WholeWords (EltTy.packing .bf16)
  hstage0_2 : ∀ j, (stage0_2 j).IsWhole
  nbuf0_2 : grid0.bufCount reads0_2 true = 1
  hreads0_2 : ∀ i i' : grid0.Coords, (∀ a, reads0_2 a = true → i a = i' a) → cc0_transform_2 i = cc0_transform_2 i'
  hinb0_2 : ∀ (i : grid0.Coords) a, (cc0_transform_2 i a + 1) * S1x128.size a ≤ S1x128.size a
  hwx0_2 : ∀ i : grid0.Coords, EltTy.bits .f32 = 32 ∨ (Rect.block (s := S1x128) S1x128.size (cc0_transform_2 i) (hinb0_2 i)).WholeWords (EltTy.packing .f32)
  hstage0_3 : ∀ j, (stage0_3 j).IsWhole
  nbuf0_3 : grid0.bufCount reads0_3 false = 2
  hreads0_3 : ∀ i i' : grid0.Coords, (∀ a, reads0_3 a = true → i a = i' a) → cc0_transform_3 i = cc0_transform_3 i'
  hinb0_3 : ∀ (i : grid0.Coords) a, (cc0_transform_3 i a + 1) * S512x128.size a ≤ S10240x128.size a
  hwx0_3 : ∀ i : grid0.Coords, EltTy.bits .bf16 = 32 ∨ (Rect.block (s := S10240x128) S512x128.size (cc0_transform_3 i) (hinb0_3 i)).WholeWords (EltTy.packing .bf16)
  hrank1 : 0 < grid1.rank
  hstage1_0 : ∀ j, (stage1_0 j).IsWhole
  nbuf1_0 : grid1.bufCount reads1_0 false = 2
  hreads1_0 : ∀ i i' : grid1.Coords, (∀ a, reads1_0 a = true → i a = i' a) → cc1_transform_0 i = cc1_transform_0 i'
  hinb1_0 : ∀ (i : grid1.Coords) a, (cc1_transform_0 i a + 1) * S1024x128.size a ≤ S10240x128.size a
  hwx1_0 : ∀ i : grid1.Coords, EltTy.bits .bf16 = 32 ∨ (Rect.block (s := S10240x128) S1024x128.size (cc1_transform_0 i) (hinb1_0 i)).WholeWords (EltTy.packing .bf16)
  hstage1_1 : ∀ j, (stage1_1 j).IsWhole
  nbuf1_1 : grid1.bufCount reads1_1 true = 1
  hreads1_1 : ∀ i i' : grid1.Coords, (∀ a, reads1_1 a = true → i a = i' a) → cc1_transform_1 i = cc1_transform_1 i'
  hinb1_1 : ∀ (i : grid1.Coords) a, (cc1_transform_1 i a + 1) * S128x1024.size a ≤ S128x1024.size a
  hwx1_1 : ∀ i : grid1.Coords, EltTy.bits .bf16 = 32 ∨ (Rect.block (s := S128x1024) S128x1024.size (cc1_transform_1 i) (hinb1_1 i)).WholeWords (EltTy.packing .bf16)
  hstage1_2 : ∀ j, (stage1_2 j).IsWhole
  nbuf1_2 : grid1.bufCount reads1_2 true = 1
  hreads1_2 : ∀ i i' : grid1.Coords, (∀ a, reads1_2 a = true → i a = i' a) → cc1_transform_2 i = cc1_transform_2 i'
  hinb1_2 : ∀ (i : grid1.Coords) a, (cc1_transform_2 i a + 1) * S1x1024.size a ≤ S1x1024.size a
  hwx1_2 : ∀ i : grid1.Coords, EltTy.bits .f32 = 32 ∨ (Rect.block (s := S1x1024) S1x1024.size (cc1_transform_2 i) (hinb1_2 i)).WholeWords (EltTy.packing .f32)
  hstage1_3 : ∀ j, (stage1_3 j).IsWhole
  nbuf1_3 : grid1.bufCount reads1_3 false = 2
  hreads1_3 : ∀ i i' : grid1.Coords, (∀ a, reads1_3 a = true → i a = i' a) → cc1_transform_3 i = cc1_transform_3 i'
  hinb1_3 : ∀ (i : grid1.Coords) a, (cc1_transform_3 i a + 1) * S1024x1024.size a ≤ S10240x1024.size a
  hwx1_3 : ∀ i : grid1.Coords, EltTy.bits .bf16 = 32 ∨ (Rect.block (s := S10240x1024) S1024x1024.size (cc1_transform_3 i) (hinb1_3 i)).WholeWords (EltTy.packing .bf16)
  hrank2 : 0 < grid2.rank
  hstage2_0 : ∀ j, (stage2_0 j).IsWhole
  nbuf2_0 : grid2.bufCount reads2_0 false = 2
  hreads2_0 : ∀ i i' : grid2.Coords, (∀ a, reads2_0 a = true → i a = i' a) → cc2_transform_0 i = cc2_transform_0 i'
  hinb2_0 : ∀ (i : grid2.Coords) a, (cc2_transform_0 i a + 1) * S1024x1024.size a ≤ S10240x1024.size a
  hwx2_0 : ∀ i : grid2.Coords, EltTy.bits .bf16 = 32 ∨ (Rect.block (s := S10240x1024) S1024x1024.size (cc2_transform_0 i) (hinb2_0 i)).WholeWords (EltTy.packing .bf16)
  hstage2_1 : ∀ j, (stage2_1 j).IsWhole
  nbuf2_1 : grid2.bufCount reads2_1 true = 1
  hreads2_1 : ∀ i i' : grid2.Coords, (∀ a, reads2_1 a = true → i a = i' a) → cc2_transform_1 i = cc2_transform_1 i'
  hinb2_1 : ∀ (i : grid2.Coords) a, (cc2_transform_1 i a + 1) * S1024x1024.size a ≤ S1024x1024.size a
  hwx2_1 : ∀ i : grid2.Coords, EltTy.bits .bf16 = 32 ∨ (Rect.block (s := S1024x1024) S1024x1024.size (cc2_transform_1 i) (hinb2_1 i)).WholeWords (EltTy.packing .bf16)
  hstage2_2 : ∀ j, (stage2_2 j).IsWhole
  nbuf2_2 : grid2.bufCount reads2_2 true = 1
  hreads2_2 : ∀ i i' : grid2.Coords, (∀ a, reads2_2 a = true → i a = i' a) → cc2_transform_2 i = cc2_transform_2 i'
  hinb2_2 : ∀ (i : grid2.Coords) a, (cc2_transform_2 i a + 1) * S1x1024.size a ≤ S1x1024.size a
  hwx2_2 : ∀ i : grid2.Coords, EltTy.bits .f32 = 32 ∨ (Rect.block (s := S1x1024) S1x1024.size (cc2_transform_2 i) (hinb2_2 i)).WholeWords (EltTy.packing .f32)
  hstage2_3 : ∀ j, (stage2_3 j).IsWhole
  nbuf2_3 : grid2.bufCount reads2_3 false = 2
  hreads2_3 : ∀ i i' : grid2.Coords, (∀ a, reads2_3 a = true → i a = i' a) → cc2_transform_3 i = cc2_transform_3 i'
  hinb2_3 : ∀ (i : grid2.Coords) a, (cc2_transform_3 i a + 1) * S1024x1024.size a ≤ S10240x1024.size a
  hwx2_3 : ∀ i : grid2.Coords, EltTy.bits .bf16 = 32 ∨ (Rect.block (s := S10240x1024) S1024x1024.size (cc2_transform_3 i) (hinb2_3 i)).WholeWords (EltTy.packing .bf16)
  hrank3 : 0 < grid3.rank
  k3_mult1_dvd : ∀ i : grid3.Coords, 1024 ∣ (k3_mult1 i).toNat
  k3_off1_inb : ∀ i : grid3.Coords, ∀ a, (k3_off1 i) a + S1024x1024.size a ≤ S10240x1024.size a
  hstage3_0 : ∀ j, (stage3_0 j).IsWhole
  nbuf3_0 : grid3.bufCount reads3_0 false = 2
  hreads3_0 : ∀ i i' : grid3.Coords, (∀ a, reads3_0 a = true → i a = i' a) → cc3_transform_0 i = cc3_transform_0 i'
  hinb3_0 : ∀ (i : grid3.Coords) a, (cc3_transform_0 i a + 1) * S512x1024.size a ≤ S10240x10240.size a
  hwx3_0 : ∀ i : grid3.Coords, EltTy.bits .bf16 = 32 ∨ (Rect.block (s := S10240x10240) S512x1024.size (cc3_transform_0 i) (hinb3_0 i)).WholeWords (EltTy.packing .bf16)
  hstage3_1 : ∀ j, (stage3_1 j).IsWhole
  nbuf3_1 : grid3.bufCount reads3_1 true = 1
  hreads3_1 : ∀ i i' : grid3.Coords, (∀ a, reads3_1 a = true → i a = i' a) → cc3_transform_1 i = cc3_transform_1 i'
  hinb3_1 : ∀ (i : grid3.Coords) a, (cc3_transform_1 i a + 1) * S10240x1024.size a ≤ S10240x1024.size a
  hwx3_1 : ∀ i : grid3.Coords, EltTy.bits .bf16 = 32 ∨ (Rect.block (s := S10240x1024) S10240x1024.size (cc3_transform_1 i) (hinb3_1 i)).WholeWords (EltTy.packing .bf16)
  hstage3_2 : ∀ j, (stage3_2 j).IsWhole
  nbuf3_2 : grid3.bufCount reads3_2 true = 1
  hreads3_2 : ∀ i i' : grid3.Coords, (∀ a, reads3_2 a = true → i a = i' a) → cc3_transform_2 i = cc3_transform_2 i'
  hinb3_2 : ∀ (i : grid3.Coords) a, (cc3_transform_2 i a + 1) * S1x1024.size a ≤ S1x1024.size a
  hwx3_2 : ∀ i : grid3.Coords, EltTy.bits .f32 = 32 ∨ (Rect.block (s := S1x1024) S1x1024.size (cc3_transform_2 i) (hinb3_2 i)).WholeWords (EltTy.packing .f32)
  hstage3_3 : ∀ j, (stage3_3 j).IsWhole
  nbuf3_3 : grid3.bufCount reads3_3 false = 2
  hreads3_3 : ∀ i i' : grid3.Coords, (∀ a, reads3_3 a = true → i a = i' a) → cc3_transform_3 i = cc3_transform_3 i'
  hinb3_3 : ∀ (i : grid3.Coords) a, (cc3_transform_3 i a + 1) * S512x1024.size a ≤ S10240x1024.size a
  hwx3_3 : ∀ i : grid3.Coords, EltTy.bits .bf16 = 32 ∨ (Rect.block (s := S10240x1024) S512x1024.size (cc3_transform_3 i) (hinb3_3 i)).WholeWords (EltTy.packing .bf16)
  hrank4 : 0 < grid4.rank
  hstage4_0 : ∀ j, (stage4_0 j).IsWhole
  nbuf4_0 : grid4.bufCount reads4_0 false = 2
  hreads4_0 : ∀ i i' : grid4.Coords, (∀ a, reads4_0 a = true → i a = i' a) → cc4_transform_0 i = cc4_transform_0 i'
  hinb4_0 : ∀ (i : grid4.Coords) a, (cc4_transform_0 i a + 1) * S1024x1024.size a ≤ S10240x1024.size a
  hwx4_0 : ∀ i : grid4.Coords, EltTy.bits .bf16 = 32 ∨ (Rect.block (s := S10240x1024) S1024x1024.size (cc4_transform_0 i) (hinb4_0 i)).WholeWords (EltTy.packing .bf16)
  hstage4_1 : ∀ j, (stage4_1 j).IsWhole
  nbuf4_1 : grid4.bufCount reads4_1 true = 1
  hreads4_1 : ∀ i i' : grid4.Coords, (∀ a, reads4_1 a = true → i a = i' a) → cc4_transform_1 i = cc4_transform_1 i'
  hinb4_1 : ∀ (i : grid4.Coords) a, (cc4_transform_1 i a + 1) * S1024x1024.size a ≤ S1024x1024.size a
  hwx4_1 : ∀ i : grid4.Coords, EltTy.bits .bf16 = 32 ∨ (Rect.block (s := S1024x1024) S1024x1024.size (cc4_transform_1 i) (hinb4_1 i)).WholeWords (EltTy.packing .bf16)
  hstage4_2 : ∀ j, (stage4_2 j).IsWhole
  nbuf4_2 : grid4.bufCount reads4_2 true = 1
  hreads4_2 : ∀ i i' : grid4.Coords, (∀ a, reads4_2 a = true → i a = i' a) → cc4_transform_2 i = cc4_transform_2 i'
  hinb4_2 : ∀ (i : grid4.Coords) a, (cc4_transform_2 i a + 1) * S1x1024.size a ≤ S1x1024.size a
  hwx4_2 : ∀ i : grid4.Coords, EltTy.bits .f32 = 32 ∨ (Rect.block (s := S1x1024) S1x1024.size (cc4_transform_2 i) (hinb4_2 i)).WholeWords (EltTy.packing .f32)
  hstage4_3 : ∀ j, (stage4_3 j).IsWhole
  nbuf4_3 : grid4.bufCount reads4_3 false = 2
  hreads4_3 : ∀ i i' : grid4.Coords, (∀ a, reads4_3 a = true → i a = i' a) → cc4_transform_3 i = cc4_transform_3 i'
  hinb4_3 : ∀ (i : grid4.Coords) a, (cc4_transform_3 i a + 1) * S1024x1024.size a ≤ S10240x1024.size a
  hwx4_3 : ∀ i : grid4.Coords, EltTy.bits .bf16 = 32 ∨ (Rect.block (s := S10240x1024) S1024x1024.size (cc4_transform_3 i) (hinb4_3 i)).WholeWords (EltTy.packing .bf16)
  hrank5 : 0 < grid5.rank
  k5_mult1_dvd : ∀ i : grid5.Coords, 1024 ∣ (k5_mult1 i).toNat
  k5_off1_inb : ∀ i : grid5.Coords, ∀ a, (k5_off1 i) a + S1024x1024.size a ≤ S10240x1024.size a
  hstage5_0 : ∀ j, (stage5_0 j).IsWhole
  nbuf5_0 : grid5.bufCount reads5_0 false = 2
  hreads5_0 : ∀ i i' : grid5.Coords, (∀ a, reads5_0 a = true → i a = i' a) → cc5_transform_0 i = cc5_transform_0 i'
  hinb5_0 : ∀ (i : grid5.Coords) a, (cc5_transform_0 i a + 1) * S512x1024.size a ≤ S10240x10240.size a
  hwx5_0 : ∀ i : grid5.Coords, EltTy.bits .bf16 = 32 ∨ (Rect.block (s := S10240x10240) S512x1024.size (cc5_transform_0 i) (hinb5_0 i)).WholeWords (EltTy.packing .bf16)
  hstage5_1 : ∀ j, (stage5_1 j).IsWhole
  nbuf5_1 : grid5.bufCount reads5_1 true = 1
  hreads5_1 : ∀ i i' : grid5.Coords, (∀ a, reads5_1 a = true → i a = i' a) → cc5_transform_1 i = cc5_transform_1 i'
  hinb5_1 : ∀ (i : grid5.Coords) a, (cc5_transform_1 i a + 1) * S10240x1024.size a ≤ S10240x1024.size a
  hwx5_1 : ∀ i : grid5.Coords, EltTy.bits .bf16 = 32 ∨ (Rect.block (s := S10240x1024) S10240x1024.size (cc5_transform_1 i) (hinb5_1 i)).WholeWords (EltTy.packing .bf16)
  hstage5_2 : ∀ j, (stage5_2 j).IsWhole
  nbuf5_2 : grid5.bufCount reads5_2 true = 1
  hreads5_2 : ∀ i i' : grid5.Coords, (∀ a, reads5_2 a = true → i a = i' a) → cc5_transform_2 i = cc5_transform_2 i'
  hinb5_2 : ∀ (i : grid5.Coords) a, (cc5_transform_2 i a + 1) * S1x1024.size a ≤ S1x1024.size a
  hwx5_2 : ∀ i : grid5.Coords, EltTy.bits .f32 = 32 ∨ (Rect.block (s := S1x1024) S1x1024.size (cc5_transform_2 i) (hinb5_2 i)).WholeWords (EltTy.packing .f32)
  hstage5_3 : ∀ j, (stage5_3 j).IsWhole
  nbuf5_3 : grid5.bufCount reads5_3 false = 2
  hreads5_3 : ∀ i i' : grid5.Coords, (∀ a, reads5_3 a = true → i a = i' a) → cc5_transform_3 i = cc5_transform_3 i'
  hinb5_3 : ∀ (i : grid5.Coords) a, (cc5_transform_3 i a + 1) * S512x1024.size a ≤ S10240x1024.size a
  hwx5_3 : ∀ i : grid5.Coords, EltTy.bits .bf16 = 32 ∨ (Rect.block (s := S10240x1024) S512x1024.size (cc5_transform_3 i) (hinb5_3 i)).WholeWords (EltTy.packing .bf16)
  hrank6 : 0 < grid6.rank
  hstage6_0 : ∀ j, (stage6_0 j).IsWhole
  nbuf6_0 : grid6.bufCount reads6_0 false = 2
  hreads6_0 : ∀ i i' : grid6.Coords, (∀ a, reads6_0 a = true → i a = i' a) → cc6_transform_0 i = cc6_transform_0 i'
  hinb6_0 : ∀ (i : grid6.Coords) a, (cc6_transform_0 i a + 1) * S1024x1024.size a ≤ S10240x1024.size a
  hwx6_0 : ∀ i : grid6.Coords, EltTy.bits .bf16 = 32 ∨ (Rect.block (s := S10240x1024) S1024x1024.size (cc6_transform_0 i) (hinb6_0 i)).WholeWords (EltTy.packing .bf16)
  hstage6_1 : ∀ j, (stage6_1 j).IsWhole
  nbuf6_1 : grid6.bufCount reads6_1 true = 1
  hreads6_1 : ∀ i i' : grid6.Coords, (∀ a, reads6_1 a = true → i a = i' a) → cc6_transform_1 i = cc6_transform_1 i'
  hinb6_1 : ∀ (i : grid6.Coords) a, (cc6_transform_1 i a + 1) * S1024x1024.size a ≤ S1024x1024.size a
  hwx6_1 : ∀ i : grid6.Coords, EltTy.bits .bf16 = 32 ∨ (Rect.block (s := S1024x1024) S1024x1024.size (cc6_transform_1 i) (hinb6_1 i)).WholeWords (EltTy.packing .bf16)
  hstage6_2 : ∀ j, (stage6_2 j).IsWhole
  nbuf6_2 : grid6.bufCount reads6_2 true = 1
  hreads6_2 : ∀ i i' : grid6.Coords, (∀ a, reads6_2 a = true → i a = i' a) → cc6_transform_2 i = cc6_transform_2 i'
  hinb6_2 : ∀ (i : grid6.Coords) a, (cc6_transform_2 i a + 1) * S1x1024.size a ≤ S1x1024.size a
  hwx6_2 : ∀ i : grid6.Coords, EltTy.bits .f32 = 32 ∨ (Rect.block (s := S1x1024) S1x1024.size (cc6_transform_2 i) (hinb6_2 i)).WholeWords (EltTy.packing .f32)
  hstage6_3 : ∀ j, (stage6_3 j).IsWhole
  nbuf6_3 : grid6.bufCount reads6_3 false = 2
  hreads6_3 : ∀ i i' : grid6.Coords, (∀ a, reads6_3 a = true → i a = i' a) → cc6_transform_3 i = cc6_transform_3 i'
  hinb6_3 : ∀ (i : grid6.Coords) a, (cc6_transform_3 i a + 1) * S1024x1024.size a ≤ S10240x1024.size a
  hwx6_3 : ∀ i : grid6.Coords, EltTy.bits .bf16 = 32 ∨ (Rect.block (s := S10240x1024) S1024x1024.size (cc6_transform_3 i) (hinb6_3 i)).WholeWords (EltTy.packing .bf16)
  hrank7 : 0 < grid7.rank
  k7_mult1_dvd : ∀ i : grid7.Coords, 1024 ∣ (k7_mult1 i).toNat
  k7_off1_inb : ∀ i : grid7.Coords, ∀ a, (k7_off1 i) a + S1024x1024.size a ≤ S10240x1024.size a
  hstage7_0 : ∀ j, (stage7_0 j).IsWhole
  nbuf7_0 : grid7.bufCount reads7_0 false = 2
  hreads7_0 : ∀ i i' : grid7.Coords, (∀ a, reads7_0 a = true → i a = i' a) → cc7_transform_0 i = cc7_transform_0 i'
  hinb7_0 : ∀ (i : grid7.Coords) a, (cc7_transform_0 i a + 1) * S512x1024.size a ≤ S10240x10240.size a
  hwx7_0 : ∀ i : grid7.Coords, EltTy.bits .bf16 = 32 ∨ (Rect.block (s := S10240x10240) S512x1024.size (cc7_transform_0 i) (hinb7_0 i)).WholeWords (EltTy.packing .bf16)
  hstage7_1 : ∀ j, (stage7_1 j).IsWhole
  nbuf7_1 : grid7.bufCount reads7_1 true = 1
  hreads7_1 : ∀ i i' : grid7.Coords, (∀ a, reads7_1 a = true → i a = i' a) → cc7_transform_1 i = cc7_transform_1 i'
  hinb7_1 : ∀ (i : grid7.Coords) a, (cc7_transform_1 i a + 1) * S10240x1024.size a ≤ S10240x1024.size a
  hwx7_1 : ∀ i : grid7.Coords, EltTy.bits .bf16 = 32 ∨ (Rect.block (s := S10240x1024) S10240x1024.size (cc7_transform_1 i) (hinb7_1 i)).WholeWords (EltTy.packing .bf16)
  hstage7_2 : ∀ j, (stage7_2 j).IsWhole
  nbuf7_2 : grid7.bufCount reads7_2 true = 1
  hreads7_2 : ∀ i i' : grid7.Coords, (∀ a, reads7_2 a = true → i a = i' a) → cc7_transform_2 i = cc7_transform_2 i'
  hinb7_2 : ∀ (i : grid7.Coords) a, (cc7_transform_2 i a + 1) * S1x1024.size a ≤ S1x1024.size a
  hwx7_2 : ∀ i : grid7.Coords, EltTy.bits .f32 = 32 ∨ (Rect.block (s := S1x1024) S1x1024.size (cc7_transform_2 i) (hinb7_2 i)).WholeWords (EltTy.packing .f32)
  hstage7_3 : ∀ j, (stage7_3 j).IsWhole
  nbuf7_3 : grid7.bufCount reads7_3 false = 2
  hreads7_3 : ∀ i i' : grid7.Coords, (∀ a, reads7_3 a = true → i a = i' a) → cc7_transform_3 i = cc7_transform_3 i'
  hinb7_3 : ∀ (i : grid7.Coords) a, (cc7_transform_3 i a + 1) * S512x1024.size a ≤ S10240x1024.size a
  hwx7_3 : ∀ i : grid7.Coords, EltTy.bits .bf16 = 32 ∨ (Rect.block (s := S10240x1024) S512x1024.size (cc7_transform_3 i) (hinb7_3 i)).WholeWords (EltTy.packing .bf16)
  hrank8 : 0 < grid8.rank
  hstage8_0 : ∀ j, (stage8_0 j).IsWhole
  nbuf8_0 : grid8.bufCount reads8_0 false = 2
  hreads8_0 : ∀ i i' : grid8.Coords, (∀ a, reads8_0 a = true → i a = i' a) → cc8_transform_0 i = cc8_transform_0 i'
  hinb8_0 : ∀ (i : grid8.Coords) a, (cc8_transform_0 i a + 1) * S1024x1024.size a ≤ S10240x1024.size a
  hwx8_0 : ∀ i : grid8.Coords, EltTy.bits .bf16 = 32 ∨ (Rect.block (s := S10240x1024) S1024x1024.size (cc8_transform_0 i) (hinb8_0 i)).WholeWords (EltTy.packing .bf16)
  hstage8_1 : ∀ j, (stage8_1 j).IsWhole
  nbuf8_1 : grid8.bufCount reads8_1 true = 1
  hreads8_1 : ∀ i i' : grid8.Coords, (∀ a, reads8_1 a = true → i a = i' a) → cc8_transform_1 i = cc8_transform_1 i'
  hinb8_1 : ∀ (i : grid8.Coords) a, (cc8_transform_1 i a + 1) * S1024x1024.size a ≤ S1024x1024.size a
  hwx8_1 : ∀ i : grid8.Coords, EltTy.bits .bf16 = 32 ∨ (Rect.block (s := S1024x1024) S1024x1024.size (cc8_transform_1 i) (hinb8_1 i)).WholeWords (EltTy.packing .bf16)
  hstage8_2 : ∀ j, (stage8_2 j).IsWhole
  nbuf8_2 : grid8.bufCount reads8_2 true = 1
  hreads8_2 : ∀ i i' : grid8.Coords, (∀ a, reads8_2 a = true → i a = i' a) → cc8_transform_2 i = cc8_transform_2 i'
  hinb8_2 : ∀ (i : grid8.Coords) a, (cc8_transform_2 i a + 1) * S1x1024.size a ≤ S1x1024.size a
  hwx8_2 : ∀ i : grid8.Coords, EltTy.bits .f32 = 32 ∨ (Rect.block (s := S1x1024) S1x1024.size (cc8_transform_2 i) (hinb8_2 i)).WholeWords (EltTy.packing .f32)
  hstage8_3 : ∀ j, (stage8_3 j).IsWhole
  nbuf8_3 : grid8.bufCount reads8_3 false = 2
  hreads8_3 : ∀ i i' : grid8.Coords, (∀ a, reads8_3 a = true → i a = i' a) → cc8_transform_3 i = cc8_transform_3 i'
  hinb8_3 : ∀ (i : grid8.Coords) a, (cc8_transform_3 i a + 1) * S1024x1024.size a ≤ S10240x1024.size a
  hwx8_3 : ∀ i : grid8.Coords, EltTy.bits .bf16 = 32 ∨ (Rect.block (s := S10240x1024) S1024x1024.size (cc8_transform_3 i) (hinb8_3 i)).WholeWords (EltTy.packing .bf16)
  hrank9 : 0 < grid9.rank
  k9_mult1_dvd : ∀ i : grid9.Coords, 1024 ∣ (k9_mult1 i).toNat
  k9_off1_inb : ∀ i : grid9.Coords, ∀ a, (k9_off1 i) a + S1024x1024.size a ≤ S10240x1024.size a
  hstage9_0 : ∀ j, (stage9_0 j).IsWhole
  nbuf9_0 : grid9.bufCount reads9_0 false = 2
  hreads9_0 : ∀ i i' : grid9.Coords, (∀ a, reads9_0 a = true → i a = i' a) → cc9_transform_0 i = cc9_transform_0 i'
  hinb9_0 : ∀ (i : grid9.Coords) a, (cc9_transform_0 i a + 1) * S512x1024.size a ≤ S10240x10240.size a
  hwx9_0 : ∀ i : grid9.Coords, EltTy.bits .bf16 = 32 ∨ (Rect.block (s := S10240x10240) S512x1024.size (cc9_transform_0 i) (hinb9_0 i)).WholeWords (EltTy.packing .bf16)
  hstage9_1 : ∀ j, (stage9_1 j).IsWhole
  nbuf9_1 : grid9.bufCount reads9_1 true = 1
  hreads9_1 : ∀ i i' : grid9.Coords, (∀ a, reads9_1 a = true → i a = i' a) → cc9_transform_1 i = cc9_transform_1 i'
  hinb9_1 : ∀ (i : grid9.Coords) a, (cc9_transform_1 i a + 1) * S10240x1024.size a ≤ S10240x1024.size a
  hwx9_1 : ∀ i : grid9.Coords, EltTy.bits .bf16 = 32 ∨ (Rect.block (s := S10240x1024) S10240x1024.size (cc9_transform_1 i) (hinb9_1 i)).WholeWords (EltTy.packing .bf16)
  hstage9_2 : ∀ j, (stage9_2 j).IsWhole
  nbuf9_2 : grid9.bufCount reads9_2 true = 1
  hreads9_2 : ∀ i i' : grid9.Coords, (∀ a, reads9_2 a = true → i a = i' a) → cc9_transform_2 i = cc9_transform_2 i'
  hinb9_2 : ∀ (i : grid9.Coords) a, (cc9_transform_2 i a + 1) * S1x1024.size a ≤ S1x1024.size a
  hwx9_2 : ∀ i : grid9.Coords, EltTy.bits .f32 = 32 ∨ (Rect.block (s := S1x1024) S1x1024.size (cc9_transform_2 i) (hinb9_2 i)).WholeWords (EltTy.packing .f32)
  hstage9_3 : ∀ j, (stage9_3 j).IsWhole
  nbuf9_3 : grid9.bufCount reads9_3 false = 2
  hreads9_3 : ∀ i i' : grid9.Coords, (∀ a, reads9_3 a = true → i a = i' a) → cc9_transform_3 i = cc9_transform_3 i'
  hinb9_3 : ∀ (i : grid9.Coords) a, (cc9_transform_3 i a + 1) * S512x1024.size a ≤ S10240x1024.size a
  hwx9_3 : ∀ i : grid9.Coords, EltTy.bits .bf16 = 32 ∨ (Rect.block (s := S10240x1024) S512x1024.size (cc9_transform_3 i) (hinb9_3 i)).WholeWords (EltTy.packing .bf16)
  hrank10 : 0 < grid10.rank
  hstage10_0 : ∀ j, (stage10_0 j).IsWhole
  nbuf10_0 : grid10.bufCount reads10_0 false = 2
  hreads10_0 : ∀ i i' : grid10.Coords, (∀ a, reads10_0 a = true → i a = i' a) → cc10_transform_0 i = cc10_transform_0 i'
  hinb10_0 : ∀ (i : grid10.Coords) a, (cc10_transform_0 i a + 1) * S1024x1024.size a ≤ S10240x1024.size a
  hwx10_0 : ∀ i : grid10.Coords, EltTy.bits .bf16 = 32 ∨ (Rect.block (s := S10240x1024) S1024x1024.size (cc10_transform_0 i) (hinb10_0 i)).WholeWords (EltTy.packing .bf16)
  hstage10_1 : ∀ j, (stage10_1 j).IsWhole
  nbuf10_1 : grid10.bufCount reads10_1 true = 1
  hreads10_1 : ∀ i i' : grid10.Coords, (∀ a, reads10_1 a = true → i a = i' a) → cc10_transform_1 i = cc10_transform_1 i'
  hinb10_1 : ∀ (i : grid10.Coords) a, (cc10_transform_1 i a + 1) * S1024x1024.size a ≤ S1024x1024.size a
  hwx10_1 : ∀ i : grid10.Coords, EltTy.bits .bf16 = 32 ∨ (Rect.block (s := S1024x1024) S1024x1024.size (cc10_transform_1 i) (hinb10_1 i)).WholeWords (EltTy.packing .bf16)
  hstage10_2 : ∀ j, (stage10_2 j).IsWhole
  nbuf10_2 : grid10.bufCount reads10_2 true = 1
  hreads10_2 : ∀ i i' : grid10.Coords, (∀ a, reads10_2 a = true → i a = i' a) → cc10_transform_2 i = cc10_transform_2 i'
  hinb10_2 : ∀ (i : grid10.Coords) a, (cc10_transform_2 i a + 1) * S1x1024.size a ≤ S1x1024.size a
  hwx10_2 : ∀ i : grid10.Coords, EltTy.bits .f32 = 32 ∨ (Rect.block (s := S1x1024) S1x1024.size (cc10_transform_2 i) (hinb10_2 i)).WholeWords (EltTy.packing .f32)
  hstage10_3 : ∀ j, (stage10_3 j).IsWhole
  nbuf10_3 : grid10.bufCount reads10_3 false = 2
  hreads10_3 : ∀ i i' : grid10.Coords, (∀ a, reads10_3 a = true → i a = i' a) → cc10_transform_3 i = cc10_transform_3 i'
  hinb10_3 : ∀ (i : grid10.Coords) a, (cc10_transform_3 i a + 1) * S1024x1024.size a ≤ S10240x1024.size a
  hwx10_3 : ∀ i : grid10.Coords, EltTy.bits .bf16 = 32 ∨ (Rect.block (s := S10240x1024) S1024x1024.size (cc10_transform_3 i) (hinb10_3 i)).WholeWords (EltTy.packing .bf16)
  hrank11 : 0 < grid11.rank
  k11_mult1_dvd : ∀ i : grid11.Coords, 1024 ∣ (k11_mult1 i).toNat
  k11_off1_inb : ∀ i : grid11.Coords, ∀ a, (k11_off1 i) a + S1024x1024.size a ≤ S10240x1024.size a
  hstage11_0 : ∀ j, (stage11_0 j).IsWhole
  nbuf11_0 : grid11.bufCount reads11_0 false = 2
  hreads11_0 : ∀ i i' : grid11.Coords, (∀ a, reads11_0 a = true → i a = i' a) → cc11_transform_0 i = cc11_transform_0 i'
  hinb11_0 : ∀ (i : grid11.Coords) a, (cc11_transform_0 i a + 1) * S512x1024.size a ≤ S10240x10240.size a
  hwx11_0 : ∀ i : grid11.Coords, EltTy.bits .bf16 = 32 ∨ (Rect.block (s := S10240x10240) S512x1024.size (cc11_transform_0 i) (hinb11_0 i)).WholeWords (EltTy.packing .bf16)
  hstage11_1 : ∀ j, (stage11_1 j).IsWhole
  nbuf11_1 : grid11.bufCount reads11_1 true = 1
  hreads11_1 : ∀ i i' : grid11.Coords, (∀ a, reads11_1 a = true → i a = i' a) → cc11_transform_1 i = cc11_transform_1 i'
  hinb11_1 : ∀ (i : grid11.Coords) a, (cc11_transform_1 i a + 1) * S10240x1024.size a ≤ S10240x1024.size a
  hwx11_1 : ∀ i : grid11.Coords, EltTy.bits .bf16 = 32 ∨ (Rect.block (s := S10240x1024) S10240x1024.size (cc11_transform_1 i) (hinb11_1 i)).WholeWords (EltTy.packing .bf16)
  hstage11_2 : ∀ j, (stage11_2 j).IsWhole
  nbuf11_2 : grid11.bufCount reads11_2 true = 1
  hreads11_2 : ∀ i i' : grid11.Coords, (∀ a, reads11_2 a = true → i a = i' a) → cc11_transform_2 i = cc11_transform_2 i'
  hinb11_2 : ∀ (i : grid11.Coords) a, (cc11_transform_2 i a + 1) * S1x1024.size a ≤ S1x1024.size a
  hwx11_2 : ∀ i : grid11.Coords, EltTy.bits .f32 = 32 ∨ (Rect.block (s := S1x1024) S1x1024.size (cc11_transform_2 i) (hinb11_2 i)).WholeWords (EltTy.packing .f32)
  hstage11_3 : ∀ j, (stage11_3 j).IsWhole
  nbuf11_3 : grid11.bufCount reads11_3 false = 2
  hreads11_3 : ∀ i i' : grid11.Coords, (∀ a, reads11_3 a = true → i a = i' a) → cc11_transform_3 i = cc11_transform_3 i'
  hinb11_3 : ∀ (i : grid11.Coords) a, (cc11_transform_3 i a + 1) * S512x1024.size a ≤ S10240x1024.size a
  hwx11_3 : ∀ i : grid11.Coords, EltTy.bits .bf16 = 32 ∨ (Rect.block (s := S10240x1024) S512x1024.size (cc11_transform_3 i) (hinb11_3 i)).WholeWords (EltTy.packing .bf16)
  hrank12 : 0 < grid12.rank
  hstage12_0 : ∀ j, (stage12_0 j).IsWhole
  nbuf12_0 : grid12.bufCount reads12_0 false = 2
  hreads12_0 : ∀ i i' : grid12.Coords, (∀ a, reads12_0 a = true → i a = i' a) → cc12_transform_0 i = cc12_transform_0 i'
  hinb12_0 : ∀ (i : grid12.Coords) a, (cc12_transform_0 i a + 1) * S1024x1024.size a ≤ S10240x1024.size a
  hwx12_0 : ∀ i : grid12.Coords, EltTy.bits .bf16 = 32 ∨ (Rect.block (s := S10240x1024) S1024x1024.size (cc12_transform_0 i) (hinb12_0 i)).WholeWords (EltTy.packing .bf16)
  hstage12_1 : ∀ j, (stage12_1 j).IsWhole
  nbuf12_1 : grid12.bufCount reads12_1 true = 1
  hreads12_1 : ∀ i i' : grid12.Coords, (∀ a, reads12_1 a = true → i a = i' a) → cc12_transform_1 i = cc12_transform_1 i'
  hinb12_1 : ∀ (i : grid12.Coords) a, (cc12_transform_1 i a + 1) * S1024x256.size a ≤ S1024x256.size a
  hwx12_1 : ∀ i : grid12.Coords, EltTy.bits .bf16 = 32 ∨ (Rect.block (s := S1024x256) S1024x256.size (cc12_transform_1 i) (hinb12_1 i)).WholeWords (EltTy.packing .bf16)
  hstage12_2 : ∀ j, (stage12_2 j).IsWhole
  nbuf12_2 : grid12.bufCount reads12_2 true = 1
  hreads12_2 : ∀ i i' : grid12.Coords, (∀ a, reads12_2 a = true → i a = i' a) → cc12_transform_2 i = cc12_transform_2 i'
  hinb12_2 : ∀ (i : grid12.Coords) a, (cc12_transform_2 i a + 1) * S1x256.size a ≤ S1x256.size a
  hwx12_2 : ∀ i : grid12.Coords, EltTy.bits .f32 = 32 ∨ (Rect.block (s := S1x256) S1x256.size (cc12_transform_2 i) (hinb12_2 i)).WholeWords (EltTy.packing .f32)
  hstage12_3 : ∀ j, (stage12_3 j).IsWhole
  nbuf12_3 : grid12.bufCount reads12_3 false = 2
  hreads12_3 : ∀ i i' : grid12.Coords, (∀ a, reads12_3 a = true → i a = i' a) → cc12_transform_3 i = cc12_transform_3 i'
  hinb12_3 : ∀ (i : grid12.Coords) a, (cc12_transform_3 i a + 1) * S1024x256.size a ≤ S10240x256.size a
  hwx12_3 : ∀ i : grid12.Coords, EltTy.bits .bf16 = 32 ∨ (Rect.block (s := S10240x256) S1024x256.size (cc12_transform_3 i) (hinb12_3 i)).WholeWords (EltTy.packing .bf16)
  hrank13 : 0 < grid13.rank
  k13_mult1_dvd : ∀ i : grid13.Coords, 1024 ∣ (k13_mult1 i).toNat
  k13_off1_inb : ∀ i : grid13.Coords, ∀ a, (k13_off1 i) a + S1024x256.size a ≤ S10240x256.size a
  hstage13_0 : ∀ j, (stage13_0 j).IsWhole
  nbuf13_0 : grid13.bufCount reads13_0 false = 2
  hreads13_0 : ∀ i i' : grid13.Coords, (∀ a, reads13_0 a = true → i a = i' a) → cc13_transform_0 i = cc13_transform_0 i'
  hinb13_0 : ∀ (i : grid13.Coords) a, (cc13_transform_0 i a + 1) * S512x1024.size a ≤ S10240x10240.size a
  hwx13_0 : ∀ i : grid13.Coords, EltTy.bits .bf16 = 32 ∨ (Rect.block (s := S10240x10240) S512x1024.size (cc13_transform_0 i) (hinb13_0 i)).WholeWords (EltTy.packing .bf16)
  hstage13_1 : ∀ j, (stage13_1 j).IsWhole
  nbuf13_1 : grid13.bufCount reads13_1 true = 1
  hreads13_1 : ∀ i i' : grid13.Coords, (∀ a, reads13_1 a = true → i a = i' a) → cc13_transform_1 i = cc13_transform_1 i'
  hinb13_1 : ∀ (i : grid13.Coords) a, (cc13_transform_1 i a + 1) * S10240x256.size a ≤ S10240x256.size a
  hwx13_1 : ∀ i : grid13.Coords, EltTy.bits .bf16 = 32 ∨ (Rect.block (s := S10240x256) S10240x256.size (cc13_transform_1 i) (hinb13_1 i)).WholeWords (EltTy.packing .bf16)
  hstage13_2 : ∀ j, (stage13_2 j).IsWhole
  nbuf13_2 : grid13.bufCount reads13_2 true = 1
  hreads13_2 : ∀ i i' : grid13.Coords, (∀ a, reads13_2 a = true → i a = i' a) → cc13_transform_2 i = cc13_transform_2 i'
  hinb13_2 : ∀ (i : grid13.Coords) a, (cc13_transform_2 i a + 1) * S1x256.size a ≤ S1x256.size a
  hwx13_2 : ∀ i : grid13.Coords, EltTy.bits .f32 = 32 ∨ (Rect.block (s := S1x256) S1x256.size (cc13_transform_2 i) (hinb13_2 i)).WholeWords (EltTy.packing .f32)
  hstage13_3 : ∀ j, (stage13_3 j).IsWhole
  nbuf13_3 : grid13.bufCount reads13_3 false = 2
  hreads13_3 : ∀ i i' : grid13.Coords, (∀ a, reads13_3 a = true → i a = i' a) → cc13_transform_3 i = cc13_transform_3 i'
  hinb13_3 : ∀ (i : grid13.Coords) a, (cc13_transform_3 i a + 1) * S512x256.size a ≤ S10240x256.size a
  hwx13_3 : ∀ i : grid13.Coords, EltTy.bits .f32 = 32 ∨ (Rect.block (s := S10240x256) S512x256.size (cc13_transform_3 i) (hinb13_3 i)).WholeWords (EltTy.packing .f32)

variable [Facts₀]

def scatter_S10000_S170000x1_S170000_n_0_0_1 : ScatterDims S10000 S170000x1 S170000 where
  updateWindowDims := []
  insertedWindowDims := [0]
  scatterDimsToOperandDims := [0]
  indexVectorDim := 1
  wf := scatter_S10000_S170000x1_S170000_n_0_0_1_wf
def gather_S10000_S170000x1_S170000_n_0_n_n_0_1_1 : GatherDims S10000 S170000x1 S170000 where
  offsetDims := []
  collapsedSliceDims := [0]
  operandBatchingDims := []
  startIndicesBatchingDims := []
  startIndexMap := [0]
  indexVectorDim := 1
  sliceSizes := ![1]
  wf := gather_S10000_S170000x1_S170000_n_0_n_n_0_1_1_wf
def scatter_S10240x10240_S170000x2_S170000_n_01_01_1 : ScatterDims S10240x10240 S170000x2 S170000 where
  updateWindowDims := []
  insertedWindowDims := [0, 1]
  scatterDimsToOperandDims := [0, 1]
  indexVectorDim := 1
  wf := scatter_S10240x10240_S170000x2_S170000_n_01_01_1_wf
def dot_S512x1024_S1024x128_S512x128_1_0_0_1_n_n : DotDims S512x1024 S1024x128 S512x128 where
  lhsContracting := [1]
  rhsContracting := [0]
  lhsNonContracting := [0]
  rhsNonContracting := [1]
  lhsBatch := []
  rhsBatch := []
  wf := dot_S512x1024_S1024x128_S512x128_1_0_0_1_n_n_wf
def dot_S1024x128_S128x1024_S1024x1024_1_0_0_1_n_n : DotDims S1024x128 S128x1024 S1024x1024 where
  lhsContracting := [1]
  rhsContracting := [0]
  lhsNonContracting := [0]
  rhsNonContracting := [1]
  lhsBatch := []
  rhsBatch := []
  wf := dot_S1024x128_S128x1024_S1024x1024_1_0_0_1_n_n_wf
def dot_S1024x1024_S1024x1024_S1024x1024_1_0_0_1_n_n : DotDims S1024x1024 S1024x1024 S1024x1024 where
  lhsContracting := [1]
  rhsContracting := [0]
  lhsNonContracting := [0]
  rhsNonContracting := [1]
  lhsBatch := []
  rhsBatch := []
  wf := dot_S1024x1024_S1024x1024_S1024x1024_1_0_0_1_n_n_wf
def dot_S512x1024_S1024x1024_S512x1024_1_0_0_1_n_n : DotDims S512x1024 S1024x1024 S512x1024 where
  lhsContracting := [1]
  rhsContracting := [0]
  lhsNonContracting := [0]
  rhsNonContracting := [1]
  lhsBatch := []
  rhsBatch := []
  wf := dot_S512x1024_S1024x1024_S512x1024_1_0_0_1_n_n_wf
def dot_S1024x1024_S1024x256_S1024x256_1_0_0_1_n_n : DotDims S1024x1024 S1024x256 S1024x256 where
  lhsContracting := [1]
  rhsContracting := [0]
  lhsNonContracting := [0]
  rhsNonContracting := [1]
  lhsBatch := []
  rhsBatch := []
  wf := dot_S1024x1024_S1024x256_S1024x256_1_0_0_1_n_n_wf
def dot_S512x1024_S1024x256_S512x256_1_0_0_1_n_n : DotDims S512x1024 S1024x256 S512x256 where
  lhsContracting := [1]
  rhsContracting := [0]
  lhsNonContracting := [0]
  rhsNonContracting := [1]
  lhsBatch := []
  rhsBatch := []
  wf := dot_S512x1024_S1024x256_S512x256_1_0_0_1_n_n_wf

abbrev win0_0 : Pipeline.Window sig grid0 :=
  Pipeline.Window.ofSpec (Memref.whole main_v47) S512x1024.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v49) S10240x128.size cc0_transform_1 reads0_1 false true 1 stage0_1 sem0_1
    hrank0 hreads0_1 hinb0_1 nbuf0_1 (Memref.isWhole_whole _) hwx0_1 hstage0_1

abbrev win0_2 : Pipeline.Window sig grid0 :=
  Pipeline.Window.ofSpec (Memref.whole main_v59) S1x128.size cc0_transform_2 reads0_2 false true 1 stage0_2 sem0_2
    hrank0 hreads0_2 hinb0_2 nbuf0_2 (Memref.isWhole_whole _) hwx0_2 hstage0_2

abbrev win0_3 : Pipeline.Window sig grid0 :=
  Pipeline.Window.ofSpec (Memref.whole main_v60) S512x128.size cc0_transform_3 reads0_3 true false 2 stage0_3 sem0_3
    hrank0 hreads0_3 hinb0_3 nbuf0_3 (Memref.isWhole_whole _) hwx0_3 hstage0_3

abbrev win0 : Fin 4 → Pipeline.Window sig grid0 := fun | 0 => win0_0 | 1 => win0_1 | 2 => win0_2 | 3 => win0_3 | ⟨_ + 4, h⟩ => absurd h (Nat.not_lt.2 (Nat.le_add_left _ _))
abbrev spec0 : Fin 4 → Pipeline.WinSpec sig grid0.rank := fun w => (win0 w).toWinSpec

abbrev idle0 : Fin 4 → grid0.Coords → Bool := fun | 0 => fun _ => false | 1 => fun _ => false | 2 => fun _ => false | 3 => fun i => !(k0_cond2 i == 1#1) | ⟨_ + 4, h⟩ => absurd h (Nat.not_lt.2 (Nat.le_add_left _ _))

abbrev win1_0 : Pipeline.Window sig grid1 :=
  Pipeline.Window.ofSpec (Memref.whole main_v60) S1024x128.size cc1_transform_0 reads1_0 false false 2 stage1_0 sem1_0
    hrank1 hreads1_0 hinb1_0 nbuf1_0 (Memref.isWhole_whole _) hwx1_0 hstage1_0

abbrev win1_1 : Pipeline.Window sig grid1 :=
  Pipeline.Window.ofSpec (Memref.whole main_v51) S128x1024.size cc1_transform_1 reads1_1 false true 1 stage1_1 sem1_1
    hrank1 hreads1_1 hinb1_1 nbuf1_1 (Memref.isWhole_whole _) hwx1_1 hstage1_1

abbrev win1_2 : Pipeline.Window sig grid1 :=
  Pipeline.Window.ofSpec (Memref.whole main_v61) S1x1024.size cc1_transform_2 reads1_2 false true 1 stage1_2 sem1_2
    hrank1 hreads1_2 hinb1_2 nbuf1_2 (Memref.isWhole_whole _) hwx1_2 hstage1_2

abbrev win1_3 : Pipeline.Window sig grid1 :=
  Pipeline.Window.ofSpec (Memref.whole main_v62) S1024x1024.size cc1_transform_3 reads1_3 true false 2 stage1_3 sem1_3
    hrank1 hreads1_3 hinb1_3 nbuf1_3 (Memref.isWhole_whole _) hwx1_3 hstage1_3

abbrev win1 : Fin 4 → Pipeline.Window sig grid1 := fun | 0 => win1_0 | 1 => win1_1 | 2 => win1_2 | 3 => win1_3 | ⟨_ + 4, h⟩ => absurd h (Nat.not_lt.2 (Nat.le_add_left _ _))
abbrev spec1 : Fin 4 → Pipeline.WinSpec sig grid1.rank := fun w => (win1 w).toWinSpec

abbrev win2_0 : Pipeline.Window sig grid2 :=
  Pipeline.Window.ofSpec (Memref.whole main_v62) S1024x1024.size cc2_transform_0 reads2_0 false false 2 stage2_0 sem2_0
    hrank2 hreads2_0 hinb2_0 nbuf2_0 (Memref.isWhole_whole _) hwx2_0 hstage2_0

abbrev win2_1 : Pipeline.Window sig grid2 :=
  Pipeline.Window.ofSpec (Memref.whole main_v64) S1024x1024.size cc2_transform_1 reads2_1 false true 1 stage2_1 sem2_1
    hrank2 hreads2_1 hinb2_1 nbuf2_1 (Memref.isWhole_whole _) hwx2_1 hstage2_1

abbrev win2_2 : Pipeline.Window sig grid2 :=
  Pipeline.Window.ofSpec (Memref.whole main_v68) S1x1024.size cc2_transform_2 reads2_2 false true 1 stage2_2 sem2_2
    hrank2 hreads2_2 hinb2_2 nbuf2_2 (Memref.isWhole_whole _) hwx2_2 hstage2_2

abbrev win2_3 : Pipeline.Window sig grid2 :=
  Pipeline.Window.ofSpec (Memref.whole main_v69) S1024x1024.size cc2_transform_3 reads2_3 true false 2 stage2_3 sem2_3
    hrank2 hreads2_3 hinb2_3 nbuf2_3 (Memref.isWhole_whole _) hwx2_3 hstage2_3

abbrev win2 : Fin 4 → Pipeline.Window sig grid2 := fun | 0 => win2_0 | 1 => win2_1 | 2 => win2_2 | 3 => win2_3 | ⟨_ + 4, h⟩ => absurd h (Nat.not_lt.2 (Nat.le_add_left _ _))
abbrev spec2 : Fin 4 → Pipeline.WinSpec sig grid2.rank := fun w => (win2 w).toWinSpec

abbrev win3_0 : Pipeline.Window sig grid3 :=
  Pipeline.Window.ofSpec (Memref.whole main_v47) S512x1024.size cc3_transform_0 reads3_0 false false 2 stage3_0 sem3_0
    hrank3 hreads3_0 hinb3_0 nbuf3_0 (Memref.isWhole_whole _) hwx3_0 hstage3_0

abbrev win3_1 : Pipeline.Window sig grid3 :=
  Pipeline.Window.ofSpec (Memref.whole main_v69) S10240x1024.size cc3_transform_1 reads3_1 false true 1 stage3_1 sem3_1
    hrank3 hreads3_1 hinb3_1 nbuf3_1 (Memref.isWhole_whole _) hwx3_1 hstage3_1

abbrev win3_2 : Pipeline.Window sig grid3 :=
  Pipeline.Window.ofSpec (Memref.whole main_v70) S1x1024.size cc3_transform_2 reads3_2 false true 1 stage3_2 sem3_2
    hrank3 hreads3_2 hinb3_2 nbuf3_2 (Memref.isWhole_whole _) hwx3_2 hstage3_2

abbrev win3_3 : Pipeline.Window sig grid3 :=
  Pipeline.Window.ofSpec (Memref.whole main_v71) S512x1024.size cc3_transform_3 reads3_3 true false 2 stage3_3 sem3_3
    hrank3 hreads3_3 hinb3_3 nbuf3_3 (Memref.isWhole_whole _) hwx3_3 hstage3_3

abbrev win3 : Fin 4 → Pipeline.Window sig grid3 := fun | 0 => win3_0 | 1 => win3_1 | 2 => win3_2 | 3 => win3_3 | ⟨_ + 4, h⟩ => absurd h (Nat.not_lt.2 (Nat.le_add_left _ _))
abbrev spec3 : Fin 4 → Pipeline.WinSpec sig grid3.rank := fun w => (win3 w).toWinSpec

abbrev idle3 : Fin 4 → grid3.Coords → Bool := fun | 0 => fun _ => false | 1 => fun _ => false | 2 => fun _ => false | 3 => fun i => !(k3_cond2 i == 1#1) | ⟨_ + 4, h⟩ => absurd h (Nat.not_lt.2 (Nat.le_add_left _ _))

abbrev win4_0 : Pipeline.Window sig grid4 :=
  Pipeline.Window.ofSpec (Memref.whole main_v71) S1024x1024.size cc4_transform_0 reads4_0 false false 2 stage4_0 sem4_0
    hrank4 hreads4_0 hinb4_0 nbuf4_0 (Memref.isWhole_whole _) hwx4_0 hstage4_0

abbrev win4_1 : Pipeline.Window sig grid4 :=
  Pipeline.Window.ofSpec (Memref.whole main_v73) S1024x1024.size cc4_transform_1 reads4_1 false true 1 stage4_1 sem4_1
    hrank4 hreads4_1 hinb4_1 nbuf4_1 (Memref.isWhole_whole _) hwx4_1 hstage4_1

abbrev win4_2 : Pipeline.Window sig grid4 :=
  Pipeline.Window.ofSpec (Memref.whole main_v77) S1x1024.size cc4_transform_2 reads4_2 false true 1 stage4_2 sem4_2
    hrank4 hreads4_2 hinb4_2 nbuf4_2 (Memref.isWhole_whole _) hwx4_2 hstage4_2

abbrev win4_3 : Pipeline.Window sig grid4 :=
  Pipeline.Window.ofSpec (Memref.whole main_v78) S1024x1024.size cc4_transform_3 reads4_3 true false 2 stage4_3 sem4_3
    hrank4 hreads4_3 hinb4_3 nbuf4_3 (Memref.isWhole_whole _) hwx4_3 hstage4_3

abbrev win4 : Fin 4 → Pipeline.Window sig grid4 := fun | 0 => win4_0 | 1 => win4_1 | 2 => win4_2 | 3 => win4_3 | ⟨_ + 4, h⟩ => absurd h (Nat.not_lt.2 (Nat.le_add_left _ _))
abbrev spec4 : Fin 4 → Pipeline.WinSpec sig grid4.rank := fun w => (win4 w).toWinSpec

abbrev win5_0 : Pipeline.Window sig grid5 :=
  Pipeline.Window.ofSpec (Memref.whole main_v47) S512x1024.size cc5_transform_0 reads5_0 false false 2 stage5_0 sem5_0
    hrank5 hreads5_0 hinb5_0 nbuf5_0 (Memref.isWhole_whole _) hwx5_0 hstage5_0

abbrev win5_1 : Pipeline.Window sig grid5 :=
  Pipeline.Window.ofSpec (Memref.whole main_v78) S10240x1024.size cc5_transform_1 reads5_1 false true 1 stage5_1 sem5_1
    hrank5 hreads5_1 hinb5_1 nbuf5_1 (Memref.isWhole_whole _) hwx5_1 hstage5_1

abbrev win5_2 : Pipeline.Window sig grid5 :=
  Pipeline.Window.ofSpec (Memref.whole main_v79) S1x1024.size cc5_transform_2 reads5_2 false true 1 stage5_2 sem5_2
    hrank5 hreads5_2 hinb5_2 nbuf5_2 (Memref.isWhole_whole _) hwx5_2 hstage5_2

abbrev win5_3 : Pipeline.Window sig grid5 :=
  Pipeline.Window.ofSpec (Memref.whole main_v80) S512x1024.size cc5_transform_3 reads5_3 true false 2 stage5_3 sem5_3
    hrank5 hreads5_3 hinb5_3 nbuf5_3 (Memref.isWhole_whole _) hwx5_3 hstage5_3

abbrev win5 : Fin 4 → Pipeline.Window sig grid5 := fun | 0 => win5_0 | 1 => win5_1 | 2 => win5_2 | 3 => win5_3 | ⟨_ + 4, h⟩ => absurd h (Nat.not_lt.2 (Nat.le_add_left _ _))
abbrev spec5 : Fin 4 → Pipeline.WinSpec sig grid5.rank := fun w => (win5 w).toWinSpec

abbrev idle5 : Fin 4 → grid5.Coords → Bool := fun | 0 => fun _ => false | 1 => fun _ => false | 2 => fun _ => false | 3 => fun i => !(k5_cond2 i == 1#1) | ⟨_ + 4, h⟩ => absurd h (Nat.not_lt.2 (Nat.le_add_left _ _))

abbrev win6_0 : Pipeline.Window sig grid6 :=
  Pipeline.Window.ofSpec (Memref.whole main_v80) S1024x1024.size cc6_transform_0 reads6_0 false false 2 stage6_0 sem6_0
    hrank6 hreads6_0 hinb6_0 nbuf6_0 (Memref.isWhole_whole _) hwx6_0 hstage6_0

abbrev win6_1 : Pipeline.Window sig grid6 :=
  Pipeline.Window.ofSpec (Memref.whole main_v82) S1024x1024.size cc6_transform_1 reads6_1 false true 1 stage6_1 sem6_1
    hrank6 hreads6_1 hinb6_1 nbuf6_1 (Memref.isWhole_whole _) hwx6_1 hstage6_1

abbrev win6_2 : Pipeline.Window sig grid6 :=
  Pipeline.Window.ofSpec (Memref.whole main_v86) S1x1024.size cc6_transform_2 reads6_2 false true 1 stage6_2 sem6_2
    hrank6 hreads6_2 hinb6_2 nbuf6_2 (Memref.isWhole_whole _) hwx6_2 hstage6_2

abbrev win6_3 : Pipeline.Window sig grid6 :=
  Pipeline.Window.ofSpec (Memref.whole main_v87) S1024x1024.size cc6_transform_3 reads6_3 true false 2 stage6_3 sem6_3
    hrank6 hreads6_3 hinb6_3 nbuf6_3 (Memref.isWhole_whole _) hwx6_3 hstage6_3

abbrev win6 : Fin 4 → Pipeline.Window sig grid6 := fun | 0 => win6_0 | 1 => win6_1 | 2 => win6_2 | 3 => win6_3 | ⟨_ + 4, h⟩ => absurd h (Nat.not_lt.2 (Nat.le_add_left _ _))
abbrev spec6 : Fin 4 → Pipeline.WinSpec sig grid6.rank := fun w => (win6 w).toWinSpec

abbrev win7_0 : Pipeline.Window sig grid7 :=
  Pipeline.Window.ofSpec (Memref.whole main_v47) S512x1024.size cc7_transform_0 reads7_0 false false 2 stage7_0 sem7_0
    hrank7 hreads7_0 hinb7_0 nbuf7_0 (Memref.isWhole_whole _) hwx7_0 hstage7_0

abbrev win7_1 : Pipeline.Window sig grid7 :=
  Pipeline.Window.ofSpec (Memref.whole main_v87) S10240x1024.size cc7_transform_1 reads7_1 false true 1 stage7_1 sem7_1
    hrank7 hreads7_1 hinb7_1 nbuf7_1 (Memref.isWhole_whole _) hwx7_1 hstage7_1

abbrev win7_2 : Pipeline.Window sig grid7 :=
  Pipeline.Window.ofSpec (Memref.whole main_v88) S1x1024.size cc7_transform_2 reads7_2 false true 1 stage7_2 sem7_2
    hrank7 hreads7_2 hinb7_2 nbuf7_2 (Memref.isWhole_whole _) hwx7_2 hstage7_2

abbrev win7_3 : Pipeline.Window sig grid7 :=
  Pipeline.Window.ofSpec (Memref.whole main_v89) S512x1024.size cc7_transform_3 reads7_3 true false 2 stage7_3 sem7_3
    hrank7 hreads7_3 hinb7_3 nbuf7_3 (Memref.isWhole_whole _) hwx7_3 hstage7_3

abbrev win7 : Fin 4 → Pipeline.Window sig grid7 := fun | 0 => win7_0 | 1 => win7_1 | 2 => win7_2 | 3 => win7_3 | ⟨_ + 4, h⟩ => absurd h (Nat.not_lt.2 (Nat.le_add_left _ _))
abbrev spec7 : Fin 4 → Pipeline.WinSpec sig grid7.rank := fun w => (win7 w).toWinSpec

abbrev idle7 : Fin 4 → grid7.Coords → Bool := fun | 0 => fun _ => false | 1 => fun _ => false | 2 => fun _ => false | 3 => fun i => !(k7_cond2 i == 1#1) | ⟨_ + 4, h⟩ => absurd h (Nat.not_lt.2 (Nat.le_add_left _ _))

abbrev win8_0 : Pipeline.Window sig grid8 :=
  Pipeline.Window.ofSpec (Memref.whole main_v89) S1024x1024.size cc8_transform_0 reads8_0 false false 2 stage8_0 sem8_0
    hrank8 hreads8_0 hinb8_0 nbuf8_0 (Memref.isWhole_whole _) hwx8_0 hstage8_0

abbrev win8_1 : Pipeline.Window sig grid8 :=
  Pipeline.Window.ofSpec (Memref.whole main_v91) S1024x1024.size cc8_transform_1 reads8_1 false true 1 stage8_1 sem8_1
    hrank8 hreads8_1 hinb8_1 nbuf8_1 (Memref.isWhole_whole _) hwx8_1 hstage8_1

abbrev win8_2 : Pipeline.Window sig grid8 :=
  Pipeline.Window.ofSpec (Memref.whole main_v95) S1x1024.size cc8_transform_2 reads8_2 false true 1 stage8_2 sem8_2
    hrank8 hreads8_2 hinb8_2 nbuf8_2 (Memref.isWhole_whole _) hwx8_2 hstage8_2

abbrev win8_3 : Pipeline.Window sig grid8 :=
  Pipeline.Window.ofSpec (Memref.whole main_v96) S1024x1024.size cc8_transform_3 reads8_3 true false 2 stage8_3 sem8_3
    hrank8 hreads8_3 hinb8_3 nbuf8_3 (Memref.isWhole_whole _) hwx8_3 hstage8_3

abbrev win8 : Fin 4 → Pipeline.Window sig grid8 := fun | 0 => win8_0 | 1 => win8_1 | 2 => win8_2 | 3 => win8_3 | ⟨_ + 4, h⟩ => absurd h (Nat.not_lt.2 (Nat.le_add_left _ _))
abbrev spec8 : Fin 4 → Pipeline.WinSpec sig grid8.rank := fun w => (win8 w).toWinSpec

abbrev win9_0 : Pipeline.Window sig grid9 :=
  Pipeline.Window.ofSpec (Memref.whole main_v47) S512x1024.size cc9_transform_0 reads9_0 false false 2 stage9_0 sem9_0
    hrank9 hreads9_0 hinb9_0 nbuf9_0 (Memref.isWhole_whole _) hwx9_0 hstage9_0

abbrev win9_1 : Pipeline.Window sig grid9 :=
  Pipeline.Window.ofSpec (Memref.whole main_v96) S10240x1024.size cc9_transform_1 reads9_1 false true 1 stage9_1 sem9_1
    hrank9 hreads9_1 hinb9_1 nbuf9_1 (Memref.isWhole_whole _) hwx9_1 hstage9_1

abbrev win9_2 : Pipeline.Window sig grid9 :=
  Pipeline.Window.ofSpec (Memref.whole main_v97) S1x1024.size cc9_transform_2 reads9_2 false true 1 stage9_2 sem9_2
    hrank9 hreads9_2 hinb9_2 nbuf9_2 (Memref.isWhole_whole _) hwx9_2 hstage9_2

abbrev win9_3 : Pipeline.Window sig grid9 :=
  Pipeline.Window.ofSpec (Memref.whole main_v98) S512x1024.size cc9_transform_3 reads9_3 true false 2 stage9_3 sem9_3
    hrank9 hreads9_3 hinb9_3 nbuf9_3 (Memref.isWhole_whole _) hwx9_3 hstage9_3

abbrev win9 : Fin 4 → Pipeline.Window sig grid9 := fun | 0 => win9_0 | 1 => win9_1 | 2 => win9_2 | 3 => win9_3 | ⟨_ + 4, h⟩ => absurd h (Nat.not_lt.2 (Nat.le_add_left _ _))
abbrev spec9 : Fin 4 → Pipeline.WinSpec sig grid9.rank := fun w => (win9 w).toWinSpec

abbrev idle9 : Fin 4 → grid9.Coords → Bool := fun | 0 => fun _ => false | 1 => fun _ => false | 2 => fun _ => false | 3 => fun i => !(k9_cond2 i == 1#1) | ⟨_ + 4, h⟩ => absurd h (Nat.not_lt.2 (Nat.le_add_left _ _))

abbrev win10_0 : Pipeline.Window sig grid10 :=
  Pipeline.Window.ofSpec (Memref.whole main_v98) S1024x1024.size cc10_transform_0 reads10_0 false false 2 stage10_0 sem10_0
    hrank10 hreads10_0 hinb10_0 nbuf10_0 (Memref.isWhole_whole _) hwx10_0 hstage10_0

abbrev win10_1 : Pipeline.Window sig grid10 :=
  Pipeline.Window.ofSpec (Memref.whole main_v100) S1024x1024.size cc10_transform_1 reads10_1 false true 1 stage10_1 sem10_1
    hrank10 hreads10_1 hinb10_1 nbuf10_1 (Memref.isWhole_whole _) hwx10_1 hstage10_1

abbrev win10_2 : Pipeline.Window sig grid10 :=
  Pipeline.Window.ofSpec (Memref.whole main_v104) S1x1024.size cc10_transform_2 reads10_2 false true 1 stage10_2 sem10_2
    hrank10 hreads10_2 hinb10_2 nbuf10_2 (Memref.isWhole_whole _) hwx10_2 hstage10_2

abbrev win10_3 : Pipeline.Window sig grid10 :=
  Pipeline.Window.ofSpec (Memref.whole main_v105) S1024x1024.size cc10_transform_3 reads10_3 true false 2 stage10_3 sem10_3
    hrank10 hreads10_3 hinb10_3 nbuf10_3 (Memref.isWhole_whole _) hwx10_3 hstage10_3

abbrev win10 : Fin 4 → Pipeline.Window sig grid10 := fun | 0 => win10_0 | 1 => win10_1 | 2 => win10_2 | 3 => win10_3 | ⟨_ + 4, h⟩ => absurd h (Nat.not_lt.2 (Nat.le_add_left _ _))
abbrev spec10 : Fin 4 → Pipeline.WinSpec sig grid10.rank := fun w => (win10 w).toWinSpec

abbrev win11_0 : Pipeline.Window sig grid11 :=
  Pipeline.Window.ofSpec (Memref.whole main_v47) S512x1024.size cc11_transform_0 reads11_0 false false 2 stage11_0 sem11_0
    hrank11 hreads11_0 hinb11_0 nbuf11_0 (Memref.isWhole_whole _) hwx11_0 hstage11_0

abbrev win11_1 : Pipeline.Window sig grid11 :=
  Pipeline.Window.ofSpec (Memref.whole main_v105) S10240x1024.size cc11_transform_1 reads11_1 false true 1 stage11_1 sem11_1
    hrank11 hreads11_1 hinb11_1 nbuf11_1 (Memref.isWhole_whole _) hwx11_1 hstage11_1

abbrev win11_2 : Pipeline.Window sig grid11 :=
  Pipeline.Window.ofSpec (Memref.whole main_v106) S1x1024.size cc11_transform_2 reads11_2 false true 1 stage11_2 sem11_2
    hrank11 hreads11_2 hinb11_2 nbuf11_2 (Memref.isWhole_whole _) hwx11_2 hstage11_2

abbrev win11_3 : Pipeline.Window sig grid11 :=
  Pipeline.Window.ofSpec (Memref.whole main_v107) S512x1024.size cc11_transform_3 reads11_3 true false 2 stage11_3 sem11_3
    hrank11 hreads11_3 hinb11_3 nbuf11_3 (Memref.isWhole_whole _) hwx11_3 hstage11_3

abbrev win11 : Fin 4 → Pipeline.Window sig grid11 := fun | 0 => win11_0 | 1 => win11_1 | 2 => win11_2 | 3 => win11_3 | ⟨_ + 4, h⟩ => absurd h (Nat.not_lt.2 (Nat.le_add_left _ _))
abbrev spec11 : Fin 4 → Pipeline.WinSpec sig grid11.rank := fun w => (win11 w).toWinSpec

abbrev idle11 : Fin 4 → grid11.Coords → Bool := fun | 0 => fun _ => false | 1 => fun _ => false | 2 => fun _ => false | 3 => fun i => !(k11_cond2 i == 1#1) | ⟨_ + 4, h⟩ => absurd h (Nat.not_lt.2 (Nat.le_add_left _ _))

abbrev win12_0 : Pipeline.Window sig grid12 :=
  Pipeline.Window.ofSpec (Memref.whole main_v107) S1024x1024.size cc12_transform_0 reads12_0 false false 2 stage12_0 sem12_0
    hrank12 hreads12_0 hinb12_0 nbuf12_0 (Memref.isWhole_whole _) hwx12_0 hstage12_0

abbrev win12_1 : Pipeline.Window sig grid12 :=
  Pipeline.Window.ofSpec (Memref.whole main_v57) S1024x256.size cc12_transform_1 reads12_1 false true 1 stage12_1 sem12_1
    hrank12 hreads12_1 hinb12_1 nbuf12_1 (Memref.isWhole_whole _) hwx12_1 hstage12_1

abbrev win12_2 : Pipeline.Window sig grid12 :=
  Pipeline.Window.ofSpec (Memref.whole main_v109) S1x256.size cc12_transform_2 reads12_2 false true 1 stage12_2 sem12_2
    hrank12 hreads12_2 hinb12_2 nbuf12_2 (Memref.isWhole_whole _) hwx12_2 hstage12_2

abbrev win12_3 : Pipeline.Window sig grid12 :=
  Pipeline.Window.ofSpec (Memref.whole main_v110) S1024x256.size cc12_transform_3 reads12_3 true false 2 stage12_3 sem12_3
    hrank12 hreads12_3 hinb12_3 nbuf12_3 (Memref.isWhole_whole _) hwx12_3 hstage12_3

abbrev win12 : Fin 4 → Pipeline.Window sig grid12 := fun | 0 => win12_0 | 1 => win12_1 | 2 => win12_2 | 3 => win12_3 | ⟨_ + 4, h⟩ => absurd h (Nat.not_lt.2 (Nat.le_add_left _ _))
abbrev spec12 : Fin 4 → Pipeline.WinSpec sig grid12.rank := fun w => (win12 w).toWinSpec

abbrev win13_0 : Pipeline.Window sig grid13 :=
  Pipeline.Window.ofSpec (Memref.whole main_v47) S512x1024.size cc13_transform_0 reads13_0 false false 2 stage13_0 sem13_0
    hrank13 hreads13_0 hinb13_0 nbuf13_0 (Memref.isWhole_whole _) hwx13_0 hstage13_0

abbrev win13_1 : Pipeline.Window sig grid13 :=
  Pipeline.Window.ofSpec (Memref.whole main_v110) S10240x256.size cc13_transform_1 reads13_1 false true 1 stage13_1 sem13_1
    hrank13 hreads13_1 hinb13_1 nbuf13_1 (Memref.isWhole_whole _) hwx13_1 hstage13_1

abbrev win13_2 : Pipeline.Window sig grid13 :=
  Pipeline.Window.ofSpec (Memref.whole main_v111) S1x256.size cc13_transform_2 reads13_2 false true 1 stage13_2 sem13_2
    hrank13 hreads13_2 hinb13_2 nbuf13_2 (Memref.isWhole_whole _) hwx13_2 hstage13_2

abbrev win13_3 : Pipeline.Window sig grid13 :=
  Pipeline.Window.ofSpec (Memref.whole main_v112) S512x256.size cc13_transform_3 reads13_3 true false 2 stage13_3 sem13_3
    hrank13 hreads13_3 hinb13_3 nbuf13_3 (Memref.isWhole_whole _) hwx13_3 hstage13_3

abbrev win13 : Fin 4 → Pipeline.Window sig grid13 := fun | 0 => win13_0 | 1 => win13_1 | 2 => win13_2 | 3 => win13_3 | ⟨_ + 4, h⟩ => absurd h (Nat.not_lt.2 (Nat.le_add_left _ _))
abbrev spec13 : Fin 4 → Pipeline.WinSpec sig grid13.rank := fun w => (win13 w).toWinSpec

abbrev idle13 : Fin 4 → grid13.Coords → Bool := fun | 0 => fun _ => false | 1 => fun _ => false | 2 => fun _ => false | 3 => fun i => !(k13_cond2 i == 1#1) | ⟨_ + 4, h⟩ => absurd h (Nat.not_lt.2 (Nat.le_add_left _ _))

class Facts : Prop extends Facts₀ where

variable [Facts]
-- ==== ReferenceIdeal.lean ====
abbrev S10000x128 : Shape := ⟨2, ![10000, 128]⟩
abbrev S2x160000 : Shape := ⟨2, ![2, 160000]⟩
abbrev S160000 : Shape := ⟨1, ![160000]⟩
abbrev S128x1000 : Shape := ⟨2, ![128, 1000]⟩
abbrev S1000 : Shape := ⟨1, ![1000]⟩
abbrev S5x1000x1000 : Shape := ⟨3, ![5, 1000, 1000]⟩
abbrev S5x1000 : Shape := ⟨2, ![5, 1000]⟩
abbrev S1000x256 : Shape := ⟨2, ![1000, 256]⟩
abbrev S256 : Shape := ⟨1, ![256]⟩
abbrev S10000 : Shape := ⟨1, ![10000]⟩
abbrev S1x160000 : Shape := ⟨2, ![1, 160000]⟩
abbrev S170000 : Shape := ⟨1, ![170000]⟩
abbrev S_ : Shape := ⟨0, ![]⟩
abbrev S170000x1 : Shape := ⟨2, ![170000, 1]⟩
abbrev S10000x1000 : Shape := ⟨2, ![10000, 1000]⟩
abbrev S170000x1000 : Shape := ⟨2, ![170000, 1000]⟩
abbrev S1x1000 : Shape := ⟨2, ![1, 1000]⟩
abbrev S1x1000x1000 : Shape := ⟨3, ![1, 1000, 1000]⟩
abbrev S1000x1000 : Shape := ⟨2, ![1000, 1000]⟩
abbrev S10000x256 : Shape := ⟨2, ![10000, 256]⟩
abbrev S170000x256 : Shape := ⟨2, ![170000, 256]⟩
abbrev S1x256 : Shape := ⟨2, ![1, 256]⟩

abbrev nBuf : Space → Nat
  | .hbm => 229
  | .vmem => 0
  | .smem => 0
  | _ => 0

abbrev hbmTy0_0 (i : Nat) : BufTy := match i % 128 with
  | 0 => ⟨S10000x128, .f32⟩
  | 1 => ⟨S2x160000, .i32⟩
  | 2 => ⟨S160000, .f32⟩
  | 3 => ⟨S128x1000, .f32⟩
  | 4 => ⟨S1000, .f32⟩
  | 5 => ⟨S5x1000x1000, .f32⟩
  | 6 => ⟨S5x1000, .f32⟩
  | 7 => ⟨S1000x256, .f32⟩
  | 8 => ⟨S256, .f32⟩
  | 9 => ⟨S10000, .i32⟩
  | 10 => ⟨S1x160000, .i32⟩
  | 11 => ⟨S160000, .i32⟩
  | 12 => ⟨S170000, .i32⟩
  | 13 => ⟨S1x160000, .i32⟩
  | 14 => ⟨S160000, .i32⟩
  | 15 => ⟨S170000, .i32⟩
  | 16 => ⟨S_, .f32⟩
  | 17 => ⟨S10000, .f32⟩
  | 18 => ⟨S170000, .f32⟩
  | 19 => ⟨S_, .f32⟩
  | 20 => ⟨S10000, .f32⟩
  | 21 => ⟨S170000x1, .i32⟩
  | 22 => ⟨S10000, .f32⟩
  | 23 => ⟨S_, .f32⟩
  | 24 => ⟨S10000, .f32⟩
  | 25 => ⟨S10000, .i1⟩
  | 26 => ⟨S10000, .f32⟩
  | 27 => ⟨S_, .f32⟩
  | 28 => ⟨S_, .f32⟩
  | 29 => ⟨S10000, .f32⟩
  | 30 => ⟨S10000, .f32⟩
  | 31 => ⟨S_, .i32⟩
  | 32 => ⟨S170000, .i32⟩
  | 33 => ⟨S170000, .i1⟩
  | 34 => ⟨S_, .i32⟩
  | 35 => ⟨S170000, .i32⟩
  | 36 => ⟨S170000, .i32⟩
  | 37 => ⟨S170000, .i32⟩
  | 38 => ⟨S170000x1, .i32⟩
  | 39 => ⟨S170000, .f32⟩
  | 40 => ⟨S170000, .f32⟩
  | 41 => ⟨S_, .i32⟩
  | 42 => ⟨S170000, .i32⟩
  | 43 => ⟨S170000, .i1⟩
  | 44 => ⟨S_, .i32⟩
  | 45 => ⟨S170000, .i32⟩
  | 46 => ⟨S170000, .i32⟩
  | 47 => ⟨S170000, .i32⟩
  | 48 => ⟨S170000x1, .i32⟩
  | 49 => ⟨S170000, .f32⟩
  | 50 => ⟨S170000, .f32⟩
  | 51 => ⟨S10000x1000, .f32⟩
  | 52 => ⟨S170000x1, .f32⟩
  | 53 => ⟨S_, .i32⟩
  | 54 => ⟨S170000, .i32⟩
  | 55 => ⟨S170000, .i1⟩
  | 56 => ⟨S_, .i32⟩
  | 57 => ⟨S170000, .i32⟩
  | 58 => ⟨S170000, .i32⟩
  | 59 => ⟨S170000, .i32⟩
  | 60 => ⟨S170000x1, .i32⟩
  | 61 => ⟨S170000x1000, .f32⟩
  | 62 => ⟨S170000x1000, .f32⟩
  | 63 => ⟨S170000x1000, .f32⟩
  | 64 => ⟨S_, .f32⟩
  | 65 => ⟨S10000x1000, .f32⟩
  | 66 => ⟨S170000x1, .i32⟩
  | 67 => ⟨S10000x1000, .f32⟩
  | 68 => ⟨S1x1000, .f32⟩
  | 69 => ⟨S10000x1000, .f32⟩
  | 70 => ⟨S10000x1000, .f32⟩
  | 71 => ⟨S_, .f32⟩
  | 72 => ⟨S10000x1000, .f32⟩
  | 73 => ⟨S10000x1000, .f32⟩
  | 74 => ⟨S1x1000x1000, .f32⟩
  | 75 => ⟨S1000x1000, .f32⟩
  | 76 => ⟨S1x1000, .f32⟩
  | 77 => ⟨S1000, .f32⟩
  | 78 => ⟨S10000x1000, .f32⟩
  | 79 => ⟨S170000x1, .f32⟩
  | 80 => ⟨S_, .i32⟩
  | 81 => ⟨S170000, .i32⟩
  | 82 => ⟨S170000, .i1⟩
  | 83 => ⟨S_, .i32⟩
  | 84 => ⟨S170000, .i32⟩
  | 85 => ⟨S170000, .i32⟩
  | 86 => ⟨S170000, .i32⟩
  | 87 => ⟨S170000x1, .i32⟩
  | 88 => ⟨S170000x1000, .f32⟩
  | 89 => ⟨S170000x1000, .f32⟩
  | 90 => ⟨S170000x1000, .f32⟩
  | 91 => ⟨S_, .f32⟩
  | 92 => ⟨S10000x1000, .f32⟩
  | 93 => ⟨S170000x1, .i32⟩
  | 94 => ⟨S10000x1000, .f32⟩
  | 95 => ⟨S1x1000, .f32⟩
  | 96 => ⟨S10000x1000, .f32⟩
  | 97 => ⟨S10000x1000, .f32⟩
  | 98 => ⟨S_, .f32⟩
  | 99 => ⟨S10000x1000, .f32⟩
  | 100 => ⟨S10000x1000, .f32⟩
  | 101 => ⟨S1x1000x1000, .f32⟩
  | 102 => ⟨S1000x1000, .f32⟩
  | 103 => ⟨S1x1000, .f32⟩
  | 104 => ⟨S1000, .f32⟩
  | 105 => ⟨S10000x1000, .f32⟩
  | 106 => ⟨S170000x1, .f32⟩
  | 107 => ⟨S_, .i32⟩
  | 108 => ⟨S170000, .i32⟩
  | 109 => ⟨S170000, .i1⟩
  | 110 => ⟨S_, .i32⟩
  | 111 => ⟨S170000, .i32⟩
  | 112 => ⟨S170000, .i32⟩
  | 113 => ⟨S170000, .i32⟩
  | 114 => ⟨S170000x1, .i32⟩
  | 115 => ⟨S170000x1000, .f32⟩
  | 116 => ⟨S170000x1000, .f32⟩
  | 117 => ⟨S170000x1000, .f32⟩
  | 118 => ⟨S_, .f32⟩
  | 119 => ⟨S10000x1000, .f32⟩
  | 120 => ⟨S170000x1, .i32⟩
  | 121 => ⟨S10000x1000, .f32⟩
  | 122 => ⟨S1x1000, .f32⟩
  | 123 => ⟨S10000x1000, .f32⟩
  | 124 => ⟨S10000x1000, .f32⟩
  | 125 => ⟨S_, .f32⟩
  | 126 => ⟨S10000x1000, .f32⟩
  | 127 => ⟨S10000x1000, .f32⟩
  | _ => ⟨S10000x128, .f32⟩

abbrev hbmTy0_1 (i : Nat) : BufTy := match i % 128 with
  | 0 => ⟨S1x1000x1000, .f32⟩
  | 1 => ⟨S1000x1000, .f32⟩
  | 2 => ⟨S1x1000, .f32⟩
  | 3 => ⟨S1000, .f32⟩
  | 4 => ⟨S10000x1000, .f32⟩
  | 5 => ⟨S170000x1, .f32⟩
  | 6 => ⟨S_, .i32⟩
  | 7 => ⟨S170000, .i32⟩
  | 8 => ⟨S170000, .i1⟩
  | 9 => ⟨S_, .i32⟩
  | 10 => ⟨S170000, .i32⟩
  | 11 => ⟨S170000, .i32⟩
  | 12 => ⟨S170000, .i32⟩
  | 13 => ⟨S170000x1, .i32⟩
  | 14 => ⟨S170000x1000, .f32⟩
  | 15 => ⟨S170000x1000, .f32⟩
  | 16 => ⟨S170000x1000, .f32⟩
  | 17 => ⟨S_, .f32⟩
  | 18 => ⟨S10000x1000, .f32⟩
  | 19 => ⟨S170000x1, .i32⟩
  | 20 => ⟨S10000x1000, .f32⟩
  | 21 => ⟨S1x1000, .f32⟩
  | 22 => ⟨S10000x1000, .f32⟩
  | 23 => ⟨S10000x1000, .f32⟩
  | 24 => ⟨S_, .f32⟩
  | 25 => ⟨S10000x1000, .f32⟩
  | 26 => ⟨S10000x1000, .f32⟩
  | 27 => ⟨S1x1000x1000, .f32⟩
  | 28 => ⟨S1000x1000, .f32⟩
  | 29 => ⟨S1x1000, .f32⟩
  | 30 => ⟨S1000, .f32⟩
  | 31 => ⟨S10000x1000, .f32⟩
  | 32 => ⟨S170000x1, .f32⟩
  | 33 => ⟨S_, .i32⟩
  | 34 => ⟨S170000, .i32⟩
  | 35 => ⟨S170000, .i1⟩
  | 36 => ⟨S_, .i32⟩
  | 37 => ⟨S170000, .i32⟩
  | 38 => ⟨S170000, .i32⟩
  | 39 => ⟨S170000, .i32⟩
  | 40 => ⟨S170000x1, .i32⟩
  | 41 => ⟨S170000x1000, .f32⟩
  | 42 => ⟨S170000x1000, .f32⟩
  | 43 => ⟨S170000x1000, .f32⟩
  | 44 => ⟨S_, .f32⟩
  | 45 => ⟨S10000x1000, .f32⟩
  | 46 => ⟨S170000x1, .i32⟩
  | 47 => ⟨S10000x1000, .f32⟩
  | 48 => ⟨S1x1000, .f32⟩
  | 49 => ⟨S10000x1000, .f32⟩
  | 50 => ⟨S10000x1000, .f32⟩
  | 51 => ⟨S_, .f32⟩
  | 52 => ⟨S10000x1000, .f32⟩
  | 53 => ⟨S10000x1000, .f32⟩
  | 54 => ⟨S1x1000x1000, .f32⟩
  | 55 => ⟨S1000x1000, .f32⟩
  | 56 => ⟨S1x1000, .f32⟩
  | 57 => ⟨S1000, .f32⟩
  | 58 => ⟨S10000x1000, .f32⟩
  | 59 => ⟨S170000x1, .f32⟩
  | 60 => ⟨S_, .i32⟩
  | 61 => ⟨S170000, .i32⟩
  | 62 => ⟨S170000, .i1⟩
  | 63 => ⟨S_, .i32⟩
  | 64 => ⟨S170000, .i32⟩
  | 65 => ⟨S170000, .i32⟩
  | 66 => ⟨S170000, .i32⟩
  | 67 => ⟨S170000x1, .i32⟩
  | 68 => ⟨S170000x1000, .f32⟩
  | 69 => ⟨S170000x1000, .f32⟩
  | 70 => ⟨S170000x1000, .f32⟩
  | 71 => ⟨S_, .f32⟩
  | 72 => ⟨S10000x1000, .f32⟩
  | 73 => ⟨S170000x1, .i32⟩
  | 74 => ⟨S10000x1000, .f32⟩
  | 75 => ⟨S1x1000, .f32⟩
  | 76 => ⟨S10000x1000, .f32⟩
  | 77 => ⟨S10000x1000, .f32⟩
  | 78 => ⟨S_, .f32⟩
  | 79 => ⟨S10000x1000, .f32⟩
  | 80 => ⟨S10000x1000, .f32⟩
  | 81 => ⟨S10000x256, .f32⟩
  | 82 => ⟨S170000x1, .f32⟩
  | 83 => ⟨S_, .i32⟩
  | 84 => ⟨S170000, .i32⟩
  | 85 => ⟨S170000, .i1⟩
  | 86 => ⟨S_, .i32⟩
  | 87 => ⟨S170000, .i32⟩
  | 88 => ⟨S170000, .i32⟩
  | 89 => ⟨S170000, .i32⟩
  | 90 => ⟨S170000x1, .i32⟩
  | 91 => ⟨S170000x256, .f32⟩
  | 92 => ⟨S170000x256, .f32⟩
  | 93 => ⟨S170000x256, .f32⟩
  | 94 => ⟨S_, .f32⟩
  | 95 => ⟨S10000x256, .f32⟩
  | 96 => ⟨S170000x1, .i32⟩
  | 97 => ⟨S10000x256, .f32⟩
  | 98 => ⟨S1x256, .f32⟩
  | 99 => ⟨S10000x256, .f32⟩
  | 100 => ⟨S10000x256, .f32⟩
  | _ => ⟨S10000x128, .f32⟩

abbrev hbmTy (i : Nat) : BufTy := match i / 128 with
  | 0 => hbmTy0_0 i
  | 1 => hbmTy0_1 i
  | _ => ⟨S10000x128, .f32⟩

abbrev bufTy : (tb : Table) → Fin (tcTables nBuf tb) → BufTy
  | .hbm, ⟨i, _⟩ => hbmTy i
  | _, _ => ⟨S10000x128, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_v0 : Ref sig .tc := ⟨.hbm, 9, rfl⟩
abbrev main_v1 : Ref sig .tc := ⟨.hbm, 10, rfl⟩
abbrev main_v2 : Ref sig .tc := ⟨.hbm, 11, rfl⟩
abbrev main_v3 : Ref sig .tc := ⟨.hbm, 12, rfl⟩
abbrev main_v4 : Ref sig .tc := ⟨.hbm, 13, rfl⟩
abbrev main_v5 : Ref sig .tc := ⟨.hbm, 14, rfl⟩
abbrev main_v6 : Ref sig .tc := ⟨.hbm, 15, rfl⟩
abbrev main_cst : Ref sig .tc := ⟨.hbm, 16, rfl⟩
abbrev main_v7 : Ref sig .tc := ⟨.hbm, 17, rfl⟩
abbrev main_v8 : Ref sig .tc := ⟨.hbm, 18, rfl⟩
abbrev main_cst_0 : Ref sig .tc := ⟨.hbm, 19, rfl⟩
abbrev main_v9 : Ref sig .tc := ⟨.hbm, 20, rfl⟩
abbrev main_v10 : Ref sig .tc := ⟨.hbm, 21, rfl⟩
abbrev main_v11 : Ref sig .tc := ⟨.hbm, 22, rfl⟩
abbrev main_cst_1 : Ref sig .tc := ⟨.hbm, 23, rfl⟩
abbrev main_v12 : Ref sig .tc := ⟨.hbm, 24, rfl⟩
abbrev main_v13 : Ref sig .tc := ⟨.hbm, 25, rfl⟩
abbrev main_v14 : Ref sig .tc := ⟨.hbm, 26, rfl⟩
abbrev main_cst_2 : Ref sig .tc := ⟨.hbm, 27, rfl⟩
abbrev main_call0_v0 : Ref sig .tc := ⟨.hbm, 28, rfl⟩
abbrev main_call0_v1 : Ref sig .tc := ⟨.hbm, 29, rfl⟩
abbrev main_v15 : Ref sig .tc := ⟨.hbm, 30, rfl⟩
abbrev main_c : Ref sig .tc := ⟨.hbm, 31, rfl⟩
abbrev main_v16 : Ref sig .tc := ⟨.hbm, 32, rfl⟩
abbrev main_v17 : Ref sig .tc := ⟨.hbm, 33, rfl⟩
abbrev main_c_3 : Ref sig .tc := ⟨.hbm, 34, rfl⟩
abbrev main_v18 : Ref sig .tc := ⟨.hbm, 35, rfl⟩
abbrev main_v19 : Ref sig .tc := ⟨.hbm, 36, rfl⟩
abbrev main_v20 : Ref sig .tc := ⟨.hbm, 37, rfl⟩
abbrev main_v21 : Ref sig .tc := ⟨.hbm, 38, rfl⟩
abbrev main_v22 : Ref sig .tc := ⟨.hbm, 39, rfl⟩
abbrev main_v23 : Ref sig .tc := ⟨.hbm, 40, rfl⟩
abbrev main_c_4 : Ref sig .tc := ⟨.hbm, 41, rfl⟩
abbrev main_v24 : Ref sig .tc := ⟨.hbm, 42, rfl⟩
abbrev main_v25 : Ref sig .tc := ⟨.hbm, 43, rfl⟩
abbrev main_c_5 : Ref sig .tc := ⟨.hbm, 44, rfl⟩
abbrev main_v26 : Ref sig .tc := ⟨.hbm, 45, rfl⟩
abbrev main_v27 : Ref sig .tc := ⟨.hbm, 46, rfl⟩
abbrev main_v28 : Ref sig .tc := ⟨.hbm, 47, rfl⟩
abbrev main_v29 : Ref sig .tc := ⟨.hbm, 48, rfl⟩
abbrev main_v30 : Ref sig .tc := ⟨.hbm, 49, rfl⟩
abbrev main_v31 : Ref sig .tc := ⟨.hbm, 50, rfl⟩
abbrev main_v32 : Ref sig .tc := ⟨.hbm, 51, rfl⟩
abbrev main_v33 : Ref sig .tc := ⟨.hbm, 52, rfl⟩
abbrev main_c_6 : Ref sig .tc := ⟨.hbm, 53, rfl⟩
abbrev main_v34 : Ref sig .tc := ⟨.hbm, 54, rfl⟩
abbrev main_v35 : Ref sig .tc := ⟨.hbm, 55, rfl⟩
abbrev main_c_7 : Ref sig .tc := ⟨.hbm, 56, rfl⟩
abbrev main_v36 : Ref sig .tc := ⟨.hbm, 57, rfl⟩
abbrev main_v37 : Ref sig .tc := ⟨.hbm, 58, rfl⟩
abbrev main_v38 : Ref sig .tc := ⟨.hbm, 59, rfl⟩
abbrev main_v39 : Ref sig .tc := ⟨.hbm, 60, rfl⟩
abbrev main_v40 : Ref sig .tc := ⟨.hbm, 61, rfl⟩
abbrev main_v41 : Ref sig .tc := ⟨.hbm, 62, rfl⟩
abbrev main_v42 : Ref sig .tc := ⟨.hbm, 63, rfl⟩
abbrev main_cst_8 : Ref sig .tc := ⟨.hbm, 64, rfl⟩
abbrev main_v43 : Ref sig .tc := ⟨.hbm, 65, rfl⟩
abbrev main_v44 : Ref sig .tc := ⟨.hbm, 66, rfl⟩
abbrev main_v45 : Ref sig .tc := ⟨.hbm, 67, rfl⟩
abbrev main_v46 : Ref sig .tc := ⟨.hbm, 68, rfl⟩
abbrev main_v47 : Ref sig .tc := ⟨.hbm, 69, rfl⟩
abbrev main_v48 : Ref sig .tc := ⟨.hbm, 70, rfl⟩
abbrev main_call1_cst : Ref sig .tc := ⟨.hbm, 71, rfl⟩
abbrev main_call1_v0 : Ref sig .tc := ⟨.hbm, 72, rfl⟩
abbrev main_v49 : Ref sig .tc := ⟨.hbm, 73, rfl⟩
abbrev main_v50 : Ref sig .tc := ⟨.hbm, 74, rfl⟩
abbrev main_v51 : Ref sig .tc := ⟨.hbm, 75, rfl⟩
abbrev main_v52 : Ref sig .tc := ⟨.hbm, 76, rfl⟩
abbrev main_v53 : Ref sig .tc := ⟨.hbm, 77, rfl⟩
abbrev main_v54 : Ref sig .tc := ⟨.hbm, 78, rfl⟩
abbrev main_v55 : Ref sig .tc := ⟨.hbm, 79, rfl⟩
abbrev main_c_9 : Ref sig .tc := ⟨.hbm, 80, rfl⟩
abbrev main_v56 : Ref sig .tc := ⟨.hbm, 81, rfl⟩
abbrev main_v57 : Ref sig .tc := ⟨.hbm, 82, rfl⟩
abbrev main_c_10 : Ref sig .tc := ⟨.hbm, 83, rfl⟩
abbrev main_v58 : Ref sig .tc := ⟨.hbm, 84, rfl⟩
abbrev main_v59 : Ref sig .tc := ⟨.hbm, 85, rfl⟩
abbrev main_v60 : Ref sig .tc := ⟨.hbm, 86, rfl⟩
abbrev main_v61 : Ref sig .tc := ⟨.hbm, 87, rfl⟩
abbrev main_v62 : Ref sig .tc := ⟨.hbm, 88, rfl⟩
abbrev main_v63 : Ref sig .tc := ⟨.hbm, 89, rfl⟩
abbrev main_v64 : Ref sig .tc := ⟨.hbm, 90, rfl⟩
abbrev main_cst_11 : Ref sig .tc := ⟨.hbm, 91, rfl⟩
abbrev main_v65 : Ref sig .tc := ⟨.hbm, 92, rfl⟩
abbrev main_v66 : Ref sig .tc := ⟨.hbm, 93, rfl⟩
abbrev main_v67 : Ref sig .tc := ⟨.hbm, 94, rfl⟩
abbrev main_v68 : Ref sig .tc := ⟨.hbm, 95, rfl⟩
abbrev main_v69 : Ref sig .tc := ⟨.hbm, 96, rfl⟩
abbrev main_v70 : Ref sig .tc := ⟨.hbm, 97, rfl⟩
abbrev main_call2_cst : Ref sig .tc := ⟨.hbm, 98, rfl⟩
abbrev main_call2_v0 : Ref sig .tc := ⟨.hbm, 99, rfl⟩
abbrev main_v71 : Ref sig .tc := ⟨.hbm, 100, rfl⟩
abbrev main_v72 : Ref sig .tc := ⟨.hbm, 101, rfl⟩
abbrev main_v73 : Ref sig .tc := ⟨.hbm, 102, rfl⟩
abbrev main_v74 : Ref sig .tc := ⟨.hbm, 103, rfl⟩
abbrev main_v75 : Ref sig .tc := ⟨.hbm, 104, rfl⟩
abbrev main_v76 : Ref sig .tc := ⟨.hbm, 105, rfl⟩
abbrev main_v77 : Ref sig .tc := ⟨.hbm, 106, rfl⟩
abbrev main_c_12 : Ref sig .tc := ⟨.hbm, 107, rfl⟩
abbrev main_v78 : Ref sig .tc := ⟨.hbm, 108, rfl⟩
abbrev main_v79 : Ref sig .tc := ⟨.hbm, 109, rfl⟩
abbrev main_c_13 : Ref sig .tc := ⟨.hbm, 110, rfl⟩
abbrev main_v80 : Ref sig .tc := ⟨.hbm, 111, rfl⟩
abbrev main_v81 : Ref sig .tc := ⟨.hbm, 112, rfl⟩
abbrev main_v82 : Ref sig .tc := ⟨.hbm, 113, rfl⟩
abbrev main_v83 : Ref sig .tc := ⟨.hbm, 114, rfl⟩
abbrev main_v84 : Ref sig .tc := ⟨.hbm, 115, rfl⟩
abbrev main_v85 : Ref sig .tc := ⟨.hbm, 116, rfl⟩
abbrev main_v86 : Ref sig .tc := ⟨.hbm, 117, rfl⟩
abbrev main_cst_14 : Ref sig .tc := ⟨.hbm, 118, rfl⟩
abbrev main_v87 : Ref sig .tc := ⟨.hbm, 119, rfl⟩
abbrev main_v88 : Ref sig .tc := ⟨.hbm, 120, rfl⟩
abbrev main_v89 : Ref sig .tc := ⟨.hbm, 121, rfl⟩
abbrev main_v90 : Ref sig .tc := ⟨.hbm, 122, rfl⟩
abbrev main_v91 : Ref sig .tc := ⟨.hbm, 123, rfl⟩
abbrev main_v92 : Ref sig .tc := ⟨.hbm, 124, rfl⟩
abbrev main_call3_cst : Ref sig .tc := ⟨.hbm, 125, rfl⟩
abbrev main_call3_v0 : Ref sig .tc := ⟨.hbm, 126, rfl⟩
abbrev main_v93 : Ref sig .tc := ⟨.hbm, 127, rfl⟩
abbrev main_v94 : Ref sig .tc := ⟨.hbm, 128, rfl⟩
abbrev main_v95 : Ref sig .tc := ⟨.hbm, 129, rfl⟩
abbrev main_v96 : Ref sig .tc := ⟨.hbm, 130, rfl⟩
abbrev main_v97 : Ref sig .tc := ⟨.hbm, 131, rfl⟩
abbrev main_v98 : Ref sig .tc := ⟨.hbm, 132, rfl⟩
abbrev main_v99 : Ref sig .tc := ⟨.hbm, 133, rfl⟩
abbrev main_c_15 : Ref sig .tc := ⟨.hbm, 134, rfl⟩
abbrev main_v100 : Ref sig .tc := ⟨.hbm, 135, rfl⟩
abbrev main_v101 : Ref sig .tc := ⟨.hbm, 136, rfl⟩
abbrev main_c_16 : Ref sig .tc := ⟨.hbm, 137, rfl⟩
abbrev main_v102 : Ref sig .tc := ⟨.hbm, 138, rfl⟩
abbrev main_v103 : Ref sig .tc := ⟨.hbm, 139, rfl⟩
abbrev main_v104 : Ref sig .tc := ⟨.hbm, 140, rfl⟩
abbrev main_v105 : Ref sig .tc := ⟨.hbm, 141, rfl⟩
abbrev main_v106 : Ref sig .tc := ⟨.hbm, 142, rfl⟩
abbrev main_v107 : Ref sig .tc := ⟨.hbm, 143, rfl⟩
abbrev main_v108 : Ref sig .tc := ⟨.hbm, 144, rfl⟩
abbrev main_cst_17 : Ref sig .tc := ⟨.hbm, 145, rfl⟩
abbrev main_v109 : Ref sig .tc := ⟨.hbm, 146, rfl⟩
abbrev main_v110 : Ref sig .tc := ⟨.hbm, 147, rfl⟩
abbrev main_v111 : Ref sig .tc := ⟨.hbm, 148, rfl⟩
abbrev main_v112 : Ref sig .tc := ⟨.hbm, 149, rfl⟩
abbrev main_v113 : Ref sig .tc := ⟨.hbm, 150, rfl⟩
abbrev main_v114 : Ref sig .tc := ⟨.hbm, 151, rfl⟩
abbrev main_call4_cst : Ref sig .tc := ⟨.hbm, 152, rfl⟩
abbrev main_call4_v0 : Ref sig .tc := ⟨.hbm, 153, rfl⟩
abbrev main_v115 : Ref sig .tc := ⟨.hbm, 154, rfl⟩
abbrev main_v116 : Ref sig .tc := ⟨.hbm, 155, rfl⟩
abbrev main_v117 : Ref sig .tc := ⟨.hbm, 156, rfl⟩
abbrev main_v118 : Ref sig .tc := ⟨.hbm, 157, rfl⟩
abbrev main_v119 : Ref sig .tc := ⟨.hbm, 158, rfl⟩
abbrev main_v120 : Ref sig .tc := ⟨.hbm, 159, rfl⟩
abbrev main_v121 : Ref sig .tc := ⟨.hbm, 160, rfl⟩
abbrev main_c_18 : Ref sig .tc := ⟨.hbm, 161, rfl⟩
abbrev main_v122 : Ref sig .tc := ⟨.hbm, 162, rfl⟩
abbrev main_v123 : Ref sig .tc := ⟨.hbm, 163, rfl⟩
abbrev main_c_19 : Ref sig .tc := ⟨.hbm, 164, rfl⟩
abbrev main_v124 : Ref sig .tc := ⟨.hbm, 165, rfl⟩
abbrev main_v125 : Ref sig .tc := ⟨.hbm, 166, rfl⟩
abbrev main_v126 : Ref sig .tc := ⟨.hbm, 167, rfl⟩
abbrev main_v127 : Ref sig .tc := ⟨.hbm, 168, rfl⟩
abbrev main_v128 : Ref sig .tc := ⟨.hbm, 169, rfl⟩
abbrev main_v129 : Ref sig .tc := ⟨.hbm, 170, rfl⟩
abbrev main_v130 : Ref sig .tc := ⟨.hbm, 171, rfl⟩
abbrev main_cst_20 : Ref sig .tc := ⟨.hbm, 172, rfl⟩
abbrev main_v131 : Ref sig .tc := ⟨.hbm, 173, rfl⟩
abbrev main_v132 : Ref sig .tc := ⟨.hbm, 174, rfl⟩
abbrev main_v133 : Ref sig .tc := ⟨.hbm, 175, rfl⟩
abbrev main_v134 : Ref sig .tc := ⟨.hbm, 176, rfl⟩
abbrev main_v135 : Ref sig .tc := ⟨.hbm, 177, rfl⟩
abbrev main_v136 : Ref sig .tc := ⟨.hbm, 178, rfl⟩
abbrev main_call5_cst : Ref sig .tc := ⟨.hbm, 179, rfl⟩
abbrev main_call5_v0 : Ref sig .tc := ⟨.hbm, 180, rfl⟩
abbrev main_v137 : Ref sig .tc := ⟨.hbm, 181, rfl⟩
abbrev main_v138 : Ref sig .tc := ⟨.hbm, 182, rfl⟩
abbrev main_v139 : Ref sig .tc := ⟨.hbm, 183, rfl⟩
abbrev main_v140 : Ref sig .tc := ⟨.hbm, 184, rfl⟩
abbrev main_v141 : Ref sig .tc := ⟨.hbm, 185, rfl⟩
abbrev main_v142 : Ref sig .tc := ⟨.hbm, 186, rfl⟩
abbrev main_v143 : Ref sig .tc := ⟨.hbm, 187, rfl⟩
abbrev main_c_21 : Ref sig .tc := ⟨.hbm, 188, rfl⟩
abbrev main_v144 : Ref sig .tc := ⟨.hbm, 189, rfl⟩
abbrev main_v145 : Ref sig .tc := ⟨.hbm, 190, rfl⟩
abbrev main_c_22 : Ref sig .tc := ⟨.hbm, 191, rfl⟩
abbrev main_v146 : Ref sig .tc := ⟨.hbm, 192, rfl⟩
abbrev main_v147 : Ref sig .tc := ⟨.hbm, 193, rfl⟩
abbrev main_v148 : Ref sig .tc := ⟨.hbm, 194, rfl⟩
abbrev main_v149 : Ref sig .tc := ⟨.hbm, 195, rfl⟩
abbrev main_v150 : Ref sig .tc := ⟨.hbm, 196, rfl⟩
abbrev main_v151 : Ref sig .tc := ⟨.hbm, 197, rfl⟩
abbrev main_v152 : Ref sig .tc := ⟨.hbm, 198, rfl⟩
abbrev main_cst_23 : Ref sig .tc := ⟨.hbm, 199, rfl⟩
abbrev main_v153 : Ref sig .tc := ⟨.hbm, 200, rfl⟩
abbrev main_v154 : Ref sig .tc := ⟨.hbm, 201, rfl⟩
abbrev main_v155 : Ref sig .tc := ⟨.hbm, 202, rfl⟩
abbrev main_v156 : Ref sig .tc := ⟨.hbm, 203, rfl⟩
abbrev main_v157 : Ref sig .tc := ⟨.hbm, 204, rfl⟩
abbrev main_v158 : Ref sig .tc := ⟨.hbm, 205, rfl⟩
abbrev main_call6_cst : Ref sig .tc := ⟨.hbm, 206, rfl⟩
abbrev main_call6_v0 : Ref sig .tc := ⟨.hbm, 207, rfl⟩
abbrev main_v159 : Ref sig .tc := ⟨.hbm, 208, rfl⟩
abbrev main_v160 : Ref sig .tc := ⟨.hbm, 209, rfl⟩
abbrev main_v161 : Ref sig .tc := ⟨.hbm, 210, rfl⟩
abbrev main_c_24 : Ref sig .tc := ⟨.hbm, 211, rfl⟩
abbrev main_v162 : Ref sig .tc := ⟨.hbm, 212, rfl⟩
abbrev main_v163 : Ref sig .tc := ⟨.hbm, 213, rfl⟩
abbrev main_c_25 : Ref sig .tc := ⟨.hbm, 214, rfl⟩
abbrev main_v164 : Ref sig .tc := ⟨.hbm, 215, rfl⟩
abbrev main_v165 : Ref sig .tc := ⟨.hbm, 216, rfl⟩
abbrev main_v166 : Ref sig .tc := ⟨.hbm, 217, rfl⟩
abbrev main_v167 : Ref sig .tc := ⟨.hbm, 218, rfl⟩
abbrev main_v168 : Ref sig .tc := ⟨.hbm, 219, rfl⟩
abbrev main_v169 : Ref sig .tc := ⟨.hbm, 220, rfl⟩
abbrev main_v170 : Ref sig .tc := ⟨.hbm, 221, rfl⟩
abbrev main_cst_26 : Ref sig .tc := ⟨.hbm, 222, rfl⟩
abbrev main_v171 : Ref sig .tc := ⟨.hbm, 223, rfl⟩
abbrev main_v172 : Ref sig .tc := ⟨.hbm, 224, rfl⟩
abbrev main_v173 : Ref sig .tc := ⟨.hbm, 225, rfl⟩
abbrev main_v174 : Ref sig .tc := ⟨.hbm, 226, rfl⟩
abbrev main_v175 : Ref sig .tc := ⟨.hbm, 227, rfl⟩
abbrev main_v176 : Ref sig .tc := ⟨.hbm, 228, rfl⟩

abbrev nD : Nat := 1
abbrev τ : Topo := Topo.v7x

variable {F : FTy → Type} [FloatOps F]

class Facts₀ : Prop where
  slices_S2x160000_S1x160000_0_0 : S2x160000.Slices ![0, 0] S1x160000
  shapeCasts_S1x160000_S160000 : S1x160000.ShapeCasts S160000
  concatenates_S160000_S10000_S170000_d0 : Shape.Concatenates [S160000, S10000] S170000 0
  slices_S2x160000_S1x160000_1_0 : S2x160000.Slices ![1, 0] S1x160000
  bcast_S_S10000 : S_.BroadcastsInDim S10000 (![] : Fin 0 → Fin S10000.rank)
  bcast_S170000_S170000x1_0 : S170000.BroadcastsInDim S170000x1 (![0] : Fin 1 → Fin S170000x1.rank)
  bcast_S_S170000 : S_.BroadcastsInDim S170000 (![] : Fin 0 → Fin S170000.rank)
  bcast_S170000x1_S170000x1000_0_1 : S170000x1.BroadcastsInDim S170000x1000 (![0, 1] : Fin 2 → Fin S170000x1000.rank)
  bcast_S_S10000x1000 : S_.BroadcastsInDim S10000x1000 (![] : Fin 0 → Fin S10000x1000.rank)
  bcast_S1000_S1x1000_1 : S1000.BroadcastsInDim S1x1000 (![1] : Fin 1 → Fin S1x1000.rank)
  bcast_S1x1000_S10000x1000_0_1 : S1x1000.BroadcastsInDim S10000x1000 (![0, 1] : Fin 2 → Fin S10000x1000.rank)
  slices_S5x1000x1000_S1x1000x1000_0_0_0 : S5x1000x1000.Slices ![0, 0, 0] S1x1000x1000
  shapeCasts_S1x1000x1000_S1000x1000 : S1x1000x1000.ShapeCasts S1000x1000
  slices_S5x1000_S1x1000_0_0 : S5x1000.Slices ![0, 0] S1x1000
  shapeCasts_S1x1000_S1000 : S1x1000.ShapeCasts S1000
  slices_S5x1000x1000_S1x1000x1000_1_0_0 : S5x1000x1000.Slices ![1, 0, 0] S1x1000x1000
  slices_S5x1000_S1x1000_1_0 : S5x1000.Slices ![1, 0] S1x1000
  slices_S5x1000x1000_S1x1000x1000_2_0_0 : S5x1000x1000.Slices ![2, 0, 0] S1x1000x1000
  slices_S5x1000_S1x1000_2_0 : S5x1000.Slices ![2, 0] S1x1000
  slices_S5x1000x1000_S1x1000x1000_3_0_0 : S5x1000x1000.Slices ![3, 0, 0] S1x1000x1000
  slices_S5x1000_S1x1000_3_0 : S5x1000.Slices ![3, 0] S1x1000
  slices_S5x1000x1000_S1x1000x1000_4_0_0 : S5x1000x1000.Slices ![4, 0, 0] S1x1000x1000
  slices_S5x1000_S1x1000_4_0 : S5x1000.Slices ![4, 0] S1x1000
  bcast_S170000x1_S170000x256_0_1 : S170000x1.BroadcastsInDim S170000x256 (![0, 1] : Fin 2 → Fin S170000x256.rank)
  bcast_S_S10000x256 : S_.BroadcastsInDim S10000x256 (![] : Fin 0 → Fin S10000x256.rank)
  bcast_S256_S1x256_1 : S256.BroadcastsInDim S1x256 (![1] : Fin 1 → Fin S1x256.rank)
  bcast_S1x256_S10000x256_0_1 : S1x256.BroadcastsInDim S10000x256 (![0, 1] : Fin 2 → Fin S10000x256.rank)
  scatter_S10000_S170000x1_S170000_n_0_0_1_wf : ScatterDims.WF S10000 S170000x1 S170000 [] [0] [0] 1
  gather_S10000_S170000x1_S170000_n_0_n_n_0_1_1_wf : GatherDims.WF S10000 S170000x1 S170000 [] [0] [] [0] [] 1 ![1]
  dot_S10000x128_S128x1000_S10000x1000_1_0_0_1_n_n_wf : DotDims.WF S10000x128 S128x1000 S10000x1000 [1] [0] [0] [1] [] []
  gather_S10000x1000_S170000x1_S170000x1000_1_0_n_n_0_1_11000_wf : GatherDims.WF S10000x1000 S170000x1 S170000x1000 [1] [0] [] [0] [] 1 ![1, 1000]
  scatter_S10000x1000_S170000x1_S170000x1000_1_0_0_1_wf : ScatterDims.WF S10000x1000 S170000x1 S170000x1000 [1] [0] [0] 1
  dot_S10000x1000_S1000x1000_S10000x1000_1_0_0_1_n_n_wf : DotDims.WF S10000x1000 S1000x1000 S10000x1000 [1] [0] [0] [1] [] []
  dot_S10000x1000_S1000x256_S10000x256_1_0_0_1_n_n_wf : DotDims.WF S10000x1000 S1000x256 S10000x256 [1] [0] [0] [1] [] []
  gather_S10000x256_S170000x1_S170000x256_1_0_n_n_0_1_1256_wf : GatherDims.WF S10000x256 S170000x1 S170000x256 [1] [0] [] [0] [] 1 ![1, 256]
  scatter_S10000x256_S170000x1_S170000x256_1_0_0_1_wf : ScatterDims.WF S10000x256 S170000x1 S170000x256 [1] [0] [0] 1

variable [Facts₀]

def scatter_S10000_S170000x1_S170000_n_0_0_1 : ScatterDims S10000 S170000x1 S170000 where
  updateWindowDims := []
  insertedWindowDims := [0]
  scatterDimsToOperandDims := [0]
  indexVectorDim := 1
  wf := scatter_S10000_S170000x1_S170000_n_0_0_1_wf
def gather_S10000_S170000x1_S170000_n_0_n_n_0_1_1 : GatherDims S10000 S170000x1 S170000 where
  offsetDims := []
  collapsedSliceDims := [0]
  operandBatchingDims := []
  startIndicesBatchingDims := []
  startIndexMap := [0]
  indexVectorDim := 1
  sliceSizes := ![1]
  wf := gather_S10000_S170000x1_S170000_n_0_n_n_0_1_1_wf
def dot_S10000x128_S128x1000_S10000x1000_1_0_0_1_n_n : DotDims S10000x128 S128x1000 S10000x1000 where
  lhsContracting := [1]
  rhsContracting := [0]
  lhsNonContracting := [0]
  rhsNonContracting := [1]
  lhsBatch := []
  rhsBatch := []
  wf := dot_S10000x128_S128x1000_S10000x1000_1_0_0_1_n_n_wf
def gather_S10000x1000_S170000x1_S170000x1000_1_0_n_n_0_1_11000 : GatherDims S10000x1000 S170000x1 S170000x1000 where
  offsetDims := [1]
  collapsedSliceDims := [0]
  operandBatchingDims := []
  startIndicesBatchingDims := []
  startIndexMap := [0]
  indexVectorDim := 1
  sliceSizes := ![1, 1000]
  wf := gather_S10000x1000_S170000x1_S170000x1000_1_0_n_n_0_1_11000_wf
def scatter_S10000x1000_S170000x1_S170000x1000_1_0_0_1 : ScatterDims S10000x1000 S170000x1 S170000x1000 where
  updateWindowDims := [1]
  insertedWindowDims := [0]
  scatterDimsToOperandDims := [0]
  indexVectorDim := 1
  wf := scatter_S10000x1000_S170000x1_S170000x1000_1_0_0_1_wf
def dot_S10000x1000_S1000x1000_S10000x1000_1_0_0_1_n_n : DotDims S10000x1000 S1000x1000 S10000x1000 where
  lhsContracting := [1]
  rhsContracting := [0]
  lhsNonContracting := [0]
  rhsNonContracting := [1]
  lhsBatch := []
  rhsBatch := []
  wf := dot_S10000x1000_S1000x1000_S10000x1000_1_0_0_1_n_n_wf
def dot_S10000x1000_S1000x256_S10000x256_1_0_0_1_n_n : DotDims S10000x1000 S1000x256 S10000x256 where
  lhsContracting := [1]
  rhsContracting := [0]
  lhsNonContracting := [0]
  rhsNonContracting := [1]
  lhsBatch := []
  rhsBatch := []
  wf := dot_S10000x1000_S1000x256_S10000x256_1_0_0_1_n_n_wf
def gather_S10000x256_S170000x1_S170000x256_1_0_n_n_0_1_1256 : GatherDims S10000x256 S170000x1 S170000x256 where
  offsetDims := [1]
  collapsedSliceDims := [0]
  operandBatchingDims := []
  startIndicesBatchingDims := []
  startIndexMap := [0]
  indexVectorDim := 1
  sliceSizes := ![1, 256]
  wf := gather_S10000x256_S170000x1_S170000x256_1_0_n_n_0_1_1256_wf
def scatter_S10000x256_S170000x1_S170000x256_1_0_0_1 : ScatterDims S10000x256 S170000x1 S170000x256 where
  updateWindowDims := [1]
  insertedWindowDims := [0]
  scatterDimsToOperandDims := [0]
  indexVectorDim := 1
  wf := scatter_S10000x256_S170000x1_S170000x256_1_0_0_1_wf

class Facts : Prop extends Facts₀ where

variable [Facts]
-- ==== Proof.RefImports.lean ====
/- The reference's generated run and its read-at-an-index lemmas, gathered under one name so that the modules reading the
   reference import a single file. -/
import proofs.«181230_j19834158973077_2_alg».proof.Proof.Gen.ReferenceIdeal.Read
-- ==== Proof.KB.Reg0.lean ====
/- REGION 0: the adjacency product with a carried accumulator (grid 20 × 10, the reduction step `k = t % 10`). The f32
   accumulator [512x128] is zeroed when `k = 0`, takes the product of the left operand's block with the right operand's
   rows `k*1024 … k*1024+1023` at every point, and when `k = 9` is read back, the bias row added, the sum converted to the result's format and stored whole into the
   result's block. Stated at a parameter `V`, the TensorCore's buffer contents when the region is entered: the proof
   data `dat0`, its body obligation, and the invariant's two ends `hin0` / `hout0`; `out0_L_3` / `outsAt0` name what
   the result window holds. -/
import proofs.«181230_j19834158973077_2_alg».proof.Proof.Gen.Kernel.Launch
import proofs.«181230_j19834158973077_2_alg».proof.Proof.Gen.Kernel.Skeleton
import proofs.«181230_j19834158973077_2_alg».proof.Proof.Gen.Kernel.Points
import Idealize.ShloMosaic.Lib.Pipeline.FrameBody
import Idealize.ShloMosaic.Lib.Ring
import Idealize.ShloMosaic.Lib.Tactic

-- membership in a rectangle of full extents recurses once per coordinate of the long axes
set_option maxRecDepth 16384

noncomputable section

namespace Cert.Kernel.Rg

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

/-! # Part 1: the conditionals over the grid, the memrefs, the invariant's split, the blocks -/

/-! ## The body's two conditionals, over the grid

A grid point `t` has coordinates `(m, k)` with `k = t % 10` the reduction step. The accumulator is zeroed when
`k = 0`; the result block is written when `k = 9`. -/

/-- The first conditional's condition (`k = 0`), with the scalar chain that computes it substituted. -/
abbrev zeroC0 (i : grid0.Coords) : Prop :=
  (Scalar.cmpi .ne (Scalar.extui (Scalar.cmpi .eq (BitVec.ofNat 32 (i 1).val) 0#32)) 0#32) = 1#1
/-- It holds exactly at the points ≡ 0 (mod 10): decided over the 200 points. -/
theorem zeroC0_iff : ∀ t : Fin cfg0.N, zeroC0 (grid0.coords t) ↔ t.val % 10 = 0 :=
  (by decide +kernel : ∀ t : Fin grid0.N, zeroC0 (grid0.coords t) ↔ t.val % 10 = 0)

/-- The second conditional's condition (`k = 9`). -/
abbrev flushC0 (i : grid0.Coords) : Prop := k0_cond2 i = 1#1
/-- It holds exactly at the points ≡ 9 (mod 10). -/
theorem flushC0_iff : ∀ t : Fin cfg0.N, flushC0 (grid0.coords t) ↔ t.val % 10 = 9 :=
  (by decide +kernel : ∀ t : Fin grid0.N, flushC0 (grid0.coords t) ↔ t.val % 10 = 9)

/-! ## Where the windows are idle -/

/-- The three input windows are never idle. -/
theorem live0_0 : ∀ t : Fin cfg0.N, cfg0.idle 0 (grid0.coords t) = false := by decide +kernel
theorem live0_1 : ∀ t : Fin cfg0.N, cfg0.idle 1 (grid0.coords t) = false := by decide +kernel
theorem live0_2 : ∀ t : Fin cfg0.N, cfg0.idle 2 (grid0.coords t) = false := by decide +kernel
/-- Away from `k = 9` the result window is idle (the body stores nothing into it) -/
theorem idle0_3 : ∀ t : Fin cfg0.N, ¬flushC0 (grid0.coords t) → cfg0.idle 3 (grid0.coords t) = true := by decide +kernel
/-- and its block is not written back; -/
theorem noFlush0_3 : ∀ t : Fin cfg0.N, ¬flushC0 (grid0.coords t) → (cfg0.win 3).flush t = false := by decide +kernel
/-- at `k = 9` it is live. -/
theorem live0_3 : ∀ t : Fin cfg0.N, flushC0 (grid0.coords t) → cfg0.idle 3 (grid0.coords t) = false := by decide +kernel

/-! ## The memrefs the body is called with -/

/-- Each window's current staging memref at point `t`, and that it is a whole buffer: the left operand's block, -/
abbrev mA0 (t : Fin cfg0.N) : Memref sig .tc .vmem S512x1024 .bf16 := win0_0.stage (cfg0.slots t 0)
abbrev hA0 (t : Fin cfg0.N) : (mA0 t).IsWhole := hstage0_0 ((cfg0.slots t 0).cast nbuf0_0)
/-- the right operand, resident whole, -/
abbrev mB0 (t : Fin cfg0.N) : Memref sig .tc .vmem S10240x128 .bf16 := win0_1.stage (cfg0.slots t 1)
abbrev hB0 (t : Fin cfg0.N) : (mB0 t).IsWhole := hstage0_1 ((cfg0.slots t 1).cast nbuf0_1)
/-- the bias row, -/
abbrev mC0 (t : Fin cfg0.N) : Memref sig .tc .vmem S1x128 .f32 := win0_2.stage (cfg0.slots t 2)
abbrev hC0 (t : Fin cfg0.N) : (mC0 t).IsWhole := hstage0_2 ((cfg0.slots t 2).cast nbuf0_2)
/-- the result's block. -/
abbrev mO0 (t : Fin cfg0.N) : Memref sig .tc .vmem S512x128 .bf16 := win0_3.stage (cfg0.slots t 3)
abbrev hO0 (t : Fin cfg0.N) : (mO0 t).IsWhole := hstage0_3 ((cfg0.slots t 3).cast nbuf0_3)
/-- The accumulator: a whole scoped buffer of the kernel's own, passed beside the windows and carried from point to point. -/
abbrev mS0 : Memref sig .tc .vmem S512x128 .f32 := Memref.whole cc0_scratch0
/-- The views through which the result buffer's and the accumulator's contents are stated (one of the result's two
    staging buffers: for a covering list of stores the choice does not matter). -/
abbrev vO0 : View sig .tc .vmem S512x128 .bf16 := (Memref.whole cc0_stg3_0 : Memref sig .tc .vmem S512x128 .bf16).view
abbrev vS0 : View sig .tc .vmem S512x128 .f32 := mS0.view

/-! ## The region invariant, with the accumulator split off -/

/-- Every other scoped buffer of the core that is no staging buffer of this region: carried unopened. -/
abbrev rest0 (c : Dev nD) : sProp 𝕄 :=
  Pipeline.scopedRestBut (Ix := Unit) (Name := ℕ) (U := UR sig nD τ) (Lvl := ℕ) (Val := Elt F) spec0 c [cc0_scratch0]

/-- The class's invariant is: the accumulator owned at some contents, the other scoped buffers, the generator
    register at some state. -/
theorem PhiA0_eq (c : Dev nD) :
    (Pipeline.ΦA spec0 c : sProp 𝕄)
      = iprop(iprop((∃ d, owns (c : Thread nD τ) mS0 fullShare d) ∗ rest0 (F := F) c) ∗ (∃ r, prngReg c r)) := by
  unfold Pipeline.ΦA; rw [scopedRest0_split]; simp only [mS0, owns_whole]; try rfl

section Entry
variable (V : (c : Dev nD) → (b : Ref sig .tc) → Buf (Elt F) ((c : Thread nD τ).loc b))

/-! ## The windows' blocks -/

/-- Window `w`'s block at point `t`, read off its array as the region finds it. -/
def iblk0 (c : Dev nD) (w : Fin cfg0.W) (t : Fin cfg0.N) : ((cfg0.win w).xblock (cfg0.grid.coords t)).Idx → Elt F (cfg0.win w).elt :=
  ((cfg0.win w).blk t).view.read (Elt F) (V c (Pipeline.arrRef spec0 w))

/-- An input window's current staging buffer holds its block at every point, fetched there or not (where it is not
    fetched its block index has not moved), for any proof data whose array is `V`'s and whose body leaves the block
    in place. -/
theorem before0_0_of {c : Dev nD} (dat : Dat τ (Elt F) Unit ℕ (UR sig nD τ) ℕ cfg0 c) (hA : dat.A 0 = V c (Pipeline.arrRef spec0 0))
    (hafter : ∀ t, dat.after 0 t = iblk0 V c 0 t) (t : Fin cfg0.N) (d) : dat.before 0 t d = iblk0 V c 0 t :=
  (dat.before_in_eq_fetched 0 rfl (fun _ => rfl) (fun _ _ _ => rfl) (fun t => by rw [hafter]; unfold Dat.blockOf iblk0; rw [hA]; try rfl) t d).trans
    (by unfold Dat.fetched Dat.blockOf iblk0; rw [hA]; try rfl)
theorem before0_1_of {c : Dev nD} (dat : Dat τ (Elt F) Unit ℕ (UR sig nD τ) ℕ cfg0 c) (hA : dat.A 1 = V c (Pipeline.arrRef spec0 1))
    (hafter : ∀ t, dat.after 1 t = iblk0 V c 1 t) (t : Fin cfg0.N) (d) : dat.before 1 t d = iblk0 V c 1 t :=
  (dat.before_in_eq_fetched 1 rfl (fun _ => rfl) (fun _ _ _ => rfl) (fun t => by rw [hafter]; unfold Dat.blockOf iblk0; rw [hA]; try rfl) t d).trans
    (by unfold Dat.fetched Dat.blockOf iblk0; rw [hA]; try rfl)
theorem before0_2_of {c : Dev nD} (dat : Dat τ (Elt F) Unit ℕ (UR sig nD τ) ℕ cfg0 c) (hA : dat.A 2 = V c (Pipeline.arrRef spec0 2))
    (hafter : ∀ t, dat.after 2 t = iblk0 V c 2 t) (t : Fin cfg0.N) (d) : dat.before 2 t d = iblk0 V c 2 t :=
  (dat.before_in_eq_fetched 2 rfl (fun _ => rfl) (fun _ _ _ => rfl) (fun t => by rw [hafter]; unfold Dat.blockOf iblk0; rw [hA]; try rfl) t d).trans
    (by unfold Dat.fetched Dat.blockOf iblk0; rw [hA]; try rfl)

end Entry

/-! # Part 2: the body's run in each of the three control cases -/
/-! ### The control case `k = 0`: the accumulator is stored whole with zeros, then read back, the block product added and the sum stored
   whole again; the result buffer is not touched. -/

-- (the run's proof term is large: the definition's epilogue walks it past the default budget)
set_option maxHeartbeats 1000000 in
/-- The lists of stores, last first, that the body leaves in the result buffer (`L3`) and in the accumulator (`LS`) in
    this case, TOGETHER WITH the proof that on whole memrefs — the three inputs at contents `x0 x1 x2`, the result
    buffer at contents `xi3` handed back as found, the accumulator at anything — the body runs to a
    continuation that holds the inputs as they were, the result buffer as it was and the accumulator with
    `LS` written. The two lists are found by running the body's memory operations in order over named payloads; each
    conditional is decided by the case's hypotheses. -/
noncomputable def runZero0 (c : Dev nD) (i : grid0.Coords) (arg2 : Memref sig .tc .vmem S512x1024 .bf16) (harg2 : arg2.IsWhole) (arg3 : Memref sig .tc .vmem S10240x128 .bf16) (harg3 : arg3.IsWhole) (arg4 : Memref sig .tc .vmem S1x128 .f32) (harg4 : arg4.IsWhole) (arg5 : Memref sig .tc .vmem S512x128 .bf16) (harg5 : arg5.IsWhole) (arg6 : Memref sig .tc .vmem S512x128 .f32) (harg6 : arg6.IsWhole) (hc0 : zeroC0 i) (hc1 : ¬flushC0 i)
    (x0 : Vec F S512x1024 .bf16) (x1 : Vec F S10240x128 .bf16) (x2 : Vec F S1x128 .f32) :
    Σ' (L3 : List (View.Piece (Elt F) S512x128 .bf16)), { LS : List (View.Piece (Elt F) S512x128 .f32) //
      ∀ (xi3 : Vec F S512x128 .bf16) (E : Set ℕ) (K : PUnit → sProp 𝕄),
        iprop(owns (c : Thread nD τ) arg2 fullShare x0 ∗ owns (c : Thread nD τ) arg3 fullShare x1 ∗ owns (c : Thread nD τ) arg4 fullShare x2 ∗ owns (c : Thread nD τ) arg5 fullShare xi3 ∗ (∃ d, owns (c : Thread nD τ) arg6 fullShare d)
            ∗ (iprop(owns (c : Thread nD τ) arg2 fullShare x0 ∗ owns (c : Thread nD τ) arg3 fullShare x1 ∗ owns (c : Thread nD τ) arg4 fullShare x2 ∗ owns (c : Thread nD τ) arg5 fullShare xi3 ∗ (∃ f, arg6.view.loc (c : Thread nD τ) ↦[arg6.view.set]{fullShare} arg6.view.writes (Elt F) f LS)) -∗ K ⟨⟩))
          ⊢ wp frame (wpE (defs₀ (F := F)) Variants.none c none) E (cc0__stage2_kernel i arg2 harg2 arg3 harg3 arg4 harg4 arg5 harg5 arg6 harg6) K } := by
  refine ⟨[], ?_, fun xi3 E K => ?run⟩
  case run =>
    simp only [cc0__stage2_kernel_eq_skeleton]; unfold cc0__stage2_kernel_skel
    unfold owns
    iintro ⟨⟨%f0, %hf0, H0⟩, ⟨%f1, %hf1, H1⟩, ⟨%f2, %hf2, H2⟩, ⟨%f3, %hf3, H3⟩, ⟨%ds, %fs, -, HS⟩, Hk⟩
    obtain rfl := harg2.eq_unread hf0; obtain rfl := harg3.eq_unread hf1; obtain rfl := harg4.eq_unread hf2; obtain rfl := harg5.eq_unread hf3
    sl_exec (disch := first | exact hc0 | exact hc1)
    sl_step
    iapply Hk
    isplitl [H0]
    · iexists _; isplitr; · ipureintro; exact harg2.read_unread _
      iexact H0
    isplitl [H1]
    · iexists _; isplitr; · ipureintro; exact harg3.read_unread _
      iexact H1
    isplitl [H2]
    · iexists _; isplitr; · ipureintro; exact harg4.read_unread _
      iexact H2
    isplitl [H3]
    · iexists _; isplitr; · ipureintro; exact harg5.read_unread _
      iexact H3
    iexists _; iexact HS

/-! ### The control case `0 < k < 9`: the accumulator is read, the block product added and the sum stored whole; the result
   buffer is not touched. -/

-- (the run's proof term is large: the definition's epilogue walks it past the default budget)
set_option maxHeartbeats 1000000 in
/-- The lists of stores, last first, that the body leaves in the result buffer (`L3`) and in the accumulator (`LS`) in
    this case, TOGETHER WITH the proof that on whole memrefs — the three inputs at contents `x0 x1 x2`, the result
    buffer at contents `xi3` handed back as found, the accumulator at the contents `xs` the point before left — the body runs to a
    continuation that holds the inputs as they were, the result buffer as it was and the accumulator with
    `LS` written. The two lists are found by running the body's memory operations in order over named payloads; each
    conditional is decided by the case's hypotheses. -/
noncomputable def runMid0 (c : Dev nD) (i : grid0.Coords) (arg2 : Memref sig .tc .vmem S512x1024 .bf16) (harg2 : arg2.IsWhole) (arg3 : Memref sig .tc .vmem S10240x128 .bf16) (harg3 : arg3.IsWhole) (arg4 : Memref sig .tc .vmem S1x128 .f32) (harg4 : arg4.IsWhole) (arg5 : Memref sig .tc .vmem S512x128 .bf16) (harg5 : arg5.IsWhole) (arg6 : Memref sig .tc .vmem S512x128 .f32) (harg6 : arg6.IsWhole) (hc0 : ¬zeroC0 i) (hc1 : ¬flushC0 i)
    (x0 : Vec F S512x1024 .bf16) (x1 : Vec F S10240x128 .bf16) (x2 : Vec F S1x128 .f32) (xs : Vec F S512x128 .f32) :
    Σ' (L3 : List (View.Piece (Elt F) S512x128 .bf16)), { LS : List (View.Piece (Elt F) S512x128 .f32) //
      ∀ (xi3 : Vec F S512x128 .bf16) (E : Set ℕ) (K : PUnit → sProp 𝕄),
        iprop(owns (c : Thread nD τ) arg2 fullShare x0 ∗ owns (c : Thread nD τ) arg3 fullShare x1 ∗ owns (c : Thread nD τ) arg4 fullShare x2 ∗ owns (c : Thread nD τ) arg5 fullShare xi3 ∗ owns (c : Thread nD τ) arg6 fullShare xs
            ∗ (iprop(owns (c : Thread nD τ) arg2 fullShare x0 ∗ owns (c : Thread nD τ) arg3 fullShare x1 ∗ owns (c : Thread nD τ) arg4 fullShare x2 ∗ owns (c : Thread nD τ) arg5 fullShare xi3 ∗ (∃ f, arg6.view.loc (c : Thread nD τ) ↦[arg6.view.set]{fullShare} arg6.view.writes (Elt F) f LS)) -∗ K ⟨⟩))
          ⊢ wp frame (wpE (defs₀ (F := F)) Variants.none c none) E (cc0__stage2_kernel i arg2 harg2 arg3 harg3 arg4 harg4 arg5 harg5 arg6 harg6) K } := by
  refine ⟨[], ?_, fun xi3 E K => ?run⟩
  case run =>
    simp only [cc0__stage2_kernel_eq_skeleton]; unfold cc0__stage2_kernel_skel
    unfold owns
    iintro ⟨⟨%f0, %hf0, H0⟩, ⟨%f1, %hf1, H1⟩, ⟨%f2, %hf2, H2⟩, ⟨%f3, %hf3, H3⟩, ⟨%fs, %hfs, HS⟩, Hk⟩
    obtain rfl := harg2.eq_unread hf0; obtain rfl := harg3.eq_unread hf1; obtain rfl := harg4.eq_unread hf2; obtain rfl := harg5.eq_unread hf3; obtain rfl := harg6.eq_unread hfs
    sl_exec (disch := first | exact hc0 | exact hc1)
    sl_step
    iapply Hk
    isplitl [H0]
    · iexists _; isplitr; · ipureintro; exact harg2.read_unread _
      iexact H0
    isplitl [H1]
    · iexists _; isplitr; · ipureintro; exact harg3.read_unread _
      iexact H1
    isplitl [H2]
    · iexists _; isplitr; · ipureintro; exact harg4.read_unread _
      iexact H2
    isplitl [H3]
    · iexists _; isplitr; · ipureintro; exact harg5.read_unread _
      iexact H3
    iexists _; iexact HS

/-! ### The control case `k = 9`: the accumulator is read, the block product added and the sum stored whole; then the accumulator
   is read back, the bias row added, the sum converted to the result's format and stored whole into the result buffer. -/

-- (the run's proof term is large: the definition's epilogue walks it past the default budget)
set_option maxHeartbeats 1000000 in
/-- The lists of stores, last first, that the body leaves in the result buffer (`L3`) and in the accumulator (`LS`) in
    this case, TOGETHER WITH the proof that on whole memrefs — the three inputs at contents `x0 x1 x2`, the result buffer at anything, the accumulator at the contents `xs` the point before left — the body runs to a
    continuation that holds the inputs as they were, the result buffer with `L3` written and the accumulator with
    `LS` written. The two lists are found by running the body's memory operations in order over named payloads; each
    conditional is decided by the case's hypotheses. -/
noncomputable def runLast0 (c : Dev nD) (i : grid0.Coords) (arg2 : Memref sig .tc .vmem S512x1024 .bf16) (harg2 : arg2.IsWhole) (arg3 : Memref sig .tc .vmem S10240x128 .bf16) (harg3 : arg3.IsWhole) (arg4 : Memref sig .tc .vmem S1x128 .f32) (harg4 : arg4.IsWhole) (arg5 : Memref sig .tc .vmem S512x128 .bf16) (harg5 : arg5.IsWhole) (arg6 : Memref sig .tc .vmem S512x128 .f32) (harg6 : arg6.IsWhole) (hc0 : ¬zeroC0 i) (hc1 : flushC0 i)
    (x0 : Vec F S512x1024 .bf16) (x1 : Vec F S10240x128 .bf16) (x2 : Vec F S1x128 .f32) (xs : Vec F S512x128 .f32) :
    Σ' (L3 : List (View.Piece (Elt F) S512x128 .bf16)), { LS : List (View.Piece (Elt F) S512x128 .f32) //
      ∀ (E : Set ℕ) (K : PUnit → sProp 𝕄),
        iprop(owns (c : Thread nD τ) arg2 fullShare x0 ∗ owns (c : Thread nD τ) arg3 fullShare x1 ∗ owns (c : Thread nD τ) arg4 fullShare x2 ∗ (∃ d, owns (c : Thread nD τ) arg5 fullShare d) ∗ owns (c : Thread nD τ) arg6 fullShare xs
            ∗ (iprop(owns (c : Thread nD τ) arg2 fullShare x0 ∗ owns (c : Thread nD τ) arg3 fullShare x1 ∗ owns (c : Thread nD τ) arg4 fullShare x2 ∗ (∃ f, arg5.view.loc (c : Thread nD τ) ↦[arg5.view.set]{fullShare} arg5.view.writes (Elt F) f L3) ∗ (∃ f, arg6.view.loc (c : Thread nD τ) ↦[arg6.view.set]{fullShare} arg6.view.writes (Elt F) f LS)) -∗ K ⟨⟩))
          ⊢ wp frame (wpE (defs₀ (F := F)) Variants.none c none) E (cc0__stage2_kernel i arg2 harg2 arg3 harg3 arg4 harg4 arg5 harg5 arg6 harg6) K } := by
  refine ⟨?_, ?_, fun E K => ?run⟩
  case run =>
    simp only [cc0__stage2_kernel_eq_skeleton]; unfold cc0__stage2_kernel_skel
    unfold owns
    iintro ⟨⟨%f0, %hf0, H0⟩, ⟨%f1, %hf1, H1⟩, ⟨%f2, %hf2, H2⟩, ⟨%d3, %f3, -, H3⟩, ⟨%fs, %hfs, HS⟩, Hk⟩
    obtain rfl := harg2.eq_unread hf0; obtain rfl := harg3.eq_unread hf1; obtain rfl := harg4.eq_unread hf2; obtain rfl := harg6.eq_unread hfs
    sl_exec (disch := first | exact hc0 | exact hc1)
    sl_step
    iapply Hk
    isplitl [H0]
    · iexists _; isplitr; · ipureintro; exact harg2.read_unread _
      iexact H0
    isplitl [H1]
    · iexists _; isplitr; · ipureintro; exact harg3.read_unread _
      iexact H1
    isplitl [H2]
    · iexists _; isplitr; · ipureintro; exact harg4.read_unread _
      iexact H2
    isplitl [H3]; · iexists _; iexact H3
    iexists _; iexact HS

/-! # Part 3: what each case leaves, point by point; the proof data; the body obligation; the invariant's ends -/

/-! ## What each case leaves

In the cases `k = 0` and `0 < k < 9` nothing is stored into the result buffer: its "contents" below is a placeholder
(no stores read back over junk) that nothing consults, the window being idle and not written back at those points. -/

def out0_Z_3 (c : Dev nD) (i : grid0.Coords) (arg2 : Memref sig .tc .vmem S512x1024 .bf16) (harg2 : arg2.IsWhole) (arg3 : Memref sig .tc .vmem S10240x128 .bf16) (harg3 : arg3.IsWhole) (arg4 : Memref sig .tc .vmem S1x128 .f32) (harg4 : arg4.IsWhole) (arg5 : Memref sig .tc .vmem S512x128 .bf16) (harg5 : arg5.IsWhole) (arg6 : Memref sig .tc .vmem S512x128 .f32) (harg6 : arg6.IsWhole) (hc0 : zeroC0 i) (hc1 : ¬flushC0 i)
    (x0 : Vec F S512x1024 .bf16) (x1 : Vec F S10240x128 .bf16) (x2 : Vec F S1x128 .f32) : Vec F S512x128 .bf16 :=
  vO0.read (Elt F) (vO0.writes (Elt F) vO0.junk (runZero0 c i arg2 harg2 arg3 harg3 arg4 harg4 arg5 harg5 arg6 harg6 hc0 hc1 x0 x1 x2).1)

/-- At `k = 0` the accumulator's stores (the zero fill, then the first partial sum) cover it. -/
theorem scover0_Z (c : Dev nD) (i : grid0.Coords) (arg2 : Memref sig .tc .vmem S512x1024 .bf16) (harg2 : arg2.IsWhole) (arg3 : Memref sig .tc .vmem S10240x128 .bf16) (harg3 : arg3.IsWhole) (arg4 : Memref sig .tc .vmem S1x128 .f32) (harg4 : arg4.IsWhole) (arg5 : Memref sig .tc .vmem S512x128 .bf16) (harg5 : arg5.IsWhole) (arg6 : Memref sig .tc .vmem S512x128 .f32) (harg6 : arg6.IsWhole) (hc0 : zeroC0 i) (hc1 : ¬flushC0 i)
    (x0 : Vec F S512x1024 .bf16) (x1 : Vec F S10240x128 .bf16) (x2 : Vec F S1x128 .f32) (y : S512x128.Idx) :
    ∃ pc ∈ (runZero0 c i arg2 harg2 arg3 harg3 arg4 harg4 arg5 harg5 arg6 harg6 hc0 hc1 x0 x1 x2).2.1, y ∈ pc.1.set :=
  View.cover_of_tiledL (runZero0 c i arg2 harg2 arg3 harg3 arg4 harg4 arg5 harg5 arg6 harg6 hc0 hc1 x0 x1 x2).2.1 S512x128.size (by sl_kernel_rfl) y

/-- What the case `k = 0` leaves in the accumulator: its stores read back. -/
def acc0_Z (c : Dev nD) (i : grid0.Coords) (arg2 : Memref sig .tc .vmem S512x1024 .bf16) (harg2 : arg2.IsWhole) (arg3 : Memref sig .tc .vmem S10240x128 .bf16) (harg3 : arg3.IsWhole) (arg4 : Memref sig .tc .vmem S1x128 .f32) (harg4 : arg4.IsWhole) (arg5 : Memref sig .tc .vmem S512x128 .bf16) (harg5 : arg5.IsWhole) (arg6 : Memref sig .tc .vmem S512x128 .f32) (harg6 : arg6.IsWhole) (hc0 : zeroC0 i) (hc1 : ¬flushC0 i)
    (x0 : Vec F S512x1024 .bf16) (x1 : Vec F S10240x128 .bf16) (x2 : Vec F S1x128 .f32) : Vec F S512x128 .f32 :=
  vS0.read (Elt F) (vS0.writes (Elt F) vS0.junk (runZero0 c i arg2 harg2 arg3 harg3 arg4 harg4 arg5 harg5 arg6 harg6 hc0 hc1 x0 x1 x2).2.1)

def out0_M_3 (c : Dev nD) (i : grid0.Coords) (arg2 : Memref sig .tc .vmem S512x1024 .bf16) (harg2 : arg2.IsWhole) (arg3 : Memref sig .tc .vmem S10240x128 .bf16) (harg3 : arg3.IsWhole) (arg4 : Memref sig .tc .vmem S1x128 .f32) (harg4 : arg4.IsWhole) (arg5 : Memref sig .tc .vmem S512x128 .bf16) (harg5 : arg5.IsWhole) (arg6 : Memref sig .tc .vmem S512x128 .f32) (harg6 : arg6.IsWhole) (hc0 : ¬zeroC0 i) (hc1 : ¬flushC0 i)
    (x0 : Vec F S512x1024 .bf16) (x1 : Vec F S10240x128 .bf16) (x2 : Vec F S1x128 .f32) (xs : Vec F S512x128 .f32) : Vec F S512x128 .bf16 :=
  vO0.read (Elt F) (vO0.writes (Elt F) vO0.junk (runMid0 c i arg2 harg2 arg3 harg3 arg4 harg4 arg5 harg5 arg6 harg6 hc0 hc1 x0 x1 x2 xs).1)

/-- For `0 < k < 9` the accumulator's one store covers it. -/
theorem scover0_M (c : Dev nD) (i : grid0.Coords) (arg2 : Memref sig .tc .vmem S512x1024 .bf16) (harg2 : arg2.IsWhole) (arg3 : Memref sig .tc .vmem S10240x128 .bf16) (harg3 : arg3.IsWhole) (arg4 : Memref sig .tc .vmem S1x128 .f32) (harg4 : arg4.IsWhole) (arg5 : Memref sig .tc .vmem S512x128 .bf16) (harg5 : arg5.IsWhole) (arg6 : Memref sig .tc .vmem S512x128 .f32) (harg6 : arg6.IsWhole) (hc0 : ¬zeroC0 i) (hc1 : ¬flushC0 i)
    (x0 : Vec F S512x1024 .bf16) (x1 : Vec F S10240x128 .bf16) (x2 : Vec F S1x128 .f32) (xs : Vec F S512x128 .f32) (y : S512x128.Idx) :
    ∃ pc ∈ (runMid0 c i arg2 harg2 arg3 harg3 arg4 harg4 arg5 harg5 arg6 harg6 hc0 hc1 x0 x1 x2 xs).2.1, y ∈ pc.1.set :=
  View.cover_of_tiledL (runMid0 c i arg2 harg2 arg3 harg3 arg4 harg4 arg5 harg5 arg6 harg6 hc0 hc1 x0 x1 x2 xs).2.1 S512x128.size (by sl_kernel_rfl) y

/-- What the case `0 < k < 9` leaves in the accumulator, over what the point before left (`xs`). -/
def acc0_M (c : Dev nD) (i : grid0.Coords) (arg2 : Memref sig .tc .vmem S512x1024 .bf16) (harg2 : arg2.IsWhole) (arg3 : Memref sig .tc .vmem S10240x128 .bf16) (harg3 : arg3.IsWhole) (arg4 : Memref sig .tc .vmem S1x128 .f32) (harg4 : arg4.IsWhole) (arg5 : Memref sig .tc .vmem S512x128 .bf16) (harg5 : arg5.IsWhole) (arg6 : Memref sig .tc .vmem S512x128 .f32) (harg6 : arg6.IsWhole) (hc0 : ¬zeroC0 i) (hc1 : ¬flushC0 i)
    (x0 : Vec F S512x1024 .bf16) (x1 : Vec F S10240x128 .bf16) (x2 : Vec F S1x128 .f32) (xs : Vec F S512x128 .f32) : Vec F S512x128 .f32 :=
  vS0.read (Elt F) (vS0.writes (Elt F) vS0.junk (runMid0 c i arg2 harg2 arg3 harg3 arg4 harg4 arg5 harg5 arg6 harg6 hc0 hc1 x0 x1 x2 xs).2.1)

/-- At `k = 9` the one store into the result buffer covers it. -/
theorem cover0_L_3 (c : Dev nD) (i : grid0.Coords) (arg2 : Memref sig .tc .vmem S512x1024 .bf16) (harg2 : arg2.IsWhole) (arg3 : Memref sig .tc .vmem S10240x128 .bf16) (harg3 : arg3.IsWhole) (arg4 : Memref sig .tc .vmem S1x128 .f32) (harg4 : arg4.IsWhole) (arg5 : Memref sig .tc .vmem S512x128 .bf16) (harg5 : arg5.IsWhole) (arg6 : Memref sig .tc .vmem S512x128 .f32) (harg6 : arg6.IsWhole) (hc0 : ¬zeroC0 i) (hc1 : flushC0 i)
    (x0 : Vec F S512x1024 .bf16) (x1 : Vec F S10240x128 .bf16) (x2 : Vec F S1x128 .f32) (xs : Vec F S512x128 .f32) (y : S512x128.Idx) :
    ∃ pc ∈ (runLast0 c i arg2 harg2 arg3 harg3 arg4 harg4 arg5 harg5 arg6 harg6 hc0 hc1 x0 x1 x2 xs).1, y ∈ pc.1.set :=
  View.cover_of_tiledL (runLast0 c i arg2 harg2 arg3 harg3 arg4 harg4 arg5 harg5 arg6 harg6 hc0 hc1 x0 x1 x2 xs).1 S512x128.size (by sl_kernel_rfl) y

/-- THE RESULT BLOCK: what the case `k = 9` leaves in the result buffer — the accumulated sum plus the bias row, in the
    result's format — as a term of the three input blocks and of the accumulator the point before left. -/
def out0_L_3 (c : Dev nD) (i : grid0.Coords) (arg2 : Memref sig .tc .vmem S512x1024 .bf16) (harg2 : arg2.IsWhole) (arg3 : Memref sig .tc .vmem S10240x128 .bf16) (harg3 : arg3.IsWhole) (arg4 : Memref sig .tc .vmem S1x128 .f32) (harg4 : arg4.IsWhole) (arg5 : Memref sig .tc .vmem S512x128 .bf16) (harg5 : arg5.IsWhole) (arg6 : Memref sig .tc .vmem S512x128 .f32) (harg6 : arg6.IsWhole) (hc0 : ¬zeroC0 i) (hc1 : flushC0 i)
    (x0 : Vec F S512x1024 .bf16) (x1 : Vec F S10240x128 .bf16) (x2 : Vec F S1x128 .f32) (xs : Vec F S512x128 .f32) : Vec F S512x128 .bf16 :=
  vO0.read (Elt F) (vO0.writes (Elt F) vO0.junk (runLast0 c i arg2 harg2 arg3 harg3 arg4 harg4 arg5 harg5 arg6 harg6 hc0 hc1 x0 x1 x2 xs).1)

/-- At `k = 9` the accumulator's one store covers it. -/
theorem scover0_L (c : Dev nD) (i : grid0.Coords) (arg2 : Memref sig .tc .vmem S512x1024 .bf16) (harg2 : arg2.IsWhole) (arg3 : Memref sig .tc .vmem S10240x128 .bf16) (harg3 : arg3.IsWhole) (arg4 : Memref sig .tc .vmem S1x128 .f32) (harg4 : arg4.IsWhole) (arg5 : Memref sig .tc .vmem S512x128 .bf16) (harg5 : arg5.IsWhole) (arg6 : Memref sig .tc .vmem S512x128 .f32) (harg6 : arg6.IsWhole) (hc0 : ¬zeroC0 i) (hc1 : flushC0 i)
    (x0 : Vec F S512x1024 .bf16) (x1 : Vec F S10240x128 .bf16) (x2 : Vec F S1x128 .f32) (xs : Vec F S512x128 .f32) (y : S512x128.Idx) :
    ∃ pc ∈ (runLast0 c i arg2 harg2 arg3 harg3 arg4 harg4 arg5 harg5 arg6 harg6 hc0 hc1 x0 x1 x2 xs).2.1, y ∈ pc.1.set :=
  View.cover_of_tiledL (runLast0 c i arg2 harg2 arg3 harg3 arg4 harg4 arg5 harg5 arg6 harg6 hc0 hc1 x0 x1 x2 xs).2.1 S512x128.size (by sl_kernel_rfl) y

/-- What the case `k = 9` leaves in the accumulator. -/
def acc0_L (c : Dev nD) (i : grid0.Coords) (arg2 : Memref sig .tc .vmem S512x1024 .bf16) (harg2 : arg2.IsWhole) (arg3 : Memref sig .tc .vmem S10240x128 .bf16) (harg3 : arg3.IsWhole) (arg4 : Memref sig .tc .vmem S1x128 .f32) (harg4 : arg4.IsWhole) (arg5 : Memref sig .tc .vmem S512x128 .bf16) (harg5 : arg5.IsWhole) (arg6 : Memref sig .tc .vmem S512x128 .f32) (harg6 : arg6.IsWhole) (hc0 : ¬zeroC0 i) (hc1 : flushC0 i)
    (x0 : Vec F S512x1024 .bf16) (x1 : Vec F S10240x128 .bf16) (x2 : Vec F S1x128 .f32) (xs : Vec F S512x128 .f32) : Vec F S512x128 .f32 :=
  vS0.read (Elt F) (vS0.writes (Elt F) vS0.junk (runLast0 c i arg2 harg2 arg3 harg3 arg4 harg4 arg5 harg5 arg6 harg6 hc0 hc1 x0 x1 x2 xs).2.1)

section Entry
variable (V : (c : Dev nD) → (b : Ref sig .tc) → Buf (Elt F) ((c : Thread nD τ).loc b))

/-! ## Point by point -/

/-- THE ACCUMULATION. After the body at position `n`: (the result buffer, the accumulator). The case is the one the
    closed forms select at `n`, run on the point's memrefs and input blocks; for `k > 0` the accumulator starts from what
    position `n - 1` left in it. The two conditions cannot hold together. -/
def outsAt0 (c : Dev nD) : (n : ℕ) → n < cfg0.N → Vec F S512x128 .bf16 × Vec F S512x128 .f32
  | 0, hn => (out0_Z_3 c (grid0.coords ⟨0, hn⟩) (mA0 ⟨0, hn⟩) (hA0 ⟨0, hn⟩) (mB0 ⟨0, hn⟩) (hB0 ⟨0, hn⟩) (mC0 ⟨0, hn⟩) (hC0 ⟨0, hn⟩) (mO0 ⟨0, hn⟩) (hO0 ⟨0, hn⟩) mS0 (Memref.isWhole_whole _) ((zeroC0_iff ⟨0, hn⟩).mpr (Nat.zero_mod _)) (fun h => (fun h => by (try dsimp only at h); omega) ((flushC0_iff ⟨0, hn⟩).mp h)) (iblk0 V c 0 ⟨0, hn⟩) (iblk0 V c 1 ⟨0, hn⟩) (iblk0 V c 2 ⟨0, hn⟩), acc0_Z c (grid0.coords ⟨0, hn⟩) (mA0 ⟨0, hn⟩) (hA0 ⟨0, hn⟩) (mB0 ⟨0, hn⟩) (hB0 ⟨0, hn⟩) (mC0 ⟨0, hn⟩) (hC0 ⟨0, hn⟩) (mO0 ⟨0, hn⟩) (hO0 ⟨0, hn⟩) mS0 (Memref.isWhole_whole _) ((zeroC0_iff ⟨0, hn⟩).mpr (Nat.zero_mod _)) (fun h => (fun h => by (try dsimp only at h); omega) ((flushC0_iff ⟨0, hn⟩).mp h)) (iblk0 V c 0 ⟨0, hn⟩) (iblk0 V c 1 ⟨0, hn⟩) (iblk0 V c 2 ⟨0, hn⟩))
  | n + 1, hn =>
    if h0 : (n + 1) % 10 = 0 then
      if h1 : (n + 1) % 10 = 9 then
        False.elim (by omega)
      else
        (out0_Z_3 c (grid0.coords ⟨n + 1, hn⟩) (mA0 ⟨n + 1, hn⟩) (hA0 ⟨n + 1, hn⟩) (mB0 ⟨n + 1, hn⟩) (hB0 ⟨n + 1, hn⟩) (mC0 ⟨n + 1, hn⟩) (hC0 ⟨n + 1, hn⟩) (mO0 ⟨n + 1, hn⟩) (hO0 ⟨n + 1, hn⟩) mS0 (Memref.isWhole_whole _) ((zeroC0_iff ⟨n + 1, hn⟩).mpr h0) (fun h => h1 ((flushC0_iff ⟨n + 1, hn⟩).mp h)) (iblk0 V c 0 ⟨n + 1, hn⟩) (iblk0 V c 1 ⟨n + 1, hn⟩) (iblk0 V c 2 ⟨n + 1, hn⟩), acc0_Z c (grid0.coords ⟨n + 1, hn⟩) (mA0 ⟨n + 1, hn⟩) (hA0 ⟨n + 1, hn⟩) (mB0 ⟨n + 1, hn⟩) (hB0 ⟨n + 1, hn⟩) (mC0 ⟨n + 1, hn⟩) (hC0 ⟨n + 1, hn⟩) (mO0 ⟨n + 1, hn⟩) (hO0 ⟨n + 1, hn⟩) mS0 (Memref.isWhole_whole _) ((zeroC0_iff ⟨n + 1, hn⟩).mpr h0) (fun h => h1 ((flushC0_iff ⟨n + 1, hn⟩).mp h)) (iblk0 V c 0 ⟨n + 1, hn⟩) (iblk0 V c 1 ⟨n + 1, hn⟩) (iblk0 V c 2 ⟨n + 1, hn⟩))
    else
      if h1 : (n + 1) % 10 = 9 then
        (out0_L_3 c (grid0.coords ⟨n + 1, hn⟩) (mA0 ⟨n + 1, hn⟩) (hA0 ⟨n + 1, hn⟩) (mB0 ⟨n + 1, hn⟩) (hB0 ⟨n + 1, hn⟩) (mC0 ⟨n + 1, hn⟩) (hC0 ⟨n + 1, hn⟩) (mO0 ⟨n + 1, hn⟩) (hO0 ⟨n + 1, hn⟩) mS0 (Memref.isWhole_whole _) (fun h => h0 ((zeroC0_iff ⟨n + 1, hn⟩).mp h)) ((flushC0_iff ⟨n + 1, hn⟩).mpr h1) (iblk0 V c 0 ⟨n + 1, hn⟩) (iblk0 V c 1 ⟨n + 1, hn⟩) (iblk0 V c 2 ⟨n + 1, hn⟩) (outsAt0 c n (Nat.lt_of_succ_lt hn)).2, acc0_L c (grid0.coords ⟨n + 1, hn⟩) (mA0 ⟨n + 1, hn⟩) (hA0 ⟨n + 1, hn⟩) (mB0 ⟨n + 1, hn⟩) (hB0 ⟨n + 1, hn⟩) (mC0 ⟨n + 1, hn⟩) (hC0 ⟨n + 1, hn⟩) (mO0 ⟨n + 1, hn⟩) (hO0 ⟨n + 1, hn⟩) mS0 (Memref.isWhole_whole _) (fun h => h0 ((zeroC0_iff ⟨n + 1, hn⟩).mp h)) ((flushC0_iff ⟨n + 1, hn⟩).mpr h1) (iblk0 V c 0 ⟨n + 1, hn⟩) (iblk0 V c 1 ⟨n + 1, hn⟩) (iblk0 V c 2 ⟨n + 1, hn⟩) (outsAt0 c n (Nat.lt_of_succ_lt hn)).2)
      else
        (out0_M_3 c (grid0.coords ⟨n + 1, hn⟩) (mA0 ⟨n + 1, hn⟩) (hA0 ⟨n + 1, hn⟩) (mB0 ⟨n + 1, hn⟩) (hB0 ⟨n + 1, hn⟩) (mC0 ⟨n + 1, hn⟩) (hC0 ⟨n + 1, hn⟩) (mO0 ⟨n + 1, hn⟩) (hO0 ⟨n + 1, hn⟩) mS0 (Memref.isWhole_whole _) (fun h => h0 ((zeroC0_iff ⟨n + 1, hn⟩).mp h)) (fun h => h1 ((flushC0_iff ⟨n + 1, hn⟩).mp h)) (iblk0 V c 0 ⟨n + 1, hn⟩) (iblk0 V c 1 ⟨n + 1, hn⟩) (iblk0 V c 2 ⟨n + 1, hn⟩) (outsAt0 c n (Nat.lt_of_succ_lt hn)).2, acc0_M c (grid0.coords ⟨n + 1, hn⟩) (mA0 ⟨n + 1, hn⟩) (hA0 ⟨n + 1, hn⟩) (mB0 ⟨n + 1, hn⟩) (hB0 ⟨n + 1, hn⟩) (mC0 ⟨n + 1, hn⟩) (hC0 ⟨n + 1, hn⟩) (mO0 ⟨n + 1, hn⟩) (hO0 ⟨n + 1, hn⟩) mS0 (Memref.isWhole_whole _) (fun h => h0 ((zeroC0_iff ⟨n + 1, hn⟩).mp h)) (fun h => h1 ((flushC0_iff ⟨n + 1, hn⟩).mp h)) (iblk0 V c 0 ⟨n + 1, hn⟩) (iblk0 V c 1 ⟨n + 1, hn⟩) (iblk0 V c 2 ⟨n + 1, hn⟩) (outsAt0 c n (Nat.lt_of_succ_lt hn)).2)

/-- `outsAt0` at a point with `k = 0`. -/
theorem outsAt0_Z (c : Dev nD) (t : Fin cfg0.N) (h0 : t.val % 10 = 0) (h1 : ¬t.val % 10 = 9) :
    outsAt0 V c t.val t.isLt = (out0_Z_3 c (grid0.coords t) (mA0 t) (hA0 t) (mB0 t) (hB0 t) (mC0 t) (hC0 t) (mO0 t) (hO0 t) mS0 (Memref.isWhole_whole _) ((zeroC0_iff t).mpr h0) (fun h => h1 ((flushC0_iff t).mp h)) (iblk0 V c 0 t) (iblk0 V c 1 t) (iblk0 V c 2 t), acc0_Z c (grid0.coords t) (mA0 t) (hA0 t) (mB0 t) (hB0 t) (mC0 t) (hC0 t) (mO0 t) (hO0 t) mS0 (Memref.isWhole_whole _) ((zeroC0_iff t).mpr h0) (fun h => h1 ((flushC0_iff t).mp h)) (iblk0 V c 0 t) (iblk0 V c 1 t) (iblk0 V c 2 t)) := by
  obtain ⟨n, hn⟩ := t
  cases n with
  | zero => exact rfl
  | succ n => exact (dif_pos h0).trans ((dif_neg h1).trans rfl)

/-- `outsAt0` at a point with `0 < k < 9`: over what the point before left. -/
theorem outsAt0_M (c : Dev nD) (t : Fin cfg0.N) (h0 : ¬t.val % 10 = 0) (h1 : ¬t.val % 10 = 9) :
    outsAt0 V c t.val t.isLt = (out0_M_3 c (grid0.coords t) (mA0 t) (hA0 t) (mB0 t) (hB0 t) (mC0 t) (hC0 t) (mO0 t) (hO0 t) mS0 (Memref.isWhole_whole _) (fun h => h0 ((zeroC0_iff t).mp h)) (fun h => h1 ((flushC0_iff t).mp h)) (iblk0 V c 0 t) (iblk0 V c 1 t) (iblk0 V c 2 t) (outsAt0 V c (t.val - 1) (Nat.lt_of_le_of_lt (Nat.sub_le _ _) t.isLt)).2, acc0_M c (grid0.coords t) (mA0 t) (hA0 t) (mB0 t) (hB0 t) (mC0 t) (hC0 t) (mO0 t) (hO0 t) mS0 (Memref.isWhole_whole _) (fun h => h0 ((zeroC0_iff t).mp h)) (fun h => h1 ((flushC0_iff t).mp h)) (iblk0 V c 0 t) (iblk0 V c 1 t) (iblk0 V c 2 t) (outsAt0 V c (t.val - 1) (Nat.lt_of_le_of_lt (Nat.sub_le _ _) t.isLt)).2) := by
  obtain ⟨n, hn⟩ := t
  cases n with
  | zero => exact (by exfalso; (try dsimp only at h0); exact absurd (Nat.zero_mod _) h0)
  | succ n => exact (dif_neg h0).trans ((dif_neg h1).trans rfl)

/-- `outsAt0` at a point with `k = 9`: over what the point before left. -/
theorem outsAt0_L (c : Dev nD) (t : Fin cfg0.N) (h0 : ¬t.val % 10 = 0) (h1 : t.val % 10 = 9) :
    outsAt0 V c t.val t.isLt = (out0_L_3 c (grid0.coords t) (mA0 t) (hA0 t) (mB0 t) (hB0 t) (mC0 t) (hC0 t) (mO0 t) (hO0 t) mS0 (Memref.isWhole_whole _) (fun h => h0 ((zeroC0_iff t).mp h)) ((flushC0_iff t).mpr h1) (iblk0 V c 0 t) (iblk0 V c 1 t) (iblk0 V c 2 t) (outsAt0 V c (t.val - 1) (Nat.lt_of_le_of_lt (Nat.sub_le _ _) t.isLt)).2, acc0_L c (grid0.coords t) (mA0 t) (hA0 t) (mB0 t) (hB0 t) (mC0 t) (hC0 t) (mO0 t) (hO0 t) mS0 (Memref.isWhole_whole _) (fun h => h0 ((zeroC0_iff t).mp h)) ((flushC0_iff t).mpr h1) (iblk0 V c 0 t) (iblk0 V c 1 t) (iblk0 V c 2 t) (outsAt0 V c (t.val - 1) (Nat.lt_of_le_of_lt (Nat.sub_le _ _) t.isLt)).2) := by
  obtain ⟨n, hn⟩ := t
  cases n with
  | zero => exact (by exfalso; (try dsimp only at h0); exact absurd (Nat.zero_mod _) h0)
  | succ n => exact (dif_neg h0).trans ((dif_pos h1).trans rfl)

/-! ## The invariant -/

/-- The region invariant before position `n`: before the first point the class's (the accumulator at anything);
    afterwards the accumulator at what the point before left in it, the other scoped buffers and the generator
    register as ever. -/
def PhiS0 (c : Dev nD) : (n : ℕ) → n ≤ cfg0.N → sProp 𝕄
  | 0, _ => Pipeline.ΦA spec0 c
  | n + 1, hn => iprop(iprop(owns (c : Thread nD τ) mS0 fullShare ((outsAt0 V c n hn).2) ∗ rest0 (F := F) c) ∗ (∃ r, prngReg c r))

theorem PhiS0_zero (c : Dev nD) (n : ℕ) (h : n ≤ cfg0.N) (hz : n = 0) : PhiS0 V c n h = Pipeline.ΦA spec0 c := by
  subst hz; rfl

theorem PhiS0_succ (c : Dev nD) (n : ℕ) (hn : n < cfg0.N) :
    PhiS0 V c (n + 1) hn = iprop(iprop(owns (c : Thread nD τ) mS0 fullShare ((outsAt0 V c n hn).2) ∗ rest0 (F := F) c) ∗ (∃ r, prngReg c r)) := rfl

theorem PhiS0_pos (c : Dev nD) (n : ℕ) (h : n ≤ cfg0.N) (hz : n ≠ 0) :
    PhiS0 V c n h = iprop(iprop(owns (c : Thread nD τ) mS0 fullShare ((outsAt0 V c (n - 1) (by omega)).2) ∗ rest0 (F := F) c) ∗ (∃ r, prngReg c r)) := by
  cases n with
  | zero => exact absurd rfl hz
  | succ n => rfl

/-! ## The proof data -/

/-- The proof data of region 0's pipeline on core `c`: the arrays as the region finds them; after the body at point
    `t` each input's buffer at its block and the result's at `outsAt0`'s first component; the invariant `PhiS0`;
    nothing owed; full shares. -/
def dat0 (c : Dev nD) : Dat τ (Elt F) Unit ℕ (UR sig nD τ) ℕ cfg0 c where
  A w := V c (Pipeline.arrRef spec0 w)
  after w t := match w with
    | ⟨0, _⟩ => iblk0 V c 0 t
    | ⟨1, _⟩ => iblk0 V c 1 t
    | ⟨2, _⟩ => iblk0 V c 2 t
    | ⟨3, _⟩ => (outsAt0 V c t.val t.isLt).1
  Φ t := PhiS0 V c t.val (Nat.le_of_lt_succ t.isLt)
  q _ := fullShare
  owed _ := 0

/-- The proof data's arrays are the region-entry contents (the definition projected, `V` never unfolded). -/
theorem A_eq0 (c : Dev nD) (w : Fin cfg0.W) : (dat0 V c).A w = V c (Pipeline.arrRef spec0 w) := by
  dsimp only [dat0]

/-- The invariant at a point's start, restated at `t.val`. -/
theorem PhiS0_castSucc (c : Dev nD) (t : Fin cfg0.N) :
    (dat0 V c).Φ t.castSucc = PhiS0 V c t.val (Nat.le_of_lt t.isLt) := by
  dsimp only [dat0]; simp only [Fin.coe_castSucc]

/-- What the body leaves, window by window. -/
theorem after0_0 (c : Dev nD) (t : Fin cfg0.N) : (dat0 V c).after 0 t = iblk0 V c 0 t := by dsimp only [dat0]
theorem after0_1 (c : Dev nD) (t : Fin cfg0.N) : (dat0 V c).after 1 t = iblk0 V c 1 t := by dsimp only [dat0]
theorem after0_2 (c : Dev nD) (t : Fin cfg0.N) : (dat0 V c).after 2 t = iblk0 V c 2 t := by dsimp only [dat0]
theorem after0_3 (c : Dev nD) (t : Fin cfg0.N) : (dat0 V c).after 3 t = (outsAt0 V c t.val t.isLt).1 := by dsimp only [dat0]

/-- Each input's current staging buffer holds its block at every point. -/
theorem before0_0 (c : Dev nD) (t : Fin cfg0.N) (d) : (dat0 V c).before 0 t d = iblk0 V c 0 t :=
  before0_0_of V (dat0 V c) (A_eq0 V c 0) (after0_0 V c) t d
theorem before0_1 (c : Dev nD) (t : Fin cfg0.N) (d) : (dat0 V c).before 1 t d = iblk0 V c 1 t :=
  before0_1_of V (dat0 V c) (A_eq0 V c 1) (after0_1 V c) t d
theorem before0_2 (c : Dev nD) (t : Fin cfg0.N) (d) : (dat0 V c).before 2 t d = iblk0 V c 2 t :=
  before0_2_of V (dat0 V c) (A_eq0 V c 2) (after0_2 V c) t d

/-! ## The body obligation, at a generic point -/

/-- What the body is called with at point `t`, the windows one by one, -/
def bodyPre0 (c : Dev nD) (t : Fin cfg0.N) : sProp 𝕄 :=
  iprop((dat0 V c).Φ t.castSucc ∗ (dat0 V c).owesAt () t.castSucc
    ∗ (∃ d, owns (c : Thread nD τ) (mA0 t) fullShare ((dat0 V c).before 0 t d))
    ∗ (∃ d, owns (c : Thread nD τ) (mB0 t) fullShare ((dat0 V c).before 1 t d))
    ∗ (∃ d, owns (c : Thread nD τ) (mC0 t) fullShare ((dat0 V c).before 2 t d))
    ∗ (∃ d, owns (c : Thread nD τ) (mO0 t) fullShare ((dat0 V c).before 3 t d)))

/-- and what it returns. -/
def bodyPost0 (c : Dev nD) (t : Fin cfg0.N) : sProp 𝕄 :=
  iprop((dat0 V c).Φ t.succ ∗ (dat0 V c).owesAt () t.succ
    ∗ (dat0 V c).leavesExact 0 t
    ∗ (dat0 V c).leavesExact 1 t
    ∗ (dat0 V c).leavesExact 2 t
    ∗ (dat0 V c).leavesExact 3 t)

set_option maxHeartbeats 4800000 in
/-- The body at any point. The inputs' memrefs hold their blocks; the closed forms say which control case the point is
    in, and that case's run applies. The invariant hands the body the accumulator at what the point before left (at
    anything before the first point) and takes it back at this point's contents, its stores covering it; where the
    result window is idle its buffer goes back as found, and at `k = 9` its one store covers it. The other scoped
    buffers, the generator register and what the core owes pass through. -/
theorem sound_body0 (c : Dev nD) (t : Fin cfg0.N) :
    bodyPre0 V c t ⊢ wp frame (wpE (defs₀ (F := F)) Variants.none c none) Set.univ (bodyAt0 t) (fun _ => bodyPost0 V c t) := by
  unfold bodyPre0 bodyPost0 bodyAt0
  simp only [before0_0, before0_1, before0_2]
  rw [show (dat0 V c).owesAt () t.succ = (dat0 V c).owesAt () t.castSucc from rfl]
  rw [show (dat0 V c).Φ t.succ = PhiS0 V c (t.val + 1) t.isLt from rfl, PhiS0_succ]
  rw [show (dat0 V c).leavesExact 0 t = owns (c : Thread nD τ) (mA0 t) fullShare ((dat0 V c).after 0 t) from by
    unfold Dat.leavesExact; rw [live0_0 t], after0_0]
  rw [show (dat0 V c).leavesExact 1 t = owns (c : Thread nD τ) (mB0 t) fullShare ((dat0 V c).after 1 t) from by
    unfold Dat.leavesExact; rw [live0_1 t], after0_1]
  rw [show (dat0 V c).leavesExact 2 t = owns (c : Thread nD τ) (mC0 t) fullShare ((dat0 V c).after 2 t) from by
    unfold Dat.leavesExact; rw [live0_2 t], after0_2]
  have hN : t.val < 200 := lt_of_lt_of_eq t.isLt (show cfg0.N = 200 from N_0)
  by_cases h0 : t.val % 10 = 0
  · by_cases h1 : t.val % 10 = 9
    · exfalso; omega
    · rw [Dat.leavesExact_idle (dat0 V c) 3 t (idle0_3 t (fun h => h1 ((flushC0_iff t).mp h))) (noFlush0_3 t (fun h => h1 ((flushC0_iff t).mp h)))]
      rw [outsAt0_Z V c t h0 h1]
      unfold acc0_Z; (try dsimp only)
      by_cases hz : t.val = 0
      · rw [PhiS0_castSucc V c t, PhiS0_zero V c _ _ hz, PhiA0_eq]
        iintro ⟨⟨⟨HS, Hr⟩, Hg⟩, Ho, ⟨%d0, H0⟩, ⟨%d1, H1⟩, ⟨%d2, H2⟩, ⟨%d3, H3⟩⟩
        iapply ((runZero0 c (grid0.coords t) _ _ _ _ _ _ _ _ _ _ ((zeroC0_iff t).mpr h0) (fun h => h1 ((flushC0_iff t).mp h)) (iblk0 V c 0 t) (iblk0 V c 1 t) (iblk0 V c 2 t)).2.2 _ Set.univ _)
        isplitl [H0]; · iexact H0
        isplitl [H1]; · iexact H1
        isplitl [H2]; · iexact H2
        isplitl [H3]; · iexact H3
        isplitl [HS]; · iexact HS
        iintro ⟨H0, H1, H2, H3, ⟨%es, HS⟩⟩
        isplitl [HS Hr Hg]
        · isplitl [HS Hr]
          · isplitl [HS]
            · unfold owns; iexists _; isplitr
              swap; · iexact HS
              ipureintro; exact View.read_writes_of_cover _ _ _ _ _ (scover0_Z c _ _ _ _ _ _ _ _ _ _ _ _ _ _ _ _)
            iexact Hr
          iexact Hg
        isplitl [Ho]; · iexact Ho
        isplitl [H0]; · iexact H0
        isplitl [H1]; · iexact H1
        isplitl [H2]; · iexact H2
        iexists _; iexact H3
      · rw [PhiS0_castSucc V c t, PhiS0_pos V c _ _ hz]
        iintro ⟨⟨⟨HS, Hr⟩, Hg⟩, Ho, ⟨%d0, H0⟩, ⟨%d1, H1⟩, ⟨%d2, H2⟩, ⟨%d3, H3⟩⟩
        iapply ((runZero0 c (grid0.coords t) _ _ _ _ _ _ _ _ _ _ ((zeroC0_iff t).mpr h0) (fun h => h1 ((flushC0_iff t).mp h)) (iblk0 V c 0 t) (iblk0 V c 1 t) (iblk0 V c 2 t)).2.2 _ Set.univ _)
        isplitl [H0]; · iexact H0
        isplitl [H1]; · iexact H1
        isplitl [H2]; · iexact H2
        isplitl [H3]; · iexact H3
        isplitl [HS]; · iexists _; iexact HS
        iintro ⟨H0, H1, H2, H3, ⟨%es, HS⟩⟩
        isplitl [HS Hr Hg]
        · isplitl [HS Hr]
          · isplitl [HS]
            · unfold owns; iexists _; isplitr
              swap; · iexact HS
              ipureintro; exact View.read_writes_of_cover _ _ _ _ _ (scover0_Z c _ _ _ _ _ _ _ _ _ _ _ _ _ _ _ _)
            iexact Hr
          iexact Hg
        isplitl [Ho]; · iexact Ho
        isplitl [H0]; · iexact H0
        isplitl [H1]; · iexact H1
        isplitl [H2]; · iexact H2
        iexists _; iexact H3
  · have hz : t.val ≠ 0 := fun e => h0 (by rw [e])
    by_cases h1 : t.val % 10 = 9
    · rw [show (dat0 V c).leavesExact 3 t = owns (c : Thread nD τ) (mO0 t) fullShare ((dat0 V c).after 3 t) from by
        unfold Dat.leavesExact; rw [live0_3 t ((flushC0_iff t).mpr h1)], after0_3]
      rw [outsAt0_L V c t h0 h1]
      unfold out0_L_3 acc0_L; (try dsimp only)
      rw [PhiS0_castSucc V c t, PhiS0_pos V c _ _ hz]
      iintro ⟨⟨⟨HS, Hr⟩, Hg⟩, Ho, ⟨%d0, H0⟩, ⟨%d1, H1⟩, ⟨%d2, H2⟩, ⟨%d3, H3⟩⟩
      iapply ((runLast0 c (grid0.coords t) _ _ _ _ _ _ _ _ _ _ (fun h => h0 ((zeroC0_iff t).mp h)) ((flushC0_iff t).mpr h1) (iblk0 V c 0 t) (iblk0 V c 1 t) (iblk0 V c 2 t) _).2.2 Set.univ _)
      isplitl [H0]; · iexact H0
      isplitl [H1]; · iexact H1
      isplitl [H2]; · iexact H2
      isplitl [H3]; · iexists _; iexact H3
      isplitl [HS]; · iexact HS
      iintro ⟨H0, H1, H2, ⟨%e3, H3⟩, ⟨%es, HS⟩⟩
      isplitl [HS Hr Hg]
      · isplitl [HS Hr]
        · isplitl [HS]
          · unfold owns; iexists _; isplitr
            swap; · iexact HS
            ipureintro; exact View.read_writes_of_cover _ _ _ _ _ (scover0_L c _ _ _ _ _ _ _ _ _ _ _ _ _ _ _ _ _)
          iexact Hr
        iexact Hg
      isplitl [Ho]; · iexact Ho
      isplitl [H0]; · iexact H0
      isplitl [H1]; · iexact H1
      isplitl [H2]; · iexact H2
      unfold owns; iexists _; isplitr
      swap; · iexact H3
      ipureintro; exact View.read_writes_of_cover _ _ _ _ _ (cover0_L_3 c _ _ _ _ _ _ _ _ _ _ _ _ _ _ _ _ _)
    · rw [Dat.leavesExact_idle (dat0 V c) 3 t (idle0_3 t (fun h => h1 ((flushC0_iff t).mp h))) (noFlush0_3 t (fun h => h1 ((flushC0_iff t).mp h)))]
      rw [outsAt0_M V c t h0 h1]
      unfold acc0_M; (try dsimp only)
      rw [PhiS0_castSucc V c t, PhiS0_pos V c _ _ hz]
      iintro ⟨⟨⟨HS, Hr⟩, Hg⟩, Ho, ⟨%d0, H0⟩, ⟨%d1, H1⟩, ⟨%d2, H2⟩, ⟨%d3, H3⟩⟩
      iapply ((runMid0 c (grid0.coords t) _ _ _ _ _ _ _ _ _ _ (fun h => h0 ((zeroC0_iff t).mp h)) (fun h => h1 ((flushC0_iff t).mp h)) (iblk0 V c 0 t) (iblk0 V c 1 t) (iblk0 V c 2 t) _).2.2 _ Set.univ _)
      isplitl [H0]; · iexact H0
      isplitl [H1]; · iexact H1
      isplitl [H2]; · iexact H2
      isplitl [H3]; · iexact H3
      isplitl [HS]; · iexact HS
      iintro ⟨H0, H1, H2, H3, ⟨%es, HS⟩⟩
      isplitl [HS Hr Hg]
      · isplitl [HS Hr]
        · isplitl [HS]
          · unfold owns; iexists _; isplitr
            swap; · iexact HS
            ipureintro; exact View.read_writes_of_cover _ _ _ _ _ (scover0_M c _ _ _ _ _ _ _ _ _ _ _ _ _ _ _ _ _)
          iexact Hr
        iexact Hg
      isplitl [Ho]; · iexact Ho
      isplitl [H0]; · iexact H0
      isplitl [H1]; · iexact H1
      isplitl [H2]; · iexact H2
      iexists _; iexact H3

/-- The library's body obligation, at every point. -/
theorem body_obligation0 (c : Dev nD) : BodyObligation (dat0 (F := F) V c) (defs₀ (F := F)) Variants.none () Set.univ := fun t => by
  rw [bigSep_W0, bigSep_W0]
  exact sound_body0 V c t

/-- What the launch hands the region is the invariant before the first point. -/
theorem hin0 (c : Dev nD) : Pipeline.ΦA spec0 c ⊢ (dat0 V c).Φ 0 := by
  rw [show (dat0 V c).Φ 0 = PhiS0 V c 0 (Nat.zero_le _) from rfl, PhiS0_zero V c 0 _ rfl]
  try exact Idealize.SL.BI.Entails.refl _

/-- After any point the invariant gives the class's back: the accumulator's named contents are forgotten. -/
theorem Phi_out0 (c : Dev nD) (t : Fin (cfg0.N + 1)) (ht : t.val ≠ 0) : (dat0 V c).Φ t ⊢ Pipeline.ΦA spec0 c := by
  rw [show (dat0 V c).Φ t = PhiS0 V c t.val (Nat.le_of_lt_succ t.isLt) from rfl, PhiS0_pos V c _ _ ht, PhiA0_eq]
  iintro ⟨⟨HS, Hr⟩, Hg⟩
  isplitl [HS Hr]
  · isplitl [HS]
    · iexists _; iexact HS
    iexact Hr
  iexact Hg

/-- The same after the last point. -/
theorem hout0 (c : Dev nD) : (dat0 V c).Φ (Fin.last cfg0.N) ⊢ Pipeline.ΦA spec0 c :=
  Phi_out0 V c _ (by rw [Fin.val_last]; have : cfg0.N = 200 := N_0; omega)

end Entry

end Cert.Kernel.Rg

end
-- ==== Proof.KB.Reg1.lean ====
/- Stage-1 region 1 (custom_call 1): the per-region half of the frame argument, at the buffer
   contents `V` found when the region is entered. One row block of the left operand times the whole
   right operand, plus the bias row, written to the result's row block. -/
import proofs.«181230_j19834158973077_2_alg».proof.Proof.Gen.Kernel.Launch
import proofs.«181230_j19834158973077_2_alg».proof.Proof.Gen.Kernel.Skeleton
import proofs.«181230_j19834158973077_2_alg».proof.Proof.Gen.Kernel.Points
import Idealize.ShloMosaic.Lib.Pipeline.FrameBody
import Idealize.ShloMosaic.Lib.Ring
import Idealize.ShloMosaic.Lib.Tactic

-- membership in a rectangle of full extents recurses once per coordinate of the long axes
set_option maxRecDepth 16384

noncomputable section

namespace Cert.Kernel.Rg

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

-- the TensorCore's buffer contents when the region is entered
variable (V : (c : Dev nD) → (b : Ref sig .tc) → Buf (Elt F) ((c : Thread nD τ).loc b))

/-! ## The windows' blocks -/

/-- Window `w`'s block at point `t`, read off its array as the region finds it. -/
def iblk1 (c : Dev nD) (w : Fin cfg1.W) (t : Fin cfg1.N) : ((cfg1.win w).xblock (cfg1.grid.coords t)).Idx → Elt F (cfg1.win w).elt :=
  ((cfg1.win w).blk t).view.read (Elt F) (V c (Pipeline.arrRef spec1 w))

/-- Input window 0's current staging buffer holds its block at every point, fetched there or not: where it is
    not fetched the block index has not moved, and the body leaves the block in place. -/
theorem before1_0_of {c : Dev nD} (dat : Dat τ (Elt F) Unit ℕ (UR sig nD τ) ℕ cfg1 c) (hA : dat.A 0 = V c (Pipeline.arrRef spec1 0))
    (hafter : ∀ t, dat.after 0 t = iblk1 V c 0 t) (t : Fin cfg1.N) (d) : dat.before 0 t d = iblk1 V c 0 t :=
  (dat.before_in_eq_fetched 0 rfl (fun _ => rfl) (fun _ _ _ => rfl) (fun t => by rw [hafter]; unfold Dat.blockOf iblk1; rw [hA]; try rfl) t d).trans
    (by unfold Dat.fetched Dat.blockOf iblk1; rw [hA]; try rfl)

/-- Input window 1's current staging buffer holds its block at every point, fetched there or not: where it is
    not fetched the block index has not moved, and the body leaves the block in place. -/
theorem before1_1_of {c : Dev nD} (dat : Dat τ (Elt F) Unit ℕ (UR sig nD τ) ℕ cfg1 c) (hA : dat.A 1 = V c (Pipeline.arrRef spec1 1))
    (hafter : ∀ t, dat.after 1 t = iblk1 V c 1 t) (t : Fin cfg1.N) (d) : dat.before 1 t d = iblk1 V c 1 t :=
  (dat.before_in_eq_fetched 1 rfl (fun _ => rfl) (fun _ _ _ => rfl) (fun t => by rw [hafter]; unfold Dat.blockOf iblk1; rw [hA]; try rfl) t d).trans
    (by unfold Dat.fetched Dat.blockOf iblk1; rw [hA]; try rfl)

/-- Input window 2's current staging buffer holds its block at every point, fetched there or not: where it is
    not fetched the block index has not moved, and the body leaves the block in place. -/
theorem before1_2_of {c : Dev nD} (dat : Dat τ (Elt F) Unit ℕ (UR sig nD τ) ℕ cfg1 c) (hA : dat.A 2 = V c (Pipeline.arrRef spec1 2))
    (hafter : ∀ t, dat.after 2 t = iblk1 V c 2 t) (t : Fin cfg1.N) (d) : dat.before 2 t d = iblk1 V c 2 t :=
  (dat.before_in_eq_fetched 2 rfl (fun _ => rfl) (fun _ _ _ => rfl) (fun t => by rw [hafter]; unfold Dat.blockOf iblk1; rw [hA]; try rfl) t d).trans
    (by unfold Dat.fetched Dat.blockOf iblk1; rw [hA]; try rfl)

/-! ## The body's accesses: each staging buffer whole -/

abbrev r1_0 : Rect S1024x128 := Rect.unit (s := S1024x128) ![0, 0] S1024x128.size inb_S1024x128_S1024x128_0_0
abbrev r1_1 : Rect S128x1024 := Rect.unit (s := S128x1024) ![0, 0] S128x1024.size inb_S128x1024_S128x1024_0_0
abbrev r1_2 : Rect S1x1024 := Rect.unit (s := S1x1024) ![0, 0] S1x1024.size inb_S1x1024_S1x1024_0_0
abbrev r1_3 : Rect S1024x1024 := Rect.unit (s := S1024x1024) ![0, 0] S1024x1024.size inb_S1024x1024_S1024x1024_0_0

/-! ## What the body leaves in the result's buffer -/

/-- The result window's staging buffer after the body, from the three input blocks: its one whole-block store
    of the payload (product into a zero accumulator, plus the bias row, then the format change). -/
def out1_3 (x0 : Vec F S1024x128 .bf16) (x1 : Vec F S128x1024 .bf16) (x2 : Vec F S1x1024 .f32) : Vec F S1024x1024 .bf16 :=
  View.canon [⟨r1_3, k1_pay1 (View.ld x0 r1_0) (View.ld x1 r1_1) (View.ld x2 r1_2)⟩]

/-- The one store is the whole buffer, so it covers it. -/
theorem cover1_3 (p0 : Vec F S1024x1024 .bf16) (y : S1024x1024.Idx) :
    ∃ pc ∈ ([⟨r1_3, p0⟩] : List (View.Piece (Elt F) S1024x1024 .bf16)), y ∈ pc.1.set :=
  View.cover_of_tiled [⟨r1_3, p0⟩] S1024x1024.size (by rfl) y

/-! ## The body's triple -/

set_option maxHeartbeats 1000000 in
/-- The kernel body on whole staging memrefs, the inputs' at contents `x0 x1 x2` and the result's at anything, runs
    to the continuation holding the inputs' as they were and the result's at `out1_3` of the inputs'. -/
theorem sound_kernel1 (c : Dev nD) (E : Set ℕ) (i : grid1.Coords)
    (arg0 : Memref sig .tc .vmem S1024x128 .bf16) (harg0 : arg0.IsWhole) (arg1 : Memref sig .tc .vmem S128x1024 .bf16) (harg1 : arg1.IsWhole)
    (arg2 : Memref sig .tc .vmem S1x1024 .f32) (harg2 : arg2.IsWhole) (arg3 : Memref sig .tc .vmem S1024x1024 .bf16) (harg3 : arg3.IsWhole)
    (x0 : Vec F S1024x128 .bf16) (x1 : Vec F S128x1024 .bf16) (x2 : Vec F S1x1024 .f32) (K : PUnit → sProp 𝕄) :
    iprop(owns (c : Thread nD τ) arg0 fullShare x0 ∗ owns (c : Thread nD τ) arg1 fullShare x1 ∗ owns (c : Thread nD τ) arg2 fullShare x2
        ∗ (∃ d, owns (c : Thread nD τ) arg3 fullShare d)
        ∗ (iprop(owns (c : Thread nD τ) arg0 fullShare x0 ∗ owns (c : Thread nD τ) arg1 fullShare x1 ∗ owns (c : Thread nD τ) arg2 fullShare x2
            ∗ owns (c : Thread nD τ) arg3 fullShare (out1_3 x0 x1 x2)) -∗ K ⟨⟩))
      ⊢ wp frame (wpE (defs₀ (F := F)) Variants.none c none) E (cc1__stage1_kernel i arg0 harg0 arg1 harg1 arg2 harg2 arg3 harg3) K := by
  simp only [cc1__stage1_kernel_eq_skeleton]; unfold cc1__stage1_kernel_skel
  unfold owns
  iintro ⟨⟨%f0, %hf0, H0⟩, ⟨%f1, %hf1, H1⟩, ⟨%f2, %hf2, H2⟩, ⟨%d3, %f3, -, H3⟩, Hk⟩
  subst hf0 hf1 hf2
  sl_exec
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  iexists _; isplitr
  swap; · iexact H3
  ipureintro
  exact View.read_writes_eq_canon _ _ _ (cover1_3 _)

/-! ## The pipeline's proof data -/

/-- The proof data of pipeline 1 on core `c`: the arrays as the region finds them; after the body at point `t`
    each input's buffer at its block and the result's at `out1_3` of the input blocks; the invariant the scoped
    rest and the generator register, untouched; nothing owed; full shares. -/
def dat1 (c : Dev nD) : Dat τ (Elt F) Unit ℕ (UR sig nD τ) ℕ cfg1 c where
  A w := V c (Pipeline.arrRef spec1 w)
  after w t := match w with
    | ⟨0, _⟩ => iblk1 V c 0 t
    | ⟨1, _⟩ => iblk1 V c 1 t
    | ⟨2, _⟩ => iblk1 V c 2 t
    | ⟨3, _⟩ => out1_3 (iblk1 V c 0 t) (iblk1 V c 1 t) (iblk1 V c 2 t)
  Φ _ := Pipeline.ΦA spec1 c
  q _ := fullShare
  owed _ := 0

/-- The proof data's arrays are the region-entry contents. -/
theorem A_eq1 (c : Dev nD) (w : Fin cfg1.W) : (dat1 V c).A w = V c (Pipeline.arrRef spec1 w) := by
  dsimp only [dat1]

/-- What the body leaves, window by window. -/
theorem after1_0 (c : Dev nD) (t : Fin cfg1.N) : (dat1 V c).after 0 t = iblk1 V c 0 t := by dsimp only [dat1]
theorem after1_1 (c : Dev nD) (t : Fin cfg1.N) : (dat1 V c).after 1 t = iblk1 V c 1 t := by dsimp only [dat1]
theorem after1_2 (c : Dev nD) (t : Fin cfg1.N) : (dat1 V c).after 2 t = iblk1 V c 2 t := by dsimp only [dat1]
theorem after1_3 (c : Dev nD) (t : Fin cfg1.N) :
    (dat1 V c).after 3 t = out1_3 (iblk1 V c 0 t) (iblk1 V c 1 t) (iblk1 V c 2 t) := by dsimp only [dat1]

/-- Each input's current staging buffer holds its block at every point, fetched there or not. -/
theorem before1_0 (c : Dev nD) (t : Fin cfg1.N) (d) : (dat1 V c).before 0 t d = iblk1 V c 0 t :=
  before1_0_of V (dat1 V c) (A_eq1 V c 0) (after1_0 V c) t d
theorem before1_1 (c : Dev nD) (t : Fin cfg1.N) (d) : (dat1 V c).before 1 t d = iblk1 V c 1 t :=
  before1_1_of V (dat1 V c) (A_eq1 V c 1) (after1_1 V c) t d
theorem before1_2 (c : Dev nD) (t : Fin cfg1.N) (d) : (dat1 V c).before 2 t d = iblk1 V c 2 t :=
  before1_2_of V (dat1 V c) (A_eq1 V c 2) (after1_2 V c) t d

/-- The invariant is the class's at every point: entering and leaving the region are identities on it. -/
theorem hin1 (c : Dev nD) : (Pipeline.ΦA spec1 c : sProp 𝕄) ⊢ (dat1 V c).Φ 0 := by
  show (Pipeline.ΦA spec1 c : sProp 𝕄) ⊢ Pipeline.ΦA spec1 c
  exact .rfl
theorem hout1 (c : Dev nD) : (dat1 V c).Φ (Fin.last cfg1.N) ⊢ (Pipeline.ΦA spec1 c : sProp 𝕄) := by
  show (Pipeline.ΦA spec1 c : sProp 𝕄) ⊢ Pipeline.ΦA spec1 c
  exact .rfl

/-! ## The body obligation, at a generic point -/

/-- What the body is called with at point `t`, the windows one by one, -/
def bodyPre1 (c : Dev nD) (t : Fin cfg1.N) : sProp 𝕄 :=
  iprop((dat1 V c).Φ t.castSucc ∗ (dat1 V c).owesAt () t.castSucc
    ∗ (∃ d, owns (c : Thread nD τ) (st1_0 t) fullShare ((dat1 V c).before 0 t d))
    ∗ (∃ d, owns (c : Thread nD τ) (st1_1 t) fullShare ((dat1 V c).before 1 t d))
    ∗ (∃ d, owns (c : Thread nD τ) (st1_2 t) fullShare ((dat1 V c).before 2 t d))
    ∗ (∃ d, owns (c : Thread nD τ) (st1_3 t) fullShare ((dat1 V c).before 3 t d)))

/-- and what it returns. -/
def bodyPost1 (c : Dev nD) (t : Fin cfg1.N) : sProp 𝕄 :=
  iprop((dat1 V c).Φ t.succ ∗ (dat1 V c).owesAt () t.succ
    ∗ owns (c : Thread nD τ) (st1_0 t) fullShare ((dat1 V c).after 0 t)
    ∗ owns (c : Thread nD τ) (st1_1 t) fullShare ((dat1 V c).after 1 t)
    ∗ owns (c : Thread nD τ) (st1_2 t) fullShare ((dat1 V c).after 2 t)
    ∗ owns (c : Thread nD τ) (st1_3 t) fullShare ((dat1 V c).after 3 t))

/-- The body at any point: the inputs' memrefs hold their blocks, so the body's triple applies; the invariant and
    the core's debts pass through unread. -/
theorem sound_body1 (c : Dev nD) (t : Fin cfg1.N) :
    bodyPre1 V c t ⊢ wp frame (wpE (defs₀ (F := F)) Variants.none c none) Set.univ (bodyAt1 t) (fun _ => bodyPost1 V c t) := by
  unfold bodyPre1 bodyPost1 bodyAt1
  simp only [before1_0, before1_1, before1_2]
  rw [show (dat1 V c).Φ t.succ = (dat1 V c).Φ t.castSucc from rfl,
    show (dat1 V c).owesAt () t.succ = (dat1 V c).owesAt () t.castSucc from rfl,
    after1_0, after1_1, after1_2, after1_3]
  iintro ⟨HΦ, Ho, ⟨%d0, H0⟩, ⟨%d1, H1⟩, ⟨%d2, H2⟩, ⟨%d3, H3⟩⟩
  iapply (sound_kernel1 c Set.univ _ _ _ _ _ _ _ _ _ (iblk1 V c 0 t) (iblk1 V c 1 t) (iblk1 V c 2 t) _)
  isplitl [H0]; · iexact H0
  isplitl [H1]; · iexact H1
  isplitl [H2]; · iexact H2
  isplitl [H3]; · iexists _; iexact H3
  iintro ⟨H0, H1, H2, H3⟩
  isplitl [HΦ]; · iexact HΦ
  isplitl [Ho]; · iexact Ho
  isplitl [H0]; · iexact H0
  isplitl [H1]; · iexact H1
  isplitl [H2]; · iexact H2
  iexact H3

/-- The library's body obligation, at every point. -/
theorem body_obligation1 (c : Dev nD) : BodyObligation (dat1 (F := F) V c) (defs₀ (F := F)) Variants.none () Set.univ := fun t => by
  rw [bigSep_W1, bigSep_W1]
  exact sound_body1 V c t

end Cert.Kernel.Rg
-- ==== Proof.KB.Reg2.lean ====
/- Stage-1 region 2 (custom_call 2): the per-region half of the frame argument, at the buffer
   contents `V` found when the region is entered. One row block of the left operand times the whole
   right operand, plus the bias row, written to the result's row block. -/
import proofs.«181230_j19834158973077_2_alg».proof.Proof.Gen.Kernel.Launch
import proofs.«181230_j19834158973077_2_alg».proof.Proof.Gen.Kernel.Skeleton
import proofs.«181230_j19834158973077_2_alg».proof.Proof.Gen.Kernel.Points
import Idealize.ShloMosaic.Lib.Pipeline.FrameBody
import Idealize.ShloMosaic.Lib.Ring
import Idealize.ShloMosaic.Lib.Tactic

-- membership in a rectangle of full extents recurses once per coordinate of the long axes
set_option maxRecDepth 16384

noncomputable section

namespace Cert.Kernel.Rg

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

-- the TensorCore's buffer contents when the region is entered
variable (V : (c : Dev nD) → (b : Ref sig .tc) → Buf (Elt F) ((c : Thread nD τ).loc b))

/-! ## The windows' blocks -/

/-- Window `w`'s block at point `t`, read off its array as the region finds it. -/
def iblk2 (c : Dev nD) (w : Fin cfg2.W) (t : Fin cfg2.N) : ((cfg2.win w).xblock (cfg2.grid.coords t)).Idx → Elt F (cfg2.win w).elt :=
  ((cfg2.win w).blk t).view.read (Elt F) (V c (Pipeline.arrRef spec2 w))

/-- Input window 0's current staging buffer holds its block at every point, fetched there or not: where it is
    not fetched the block index has not moved, and the body leaves the block in place. -/
theorem before2_0_of {c : Dev nD} (dat : Dat τ (Elt F) Unit ℕ (UR sig nD τ) ℕ cfg2 c) (hA : dat.A 0 = V c (Pipeline.arrRef spec2 0))
    (hafter : ∀ t, dat.after 0 t = iblk2 V c 0 t) (t : Fin cfg2.N) (d) : dat.before 0 t d = iblk2 V c 0 t :=
  (dat.before_in_eq_fetched 0 rfl (fun _ => rfl) (fun _ _ _ => rfl) (fun t => by rw [hafter]; unfold Dat.blockOf iblk2; rw [hA]; try rfl) t d).trans
    (by unfold Dat.fetched Dat.blockOf iblk2; rw [hA]; try rfl)

/-- Input window 1's current staging buffer holds its block at every point, fetched there or not: where it is
    not fetched the block index has not moved, and the body leaves the block in place. -/
theorem before2_1_of {c : Dev nD} (dat : Dat τ (Elt F) Unit ℕ (UR sig nD τ) ℕ cfg2 c) (hA : dat.A 1 = V c (Pipeline.arrRef spec2 1))
    (hafter : ∀ t, dat.after 1 t = iblk2 V c 1 t) (t : Fin cfg2.N) (d) : dat.before 1 t d = iblk2 V c 1 t :=
  (dat.before_in_eq_fetched 1 rfl (fun _ => rfl) (fun _ _ _ => rfl) (fun t => by rw [hafter]; unfold Dat.blockOf iblk2; rw [hA]; try rfl) t d).trans
    (by unfold Dat.fetched Dat.blockOf iblk2; rw [hA]; try rfl)

/-- Input window 2's current staging buffer holds its block at every point, fetched there or not: where it is
    not fetched the block index has not moved, and the body leaves the block in place. -/
theorem before2_2_of {c : Dev nD} (dat : Dat τ (Elt F) Unit ℕ (UR sig nD τ) ℕ cfg2 c) (hA : dat.A 2 = V c (Pipeline.arrRef spec2 2))
    (hafter : ∀ t, dat.after 2 t = iblk2 V c 2 t) (t : Fin cfg2.N) (d) : dat.before 2 t d = iblk2 V c 2 t :=
  (dat.before_in_eq_fetched 2 rfl (fun _ => rfl) (fun _ _ _ => rfl) (fun t => by rw [hafter]; unfold Dat.blockOf iblk2; rw [hA]; try rfl) t d).trans
    (by unfold Dat.fetched Dat.blockOf iblk2; rw [hA]; try rfl)

/-! ## The body's accesses: each staging buffer whole -/

abbrev r2_0 : Rect S1024x1024 := Rect.unit (s := S1024x1024) ![0, 0] S1024x1024.size inb_S1024x1024_S1024x1024_0_0
abbrev r2_1 : Rect S1024x1024 := Rect.unit (s := S1024x1024) ![0, 0] S1024x1024.size inb_S1024x1024_S1024x1024_0_0
abbrev r2_2 : Rect S1x1024 := Rect.unit (s := S1x1024) ![0, 0] S1x1024.size inb_S1x1024_S1x1024_0_0
abbrev r2_3 : Rect S1024x1024 := Rect.unit (s := S1024x1024) ![0, 0] S1024x1024.size inb_S1024x1024_S1024x1024_0_0

/-! ## What the body leaves in the result's buffer -/

/-- The result window's staging buffer after the body, from the three input blocks: its one whole-block store
    of the payload (product into a zero accumulator, plus the bias row, then the format change). -/
def out2_3 (x0 : Vec F S1024x1024 .bf16) (x1 : Vec F S1024x1024 .bf16) (x2 : Vec F S1x1024 .f32) : Vec F S1024x1024 .bf16 :=
  View.canon [⟨r2_3, k2_pay1 (View.ld x0 r2_0) (View.ld x1 r2_1) (View.ld x2 r2_2)⟩]

/-- The one store is the whole buffer, so it covers it. -/
theorem cover2_3 (p0 : Vec F S1024x1024 .bf16) (y : S1024x1024.Idx) :
    ∃ pc ∈ ([⟨r2_3, p0⟩] : List (View.Piece (Elt F) S1024x1024 .bf16)), y ∈ pc.1.set :=
  View.cover_of_tiled [⟨r2_3, p0⟩] S1024x1024.size (by rfl) y

/-! ## The body's triple -/

set_option maxHeartbeats 1000000 in
/-- The kernel body on whole staging memrefs, the inputs' at contents `x0 x1 x2` and the result's at anything, runs
    to the continuation holding the inputs' as they were and the result's at `out2_3` of the inputs'. -/
theorem sound_kernel2 (c : Dev nD) (E : Set ℕ) (i : grid2.Coords)
    (arg0 : Memref sig .tc .vmem S1024x1024 .bf16) (harg0 : arg0.IsWhole) (arg1 : Memref sig .tc .vmem S1024x1024 .bf16) (harg1 : arg1.IsWhole)
    (arg2 : Memref sig .tc .vmem S1x1024 .f32) (harg2 : arg2.IsWhole) (arg3 : Memref sig .tc .vmem S1024x1024 .bf16) (harg3 : arg3.IsWhole)
    (x0 : Vec F S1024x1024 .bf16) (x1 : Vec F S1024x1024 .bf16) (x2 : Vec F S1x1024 .f32) (K : PUnit → sProp 𝕄) :
    iprop(owns (c : Thread nD τ) arg0 fullShare x0 ∗ owns (c : Thread nD τ) arg1 fullShare x1 ∗ owns (c : Thread nD τ) arg2 fullShare x2
        ∗ (∃ d, owns (c : Thread nD τ) arg3 fullShare d)
        ∗ (iprop(owns (c : Thread nD τ) arg0 fullShare x0 ∗ owns (c : Thread nD τ) arg1 fullShare x1 ∗ owns (c : Thread nD τ) arg2 fullShare x2
            ∗ owns (c : Thread nD τ) arg3 fullShare (out2_3 x0 x1 x2)) -∗ K ⟨⟩))
      ⊢ wp frame (wpE (defs₀ (F := F)) Variants.none c none) E (cc2__stage1_kernel i arg0 harg0 arg1 harg1 arg2 harg2 arg3 harg3) K := by
  simp only [cc2__stage1_kernel_eq_skeleton]; unfold cc2__stage1_kernel_skel
  unfold owns
  iintro ⟨⟨%f0, %hf0, H0⟩, ⟨%f1, %hf1, H1⟩, ⟨%f2, %hf2, H2⟩, ⟨%d3, %f3, -, H3⟩, Hk⟩
  subst hf0 hf1 hf2
  sl_exec
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  iexists _; isplitr
  swap; · iexact H3
  ipureintro
  exact View.read_writes_eq_canon _ _ _ (cover2_3 _)

/-! ## The pipeline's proof data -/

/-- The proof data of pipeline 2 on core `c`: the arrays as the region finds them; after the body at point `t`
    each input's buffer at its block and the result's at `out2_3` of the input blocks; the invariant the scoped
    rest and the generator register, untouched; nothing owed; full shares. -/
def dat2 (c : Dev nD) : Dat τ (Elt F) Unit ℕ (UR sig nD τ) ℕ cfg2 c where
  A w := V c (Pipeline.arrRef spec2 w)
  after w t := match w with
    | ⟨0, _⟩ => iblk2 V c 0 t
    | ⟨1, _⟩ => iblk2 V c 1 t
    | ⟨2, _⟩ => iblk2 V c 2 t
    | ⟨3, _⟩ => out2_3 (iblk2 V c 0 t) (iblk2 V c 1 t) (iblk2 V c 2 t)
  Φ _ := Pipeline.ΦA spec2 c
  q _ := fullShare
  owed _ := 0

/-- The proof data's arrays are the region-entry contents. -/
theorem A_eq2 (c : Dev nD) (w : Fin cfg2.W) : (dat2 V c).A w = V c (Pipeline.arrRef spec2 w) := by
  dsimp only [dat2]

/-- What the body leaves, window by window. -/
theorem after2_0 (c : Dev nD) (t : Fin cfg2.N) : (dat2 V c).after 0 t = iblk2 V c 0 t := by dsimp only [dat2]
theorem after2_1 (c : Dev nD) (t : Fin cfg2.N) : (dat2 V c).after 1 t = iblk2 V c 1 t := by dsimp only [dat2]
theorem after2_2 (c : Dev nD) (t : Fin cfg2.N) : (dat2 V c).after 2 t = iblk2 V c 2 t := by dsimp only [dat2]
theorem after2_3 (c : Dev nD) (t : Fin cfg2.N) :
    (dat2 V c).after 3 t = out2_3 (iblk2 V c 0 t) (iblk2 V c 1 t) (iblk2 V c 2 t) := by dsimp only [dat2]

/-- Each input's current staging buffer holds its block at every point, fetched there or not. -/
theorem before2_0 (c : Dev nD) (t : Fin cfg2.N) (d) : (dat2 V c).before 0 t d = iblk2 V c 0 t :=
  before2_0_of V (dat2 V c) (A_eq2 V c 0) (after2_0 V c) t d
theorem before2_1 (c : Dev nD) (t : Fin cfg2.N) (d) : (dat2 V c).before 1 t d = iblk2 V c 1 t :=
  before2_1_of V (dat2 V c) (A_eq2 V c 1) (after2_1 V c) t d
theorem before2_2 (c : Dev nD) (t : Fin cfg2.N) (d) : (dat2 V c).before 2 t d = iblk2 V c 2 t :=
  before2_2_of V (dat2 V c) (A_eq2 V c 2) (after2_2 V c) t d

/-- The invariant is the class's at every point: entering and leaving the region are identities on it. -/
theorem hin2 (c : Dev nD) : (Pipeline.ΦA spec2 c : sProp 𝕄) ⊢ (dat2 V c).Φ 0 := by
  show (Pipeline.ΦA spec2 c : sProp 𝕄) ⊢ Pipeline.ΦA spec2 c
  exact .rfl
theorem hout2 (c : Dev nD) : (dat2 V c).Φ (Fin.last cfg2.N) ⊢ (Pipeline.ΦA spec2 c : sProp 𝕄) := by
  show (Pipeline.ΦA spec2 c : sProp 𝕄) ⊢ Pipeline.ΦA spec2 c
  exact .rfl

/-! ## The body obligation, at a generic point -/

/-- What the body is called with at point `t`, the windows one by one, -/
def bodyPre2 (c : Dev nD) (t : Fin cfg2.N) : sProp 𝕄 :=
  iprop((dat2 V c).Φ t.castSucc ∗ (dat2 V c).owesAt () t.castSucc
    ∗ (∃ d, owns (c : Thread nD τ) (st2_0 t) fullShare ((dat2 V c).before 0 t d))
    ∗ (∃ d, owns (c : Thread nD τ) (st2_1 t) fullShare ((dat2 V c).before 1 t d))
    ∗ (∃ d, owns (c : Thread nD τ) (st2_2 t) fullShare ((dat2 V c).before 2 t d))
    ∗ (∃ d, owns (c : Thread nD τ) (st2_3 t) fullShare ((dat2 V c).before 3 t d)))

/-- and what it returns. -/
def bodyPost2 (c : Dev nD) (t : Fin cfg2.N) : sProp 𝕄 :=
  iprop((dat2 V c).Φ t.succ ∗ (dat2 V c).owesAt () t.succ
    ∗ owns (c : Thread nD τ) (st2_0 t) fullShare ((dat2 V c).after 0 t)
    ∗ owns (c : Thread nD τ) (st2_1 t) fullShare ((dat2 V c).after 1 t)
    ∗ owns (c : Thread nD τ) (st2_2 t) fullShare ((dat2 V c).after 2 t)
    ∗ owns (c : Thread nD τ) (st2_3 t) fullShare ((dat2 V c).after 3 t))

/-- The body at any point: the inputs' memrefs hold their blocks, so the body's triple applies; the invariant and
    the core's debts pass through unread. -/
theorem sound_body2 (c : Dev nD) (t : Fin cfg2.N) :
    bodyPre2 V c t ⊢ wp frame (wpE (defs₀ (F := F)) Variants.none c none) Set.univ (bodyAt2 t) (fun _ => bodyPost2 V c t) := by
  unfold bodyPre2 bodyPost2 bodyAt2
  simp only [before2_0, before2_1, before2_2]
  rw [show (dat2 V c).Φ t.succ = (dat2 V c).Φ t.castSucc from rfl,
    show (dat2 V c).owesAt () t.succ = (dat2 V c).owesAt () t.castSucc from rfl,
    after2_0, after2_1, after2_2, after2_3]
  iintro ⟨HΦ, Ho, ⟨%d0, H0⟩, ⟨%d1, H1⟩, ⟨%d2, H2⟩, ⟨%d3, H3⟩⟩
  iapply (sound_kernel2 c Set.univ _ _ _ _ _ _ _ _ _ (iblk2 V c 0 t) (iblk2 V c 1 t) (iblk2 V c 2 t) _)
  isplitl [H0]; · iexact H0
  isplitl [H1]; · iexact H1
  isplitl [H2]; · iexact H2
  isplitl [H3]; · iexists _; iexact H3
  iintro ⟨H0, H1, H2, H3⟩
  isplitl [HΦ]; · iexact HΦ
  isplitl [Ho]; · iexact Ho
  isplitl [H0]; · iexact H0
  isplitl [H1]; · iexact H1
  isplitl [H2]; · iexact H2
  iexact H3

/-- The library's body obligation, at every point. -/
theorem body_obligation2 (c : Dev nD) : BodyObligation (dat2 (F := F) V c) (defs₀ (F := F)) Variants.none () Set.univ := fun t => by
  rw [bigSep_W2, bigSep_W2]
  exact sound_body2 V c t

end Cert.Kernel.Rg
-- ==== Proof.KB.Reg3.lean ====
/- REGION 3: the adjacency product with a carried accumulator (grid 20 × 10, the reduction step `k = t % 10`). The f32
   accumulator [512x1024] is zeroed when `k = 0`, takes the product of the left operand's block with the right operand's
   rows `k*1024 … k*1024+1023` at every point, and when `k = 9` is read back, the bias row added, the positive part taken, the sum converted to the result's format and stored whole into the
   result's block. Stated at a parameter `V`, the TensorCore's buffer contents when the region is entered: the proof
   data `dat3`, its body obligation, and the invariant's two ends `hin3` / `hout3`; `out3_L_3` / `outsAt3` name what
   the result window holds. -/
import proofs.«181230_j19834158973077_2_alg».proof.Proof.Gen.Kernel.Launch
import proofs.«181230_j19834158973077_2_alg».proof.Proof.Gen.Kernel.Skeleton
import proofs.«181230_j19834158973077_2_alg».proof.Proof.Gen.Kernel.Points
import Idealize.ShloMosaic.Lib.Pipeline.FrameBody
import Idealize.ShloMosaic.Lib.Ring
import Idealize.ShloMosaic.Lib.Tactic

-- membership in a rectangle of full extents recurses once per coordinate of the long axes
set_option maxRecDepth 16384

noncomputable section

namespace Cert.Kernel.Rg

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

/-! # Part 1: the conditionals over the grid, the memrefs, the invariant's split, the blocks -/

/-! ## The body's two conditionals, over the grid

A grid point `t` has coordinates `(m, k)` with `k = t % 10` the reduction step. The accumulator is zeroed when
`k = 0`; the result block is written when `k = 9`. -/

/-- The first conditional's condition (`k = 0`), with the scalar chain that computes it substituted. -/
abbrev zeroC3 (i : grid3.Coords) : Prop :=
  (Scalar.cmpi .ne (Scalar.extui (Scalar.cmpi .eq (BitVec.ofNat 32 (i 1).val) 0#32)) 0#32) = 1#1
/-- It holds exactly at the points ≡ 0 (mod 10): decided over the 200 points. -/
theorem zeroC3_iff : ∀ t : Fin cfg3.N, zeroC3 (grid3.coords t) ↔ t.val % 10 = 0 :=
  (by decide +kernel : ∀ t : Fin grid3.N, zeroC3 (grid3.coords t) ↔ t.val % 10 = 0)

/-- The second conditional's condition (`k = 9`). -/
abbrev flushC3 (i : grid3.Coords) : Prop := k3_cond2 i = 1#1
/-- It holds exactly at the points ≡ 9 (mod 10). -/
theorem flushC3_iff : ∀ t : Fin cfg3.N, flushC3 (grid3.coords t) ↔ t.val % 10 = 9 :=
  (by decide +kernel : ∀ t : Fin grid3.N, flushC3 (grid3.coords t) ↔ t.val % 10 = 9)

/-! ## Where the windows are idle -/

/-- The three input windows are never idle. -/
theorem live3_0 : ∀ t : Fin cfg3.N, cfg3.idle 0 (grid3.coords t) = false := by decide +kernel
theorem live3_1 : ∀ t : Fin cfg3.N, cfg3.idle 1 (grid3.coords t) = false := by decide +kernel
theorem live3_2 : ∀ t : Fin cfg3.N, cfg3.idle 2 (grid3.coords t) = false := by decide +kernel
/-- Away from `k = 9` the result window is idle (the body stores nothing into it) -/
theorem idle3_3 : ∀ t : Fin cfg3.N, ¬flushC3 (grid3.coords t) → cfg3.idle 3 (grid3.coords t) = true := by decide +kernel
/-- and its block is not written back; -/
theorem noFlush3_3 : ∀ t : Fin cfg3.N, ¬flushC3 (grid3.coords t) → (cfg3.win 3).flush t = false := by decide +kernel
/-- at `k = 9` it is live. -/
theorem live3_3 : ∀ t : Fin cfg3.N, flushC3 (grid3.coords t) → cfg3.idle 3 (grid3.coords t) = false := by decide +kernel

/-! ## The memrefs the body is called with -/

/-- Each window's current staging memref at point `t`, and that it is a whole buffer: the left operand's block, -/
abbrev mA3 (t : Fin cfg3.N) : Memref sig .tc .vmem S512x1024 .bf16 := win3_0.stage (cfg3.slots t 0)
abbrev hA3 (t : Fin cfg3.N) : (mA3 t).IsWhole := hstage3_0 ((cfg3.slots t 0).cast nbuf3_0)
/-- the right operand, resident whole, -/
abbrev mB3 (t : Fin cfg3.N) : Memref sig .tc .vmem S10240x1024 .bf16 := win3_1.stage (cfg3.slots t 1)
abbrev hB3 (t : Fin cfg3.N) : (mB3 t).IsWhole := hstage3_1 ((cfg3.slots t 1).cast nbuf3_1)
/-- the bias row, -/
abbrev mC3 (t : Fin cfg3.N) : Memref sig .tc .vmem S1x1024 .f32 := win3_2.stage (cfg3.slots t 2)
abbrev hC3 (t : Fin cfg3.N) : (mC3 t).IsWhole := hstage3_2 ((cfg3.slots t 2).cast nbuf3_2)
/-- the result's block. -/
abbrev mO3 (t : Fin cfg3.N) : Memref sig .tc .vmem S512x1024 .bf16 := win3_3.stage (cfg3.slots t 3)
abbrev hO3 (t : Fin cfg3.N) : (mO3 t).IsWhole := hstage3_3 ((cfg3.slots t 3).cast nbuf3_3)
/-- The accumulator: a whole scoped buffer of the kernel's own, passed beside the windows and carried from point to point. -/
abbrev mS3 : Memref sig .tc .vmem S512x1024 .f32 := Memref.whole cc3_scratch0
/-- The views through which the result buffer's and the accumulator's contents are stated (one of the result's two
    staging buffers: for a covering list of stores the choice does not matter). -/
abbrev vO3 : View sig .tc .vmem S512x1024 .bf16 := (Memref.whole cc3_stg3_0 : Memref sig .tc .vmem S512x1024 .bf16).view
abbrev vS3 : View sig .tc .vmem S512x1024 .f32 := mS3.view

/-! ## The region invariant, with the accumulator split off -/

/-- Every other scoped buffer of the core that is no staging buffer of this region: carried unopened. -/
abbrev rest3 (c : Dev nD) : sProp 𝕄 :=
  Pipeline.scopedRestBut (Ix := Unit) (Name := ℕ) (U := UR sig nD τ) (Lvl := ℕ) (Val := Elt F) spec3 c [cc3_scratch0]

/-- The class's invariant is: the accumulator owned at some contents, the other scoped buffers, the generator
    register at some state. -/
theorem PhiA3_eq (c : Dev nD) :
    (Pipeline.ΦA spec3 c : sProp 𝕄)
      = iprop(iprop((∃ d, owns (c : Thread nD τ) mS3 fullShare d) ∗ rest3 (F := F) c) ∗ (∃ r, prngReg c r)) := by
  unfold Pipeline.ΦA; rw [scopedRest3_split]; simp only [mS3, owns_whole]; try rfl

section Entry
variable (V : (c : Dev nD) → (b : Ref sig .tc) → Buf (Elt F) ((c : Thread nD τ).loc b))

/-! ## The windows' blocks -/

/-- Window `w`'s block at point `t`, read off its array as the region finds it. -/
def iblk3 (c : Dev nD) (w : Fin cfg3.W) (t : Fin cfg3.N) : ((cfg3.win w).xblock (cfg3.grid.coords t)).Idx → Elt F (cfg3.win w).elt :=
  ((cfg3.win w).blk t).view.read (Elt F) (V c (Pipeline.arrRef spec3 w))

/-- An input window's current staging buffer holds its block at every point, fetched there or not (where it is not
    fetched its block index has not moved), for any proof data whose array is `V`'s and whose body leaves the block
    in place. -/
theorem before3_0_of {c : Dev nD} (dat : Dat τ (Elt F) Unit ℕ (UR sig nD τ) ℕ cfg3 c) (hA : dat.A 0 = V c (Pipeline.arrRef spec3 0))
    (hafter : ∀ t, dat.after 0 t = iblk3 V c 0 t) (t : Fin cfg3.N) (d) : dat.before 0 t d = iblk3 V c 0 t :=
  (dat.before_in_eq_fetched 0 rfl (fun _ => rfl) (fun _ _ _ => rfl) (fun t => by rw [hafter]; unfold Dat.blockOf iblk3; rw [hA]; try rfl) t d).trans
    (by unfold Dat.fetched Dat.blockOf iblk3; rw [hA]; try rfl)
theorem before3_1_of {c : Dev nD} (dat : Dat τ (Elt F) Unit ℕ (UR sig nD τ) ℕ cfg3 c) (hA : dat.A 1 = V c (Pipeline.arrRef spec3 1))
    (hafter : ∀ t, dat.after 1 t = iblk3 V c 1 t) (t : Fin cfg3.N) (d) : dat.before 1 t d = iblk3 V c 1 t :=
  (dat.before_in_eq_fetched 1 rfl (fun _ => rfl) (fun _ _ _ => rfl) (fun t => by rw [hafter]; unfold Dat.blockOf iblk3; rw [hA]; try rfl) t d).trans
    (by unfold Dat.fetched Dat.blockOf iblk3; rw [hA]; try rfl)
theorem before3_2_of {c : Dev nD} (dat : Dat τ (Elt F) Unit ℕ (UR sig nD τ) ℕ cfg3 c) (hA : dat.A 2 = V c (Pipeline.arrRef spec3 2))
    (hafter : ∀ t, dat.after 2 t = iblk3 V c 2 t) (t : Fin cfg3.N) (d) : dat.before 2 t d = iblk3 V c 2 t :=
  (dat.before_in_eq_fetched 2 rfl (fun _ => rfl) (fun _ _ _ => rfl) (fun t => by rw [hafter]; unfold Dat.blockOf iblk3; rw [hA]; try rfl) t d).trans
    (by unfold Dat.fetched Dat.blockOf iblk3; rw [hA]; try rfl)

end Entry

/-! # Part 2: the body's run in each of the three control cases -/
/-! ### The control case `k = 0`: the accumulator is stored whole with zeros, then read back, the block product added and the sum stored
   whole again; the result buffer is not touched. -/

-- (the run's proof term is large: the definition's epilogue walks it past the default budget)
set_option maxHeartbeats 1000000 in
/-- The lists of stores, last first, that the body leaves in the result buffer (`L3`) and in the accumulator (`LS`) in
    this case, TOGETHER WITH the proof that on whole memrefs — the three inputs at contents `x0 x1 x2`, the result
    buffer at contents `xi3` handed back as found, the accumulator at anything — the body runs to a
    continuation that holds the inputs as they were, the result buffer as it was and the accumulator with
    `LS` written. The two lists are found by running the body's memory operations in order over named payloads; each
    conditional is decided by the case's hypotheses. -/
noncomputable def runZero3 (c : Dev nD) (i : grid3.Coords) (arg2 : Memref sig .tc .vmem S512x1024 .bf16) (harg2 : arg2.IsWhole) (arg3 : Memref sig .tc .vmem S10240x1024 .bf16) (harg3 : arg3.IsWhole) (arg4 : Memref sig .tc .vmem S1x1024 .f32) (harg4 : arg4.IsWhole) (arg5 : Memref sig .tc .vmem S512x1024 .bf16) (harg5 : arg5.IsWhole) (arg6 : Memref sig .tc .vmem S512x1024 .f32) (harg6 : arg6.IsWhole) (hc0 : zeroC3 i) (hc1 : ¬flushC3 i)
    (x0 : Vec F S512x1024 .bf16) (x1 : Vec F S10240x1024 .bf16) (x2 : Vec F S1x1024 .f32) :
    Σ' (L3 : List (View.Piece (Elt F) S512x1024 .bf16)), { LS : List (View.Piece (Elt F) S512x1024 .f32) //
      ∀ (xi3 : Vec F S512x1024 .bf16) (E : Set ℕ) (K : PUnit → sProp 𝕄),
        iprop(owns (c : Thread nD τ) arg2 fullShare x0 ∗ owns (c : Thread nD τ) arg3 fullShare x1 ∗ owns (c : Thread nD τ) arg4 fullShare x2 ∗ owns (c : Thread nD τ) arg5 fullShare xi3 ∗ (∃ d, owns (c : Thread nD τ) arg6 fullShare d)
            ∗ (iprop(owns (c : Thread nD τ) arg2 fullShare x0 ∗ owns (c : Thread nD τ) arg3 fullShare x1 ∗ owns (c : Thread nD τ) arg4 fullShare x2 ∗ owns (c : Thread nD τ) arg5 fullShare xi3 ∗ (∃ f, arg6.view.loc (c : Thread nD τ) ↦[arg6.view.set]{fullShare} arg6.view.writes (Elt F) f LS)) -∗ K ⟨⟩))
          ⊢ wp frame (wpE (defs₀ (F := F)) Variants.none c none) E (cc3__stage2_kernel i arg2 harg2 arg3 harg3 arg4 harg4 arg5 harg5 arg6 harg6) K } := by
  refine ⟨[], ?_, fun xi3 E K => ?run⟩
  case run =>
    simp only [cc3__stage2_kernel_eq_skeleton]; unfold cc3__stage2_kernel_skel
    unfold owns
    iintro ⟨⟨%f0, %hf0, H0⟩, ⟨%f1, %hf1, H1⟩, ⟨%f2, %hf2, H2⟩, ⟨%f3, %hf3, H3⟩, ⟨%ds, %fs, -, HS⟩, Hk⟩
    obtain rfl := harg2.eq_unread hf0; obtain rfl := harg3.eq_unread hf1; obtain rfl := harg4.eq_unread hf2; obtain rfl := harg5.eq_unread hf3
    sl_exec (disch := first | exact hc0 | exact hc1)
    sl_step
    iapply Hk
    isplitl [H0]
    · iexists _; isplitr; · ipureintro; exact harg2.read_unread _
      iexact H0
    isplitl [H1]
    · iexists _; isplitr; · ipureintro; exact harg3.read_unread _
      iexact H1
    isplitl [H2]
    · iexists _; isplitr; · ipureintro; exact harg4.read_unread _
      iexact H2
    isplitl [H3]
    · iexists _; isplitr; · ipureintro; exact harg5.read_unread _
      iexact H3
    iexists _; iexact HS

/-! ### The control case `0 < k < 9`: the accumulator is read, the block product added and the sum stored whole; the result
   buffer is not touched. -/

-- (the run's proof term is large: the definition's epilogue walks it past the default budget)
set_option maxHeartbeats 1000000 in
/-- The lists of stores, last first, that the body leaves in the result buffer (`L3`) and in the accumulator (`LS`) in
    this case, TOGETHER WITH the proof that on whole memrefs — the three inputs at contents `x0 x1 x2`, the result
    buffer at contents `xi3` handed back as found, the accumulator at the contents `xs` the point before left — the body runs to a
    continuation that holds the inputs as they were, the result buffer as it was and the accumulator with
    `LS` written. The two lists are found by running the body's memory operations in order over named payloads; each
    conditional is decided by the case's hypotheses. -/
noncomputable def runMid3 (c : Dev nD) (i : grid3.Coords) (arg2 : Memref sig .tc .vmem S512x1024 .bf16) (harg2 : arg2.IsWhole) (arg3 : Memref sig .tc .vmem S10240x1024 .bf16) (harg3 : arg3.IsWhole) (arg4 : Memref sig .tc .vmem S1x1024 .f32) (harg4 : arg4.IsWhole) (arg5 : Memref sig .tc .vmem S512x1024 .bf16) (harg5 : arg5.IsWhole) (arg6 : Memref sig .tc .vmem S512x1024 .f32) (harg6 : arg6.IsWhole) (hc0 : ¬zeroC3 i) (hc1 : ¬flushC3 i)
    (x0 : Vec F S512x1024 .bf16) (x1 : Vec F S10240x1024 .bf16) (x2 : Vec F S1x1024 .f32) (xs : Vec F S512x1024 .f32) :
    Σ' (L3 : List (View.Piece (Elt F) S512x1024 .bf16)), { LS : List (View.Piece (Elt F) S512x1024 .f32) //
      ∀ (xi3 : Vec F S512x1024 .bf16) (E : Set ℕ) (K : PUnit → sProp 𝕄),
        iprop(owns (c : Thread nD τ) arg2 fullShare x0 ∗ owns (c : Thread nD τ) arg3 fullShare x1 ∗ owns (c : Thread nD τ) arg4 fullShare x2 ∗ owns (c : Thread nD τ) arg5 fullShare xi3 ∗ owns (c : Thread nD τ) arg6 fullShare xs
            ∗ (iprop(owns (c : Thread nD τ) arg2 fullShare x0 ∗ owns (c : Thread nD τ) arg3 fullShare x1 ∗ owns (c : Thread nD τ) arg4 fullShare x2 ∗ owns (c : Thread nD τ) arg5 fullShare xi3 ∗ (∃ f, arg6.view.loc (c : Thread nD τ) ↦[arg6.view.set]{fullShare} arg6.view.writes (Elt F) f LS)) -∗ K ⟨⟩))
          ⊢ wp frame (wpE (defs₀ (F := F)) Variants.none c none) E (cc3__stage2_kernel i arg2 harg2 arg3 harg3 arg4 harg4 arg5 harg5 arg6 harg6) K } := by
  refine ⟨[], ?_, fun xi3 E K => ?run⟩
  case run =>
    simp only [cc3__stage2_kernel_eq_skeleton]; unfold cc3__stage2_kernel_skel
    unfold owns
    iintro ⟨⟨%f0, %hf0, H0⟩, ⟨%f1, %hf1, H1⟩, ⟨%f2, %hf2, H2⟩, ⟨%f3, %hf3, H3⟩, ⟨%fs, %hfs, HS⟩, Hk⟩
    obtain rfl := harg2.eq_unread hf0; obtain rfl := harg3.eq_unread hf1; obtain rfl := harg4.eq_unread hf2; obtain rfl := harg5.eq_unread hf3; obtain rfl := harg6.eq_unread hfs
    sl_exec (disch := first | exact hc0 | exact hc1)
    sl_step
    iapply Hk
    isplitl [H0]
    · iexists _; isplitr; · ipureintro; exact harg2.read_unread _
      iexact H0
    isplitl [H1]
    · iexists _; isplitr; · ipureintro; exact harg3.read_unread _
      iexact H1
    isplitl [H2]
    · iexists _; isplitr; · ipureintro; exact harg4.read_unread _
      iexact H2
    isplitl [H3]
    · iexists _; isplitr; · ipureintro; exact harg5.read_unread _
      iexact H3
    iexists _; iexact HS

/-! ### The control case `k = 9`: the accumulator is read, the block product added and the sum stored whole; then the accumulator
   is read back, the bias row added, the sum converted to the result's format and stored whole into the result buffer. -/

-- (the run's proof term is large: the definition's epilogue walks it past the default budget)
set_option maxHeartbeats 1000000 in
/-- The lists of stores, last first, that the body leaves in the result buffer (`L3`) and in the accumulator (`LS`) in
    this case, TOGETHER WITH the proof that on whole memrefs — the three inputs at contents `x0 x1 x2`, the result buffer at anything, the accumulator at the contents `xs` the point before left — the body runs to a
    continuation that holds the inputs as they were, the result buffer with `L3` written and the accumulator with
    `LS` written. The two lists are found by running the body's memory operations in order over named payloads; each
    conditional is decided by the case's hypotheses. -/
noncomputable def runLast3 (c : Dev nD) (i : grid3.Coords) (arg2 : Memref sig .tc .vmem S512x1024 .bf16) (harg2 : arg2.IsWhole) (arg3 : Memref sig .tc .vmem S10240x1024 .bf16) (harg3 : arg3.IsWhole) (arg4 : Memref sig .tc .vmem S1x1024 .f32) (harg4 : arg4.IsWhole) (arg5 : Memref sig .tc .vmem S512x1024 .bf16) (harg5 : arg5.IsWhole) (arg6 : Memref sig .tc .vmem S512x1024 .f32) (harg6 : arg6.IsWhole) (hc0 : ¬zeroC3 i) (hc1 : flushC3 i)
    (x0 : Vec F S512x1024 .bf16) (x1 : Vec F S10240x1024 .bf16) (x2 : Vec F S1x1024 .f32) (xs : Vec F S512x1024 .f32) :
    Σ' (L3 : List (View.Piece (Elt F) S512x1024 .bf16)), { LS : List (View.Piece (Elt F) S512x1024 .f32) //
      ∀ (E : Set ℕ) (K : PUnit → sProp 𝕄),
        iprop(owns (c : Thread nD τ) arg2 fullShare x0 ∗ owns (c : Thread nD τ) arg3 fullShare x1 ∗ owns (c : Thread nD τ) arg4 fullShare x2 ∗ (∃ d, owns (c : Thread nD τ) arg5 fullShare d) ∗ owns (c : Thread nD τ) arg6 fullShare xs
            ∗ (iprop(owns (c : Thread nD τ) arg2 fullShare x0 ∗ owns (c : Thread nD τ) arg3 fullShare x1 ∗ owns (c : Thread nD τ) arg4 fullShare x2 ∗ (∃ f, arg5.view.loc (c : Thread nD τ) ↦[arg5.view.set]{fullShare} arg5.view.writes (Elt F) f L3) ∗ (∃ f, arg6.view.loc (c : Thread nD τ) ↦[arg6.view.set]{fullShare} arg6.view.writes (Elt F) f LS)) -∗ K ⟨⟩))
          ⊢ wp frame (wpE (defs₀ (F := F)) Variants.none c none) E (cc3__stage2_kernel i arg2 harg2 arg3 harg3 arg4 harg4 arg5 harg5 arg6 harg6) K } := by
  refine ⟨?_, ?_, fun E K => ?run⟩
  case run =>
    simp only [cc3__stage2_kernel_eq_skeleton]; unfold cc3__stage2_kernel_skel
    unfold owns
    iintro ⟨⟨%f0, %hf0, H0⟩, ⟨%f1, %hf1, H1⟩, ⟨%f2, %hf2, H2⟩, ⟨%d3, %f3, -, H3⟩, ⟨%fs, %hfs, HS⟩, Hk⟩
    obtain rfl := harg2.eq_unread hf0; obtain rfl := harg3.eq_unread hf1; obtain rfl := harg4.eq_unread hf2; obtain rfl := harg6.eq_unread hfs
    sl_exec (disch := first | exact hc0 | exact hc1)
    sl_step
    iapply Hk
    isplitl [H0]
    · iexists _; isplitr; · ipureintro; exact harg2.read_unread _
      iexact H0
    isplitl [H1]
    · iexists _; isplitr; · ipureintro; exact harg3.read_unread _
      iexact H1
    isplitl [H2]
    · iexists _; isplitr; · ipureintro; exact harg4.read_unread _
      iexact H2
    isplitl [H3]; · iexists _; iexact H3
    iexists _; iexact HS

/-! # Part 3: what each case leaves, point by point; the proof data; the body obligation; the invariant's ends -/

/-! ## What each case leaves

In the cases `k = 0` and `0 < k < 9` nothing is stored into the result buffer: its "contents" below is a placeholder
(no stores read back over junk) that nothing consults, the window being idle and not written back at those points. -/

def out3_Z_3 (c : Dev nD) (i : grid3.Coords) (arg2 : Memref sig .tc .vmem S512x1024 .bf16) (harg2 : arg2.IsWhole) (arg3 : Memref sig .tc .vmem S10240x1024 .bf16) (harg3 : arg3.IsWhole) (arg4 : Memref sig .tc .vmem S1x1024 .f32) (harg4 : arg4.IsWhole) (arg5 : Memref sig .tc .vmem S512x1024 .bf16) (harg5 : arg5.IsWhole) (arg6 : Memref sig .tc .vmem S512x1024 .f32) (harg6 : arg6.IsWhole) (hc0 : zeroC3 i) (hc1 : ¬flushC3 i)
    (x0 : Vec F S512x1024 .bf16) (x1 : Vec F S10240x1024 .bf16) (x2 : Vec F S1x1024 .f32) : Vec F S512x1024 .bf16 :=
  vO3.read (Elt F) (vO3.writes (Elt F) vO3.junk (runZero3 c i arg2 harg2 arg3 harg3 arg4 harg4 arg5 harg5 arg6 harg6 hc0 hc1 x0 x1 x2).1)

/-- At `k = 0` the accumulator's stores (the zero fill, then the first partial sum) cover it. -/
theorem scover3_Z (c : Dev nD) (i : grid3.Coords) (arg2 : Memref sig .tc .vmem S512x1024 .bf16) (harg2 : arg2.IsWhole) (arg3 : Memref sig .tc .vmem S10240x1024 .bf16) (harg3 : arg3.IsWhole) (arg4 : Memref sig .tc .vmem S1x1024 .f32) (harg4 : arg4.IsWhole) (arg5 : Memref sig .tc .vmem S512x1024 .bf16) (harg5 : arg5.IsWhole) (arg6 : Memref sig .tc .vmem S512x1024 .f32) (harg6 : arg6.IsWhole) (hc0 : zeroC3 i) (hc1 : ¬flushC3 i)
    (x0 : Vec F S512x1024 .bf16) (x1 : Vec F S10240x1024 .bf16) (x2 : Vec F S1x1024 .f32) (y : S512x1024.Idx) :
    ∃ pc ∈ (runZero3 c i arg2 harg2 arg3 harg3 arg4 harg4 arg5 harg5 arg6 harg6 hc0 hc1 x0 x1 x2).2.1, y ∈ pc.1.set :=
  View.cover_of_tiledL (runZero3 c i arg2 harg2 arg3 harg3 arg4 harg4 arg5 harg5 arg6 harg6 hc0 hc1 x0 x1 x2).2.1 S512x1024.size (by sl_kernel_rfl) y

/-- What the case `k = 0` leaves in the accumulator: its stores read back. -/
def acc3_Z (c : Dev nD) (i : grid3.Coords) (arg2 : Memref sig .tc .vmem S512x1024 .bf16) (harg2 : arg2.IsWhole) (arg3 : Memref sig .tc .vmem S10240x1024 .bf16) (harg3 : arg3.IsWhole) (arg4 : Memref sig .tc .vmem S1x1024 .f32) (harg4 : arg4.IsWhole) (arg5 : Memref sig .tc .vmem S512x1024 .bf16) (harg5 : arg5.IsWhole) (arg6 : Memref sig .tc .vmem S512x1024 .f32) (harg6 : arg6.IsWhole) (hc0 : zeroC3 i) (hc1 : ¬flushC3 i)
    (x0 : Vec F S512x1024 .bf16) (x1 : Vec F S10240x1024 .bf16) (x2 : Vec F S1x1024 .f32) : Vec F S512x1024 .f32 :=
  vS3.read (Elt F) (vS3.writes (Elt F) vS3.junk (runZero3 c i arg2 harg2 arg3 harg3 arg4 harg4 arg5 harg5 arg6 harg6 hc0 hc1 x0 x1 x2).2.1)

def out3_M_3 (c : Dev nD) (i : grid3.Coords) (arg2 : Memref sig .tc .vmem S512x1024 .bf16) (harg2 : arg2.IsWhole) (arg3 : Memref sig .tc .vmem S10240x1024 .bf16) (harg3 : arg3.IsWhole) (arg4 : Memref sig .tc .vmem S1x1024 .f32) (harg4 : arg4.IsWhole) (arg5 : Memref sig .tc .vmem S512x1024 .bf16) (harg5 : arg5.IsWhole) (arg6 : Memref sig .tc .vmem S512x1024 .f32) (harg6 : arg6.IsWhole) (hc0 : ¬zeroC3 i) (hc1 : ¬flushC3 i)
    (x0 : Vec F S512x1024 .bf16) (x1 : Vec F S10240x1024 .bf16) (x2 : Vec F S1x1024 .f32) (xs : Vec F S512x1024 .f32) : Vec F S512x1024 .bf16 :=
  vO3.read (Elt F) (vO3.writes (Elt F) vO3.junk (runMid3 c i arg2 harg2 arg3 harg3 arg4 harg4 arg5 harg5 arg6 harg6 hc0 hc1 x0 x1 x2 xs).1)

/-- For `0 < k < 9` the accumulator's one store covers it. -/
theorem scover3_M (c : Dev nD) (i : grid3.Coords) (arg2 : Memref sig .tc .vmem S512x1024 .bf16) (harg2 : arg2.IsWhole) (arg3 : Memref sig .tc .vmem S10240x1024 .bf16) (harg3 : arg3.IsWhole) (arg4 : Memref sig .tc .vmem S1x1024 .f32) (harg4 : arg4.IsWhole) (arg5 : Memref sig .tc .vmem S512x1024 .bf16) (harg5 : arg5.IsWhole) (arg6 : Memref sig .tc .vmem S512x1024 .f32) (harg6 : arg6.IsWhole) (hc0 : ¬zeroC3 i) (hc1 : ¬flushC3 i)
    (x0 : Vec F S512x1024 .bf16) (x1 : Vec F S10240x1024 .bf16) (x2 : Vec F S1x1024 .f32) (xs : Vec F S512x1024 .f32) (y : S512x1024.Idx) :
    ∃ pc ∈ (runMid3 c i arg2 harg2 arg3 harg3 arg4 harg4 arg5 harg5 arg6 harg6 hc0 hc1 x0 x1 x2 xs).2.1, y ∈ pc.1.set :=
  View.cover_of_tiledL (runMid3 c i arg2 harg2 arg3 harg3 arg4 harg4 arg5 harg5 arg6 harg6 hc0 hc1 x0 x1 x2 xs).2.1 S512x1024.size (by sl_kernel_rfl) y

/-- What the case `0 < k < 9` leaves in the accumulator, over what the point before left (`xs`). -/
def acc3_M (c : Dev nD) (i : grid3.Coords) (arg2 : Memref sig .tc .vmem S512x1024 .bf16) (harg2 : arg2.IsWhole) (arg3 : Memref sig .tc .vmem S10240x1024 .bf16) (harg3 : arg3.IsWhole) (arg4 : Memref sig .tc .vmem S1x1024 .f32) (harg4 : arg4.IsWhole) (arg5 : Memref sig .tc .vmem S512x1024 .bf16) (harg5 : arg5.IsWhole) (arg6 : Memref sig .tc .vmem S512x1024 .f32) (harg6 : arg6.IsWhole) (hc0 : ¬zeroC3 i) (hc1 : ¬flushC3 i)
    (x0 : Vec F S512x1024 .bf16) (x1 : Vec F S10240x1024 .bf16) (x2 : Vec F S1x1024 .f32) (xs : Vec F S512x1024 .f32) : Vec F S512x1024 .f32 :=
  vS3.read (Elt F) (vS3.writes (Elt F) vS3.junk (runMid3 c i arg2 harg2 arg3 harg3 arg4 harg4 arg5 harg5 arg6 harg6 hc0 hc1 x0 x1 x2 xs).2.1)

/-- At `k = 9` the one store into the result buffer covers it. -/
theorem cover3_L_3 (c : Dev nD) (i : grid3.Coords) (arg2 : Memref sig .tc .vmem S512x1024 .bf16) (harg2 : arg2.IsWhole) (arg3 : Memref sig .tc .vmem S10240x1024 .bf16) (harg3 : arg3.IsWhole) (arg4 : Memref sig .tc .vmem S1x1024 .f32) (harg4 : arg4.IsWhole) (arg5 : Memref sig .tc .vmem S512x1024 .bf16) (harg5 : arg5.IsWhole) (arg6 : Memref sig .tc .vmem S512x1024 .f32) (harg6 : arg6.IsWhole) (hc0 : ¬zeroC3 i) (hc1 : flushC3 i)
    (x0 : Vec F S512x1024 .bf16) (x1 : Vec F S10240x1024 .bf16) (x2 : Vec F S1x1024 .f32) (xs : Vec F S512x1024 .f32) (y : S512x1024.Idx) :
    ∃ pc ∈ (runLast3 c i arg2 harg2 arg3 harg3 arg4 harg4 arg5 harg5 arg6 harg6 hc0 hc1 x0 x1 x2 xs).1, y ∈ pc.1.set :=
  View.cover_of_tiledL (runLast3 c i arg2 harg2 arg3 harg3 arg4 harg4 arg5 harg5 arg6 harg6 hc0 hc1 x0 x1 x2 xs).1 S512x1024.size (by sl_kernel_rfl) y

/-- THE RESULT BLOCK: what the case `k = 9` leaves in the result buffer — the accumulated sum plus the bias row, in the
    result's format — as a term of the three input blocks and of the accumulator the point before left. -/
def out3_L_3 (c : Dev nD) (i : grid3.Coords) (arg2 : Memref sig .tc .vmem S512x1024 .bf16) (harg2 : arg2.IsWhole) (arg3 : Memref sig .tc .vmem S10240x1024 .bf16) (harg3 : arg3.IsWhole) (arg4 : Memref sig .tc .vmem S1x1024 .f32) (harg4 : arg4.IsWhole) (arg5 : Memref sig .tc .vmem S512x1024 .bf16) (harg5 : arg5.IsWhole) (arg6 : Memref sig .tc .vmem S512x1024 .f32) (harg6 : arg6.IsWhole) (hc0 : ¬zeroC3 i) (hc1 : flushC3 i)
    (x0 : Vec F S512x1024 .bf16) (x1 : Vec F S10240x1024 .bf16) (x2 : Vec F S1x1024 .f32) (xs : Vec F S512x1024 .f32) : Vec F S512x1024 .bf16 :=
  vO3.read (Elt F) (vO3.writes (Elt F) vO3.junk (runLast3 c i arg2 harg2 arg3 harg3 arg4 harg4 arg5 harg5 arg6 harg6 hc0 hc1 x0 x1 x2 xs).1)

/-- At `k = 9` the accumulator's one store covers it. -/
theorem scover3_L (c : Dev nD) (i : grid3.Coords) (arg2 : Memref sig .tc .vmem S512x1024 .bf16) (harg2 : arg2.IsWhole) (arg3 : Memref sig .tc .vmem S10240x1024 .bf16) (harg3 : arg3.IsWhole) (arg4 : Memref sig .tc .vmem S1x1024 .f32) (harg4 : arg4.IsWhole) (arg5 : Memref sig .tc .vmem S512x1024 .bf16) (harg5 : arg5.IsWhole) (arg6 : Memref sig .tc .vmem S512x1024 .f32) (harg6 : arg6.IsWhole) (hc0 : ¬zeroC3 i) (hc1 : flushC3 i)
    (x0 : Vec F S512x1024 .bf16) (x1 : Vec F S10240x1024 .bf16) (x2 : Vec F S1x1024 .f32) (xs : Vec F S512x1024 .f32) (y : S512x1024.Idx) :
    ∃ pc ∈ (runLast3 c i arg2 harg2 arg3 harg3 arg4 harg4 arg5 harg5 arg6 harg6 hc0 hc1 x0 x1 x2 xs).2.1, y ∈ pc.1.set :=
  View.cover_of_tiledL (runLast3 c i arg2 harg2 arg3 harg3 arg4 harg4 arg5 harg5 arg6 harg6 hc0 hc1 x0 x1 x2 xs).2.1 S512x1024.size (by sl_kernel_rfl) y

/-- What the case `k = 9` leaves in the accumulator. -/
def acc3_L (c : Dev nD) (i : grid3.Coords) (arg2 : Memref sig .tc .vmem S512x1024 .bf16) (harg2 : arg2.IsWhole) (arg3 : Memref sig .tc .vmem S10240x1024 .bf16) (harg3 : arg3.IsWhole) (arg4 : Memref sig .tc .vmem S1x1024 .f32) (harg4 : arg4.IsWhole) (arg5 : Memref sig .tc .vmem S512x1024 .bf16) (harg5 : arg5.IsWhole) (arg6 : Memref sig .tc .vmem S512x1024 .f32) (harg6 : arg6.IsWhole) (hc0 : ¬zeroC3 i) (hc1 : flushC3 i)
    (x0 : Vec F S512x1024 .bf16) (x1 : Vec F S10240x1024 .bf16) (x2 : Vec F S1x1024 .f32) (xs : Vec F S512x1024 .f32) : Vec F S512x1024 .f32 :=
  vS3.read (Elt F) (vS3.writes (Elt F) vS3.junk (runLast3 c i arg2 harg2 arg3 harg3 arg4 harg4 arg5 harg5 arg6 harg6 hc0 hc1 x0 x1 x2 xs).2.1)

section Entry
variable (V : (c : Dev nD) → (b : Ref sig .tc) → Buf (Elt F) ((c : Thread nD τ).loc b))

/-! ## Point by point -/

/-- THE ACCUMULATION. After the body at position `n`: (the result buffer, the accumulator). The case is the one the
    closed forms select at `n`, run on the point's memrefs and input blocks; for `k > 0` the accumulator starts from what
    position `n - 1` left in it. The two conditions cannot hold together. -/
def outsAt3 (c : Dev nD) : (n : ℕ) → n < cfg3.N → Vec F S512x1024 .bf16 × Vec F S512x1024 .f32
  | 0, hn => (out3_Z_3 c (grid3.coords ⟨0, hn⟩) (mA3 ⟨0, hn⟩) (hA3 ⟨0, hn⟩) (mB3 ⟨0, hn⟩) (hB3 ⟨0, hn⟩) (mC3 ⟨0, hn⟩) (hC3 ⟨0, hn⟩) (mO3 ⟨0, hn⟩) (hO3 ⟨0, hn⟩) mS3 (Memref.isWhole_whole _) ((zeroC3_iff ⟨0, hn⟩).mpr (Nat.zero_mod _)) (fun h => (fun h => by (try dsimp only at h); omega) ((flushC3_iff ⟨0, hn⟩).mp h)) (iblk3 V c 0 ⟨0, hn⟩) (iblk3 V c 1 ⟨0, hn⟩) (iblk3 V c 2 ⟨0, hn⟩), acc3_Z c (grid3.coords ⟨0, hn⟩) (mA3 ⟨0, hn⟩) (hA3 ⟨0, hn⟩) (mB3 ⟨0, hn⟩) (hB3 ⟨0, hn⟩) (mC3 ⟨0, hn⟩) (hC3 ⟨0, hn⟩) (mO3 ⟨0, hn⟩) (hO3 ⟨0, hn⟩) mS3 (Memref.isWhole_whole _) ((zeroC3_iff ⟨0, hn⟩).mpr (Nat.zero_mod _)) (fun h => (fun h => by (try dsimp only at h); omega) ((flushC3_iff ⟨0, hn⟩).mp h)) (iblk3 V c 0 ⟨0, hn⟩) (iblk3 V c 1 ⟨0, hn⟩) (iblk3 V c 2 ⟨0, hn⟩))
  | n + 1, hn =>
    if h0 : (n + 1) % 10 = 0 then
      if h1 : (n + 1) % 10 = 9 then
        False.elim (by omega)
      else
        (out3_Z_3 c (grid3.coords ⟨n + 1, hn⟩) (mA3 ⟨n + 1, hn⟩) (hA3 ⟨n + 1, hn⟩) (mB3 ⟨n + 1, hn⟩) (hB3 ⟨n + 1, hn⟩) (mC3 ⟨n + 1, hn⟩) (hC3 ⟨n + 1, hn⟩) (mO3 ⟨n + 1, hn⟩) (hO3 ⟨n + 1, hn⟩) mS3 (Memref.isWhole_whole _) ((zeroC3_iff ⟨n + 1, hn⟩).mpr h0) (fun h => h1 ((flushC3_iff ⟨n + 1, hn⟩).mp h)) (iblk3 V c 0 ⟨n + 1, hn⟩) (iblk3 V c 1 ⟨n + 1, hn⟩) (iblk3 V c 2 ⟨n + 1, hn⟩), acc3_Z c (grid3.coords ⟨n + 1, hn⟩) (mA3 ⟨n + 1, hn⟩) (hA3 ⟨n + 1, hn⟩) (mB3 ⟨n + 1, hn⟩) (hB3 ⟨n + 1, hn⟩) (mC3 ⟨n + 1, hn⟩) (hC3 ⟨n + 1, hn⟩) (mO3 ⟨n + 1, hn⟩) (hO3 ⟨n + 1, hn⟩) mS3 (Memref.isWhole_whole _) ((zeroC3_iff ⟨n + 1, hn⟩).mpr h0) (fun h => h1 ((flushC3_iff ⟨n + 1, hn⟩).mp h)) (iblk3 V c 0 ⟨n + 1, hn⟩) (iblk3 V c 1 ⟨n + 1, hn⟩) (iblk3 V c 2 ⟨n + 1, hn⟩))
    else
      if h1 : (n + 1) % 10 = 9 then
        (out3_L_3 c (grid3.coords ⟨n + 1, hn⟩) (mA3 ⟨n + 1, hn⟩) (hA3 ⟨n + 1, hn⟩) (mB3 ⟨n + 1, hn⟩) (hB3 ⟨n + 1, hn⟩) (mC3 ⟨n + 1, hn⟩) (hC3 ⟨n + 1, hn⟩) (mO3 ⟨n + 1, hn⟩) (hO3 ⟨n + 1, hn⟩) mS3 (Memref.isWhole_whole _) (fun h => h0 ((zeroC3_iff ⟨n + 1, hn⟩).mp h)) ((flushC3_iff ⟨n + 1, hn⟩).mpr h1) (iblk3 V c 0 ⟨n + 1, hn⟩) (iblk3 V c 1 ⟨n + 1, hn⟩) (iblk3 V c 2 ⟨n + 1, hn⟩) (outsAt3 c n (Nat.lt_of_succ_lt hn)).2, acc3_L c (grid3.coords ⟨n + 1, hn⟩) (mA3 ⟨n + 1, hn⟩) (hA3 ⟨n + 1, hn⟩) (mB3 ⟨n + 1, hn⟩) (hB3 ⟨n + 1, hn⟩) (mC3 ⟨n + 1, hn⟩) (hC3 ⟨n + 1, hn⟩) (mO3 ⟨n + 1, hn⟩) (hO3 ⟨n + 1, hn⟩) mS3 (Memref.isWhole_whole _) (fun h => h0 ((zeroC3_iff ⟨n + 1, hn⟩).mp h)) ((flushC3_iff ⟨n + 1, hn⟩).mpr h1) (iblk3 V c 0 ⟨n + 1, hn⟩) (iblk3 V c 1 ⟨n + 1, hn⟩) (iblk3 V c 2 ⟨n + 1, hn⟩) (outsAt3 c n (Nat.lt_of_succ_lt hn)).2)
      else
        (out3_M_3 c (grid3.coords ⟨n + 1, hn⟩) (mA3 ⟨n + 1, hn⟩) (hA3 ⟨n + 1, hn⟩) (mB3 ⟨n + 1, hn⟩) (hB3 ⟨n + 1, hn⟩) (mC3 ⟨n + 1, hn⟩) (hC3 ⟨n + 1, hn⟩) (mO3 ⟨n + 1, hn⟩) (hO3 ⟨n + 1, hn⟩) mS3 (Memref.isWhole_whole _) (fun h => h0 ((zeroC3_iff ⟨n + 1, hn⟩).mp h)) (fun h => h1 ((flushC3_iff ⟨n + 1, hn⟩).mp h)) (iblk3 V c 0 ⟨n + 1, hn⟩) (iblk3 V c 1 ⟨n + 1, hn⟩) (iblk3 V c 2 ⟨n + 1, hn⟩) (outsAt3 c n (Nat.lt_of_succ_lt hn)).2, acc3_M c (grid3.coords ⟨n + 1, hn⟩) (mA3 ⟨n + 1, hn⟩) (hA3 ⟨n + 1, hn⟩) (mB3 ⟨n + 1, hn⟩) (hB3 ⟨n + 1, hn⟩) (mC3 ⟨n + 1, hn⟩) (hC3 ⟨n + 1, hn⟩) (mO3 ⟨n + 1, hn⟩) (hO3 ⟨n + 1, hn⟩) mS3 (Memref.isWhole_whole _) (fun h => h0 ((zeroC3_iff ⟨n + 1, hn⟩).mp h)) (fun h => h1 ((flushC3_iff ⟨n + 1, hn⟩).mp h)) (iblk3 V c 0 ⟨n + 1, hn⟩) (iblk3 V c 1 ⟨n + 1, hn⟩) (iblk3 V c 2 ⟨n + 1, hn⟩) (outsAt3 c n (Nat.lt_of_succ_lt hn)).2)

/-- `outsAt3` at a point with `k = 0`. -/
theorem outsAt3_Z (c : Dev nD) (t : Fin cfg3.N) (h0 : t.val % 10 = 0) (h1 : ¬t.val % 10 = 9) :
    outsAt3 V c t.val t.isLt = (out3_Z_3 c (grid3.coords t) (mA3 t) (hA3 t) (mB3 t) (hB3 t) (mC3 t) (hC3 t) (mO3 t) (hO3 t) mS3 (Memref.isWhole_whole _) ((zeroC3_iff t).mpr h0) (fun h => h1 ((flushC3_iff t).mp h)) (iblk3 V c 0 t) (iblk3 V c 1 t) (iblk3 V c 2 t), acc3_Z c (grid3.coords t) (mA3 t) (hA3 t) (mB3 t) (hB3 t) (mC3 t) (hC3 t) (mO3 t) (hO3 t) mS3 (Memref.isWhole_whole _) ((zeroC3_iff t).mpr h0) (fun h => h1 ((flushC3_iff t).mp h)) (iblk3 V c 0 t) (iblk3 V c 1 t) (iblk3 V c 2 t)) := by
  obtain ⟨n, hn⟩ := t
  cases n with
  | zero => exact rfl
  | succ n => exact (dif_pos h0).trans ((dif_neg h1).trans rfl)

/-- `outsAt3` at a point with `0 < k < 9`: over what the point before left. -/
theorem outsAt3_M (c : Dev nD) (t : Fin cfg3.N) (h0 : ¬t.val % 10 = 0) (h1 : ¬t.val % 10 = 9) :
    outsAt3 V c t.val t.isLt = (out3_M_3 c (grid3.coords t) (mA3 t) (hA3 t) (mB3 t) (hB3 t) (mC3 t) (hC3 t) (mO3 t) (hO3 t) mS3 (Memref.isWhole_whole _) (fun h => h0 ((zeroC3_iff t).mp h)) (fun h => h1 ((flushC3_iff t).mp h)) (iblk3 V c 0 t) (iblk3 V c 1 t) (iblk3 V c 2 t) (outsAt3 V c (t.val - 1) (Nat.lt_of_le_of_lt (Nat.sub_le _ _) t.isLt)).2, acc3_M c (grid3.coords t) (mA3 t) (hA3 t) (mB3 t) (hB3 t) (mC3 t) (hC3 t) (mO3 t) (hO3 t) mS3 (Memref.isWhole_whole _) (fun h => h0 ((zeroC3_iff t).mp h)) (fun h => h1 ((flushC3_iff t).mp h)) (iblk3 V c 0 t) (iblk3 V c 1 t) (iblk3 V c 2 t) (outsAt3 V c (t.val - 1) (Nat.lt_of_le_of_lt (Nat.sub_le _ _) t.isLt)).2) := by
  obtain ⟨n, hn⟩ := t
  cases n with
  | zero => exact (by exfalso; (try dsimp only at h0); exact absurd (Nat.zero_mod _) h0)
  | succ n => exact (dif_neg h0).trans ((dif_neg h1).trans rfl)

/-- `outsAt3` at a point with `k = 9`: over what the point before left. -/
theorem outsAt3_L (c : Dev nD) (t : Fin cfg3.N) (h0 : ¬t.val % 10 = 0) (h1 : t.val % 10 = 9) :
    outsAt3 V c t.val t.isLt = (out3_L_3 c (grid3.coords t) (mA3 t) (hA3 t) (mB3 t) (hB3 t) (mC3 t) (hC3 t) (mO3 t) (hO3 t) mS3 (Memref.isWhole_whole _) (fun h => h0 ((zeroC3_iff t).mp h)) ((flushC3_iff t).mpr h1) (iblk3 V c 0 t) (iblk3 V c 1 t) (iblk3 V c 2 t) (outsAt3 V c (t.val - 1) (Nat.lt_of_le_of_lt (Nat.sub_le _ _) t.isLt)).2, acc3_L c (grid3.coords t) (mA3 t) (hA3 t) (mB3 t) (hB3 t) (mC3 t) (hC3 t) (mO3 t) (hO3 t) mS3 (Memref.isWhole_whole _) (fun h => h0 ((zeroC3_iff t).mp h)) ((flushC3_iff t).mpr h1) (iblk3 V c 0 t) (iblk3 V c 1 t) (iblk3 V c 2 t) (outsAt3 V c (t.val - 1) (Nat.lt_of_le_of_lt (Nat.sub_le _ _) t.isLt)).2) := by
  obtain ⟨n, hn⟩ := t
  cases n with
  | zero => exact (by exfalso; (try dsimp only at h0); exact absurd (Nat.zero_mod _) h0)
  | succ n => exact (dif_neg h0).trans ((dif_pos h1).trans rfl)

/-! ## The invariant -/

/-- The region invariant before position `n`: before the first point the class's (the accumulator at anything);
    afterwards the accumulator at what the point before left in it, the other scoped buffers and the generator
    register as ever. -/
def PhiS3 (c : Dev nD) : (n : ℕ) → n ≤ cfg3.N → sProp 𝕄
  | 0, _ => Pipeline.ΦA spec3 c
  | n + 1, hn => iprop(iprop(owns (c : Thread nD τ) mS3 fullShare ((outsAt3 V c n hn).2) ∗ rest3 (F := F) c) ∗ (∃ r, prngReg c r))

theorem PhiS3_zero (c : Dev nD) (n : ℕ) (h : n ≤ cfg3.N) (hz : n = 0) : PhiS3 V c n h = Pipeline.ΦA spec3 c := by
  subst hz; rfl

theorem PhiS3_succ (c : Dev nD) (n : ℕ) (hn : n < cfg3.N) :
    PhiS3 V c (n + 1) hn = iprop(iprop(owns (c : Thread nD τ) mS3 fullShare ((outsAt3 V c n hn).2) ∗ rest3 (F := F) c) ∗ (∃ r, prngReg c r)) := rfl

theorem PhiS3_pos (c : Dev nD) (n : ℕ) (h : n ≤ cfg3.N) (hz : n ≠ 0) :
    PhiS3 V c n h = iprop(iprop(owns (c : Thread nD τ) mS3 fullShare ((outsAt3 V c (n - 1) (by omega)).2) ∗ rest3 (F := F) c) ∗ (∃ r, prngReg c r)) := by
  cases n with
  | zero => exact absurd rfl hz
  | succ n => rfl

/-! ## The proof data -/

/-- The proof data of region 3's pipeline on core `c`: the arrays as the region finds them; after the body at point
    `t` each input's buffer at its block and the result's at `outsAt3`'s first component; the invariant `PhiS3`;
    nothing owed; full shares. -/
def dat3 (c : Dev nD) : Dat τ (Elt F) Unit ℕ (UR sig nD τ) ℕ cfg3 c where
  A w := V c (Pipeline.arrRef spec3 w)
  after w t := match w with
    | ⟨0, _⟩ => iblk3 V c 0 t
    | ⟨1, _⟩ => iblk3 V c 1 t
    | ⟨2, _⟩ => iblk3 V c 2 t
    | ⟨3, _⟩ => (outsAt3 V c t.val t.isLt).1
  Φ t := PhiS3 V c t.val (Nat.le_of_lt_succ t.isLt)
  q _ := fullShare
  owed _ := 0

/-- The proof data's arrays are the region-entry contents (the definition projected, `V` never unfolded). -/
theorem A_eq3 (c : Dev nD) (w : Fin cfg3.W) : (dat3 V c).A w = V c (Pipeline.arrRef spec3 w) := by
  dsimp only [dat3]

/-- The invariant at a point's start, restated at `t.val`. -/
theorem PhiS3_castSucc (c : Dev nD) (t : Fin cfg3.N) :
    (dat3 V c).Φ t.castSucc = PhiS3 V c t.val (Nat.le_of_lt t.isLt) := by
  dsimp only [dat3]; simp only [Fin.coe_castSucc]

/-- What the body leaves, window by window. -/
theorem after3_0 (c : Dev nD) (t : Fin cfg3.N) : (dat3 V c).after 0 t = iblk3 V c 0 t := by dsimp only [dat3]
theorem after3_1 (c : Dev nD) (t : Fin cfg3.N) : (dat3 V c).after 1 t = iblk3 V c 1 t := by dsimp only [dat3]
theorem after3_2 (c : Dev nD) (t : Fin cfg3.N) : (dat3 V c).after 2 t = iblk3 V c 2 t := by dsimp only [dat3]
theorem after3_3 (c : Dev nD) (t : Fin cfg3.N) : (dat3 V c).after 3 t = (outsAt3 V c t.val t.isLt).1 := by dsimp only [dat3]

/-- Each input's current staging buffer holds its block at every point. -/
theorem before3_0 (c : Dev nD) (t : Fin cfg3.N) (d) : (dat3 V c).before 0 t d = iblk3 V c 0 t :=
  before3_0_of V (dat3 V c) (A_eq3 V c 0) (after3_0 V c) t d
theorem before3_1 (c : Dev nD) (t : Fin cfg3.N) (d) : (dat3 V c).before 1 t d = iblk3 V c 1 t :=
  before3_1_of V (dat3 V c) (A_eq3 V c 1) (after3_1 V c) t d
theorem before3_2 (c : Dev nD) (t : Fin cfg3.N) (d) : (dat3 V c).before 2 t d = iblk3 V c 2 t :=
  before3_2_of V (dat3 V c) (A_eq3 V c 2) (after3_2 V c) t d

/-! ## The body obligation, at a generic point -/

/-- What the body is called with at point `t`, the windows one by one, -/
def bodyPre3 (c : Dev nD) (t : Fin cfg3.N) : sProp 𝕄 :=
  iprop((dat3 V c).Φ t.castSucc ∗ (dat3 V c).owesAt () t.castSucc
    ∗ (∃ d, owns (c : Thread nD τ) (mA3 t) fullShare ((dat3 V c).before 0 t d))
    ∗ (∃ d, owns (c : Thread nD τ) (mB3 t) fullShare ((dat3 V c).before 1 t d))
    ∗ (∃ d, owns (c : Thread nD τ) (mC3 t) fullShare ((dat3 V c).before 2 t d))
    ∗ (∃ d, owns (c : Thread nD τ) (mO3 t) fullShare ((dat3 V c).before 3 t d)))

/-- and what it returns. -/
def bodyPost3 (c : Dev nD) (t : Fin cfg3.N) : sProp 𝕄 :=
  iprop((dat3 V c).Φ t.succ ∗ (dat3 V c).owesAt () t.succ
    ∗ (dat3 V c).leavesExact 0 t
    ∗ (dat3 V c).leavesExact 1 t
    ∗ (dat3 V c).leavesExact 2 t
    ∗ (dat3 V c).leavesExact 3 t)

set_option maxHeartbeats 4800000 in
/-- The body at any point. The inputs' memrefs hold their blocks; the closed forms say which control case the point is
    in, and that case's run applies. The invariant hands the body the accumulator at what the point before left (at
    anything before the first point) and takes it back at this point's contents, its stores covering it; where the
    result window is idle its buffer goes back as found, and at `k = 9` its one store covers it. The other scoped
    buffers, the generator register and what the core owes pass through. -/
theorem sound_body3 (c : Dev nD) (t : Fin cfg3.N) :
    bodyPre3 V c t ⊢ wp frame (wpE (defs₀ (F := F)) Variants.none c none) Set.univ (bodyAt3 t) (fun _ => bodyPost3 V c t) := by
  unfold bodyPre3 bodyPost3 bodyAt3
  simp only [before3_0, before3_1, before3_2]
  rw [show (dat3 V c).owesAt () t.succ = (dat3 V c).owesAt () t.castSucc from rfl]
  rw [show (dat3 V c).Φ t.succ = PhiS3 V c (t.val + 1) t.isLt from rfl, PhiS3_succ]
  rw [show (dat3 V c).leavesExact 0 t = owns (c : Thread nD τ) (mA3 t) fullShare ((dat3 V c).after 0 t) from by
    unfold Dat.leavesExact; rw [live3_0 t], after3_0]
  rw [show (dat3 V c).leavesExact 1 t = owns (c : Thread nD τ) (mB3 t) fullShare ((dat3 V c).after 1 t) from by
    unfold Dat.leavesExact; rw [live3_1 t], after3_1]
  rw [show (dat3 V c).leavesExact 2 t = owns (c : Thread nD τ) (mC3 t) fullShare ((dat3 V c).after 2 t) from by
    unfold Dat.leavesExact; rw [live3_2 t], after3_2]
  have hN : t.val < 200 := lt_of_lt_of_eq t.isLt (show cfg3.N = 200 from N_3)
  by_cases h0 : t.val % 10 = 0
  · by_cases h1 : t.val % 10 = 9
    · exfalso; omega
    · rw [Dat.leavesExact_idle (dat3 V c) 3 t (idle3_3 t (fun h => h1 ((flushC3_iff t).mp h))) (noFlush3_3 t (fun h => h1 ((flushC3_iff t).mp h)))]
      rw [outsAt3_Z V c t h0 h1]
      unfold acc3_Z; (try dsimp only)
      by_cases hz : t.val = 0
      · rw [PhiS3_castSucc V c t, PhiS3_zero V c _ _ hz, PhiA3_eq]
        iintro ⟨⟨⟨HS, Hr⟩, Hg⟩, Ho, ⟨%d0, H0⟩, ⟨%d1, H1⟩, ⟨%d2, H2⟩, ⟨%d3, H3⟩⟩
        iapply ((runZero3 c (grid3.coords t) _ _ _ _ _ _ _ _ _ _ ((zeroC3_iff t).mpr h0) (fun h => h1 ((flushC3_iff t).mp h)) (iblk3 V c 0 t) (iblk3 V c 1 t) (iblk3 V c 2 t)).2.2 _ Set.univ _)
        isplitl [H0]; · iexact H0
        isplitl [H1]; · iexact H1
        isplitl [H2]; · iexact H2
        isplitl [H3]; · iexact H3
        isplitl [HS]; · iexact HS
        iintro ⟨H0, H1, H2, H3, ⟨%es, HS⟩⟩
        isplitl [HS Hr Hg]
        · isplitl [HS Hr]
          · isplitl [HS]
            · unfold owns; iexists _; isplitr
              swap; · iexact HS
              ipureintro; exact View.read_writes_of_cover _ _ _ _ _ (scover3_Z c _ _ _ _ _ _ _ _ _ _ _ _ _ _ _ _)
            iexact Hr
          iexact Hg
        isplitl [Ho]; · iexact Ho
        isplitl [H0]; · iexact H0
        isplitl [H1]; · iexact H1
        isplitl [H2]; · iexact H2
        iexists _; iexact H3
      · rw [PhiS3_castSucc V c t, PhiS3_pos V c _ _ hz]
        iintro ⟨⟨⟨HS, Hr⟩, Hg⟩, Ho, ⟨%d0, H0⟩, ⟨%d1, H1⟩, ⟨%d2, H2⟩, ⟨%d3, H3⟩⟩
        iapply ((runZero3 c (grid3.coords t) _ _ _ _ _ _ _ _ _ _ ((zeroC3_iff t).mpr h0) (fun h => h1 ((flushC3_iff t).mp h)) (iblk3 V c 0 t) (iblk3 V c 1 t) (iblk3 V c 2 t)).2.2 _ Set.univ _)
        isplitl [H0]; · iexact H0
        isplitl [H1]; · iexact H1
        isplitl [H2]; · iexact H2
        isplitl [H3]; · iexact H3
        isplitl [HS]; · iexists _; iexact HS
        iintro ⟨H0, H1, H2, H3, ⟨%es, HS⟩⟩
        isplitl [HS Hr Hg]
        · isplitl [HS Hr]
          · isplitl [HS]
            · unfold owns; iexists _; isplitr
              swap; · iexact HS
              ipureintro; exact View.read_writes_of_cover _ _ _ _ _ (scover3_Z c _ _ _ _ _ _ _ _ _ _ _ _ _ _ _ _)
            iexact Hr
          iexact Hg
        isplitl [Ho]; · iexact Ho
        isplitl [H0]; · iexact H0
        isplitl [H1]; · iexact H1
        isplitl [H2]; · iexact H2
        iexists _; iexact H3
  · have hz : t.val ≠ 0 := fun e => h0 (by rw [e])
    by_cases h1 : t.val % 10 = 9
    · rw [show (dat3 V c).leavesExact 3 t = owns (c : Thread nD τ) (mO3 t) fullShare ((dat3 V c).after 3 t) from by
        unfold Dat.leavesExact; rw [live3_3 t ((flushC3_iff t).mpr h1)], after3_3]
      rw [outsAt3_L V c t h0 h1]
      unfold out3_L_3 acc3_L; (try dsimp only)
      rw [PhiS3_castSucc V c t, PhiS3_pos V c _ _ hz]
      iintro ⟨⟨⟨HS, Hr⟩, Hg⟩, Ho, ⟨%d0, H0⟩, ⟨%d1, H1⟩, ⟨%d2, H2⟩, ⟨%d3, H3⟩⟩
      iapply ((runLast3 c (grid3.coords t) _ _ _ _ _ _ _ _ _ _ (fun h => h0 ((zeroC3_iff t).mp h)) ((flushC3_iff t).mpr h1) (iblk3 V c 0 t) (iblk3 V c 1 t) (iblk3 V c 2 t) _).2.2 Set.univ _)
      isplitl [H0]; · iexact H0
      isplitl [H1]; · iexact H1
      isplitl [H2]; · iexact H2
      isplitl [H3]; · iexists _; iexact H3
      isplitl [HS]; · iexact HS
      iintro ⟨H0, H1, H2, ⟨%e3, H3⟩, ⟨%es, HS⟩⟩
      isplitl [HS Hr Hg]
      · isplitl [HS Hr]
        · isplitl [HS]
          · unfold owns; iexists _; isplitr
            swap; · iexact HS
            ipureintro; exact View.read_writes_of_cover _ _ _ _ _ (scover3_L c _ _ _ _ _ _ _ _ _ _ _ _ _ _ _ _ _)
          iexact Hr
        iexact Hg
      isplitl [Ho]; · iexact Ho
      isplitl [H0]; · iexact H0
      isplitl [H1]; · iexact H1
      isplitl [H2]; · iexact H2
      unfold owns; iexists _; isplitr
      swap; · iexact H3
      ipureintro; exact View.read_writes_of_cover _ _ _ _ _ (cover3_L_3 c _ _ _ _ _ _ _ _ _ _ _ _ _ _ _ _ _)
    · rw [Dat.leavesExact_idle (dat3 V c) 3 t (idle3_3 t (fun h => h1 ((flushC3_iff t).mp h))) (noFlush3_3 t (fun h => h1 ((flushC3_iff t).mp h)))]
      rw [outsAt3_M V c t h0 h1]
      unfold acc3_M; (try dsimp only)
      rw [PhiS3_castSucc V c t, PhiS3_pos V c _ _ hz]
      iintro ⟨⟨⟨HS, Hr⟩, Hg⟩, Ho, ⟨%d0, H0⟩, ⟨%d1, H1⟩, ⟨%d2, H2⟩, ⟨%d3, H3⟩⟩
      iapply ((runMid3 c (grid3.coords t) _ _ _ _ _ _ _ _ _ _ (fun h => h0 ((zeroC3_iff t).mp h)) (fun h => h1 ((flushC3_iff t).mp h)) (iblk3 V c 0 t) (iblk3 V c 1 t) (iblk3 V c 2 t) _).2.2 _ Set.univ _)
      isplitl [H0]; · iexact H0
      isplitl [H1]; · iexact H1
      isplitl [H2]; · iexact H2
      isplitl [H3]; · iexact H3
      isplitl [HS]; · iexact HS
      iintro ⟨H0, H1, H2, H3, ⟨%es, HS⟩⟩
      isplitl [HS Hr Hg]
      · isplitl [HS Hr]
        · isplitl [HS]
          · unfold owns; iexists _; isplitr
            swap; · iexact HS
            ipureintro; exact View.read_writes_of_cover _ _ _ _ _ (scover3_M c _ _ _ _ _ _ _ _ _ _ _ _ _ _ _ _ _)
          iexact Hr
        iexact Hg
      isplitl [Ho]; · iexact Ho
      isplitl [H0]; · iexact H0
      isplitl [H1]; · iexact H1
      isplitl [H2]; · iexact H2
      iexists _; iexact H3

/-- The library's body obligation, at every point. -/
theorem body_obligation3 (c : Dev nD) : BodyObligation (dat3 (F := F) V c) (defs₀ (F := F)) Variants.none () Set.univ := fun t => by
  rw [bigSep_W3, bigSep_W3]
  exact sound_body3 V c t

/-- What the launch hands the region is the invariant before the first point. -/
theorem hin3 (c : Dev nD) : Pipeline.ΦA spec3 c ⊢ (dat3 V c).Φ 0 := by
  rw [show (dat3 V c).Φ 0 = PhiS3 V c 0 (Nat.zero_le _) from rfl, PhiS3_zero V c 0 _ rfl]
  try exact Idealize.SL.BI.Entails.refl _

/-- After any point the invariant gives the class's back: the accumulator's named contents are forgotten. -/
theorem Phi_out3 (c : Dev nD) (t : Fin (cfg3.N + 1)) (ht : t.val ≠ 0) : (dat3 V c).Φ t ⊢ Pipeline.ΦA spec3 c := by
  rw [show (dat3 V c).Φ t = PhiS3 V c t.val (Nat.le_of_lt_succ t.isLt) from rfl, PhiS3_pos V c _ _ ht, PhiA3_eq]
  iintro ⟨⟨HS, Hr⟩, Hg⟩
  isplitl [HS Hr]
  · isplitl [HS]
    · iexists _; iexact HS
    iexact Hr
  iexact Hg

/-- The same after the last point. -/
theorem hout3 (c : Dev nD) : (dat3 V c).Φ (Fin.last cfg3.N) ⊢ Pipeline.ΦA spec3 c :=
  Phi_out3 V c _ (by rw [Fin.val_last]; have : cfg3.N = 200 := N_3; omega)

end Entry

end Cert.Kernel.Rg

end
-- ==== Proof.KB.Reg4.lean ====
/- Stage-1 region 4 (custom_call 4): the per-region half of the frame argument, at the buffer
   contents `V` found when the region is entered. One row block of the left operand times the whole
   right operand, plus the bias row, written to the result's row block. -/
import proofs.«181230_j19834158973077_2_alg».proof.Proof.Gen.Kernel.Launch
import proofs.«181230_j19834158973077_2_alg».proof.Proof.Gen.Kernel.Skeleton
import proofs.«181230_j19834158973077_2_alg».proof.Proof.Gen.Kernel.Points
import Idealize.ShloMosaic.Lib.Pipeline.FrameBody
import Idealize.ShloMosaic.Lib.Ring
import Idealize.ShloMosaic.Lib.Tactic

-- membership in a rectangle of full extents recurses once per coordinate of the long axes
set_option maxRecDepth 16384

noncomputable section

namespace Cert.Kernel.Rg

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

-- the TensorCore's buffer contents when the region is entered
variable (V : (c : Dev nD) → (b : Ref sig .tc) → Buf (Elt F) ((c : Thread nD τ).loc b))

/-! ## The windows' blocks -/

/-- Window `w`'s block at point `t`, read off its array as the region finds it. -/
def iblk4 (c : Dev nD) (w : Fin cfg4.W) (t : Fin cfg4.N) : ((cfg4.win w).xblock (cfg4.grid.coords t)).Idx → Elt F (cfg4.win w).elt :=
  ((cfg4.win w).blk t).view.read (Elt F) (V c (Pipeline.arrRef spec4 w))

/-- Input window 0's current staging buffer holds its block at every point, fetched there or not: where it is
    not fetched the block index has not moved, and the body leaves the block in place. -/
theorem before4_0_of {c : Dev nD} (dat : Dat τ (Elt F) Unit ℕ (UR sig nD τ) ℕ cfg4 c) (hA : dat.A 0 = V c (Pipeline.arrRef spec4 0))
    (hafter : ∀ t, dat.after 0 t = iblk4 V c 0 t) (t : Fin cfg4.N) (d) : dat.before 0 t d = iblk4 V c 0 t :=
  (dat.before_in_eq_fetched 0 rfl (fun _ => rfl) (fun _ _ _ => rfl) (fun t => by rw [hafter]; unfold Dat.blockOf iblk4; rw [hA]; try rfl) t d).trans
    (by unfold Dat.fetched Dat.blockOf iblk4; rw [hA]; try rfl)

/-- Input window 1's current staging buffer holds its block at every point, fetched there or not: where it is
    not fetched the block index has not moved, and the body leaves the block in place. -/
theorem before4_1_of {c : Dev nD} (dat : Dat τ (Elt F) Unit ℕ (UR sig nD τ) ℕ cfg4 c) (hA : dat.A 1 = V c (Pipeline.arrRef spec4 1))
    (hafter : ∀ t, dat.after 1 t = iblk4 V c 1 t) (t : Fin cfg4.N) (d) : dat.before 1 t d = iblk4 V c 1 t :=
  (dat.before_in_eq_fetched 1 rfl (fun _ => rfl) (fun _ _ _ => rfl) (fun t => by rw [hafter]; unfold Dat.blockOf iblk4; rw [hA]; try rfl) t d).trans
    (by unfold Dat.fetched Dat.blockOf iblk4; rw [hA]; try rfl)

/-- Input window 2's current staging buffer holds its block at every point, fetched there or not: where it is
    not fetched the block index has not moved, and the body leaves the block in place. -/
theorem before4_2_of {c : Dev nD} (dat : Dat τ (Elt F) Unit ℕ (UR sig nD τ) ℕ cfg4 c) (hA : dat.A 2 = V c (Pipeline.arrRef spec4 2))
    (hafter : ∀ t, dat.after 2 t = iblk4 V c 2 t) (t : Fin cfg4.N) (d) : dat.before 2 t d = iblk4 V c 2 t :=
  (dat.before_in_eq_fetched 2 rfl (fun _ => rfl) (fun _ _ _ => rfl) (fun t => by rw [hafter]; unfold Dat.blockOf iblk4; rw [hA]; try rfl) t d).trans
    (by unfold Dat.fetched Dat.blockOf iblk4; rw [hA]; try rfl)

/-! ## The body's accesses: each staging buffer whole -/

abbrev r4_0 : Rect S1024x1024 := Rect.unit (s := S1024x1024) ![0, 0] S1024x1024.size inb_S1024x1024_S1024x1024_0_0
abbrev r4_1 : Rect S1024x1024 := Rect.unit (s := S1024x1024) ![0, 0] S1024x1024.size inb_S1024x1024_S1024x1024_0_0
abbrev r4_2 : Rect S1x1024 := Rect.unit (s := S1x1024) ![0, 0] S1x1024.size inb_S1x1024_S1x1024_0_0
abbrev r4_3 : Rect S1024x1024 := Rect.unit (s := S1024x1024) ![0, 0] S1024x1024.size inb_S1024x1024_S1024x1024_0_0

/-! ## What the body leaves in the result's buffer -/

/-- The result window's staging buffer after the body, from the three input blocks: its one whole-block store
    of the payload (product into a zero accumulator, plus the bias row, then the format change). -/
def out4_3 (x0 : Vec F S1024x1024 .bf16) (x1 : Vec F S1024x1024 .bf16) (x2 : Vec F S1x1024 .f32) : Vec F S1024x1024 .bf16 :=
  View.canon [⟨r4_3, k4_pay1 (View.ld x0 r4_0) (View.ld x1 r4_1) (View.ld x2 r4_2)⟩]

/-- The one store is the whole buffer, so it covers it. -/
theorem cover4_3 (p0 : Vec F S1024x1024 .bf16) (y : S1024x1024.Idx) :
    ∃ pc ∈ ([⟨r4_3, p0⟩] : List (View.Piece (Elt F) S1024x1024 .bf16)), y ∈ pc.1.set :=
  View.cover_of_tiled [⟨r4_3, p0⟩] S1024x1024.size (by rfl) y

/-! ## The body's triple -/

set_option maxHeartbeats 1000000 in
/-- The kernel body on whole staging memrefs, the inputs' at contents `x0 x1 x2` and the result's at anything, runs
    to the continuation holding the inputs' as they were and the result's at `out4_3` of the inputs'. -/
theorem sound_kernel4 (c : Dev nD) (E : Set ℕ) (i : grid4.Coords)
    (arg0 : Memref sig .tc .vmem S1024x1024 .bf16) (harg0 : arg0.IsWhole) (arg1 : Memref sig .tc .vmem S1024x1024 .bf16) (harg1 : arg1.IsWhole)
    (arg2 : Memref sig .tc .vmem S1x1024 .f32) (harg2 : arg2.IsWhole) (arg3 : Memref sig .tc .vmem S1024x1024 .bf16) (harg3 : arg3.IsWhole)
    (x0 : Vec F S1024x1024 .bf16) (x1 : Vec F S1024x1024 .bf16) (x2 : Vec F S1x1024 .f32) (K : PUnit → sProp 𝕄) :
    iprop(owns (c : Thread nD τ) arg0 fullShare x0 ∗ owns (c : Thread nD τ) arg1 fullShare x1 ∗ owns (c : Thread nD τ) arg2 fullShare x2
        ∗ (∃ d, owns (c : Thread nD τ) arg3 fullShare d)
        ∗ (iprop(owns (c : Thread nD τ) arg0 fullShare x0 ∗ owns (c : Thread nD τ) arg1 fullShare x1 ∗ owns (c : Thread nD τ) arg2 fullShare x2
            ∗ owns (c : Thread nD τ) arg3 fullShare (out4_3 x0 x1 x2)) -∗ K ⟨⟩))
      ⊢ wp frame (wpE (defs₀ (F := F)) Variants.none c none) E (cc4__stage1_kernel i arg0 harg0 arg1 harg1 arg2 harg2 arg3 harg3) K := by
  simp only [cc4__stage1_kernel_eq_skeleton]; unfold cc4__stage1_kernel_skel
  unfold owns
  iintro ⟨⟨%f0, %hf0, H0⟩, ⟨%f1, %hf1, H1⟩, ⟨%f2, %hf2, H2⟩, ⟨%d3, %f3, -, H3⟩, Hk⟩
  subst hf0 hf1 hf2
  sl_exec
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  iexists _; isplitr
  swap; · iexact H3
  ipureintro
  exact View.read_writes_eq_canon _ _ _ (cover4_3 _)

/-! ## The pipeline's proof data -/

/-- The proof data of pipeline 4 on core `c`: the arrays as the region finds them; after the body at point `t`
    each input's buffer at its block and the result's at `out4_3` of the input blocks; the invariant the scoped
    rest and the generator register, untouched; nothing owed; full shares. -/
def dat4 (c : Dev nD) : Dat τ (Elt F) Unit ℕ (UR sig nD τ) ℕ cfg4 c where
  A w := V c (Pipeline.arrRef spec4 w)
  after w t := match w with
    | ⟨0, _⟩ => iblk4 V c 0 t
    | ⟨1, _⟩ => iblk4 V c 1 t
    | ⟨2, _⟩ => iblk4 V c 2 t
    | ⟨3, _⟩ => out4_3 (iblk4 V c 0 t) (iblk4 V c 1 t) (iblk4 V c 2 t)
  Φ _ := Pipeline.ΦA spec4 c
  q _ := fullShare
  owed _ := 0

/-- The proof data's arrays are the region-entry contents. -/
theorem A_eq4 (c : Dev nD) (w : Fin cfg4.W) : (dat4 V c).A w = V c (Pipeline.arrRef spec4 w) := by
  dsimp only [dat4]

/-- What the body leaves, window by window. -/
theorem after4_0 (c : Dev nD) (t : Fin cfg4.N) : (dat4 V c).after 0 t = iblk4 V c 0 t := by dsimp only [dat4]
theorem after4_1 (c : Dev nD) (t : Fin cfg4.N) : (dat4 V c).after 1 t = iblk4 V c 1 t := by dsimp only [dat4]
theorem after4_2 (c : Dev nD) (t : Fin cfg4.N) : (dat4 V c).after 2 t = iblk4 V c 2 t := by dsimp only [dat4]
theorem after4_3 (c : Dev nD) (t : Fin cfg4.N) :
    (dat4 V c).after 3 t = out4_3 (iblk4 V c 0 t) (iblk4 V c 1 t) (iblk4 V c 2 t) := by dsimp only [dat4]

/-- Each input's current staging buffer holds its block at every point, fetched there or not. -/
theorem before4_0 (c : Dev nD) (t : Fin cfg4.N) (d) : (dat4 V c).before 0 t d = iblk4 V c 0 t :=
  before4_0_of V (dat4 V c) (A_eq4 V c 0) (after4_0 V c) t d
theorem before4_1 (c : Dev nD) (t : Fin cfg4.N) (d) : (dat4 V c).before 1 t d = iblk4 V c 1 t :=
  before4_1_of V (dat4 V c) (A_eq4 V c 1) (after4_1 V c) t d
theorem before4_2 (c : Dev nD) (t : Fin cfg4.N) (d) : (dat4 V c).before 2 t d = iblk4 V c 2 t :=
  before4_2_of V (dat4 V c) (A_eq4 V c 2) (after4_2 V c) t d

/-- The invariant is the class's at every point: entering and leaving the region are identities on it. -/
theorem hin4 (c : Dev nD) : (Pipeline.ΦA spec4 c : sProp 𝕄) ⊢ (dat4 V c).Φ 0 := by
  show (Pipeline.ΦA spec4 c : sProp 𝕄) ⊢ Pipeline.ΦA spec4 c
  exact .rfl
theorem hout4 (c : Dev nD) : (dat4 V c).Φ (Fin.last cfg4.N) ⊢ (Pipeline.ΦA spec4 c : sProp 𝕄) := by
  show (Pipeline.ΦA spec4 c : sProp 𝕄) ⊢ Pipeline.ΦA spec4 c
  exact .rfl

/-! ## The body obligation, at a generic point -/

/-- What the body is called with at point `t`, the windows one by one, -/
def bodyPre4 (c : Dev nD) (t : Fin cfg4.N) : sProp 𝕄 :=
  iprop((dat4 V c).Φ t.castSucc ∗ (dat4 V c).owesAt () t.castSucc
    ∗ (∃ d, owns (c : Thread nD τ) (st4_0 t) fullShare ((dat4 V c).before 0 t d))
    ∗ (∃ d, owns (c : Thread nD τ) (st4_1 t) fullShare ((dat4 V c).before 1 t d))
    ∗ (∃ d, owns (c : Thread nD τ) (st4_2 t) fullShare ((dat4 V c).before 2 t d))
    ∗ (∃ d, owns (c : Thread nD τ) (st4_3 t) fullShare ((dat4 V c).before 3 t d)))

/-- and what it returns. -/
def bodyPost4 (c : Dev nD) (t : Fin cfg4.N) : sProp 𝕄 :=
  iprop((dat4 V c).Φ t.succ ∗ (dat4 V c).owesAt () t.succ
    ∗ owns (c : Thread nD τ) (st4_0 t) fullShare ((dat4 V c).after 0 t)
    ∗ owns (c : Thread nD τ) (st4_1 t) fullShare ((dat4 V c).after 1 t)
    ∗ owns (c : Thread nD τ) (st4_2 t) fullShare ((dat4 V c).after 2 t)
    ∗ owns (c : Thread nD τ) (st4_3 t) fullShare ((dat4 V c).after 3 t))

/-- The body at any point: the inputs' memrefs hold their blocks, so the body's triple applies; the invariant and
    the core's debts pass through unread. -/
theorem sound_body4 (c : Dev nD) (t : Fin cfg4.N) :
    bodyPre4 V c t ⊢ wp frame (wpE (defs₀ (F := F)) Variants.none c none) Set.univ (bodyAt4 t) (fun _ => bodyPost4 V c t) := by
  unfold bodyPre4 bodyPost4 bodyAt4
  simp only [before4_0, before4_1, before4_2]
  rw [show (dat4 V c).Φ t.succ = (dat4 V c).Φ t.castSucc from rfl,
    show (dat4 V c).owesAt () t.succ = (dat4 V c).owesAt () t.castSucc from rfl,
    after4_0, after4_1, after4_2, after4_3]
  iintro ⟨HΦ, Ho, ⟨%d0, H0⟩, ⟨%d1, H1⟩, ⟨%d2, H2⟩, ⟨%d3, H3⟩⟩
  iapply (sound_kernel4 c Set.univ _ _ _ _ _ _ _ _ _ (iblk4 V c 0 t) (iblk4 V c 1 t) (iblk4 V c 2 t) _)
  isplitl [H0]; · iexact H0
  isplitl [H1]; · iexact H1
  isplitl [H2]; · iexact H2
  isplitl [H3]; · iexists _; iexact H3
  iintro ⟨H0, H1, H2, H3⟩
  isplitl [HΦ]; · iexact HΦ
  isplitl [Ho]; · iexact Ho
  isplitl [H0]; · iexact H0
  isplitl [H1]; · iexact H1
  isplitl [H2]; · iexact H2
  iexact H3

/-- The library's body obligation, at every point. -/
theorem body_obligation4 (c : Dev nD) : BodyObligation (dat4 (F := F) V c) (defs₀ (F := F)) Variants.none () Set.univ := fun t => by
  rw [bigSep_W4, bigSep_W4]
  exact sound_body4 V c t

end Cert.Kernel.Rg
-- ==== Proof.KB.Reg5.lean ====
/- REGION 5: the adjacency product with a carried accumulator (grid 20 × 10, the reduction step `k = t % 10`). The f32
   accumulator [512x1024] is zeroed when `k = 0`, takes the product of the left operand's block with the right operand's
   rows `k*1024 … k*1024+1023` at every point, and when `k = 9` is read back, the bias row added, the positive part taken, the sum converted to the result's format and stored whole into the
   result's block. Stated at a parameter `V`, the TensorCore's buffer contents when the region is entered: the proof
   data `dat5`, its body obligation, and the invariant's two ends `hin5` / `hout5`; `out5_L_3` / `outsAt5` name what
   the result window holds. -/
import proofs.«181230_j19834158973077_2_alg».proof.Proof.Gen.Kernel.Launch
import proofs.«181230_j19834158973077_2_alg».proof.Proof.Gen.Kernel.Skeleton
import proofs.«181230_j19834158973077_2_alg».proof.Proof.Gen.Kernel.Points
import Idealize.ShloMosaic.Lib.Pipeline.FrameBody
import Idealize.ShloMosaic.Lib.Ring
import Idealize.ShloMosaic.Lib.Tactic

-- membership in a rectangle of full extents recurses once per coordinate of the long axes
set_option maxRecDepth 16384

noncomputable section

namespace Cert.Kernel.Rg

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

/-! # Part 1: the conditionals over the grid, the memrefs, the invariant's split, the blocks -/

/-! ## The body's two conditionals, over the grid

A grid point `t` has coordinates `(m, k)` with `k = t % 10` the reduction step. The accumulator is zeroed when
`k = 0`; the result block is written when `k = 9`. -/

/-- The first conditional's condition (`k = 0`), with the scalar chain that computes it substituted. -/
abbrev zeroC5 (i : grid5.Coords) : Prop :=
  (Scalar.cmpi .ne (Scalar.extui (Scalar.cmpi .eq (BitVec.ofNat 32 (i 1).val) 0#32)) 0#32) = 1#1
/-- It holds exactly at the points ≡ 0 (mod 10): decided over the 200 points. -/
theorem zeroC5_iff : ∀ t : Fin cfg5.N, zeroC5 (grid5.coords t) ↔ t.val % 10 = 0 :=
  (by decide +kernel : ∀ t : Fin grid5.N, zeroC5 (grid5.coords t) ↔ t.val % 10 = 0)

/-- The second conditional's condition (`k = 9`). -/
abbrev flushC5 (i : grid5.Coords) : Prop := k5_cond2 i = 1#1
/-- It holds exactly at the points ≡ 9 (mod 10). -/
theorem flushC5_iff : ∀ t : Fin cfg5.N, flushC5 (grid5.coords t) ↔ t.val % 10 = 9 :=
  (by decide +kernel : ∀ t : Fin grid5.N, flushC5 (grid5.coords t) ↔ t.val % 10 = 9)

/-! ## Where the windows are idle -/

/-- The three input windows are never idle. -/
theorem live5_0 : ∀ t : Fin cfg5.N, cfg5.idle 0 (grid5.coords t) = false := by decide +kernel
theorem live5_1 : ∀ t : Fin cfg5.N, cfg5.idle 1 (grid5.coords t) = false := by decide +kernel
theorem live5_2 : ∀ t : Fin cfg5.N, cfg5.idle 2 (grid5.coords t) = false := by decide +kernel
/-- Away from `k = 9` the result window is idle (the body stores nothing into it) -/
theorem idle5_3 : ∀ t : Fin cfg5.N, ¬flushC5 (grid5.coords t) → cfg5.idle 3 (grid5.coords t) = true := by decide +kernel
/-- and its block is not written back; -/
theorem noFlush5_3 : ∀ t : Fin cfg5.N, ¬flushC5 (grid5.coords t) → (cfg5.win 3).flush t = false := by decide +kernel
/-- at `k = 9` it is live. -/
theorem live5_3 : ∀ t : Fin cfg5.N, flushC5 (grid5.coords t) → cfg5.idle 3 (grid5.coords t) = false := by decide +kernel

/-! ## The memrefs the body is called with -/

/-- Each window's current staging memref at point `t`, and that it is a whole buffer: the left operand's block, -/
abbrev mA5 (t : Fin cfg5.N) : Memref sig .tc .vmem S512x1024 .bf16 := win5_0.stage (cfg5.slots t 0)
abbrev hA5 (t : Fin cfg5.N) : (mA5 t).IsWhole := hstage5_0 ((cfg5.slots t 0).cast nbuf5_0)
/-- the right operand, resident whole, -/
abbrev mB5 (t : Fin cfg5.N) : Memref sig .tc .vmem S10240x1024 .bf16 := win5_1.stage (cfg5.slots t 1)
abbrev hB5 (t : Fin cfg5.N) : (mB5 t).IsWhole := hstage5_1 ((cfg5.slots t 1).cast nbuf5_1)
/-- the bias row, -/
abbrev mC5 (t : Fin cfg5.N) : Memref sig .tc .vmem S1x1024 .f32 := win5_2.stage (cfg5.slots t 2)
abbrev hC5 (t : Fin cfg5.N) : (mC5 t).IsWhole := hstage5_2 ((cfg5.slots t 2).cast nbuf5_2)
/-- the result's block. -/
abbrev mO5 (t : Fin cfg5.N) : Memref sig .tc .vmem S512x1024 .bf16 := win5_3.stage (cfg5.slots t 3)
abbrev hO5 (t : Fin cfg5.N) : (mO5 t).IsWhole := hstage5_3 ((cfg5.slots t 3).cast nbuf5_3)
/-- The accumulator: a whole scoped buffer of the kernel's own, passed beside the windows and carried from point to point. -/
abbrev mS5 : Memref sig .tc .vmem S512x1024 .f32 := Memref.whole cc5_scratch0
/-- The views through which the result buffer's and the accumulator's contents are stated (one of the result's two
    staging buffers: for a covering list of stores the choice does not matter). -/
abbrev vO5 : View sig .tc .vmem S512x1024 .bf16 := (Memref.whole cc5_stg3_0 : Memref sig .tc .vmem S512x1024 .bf16).view
abbrev vS5 : View sig .tc .vmem S512x1024 .f32 := mS5.view

/-! ## The region invariant, with the accumulator split off -/

/-- Every other scoped buffer of the core that is no staging buffer of this region: carried unopened. -/
abbrev rest5 (c : Dev nD) : sProp 𝕄 :=
  Pipeline.scopedRestBut (Ix := Unit) (Name := ℕ) (U := UR sig nD τ) (Lvl := ℕ) (Val := Elt F) spec5 c [cc5_scratch0]

/-- The class's invariant is: the accumulator owned at some contents, the other scoped buffers, the generator
    register at some state. -/
theorem PhiA5_eq (c : Dev nD) :
    (Pipeline.ΦA spec5 c : sProp 𝕄)
      = iprop(iprop((∃ d, owns (c : Thread nD τ) mS5 fullShare d) ∗ rest5 (F := F) c) ∗ (∃ r, prngReg c r)) := by
  unfold Pipeline.ΦA; rw [scopedRest5_split]; simp only [mS5, owns_whole]; try rfl

section Entry
variable (V : (c : Dev nD) → (b : Ref sig .tc) → Buf (Elt F) ((c : Thread nD τ).loc b))

/-! ## The windows' blocks -/

/-- Window `w`'s block at point `t`, read off its array as the region finds it. -/
def iblk5 (c : Dev nD) (w : Fin cfg5.W) (t : Fin cfg5.N) : ((cfg5.win w).xblock (cfg5.grid.coords t)).Idx → Elt F (cfg5.win w).elt :=
  ((cfg5.win w).blk t).view.read (Elt F) (V c (Pipeline.arrRef spec5 w))

/-- An input window's current staging buffer holds its block at every point, fetched there or not (where it is not
    fetched its block index has not moved), for any proof data whose array is `V`'s and whose body leaves the block
    in place. -/
theorem before5_0_of {c : Dev nD} (dat : Dat τ (Elt F) Unit ℕ (UR sig nD τ) ℕ cfg5 c) (hA : dat.A 0 = V c (Pipeline.arrRef spec5 0))
    (hafter : ∀ t, dat.after 0 t = iblk5 V c 0 t) (t : Fin cfg5.N) (d) : dat.before 0 t d = iblk5 V c 0 t :=
  (dat.before_in_eq_fetched 0 rfl (fun _ => rfl) (fun _ _ _ => rfl) (fun t => by rw [hafter]; unfold Dat.blockOf iblk5; rw [hA]; try rfl) t d).trans
    (by unfold Dat.fetched Dat.blockOf iblk5; rw [hA]; try rfl)
theorem before5_1_of {c : Dev nD} (dat : Dat τ (Elt F) Unit ℕ (UR sig nD τ) ℕ cfg5 c) (hA : dat.A 1 = V c (Pipeline.arrRef spec5 1))
    (hafter : ∀ t, dat.after 1 t = iblk5 V c 1 t) (t : Fin cfg5.N) (d) : dat.before 1 t d = iblk5 V c 1 t :=
  (dat.before_in_eq_fetched 1 rfl (fun _ => rfl) (fun _ _ _ => rfl) (fun t => by rw [hafter]; unfold Dat.blockOf iblk5; rw [hA]; try rfl) t d).trans
    (by unfold Dat.fetched Dat.blockOf iblk5; rw [hA]; try rfl)
theorem before5_2_of {c : Dev nD} (dat : Dat τ (Elt F) Unit ℕ (UR sig nD τ) ℕ cfg5 c) (hA : dat.A 2 = V c (Pipeline.arrRef spec5 2))
    (hafter : ∀ t, dat.after 2 t = iblk5 V c 2 t) (t : Fin cfg5.N) (d) : dat.before 2 t d = iblk5 V c 2 t :=
  (dat.before_in_eq_fetched 2 rfl (fun _ => rfl) (fun _ _ _ => rfl) (fun t => by rw [hafter]; unfold Dat.blockOf iblk5; rw [hA]; try rfl) t d).trans
    (by unfold Dat.fetched Dat.blockOf iblk5; rw [hA]; try rfl)

end Entry

/-! # Part 2: the body's run in each of the three control cases -/
/-! ### The control case `k = 0`: the accumulator is stored whole with zeros, then read back, the block product added and the sum stored
   whole again; the result buffer is not touched. -/

-- (the run's proof term is large: the definition's epilogue walks it past the default budget)
set_option maxHeartbeats 1000000 in
/-- The lists of stores, last first, that the body leaves in the result buffer (`L3`) and in the accumulator (`LS`) in
    this case, TOGETHER WITH the proof that on whole memrefs — the three inputs at contents `x0 x1 x2`, the result
    buffer at contents `xi3` handed back as found, the accumulator at anything — the body runs to a
    continuation that holds the inputs as they were, the result buffer as it was and the accumulator with
    `LS` written. The two lists are found by running the body's memory operations in order over named payloads; each
    conditional is decided by the case's hypotheses. -/
noncomputable def runZero5 (c : Dev nD) (i : grid5.Coords) (arg2 : Memref sig .tc .vmem S512x1024 .bf16) (harg2 : arg2.IsWhole) (arg3 : Memref sig .tc .vmem S10240x1024 .bf16) (harg3 : arg3.IsWhole) (arg4 : Memref sig .tc .vmem S1x1024 .f32) (harg4 : arg4.IsWhole) (arg5 : Memref sig .tc .vmem S512x1024 .bf16) (harg5 : arg5.IsWhole) (arg6 : Memref sig .tc .vmem S512x1024 .f32) (harg6 : arg6.IsWhole) (hc0 : zeroC5 i) (hc1 : ¬flushC5 i)
    (x0 : Vec F S512x1024 .bf16) (x1 : Vec F S10240x1024 .bf16) (x2 : Vec F S1x1024 .f32) :
    Σ' (L3 : List (View.Piece (Elt F) S512x1024 .bf16)), { LS : List (View.Piece (Elt F) S512x1024 .f32) //
      ∀ (xi3 : Vec F S512x1024 .bf16) (E : Set ℕ) (K : PUnit → sProp 𝕄),
        iprop(owns (c : Thread nD τ) arg2 fullShare x0 ∗ owns (c : Thread nD τ) arg3 fullShare x1 ∗ owns (c : Thread nD τ) arg4 fullShare x2 ∗ owns (c : Thread nD τ) arg5 fullShare xi3 ∗ (∃ d, owns (c : Thread nD τ) arg6 fullShare d)
            ∗ (iprop(owns (c : Thread nD τ) arg2 fullShare x0 ∗ owns (c : Thread nD τ) arg3 fullShare x1 ∗ owns (c : Thread nD τ) arg4 fullShare x2 ∗ owns (c : Thread nD τ) arg5 fullShare xi3 ∗ (∃ f, arg6.view.loc (c : Thread nD τ) ↦[arg6.view.set]{fullShare} arg6.view.writes (Elt F) f LS)) -∗ K ⟨⟩))
          ⊢ wp frame (wpE (defs₀ (F := F)) Variants.none c none) E (cc5__stage2_kernel i arg2 harg2 arg3 harg3 arg4 harg4 arg5 harg5 arg6 harg6) K } := by
  refine ⟨[], ?_, fun xi3 E K => ?run⟩
  case run =>
    simp only [cc5__stage2_kernel_eq_skeleton]; unfold cc5__stage2_kernel_skel
    unfold owns
    iintro ⟨⟨%f0, %hf0, H0⟩, ⟨%f1, %hf1, H1⟩, ⟨%f2, %hf2, H2⟩, ⟨%f3, %hf3, H3⟩, ⟨%ds, %fs, -, HS⟩, Hk⟩
    obtain rfl := harg2.eq_unread hf0; obtain rfl := harg3.eq_unread hf1; obtain rfl := harg4.eq_unread hf2; obtain rfl := harg5.eq_unread hf3
    sl_exec (disch := first | exact hc0 | exact hc1)
    sl_step
    iapply Hk
    isplitl [H0]
    · iexists _; isplitr; · ipureintro; exact harg2.read_unread _
      iexact H0
    isplitl [H1]
    · iexists _; isplitr; · ipureintro; exact harg3.read_unread _
      iexact H1
    isplitl [H2]
    · iexists _; isplitr; · ipureintro; exact harg4.read_unread _
      iexact H2
    isplitl [H3]
    · iexists _; isplitr; · ipureintro; exact harg5.read_unread _
      iexact H3
    iexists _; iexact HS

/-! ### The control case `0 < k < 9`: the accumulator is read, the block product added and the sum stored whole; the result
   buffer is not touched. -/

-- (the run's proof term is large: the definition's epilogue walks it past the default budget)
set_option maxHeartbeats 1000000 in
/-- The lists of stores, last first, that the body leaves in the result buffer (`L3`) and in the accumulator (`LS`) in
    this case, TOGETHER WITH the proof that on whole memrefs — the three inputs at contents `x0 x1 x2`, the result
    buffer at contents `xi3` handed back as found, the accumulator at the contents `xs` the point before left — the body runs to a
    continuation that holds the inputs as they were, the result buffer as it was and the accumulator with
    `LS` written. The two lists are found by running the body's memory operations in order over named payloads; each
    conditional is decided by the case's hypotheses. -/
noncomputable def runMid5 (c : Dev nD) (i : grid5.Coords) (arg2 : Memref sig .tc .vmem S512x1024 .bf16) (harg2 : arg2.IsWhole) (arg3 : Memref sig .tc .vmem S10240x1024 .bf16) (harg3 : arg3.IsWhole) (arg4 : Memref sig .tc .vmem S1x1024 .f32) (harg4 : arg4.IsWhole) (arg5 : Memref sig .tc .vmem S512x1024 .bf16) (harg5 : arg5.IsWhole) (arg6 : Memref sig .tc .vmem S512x1024 .f32) (harg6 : arg6.IsWhole) (hc0 : ¬zeroC5 i) (hc1 : ¬flushC5 i)
    (x0 : Vec F S512x1024 .bf16) (x1 : Vec F S10240x1024 .bf16) (x2 : Vec F S1x1024 .f32) (xs : Vec F S512x1024 .f32) :
    Σ' (L3 : List (View.Piece (Elt F) S512x1024 .bf16)), { LS : List (View.Piece (Elt F) S512x1024 .f32) //
      ∀ (xi3 : Vec F S512x1024 .bf16) (E : Set ℕ) (K : PUnit → sProp 𝕄),
        iprop(owns (c : Thread nD τ) arg2 fullShare x0 ∗ owns (c : Thread nD τ) arg3 fullShare x1 ∗ owns (c : Thread nD τ) arg4 fullShare x2 ∗ owns (c : Thread nD τ) arg5 fullShare xi3 ∗ owns (c : Thread nD τ) arg6 fullShare xs
            ∗ (iprop(owns (c : Thread nD τ) arg2 fullShare x0 ∗ owns (c : Thread nD τ) arg3 fullShare x1 ∗ owns (c : Thread nD τ) arg4 fullShare x2 ∗ owns (c : Thread nD τ) arg5 fullShare xi3 ∗ (∃ f, arg6.view.loc (c : Thread nD τ) ↦[arg6.view.set]{fullShare} arg6.view.writes (Elt F) f LS)) -∗ K ⟨⟩))
          ⊢ wp frame (wpE (defs₀ (F := F)) Variants.none c none) E (cc5__stage2_kernel i arg2 harg2 arg3 harg3 arg4 harg4 arg5 harg5 arg6 harg6) K } := by
  refine ⟨[], ?_, fun xi3 E K => ?run⟩
  case run =>
    simp only [cc5__stage2_kernel_eq_skeleton]; unfold cc5__stage2_kernel_skel
    unfold owns
    iintro ⟨⟨%f0, %hf0, H0⟩, ⟨%f1, %hf1, H1⟩, ⟨%f2, %hf2, H2⟩, ⟨%f3, %hf3, H3⟩, ⟨%fs, %hfs, HS⟩, Hk⟩
    obtain rfl := harg2.eq_unread hf0; obtain rfl := harg3.eq_unread hf1; obtain rfl := harg4.eq_unread hf2; obtain rfl := harg5.eq_unread hf3; obtain rfl := harg6.eq_unread hfs
    sl_exec (disch := first | exact hc0 | exact hc1)
    sl_step
    iapply Hk
    isplitl [H0]
    · iexists _; isplitr; · ipureintro; exact harg2.read_unread _
      iexact H0
    isplitl [H1]
    · iexists _; isplitr; · ipureintro; exact harg3.read_unread _
      iexact H1
    isplitl [H2]
    · iexists _; isplitr; · ipureintro; exact harg4.read_unread _
      iexact H2
    isplitl [H3]
    · iexists _; isplitr; · ipureintro; exact harg5.read_unread _
      iexact H3
    iexists _; iexact HS

/-! ### The control case `k = 9`: the accumulator is read, the block product added and the sum stored whole; then the accumulator
   is read back, the bias row added, the sum converted to the result's format and stored whole into the result buffer. -/

-- (the run's proof term is large: the definition's epilogue walks it past the default budget)
set_option maxHeartbeats 1000000 in
/-- The lists of stores, last first, that the body leaves in the result buffer (`L3`) and in the accumulator (`LS`) in
    this case, TOGETHER WITH the proof that on whole memrefs — the three inputs at contents `x0 x1 x2`, the result buffer at anything, the accumulator at the contents `xs` the point before left — the body runs to a
    continuation that holds the inputs as they were, the result buffer with `L3` written and the accumulator with
    `LS` written. The two lists are found by running the body's memory operations in order over named payloads; each
    conditional is decided by the case's hypotheses. -/
noncomputable def runLast5 (c : Dev nD) (i : grid5.Coords) (arg2 : Memref sig .tc .vmem S512x1024 .bf16) (harg2 : arg2.IsWhole) (arg3 : Memref sig .tc .vmem S10240x1024 .bf16) (harg3 : arg3.IsWhole) (arg4 : Memref sig .tc .vmem S1x1024 .f32) (harg4 : arg4.IsWhole) (arg5 : Memref sig .tc .vmem S512x1024 .bf16) (harg5 : arg5.IsWhole) (arg6 : Memref sig .tc .vmem S512x1024 .f32) (harg6 : arg6.IsWhole) (hc0 : ¬zeroC5 i) (hc1 : flushC5 i)
    (x0 : Vec F S512x1024 .bf16) (x1 : Vec F S10240x1024 .bf16) (x2 : Vec F S1x1024 .f32) (xs : Vec F S512x1024 .f32) :
    Σ' (L3 : List (View.Piece (Elt F) S512x1024 .bf16)), { LS : List (View.Piece (Elt F) S512x1024 .f32) //
      ∀ (E : Set ℕ) (K : PUnit → sProp 𝕄),
        iprop(owns (c : Thread nD τ) arg2 fullShare x0 ∗ owns (c : Thread nD τ) arg3 fullShare x1 ∗ owns (c : Thread nD τ) arg4 fullShare x2 ∗ (∃ d, owns (c : Thread nD τ) arg5 fullShare d) ∗ owns (c : Thread nD τ) arg6 fullShare xs
            ∗ (iprop(owns (c : Thread nD τ) arg2 fullShare x0 ∗ owns (c : Thread nD τ) arg3 fullShare x1 ∗ owns (c : Thread nD τ) arg4 fullShare x2 ∗ (∃ f, arg5.view.loc (c : Thread nD τ) ↦[arg5.view.set]{fullShare} arg5.view.writes (Elt F) f L3) ∗ (∃ f, arg6.view.loc (c : Thread nD τ) ↦[arg6.view.set]{fullShare} arg6.view.writes (Elt F) f LS)) -∗ K ⟨⟩))
          ⊢ wp frame (wpE (defs₀ (F := F)) Variants.none c none) E (cc5__stage2_kernel i arg2 harg2 arg3 harg3 arg4 harg4 arg5 harg5 arg6 harg6) K } := by
  refine ⟨?_, ?_, fun E K => ?run⟩
  case run =>
    simp only [cc5__stage2_kernel_eq_skeleton]; unfold cc5__stage2_kernel_skel
    unfold owns
    iintro ⟨⟨%f0, %hf0, H0⟩, ⟨%f1, %hf1, H1⟩, ⟨%f2, %hf2, H2⟩, ⟨%d3, %f3, -, H3⟩, ⟨%fs, %hfs, HS⟩, Hk⟩
    obtain rfl := harg2.eq_unread hf0; obtain rfl := harg3.eq_unread hf1; obtain rfl := harg4.eq_unread hf2; obtain rfl := harg6.eq_unread hfs
    sl_exec (disch := first | exact hc0 | exact hc1)
    sl_step
    iapply Hk
    isplitl [H0]
    · iexists _; isplitr; · ipureintro; exact harg2.read_unread _
      iexact H0
    isplitl [H1]
    · iexists _; isplitr; · ipureintro; exact harg3.read_unread _
      iexact H1
    isplitl [H2]
    · iexists _; isplitr; · ipureintro; exact harg4.read_unread _
      iexact H2
    isplitl [H3]; · iexists _; iexact H3
    iexists _; iexact HS

/-! # Part 3: what each case leaves, point by point; the proof data; the body obligation; the invariant's ends -/

/-! ## What each case leaves

In the cases `k = 0` and `0 < k < 9` nothing is stored into the result buffer: its "contents" below is a placeholder
(no stores read back over junk) that nothing consults, the window being idle and not written back at those points. -/

def out5_Z_3 (c : Dev nD) (i : grid5.Coords) (arg2 : Memref sig .tc .vmem S512x1024 .bf16) (harg2 : arg2.IsWhole) (arg3 : Memref sig .tc .vmem S10240x1024 .bf16) (harg3 : arg3.IsWhole) (arg4 : Memref sig .tc .vmem S1x1024 .f32) (harg4 : arg4.IsWhole) (arg5 : Memref sig .tc .vmem S512x1024 .bf16) (harg5 : arg5.IsWhole) (arg6 : Memref sig .tc .vmem S512x1024 .f32) (harg6 : arg6.IsWhole) (hc0 : zeroC5 i) (hc1 : ¬flushC5 i)
    (x0 : Vec F S512x1024 .bf16) (x1 : Vec F S10240x1024 .bf16) (x2 : Vec F S1x1024 .f32) : Vec F S512x1024 .bf16 :=
  vO5.read (Elt F) (vO5.writes (Elt F) vO5.junk (runZero5 c i arg2 harg2 arg3 harg3 arg4 harg4 arg5 harg5 arg6 harg6 hc0 hc1 x0 x1 x2).1)

/-- At `k = 0` the accumulator's stores (the zero fill, then the first partial sum) cover it. -/
theorem scover5_Z (c : Dev nD) (i : grid5.Coords) (arg2 : Memref sig .tc .vmem S512x1024 .bf16) (harg2 : arg2.IsWhole) (arg3 : Memref sig .tc .vmem S10240x1024 .bf16) (harg3 : arg3.IsWhole) (arg4 : Memref sig .tc .vmem S1x1024 .f32) (harg4 : arg4.IsWhole) (arg5 : Memref sig .tc .vmem S512x1024 .bf16) (harg5 : arg5.IsWhole) (arg6 : Memref sig .tc .vmem S512x1024 .f32) (harg6 : arg6.IsWhole) (hc0 : zeroC5 i) (hc1 : ¬flushC5 i)
    (x0 : Vec F S512x1024 .bf16) (x1 : Vec F S10240x1024 .bf16) (x2 : Vec F S1x1024 .f32) (y : S512x1024.Idx) :
    ∃ pc ∈ (runZero5 c i arg2 harg2 arg3 harg3 arg4 harg4 arg5 harg5 arg6 harg6 hc0 hc1 x0 x1 x2).2.1, y ∈ pc.1.set :=
  View.cover_of_tiledL (runZero5 c i arg2 harg2 arg3 harg3 arg4 harg4 arg5 harg5 arg6 harg6 hc0 hc1 x0 x1 x2).2.1 S512x1024.size (by sl_kernel_rfl) y

/-- What the case `k = 0` leaves in the accumulator: its stores read back. -/
def acc5_Z (c : Dev nD) (i : grid5.Coords) (arg2 : Memref sig .tc .vmem S512x1024 .bf16) (harg2 : arg2.IsWhole) (arg3 : Memref sig .tc .vmem S10240x1024 .bf16) (harg3 : arg3.IsWhole) (arg4 : Memref sig .tc .vmem S1x1024 .f32) (harg4 : arg4.IsWhole) (arg5 : Memref sig .tc .vmem S512x1024 .bf16) (harg5 : arg5.IsWhole) (arg6 : Memref sig .tc .vmem S512x1024 .f32) (harg6 : arg6.IsWhole) (hc0 : zeroC5 i) (hc1 : ¬flushC5 i)
    (x0 : Vec F S512x1024 .bf16) (x1 : Vec F S10240x1024 .bf16) (x2 : Vec F S1x1024 .f32) : Vec F S512x1024 .f32 :=
  vS5.read (Elt F) (vS5.writes (Elt F) vS5.junk (runZero5 c i arg2 harg2 arg3 harg3 arg4 harg4 arg5 harg5 arg6 harg6 hc0 hc1 x0 x1 x2).2.1)

def out5_M_3 (c : Dev nD) (i : grid5.Coords) (arg2 : Memref sig .tc .vmem S512x1024 .bf16) (harg2 : arg2.IsWhole) (arg3 : Memref sig .tc .vmem S10240x1024 .bf16) (harg3 : arg3.IsWhole) (arg4 : Memref sig .tc .vmem S1x1024 .f32) (harg4 : arg4.IsWhole) (arg5 : Memref sig .tc .vmem S512x1024 .bf16) (harg5 : arg5.IsWhole) (arg6 : Memref sig .tc .vmem S512x1024 .f32) (harg6 : arg6.IsWhole) (hc0 : ¬zeroC5 i) (hc1 : ¬flushC5 i)
    (x0 : Vec F S512x1024 .bf16) (x1 : Vec F S10240x1024 .bf16) (x2 : Vec F S1x1024 .f32) (xs : Vec F S512x1024 .f32) : Vec F S512x1024 .bf16 :=
  vO5.read (Elt F) (vO5.writes (Elt F) vO5.junk (runMid5 c i arg2 harg2 arg3 harg3 arg4 harg4 arg5 harg5 arg6 harg6 hc0 hc1 x0 x1 x2 xs).1)

/-- For `0 < k < 9` the accumulator's one store covers it. -/
theorem scover5_M (c : Dev nD) (i : grid5.Coords) (arg2 : Memref sig .tc .vmem S512x1024 .bf16) (harg2 : arg2.IsWhole) (arg3 : Memref sig .tc .vmem S10240x1024 .bf16) (harg3 : arg3.IsWhole) (arg4 : Memref sig .tc .vmem S1x1024 .f32) (harg4 : arg4.IsWhole) (arg5 : Memref sig .tc .vmem S512x1024 .bf16) (harg5 : arg5.IsWhole) (arg6 : Memref sig .tc .vmem S512x1024 .f32) (harg6 : arg6.IsWhole) (hc0 : ¬zeroC5 i) (hc1 : ¬flushC5 i)
    (x0 : Vec F S512x1024 .bf16) (x1 : Vec F S10240x1024 .bf16) (x2 : Vec F S1x1024 .f32) (xs : Vec F S512x1024 .f32) (y : S512x1024.Idx) :
    ∃ pc ∈ (runMid5 c i arg2 harg2 arg3 harg3 arg4 harg4 arg5 harg5 arg6 harg6 hc0 hc1 x0 x1 x2 xs).2.1, y ∈ pc.1.set :=
  View.cover_of_tiledL (runMid5 c i arg2 harg2 arg3 harg3 arg4 harg4 arg5 harg5 arg6 harg6 hc0 hc1 x0 x1 x2 xs).2.1 S512x1024.size (by sl_kernel_rfl) y

/-- What the case `0 < k < 9` leaves in the accumulator, over what the point before left (`xs`). -/
def acc5_M (c : Dev nD) (i : grid5.Coords) (arg2 : Memref sig .tc .vmem S512x1024 .bf16) (harg2 : arg2.IsWhole) (arg3 : Memref sig .tc .vmem S10240x1024 .bf16) (harg3 : arg3.IsWhole) (arg4 : Memref sig .tc .vmem S1x1024 .f32) (harg4 : arg4.IsWhole) (arg5 : Memref sig .tc .vmem S512x1024 .bf16) (harg5 : arg5.IsWhole) (arg6 : Memref sig .tc .vmem S512x1024 .f32) (harg6 : arg6.IsWhole) (hc0 : ¬zeroC5 i) (hc1 : ¬flushC5 i)
    (x0 : Vec F S512x1024 .bf16) (x1 : Vec F S10240x1024 .bf16) (x2 : Vec F S1x1024 .f32) (xs : Vec F S512x1024 .f32) : Vec F S512x1024 .f32 :=
  vS5.read (Elt F) (vS5.writes (Elt F) vS5.junk (runMid5 c i arg2 harg2 arg3 harg3 arg4 harg4 arg5 harg5 arg6 harg6 hc0 hc1 x0 x1 x2 xs).2.1)

/-- At `k = 9` the one store into the result buffer covers it. -/
theorem cover5_L_3 (c : Dev nD) (i : grid5.Coords) (arg2 : Memref sig .tc .vmem S512x1024 .bf16) (harg2 : arg2.IsWhole) (arg3 : Memref sig .tc .vmem S10240x1024 .bf16) (harg3 : arg3.IsWhole) (arg4 : Memref sig .tc .vmem S1x1024 .f32) (harg4 : arg4.IsWhole) (arg5 : Memref sig .tc .vmem S512x1024 .bf16) (harg5 : arg5.IsWhole) (arg6 : Memref sig .tc .vmem S512x1024 .f32) (harg6 : arg6.IsWhole) (hc0 : ¬zeroC5 i) (hc1 : flushC5 i)
    (x0 : Vec F S512x1024 .bf16) (x1 : Vec F S10240x1024 .bf16) (x2 : Vec F S1x1024 .f32) (xs : Vec F S512x1024 .f32) (y : S512x1024.Idx) :
    ∃ pc ∈ (runLast5 c i arg2 harg2 arg3 harg3 arg4 harg4 arg5 harg5 arg6 harg6 hc0 hc1 x0 x1 x2 xs).1, y ∈ pc.1.set :=
  View.cover_of_tiledL (runLast5 c i arg2 harg2 arg3 harg3 arg4 harg4 arg5 harg5 arg6 harg6 hc0 hc1 x0 x1 x2 xs).1 S512x1024.size (by sl_kernel_rfl) y

/-- THE RESULT BLOCK: what the case `k = 9` leaves in the result buffer — the accumulated sum plus the bias row, in the
    result's format — as a term of the three input blocks and of the accumulator the point before left. -/
def out5_L_3 (c : Dev nD) (i : grid5.Coords) (arg2 : Memref sig .tc .vmem S512x1024 .bf16) (harg2 : arg2.IsWhole) (arg3 : Memref sig .tc .vmem S10240x1024 .bf16) (harg3 : arg3.IsWhole) (arg4 : Memref sig .tc .vmem S1x1024 .f32) (harg4 : arg4.IsWhole) (arg5 : Memref sig .tc .vmem S512x1024 .bf16) (harg5 : arg5.IsWhole) (arg6 : Memref sig .tc .vmem S512x1024 .f32) (harg6 : arg6.IsWhole) (hc0 : ¬zeroC5 i) (hc1 : flushC5 i)
    (x0 : Vec F S512x1024 .bf16) (x1 : Vec F S10240x1024 .bf16) (x2 : Vec F S1x1024 .f32) (xs : Vec F S512x1024 .f32) : Vec F S512x1024 .bf16 :=
  vO5.read (Elt F) (vO5.writes (Elt F) vO5.junk (runLast5 c i arg2 harg2 arg3 harg3 arg4 harg4 arg5 harg5 arg6 harg6 hc0 hc1 x0 x1 x2 xs).1)

/-- At `k = 9` the accumulator's one store covers it. -/
theorem scover5_L (c : Dev nD) (i : grid5.Coords) (arg2 : Memref sig .tc .vmem S512x1024 .bf16) (harg2 : arg2.IsWhole) (arg3 : Memref sig .tc .vmem S10240x1024 .bf16) (harg3 : arg3.IsWhole) (arg4 : Memref sig .tc .vmem S1x1024 .f32) (harg4 : arg4.IsWhole) (arg5 : Memref sig .tc .vmem S512x1024 .bf16) (harg5 : arg5.IsWhole) (arg6 : Memref sig .tc .vmem S512x1024 .f32) (harg6 : arg6.IsWhole) (hc0 : ¬zeroC5 i) (hc1 : flushC5 i)
    (x0 : Vec F S512x1024 .bf16) (x1 : Vec F S10240x1024 .bf16) (x2 : Vec F S1x1024 .f32) (xs : Vec F S512x1024 .f32) (y : S512x1024.Idx) :
    ∃ pc ∈ (runLast5 c i arg2 harg2 arg3 harg3 arg4 harg4 arg5 harg5 arg6 harg6 hc0 hc1 x0 x1 x2 xs).2.1, y ∈ pc.1.set :=
  View.cover_of_tiledL (runLast5 c i arg2 harg2 arg3 harg3 arg4 harg4 arg5 harg5 arg6 harg6 hc0 hc1 x0 x1 x2 xs).2.1 S512x1024.size (by sl_kernel_rfl) y

/-- What the case `k = 9` leaves in the accumulator. -/
def acc5_L (c : Dev nD) (i : grid5.Coords) (arg2 : Memref sig .tc .vmem S512x1024 .bf16) (harg2 : arg2.IsWhole) (arg3 : Memref sig .tc .vmem S10240x1024 .bf16) (harg3 : arg3.IsWhole) (arg4 : Memref sig .tc .vmem S1x1024 .f32) (harg4 : arg4.IsWhole) (arg5 : Memref sig .tc .vmem S512x1024 .bf16) (harg5 : arg5.IsWhole) (arg6 : Memref sig .tc .vmem S512x1024 .f32) (harg6 : arg6.IsWhole) (hc0 : ¬zeroC5 i) (hc1 : flushC5 i)
    (x0 : Vec F S512x1024 .bf16) (x1 : Vec F S10240x1024 .bf16) (x2 : Vec F S1x1024 .f32) (xs : Vec F S512x1024 .f32) : Vec F S512x1024 .f32 :=
  vS5.read (Elt F) (vS5.writes (Elt F) vS5.junk (runLast5 c i arg2 harg2 arg3 harg3 arg4 harg4 arg5 harg5 arg6 harg6 hc0 hc1 x0 x1 x2 xs).2.1)

section Entry
variable (V : (c : Dev nD) → (b : Ref sig .tc) → Buf (Elt F) ((c : Thread nD τ).loc b))

/-! ## Point by point -/

/-- THE ACCUMULATION. After the body at position `n`: (the result buffer, the accumulator). The case is the one the
    closed forms select at `n`, run on the point's memrefs and input blocks; for `k > 0` the accumulator starts from what
    position `n - 1` left in it. The two conditions cannot hold together. -/
def outsAt5 (c : Dev nD) : (n : ℕ) → n < cfg5.N → Vec F S512x1024 .bf16 × Vec F S512x1024 .f32
  | 0, hn => (out5_Z_3 c (grid5.coords ⟨0, hn⟩) (mA5 ⟨0, hn⟩) (hA5 ⟨0, hn⟩) (mB5 ⟨0, hn⟩) (hB5 ⟨0, hn⟩) (mC5 ⟨0, hn⟩) (hC5 ⟨0, hn⟩) (mO5 ⟨0, hn⟩) (hO5 ⟨0, hn⟩) mS5 (Memref.isWhole_whole _) ((zeroC5_iff ⟨0, hn⟩).mpr (Nat.zero_mod _)) (fun h => (fun h => by (try dsimp only at h); omega) ((flushC5_iff ⟨0, hn⟩).mp h)) (iblk5 V c 0 ⟨0, hn⟩) (iblk5 V c 1 ⟨0, hn⟩) (iblk5 V c 2 ⟨0, hn⟩), acc5_Z c (grid5.coords ⟨0, hn⟩) (mA5 ⟨0, hn⟩) (hA5 ⟨0, hn⟩) (mB5 ⟨0, hn⟩) (hB5 ⟨0, hn⟩) (mC5 ⟨0, hn⟩) (hC5 ⟨0, hn⟩) (mO5 ⟨0, hn⟩) (hO5 ⟨0, hn⟩) mS5 (Memref.isWhole_whole _) ((zeroC5_iff ⟨0, hn⟩).mpr (Nat.zero_mod _)) (fun h => (fun h => by (try dsimp only at h); omega) ((flushC5_iff ⟨0, hn⟩).mp h)) (iblk5 V c 0 ⟨0, hn⟩) (iblk5 V c 1 ⟨0, hn⟩) (iblk5 V c 2 ⟨0, hn⟩))
  | n + 1, hn =>
    if h0 : (n + 1) % 10 = 0 then
      if h1 : (n + 1) % 10 = 9 then
        False.elim (by omega)
      else
        (out5_Z_3 c (grid5.coords ⟨n + 1, hn⟩) (mA5 ⟨n + 1, hn⟩) (hA5 ⟨n + 1, hn⟩) (mB5 ⟨n + 1, hn⟩) (hB5 ⟨n + 1, hn⟩) (mC5 ⟨n + 1, hn⟩) (hC5 ⟨n + 1, hn⟩) (mO5 ⟨n + 1, hn⟩) (hO5 ⟨n + 1, hn⟩) mS5 (Memref.isWhole_whole _) ((zeroC5_iff ⟨n + 1, hn⟩).mpr h0) (fun h => h1 ((flushC5_iff ⟨n + 1, hn⟩).mp h)) (iblk5 V c 0 ⟨n + 1, hn⟩) (iblk5 V c 1 ⟨n + 1, hn⟩) (iblk5 V c 2 ⟨n + 1, hn⟩), acc5_Z c (grid5.coords ⟨n + 1, hn⟩) (mA5 ⟨n + 1, hn⟩) (hA5 ⟨n + 1, hn⟩) (mB5 ⟨n + 1, hn⟩) (hB5 ⟨n + 1, hn⟩) (mC5 ⟨n + 1, hn⟩) (hC5 ⟨n + 1, hn⟩) (mO5 ⟨n + 1, hn⟩) (hO5 ⟨n + 1, hn⟩) mS5 (Memref.isWhole_whole _) ((zeroC5_iff ⟨n + 1, hn⟩).mpr h0) (fun h => h1 ((flushC5_iff ⟨n + 1, hn⟩).mp h)) (iblk5 V c 0 ⟨n + 1, hn⟩) (iblk5 V c 1 ⟨n + 1, hn⟩) (iblk5 V c 2 ⟨n + 1, hn⟩))
    else
      if h1 : (n + 1) % 10 = 9 then
        (out5_L_3 c (grid5.coords ⟨n + 1, hn⟩) (mA5 ⟨n + 1, hn⟩) (hA5 ⟨n + 1, hn⟩) (mB5 ⟨n + 1, hn⟩) (hB5 ⟨n + 1, hn⟩) (mC5 ⟨n + 1, hn⟩) (hC5 ⟨n + 1, hn⟩) (mO5 ⟨n + 1, hn⟩) (hO5 ⟨n + 1, hn⟩) mS5 (Memref.isWhole_whole _) (fun h => h0 ((zeroC5_iff ⟨n + 1, hn⟩).mp h)) ((flushC5_iff ⟨n + 1, hn⟩).mpr h1) (iblk5 V c 0 ⟨n + 1, hn⟩) (iblk5 V c 1 ⟨n + 1, hn⟩) (iblk5 V c 2 ⟨n + 1, hn⟩) (outsAt5 c n (Nat.lt_of_succ_lt hn)).2, acc5_L c (grid5.coords ⟨n + 1, hn⟩) (mA5 ⟨n + 1, hn⟩) (hA5 ⟨n + 1, hn⟩) (mB5 ⟨n + 1, hn⟩) (hB5 ⟨n + 1, hn⟩) (mC5 ⟨n + 1, hn⟩) (hC5 ⟨n + 1, hn⟩) (mO5 ⟨n + 1, hn⟩) (hO5 ⟨n + 1, hn⟩) mS5 (Memref.isWhole_whole _) (fun h => h0 ((zeroC5_iff ⟨n + 1, hn⟩).mp h)) ((flushC5_iff ⟨n + 1, hn⟩).mpr h1) (iblk5 V c 0 ⟨n + 1, hn⟩) (iblk5 V c 1 ⟨n + 1, hn⟩) (iblk5 V c 2 ⟨n + 1, hn⟩) (outsAt5 c n (Nat.lt_of_succ_lt hn)).2)
      else
        (out5_M_3 c (grid5.coords ⟨n + 1, hn⟩) (mA5 ⟨n + 1, hn⟩) (hA5 ⟨n + 1, hn⟩) (mB5 ⟨n + 1, hn⟩) (hB5 ⟨n + 1, hn⟩) (mC5 ⟨n + 1, hn⟩) (hC5 ⟨n + 1, hn⟩) (mO5 ⟨n + 1, hn⟩) (hO5 ⟨n + 1, hn⟩) mS5 (Memref.isWhole_whole _) (fun h => h0 ((zeroC5_iff ⟨n + 1, hn⟩).mp h)) (fun h => h1 ((flushC5_iff ⟨n + 1, hn⟩).mp h)) (iblk5 V c 0 ⟨n + 1, hn⟩) (iblk5 V c 1 ⟨n + 1, hn⟩) (iblk5 V c 2 ⟨n + 1, hn⟩) (outsAt5 c n (Nat.lt_of_succ_lt hn)).2, acc5_M c (grid5.coords ⟨n + 1, hn⟩) (mA5 ⟨n + 1, hn⟩) (hA5 ⟨n + 1, hn⟩) (mB5 ⟨n + 1, hn⟩) (hB5 ⟨n + 1, hn⟩) (mC5 ⟨n + 1, hn⟩) (hC5 ⟨n + 1, hn⟩) (mO5 ⟨n + 1, hn⟩) (hO5 ⟨n + 1, hn⟩) mS5 (Memref.isWhole_whole _) (fun h => h0 ((zeroC5_iff ⟨n + 1, hn⟩).mp h)) (fun h => h1 ((flushC5_iff ⟨n + 1, hn⟩).mp h)) (iblk5 V c 0 ⟨n + 1, hn⟩) (iblk5 V c 1 ⟨n + 1, hn⟩) (iblk5 V c 2 ⟨n + 1, hn⟩) (outsAt5 c n (Nat.lt_of_succ_lt hn)).2)

/-- `outsAt5` at a point with `k = 0`. -/
theorem outsAt5_Z (c : Dev nD) (t : Fin cfg5.N) (h0 : t.val % 10 = 0) (h1 : ¬t.val % 10 = 9) :
    outsAt5 V c t.val t.isLt = (out5_Z_3 c (grid5.coords t) (mA5 t) (hA5 t) (mB5 t) (hB5 t) (mC5 t) (hC5 t) (mO5 t) (hO5 t) mS5 (Memref.isWhole_whole _) ((zeroC5_iff t).mpr h0) (fun h => h1 ((flushC5_iff t).mp h)) (iblk5 V c 0 t) (iblk5 V c 1 t) (iblk5 V c 2 t), acc5_Z c (grid5.coords t) (mA5 t) (hA5 t) (mB5 t) (hB5 t) (mC5 t) (hC5 t) (mO5 t) (hO5 t) mS5 (Memref.isWhole_whole _) ((zeroC5_iff t).mpr h0) (fun h => h1 ((flushC5_iff t).mp h)) (iblk5 V c 0 t) (iblk5 V c 1 t) (iblk5 V c 2 t)) := by
  obtain ⟨n, hn⟩ := t
  cases n with
  | zero => exact rfl
  | succ n => exact (dif_pos h0).trans ((dif_neg h1).trans rfl)

/-- `outsAt5` at a point with `0 < k < 9`: over what the point before left. -/
theorem outsAt5_M (c : Dev nD) (t : Fin cfg5.N) (h0 : ¬t.val % 10 = 0) (h1 : ¬t.val % 10 = 9) :
    outsAt5 V c t.val t.isLt = (out5_M_3 c (grid5.coords t) (mA5 t) (hA5 t) (mB5 t) (hB5 t) (mC5 t) (hC5 t) (mO5 t) (hO5 t) mS5 (Memref.isWhole_whole _) (fun h => h0 ((zeroC5_iff t).mp h)) (fun h => h1 ((flushC5_iff t).mp h)) (iblk5 V c 0 t) (iblk5 V c 1 t) (iblk5 V c 2 t) (outsAt5 V c (t.val - 1) (Nat.lt_of_le_of_lt (Nat.sub_le _ _) t.isLt)).2, acc5_M c (grid5.coords t) (mA5 t) (hA5 t) (mB5 t) (hB5 t) (mC5 t) (hC5 t) (mO5 t) (hO5 t) mS5 (Memref.isWhole_whole _) (fun h => h0 ((zeroC5_iff t).mp h)) (fun h => h1 ((flushC5_iff t).mp h)) (iblk5 V c 0 t) (iblk5 V c 1 t) (iblk5 V c 2 t) (outsAt5 V c (t.val - 1) (Nat.lt_of_le_of_lt (Nat.sub_le _ _) t.isLt)).2) := by
  obtain ⟨n, hn⟩ := t
  cases n with
  | zero => exact (by exfalso; (try dsimp only at h0); exact absurd (Nat.zero_mod _) h0)
  | succ n => exact (dif_neg h0).trans ((dif_neg h1).trans rfl)

/-- `outsAt5` at a point with `k = 9`: over what the point before left. -/
theorem outsAt5_L (c : Dev nD) (t : Fin cfg5.N) (h0 : ¬t.val % 10 = 0) (h1 : t.val % 10 = 9) :
    outsAt5 V c t.val t.isLt = (out5_L_3 c (grid5.coords t) (mA5 t) (hA5 t) (mB5 t) (hB5 t) (mC5 t) (hC5 t) (mO5 t) (hO5 t) mS5 (Memref.isWhole_whole _) (fun h => h0 ((zeroC5_iff t).mp h)) ((flushC5_iff t).mpr h1) (iblk5 V c 0 t) (iblk5 V c 1 t) (iblk5 V c 2 t) (outsAt5 V c (t.val - 1) (Nat.lt_of_le_of_lt (Nat.sub_le _ _) t.isLt)).2, acc5_L c (grid5.coords t) (mA5 t) (hA5 t) (mB5 t) (hB5 t) (mC5 t) (hC5 t) (mO5 t) (hO5 t) mS5 (Memref.isWhole_whole _) (fun h => h0 ((zeroC5_iff t).mp h)) ((flushC5_iff t).mpr h1) (iblk5 V c 0 t) (iblk5 V c 1 t) (iblk5 V c 2 t) (outsAt5 V c (t.val - 1) (Nat.lt_of_le_of_lt (Nat.sub_le _ _) t.isLt)).2) := by
  obtain ⟨n, hn⟩ := t
  cases n with
  | zero => exact (by exfalso; (try dsimp only at h0); exact absurd (Nat.zero_mod _) h0)
  | succ n => exact (dif_neg h0).trans ((dif_pos h1).trans rfl)

/-! ## The invariant -/

/-- The region invariant before position `n`: before the first point the class's (the accumulator at anything);
    afterwards the accumulator at what the point before left in it, the other scoped buffers and the generator
    register as ever. -/
def PhiS5 (c : Dev nD) : (n : ℕ) → n ≤ cfg5.N → sProp 𝕄
  | 0, _ => Pipeline.ΦA spec5 c
  | n + 1, hn => iprop(iprop(owns (c : Thread nD τ) mS5 fullShare ((outsAt5 V c n hn).2) ∗ rest5 (F := F) c) ∗ (∃ r, prngReg c r))

theorem PhiS5_zero (c : Dev nD) (n : ℕ) (h : n ≤ cfg5.N) (hz : n = 0) : PhiS5 V c n h = Pipeline.ΦA spec5 c := by
  subst hz; rfl

theorem PhiS5_succ (c : Dev nD) (n : ℕ) (hn : n < cfg5.N) :
    PhiS5 V c (n + 1) hn = iprop(iprop(owns (c : Thread nD τ) mS5 fullShare ((outsAt5 V c n hn).2) ∗ rest5 (F := F) c) ∗ (∃ r, prngReg c r)) := rfl

theorem PhiS5_pos (c : Dev nD) (n : ℕ) (h : n ≤ cfg5.N) (hz : n ≠ 0) :
    PhiS5 V c n h = iprop(iprop(owns (c : Thread nD τ) mS5 fullShare ((outsAt5 V c (n - 1) (by omega)).2) ∗ rest5 (F := F) c) ∗ (∃ r, prngReg c r)) := by
  cases n with
  | zero => exact absurd rfl hz
  | succ n => rfl

/-! ## The proof data -/

/-- The proof data of region 5's pipeline on core `c`: the arrays as the region finds them; after the body at point
    `t` each input's buffer at its block and the result's at `outsAt5`'s first component; the invariant `PhiS5`;
    nothing owed; full shares. -/
def dat5 (c : Dev nD) : Dat τ (Elt F) Unit ℕ (UR sig nD τ) ℕ cfg5 c where
  A w := V c (Pipeline.arrRef spec5 w)
  after w t := match w with
    | ⟨0, _⟩ => iblk5 V c 0 t
    | ⟨1, _⟩ => iblk5 V c 1 t
    | ⟨2, _⟩ => iblk5 V c 2 t
    | ⟨3, _⟩ => (outsAt5 V c t.val t.isLt).1
  Φ t := PhiS5 V c t.val (Nat.le_of_lt_succ t.isLt)
  q _ := fullShare
  owed _ := 0

/-- The proof data's arrays are the region-entry contents (the definition projected, `V` never unfolded). -/
theorem A_eq5 (c : Dev nD) (w : Fin cfg5.W) : (dat5 V c).A w = V c (Pipeline.arrRef spec5 w) := by
  dsimp only [dat5]

/-- The invariant at a point's start, restated at `t.val`. -/
theorem PhiS5_castSucc (c : Dev nD) (t : Fin cfg5.N) :
    (dat5 V c).Φ t.castSucc = PhiS5 V c t.val (Nat.le_of_lt t.isLt) := by
  dsimp only [dat5]; simp only [Fin.coe_castSucc]

/-- What the body leaves, window by window. -/
theorem after5_0 (c : Dev nD) (t : Fin cfg5.N) : (dat5 V c).after 0 t = iblk5 V c 0 t := by dsimp only [dat5]
theorem after5_1 (c : Dev nD) (t : Fin cfg5.N) : (dat5 V c).after 1 t = iblk5 V c 1 t := by dsimp only [dat5]
theorem after5_2 (c : Dev nD) (t : Fin cfg5.N) : (dat5 V c).after 2 t = iblk5 V c 2 t := by dsimp only [dat5]
theorem after5_3 (c : Dev nD) (t : Fin cfg5.N) : (dat5 V c).after 3 t = (outsAt5 V c t.val t.isLt).1 := by dsimp only [dat5]

/-- Each input's current staging buffer holds its block at every point. -/
theorem before5_0 (c : Dev nD) (t : Fin cfg5.N) (d) : (dat5 V c).before 0 t d = iblk5 V c 0 t :=
  before5_0_of V (dat5 V c) (A_eq5 V c 0) (after5_0 V c) t d
theorem before5_1 (c : Dev nD) (t : Fin cfg5.N) (d) : (dat5 V c).before 1 t d = iblk5 V c 1 t :=
  before5_1_of V (dat5 V c) (A_eq5 V c 1) (after5_1 V c) t d
theorem before5_2 (c : Dev nD) (t : Fin cfg5.N) (d) : (dat5 V c).before 2 t d = iblk5 V c 2 t :=
  before5_2_of V (dat5 V c) (A_eq5 V c 2) (after5_2 V c) t d

/-! ## The body obligation, at a generic point -/

/-- What the body is called with at point `t`, the windows one by one, -/
def bodyPre5 (c : Dev nD) (t : Fin cfg5.N) : sProp 𝕄 :=
  iprop((dat5 V c).Φ t.castSucc ∗ (dat5 V c).owesAt () t.castSucc
    ∗ (∃ d, owns (c : Thread nD τ) (mA5 t) fullShare ((dat5 V c).before 0 t d))
    ∗ (∃ d, owns (c : Thread nD τ) (mB5 t) fullShare ((dat5 V c).before 1 t d))
    ∗ (∃ d, owns (c : Thread nD τ) (mC5 t) fullShare ((dat5 V c).before 2 t d))
    ∗ (∃ d, owns (c : Thread nD τ) (mO5 t) fullShare ((dat5 V c).before 3 t d)))

/-- and what it returns. -/
def bodyPost5 (c : Dev nD) (t : Fin cfg5.N) : sProp 𝕄 :=
  iprop((dat5 V c).Φ t.succ ∗ (dat5 V c).owesAt () t.succ
    ∗ (dat5 V c).leavesExact 0 t
    ∗ (dat5 V c).leavesExact 1 t
    ∗ (dat5 V c).leavesExact 2 t
    ∗ (dat5 V c).leavesExact 3 t)

set_option maxHeartbeats 4800000 in
/-- The body at any point. The inputs' memrefs hold their blocks; the closed forms say which control case the point is
    in, and that case's run applies. The invariant hands the body the accumulator at what the point before left (at
    anything before the first point) and takes it back at this point's contents, its stores covering it; where the
    result window is idle its buffer goes back as found, and at `k = 9` its one store covers it. The other scoped
    buffers, the generator register and what the core owes pass through. -/
theorem sound_body5 (c : Dev nD) (t : Fin cfg5.N) :
    bodyPre5 V c t ⊢ wp frame (wpE (defs₀ (F := F)) Variants.none c none) Set.univ (bodyAt5 t) (fun _ => bodyPost5 V c t) := by
  unfold bodyPre5 bodyPost5 bodyAt5
  simp only [before5_0, before5_1, before5_2]
  rw [show (dat5 V c).owesAt () t.succ = (dat5 V c).owesAt () t.castSucc from rfl]
  rw [show (dat5 V c).Φ t.succ = PhiS5 V c (t.val + 1) t.isLt from rfl, PhiS5_succ]
  rw [show (dat5 V c).leavesExact 0 t = owns (c : Thread nD τ) (mA5 t) fullShare ((dat5 V c).after 0 t) from by
    unfold Dat.leavesExact; rw [live5_0 t], after5_0]
  rw [show (dat5 V c).leavesExact 1 t = owns (c : Thread nD τ) (mB5 t) fullShare ((dat5 V c).after 1 t) from by
    unfold Dat.leavesExact; rw [live5_1 t], after5_1]
  rw [show (dat5 V c).leavesExact 2 t = owns (c : Thread nD τ) (mC5 t) fullShare ((dat5 V c).after 2 t) from by
    unfold Dat.leavesExact; rw [live5_2 t], after5_2]
  have hN : t.val < 200 := lt_of_lt_of_eq t.isLt (show cfg5.N = 200 from N_5)
  by_cases h0 : t.val % 10 = 0
  · by_cases h1 : t.val % 10 = 9
    · exfalso; omega
    · rw [Dat.leavesExact_idle (dat5 V c) 3 t (idle5_3 t (fun h => h1 ((flushC5_iff t).mp h))) (noFlush5_3 t (fun h => h1 ((flushC5_iff t).mp h)))]
      rw [outsAt5_Z V c t h0 h1]
      unfold acc5_Z; (try dsimp only)
      by_cases hz : t.val = 0
      · rw [PhiS5_castSucc V c t, PhiS5_zero V c _ _ hz, PhiA5_eq]
        iintro ⟨⟨⟨HS, Hr⟩, Hg⟩, Ho, ⟨%d0, H0⟩, ⟨%d1, H1⟩, ⟨%d2, H2⟩, ⟨%d3, H3⟩⟩
        iapply ((runZero5 c (grid5.coords t) _ _ _ _ _ _ _ _ _ _ ((zeroC5_iff t).mpr h0) (fun h => h1 ((flushC5_iff t).mp h)) (iblk5 V c 0 t) (iblk5 V c 1 t) (iblk5 V c 2 t)).2.2 _ Set.univ _)
        isplitl [H0]; · iexact H0
        isplitl [H1]; · iexact H1
        isplitl [H2]; · iexact H2
        isplitl [H3]; · iexact H3
        isplitl [HS]; · iexact HS
        iintro ⟨H0, H1, H2, H3, ⟨%es, HS⟩⟩
        isplitl [HS Hr Hg]
        · isplitl [HS Hr]
          · isplitl [HS]
            · unfold owns; iexists _; isplitr
              swap; · iexact HS
              ipureintro; exact View.read_writes_of_cover _ _ _ _ _ (scover5_Z c _ _ _ _ _ _ _ _ _ _ _ _ _ _ _ _)
            iexact Hr
          iexact Hg
        isplitl [Ho]; · iexact Ho
        isplitl [H0]; · iexact H0
        isplitl [H1]; · iexact H1
        isplitl [H2]; · iexact H2
        iexists _; iexact H3
      · rw [PhiS5_castSucc V c t, PhiS5_pos V c _ _ hz]
        iintro ⟨⟨⟨HS, Hr⟩, Hg⟩, Ho, ⟨%d0, H0⟩, ⟨%d1, H1⟩, ⟨%d2, H2⟩, ⟨%d3, H3⟩⟩
        iapply ((runZero5 c (grid5.coords t) _ _ _ _ _ _ _ _ _ _ ((zeroC5_iff t).mpr h0) (fun h => h1 ((flushC5_iff t).mp h)) (iblk5 V c 0 t) (iblk5 V c 1 t) (iblk5 V c 2 t)).2.2 _ Set.univ _)
        isplitl [H0]; · iexact H0
        isplitl [H1]; · iexact H1
        isplitl [H2]; · iexact H2
        isplitl [H3]; · iexact H3
        isplitl [HS]; · iexists _; iexact HS
        iintro ⟨H0, H1, H2, H3, ⟨%es, HS⟩⟩
        isplitl [HS Hr Hg]
        · isplitl [HS Hr]
          · isplitl [HS]
            · unfold owns; iexists _; isplitr
              swap; · iexact HS
              ipureintro; exact View.read_writes_of_cover _ _ _ _ _ (scover5_Z c _ _ _ _ _ _ _ _ _ _ _ _ _ _ _ _)
            iexact Hr
          iexact Hg
        isplitl [Ho]; · iexact Ho
        isplitl [H0]; · iexact H0
        isplitl [H1]; · iexact H1
        isplitl [H2]; · iexact H2
        iexists _; iexact H3
  · have hz : t.val ≠ 0 := fun e => h0 (by rw [e])
    by_cases h1 : t.val % 10 = 9
    · rw [show (dat5 V c).leavesExact 3 t = owns (c : Thread nD τ) (mO5 t) fullShare ((dat5 V c).after 3 t) from by
        unfold Dat.leavesExact; rw [live5_3 t ((flushC5_iff t).mpr h1)], after5_3]
      rw [outsAt5_L V c t h0 h1]
      unfold out5_L_3 acc5_L; (try dsimp only)
      rw [PhiS5_castSucc V c t, PhiS5_pos V c _ _ hz]
      iintro ⟨⟨⟨HS, Hr⟩, Hg⟩, Ho, ⟨%d0, H0⟩, ⟨%d1, H1⟩, ⟨%d2, H2⟩, ⟨%d3, H3⟩⟩
      iapply ((runLast5 c (grid5.coords t) _ _ _ _ _ _ _ _ _ _ (fun h => h0 ((zeroC5_iff t).mp h)) ((flushC5_iff t).mpr h1) (iblk5 V c 0 t) (iblk5 V c 1 t) (iblk5 V c 2 t) _).2.2 Set.univ _)
      isplitl [H0]; · iexact H0
      isplitl [H1]; · iexact H1
      isplitl [H2]; · iexact H2
      isplitl [H3]; · iexists _; iexact H3
      isplitl [HS]; · iexact HS
      iintro ⟨H0, H1, H2, ⟨%e3, H3⟩, ⟨%es, HS⟩⟩
      isplitl [HS Hr Hg]
      · isplitl [HS Hr]
        · isplitl [HS]
          · unfold owns; iexists _; isplitr
            swap; · iexact HS
            ipureintro; exact View.read_writes_of_cover _ _ _ _ _ (scover5_L c _ _ _ _ _ _ _ _ _ _ _ _ _ _ _ _ _)
          iexact Hr
        iexact Hg
      isplitl [Ho]; · iexact Ho
      isplitl [H0]; · iexact H0
      isplitl [H1]; · iexact H1
      isplitl [H2]; · iexact H2
      unfold owns; iexists _; isplitr
      swap; · iexact H3
      ipureintro; exact View.read_writes_of_cover _ _ _ _ _ (cover5_L_3 c _ _ _ _ _ _ _ _ _ _ _ _ _ _ _ _ _)
    · rw [Dat.leavesExact_idle (dat5 V c) 3 t (idle5_3 t (fun h => h1 ((flushC5_iff t).mp h))) (noFlush5_3 t (fun h => h1 ((flushC5_iff t).mp h)))]
      rw [outsAt5_M V c t h0 h1]
      unfold acc5_M; (try dsimp only)
      rw [PhiS5_castSucc V c t, PhiS5_pos V c _ _ hz]
      iintro ⟨⟨⟨HS, Hr⟩, Hg⟩, Ho, ⟨%d0, H0⟩, ⟨%d1, H1⟩, ⟨%d2, H2⟩, ⟨%d3, H3⟩⟩
      iapply ((runMid5 c (grid5.coords t) _ _ _ _ _ _ _ _ _ _ (fun h => h0 ((zeroC5_iff t).mp h)) (fun h => h1 ((flushC5_iff t).mp h)) (iblk5 V c 0 t) (iblk5 V c 1 t) (iblk5 V c 2 t) _).2.2 _ Set.univ _)
      isplitl [H0]; · iexact H0
      isplitl [H1]; · iexact H1
      isplitl [H2]; · iexact H2
      isplitl [H3]; · iexact H3
      isplitl [HS]; · iexact HS
      iintro ⟨H0, H1, H2, H3, ⟨%es, HS⟩⟩
      isplitl [HS Hr Hg]
      · isplitl [HS Hr]
        · isplitl [HS]
          · unfold owns; iexists _; isplitr
            swap; · iexact HS
            ipureintro; exact View.read_writes_of_cover _ _ _ _ _ (scover5_M c _ _ _ _ _ _ _ _ _ _ _ _ _ _ _ _ _)
          iexact Hr
        iexact Hg
      isplitl [Ho]; · iexact Ho
      isplitl [H0]; · iexact H0
      isplitl [H1]; · iexact H1
      isplitl [H2]; · iexact H2
      iexists _; iexact H3

/-- The library's body obligation, at every point. -/
theorem body_obligation5 (c : Dev nD) : BodyObligation (dat5 (F := F) V c) (defs₀ (F := F)) Variants.none () Set.univ := fun t => by
  rw [bigSep_W5, bigSep_W5]
  exact sound_body5 V c t

/-- What the launch hands the region is the invariant before the first point. -/
theorem hin5 (c : Dev nD) : Pipeline.ΦA spec5 c ⊢ (dat5 V c).Φ 0 := by
  rw [show (dat5 V c).Φ 0 = PhiS5 V c 0 (Nat.zero_le _) from rfl, PhiS5_zero V c 0 _ rfl]
  try exact Idealize.SL.BI.Entails.refl _

/-- After any point the invariant gives the class's back: the accumulator's named contents are forgotten. -/
theorem Phi_out5 (c : Dev nD) (t : Fin (cfg5.N + 1)) (ht : t.val ≠ 0) : (dat5 V c).Φ t ⊢ Pipeline.ΦA spec5 c := by
  rw [show (dat5 V c).Φ t = PhiS5 V c t.val (Nat.le_of_lt_succ t.isLt) from rfl, PhiS5_pos V c _ _ ht, PhiA5_eq]
  iintro ⟨⟨HS, Hr⟩, Hg⟩
  isplitl [HS Hr]
  · isplitl [HS]
    · iexists _; iexact HS
    iexact Hr
  iexact Hg

/-- The same after the last point. -/
theorem hout5 (c : Dev nD) : (dat5 V c).Φ (Fin.last cfg5.N) ⊢ Pipeline.ΦA spec5 c :=
  Phi_out5 V c _ (by rw [Fin.val_last]; have : cfg5.N = 200 := N_5; omega)

end Entry

end Cert.Kernel.Rg

end
-- ==== Proof.KB.Reg6.lean ====
/- Stage-1 region 6 (custom_call 6): the per-region half of the frame argument, at the buffer
   contents `V` found when the region is entered. One row block of the left operand times the whole
   right operand, plus the bias row, written to the result's row block. -/
import proofs.«181230_j19834158973077_2_alg».proof.Proof.Gen.Kernel.Launch
import proofs.«181230_j19834158973077_2_alg».proof.Proof.Gen.Kernel.Skeleton
import proofs.«181230_j19834158973077_2_alg».proof.Proof.Gen.Kernel.Points
import Idealize.ShloMosaic.Lib.Pipeline.FrameBody
import Idealize.ShloMosaic.Lib.Ring
import Idealize.ShloMosaic.Lib.Tactic

-- membership in a rectangle of full extents recurses once per coordinate of the long axes
set_option maxRecDepth 16384

noncomputable section

namespace Cert.Kernel.Rg

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

-- the TensorCore's buffer contents when the region is entered
variable (V : (c : Dev nD) → (b : Ref sig .tc) → Buf (Elt F) ((c : Thread nD τ).loc b))

/-! ## The windows' blocks -/

/-- Window `w`'s block at point `t`, read off its array as the region finds it. -/
def iblk6 (c : Dev nD) (w : Fin cfg6.W) (t : Fin cfg6.N) : ((cfg6.win w).xblock (cfg6.grid.coords t)).Idx → Elt F (cfg6.win w).elt :=
  ((cfg6.win w).blk t).view.read (Elt F) (V c (Pipeline.arrRef spec6 w))

/-- Input window 0's current staging buffer holds its block at every point, fetched there or not: where it is
    not fetched the block index has not moved, and the body leaves the block in place. -/
theorem before6_0_of {c : Dev nD} (dat : Dat τ (Elt F) Unit ℕ (UR sig nD τ) ℕ cfg6 c) (hA : dat.A 0 = V c (Pipeline.arrRef spec6 0))
    (hafter : ∀ t, dat.after 0 t = iblk6 V c 0 t) (t : Fin cfg6.N) (d) : dat.before 0 t d = iblk6 V c 0 t :=
  (dat.before_in_eq_fetched 0 rfl (fun _ => rfl) (fun _ _ _ => rfl) (fun t => by rw [hafter]; unfold Dat.blockOf iblk6; rw [hA]; try rfl) t d).trans
    (by unfold Dat.fetched Dat.blockOf iblk6; rw [hA]; try rfl)

/-- Input window 1's current staging buffer holds its block at every point, fetched there or not: where it is
    not fetched the block index has not moved, and the body leaves the block in place. -/
theorem before6_1_of {c : Dev nD} (dat : Dat τ (Elt F) Unit ℕ (UR sig nD τ) ℕ cfg6 c) (hA : dat.A 1 = V c (Pipeline.arrRef spec6 1))
    (hafter : ∀ t, dat.after 1 t = iblk6 V c 1 t) (t : Fin cfg6.N) (d) : dat.before 1 t d = iblk6 V c 1 t :=
  (dat.before_in_eq_fetched 1 rfl (fun _ => rfl) (fun _ _ _ => rfl) (fun t => by rw [hafter]; unfold Dat.blockOf iblk6; rw [hA]; try rfl) t d).trans
    (by unfold Dat.fetched Dat.blockOf iblk6; rw [hA]; try rfl)

/-- Input window 2's current staging buffer holds its block at every point, fetched there or not: where it is
    not fetched the block index has not moved, and the body leaves the block in place. -/
theorem before6_2_of {c : Dev nD} (dat : Dat τ (Elt F) Unit ℕ (UR sig nD τ) ℕ cfg6 c) (hA : dat.A 2 = V c (Pipeline.arrRef spec6 2))
    (hafter : ∀ t, dat.after 2 t = iblk6 V c 2 t) (t : Fin cfg6.N) (d) : dat.before 2 t d = iblk6 V c 2 t :=
  (dat.before_in_eq_fetched 2 rfl (fun _ => rfl) (fun _ _ _ => rfl) (fun t => by rw [hafter]; unfold Dat.blockOf iblk6; rw [hA]; try rfl) t d).trans
    (by unfold Dat.fetched Dat.blockOf iblk6; rw [hA]; try rfl)

/-! ## The body's accesses: each staging buffer whole -/

abbrev r6_0 : Rect S1024x1024 := Rect.unit (s := S1024x1024) ![0, 0] S1024x1024.size inb_S1024x1024_S1024x1024_0_0
abbrev r6_1 : Rect S1024x1024 := Rect.unit (s := S1024x1024) ![0, 0] S1024x1024.size inb_S1024x1024_S1024x1024_0_0
abbrev r6_2 : Rect S1x1024 := Rect.unit (s := S1x1024) ![0, 0] S1x1024.size inb_S1x1024_S1x1024_0_0
abbrev r6_3 : Rect S1024x1024 := Rect.unit (s := S1024x1024) ![0, 0] S1024x1024.size inb_S1024x1024_S1024x1024_0_0

/-! ## What the body leaves in the result's buffer -/

/-- The result window's staging buffer after the body, from the three input blocks: its one whole-block store
    of the payload (product into a zero accumulator, plus the bias row, then the format change). -/
def out6_3 (x0 : Vec F S1024x1024 .bf16) (x1 : Vec F S1024x1024 .bf16) (x2 : Vec F S1x1024 .f32) : Vec F S1024x1024 .bf16 :=
  View.canon [⟨r6_3, k6_pay1 (View.ld x0 r6_0) (View.ld x1 r6_1) (View.ld x2 r6_2)⟩]

/-- The one store is the whole buffer, so it covers it. -/
theorem cover6_3 (p0 : Vec F S1024x1024 .bf16) (y : S1024x1024.Idx) :
    ∃ pc ∈ ([⟨r6_3, p0⟩] : List (View.Piece (Elt F) S1024x1024 .bf16)), y ∈ pc.1.set :=
  View.cover_of_tiled [⟨r6_3, p0⟩] S1024x1024.size (by rfl) y

/-! ## The body's triple -/

set_option maxHeartbeats 1000000 in
/-- The kernel body on whole staging memrefs, the inputs' at contents `x0 x1 x2` and the result's at anything, runs
    to the continuation holding the inputs' as they were and the result's at `out6_3` of the inputs'. -/
theorem sound_kernel6 (c : Dev nD) (E : Set ℕ) (i : grid6.Coords)
    (arg0 : Memref sig .tc .vmem S1024x1024 .bf16) (harg0 : arg0.IsWhole) (arg1 : Memref sig .tc .vmem S1024x1024 .bf16) (harg1 : arg1.IsWhole)
    (arg2 : Memref sig .tc .vmem S1x1024 .f32) (harg2 : arg2.IsWhole) (arg3 : Memref sig .tc .vmem S1024x1024 .bf16) (harg3 : arg3.IsWhole)
    (x0 : Vec F S1024x1024 .bf16) (x1 : Vec F S1024x1024 .bf16) (x2 : Vec F S1x1024 .f32) (K : PUnit → sProp 𝕄) :
    iprop(owns (c : Thread nD τ) arg0 fullShare x0 ∗ owns (c : Thread nD τ) arg1 fullShare x1 ∗ owns (c : Thread nD τ) arg2 fullShare x2
        ∗ (∃ d, owns (c : Thread nD τ) arg3 fullShare d)
        ∗ (iprop(owns (c : Thread nD τ) arg0 fullShare x0 ∗ owns (c : Thread nD τ) arg1 fullShare x1 ∗ owns (c : Thread nD τ) arg2 fullShare x2
            ∗ owns (c : Thread nD τ) arg3 fullShare (out6_3 x0 x1 x2)) -∗ K ⟨⟩))
      ⊢ wp frame (wpE (defs₀ (F := F)) Variants.none c none) E (cc6__stage1_kernel i arg0 harg0 arg1 harg1 arg2 harg2 arg3 harg3) K := by
  simp only [cc6__stage1_kernel_eq_skeleton]; unfold cc6__stage1_kernel_skel
  unfold owns
  iintro ⟨⟨%f0, %hf0, H0⟩, ⟨%f1, %hf1, H1⟩, ⟨%f2, %hf2, H2⟩, ⟨%d3, %f3, -, H3⟩, Hk⟩
  subst hf0 hf1 hf2
  sl_exec
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  iexists _; isplitr
  swap; · iexact H3
  ipureintro
  exact View.read_writes_eq_canon _ _ _ (cover6_3 _)

/-! ## The pipeline's proof data -/

/-- The proof data of pipeline 6 on core `c`: the arrays as the region finds them; after the body at point `t`
    each input's buffer at its block and the result's at `out6_3` of the input blocks; the invariant the scoped
    rest and the generator register, untouched; nothing owed; full shares. -/
def dat6 (c : Dev nD) : Dat τ (Elt F) Unit ℕ (UR sig nD τ) ℕ cfg6 c where
  A w := V c (Pipeline.arrRef spec6 w)
  after w t := match w with
    | ⟨0, _⟩ => iblk6 V c 0 t
    | ⟨1, _⟩ => iblk6 V c 1 t
    | ⟨2, _⟩ => iblk6 V c 2 t
    | ⟨3, _⟩ => out6_3 (iblk6 V c 0 t) (iblk6 V c 1 t) (iblk6 V c 2 t)
  Φ _ := Pipeline.ΦA spec6 c
  q _ := fullShare
  owed _ := 0

/-- The proof data's arrays are the region-entry contents. -/
theorem A_eq6 (c : Dev nD) (w : Fin cfg6.W) : (dat6 V c).A w = V c (Pipeline.arrRef spec6 w) := by
  dsimp only [dat6]

/-- What the body leaves, window by window. -/
theorem after6_0 (c : Dev nD) (t : Fin cfg6.N) : (dat6 V c).after 0 t = iblk6 V c 0 t := by dsimp only [dat6]
theorem after6_1 (c : Dev nD) (t : Fin cfg6.N) : (dat6 V c).after 1 t = iblk6 V c 1 t := by dsimp only [dat6]
theorem after6_2 (c : Dev nD) (t : Fin cfg6.N) : (dat6 V c).after 2 t = iblk6 V c 2 t := by dsimp only [dat6]
theorem after6_3 (c : Dev nD) (t : Fin cfg6.N) :
    (dat6 V c).after 3 t = out6_3 (iblk6 V c 0 t) (iblk6 V c 1 t) (iblk6 V c 2 t) := by dsimp only [dat6]

/-- Each input's current staging buffer holds its block at every point, fetched there or not. -/
theorem before6_0 (c : Dev nD) (t : Fin cfg6.N) (d) : (dat6 V c).before 0 t d = iblk6 V c 0 t :=
  before6_0_of V (dat6 V c) (A_eq6 V c 0) (after6_0 V c) t d
theorem before6_1 (c : Dev nD) (t : Fin cfg6.N) (d) : (dat6 V c).before 1 t d = iblk6 V c 1 t :=
  before6_1_of V (dat6 V c) (A_eq6 V c 1) (after6_1 V c) t d
theorem before6_2 (c : Dev nD) (t : Fin cfg6.N) (d) : (dat6 V c).before 2 t d = iblk6 V c 2 t :=
  before6_2_of V (dat6 V c) (A_eq6 V c 2) (after6_2 V c) t d

/-- The invariant is the class's at every point: entering and leaving the region are identities on it. -/
theorem hin6 (c : Dev nD) : (Pipeline.ΦA spec6 c : sProp 𝕄) ⊢ (dat6 V c).Φ 0 := by
  show (Pipeline.ΦA spec6 c : sProp 𝕄) ⊢ Pipeline.ΦA spec6 c
  exact .rfl
theorem hout6 (c : Dev nD) : (dat6 V c).Φ (Fin.last cfg6.N) ⊢ (Pipeline.ΦA spec6 c : sProp 𝕄) := by
  show (Pipeline.ΦA spec6 c : sProp 𝕄) ⊢ Pipeline.ΦA spec6 c
  exact .rfl

/-! ## The body obligation, at a generic point -/

/-- What the body is called with at point `t`, the windows one by one, -/
def bodyPre6 (c : Dev nD) (t : Fin cfg6.N) : sProp 𝕄 :=
  iprop((dat6 V c).Φ t.castSucc ∗ (dat6 V c).owesAt () t.castSucc
    ∗ (∃ d, owns (c : Thread nD τ) (st6_0 t) fullShare ((dat6 V c).before 0 t d))
    ∗ (∃ d, owns (c : Thread nD τ) (st6_1 t) fullShare ((dat6 V c).before 1 t d))
    ∗ (∃ d, owns (c : Thread nD τ) (st6_2 t) fullShare ((dat6 V c).before 2 t d))
    ∗ (∃ d, owns (c : Thread nD τ) (st6_3 t) fullShare ((dat6 V c).before 3 t d)))

/-- and what it returns. -/
def bodyPost6 (c : Dev nD) (t : Fin cfg6.N) : sProp 𝕄 :=
  iprop((dat6 V c).Φ t.succ ∗ (dat6 V c).owesAt () t.succ
    ∗ owns (c : Thread nD τ) (st6_0 t) fullShare ((dat6 V c).after 0 t)
    ∗ owns (c : Thread nD τ) (st6_1 t) fullShare ((dat6 V c).after 1 t)
    ∗ owns (c : Thread nD τ) (st6_2 t) fullShare ((dat6 V c).after 2 t)
    ∗ owns (c : Thread nD τ) (st6_3 t) fullShare ((dat6 V c).after 3 t))

/-- The body at any point: the inputs' memrefs hold their blocks, so the body's triple applies; the invariant and
    the core's debts pass through unread. -/
theorem sound_body6 (c : Dev nD) (t : Fin cfg6.N) :
    bodyPre6 V c t ⊢ wp frame (wpE (defs₀ (F := F)) Variants.none c none) Set.univ (bodyAt6 t) (fun _ => bodyPost6 V c t) := by
  unfold bodyPre6 bodyPost6 bodyAt6
  simp only [before6_0, before6_1, before6_2]
  rw [show (dat6 V c).Φ t.succ = (dat6 V c).Φ t.castSucc from rfl,
    show (dat6 V c).owesAt () t.succ = (dat6 V c).owesAt () t.castSucc from rfl,
    after6_0, after6_1, after6_2, after6_3]
  iintro ⟨HΦ, Ho, ⟨%d0, H0⟩, ⟨%d1, H1⟩, ⟨%d2, H2⟩, ⟨%d3, H3⟩⟩
  iapply (sound_kernel6 c Set.univ _ _ _ _ _ _ _ _ _ (iblk6 V c 0 t) (iblk6 V c 1 t) (iblk6 V c 2 t) _)
  isplitl [H0]; · iexact H0
  isplitl [H1]; · iexact H1
  isplitl [H2]; · iexact H2
  isplitl [H3]; · iexists _; iexact H3
  iintro ⟨H0, H1, H2, H3⟩
  isplitl [HΦ]; · iexact HΦ
  isplitl [Ho]; · iexact Ho
  isplitl [H0]; · iexact H0
  isplitl [H1]; · iexact H1
  isplitl [H2]; · iexact H2
  iexact H3

/-- The library's body obligation, at every point. -/
theorem body_obligation6 (c : Dev nD) : BodyObligation (dat6 (F := F) V c) (defs₀ (F := F)) Variants.none () Set.univ := fun t => by
  rw [bigSep_W6, bigSep_W6]
  exact sound_body6 V c t

end Cert.Kernel.Rg
-- ==== Proof.KB.Reg7.lean ====
/- REGION 7: the adjacency product with a carried accumulator (grid 20 × 10, the reduction step `k = t % 10`). The f32
   accumulator [512x1024] is zeroed when `k = 0`, takes the product of the left operand's block with the right operand's
   rows `k*1024 … k*1024+1023` at every point, and when `k = 9` is read back, the bias row added, the positive part taken, the sum converted to the result's format and stored whole into the
   result's block. Stated at a parameter `V`, the TensorCore's buffer contents when the region is entered: the proof
   data `dat7`, its body obligation, and the invariant's two ends `hin7` / `hout7`; `out7_L_3` / `outsAt7` name what
   the result window holds. -/
import proofs.«181230_j19834158973077_2_alg».proof.Proof.Gen.Kernel.Launch
import proofs.«181230_j19834158973077_2_alg».proof.Proof.Gen.Kernel.Skeleton
import proofs.«181230_j19834158973077_2_alg».proof.Proof.Gen.Kernel.Points
import Idealize.ShloMosaic.Lib.Pipeline.FrameBody
import Idealize.ShloMosaic.Lib.Ring
import Idealize.ShloMosaic.Lib.Tactic

-- membership in a rectangle of full extents recurses once per coordinate of the long axes
set_option maxRecDepth 16384

noncomputable section

namespace Cert.Kernel.Rg

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

/-! # Part 1: the conditionals over the grid, the memrefs, the invariant's split, the blocks -/

/-! ## The body's two conditionals, over the grid

A grid point `t` has coordinates `(m, k)` with `k = t % 10` the reduction step. The accumulator is zeroed when
`k = 0`; the result block is written when `k = 9`. -/

/-- The first conditional's condition (`k = 0`), with the scalar chain that computes it substituted. -/
abbrev zeroC7 (i : grid7.Coords) : Prop :=
  (Scalar.cmpi .ne (Scalar.extui (Scalar.cmpi .eq (BitVec.ofNat 32 (i 1).val) 0#32)) 0#32) = 1#1
/-- It holds exactly at the points ≡ 0 (mod 10): decided over the 200 points. -/
theorem zeroC7_iff : ∀ t : Fin cfg7.N, zeroC7 (grid7.coords t) ↔ t.val % 10 = 0 :=
  (by decide +kernel : ∀ t : Fin grid7.N, zeroC7 (grid7.coords t) ↔ t.val % 10 = 0)

/-- The second conditional's condition (`k = 9`). -/
abbrev flushC7 (i : grid7.Coords) : Prop := k7_cond2 i = 1#1
/-- It holds exactly at the points ≡ 9 (mod 10). -/
theorem flushC7_iff : ∀ t : Fin cfg7.N, flushC7 (grid7.coords t) ↔ t.val % 10 = 9 :=
  (by decide +kernel : ∀ t : Fin grid7.N, flushC7 (grid7.coords t) ↔ t.val % 10 = 9)

/-! ## Where the windows are idle -/

/-- The three input windows are never idle. -/
theorem live7_0 : ∀ t : Fin cfg7.N, cfg7.idle 0 (grid7.coords t) = false := by decide +kernel
theorem live7_1 : ∀ t : Fin cfg7.N, cfg7.idle 1 (grid7.coords t) = false := by decide +kernel
theorem live7_2 : ∀ t : Fin cfg7.N, cfg7.idle 2 (grid7.coords t) = false := by decide +kernel
/-- Away from `k = 9` the result window is idle (the body stores nothing into it) -/
theorem idle7_3 : ∀ t : Fin cfg7.N, ¬flushC7 (grid7.coords t) → cfg7.idle 3 (grid7.coords t) = true := by decide +kernel
/-- and its block is not written back; -/
theorem noFlush7_3 : ∀ t : Fin cfg7.N, ¬flushC7 (grid7.coords t) → (cfg7.win 3).flush t = false := by decide +kernel
/-- at `k = 9` it is live. -/
theorem live7_3 : ∀ t : Fin cfg7.N, flushC7 (grid7.coords t) → cfg7.idle 3 (grid7.coords t) = false := by decide +kernel

/-! ## The memrefs the body is called with -/

/-- Each window's current staging memref at point `t`, and that it is a whole buffer: the left operand's block, -/
abbrev mA7 (t : Fin cfg7.N) : Memref sig .tc .vmem S512x1024 .bf16 := win7_0.stage (cfg7.slots t 0)
abbrev hA7 (t : Fin cfg7.N) : (mA7 t).IsWhole := hstage7_0 ((cfg7.slots t 0).cast nbuf7_0)
/-- the right operand, resident whole, -/
abbrev mB7 (t : Fin cfg7.N) : Memref sig .tc .vmem S10240x1024 .bf16 := win7_1.stage (cfg7.slots t 1)
abbrev hB7 (t : Fin cfg7.N) : (mB7 t).IsWhole := hstage7_1 ((cfg7.slots t 1).cast nbuf7_1)
/-- the bias row, -/
abbrev mC7 (t : Fin cfg7.N) : Memref sig .tc .vmem S1x1024 .f32 := win7_2.stage (cfg7.slots t 2)
abbrev hC7 (t : Fin cfg7.N) : (mC7 t).IsWhole := hstage7_2 ((cfg7.slots t 2).cast nbuf7_2)
/-- the result's block. -/
abbrev mO7 (t : Fin cfg7.N) : Memref sig .tc .vmem S512x1024 .bf16 := win7_3.stage (cfg7.slots t 3)
abbrev hO7 (t : Fin cfg7.N) : (mO7 t).IsWhole := hstage7_3 ((cfg7.slots t 3).cast nbuf7_3)
/-- The accumulator: a whole scoped buffer of the kernel's own, passed beside the windows and carried from point to point. -/
abbrev mS7 : Memref sig .tc .vmem S512x1024 .f32 := Memref.whole cc7_scratch0
/-- The views through which the result buffer's and the accumulator's contents are stated (one of the result's two
    staging buffers: for a covering list of stores the choice does not matter). -/
abbrev vO7 : View sig .tc .vmem S512x1024 .bf16 := (Memref.whole cc7_stg3_0 : Memref sig .tc .vmem S512x1024 .bf16).view
abbrev vS7 : View sig .tc .vmem S512x1024 .f32 := mS7.view

/-! ## The region invariant, with the accumulator split off -/

/-- Every other scoped buffer of the core that is no staging buffer of this region: carried unopened. -/
abbrev rest7 (c : Dev nD) : sProp 𝕄 :=
  Pipeline.scopedRestBut (Ix := Unit) (Name := ℕ) (U := UR sig nD τ) (Lvl := ℕ) (Val := Elt F) spec7 c [cc7_scratch0]

/-- The class's invariant is: the accumulator owned at some contents, the other scoped buffers, the generator
    register at some state. -/
theorem PhiA7_eq (c : Dev nD) :
    (Pipeline.ΦA spec7 c : sProp 𝕄)
      = iprop(iprop((∃ d, owns (c : Thread nD τ) mS7 fullShare d) ∗ rest7 (F := F) c) ∗ (∃ r, prngReg c r)) := by
  unfold Pipeline.ΦA; rw [scopedRest7_split]; simp only [mS7, owns_whole]; try rfl

section Entry
variable (V : (c : Dev nD) → (b : Ref sig .tc) → Buf (Elt F) ((c : Thread nD τ).loc b))

/-! ## The windows' blocks -/

/-- Window `w`'s block at point `t`, read off its array as the region finds it. -/
def iblk7 (c : Dev nD) (w : Fin cfg7.W) (t : Fin cfg7.N) : ((cfg7.win w).xblock (cfg7.grid.coords t)).Idx → Elt F (cfg7.win w).elt :=
  ((cfg7.win w).blk t).view.read (Elt F) (V c (Pipeline.arrRef spec7 w))

/-- An input window's current staging buffer holds its block at every point, fetched there or not (where it is not
    fetched its block index has not moved), for any proof data whose array is `V`'s and whose body leaves the block
    in place. -/
theorem before7_0_of {c : Dev nD} (dat : Dat τ (Elt F) Unit ℕ (UR sig nD τ) ℕ cfg7 c) (hA : dat.A 0 = V c (Pipeline.arrRef spec7 0))
    (hafter : ∀ t, dat.after 0 t = iblk7 V c 0 t) (t : Fin cfg7.N) (d) : dat.before 0 t d = iblk7 V c 0 t :=
  (dat.before_in_eq_fetched 0 rfl (fun _ => rfl) (fun _ _ _ => rfl) (fun t => by rw [hafter]; unfold Dat.blockOf iblk7; rw [hA]; try rfl) t d).trans
    (by unfold Dat.fetched Dat.blockOf iblk7; rw [hA]; try rfl)
theorem before7_1_of {c : Dev nD} (dat : Dat τ (Elt F) Unit ℕ (UR sig nD τ) ℕ cfg7 c) (hA : dat.A 1 = V c (Pipeline.arrRef spec7 1))
    (hafter : ∀ t, dat.after 1 t = iblk7 V c 1 t) (t : Fin cfg7.N) (d) : dat.before 1 t d = iblk7 V c 1 t :=
  (dat.before_in_eq_fetched 1 rfl (fun _ => rfl) (fun _ _ _ => rfl) (fun t => by rw [hafter]; unfold Dat.blockOf iblk7; rw [hA]; try rfl) t d).trans
    (by unfold Dat.fetched Dat.blockOf iblk7; rw [hA]; try rfl)
theorem before7_2_of {c : Dev nD} (dat : Dat τ (Elt F) Unit ℕ (UR sig nD τ) ℕ cfg7 c) (hA : dat.A 2 = V c (Pipeline.arrRef spec7 2))
    (hafter : ∀ t, dat.after 2 t = iblk7 V c 2 t) (t : Fin cfg7.N) (d) : dat.before 2 t d = iblk7 V c 2 t :=
  (dat.before_in_eq_fetched 2 rfl (fun _ => rfl) (fun _ _ _ => rfl) (fun t => by rw [hafter]; unfold Dat.blockOf iblk7; rw [hA]; try rfl) t d).trans
    (by unfold Dat.fetched Dat.blockOf iblk7; rw [hA]; try rfl)

end Entry

/-! # Part 2: the body's run in each of the three control cases -/
/-! ### The control case `k = 0`: the accumulator is stored whole with zeros, then read back, the block product added and the sum stored
   whole again; the result buffer is not touched. -/

-- (the run's proof term is large: the definition's epilogue walks it past the default budget)
set_option maxHeartbeats 1000000 in
/-- The lists of stores, last first, that the body leaves in the result buffer (`L3`) and in the accumulator (`LS`) in
    this case, TOGETHER WITH the proof that on whole memrefs — the three inputs at contents `x0 x1 x2`, the result
    buffer at contents `xi3` handed back as found, the accumulator at anything — the body runs to a
    continuation that holds the inputs as they were, the result buffer as it was and the accumulator with
    `LS` written. The two lists are found by running the body's memory operations in order over named payloads; each
    conditional is decided by the case's hypotheses. -/
noncomputable def runZero7 (c : Dev nD) (i : grid7.Coords) (arg2 : Memref sig .tc .vmem S512x1024 .bf16) (harg2 : arg2.IsWhole) (arg3 : Memref sig .tc .vmem S10240x1024 .bf16) (harg3 : arg3.IsWhole) (arg4 : Memref sig .tc .vmem S1x1024 .f32) (harg4 : arg4.IsWhole) (arg5 : Memref sig .tc .vmem S512x1024 .bf16) (harg5 : arg5.IsWhole) (arg6 : Memref sig .tc .vmem S512x1024 .f32) (harg6 : arg6.IsWhole) (hc0 : zeroC7 i) (hc1 : ¬flushC7 i)
    (x0 : Vec F S512x1024 .bf16) (x1 : Vec F S10240x1024 .bf16) (x2 : Vec F S1x1024 .f32) :
    Σ' (L3 : List (View.Piece (Elt F) S512x1024 .bf16)), { LS : List (View.Piece (Elt F) S512x1024 .f32) //
      ∀ (xi3 : Vec F S512x1024 .bf16) (E : Set ℕ) (K : PUnit → sProp 𝕄),
        iprop(owns (c : Thread nD τ) arg2 fullShare x0 ∗ owns (c : Thread nD τ) arg3 fullShare x1 ∗ owns (c : Thread nD τ) arg4 fullShare x2 ∗ owns (c : Thread nD τ) arg5 fullShare xi3 ∗ (∃ d, owns (c : Thread nD τ) arg6 fullShare d)
            ∗ (iprop(owns (c : Thread nD τ) arg2 fullShare x0 ∗ owns (c : Thread nD τ) arg3 fullShare x1 ∗ owns (c : Thread nD τ) arg4 fullShare x2 ∗ owns (c : Thread nD τ) arg5 fullShare xi3 ∗ (∃ f, arg6.view.loc (c : Thread nD τ) ↦[arg6.view.set]{fullShare} arg6.view.writes (Elt F) f LS)) -∗ K ⟨⟩))
          ⊢ wp frame (wpE (defs₀ (F := F)) Variants.none c none) E (cc7__stage2_kernel i arg2 harg2 arg3 harg3 arg4 harg4 arg5 harg5 arg6 harg6) K } := by
  refine ⟨[], ?_, fun xi3 E K => ?run⟩
  case run =>
    simp only [cc7__stage2_kernel_eq_skeleton]; unfold cc7__stage2_kernel_skel
    unfold owns
    iintro ⟨⟨%f0, %hf0, H0⟩, ⟨%f1, %hf1, H1⟩, ⟨%f2, %hf2, H2⟩, ⟨%f3, %hf3, H3⟩, ⟨%ds, %fs, -, HS⟩, Hk⟩
    obtain rfl := harg2.eq_unread hf0; obtain rfl := harg3.eq_unread hf1; obtain rfl := harg4.eq_unread hf2; obtain rfl := harg5.eq_unread hf3
    sl_exec (disch := first | exact hc0 | exact hc1)
    sl_step
    iapply Hk
    isplitl [H0]
    · iexists _; isplitr; · ipureintro; exact harg2.read_unread _
      iexact H0
    isplitl [H1]
    · iexists _; isplitr; · ipureintro; exact harg3.read_unread _
      iexact H1
    isplitl [H2]
    · iexists _; isplitr; · ipureintro; exact harg4.read_unread _
      iexact H2
    isplitl [H3]
    · iexists _; isplitr; · ipureintro; exact harg5.read_unread _
      iexact H3
    iexists _; iexact HS

/-! ### The control case `0 < k < 9`: the accumulator is read, the block product added and the sum stored whole; the result
   buffer is not touched. -/

-- (the run's proof term is large: the definition's epilogue walks it past the default budget)
set_option maxHeartbeats 1000000 in
/-- The lists of stores, last first, that the body leaves in the result buffer (`L3`) and in the accumulator (`LS`) in
    this case, TOGETHER WITH the proof that on whole memrefs — the three inputs at contents `x0 x1 x2`, the result
    buffer at contents `xi3` handed back as found, the accumulator at the contents `xs` the point before left — the body runs to a
    continuation that holds the inputs as they were, the result buffer as it was and the accumulator with
    `LS` written. The two lists are found by running the body's memory operations in order over named payloads; each
    conditional is decided by the case's hypotheses. -/
noncomputable def runMid7 (c : Dev nD) (i : grid7.Coords) (arg2 : Memref sig .tc .vmem S512x1024 .bf16) (harg2 : arg2.IsWhole) (arg3 : Memref sig .tc .vmem S10240x1024 .bf16) (harg3 : arg3.IsWhole) (arg4 : Memref sig .tc .vmem S1x1024 .f32) (harg4 : arg4.IsWhole) (arg5 : Memref sig .tc .vmem S512x1024 .bf16) (harg5 : arg5.IsWhole) (arg6 : Memref sig .tc .vmem S512x1024 .f32) (harg6 : arg6.IsWhole) (hc0 : ¬zeroC7 i) (hc1 : ¬flushC7 i)
    (x0 : Vec F S512x1024 .bf16) (x1 : Vec F S10240x1024 .bf16) (x2 : Vec F S1x1024 .f32) (xs : Vec F S512x1024 .f32) :
    Σ' (L3 : List (View.Piece (Elt F) S512x1024 .bf16)), { LS : List (View.Piece (Elt F) S512x1024 .f32) //
      ∀ (xi3 : Vec F S512x1024 .bf16) (E : Set ℕ) (K : PUnit → sProp 𝕄),
        iprop(owns (c : Thread nD τ) arg2 fullShare x0 ∗ owns (c : Thread nD τ) arg3 fullShare x1 ∗ owns (c : Thread nD τ) arg4 fullShare x2 ∗ owns (c : Thread nD τ) arg5 fullShare xi3 ∗ owns (c : Thread nD τ) arg6 fullShare xs
            ∗ (iprop(owns (c : Thread nD τ) arg2 fullShare x0 ∗ owns (c : Thread nD τ) arg3 fullShare x1 ∗ owns (c : Thread nD τ) arg4 fullShare x2 ∗ owns (c : Thread nD τ) arg5 fullShare xi3 ∗ (∃ f, arg6.view.loc (c : Thread nD τ) ↦[arg6.view.set]{fullShare} arg6.view.writes (Elt F) f LS)) -∗ K ⟨⟩))
          ⊢ wp frame (wpE (defs₀ (F := F)) Variants.none c none) E (cc7__stage2_kernel i arg2 harg2 arg3 harg3 arg4 harg4 arg5 harg5 arg6 harg6) K } := by
  refine ⟨[], ?_, fun xi3 E K => ?run⟩
  case run =>
    simp only [cc7__stage2_kernel_eq_skeleton]; unfold cc7__stage2_kernel_skel
    unfold owns
    iintro ⟨⟨%f0, %hf0, H0⟩, ⟨%f1, %hf1, H1⟩, ⟨%f2, %hf2, H2⟩, ⟨%f3, %hf3, H3⟩, ⟨%fs, %hfs, HS⟩, Hk⟩
    obtain rfl := harg2.eq_unread hf0; obtain rfl := harg3.eq_unread hf1; obtain rfl := harg4.eq_unread hf2; obtain rfl := harg5.eq_unread hf3; obtain rfl := harg6.eq_unread hfs
    sl_exec (disch := first | exact hc0 | exact hc1)
    sl_step
    iapply Hk
    isplitl [H0]
    · iexists _; isplitr; · ipureintro; exact harg2.read_unread _
      iexact H0
    isplitl [H1]
    · iexists _; isplitr; · ipureintro; exact harg3.read_unread _
      iexact H1
    isplitl [H2]
    · iexists _; isplitr; · ipureintro; exact harg4.read_unread _
      iexact H2
    isplitl [H3]
    · iexists _; isplitr; · ipureintro; exact harg5.read_unread _
      iexact H3
    iexists _; iexact HS

/-! ### The control case `k = 9`: the accumulator is read, the block product added and the sum stored whole; then the accumulator
   is read back, the bias row added, the sum converted to the result's format and stored whole into the result buffer. -/

-- (the run's proof term is large: the definition's epilogue walks it past the default budget)
set_option maxHeartbeats 1000000 in
/-- The lists of stores, last first, that the body leaves in the result buffer (`L3`) and in the accumulator (`LS`) in
    this case, TOGETHER WITH the proof that on whole memrefs — the three inputs at contents `x0 x1 x2`, the result buffer at anything, the accumulator at the contents `xs` the point before left — the body runs to a
    continuation that holds the inputs as they were, the result buffer with `L3` written and the accumulator with
    `LS` written. The two lists are found by running the body's memory operations in order over named payloads; each
    conditional is decided by the case's hypotheses. -/
noncomputable def runLast7 (c : Dev nD) (i : grid7.Coords) (arg2 : Memref sig .tc .vmem S512x1024 .bf16) (harg2 : arg2.IsWhole) (arg3 : Memref sig .tc .vmem S10240x1024 .bf16) (harg3 : arg3.IsWhole) (arg4 : Memref sig .tc .vmem S1x1024 .f32) (harg4 : arg4.IsWhole) (arg5 : Memref sig .tc .vmem S512x1024 .bf16) (harg5 : arg5.IsWhole) (arg6 : Memref sig .tc .vmem S512x1024 .f32) (harg6 : arg6.IsWhole) (hc0 : ¬zeroC7 i) (hc1 : flushC7 i)
    (x0 : Vec F S512x1024 .bf16) (x1 : Vec F S10240x1024 .bf16) (x2 : Vec F S1x1024 .f32) (xs : Vec F S512x1024 .f32) :
    Σ' (L3 : List (View.Piece (Elt F) S512x1024 .bf16)), { LS : List (View.Piece (Elt F) S512x1024 .f32) //
      ∀ (E : Set ℕ) (K : PUnit → sProp 𝕄),
        iprop(owns (c : Thread nD τ) arg2 fullShare x0 ∗ owns (c : Thread nD τ) arg3 fullShare x1 ∗ owns (c : Thread nD τ) arg4 fullShare x2 ∗ (∃ d, owns (c : Thread nD τ) arg5 fullShare d) ∗ owns (c : Thread nD τ) arg6 fullShare xs
            ∗ (iprop(owns (c : Thread nD τ) arg2 fullShare x0 ∗ owns (c : Thread nD τ) arg3 fullShare x1 ∗ owns (c : Thread nD τ) arg4 fullShare x2 ∗ (∃ f, arg5.view.loc (c : Thread nD τ) ↦[arg5.view.set]{fullShare} arg5.view.writes (Elt F) f L3) ∗ (∃ f, arg6.view.loc (c : Thread nD τ) ↦[arg6.view.set]{fullShare} arg6.view.writes (Elt F) f LS)) -∗ K ⟨⟩))
          ⊢ wp frame (wpE (defs₀ (F := F)) Variants.none c none) E (cc7__stage2_kernel i arg2 harg2 arg3 harg3 arg4 harg4 arg5 harg5 arg6 harg6) K } := by
  refine ⟨?_, ?_, fun E K => ?run⟩
  case run =>
    simp only [cc7__stage2_kernel_eq_skeleton]; unfold cc7__stage2_kernel_skel
    unfold owns
    iintro ⟨⟨%f0, %hf0, H0⟩, ⟨%f1, %hf1, H1⟩, ⟨%f2, %hf2, H2⟩, ⟨%d3, %f3, -, H3⟩, ⟨%fs, %hfs, HS⟩, Hk⟩
    obtain rfl := harg2.eq_unread hf0; obtain rfl := harg3.eq_unread hf1; obtain rfl := harg4.eq_unread hf2; obtain rfl := harg6.eq_unread hfs
    sl_exec (disch := first | exact hc0 | exact hc1)
    sl_step
    iapply Hk
    isplitl [H0]
    · iexists _; isplitr; · ipureintro; exact harg2.read_unread _
      iexact H0
    isplitl [H1]
    · iexists _; isplitr; · ipureintro; exact harg3.read_unread _
      iexact H1
    isplitl [H2]
    · iexists _; isplitr; · ipureintro; exact harg4.read_unread _
      iexact H2
    isplitl [H3]; · iexists _; iexact H3
    iexists _; iexact HS

/-! # Part 3: what each case leaves, point by point; the proof data; the body obligation; the invariant's ends -/

/-! ## What each case leaves

In the cases `k = 0` and `0 < k < 9` nothing is stored into the result buffer: its "contents" below is a placeholder
(no stores read back over junk) that nothing consults, the window being idle and not written back at those points. -/

def out7_Z_3 (c : Dev nD) (i : grid7.Coords) (arg2 : Memref sig .tc .vmem S512x1024 .bf16) (harg2 : arg2.IsWhole) (arg3 : Memref sig .tc .vmem S10240x1024 .bf16) (harg3 : arg3.IsWhole) (arg4 : Memref sig .tc .vmem S1x1024 .f32) (harg4 : arg4.IsWhole) (arg5 : Memref sig .tc .vmem S512x1024 .bf16) (harg5 : arg5.IsWhole) (arg6 : Memref sig .tc .vmem S512x1024 .f32) (harg6 : arg6.IsWhole) (hc0 : zeroC7 i) (hc1 : ¬flushC7 i)
    (x0 : Vec F S512x1024 .bf16) (x1 : Vec F S10240x1024 .bf16) (x2 : Vec F S1x1024 .f32) : Vec F S512x1024 .bf16 :=
  vO7.read (Elt F) (vO7.writes (Elt F) vO7.junk (runZero7 c i arg2 harg2 arg3 harg3 arg4 harg4 arg5 harg5 arg6 harg6 hc0 hc1 x0 x1 x2).1)

/-- At `k = 0` the accumulator's stores (the zero fill, then the first partial sum) cover it. -/
theorem scover7_Z (c : Dev nD) (i : grid7.Coords) (arg2 : Memref sig .tc .vmem S512x1024 .bf16) (harg2 : arg2.IsWhole) (arg3 : Memref sig .tc .vmem S10240x1024 .bf16) (harg3 : arg3.IsWhole) (arg4 : Memref sig .tc .vmem S1x1024 .f32) (harg4 : arg4.IsWhole) (arg5 : Memref sig .tc .vmem S512x1024 .bf16) (harg5 : arg5.IsWhole) (arg6 : Memref sig .tc .vmem S512x1024 .f32) (harg6 : arg6.IsWhole) (hc0 : zeroC7 i) (hc1 : ¬flushC7 i)
    (x0 : Vec F S512x1024 .bf16) (x1 : Vec F S10240x1024 .bf16) (x2 : Vec F S1x1024 .f32) (y : S512x1024.Idx) :
    ∃ pc ∈ (runZero7 c i arg2 harg2 arg3 harg3 arg4 harg4 arg5 harg5 arg6 harg6 hc0 hc1 x0 x1 x2).2.1, y ∈ pc.1.set :=
  View.cover_of_tiledL (runZero7 c i arg2 harg2 arg3 harg3 arg4 harg4 arg5 harg5 arg6 harg6 hc0 hc1 x0 x1 x2).2.1 S512x1024.size (by sl_kernel_rfl) y

/-- What the case `k = 0` leaves in the accumulator: its stores read back. -/
def acc7_Z (c : Dev nD) (i : grid7.Coords) (arg2 : Memref sig .tc .vmem S512x1024 .bf16) (harg2 : arg2.IsWhole) (arg3 : Memref sig .tc .vmem S10240x1024 .bf16) (harg3 : arg3.IsWhole) (arg4 : Memref sig .tc .vmem S1x1024 .f32) (harg4 : arg4.IsWhole) (arg5 : Memref sig .tc .vmem S512x1024 .bf16) (harg5 : arg5.IsWhole) (arg6 : Memref sig .tc .vmem S512x1024 .f32) (harg6 : arg6.IsWhole) (hc0 : zeroC7 i) (hc1 : ¬flushC7 i)
    (x0 : Vec F S512x1024 .bf16) (x1 : Vec F S10240x1024 .bf16) (x2 : Vec F S1x1024 .f32) : Vec F S512x1024 .f32 :=
  vS7.read (Elt F) (vS7.writes (Elt F) vS7.junk (runZero7 c i arg2 harg2 arg3 harg3 arg4 harg4 arg5 harg5 arg6 harg6 hc0 hc1 x0 x1 x2).2.1)

def out7_M_3 (c : Dev nD) (i : grid7.Coords) (arg2 : Memref sig .tc .vmem S512x1024 .bf16) (harg2 : arg2.IsWhole) (arg3 : Memref sig .tc .vmem S10240x1024 .bf16) (harg3 : arg3.IsWhole) (arg4 : Memref sig .tc .vmem S1x1024 .f32) (harg4 : arg4.IsWhole) (arg5 : Memref sig .tc .vmem S512x1024 .bf16) (harg5 : arg5.IsWhole) (arg6 : Memref sig .tc .vmem S512x1024 .f32) (harg6 : arg6.IsWhole) (hc0 : ¬zeroC7 i) (hc1 : ¬flushC7 i)
    (x0 : Vec F S512x1024 .bf16) (x1 : Vec F S10240x1024 .bf16) (x2 : Vec F S1x1024 .f32) (xs : Vec F S512x1024 .f32) : Vec F S512x1024 .bf16 :=
  vO7.read (Elt F) (vO7.writes (Elt F) vO7.junk (runMid7 c i arg2 harg2 arg3 harg3 arg4 harg4 arg5 harg5 arg6 harg6 hc0 hc1 x0 x1 x2 xs).1)

/-- For `0 < k < 9` the accumulator's one store covers it. -/
theorem scover7_M (c : Dev nD) (i : grid7.Coords) (arg2 : Memref sig .tc .vmem S512x1024 .bf16) (harg2 : arg2.IsWhole) (arg3 : Memref sig .tc .vmem S10240x1024 .bf16) (harg3 : arg3.IsWhole) (arg4 : Memref sig .tc .vmem S1x1024 .f32) (harg4 : arg4.IsWhole) (arg5 : Memref sig .tc .vmem S512x1024 .bf16) (harg5 : arg5.IsWhole) (arg6 : Memref sig .tc .vmem S512x1024 .f32) (harg6 : arg6.IsWhole) (hc0 : ¬zeroC7 i) (hc1 : ¬flushC7 i)
    (x0 : Vec F S512x1024 .bf16) (x1 : Vec F S10240x1024 .bf16) (x2 : Vec F S1x1024 .f32) (xs : Vec F S512x1024 .f32) (y : S512x1024.Idx) :
    ∃ pc ∈ (runMid7 c i arg2 harg2 arg3 harg3 arg4 harg4 arg5 harg5 arg6 harg6 hc0 hc1 x0 x1 x2 xs).2.1, y ∈ pc.1.set :=
  View.cover_of_tiledL (runMid7 c i arg2 harg2 arg3 harg3 arg4 harg4 arg5 harg5 arg6 harg6 hc0 hc1 x0 x1 x2 xs).2.1 S512x1024.size (by sl_kernel_rfl) y

/-- What the case `0 < k < 9` leaves in the accumulator, over what the point before left (`xs`). -/
def acc7_M (c : Dev nD) (i : grid7.Coords) (arg2 : Memref sig .tc .vmem S512x1024 .bf16) (harg2 : arg2.IsWhole) (arg3 : Memref sig .tc .vmem S10240x1024 .bf16) (harg3 : arg3.IsWhole) (arg4 : Memref sig .tc .vmem S1x1024 .f32) (harg4 : arg4.IsWhole) (arg5 : Memref sig .tc .vmem S512x1024 .bf16) (harg5 : arg5.IsWhole) (arg6 : Memref sig .tc .vmem S512x1024 .f32) (harg6 : arg6.IsWhole) (hc0 : ¬zeroC7 i) (hc1 : ¬flushC7 i)
    (x0 : Vec F S512x1024 .bf16) (x1 : Vec F S10240x1024 .bf16) (x2 : Vec F S1x1024 .f32) (xs : Vec F S512x1024 .f32) : Vec F S512x1024 .f32 :=
  vS7.read (Elt F) (vS7.writes (Elt F) vS7.junk (runMid7 c i arg2 harg2 arg3 harg3 arg4 harg4 arg5 harg5 arg6 harg6 hc0 hc1 x0 x1 x2 xs).2.1)

/-- At `k = 9` the one store into the result buffer covers it. -/
theorem cover7_L_3 (c : Dev nD) (i : grid7.Coords) (arg2 : Memref sig .tc .vmem S512x1024 .bf16) (harg2 : arg2.IsWhole) (arg3 : Memref sig .tc .vmem S10240x1024 .bf16) (harg3 : arg3.IsWhole) (arg4 : Memref sig .tc .vmem S1x1024 .f32) (harg4 : arg4.IsWhole) (arg5 : Memref sig .tc .vmem S512x1024 .bf16) (harg5 : arg5.IsWhole) (arg6 : Memref sig .tc .vmem S512x1024 .f32) (harg6 : arg6.IsWhole) (hc0 : ¬zeroC7 i) (hc1 : flushC7 i)
    (x0 : Vec F S512x1024 .bf16) (x1 : Vec F S10240x1024 .bf16) (x2 : Vec F S1x1024 .f32) (xs : Vec F S512x1024 .f32) (y : S512x1024.Idx) :
    ∃ pc ∈ (runLast7 c i arg2 harg2 arg3 harg3 arg4 harg4 arg5 harg5 arg6 harg6 hc0 hc1 x0 x1 x2 xs).1, y ∈ pc.1.set :=
  View.cover_of_tiledL (runLast7 c i arg2 harg2 arg3 harg3 arg4 harg4 arg5 harg5 arg6 harg6 hc0 hc1 x0 x1 x2 xs).1 S512x1024.size (by sl_kernel_rfl) y

/-- THE RESULT BLOCK: what the case `k = 9` leaves in the result buffer — the accumulated sum plus the bias row, in the
    result's format — as a term of the three input blocks and of the accumulator the point before left. -/
def out7_L_3 (c : Dev nD) (i : grid7.Coords) (arg2 : Memref sig .tc .vmem S512x1024 .bf16) (harg2 : arg2.IsWhole) (arg3 : Memref sig .tc .vmem S10240x1024 .bf16) (harg3 : arg3.IsWhole) (arg4 : Memref sig .tc .vmem S1x1024 .f32) (harg4 : arg4.IsWhole) (arg5 : Memref sig .tc .vmem S512x1024 .bf16) (harg5 : arg5.IsWhole) (arg6 : Memref sig .tc .vmem S512x1024 .f32) (harg6 : arg6.IsWhole) (hc0 : ¬zeroC7 i) (hc1 : flushC7 i)
    (x0 : Vec F S512x1024 .bf16) (x1 : Vec F S10240x1024 .bf16) (x2 : Vec F S1x1024 .f32) (xs : Vec F S512x1024 .f32) : Vec F S512x1024 .bf16 :=
  vO7.read (Elt F) (vO7.writes (Elt F) vO7.junk (runLast7 c i arg2 harg2 arg3 harg3 arg4 harg4 arg5 harg5 arg6 harg6 hc0 hc1 x0 x1 x2 xs).1)

/-- At `k = 9` the accumulator's one store covers it. -/
theorem scover7_L (c : Dev nD) (i : grid7.Coords) (arg2 : Memref sig .tc .vmem S512x1024 .bf16) (harg2 : arg2.IsWhole) (arg3 : Memref sig .tc .vmem S10240x1024 .bf16) (harg3 : arg3.IsWhole) (arg4 : Memref sig .tc .vmem S1x1024 .f32) (harg4 : arg4.IsWhole) (arg5 : Memref sig .tc .vmem S512x1024 .bf16) (harg5 : arg5.IsWhole) (arg6 : Memref sig .tc .vmem S512x1024 .f32) (harg6 : arg6.IsWhole) (hc0 : ¬zeroC7 i) (hc1 : flushC7 i)
    (x0 : Vec F S512x1024 .bf16) (x1 : Vec F S10240x1024 .bf16) (x2 : Vec F S1x1024 .f32) (xs : Vec F S512x1024 .f32) (y : S512x1024.Idx) :
    ∃ pc ∈ (runLast7 c i arg2 harg2 arg3 harg3 arg4 harg4 arg5 harg5 arg6 harg6 hc0 hc1 x0 x1 x2 xs).2.1, y ∈ pc.1.set :=
  View.cover_of_tiledL (runLast7 c i arg2 harg2 arg3 harg3 arg4 harg4 arg5 harg5 arg6 harg6 hc0 hc1 x0 x1 x2 xs).2.1 S512x1024.size (by sl_kernel_rfl) y

/-- What the case `k = 9` leaves in the accumulator. -/
def acc7_L (c : Dev nD) (i : grid7.Coords) (arg2 : Memref sig .tc .vmem S512x1024 .bf16) (harg2 : arg2.IsWhole) (arg3 : Memref sig .tc .vmem S10240x1024 .bf16) (harg3 : arg3.IsWhole) (arg4 : Memref sig .tc .vmem S1x1024 .f32) (harg4 : arg4.IsWhole) (arg5 : Memref sig .tc .vmem S512x1024 .bf16) (harg5 : arg5.IsWhole) (arg6 : Memref sig .tc .vmem S512x1024 .f32) (harg6 : arg6.IsWhole) (hc0 : ¬zeroC7 i) (hc1 : flushC7 i)
    (x0 : Vec F S512x1024 .bf16) (x1 : Vec F S10240x1024 .bf16) (x2 : Vec F S1x1024 .f32) (xs : Vec F S512x1024 .f32) : Vec F S512x1024 .f32 :=
  vS7.read (Elt F) (vS7.writes (Elt F) vS7.junk (runLast7 c i arg2 harg2 arg3 harg3 arg4 harg4 arg5 harg5 arg6 harg6 hc0 hc1 x0 x1 x2 xs).2.1)

section Entry
variable (V : (c : Dev nD) → (b : Ref sig .tc) → Buf (Elt F) ((c : Thread nD τ).loc b))

/-! ## Point by point -/

/-- THE ACCUMULATION. After the body at position `n`: (the result buffer, the accumulator). The case is the one the
    closed forms select at `n`, run on the point's memrefs and input blocks; for `k > 0` the accumulator starts from what
    position `n - 1` left in it. The two conditions cannot hold together. -/
def outsAt7 (c : Dev nD) : (n : ℕ) → n < cfg7.N → Vec F S512x1024 .bf16 × Vec F S512x1024 .f32
  | 0, hn => (out7_Z_3 c (grid7.coords ⟨0, hn⟩) (mA7 ⟨0, hn⟩) (hA7 ⟨0, hn⟩) (mB7 ⟨0, hn⟩) (hB7 ⟨0, hn⟩) (mC7 ⟨0, hn⟩) (hC7 ⟨0, hn⟩) (mO7 ⟨0, hn⟩) (hO7 ⟨0, hn⟩) mS7 (Memref.isWhole_whole _) ((zeroC7_iff ⟨0, hn⟩).mpr (Nat.zero_mod _)) (fun h => (fun h => by (try dsimp only at h); omega) ((flushC7_iff ⟨0, hn⟩).mp h)) (iblk7 V c 0 ⟨0, hn⟩) (iblk7 V c 1 ⟨0, hn⟩) (iblk7 V c 2 ⟨0, hn⟩), acc7_Z c (grid7.coords ⟨0, hn⟩) (mA7 ⟨0, hn⟩) (hA7 ⟨0, hn⟩) (mB7 ⟨0, hn⟩) (hB7 ⟨0, hn⟩) (mC7 ⟨0, hn⟩) (hC7 ⟨0, hn⟩) (mO7 ⟨0, hn⟩) (hO7 ⟨0, hn⟩) mS7 (Memref.isWhole_whole _) ((zeroC7_iff ⟨0, hn⟩).mpr (Nat.zero_mod _)) (fun h => (fun h => by (try dsimp only at h); omega) ((flushC7_iff ⟨0, hn⟩).mp h)) (iblk7 V c 0 ⟨0, hn⟩) (iblk7 V c 1 ⟨0, hn⟩) (iblk7 V c 2 ⟨0, hn⟩))
  | n + 1, hn =>
    if h0 : (n + 1) % 10 = 0 then
      if h1 : (n + 1) % 10 = 9 then
        False.elim (by omega)
      else
        (out7_Z_3 c (grid7.coords ⟨n + 1, hn⟩) (mA7 ⟨n + 1, hn⟩) (hA7 ⟨n + 1, hn⟩) (mB7 ⟨n + 1, hn⟩) (hB7 ⟨n + 1, hn⟩) (mC7 ⟨n + 1, hn⟩) (hC7 ⟨n + 1, hn⟩) (mO7 ⟨n + 1, hn⟩) (hO7 ⟨n + 1, hn⟩) mS7 (Memref.isWhole_whole _) ((zeroC7_iff ⟨n + 1, hn⟩).mpr h0) (fun h => h1 ((flushC7_iff ⟨n + 1, hn⟩).mp h)) (iblk7 V c 0 ⟨n + 1, hn⟩) (iblk7 V c 1 ⟨n + 1, hn⟩) (iblk7 V c 2 ⟨n + 1, hn⟩), acc7_Z c (grid7.coords ⟨n + 1, hn⟩) (mA7 ⟨n + 1, hn⟩) (hA7 ⟨n + 1, hn⟩) (mB7 ⟨n + 1, hn⟩) (hB7 ⟨n + 1, hn⟩) (mC7 ⟨n + 1, hn⟩) (hC7 ⟨n + 1, hn⟩) (mO7 ⟨n + 1, hn⟩) (hO7 ⟨n + 1, hn⟩) mS7 (Memref.isWhole_whole _) ((zeroC7_iff ⟨n + 1, hn⟩).mpr h0) (fun h => h1 ((flushC7_iff ⟨n + 1, hn⟩).mp h)) (iblk7 V c 0 ⟨n + 1, hn⟩) (iblk7 V c 1 ⟨n + 1, hn⟩) (iblk7 V c 2 ⟨n + 1, hn⟩))
    else
      if h1 : (n + 1) % 10 = 9 then
        (out7_L_3 c (grid7.coords ⟨n + 1, hn⟩) (mA7 ⟨n + 1, hn⟩) (hA7 ⟨n + 1, hn⟩) (mB7 ⟨n + 1, hn⟩) (hB7 ⟨n + 1, hn⟩) (mC7 ⟨n + 1, hn⟩) (hC7 ⟨n + 1, hn⟩) (mO7 ⟨n + 1, hn⟩) (hO7 ⟨n + 1, hn⟩) mS7 (Memref.isWhole_whole _) (fun h => h0 ((zeroC7_iff ⟨n + 1, hn⟩).mp h)) ((flushC7_iff ⟨n + 1, hn⟩).mpr h1) (iblk7 V c 0 ⟨n + 1, hn⟩) (iblk7 V c 1 ⟨n + 1, hn⟩) (iblk7 V c 2 ⟨n + 1, hn⟩) (outsAt7 c n (Nat.lt_of_succ_lt hn)).2, acc7_L c (grid7.coords ⟨n + 1, hn⟩) (mA7 ⟨n + 1, hn⟩) (hA7 ⟨n + 1, hn⟩) (mB7 ⟨n + 1, hn⟩) (hB7 ⟨n + 1, hn⟩) (mC7 ⟨n + 1, hn⟩) (hC7 ⟨n + 1, hn⟩) (mO7 ⟨n + 1, hn⟩) (hO7 ⟨n + 1, hn⟩) mS7 (Memref.isWhole_whole _) (fun h => h0 ((zeroC7_iff ⟨n + 1, hn⟩).mp h)) ((flushC7_iff ⟨n + 1, hn⟩).mpr h1) (iblk7 V c 0 ⟨n + 1, hn⟩) (iblk7 V c 1 ⟨n + 1, hn⟩) (iblk7 V c 2 ⟨n + 1, hn⟩) (outsAt7 c n (Nat.lt_of_succ_lt hn)).2)
      else
        (out7_M_3 c (grid7.coords ⟨n + 1, hn⟩) (mA7 ⟨n + 1, hn⟩) (hA7 ⟨n + 1, hn⟩) (mB7 ⟨n + 1, hn⟩) (hB7 ⟨n + 1, hn⟩) (mC7 ⟨n + 1, hn⟩) (hC7 ⟨n + 1, hn⟩) (mO7 ⟨n + 1, hn⟩) (hO7 ⟨n + 1, hn⟩) mS7 (Memref.isWhole_whole _) (fun h => h0 ((zeroC7_iff ⟨n + 1, hn⟩).mp h)) (fun h => h1 ((flushC7_iff ⟨n + 1, hn⟩).mp h)) (iblk7 V c 0 ⟨n + 1, hn⟩) (iblk7 V c 1 ⟨n + 1, hn⟩) (iblk7 V c 2 ⟨n + 1, hn⟩) (outsAt7 c n (Nat.lt_of_succ_lt hn)).2, acc7_M c (grid7.coords ⟨n + 1, hn⟩) (mA7 ⟨n + 1, hn⟩) (hA7 ⟨n + 1, hn⟩) (mB7 ⟨n + 1, hn⟩) (hB7 ⟨n + 1, hn⟩) (mC7 ⟨n + 1, hn⟩) (hC7 ⟨n + 1, hn⟩) (mO7 ⟨n + 1, hn⟩) (hO7 ⟨n + 1, hn⟩) mS7 (Memref.isWhole_whole _) (fun h => h0 ((zeroC7_iff ⟨n + 1, hn⟩).mp h)) (fun h => h1 ((flushC7_iff ⟨n + 1, hn⟩).mp h)) (iblk7 V c 0 ⟨n + 1, hn⟩) (iblk7 V c 1 ⟨n + 1, hn⟩) (iblk7 V c 2 ⟨n + 1, hn⟩) (outsAt7 c n (Nat.lt_of_succ_lt hn)).2)

/-- `outsAt7` at a point with `k = 0`. -/
theorem outsAt7_Z (c : Dev nD) (t : Fin cfg7.N) (h0 : t.val % 10 = 0) (h1 : ¬t.val % 10 = 9) :
    outsAt7 V c t.val t.isLt = (out7_Z_3 c (grid7.coords t) (mA7 t) (hA7 t) (mB7 t) (hB7 t) (mC7 t) (hC7 t) (mO7 t) (hO7 t) mS7 (Memref.isWhole_whole _) ((zeroC7_iff t).mpr h0) (fun h => h1 ((flushC7_iff t).mp h)) (iblk7 V c 0 t) (iblk7 V c 1 t) (iblk7 V c 2 t), acc7_Z c (grid7.coords t) (mA7 t) (hA7 t) (mB7 t) (hB7 t) (mC7 t) (hC7 t) (mO7 t) (hO7 t) mS7 (Memref.isWhole_whole _) ((zeroC7_iff t).mpr h0) (fun h => h1 ((flushC7_iff t).mp h)) (iblk7 V c 0 t) (iblk7 V c 1 t) (iblk7 V c 2 t)) := by
  obtain ⟨n, hn⟩ := t
  cases n with
  | zero => exact rfl
  | succ n => exact (dif_pos h0).trans ((dif_neg h1).trans rfl)

/-- `outsAt7` at a point with `0 < k < 9`: over what the point before left. -/
theorem outsAt7_M (c : Dev nD) (t : Fin cfg7.N) (h0 : ¬t.val % 10 = 0) (h1 : ¬t.val % 10 = 9) :
    outsAt7 V c t.val t.isLt = (out7_M_3 c (grid7.coords t) (mA7 t) (hA7 t) (mB7 t) (hB7 t) (mC7 t) (hC7 t) (mO7 t) (hO7 t) mS7 (Memref.isWhole_whole _) (fun h => h0 ((zeroC7_iff t).mp h)) (fun h => h1 ((flushC7_iff t).mp h)) (iblk7 V c 0 t) (iblk7 V c 1 t) (iblk7 V c 2 t) (outsAt7 V c (t.val - 1) (Nat.lt_of_le_of_lt (Nat.sub_le _ _) t.isLt)).2, acc7_M c (grid7.coords t) (mA7 t) (hA7 t) (mB7 t) (hB7 t) (mC7 t) (hC7 t) (mO7 t) (hO7 t) mS7 (Memref.isWhole_whole _) (fun h => h0 ((zeroC7_iff t).mp h)) (fun h => h1 ((flushC7_iff t).mp h)) (iblk7 V c 0 t) (iblk7 V c 1 t) (iblk7 V c 2 t) (outsAt7 V c (t.val - 1) (Nat.lt_of_le_of_lt (Nat.sub_le _ _) t.isLt)).2) := by
  obtain ⟨n, hn⟩ := t
  cases n with
  | zero => exact (by exfalso; (try dsimp only at h0); exact absurd (Nat.zero_mod _) h0)
  | succ n => exact (dif_neg h0).trans ((dif_neg h1).trans rfl)

/-- `outsAt7` at a point with `k = 9`: over what the point before left. -/
theorem outsAt7_L (c : Dev nD) (t : Fin cfg7.N) (h0 : ¬t.val % 10 = 0) (h1 : t.val % 10 = 9) :
    outsAt7 V c t.val t.isLt = (out7_L_3 c (grid7.coords t) (mA7 t) (hA7 t) (mB7 t) (hB7 t) (mC7 t) (hC7 t) (mO7 t) (hO7 t) mS7 (Memref.isWhole_whole _) (fun h => h0 ((zeroC7_iff t).mp h)) ((flushC7_iff t).mpr h1) (iblk7 V c 0 t) (iblk7 V c 1 t) (iblk7 V c 2 t) (outsAt7 V c (t.val - 1) (Nat.lt_of_le_of_lt (Nat.sub_le _ _) t.isLt)).2, acc7_L c (grid7.coords t) (mA7 t) (hA7 t) (mB7 t) (hB7 t) (mC7 t) (hC7 t) (mO7 t) (hO7 t) mS7 (Memref.isWhole_whole _) (fun h => h0 ((zeroC7_iff t).mp h)) ((flushC7_iff t).mpr h1) (iblk7 V c 0 t) (iblk7 V c 1 t) (iblk7 V c 2 t) (outsAt7 V c (t.val - 1) (Nat.lt_of_le_of_lt (Nat.sub_le _ _) t.isLt)).2) := by
  obtain ⟨n, hn⟩ := t
  cases n with
  | zero => exact (by exfalso; (try dsimp only at h0); exact absurd (Nat.zero_mod _) h0)
  | succ n => exact (dif_neg h0).trans ((dif_pos h1).trans rfl)

/-! ## The invariant -/

/-- The region invariant before position `n`: before the first point the class's (the accumulator at anything);
    afterwards the accumulator at what the point before left in it, the other scoped buffers and the generator
    register as ever. -/
def PhiS7 (c : Dev nD) : (n : ℕ) → n ≤ cfg7.N → sProp 𝕄
  | 0, _ => Pipeline.ΦA spec7 c
  | n + 1, hn => iprop(iprop(owns (c : Thread nD τ) mS7 fullShare ((outsAt7 V c n hn).2) ∗ rest7 (F := F) c) ∗ (∃ r, prngReg c r))

theorem PhiS7_zero (c : Dev nD) (n : ℕ) (h : n ≤ cfg7.N) (hz : n = 0) : PhiS7 V c n h = Pipeline.ΦA spec7 c := by
  subst hz; rfl

theorem PhiS7_succ (c : Dev nD) (n : ℕ) (hn : n < cfg7.N) :
    PhiS7 V c (n + 1) hn = iprop(iprop(owns (c : Thread nD τ) mS7 fullShare ((outsAt7 V c n hn).2) ∗ rest7 (F := F) c) ∗ (∃ r, prngReg c r)) := rfl

theorem PhiS7_pos (c : Dev nD) (n : ℕ) (h : n ≤ cfg7.N) (hz : n ≠ 0) :
    PhiS7 V c n h = iprop(iprop(owns (c : Thread nD τ) mS7 fullShare ((outsAt7 V c (n - 1) (by omega)).2) ∗ rest7 (F := F) c) ∗ (∃ r, prngReg c r)) := by
  cases n with
  | zero => exact absurd rfl hz
  | succ n => rfl

/-! ## The proof data -/

/-- The proof data of region 7's pipeline on core `c`: the arrays as the region finds them; after the body at point
    `t` each input's buffer at its block and the result's at `outsAt7`'s first component; the invariant `PhiS7`;
    nothing owed; full shares. -/
def dat7 (c : Dev nD) : Dat τ (Elt F) Unit ℕ (UR sig nD τ) ℕ cfg7 c where
  A w := V c (Pipeline.arrRef spec7 w)
  after w t := match w with
    | ⟨0, _⟩ => iblk7 V c 0 t
    | ⟨1, _⟩ => iblk7 V c 1 t
    | ⟨2, _⟩ => iblk7 V c 2 t
    | ⟨3, _⟩ => (outsAt7 V c t.val t.isLt).1
  Φ t := PhiS7 V c t.val (Nat.le_of_lt_succ t.isLt)
  q _ := fullShare
  owed _ := 0

/-- The proof data's arrays are the region-entry contents (the definition projected, `V` never unfolded). -/
theorem A_eq7 (c : Dev nD) (w : Fin cfg7.W) : (dat7 V c).A w = V c (Pipeline.arrRef spec7 w) := by
  dsimp only [dat7]

/-- The invariant at a point's start, restated at `t.val`. -/
theorem PhiS7_castSucc (c : Dev nD) (t : Fin cfg7.N) :
    (dat7 V c).Φ t.castSucc = PhiS7 V c t.val (Nat.le_of_lt t.isLt) := by
  dsimp only [dat7]; simp only [Fin.coe_castSucc]

/-- What the body leaves, window by window. -/
theorem after7_0 (c : Dev nD) (t : Fin cfg7.N) : (dat7 V c).after 0 t = iblk7 V c 0 t := by dsimp only [dat7]
theorem after7_1 (c : Dev nD) (t : Fin cfg7.N) : (dat7 V c).after 1 t = iblk7 V c 1 t := by dsimp only [dat7]
theorem after7_2 (c : Dev nD) (t : Fin cfg7.N) : (dat7 V c).after 2 t = iblk7 V c 2 t := by dsimp only [dat7]
theorem after7_3 (c : Dev nD) (t : Fin cfg7.N) : (dat7 V c).after 3 t = (outsAt7 V c t.val t.isLt).1 := by dsimp only [dat7]

/-- Each input's current staging buffer holds its block at every point. -/
theorem before7_0 (c : Dev nD) (t : Fin cfg7.N) (d) : (dat7 V c).before 0 t d = iblk7 V c 0 t :=
  before7_0_of V (dat7 V c) (A_eq7 V c 0) (after7_0 V c) t d
theorem before7_1 (c : Dev nD) (t : Fin cfg7.N) (d) : (dat7 V c).before 1 t d = iblk7 V c 1 t :=
  before7_1_of V (dat7 V c) (A_eq7 V c 1) (after7_1 V c) t d
theorem before7_2 (c : Dev nD) (t : Fin cfg7.N) (d) : (dat7 V c).before 2 t d = iblk7 V c 2 t :=
  before7_2_of V (dat7 V c) (A_eq7 V c 2) (after7_2 V c) t d

/-! ## The body obligation, at a generic point -/

/-- What the body is called with at point `t`, the windows one by one, -/
def bodyPre7 (c : Dev nD) (t : Fin cfg7.N) : sProp 𝕄 :=
  iprop((dat7 V c).Φ t.castSucc ∗ (dat7 V c).owesAt () t.castSucc
    ∗ (∃ d, owns (c : Thread nD τ) (mA7 t) fullShare ((dat7 V c).before 0 t d))
    ∗ (∃ d, owns (c : Thread nD τ) (mB7 t) fullShare ((dat7 V c).before 1 t d))
    ∗ (∃ d, owns (c : Thread nD τ) (mC7 t) fullShare ((dat7 V c).before 2 t d))
    ∗ (∃ d, owns (c : Thread nD τ) (mO7 t) fullShare ((dat7 V c).before 3 t d)))

/-- and what it returns. -/
def bodyPost7 (c : Dev nD) (t : Fin cfg7.N) : sProp 𝕄 :=
  iprop((dat7 V c).Φ t.succ ∗ (dat7 V c).owesAt () t.succ
    ∗ (dat7 V c).leavesExact 0 t
    ∗ (dat7 V c).leavesExact 1 t
    ∗ (dat7 V c).leavesExact 2 t
    ∗ (dat7 V c).leavesExact 3 t)

set_option maxHeartbeats 4800000 in
/-- The body at any point. The inputs' memrefs hold their blocks; the closed forms say which control case the point is
    in, and that case's run applies. The invariant hands the body the accumulator at what the point before left (at
    anything before the first point) and takes it back at this point's contents, its stores covering it; where the
    result window is idle its buffer goes back as found, and at `k = 9` its one store covers it. The other scoped
    buffers, the generator register and what the core owes pass through. -/
theorem sound_body7 (c : Dev nD) (t : Fin cfg7.N) :
    bodyPre7 V c t ⊢ wp frame (wpE (defs₀ (F := F)) Variants.none c none) Set.univ (bodyAt7 t) (fun _ => bodyPost7 V c t) := by
  unfold bodyPre7 bodyPost7 bodyAt7
  simp only [before7_0, before7_1, before7_2]
  rw [show (dat7 V c).owesAt () t.succ = (dat7 V c).owesAt () t.castSucc from rfl]
  rw [show (dat7 V c).Φ t.succ = PhiS7 V c (t.val + 1) t.isLt from rfl, PhiS7_succ]
  rw [show (dat7 V c).leavesExact 0 t = owns (c : Thread nD τ) (mA7 t) fullShare ((dat7 V c).after 0 t) from by
    unfold Dat.leavesExact; rw [live7_0 t], after7_0]
  rw [show (dat7 V c).leavesExact 1 t = owns (c : Thread nD τ) (mB7 t) fullShare ((dat7 V c).after 1 t) from by
    unfold Dat.leavesExact; rw [live7_1 t], after7_1]
  rw [show (dat7 V c).leavesExact 2 t = owns (c : Thread nD τ) (mC7 t) fullShare ((dat7 V c).after 2 t) from by
    unfold Dat.leavesExact; rw [live7_2 t], after7_2]
  have hN : t.val < 200 := lt_of_lt_of_eq t.isLt (show cfg7.N = 200 from N_7)
  by_cases h0 : t.val % 10 = 0
  · by_cases h1 : t.val % 10 = 9
    · exfalso; omega
    · rw [Dat.leavesExact_idle (dat7 V c) 3 t (idle7_3 t (fun h => h1 ((flushC7_iff t).mp h))) (noFlush7_3 t (fun h => h1 ((flushC7_iff t).mp h)))]
      rw [outsAt7_Z V c t h0 h1]
      unfold acc7_Z; (try dsimp only)
      by_cases hz : t.val = 0
      · rw [PhiS7_castSucc V c t, PhiS7_zero V c _ _ hz, PhiA7_eq]
        iintro ⟨⟨⟨HS, Hr⟩, Hg⟩, Ho, ⟨%d0, H0⟩, ⟨%d1, H1⟩, ⟨%d2, H2⟩, ⟨%d3, H3⟩⟩
        iapply ((runZero7 c (grid7.coords t) _ _ _ _ _ _ _ _ _ _ ((zeroC7_iff t).mpr h0) (fun h => h1 ((flushC7_iff t).mp h)) (iblk7 V c 0 t) (iblk7 V c 1 t) (iblk7 V c 2 t)).2.2 _ Set.univ _)
        isplitl [H0]; · iexact H0
        isplitl [H1]; · iexact H1
        isplitl [H2]; · iexact H2
        isplitl [H3]; · iexact H3
        isplitl [HS]; · iexact HS
        iintro ⟨H0, H1, H2, H3, ⟨%es, HS⟩⟩
        isplitl [HS Hr Hg]
        · isplitl [HS Hr]
          · isplitl [HS]
            · unfold owns; iexists _; isplitr
              swap; · iexact HS
              ipureintro; exact View.read_writes_of_cover _ _ _ _ _ (scover7_Z c _ _ _ _ _ _ _ _ _ _ _ _ _ _ _ _)
            iexact Hr
          iexact Hg
        isplitl [Ho]; · iexact Ho
        isplitl [H0]; · iexact H0
        isplitl [H1]; · iexact H1
        isplitl [H2]; · iexact H2
        iexists _; iexact H3
      · rw [PhiS7_castSucc V c t, PhiS7_pos V c _ _ hz]
        iintro ⟨⟨⟨HS, Hr⟩, Hg⟩, Ho, ⟨%d0, H0⟩, ⟨%d1, H1⟩, ⟨%d2, H2⟩, ⟨%d3, H3⟩⟩
        iapply ((runZero7 c (grid7.coords t) _ _ _ _ _ _ _ _ _ _ ((zeroC7_iff t).mpr h0) (fun h => h1 ((flushC7_iff t).mp h)) (iblk7 V c 0 t) (iblk7 V c 1 t) (iblk7 V c 2 t)).2.2 _ Set.univ _)
        isplitl [H0]; · iexact H0
        isplitl [H1]; · iexact H1
        isplitl [H2]; · iexact H2
        isplitl [H3]; · iexact H3
        isplitl [HS]; · iexists _; iexact HS
        iintro ⟨H0, H1, H2, H3, ⟨%es, HS⟩⟩
        isplitl [HS Hr Hg]
        · isplitl [HS Hr]
          · isplitl [HS]
            · unfold owns; iexists _; isplitr
              swap; · iexact HS
              ipureintro; exact View.read_writes_of_cover _ _ _ _ _ (scover7_Z c _ _ _ _ _ _ _ _ _ _ _ _ _ _ _ _)
            iexact Hr
          iexact Hg
        isplitl [Ho]; · iexact Ho
        isplitl [H0]; · iexact H0
        isplitl [H1]; · iexact H1
        isplitl [H2]; · iexact H2
        iexists _; iexact H3
  · have hz : t.val ≠ 0 := fun e => h0 (by rw [e])
    by_cases h1 : t.val % 10 = 9
    · rw [show (dat7 V c).leavesExact 3 t = owns (c : Thread nD τ) (mO7 t) fullShare ((dat7 V c).after 3 t) from by
        unfold Dat.leavesExact; rw [live7_3 t ((flushC7_iff t).mpr h1)], after7_3]
      rw [outsAt7_L V c t h0 h1]
      unfold out7_L_3 acc7_L; (try dsimp only)
      rw [PhiS7_castSucc V c t, PhiS7_pos V c _ _ hz]
      iintro ⟨⟨⟨HS, Hr⟩, Hg⟩, Ho, ⟨%d0, H0⟩, ⟨%d1, H1⟩, ⟨%d2, H2⟩, ⟨%d3, H3⟩⟩
      iapply ((runLast7 c (grid7.coords t) _ _ _ _ _ _ _ _ _ _ (fun h => h0 ((zeroC7_iff t).mp h)) ((flushC7_iff t).mpr h1) (iblk7 V c 0 t) (iblk7 V c 1 t) (iblk7 V c 2 t) _).2.2 Set.univ _)
      isplitl [H0]; · iexact H0
      isplitl [H1]; · iexact H1
      isplitl [H2]; · iexact H2
      isplitl [H3]; · iexists _; iexact H3
      isplitl [HS]; · iexact HS
      iintro ⟨H0, H1, H2, ⟨%e3, H3⟩, ⟨%es, HS⟩⟩
      isplitl [HS Hr Hg]
      · isplitl [HS Hr]
        · isplitl [HS]
          · unfold owns; iexists _; isplitr
            swap; · iexact HS
            ipureintro; exact View.read_writes_of_cover _ _ _ _ _ (scover7_L c _ _ _ _ _ _ _ _ _ _ _ _ _ _ _ _ _)
          iexact Hr
        iexact Hg
      isplitl [Ho]; · iexact Ho
      isplitl [H0]; · iexact H0
      isplitl [H1]; · iexact H1
      isplitl [H2]; · iexact H2
      unfold owns; iexists _; isplitr
      swap; · iexact H3
      ipureintro; exact View.read_writes_of_cover _ _ _ _ _ (cover7_L_3 c _ _ _ _ _ _ _ _ _ _ _ _ _ _ _ _ _)
    · rw [Dat.leavesExact_idle (dat7 V c) 3 t (idle7_3 t (fun h => h1 ((flushC7_iff t).mp h))) (noFlush7_3 t (fun h => h1 ((flushC7_iff t).mp h)))]
      rw [outsAt7_M V c t h0 h1]
      unfold acc7_M; (try dsimp only)
      rw [PhiS7_castSucc V c t, PhiS7_pos V c _ _ hz]
      iintro ⟨⟨⟨HS, Hr⟩, Hg⟩, Ho, ⟨%d0, H0⟩, ⟨%d1, H1⟩, ⟨%d2, H2⟩, ⟨%d3, H3⟩⟩
      iapply ((runMid7 c (grid7.coords t) _ _ _ _ _ _ _ _ _ _ (fun h => h0 ((zeroC7_iff t).mp h)) (fun h => h1 ((flushC7_iff t).mp h)) (iblk7 V c 0 t) (iblk7 V c 1 t) (iblk7 V c 2 t) _).2.2 _ Set.univ _)
      isplitl [H0]; · iexact H0
      isplitl [H1]; · iexact H1
      isplitl [H2]; · iexact H2
      isplitl [H3]; · iexact H3
      isplitl [HS]; · iexact HS
      iintro ⟨H0, H1, H2, H3, ⟨%es, HS⟩⟩
      isplitl [HS Hr Hg]
      · isplitl [HS Hr]
        · isplitl [HS]
          · unfold owns; iexists _; isplitr
            swap; · iexact HS
            ipureintro; exact View.read_writes_of_cover _ _ _ _ _ (scover7_M c _ _ _ _ _ _ _ _ _ _ _ _ _ _ _ _ _)
          iexact Hr
        iexact Hg
      isplitl [Ho]; · iexact Ho
      isplitl [H0]; · iexact H0
      isplitl [H1]; · iexact H1
      isplitl [H2]; · iexact H2
      iexists _; iexact H3

/-- The library's body obligation, at every point. -/
theorem body_obligation7 (c : Dev nD) : BodyObligation (dat7 (F := F) V c) (defs₀ (F := F)) Variants.none () Set.univ := fun t => by
  rw [bigSep_W7, bigSep_W7]
  exact sound_body7 V c t

/-- What the launch hands the region is the invariant before the first point. -/
theorem hin7 (c : Dev nD) : Pipeline.ΦA spec7 c ⊢ (dat7 V c).Φ 0 := by
  rw [show (dat7 V c).Φ 0 = PhiS7 V c 0 (Nat.zero_le _) from rfl, PhiS7_zero V c 0 _ rfl]
  try exact Idealize.SL.BI.Entails.refl _

/-- After any point the invariant gives the class's back: the accumulator's named contents are forgotten. -/
theorem Phi_out7 (c : Dev nD) (t : Fin (cfg7.N + 1)) (ht : t.val ≠ 0) : (dat7 V c).Φ t ⊢ Pipeline.ΦA spec7 c := by
  rw [show (dat7 V c).Φ t = PhiS7 V c t.val (Nat.le_of_lt_succ t.isLt) from rfl, PhiS7_pos V c _ _ ht, PhiA7_eq]
  iintro ⟨⟨HS, Hr⟩, Hg⟩
  isplitl [HS Hr]
  · isplitl [HS]
    · iexists _; iexact HS
    iexact Hr
  iexact Hg

/-- The same after the last point. -/
theorem hout7 (c : Dev nD) : (dat7 V c).Φ (Fin.last cfg7.N) ⊢ Pipeline.ΦA spec7 c :=
  Phi_out7 V c _ (by rw [Fin.val_last]; have : cfg7.N = 200 := N_7; omega)

end Entry

end Cert.Kernel.Rg

end
-- ==== Proof.KB.Reg8.lean ====
/- Stage-1 region 8 (custom_call 8): the per-region half of the frame argument, at the buffer
   contents `V` found when the region is entered. One row block of the left operand times the whole
   right operand, plus the bias row, written to the result's row block. -/
import proofs.«181230_j19834158973077_2_alg».proof.Proof.Gen.Kernel.Launch
import proofs.«181230_j19834158973077_2_alg».proof.Proof.Gen.Kernel.Skeleton
import proofs.«181230_j19834158973077_2_alg».proof.Proof.Gen.Kernel.Points
import Idealize.ShloMosaic.Lib.Pipeline.FrameBody
import Idealize.ShloMosaic.Lib.Ring
import Idealize.ShloMosaic.Lib.Tactic

-- membership in a rectangle of full extents recurses once per coordinate of the long axes
set_option maxRecDepth 16384

noncomputable section

namespace Cert.Kernel.Rg

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

-- the TensorCore's buffer contents when the region is entered
variable (V : (c : Dev nD) → (b : Ref sig .tc) → Buf (Elt F) ((c : Thread nD τ).loc b))

/-! ## The windows' blocks -/

/-- Window `w`'s block at point `t`, read off its array as the region finds it. -/
def iblk8 (c : Dev nD) (w : Fin cfg8.W) (t : Fin cfg8.N) : ((cfg8.win w).xblock (cfg8.grid.coords t)).Idx → Elt F (cfg8.win w).elt :=
  ((cfg8.win w).blk t).view.read (Elt F) (V c (Pipeline.arrRef spec8 w))

/-- Input window 0's current staging buffer holds its block at every point, fetched there or not: where it is
    not fetched the block index has not moved, and the body leaves the block in place. -/
theorem before8_0_of {c : Dev nD} (dat : Dat τ (Elt F) Unit ℕ (UR sig nD τ) ℕ cfg8 c) (hA : dat.A 0 = V c (Pipeline.arrRef spec8 0))
    (hafter : ∀ t, dat.after 0 t = iblk8 V c 0 t) (t : Fin cfg8.N) (d) : dat.before 0 t d = iblk8 V c 0 t :=
  (dat.before_in_eq_fetched 0 rfl (fun _ => rfl) (fun _ _ _ => rfl) (fun t => by rw [hafter]; unfold Dat.blockOf iblk8; rw [hA]; try rfl) t d).trans
    (by unfold Dat.fetched Dat.blockOf iblk8; rw [hA]; try rfl)

/-- Input window 1's current staging buffer holds its block at every point, fetched there or not: where it is
    not fetched the block index has not moved, and the body leaves the block in place. -/
theorem before8_1_of {c : Dev nD} (dat : Dat τ (Elt F) Unit ℕ (UR sig nD τ) ℕ cfg8 c) (hA : dat.A 1 = V c (Pipeline.arrRef spec8 1))
    (hafter : ∀ t, dat.after 1 t = iblk8 V c 1 t) (t : Fin cfg8.N) (d) : dat.before 1 t d = iblk8 V c 1 t :=
  (dat.before_in_eq_fetched 1 rfl (fun _ => rfl) (fun _ _ _ => rfl) (fun t => by rw [hafter]; unfold Dat.blockOf iblk8; rw [hA]; try rfl) t d).trans
    (by unfold Dat.fetched Dat.blockOf iblk8; rw [hA]; try rfl)

/-- Input window 2's current staging buffer holds its block at every point, fetched there or not: where it is
    not fetched the block index has not moved, and the body leaves the block in place. -/
theorem before8_2_of {c : Dev nD} (dat : Dat τ (Elt F) Unit ℕ (UR sig nD τ) ℕ cfg8 c) (hA : dat.A 2 = V c (Pipeline.arrRef spec8 2))
    (hafter : ∀ t, dat.after 2 t = iblk8 V c 2 t) (t : Fin cfg8.N) (d) : dat.before 2 t d = iblk8 V c 2 t :=
  (dat.before_in_eq_fetched 2 rfl (fun _ => rfl) (fun _ _ _ => rfl) (fun t => by rw [hafter]; unfold Dat.blockOf iblk8; rw [hA]; try rfl) t d).trans
    (by unfold Dat.fetched Dat.blockOf iblk8; rw [hA]; try rfl)

/-! ## The body's accesses: each staging buffer whole -/

abbrev r8_0 : Rect S1024x1024 := Rect.unit (s := S1024x1024) ![0, 0] S1024x1024.size inb_S1024x1024_S1024x1024_0_0
abbrev r8_1 : Rect S1024x1024 := Rect.unit (s := S1024x1024) ![0, 0] S1024x1024.size inb_S1024x1024_S1024x1024_0_0
abbrev r8_2 : Rect S1x1024 := Rect.unit (s := S1x1024) ![0, 0] S1x1024.size inb_S1x1024_S1x1024_0_0
abbrev r8_3 : Rect S1024x1024 := Rect.unit (s := S1024x1024) ![0, 0] S1024x1024.size inb_S1024x1024_S1024x1024_0_0

/-! ## What the body leaves in the result's buffer -/

/-- The result window's staging buffer after the body, from the three input blocks: its one whole-block store
    of the payload (product into a zero accumulator, plus the bias row, then the format change). -/
def out8_3 (x0 : Vec F S1024x1024 .bf16) (x1 : Vec F S1024x1024 .bf16) (x2 : Vec F S1x1024 .f32) : Vec F S1024x1024 .bf16 :=
  View.canon [⟨r8_3, k8_pay1 (View.ld x0 r8_0) (View.ld x1 r8_1) (View.ld x2 r8_2)⟩]

/-- The one store is the whole buffer, so it covers it. -/
theorem cover8_3 (p0 : Vec F S1024x1024 .bf16) (y : S1024x1024.Idx) :
    ∃ pc ∈ ([⟨r8_3, p0⟩] : List (View.Piece (Elt F) S1024x1024 .bf16)), y ∈ pc.1.set :=
  View.cover_of_tiled [⟨r8_3, p0⟩] S1024x1024.size (by rfl) y

/-! ## The body's triple -/

set_option maxHeartbeats 1000000 in
/-- The kernel body on whole staging memrefs, the inputs' at contents `x0 x1 x2` and the result's at anything, runs
    to the continuation holding the inputs' as they were and the result's at `out8_3` of the inputs'. -/
theorem sound_kernel8 (c : Dev nD) (E : Set ℕ) (i : grid8.Coords)
    (arg0 : Memref sig .tc .vmem S1024x1024 .bf16) (harg0 : arg0.IsWhole) (arg1 : Memref sig .tc .vmem S1024x1024 .bf16) (harg1 : arg1.IsWhole)
    (arg2 : Memref sig .tc .vmem S1x1024 .f32) (harg2 : arg2.IsWhole) (arg3 : Memref sig .tc .vmem S1024x1024 .bf16) (harg3 : arg3.IsWhole)
    (x0 : Vec F S1024x1024 .bf16) (x1 : Vec F S1024x1024 .bf16) (x2 : Vec F S1x1024 .f32) (K : PUnit → sProp 𝕄) :
    iprop(owns (c : Thread nD τ) arg0 fullShare x0 ∗ owns (c : Thread nD τ) arg1 fullShare x1 ∗ owns (c : Thread nD τ) arg2 fullShare x2
        ∗ (∃ d, owns (c : Thread nD τ) arg3 fullShare d)
        ∗ (iprop(owns (c : Thread nD τ) arg0 fullShare x0 ∗ owns (c : Thread nD τ) arg1 fullShare x1 ∗ owns (c : Thread nD τ) arg2 fullShare x2
            ∗ owns (c : Thread nD τ) arg3 fullShare (out8_3 x0 x1 x2)) -∗ K ⟨⟩))
      ⊢ wp frame (wpE (defs₀ (F := F)) Variants.none c none) E (cc8__stage1_kernel i arg0 harg0 arg1 harg1 arg2 harg2 arg3 harg3) K := by
  simp only [cc8__stage1_kernel_eq_skeleton]; unfold cc8__stage1_kernel_skel
  unfold owns
  iintro ⟨⟨%f0, %hf0, H0⟩, ⟨%f1, %hf1, H1⟩, ⟨%f2, %hf2, H2⟩, ⟨%d3, %f3, -, H3⟩, Hk⟩
  subst hf0 hf1 hf2
  sl_exec
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  iexists _; isplitr
  swap; · iexact H3
  ipureintro
  exact View.read_writes_eq_canon _ _ _ (cover8_3 _)

/-! ## The pipeline's proof data -/

/-- The proof data of pipeline 8 on core `c`: the arrays as the region finds them; after the body at point `t`
    each input's buffer at its block and the result's at `out8_3` of the input blocks; the invariant the scoped
    rest and the generator register, untouched; nothing owed; full shares. -/
def dat8 (c : Dev nD) : Dat τ (Elt F) Unit ℕ (UR sig nD τ) ℕ cfg8 c where
  A w := V c (Pipeline.arrRef spec8 w)
  after w t := match w with
    | ⟨0, _⟩ => iblk8 V c 0 t
    | ⟨1, _⟩ => iblk8 V c 1 t
    | ⟨2, _⟩ => iblk8 V c 2 t
    | ⟨3, _⟩ => out8_3 (iblk8 V c 0 t) (iblk8 V c 1 t) (iblk8 V c 2 t)
  Φ _ := Pipeline.ΦA spec8 c
  q _ := fullShare
  owed _ := 0

/-- The proof data's arrays are the region-entry contents. -/
theorem A_eq8 (c : Dev nD) (w : Fin cfg8.W) : (dat8 V c).A w = V c (Pipeline.arrRef spec8 w) := by
  dsimp only [dat8]

/-- What the body leaves, window by window. -/
theorem after8_0 (c : Dev nD) (t : Fin cfg8.N) : (dat8 V c).after 0 t = iblk8 V c 0 t := by dsimp only [dat8]
theorem after8_1 (c : Dev nD) (t : Fin cfg8.N) : (dat8 V c).after 1 t = iblk8 V c 1 t := by dsimp only [dat8]
theorem after8_2 (c : Dev nD) (t : Fin cfg8.N) : (dat8 V c).after 2 t = iblk8 V c 2 t := by dsimp only [dat8]
theorem after8_3 (c : Dev nD) (t : Fin cfg8.N) :
    (dat8 V c).after 3 t = out8_3 (iblk8 V c 0 t) (iblk8 V c 1 t) (iblk8 V c 2 t) := by dsimp only [dat8]

/-- Each input's current staging buffer holds its block at every point, fetched there or not. -/
theorem before8_0 (c : Dev nD) (t : Fin cfg8.N) (d) : (dat8 V c).before 0 t d = iblk8 V c 0 t :=
  before8_0_of V (dat8 V c) (A_eq8 V c 0) (after8_0 V c) t d
theorem before8_1 (c : Dev nD) (t : Fin cfg8.N) (d) : (dat8 V c).before 1 t d = iblk8 V c 1 t :=
  before8_1_of V (dat8 V c) (A_eq8 V c 1) (after8_1 V c) t d
theorem before8_2 (c : Dev nD) (t : Fin cfg8.N) (d) : (dat8 V c).before 2 t d = iblk8 V c 2 t :=
  before8_2_of V (dat8 V c) (A_eq8 V c 2) (after8_2 V c) t d

/-- The invariant is the class's at every point: entering and leaving the region are identities on it. -/
theorem hin8 (c : Dev nD) : (Pipeline.ΦA spec8 c : sProp 𝕄) ⊢ (dat8 V c).Φ 0 := by
  show (Pipeline.ΦA spec8 c : sProp 𝕄) ⊢ Pipeline.ΦA spec8 c
  exact .rfl
theorem hout8 (c : Dev nD) : (dat8 V c).Φ (Fin.last cfg8.N) ⊢ (Pipeline.ΦA spec8 c : sProp 𝕄) := by
  show (Pipeline.ΦA spec8 c : sProp 𝕄) ⊢ Pipeline.ΦA spec8 c
  exact .rfl

/-! ## The body obligation, at a generic point -/

/-- What the body is called with at point `t`, the windows one by one, -/
def bodyPre8 (c : Dev nD) (t : Fin cfg8.N) : sProp 𝕄 :=
  iprop((dat8 V c).Φ t.castSucc ∗ (dat8 V c).owesAt () t.castSucc
    ∗ (∃ d, owns (c : Thread nD τ) (st8_0 t) fullShare ((dat8 V c).before 0 t d))
    ∗ (∃ d, owns (c : Thread nD τ) (st8_1 t) fullShare ((dat8 V c).before 1 t d))
    ∗ (∃ d, owns (c : Thread nD τ) (st8_2 t) fullShare ((dat8 V c).before 2 t d))
    ∗ (∃ d, owns (c : Thread nD τ) (st8_3 t) fullShare ((dat8 V c).before 3 t d)))

/-- and what it returns. -/
def bodyPost8 (c : Dev nD) (t : Fin cfg8.N) : sProp 𝕄 :=
  iprop((dat8 V c).Φ t.succ ∗ (dat8 V c).owesAt () t.succ
    ∗ owns (c : Thread nD τ) (st8_0 t) fullShare ((dat8 V c).after 0 t)
    ∗ owns (c : Thread nD τ) (st8_1 t) fullShare ((dat8 V c).after 1 t)
    ∗ owns (c : Thread nD τ) (st8_2 t) fullShare ((dat8 V c).after 2 t)
    ∗ owns (c : Thread nD τ) (st8_3 t) fullShare ((dat8 V c).after 3 t))

/-- The body at any point: the inputs' memrefs hold their blocks, so the body's triple applies; the invariant and
    the core's debts pass through unread. -/
theorem sound_body8 (c : Dev nD) (t : Fin cfg8.N) :
    bodyPre8 V c t ⊢ wp frame (wpE (defs₀ (F := F)) Variants.none c none) Set.univ (bodyAt8 t) (fun _ => bodyPost8 V c t) := by
  unfold bodyPre8 bodyPost8 bodyAt8
  simp only [before8_0, before8_1, before8_2]
  rw [show (dat8 V c).Φ t.succ = (dat8 V c).Φ t.castSucc from rfl,
    show (dat8 V c).owesAt () t.succ = (dat8 V c).owesAt () t.castSucc from rfl,
    after8_0, after8_1, after8_2, after8_3]
  iintro ⟨HΦ, Ho, ⟨%d0, H0⟩, ⟨%d1, H1⟩, ⟨%d2, H2⟩, ⟨%d3, H3⟩⟩
  iapply (sound_kernel8 c Set.univ _ _ _ _ _ _ _ _ _ (iblk8 V c 0 t) (iblk8 V c 1 t) (iblk8 V c 2 t) _)
  isplitl [H0]; · iexact H0
  isplitl [H1]; · iexact H1
  isplitl [H2]; · iexact H2
  isplitl [H3]; · iexists _; iexact H3
  iintro ⟨H0, H1, H2, H3⟩
  isplitl [HΦ]; · iexact HΦ
  isplitl [Ho]; · iexact Ho
  isplitl [H0]; · iexact H0
  isplitl [H1]; · iexact H1
  isplitl [H2]; · iexact H2
  iexact H3

/-- The library's body obligation, at every point. -/
theorem body_obligation8 (c : Dev nD) : BodyObligation (dat8 (F := F) V c) (defs₀ (F := F)) Variants.none () Set.univ := fun t => by
  rw [bigSep_W8, bigSep_W8]
  exact sound_body8 V c t

end Cert.Kernel.Rg
-- ==== Proof.KB.Reg9.lean ====
/- REGION 9: the adjacency product with a carried accumulator (grid 20 × 10, the reduction step `k = t % 10`). The f32
   accumulator [512x1024] is zeroed when `k = 0`, takes the product of the left operand's block with the right operand's
   rows `k*1024 … k*1024+1023` at every point, and when `k = 9` is read back, the bias row added, the positive part taken, the sum converted to the result's format and stored whole into the
   result's block. Stated at a parameter `V`, the TensorCore's buffer contents when the region is entered: the proof
   data `dat9`, its body obligation, and the invariant's two ends `hin9` / `hout9`; `out9_L_3` / `outsAt9` name what
   the result window holds. -/
import proofs.«181230_j19834158973077_2_alg».proof.Proof.Gen.Kernel.Launch
import proofs.«181230_j19834158973077_2_alg».proof.Proof.Gen.Kernel.Skeleton
import proofs.«181230_j19834158973077_2_alg».proof.Proof.Gen.Kernel.Points
import Idealize.ShloMosaic.Lib.Pipeline.FrameBody
import Idealize.ShloMosaic.Lib.Ring
import Idealize.ShloMosaic.Lib.Tactic

-- membership in a rectangle of full extents recurses once per coordinate of the long axes
set_option maxRecDepth 16384

noncomputable section

namespace Cert.Kernel.Rg

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

/-! # Part 1: the conditionals over the grid, the memrefs, the invariant's split, the blocks -/

/-! ## The body's two conditionals, over the grid

A grid point `t` has coordinates `(m, k)` with `k = t % 10` the reduction step. The accumulator is zeroed when
`k = 0`; the result block is written when `k = 9`. -/

/-- The first conditional's condition (`k = 0`), with the scalar chain that computes it substituted. -/
abbrev zeroC9 (i : grid9.Coords) : Prop :=
  (Scalar.cmpi .ne (Scalar.extui (Scalar.cmpi .eq (BitVec.ofNat 32 (i 1).val) 0#32)) 0#32) = 1#1
/-- It holds exactly at the points ≡ 0 (mod 10): decided over the 200 points. -/
theorem zeroC9_iff : ∀ t : Fin cfg9.N, zeroC9 (grid9.coords t) ↔ t.val % 10 = 0 :=
  (by decide +kernel : ∀ t : Fin grid9.N, zeroC9 (grid9.coords t) ↔ t.val % 10 = 0)

/-- The second conditional's condition (`k = 9`). -/
abbrev flushC9 (i : grid9.Coords) : Prop := k9_cond2 i = 1#1
/-- It holds exactly at the points ≡ 9 (mod 10). -/
theorem flushC9_iff : ∀ t : Fin cfg9.N, flushC9 (grid9.coords t) ↔ t.val % 10 = 9 :=
  (by decide +kernel : ∀ t : Fin grid9.N, flushC9 (grid9.coords t) ↔ t.val % 10 = 9)

/-! ## Where the windows are idle -/

/-- The three input windows are never idle. -/
theorem live9_0 : ∀ t : Fin cfg9.N, cfg9.idle 0 (grid9.coords t) = false := by decide +kernel
theorem live9_1 : ∀ t : Fin cfg9.N, cfg9.idle 1 (grid9.coords t) = false := by decide +kernel
theorem live9_2 : ∀ t : Fin cfg9.N, cfg9.idle 2 (grid9.coords t) = false := by decide +kernel
/-- Away from `k = 9` the result window is idle (the body stores nothing into it) -/
theorem idle9_3 : ∀ t : Fin cfg9.N, ¬flushC9 (grid9.coords t) → cfg9.idle 3 (grid9.coords t) = true := by decide +kernel
/-- and its block is not written back; -/
theorem noFlush9_3 : ∀ t : Fin cfg9.N, ¬flushC9 (grid9.coords t) → (cfg9.win 3).flush t = false := by decide +kernel
/-- at `k = 9` it is live. -/
theorem live9_3 : ∀ t : Fin cfg9.N, flushC9 (grid9.coords t) → cfg9.idle 3 (grid9.coords t) = false := by decide +kernel

/-! ## The memrefs the body is called with -/

/-- Each window's current staging memref at point `t`, and that it is a whole buffer: the left operand's block, -/
abbrev mA9 (t : Fin cfg9.N) : Memref sig .tc .vmem S512x1024 .bf16 := win9_0.stage (cfg9.slots t 0)
abbrev hA9 (t : Fin cfg9.N) : (mA9 t).IsWhole := hstage9_0 ((cfg9.slots t 0).cast nbuf9_0)
/-- the right operand, resident whole, -/
abbrev mB9 (t : Fin cfg9.N) : Memref sig .tc .vmem S10240x1024 .bf16 := win9_1.stage (cfg9.slots t 1)
abbrev hB9 (t : Fin cfg9.N) : (mB9 t).IsWhole := hstage9_1 ((cfg9.slots t 1).cast nbuf9_1)
/-- the bias row, -/
abbrev mC9 (t : Fin cfg9.N) : Memref sig .tc .vmem S1x1024 .f32 := win9_2.stage (cfg9.slots t 2)
abbrev hC9 (t : Fin cfg9.N) : (mC9 t).IsWhole := hstage9_2 ((cfg9.slots t 2).cast nbuf9_2)
/-- the result's block. -/
abbrev mO9 (t : Fin cfg9.N) : Memref sig .tc .vmem S512x1024 .bf16 := win9_3.stage (cfg9.slots t 3)
abbrev hO9 (t : Fin cfg9.N) : (mO9 t).IsWhole := hstage9_3 ((cfg9.slots t 3).cast nbuf9_3)
/-- The accumulator: a whole scoped buffer of the kernel's own, passed beside the windows and carried from point to point. -/
abbrev mS9 : Memref sig .tc .vmem S512x1024 .f32 := Memref.whole cc9_scratch0
/-- The views through which the result buffer's and the accumulator's contents are stated (one of the result's two
    staging buffers: for a covering list of stores the choice does not matter). -/
abbrev vO9 : View sig .tc .vmem S512x1024 .bf16 := (Memref.whole cc9_stg3_0 : Memref sig .tc .vmem S512x1024 .bf16).view
abbrev vS9 : View sig .tc .vmem S512x1024 .f32 := mS9.view

/-! ## The region invariant, with the accumulator split off -/

/-- Every other scoped buffer of the core that is no staging buffer of this region: carried unopened. -/
abbrev rest9 (c : Dev nD) : sProp 𝕄 :=
  Pipeline.scopedRestBut (Ix := Unit) (Name := ℕ) (U := UR sig nD τ) (Lvl := ℕ) (Val := Elt F) spec9 c [cc9_scratch0]

/-- The class's invariant is: the accumulator owned at some contents, the other scoped buffers, the generator
    register at some state. -/
theorem PhiA9_eq (c : Dev nD) :
    (Pipeline.ΦA spec9 c : sProp 𝕄)
      = iprop(iprop((∃ d, owns (c : Thread nD τ) mS9 fullShare d) ∗ rest9 (F := F) c) ∗ (∃ r, prngReg c r)) := by
  unfold Pipeline.ΦA; rw [scopedRest9_split]; simp only [mS9, owns_whole]; try rfl

section Entry
variable (V : (c : Dev nD) → (b : Ref sig .tc) → Buf (Elt F) ((c : Thread nD τ).loc b))

/-! ## The windows' blocks -/

/-- Window `w`'s block at point `t`, read off its array as the region finds it. -/
def iblk9 (c : Dev nD) (w : Fin cfg9.W) (t : Fin cfg9.N) : ((cfg9.win w).xblock (cfg9.grid.coords t)).Idx → Elt F (cfg9.win w).elt :=
  ((cfg9.win w).blk t).view.read (Elt F) (V c (Pipeline.arrRef spec9 w))

/-- An input window's current staging buffer holds its block at every point, fetched there or not (where it is not
    fetched its block index has not moved), for any proof data whose array is `V`'s and whose body leaves the block
    in place. -/
theorem before9_0_of {c : Dev nD} (dat : Dat τ (Elt F) Unit ℕ (UR sig nD τ) ℕ cfg9 c) (hA : dat.A 0 = V c (Pipeline.arrRef spec9 0))
    (hafter : ∀ t, dat.after 0 t = iblk9 V c 0 t) (t : Fin cfg9.N) (d) : dat.before 0 t d = iblk9 V c 0 t :=
  (dat.before_in_eq_fetched 0 rfl (fun _ => rfl) (fun _ _ _ => rfl) (fun t => by rw [hafter]; unfold Dat.blockOf iblk9; rw [hA]; try rfl) t d).trans
    (by unfold Dat.fetched Dat.blockOf iblk9; rw [hA]; try rfl)
theorem before9_1_of {c : Dev nD} (dat : Dat τ (Elt F) Unit ℕ (UR sig nD τ) ℕ cfg9 c) (hA : dat.A 1 = V c (Pipeline.arrRef spec9 1))
    (hafter : ∀ t, dat.after 1 t = iblk9 V c 1 t) (t : Fin cfg9.N) (d) : dat.before 1 t d = iblk9 V c 1 t :=
  (dat.before_in_eq_fetched 1 rfl (fun _ => rfl) (fun _ _ _ => rfl) (fun t => by rw [hafter]; unfold Dat.blockOf iblk9; rw [hA]; try rfl) t d).trans
    (by unfold Dat.fetched Dat.blockOf iblk9; rw [hA]; try rfl)
theorem before9_2_of {c : Dev nD} (dat : Dat τ (Elt F) Unit ℕ (UR sig nD τ) ℕ cfg9 c) (hA : dat.A 2 = V c (Pipeline.arrRef spec9 2))
    (hafter : ∀ t, dat.after 2 t = iblk9 V c 2 t) (t : Fin cfg9.N) (d) : dat.before 2 t d = iblk9 V c 2 t :=
  (dat.before_in_eq_fetched 2 rfl (fun _ => rfl) (fun _ _ _ => rfl) (fun t => by rw [hafter]; unfold Dat.blockOf iblk9; rw [hA]; try rfl) t d).trans
    (by unfold Dat.fetched Dat.blockOf iblk9; rw [hA]; try rfl)

end Entry

/-! # Part 2: the body's run in each of the three control cases -/
/-! ### The control case `k = 0`: the accumulator is stored whole with zeros, then read back, the block product added and the sum stored
   whole again; the result buffer is not touched. -/

-- (the run's proof term is large: the definition's epilogue walks it past the default budget)
set_option maxHeartbeats 1000000 in
/-- The lists of stores, last first, that the body leaves in the result buffer (`L3`) and in the accumulator (`LS`) in
    this case, TOGETHER WITH the proof that on whole memrefs — the three inputs at contents `x0 x1 x2`, the result
    buffer at contents `xi3` handed back as found, the accumulator at anything — the body runs to a
    continuation that holds the inputs as they were, the result buffer as it was and the accumulator with
    `LS` written. The two lists are found by running the body's memory operations in order over named payloads; each
    conditional is decided by the case's hypotheses. -/
noncomputable def runZero9 (c : Dev nD) (i : grid9.Coords) (arg2 : Memref sig .tc .vmem S512x1024 .bf16) (harg2 : arg2.IsWhole) (arg3 : Memref sig .tc .vmem S10240x1024 .bf16) (harg3 : arg3.IsWhole) (arg4 : Memref sig .tc .vmem S1x1024 .f32) (harg4 : arg4.IsWhole) (arg5 : Memref sig .tc .vmem S512x1024 .bf16) (harg5 : arg5.IsWhole) (arg6 : Memref sig .tc .vmem S512x1024 .f32) (harg6 : arg6.IsWhole) (hc0 : zeroC9 i) (hc1 : ¬flushC9 i)
    (x0 : Vec F S512x1024 .bf16) (x1 : Vec F S10240x1024 .bf16) (x2 : Vec F S1x1024 .f32) :
    Σ' (L3 : List (View.Piece (Elt F) S512x1024 .bf16)), { LS : List (View.Piece (Elt F) S512x1024 .f32) //
      ∀ (xi3 : Vec F S512x1024 .bf16) (E : Set ℕ) (K : PUnit → sProp 𝕄),
        iprop(owns (c : Thread nD τ) arg2 fullShare x0 ∗ owns (c : Thread nD τ) arg3 fullShare x1 ∗ owns (c : Thread nD τ) arg4 fullShare x2 ∗ owns (c : Thread nD τ) arg5 fullShare xi3 ∗ (∃ d, owns (c : Thread nD τ) arg6 fullShare d)
            ∗ (iprop(owns (c : Thread nD τ) arg2 fullShare x0 ∗ owns (c : Thread nD τ) arg3 fullShare x1 ∗ owns (c : Thread nD τ) arg4 fullShare x2 ∗ owns (c : Thread nD τ) arg5 fullShare xi3 ∗ (∃ f, arg6.view.loc (c : Thread nD τ) ↦[arg6.view.set]{fullShare} arg6.view.writes (Elt F) f LS)) -∗ K ⟨⟩))
          ⊢ wp frame (wpE (defs₀ (F := F)) Variants.none c none) E (cc9__stage2_kernel i arg2 harg2 arg3 harg3 arg4 harg4 arg5 harg5 arg6 harg6) K } := by
  refine ⟨[], ?_, fun xi3 E K => ?run⟩
  case run =>
    simp only [cc9__stage2_kernel_eq_skeleton]; unfold cc9__stage2_kernel_skel
    unfold owns
    iintro ⟨⟨%f0, %hf0, H0⟩, ⟨%f1, %hf1, H1⟩, ⟨%f2, %hf2, H2⟩, ⟨%f3, %hf3, H3⟩, ⟨%ds, %fs, -, HS⟩, Hk⟩
    obtain rfl := harg2.eq_unread hf0; obtain rfl := harg3.eq_unread hf1; obtain rfl := harg4.eq_unread hf2; obtain rfl := harg5.eq_unread hf3
    sl_exec (disch := first | exact hc0 | exact hc1)
    sl_step
    iapply Hk
    isplitl [H0]
    · iexists _; isplitr; · ipureintro; exact harg2.read_unread _
      iexact H0
    isplitl [H1]
    · iexists _; isplitr; · ipureintro; exact harg3.read_unread _
      iexact H1
    isplitl [H2]
    · iexists _; isplitr; · ipureintro; exact harg4.read_unread _
      iexact H2
    isplitl [H3]
    · iexists _; isplitr; · ipureintro; exact harg5.read_unread _
      iexact H3
    iexists _; iexact HS

/-! ### The control case `0 < k < 9`: the accumulator is read, the block product added and the sum stored whole; the result
   buffer is not touched. -/

-- (the run's proof term is large: the definition's epilogue walks it past the default budget)
set_option maxHeartbeats 1000000 in
/-- The lists of stores, last first, that the body leaves in the result buffer (`L3`) and in the accumulator (`LS`) in
    this case, TOGETHER WITH the proof that on whole memrefs — the three inputs at contents `x0 x1 x2`, the result
    buffer at contents `xi3` handed back as found, the accumulator at the contents `xs` the point before left — the body runs to a
    continuation that holds the inputs as they were, the result buffer as it was and the accumulator with
    `LS` written. The two lists are found by running the body's memory operations in order over named payloads; each
    conditional is decided by the case's hypotheses. -/
noncomputable def runMid9 (c : Dev nD) (i : grid9.Coords) (arg2 : Memref sig .tc .vmem S512x1024 .bf16) (harg2 : arg2.IsWhole) (arg3 : Memref sig .tc .vmem S10240x1024 .bf16) (harg3 : arg3.IsWhole) (arg4 : Memref sig .tc .vmem S1x1024 .f32) (harg4 : arg4.IsWhole) (arg5 : Memref sig .tc .vmem S512x1024 .bf16) (harg5 : arg5.IsWhole) (arg6 : Memref sig .tc .vmem S512x1024 .f32) (harg6 : arg6.IsWhole) (hc0 : ¬zeroC9 i) (hc1 : ¬flushC9 i)
    (x0 : Vec F S512x1024 .bf16) (x1 : Vec F S10240x1024 .bf16) (x2 : Vec F S1x1024 .f32) (xs : Vec F S512x1024 .f32) :
    Σ' (L3 : List (View.Piece (Elt F) S512x1024 .bf16)), { LS : List (View.Piece (Elt F) S512x1024 .f32) //
      ∀ (xi3 : Vec F S512x1024 .bf16) (E : Set ℕ) (K : PUnit → sProp 𝕄),
        iprop(owns (c : Thread nD τ) arg2 fullShare x0 ∗ owns (c : Thread nD τ) arg3 fullShare x1 ∗ owns (c : Thread nD τ) arg4 fullShare x2 ∗ owns (c : Thread nD τ) arg5 fullShare xi3 ∗ owns (c : Thread nD τ) arg6 fullShare xs
            ∗ (iprop(owns (c : Thread nD τ) arg2 fullShare x0 ∗ owns (c : Thread nD τ) arg3 fullShare x1 ∗ owns (c : Thread nD τ) arg4 fullShare x2 ∗ owns (c : Thread nD τ) arg5 fullShare xi3 ∗ (∃ f, arg6.view.loc (c : Thread nD τ) ↦[arg6.view.set]{fullShare} arg6.view.writes (Elt F) f LS)) -∗ K ⟨⟩))
          ⊢ wp frame (wpE (defs₀ (F := F)) Variants.none c none) E (cc9__stage2_kernel i arg2 harg2 arg3 harg3 arg4 harg4 arg5 harg5 arg6 harg6) K } := by
  refine ⟨[], ?_, fun xi3 E K => ?run⟩
  case run =>
    simp only [cc9__stage2_kernel_eq_skeleton]; unfold cc9__stage2_kernel_skel
    unfold owns
    iintro ⟨⟨%f0, %hf0, H0⟩, ⟨%f1, %hf1, H1⟩, ⟨%f2, %hf2, H2⟩, ⟨%f3, %hf3, H3⟩, ⟨%fs, %hfs, HS⟩, Hk⟩
    obtain rfl := harg2.eq_unread hf0; obtain rfl := harg3.eq_unread hf1; obtain rfl := harg4.eq_unread hf2; obtain rfl := harg5.eq_unread hf3; obtain rfl := harg6.eq_unread hfs
    sl_exec (disch := first | exact hc0 | exact hc1)
    sl_step
    iapply Hk
    isplitl [H0]
    · iexists _; isplitr; · ipureintro; exact harg2.read_unread _
      iexact H0
    isplitl [H1]
    · iexists _; isplitr; · ipureintro; exact harg3.read_unread _
      iexact H1
    isplitl [H2]
    · iexists _; isplitr; · ipureintro; exact harg4.read_unread _
      iexact H2
    isplitl [H3]
    · iexists _; isplitr; · ipureintro; exact harg5.read_unread _
      iexact H3
    iexists _; iexact HS

/-! ### The control case `k = 9`: the accumulator is read, the block product added and the sum stored whole; then the accumulator
   is read back, the bias row added, the sum converted to the result's format and stored whole into the result buffer. -/

-- (the run's proof term is large: the definition's epilogue walks it past the default budget)
set_option maxHeartbeats 1000000 in
/-- The lists of stores, last first, that the body leaves in the result buffer (`L3`) and in the accumulator (`LS`) in
    this case, TOGETHER WITH the proof that on whole memrefs — the three inputs at contents `x0 x1 x2`, the result buffer at anything, the accumulator at the contents `xs` the point before left — the body runs to a
    continuation that holds the inputs as they were, the result buffer with `L3` written and the accumulator with
    `LS` written. The two lists are found by running the body's memory operations in order over named payloads; each
    conditional is decided by the case's hypotheses. -/
noncomputable def runLast9 (c : Dev nD) (i : grid9.Coords) (arg2 : Memref sig .tc .vmem S512x1024 .bf16) (harg2 : arg2.IsWhole) (arg3 : Memref sig .tc .vmem S10240x1024 .bf16) (harg3 : arg3.IsWhole) (arg4 : Memref sig .tc .vmem S1x1024 .f32) (harg4 : arg4.IsWhole) (arg5 : Memref sig .tc .vmem S512x1024 .bf16) (harg5 : arg5.IsWhole) (arg6 : Memref sig .tc .vmem S512x1024 .f32) (harg6 : arg6.IsWhole) (hc0 : ¬zeroC9 i) (hc1 : flushC9 i)
    (x0 : Vec F S512x1024 .bf16) (x1 : Vec F S10240x1024 .bf16) (x2 : Vec F S1x1024 .f32) (xs : Vec F S512x1024 .f32) :
    Σ' (L3 : List (View.Piece (Elt F) S512x1024 .bf16)), { LS : List (View.Piece (Elt F) S512x1024 .f32) //
      ∀ (E : Set ℕ) (K : PUnit → sProp 𝕄),
        iprop(owns (c : Thread nD τ) arg2 fullShare x0 ∗ owns (c : Thread nD τ) arg3 fullShare x1 ∗ owns (c : Thread nD τ) arg4 fullShare x2 ∗ (∃ d, owns (c : Thread nD τ) arg5 fullShare d) ∗ owns (c : Thread nD τ) arg6 fullShare xs
            ∗ (iprop(owns (c : Thread nD τ) arg2 fullShare x0 ∗ owns (c : Thread nD τ) arg3 fullShare x1 ∗ owns (c : Thread nD τ) arg4 fullShare x2 ∗ (∃ f, arg5.view.loc (c : Thread nD τ) ↦[arg5.view.set]{fullShare} arg5.view.writes (Elt F) f L3) ∗ (∃ f, arg6.view.loc (c : Thread nD τ) ↦[arg6.view.set]{fullShare} arg6.view.writes (Elt F) f LS)) -∗ K ⟨⟩))
          ⊢ wp frame (wpE (defs₀ (F := F)) Variants.none c none) E (cc9__stage2_kernel i arg2 harg2 arg3 harg3 arg4 harg4 arg5 harg5 arg6 harg6) K } := by
  refine ⟨?_, ?_, fun E K => ?run⟩
  case run =>
    simp only [cc9__stage2_kernel_eq_skeleton]; unfold cc9__stage2_kernel_skel
    unfold owns
    iintro ⟨⟨%f0, %hf0, H0⟩, ⟨%f1, %hf1, H1⟩, ⟨%f2, %hf2, H2⟩, ⟨%d3, %f3, -, H3⟩, ⟨%fs, %hfs, HS⟩, Hk⟩
    obtain rfl := harg2.eq_unread hf0; obtain rfl := harg3.eq_unread hf1; obtain rfl := harg4.eq_unread hf2; obtain rfl := harg6.eq_unread hfs
    sl_exec (disch := first | exact hc0 | exact hc1)
    sl_step
    iapply Hk
    isplitl [H0]
    · iexists _; isplitr; · ipureintro; exact harg2.read_unread _
      iexact H0
    isplitl [H1]
    · iexists _; isplitr; · ipureintro; exact harg3.read_unread _
      iexact H1
    isplitl [H2]
    · iexists _; isplitr; · ipureintro; exact harg4.read_unread _
      iexact H2
    isplitl [H3]; · iexists _; iexact H3
    iexists _; iexact HS

/-! # Part 3: what each case leaves, point by point; the proof data; the body obligation; the invariant's ends -/

/-! ## What each case leaves

In the cases `k = 0` and `0 < k < 9` nothing is stored into the result buffer: its "contents" below is a placeholder
(no stores read back over junk) that nothing consults, the window being idle and not written back at those points. -/

def out9_Z_3 (c : Dev nD) (i : grid9.Coords) (arg2 : Memref sig .tc .vmem S512x1024 .bf16) (harg2 : arg2.IsWhole) (arg3 : Memref sig .tc .vmem S10240x1024 .bf16) (harg3 : arg3.IsWhole) (arg4 : Memref sig .tc .vmem S1x1024 .f32) (harg4 : arg4.IsWhole) (arg5 : Memref sig .tc .vmem S512x1024 .bf16) (harg5 : arg5.IsWhole) (arg6 : Memref sig .tc .vmem S512x1024 .f32) (harg6 : arg6.IsWhole) (hc0 : zeroC9 i) (hc1 : ¬flushC9 i)
    (x0 : Vec F S512x1024 .bf16) (x1 : Vec F S10240x1024 .bf16) (x2 : Vec F S1x1024 .f32) : Vec F S512x1024 .bf16 :=
  vO9.read (Elt F) (vO9.writes (Elt F) vO9.junk (runZero9 c i arg2 harg2 arg3 harg3 arg4 harg4 arg5 harg5 arg6 harg6 hc0 hc1 x0 x1 x2).1)

/-- At `k = 0` the accumulator's stores (the zero fill, then the first partial sum) cover it. -/
theorem scover9_Z (c : Dev nD) (i : grid9.Coords) (arg2 : Memref sig .tc .vmem S512x1024 .bf16) (harg2 : arg2.IsWhole) (arg3 : Memref sig .tc .vmem S10240x1024 .bf16) (harg3 : arg3.IsWhole) (arg4 : Memref sig .tc .vmem S1x1024 .f32) (harg4 : arg4.IsWhole) (arg5 : Memref sig .tc .vmem S512x1024 .bf16) (harg5 : arg5.IsWhole) (arg6 : Memref sig .tc .vmem S512x1024 .f32) (harg6 : arg6.IsWhole) (hc0 : zeroC9 i) (hc1 : ¬flushC9 i)
    (x0 : Vec F S512x1024 .bf16) (x1 : Vec F S10240x1024 .bf16) (x2 : Vec F S1x1024 .f32) (y : S512x1024.Idx) :
    ∃ pc ∈ (runZero9 c i arg2 harg2 arg3 harg3 arg4 harg4 arg5 harg5 arg6 harg6 hc0 hc1 x0 x1 x2).2.1, y ∈ pc.1.set :=
  View.cover_of_tiledL (runZero9 c i arg2 harg2 arg3 harg3 arg4 harg4 arg5 harg5 arg6 harg6 hc0 hc1 x0 x1 x2).2.1 S512x1024.size (by sl_kernel_rfl) y

/-- What the case `k = 0` leaves in the accumulator: its stores read back. -/
def acc9_Z (c : Dev nD) (i : grid9.Coords) (arg2 : Memref sig .tc .vmem S512x1024 .bf16) (harg2 : arg2.IsWhole) (arg3 : Memref sig .tc .vmem S10240x1024 .bf16) (harg3 : arg3.IsWhole) (arg4 : Memref sig .tc .vmem S1x1024 .f32) (harg4 : arg4.IsWhole) (arg5 : Memref sig .tc .vmem S512x1024 .bf16) (harg5 : arg5.IsWhole) (arg6 : Memref sig .tc .vmem S512x1024 .f32) (harg6 : arg6.IsWhole) (hc0 : zeroC9 i) (hc1 : ¬flushC9 i)
    (x0 : Vec F S512x1024 .bf16) (x1 : Vec F S10240x1024 .bf16) (x2 : Vec F S1x1024 .f32) : Vec F S512x1024 .f32 :=
  vS9.read (Elt F) (vS9.writes (Elt F) vS9.junk (runZero9 c i arg2 harg2 arg3 harg3 arg4 harg4 arg5 harg5 arg6 harg6 hc0 hc1 x0 x1 x2).2.1)

def out9_M_3 (c : Dev nD) (i : grid9.Coords) (arg2 : Memref sig .tc .vmem S512x1024 .bf16) (harg2 : arg2.IsWhole) (arg3 : Memref sig .tc .vmem S10240x1024 .bf16) (harg3 : arg3.IsWhole) (arg4 : Memref sig .tc .vmem S1x1024 .f32) (harg4 : arg4.IsWhole) (arg5 : Memref sig .tc .vmem S512x1024 .bf16) (harg5 : arg5.IsWhole) (arg6 : Memref sig .tc .vmem S512x1024 .f32) (harg6 : arg6.IsWhole) (hc0 : ¬zeroC9 i) (hc1 : ¬flushC9 i)
    (x0 : Vec F S512x1024 .bf16) (x1 : Vec F S10240x1024 .bf16) (x2 : Vec F S1x1024 .f32) (xs : Vec F S512x1024 .f32) : Vec F S512x1024 .bf16 :=
  vO9.read (Elt F) (vO9.writes (Elt F) vO9.junk (runMid9 c i arg2 harg2 arg3 harg3 arg4 harg4 arg5 harg5 arg6 harg6 hc0 hc1 x0 x1 x2 xs).1)

/-- For `0 < k < 9` the accumulator's one store covers it. -/
theorem scover9_M (c : Dev nD) (i : grid9.Coords) (arg2 : Memref sig .tc .vmem S512x1024 .bf16) (harg2 : arg2.IsWhole) (arg3 : Memref sig .tc .vmem S10240x1024 .bf16) (harg3 : arg3.IsWhole) (arg4 : Memref sig .tc .vmem S1x1024 .f32) (harg4 : arg4.IsWhole) (arg5 : Memref sig .tc .vmem S512x1024 .bf16) (harg5 : arg5.IsWhole) (arg6 : Memref sig .tc .vmem S512x1024 .f32) (harg6 : arg6.IsWhole) (hc0 : ¬zeroC9 i) (hc1 : ¬flushC9 i)
    (x0 : Vec F S512x1024 .bf16) (x1 : Vec F S10240x1024 .bf16) (x2 : Vec F S1x1024 .f32) (xs : Vec F S512x1024 .f32) (y : S512x1024.Idx) :
    ∃ pc ∈ (runMid9 c i arg2 harg2 arg3 harg3 arg4 harg4 arg5 harg5 arg6 harg6 hc0 hc1 x0 x1 x2 xs).2.1, y ∈ pc.1.set :=
  View.cover_of_tiledL (runMid9 c i arg2 harg2 arg3 harg3 arg4 harg4 arg5 harg5 arg6 harg6 hc0 hc1 x0 x1 x2 xs).2.1 S512x1024.size (by sl_kernel_rfl) y

/-- What the case `0 < k < 9` leaves in the accumulator, over what the point before left (`xs`). -/
def acc9_M (c : Dev nD) (i : grid9.Coords) (arg2 : Memref sig .tc .vmem S512x1024 .bf16) (harg2 : arg2.IsWhole) (arg3 : Memref sig .tc .vmem S10240x1024 .bf16) (harg3 : arg3.IsWhole) (arg4 : Memref sig .tc .vmem S1x1024 .f32) (harg4 : arg4.IsWhole) (arg5 : Memref sig .tc .vmem S512x1024 .bf16) (harg5 : arg5.IsWhole) (arg6 : Memref sig .tc .vmem S512x1024 .f32) (harg6 : arg6.IsWhole) (hc0 : ¬zeroC9 i) (hc1 : ¬flushC9 i)
    (x0 : Vec F S512x1024 .bf16) (x1 : Vec F S10240x1024 .bf16) (x2 : Vec F S1x1024 .f32) (xs : Vec F S512x1024 .f32) : Vec F S512x1024 .f32 :=
  vS9.read (Elt F) (vS9.writes (Elt F) vS9.junk (runMid9 c i arg2 harg2 arg3 harg3 arg4 harg4 arg5 harg5 arg6 harg6 hc0 hc1 x0 x1 x2 xs).2.1)

/-- At `k = 9` the one store into the result buffer covers it. -/
theorem cover9_L_3 (c : Dev nD) (i : grid9.Coords) (arg2 : Memref sig .tc .vmem S512x1024 .bf16) (harg2 : arg2.IsWhole) (arg3 : Memref sig .tc .vmem S10240x1024 .bf16) (harg3 : arg3.IsWhole) (arg4 : Memref sig .tc .vmem S1x1024 .f32) (harg4 : arg4.IsWhole) (arg5 : Memref sig .tc .vmem S512x1024 .bf16) (harg5 : arg5.IsWhole) (arg6 : Memref sig .tc .vmem S512x1024 .f32) (harg6 : arg6.IsWhole) (hc0 : ¬zeroC9 i) (hc1 : flushC9 i)
    (x0 : Vec F S512x1024 .bf16) (x1 : Vec F S10240x1024 .bf16) (x2 : Vec F S1x1024 .f32) (xs : Vec F S512x1024 .f32) (y : S512x1024.Idx) :
    ∃ pc ∈ (runLast9 c i arg2 harg2 arg3 harg3 arg4 harg4 arg5 harg5 arg6 harg6 hc0 hc1 x0 x1 x2 xs).1, y ∈ pc.1.set :=
  View.cover_of_tiledL (runLast9 c i arg2 harg2 arg3 harg3 arg4 harg4 arg5 harg5 arg6 harg6 hc0 hc1 x0 x1 x2 xs).1 S512x1024.size (by sl_kernel_rfl) y

/-- THE RESULT BLOCK: what the case `k = 9` leaves in the result buffer — the accumulated sum plus the bias row, in the
    result's format — as a term of the three input blocks and of the accumulator the point before left. -/
def out9_L_3 (c : Dev nD) (i : grid9.Coords) (arg2 : Memref sig .tc .vmem S512x1024 .bf16) (harg2 : arg2.IsWhole) (arg3 : Memref sig .tc .vmem S10240x1024 .bf16) (harg3 : arg3.IsWhole) (arg4 : Memref sig .tc .vmem S1x1024 .f32) (harg4 : arg4.IsWhole) (arg5 : Memref sig .tc .vmem S512x1024 .bf16) (harg5 : arg5.IsWhole) (arg6 : Memref sig .tc .vmem S512x1024 .f32) (harg6 : arg6.IsWhole) (hc0 : ¬zeroC9 i) (hc1 : flushC9 i)
    (x0 : Vec F S512x1024 .bf16) (x1 : Vec F S10240x1024 .bf16) (x2 : Vec F S1x1024 .f32) (xs : Vec F S512x1024 .f32) : Vec F S512x1024 .bf16 :=
  vO9.read (Elt F) (vO9.writes (Elt F) vO9.junk (runLast9 c i arg2 harg2 arg3 harg3 arg4 harg4 arg5 harg5 arg6 harg6 hc0 hc1 x0 x1 x2 xs).1)

/-- At `k = 9` the accumulator's one store covers it. -/
theorem scover9_L (c : Dev nD) (i : grid9.Coords) (arg2 : Memref sig .tc .vmem S512x1024 .bf16) (harg2 : arg2.IsWhole) (arg3 : Memref sig .tc .vmem S10240x1024 .bf16) (harg3 : arg3.IsWhole) (arg4 : Memref sig .tc .vmem S1x1024 .f32) (harg4 : arg4.IsWhole) (arg5 : Memref sig .tc .vmem S512x1024 .bf16) (harg5 : arg5.IsWhole) (arg6 : Memref sig .tc .vmem S512x1024 .f32) (harg6 : arg6.IsWhole) (hc0 : ¬zeroC9 i) (hc1 : flushC9 i)
    (x0 : Vec F S512x1024 .bf16) (x1 : Vec F S10240x1024 .bf16) (x2 : Vec F S1x1024 .f32) (xs : Vec F S512x1024 .f32) (y : S512x1024.Idx) :
    ∃ pc ∈ (runLast9 c i arg2 harg2 arg3 harg3 arg4 harg4 arg5 harg5 arg6 harg6 hc0 hc1 x0 x1 x2 xs).2.1, y ∈ pc.1.set :=
  View.cover_of_tiledL (runLast9 c i arg2 harg2 arg3 harg3 arg4 harg4 arg5 harg5 arg6 harg6 hc0 hc1 x0 x1 x2 xs).2.1 S512x1024.size (by sl_kernel_rfl) y

/-- What the case `k = 9` leaves in the accumulator. -/
def acc9_L (c : Dev nD) (i : grid9.Coords) (arg2 : Memref sig .tc .vmem S512x1024 .bf16) (harg2 : arg2.IsWhole) (arg3 : Memref sig .tc .vmem S10240x1024 .bf16) (harg3 : arg3.IsWhole) (arg4 : Memref sig .tc .vmem S1x1024 .f32) (harg4 : arg4.IsWhole) (arg5 : Memref sig .tc .vmem S512x1024 .bf16) (harg5 : arg5.IsWhole) (arg6 : Memref sig .tc .vmem S512x1024 .f32) (harg6 : arg6.IsWhole) (hc0 : ¬zeroC9 i) (hc1 : flushC9 i)
    (x0 : Vec F S512x1024 .bf16) (x1 : Vec F S10240x1024 .bf16) (x2 : Vec F S1x1024 .f32) (xs : Vec F S512x1024 .f32) : Vec F S512x1024 .f32 :=
  vS9.read (Elt F) (vS9.writes (Elt F) vS9.junk (runLast9 c i arg2 harg2 arg3 harg3 arg4 harg4 arg5 harg5 arg6 harg6 hc0 hc1 x0 x1 x2 xs).2.1)

section Entry
variable (V : (c : Dev nD) → (b : Ref sig .tc) → Buf (Elt F) ((c : Thread nD τ).loc b))

/-! ## Point by point -/

/-- THE ACCUMULATION. After the body at position `n`: (the result buffer, the accumulator). The case is the one the
    closed forms select at `n`, run on the point's memrefs and input blocks; for `k > 0` the accumulator starts from what
    position `n - 1` left in it. The two conditions cannot hold together. -/
def outsAt9 (c : Dev nD) : (n : ℕ) → n < cfg9.N → Vec F S512x1024 .bf16 × Vec F S512x1024 .f32
  | 0, hn => (out9_Z_3 c (grid9.coords ⟨0, hn⟩) (mA9 ⟨0, hn⟩) (hA9 ⟨0, hn⟩) (mB9 ⟨0, hn⟩) (hB9 ⟨0, hn⟩) (mC9 ⟨0, hn⟩) (hC9 ⟨0, hn⟩) (mO9 ⟨0, hn⟩) (hO9 ⟨0, hn⟩) mS9 (Memref.isWhole_whole _) ((zeroC9_iff ⟨0, hn⟩).mpr (Nat.zero_mod _)) (fun h => (fun h => by (try dsimp only at h); omega) ((flushC9_iff ⟨0, hn⟩).mp h)) (iblk9 V c 0 ⟨0, hn⟩) (iblk9 V c 1 ⟨0, hn⟩) (iblk9 V c 2 ⟨0, hn⟩), acc9_Z c (grid9.coords ⟨0, hn⟩) (mA9 ⟨0, hn⟩) (hA9 ⟨0, hn⟩) (mB9 ⟨0, hn⟩) (hB9 ⟨0, hn⟩) (mC9 ⟨0, hn⟩) (hC9 ⟨0, hn⟩) (mO9 ⟨0, hn⟩) (hO9 ⟨0, hn⟩) mS9 (Memref.isWhole_whole _) ((zeroC9_iff ⟨0, hn⟩).mpr (Nat.zero_mod _)) (fun h => (fun h => by (try dsimp only at h); omega) ((flushC9_iff ⟨0, hn⟩).mp h)) (iblk9 V c 0 ⟨0, hn⟩) (iblk9 V c 1 ⟨0, hn⟩) (iblk9 V c 2 ⟨0, hn⟩))
  | n + 1, hn =>
    if h0 : (n + 1) % 10 = 0 then
      if h1 : (n + 1) % 10 = 9 then
        False.elim (by omega)
      else
        (out9_Z_3 c (grid9.coords ⟨n + 1, hn⟩) (mA9 ⟨n + 1, hn⟩) (hA9 ⟨n + 1, hn⟩) (mB9 ⟨n + 1, hn⟩) (hB9 ⟨n + 1, hn⟩) (mC9 ⟨n + 1, hn⟩) (hC9 ⟨n + 1, hn⟩) (mO9 ⟨n + 1, hn⟩) (hO9 ⟨n + 1, hn⟩) mS9 (Memref.isWhole_whole _) ((zeroC9_iff ⟨n + 1, hn⟩).mpr h0) (fun h => h1 ((flushC9_iff ⟨n + 1, hn⟩).mp h)) (iblk9 V c 0 ⟨n + 1, hn⟩) (iblk9 V c 1 ⟨n + 1, hn⟩) (iblk9 V c 2 ⟨n + 1, hn⟩), acc9_Z c (grid9.coords ⟨n + 1, hn⟩) (mA9 ⟨n + 1, hn⟩) (hA9 ⟨n + 1, hn⟩) (mB9 ⟨n + 1, hn⟩) (hB9 ⟨n + 1, hn⟩) (mC9 ⟨n + 1, hn⟩) (hC9 ⟨n + 1, hn⟩) (mO9 ⟨n + 1, hn⟩) (hO9 ⟨n + 1, hn⟩) mS9 (Memref.isWhole_whole _) ((zeroC9_iff ⟨n + 1, hn⟩).mpr h0) (fun h => h1 ((flushC9_iff ⟨n + 1, hn⟩).mp h)) (iblk9 V c 0 ⟨n + 1, hn⟩) (iblk9 V c 1 ⟨n + 1, hn⟩) (iblk9 V c 2 ⟨n + 1, hn⟩))
    else
      if h1 : (n + 1) % 10 = 9 then
        (out9_L_3 c (grid9.coords ⟨n + 1, hn⟩) (mA9 ⟨n + 1, hn⟩) (hA9 ⟨n + 1, hn⟩) (mB9 ⟨n + 1, hn⟩) (hB9 ⟨n + 1, hn⟩) (mC9 ⟨n + 1, hn⟩) (hC9 ⟨n + 1, hn⟩) (mO9 ⟨n + 1, hn⟩) (hO9 ⟨n + 1, hn⟩) mS9 (Memref.isWhole_whole _) (fun h => h0 ((zeroC9_iff ⟨n + 1, hn⟩).mp h)) ((flushC9_iff ⟨n + 1, hn⟩).mpr h1) (iblk9 V c 0 ⟨n + 1, hn⟩) (iblk9 V c 1 ⟨n + 1, hn⟩) (iblk9 V c 2 ⟨n + 1, hn⟩) (outsAt9 c n (Nat.lt_of_succ_lt hn)).2, acc9_L c (grid9.coords ⟨n + 1, hn⟩) (mA9 ⟨n + 1, hn⟩) (hA9 ⟨n + 1, hn⟩) (mB9 ⟨n + 1, hn⟩) (hB9 ⟨n + 1, hn⟩) (mC9 ⟨n + 1, hn⟩) (hC9 ⟨n + 1, hn⟩) (mO9 ⟨n + 1, hn⟩) (hO9 ⟨n + 1, hn⟩) mS9 (Memref.isWhole_whole _) (fun h => h0 ((zeroC9_iff ⟨n + 1, hn⟩).mp h)) ((flushC9_iff ⟨n + 1, hn⟩).mpr h1) (iblk9 V c 0 ⟨n + 1, hn⟩) (iblk9 V c 1 ⟨n + 1, hn⟩) (iblk9 V c 2 ⟨n + 1, hn⟩) (outsAt9 c n (Nat.lt_of_succ_lt hn)).2)
      else
        (out9_M_3 c (grid9.coords ⟨n + 1, hn⟩) (mA9 ⟨n + 1, hn⟩) (hA9 ⟨n + 1, hn⟩) (mB9 ⟨n + 1, hn⟩) (hB9 ⟨n + 1, hn⟩) (mC9 ⟨n + 1, hn⟩) (hC9 ⟨n + 1, hn⟩) (mO9 ⟨n + 1, hn⟩) (hO9 ⟨n + 1, hn⟩) mS9 (Memref.isWhole_whole _) (fun h => h0 ((zeroC9_iff ⟨n + 1, hn⟩).mp h)) (fun h => h1 ((flushC9_iff ⟨n + 1, hn⟩).mp h)) (iblk9 V c 0 ⟨n + 1, hn⟩) (iblk9 V c 1 ⟨n + 1, hn⟩) (iblk9 V c 2 ⟨n + 1, hn⟩) (outsAt9 c n (Nat.lt_of_succ_lt hn)).2, acc9_M c (grid9.coords ⟨n + 1, hn⟩) (mA9 ⟨n + 1, hn⟩) (hA9 ⟨n + 1, hn⟩) (mB9 ⟨n + 1, hn⟩) (hB9 ⟨n + 1, hn⟩) (mC9 ⟨n + 1, hn⟩) (hC9 ⟨n + 1, hn⟩) (mO9 ⟨n + 1, hn⟩) (hO9 ⟨n + 1, hn⟩) mS9 (Memref.isWhole_whole _) (fun h => h0 ((zeroC9_iff ⟨n + 1, hn⟩).mp h)) (fun h => h1 ((flushC9_iff ⟨n + 1, hn⟩).mp h)) (iblk9 V c 0 ⟨n + 1, hn⟩) (iblk9 V c 1 ⟨n + 1, hn⟩) (iblk9 V c 2 ⟨n + 1, hn⟩) (outsAt9 c n (Nat.lt_of_succ_lt hn)).2)

/-- `outsAt9` at a point with `k = 0`. -/
theorem outsAt9_Z (c : Dev nD) (t : Fin cfg9.N) (h0 : t.val % 10 = 0) (h1 : ¬t.val % 10 = 9) :
    outsAt9 V c t.val t.isLt = (out9_Z_3 c (grid9.coords t) (mA9 t) (hA9 t) (mB9 t) (hB9 t) (mC9 t) (hC9 t) (mO9 t) (hO9 t) mS9 (Memref.isWhole_whole _) ((zeroC9_iff t).mpr h0) (fun h => h1 ((flushC9_iff t).mp h)) (iblk9 V c 0 t) (iblk9 V c 1 t) (iblk9 V c 2 t), acc9_Z c (grid9.coords t) (mA9 t) (hA9 t) (mB9 t) (hB9 t) (mC9 t) (hC9 t) (mO9 t) (hO9 t) mS9 (Memref.isWhole_whole _) ((zeroC9_iff t).mpr h0) (fun h => h1 ((flushC9_iff t).mp h)) (iblk9 V c 0 t) (iblk9 V c 1 t) (iblk9 V c 2 t)) := by
  obtain ⟨n, hn⟩ := t
  cases n with
  | zero => exact rfl
  | succ n => exact (dif_pos h0).trans ((dif_neg h1).trans rfl)

/-- `outsAt9` at a point with `0 < k < 9`: over what the point before left. -/
theorem outsAt9_M (c : Dev nD) (t : Fin cfg9.N) (h0 : ¬t.val % 10 = 0) (h1 : ¬t.val % 10 = 9) :
    outsAt9 V c t.val t.isLt = (out9_M_3 c (grid9.coords t) (mA9 t) (hA9 t) (mB9 t) (hB9 t) (mC9 t) (hC9 t) (mO9 t) (hO9 t) mS9 (Memref.isWhole_whole _) (fun h => h0 ((zeroC9_iff t).mp h)) (fun h => h1 ((flushC9_iff t).mp h)) (iblk9 V c 0 t) (iblk9 V c 1 t) (iblk9 V c 2 t) (outsAt9 V c (t.val - 1) (Nat.lt_of_le_of_lt (Nat.sub_le _ _) t.isLt)).2, acc9_M c (grid9.coords t) (mA9 t) (hA9 t) (mB9 t) (hB9 t) (mC9 t) (hC9 t) (mO9 t) (hO9 t) mS9 (Memref.isWhole_whole _) (fun h => h0 ((zeroC9_iff t).mp h)) (fun h => h1 ((flushC9_iff t).mp h)) (iblk9 V c 0 t) (iblk9 V c 1 t) (iblk9 V c 2 t) (outsAt9 V c (t.val - 1) (Nat.lt_of_le_of_lt (Nat.sub_le _ _) t.isLt)).2) := by
  obtain ⟨n, hn⟩ := t
  cases n with
  | zero => exact (by exfalso; (try dsimp only at h0); exact absurd (Nat.zero_mod _) h0)
  | succ n => exact (dif_neg h0).trans ((dif_neg h1).trans rfl)

/-- `outsAt9` at a point with `k = 9`: over what the point before left. -/
theorem outsAt9_L (c : Dev nD) (t : Fin cfg9.N) (h0 : ¬t.val % 10 = 0) (h1 : t.val % 10 = 9) :
    outsAt9 V c t.val t.isLt = (out9_L_3 c (grid9.coords t) (mA9 t) (hA9 t) (mB9 t) (hB9 t) (mC9 t) (hC9 t) (mO9 t) (hO9 t) mS9 (Memref.isWhole_whole _) (fun h => h0 ((zeroC9_iff t).mp h)) ((flushC9_iff t).mpr h1) (iblk9 V c 0 t) (iblk9 V c 1 t) (iblk9 V c 2 t) (outsAt9 V c (t.val - 1) (Nat.lt_of_le_of_lt (Nat.sub_le _ _) t.isLt)).2, acc9_L c (grid9.coords t) (mA9 t) (hA9 t) (mB9 t) (hB9 t) (mC9 t) (hC9 t) (mO9 t) (hO9 t) mS9 (Memref.isWhole_whole _) (fun h => h0 ((zeroC9_iff t).mp h)) ((flushC9_iff t).mpr h1) (iblk9 V c 0 t) (iblk9 V c 1 t) (iblk9 V c 2 t) (outsAt9 V c (t.val - 1) (Nat.lt_of_le_of_lt (Nat.sub_le _ _) t.isLt)).2) := by
  obtain ⟨n, hn⟩ := t
  cases n with
  | zero => exact (by exfalso; (try dsimp only at h0); exact absurd (Nat.zero_mod _) h0)
  | succ n => exact (dif_neg h0).trans ((dif_pos h1).trans rfl)

/-! ## The invariant -/

/-- The region invariant before position `n`: before the first point the class's (the accumulator at anything);
    afterwards the accumulator at what the point before left in it, the other scoped buffers and the generator
    register as ever. -/
def PhiS9 (c : Dev nD) : (n : ℕ) → n ≤ cfg9.N → sProp 𝕄
  | 0, _ => Pipeline.ΦA spec9 c
  | n + 1, hn => iprop(iprop(owns (c : Thread nD τ) mS9 fullShare ((outsAt9 V c n hn).2) ∗ rest9 (F := F) c) ∗ (∃ r, prngReg c r))

theorem PhiS9_zero (c : Dev nD) (n : ℕ) (h : n ≤ cfg9.N) (hz : n = 0) : PhiS9 V c n h = Pipeline.ΦA spec9 c := by
  subst hz; rfl

theorem PhiS9_succ (c : Dev nD) (n : ℕ) (hn : n < cfg9.N) :
    PhiS9 V c (n + 1) hn = iprop(iprop(owns (c : Thread nD τ) mS9 fullShare ((outsAt9 V c n hn).2) ∗ rest9 (F := F) c) ∗ (∃ r, prngReg c r)) := rfl

theorem PhiS9_pos (c : Dev nD) (n : ℕ) (h : n ≤ cfg9.N) (hz : n ≠ 0) :
    PhiS9 V c n h = iprop(iprop(owns (c : Thread nD τ) mS9 fullShare ((outsAt9 V c (n - 1) (by omega)).2) ∗ rest9 (F := F) c) ∗ (∃ r, prngReg c r)) := by
  cases n with
  | zero => exact absurd rfl hz
  | succ n => rfl

/-! ## The proof data -/

/-- The proof data of region 9's pipeline on core `c`: the arrays as the region finds them; after the body at point
    `t` each input's buffer at its block and the result's at `outsAt9`'s first component; the invariant `PhiS9`;
    nothing owed; full shares. -/
def dat9 (c : Dev nD) : Dat τ (Elt F) Unit ℕ (UR sig nD τ) ℕ cfg9 c where
  A w := V c (Pipeline.arrRef spec9 w)
  after w t := match w with
    | ⟨0, _⟩ => iblk9 V c 0 t
    | ⟨1, _⟩ => iblk9 V c 1 t
    | ⟨2, _⟩ => iblk9 V c 2 t
    | ⟨3, _⟩ => (outsAt9 V c t.val t.isLt).1
  Φ t := PhiS9 V c t.val (Nat.le_of_lt_succ t.isLt)
  q _ := fullShare
  owed _ := 0

/-- The proof data's arrays are the region-entry contents (the definition projected, `V` never unfolded). -/
theorem A_eq9 (c : Dev nD) (w : Fin cfg9.W) : (dat9 V c).A w = V c (Pipeline.arrRef spec9 w) := by
  dsimp only [dat9]

/-- The invariant at a point's start, restated at `t.val`. -/
theorem PhiS9_castSucc (c : Dev nD) (t : Fin cfg9.N) :
    (dat9 V c).Φ t.castSucc = PhiS9 V c t.val (Nat.le_of_lt t.isLt) := by
  dsimp only [dat9]; simp only [Fin.coe_castSucc]

/-- What the body leaves, window by window. -/
theorem after9_0 (c : Dev nD) (t : Fin cfg9.N) : (dat9 V c).after 0 t = iblk9 V c 0 t := by dsimp only [dat9]
theorem after9_1 (c : Dev nD) (t : Fin cfg9.N) : (dat9 V c).after 1 t = iblk9 V c 1 t := by dsimp only [dat9]
theorem after9_2 (c : Dev nD) (t : Fin cfg9.N) : (dat9 V c).after 2 t = iblk9 V c 2 t := by dsimp only [dat9]
theorem after9_3 (c : Dev nD) (t : Fin cfg9.N) : (dat9 V c).after 3 t = (outsAt9 V c t.val t.isLt).1 := by dsimp only [dat9]

/-- Each input's current staging buffer holds its block at every point. -/
theorem before9_0 (c : Dev nD) (t : Fin cfg9.N) (d) : (dat9 V c).before 0 t d = iblk9 V c 0 t :=
  before9_0_of V (dat9 V c) (A_eq9 V c 0) (after9_0 V c) t d
theorem before9_1 (c : Dev nD) (t : Fin cfg9.N) (d) : (dat9 V c).before 1 t d = iblk9 V c 1 t :=
  before9_1_of V (dat9 V c) (A_eq9 V c 1) (after9_1 V c) t d
theorem before9_2 (c : Dev nD) (t : Fin cfg9.N) (d) : (dat9 V c).before 2 t d = iblk9 V c 2 t :=
  before9_2_of V (dat9 V c) (A_eq9 V c 2) (after9_2 V c) t d

/-! ## The body obligation, at a generic point -/

/-- What the body is called with at point `t`, the windows one by one, -/
def bodyPre9 (c : Dev nD) (t : Fin cfg9.N) : sProp 𝕄 :=
  iprop((dat9 V c).Φ t.castSucc ∗ (dat9 V c).owesAt () t.castSucc
    ∗ (∃ d, owns (c : Thread nD τ) (mA9 t) fullShare ((dat9 V c).before 0 t d))
    ∗ (∃ d, owns (c : Thread nD τ) (mB9 t) fullShare ((dat9 V c).before 1 t d))
    ∗ (∃ d, owns (c : Thread nD τ) (mC9 t) fullShare ((dat9 V c).before 2 t d))
    ∗ (∃ d, owns (c : Thread nD τ) (mO9 t) fullShare ((dat9 V c).before 3 t d)))

/-- and what it returns. -/
def bodyPost9 (c : Dev nD) (t : Fin cfg9.N) : sProp 𝕄 :=
  iprop((dat9 V c).Φ t.succ ∗ (dat9 V c).owesAt () t.succ
    ∗ (dat9 V c).leavesExact 0 t
    ∗ (dat9 V c).leavesExact 1 t
    ∗ (dat9 V c).leavesExact 2 t
    ∗ (dat9 V c).leavesExact 3 t)

set_option maxHeartbeats 4800000 in
/-- The body at any point. The inputs' memrefs hold their blocks; the closed forms say which control case the point is
    in, and that case's run applies. The invariant hands the body the accumulator at what the point before left (at
    anything before the first point) and takes it back at this point's contents, its stores covering it; where the
    result window is idle its buffer goes back as found, and at `k = 9` its one store covers it. The other scoped
    buffers, the generator register and what the core owes pass through. -/
theorem sound_body9 (c : Dev nD) (t : Fin cfg9.N) :
    bodyPre9 V c t ⊢ wp frame (wpE (defs₀ (F := F)) Variants.none c none) Set.univ (bodyAt9 t) (fun _ => bodyPost9 V c t) := by
  unfold bodyPre9 bodyPost9 bodyAt9
  simp only [before9_0, before9_1, before9_2]
  rw [show (dat9 V c).owesAt () t.succ = (dat9 V c).owesAt () t.castSucc from rfl]
  rw [show (dat9 V c).Φ t.succ = PhiS9 V c (t.val + 1) t.isLt from rfl, PhiS9_succ]
  rw [show (dat9 V c).leavesExact 0 t = owns (c : Thread nD τ) (mA9 t) fullShare ((dat9 V c).after 0 t) from by
    unfold Dat.leavesExact; rw [live9_0 t], after9_0]
  rw [show (dat9 V c).leavesExact 1 t = owns (c : Thread nD τ) (mB9 t) fullShare ((dat9 V c).after 1 t) from by
    unfold Dat.leavesExact; rw [live9_1 t], after9_1]
  rw [show (dat9 V c).leavesExact 2 t = owns (c : Thread nD τ) (mC9 t) fullShare ((dat9 V c).after 2 t) from by
    unfold Dat.leavesExact; rw [live9_2 t], after9_2]
  have hN : t.val < 200 := lt_of_lt_of_eq t.isLt (show cfg9.N = 200 from N_9)
  by_cases h0 : t.val % 10 = 0
  · by_cases h1 : t.val % 10 = 9
    · exfalso; omega
    · rw [Dat.leavesExact_idle (dat9 V c) 3 t (idle9_3 t (fun h => h1 ((flushC9_iff t).mp h))) (noFlush9_3 t (fun h => h1 ((flushC9_iff t).mp h)))]
      rw [outsAt9_Z V c t h0 h1]
      unfold acc9_Z; (try dsimp only)
      by_cases hz : t.val = 0
      · rw [PhiS9_castSucc V c t, PhiS9_zero V c _ _ hz, PhiA9_eq]
        iintro ⟨⟨⟨HS, Hr⟩, Hg⟩, Ho, ⟨%d0, H0⟩, ⟨%d1, H1⟩, ⟨%d2, H2⟩, ⟨%d3, H3⟩⟩
        iapply ((runZero9 c (grid9.coords t) _ _ _ _ _ _ _ _ _ _ ((zeroC9_iff t).mpr h0) (fun h => h1 ((flushC9_iff t).mp h)) (iblk9 V c 0 t) (iblk9 V c 1 t) (iblk9 V c 2 t)).2.2 _ Set.univ _)
        isplitl [H0]; · iexact H0
        isplitl [H1]; · iexact H1
        isplitl [H2]; · iexact H2
        isplitl [H3]; · iexact H3
        isplitl [HS]; · iexact HS
        iintro ⟨H0, H1, H2, H3, ⟨%es, HS⟩⟩
        isplitl [HS Hr Hg]
        · isplitl [HS Hr]
          · isplitl [HS]
            · unfold owns; iexists _; isplitr
              swap; · iexact HS
              ipureintro; exact View.read_writes_of_cover _ _ _ _ _ (scover9_Z c _ _ _ _ _ _ _ _ _ _ _ _ _ _ _ _)
            iexact Hr
          iexact Hg
        isplitl [Ho]; · iexact Ho
        isplitl [H0]; · iexact H0
        isplitl [H1]; · iexact H1
        isplitl [H2]; · iexact H2
        iexists _; iexact H3
      · rw [PhiS9_castSucc V c t, PhiS9_pos V c _ _ hz]
        iintro ⟨⟨⟨HS, Hr⟩, Hg⟩, Ho, ⟨%d0, H0⟩, ⟨%d1, H1⟩, ⟨%d2, H2⟩, ⟨%d3, H3⟩⟩
        iapply ((runZero9 c (grid9.coords t) _ _ _ _ _ _ _ _ _ _ ((zeroC9_iff t).mpr h0) (fun h => h1 ((flushC9_iff t).mp h)) (iblk9 V c 0 t) (iblk9 V c 1 t) (iblk9 V c 2 t)).2.2 _ Set.univ _)
        isplitl [H0]; · iexact H0
        isplitl [H1]; · iexact H1
        isplitl [H2]; · iexact H2
        isplitl [H3]; · iexact H3
        isplitl [HS]; · iexists _; iexact HS
        iintro ⟨H0, H1, H2, H3, ⟨%es, HS⟩⟩
        isplitl [HS Hr Hg]
        · isplitl [HS Hr]
          · isplitl [HS]
            · unfold owns; iexists _; isplitr
              swap; · iexact HS
              ipureintro; exact View.read_writes_of_cover _ _ _ _ _ (scover9_Z c _ _ _ _ _ _ _ _ _ _ _ _ _ _ _ _)
            iexact Hr
          iexact Hg
        isplitl [Ho]; · iexact Ho
        isplitl [H0]; · iexact H0
        isplitl [H1]; · iexact H1
        isplitl [H2]; · iexact H2
        iexists _; iexact H3
  · have hz : t.val ≠ 0 := fun e => h0 (by rw [e])
    by_cases h1 : t.val % 10 = 9
    · rw [show (dat9 V c).leavesExact 3 t = owns (c : Thread nD τ) (mO9 t) fullShare ((dat9 V c).after 3 t) from by
        unfold Dat.leavesExact; rw [live9_3 t ((flushC9_iff t).mpr h1)], after9_3]
      rw [outsAt9_L V c t h0 h1]
      unfold out9_L_3 acc9_L; (try dsimp only)
      rw [PhiS9_castSucc V c t, PhiS9_pos V c _ _ hz]
      iintro ⟨⟨⟨HS, Hr⟩, Hg⟩, Ho, ⟨%d0, H0⟩, ⟨%d1, H1⟩, ⟨%d2, H2⟩, ⟨%d3, H3⟩⟩
      iapply ((runLast9 c (grid9.coords t) _ _ _ _ _ _ _ _ _ _ (fun h => h0 ((zeroC9_iff t).mp h)) ((flushC9_iff t).mpr h1) (iblk9 V c 0 t) (iblk9 V c 1 t) (iblk9 V c 2 t) _).2.2 Set.univ _)
      isplitl [H0]; · iexact H0
      isplitl [H1]; · iexact H1
      isplitl [H2]; · iexact H2
      isplitl [H3]; · iexists _; iexact H3
      isplitl [HS]; · iexact HS
      iintro ⟨H0, H1, H2, ⟨%e3, H3⟩, ⟨%es, HS⟩⟩
      isplitl [HS Hr Hg]
      · isplitl [HS Hr]
        · isplitl [HS]
          · unfold owns; iexists _; isplitr
            swap; · iexact HS
            ipureintro; exact View.read_writes_of_cover _ _ _ _ _ (scover9_L c _ _ _ _ _ _ _ _ _ _ _ _ _ _ _ _ _)
          iexact Hr
        iexact Hg
      isplitl [Ho]; · iexact Ho
      isplitl [H0]; · iexact H0
      isplitl [H1]; · iexact H1
      isplitl [H2]; · iexact H2
      unfold owns; iexists _; isplitr
      swap; · iexact H3
      ipureintro; exact View.read_writes_of_cover _ _ _ _ _ (cover9_L_3 c _ _ _ _ _ _ _ _ _ _ _ _ _ _ _ _ _)
    · rw [Dat.leavesExact_idle (dat9 V c) 3 t (idle9_3 t (fun h => h1 ((flushC9_iff t).mp h))) (noFlush9_3 t (fun h => h1 ((flushC9_iff t).mp h)))]
      rw [outsAt9_M V c t h0 h1]
      unfold acc9_M; (try dsimp only)
      rw [PhiS9_castSucc V c t, PhiS9_pos V c _ _ hz]
      iintro ⟨⟨⟨HS, Hr⟩, Hg⟩, Ho, ⟨%d0, H0⟩, ⟨%d1, H1⟩, ⟨%d2, H2⟩, ⟨%d3, H3⟩⟩
      iapply ((runMid9 c (grid9.coords t) _ _ _ _ _ _ _ _ _ _ (fun h => h0 ((zeroC9_iff t).mp h)) (fun h => h1 ((flushC9_iff t).mp h)) (iblk9 V c 0 t) (iblk9 V c 1 t) (iblk9 V c 2 t) _).2.2 _ Set.univ _)
      isplitl [H0]; · iexact H0
      isplitl [H1]; · iexact H1
      isplitl [H2]; · iexact H2
      isplitl [H3]; · iexact H3
      isplitl [HS]; · iexact HS
      iintro ⟨H0, H1, H2, H3, ⟨%es, HS⟩⟩
      isplitl [HS Hr Hg]
      · isplitl [HS Hr]
        · isplitl [HS]
          · unfold owns; iexists _; isplitr
            swap; · iexact HS
            ipureintro; exact View.read_writes_of_cover _ _ _ _ _ (scover9_M c _ _ _ _ _ _ _ _ _ _ _ _ _ _ _ _ _)
          iexact Hr
        iexact Hg
      isplitl [Ho]; · iexact Ho
      isplitl [H0]; · iexact H0
      isplitl [H1]; · iexact H1
      isplitl [H2]; · iexact H2
      iexists _; iexact H3

/-- The library's body obligation, at every point. -/
theorem body_obligation9 (c : Dev nD) : BodyObligation (dat9 (F := F) V c) (defs₀ (F := F)) Variants.none () Set.univ := fun t => by
  rw [bigSep_W9, bigSep_W9]
  exact sound_body9 V c t

/-- What the launch hands the region is the invariant before the first point. -/
theorem hin9 (c : Dev nD) : Pipeline.ΦA spec9 c ⊢ (dat9 V c).Φ 0 := by
  rw [show (dat9 V c).Φ 0 = PhiS9 V c 0 (Nat.zero_le _) from rfl, PhiS9_zero V c 0 _ rfl]
  try exact Idealize.SL.BI.Entails.refl _

/-- After any point the invariant gives the class's back: the accumulator's named contents are forgotten. -/
theorem Phi_out9 (c : Dev nD) (t : Fin (cfg9.N + 1)) (ht : t.val ≠ 0) : (dat9 V c).Φ t ⊢ Pipeline.ΦA spec9 c := by
  rw [show (dat9 V c).Φ t = PhiS9 V c t.val (Nat.le_of_lt_succ t.isLt) from rfl, PhiS9_pos V c _ _ ht, PhiA9_eq]
  iintro ⟨⟨HS, Hr⟩, Hg⟩
  isplitl [HS Hr]
  · isplitl [HS]
    · iexists _; iexact HS
    iexact Hr
  iexact Hg

/-- The same after the last point. -/
theorem hout9 (c : Dev nD) : (dat9 V c).Φ (Fin.last cfg9.N) ⊢ Pipeline.ΦA spec9 c :=
  Phi_out9 V c _ (by rw [Fin.val_last]; have : cfg9.N = 200 := N_9; omega)

end Entry

end Cert.Kernel.Rg

end
-- ==== Proof.KB.Reg10.lean ====
/- Stage-1 region 10 (custom_call 10): the per-region half of the frame argument, at the buffer
   contents `V` found when the region is entered. One row block of the left operand times the whole
   right operand, plus the bias row, written to the result's row block. -/
import proofs.«181230_j19834158973077_2_alg».proof.Proof.Gen.Kernel.Launch
import proofs.«181230_j19834158973077_2_alg».proof.Proof.Gen.Kernel.Skeleton
import proofs.«181230_j19834158973077_2_alg».proof.Proof.Gen.Kernel.Points
import Idealize.ShloMosaic.Lib.Pipeline.FrameBody
import Idealize.ShloMosaic.Lib.Ring
import Idealize.ShloMosaic.Lib.Tactic

-- membership in a rectangle of full extents recurses once per coordinate of the long axes
set_option maxRecDepth 16384

noncomputable section

namespace Cert.Kernel.Rg

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

-- the TensorCore's buffer contents when the region is entered
variable (V : (c : Dev nD) → (b : Ref sig .tc) → Buf (Elt F) ((c : Thread nD τ).loc b))

/-! ## The windows' blocks -/

/-- Window `w`'s block at point `t`, read off its array as the region finds it. -/
def iblk10 (c : Dev nD) (w : Fin cfg10.W) (t : Fin cfg10.N) : ((cfg10.win w).xblock (cfg10.grid.coords t)).Idx → Elt F (cfg10.win w).elt :=
  ((cfg10.win w).blk t).view.read (Elt F) (V c (Pipeline.arrRef spec10 w))

/-- Input window 0's current staging buffer holds its block at every point, fetched there or not: where it is
    not fetched the block index has not moved, and the body leaves the block in place. -/
theorem before10_0_of {c : Dev nD} (dat : Dat τ (Elt F) Unit ℕ (UR sig nD τ) ℕ cfg10 c) (hA : dat.A 0 = V c (Pipeline.arrRef spec10 0))
    (hafter : ∀ t, dat.after 0 t = iblk10 V c 0 t) (t : Fin cfg10.N) (d) : dat.before 0 t d = iblk10 V c 0 t :=
  (dat.before_in_eq_fetched 0 rfl (fun _ => rfl) (fun _ _ _ => rfl) (fun t => by rw [hafter]; unfold Dat.blockOf iblk10; rw [hA]; try rfl) t d).trans
    (by unfold Dat.fetched Dat.blockOf iblk10; rw [hA]; try rfl)

/-- Input window 1's current staging buffer holds its block at every point, fetched there or not: where it is
    not fetched the block index has not moved, and the body leaves the block in place. -/
theorem before10_1_of {c : Dev nD} (dat : Dat τ (Elt F) Unit ℕ (UR sig nD τ) ℕ cfg10 c) (hA : dat.A 1 = V c (Pipeline.arrRef spec10 1))
    (hafter : ∀ t, dat.after 1 t = iblk10 V c 1 t) (t : Fin cfg10.N) (d) : dat.before 1 t d = iblk10 V c 1 t :=
  (dat.before_in_eq_fetched 1 rfl (fun _ => rfl) (fun _ _ _ => rfl) (fun t => by rw [hafter]; unfold Dat.blockOf iblk10; rw [hA]; try rfl) t d).trans
    (by unfold Dat.fetched Dat.blockOf iblk10; rw [hA]; try rfl)

/-- Input window 2's current staging buffer holds its block at every point, fetched there or not: where it is
    not fetched the block index has not moved, and the body leaves the block in place. -/
theorem before10_2_of {c : Dev nD} (dat : Dat τ (Elt F) Unit ℕ (UR sig nD τ) ℕ cfg10 c) (hA : dat.A 2 = V c (Pipeline.arrRef spec10 2))
    (hafter : ∀ t, dat.after 2 t = iblk10 V c 2 t) (t : Fin cfg10.N) (d) : dat.before 2 t d = iblk10 V c 2 t :=
  (dat.before_in_eq_fetched 2 rfl (fun _ => rfl) (fun _ _ _ => rfl) (fun t => by rw [hafter]; unfold Dat.blockOf iblk10; rw [hA]; try rfl) t d).trans
    (by unfold Dat.fetched Dat.blockOf iblk10; rw [hA]; try rfl)

/-! ## The body's accesses: each staging buffer whole -/

abbrev r10_0 : Rect S1024x1024 := Rect.unit (s := S1024x1024) ![0, 0] S1024x1024.size inb_S1024x1024_S1024x1024_0_0
abbrev r10_1 : Rect S1024x1024 := Rect.unit (s := S1024x1024) ![0, 0] S1024x1024.size inb_S1024x1024_S1024x1024_0_0
abbrev r10_2 : Rect S1x1024 := Rect.unit (s := S1x1024) ![0, 0] S1x1024.size inb_S1x1024_S1x1024_0_0
abbrev r10_3 : Rect S1024x1024 := Rect.unit (s := S1024x1024) ![0, 0] S1024x1024.size inb_S1024x1024_S1024x1024_0_0

/-! ## What the body leaves in the result's buffer -/

/-- The result window's staging buffer after the body, from the three input blocks: its one whole-block store
    of the payload (product into a zero accumulator, plus the bias row, then the format change). -/
def out10_3 (x0 : Vec F S1024x1024 .bf16) (x1 : Vec F S1024x1024 .bf16) (x2 : Vec F S1x1024 .f32) : Vec F S1024x1024 .bf16 :=
  View.canon [⟨r10_3, k10_pay1 (View.ld x0 r10_0) (View.ld x1 r10_1) (View.ld x2 r10_2)⟩]

/-- The one store is the whole buffer, so it covers it. -/
theorem cover10_3 (p0 : Vec F S1024x1024 .bf16) (y : S1024x1024.Idx) :
    ∃ pc ∈ ([⟨r10_3, p0⟩] : List (View.Piece (Elt F) S1024x1024 .bf16)), y ∈ pc.1.set :=
  View.cover_of_tiled [⟨r10_3, p0⟩] S1024x1024.size (by rfl) y

/-! ## The body's triple -/

set_option maxHeartbeats 1000000 in
/-- The kernel body on whole staging memrefs, the inputs' at contents `x0 x1 x2` and the result's at anything, runs
    to the continuation holding the inputs' as they were and the result's at `out10_3` of the inputs'. -/
theorem sound_kernel10 (c : Dev nD) (E : Set ℕ) (i : grid10.Coords)
    (arg0 : Memref sig .tc .vmem S1024x1024 .bf16) (harg0 : arg0.IsWhole) (arg1 : Memref sig .tc .vmem S1024x1024 .bf16) (harg1 : arg1.IsWhole)
    (arg2 : Memref sig .tc .vmem S1x1024 .f32) (harg2 : arg2.IsWhole) (arg3 : Memref sig .tc .vmem S1024x1024 .bf16) (harg3 : arg3.IsWhole)
    (x0 : Vec F S1024x1024 .bf16) (x1 : Vec F S1024x1024 .bf16) (x2 : Vec F S1x1024 .f32) (K : PUnit → sProp 𝕄) :
    iprop(owns (c : Thread nD τ) arg0 fullShare x0 ∗ owns (c : Thread nD τ) arg1 fullShare x1 ∗ owns (c : Thread nD τ) arg2 fullShare x2
        ∗ (∃ d, owns (c : Thread nD τ) arg3 fullShare d)
        ∗ (iprop(owns (c : Thread nD τ) arg0 fullShare x0 ∗ owns (c : Thread nD τ) arg1 fullShare x1 ∗ owns (c : Thread nD τ) arg2 fullShare x2
            ∗ owns (c : Thread nD τ) arg3 fullShare (out10_3 x0 x1 x2)) -∗ K ⟨⟩))
      ⊢ wp frame (wpE (defs₀ (F := F)) Variants.none c none) E (cc10__stage1_kernel i arg0 harg0 arg1 harg1 arg2 harg2 arg3 harg3) K := by
  simp only [cc10__stage1_kernel_eq_skeleton]; unfold cc10__stage1_kernel_skel
  unfold owns
  iintro ⟨⟨%f0, %hf0, H0⟩, ⟨%f1, %hf1, H1⟩, ⟨%f2, %hf2, H2⟩, ⟨%d3, %f3, -, H3⟩, Hk⟩
  subst hf0 hf1 hf2
  sl_exec
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  iexists _; isplitr
  swap; · iexact H3
  ipureintro
  exact View.read_writes_eq_canon _ _ _ (cover10_3 _)

/-! ## The pipeline's proof data -/

/-- The proof data of pipeline 10 on core `c`: the arrays as the region finds them; after the body at point `t`
    each input's buffer at its block and the result's at `out10_3` of the input blocks; the invariant the scoped
    rest and the generator register, untouched; nothing owed; full shares. -/
def dat10 (c : Dev nD) : Dat τ (Elt F) Unit ℕ (UR sig nD τ) ℕ cfg10 c where
  A w := V c (Pipeline.arrRef spec10 w)
  after w t := match w with
    | ⟨0, _⟩ => iblk10 V c 0 t
    | ⟨1, _⟩ => iblk10 V c 1 t
    | ⟨2, _⟩ => iblk10 V c 2 t
    | ⟨3, _⟩ => out10_3 (iblk10 V c 0 t) (iblk10 V c 1 t) (iblk10 V c 2 t)
  Φ _ := Pipeline.ΦA spec10 c
  q _ := fullShare
  owed _ := 0

/-- The proof data's arrays are the region-entry contents. -/
theorem A_eq10 (c : Dev nD) (w : Fin cfg10.W) : (dat10 V c).A w = V c (Pipeline.arrRef spec10 w) := by
  dsimp only [dat10]

/-- What the body leaves, window by window. -/
theorem after10_0 (c : Dev nD) (t : Fin cfg10.N) : (dat10 V c).after 0 t = iblk10 V c 0 t := by dsimp only [dat10]
theorem after10_1 (c : Dev nD) (t : Fin cfg10.N) : (dat10 V c).after 1 t = iblk10 V c 1 t := by dsimp only [dat10]
theorem after10_2 (c : Dev nD) (t : Fin cfg10.N) : (dat10 V c).after 2 t = iblk10 V c 2 t := by dsimp only [dat10]
theorem after10_3 (c : Dev nD) (t : Fin cfg10.N) :
    (dat10 V c).after 3 t = out10_3 (iblk10 V c 0 t) (iblk10 V c 1 t) (iblk10 V c 2 t) := by dsimp only [dat10]

/-- Each input's current staging buffer holds its block at every point, fetched there or not. -/
theorem before10_0 (c : Dev nD) (t : Fin cfg10.N) (d) : (dat10 V c).before 0 t d = iblk10 V c 0 t :=
  before10_0_of V (dat10 V c) (A_eq10 V c 0) (after10_0 V c) t d
theorem before10_1 (c : Dev nD) (t : Fin cfg10.N) (d) : (dat10 V c).before 1 t d = iblk10 V c 1 t :=
  before10_1_of V (dat10 V c) (A_eq10 V c 1) (after10_1 V c) t d
theorem before10_2 (c : Dev nD) (t : Fin cfg10.N) (d) : (dat10 V c).before 2 t d = iblk10 V c 2 t :=
  before10_2_of V (dat10 V c) (A_eq10 V c 2) (after10_2 V c) t d

/-- The invariant is the class's at every point: entering and leaving the region are identities on it. -/
theorem hin10 (c : Dev nD) : (Pipeline.ΦA spec10 c : sProp 𝕄) ⊢ (dat10 V c).Φ 0 := by
  show (Pipeline.ΦA spec10 c : sProp 𝕄) ⊢ Pipeline.ΦA spec10 c
  exact .rfl
theorem hout10 (c : Dev nD) : (dat10 V c).Φ (Fin.last cfg10.N) ⊢ (Pipeline.ΦA spec10 c : sProp 𝕄) := by
  show (Pipeline.ΦA spec10 c : sProp 𝕄) ⊢ Pipeline.ΦA spec10 c
  exact .rfl

/-! ## The body obligation, at a generic point -/

/-- What the body is called with at point `t`, the windows one by one, -/
def bodyPre10 (c : Dev nD) (t : Fin cfg10.N) : sProp 𝕄 :=
  iprop((dat10 V c).Φ t.castSucc ∗ (dat10 V c).owesAt () t.castSucc
    ∗ (∃ d, owns (c : Thread nD τ) (st10_0 t) fullShare ((dat10 V c).before 0 t d))
    ∗ (∃ d, owns (c : Thread nD τ) (st10_1 t) fullShare ((dat10 V c).before 1 t d))
    ∗ (∃ d, owns (c : Thread nD τ) (st10_2 t) fullShare ((dat10 V c).before 2 t d))
    ∗ (∃ d, owns (c : Thread nD τ) (st10_3 t) fullShare ((dat10 V c).before 3 t d)))

/-- and what it returns. -/
def bodyPost10 (c : Dev nD) (t : Fin cfg10.N) : sProp 𝕄 :=
  iprop((dat10 V c).Φ t.succ ∗ (dat10 V c).owesAt () t.succ
    ∗ owns (c : Thread nD τ) (st10_0 t) fullShare ((dat10 V c).after 0 t)
    ∗ owns (c : Thread nD τ) (st10_1 t) fullShare ((dat10 V c).after 1 t)
    ∗ owns (c : Thread nD τ) (st10_2 t) fullShare ((dat10 V c).after 2 t)
    ∗ owns (c : Thread nD τ) (st10_3 t) fullShare ((dat10 V c).after 3 t))

/-- The body at any point: the inputs' memrefs hold their blocks, so the body's triple applies; the invariant and
    the core's debts pass through unread. -/
theorem sound_body10 (c : Dev nD) (t : Fin cfg10.N) :
    bodyPre10 V c t ⊢ wp frame (wpE (defs₀ (F := F)) Variants.none c none) Set.univ (bodyAt10 t) (fun _ => bodyPost10 V c t) := by
  unfold bodyPre10 bodyPost10 bodyAt10
  simp only [before10_0, before10_1, before10_2]
  rw [show (dat10 V c).Φ t.succ = (dat10 V c).Φ t.castSucc from rfl,
    show (dat10 V c).owesAt () t.succ = (dat10 V c).owesAt () t.castSucc from rfl,
    after10_0, after10_1, after10_2, after10_3]
  iintro ⟨HΦ, Ho, ⟨%d0, H0⟩, ⟨%d1, H1⟩, ⟨%d2, H2⟩, ⟨%d3, H3⟩⟩
  iapply (sound_kernel10 c Set.univ _ _ _ _ _ _ _ _ _ (iblk10 V c 0 t) (iblk10 V c 1 t) (iblk10 V c 2 t) _)
  isplitl [H0]; · iexact H0
  isplitl [H1]; · iexact H1
  isplitl [H2]; · iexact H2
  isplitl [H3]; · iexists _; iexact H3
  iintro ⟨H0, H1, H2, H3⟩
  isplitl [HΦ]; · iexact HΦ
  isplitl [Ho]; · iexact Ho
  isplitl [H0]; · iexact H0
  isplitl [H1]; · iexact H1
  isplitl [H2]; · iexact H2
  iexact H3

/-- The library's body obligation, at every point. -/
theorem body_obligation10 (c : Dev nD) : BodyObligation (dat10 (F := F) V c) (defs₀ (F := F)) Variants.none () Set.univ := fun t => by
  rw [bigSep_W10, bigSep_W10]
  exact sound_body10 V c t

end Cert.Kernel.Rg
-- ==== Proof.KB.Reg11.lean ====
/- REGION 11: the adjacency product with a carried accumulator (grid 20 × 10, the reduction step `k = t % 10`). The f32
   accumulator [512x1024] is zeroed when `k = 0`, takes the product of the left operand's block with the right operand's
   rows `k*1024 … k*1024+1023` at every point, and when `k = 9` is read back, the bias row added, the positive part taken, the sum converted to the result's format and stored whole into the
   result's block. Stated at a parameter `V`, the TensorCore's buffer contents when the region is entered: the proof
   data `dat11`, its body obligation, and the invariant's two ends `hin11` / `hout11`; `out11_L_3` / `outsAt11` name what
   the result window holds. -/
import proofs.«181230_j19834158973077_2_alg».proof.Proof.Gen.Kernel.Launch
import proofs.«181230_j19834158973077_2_alg».proof.Proof.Gen.Kernel.Skeleton
import proofs.«181230_j19834158973077_2_alg».proof.Proof.Gen.Kernel.Points
import Idealize.ShloMosaic.Lib.Pipeline.FrameBody
import Idealize.ShloMosaic.Lib.Ring
import Idealize.ShloMosaic.Lib.Tactic

-- membership in a rectangle of full extents recurses once per coordinate of the long axes
set_option maxRecDepth 16384

noncomputable section

namespace Cert.Kernel.Rg

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

/-! # Part 1: the conditionals over the grid, the memrefs, the invariant's split, the blocks -/

/-! ## The body's two conditionals, over the grid

A grid point `t` has coordinates `(m, k)` with `k = t % 10` the reduction step. The accumulator is zeroed when
`k = 0`; the result block is written when `k = 9`. -/

/-- The first conditional's condition (`k = 0`), with the scalar chain that computes it substituted. -/
abbrev zeroC11 (i : grid11.Coords) : Prop :=
  (Scalar.cmpi .ne (Scalar.extui (Scalar.cmpi .eq (BitVec.ofNat 32 (i 1).val) 0#32)) 0#32) = 1#1
/-- It holds exactly at the points ≡ 0 (mod 10): decided over the 200 points. -/
theorem zeroC11_iff : ∀ t : Fin cfg11.N, zeroC11 (grid11.coords t) ↔ t.val % 10 = 0 :=
  (by decide +kernel : ∀ t : Fin grid11.N, zeroC11 (grid11.coords t) ↔ t.val % 10 = 0)

/-- The second conditional's condition (`k = 9`). -/
abbrev flushC11 (i : grid11.Coords) : Prop := k11_cond2 i = 1#1
/-- It holds exactly at the points ≡ 9 (mod 10). -/
theorem flushC11_iff : ∀ t : Fin cfg11.N, flushC11 (grid11.coords t) ↔ t.val % 10 = 9 :=
  (by decide +kernel : ∀ t : Fin grid11.N, flushC11 (grid11.coords t) ↔ t.val % 10 = 9)

/-! ## Where the windows are idle -/

/-- The three input windows are never idle. -/
theorem live11_0 : ∀ t : Fin cfg11.N, cfg11.idle 0 (grid11.coords t) = false := by decide +kernel
theorem live11_1 : ∀ t : Fin cfg11.N, cfg11.idle 1 (grid11.coords t) = false := by decide +kernel
theorem live11_2 : ∀ t : Fin cfg11.N, cfg11.idle 2 (grid11.coords t) = false := by decide +kernel
/-- Away from `k = 9` the result window is idle (the body stores nothing into it) -/
theorem idle11_3 : ∀ t : Fin cfg11.N, ¬flushC11 (grid11.coords t) → cfg11.idle 3 (grid11.coords t) = true := by decide +kernel
/-- and its block is not written back; -/
theorem noFlush11_3 : ∀ t : Fin cfg11.N, ¬flushC11 (grid11.coords t) → (cfg11.win 3).flush t = false := by decide +kernel
/-- at `k = 9` it is live. -/
theorem live11_3 : ∀ t : Fin cfg11.N, flushC11 (grid11.coords t) → cfg11.idle 3 (grid11.coords t) = false := by decide +kernel

/-! ## The memrefs the body is called with -/

/-- Each window's current staging memref at point `t`, and that it is a whole buffer: the left operand's block, -/
abbrev mA11 (t : Fin cfg11.N) : Memref sig .tc .vmem S512x1024 .bf16 := win11_0.stage (cfg11.slots t 0)
abbrev hA11 (t : Fin cfg11.N) : (mA11 t).IsWhole := hstage11_0 ((cfg11.slots t 0).cast nbuf11_0)
/-- the right operand, resident whole, -/
abbrev mB11 (t : Fin cfg11.N) : Memref sig .tc .vmem S10240x1024 .bf16 := win11_1.stage (cfg11.slots t 1)
abbrev hB11 (t : Fin cfg11.N) : (mB11 t).IsWhole := hstage11_1 ((cfg11.slots t 1).cast nbuf11_1)
/-- the bias row, -/
abbrev mC11 (t : Fin cfg11.N) : Memref sig .tc .vmem S1x1024 .f32 := win11_2.stage (cfg11.slots t 2)
abbrev hC11 (t : Fin cfg11.N) : (mC11 t).IsWhole := hstage11_2 ((cfg11.slots t 2).cast nbuf11_2)
/-- the result's block. -/
abbrev mO11 (t : Fin cfg11.N) : Memref sig .tc .vmem S512x1024 .bf16 := win11_3.stage (cfg11.slots t 3)
abbrev hO11 (t : Fin cfg11.N) : (mO11 t).IsWhole := hstage11_3 ((cfg11.slots t 3).cast nbuf11_3)
/-- The accumulator: a whole scoped buffer of the kernel's own, passed beside the windows and carried from point to point. -/
abbrev mS11 : Memref sig .tc .vmem S512x1024 .f32 := Memref.whole cc11_scratch0
/-- The views through which the result buffer's and the accumulator's contents are stated (one of the result's two
    staging buffers: for a covering list of stores the choice does not matter). -/
abbrev vO11 : View sig .tc .vmem S512x1024 .bf16 := (Memref.whole cc11_stg3_0 : Memref sig .tc .vmem S512x1024 .bf16).view
abbrev vS11 : View sig .tc .vmem S512x1024 .f32 := mS11.view

/-! ## The region invariant, with the accumulator split off -/

/-- Every other scoped buffer of the core that is no staging buffer of this region: carried unopened. -/
abbrev rest11 (c : Dev nD) : sProp 𝕄 :=
  Pipeline.scopedRestBut (Ix := Unit) (Name := ℕ) (U := UR sig nD τ) (Lvl := ℕ) (Val := Elt F) spec11 c [cc11_scratch0]

/-- The class's invariant is: the accumulator owned at some contents, the other scoped buffers, the generator
    register at some state. -/
theorem PhiA11_eq (c : Dev nD) :
    (Pipeline.ΦA spec11 c : sProp 𝕄)
      = iprop(iprop((∃ d, owns (c : Thread nD τ) mS11 fullShare d) ∗ rest11 (F := F) c) ∗ (∃ r, prngReg c r)) := by
  unfold Pipeline.ΦA; rw [scopedRest11_split]; simp only [mS11, owns_whole]; try rfl

section Entry
variable (V : (c : Dev nD) → (b : Ref sig .tc) → Buf (Elt F) ((c : Thread nD τ).loc b))

/-! ## The windows' blocks -/

/-- Window `w`'s block at point `t`, read off its array as the region finds it. -/
def iblk11 (c : Dev nD) (w : Fin cfg11.W) (t : Fin cfg11.N) : ((cfg11.win w).xblock (cfg11.grid.coords t)).Idx → Elt F (cfg11.win w).elt :=
  ((cfg11.win w).blk t).view.read (Elt F) (V c (Pipeline.arrRef spec11 w))

/-- An input window's current staging buffer holds its block at every point, fetched there or not (where it is not
    fetched its block index has not moved), for any proof data whose array is `V`'s and whose body leaves the block
    in place. -/
theorem before11_0_of {c : Dev nD} (dat : Dat τ (Elt F) Unit ℕ (UR sig nD τ) ℕ cfg11 c) (hA : dat.A 0 = V c (Pipeline.arrRef spec11 0))
    (hafter : ∀ t, dat.after 0 t = iblk11 V c 0 t) (t : Fin cfg11.N) (d) : dat.before 0 t d = iblk11 V c 0 t :=
  (dat.before_in_eq_fetched 0 rfl (fun _ => rfl) (fun _ _ _ => rfl) (fun t => by rw [hafter]; unfold Dat.blockOf iblk11; rw [hA]; try rfl) t d).trans
    (by unfold Dat.fetched Dat.blockOf iblk11; rw [hA]; try rfl)
theorem before11_1_of {c : Dev nD} (dat : Dat τ (Elt F) Unit ℕ (UR sig nD τ) ℕ cfg11 c) (hA : dat.A 1 = V c (Pipeline.arrRef spec11 1))
    (hafter : ∀ t, dat.after 1 t = iblk11 V c 1 t) (t : Fin cfg11.N) (d) : dat.before 1 t d = iblk11 V c 1 t :=
  (dat.before_in_eq_fetched 1 rfl (fun _ => rfl) (fun _ _ _ => rfl) (fun t => by rw [hafter]; unfold Dat.blockOf iblk11; rw [hA]; try rfl) t d).trans
    (by unfold Dat.fetched Dat.blockOf iblk11; rw [hA]; try rfl)
theorem before11_2_of {c : Dev nD} (dat : Dat τ (Elt F) Unit ℕ (UR sig nD τ) ℕ cfg11 c) (hA : dat.A 2 = V c (Pipeline.arrRef spec11 2))
    (hafter : ∀ t, dat.after 2 t = iblk11 V c 2 t) (t : Fin cfg11.N) (d) : dat.before 2 t d = iblk11 V c 2 t :=
  (dat.before_in_eq_fetched 2 rfl (fun _ => rfl) (fun _ _ _ => rfl) (fun t => by rw [hafter]; unfold Dat.blockOf iblk11; rw [hA]; try rfl) t d).trans
    (by unfold Dat.fetched Dat.blockOf iblk11; rw [hA]; try rfl)

end Entry

/-! # Part 2: the body's run in each of the three control cases -/
/-! ### The control case `k = 0`: the accumulator is stored whole with zeros, then read back, the block product added and the sum stored
   whole again; the result buffer is not touched. -/

-- (the run's proof term is large: the definition's epilogue walks it past the default budget)
set_option maxHeartbeats 1000000 in
/-- The lists of stores, last first, that the body leaves in the result buffer (`L3`) and in the accumulator (`LS`) in
    this case, TOGETHER WITH the proof that on whole memrefs — the three inputs at contents `x0 x1 x2`, the result
    buffer at contents `xi3` handed back as found, the accumulator at anything — the body runs to a
    continuation that holds the inputs as they were, the result buffer as it was and the accumulator with
    `LS` written. The two lists are found by running the body's memory operations in order over named payloads; each
    conditional is decided by the case's hypotheses. -/
noncomputable def runZero11 (c : Dev nD) (i : grid11.Coords) (arg2 : Memref sig .tc .vmem S512x1024 .bf16) (harg2 : arg2.IsWhole) (arg3 : Memref sig .tc .vmem S10240x1024 .bf16) (harg3 : arg3.IsWhole) (arg4 : Memref sig .tc .vmem S1x1024 .f32) (harg4 : arg4.IsWhole) (arg5 : Memref sig .tc .vmem S512x1024 .bf16) (harg5 : arg5.IsWhole) (arg6 : Memref sig .tc .vmem S512x1024 .f32) (harg6 : arg6.IsWhole) (hc0 : zeroC11 i) (hc1 : ¬flushC11 i)
    (x0 : Vec F S512x1024 .bf16) (x1 : Vec F S10240x1024 .bf16) (x2 : Vec F S1x1024 .f32) :
    Σ' (L3 : List (View.Piece (Elt F) S512x1024 .bf16)), { LS : List (View.Piece (Elt F) S512x1024 .f32) //
      ∀ (xi3 : Vec F S512x1024 .bf16) (E : Set ℕ) (K : PUnit → sProp 𝕄),
        iprop(owns (c : Thread nD τ) arg2 fullShare x0 ∗ owns (c : Thread nD τ) arg3 fullShare x1 ∗ owns (c : Thread nD τ) arg4 fullShare x2 ∗ owns (c : Thread nD τ) arg5 fullShare xi3 ∗ (∃ d, owns (c : Thread nD τ) arg6 fullShare d)
            ∗ (iprop(owns (c : Thread nD τ) arg2 fullShare x0 ∗ owns (c : Thread nD τ) arg3 fullShare x1 ∗ owns (c : Thread nD τ) arg4 fullShare x2 ∗ owns (c : Thread nD τ) arg5 fullShare xi3 ∗ (∃ f, arg6.view.loc (c : Thread nD τ) ↦[arg6.view.set]{fullShare} arg6.view.writes (Elt F) f LS)) -∗ K ⟨⟩))
          ⊢ wp frame (wpE (defs₀ (F := F)) Variants.none c none) E (cc11__stage2_kernel i arg2 harg2 arg3 harg3 arg4 harg4 arg5 harg5 arg6 harg6) K } := by
  refine ⟨[], ?_, fun xi3 E K => ?run⟩
  case run =>
    simp only [cc11__stage2_kernel_eq_skeleton]; unfold cc11__stage2_kernel_skel
    unfold owns
    iintro ⟨⟨%f0, %hf0, H0⟩, ⟨%f1, %hf1, H1⟩, ⟨%f2, %hf2, H2⟩, ⟨%f3, %hf3, H3⟩, ⟨%ds, %fs, -, HS⟩, Hk⟩
    obtain rfl := harg2.eq_unread hf0; obtain rfl := harg3.eq_unread hf1; obtain rfl := harg4.eq_unread hf2; obtain rfl := harg5.eq_unread hf3
    sl_exec (disch := first | exact hc0 | exact hc1)
    sl_step
    iapply Hk
    isplitl [H0]
    · iexists _; isplitr; · ipureintro; exact harg2.read_unread _
      iexact H0
    isplitl [H1]
    · iexists _; isplitr; · ipureintro; exact harg3.read_unread _
      iexact H1
    isplitl [H2]
    · iexists _; isplitr; · ipureintro; exact harg4.read_unread _
      iexact H2
    isplitl [H3]
    · iexists _; isplitr; · ipureintro; exact harg5.read_unread _
      iexact H3
    iexists _; iexact HS

/-! ### The control case `0 < k < 9`: the accumulator is read, the block product added and the sum stored whole; the result
   buffer is not touched. -/

-- (the run's proof term is large: the definition's epilogue walks it past the default budget)
set_option maxHeartbeats 1000000 in
/-- The lists of stores, last first, that the body leaves in the result buffer (`L3`) and in the accumulator (`LS`) in
    this case, TOGETHER WITH the proof that on whole memrefs — the three inputs at contents `x0 x1 x2`, the result
    buffer at contents `xi3` handed back as found, the accumulator at the contents `xs` the point before left — the body runs to a
    continuation that holds the inputs as they were, the result buffer as it was and the accumulator with
    `LS` written. The two lists are found by running the body's memory operations in order over named payloads; each
    conditional is decided by the case's hypotheses. -/
noncomputable def runMid11 (c : Dev nD) (i : grid11.Coords) (arg2 : Memref sig .tc .vmem S512x1024 .bf16) (harg2 : arg2.IsWhole) (arg3 : Memref sig .tc .vmem S10240x1024 .bf16) (harg3 : arg3.IsWhole) (arg4 : Memref sig .tc .vmem S1x1024 .f32) (harg4 : arg4.IsWhole) (arg5 : Memref sig .tc .vmem S512x1024 .bf16) (harg5 : arg5.IsWhole) (arg6 : Memref sig .tc .vmem S512x1024 .f32) (harg6 : arg6.IsWhole) (hc0 : ¬zeroC11 i) (hc1 : ¬flushC11 i)
    (x0 : Vec F S512x1024 .bf16) (x1 : Vec F S10240x1024 .bf16) (x2 : Vec F S1x1024 .f32) (xs : Vec F S512x1024 .f32) :
    Σ' (L3 : List (View.Piece (Elt F) S512x1024 .bf16)), { LS : List (View.Piece (Elt F) S512x1024 .f32) //
      ∀ (xi3 : Vec F S512x1024 .bf16) (E : Set ℕ) (K : PUnit → sProp 𝕄),
        iprop(owns (c : Thread nD τ) arg2 fullShare x0 ∗ owns (c : Thread nD τ) arg3 fullShare x1 ∗ owns (c : Thread nD τ) arg4 fullShare x2 ∗ owns (c : Thread nD τ) arg5 fullShare xi3 ∗ owns (c : Thread nD τ) arg6 fullShare xs
            ∗ (iprop(owns (c : Thread nD τ) arg2 fullShare x0 ∗ owns (c : Thread nD τ) arg3 fullShare x1 ∗ owns (c : Thread nD τ) arg4 fullShare x2 ∗ owns (c : Thread nD τ) arg5 fullShare xi3 ∗ (∃ f, arg6.view.loc (c : Thread nD τ) ↦[arg6.view.set]{fullShare} arg6.view.writes (Elt F) f LS)) -∗ K ⟨⟩))
          ⊢ wp frame (wpE (defs₀ (F := F)) Variants.none c none) E (cc11__stage2_kernel i arg2 harg2 arg3 harg3 arg4 harg4 arg5 harg5 arg6 harg6) K } := by
  refine ⟨[], ?_, fun xi3 E K => ?run⟩
  case run =>
    simp only [cc11__stage2_kernel_eq_skeleton]; unfold cc11__stage2_kernel_skel
    unfold owns
    iintro ⟨⟨%f0, %hf0, H0⟩, ⟨%f1, %hf1, H1⟩, ⟨%f2, %hf2, H2⟩, ⟨%f3, %hf3, H3⟩, ⟨%fs, %hfs, HS⟩, Hk⟩
    obtain rfl := harg2.eq_unread hf0; obtain rfl := harg3.eq_unread hf1; obtain rfl := harg4.eq_unread hf2; obtain rfl := harg5.eq_unread hf3; obtain rfl := harg6.eq_unread hfs
    sl_exec (disch := first | exact hc0 | exact hc1)
    sl_step
    iapply Hk
    isplitl [H0]
    · iexists _; isplitr; · ipureintro; exact harg2.read_unread _
      iexact H0
    isplitl [H1]
    · iexists _; isplitr; · ipureintro; exact harg3.read_unread _
      iexact H1
    isplitl [H2]
    · iexists _; isplitr; · ipureintro; exact harg4.read_unread _
      iexact H2
    isplitl [H3]
    · iexists _; isplitr; · ipureintro; exact harg5.read_unread _
      iexact H3
    iexists _; iexact HS

/-! ### The control case `k = 9`: the accumulator is read, the block product added and the sum stored whole; then the accumulator
   is read back, the bias row added, the sum converted to the result's format and stored whole into the result buffer. -/

-- (the run's proof term is large: the definition's epilogue walks it past the default budget)
set_option maxHeartbeats 1000000 in
/-- The lists of stores, last first, that the body leaves in the result buffer (`L3`) and in the accumulator (`LS`) in
    this case, TOGETHER WITH the proof that on whole memrefs — the three inputs at contents `x0 x1 x2`, the result buffer at anything, the accumulator at the contents `xs` the point before left — the body runs to a
    continuation that holds the inputs as they were, the result buffer with `L3` written and the accumulator with
    `LS` written. The two lists are found by running the body's memory operations in order over named payloads; each
    conditional is decided by the case's hypotheses. -/
noncomputable def runLast11 (c : Dev nD) (i : grid11.Coords) (arg2 : Memref sig .tc .vmem S512x1024 .bf16) (harg2 : arg2.IsWhole) (arg3 : Memref sig .tc .vmem S10240x1024 .bf16) (harg3 : arg3.IsWhole) (arg4 : Memref sig .tc .vmem S1x1024 .f32) (harg4 : arg4.IsWhole) (arg5 : Memref sig .tc .vmem S512x1024 .bf16) (harg5 : arg5.IsWhole) (arg6 : Memref sig .tc .vmem S512x1024 .f32) (harg6 : arg6.IsWhole) (hc0 : ¬zeroC11 i) (hc1 : flushC11 i)
    (x0 : Vec F S512x1024 .bf16) (x1 : Vec F S10240x1024 .bf16) (x2 : Vec F S1x1024 .f32) (xs : Vec F S512x1024 .f32) :
    Σ' (L3 : List (View.Piece (Elt F) S512x1024 .bf16)), { LS : List (View.Piece (Elt F) S512x1024 .f32) //
      ∀ (E : Set ℕ) (K : PUnit → sProp 𝕄),
        iprop(owns (c : Thread nD τ) arg2 fullShare x0 ∗ owns (c : Thread nD τ) arg3 fullShare x1 ∗ owns (c : Thread nD τ) arg4 fullShare x2 ∗ (∃ d, owns (c : Thread nD τ) arg5 fullShare d) ∗ owns (c : Thread nD τ) arg6 fullShare xs
            ∗ (iprop(owns (c : Thread nD τ) arg2 fullShare x0 ∗ owns (c : Thread nD τ) arg3 fullShare x1 ∗ owns (c : Thread nD τ) arg4 fullShare x2 ∗ (∃ f, arg5.view.loc (c : Thread nD τ) ↦[arg5.view.set]{fullShare} arg5.view.writes (Elt F) f L3) ∗ (∃ f, arg6.view.loc (c : Thread nD τ) ↦[arg6.view.set]{fullShare} arg6.view.writes (Elt F) f LS)) -∗ K ⟨⟩))
          ⊢ wp frame (wpE (defs₀ (F := F)) Variants.none c none) E (cc11__stage2_kernel i arg2 harg2 arg3 harg3 arg4 harg4 arg5 harg5 arg6 harg6) K } := by
  refine ⟨?_, ?_, fun E K => ?run⟩
  case run =>
    simp only [cc11__stage2_kernel_eq_skeleton]; unfold cc11__stage2_kernel_skel
    unfold owns
    iintro ⟨⟨%f0, %hf0, H0⟩, ⟨%f1, %hf1, H1⟩, ⟨%f2, %hf2, H2⟩, ⟨%d3, %f3, -, H3⟩, ⟨%fs, %hfs, HS⟩, Hk⟩
    obtain rfl := harg2.eq_unread hf0; obtain rfl := harg3.eq_unread hf1; obtain rfl := harg4.eq_unread hf2; obtain rfl := harg6.eq_unread hfs
    sl_exec (disch := first | exact hc0 | exact hc1)
    sl_step
    iapply Hk
    isplitl [H0]
    · iexists _; isplitr; · ipureintro; exact harg2.read_unread _
      iexact H0
    isplitl [H1]
    · iexists _; isplitr; · ipureintro; exact harg3.read_unread _
      iexact H1
    isplitl [H2]
    · iexists _; isplitr; · ipureintro; exact harg4.read_unread _
      iexact H2
    isplitl [H3]; · iexists _; iexact H3
    iexists _; iexact HS

/-! # Part 3: what each case leaves, point by point; the proof data; the body obligation; the invariant's ends -/

/-! ## What each case leaves

In the cases `k = 0` and `0 < k < 9` nothing is stored into the result buffer: its "contents" below is a placeholder
(no stores read back over junk) that nothing consults, the window being idle and not written back at those points. -/

def out11_Z_3 (c : Dev nD) (i : grid11.Coords) (arg2 : Memref sig .tc .vmem S512x1024 .bf16) (harg2 : arg2.IsWhole) (arg3 : Memref sig .tc .vmem S10240x1024 .bf16) (harg3 : arg3.IsWhole) (arg4 : Memref sig .tc .vmem S1x1024 .f32) (harg4 : arg4.IsWhole) (arg5 : Memref sig .tc .vmem S512x1024 .bf16) (harg5 : arg5.IsWhole) (arg6 : Memref sig .tc .vmem S512x1024 .f32) (harg6 : arg6.IsWhole) (hc0 : zeroC11 i) (hc1 : ¬flushC11 i)
    (x0 : Vec F S512x1024 .bf16) (x1 : Vec F S10240x1024 .bf16) (x2 : Vec F S1x1024 .f32) : Vec F S512x1024 .bf16 :=
  vO11.read (Elt F) (vO11.writes (Elt F) vO11.junk (runZero11 c i arg2 harg2 arg3 harg3 arg4 harg4 arg5 harg5 arg6 harg6 hc0 hc1 x0 x1 x2).1)

/-- At `k = 0` the accumulator's stores (the zero fill, then the first partial sum) cover it. -/
theorem scover11_Z (c : Dev nD) (i : grid11.Coords) (arg2 : Memref sig .tc .vmem S512x1024 .bf16) (harg2 : arg2.IsWhole) (arg3 : Memref sig .tc .vmem S10240x1024 .bf16) (harg3 : arg3.IsWhole) (arg4 : Memref sig .tc .vmem S1x1024 .f32) (harg4 : arg4.IsWhole) (arg5 : Memref sig .tc .vmem S512x1024 .bf16) (harg5 : arg5.IsWhole) (arg6 : Memref sig .tc .vmem S512x1024 .f32) (harg6 : arg6.IsWhole) (hc0 : zeroC11 i) (hc1 : ¬flushC11 i)
    (x0 : Vec F S512x1024 .bf16) (x1 : Vec F S10240x1024 .bf16) (x2 : Vec F S1x1024 .f32) (y : S512x1024.Idx) :
    ∃ pc ∈ (runZero11 c i arg2 harg2 arg3 harg3 arg4 harg4 arg5 harg5 arg6 harg6 hc0 hc1 x0 x1 x2).2.1, y ∈ pc.1.set :=
  View.cover_of_tiledL (runZero11 c i arg2 harg2 arg3 harg3 arg4 harg4 arg5 harg5 arg6 harg6 hc0 hc1 x0 x1 x2).2.1 S512x1024.size (by sl_kernel_rfl) y

/-- What the case `k = 0` leaves in the accumulator: its stores read back. -/
def acc11_Z (c : Dev nD) (i : grid11.Coords) (arg2 : Memref sig .tc .vmem S512x1024 .bf16) (harg2 : arg2.IsWhole) (arg3 : Memref sig .tc .vmem S10240x1024 .bf16) (harg3 : arg3.IsWhole) (arg4 : Memref sig .tc .vmem S1x1024 .f32) (harg4 : arg4.IsWhole) (arg5 : Memref sig .tc .vmem S512x1024 .bf16) (harg5 : arg5.IsWhole) (arg6 : Memref sig .tc .vmem S512x1024 .f32) (harg6 : arg6.IsWhole) (hc0 : zeroC11 i) (hc1 : ¬flushC11 i)
    (x0 : Vec F S512x1024 .bf16) (x1 : Vec F S10240x1024 .bf16) (x2 : Vec F S1x1024 .f32) : Vec F S512x1024 .f32 :=
  vS11.read (Elt F) (vS11.writes (Elt F) vS11.junk (runZero11 c i arg2 harg2 arg3 harg3 arg4 harg4 arg5 harg5 arg6 harg6 hc0 hc1 x0 x1 x2).2.1)

def out11_M_3 (c : Dev nD) (i : grid11.Coords) (arg2 : Memref sig .tc .vmem S512x1024 .bf16) (harg2 : arg2.IsWhole) (arg3 : Memref sig .tc .vmem S10240x1024 .bf16) (harg3 : arg3.IsWhole) (arg4 : Memref sig .tc .vmem S1x1024 .f32) (harg4 : arg4.IsWhole) (arg5 : Memref sig .tc .vmem S512x1024 .bf16) (harg5 : arg5.IsWhole) (arg6 : Memref sig .tc .vmem S512x1024 .f32) (harg6 : arg6.IsWhole) (hc0 : ¬zeroC11 i) (hc1 : ¬flushC11 i)
    (x0 : Vec F S512x1024 .bf16) (x1 : Vec F S10240x1024 .bf16) (x2 : Vec F S1x1024 .f32) (xs : Vec F S512x1024 .f32) : Vec F S512x1024 .bf16 :=
  vO11.read (Elt F) (vO11.writes (Elt F) vO11.junk (runMid11 c i arg2 harg2 arg3 harg3 arg4 harg4 arg5 harg5 arg6 harg6 hc0 hc1 x0 x1 x2 xs).1)

/-- For `0 < k < 9` the accumulator's one store covers it. -/
theorem scover11_M (c : Dev nD) (i : grid11.Coords) (arg2 : Memref sig .tc .vmem S512x1024 .bf16) (harg2 : arg2.IsWhole) (arg3 : Memref sig .tc .vmem S10240x1024 .bf16) (harg3 : arg3.IsWhole) (arg4 : Memref sig .tc .vmem S1x1024 .f32) (harg4 : arg4.IsWhole) (arg5 : Memref sig .tc .vmem S512x1024 .bf16) (harg5 : arg5.IsWhole) (arg6 : Memref sig .tc .vmem S512x1024 .f32) (harg6 : arg6.IsWhole) (hc0 : ¬zeroC11 i) (hc1 : ¬flushC11 i)
    (x0 : Vec F S512x1024 .bf16) (x1 : Vec F S10240x1024 .bf16) (x2 : Vec F S1x1024 .f32) (xs : Vec F S512x1024 .f32) (y : S512x1024.Idx) :
    ∃ pc ∈ (runMid11 c i arg2 harg2 arg3 harg3 arg4 harg4 arg5 harg5 arg6 harg6 hc0 hc1 x0 x1 x2 xs).2.1, y ∈ pc.1.set :=
  View.cover_of_tiledL (runMid11 c i arg2 harg2 arg3 harg3 arg4 harg4 arg5 harg5 arg6 harg6 hc0 hc1 x0 x1 x2 xs).2.1 S512x1024.size (by sl_kernel_rfl) y

/-- What the case `0 < k < 9` leaves in the accumulator, over what the point before left (`xs`). -/
def acc11_M (c : Dev nD) (i : grid11.Coords) (arg2 : Memref sig .tc .vmem S512x1024 .bf16) (harg2 : arg2.IsWhole) (arg3 : Memref sig .tc .vmem S10240x1024 .bf16) (harg3 : arg3.IsWhole) (arg4 : Memref sig .tc .vmem S1x1024 .f32) (harg4 : arg4.IsWhole) (arg5 : Memref sig .tc .vmem S512x1024 .bf16) (harg5 : arg5.IsWhole) (arg6 : Memref sig .tc .vmem S512x1024 .f32) (harg6 : arg6.IsWhole) (hc0 : ¬zeroC11 i) (hc1 : ¬flushC11 i)
    (x0 : Vec F S512x1024 .bf16) (x1 : Vec F S10240x1024 .bf16) (x2 : Vec F S1x1024 .f32) (xs : Vec F S512x1024 .f32) : Vec F S512x1024 .f32 :=
  vS11.read (Elt F) (vS11.writes (Elt F) vS11.junk (runMid11 c i arg2 harg2 arg3 harg3 arg4 harg4 arg5 harg5 arg6 harg6 hc0 hc1 x0 x1 x2 xs).2.1)

/-- At `k = 9` the one store into the result buffer covers it. -/
theorem cover11_L_3 (c : Dev nD) (i : grid11.Coords) (arg2 : Memref sig .tc .vmem S512x1024 .bf16) (harg2 : arg2.IsWhole) (arg3 : Memref sig .tc .vmem S10240x1024 .bf16) (harg3 : arg3.IsWhole) (arg4 : Memref sig .tc .vmem S1x1024 .f32) (harg4 : arg4.IsWhole) (arg5 : Memref sig .tc .vmem S512x1024 .bf16) (harg5 : arg5.IsWhole) (arg6 : Memref sig .tc .vmem S512x1024 .f32) (harg6 : arg6.IsWhole) (hc0 : ¬zeroC11 i) (hc1 : flushC11 i)
    (x0 : Vec F S512x1024 .bf16) (x1 : Vec F S10240x1024 .bf16) (x2 : Vec F S1x1024 .f32) (xs : Vec F S512x1024 .f32) (y : S512x1024.Idx) :
    ∃ pc ∈ (runLast11 c i arg2 harg2 arg3 harg3 arg4 harg4 arg5 harg5 arg6 harg6 hc0 hc1 x0 x1 x2 xs).1, y ∈ pc.1.set :=
  View.cover_of_tiledL (runLast11 c i arg2 harg2 arg3 harg3 arg4 harg4 arg5 harg5 arg6 harg6 hc0 hc1 x0 x1 x2 xs).1 S512x1024.size (by sl_kernel_rfl) y

/-- THE RESULT BLOCK: what the case `k = 9` leaves in the result buffer — the accumulated sum plus the bias row, in the
    result's format — as a term of the three input blocks and of the accumulator the point before left. -/
def out11_L_3 (c : Dev nD) (i : grid11.Coords) (arg2 : Memref sig .tc .vmem S512x1024 .bf16) (harg2 : arg2.IsWhole) (arg3 : Memref sig .tc .vmem S10240x1024 .bf16) (harg3 : arg3.IsWhole) (arg4 : Memref sig .tc .vmem S1x1024 .f32) (harg4 : arg4.IsWhole) (arg5 : Memref sig .tc .vmem S512x1024 .bf16) (harg5 : arg5.IsWhole) (arg6 : Memref sig .tc .vmem S512x1024 .f32) (harg6 : arg6.IsWhole) (hc0 : ¬zeroC11 i) (hc1 : flushC11 i)
    (x0 : Vec F S512x1024 .bf16) (x1 : Vec F S10240x1024 .bf16) (x2 : Vec F S1x1024 .f32) (xs : Vec F S512x1024 .f32) : Vec F S512x1024 .bf16 :=
  vO11.read (Elt F) (vO11.writes (Elt F) vO11.junk (runLast11 c i arg2 harg2 arg3 harg3 arg4 harg4 arg5 harg5 arg6 harg6 hc0 hc1 x0 x1 x2 xs).1)

/-- At `k = 9` the accumulator's one store covers it. -/
theorem scover11_L (c : Dev nD) (i : grid11.Coords) (arg2 : Memref sig .tc .vmem S512x1024 .bf16) (harg2 : arg2.IsWhole) (arg3 : Memref sig .tc .vmem S10240x1024 .bf16) (harg3 : arg3.IsWhole) (arg4 : Memref sig .tc .vmem S1x1024 .f32) (harg4 : arg4.IsWhole) (arg5 : Memref sig .tc .vmem S512x1024 .bf16) (harg5 : arg5.IsWhole) (arg6 : Memref sig .tc .vmem S512x1024 .f32) (harg6 : arg6.IsWhole) (hc0 : ¬zeroC11 i) (hc1 : flushC11 i)
    (x0 : Vec F S512x1024 .bf16) (x1 : Vec F S10240x1024 .bf16) (x2 : Vec F S1x1024 .f32) (xs : Vec F S512x1024 .f32) (y : S512x1024.Idx) :
    ∃ pc ∈ (runLast11 c i arg2 harg2 arg3 harg3 arg4 harg4 arg5 harg5 arg6 harg6 hc0 hc1 x0 x1 x2 xs).2.1, y ∈ pc.1.set :=
  View.cover_of_tiledL (runLast11 c i arg2 harg2 arg3 harg3 arg4 harg4 arg5 harg5 arg6 harg6 hc0 hc1 x0 x1 x2 xs).2.1 S512x1024.size (by sl_kernel_rfl) y

/-- What the case `k = 9` leaves in the accumulator. -/
def acc11_L (c : Dev nD) (i : grid11.Coords) (arg2 : Memref sig .tc .vmem S512x1024 .bf16) (harg2 : arg2.IsWhole) (arg3 : Memref sig .tc .vmem S10240x1024 .bf16) (harg3 : arg3.IsWhole) (arg4 : Memref sig .tc .vmem S1x1024 .f32) (harg4 : arg4.IsWhole) (arg5 : Memref sig .tc .vmem S512x1024 .bf16) (harg5 : arg5.IsWhole) (arg6 : Memref sig .tc .vmem S512x1024 .f32) (harg6 : arg6.IsWhole) (hc0 : ¬zeroC11 i) (hc1 : flushC11 i)
    (x0 : Vec F S512x1024 .bf16) (x1 : Vec F S10240x1024 .bf16) (x2 : Vec F S1x1024 .f32) (xs : Vec F S512x1024 .f32) : Vec F S512x1024 .f32 :=
  vS11.read (Elt F) (vS11.writes (Elt F) vS11.junk (runLast11 c i arg2 harg2 arg3 harg3 arg4 harg4 arg5 harg5 arg6 harg6 hc0 hc1 x0 x1 x2 xs).2.1)

section Entry
variable (V : (c : Dev nD) → (b : Ref sig .tc) → Buf (Elt F) ((c : Thread nD τ).loc b))

/-! ## Point by point -/

/-- THE ACCUMULATION. After the body at position `n`: (the result buffer, the accumulator). The case is the one the
    closed forms select at `n`, run on the point's memrefs and input blocks; for `k > 0` the accumulator starts from what
    position `n - 1` left in it. The two conditions cannot hold together. -/
def outsAt11 (c : Dev nD) : (n : ℕ) → n < cfg11.N → Vec F S512x1024 .bf16 × Vec F S512x1024 .f32
  | 0, hn => (out11_Z_3 c (grid11.coords ⟨0, hn⟩) (mA11 ⟨0, hn⟩) (hA11 ⟨0, hn⟩) (mB11 ⟨0, hn⟩) (hB11 ⟨0, hn⟩) (mC11 ⟨0, hn⟩) (hC11 ⟨0, hn⟩) (mO11 ⟨0, hn⟩) (hO11 ⟨0, hn⟩) mS11 (Memref.isWhole_whole _) ((zeroC11_iff ⟨0, hn⟩).mpr (Nat.zero_mod _)) (fun h => (fun h => by (try dsimp only at h); omega) ((flushC11_iff ⟨0, hn⟩).mp h)) (iblk11 V c 0 ⟨0, hn⟩) (iblk11 V c 1 ⟨0, hn⟩) (iblk11 V c 2 ⟨0, hn⟩), acc11_Z c (grid11.coords ⟨0, hn⟩) (mA11 ⟨0, hn⟩) (hA11 ⟨0, hn⟩) (mB11 ⟨0, hn⟩) (hB11 ⟨0, hn⟩) (mC11 ⟨0, hn⟩) (hC11 ⟨0, hn⟩) (mO11 ⟨0, hn⟩) (hO11 ⟨0, hn⟩) mS11 (Memref.isWhole_whole _) ((zeroC11_iff ⟨0, hn⟩).mpr (Nat.zero_mod _)) (fun h => (fun h => by (try dsimp only at h); omega) ((flushC11_iff ⟨0, hn⟩).mp h)) (iblk11 V c 0 ⟨0, hn⟩) (iblk11 V c 1 ⟨0, hn⟩) (iblk11 V c 2 ⟨0, hn⟩))
  | n + 1, hn =>
    if h0 : (n + 1) % 10 = 0 then
      if h1 : (n + 1) % 10 = 9 then
        False.elim (by omega)
      else
        (out11_Z_3 c (grid11.coords ⟨n + 1, hn⟩) (mA11 ⟨n + 1, hn⟩) (hA11 ⟨n + 1, hn⟩) (mB11 ⟨n + 1, hn⟩) (hB11 ⟨n + 1, hn⟩) (mC11 ⟨n + 1, hn⟩) (hC11 ⟨n + 1, hn⟩) (mO11 ⟨n + 1, hn⟩) (hO11 ⟨n + 1, hn⟩) mS11 (Memref.isWhole_whole _) ((zeroC11_iff ⟨n + 1, hn⟩).mpr h0) (fun h => h1 ((flushC11_iff ⟨n + 1, hn⟩).mp h)) (iblk11 V c 0 ⟨n + 1, hn⟩) (iblk11 V c 1 ⟨n + 1, hn⟩) (iblk11 V c 2 ⟨n + 1, hn⟩), acc11_Z c (grid11.coords ⟨n + 1, hn⟩) (mA11 ⟨n + 1, hn⟩) (hA11 ⟨n + 1, hn⟩) (mB11 ⟨n + 1, hn⟩) (hB11 ⟨n + 1, hn⟩) (mC11 ⟨n + 1, hn⟩) (hC11 ⟨n + 1, hn⟩) (mO11 ⟨n + 1, hn⟩) (hO11 ⟨n + 1, hn⟩) mS11 (Memref.isWhole_whole _) ((zeroC11_iff ⟨n + 1, hn⟩).mpr h0) (fun h => h1 ((flushC11_iff ⟨n + 1, hn⟩).mp h)) (iblk11 V c 0 ⟨n + 1, hn⟩) (iblk11 V c 1 ⟨n + 1, hn⟩) (iblk11 V c 2 ⟨n + 1, hn⟩))
    else
      if h1 : (n + 1) % 10 = 9 then
        (out11_L_3 c (grid11.coords ⟨n + 1, hn⟩) (mA11 ⟨n + 1, hn⟩) (hA11 ⟨n + 1, hn⟩) (mB11 ⟨n + 1, hn⟩) (hB11 ⟨n + 1, hn⟩) (mC11 ⟨n + 1, hn⟩) (hC11 ⟨n + 1, hn⟩) (mO11 ⟨n + 1, hn⟩) (hO11 ⟨n + 1, hn⟩) mS11 (Memref.isWhole_whole _) (fun h => h0 ((zeroC11_iff ⟨n + 1, hn⟩).mp h)) ((flushC11_iff ⟨n + 1, hn⟩).mpr h1) (iblk11 V c 0 ⟨n + 1, hn⟩) (iblk11 V c 1 ⟨n + 1, hn⟩) (iblk11 V c 2 ⟨n + 1, hn⟩) (outsAt11 c n (Nat.lt_of_succ_lt hn)).2, acc11_L c (grid11.coords ⟨n + 1, hn⟩) (mA11 ⟨n + 1, hn⟩) (hA11 ⟨n + 1, hn⟩) (mB11 ⟨n + 1, hn⟩) (hB11 ⟨n + 1, hn⟩) (mC11 ⟨n + 1, hn⟩) (hC11 ⟨n + 1, hn⟩) (mO11 ⟨n + 1, hn⟩) (hO11 ⟨n + 1, hn⟩) mS11 (Memref.isWhole_whole _) (fun h => h0 ((zeroC11_iff ⟨n + 1, hn⟩).mp h)) ((flushC11_iff ⟨n + 1, hn⟩).mpr h1) (iblk11 V c 0 ⟨n + 1, hn⟩) (iblk11 V c 1 ⟨n + 1, hn⟩) (iblk11 V c 2 ⟨n + 1, hn⟩) (outsAt11 c n (Nat.lt_of_succ_lt hn)).2)
      else
        (out11_M_3 c (grid11.coords ⟨n + 1, hn⟩) (mA11 ⟨n + 1, hn⟩) (hA11 ⟨n + 1, hn⟩) (mB11 ⟨n + 1, hn⟩) (hB11 ⟨n + 1, hn⟩) (mC11 ⟨n + 1, hn⟩) (hC11 ⟨n + 1, hn⟩) (mO11 ⟨n + 1, hn⟩) (hO11 ⟨n + 1, hn⟩) mS11 (Memref.isWhole_whole _) (fun h => h0 ((zeroC11_iff ⟨n + 1, hn⟩).mp h)) (fun h => h1 ((flushC11_iff ⟨n + 1, hn⟩).mp h)) (iblk11 V c 0 ⟨n + 1, hn⟩) (iblk11 V c 1 ⟨n + 1, hn⟩) (iblk11 V c 2 ⟨n + 1, hn⟩) (outsAt11 c n (Nat.lt_of_succ_lt hn)).2, acc11_M c (grid11.coords ⟨n + 1, hn⟩) (mA11 ⟨n + 1, hn⟩) (hA11 ⟨n + 1, hn⟩) (mB11 ⟨n + 1, hn⟩) (hB11 ⟨n + 1, hn⟩) (mC11 ⟨n + 1, hn⟩) (hC11 ⟨n + 1, hn⟩) (mO11 ⟨n + 1, hn⟩) (hO11 ⟨n + 1, hn⟩) mS11 (Memref.isWhole_whole _) (fun h => h0 ((zeroC11_iff ⟨n + 1, hn⟩).mp h)) (fun h => h1 ((flushC11_iff ⟨n + 1, hn⟩).mp h)) (iblk11 V c 0 ⟨n + 1, hn⟩) (iblk11 V c 1 ⟨n + 1, hn⟩) (iblk11 V c 2 ⟨n + 1, hn⟩) (outsAt11 c n (Nat.lt_of_succ_lt hn)).2)

/-- `outsAt11` at a point with `k = 0`. -/
theorem outsAt11_Z (c : Dev nD) (t : Fin cfg11.N) (h0 : t.val % 10 = 0) (h1 : ¬t.val % 10 = 9) :
    outsAt11 V c t.val t.isLt = (out11_Z_3 c (grid11.coords t) (mA11 t) (hA11 t) (mB11 t) (hB11 t) (mC11 t) (hC11 t) (mO11 t) (hO11 t) mS11 (Memref.isWhole_whole _) ((zeroC11_iff t).mpr h0) (fun h => h1 ((flushC11_iff t).mp h)) (iblk11 V c 0 t) (iblk11 V c 1 t) (iblk11 V c 2 t), acc11_Z c (grid11.coords t) (mA11 t) (hA11 t) (mB11 t) (hB11 t) (mC11 t) (hC11 t) (mO11 t) (hO11 t) mS11 (Memref.isWhole_whole _) ((zeroC11_iff t).mpr h0) (fun h => h1 ((flushC11_iff t).mp h)) (iblk11 V c 0 t) (iblk11 V c 1 t) (iblk11 V c 2 t)) := by
  obtain ⟨n, hn⟩ := t
  cases n with
  | zero => exact rfl
  | succ n => exact (dif_pos h0).trans ((dif_neg h1).trans rfl)

/-- `outsAt11` at a point with `0 < k < 9`: over what the point before left. -/
theorem outsAt11_M (c : Dev nD) (t : Fin cfg11.N) (h0 : ¬t.val % 10 = 0) (h1 : ¬t.val % 10 = 9) :
    outsAt11 V c t.val t.isLt = (out11_M_3 c (grid11.coords t) (mA11 t) (hA11 t) (mB11 t) (hB11 t) (mC11 t) (hC11 t) (mO11 t) (hO11 t) mS11 (Memref.isWhole_whole _) (fun h => h0 ((zeroC11_iff t).mp h)) (fun h => h1 ((flushC11_iff t).mp h)) (iblk11 V c 0 t) (iblk11 V c 1 t) (iblk11 V c 2 t) (outsAt11 V c (t.val - 1) (Nat.lt_of_le_of_lt (Nat.sub_le _ _) t.isLt)).2, acc11_M c (grid11.coords t) (mA11 t) (hA11 t) (mB11 t) (hB11 t) (mC11 t) (hC11 t) (mO11 t) (hO11 t) mS11 (Memref.isWhole_whole _) (fun h => h0 ((zeroC11_iff t).mp h)) (fun h => h1 ((flushC11_iff t).mp h)) (iblk11 V c 0 t) (iblk11 V c 1 t) (iblk11 V c 2 t) (outsAt11 V c (t.val - 1) (Nat.lt_of_le_of_lt (Nat.sub_le _ _) t.isLt)).2) := by
  obtain ⟨n, hn⟩ := t
  cases n with
  | zero => exact (by exfalso; (try dsimp only at h0); exact absurd (Nat.zero_mod _) h0)
  | succ n => exact (dif_neg h0).trans ((dif_neg h1).trans rfl)

/-- `outsAt11` at a point with `k = 9`: over what the point before left. -/
theorem outsAt11_L (c : Dev nD) (t : Fin cfg11.N) (h0 : ¬t.val % 10 = 0) (h1 : t.val % 10 = 9) :
    outsAt11 V c t.val t.isLt = (out11_L_3 c (grid11.coords t) (mA11 t) (hA11 t) (mB11 t) (hB11 t) (mC11 t) (hC11 t) (mO11 t) (hO11 t) mS11 (Memref.isWhole_whole _) (fun h => h0 ((zeroC11_iff t).mp h)) ((flushC11_iff t).mpr h1) (iblk11 V c 0 t) (iblk11 V c 1 t) (iblk11 V c 2 t) (outsAt11 V c (t.val - 1) (Nat.lt_of_le_of_lt (Nat.sub_le _ _) t.isLt)).2, acc11_L c (grid11.coords t) (mA11 t) (hA11 t) (mB11 t) (hB11 t) (mC11 t) (hC11 t) (mO11 t) (hO11 t) mS11 (Memref.isWhole_whole _) (fun h => h0 ((zeroC11_iff t).mp h)) ((flushC11_iff t).mpr h1) (iblk11 V c 0 t) (iblk11 V c 1 t) (iblk11 V c 2 t) (outsAt11 V c (t.val - 1) (Nat.lt_of_le_of_lt (Nat.sub_le _ _) t.isLt)).2) := by
  obtain ⟨n, hn⟩ := t
  cases n with
  | zero => exact (by exfalso; (try dsimp only at h0); exact absurd (Nat.zero_mod _) h0)
  | succ n => exact (dif_neg h0).trans ((dif_pos h1).trans rfl)

/-! ## The invariant -/

/-- The region invariant before position `n`: before the first point the class's (the accumulator at anything);
    afterwards the accumulator at what the point before left in it, the other scoped buffers and the generator
    register as ever. -/
def PhiS11 (c : Dev nD) : (n : ℕ) → n ≤ cfg11.N → sProp 𝕄
  | 0, _ => Pipeline.ΦA spec11 c
  | n + 1, hn => iprop(iprop(owns (c : Thread nD τ) mS11 fullShare ((outsAt11 V c n hn).2) ∗ rest11 (F := F) c) ∗ (∃ r, prngReg c r))

theorem PhiS11_zero (c : Dev nD) (n : ℕ) (h : n ≤ cfg11.N) (hz : n = 0) : PhiS11 V c n h = Pipeline.ΦA spec11 c := by
  subst hz; rfl

theorem PhiS11_succ (c : Dev nD) (n : ℕ) (hn : n < cfg11.N) :
    PhiS11 V c (n + 1) hn = iprop(iprop(owns (c : Thread nD τ) mS11 fullShare ((outsAt11 V c n hn).2) ∗ rest11 (F := F) c) ∗ (∃ r, prngReg c r)) := rfl

theorem PhiS11_pos (c : Dev nD) (n : ℕ) (h : n ≤ cfg11.N) (hz : n ≠ 0) :
    PhiS11 V c n h = iprop(iprop(owns (c : Thread nD τ) mS11 fullShare ((outsAt11 V c (n - 1) (by omega)).2) ∗ rest11 (F := F) c) ∗ (∃ r, prngReg c r)) := by
  cases n with
  | zero => exact absurd rfl hz
  | succ n => rfl

/-! ## The proof data -/

/-- The proof data of region 11's pipeline on core `c`: the arrays as the region finds them; after the body at point
    `t` each input's buffer at its block and the result's at `outsAt11`'s first component; the invariant `PhiS11`;
    nothing owed; full shares. -/
def dat11 (c : Dev nD) : Dat τ (Elt F) Unit ℕ (UR sig nD τ) ℕ cfg11 c where
  A w := V c (Pipeline.arrRef spec11 w)
  after w t := match w with
    | ⟨0, _⟩ => iblk11 V c 0 t
    | ⟨1, _⟩ => iblk11 V c 1 t
    | ⟨2, _⟩ => iblk11 V c 2 t
    | ⟨3, _⟩ => (outsAt11 V c t.val t.isLt).1
  Φ t := PhiS11 V c t.val (Nat.le_of_lt_succ t.isLt)
  q _ := fullShare
  owed _ := 0

/-- The proof data's arrays are the region-entry contents (the definition projected, `V` never unfolded). -/
theorem A_eq11 (c : Dev nD) (w : Fin cfg11.W) : (dat11 V c).A w = V c (Pipeline.arrRef spec11 w) := by
  dsimp only [dat11]

/-- The invariant at a point's start, restated at `t.val`. -/
theorem PhiS11_castSucc (c : Dev nD) (t : Fin cfg11.N) :
    (dat11 V c).Φ t.castSucc = PhiS11 V c t.val (Nat.le_of_lt t.isLt) := by
  dsimp only [dat11]; simp only [Fin.coe_castSucc]

/-- What the body leaves, window by window. -/
theorem after11_0 (c : Dev nD) (t : Fin cfg11.N) : (dat11 V c).after 0 t = iblk11 V c 0 t := by dsimp only [dat11]
theorem after11_1 (c : Dev nD) (t : Fin cfg11.N) : (dat11 V c).after 1 t = iblk11 V c 1 t := by dsimp only [dat11]
theorem after11_2 (c : Dev nD) (t : Fin cfg11.N) : (dat11 V c).after 2 t = iblk11 V c 2 t := by dsimp only [dat11]
theorem after11_3 (c : Dev nD) (t : Fin cfg11.N) : (dat11 V c).after 3 t = (outsAt11 V c t.val t.isLt).1 := by dsimp only [dat11]

/-- Each input's current staging buffer holds its block at every point. -/
theorem before11_0 (c : Dev nD) (t : Fin cfg11.N) (d) : (dat11 V c).before 0 t d = iblk11 V c 0 t :=
  before11_0_of V (dat11 V c) (A_eq11 V c 0) (after11_0 V c) t d
theorem before11_1 (c : Dev nD) (t : Fin cfg11.N) (d) : (dat11 V c).before 1 t d = iblk11 V c 1 t :=
  before11_1_of V (dat11 V c) (A_eq11 V c 1) (after11_1 V c) t d
theorem before11_2 (c : Dev nD) (t : Fin cfg11.N) (d) : (dat11 V c).before 2 t d = iblk11 V c 2 t :=
  before11_2_of V (dat11 V c) (A_eq11 V c 2) (after11_2 V c) t d

/-! ## The body obligation, at a generic point -/

/-- What the body is called with at point `t`, the windows one by one, -/
def bodyPre11 (c : Dev nD) (t : Fin cfg11.N) : sProp 𝕄 :=
  iprop((dat11 V c).Φ t.castSucc ∗ (dat11 V c).owesAt () t.castSucc
    ∗ (∃ d, owns (c : Thread nD τ) (mA11 t) fullShare ((dat11 V c).before 0 t d))
    ∗ (∃ d, owns (c : Thread nD τ) (mB11 t) fullShare ((dat11 V c).before 1 t d))
    ∗ (∃ d, owns (c : Thread nD τ) (mC11 t) fullShare ((dat11 V c).before 2 t d))
    ∗ (∃ d, owns (c : Thread nD τ) (mO11 t) fullShare ((dat11 V c).before 3 t d)))

/-- and what it returns. -/
def bodyPost11 (c : Dev nD) (t : Fin cfg11.N) : sProp 𝕄 :=
  iprop((dat11 V c).Φ t.succ ∗ (dat11 V c).owesAt () t.succ
    ∗ (dat11 V c).leavesExact 0 t
    ∗ (dat11 V c).leavesExact 1 t
    ∗ (dat11 V c).leavesExact 2 t
    ∗ (dat11 V c).leavesExact 3 t)

set_option maxHeartbeats 4800000 in
/-- The body at any point. The inputs' memrefs hold their blocks; the closed forms say which control case the point is
    in, and that case's run applies. The invariant hands the body the accumulator at what the point before left (at
    anything before the first point) and takes it back at this point's contents, its stores covering it; where the
    result window is idle its buffer goes back as found, and at `k = 9` its one store covers it. The other scoped
    buffers, the generator register and what the core owes pass through. -/
theorem sound_body11 (c : Dev nD) (t : Fin cfg11.N) :
    bodyPre11 V c t ⊢ wp frame (wpE (defs₀ (F := F)) Variants.none c none) Set.univ (bodyAt11 t) (fun _ => bodyPost11 V c t) := by
  unfold bodyPre11 bodyPost11 bodyAt11
  simp only [before11_0, before11_1, before11_2]
  rw [show (dat11 V c).owesAt () t.succ = (dat11 V c).owesAt () t.castSucc from rfl]
  rw [show (dat11 V c).Φ t.succ = PhiS11 V c (t.val + 1) t.isLt from rfl, PhiS11_succ]
  rw [show (dat11 V c).leavesExact 0 t = owns (c : Thread nD τ) (mA11 t) fullShare ((dat11 V c).after 0 t) from by
    unfold Dat.leavesExact; rw [live11_0 t], after11_0]
  rw [show (dat11 V c).leavesExact 1 t = owns (c : Thread nD τ) (mB11 t) fullShare ((dat11 V c).after 1 t) from by
    unfold Dat.leavesExact; rw [live11_1 t], after11_1]
  rw [show (dat11 V c).leavesExact 2 t = owns (c : Thread nD τ) (mC11 t) fullShare ((dat11 V c).after 2 t) from by
    unfold Dat.leavesExact; rw [live11_2 t], after11_2]
  have hN : t.val < 200 := lt_of_lt_of_eq t.isLt (show cfg11.N = 200 from N_11)
  by_cases h0 : t.val % 10 = 0
  · by_cases h1 : t.val % 10 = 9
    · exfalso; omega
    · rw [Dat.leavesExact_idle (dat11 V c) 3 t (idle11_3 t (fun h => h1 ((flushC11_iff t).mp h))) (noFlush11_3 t (fun h => h1 ((flushC11_iff t).mp h)))]
      rw [outsAt11_Z V c t h0 h1]
      unfold acc11_Z; (try dsimp only)
      by_cases hz : t.val = 0
      · rw [PhiS11_castSucc V c t, PhiS11_zero V c _ _ hz, PhiA11_eq]
        iintro ⟨⟨⟨HS, Hr⟩, Hg⟩, Ho, ⟨%d0, H0⟩, ⟨%d1, H1⟩, ⟨%d2, H2⟩, ⟨%d3, H3⟩⟩
        iapply ((runZero11 c (grid11.coords t) _ _ _ _ _ _ _ _ _ _ ((zeroC11_iff t).mpr h0) (fun h => h1 ((flushC11_iff t).mp h)) (iblk11 V c 0 t) (iblk11 V c 1 t) (iblk11 V c 2 t)).2.2 _ Set.univ _)
        isplitl [H0]; · iexact H0
        isplitl [H1]; · iexact H1
        isplitl [H2]; · iexact H2
        isplitl [H3]; · iexact H3
        isplitl [HS]; · iexact HS
        iintro ⟨H0, H1, H2, H3, ⟨%es, HS⟩⟩
        isplitl [HS Hr Hg]
        · isplitl [HS Hr]
          · isplitl [HS]
            · unfold owns; iexists _; isplitr
              swap; · iexact HS
              ipureintro; exact View.read_writes_of_cover _ _ _ _ _ (scover11_Z c _ _ _ _ _ _ _ _ _ _ _ _ _ _ _ _)
            iexact Hr
          iexact Hg
        isplitl [Ho]; · iexact Ho
        isplitl [H0]; · iexact H0
        isplitl [H1]; · iexact H1
        isplitl [H2]; · iexact H2
        iexists _; iexact H3
      · rw [PhiS11_castSucc V c t, PhiS11_pos V c _ _ hz]
        iintro ⟨⟨⟨HS, Hr⟩, Hg⟩, Ho, ⟨%d0, H0⟩, ⟨%d1, H1⟩, ⟨%d2, H2⟩, ⟨%d3, H3⟩⟩
        iapply ((runZero11 c (grid11.coords t) _ _ _ _ _ _ _ _ _ _ ((zeroC11_iff t).mpr h0) (fun h => h1 ((flushC11_iff t).mp h)) (iblk11 V c 0 t) (iblk11 V c 1 t) (iblk11 V c 2 t)).2.2 _ Set.univ _)
        isplitl [H0]; · iexact H0
        isplitl [H1]; · iexact H1
        isplitl [H2]; · iexact H2
        isplitl [H3]; · iexact H3
        isplitl [HS]; · iexists _; iexact HS
        iintro ⟨H0, H1, H2, H3, ⟨%es, HS⟩⟩
        isplitl [HS Hr Hg]
        · isplitl [HS Hr]
          · isplitl [HS]
            · unfold owns; iexists _; isplitr
              swap; · iexact HS
              ipureintro; exact View.read_writes_of_cover _ _ _ _ _ (scover11_Z c _ _ _ _ _ _ _ _ _ _ _ _ _ _ _ _)
            iexact Hr
          iexact Hg
        isplitl [Ho]; · iexact Ho
        isplitl [H0]; · iexact H0
        isplitl [H1]; · iexact H1
        isplitl [H2]; · iexact H2
        iexists _; iexact H3
  · have hz : t.val ≠ 0 := fun e => h0 (by rw [e])
    by_cases h1 : t.val % 10 = 9
    · rw [show (dat11 V c).leavesExact 3 t = owns (c : Thread nD τ) (mO11 t) fullShare ((dat11 V c).after 3 t) from by
        unfold Dat.leavesExact; rw [live11_3 t ((flushC11_iff t).mpr h1)], after11_3]
      rw [outsAt11_L V c t h0 h1]
      unfold out11_L_3 acc11_L; (try dsimp only)
      rw [PhiS11_castSucc V c t, PhiS11_pos V c _ _ hz]
      iintro ⟨⟨⟨HS, Hr⟩, Hg⟩, Ho, ⟨%d0, H0⟩, ⟨%d1, H1⟩, ⟨%d2, H2⟩, ⟨%d3, H3⟩⟩
      iapply ((runLast11 c (grid11.coords t) _ _ _ _ _ _ _ _ _ _ (fun h => h0 ((zeroC11_iff t).mp h)) ((flushC11_iff t).mpr h1) (iblk11 V c 0 t) (iblk11 V c 1 t) (iblk11 V c 2 t) _).2.2 Set.univ _)
      isplitl [H0]; · iexact H0
      isplitl [H1]; · iexact H1
      isplitl [H2]; · iexact H2
      isplitl [H3]; · iexists _; iexact H3
      isplitl [HS]; · iexact HS
      iintro ⟨H0, H1, H2, ⟨%e3, H3⟩, ⟨%es, HS⟩⟩
      isplitl [HS Hr Hg]
      · isplitl [HS Hr]
        · isplitl [HS]
          · unfold owns; iexists _; isplitr
            swap; · iexact HS
            ipureintro; exact View.read_writes_of_cover _ _ _ _ _ (scover11_L c _ _ _ _ _ _ _ _ _ _ _ _ _ _ _ _ _)
          iexact Hr
        iexact Hg
      isplitl [Ho]; · iexact Ho
      isplitl [H0]; · iexact H0
      isplitl [H1]; · iexact H1
      isplitl [H2]; · iexact H2
      unfold owns; iexists _; isplitr
      swap; · iexact H3
      ipureintro; exact View.read_writes_of_cover _ _ _ _ _ (cover11_L_3 c _ _ _ _ _ _ _ _ _ _ _ _ _ _ _ _ _)
    · rw [Dat.leavesExact_idle (dat11 V c) 3 t (idle11_3 t (fun h => h1 ((flushC11_iff t).mp h))) (noFlush11_3 t (fun h => h1 ((flushC11_iff t).mp h)))]
      rw [outsAt11_M V c t h0 h1]
      unfold acc11_M; (try dsimp only)
      rw [PhiS11_castSucc V c t, PhiS11_pos V c _ _ hz]
      iintro ⟨⟨⟨HS, Hr⟩, Hg⟩, Ho, ⟨%d0, H0⟩, ⟨%d1, H1⟩, ⟨%d2, H2⟩, ⟨%d3, H3⟩⟩
      iapply ((runMid11 c (grid11.coords t) _ _ _ _ _ _ _ _ _ _ (fun h => h0 ((zeroC11_iff t).mp h)) (fun h => h1 ((flushC11_iff t).mp h)) (iblk11 V c 0 t) (iblk11 V c 1 t) (iblk11 V c 2 t) _).2.2 _ Set.univ _)
      isplitl [H0]; · iexact H0
      isplitl [H1]; · iexact H1
      isplitl [H2]; · iexact H2
      isplitl [H3]; · iexact H3
      isplitl [HS]; · iexact HS
      iintro ⟨H0, H1, H2, H3, ⟨%es, HS⟩⟩
      isplitl [HS Hr Hg]
      · isplitl [HS Hr]
        · isplitl [HS]
          · unfold owns; iexists _; isplitr
            swap; · iexact HS
            ipureintro; exact View.read_writes_of_cover _ _ _ _ _ (scover11_M c _ _ _ _ _ _ _ _ _ _ _ _ _ _ _ _ _)
          iexact Hr
        iexact Hg
      isplitl [Ho]; · iexact Ho
      isplitl [H0]; · iexact H0
      isplitl [H1]; · iexact H1
      isplitl [H2]; · iexact H2
      iexists _; iexact H3

/-- The library's body obligation, at every point. -/
theorem body_obligation11 (c : Dev nD) : BodyObligation (dat11 (F := F) V c) (defs₀ (F := F)) Variants.none () Set.univ := fun t => by
  rw [bigSep_W11, bigSep_W11]
  exact sound_body11 V c t

/-- What the launch hands the region is the invariant before the first point. -/
theorem hin11 (c : Dev nD) : Pipeline.ΦA spec11 c ⊢ (dat11 V c).Φ 0 := by
  rw [show (dat11 V c).Φ 0 = PhiS11 V c 0 (Nat.zero_le _) from rfl, PhiS11_zero V c 0 _ rfl]
  try exact Idealize.SL.BI.Entails.refl _

/-- After any point the invariant gives the class's back: the accumulator's named contents are forgotten. -/
theorem Phi_out11 (c : Dev nD) (t : Fin (cfg11.N + 1)) (ht : t.val ≠ 0) : (dat11 V c).Φ t ⊢ Pipeline.ΦA spec11 c := by
  rw [show (dat11 V c).Φ t = PhiS11 V c t.val (Nat.le_of_lt_succ t.isLt) from rfl, PhiS11_pos V c _ _ ht, PhiA11_eq]
  iintro ⟨⟨HS, Hr⟩, Hg⟩
  isplitl [HS Hr]
  · isplitl [HS]
    · iexists _; iexact HS
    iexact Hr
  iexact Hg

/-- The same after the last point. -/
theorem hout11 (c : Dev nD) : (dat11 V c).Φ (Fin.last cfg11.N) ⊢ Pipeline.ΦA spec11 c :=
  Phi_out11 V c _ (by rw [Fin.val_last]; have : cfg11.N = 200 := N_11; omega)

end Entry

end Cert.Kernel.Rg

end
-- ==== Proof.KB.Reg12.lean ====
/- Stage-1 region 12 (custom_call 12): the per-region half of the frame argument, at the buffer
   contents `V` found when the region is entered. One row block of the left operand times the whole
   right operand, plus the bias row, written to the result's row block. -/
import proofs.«181230_j19834158973077_2_alg».proof.Proof.Gen.Kernel.Launch
import proofs.«181230_j19834158973077_2_alg».proof.Proof.Gen.Kernel.Skeleton
import proofs.«181230_j19834158973077_2_alg».proof.Proof.Gen.Kernel.Points
import Idealize.ShloMosaic.Lib.Pipeline.FrameBody
import Idealize.ShloMosaic.Lib.Ring
import Idealize.ShloMosaic.Lib.Tactic

-- membership in a rectangle of full extents recurses once per coordinate of the long axes
set_option maxRecDepth 16384

noncomputable section

namespace Cert.Kernel.Rg

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

-- the TensorCore's buffer contents when the region is entered
variable (V : (c : Dev nD) → (b : Ref sig .tc) → Buf (Elt F) ((c : Thread nD τ).loc b))

/-! ## The windows' blocks -/

/-- Window `w`'s block at point `t`, read off its array as the region finds it. -/
def iblk12 (c : Dev nD) (w : Fin cfg12.W) (t : Fin cfg12.N) : ((cfg12.win w).xblock (cfg12.grid.coords t)).Idx → Elt F (cfg12.win w).elt :=
  ((cfg12.win w).blk t).view.read (Elt F) (V c (Pipeline.arrRef spec12 w))

/-- Input window 0's current staging buffer holds its block at every point, fetched there or not: where it is
    not fetched the block index has not moved, and the body leaves the block in place. -/
theorem before12_0_of {c : Dev nD} (dat : Dat τ (Elt F) Unit ℕ (UR sig nD τ) ℕ cfg12 c) (hA : dat.A 0 = V c (Pipeline.arrRef spec12 0))
    (hafter : ∀ t, dat.after 0 t = iblk12 V c 0 t) (t : Fin cfg12.N) (d) : dat.before 0 t d = iblk12 V c 0 t :=
  (dat.before_in_eq_fetched 0 rfl (fun _ => rfl) (fun _ _ _ => rfl) (fun t => by rw [hafter]; unfold Dat.blockOf iblk12; rw [hA]; try rfl) t d).trans
    (by unfold Dat.fetched Dat.blockOf iblk12; rw [hA]; try rfl)

/-- Input window 1's current staging buffer holds its block at every point, fetched there or not: where it is
    not fetched the block index has not moved, and the body leaves the block in place. -/
theorem before12_1_of {c : Dev nD} (dat : Dat τ (Elt F) Unit ℕ (UR sig nD τ) ℕ cfg12 c) (hA : dat.A 1 = V c (Pipeline.arrRef spec12 1))
    (hafter : ∀ t, dat.after 1 t = iblk12 V c 1 t) (t : Fin cfg12.N) (d) : dat.before 1 t d = iblk12 V c 1 t :=
  (dat.before_in_eq_fetched 1 rfl (fun _ => rfl) (fun _ _ _ => rfl) (fun t => by rw [hafter]; unfold Dat.blockOf iblk12; rw [hA]; try rfl) t d).trans
    (by unfold Dat.fetched Dat.blockOf iblk12; rw [hA]; try rfl)

/-- Input window 2's current staging buffer holds its block at every point, fetched there or not: where it is
    not fetched the block index has not moved, and the body leaves the block in place. -/
theorem before12_2_of {c : Dev nD} (dat : Dat τ (Elt F) Unit ℕ (UR sig nD τ) ℕ cfg12 c) (hA : dat.A 2 = V c (Pipeline.arrRef spec12 2))
    (hafter : ∀ t, dat.after 2 t = iblk12 V c 2 t) (t : Fin cfg12.N) (d) : dat.before 2 t d = iblk12 V c 2 t :=
  (dat.before_in_eq_fetched 2 rfl (fun _ => rfl) (fun _ _ _ => rfl) (fun t => by rw [hafter]; unfold Dat.blockOf iblk12; rw [hA]; try rfl) t d).trans
    (by unfold Dat.fetched Dat.blockOf iblk12; rw [hA]; try rfl)

/-! ## The body's accesses: each staging buffer whole -/

abbrev r12_0 : Rect S1024x1024 := Rect.unit (s := S1024x1024) ![0, 0] S1024x1024.size inb_S1024x1024_S1024x1024_0_0
abbrev r12_1 : Rect S1024x256 := Rect.unit (s := S1024x256) ![0, 0] S1024x256.size inb_S1024x256_S1024x256_0_0
abbrev r12_2 : Rect S1x256 := Rect.unit (s := S1x256) ![0, 0] S1x256.size inb_S1x256_S1x256_0_0
abbrev r12_3 : Rect S1024x256 := Rect.unit (s := S1024x256) ![0, 0] S1024x256.size inb_S1024x256_S1024x256_0_0

/-! ## What the body leaves in the result's buffer -/

/-- The result window's staging buffer after the body, from the three input blocks: its one whole-block store
    of the payload (product into a zero accumulator, plus the bias row, then the format change). -/
def out12_3 (x0 : Vec F S1024x1024 .bf16) (x1 : Vec F S1024x256 .bf16) (x2 : Vec F S1x256 .f32) : Vec F S1024x256 .bf16 :=
  View.canon [⟨r12_3, k12_pay1 (View.ld x0 r12_0) (View.ld x1 r12_1) (View.ld x2 r12_2)⟩]

/-- The one store is the whole buffer, so it covers it. -/
theorem cover12_3 (p0 : Vec F S1024x256 .bf16) (y : S1024x256.Idx) :
    ∃ pc ∈ ([⟨r12_3, p0⟩] : List (View.Piece (Elt F) S1024x256 .bf16)), y ∈ pc.1.set :=
  View.cover_of_tiled [⟨r12_3, p0⟩] S1024x256.size (by rfl) y

/-! ## The body's triple -/

set_option maxHeartbeats 1000000 in
/-- The kernel body on whole staging memrefs, the inputs' at contents `x0 x1 x2` and the result's at anything, runs
    to the continuation holding the inputs' as they were and the result's at `out12_3` of the inputs'. -/
theorem sound_kernel12 (c : Dev nD) (E : Set ℕ) (i : grid12.Coords)
    (arg0 : Memref sig .tc .vmem S1024x1024 .bf16) (harg0 : arg0.IsWhole) (arg1 : Memref sig .tc .vmem S1024x256 .bf16) (harg1 : arg1.IsWhole)
    (arg2 : Memref sig .tc .vmem S1x256 .f32) (harg2 : arg2.IsWhole) (arg3 : Memref sig .tc .vmem S1024x256 .bf16) (harg3 : arg3.IsWhole)
    (x0 : Vec F S1024x1024 .bf16) (x1 : Vec F S1024x256 .bf16) (x2 : Vec F S1x256 .f32) (K : PUnit → sProp 𝕄) :
    iprop(owns (c : Thread nD τ) arg0 fullShare x0 ∗ owns (c : Thread nD τ) arg1 fullShare x1 ∗ owns (c : Thread nD τ) arg2 fullShare x2
        ∗ (∃ d, owns (c : Thread nD τ) arg3 fullShare d)
        ∗ (iprop(owns (c : Thread nD τ) arg0 fullShare x0 ∗ owns (c : Thread nD τ) arg1 fullShare x1 ∗ owns (c : Thread nD τ) arg2 fullShare x2
            ∗ owns (c : Thread nD τ) arg3 fullShare (out12_3 x0 x1 x2)) -∗ K ⟨⟩))
      ⊢ wp frame (wpE (defs₀ (F := F)) Variants.none c none) E (cc12__stage1_kernel i arg0 harg0 arg1 harg1 arg2 harg2 arg3 harg3) K := by
  simp only [cc12__stage1_kernel_eq_skeleton]; unfold cc12__stage1_kernel_skel
  unfold owns
  iintro ⟨⟨%f0, %hf0, H0⟩, ⟨%f1, %hf1, H1⟩, ⟨%f2, %hf2, H2⟩, ⟨%d3, %f3, -, H3⟩, Hk⟩
  subst hf0 hf1 hf2
  sl_exec
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  iexists _; isplitr
  swap; · iexact H3
  ipureintro
  exact View.read_writes_eq_canon _ _ _ (cover12_3 _)

/-! ## The pipeline's proof data -/

/-- The proof data of pipeline 12 on core `c`: the arrays as the region finds them; after the body at point `t`
    each input's buffer at its block and the result's at `out12_3` of the input blocks; the invariant the scoped
    rest and the generator register, untouched; nothing owed; full shares. -/
def dat12 (c : Dev nD) : Dat τ (Elt F) Unit ℕ (UR sig nD τ) ℕ cfg12 c where
  A w := V c (Pipeline.arrRef spec12 w)
  after w t := match w with
    | ⟨0, _⟩ => iblk12 V c 0 t
    | ⟨1, _⟩ => iblk12 V c 1 t
    | ⟨2, _⟩ => iblk12 V c 2 t
    | ⟨3, _⟩ => out12_3 (iblk12 V c 0 t) (iblk12 V c 1 t) (iblk12 V c 2 t)
  Φ _ := Pipeline.ΦA spec12 c
  q _ := fullShare
  owed _ := 0

/-- The proof data's arrays are the region-entry contents. -/
theorem A_eq12 (c : Dev nD) (w : Fin cfg12.W) : (dat12 V c).A w = V c (Pipeline.arrRef spec12 w) := by
  dsimp only [dat12]

/-- What the body leaves, window by window. -/
theorem after12_0 (c : Dev nD) (t : Fin cfg12.N) : (dat12 V c).after 0 t = iblk12 V c 0 t := by dsimp only [dat12]
theorem after12_1 (c : Dev nD) (t : Fin cfg12.N) : (dat12 V c).after 1 t = iblk12 V c 1 t := by dsimp only [dat12]
theorem after12_2 (c : Dev nD) (t : Fin cfg12.N) : (dat12 V c).after 2 t = iblk12 V c 2 t := by dsimp only [dat12]
theorem after12_3 (c : Dev nD) (t : Fin cfg12.N) :
    (dat12 V c).after 3 t = out12_3 (iblk12 V c 0 t) (iblk12 V c 1 t) (iblk12 V c 2 t) := by dsimp only [dat12]

/-- Each input's current staging buffer holds its block at every point, fetched there or not. -/
theorem before12_0 (c : Dev nD) (t : Fin cfg12.N) (d) : (dat12 V c).before 0 t d = iblk12 V c 0 t :=
  before12_0_of V (dat12 V c) (A_eq12 V c 0) (after12_0 V c) t d
theorem before12_1 (c : Dev nD) (t : Fin cfg12.N) (d) : (dat12 V c).before 1 t d = iblk12 V c 1 t :=
  before12_1_of V (dat12 V c) (A_eq12 V c 1) (after12_1 V c) t d
theorem before12_2 (c : Dev nD) (t : Fin cfg12.N) (d) : (dat12 V c).before 2 t d = iblk12 V c 2 t :=
  before12_2_of V (dat12 V c) (A_eq12 V c 2) (after12_2 V c) t d

/-- The invariant is the class's at every point: entering and leaving the region are identities on it. -/
theorem hin12 (c : Dev nD) : (Pipeline.ΦA spec12 c : sProp 𝕄) ⊢ (dat12 V c).Φ 0 := by
  show (Pipeline.ΦA spec12 c : sProp 𝕄) ⊢ Pipeline.ΦA spec12 c
  exact .rfl
theorem hout12 (c : Dev nD) : (dat12 V c).Φ (Fin.last cfg12.N) ⊢ (Pipeline.ΦA spec12 c : sProp 𝕄) := by
  show (Pipeline.ΦA spec12 c : sProp 𝕄) ⊢ Pipeline.ΦA spec12 c
  exact .rfl

/-! ## The body obligation, at a generic point -/

/-- What the body is called with at point `t`, the windows one by one, -/
def bodyPre12 (c : Dev nD) (t : Fin cfg12.N) : sProp 𝕄 :=
  iprop((dat12 V c).Φ t.castSucc ∗ (dat12 V c).owesAt () t.castSucc
    ∗ (∃ d, owns (c : Thread nD τ) (st12_0 t) fullShare ((dat12 V c).before 0 t d))
    ∗ (∃ d, owns (c : Thread nD τ) (st12_1 t) fullShare ((dat12 V c).before 1 t d))
    ∗ (∃ d, owns (c : Thread nD τ) (st12_2 t) fullShare ((dat12 V c).before 2 t d))
    ∗ (∃ d, owns (c : Thread nD τ) (st12_3 t) fullShare ((dat12 V c).before 3 t d)))

/-- and what it returns. -/
def bodyPost12 (c : Dev nD) (t : Fin cfg12.N) : sProp 𝕄 :=
  iprop((dat12 V c).Φ t.succ ∗ (dat12 V c).owesAt () t.succ
    ∗ owns (c : Thread nD τ) (st12_0 t) fullShare ((dat12 V c).after 0 t)
    ∗ owns (c : Thread nD τ) (st12_1 t) fullShare ((dat12 V c).after 1 t)
    ∗ owns (c : Thread nD τ) (st12_2 t) fullShare ((dat12 V c).after 2 t)
    ∗ owns (c : Thread nD τ) (st12_3 t) fullShare ((dat12 V c).after 3 t))

/-- The body at any point: the inputs' memrefs hold their blocks, so the body's triple applies; the invariant and
    the core's debts pass through unread. -/
theorem sound_body12 (c : Dev nD) (t : Fin cfg12.N) :
    bodyPre12 V c t ⊢ wp frame (wpE (defs₀ (F := F)) Variants.none c none) Set.univ (bodyAt12 t) (fun _ => bodyPost12 V c t) := by
  unfold bodyPre12 bodyPost12 bodyAt12
  simp only [before12_0, before12_1, before12_2]
  rw [show (dat12 V c).Φ t.succ = (dat12 V c).Φ t.castSucc from rfl,
    show (dat12 V c).owesAt () t.succ = (dat12 V c).owesAt () t.castSucc from rfl,
    after12_0, after12_1, after12_2, after12_3]
  iintro ⟨HΦ, Ho, ⟨%d0, H0⟩, ⟨%d1, H1⟩, ⟨%d2, H2⟩, ⟨%d3, H3⟩⟩
  iapply (sound_kernel12 c Set.univ _ _ _ _ _ _ _ _ _ (iblk12 V c 0 t) (iblk12 V c 1 t) (iblk12 V c 2 t) _)
  isplitl [H0]; · iexact H0
  isplitl [H1]; · iexact H1
  isplitl [H2]; · iexact H2
  isplitl [H3]; · iexists _; iexact H3
  iintro ⟨H0, H1, H2, H3⟩
  isplitl [HΦ]; · iexact HΦ
  isplitl [Ho]; · iexact Ho
  isplitl [H0]; · iexact H0
  isplitl [H1]; · iexact H1
  isplitl [H2]; · iexact H2
  iexact H3

/-- The library's body obligation, at every point. -/
theorem body_obligation12 (c : Dev nD) : BodyObligation (dat12 (F := F) V c) (defs₀ (F := F)) Variants.none () Set.univ := fun t => by
  rw [bigSep_W12, bigSep_W12]
  exact sound_body12 V c t

end Cert.Kernel.Rg
-- ==== Proof.KB.Reg13.lean ====
/- REGION 13: the adjacency product with a carried accumulator (grid 20 × 10, the reduction step `k = t % 10`). The f32
   accumulator [512x256] is zeroed when `k = 0`, takes the product of the left operand's block with the right operand's
   rows `k*1024 … k*1024+1023` at every point, and when `k = 9` is read back, the bias row added and stored whole into the
   result's block. Stated at a parameter `V`, the TensorCore's buffer contents when the region is entered: the proof
   data `dat13`, its body obligation, and the invariant's two ends `hin13` / `hout13`; `out13_L_3` / `outsAt13` name what
   the result window holds. -/
import proofs.«181230_j19834158973077_2_alg».proof.Proof.Gen.Kernel.Launch
import proofs.«181230_j19834158973077_2_alg».proof.Proof.Gen.Kernel.Skeleton
import proofs.«181230_j19834158973077_2_alg».proof.Proof.Gen.Kernel.Points
import Idealize.ShloMosaic.Lib.Pipeline.FrameBody
import Idealize.ShloMosaic.Lib.Ring
import Idealize.ShloMosaic.Lib.Tactic

-- membership in a rectangle of full extents recurses once per coordinate of the long axes
set_option maxRecDepth 16384

noncomputable section

namespace Cert.Kernel.Rg

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

/-! # Part 1: the conditionals over the grid, the memrefs, the invariant's split, the blocks -/

/-! ## The body's two conditionals, over the grid

A grid point `t` has coordinates `(m, k)` with `k = t % 10` the reduction step. The accumulator is zeroed when
`k = 0`; the result block is written when `k = 9`. -/

/-- The first conditional's condition (`k = 0`), with the scalar chain that computes it substituted. -/
abbrev zeroC13 (i : grid13.Coords) : Prop :=
  (Scalar.cmpi .ne (Scalar.extui (Scalar.cmpi .eq (BitVec.ofNat 32 (i 1).val) 0#32)) 0#32) = 1#1
/-- It holds exactly at the points ≡ 0 (mod 10): decided over the 200 points. -/
theorem zeroC13_iff : ∀ t : Fin cfg13.N, zeroC13 (grid13.coords t) ↔ t.val % 10 = 0 :=
  (by decide +kernel : ∀ t : Fin grid13.N, zeroC13 (grid13.coords t) ↔ t.val % 10 = 0)

/-- The second conditional's condition (`k = 9`). -/
abbrev flushC13 (i : grid13.Coords) : Prop := k13_cond2 i = 1#1
/-- It holds exactly at the points ≡ 9 (mod 10). -/
theorem flushC13_iff : ∀ t : Fin cfg13.N, flushC13 (grid13.coords t) ↔ t.val % 10 = 9 :=
  (by decide +kernel : ∀ t : Fin grid13.N, flushC13 (grid13.coords t) ↔ t.val % 10 = 9)

/-! ## Where the windows are idle -/

/-- The three input windows are never idle. -/
theorem live13_0 : ∀ t : Fin cfg13.N, cfg13.idle 0 (grid13.coords t) = false := by decide +kernel
theorem live13_1 : ∀ t : Fin cfg13.N, cfg13.idle 1 (grid13.coords t) = false := by decide +kernel
theorem live13_2 : ∀ t : Fin cfg13.N, cfg13.idle 2 (grid13.coords t) = false := by decide +kernel
/-- Away from `k = 9` the result window is idle (the body stores nothing into it) -/
theorem idle13_3 : ∀ t : Fin cfg13.N, ¬flushC13 (grid13.coords t) → cfg13.idle 3 (grid13.coords t) = true := by decide +kernel
/-- and its block is not written back; -/
theorem noFlush13_3 : ∀ t : Fin cfg13.N, ¬flushC13 (grid13.coords t) → (cfg13.win 3).flush t = false := by decide +kernel
/-- at `k = 9` it is live. -/
theorem live13_3 : ∀ t : Fin cfg13.N, flushC13 (grid13.coords t) → cfg13.idle 3 (grid13.coords t) = false := by decide +kernel

/-! ## The memrefs the body is called with -/

/-- Each window's current staging memref at point `t`, and that it is a whole buffer: the left operand's block, -/
abbrev mA13 (t : Fin cfg13.N) : Memref sig .tc .vmem S512x1024 .bf16 := win13_0.stage (cfg13.slots t 0)
abbrev hA13 (t : Fin cfg13.N) : (mA13 t).IsWhole := hstage13_0 ((cfg13.slots t 0).cast nbuf13_0)
/-- the right operand, resident whole, -/
abbrev mB13 (t : Fin cfg13.N) : Memref sig .tc .vmem S10240x256 .bf16 := win13_1.stage (cfg13.slots t 1)
abbrev hB13 (t : Fin cfg13.N) : (mB13 t).IsWhole := hstage13_1 ((cfg13.slots t 1).cast nbuf13_1)
/-- the bias row, -/
abbrev mC13 (t : Fin cfg13.N) : Memref sig .tc .vmem S1x256 .f32 := win13_2.stage (cfg13.slots t 2)
abbrev hC13 (t : Fin cfg13.N) : (mC13 t).IsWhole := hstage13_2 ((cfg13.slots t 2).cast nbuf13_2)
/-- the result's block. -/
abbrev mO13 (t : Fin cfg13.N) : Memref sig .tc .vmem S512x256 .f32 := win13_3.stage (cfg13.slots t 3)
abbrev hO13 (t : Fin cfg13.N) : (mO13 t).IsWhole := hstage13_3 ((cfg13.slots t 3).cast nbuf13_3)
/-- The accumulator: a whole scoped buffer of the kernel's own, passed beside the windows and carried from point to point. -/
abbrev mS13 : Memref sig .tc .vmem S512x256 .f32 := Memref.whole cc13_scratch0
/-- The views through which the result buffer's and the accumulator's contents are stated (one of the result's two
    staging buffers: for a covering list of stores the choice does not matter). -/
abbrev vO13 : View sig .tc .vmem S512x256 .f32 := (Memref.whole cc13_stg3_0 : Memref sig .tc .vmem S512x256 .f32).view
abbrev vS13 : View sig .tc .vmem S512x256 .f32 := mS13.view

/-! ## The region invariant, with the accumulator split off -/

/-- Every other scoped buffer of the core that is no staging buffer of this region: carried unopened. -/
abbrev rest13 (c : Dev nD) : sProp 𝕄 :=
  Pipeline.scopedRestBut (Ix := Unit) (Name := ℕ) (U := UR sig nD τ) (Lvl := ℕ) (Val := Elt F) spec13 c [cc13_scratch0]

/-- The class's invariant is: the accumulator owned at some contents, the other scoped buffers, the generator
    register at some state. -/
theorem PhiA13_eq (c : Dev nD) :
    (Pipeline.ΦA spec13 c : sProp 𝕄)
      = iprop(iprop((∃ d, owns (c : Thread nD τ) mS13 fullShare d) ∗ rest13 (F := F) c) ∗ (∃ r, prngReg c r)) := by
  unfold Pipeline.ΦA; rw [scopedRest13_split]; simp only [mS13, owns_whole]; try rfl

section Entry
variable (V : (c : Dev nD) → (b : Ref sig .tc) → Buf (Elt F) ((c : Thread nD τ).loc b))

/-! ## The windows' blocks -/

/-- Window `w`'s block at point `t`, read off its array as the region finds it. -/
def iblk13 (c : Dev nD) (w : Fin cfg13.W) (t : Fin cfg13.N) : ((cfg13.win w).xblock (cfg13.grid.coords t)).Idx → Elt F (cfg13.win w).elt :=
  ((cfg13.win w).blk t).view.read (Elt F) (V c (Pipeline.arrRef spec13 w))

/-- An input window's current staging buffer holds its block at every point, fetched there or not (where it is not
    fetched its block index has not moved), for any proof data whose array is `V`'s and whose body leaves the block
    in place. -/
theorem before13_0_of {c : Dev nD} (dat : Dat τ (Elt F) Unit ℕ (UR sig nD τ) ℕ cfg13 c) (hA : dat.A 0 = V c (Pipeline.arrRef spec13 0))
    (hafter : ∀ t, dat.after 0 t = iblk13 V c 0 t) (t : Fin cfg13.N) (d) : dat.before 0 t d = iblk13 V c 0 t :=
  (dat.before_in_eq_fetched 0 rfl (fun _ => rfl) (fun _ _ _ => rfl) (fun t => by rw [hafter]; unfold Dat.blockOf iblk13; rw [hA]; try rfl) t d).trans
    (by unfold Dat.fetched Dat.blockOf iblk13; rw [hA]; try rfl)
theorem before13_1_of {c : Dev nD} (dat : Dat τ (Elt F) Unit ℕ (UR sig nD τ) ℕ cfg13 c) (hA : dat.A 1 = V c (Pipeline.arrRef spec13 1))
    (hafter : ∀ t, dat.after 1 t = iblk13 V c 1 t) (t : Fin cfg13.N) (d) : dat.before 1 t d = iblk13 V c 1 t :=
  (dat.before_in_eq_fetched 1 rfl (fun _ => rfl) (fun _ _ _ => rfl) (fun t => by rw [hafter]; unfold Dat.blockOf iblk13; rw [hA]; try rfl) t d).trans
    (by unfold Dat.fetched Dat.blockOf iblk13; rw [hA]; try rfl)
theorem before13_2_of {c : Dev nD} (dat : Dat τ (Elt F) Unit ℕ (UR sig nD τ) ℕ cfg13 c) (hA : dat.A 2 = V c (Pipeline.arrRef spec13 2))
    (hafter : ∀ t, dat.after 2 t = iblk13 V c 2 t) (t : Fin cfg13.N) (d) : dat.before 2 t d = iblk13 V c 2 t :=
  (dat.before_in_eq_fetched 2 rfl (fun _ => rfl) (fun _ _ _ => rfl) (fun t => by rw [hafter]; unfold Dat.blockOf iblk13; rw [hA]; try rfl) t d).trans
    (by unfold Dat.fetched Dat.blockOf iblk13; rw [hA]; try rfl)

end Entry

/-! # Part 2: the body's run in each of the three control cases -/
/-! ### The control case `k = 0`: the accumulator is stored whole with zeros, then read back, the block product added and the sum stored
   whole again; the result buffer is not touched. -/

-- (the run's proof term is large: the definition's epilogue walks it past the default budget)
set_option maxHeartbeats 1000000 in
/-- The lists of stores, last first, that the body leaves in the result buffer (`L3`) and in the accumulator (`LS`) in
    this case, TOGETHER WITH the proof that on whole memrefs — the three inputs at contents `x0 x1 x2`, the result
    buffer at contents `xi3` handed back as found, the accumulator at anything — the body runs to a
    continuation that holds the inputs as they were, the result buffer as it was and the accumulator with
    `LS` written. The two lists are found by running the body's memory operations in order over named payloads; each
    conditional is decided by the case's hypotheses. -/
noncomputable def runZero13 (c : Dev nD) (i : grid13.Coords) (arg2 : Memref sig .tc .vmem S512x1024 .bf16) (harg2 : arg2.IsWhole) (arg3 : Memref sig .tc .vmem S10240x256 .bf16) (harg3 : arg3.IsWhole) (arg4 : Memref sig .tc .vmem S1x256 .f32) (harg4 : arg4.IsWhole) (arg5 : Memref sig .tc .vmem S512x256 .f32) (harg5 : arg5.IsWhole) (arg6 : Memref sig .tc .vmem S512x256 .f32) (harg6 : arg6.IsWhole) (hc0 : zeroC13 i) (hc1 : ¬flushC13 i)
    (x0 : Vec F S512x1024 .bf16) (x1 : Vec F S10240x256 .bf16) (x2 : Vec F S1x256 .f32) :
    Σ' (L3 : List (View.Piece (Elt F) S512x256 .f32)), { LS : List (View.Piece (Elt F) S512x256 .f32) //
      ∀ (xi3 : Vec F S512x256 .f32) (E : Set ℕ) (K : PUnit → sProp 𝕄),
        iprop(owns (c : Thread nD τ) arg2 fullShare x0 ∗ owns (c : Thread nD τ) arg3 fullShare x1 ∗ owns (c : Thread nD τ) arg4 fullShare x2 ∗ owns (c : Thread nD τ) arg5 fullShare xi3 ∗ (∃ d, owns (c : Thread nD τ) arg6 fullShare d)
            ∗ (iprop(owns (c : Thread nD τ) arg2 fullShare x0 ∗ owns (c : Thread nD τ) arg3 fullShare x1 ∗ owns (c : Thread nD τ) arg4 fullShare x2 ∗ owns (c : Thread nD τ) arg5 fullShare xi3 ∗ (∃ f, arg6.view.loc (c : Thread nD τ) ↦[arg6.view.set]{fullShare} arg6.view.writes (Elt F) f LS)) -∗ K ⟨⟩))
          ⊢ wp frame (wpE (defs₀ (F := F)) Variants.none c none) E (cc13__stage2_kernel i arg2 harg2 arg3 harg3 arg4 harg4 arg5 harg5 arg6 harg6) K } := by
  refine ⟨[], ?_, fun xi3 E K => ?run⟩
  case run =>
    simp only [cc13__stage2_kernel_eq_skeleton]; unfold cc13__stage2_kernel_skel
    unfold owns
    iintro ⟨⟨%f0, %hf0, H0⟩, ⟨%f1, %hf1, H1⟩, ⟨%f2, %hf2, H2⟩, ⟨%f3, %hf3, H3⟩, ⟨%ds, %fs, -, HS⟩, Hk⟩
    obtain rfl := harg2.eq_unread hf0; obtain rfl := harg3.eq_unread hf1; obtain rfl := harg4.eq_unread hf2; obtain rfl := harg5.eq_unread hf3
    sl_exec (disch := first | exact hc0 | exact hc1)
    sl_step
    iapply Hk
    isplitl [H0]
    · iexists _; isplitr; · ipureintro; exact harg2.read_unread _
      iexact H0
    isplitl [H1]
    · iexists _; isplitr; · ipureintro; exact harg3.read_unread _
      iexact H1
    isplitl [H2]
    · iexists _; isplitr; · ipureintro; exact harg4.read_unread _
      iexact H2
    isplitl [H3]
    · iexists _; isplitr; · ipureintro; exact harg5.read_unread _
      iexact H3
    iexists _; iexact HS

/-! ### The control case `0 < k < 9`: the accumulator is read, the block product added and the sum stored whole; the result
   buffer is not touched. -/

-- (the run's proof term is large: the definition's epilogue walks it past the default budget)
set_option maxHeartbeats 1000000 in
/-- The lists of stores, last first, that the body leaves in the result buffer (`L3`) and in the accumulator (`LS`) in
    this case, TOGETHER WITH the proof that on whole memrefs — the three inputs at contents `x0 x1 x2`, the result
    buffer at contents `xi3` handed back as found, the accumulator at the contents `xs` the point before left — the body runs to a
    continuation that holds the inputs as they were, the result buffer as it was and the accumulator with
    `LS` written. The two lists are found by running the body's memory operations in order over named payloads; each
    conditional is decided by the case's hypotheses. -/
noncomputable def runMid13 (c : Dev nD) (i : grid13.Coords) (arg2 : Memref sig .tc .vmem S512x1024 .bf16) (harg2 : arg2.IsWhole) (arg3 : Memref sig .tc .vmem S10240x256 .bf16) (harg3 : arg3.IsWhole) (arg4 : Memref sig .tc .vmem S1x256 .f32) (harg4 : arg4.IsWhole) (arg5 : Memref sig .tc .vmem S512x256 .f32) (harg5 : arg5.IsWhole) (arg6 : Memref sig .tc .vmem S512x256 .f32) (harg6 : arg6.IsWhole) (hc0 : ¬zeroC13 i) (hc1 : ¬flushC13 i)
    (x0 : Vec F S512x1024 .bf16) (x1 : Vec F S10240x256 .bf16) (x2 : Vec F S1x256 .f32) (xs : Vec F S512x256 .f32) :
    Σ' (L3 : List (View.Piece (Elt F) S512x256 .f32)), { LS : List (View.Piece (Elt F) S512x256 .f32) //
      ∀ (xi3 : Vec F S512x256 .f32) (E : Set ℕ) (K : PUnit → sProp 𝕄),
        iprop(owns (c : Thread nD τ) arg2 fullShare x0 ∗ owns (c : Thread nD τ) arg3 fullShare x1 ∗ owns (c : Thread nD τ) arg4 fullShare x2 ∗ owns (c : Thread nD τ) arg5 fullShare xi3 ∗ owns (c : Thread nD τ) arg6 fullShare xs
            ∗ (iprop(owns (c : Thread nD τ) arg2 fullShare x0 ∗ owns (c : Thread nD τ) arg3 fullShare x1 ∗ owns (c : Thread nD τ) arg4 fullShare x2 ∗ owns (c : Thread nD τ) arg5 fullShare xi3 ∗ (∃ f, arg6.view.loc (c : Thread nD τ) ↦[arg6.view.set]{fullShare} arg6.view.writes (Elt F) f LS)) -∗ K ⟨⟩))
          ⊢ wp frame (wpE (defs₀ (F := F)) Variants.none c none) E (cc13__stage2_kernel i arg2 harg2 arg3 harg3 arg4 harg4 arg5 harg5 arg6 harg6) K } := by
  refine ⟨[], ?_, fun xi3 E K => ?run⟩
  case run =>
    simp only [cc13__stage2_kernel_eq_skeleton]; unfold cc13__stage2_kernel_skel
    unfold owns
    iintro ⟨⟨%f0, %hf0, H0⟩, ⟨%f1, %hf1, H1⟩, ⟨%f2, %hf2, H2⟩, ⟨%f3, %hf3, H3⟩, ⟨%fs, %hfs, HS⟩, Hk⟩
    obtain rfl := harg2.eq_unread hf0; obtain rfl := harg3.eq_unread hf1; obtain rfl := harg4.eq_unread hf2; obtain rfl := harg5.eq_unread hf3; obtain rfl := harg6.eq_unread hfs
    sl_exec (disch := first | exact hc0 | exact hc1)
    sl_step
    iapply Hk
    isplitl [H0]
    · iexists _; isplitr; · ipureintro; exact harg2.read_unread _
      iexact H0
    isplitl [H1]
    · iexists _; isplitr; · ipureintro; exact harg3.read_unread _
      iexact H1
    isplitl [H2]
    · iexists _; isplitr; · ipureintro; exact harg4.read_unread _
      iexact H2
    isplitl [H3]
    · iexists _; isplitr; · ipureintro; exact harg5.read_unread _
      iexact H3
    iexists _; iexact HS

/-! ### The control case `k = 9`: the accumulator is read, the block product added and the sum stored whole; then the accumulator
   is read back, the bias row added and the sum stored whole into the result buffer. -/

-- (the run's proof term is large: the definition's epilogue walks it past the default budget)
set_option maxHeartbeats 1000000 in
/-- The lists of stores, last first, that the body leaves in the result buffer (`L3`) and in the accumulator (`LS`) in
    this case, TOGETHER WITH the proof that on whole memrefs — the three inputs at contents `x0 x1 x2`, the result buffer at anything, the accumulator at the contents `xs` the point before left — the body runs to a
    continuation that holds the inputs as they were, the result buffer with `L3` written and the accumulator with
    `LS` written. The two lists are found by running the body's memory operations in order over named payloads; each
    conditional is decided by the case's hypotheses. -/
noncomputable def runLast13 (c : Dev nD) (i : grid13.Coords) (arg2 : Memref sig .tc .vmem S512x1024 .bf16) (harg2 : arg2.IsWhole) (arg3 : Memref sig .tc .vmem S10240x256 .bf16) (harg3 : arg3.IsWhole) (arg4 : Memref sig .tc .vmem S1x256 .f32) (harg4 : arg4.IsWhole) (arg5 : Memref sig .tc .vmem S512x256 .f32) (harg5 : arg5.IsWhole) (arg6 : Memref sig .tc .vmem S512x256 .f32) (harg6 : arg6.IsWhole) (hc0 : ¬zeroC13 i) (hc1 : flushC13 i)
    (x0 : Vec F S512x1024 .bf16) (x1 : Vec F S10240x256 .bf16) (x2 : Vec F S1x256 .f32) (xs : Vec F S512x256 .f32) :
    Σ' (L3 : List (View.Piece (Elt F) S512x256 .f32)), { LS : List (View.Piece (Elt F) S512x256 .f32) //
      ∀ (E : Set ℕ) (K : PUnit → sProp 𝕄),
        iprop(owns (c : Thread nD τ) arg2 fullShare x0 ∗ owns (c : Thread nD τ) arg3 fullShare x1 ∗ owns (c : Thread nD τ) arg4 fullShare x2 ∗ (∃ d, owns (c : Thread nD τ) arg5 fullShare d) ∗ owns (c : Thread nD τ) arg6 fullShare xs
            ∗ (iprop(owns (c : Thread nD τ) arg2 fullShare x0 ∗ owns (c : Thread nD τ) arg3 fullShare x1 ∗ owns (c : Thread nD τ) arg4 fullShare x2 ∗ (∃ f, arg5.view.loc (c : Thread nD τ) ↦[arg5.view.set]{fullShare} arg5.view.writes (Elt F) f L3) ∗ (∃ f, arg6.view.loc (c : Thread nD τ) ↦[arg6.view.set]{fullShare} arg6.view.writes (Elt F) f LS)) -∗ K ⟨⟩))
          ⊢ wp frame (wpE (defs₀ (F := F)) Variants.none c none) E (cc13__stage2_kernel i arg2 harg2 arg3 harg3 arg4 harg4 arg5 harg5 arg6 harg6) K } := by
  refine ⟨?_, ?_, fun E K => ?run⟩
  case run =>
    simp only [cc13__stage2_kernel_eq_skeleton]; unfold cc13__stage2_kernel_skel
    unfold owns
    iintro ⟨⟨%f0, %hf0, H0⟩, ⟨%f1, %hf1, H1⟩, ⟨%f2, %hf2, H2⟩, ⟨%d3, %f3, -, H3⟩, ⟨%fs, %hfs, HS⟩, Hk⟩
    obtain rfl := harg2.eq_unread hf0; obtain rfl := harg3.eq_unread hf1; obtain rfl := harg4.eq_unread hf2; obtain rfl := harg6.eq_unread hfs
    sl_exec (disch := first | exact hc0 | exact hc1)
    sl_step
    iapply Hk
    isplitl [H0]
    · iexists _; isplitr; · ipureintro; exact harg2.read_unread _
      iexact H0
    isplitl [H1]
    · iexists _; isplitr; · ipureintro; exact harg3.read_unread _
      iexact H1
    isplitl [H2]
    · iexists _; isplitr; · ipureintro; exact harg4.read_unread _
      iexact H2
    isplitl [H3]; · iexists _; iexact H3
    iexists _; iexact HS

/-! # Part 3: what each case leaves, point by point; the proof data; the body obligation; the invariant's ends -/

/-! ## What each case leaves

In the cases `k = 0` and `0 < k < 9` nothing is stored into the result buffer: its "contents" below is a placeholder
(no stores read back over junk) that nothing consults, the window being idle and not written back at those points. -/

def out13_Z_3 (c : Dev nD) (i : grid13.Coords) (arg2 : Memref sig .tc .vmem S512x1024 .bf16) (harg2 : arg2.IsWhole) (arg3 : Memref sig .tc .vmem S10240x256 .bf16) (harg3 : arg3.IsWhole) (arg4 : Memref sig .tc .vmem S1x256 .f32) (harg4 : arg4.IsWhole) (arg5 : Memref sig .tc .vmem S512x256 .f32) (harg5 : arg5.IsWhole) (arg6 : Memref sig .tc .vmem S512x256 .f32) (harg6 : arg6.IsWhole) (hc0 : zeroC13 i) (hc1 : ¬flushC13 i)
    (x0 : Vec F S512x1024 .bf16) (x1 : Vec F S10240x256 .bf16) (x2 : Vec F S1x256 .f32) : Vec F S512x256 .f32 :=
  vO13.read (Elt F) (vO13.writes (Elt F) vO13.junk (runZero13 c i arg2 harg2 arg3 harg3 arg4 harg4 arg5 harg5 arg6 harg6 hc0 hc1 x0 x1 x2).1)

/-- At `k = 0` the accumulator's stores (the zero fill, then the first partial sum) cover it. -/
theorem scover13_Z (c : Dev nD) (i : grid13.Coords) (arg2 : Memref sig .tc .vmem S512x1024 .bf16) (harg2 : arg2.IsWhole) (arg3 : Memref sig .tc .vmem S10240x256 .bf16) (harg3 : arg3.IsWhole) (arg4 : Memref sig .tc .vmem S1x256 .f32) (harg4 : arg4.IsWhole) (arg5 : Memref sig .tc .vmem S512x256 .f32) (harg5 : arg5.IsWhole) (arg6 : Memref sig .tc .vmem S512x256 .f32) (harg6 : arg6.IsWhole) (hc0 : zeroC13 i) (hc1 : ¬flushC13 i)
    (x0 : Vec F S512x1024 .bf16) (x1 : Vec F S10240x256 .bf16) (x2 : Vec F S1x256 .f32) (y : S512x256.Idx) :
    ∃ pc ∈ (runZero13 c i arg2 harg2 arg3 harg3 arg4 harg4 arg5 harg5 arg6 harg6 hc0 hc1 x0 x1 x2).2.1, y ∈ pc.1.set :=
  View.cover_of_tiledL (runZero13 c i arg2 harg2 arg3 harg3 arg4 harg4 arg5 harg5 arg6 harg6 hc0 hc1 x0 x1 x2).2.1 S512x256.size (by sl_kernel_rfl) y

/-- What the case `k = 0` leaves in the accumulator: its stores read back. -/
def acc13_Z (c : Dev nD) (i : grid13.Coords) (arg2 : Memref sig .tc .vmem S512x1024 .bf16) (harg2 : arg2.IsWhole) (arg3 : Memref sig .tc .vmem S10240x256 .bf16) (harg3 : arg3.IsWhole) (arg4 : Memref sig .tc .vmem S1x256 .f32) (harg4 : arg4.IsWhole) (arg5 : Memref sig .tc .vmem S512x256 .f32) (harg5 : arg5.IsWhole) (arg6 : Memref sig .tc .vmem S512x256 .f32) (harg6 : arg6.IsWhole) (hc0 : zeroC13 i) (hc1 : ¬flushC13 i)
    (x0 : Vec F S512x1024 .bf16) (x1 : Vec F S10240x256 .bf16) (x2 : Vec F S1x256 .f32) : Vec F S512x256 .f32 :=
  vS13.read (Elt F) (vS13.writes (Elt F) vS13.junk (runZero13 c i arg2 harg2 arg3 harg3 arg4 harg4 arg5 harg5 arg6 harg6 hc0 hc1 x0 x1 x2).2.1)

def out13_M_3 (c : Dev nD) (i : grid13.Coords) (arg2 : Memref sig .tc .vmem S512x1024 .bf16) (harg2 : arg2.IsWhole) (arg3 : Memref sig .tc .vmem S10240x256 .bf16) (harg3 : arg3.IsWhole) (arg4 : Memref sig .tc .vmem S1x256 .f32) (harg4 : arg4.IsWhole) (arg5 : Memref sig .tc .vmem S512x256 .f32) (harg5 : arg5.IsWhole) (arg6 : Memref sig .tc .vmem S512x256 .f32) (harg6 : arg6.IsWhole) (hc0 : ¬zeroC13 i) (hc1 : ¬flushC13 i)
    (x0 : Vec F S512x1024 .bf16) (x1 : Vec F S10240x256 .bf16) (x2 : Vec F S1x256 .f32) (xs : Vec F S512x256 .f32) : Vec F S512x256 .f32 :=
  vO13.read (Elt F) (vO13.writes (Elt F) vO13.junk (runMid13 c i arg2 harg2 arg3 harg3 arg4 harg4 arg5 harg5 arg6 harg6 hc0 hc1 x0 x1 x2 xs).1)

/-- For `0 < k < 9` the accumulator's one store covers it. -/
theorem scover13_M (c : Dev nD) (i : grid13.Coords) (arg2 : Memref sig .tc .vmem S512x1024 .bf16) (harg2 : arg2.IsWhole) (arg3 : Memref sig .tc .vmem S10240x256 .bf16) (harg3 : arg3.IsWhole) (arg4 : Memref sig .tc .vmem S1x256 .f32) (harg4 : arg4.IsWhole) (arg5 : Memref sig .tc .vmem S512x256 .f32) (harg5 : arg5.IsWhole) (arg6 : Memref sig .tc .vmem S512x256 .f32) (harg6 : arg6.IsWhole) (hc0 : ¬zeroC13 i) (hc1 : ¬flushC13 i)
    (x0 : Vec F S512x1024 .bf16) (x1 : Vec F S10240x256 .bf16) (x2 : Vec F S1x256 .f32) (xs : Vec F S512x256 .f32) (y : S512x256.Idx) :
    ∃ pc ∈ (runMid13 c i arg2 harg2 arg3 harg3 arg4 harg4 arg5 harg5 arg6 harg6 hc0 hc1 x0 x1 x2 xs).2.1, y ∈ pc.1.set :=
  View.cover_of_tiledL (runMid13 c i arg2 harg2 arg3 harg3 arg4 harg4 arg5 harg5 arg6 harg6 hc0 hc1 x0 x1 x2 xs).2.1 S512x256.size (by sl_kernel_rfl) y

/-- What the case `0 < k < 9` leaves in the accumulator, over what the point before left (`xs`). -/
def acc13_M (c : Dev nD) (i : grid13.Coords) (arg2 : Memref sig .tc .vmem S512x1024 .bf16) (harg2 : arg2.IsWhole) (arg3 : Memref sig .tc .vmem S10240x256 .bf16) (harg3 : arg3.IsWhole) (arg4 : Memref sig .tc .vmem S1x256 .f32) (harg4 : arg4.IsWhole) (arg5 : Memref sig .tc .vmem S512x256 .f32) (harg5 : arg5.IsWhole) (arg6 : Memref sig .tc .vmem S512x256 .f32) (harg6 : arg6.IsWhole) (hc0 : ¬zeroC13 i) (hc1 : ¬flushC13 i)
    (x0 : Vec F S512x1024 .bf16) (x1 : Vec F S10240x256 .bf16) (x2 : Vec F S1x256 .f32) (xs : Vec F S512x256 .f32) : Vec F S512x256 .f32 :=
  vS13.read (Elt F) (vS13.writes (Elt F) vS13.junk (runMid13 c i arg2 harg2 arg3 harg3 arg4 harg4 arg5 harg5 arg6 harg6 hc0 hc1 x0 x1 x2 xs).2.1)

/-- At `k = 9` the one store into the result buffer covers it. -/
theorem cover13_L_3 (c : Dev nD) (i : grid13.Coords) (arg2 : Memref sig .tc .vmem S512x1024 .bf16) (harg2 : arg2.IsWhole) (arg3 : Memref sig .tc .vmem S10240x256 .bf16) (harg3 : arg3.IsWhole) (arg4 : Memref sig .tc .vmem S1x256 .f32) (harg4 : arg4.IsWhole) (arg5 : Memref sig .tc .vmem S512x256 .f32) (harg5 : arg5.IsWhole) (arg6 : Memref sig .tc .vmem S512x256 .f32) (harg6 : arg6.IsWhole) (hc0 : ¬zeroC13 i) (hc1 : flushC13 i)
    (x0 : Vec F S512x1024 .bf16) (x1 : Vec F S10240x256 .bf16) (x2 : Vec F S1x256 .f32) (xs : Vec F S512x256 .f32) (y : S512x256.Idx) :
    ∃ pc ∈ (runLast13 c i arg2 harg2 arg3 harg3 arg4 harg4 arg5 harg5 arg6 harg6 hc0 hc1 x0 x1 x2 xs).1, y ∈ pc.1.set :=
  View.cover_of_tiledL (runLast13 c i arg2 harg2 arg3 harg3 arg4 harg4 arg5 harg5 arg6 harg6 hc0 hc1 x0 x1 x2 xs).1 S512x256.size (by sl_kernel_rfl) y

/-- THE RESULT BLOCK: what the case `k = 9` leaves in the result buffer — the accumulated sum plus the bias row — as a term of the three input blocks and of the accumulator the point before left. -/
def out13_L_3 (c : Dev nD) (i : grid13.Coords) (arg2 : Memref sig .tc .vmem S512x1024 .bf16) (harg2 : arg2.IsWhole) (arg3 : Memref sig .tc .vmem S10240x256 .bf16) (harg3 : arg3.IsWhole) (arg4 : Memref sig .tc .vmem S1x256 .f32) (harg4 : arg4.IsWhole) (arg5 : Memref sig .tc .vmem S512x256 .f32) (harg5 : arg5.IsWhole) (arg6 : Memref sig .tc .vmem S512x256 .f32) (harg6 : arg6.IsWhole) (hc0 : ¬zeroC13 i) (hc1 : flushC13 i)
    (x0 : Vec F S512x1024 .bf16) (x1 : Vec F S10240x256 .bf16) (x2 : Vec F S1x256 .f32) (xs : Vec F S512x256 .f32) : Vec F S512x256 .f32 :=
  vO13.read (Elt F) (vO13.writes (Elt F) vO13.junk (runLast13 c i arg2 harg2 arg3 harg3 arg4 harg4 arg5 harg5 arg6 harg6 hc0 hc1 x0 x1 x2 xs).1)

/-- At `k = 9` the accumulator's one store covers it. -/
theorem scover13_L (c : Dev nD) (i : grid13.Coords) (arg2 : Memref sig .tc .vmem S512x1024 .bf16) (harg2 : arg2.IsWhole) (arg3 : Memref sig .tc .vmem S10240x256 .bf16) (harg3 : arg3.IsWhole) (arg4 : Memref sig .tc .vmem S1x256 .f32) (harg4 : arg4.IsWhole) (arg5 : Memref sig .tc .vmem S512x256 .f32) (harg5 : arg5.IsWhole) (arg6 : Memref sig .tc .vmem S512x256 .f32) (harg6 : arg6.IsWhole) (hc0 : ¬zeroC13 i) (hc1 : flushC13 i)
    (x0 : Vec F S512x1024 .bf16) (x1 : Vec F S10240x256 .bf16) (x2 : Vec F S1x256 .f32) (xs : Vec F S512x256 .f32) (y : S512x256.Idx) :
    ∃ pc ∈ (runLast13 c i arg2 harg2 arg3 harg3 arg4 harg4 arg5 harg5 arg6 harg6 hc0 hc1 x0 x1 x2 xs).2.1, y ∈ pc.1.set :=
  View.cover_of_tiledL (runLast13 c i arg2 harg2 arg3 harg3 arg4 harg4 arg5 harg5 arg6 harg6 hc0 hc1 x0 x1 x2 xs).2.1 S512x256.size (by sl_kernel_rfl) y

/-- What the case `k = 9` leaves in the accumulator. -/
def acc13_L (c : Dev nD) (i : grid13.Coords) (arg2 : Memref sig .tc .vmem S512x1024 .bf16) (harg2 : arg2.IsWhole) (arg3 : Memref sig .tc .vmem S10240x256 .bf16) (harg3 : arg3.IsWhole) (arg4 : Memref sig .tc .vmem S1x256 .f32) (harg4 : arg4.IsWhole) (arg5 : Memref sig .tc .vmem S512x256 .f32) (harg5 : arg5.IsWhole) (arg6 : Memref sig .tc .vmem S512x256 .f32) (harg6 : arg6.IsWhole) (hc0 : ¬zeroC13 i) (hc1 : flushC13 i)
    (x0 : Vec F S512x1024 .bf16) (x1 : Vec F S10240x256 .bf16) (x2 : Vec F S1x256 .f32) (xs : Vec F S512x256 .f32) : Vec F S512x256 .f32 :=
  vS13.read (Elt F) (vS13.writes (Elt F) vS13.junk (runLast13 c i arg2 harg2 arg3 harg3 arg4 harg4 arg5 harg5 arg6 harg6 hc0 hc1 x0 x1 x2 xs).2.1)

section Entry
variable (V : (c : Dev nD) → (b : Ref sig .tc) → Buf (Elt F) ((c : Thread nD τ).loc b))

/-! ## Point by point -/

/-- THE ACCUMULATION. After the body at position `n`: (the result buffer, the accumulator). The case is the one the
    closed forms select at `n`, run on the point's memrefs and input blocks; for `k > 0` the accumulator starts from what
    position `n - 1` left in it. The two conditions cannot hold together. -/
def outsAt13 (c : Dev nD) : (n : ℕ) → n < cfg13.N → Vec F S512x256 .f32 × Vec F S512x256 .f32
  | 0, hn => (out13_Z_3 c (grid13.coords ⟨0, hn⟩) (mA13 ⟨0, hn⟩) (hA13 ⟨0, hn⟩) (mB13 ⟨0, hn⟩) (hB13 ⟨0, hn⟩) (mC13 ⟨0, hn⟩) (hC13 ⟨0, hn⟩) (mO13 ⟨0, hn⟩) (hO13 ⟨0, hn⟩) mS13 (Memref.isWhole_whole _) ((zeroC13_iff ⟨0, hn⟩).mpr (Nat.zero_mod _)) (fun h => (fun h => by (try dsimp only at h); omega) ((flushC13_iff ⟨0, hn⟩).mp h)) (iblk13 V c 0 ⟨0, hn⟩) (iblk13 V c 1 ⟨0, hn⟩) (iblk13 V c 2 ⟨0, hn⟩), acc13_Z c (grid13.coords ⟨0, hn⟩) (mA13 ⟨0, hn⟩) (hA13 ⟨0, hn⟩) (mB13 ⟨0, hn⟩) (hB13 ⟨0, hn⟩) (mC13 ⟨0, hn⟩) (hC13 ⟨0, hn⟩) (mO13 ⟨0, hn⟩) (hO13 ⟨0, hn⟩) mS13 (Memref.isWhole_whole _) ((zeroC13_iff ⟨0, hn⟩).mpr (Nat.zero_mod _)) (fun h => (fun h => by (try dsimp only at h); omega) ((flushC13_iff ⟨0, hn⟩).mp h)) (iblk13 V c 0 ⟨0, hn⟩) (iblk13 V c 1 ⟨0, hn⟩) (iblk13 V c 2 ⟨0, hn⟩))
  | n + 1, hn =>
    if h0 : (n + 1) % 10 = 0 then
      if h1 : (n + 1) % 10 = 9 then
        False.elim (by omega)
      else
        (out13_Z_3 c (grid13.coords ⟨n + 1, hn⟩) (mA13 ⟨n + 1, hn⟩) (hA13 ⟨n + 1, hn⟩) (mB13 ⟨n + 1, hn⟩) (hB13 ⟨n + 1, hn⟩) (mC13 ⟨n + 1, hn⟩) (hC13 ⟨n + 1, hn⟩) (mO13 ⟨n + 1, hn⟩) (hO13 ⟨n + 1, hn⟩) mS13 (Memref.isWhole_whole _) ((zeroC13_iff ⟨n + 1, hn⟩).mpr h0) (fun h => h1 ((flushC13_iff ⟨n + 1, hn⟩).mp h)) (iblk13 V c 0 ⟨n + 1, hn⟩) (iblk13 V c 1 ⟨n + 1, hn⟩) (iblk13 V c 2 ⟨n + 1, hn⟩), acc13_Z c (grid13.coords ⟨n + 1, hn⟩) (mA13 ⟨n + 1, hn⟩) (hA13 ⟨n + 1, hn⟩) (mB13 ⟨n + 1, hn⟩) (hB13 ⟨n + 1, hn⟩) (mC13 ⟨n + 1, hn⟩) (hC13 ⟨n + 1, hn⟩) (mO13 ⟨n + 1, hn⟩) (hO13 ⟨n + 1, hn⟩) mS13 (Memref.isWhole_whole _) ((zeroC13_iff ⟨n + 1, hn⟩).mpr h0) (fun h => h1 ((flushC13_iff ⟨n + 1, hn⟩).mp h)) (iblk13 V c 0 ⟨n + 1, hn⟩) (iblk13 V c 1 ⟨n + 1, hn⟩) (iblk13 V c 2 ⟨n + 1, hn⟩))
    else
      if h1 : (n + 1) % 10 = 9 then
        (out13_L_3 c (grid13.coords ⟨n + 1, hn⟩) (mA13 ⟨n + 1, hn⟩) (hA13 ⟨n + 1, hn⟩) (mB13 ⟨n + 1, hn⟩) (hB13 ⟨n + 1, hn⟩) (mC13 ⟨n + 1, hn⟩) (hC13 ⟨n + 1, hn⟩) (mO13 ⟨n + 1, hn⟩) (hO13 ⟨n + 1, hn⟩) mS13 (Memref.isWhole_whole _) (fun h => h0 ((zeroC13_iff ⟨n + 1, hn⟩).mp h)) ((flushC13_iff ⟨n + 1, hn⟩).mpr h1) (iblk13 V c 0 ⟨n + 1, hn⟩) (iblk13 V c 1 ⟨n + 1, hn⟩) (iblk13 V c 2 ⟨n + 1, hn⟩) (outsAt13 c n (Nat.lt_of_succ_lt hn)).2, acc13_L c (grid13.coords ⟨n + 1, hn⟩) (mA13 ⟨n + 1, hn⟩) (hA13 ⟨n + 1, hn⟩) (mB13 ⟨n + 1, hn⟩) (hB13 ⟨n + 1, hn⟩) (mC13 ⟨n + 1, hn⟩) (hC13 ⟨n + 1, hn⟩) (mO13 ⟨n + 1, hn⟩) (hO13 ⟨n + 1, hn⟩) mS13 (Memref.isWhole_whole _) (fun h => h0 ((zeroC13_iff ⟨n + 1, hn⟩).mp h)) ((flushC13_iff ⟨n + 1, hn⟩).mpr h1) (iblk13 V c 0 ⟨n + 1, hn⟩) (iblk13 V c 1 ⟨n + 1, hn⟩) (iblk13 V c 2 ⟨n + 1, hn⟩) (outsAt13 c n (Nat.lt_of_succ_lt hn)).2)
      else
        (out13_M_3 c (grid13.coords ⟨n + 1, hn⟩) (mA13 ⟨n + 1, hn⟩) (hA13 ⟨n + 1, hn⟩) (mB13 ⟨n + 1, hn⟩) (hB13 ⟨n + 1, hn⟩) (mC13 ⟨n + 1, hn⟩) (hC13 ⟨n + 1, hn⟩) (mO13 ⟨n + 1, hn⟩) (hO13 ⟨n + 1, hn⟩) mS13 (Memref.isWhole_whole _) (fun h => h0 ((zeroC13_iff ⟨n + 1, hn⟩).mp h)) (fun h => h1 ((flushC13_iff ⟨n + 1, hn⟩).mp h)) (iblk13 V c 0 ⟨n + 1, hn⟩) (iblk13 V c 1 ⟨n + 1, hn⟩) (iblk13 V c 2 ⟨n + 1, hn⟩) (outsAt13 c n (Nat.lt_of_succ_lt hn)).2, acc13_M c (grid13.coords ⟨n + 1, hn⟩) (mA13 ⟨n + 1, hn⟩) (hA13 ⟨n + 1, hn⟩) (mB13 ⟨n + 1, hn⟩) (hB13 ⟨n + 1, hn⟩) (mC13 ⟨n + 1, hn⟩) (hC13 ⟨n + 1, hn⟩) (mO13 ⟨n + 1, hn⟩) (hO13 ⟨n + 1, hn⟩) mS13 (Memref.isWhole_whole _) (fun h => h0 ((zeroC13_iff ⟨n + 1, hn⟩).mp h)) (fun h => h1 ((flushC13_iff ⟨n + 1, hn⟩).mp h)) (iblk13 V c 0 ⟨n + 1, hn⟩) (iblk13 V c 1 ⟨n + 1, hn⟩) (iblk13 V c 2 ⟨n + 1, hn⟩) (outsAt13 c n (Nat.lt_of_succ_lt hn)).2)

/-- `outsAt13` at a point with `k = 0`. -/
theorem outsAt13_Z (c : Dev nD) (t : Fin cfg13.N) (h0 : t.val % 10 = 0) (h1 : ¬t.val % 10 = 9) :
    outsAt13 V c t.val t.isLt = (out13_Z_3 c (grid13.coords t) (mA13 t) (hA13 t) (mB13 t) (hB13 t) (mC13 t) (hC13 t) (mO13 t) (hO13 t) mS13 (Memref.isWhole_whole _) ((zeroC13_iff t).mpr h0) (fun h => h1 ((flushC13_iff t).mp h)) (iblk13 V c 0 t) (iblk13 V c 1 t) (iblk13 V c 2 t), acc13_Z c (grid13.coords t) (mA13 t) (hA13 t) (mB13 t) (hB13 t) (mC13 t) (hC13 t) (mO13 t) (hO13 t) mS13 (Memref.isWhole_whole _) ((zeroC13_iff t).mpr h0) (fun h => h1 ((flushC13_iff t).mp h)) (iblk13 V c 0 t) (iblk13 V c 1 t) (iblk13 V c 2 t)) := by
  obtain ⟨n, hn⟩ := t
  cases n with
  | zero => exact rfl
  | succ n => exact (dif_pos h0).trans ((dif_neg h1).trans rfl)

/-- `outsAt13` at a point with `0 < k < 9`: over what the point before left. -/
theorem outsAt13_M (c : Dev nD) (t : Fin cfg13.N) (h0 : ¬t.val % 10 = 0) (h1 : ¬t.val % 10 = 9) :
    outsAt13 V c t.val t.isLt = (out13_M_3 c (grid13.coords t) (mA13 t) (hA13 t) (mB13 t) (hB13 t) (mC13 t) (hC13 t) (mO13 t) (hO13 t) mS13 (Memref.isWhole_whole _) (fun h => h0 ((zeroC13_iff t).mp h)) (fun h => h1 ((flushC13_iff t).mp h)) (iblk13 V c 0 t) (iblk13 V c 1 t) (iblk13 V c 2 t) (outsAt13 V c (t.val - 1) (Nat.lt_of_le_of_lt (Nat.sub_le _ _) t.isLt)).2, acc13_M c (grid13.coords t) (mA13 t) (hA13 t) (mB13 t) (hB13 t) (mC13 t) (hC13 t) (mO13 t) (hO13 t) mS13 (Memref.isWhole_whole _) (fun h => h0 ((zeroC13_iff t).mp h)) (fun h => h1 ((flushC13_iff t).mp h)) (iblk13 V c 0 t) (iblk13 V c 1 t) (iblk13 V c 2 t) (outsAt13 V c (t.val - 1) (Nat.lt_of_le_of_lt (Nat.sub_le _ _) t.isLt)).2) := by
  obtain ⟨n, hn⟩ := t
  cases n with
  | zero => exact (by exfalso; (try dsimp only at h0); exact absurd (Nat.zero_mod _) h0)
  | succ n => exact (dif_neg h0).trans ((dif_neg h1).trans rfl)

/-- `outsAt13` at a point with `k = 9`: over what the point before left. -/
theorem outsAt13_L (c : Dev nD) (t : Fin cfg13.N) (h0 : ¬t.val % 10 = 0) (h1 : t.val % 10 = 9) :
    outsAt13 V c t.val t.isLt = (out13_L_3 c (grid13.coords t) (mA13 t) (hA13 t) (mB13 t) (hB13 t) (mC13 t) (hC13 t) (mO13 t) (hO13 t) mS13 (Memref.isWhole_whole _) (fun h => h0 ((zeroC13_iff t).mp h)) ((flushC13_iff t).mpr h1) (iblk13 V c 0 t) (iblk13 V c 1 t) (iblk13 V c 2 t) (outsAt13 V c (t.val - 1) (Nat.lt_of_le_of_lt (Nat.sub_le _ _) t.isLt)).2, acc13_L c (grid13.coords t) (mA13 t) (hA13 t) (mB13 t) (hB13 t) (mC13 t) (hC13 t) (mO13 t) (hO13 t) mS13 (Memref.isWhole_whole _) (fun h => h0 ((zeroC13_iff t).mp h)) ((flushC13_iff t).mpr h1) (iblk13 V c 0 t) (iblk13 V c 1 t) (iblk13 V c 2 t) (outsAt13 V c (t.val - 1) (Nat.lt_of_le_of_lt (Nat.sub_le _ _) t.isLt)).2) := by
  obtain ⟨n, hn⟩ := t
  cases n with
  | zero => exact (by exfalso; (try dsimp only at h0); exact absurd (Nat.zero_mod _) h0)
  | succ n => exact (dif_neg h0).trans ((dif_pos h1).trans rfl)

/-! ## The invariant -/

/-- The region invariant before position `n`: before the first point the class's (the accumulator at anything);
    afterwards the accumulator at what the point before left in it, the other scoped buffers and the generator
    register as ever. -/
def PhiS13 (c : Dev nD) : (n : ℕ) → n ≤ cfg13.N → sProp 𝕄
  | 0, _ => Pipeline.ΦA spec13 c
  | n + 1, hn => iprop(iprop(owns (c : Thread nD τ) mS13 fullShare ((outsAt13 V c n hn).2) ∗ rest13 (F := F) c) ∗ (∃ r, prngReg c r))

theorem PhiS13_zero (c : Dev nD) (n : ℕ) (h : n ≤ cfg13.N) (hz : n = 0) : PhiS13 V c n h = Pipeline.ΦA spec13 c := by
  subst hz; rfl

theorem PhiS13_succ (c : Dev nD) (n : ℕ) (hn : n < cfg13.N) :
    PhiS13 V c (n + 1) hn = iprop(iprop(owns (c : Thread nD τ) mS13 fullShare ((outsAt13 V c n hn).2) ∗ rest13 (F := F) c) ∗ (∃ r, prngReg c r)) := rfl

theorem PhiS13_pos (c : Dev nD) (n : ℕ) (h : n ≤ cfg13.N) (hz : n ≠ 0) :
    PhiS13 V c n h = iprop(iprop(owns (c : Thread nD τ) mS13 fullShare ((outsAt13 V c (n - 1) (by omega)).2) ∗ rest13 (F := F) c) ∗ (∃ r, prngReg c r)) := by
  cases n with
  | zero => exact absurd rfl hz
  | succ n => rfl

/-! ## The proof data -/

/-- The proof data of region 13's pipeline on core `c`: the arrays as the region finds them; after the body at point
    `t` each input's buffer at its block and the result's at `outsAt13`'s first component; the invariant `PhiS13`;
    nothing owed; full shares. -/
def dat13 (c : Dev nD) : Dat τ (Elt F) Unit ℕ (UR sig nD τ) ℕ cfg13 c where
  A w := V c (Pipeline.arrRef spec13 w)
  after w t := match w with
    | ⟨0, _⟩ => iblk13 V c 0 t
    | ⟨1, _⟩ => iblk13 V c 1 t
    | ⟨2, _⟩ => iblk13 V c 2 t
    | ⟨3, _⟩ => (outsAt13 V c t.val t.isLt).1
  Φ t := PhiS13 V c t.val (Nat.le_of_lt_succ t.isLt)
  q _ := fullShare
  owed _ := 0

/-- The proof data's arrays are the region-entry contents (the definition projected, `V` never unfolded). -/
theorem A_eq13 (c : Dev nD) (w : Fin cfg13.W) : (dat13 V c).A w = V c (Pipeline.arrRef spec13 w) := by
  dsimp only [dat13]

/-- The invariant at a point's start, restated at `t.val`. -/
theorem PhiS13_castSucc (c : Dev nD) (t : Fin cfg13.N) :
    (dat13 V c).Φ t.castSucc = PhiS13 V c t.val (Nat.le_of_lt t.isLt) := by
  dsimp only [dat13]; simp only [Fin.coe_castSucc]

/-- What the body leaves, window by window. -/
theorem after13_0 (c : Dev nD) (t : Fin cfg13.N) : (dat13 V c).after 0 t = iblk13 V c 0 t := by dsimp only [dat13]
theorem after13_1 (c : Dev nD) (t : Fin cfg13.N) : (dat13 V c).after 1 t = iblk13 V c 1 t := by dsimp only [dat13]
theorem after13_2 (c : Dev nD) (t : Fin cfg13.N) : (dat13 V c).after 2 t = iblk13 V c 2 t := by dsimp only [dat13]
theorem after13_3 (c : Dev nD) (t : Fin cfg13.N) : (dat13 V c).after 3 t = (outsAt13 V c t.val t.isLt).1 := by dsimp only [dat13]

/-- Each input's current staging buffer holds its block at every point. -/
theorem before13_0 (c : Dev nD) (t : Fin cfg13.N) (d) : (dat13 V c).before 0 t d = iblk13 V c 0 t :=
  before13_0_of V (dat13 V c) (A_eq13 V c 0) (after13_0 V c) t d
theorem before13_1 (c : Dev nD) (t : Fin cfg13.N) (d) : (dat13 V c).before 1 t d = iblk13 V c 1 t :=
  before13_1_of V (dat13 V c) (A_eq13 V c 1) (after13_1 V c) t d
theorem before13_2 (c : Dev nD) (t : Fin cfg13.N) (d) : (dat13 V c).before 2 t d = iblk13 V c 2 t :=
  before13_2_of V (dat13 V c) (A_eq13 V c 2) (after13_2 V c) t d

/-! ## The body obligation, at a generic point -/

/-- What the body is called with at point `t`, the windows one by one, -/
def bodyPre13 (c : Dev nD) (t : Fin cfg13.N) : sProp 𝕄 :=
  iprop((dat13 V c).Φ t.castSucc ∗ (dat13 V c).owesAt () t.castSucc
    ∗ (∃ d, owns (c : Thread nD τ) (mA13 t) fullShare ((dat13 V c).before 0 t d))
    ∗ (∃ d, owns (c : Thread nD τ) (mB13 t) fullShare ((dat13 V c).before 1 t d))
    ∗ (∃ d, owns (c : Thread nD τ) (mC13 t) fullShare ((dat13 V c).before 2 t d))
    ∗ (∃ d, owns (c : Thread nD τ) (mO13 t) fullShare ((dat13 V c).before 3 t d)))

/-- and what it returns. -/
def bodyPost13 (c : Dev nD) (t : Fin cfg13.N) : sProp 𝕄 :=
  iprop((dat13 V c).Φ t.succ ∗ (dat13 V c).owesAt () t.succ
    ∗ (dat13 V c).leavesExact 0 t
    ∗ (dat13 V c).leavesExact 1 t
    ∗ (dat13 V c).leavesExact 2 t
    ∗ (dat13 V c).leavesExact 3 t)

set_option maxHeartbeats 4800000 in
/-- The body at any point. The inputs' memrefs hold their blocks; the closed forms say which control case the point is
    in, and that case's run applies. The invariant hands the body the accumulator at what the point before left (at
    anything before the first point) and takes it back at this point's contents, its stores covering it; where the
    result window is idle its buffer goes back as found, and at `k = 9` its one store covers it. The other scoped
    buffers, the generator register and what the core owes pass through. -/
theorem sound_body13 (c : Dev nD) (t : Fin cfg13.N) :
    bodyPre13 V c t ⊢ wp frame (wpE (defs₀ (F := F)) Variants.none c none) Set.univ (bodyAt13 t) (fun _ => bodyPost13 V c t) := by
  unfold bodyPre13 bodyPost13 bodyAt13
  simp only [before13_0, before13_1, before13_2]
  rw [show (dat13 V c).owesAt () t.succ = (dat13 V c).owesAt () t.castSucc from rfl]
  rw [show (dat13 V c).Φ t.succ = PhiS13 V c (t.val + 1) t.isLt from rfl, PhiS13_succ]
  rw [show (dat13 V c).leavesExact 0 t = owns (c : Thread nD τ) (mA13 t) fullShare ((dat13 V c).after 0 t) from by
    unfold Dat.leavesExact; rw [live13_0 t], after13_0]
  rw [show (dat13 V c).leavesExact 1 t = owns (c : Thread nD τ) (mB13 t) fullShare ((dat13 V c).after 1 t) from by
    unfold Dat.leavesExact; rw [live13_1 t], after13_1]
  rw [show (dat13 V c).leavesExact 2 t = owns (c : Thread nD τ) (mC13 t) fullShare ((dat13 V c).after 2 t) from by
    unfold Dat.leavesExact; rw [live13_2 t], after13_2]
  have hN : t.val < 200 := lt_of_lt_of_eq t.isLt (show cfg13.N = 200 from N_13)
  by_cases h0 : t.val % 10 = 0
  · by_cases h1 : t.val % 10 = 9
    · exfalso; omega
    · rw [Dat.leavesExact_idle (dat13 V c) 3 t (idle13_3 t (fun h => h1 ((flushC13_iff t).mp h))) (noFlush13_3 t (fun h => h1 ((flushC13_iff t).mp h)))]
      rw [outsAt13_Z V c t h0 h1]
      unfold acc13_Z; (try dsimp only)
      by_cases hz : t.val = 0
      · rw [PhiS13_castSucc V c t, PhiS13_zero V c _ _ hz, PhiA13_eq]
        iintro ⟨⟨⟨HS, Hr⟩, Hg⟩, Ho, ⟨%d0, H0⟩, ⟨%d1, H1⟩, ⟨%d2, H2⟩, ⟨%d3, H3⟩⟩
        iapply ((runZero13 c (grid13.coords t) _ _ _ _ _ _ _ _ _ _ ((zeroC13_iff t).mpr h0) (fun h => h1 ((flushC13_iff t).mp h)) (iblk13 V c 0 t) (iblk13 V c 1 t) (iblk13 V c 2 t)).2.2 _ Set.univ _)
        isplitl [H0]; · iexact H0
        isplitl [H1]; · iexact H1
        isplitl [H2]; · iexact H2
        isplitl [H3]; · iexact H3
        isplitl [HS]; · iexact HS
        iintro ⟨H0, H1, H2, H3, ⟨%es, HS⟩⟩
        isplitl [HS Hr Hg]
        · isplitl [HS Hr]
          · isplitl [HS]
            · unfold owns; iexists _; isplitr
              swap; · iexact HS
              ipureintro; exact View.read_writes_of_cover _ _ _ _ _ (scover13_Z c _ _ _ _ _ _ _ _ _ _ _ _ _ _ _ _)
            iexact Hr
          iexact Hg
        isplitl [Ho]; · iexact Ho
        isplitl [H0]; · iexact H0
        isplitl [H1]; · iexact H1
        isplitl [H2]; · iexact H2
        iexists _; iexact H3
      · rw [PhiS13_castSucc V c t, PhiS13_pos V c _ _ hz]
        iintro ⟨⟨⟨HS, Hr⟩, Hg⟩, Ho, ⟨%d0, H0⟩, ⟨%d1, H1⟩, ⟨%d2, H2⟩, ⟨%d3, H3⟩⟩
        iapply ((runZero13 c (grid13.coords t) _ _ _ _ _ _ _ _ _ _ ((zeroC13_iff t).mpr h0) (fun h => h1 ((flushC13_iff t).mp h)) (iblk13 V c 0 t) (iblk13 V c 1 t) (iblk13 V c 2 t)).2.2 _ Set.univ _)
        isplitl [H0]; · iexact H0
        isplitl [H1]; · iexact H1
        isplitl [H2]; · iexact H2
        isplitl [H3]; · iexact H3
        isplitl [HS]; · iexists _; iexact HS
        iintro ⟨H0, H1, H2, H3, ⟨%es, HS⟩⟩
        isplitl [HS Hr Hg]
        · isplitl [HS Hr]
          · isplitl [HS]
            · unfold owns; iexists _; isplitr
              swap; · iexact HS
              ipureintro; exact View.read_writes_of_cover _ _ _ _ _ (scover13_Z c _ _ _ _ _ _ _ _ _ _ _ _ _ _ _ _)
            iexact Hr
          iexact Hg
        isplitl [Ho]; · iexact Ho
        isplitl [H0]; · iexact H0
        isplitl [H1]; · iexact H1
        isplitl [H2]; · iexact H2
        iexists _; iexact H3
  · have hz : t.val ≠ 0 := fun e => h0 (by rw [e])
    by_cases h1 : t.val % 10 = 9
    · rw [show (dat13 V c).leavesExact 3 t = owns (c : Thread nD τ) (mO13 t) fullShare ((dat13 V c).after 3 t) from by
        unfold Dat.leavesExact; rw [live13_3 t ((flushC13_iff t).mpr h1)], after13_3]
      rw [outsAt13_L V c t h0 h1]
      unfold out13_L_3 acc13_L; (try dsimp only)
      rw [PhiS13_castSucc V c t, PhiS13_pos V c _ _ hz]
      iintro ⟨⟨⟨HS, Hr⟩, Hg⟩, Ho, ⟨%d0, H0⟩, ⟨%d1, H1⟩, ⟨%d2, H2⟩, ⟨%d3, H3⟩⟩
      iapply ((runLast13 c (grid13.coords t) _ _ _ _ _ _ _ _ _ _ (fun h => h0 ((zeroC13_iff t).mp h)) ((flushC13_iff t).mpr h1) (iblk13 V c 0 t) (iblk13 V c 1 t) (iblk13 V c 2 t) _).2.2 Set.univ _)
      isplitl [H0]; · iexact H0
      isplitl [H1]; · iexact H1
      isplitl [H2]; · iexact H2
      isplitl [H3]; · iexists _; iexact H3
      isplitl [HS]; · iexact HS
      iintro ⟨H0, H1, H2, ⟨%e3, H3⟩, ⟨%es, HS⟩⟩
      isplitl [HS Hr Hg]
      · isplitl [HS Hr]
        · isplitl [HS]
          · unfold owns; iexists _; isplitr
            swap; · iexact HS
            ipureintro; exact View.read_writes_of_cover _ _ _ _ _ (scover13_L c _ _ _ _ _ _ _ _ _ _ _ _ _ _ _ _ _)
          iexact Hr
        iexact Hg
      isplitl [Ho]; · iexact Ho
      isplitl [H0]; · iexact H0
      isplitl [H1]; · iexact H1
      isplitl [H2]; · iexact H2
      unfold owns; iexists _; isplitr
      swap; · iexact H3
      ipureintro; exact View.read_writes_of_cover _ _ _ _ _ (cover13_L_3 c _ _ _ _ _ _ _ _ _ _ _ _ _ _ _ _ _)
    · rw [Dat.leavesExact_idle (dat13 V c) 3 t (idle13_3 t (fun h => h1 ((flushC13_iff t).mp h))) (noFlush13_3 t (fun h => h1 ((flushC13_iff t).mp h)))]
      rw [outsAt13_M V c t h0 h1]
      unfold acc13_M; (try dsimp only)
      rw [PhiS13_castSucc V c t, PhiS13_pos V c _ _ hz]
      iintro ⟨⟨⟨HS, Hr⟩, Hg⟩, Ho, ⟨%d0, H0⟩, ⟨%d1, H1⟩, ⟨%d2, H2⟩, ⟨%d3, H3⟩⟩
      iapply ((runMid13 c (grid13.coords t) _ _ _ _ _ _ _ _ _ _ (fun h => h0 ((zeroC13_iff t).mp h)) (fun h => h1 ((flushC13_iff t).mp h)) (iblk13 V c 0 t) (iblk13 V c 1 t) (iblk13 V c 2 t) _).2.2 _ Set.univ _)
      isplitl [H0]; · iexact H0
      isplitl [H1]; · iexact H1
      isplitl [H2]; · iexact H2
      isplitl [H3]; · iexact H3
      isplitl [HS]; · iexact HS
      iintro ⟨H0, H1, H2, H3, ⟨%es, HS⟩⟩
      isplitl [HS Hr Hg]
      · isplitl [HS Hr]
        · isplitl [HS]
          · unfold owns; iexists _; isplitr
            swap; · iexact HS
            ipureintro; exact View.read_writes_of_cover _ _ _ _ _ (scover13_M c _ _ _ _ _ _ _ _ _ _ _ _ _ _ _ _ _)
          iexact Hr
        iexact Hg
      isplitl [Ho]; · iexact Ho
      isplitl [H0]; · iexact H0
      isplitl [H1]; · iexact H1
      isplitl [H2]; · iexact H2
      iexists _; iexact H3

/-- The library's body obligation, at every point. -/
theorem body_obligation13 (c : Dev nD) : BodyObligation (dat13 (F := F) V c) (defs₀ (F := F)) Variants.none () Set.univ := fun t => by
  rw [bigSep_W13, bigSep_W13]
  exact sound_body13 V c t

/-- What the launch hands the region is the invariant before the first point. -/
theorem hin13 (c : Dev nD) : Pipeline.ΦA spec13 c ⊢ (dat13 V c).Φ 0 := by
  rw [show (dat13 V c).Φ 0 = PhiS13 V c 0 (Nat.zero_le _) from rfl, PhiS13_zero V c 0 _ rfl]
  try exact Idealize.SL.BI.Entails.refl _

/-- After any point the invariant gives the class's back: the accumulator's named contents are forgotten. -/
theorem Phi_out13 (c : Dev nD) (t : Fin (cfg13.N + 1)) (ht : t.val ≠ 0) : (dat13 V c).Φ t ⊢ Pipeline.ΦA spec13 c := by
  rw [show (dat13 V c).Φ t = PhiS13 V c t.val (Nat.le_of_lt_succ t.isLt) from rfl, PhiS13_pos V c _ _ ht, PhiA13_eq]
  iintro ⟨⟨HS, Hr⟩, Hg⟩
  isplitl [HS Hr]
  · isplitl [HS]
    · iexists _; iexact HS
    iexact Hr
  iexact Hg

/-- The same after the last point. -/
theorem hout13 (c : Dev nD) : (dat13 V c).Φ (Fin.last cfg13.N) ⊢ Pipeline.ΦA spec13 c :=
  Phi_out13 V c _ (by rw [Fin.val_last]; have : cfg13.N = 200 := N_13; omega)

end Entry

end Cert.Kernel.Rg

end
-- ==== Proof.KB.Data.lean ====
/- The contents of every unscoped buffer between two segments of @main, named outright: before region 0 what the host operations
   leave of the launch memory; after a region the same except its result array, which holds what the region's write-backs leave;
   after a host stretch the stretch applied. With them the family of the 14 regions' proof data, each at its region's entry contents,
   and the two facts a region's exit needs: every array of the region ends at its exit contents, every other buffer is untouched. -/
import proofs.«181230_j19834158973077_2_alg».proof.Proof.KernelRegions
import proofs.«181230_j19834158973077_2_alg».proof.Proof.KB.Reg0
import proofs.«181230_j19834158973077_2_alg».proof.Proof.KB.Reg1
import proofs.«181230_j19834158973077_2_alg».proof.Proof.KB.Reg2
import proofs.«181230_j19834158973077_2_alg».proof.Proof.KB.Reg3
import proofs.«181230_j19834158973077_2_alg».proof.Proof.KB.Reg4
import proofs.«181230_j19834158973077_2_alg».proof.Proof.KB.Reg5
import proofs.«181230_j19834158973077_2_alg».proof.Proof.KB.Reg6
import proofs.«181230_j19834158973077_2_alg».proof.Proof.KB.Reg7
import proofs.«181230_j19834158973077_2_alg».proof.Proof.KB.Reg8
import proofs.«181230_j19834158973077_2_alg».proof.Proof.KB.Reg9
import proofs.«181230_j19834158973077_2_alg».proof.Proof.KB.Reg10
import proofs.«181230_j19834158973077_2_alg».proof.Proof.KB.Reg11
import proofs.«181230_j19834158973077_2_alg».proof.Proof.KB.Reg12
import proofs.«181230_j19834158973077_2_alg».proof.Proof.KB.Reg13
import Idealize.ShloMosaic.Lib.Pipeline.RegionsLoop
import Idealize.ShloMosaic.Lib.Pipeline.FrameSuffix

set_option maxRecDepth 16384

noncomputable section

namespace Cert.Kernel.Rg

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.Kernel Cert.Kernel.Gen

variable {F : FTy → Type} [FloatOps F]

local notation "𝕄" => MT nD τ sig Unit (Elt F) ℕ (UR sig nD τ) ℕ

abbrev L : GSem nD τ sig → Finset Unit := fun _ => ∅
abbrev lv : GSem nD τ sig → Unit → ℕ := fun _ _ => 0
/-- What rides beside the buffers through every segment: the core's generator register at some state and its debts, none. -/
abbrev R (c : Dev nD) : sProp 𝕄 := iprop((∃ r, prngReg c r) ∗ ∃ W, owes (c : Thread nD τ) (0 : CellTallies nD τ sig Unit) W)

variable (m : (ℓ : Loc nD τ sig) → Buf (Elt F) ℓ)

/-! ## The buffers between the segments -/

/-- Before region 0: the launch memory after the host operations that build the adjacency, the padded features, weights and biases. -/
abbrev W15 (c : Dev nD) : Valuation τ sig (Elt F) := V15 m c
/-- The same read at the TensorCore's references (what region 0's proof data take). -/
abbrev B15 : (c : Dev nD) → (b : Ref sig .tc) → Buf (Elt F) ((c : Thread nD τ).loc b) := fun c b => W15 m c b
/-- What region 0 leaves in its result array: the fold of its write-backs over the grid. -/
def res0 (c : Dev nD) : Buf (Elt F) ((c : Thread nD τ).loc main_v60) := (dat0 (B15 m) c).arrAt 3 cfg0.N
/-- After region 0: as before it, except the result array. -/
def W16 (c : Dev nD) : Valuation τ sig (Elt F) := Function.update (W15 m c) main_v60 (res0 m c)
theorem W16_out (c : Dev nD) : W16 m c main_v60 = res0 m c := by unfold W16; exact Function.update_self _ _ _
theorem W16_of_ne (c : Dev nD) (b : Ref sig .tc) (hb : b ≠ main_v60) : W16 m c b = W15 m c b := by
  unfold W16; exact Function.update_of_ne (StableHlo.devRef_ne_of_ne hb) _ _
abbrev B16 : (c : Dev nD) → (b : Ref sig .tc) → Buf (Elt F) ((c : Thread nD τ).loc b) := fun c b => W16 m c b
/-- After the host stretch that follows region 0. -/
abbrev W17 (c : Dev nD) : Valuation τ sig (Elt F) := StableHlo.after hostOps1 (W16 m c)
/-- The same read at the TensorCore's references (what region 1's proof data take). -/
abbrev B17 : (c : Dev nD) → (b : Ref sig .tc) → Buf (Elt F) ((c : Thread nD τ).loc b) := fun c b => W17 m c b
/-- What region 1 leaves in its result array: the fold of its write-backs over the grid. -/
def res1 (c : Dev nD) : Buf (Elt F) ((c : Thread nD τ).loc main_v62) := (dat1 (B17 m) c).arrAt 3 cfg1.N
/-- After region 1: as before it, except the result array. -/
def W18 (c : Dev nD) : Valuation τ sig (Elt F) := Function.update (W17 m c) main_v62 (res1 m c)
theorem W18_out (c : Dev nD) : W18 m c main_v62 = res1 m c := by unfold W18; exact Function.update_self _ _ _
theorem W18_of_ne (c : Dev nD) (b : Ref sig .tc) (hb : b ≠ main_v62) : W18 m c b = W17 m c b := by
  unfold W18; exact Function.update_of_ne (StableHlo.devRef_ne_of_ne hb) _ _
abbrev B18 : (c : Dev nD) → (b : Ref sig .tc) → Buf (Elt F) ((c : Thread nD τ).loc b) := fun c b => W18 m c b
/-- After the host stretch that follows region 1. -/
abbrev W19 (c : Dev nD) : Valuation τ sig (Elt F) := StableHlo.after hostOps2 (W18 m c)
/-- The same read at the TensorCore's references (what region 2's proof data take). -/
abbrev B19 : (c : Dev nD) → (b : Ref sig .tc) → Buf (Elt F) ((c : Thread nD τ).loc b) := fun c b => W19 m c b
/-- What region 2 leaves in its result array: the fold of its write-backs over the grid. -/
def res2 (c : Dev nD) : Buf (Elt F) ((c : Thread nD τ).loc main_v69) := (dat2 (B19 m) c).arrAt 3 cfg2.N
/-- After region 2: as before it, except the result array. -/
def W20 (c : Dev nD) : Valuation τ sig (Elt F) := Function.update (W19 m c) main_v69 (res2 m c)
theorem W20_out (c : Dev nD) : W20 m c main_v69 = res2 m c := by unfold W20; exact Function.update_self _ _ _
theorem W20_of_ne (c : Dev nD) (b : Ref sig .tc) (hb : b ≠ main_v69) : W20 m c b = W19 m c b := by
  unfold W20; exact Function.update_of_ne (StableHlo.devRef_ne_of_ne hb) _ _
abbrev B20 : (c : Dev nD) → (b : Ref sig .tc) → Buf (Elt F) ((c : Thread nD τ).loc b) := fun c b => W20 m c b
/-- After the host stretch that follows region 2. -/
abbrev W21 (c : Dev nD) : Valuation τ sig (Elt F) := StableHlo.after hostOps3 (W20 m c)
/-- The same read at the TensorCore's references (what region 3's proof data take). -/
abbrev B21 : (c : Dev nD) → (b : Ref sig .tc) → Buf (Elt F) ((c : Thread nD τ).loc b) := fun c b => W21 m c b
/-- What region 3 leaves in its result array: the fold of its write-backs over the grid. -/
def res3 (c : Dev nD) : Buf (Elt F) ((c : Thread nD τ).loc main_v71) := (dat3 (B21 m) c).arrAt 3 cfg3.N
/-- After region 3: as before it, except the result array. -/
def W22 (c : Dev nD) : Valuation τ sig (Elt F) := Function.update (W21 m c) main_v71 (res3 m c)
theorem W22_out (c : Dev nD) : W22 m c main_v71 = res3 m c := by unfold W22; exact Function.update_self _ _ _
theorem W22_of_ne (c : Dev nD) (b : Ref sig .tc) (hb : b ≠ main_v71) : W22 m c b = W21 m c b := by
  unfold W22; exact Function.update_of_ne (StableHlo.devRef_ne_of_ne hb) _ _
abbrev B22 : (c : Dev nD) → (b : Ref sig .tc) → Buf (Elt F) ((c : Thread nD τ).loc b) := fun c b => W22 m c b
/-- After the host stretch that follows region 3. -/
abbrev W23 (c : Dev nD) : Valuation τ sig (Elt F) := StableHlo.after hostOps4 (W22 m c)
/-- The same read at the TensorCore's references (what region 4's proof data take). -/
abbrev B23 : (c : Dev nD) → (b : Ref sig .tc) → Buf (Elt F) ((c : Thread nD τ).loc b) := fun c b => W23 m c b
/-- What region 4 leaves in its result array: the fold of its write-backs over the grid. -/
def res4 (c : Dev nD) : Buf (Elt F) ((c : Thread nD τ).loc main_v78) := (dat4 (B23 m) c).arrAt 3 cfg4.N
/-- After region 4: as before it, except the result array. -/
def W24 (c : Dev nD) : Valuation τ sig (Elt F) := Function.update (W23 m c) main_v78 (res4 m c)
theorem W24_out (c : Dev nD) : W24 m c main_v78 = res4 m c := by unfold W24; exact Function.update_self _ _ _
theorem W24_of_ne (c : Dev nD) (b : Ref sig .tc) (hb : b ≠ main_v78) : W24 m c b = W23 m c b := by
  unfold W24; exact Function.update_of_ne (StableHlo.devRef_ne_of_ne hb) _ _
abbrev B24 : (c : Dev nD) → (b : Ref sig .tc) → Buf (Elt F) ((c : Thread nD τ).loc b) := fun c b => W24 m c b
/-- After the host stretch that follows region 4. -/
abbrev W25 (c : Dev nD) : Valuation τ sig (Elt F) := StableHlo.after hostOps5 (W24 m c)
/-- The same read at the TensorCore's references (what region 5's proof data take). -/
abbrev B25 : (c : Dev nD) → (b : Ref sig .tc) → Buf (Elt F) ((c : Thread nD τ).loc b) := fun c b => W25 m c b
/-- What region 5 leaves in its result array: the fold of its write-backs over the grid. -/
def res5 (c : Dev nD) : Buf (Elt F) ((c : Thread nD τ).loc main_v80) := (dat5 (B25 m) c).arrAt 3 cfg5.N
/-- After region 5: as before it, except the result array. -/
def W26 (c : Dev nD) : Valuation τ sig (Elt F) := Function.update (W25 m c) main_v80 (res5 m c)
theorem W26_out (c : Dev nD) : W26 m c main_v80 = res5 m c := by unfold W26; exact Function.update_self _ _ _
theorem W26_of_ne (c : Dev nD) (b : Ref sig .tc) (hb : b ≠ main_v80) : W26 m c b = W25 m c b := by
  unfold W26; exact Function.update_of_ne (StableHlo.devRef_ne_of_ne hb) _ _
abbrev B26 : (c : Dev nD) → (b : Ref sig .tc) → Buf (Elt F) ((c : Thread nD τ).loc b) := fun c b => W26 m c b
/-- After the host stretch that follows region 5. -/
abbrev W27 (c : Dev nD) : Valuation τ sig (Elt F) := StableHlo.after hostOps6 (W26 m c)
/-- The same read at the TensorCore's references (what region 6's proof data take). -/
abbrev B27 : (c : Dev nD) → (b : Ref sig .tc) → Buf (Elt F) ((c : Thread nD τ).loc b) := fun c b => W27 m c b
/-- What region 6 leaves in its result array: the fold of its write-backs over the grid. -/
def res6 (c : Dev nD) : Buf (Elt F) ((c : Thread nD τ).loc main_v87) := (dat6 (B27 m) c).arrAt 3 cfg6.N
/-- After region 6: as before it, except the result array. -/
def W28 (c : Dev nD) : Valuation τ sig (Elt F) := Function.update (W27 m c) main_v87 (res6 m c)
theorem W28_out (c : Dev nD) : W28 m c main_v87 = res6 m c := by unfold W28; exact Function.update_self _ _ _
theorem W28_of_ne (c : Dev nD) (b : Ref sig .tc) (hb : b ≠ main_v87) : W28 m c b = W27 m c b := by
  unfold W28; exact Function.update_of_ne (StableHlo.devRef_ne_of_ne hb) _ _
abbrev B28 : (c : Dev nD) → (b : Ref sig .tc) → Buf (Elt F) ((c : Thread nD τ).loc b) := fun c b => W28 m c b
/-- After the host stretch that follows region 6. -/
abbrev W29 (c : Dev nD) : Valuation τ sig (Elt F) := StableHlo.after hostOps7 (W28 m c)
/-- The same read at the TensorCore's references (what region 7's proof data take). -/
abbrev B29 : (c : Dev nD) → (b : Ref sig .tc) → Buf (Elt F) ((c : Thread nD τ).loc b) := fun c b => W29 m c b
/-- What region 7 leaves in its result array: the fold of its write-backs over the grid. -/
def res7 (c : Dev nD) : Buf (Elt F) ((c : Thread nD τ).loc main_v89) := (dat7 (B29 m) c).arrAt 3 cfg7.N
/-- After region 7: as before it, except the result array. -/
def W30 (c : Dev nD) : Valuation τ sig (Elt F) := Function.update (W29 m c) main_v89 (res7 m c)
theorem W30_out (c : Dev nD) : W30 m c main_v89 = res7 m c := by unfold W30; exact Function.update_self _ _ _
theorem W30_of_ne (c : Dev nD) (b : Ref sig .tc) (hb : b ≠ main_v89) : W30 m c b = W29 m c b := by
  unfold W30; exact Function.update_of_ne (StableHlo.devRef_ne_of_ne hb) _ _
abbrev B30 : (c : Dev nD) → (b : Ref sig .tc) → Buf (Elt F) ((c : Thread nD τ).loc b) := fun c b => W30 m c b
/-- After the host stretch that follows region 7. -/
abbrev W31 (c : Dev nD) : Valuation τ sig (Elt F) := StableHlo.after hostOps8 (W30 m c)
/-- The same read at the TensorCore's references (what region 8's proof data take). -/
abbrev B31 : (c : Dev nD) → (b : Ref sig .tc) → Buf (Elt F) ((c : Thread nD τ).loc b) := fun c b => W31 m c b
/-- What region 8 leaves in its result array: the fold of its write-backs over the grid. -/
def res8 (c : Dev nD) : Buf (Elt F) ((c : Thread nD τ).loc main_v96) := (dat8 (B31 m) c).arrAt 3 cfg8.N
/-- After region 8: as before it, except the result array. -/
def W32 (c : Dev nD) : Valuation τ sig (Elt F) := Function.update (W31 m c) main_v96 (res8 m c)
theorem W32_out (c : Dev nD) : W32 m c main_v96 = res8 m c := by unfold W32; exact Function.update_self _ _ _
theorem W32_of_ne (c : Dev nD) (b : Ref sig .tc) (hb : b ≠ main_v96) : W32 m c b = W31 m c b := by
  unfold W32; exact Function.update_of_ne (StableHlo.devRef_ne_of_ne hb) _ _
abbrev B32 : (c : Dev nD) → (b : Ref sig .tc) → Buf (Elt F) ((c : Thread nD τ).loc b) := fun c b => W32 m c b
/-- After the host stretch that follows region 8. -/
abbrev W33 (c : Dev nD) : Valuation τ sig (Elt F) := StableHlo.after hostOps9 (W32 m c)
/-- The same read at the TensorCore's references (what region 9's proof data take). -/
abbrev B33 : (c : Dev nD) → (b : Ref sig .tc) → Buf (Elt F) ((c : Thread nD τ).loc b) := fun c b => W33 m c b
/-- What region 9 leaves in its result array: the fold of its write-backs over the grid. -/
def res9 (c : Dev nD) : Buf (Elt F) ((c : Thread nD τ).loc main_v98) := (dat9 (B33 m) c).arrAt 3 cfg9.N
/-- After region 9: as before it, except the result array. -/
def W34 (c : Dev nD) : Valuation τ sig (Elt F) := Function.update (W33 m c) main_v98 (res9 m c)
theorem W34_out (c : Dev nD) : W34 m c main_v98 = res9 m c := by unfold W34; exact Function.update_self _ _ _
theorem W34_of_ne (c : Dev nD) (b : Ref sig .tc) (hb : b ≠ main_v98) : W34 m c b = W33 m c b := by
  unfold W34; exact Function.update_of_ne (StableHlo.devRef_ne_of_ne hb) _ _
abbrev B34 : (c : Dev nD) → (b : Ref sig .tc) → Buf (Elt F) ((c : Thread nD τ).loc b) := fun c b => W34 m c b
/-- After the host stretch that follows region 9. -/
abbrev W35 (c : Dev nD) : Valuation τ sig (Elt F) := StableHlo.after hostOps10 (W34 m c)
/-- The same read at the TensorCore's references (what region 10's proof data take). -/
abbrev B35 : (c : Dev nD) → (b : Ref sig .tc) → Buf (Elt F) ((c : Thread nD τ).loc b) := fun c b => W35 m c b
/-- What region 10 leaves in its result array: the fold of its write-backs over the grid. -/
def res10 (c : Dev nD) : Buf (Elt F) ((c : Thread nD τ).loc main_v105) := (dat10 (B35 m) c).arrAt 3 cfg10.N
/-- After region 10: as before it, except the result array. -/
def W36 (c : Dev nD) : Valuation τ sig (Elt F) := Function.update (W35 m c) main_v105 (res10 m c)
theorem W36_out (c : Dev nD) : W36 m c main_v105 = res10 m c := by unfold W36; exact Function.update_self _ _ _
theorem W36_of_ne (c : Dev nD) (b : Ref sig .tc) (hb : b ≠ main_v105) : W36 m c b = W35 m c b := by
  unfold W36; exact Function.update_of_ne (StableHlo.devRef_ne_of_ne hb) _ _
abbrev B36 : (c : Dev nD) → (b : Ref sig .tc) → Buf (Elt F) ((c : Thread nD τ).loc b) := fun c b => W36 m c b
/-- After the host stretch that follows region 10. -/
abbrev W37 (c : Dev nD) : Valuation τ sig (Elt F) := StableHlo.after hostOps11 (W36 m c)
/-- The same read at the TensorCore's references (what region 11's proof data take). -/
abbrev B37 : (c : Dev nD) → (b : Ref sig .tc) → Buf (Elt F) ((c : Thread nD τ).loc b) := fun c b => W37 m c b
/-- What region 11 leaves in its result array: the fold of its write-backs over the grid. -/
def res11 (c : Dev nD) : Buf (Elt F) ((c : Thread nD τ).loc main_v107) := (dat11 (B37 m) c).arrAt 3 cfg11.N
/-- After region 11: as before it, except the result array. -/
def W38 (c : Dev nD) : Valuation τ sig (Elt F) := Function.update (W37 m c) main_v107 (res11 m c)
theorem W38_out (c : Dev nD) : W38 m c main_v107 = res11 m c := by unfold W38; exact Function.update_self _ _ _
theorem W38_of_ne (c : Dev nD) (b : Ref sig .tc) (hb : b ≠ main_v107) : W38 m c b = W37 m c b := by
  unfold W38; exact Function.update_of_ne (StableHlo.devRef_ne_of_ne hb) _ _
abbrev B38 : (c : Dev nD) → (b : Ref sig .tc) → Buf (Elt F) ((c : Thread nD τ).loc b) := fun c b => W38 m c b
/-- After the host stretch that follows region 11. -/
abbrev W39 (c : Dev nD) : Valuation τ sig (Elt F) := StableHlo.after hostOps12 (W38 m c)
/-- The same read at the TensorCore's references (what region 12's proof data take). -/
abbrev B39 : (c : Dev nD) → (b : Ref sig .tc) → Buf (Elt F) ((c : Thread nD τ).loc b) := fun c b => W39 m c b
/-- What region 12 leaves in its result array: the fold of its write-backs over the grid. -/
def res12 (c : Dev nD) : Buf (Elt F) ((c : Thread nD τ).loc main_v110) := (dat12 (B39 m) c).arrAt 3 cfg12.N
/-- After region 12: as before it, except the result array. -/
def W40 (c : Dev nD) : Valuation τ sig (Elt F) := Function.update (W39 m c) main_v110 (res12 m c)
theorem W40_out (c : Dev nD) : W40 m c main_v110 = res12 m c := by unfold W40; exact Function.update_self _ _ _
theorem W40_of_ne (c : Dev nD) (b : Ref sig .tc) (hb : b ≠ main_v110) : W40 m c b = W39 m c b := by
  unfold W40; exact Function.update_of_ne (StableHlo.devRef_ne_of_ne hb) _ _
abbrev B40 : (c : Dev nD) → (b : Ref sig .tc) → Buf (Elt F) ((c : Thread nD τ).loc b) := fun c b => W40 m c b
/-- After the host stretch that follows region 12. -/
abbrev W41 (c : Dev nD) : Valuation τ sig (Elt F) := StableHlo.after hostOps13 (W40 m c)
/-- The same read at the TensorCore's references (what region 13's proof data take). -/
abbrev B41 : (c : Dev nD) → (b : Ref sig .tc) → Buf (Elt F) ((c : Thread nD τ).loc b) := fun c b => W41 m c b
/-- What region 13 leaves in its result array: the fold of its write-backs over the grid. -/
def res13 (c : Dev nD) : Buf (Elt F) ((c : Thread nD τ).loc main_v112) := (dat13 (B41 m) c).arrAt 3 cfg13.N
/-- After region 13: as before it, except the result array. -/
def W42 (c : Dev nD) : Valuation τ sig (Elt F) := Function.update (W41 m c) main_v112 (res13 m c)
theorem W42_out (c : Dev nD) : W42 m c main_v112 = res13 m c := by unfold W42; exact Function.update_self _ _ _
theorem W42_of_ne (c : Dev nD) (b : Ref sig .tc) (hb : b ≠ main_v112) : W42 m c b = W41 m c b := by
  unfold W42; exact Function.update_of_ne (StableHlo.devRef_ne_of_ne hb) _ _
abbrev B42 : (c : Dev nD) → (b : Ref sig .tc) → Buf (Elt F) ((c : Thread nD τ).loc b) := fun c b => W42 m c b
/-- After the host stretch that follows region 13. -/
abbrev W43 (c : Dev nD) : Valuation τ sig (Elt F) := StableHlo.after hostOps14 (W42 m c)

/-! ## The same contents as the conditional frame's unknowns -/

/-- The contents after item n − 1, for the items that are regions. -/
def contents : ℕ → Dev nD → Valuation τ sig (Elt F)
  | 16 => W16 m
  | 18 => W18 m
  | 20 => W20 m
  | 22 => W22 m
  | 24 => W24 m
  | 26 => W26 m
  | 28 => W28 m
  | 30 => W30 m
  | 32 => W32 m
  | 34 => W34 m
  | 36 => W36 m
  | 38 => W38 m
  | 40 => W40 m
  | 42 => W42 m
  | _ => W15 m
/-- What each region leaves in the buffers it may change, read off the named contents. -/
def outs : Outs (F := F) := fun n r c => contents m n c r

theorem V16_eq (c : Dev nD) : V16 m (outs m) c = W16 m c := by
  show Function.update (V15 m c) main_v60 (W16 m c main_v60) = W16 m c
  unfold W16; rw [Function.update_self]
theorem V17_eq (c : Dev nD) : V17 m (outs m) c = W17 m c := by
  show StableHlo.after hostOps1 (V16 m (outs m) c) = _; rw [V16_eq]
theorem V18_eq (c : Dev nD) : V18 m (outs m) c = W18 m c := by
  show Function.update (V17 m (outs m) c) main_v62 (W18 m c main_v62) = W18 m c
  rw [V17_eq]; unfold W18; rw [Function.update_self]
theorem V19_eq (c : Dev nD) : V19 m (outs m) c = W19 m c := by
  show StableHlo.after hostOps2 (V18 m (outs m) c) = _; rw [V18_eq]
theorem V20_eq (c : Dev nD) : V20 m (outs m) c = W20 m c := by
  show Function.update (V19 m (outs m) c) main_v69 (W20 m c main_v69) = W20 m c
  rw [V19_eq]; unfold W20; rw [Function.update_self]
theorem V21_eq (c : Dev nD) : V21 m (outs m) c = W21 m c := by
  show StableHlo.after hostOps3 (V20 m (outs m) c) = _; rw [V20_eq]
theorem V22_eq (c : Dev nD) : V22 m (outs m) c = W22 m c := by
  show Function.update (V21 m (outs m) c) main_v71 (W22 m c main_v71) = W22 m c
  rw [V21_eq]; unfold W22; rw [Function.update_self]
theorem V23_eq (c : Dev nD) : V23 m (outs m) c = W23 m c := by
  show StableHlo.after hostOps4 (V22 m (outs m) c) = _; rw [V22_eq]
theorem V24_eq (c : Dev nD) : V24 m (outs m) c = W24 m c := by
  show Function.update (V23 m (outs m) c) main_v78 (W24 m c main_v78) = W24 m c
  rw [V23_eq]; unfold W24; rw [Function.update_self]
theorem V25_eq (c : Dev nD) : V25 m (outs m) c = W25 m c := by
  show StableHlo.after hostOps5 (V24 m (outs m) c) = _; rw [V24_eq]
theorem V26_eq (c : Dev nD) : V26 m (outs m) c = W26 m c := by
  show Function.update (V25 m (outs m) c) main_v80 (W26 m c main_v80) = W26 m c
  rw [V25_eq]; unfold W26; rw [Function.update_self]
theorem V27_eq (c : Dev nD) : V27 m (outs m) c = W27 m c := by
  show StableHlo.after hostOps6 (V26 m (outs m) c) = _; rw [V26_eq]
theorem V28_eq (c : Dev nD) : V28 m (outs m) c = W28 m c := by
  show Function.update (V27 m (outs m) c) main_v87 (W28 m c main_v87) = W28 m c
  rw [V27_eq]; unfold W28; rw [Function.update_self]
theorem V29_eq (c : Dev nD) : V29 m (outs m) c = W29 m c := by
  show StableHlo.after hostOps7 (V28 m (outs m) c) = _; rw [V28_eq]
theorem V30_eq (c : Dev nD) : V30 m (outs m) c = W30 m c := by
  show Function.update (V29 m (outs m) c) main_v89 (W30 m c main_v89) = W30 m c
  rw [V29_eq]; unfold W30; rw [Function.update_self]
theorem V31_eq (c : Dev nD) : V31 m (outs m) c = W31 m c := by
  show StableHlo.after hostOps8 (V30 m (outs m) c) = _; rw [V30_eq]
theorem V32_eq (c : Dev nD) : V32 m (outs m) c = W32 m c := by
  show Function.update (V31 m (outs m) c) main_v96 (W32 m c main_v96) = W32 m c
  rw [V31_eq]; unfold W32; rw [Function.update_self]
theorem V33_eq (c : Dev nD) : V33 m (outs m) c = W33 m c := by
  show StableHlo.after hostOps9 (V32 m (outs m) c) = _; rw [V32_eq]
theorem V34_eq (c : Dev nD) : V34 m (outs m) c = W34 m c := by
  show Function.update (V33 m (outs m) c) main_v98 (W34 m c main_v98) = W34 m c
  rw [V33_eq]; unfold W34; rw [Function.update_self]
theorem V35_eq (c : Dev nD) : V35 m (outs m) c = W35 m c := by
  show StableHlo.after hostOps10 (V34 m (outs m) c) = _; rw [V34_eq]
theorem V36_eq (c : Dev nD) : V36 m (outs m) c = W36 m c := by
  show Function.update (V35 m (outs m) c) main_v105 (W36 m c main_v105) = W36 m c
  rw [V35_eq]; unfold W36; rw [Function.update_self]
theorem V37_eq (c : Dev nD) : V37 m (outs m) c = W37 m c := by
  show StableHlo.after hostOps11 (V36 m (outs m) c) = _; rw [V36_eq]
theorem V38_eq (c : Dev nD) : V38 m (outs m) c = W38 m c := by
  show Function.update (V37 m (outs m) c) main_v107 (W38 m c main_v107) = W38 m c
  rw [V37_eq]; unfold W38; rw [Function.update_self]
theorem V39_eq (c : Dev nD) : V39 m (outs m) c = W39 m c := by
  show StableHlo.after hostOps12 (V38 m (outs m) c) = _; rw [V38_eq]
theorem V40_eq (c : Dev nD) : V40 m (outs m) c = W40 m c := by
  show Function.update (V39 m (outs m) c) main_v110 (W40 m c main_v110) = W40 m c
  rw [V39_eq]; unfold W40; rw [Function.update_self]
theorem V41_eq (c : Dev nD) : V41 m (outs m) c = W41 m c := by
  show StableHlo.after hostOps13 (V40 m (outs m) c) = _; rw [V40_eq]
theorem V42_eq (c : Dev nD) : V42 m (outs m) c = W42 m c := by
  show Function.update (V41 m (outs m) c) main_v112 (W42 m c main_v112) = W42 m c
  rw [V41_eq]; unfold W42; rw [Function.update_self]
theorem V43_eq (c : Dev nD) : V43 m (outs m) c = W43 m c := by
  show StableHlo.after hostOps14 (V42 m (outs m) c) = _; rw [V42_eq]

/-! ## The proof data of the 14 pipelines, each at its region's entry contents — a literal match on the pipeline's number -/

def pdats : (p : Fin 14) → (c : Dev nD) → Dat τ (Elt F) Unit ℕ (UR sig nD τ) ℕ (cfgs p) c
  | ⟨0, _⟩ => fun c => dat0 (B15 m) c
  | ⟨1, _⟩ => fun c => dat1 (B17 m) c
  | ⟨2, _⟩ => fun c => dat2 (B19 m) c
  | ⟨3, _⟩ => fun c => dat3 (B21 m) c
  | ⟨4, _⟩ => fun c => dat4 (B23 m) c
  | ⟨5, _⟩ => fun c => dat5 (B25 m) c
  | ⟨6, _⟩ => fun c => dat6 (B27 m) c
  | ⟨7, _⟩ => fun c => dat7 (B29 m) c
  | ⟨8, _⟩ => fun c => dat8 (B31 m) c
  | ⟨9, _⟩ => fun c => dat9 (B33 m) c
  | ⟨10, _⟩ => fun c => dat10 (B35 m) c
  | ⟨11, _⟩ => fun c => dat11 (B37 m) c
  | ⟨12, _⟩ => fun c => dat12 (B39 m) c
  | ⟨13, _⟩ => fun c => dat13 (B41 m) c

/-! ## At a region's exit: each of its arrays holds the exit contents, every other buffer the entry contents -/

/-- Region 0: an input window's array is never written back, so it ends as entered, and the exit contents differ from the entry
    contents at the result's buffer only; the result's array ends at the fold of the write-backs, by the exit contents' definition. -/
theorem ne0_0 : Pipeline.arrRef spec0 0 ≠ main_v60 := by decide
theorem ne0_1 : Pipeline.arrRef spec0 1 ≠ main_v60 := by decide
theorem ne0_2 : Pipeline.arrRef spec0 2 ≠ main_v60 := by decide
theorem hF0_0 (c : Dev nD) : (dat0 (B15 m) c).arrAt 0 cfg0.N = B16 m c (Pipeline.arrRef spec0 0) :=
  ((dat0 (B15 m) c).arrAt_in 0 rfl _).trans ((A_eq0 (B15 m) c 0).trans (W16_of_ne m c _ ne0_0).symm)
theorem hF0_1 (c : Dev nD) : (dat0 (B15 m) c).arrAt 1 cfg0.N = B16 m c (Pipeline.arrRef spec0 1) :=
  ((dat0 (B15 m) c).arrAt_in 1 rfl _).trans ((A_eq0 (B15 m) c 1).trans (W16_of_ne m c _ ne0_1).symm)
theorem hF0_2 (c : Dev nD) : (dat0 (B15 m) c).arrAt 2 cfg0.N = B16 m c (Pipeline.arrRef spec0 2) :=
  ((dat0 (B15 m) c).arrAt_in 2 rfl _).trans ((A_eq0 (B15 m) c 2).trans (W16_of_ne m c _ ne0_2).symm)
theorem hF0_3 (c : Dev nD) : (dat0 (B15 m) c).arrAt 3 cfg0.N = B16 m c (Pipeline.arrRef spec0 3) := (W16_out m c).symm
theorem hF0 (c : Dev nD) (w : Fin cfg0.W) : (pdats m 0 c).arrAt w cfg0.N = B16 m c (Pipeline.arrRef spec0 w) := by
  show (dat0 (B15 m) c).arrAt w cfg0.N = _
  match w with
  | ⟨0, _⟩ => exact hF0_0 m c
  | ⟨1, _⟩ => exact hF0_1 m c
  | ⟨2, _⟩ => exact hF0_2 m c
  | ⟨3, _⟩ => exact hF0_3 m c
theorem hrest0 (c : Dev nD) : ∀ b, b ∉ Finset.univ.image (Pipeline.arrRef spec0) → B16 m c b = B15 m c b :=
  fun b hb => W16_of_ne m c b fun e => hb (Finset.mem_image.mpr ⟨3, Finset.mem_univ _, e.symm ▸ (rfl : Pipeline.arrRef spec0 3 = main_v60)⟩)
/-- Region 1: an input window's array is never written back, so it ends as entered, and the exit contents differ from the entry
    contents at the result's buffer only; the result's array ends at the fold of the write-backs, by the exit contents' definition. -/
theorem ne1_0 : Pipeline.arrRef spec1 0 ≠ main_v62 := by decide
theorem ne1_1 : Pipeline.arrRef spec1 1 ≠ main_v62 := by decide
theorem ne1_2 : Pipeline.arrRef spec1 2 ≠ main_v62 := by decide
theorem hF1_0 (c : Dev nD) : (dat1 (B17 m) c).arrAt 0 cfg1.N = B18 m c (Pipeline.arrRef spec1 0) :=
  ((dat1 (B17 m) c).arrAt_in 0 rfl _).trans ((A_eq1 (B17 m) c 0).trans (W18_of_ne m c _ ne1_0).symm)
theorem hF1_1 (c : Dev nD) : (dat1 (B17 m) c).arrAt 1 cfg1.N = B18 m c (Pipeline.arrRef spec1 1) :=
  ((dat1 (B17 m) c).arrAt_in 1 rfl _).trans ((A_eq1 (B17 m) c 1).trans (W18_of_ne m c _ ne1_1).symm)
theorem hF1_2 (c : Dev nD) : (dat1 (B17 m) c).arrAt 2 cfg1.N = B18 m c (Pipeline.arrRef spec1 2) :=
  ((dat1 (B17 m) c).arrAt_in 2 rfl _).trans ((A_eq1 (B17 m) c 2).trans (W18_of_ne m c _ ne1_2).symm)
theorem hF1_3 (c : Dev nD) : (dat1 (B17 m) c).arrAt 3 cfg1.N = B18 m c (Pipeline.arrRef spec1 3) := (W18_out m c).symm
theorem hF1 (c : Dev nD) (w : Fin cfg1.W) : (pdats m 1 c).arrAt w cfg1.N = B18 m c (Pipeline.arrRef spec1 w) := by
  show (dat1 (B17 m) c).arrAt w cfg1.N = _
  match w with
  | ⟨0, _⟩ => exact hF1_0 m c
  | ⟨1, _⟩ => exact hF1_1 m c
  | ⟨2, _⟩ => exact hF1_2 m c
  | ⟨3, _⟩ => exact hF1_3 m c
theorem hrest1 (c : Dev nD) : ∀ b, b ∉ Finset.univ.image (Pipeline.arrRef spec1) → B18 m c b = B17 m c b :=
  fun b hb => W18_of_ne m c b fun e => hb (Finset.mem_image.mpr ⟨3, Finset.mem_univ _, e.symm ▸ (rfl : Pipeline.arrRef spec1 3 = main_v62)⟩)
/-- Region 2: an input window's array is never written back, so it ends as entered, and the exit contents differ from the entry
    contents at the result's buffer only; the result's array ends at the fold of the write-backs, by the exit contents' definition. -/
theorem ne2_0 : Pipeline.arrRef spec2 0 ≠ main_v69 := by decide
theorem ne2_1 : Pipeline.arrRef spec2 1 ≠ main_v69 := by decide
theorem ne2_2 : Pipeline.arrRef spec2 2 ≠ main_v69 := by decide
theorem hF2_0 (c : Dev nD) : (dat2 (B19 m) c).arrAt 0 cfg2.N = B20 m c (Pipeline.arrRef spec2 0) :=
  ((dat2 (B19 m) c).arrAt_in 0 rfl _).trans ((A_eq2 (B19 m) c 0).trans (W20_of_ne m c _ ne2_0).symm)
theorem hF2_1 (c : Dev nD) : (dat2 (B19 m) c).arrAt 1 cfg2.N = B20 m c (Pipeline.arrRef spec2 1) :=
  ((dat2 (B19 m) c).arrAt_in 1 rfl _).trans ((A_eq2 (B19 m) c 1).trans (W20_of_ne m c _ ne2_1).symm)
theorem hF2_2 (c : Dev nD) : (dat2 (B19 m) c).arrAt 2 cfg2.N = B20 m c (Pipeline.arrRef spec2 2) :=
  ((dat2 (B19 m) c).arrAt_in 2 rfl _).trans ((A_eq2 (B19 m) c 2).trans (W20_of_ne m c _ ne2_2).symm)
theorem hF2_3 (c : Dev nD) : (dat2 (B19 m) c).arrAt 3 cfg2.N = B20 m c (Pipeline.arrRef spec2 3) := (W20_out m c).symm
theorem hF2 (c : Dev nD) (w : Fin cfg2.W) : (pdats m 2 c).arrAt w cfg2.N = B20 m c (Pipeline.arrRef spec2 w) := by
  show (dat2 (B19 m) c).arrAt w cfg2.N = _
  match w with
  | ⟨0, _⟩ => exact hF2_0 m c
  | ⟨1, _⟩ => exact hF2_1 m c
  | ⟨2, _⟩ => exact hF2_2 m c
  | ⟨3, _⟩ => exact hF2_3 m c
theorem hrest2 (c : Dev nD) : ∀ b, b ∉ Finset.univ.image (Pipeline.arrRef spec2) → B20 m c b = B19 m c b :=
  fun b hb => W20_of_ne m c b fun e => hb (Finset.mem_image.mpr ⟨3, Finset.mem_univ _, e.symm ▸ (rfl : Pipeline.arrRef spec2 3 = main_v69)⟩)
/-- Region 3: an input window's array is never written back, so it ends as entered, and the exit contents differ from the entry
    contents at the result's buffer only; the result's array ends at the fold of the write-backs, by the exit contents' definition. -/
theorem ne3_0 : Pipeline.arrRef spec3 0 ≠ main_v71 := by decide
theorem ne3_1 : Pipeline.arrRef spec3 1 ≠ main_v71 := by decide
theorem ne3_2 : Pipeline.arrRef spec3 2 ≠ main_v71 := by decide
theorem hF3_0 (c : Dev nD) : (dat3 (B21 m) c).arrAt 0 cfg3.N = B22 m c (Pipeline.arrRef spec3 0) :=
  ((dat3 (B21 m) c).arrAt_in 0 rfl _).trans ((A_eq3 (B21 m) c 0).trans (W22_of_ne m c _ ne3_0).symm)
theorem hF3_1 (c : Dev nD) : (dat3 (B21 m) c).arrAt 1 cfg3.N = B22 m c (Pipeline.arrRef spec3 1) :=
  ((dat3 (B21 m) c).arrAt_in 1 rfl _).trans ((A_eq3 (B21 m) c 1).trans (W22_of_ne m c _ ne3_1).symm)
theorem hF3_2 (c : Dev nD) : (dat3 (B21 m) c).arrAt 2 cfg3.N = B22 m c (Pipeline.arrRef spec3 2) :=
  ((dat3 (B21 m) c).arrAt_in 2 rfl _).trans ((A_eq3 (B21 m) c 2).trans (W22_of_ne m c _ ne3_2).symm)
theorem hF3_3 (c : Dev nD) : (dat3 (B21 m) c).arrAt 3 cfg3.N = B22 m c (Pipeline.arrRef spec3 3) := (W22_out m c).symm
theorem hF3 (c : Dev nD) (w : Fin cfg3.W) : (pdats m 3 c).arrAt w cfg3.N = B22 m c (Pipeline.arrRef spec3 w) := by
  show (dat3 (B21 m) c).arrAt w cfg3.N = _
  match w with
  | ⟨0, _⟩ => exact hF3_0 m c
  | ⟨1, _⟩ => exact hF3_1 m c
  | ⟨2, _⟩ => exact hF3_2 m c
  | ⟨3, _⟩ => exact hF3_3 m c
theorem hrest3 (c : Dev nD) : ∀ b, b ∉ Finset.univ.image (Pipeline.arrRef spec3) → B22 m c b = B21 m c b :=
  fun b hb => W22_of_ne m c b fun e => hb (Finset.mem_image.mpr ⟨3, Finset.mem_univ _, e.symm ▸ (rfl : Pipeline.arrRef spec3 3 = main_v71)⟩)
/-- Region 4: an input window's array is never written back, so it ends as entered, and the exit contents differ from the entry
    contents at the result's buffer only; the result's array ends at the fold of the write-backs, by the exit contents' definition. -/
theorem ne4_0 : Pipeline.arrRef spec4 0 ≠ main_v78 := by decide
theorem ne4_1 : Pipeline.arrRef spec4 1 ≠ main_v78 := by decide
theorem ne4_2 : Pipeline.arrRef spec4 2 ≠ main_v78 := by decide
theorem hF4_0 (c : Dev nD) : (dat4 (B23 m) c).arrAt 0 cfg4.N = B24 m c (Pipeline.arrRef spec4 0) :=
  ((dat4 (B23 m) c).arrAt_in 0 rfl _).trans ((A_eq4 (B23 m) c 0).trans (W24_of_ne m c _ ne4_0).symm)
theorem hF4_1 (c : Dev nD) : (dat4 (B23 m) c).arrAt 1 cfg4.N = B24 m c (Pipeline.arrRef spec4 1) :=
  ((dat4 (B23 m) c).arrAt_in 1 rfl _).trans ((A_eq4 (B23 m) c 1).trans (W24_of_ne m c _ ne4_1).symm)
theorem hF4_2 (c : Dev nD) : (dat4 (B23 m) c).arrAt 2 cfg4.N = B24 m c (Pipeline.arrRef spec4 2) :=
  ((dat4 (B23 m) c).arrAt_in 2 rfl _).trans ((A_eq4 (B23 m) c 2).trans (W24_of_ne m c _ ne4_2).symm)
theorem hF4_3 (c : Dev nD) : (dat4 (B23 m) c).arrAt 3 cfg4.N = B24 m c (Pipeline.arrRef spec4 3) := (W24_out m c).symm
theorem hF4 (c : Dev nD) (w : Fin cfg4.W) : (pdats m 4 c).arrAt w cfg4.N = B24 m c (Pipeline.arrRef spec4 w) := by
  show (dat4 (B23 m) c).arrAt w cfg4.N = _
  match w with
  | ⟨0, _⟩ => exact hF4_0 m c
  | ⟨1, _⟩ => exact hF4_1 m c
  | ⟨2, _⟩ => exact hF4_2 m c
  | ⟨3, _⟩ => exact hF4_3 m c
theorem hrest4 (c : Dev nD) : ∀ b, b ∉ Finset.univ.image (Pipeline.arrRef spec4) → B24 m c b = B23 m c b :=
  fun b hb => W24_of_ne m c b fun e => hb (Finset.mem_image.mpr ⟨3, Finset.mem_univ _, e.symm ▸ (rfl : Pipeline.arrRef spec4 3 = main_v78)⟩)
/-- Region 5: an input window's array is never written back, so it ends as entered, and the exit contents differ from the entry
    contents at the result's buffer only; the result's array ends at the fold of the write-backs, by the exit contents' definition. -/
theorem ne5_0 : Pipeline.arrRef spec5 0 ≠ main_v80 := by decide
theorem ne5_1 : Pipeline.arrRef spec5 1 ≠ main_v80 := by decide
theorem ne5_2 : Pipeline.arrRef spec5 2 ≠ main_v80 := by decide
theorem hF5_0 (c : Dev nD) : (dat5 (B25 m) c).arrAt 0 cfg5.N = B26 m c (Pipeline.arrRef spec5 0) :=
  ((dat5 (B25 m) c).arrAt_in 0 rfl _).trans ((A_eq5 (B25 m) c 0).trans (W26_of_ne m c _ ne5_0).symm)
theorem hF5_1 (c : Dev nD) : (dat5 (B25 m) c).arrAt 1 cfg5.N = B26 m c (Pipeline.arrRef spec5 1) :=
  ((dat5 (B25 m) c).arrAt_in 1 rfl _).trans ((A_eq5 (B25 m) c 1).trans (W26_of_ne m c _ ne5_1).symm)
theorem hF5_2 (c : Dev nD) : (dat5 (B25 m) c).arrAt 2 cfg5.N = B26 m c (Pipeline.arrRef spec5 2) :=
  ((dat5 (B25 m) c).arrAt_in 2 rfl _).trans ((A_eq5 (B25 m) c 2).trans (W26_of_ne m c _ ne5_2).symm)
theorem hF5_3 (c : Dev nD) : (dat5 (B25 m) c).arrAt 3 cfg5.N = B26 m c (Pipeline.arrRef spec5 3) := (W26_out m c).symm
theorem hF5 (c : Dev nD) (w : Fin cfg5.W) : (pdats m 5 c).arrAt w cfg5.N = B26 m c (Pipeline.arrRef spec5 w) := by
  show (dat5 (B25 m) c).arrAt w cfg5.N = _
  match w with
  | ⟨0, _⟩ => exact hF5_0 m c
  | ⟨1, _⟩ => exact hF5_1 m c
  | ⟨2, _⟩ => exact hF5_2 m c
  | ⟨3, _⟩ => exact hF5_3 m c
theorem hrest5 (c : Dev nD) : ∀ b, b ∉ Finset.univ.image (Pipeline.arrRef spec5) → B26 m c b = B25 m c b :=
  fun b hb => W26_of_ne m c b fun e => hb (Finset.mem_image.mpr ⟨3, Finset.mem_univ _, e.symm ▸ (rfl : Pipeline.arrRef spec5 3 = main_v80)⟩)
/-- Region 6: an input window's array is never written back, so it ends as entered, and the exit contents differ from the entry
    contents at the result's buffer only; the result's array ends at the fold of the write-backs, by the exit contents' definition. -/
theorem ne6_0 : Pipeline.arrRef spec6 0 ≠ main_v87 := by decide
theorem ne6_1 : Pipeline.arrRef spec6 1 ≠ main_v87 := by decide
theorem ne6_2 : Pipeline.arrRef spec6 2 ≠ main_v87 := by decide
theorem hF6_0 (c : Dev nD) : (dat6 (B27 m) c).arrAt 0 cfg6.N = B28 m c (Pipeline.arrRef spec6 0) :=
  ((dat6 (B27 m) c).arrAt_in 0 rfl _).trans ((A_eq6 (B27 m) c 0).trans (W28_of_ne m c _ ne6_0).symm)
theorem hF6_1 (c : Dev nD) : (dat6 (B27 m) c).arrAt 1 cfg6.N = B28 m c (Pipeline.arrRef spec6 1) :=
  ((dat6 (B27 m) c).arrAt_in 1 rfl _).trans ((A_eq6 (B27 m) c 1).trans (W28_of_ne m c _ ne6_1).symm)
theorem hF6_2 (c : Dev nD) : (dat6 (B27 m) c).arrAt 2 cfg6.N = B28 m c (Pipeline.arrRef spec6 2) :=
  ((dat6 (B27 m) c).arrAt_in 2 rfl _).trans ((A_eq6 (B27 m) c 2).trans (W28_of_ne m c _ ne6_2).symm)
theorem hF6_3 (c : Dev nD) : (dat6 (B27 m) c).arrAt 3 cfg6.N = B28 m c (Pipeline.arrRef spec6 3) := (W28_out m c).symm
theorem hF6 (c : Dev nD) (w : Fin cfg6.W) : (pdats m 6 c).arrAt w cfg6.N = B28 m c (Pipeline.arrRef spec6 w) := by
  show (dat6 (B27 m) c).arrAt w cfg6.N = _
  match w with
  | ⟨0, _⟩ => exact hF6_0 m c
  | ⟨1, _⟩ => exact hF6_1 m c
  | ⟨2, _⟩ => exact hF6_2 m c
  | ⟨3, _⟩ => exact hF6_3 m c
theorem hrest6 (c : Dev nD) : ∀ b, b ∉ Finset.univ.image (Pipeline.arrRef spec6) → B28 m c b = B27 m c b :=
  fun b hb => W28_of_ne m c b fun e => hb (Finset.mem_image.mpr ⟨3, Finset.mem_univ _, e.symm ▸ (rfl : Pipeline.arrRef spec6 3 = main_v87)⟩)
/-- Region 7: an input window's array is never written back, so it ends as entered, and the exit contents differ from the entry
    contents at the result's buffer only; the result's array ends at the fold of the write-backs, by the exit contents' definition. -/
theorem ne7_0 : Pipeline.arrRef spec7 0 ≠ main_v89 := by decide
theorem ne7_1 : Pipeline.arrRef spec7 1 ≠ main_v89 := by decide
theorem ne7_2 : Pipeline.arrRef spec7 2 ≠ main_v89 := by decide
theorem hF7_0 (c : Dev nD) : (dat7 (B29 m) c).arrAt 0 cfg7.N = B30 m c (Pipeline.arrRef spec7 0) :=
  ((dat7 (B29 m) c).arrAt_in 0 rfl _).trans ((A_eq7 (B29 m) c 0).trans (W30_of_ne m c _ ne7_0).symm)
theorem hF7_1 (c : Dev nD) : (dat7 (B29 m) c).arrAt 1 cfg7.N = B30 m c (Pipeline.arrRef spec7 1) :=
  ((dat7 (B29 m) c).arrAt_in 1 rfl _).trans ((A_eq7 (B29 m) c 1).trans (W30_of_ne m c _ ne7_1).symm)
theorem hF7_2 (c : Dev nD) : (dat7 (B29 m) c).arrAt 2 cfg7.N = B30 m c (Pipeline.arrRef spec7 2) :=
  ((dat7 (B29 m) c).arrAt_in 2 rfl _).trans ((A_eq7 (B29 m) c 2).trans (W30_of_ne m c _ ne7_2).symm)
theorem hF7_3 (c : Dev nD) : (dat7 (B29 m) c).arrAt 3 cfg7.N = B30 m c (Pipeline.arrRef spec7 3) := (W30_out m c).symm
theorem hF7 (c : Dev nD) (w : Fin cfg7.W) : (pdats m 7 c).arrAt w cfg7.N = B30 m c (Pipeline.arrRef spec7 w) := by
  show (dat7 (B29 m) c).arrAt w cfg7.N = _
  match w with
  | ⟨0, _⟩ => exact hF7_0 m c
  | ⟨1, _⟩ => exact hF7_1 m c
  | ⟨2, _⟩ => exact hF7_2 m c
  | ⟨3, _⟩ => exact hF7_3 m c
theorem hrest7 (c : Dev nD) : ∀ b, b ∉ Finset.univ.image (Pipeline.arrRef spec7) → B30 m c b = B29 m c b :=
  fun b hb => W30_of_ne m c b fun e => hb (Finset.mem_image.mpr ⟨3, Finset.mem_univ _, e.symm ▸ (rfl : Pipeline.arrRef spec7 3 = main_v89)⟩)
/-- Region 8: an input window's array is never written back, so it ends as entered, and the exit contents differ from the entry
    contents at the result's buffer only; the result's array ends at the fold of the write-backs, by the exit contents' definition. -/
theorem ne8_0 : Pipeline.arrRef spec8 0 ≠ main_v96 := by decide
theorem ne8_1 : Pipeline.arrRef spec8 1 ≠ main_v96 := by decide
theorem ne8_2 : Pipeline.arrRef spec8 2 ≠ main_v96 := by decide
theorem hF8_0 (c : Dev nD) : (dat8 (B31 m) c).arrAt 0 cfg8.N = B32 m c (Pipeline.arrRef spec8 0) :=
  ((dat8 (B31 m) c).arrAt_in 0 rfl _).trans ((A_eq8 (B31 m) c 0).trans (W32_of_ne m c _ ne8_0).symm)
theorem hF8_1 (c : Dev nD) : (dat8 (B31 m) c).arrAt 1 cfg8.N = B32 m c (Pipeline.arrRef spec8 1) :=
  ((dat8 (B31 m) c).arrAt_in 1 rfl _).trans ((A_eq8 (B31 m) c 1).trans (W32_of_ne m c _ ne8_1).symm)
theorem hF8_2 (c : Dev nD) : (dat8 (B31 m) c).arrAt 2 cfg8.N = B32 m c (Pipeline.arrRef spec8 2) :=
  ((dat8 (B31 m) c).arrAt_in 2 rfl _).trans ((A_eq8 (B31 m) c 2).trans (W32_of_ne m c _ ne8_2).symm)
theorem hF8_3 (c : Dev nD) : (dat8 (B31 m) c).arrAt 3 cfg8.N = B32 m c (Pipeline.arrRef spec8 3) := (W32_out m c).symm
theorem hF8 (c : Dev nD) (w : Fin cfg8.W) : (pdats m 8 c).arrAt w cfg8.N = B32 m c (Pipeline.arrRef spec8 w) := by
  show (dat8 (B31 m) c).arrAt w cfg8.N = _
  match w with
  | ⟨0, _⟩ => exact hF8_0 m c
  | ⟨1, _⟩ => exact hF8_1 m c
  | ⟨2, _⟩ => exact hF8_2 m c
  | ⟨3, _⟩ => exact hF8_3 m c
theorem hrest8 (c : Dev nD) : ∀ b, b ∉ Finset.univ.image (Pipeline.arrRef spec8) → B32 m c b = B31 m c b :=
  fun b hb => W32_of_ne m c b fun e => hb (Finset.mem_image.mpr ⟨3, Finset.mem_univ _, e.symm ▸ (rfl : Pipeline.arrRef spec8 3 = main_v96)⟩)
/-- Region 9: an input window's array is never written back, so it ends as entered, and the exit contents differ from the entry
    contents at the result's buffer only; the result's array ends at the fold of the write-backs, by the exit contents' definition. -/
theorem ne9_0 : Pipeline.arrRef spec9 0 ≠ main_v98 := by decide
theorem ne9_1 : Pipeline.arrRef spec9 1 ≠ main_v98 := by decide
theorem ne9_2 : Pipeline.arrRef spec9 2 ≠ main_v98 := by decide
theorem hF9_0 (c : Dev nD) : (dat9 (B33 m) c).arrAt 0 cfg9.N = B34 m c (Pipeline.arrRef spec9 0) :=
  ((dat9 (B33 m) c).arrAt_in 0 rfl _).trans ((A_eq9 (B33 m) c 0).trans (W34_of_ne m c _ ne9_0).symm)
theorem hF9_1 (c : Dev nD) : (dat9 (B33 m) c).arrAt 1 cfg9.N = B34 m c (Pipeline.arrRef spec9 1) :=
  ((dat9 (B33 m) c).arrAt_in 1 rfl _).trans ((A_eq9 (B33 m) c 1).trans (W34_of_ne m c _ ne9_1).symm)
theorem hF9_2 (c : Dev nD) : (dat9 (B33 m) c).arrAt 2 cfg9.N = B34 m c (Pipeline.arrRef spec9 2) :=
  ((dat9 (B33 m) c).arrAt_in 2 rfl _).trans ((A_eq9 (B33 m) c 2).trans (W34_of_ne m c _ ne9_2).symm)
theorem hF9_3 (c : Dev nD) : (dat9 (B33 m) c).arrAt 3 cfg9.N = B34 m c (Pipeline.arrRef spec9 3) := (W34_out m c).symm
theorem hF9 (c : Dev nD) (w : Fin cfg9.W) : (pdats m 9 c).arrAt w cfg9.N = B34 m c (Pipeline.arrRef spec9 w) := by
  show (dat9 (B33 m) c).arrAt w cfg9.N = _
  match w with
  | ⟨0, _⟩ => exact hF9_0 m c
  | ⟨1, _⟩ => exact hF9_1 m c
  | ⟨2, _⟩ => exact hF9_2 m c
  | ⟨3, _⟩ => exact hF9_3 m c
theorem hrest9 (c : Dev nD) : ∀ b, b ∉ Finset.univ.image (Pipeline.arrRef spec9) → B34 m c b = B33 m c b :=
  fun b hb => W34_of_ne m c b fun e => hb (Finset.mem_image.mpr ⟨3, Finset.mem_univ _, e.symm ▸ (rfl : Pipeline.arrRef spec9 3 = main_v98)⟩)
/-- Region 10: an input window's array is never written back, so it ends as entered, and the exit contents differ from the entry
    contents at the result's buffer only; the result's array ends at the fold of the write-backs, by the exit contents' definition. -/
theorem ne10_0 : Pipeline.arrRef spec10 0 ≠ main_v105 := by decide
theorem ne10_1 : Pipeline.arrRef spec10 1 ≠ main_v105 := by decide
theorem ne10_2 : Pipeline.arrRef spec10 2 ≠ main_v105 := by decide
theorem hF10_0 (c : Dev nD) : (dat10 (B35 m) c).arrAt 0 cfg10.N = B36 m c (Pipeline.arrRef spec10 0) :=
  ((dat10 (B35 m) c).arrAt_in 0 rfl _).trans ((A_eq10 (B35 m) c 0).trans (W36_of_ne m c _ ne10_0).symm)
theorem hF10_1 (c : Dev nD) : (dat10 (B35 m) c).arrAt 1 cfg10.N = B36 m c (Pipeline.arrRef spec10 1) :=
  ((dat10 (B35 m) c).arrAt_in 1 rfl _).trans ((A_eq10 (B35 m) c 1).trans (W36_of_ne m c _ ne10_1).symm)
theorem hF10_2 (c : Dev nD) : (dat10 (B35 m) c).arrAt 2 cfg10.N = B36 m c (Pipeline.arrRef spec10 2) :=
  ((dat10 (B35 m) c).arrAt_in 2 rfl _).trans ((A_eq10 (B35 m) c 2).trans (W36_of_ne m c _ ne10_2).symm)
theorem hF10_3 (c : Dev nD) : (dat10 (B35 m) c).arrAt 3 cfg10.N = B36 m c (Pipeline.arrRef spec10 3) := (W36_out m c).symm
theorem hF10 (c : Dev nD) (w : Fin cfg10.W) : (pdats m 10 c).arrAt w cfg10.N = B36 m c (Pipeline.arrRef spec10 w) := by
  show (dat10 (B35 m) c).arrAt w cfg10.N = _
  match w with
  | ⟨0, _⟩ => exact hF10_0 m c
  | ⟨1, _⟩ => exact hF10_1 m c
  | ⟨2, _⟩ => exact hF10_2 m c
  | ⟨3, _⟩ => exact hF10_3 m c
theorem hrest10 (c : Dev nD) : ∀ b, b ∉ Finset.univ.image (Pipeline.arrRef spec10) → B36 m c b = B35 m c b :=
  fun b hb => W36_of_ne m c b fun e => hb (Finset.mem_image.mpr ⟨3, Finset.mem_univ _, e.symm ▸ (rfl : Pipeline.arrRef spec10 3 = main_v105)⟩)
/-- Region 11: an input window's array is never written back, so it ends as entered, and the exit contents differ from the entry
    contents at the result's buffer only; the result's array ends at the fold of the write-backs, by the exit contents' definition. -/
theorem ne11_0 : Pipeline.arrRef spec11 0 ≠ main_v107 := by decide
theorem ne11_1 : Pipeline.arrRef spec11 1 ≠ main_v107 := by decide
theorem ne11_2 : Pipeline.arrRef spec11 2 ≠ main_v107 := by decide
theorem hF11_0 (c : Dev nD) : (dat11 (B37 m) c).arrAt 0 cfg11.N = B38 m c (Pipeline.arrRef spec11 0) :=
  ((dat11 (B37 m) c).arrAt_in 0 rfl _).trans ((A_eq11 (B37 m) c 0).trans (W38_of_ne m c _ ne11_0).symm)
theorem hF11_1 (c : Dev nD) : (dat11 (B37 m) c).arrAt 1 cfg11.N = B38 m c (Pipeline.arrRef spec11 1) :=
  ((dat11 (B37 m) c).arrAt_in 1 rfl _).trans ((A_eq11 (B37 m) c 1).trans (W38_of_ne m c _ ne11_1).symm)
theorem hF11_2 (c : Dev nD) : (dat11 (B37 m) c).arrAt 2 cfg11.N = B38 m c (Pipeline.arrRef spec11 2) :=
  ((dat11 (B37 m) c).arrAt_in 2 rfl _).trans ((A_eq11 (B37 m) c 2).trans (W38_of_ne m c _ ne11_2).symm)
theorem hF11_3 (c : Dev nD) : (dat11 (B37 m) c).arrAt 3 cfg11.N = B38 m c (Pipeline.arrRef spec11 3) := (W38_out m c).symm
theorem hF11 (c : Dev nD) (w : Fin cfg11.W) : (pdats m 11 c).arrAt w cfg11.N = B38 m c (Pipeline.arrRef spec11 w) := by
  show (dat11 (B37 m) c).arrAt w cfg11.N = _
  match w with
  | ⟨0, _⟩ => exact hF11_0 m c
  | ⟨1, _⟩ => exact hF11_1 m c
  | ⟨2, _⟩ => exact hF11_2 m c
  | ⟨3, _⟩ => exact hF11_3 m c
theorem hrest11 (c : Dev nD) : ∀ b, b ∉ Finset.univ.image (Pipeline.arrRef spec11) → B38 m c b = B37 m c b :=
  fun b hb => W38_of_ne m c b fun e => hb (Finset.mem_image.mpr ⟨3, Finset.mem_univ _, e.symm ▸ (rfl : Pipeline.arrRef spec11 3 = main_v107)⟩)
/-- Region 12: an input window's array is never written back, so it ends as entered, and the exit contents differ from the entry
    contents at the result's buffer only; the result's array ends at the fold of the write-backs, by the exit contents' definition. -/
theorem ne12_0 : Pipeline.arrRef spec12 0 ≠ main_v110 := by decide
theorem ne12_1 : Pipeline.arrRef spec12 1 ≠ main_v110 := by decide
theorem ne12_2 : Pipeline.arrRef spec12 2 ≠ main_v110 := by decide
theorem hF12_0 (c : Dev nD) : (dat12 (B39 m) c).arrAt 0 cfg12.N = B40 m c (Pipeline.arrRef spec12 0) :=
  ((dat12 (B39 m) c).arrAt_in 0 rfl _).trans ((A_eq12 (B39 m) c 0).trans (W40_of_ne m c _ ne12_0).symm)
theorem hF12_1 (c : Dev nD) : (dat12 (B39 m) c).arrAt 1 cfg12.N = B40 m c (Pipeline.arrRef spec12 1) :=
  ((dat12 (B39 m) c).arrAt_in 1 rfl _).trans ((A_eq12 (B39 m) c 1).trans (W40_of_ne m c _ ne12_1).symm)
theorem hF12_2 (c : Dev nD) : (dat12 (B39 m) c).arrAt 2 cfg12.N = B40 m c (Pipeline.arrRef spec12 2) :=
  ((dat12 (B39 m) c).arrAt_in 2 rfl _).trans ((A_eq12 (B39 m) c 2).trans (W40_of_ne m c _ ne12_2).symm)
theorem hF12_3 (c : Dev nD) : (dat12 (B39 m) c).arrAt 3 cfg12.N = B40 m c (Pipeline.arrRef spec12 3) := (W40_out m c).symm
theorem hF12 (c : Dev nD) (w : Fin cfg12.W) : (pdats m 12 c).arrAt w cfg12.N = B40 m c (Pipeline.arrRef spec12 w) := by
  show (dat12 (B39 m) c).arrAt w cfg12.N = _
  match w with
  | ⟨0, _⟩ => exact hF12_0 m c
  | ⟨1, _⟩ => exact hF12_1 m c
  | ⟨2, _⟩ => exact hF12_2 m c
  | ⟨3, _⟩ => exact hF12_3 m c
theorem hrest12 (c : Dev nD) : ∀ b, b ∉ Finset.univ.image (Pipeline.arrRef spec12) → B40 m c b = B39 m c b :=
  fun b hb => W40_of_ne m c b fun e => hb (Finset.mem_image.mpr ⟨3, Finset.mem_univ _, e.symm ▸ (rfl : Pipeline.arrRef spec12 3 = main_v110)⟩)
/-- Region 13: an input window's array is never written back, so it ends as entered, and the exit contents differ from the entry
    contents at the result's buffer only; the result's array ends at the fold of the write-backs, by the exit contents' definition. -/
theorem ne13_0 : Pipeline.arrRef spec13 0 ≠ main_v112 := by decide
theorem ne13_1 : Pipeline.arrRef spec13 1 ≠ main_v112 := by decide
theorem ne13_2 : Pipeline.arrRef spec13 2 ≠ main_v112 := by decide
theorem hF13_0 (c : Dev nD) : (dat13 (B41 m) c).arrAt 0 cfg13.N = B42 m c (Pipeline.arrRef spec13 0) :=
  ((dat13 (B41 m) c).arrAt_in 0 rfl _).trans ((A_eq13 (B41 m) c 0).trans (W42_of_ne m c _ ne13_0).symm)
theorem hF13_1 (c : Dev nD) : (dat13 (B41 m) c).arrAt 1 cfg13.N = B42 m c (Pipeline.arrRef spec13 1) :=
  ((dat13 (B41 m) c).arrAt_in 1 rfl _).trans ((A_eq13 (B41 m) c 1).trans (W42_of_ne m c _ ne13_1).symm)
theorem hF13_2 (c : Dev nD) : (dat13 (B41 m) c).arrAt 2 cfg13.N = B42 m c (Pipeline.arrRef spec13 2) :=
  ((dat13 (B41 m) c).arrAt_in 2 rfl _).trans ((A_eq13 (B41 m) c 2).trans (W42_of_ne m c _ ne13_2).symm)
theorem hF13_3 (c : Dev nD) : (dat13 (B41 m) c).arrAt 3 cfg13.N = B42 m c (Pipeline.arrRef spec13 3) := (W42_out m c).symm
theorem hF13 (c : Dev nD) (w : Fin cfg13.W) : (pdats m 13 c).arrAt w cfg13.N = B42 m c (Pipeline.arrRef spec13 w) := by
  show (dat13 (B41 m) c).arrAt w cfg13.N = _
  match w with
  | ⟨0, _⟩ => exact hF13_0 m c
  | ⟨1, _⟩ => exact hF13_1 m c
  | ⟨2, _⟩ => exact hF13_2 m c
  | ⟨3, _⟩ => exact hF13_3 m c
theorem hrest13 (c : Dev nD) : ∀ b, b ∉ Finset.univ.image (Pipeline.arrRef spec13) → B42 m c b = B41 m c b :=
  fun b hb => W42_of_ne m c b fun e => hb (Finset.mem_image.mpr ⟨3, Finset.mem_univ _, e.symm ▸ (rfl : Pipeline.arrRef spec13 3 = main_v112)⟩)

end Cert.Kernel.Rg
end
-- ==== Proof.KB.SegsA.lean ====
/- Regions 0, 1, 2, 3 of @main as segments: the same record once per region (the launch's layout; the region's body obligation;
   entry: the region's arrays split out of the unscoped buffers; exit: put back at the exit contents). -/
import proofs.«181230_j19834158973077_2_alg».proof.Proof.KB.Data

set_option maxRecDepth 16384

noncomputable section

namespace Cert.Kernel.Rg

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.Kernel Cert.Kernel.Gen

variable {F : FTy → Type} [FloatOps F]

local notation "𝕄" => MT nD τ sig Unit (Elt F) ℕ (UR sig nD τ) ℕ

variable (m : (ℓ : Loc nD τ sig) → Buf (Elt F) ℓ)

-- the library's lemmas are stated over the pinned configuration; unifying it with the printed one unfolds plain definitions in a metavariable's type
set_option backward.isDefEq.respectTransparency.types false in
/-- Region 0 as a segment of @main: entered with every unscoped buffer at the contents before it, left with the result's array at what the
    pipeline's write-backs leave and every other buffer as entered. Its four arrays are split out of the unscoped buffers at entry and put
    back at exit; the generator register goes into the region's invariant and comes back; nothing is owed; the kernel has no semaphore of its own. -/
def reg0 : Pipeline.RegionSeg (pcfgs (F := F)) adm (pdats m) () defs₀ Variants.none L lv 0 where
  win := launch0.win.to₀
  block_pos := launch0.block_pos
  stage_whole := launch0.stage_whole
  K := PEmpty
  osem k := k.elim
  ho := Pipeline.OwnSemFacts.none _
  hbody c := (body_obligation0 (B15 m) c).loose
  hwaits := Pipeline.hwaits_of_owed_zero _ _ _ _ L lv 0 fun _ _ => rfl
  pre c := iprop(StableHlo.held (c : Thread nD τ) (Pipeline.ucRefs τ sig) (W15 m c) ∗ R c)
  post c := iprop(StableHlo.held (c : Thread nD τ) (Pipeline.ucRefs τ sig) (W16 m c) ∗ R c)
  X c := iprop(∃ r, prngReg c r)
  Y c := iprop(∃ r, prngReg c r)
  Z c := Pipeline.unscopedRest (Ix := Unit) (Name := ℕ) (U := UR sig nD τ) (Lvl := ℕ) spec0 c (B15 m c)
  hentry c := by
    rw [Pipeline.ownSems0_none]
    have hsplit := Pipeline.arrays_of_unscopedBufs (p := 0) (pcfgs (F := F)) adm (pdats m) launch0.win launch0.arr_whole c
      ((pdats m 0 c).share_full fun _ => rfl) (B15 m c) fun w => A_eq0 (B15 m) c w
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    refine (show _ ⊢ (Pipeline.ΦA spec0 c : sProp 𝕄) from ?_).trans (hin0 (B15 m) c)
    unfold Pipeline.ΦA
    iintro ⟨Hp, -, Hr⟩
    isplitl [Hr]; · iexact Hr
    iexact Hp
  hout c := by
    refine (hout0 (B15 m) c).trans ?_
    rw [Pipeline.ownSems0_none]; unfold Pipeline.ΦA
    iintro ⟨Hr, Hp⟩
    isplitl [Hp]; · iexact Hp
    isplitr; · iempintro
    iexact Hr
  hexit c := by
    have hjoin := Pipeline.unscopedBufs_of_arrays (p := 0) (pcfgs (F := F)) adm (Ix := Unit) (Name := ℕ) (U := UR sig nD τ) (Lvl := ℕ)
      launch0.win launch0.arr_whole c (pdats m) ((pdats m 0 c).share_full fun _ => rfl)
      (B15 m c) (B16 m c) ((pdats m 0 c).arrAt · cfg0.N) (hF0 m c) (hrest0 m c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

-- the library's lemmas are stated over the pinned configuration; unifying it with the printed one unfolds plain definitions in a metavariable's type
set_option backward.isDefEq.respectTransparency.types false in
/-- Region 1 as a segment of @main: entered with every unscoped buffer at the contents before it, left with the result's array at what the
    pipeline's write-backs leave and every other buffer as entered. Its four arrays are split out of the unscoped buffers at entry and put
    back at exit; the generator register goes into the region's invariant and comes back; nothing is owed; the kernel has no semaphore of its own. -/
def reg1 : Pipeline.RegionSeg (pcfgs (F := F)) adm (pdats m) () defs₀ Variants.none L lv 1 where
  win := launch1.win.to₀
  block_pos := launch1.block_pos
  stage_whole := launch1.stage_whole
  K := PEmpty
  osem k := k.elim
  ho := Pipeline.OwnSemFacts.none _
  hbody c := (body_obligation1 (B17 m) c).loose
  hwaits := Pipeline.hwaits_of_owed_zero _ _ _ _ L lv 1 fun _ _ => rfl
  pre c := iprop(StableHlo.held (c : Thread nD τ) (Pipeline.ucRefs τ sig) (W17 m c) ∗ R c)
  post c := iprop(StableHlo.held (c : Thread nD τ) (Pipeline.ucRefs τ sig) (W18 m c) ∗ R c)
  X c := iprop(∃ r, prngReg c r)
  Y c := iprop(∃ r, prngReg c r)
  Z c := Pipeline.unscopedRest (Ix := Unit) (Name := ℕ) (U := UR sig nD τ) (Lvl := ℕ) spec1 c (B17 m c)
  hentry c := by
    rw [Pipeline.ownSems0_none]
    have hsplit := Pipeline.arrays_of_unscopedBufs (p := 1) (pcfgs (F := F)) adm (pdats m) launch1.win launch1.arr_whole c
      ((pdats m 1 c).share_full fun _ => rfl) (B17 m c) fun w => A_eq1 (B17 m) c w
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    refine (show _ ⊢ (Pipeline.ΦA spec1 c : sProp 𝕄) from ?_).trans (hin1 (B17 m) c)
    unfold Pipeline.ΦA
    iintro ⟨Hp, -, Hr⟩
    isplitl [Hr]; · iexact Hr
    iexact Hp
  hout c := by
    refine (hout1 (B17 m) c).trans ?_
    rw [Pipeline.ownSems0_none]; unfold Pipeline.ΦA
    iintro ⟨Hr, Hp⟩
    isplitl [Hp]; · iexact Hp
    isplitr; · iempintro
    iexact Hr
  hexit c := by
    have hjoin := Pipeline.unscopedBufs_of_arrays (p := 1) (pcfgs (F := F)) adm (Ix := Unit) (Name := ℕ) (U := UR sig nD τ) (Lvl := ℕ)
      launch1.win launch1.arr_whole c (pdats m) ((pdats m 1 c).share_full fun _ => rfl)
      (B17 m c) (B18 m c) ((pdats m 1 c).arrAt · cfg1.N) (hF1 m c) (hrest1 m c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

-- the library's lemmas are stated over the pinned configuration; unifying it with the printed one unfolds plain definitions in a metavariable's type
set_option backward.isDefEq.respectTransparency.types false in
/-- Region 2 as a segment of @main: entered with every unscoped buffer at the contents before it, left with the result's array at what the
    pipeline's write-backs leave and every other buffer as entered. Its four arrays are split out of the unscoped buffers at entry and put
    back at exit; the generator register goes into the region's invariant and comes back; nothing is owed; the kernel has no semaphore of its own. -/
def reg2 : Pipeline.RegionSeg (pcfgs (F := F)) adm (pdats m) () defs₀ Variants.none L lv 2 where
  win := launch2.win.to₀
  block_pos := launch2.block_pos
  stage_whole := launch2.stage_whole
  K := PEmpty
  osem k := k.elim
  ho := Pipeline.OwnSemFacts.none _
  hbody c := (body_obligation2 (B19 m) c).loose
  hwaits := Pipeline.hwaits_of_owed_zero _ _ _ _ L lv 2 fun _ _ => rfl
  pre c := iprop(StableHlo.held (c : Thread nD τ) (Pipeline.ucRefs τ sig) (W19 m c) ∗ R c)
  post c := iprop(StableHlo.held (c : Thread nD τ) (Pipeline.ucRefs τ sig) (W20 m c) ∗ R c)
  X c := iprop(∃ r, prngReg c r)
  Y c := iprop(∃ r, prngReg c r)
  Z c := Pipeline.unscopedRest (Ix := Unit) (Name := ℕ) (U := UR sig nD τ) (Lvl := ℕ) spec2 c (B19 m c)
  hentry c := by
    rw [Pipeline.ownSems0_none]
    have hsplit := Pipeline.arrays_of_unscopedBufs (p := 2) (pcfgs (F := F)) adm (pdats m) launch2.win launch2.arr_whole c
      ((pdats m 2 c).share_full fun _ => rfl) (B19 m c) fun w => A_eq2 (B19 m) c w
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    refine (show _ ⊢ (Pipeline.ΦA spec2 c : sProp 𝕄) from ?_).trans (hin2 (B19 m) c)
    unfold Pipeline.ΦA
    iintro ⟨Hp, -, Hr⟩
    isplitl [Hr]; · iexact Hr
    iexact Hp
  hout c := by
    refine (hout2 (B19 m) c).trans ?_
    rw [Pipeline.ownSems0_none]; unfold Pipeline.ΦA
    iintro ⟨Hr, Hp⟩
    isplitl [Hp]; · iexact Hp
    isplitr; · iempintro
    iexact Hr
  hexit c := by
    have hjoin := Pipeline.unscopedBufs_of_arrays (p := 2) (pcfgs (F := F)) adm (Ix := Unit) (Name := ℕ) (U := UR sig nD τ) (Lvl := ℕ)
      launch2.win launch2.arr_whole c (pdats m) ((pdats m 2 c).share_full fun _ => rfl)
      (B19 m c) (B20 m c) ((pdats m 2 c).arrAt · cfg2.N) (hF2 m c) (hrest2 m c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

-- the library's lemmas are stated over the pinned configuration; unifying it with the printed one unfolds plain definitions in a metavariable's type
set_option backward.isDefEq.respectTransparency.types false in
/-- Region 3 as a segment of @main: entered with every unscoped buffer at the contents before it, left with the result's array at what the
    pipeline's write-backs leave and every other buffer as entered. Its four arrays are split out of the unscoped buffers at entry and put
    back at exit; the generator register goes into the region's invariant and comes back; nothing is owed; the kernel has no semaphore of its own. -/
def reg3 : Pipeline.RegionSeg (pcfgs (F := F)) adm (pdats m) () defs₀ Variants.none L lv 3 where
  win := launch3.win.to₀
  block_pos := launch3.block_pos
  stage_whole := launch3.stage_whole
  K := PEmpty
  osem k := k.elim
  ho := Pipeline.OwnSemFacts.none _
  hbody c := (body_obligation3 (B21 m) c).loose
  hwaits := Pipeline.hwaits_of_owed_zero _ _ _ _ L lv 3 fun _ _ => rfl
  pre c := iprop(StableHlo.held (c : Thread nD τ) (Pipeline.ucRefs τ sig) (W21 m c) ∗ R c)
  post c := iprop(StableHlo.held (c : Thread nD τ) (Pipeline.ucRefs τ sig) (W22 m c) ∗ R c)
  X c := iprop(∃ r, prngReg c r)
  Y c := iprop(∃ r, prngReg c r)
  Z c := Pipeline.unscopedRest (Ix := Unit) (Name := ℕ) (U := UR sig nD τ) (Lvl := ℕ) spec3 c (B21 m c)
  hentry c := by
    rw [Pipeline.ownSems0_none]
    have hsplit := Pipeline.arrays_of_unscopedBufs (p := 3) (pcfgs (F := F)) adm (pdats m) launch3.win launch3.arr_whole c
      ((pdats m 3 c).share_full fun _ => rfl) (B21 m c) fun w => A_eq3 (B21 m) c w
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    refine (show _ ⊢ (Pipeline.ΦA spec3 c : sProp 𝕄) from ?_).trans (hin3 (B21 m) c)
    unfold Pipeline.ΦA
    iintro ⟨Hp, -, Hr⟩
    isplitl [Hr]; · iexact Hr
    iexact Hp
  hout c := by
    refine (hout3 (B21 m) c).trans ?_
    rw [Pipeline.ownSems0_none]; unfold Pipeline.ΦA
    iintro ⟨Hr, Hp⟩
    isplitl [Hp]; · iexact Hp
    isplitr; · iempintro
    iexact Hr
  hexit c := by
    have hjoin := Pipeline.unscopedBufs_of_arrays (p := 3) (pcfgs (F := F)) adm (Ix := Unit) (Name := ℕ) (U := UR sig nD τ) (Lvl := ℕ)
      launch3.win launch3.arr_whole c (pdats m) ((pdats m 3 c).share_full fun _ => rfl)
      (B21 m c) (B22 m c) ((pdats m 3 c).arrAt · cfg3.N) (hF3 m c) (hrest3 m c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

end Cert.Kernel.Rg
end
-- ==== Proof.KB.SegsB.lean ====
/- Regions 4, 5, 6, 7 of @main as segments: the same record once per region (the launch's layout; the region's body obligation;
   entry: the region's arrays split out of the unscoped buffers; exit: put back at the exit contents). -/
import proofs.«181230_j19834158973077_2_alg».proof.Proof.KB.Data

set_option maxRecDepth 16384

noncomputable section

namespace Cert.Kernel.Rg

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.Kernel Cert.Kernel.Gen

variable {F : FTy → Type} [FloatOps F]

local notation "𝕄" => MT nD τ sig Unit (Elt F) ℕ (UR sig nD τ) ℕ

variable (m : (ℓ : Loc nD τ sig) → Buf (Elt F) ℓ)

-- the library's lemmas are stated over the pinned configuration; unifying it with the printed one unfolds plain definitions in a metavariable's type
set_option backward.isDefEq.respectTransparency.types false in
/-- Region 4 as a segment of @main: entered with every unscoped buffer at the contents before it, left with the result's array at what the
    pipeline's write-backs leave and every other buffer as entered. Its four arrays are split out of the unscoped buffers at entry and put
    back at exit; the generator register goes into the region's invariant and comes back; nothing is owed; the kernel has no semaphore of its own. -/
def reg4 : Pipeline.RegionSeg (pcfgs (F := F)) adm (pdats m) () defs₀ Variants.none L lv 4 where
  win := launch4.win.to₀
  block_pos := launch4.block_pos
  stage_whole := launch4.stage_whole
  K := PEmpty
  osem k := k.elim
  ho := Pipeline.OwnSemFacts.none _
  hbody c := (body_obligation4 (B23 m) c).loose
  hwaits := Pipeline.hwaits_of_owed_zero _ _ _ _ L lv 4 fun _ _ => rfl
  pre c := iprop(StableHlo.held (c : Thread nD τ) (Pipeline.ucRefs τ sig) (W23 m c) ∗ R c)
  post c := iprop(StableHlo.held (c : Thread nD τ) (Pipeline.ucRefs τ sig) (W24 m c) ∗ R c)
  X c := iprop(∃ r, prngReg c r)
  Y c := iprop(∃ r, prngReg c r)
  Z c := Pipeline.unscopedRest (Ix := Unit) (Name := ℕ) (U := UR sig nD τ) (Lvl := ℕ) spec4 c (B23 m c)
  hentry c := by
    rw [Pipeline.ownSems0_none]
    have hsplit := Pipeline.arrays_of_unscopedBufs (p := 4) (pcfgs (F := F)) adm (pdats m) launch4.win launch4.arr_whole c
      ((pdats m 4 c).share_full fun _ => rfl) (B23 m c) fun w => A_eq4 (B23 m) c w
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    refine (show _ ⊢ (Pipeline.ΦA spec4 c : sProp 𝕄) from ?_).trans (hin4 (B23 m) c)
    unfold Pipeline.ΦA
    iintro ⟨Hp, -, Hr⟩
    isplitl [Hr]; · iexact Hr
    iexact Hp
  hout c := by
    refine (hout4 (B23 m) c).trans ?_
    rw [Pipeline.ownSems0_none]; unfold Pipeline.ΦA
    iintro ⟨Hr, Hp⟩
    isplitl [Hp]; · iexact Hp
    isplitr; · iempintro
    iexact Hr
  hexit c := by
    have hjoin := Pipeline.unscopedBufs_of_arrays (p := 4) (pcfgs (F := F)) adm (Ix := Unit) (Name := ℕ) (U := UR sig nD τ) (Lvl := ℕ)
      launch4.win launch4.arr_whole c (pdats m) ((pdats m 4 c).share_full fun _ => rfl)
      (B23 m c) (B24 m c) ((pdats m 4 c).arrAt · cfg4.N) (hF4 m c) (hrest4 m c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

-- the library's lemmas are stated over the pinned configuration; unifying it with the printed one unfolds plain definitions in a metavariable's type
set_option backward.isDefEq.respectTransparency.types false in
/-- Region 5 as a segment of @main: entered with every unscoped buffer at the contents before it, left with the result's array at what the
    pipeline's write-backs leave and every other buffer as entered. Its four arrays are split out of the unscoped buffers at entry and put
    back at exit; the generator register goes into the region's invariant and comes back; nothing is owed; the kernel has no semaphore of its own. -/
def reg5 : Pipeline.RegionSeg (pcfgs (F := F)) adm (pdats m) () defs₀ Variants.none L lv 5 where
  win := launch5.win.to₀
  block_pos := launch5.block_pos
  stage_whole := launch5.stage_whole
  K := PEmpty
  osem k := k.elim
  ho := Pipeline.OwnSemFacts.none _
  hbody c := (body_obligation5 (B25 m) c).loose
  hwaits := Pipeline.hwaits_of_owed_zero _ _ _ _ L lv 5 fun _ _ => rfl
  pre c := iprop(StableHlo.held (c : Thread nD τ) (Pipeline.ucRefs τ sig) (W25 m c) ∗ R c)
  post c := iprop(StableHlo.held (c : Thread nD τ) (Pipeline.ucRefs τ sig) (W26 m c) ∗ R c)
  X c := iprop(∃ r, prngReg c r)
  Y c := iprop(∃ r, prngReg c r)
  Z c := Pipeline.unscopedRest (Ix := Unit) (Name := ℕ) (U := UR sig nD τ) (Lvl := ℕ) spec5 c (B25 m c)
  hentry c := by
    rw [Pipeline.ownSems0_none]
    have hsplit := Pipeline.arrays_of_unscopedBufs (p := 5) (pcfgs (F := F)) adm (pdats m) launch5.win launch5.arr_whole c
      ((pdats m 5 c).share_full fun _ => rfl) (B25 m c) fun w => A_eq5 (B25 m) c w
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    refine (show _ ⊢ (Pipeline.ΦA spec5 c : sProp 𝕄) from ?_).trans (hin5 (B25 m) c)
    unfold Pipeline.ΦA
    iintro ⟨Hp, -, Hr⟩
    isplitl [Hr]; · iexact Hr
    iexact Hp
  hout c := by
    refine (hout5 (B25 m) c).trans ?_
    rw [Pipeline.ownSems0_none]; unfold Pipeline.ΦA
    iintro ⟨Hr, Hp⟩
    isplitl [Hp]; · iexact Hp
    isplitr; · iempintro
    iexact Hr
  hexit c := by
    have hjoin := Pipeline.unscopedBufs_of_arrays (p := 5) (pcfgs (F := F)) adm (Ix := Unit) (Name := ℕ) (U := UR sig nD τ) (Lvl := ℕ)
      launch5.win launch5.arr_whole c (pdats m) ((pdats m 5 c).share_full fun _ => rfl)
      (B25 m c) (B26 m c) ((pdats m 5 c).arrAt · cfg5.N) (hF5 m c) (hrest5 m c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

-- the library's lemmas are stated over the pinned configuration; unifying it with the printed one unfolds plain definitions in a metavariable's type
set_option backward.isDefEq.respectTransparency.types false in
/-- Region 6 as a segment of @main: entered with every unscoped buffer at the contents before it, left with the result's array at what the
    pipeline's write-backs leave and every other buffer as entered. Its four arrays are split out of the unscoped buffers at entry and put
    back at exit; the generator register goes into the region's invariant and comes back; nothing is owed; the kernel has no semaphore of its own. -/
def reg6 : Pipeline.RegionSeg (pcfgs (F := F)) adm (pdats m) () defs₀ Variants.none L lv 6 where
  win := launch6.win.to₀
  block_pos := launch6.block_pos
  stage_whole := launch6.stage_whole
  K := PEmpty
  osem k := k.elim
  ho := Pipeline.OwnSemFacts.none _
  hbody c := (body_obligation6 (B27 m) c).loose
  hwaits := Pipeline.hwaits_of_owed_zero _ _ _ _ L lv 6 fun _ _ => rfl
  pre c := iprop(StableHlo.held (c : Thread nD τ) (Pipeline.ucRefs τ sig) (W27 m c) ∗ R c)
  post c := iprop(StableHlo.held (c : Thread nD τ) (Pipeline.ucRefs τ sig) (W28 m c) ∗ R c)
  X c := iprop(∃ r, prngReg c r)
  Y c := iprop(∃ r, prngReg c r)
  Z c := Pipeline.unscopedRest (Ix := Unit) (Name := ℕ) (U := UR sig nD τ) (Lvl := ℕ) spec6 c (B27 m c)
  hentry c := by
    rw [Pipeline.ownSems0_none]
    have hsplit := Pipeline.arrays_of_unscopedBufs (p := 6) (pcfgs (F := F)) adm (pdats m) launch6.win launch6.arr_whole c
      ((pdats m 6 c).share_full fun _ => rfl) (B27 m c) fun w => A_eq6 (B27 m) c w
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    refine (show _ ⊢ (Pipeline.ΦA spec6 c : sProp 𝕄) from ?_).trans (hin6 (B27 m) c)
    unfold Pipeline.ΦA
    iintro ⟨Hp, -, Hr⟩
    isplitl [Hr]; · iexact Hr
    iexact Hp
  hout c := by
    refine (hout6 (B27 m) c).trans ?_
    rw [Pipeline.ownSems0_none]; unfold Pipeline.ΦA
    iintro ⟨Hr, Hp⟩
    isplitl [Hp]; · iexact Hp
    isplitr; · iempintro
    iexact Hr
  hexit c := by
    have hjoin := Pipeline.unscopedBufs_of_arrays (p := 6) (pcfgs (F := F)) adm (Ix := Unit) (Name := ℕ) (U := UR sig nD τ) (Lvl := ℕ)
      launch6.win launch6.arr_whole c (pdats m) ((pdats m 6 c).share_full fun _ => rfl)
      (B27 m c) (B28 m c) ((pdats m 6 c).arrAt · cfg6.N) (hF6 m c) (hrest6 m c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

-- the library's lemmas are stated over the pinned configuration; unifying it with the printed one unfolds plain definitions in a metavariable's type
set_option backward.isDefEq.respectTransparency.types false in
/-- Region 7 as a segment of @main: entered with every unscoped buffer at the contents before it, left with the result's array at what the
    pipeline's write-backs leave and every other buffer as entered. Its four arrays are split out of the unscoped buffers at entry and put
    back at exit; the generator register goes into the region's invariant and comes back; nothing is owed; the kernel has no semaphore of its own. -/
def reg7 : Pipeline.RegionSeg (pcfgs (F := F)) adm (pdats m) () defs₀ Variants.none L lv 7 where
  win := launch7.win.to₀
  block_pos := launch7.block_pos
  stage_whole := launch7.stage_whole
  K := PEmpty
  osem k := k.elim
  ho := Pipeline.OwnSemFacts.none _
  hbody c := (body_obligation7 (B29 m) c).loose
  hwaits := Pipeline.hwaits_of_owed_zero _ _ _ _ L lv 7 fun _ _ => rfl
  pre c := iprop(StableHlo.held (c : Thread nD τ) (Pipeline.ucRefs τ sig) (W29 m c) ∗ R c)
  post c := iprop(StableHlo.held (c : Thread nD τ) (Pipeline.ucRefs τ sig) (W30 m c) ∗ R c)
  X c := iprop(∃ r, prngReg c r)
  Y c := iprop(∃ r, prngReg c r)
  Z c := Pipeline.unscopedRest (Ix := Unit) (Name := ℕ) (U := UR sig nD τ) (Lvl := ℕ) spec7 c (B29 m c)
  hentry c := by
    rw [Pipeline.ownSems0_none]
    have hsplit := Pipeline.arrays_of_unscopedBufs (p := 7) (pcfgs (F := F)) adm (pdats m) launch7.win launch7.arr_whole c
      ((pdats m 7 c).share_full fun _ => rfl) (B29 m c) fun w => A_eq7 (B29 m) c w
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    refine (show _ ⊢ (Pipeline.ΦA spec7 c : sProp 𝕄) from ?_).trans (hin7 (B29 m) c)
    unfold Pipeline.ΦA
    iintro ⟨Hp, -, Hr⟩
    isplitl [Hr]; · iexact Hr
    iexact Hp
  hout c := by
    refine (hout7 (B29 m) c).trans ?_
    rw [Pipeline.ownSems0_none]; unfold Pipeline.ΦA
    iintro ⟨Hr, Hp⟩
    isplitl [Hp]; · iexact Hp
    isplitr; · iempintro
    iexact Hr
  hexit c := by
    have hjoin := Pipeline.unscopedBufs_of_arrays (p := 7) (pcfgs (F := F)) adm (Ix := Unit) (Name := ℕ) (U := UR sig nD τ) (Lvl := ℕ)
      launch7.win launch7.arr_whole c (pdats m) ((pdats m 7 c).share_full fun _ => rfl)
      (B29 m c) (B30 m c) ((pdats m 7 c).arrAt · cfg7.N) (hF7 m c) (hrest7 m c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

end Cert.Kernel.Rg
end
-- ==== Proof.KB.SegsC.lean ====
/- Regions 8, 9, 10, 11 of @main as segments: the same record once per region (the launch's layout; the region's body obligation;
   entry: the region's arrays split out of the unscoped buffers; exit: put back at the exit contents). -/
import proofs.«181230_j19834158973077_2_alg».proof.Proof.KB.Data

set_option maxRecDepth 16384

noncomputable section

namespace Cert.Kernel.Rg

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.Kernel Cert.Kernel.Gen

variable {F : FTy → Type} [FloatOps F]

local notation "𝕄" => MT nD τ sig Unit (Elt F) ℕ (UR sig nD τ) ℕ

variable (m : (ℓ : Loc nD τ sig) → Buf (Elt F) ℓ)

-- the library's lemmas are stated over the pinned configuration; unifying it with the printed one unfolds plain definitions in a metavariable's type
set_option backward.isDefEq.respectTransparency.types false in
/-- Region 8 as a segment of @main: entered with every unscoped buffer at the contents before it, left with the result's array at what the
    pipeline's write-backs leave and every other buffer as entered. Its four arrays are split out of the unscoped buffers at entry and put
    back at exit; the generator register goes into the region's invariant and comes back; nothing is owed; the kernel has no semaphore of its own. -/
def reg8 : Pipeline.RegionSeg (pcfgs (F := F)) adm (pdats m) () defs₀ Variants.none L lv 8 where
  win := launch8.win.to₀
  block_pos := launch8.block_pos
  stage_whole := launch8.stage_whole
  K := PEmpty
  osem k := k.elim
  ho := Pipeline.OwnSemFacts.none _
  hbody c := (body_obligation8 (B31 m) c).loose
  hwaits := Pipeline.hwaits_of_owed_zero _ _ _ _ L lv 8 fun _ _ => rfl
  pre c := iprop(StableHlo.held (c : Thread nD τ) (Pipeline.ucRefs τ sig) (W31 m c) ∗ R c)
  post c := iprop(StableHlo.held (c : Thread nD τ) (Pipeline.ucRefs τ sig) (W32 m c) ∗ R c)
  X c := iprop(∃ r, prngReg c r)
  Y c := iprop(∃ r, prngReg c r)
  Z c := Pipeline.unscopedRest (Ix := Unit) (Name := ℕ) (U := UR sig nD τ) (Lvl := ℕ) spec8 c (B31 m c)
  hentry c := by
    rw [Pipeline.ownSems0_none]
    have hsplit := Pipeline.arrays_of_unscopedBufs (p := 8) (pcfgs (F := F)) adm (pdats m) launch8.win launch8.arr_whole c
      ((pdats m 8 c).share_full fun _ => rfl) (B31 m c) fun w => A_eq8 (B31 m) c w
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    refine (show _ ⊢ (Pipeline.ΦA spec8 c : sProp 𝕄) from ?_).trans (hin8 (B31 m) c)
    unfold Pipeline.ΦA
    iintro ⟨Hp, -, Hr⟩
    isplitl [Hr]; · iexact Hr
    iexact Hp
  hout c := by
    refine (hout8 (B31 m) c).trans ?_
    rw [Pipeline.ownSems0_none]; unfold Pipeline.ΦA
    iintro ⟨Hr, Hp⟩
    isplitl [Hp]; · iexact Hp
    isplitr; · iempintro
    iexact Hr
  hexit c := by
    have hjoin := Pipeline.unscopedBufs_of_arrays (p := 8) (pcfgs (F := F)) adm (Ix := Unit) (Name := ℕ) (U := UR sig nD τ) (Lvl := ℕ)
      launch8.win launch8.arr_whole c (pdats m) ((pdats m 8 c).share_full fun _ => rfl)
      (B31 m c) (B32 m c) ((pdats m 8 c).arrAt · cfg8.N) (hF8 m c) (hrest8 m c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

-- the library's lemmas are stated over the pinned configuration; unifying it with the printed one unfolds plain definitions in a metavariable's type
set_option backward.isDefEq.respectTransparency.types false in
/-- Region 9 as a segment of @main: entered with every unscoped buffer at the contents before it, left with the result's array at what the
    pipeline's write-backs leave and every other buffer as entered. Its four arrays are split out of the unscoped buffers at entry and put
    back at exit; the generator register goes into the region's invariant and comes back; nothing is owed; the kernel has no semaphore of its own. -/
def reg9 : Pipeline.RegionSeg (pcfgs (F := F)) adm (pdats m) () defs₀ Variants.none L lv 9 where
  win := launch9.win.to₀
  block_pos := launch9.block_pos
  stage_whole := launch9.stage_whole
  K := PEmpty
  osem k := k.elim
  ho := Pipeline.OwnSemFacts.none _
  hbody c := (body_obligation9 (B33 m) c).loose
  hwaits := Pipeline.hwaits_of_owed_zero _ _ _ _ L lv 9 fun _ _ => rfl
  pre c := iprop(StableHlo.held (c : Thread nD τ) (Pipeline.ucRefs τ sig) (W33 m c) ∗ R c)
  post c := iprop(StableHlo.held (c : Thread nD τ) (Pipeline.ucRefs τ sig) (W34 m c) ∗ R c)
  X c := iprop(∃ r, prngReg c r)
  Y c := iprop(∃ r, prngReg c r)
  Z c := Pipeline.unscopedRest (Ix := Unit) (Name := ℕ) (U := UR sig nD τ) (Lvl := ℕ) spec9 c (B33 m c)
  hentry c := by
    rw [Pipeline.ownSems0_none]
    have hsplit := Pipeline.arrays_of_unscopedBufs (p := 9) (pcfgs (F := F)) adm (pdats m) launch9.win launch9.arr_whole c
      ((pdats m 9 c).share_full fun _ => rfl) (B33 m c) fun w => A_eq9 (B33 m) c w
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    refine (show _ ⊢ (Pipeline.ΦA spec9 c : sProp 𝕄) from ?_).trans (hin9 (B33 m) c)
    unfold Pipeline.ΦA
    iintro ⟨Hp, -, Hr⟩
    isplitl [Hr]; · iexact Hr
    iexact Hp
  hout c := by
    refine (hout9 (B33 m) c).trans ?_
    rw [Pipeline.ownSems0_none]; unfold Pipeline.ΦA
    iintro ⟨Hr, Hp⟩
    isplitl [Hp]; · iexact Hp
    isplitr; · iempintro
    iexact Hr
  hexit c := by
    have hjoin := Pipeline.unscopedBufs_of_arrays (p := 9) (pcfgs (F := F)) adm (Ix := Unit) (Name := ℕ) (U := UR sig nD τ) (Lvl := ℕ)
      launch9.win launch9.arr_whole c (pdats m) ((pdats m 9 c).share_full fun _ => rfl)
      (B33 m c) (B34 m c) ((pdats m 9 c).arrAt · cfg9.N) (hF9 m c) (hrest9 m c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

-- the library's lemmas are stated over the pinned configuration; unifying it with the printed one unfolds plain definitions in a metavariable's type
set_option backward.isDefEq.respectTransparency.types false in
/-- Region 10 as a segment of @main: entered with every unscoped buffer at the contents before it, left with the result's array at what the
    pipeline's write-backs leave and every other buffer as entered. Its four arrays are split out of the unscoped buffers at entry and put
    back at exit; the generator register goes into the region's invariant and comes back; nothing is owed; the kernel has no semaphore of its own. -/
def reg10 : Pipeline.RegionSeg (pcfgs (F := F)) adm (pdats m) () defs₀ Variants.none L lv 10 where
  win := launch10.win.to₀
  block_pos := launch10.block_pos
  stage_whole := launch10.stage_whole
  K := PEmpty
  osem k := k.elim
  ho := Pipeline.OwnSemFacts.none _
  hbody c := (body_obligation10 (B35 m) c).loose
  hwaits := Pipeline.hwaits_of_owed_zero _ _ _ _ L lv 10 fun _ _ => rfl
  pre c := iprop(StableHlo.held (c : Thread nD τ) (Pipeline.ucRefs τ sig) (W35 m c) ∗ R c)
  post c := iprop(StableHlo.held (c : Thread nD τ) (Pipeline.ucRefs τ sig) (W36 m c) ∗ R c)
  X c := iprop(∃ r, prngReg c r)
  Y c := iprop(∃ r, prngReg c r)
  Z c := Pipeline.unscopedRest (Ix := Unit) (Name := ℕ) (U := UR sig nD τ) (Lvl := ℕ) spec10 c (B35 m c)
  hentry c := by
    rw [Pipeline.ownSems0_none]
    have hsplit := Pipeline.arrays_of_unscopedBufs (p := 10) (pcfgs (F := F)) adm (pdats m) launch10.win launch10.arr_whole c
      ((pdats m 10 c).share_full fun _ => rfl) (B35 m c) fun w => A_eq10 (B35 m) c w
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    refine (show _ ⊢ (Pipeline.ΦA spec10 c : sProp 𝕄) from ?_).trans (hin10 (B35 m) c)
    unfold Pipeline.ΦA
    iintro ⟨Hp, -, Hr⟩
    isplitl [Hr]; · iexact Hr
    iexact Hp
  hout c := by
    refine (hout10 (B35 m) c).trans ?_
    rw [Pipeline.ownSems0_none]; unfold Pipeline.ΦA
    iintro ⟨Hr, Hp⟩
    isplitl [Hp]; · iexact Hp
    isplitr; · iempintro
    iexact Hr
  hexit c := by
    have hjoin := Pipeline.unscopedBufs_of_arrays (p := 10) (pcfgs (F := F)) adm (Ix := Unit) (Name := ℕ) (U := UR sig nD τ) (Lvl := ℕ)
      launch10.win launch10.arr_whole c (pdats m) ((pdats m 10 c).share_full fun _ => rfl)
      (B35 m c) (B36 m c) ((pdats m 10 c).arrAt · cfg10.N) (hF10 m c) (hrest10 m c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

-- the library's lemmas are stated over the pinned configuration; unifying it with the printed one unfolds plain definitions in a metavariable's type
set_option backward.isDefEq.respectTransparency.types false in
/-- Region 11 as a segment of @main: entered with every unscoped buffer at the contents before it, left with the result's array at what the
    pipeline's write-backs leave and every other buffer as entered. Its four arrays are split out of the unscoped buffers at entry and put
    back at exit; the generator register goes into the region's invariant and comes back; nothing is owed; the kernel has no semaphore of its own. -/
def reg11 : Pipeline.RegionSeg (pcfgs (F := F)) adm (pdats m) () defs₀ Variants.none L lv 11 where
  win := launch11.win.to₀
  block_pos := launch11.block_pos
  stage_whole := launch11.stage_whole
  K := PEmpty
  osem k := k.elim
  ho := Pipeline.OwnSemFacts.none _
  hbody c := (body_obligation11 (B37 m) c).loose
  hwaits := Pipeline.hwaits_of_owed_zero _ _ _ _ L lv 11 fun _ _ => rfl
  pre c := iprop(StableHlo.held (c : Thread nD τ) (Pipeline.ucRefs τ sig) (W37 m c) ∗ R c)
  post c := iprop(StableHlo.held (c : Thread nD τ) (Pipeline.ucRefs τ sig) (W38 m c) ∗ R c)
  X c := iprop(∃ r, prngReg c r)
  Y c := iprop(∃ r, prngReg c r)
  Z c := Pipeline.unscopedRest (Ix := Unit) (Name := ℕ) (U := UR sig nD τ) (Lvl := ℕ) spec11 c (B37 m c)
  hentry c := by
    rw [Pipeline.ownSems0_none]
    have hsplit := Pipeline.arrays_of_unscopedBufs (p := 11) (pcfgs (F := F)) adm (pdats m) launch11.win launch11.arr_whole c
      ((pdats m 11 c).share_full fun _ => rfl) (B37 m c) fun w => A_eq11 (B37 m) c w
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    refine (show _ ⊢ (Pipeline.ΦA spec11 c : sProp 𝕄) from ?_).trans (hin11 (B37 m) c)
    unfold Pipeline.ΦA
    iintro ⟨Hp, -, Hr⟩
    isplitl [Hr]; · iexact Hr
    iexact Hp
  hout c := by
    refine (hout11 (B37 m) c).trans ?_
    rw [Pipeline.ownSems0_none]; unfold Pipeline.ΦA
    iintro ⟨Hr, Hp⟩
    isplitl [Hp]; · iexact Hp
    isplitr; · iempintro
    iexact Hr
  hexit c := by
    have hjoin := Pipeline.unscopedBufs_of_arrays (p := 11) (pcfgs (F := F)) adm (Ix := Unit) (Name := ℕ) (U := UR sig nD τ) (Lvl := ℕ)
      launch11.win launch11.arr_whole c (pdats m) ((pdats m 11 c).share_full fun _ => rfl)
      (B37 m c) (B38 m c) ((pdats m 11 c).arrAt · cfg11.N) (hF11 m c) (hrest11 m c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

end Cert.Kernel.Rg
end
-- ==== Proof.KB.SegsD.lean ====
/- Regions 12, 13 of @main as segments: the same record once per region (the launch's layout; the region's body obligation;
   entry: the region's arrays split out of the unscoped buffers; exit: put back at the exit contents). -/
import proofs.«181230_j19834158973077_2_alg».proof.Proof.KB.Data

set_option maxRecDepth 16384

noncomputable section

namespace Cert.Kernel.Rg

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.Kernel Cert.Kernel.Gen

variable {F : FTy → Type} [FloatOps F]

local notation "𝕄" => MT nD τ sig Unit (Elt F) ℕ (UR sig nD τ) ℕ

variable (m : (ℓ : Loc nD τ sig) → Buf (Elt F) ℓ)

-- the library's lemmas are stated over the pinned configuration; unifying it with the printed one unfolds plain definitions in a metavariable's type
set_option backward.isDefEq.respectTransparency.types false in
/-- Region 12 as a segment of @main: entered with every unscoped buffer at the contents before it, left with the result's array at what the
    pipeline's write-backs leave and every other buffer as entered. Its four arrays are split out of the unscoped buffers at entry and put
    back at exit; the generator register goes into the region's invariant and comes back; nothing is owed; the kernel has no semaphore of its own. -/
def reg12 : Pipeline.RegionSeg (pcfgs (F := F)) adm (pdats m) () defs₀ Variants.none L lv 12 where
  win := launch12.win.to₀
  block_pos := launch12.block_pos
  stage_whole := launch12.stage_whole
  K := PEmpty
  osem k := k.elim
  ho := Pipeline.OwnSemFacts.none _
  hbody c := (body_obligation12 (B39 m) c).loose
  hwaits := Pipeline.hwaits_of_owed_zero _ _ _ _ L lv 12 fun _ _ => rfl
  pre c := iprop(StableHlo.held (c : Thread nD τ) (Pipeline.ucRefs τ sig) (W39 m c) ∗ R c)
  post c := iprop(StableHlo.held (c : Thread nD τ) (Pipeline.ucRefs τ sig) (W40 m c) ∗ R c)
  X c := iprop(∃ r, prngReg c r)
  Y c := iprop(∃ r, prngReg c r)
  Z c := Pipeline.unscopedRest (Ix := Unit) (Name := ℕ) (U := UR sig nD τ) (Lvl := ℕ) spec12 c (B39 m c)
  hentry c := by
    rw [Pipeline.ownSems0_none]
    have hsplit := Pipeline.arrays_of_unscopedBufs (p := 12) (pcfgs (F := F)) adm (pdats m) launch12.win launch12.arr_whole c
      ((pdats m 12 c).share_full fun _ => rfl) (B39 m c) fun w => A_eq12 (B39 m) c w
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    refine (show _ ⊢ (Pipeline.ΦA spec12 c : sProp 𝕄) from ?_).trans (hin12 (B39 m) c)
    unfold Pipeline.ΦA
    iintro ⟨Hp, -, Hr⟩
    isplitl [Hr]; · iexact Hr
    iexact Hp
  hout c := by
    refine (hout12 (B39 m) c).trans ?_
    rw [Pipeline.ownSems0_none]; unfold Pipeline.ΦA
    iintro ⟨Hr, Hp⟩
    isplitl [Hp]; · iexact Hp
    isplitr; · iempintro
    iexact Hr
  hexit c := by
    have hjoin := Pipeline.unscopedBufs_of_arrays (p := 12) (pcfgs (F := F)) adm (Ix := Unit) (Name := ℕ) (U := UR sig nD τ) (Lvl := ℕ)
      launch12.win launch12.arr_whole c (pdats m) ((pdats m 12 c).share_full fun _ => rfl)
      (B39 m c) (B40 m c) ((pdats m 12 c).arrAt · cfg12.N) (hF12 m c) (hrest12 m c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

-- the library's lemmas are stated over the pinned configuration; unifying it with the printed one unfolds plain definitions in a metavariable's type
set_option backward.isDefEq.respectTransparency.types false in
/-- Region 13 as a segment of @main: entered with every unscoped buffer at the contents before it, left with the result's array at what the
    pipeline's write-backs leave and every other buffer as entered. Its four arrays are split out of the unscoped buffers at entry and put
    back at exit; the generator register goes into the region's invariant and comes back; nothing is owed; the kernel has no semaphore of its own. -/
def reg13 : Pipeline.RegionSeg (pcfgs (F := F)) adm (pdats m) () defs₀ Variants.none L lv 13 where
  win := launch13.win.to₀
  block_pos := launch13.block_pos
  stage_whole := launch13.stage_whole
  K := PEmpty
  osem k := k.elim
  ho := Pipeline.OwnSemFacts.none _
  hbody c := (body_obligation13 (B41 m) c).loose
  hwaits := Pipeline.hwaits_of_owed_zero _ _ _ _ L lv 13 fun _ _ => rfl
  pre c := iprop(StableHlo.held (c : Thread nD τ) (Pipeline.ucRefs τ sig) (W41 m c) ∗ R c)
  post c := iprop(StableHlo.held (c : Thread nD τ) (Pipeline.ucRefs τ sig) (W42 m c) ∗ R c)
  X c := iprop(∃ r, prngReg c r)
  Y c := iprop(∃ r, prngReg c r)
  Z c := Pipeline.unscopedRest (Ix := Unit) (Name := ℕ) (U := UR sig nD τ) (Lvl := ℕ) spec13 c (B41 m c)
  hentry c := by
    rw [Pipeline.ownSems0_none]
    have hsplit := Pipeline.arrays_of_unscopedBufs (p := 13) (pcfgs (F := F)) adm (pdats m) launch13.win launch13.arr_whole c
      ((pdats m 13 c).share_full fun _ => rfl) (B41 m c) fun w => A_eq13 (B41 m) c w
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    refine (show _ ⊢ (Pipeline.ΦA spec13 c : sProp 𝕄) from ?_).trans (hin13 (B41 m) c)
    unfold Pipeline.ΦA
    iintro ⟨Hp, -, Hr⟩
    isplitl [Hr]; · iexact Hr
    iexact Hp
  hout c := by
    refine (hout13 (B41 m) c).trans ?_
    rw [Pipeline.ownSems0_none]; unfold Pipeline.ΦA
    iintro ⟨Hr, Hp⟩
    isplitl [Hp]; · iexact Hp
    isplitr; · iempintro
    iexact Hr
  hexit c := by
    have hjoin := Pipeline.unscopedBufs_of_arrays (p := 13) (pcfgs (F := F)) adm (Ix := Unit) (Name := ℕ) (U := UR sig nD τ) (Lvl := ℕ)
      launch13.win launch13.arr_whole c (pdats m) ((pdats m 13 c).share_full fun _ => rfl)
      (B41 m c) (B42 m c) ((pdats m 13 c).arrAt · cfg13.N) (hF13 m c) (hrest13 m c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

end Cert.Kernel.Rg
end
-- ==== Proof.KB.Run.lean ====
/- The run of @main: the conditional run's hypotheses discharged — the family of proof data, the named buffer contents as the
   regions' unknowns, the 14 segment records, each entered from and left at the named contents; beside the buffers every core
   carries its generator register and owes nothing. -/
import proofs.«181230_j19834158973077_2_alg».proof.Proof.KB.SegsA
import proofs.«181230_j19834158973077_2_alg».proof.Proof.KB.SegsB
import proofs.«181230_j19834158973077_2_alg».proof.Proof.KB.SegsC
import proofs.«181230_j19834158973077_2_alg».proof.Proof.KB.SegsD

set_option maxRecDepth 16384

noncomputable section

namespace Cert.Kernel.Rg

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.Kernel Cert.Kernel.Gen

variable {F : FTy → Type} [FloatOps F]

local notation "𝕄" => MT nD τ sig Unit (Elt F) ℕ (UR sig nD τ) ℕ

variable (m : (ℓ : Loc nD τ sig) → Buf (Elt F) ℓ) (ρ : Dev nD → PrngReg)

set_option maxHeartbeats 4000000 in
set_option backward.isDefEq.respectTransparency.types false in
theorem run_main : θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)) := by
  have h := frame_cond (F := F) (m := m) (EP := emb₁) (ι := ()) (𝒱₀ := Variants.none) (L := L) (lv := lv) (hL := fun _ _ => rfl) (ρ := ρ)
    (outs := outs m) (pdats := pdats m) (O₀ := 0) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (E := fun _ c => R c)
    (hE0 := Pipeline.initEach L lv fun c => by
      iintro ⟨⟨-, HO, -, Hp, -⟩, -⟩
      imodintro
      isplitl [Hp]; · iexists _; iexact Hp
      iexists ∅; iexact HO)
    (hE14 := fun c => by iintro ⟨-, HO⟩; iexact HO)
    (R0 := reg0 m) (hpre0 := fun c => by exact .rfl) (hpost0 := fun c => by rw [V16_eq]; exact .rfl)
    (R1 := reg1 m) (hpre1 := fun c => by rw [V17_eq]; exact .rfl) (hpost1 := fun c => by rw [V18_eq]; exact .rfl)
    (R2 := reg2 m) (hpre2 := fun c => by rw [V19_eq]; exact .rfl) (hpost2 := fun c => by rw [V20_eq]; exact .rfl)
    (R3 := reg3 m) (hpre3 := fun c => by rw [V21_eq]; exact .rfl) (hpost3 := fun c => by rw [V22_eq]; exact .rfl)
    (R4 := reg4 m) (hpre4 := fun c => by rw [V23_eq]; exact .rfl) (hpost4 := fun c => by rw [V24_eq]; exact .rfl)
    (R5 := reg5 m) (hpre5 := fun c => by rw [V25_eq]; exact .rfl) (hpost5 := fun c => by rw [V26_eq]; exact .rfl)
    (R6 := reg6 m) (hpre6 := fun c => by rw [V27_eq]; exact .rfl) (hpost6 := fun c => by rw [V28_eq]; exact .rfl)
    (R7 := reg7 m) (hpre7 := fun c => by rw [V29_eq]; exact .rfl) (hpost7 := fun c => by rw [V30_eq]; exact .rfl)
    (R8 := reg8 m) (hpre8 := fun c => by rw [V31_eq]; exact .rfl) (hpost8 := fun c => by rw [V32_eq]; exact .rfl)
    (R9 := reg9 m) (hpre9 := fun c => by rw [V33_eq]; exact .rfl) (hpost9 := fun c => by rw [V34_eq]; exact .rfl)
    (R10 := reg10 m) (hpre10 := fun c => by rw [V35_eq]; exact .rfl) (hpost10 := fun c => by rw [V36_eq]; exact .rfl)
    (R11 := reg11 m) (hpre11 := fun c => by rw [V37_eq]; exact .rfl) (hpost11 := fun c => by rw [V38_eq]; exact .rfl)
    (R12 := reg12 m) (hpre12 := fun c => by rw [V39_eq]; exact .rfl) (hpost12 := fun c => by rw [V40_eq]; exact .rfl)
    (R13 := reg13 m) (hpre13 := fun c => by rw [V41_eq]; exact .rfl) (hpost13 := fun c => by rw [V42_eq]; exact .rfl)
  refine (θ_run defs _ _).mono (fun r hr c => ?_) h
  exact hr c

end Cert.Kernel.Rg
end
-- ==== Proof.KI.Reg0.lean ====
/- REGION 0: the adjacency product with a carried accumulator (grid 20 × 10, the reduction step `k = t % 10`). The f32
   accumulator [512x128] is zeroed when `k = 0`, takes the product of the left operand's block with the right operand's
   rows `k*1024 … k*1024+1023` at every point, and when `k = 9` is read back, the bias row added, the sum converted to the result's format and stored whole into the
   result's block. Stated at a parameter `V`, the TensorCore's buffer contents when the region is entered: the proof
   data `dat0`, its body obligation, and the invariant's two ends `hin0` / `hout0`; `out0_L_3` / `outsAt0` name what
   the result window holds. -/
import proofs.«181230_j19834158973077_2_alg».proof.Proof.Gen.KernelIdeal.Launch
import proofs.«181230_j19834158973077_2_alg».proof.Proof.Gen.KernelIdeal.Skeleton
import proofs.«181230_j19834158973077_2_alg».proof.Proof.Gen.KernelIdeal.Points
import Idealize.ShloMosaic.Lib.Pipeline.FrameBody
import Idealize.ShloMosaic.Lib.Ring
import Idealize.ShloMosaic.Lib.Tactic

-- membership in a rectangle of full extents recurses once per coordinate of the long axes
set_option maxRecDepth 16384

noncomputable section

namespace Cert.KernelIdeal.Rg

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

/-! # Part 1: the conditionals over the grid, the memrefs, the invariant's split, the blocks -/

/-! ## The body's two conditionals, over the grid

A grid point `t` has coordinates `(m, k)` with `k = t % 10` the reduction step. The accumulator is zeroed when
`k = 0`; the result block is written when `k = 9`. -/

/-- The first conditional's condition (`k = 0`), with the scalar chain that computes it substituted. -/
abbrev zeroC0 (i : grid0.Coords) : Prop :=
  (Scalar.cmpi .ne (Scalar.extui (Scalar.cmpi .eq (BitVec.ofNat 32 (i 1).val) 0#32)) 0#32) = 1#1
/-- It holds exactly at the points ≡ 0 (mod 10): decided over the 200 points. -/
theorem zeroC0_iff : ∀ t : Fin cfg0.N, zeroC0 (grid0.coords t) ↔ t.val % 10 = 0 :=
  (by decide +kernel : ∀ t : Fin grid0.N, zeroC0 (grid0.coords t) ↔ t.val % 10 = 0)

/-- The second conditional's condition (`k = 9`). -/
abbrev flushC0 (i : grid0.Coords) : Prop := k0_cond2 i = 1#1
/-- It holds exactly at the points ≡ 9 (mod 10). -/
theorem flushC0_iff : ∀ t : Fin cfg0.N, flushC0 (grid0.coords t) ↔ t.val % 10 = 9 :=
  (by decide +kernel : ∀ t : Fin grid0.N, flushC0 (grid0.coords t) ↔ t.val % 10 = 9)

/-! ## Where the windows are idle -/

/-- The three input windows are never idle. -/
theorem live0_0 : ∀ t : Fin cfg0.N, cfg0.idle 0 (grid0.coords t) = false := by decide +kernel
theorem live0_1 : ∀ t : Fin cfg0.N, cfg0.idle 1 (grid0.coords t) = false := by decide +kernel
theorem live0_2 : ∀ t : Fin cfg0.N, cfg0.idle 2 (grid0.coords t) = false := by decide +kernel
/-- Away from `k = 9` the result window is idle (the body stores nothing into it) -/
theorem idle0_3 : ∀ t : Fin cfg0.N, ¬flushC0 (grid0.coords t) → cfg0.idle 3 (grid0.coords t) = true := by decide +kernel
/-- and its block is not written back; -/
theorem noFlush0_3 : ∀ t : Fin cfg0.N, ¬flushC0 (grid0.coords t) → (cfg0.win 3).flush t = false := by decide +kernel
/-- at `k = 9` it is live. -/
theorem live0_3 : ∀ t : Fin cfg0.N, flushC0 (grid0.coords t) → cfg0.idle 3 (grid0.coords t) = false := by decide +kernel

/-! ## The memrefs the body is called with -/

/-- Each window's current staging memref at point `t`, and that it is a whole buffer: the left operand's block, -/
abbrev mA0 (t : Fin cfg0.N) : Memref sig .tc .vmem S512x1024 .bf16 := win0_0.stage (cfg0.slots t 0)
abbrev hA0 (t : Fin cfg0.N) : (mA0 t).IsWhole := hstage0_0 ((cfg0.slots t 0).cast nbuf0_0)
/-- the right operand, resident whole, -/
abbrev mB0 (t : Fin cfg0.N) : Memref sig .tc .vmem S10240x128 .bf16 := win0_1.stage (cfg0.slots t 1)
abbrev hB0 (t : Fin cfg0.N) : (mB0 t).IsWhole := hstage0_1 ((cfg0.slots t 1).cast nbuf0_1)
/-- the bias row, -/
abbrev mC0 (t : Fin cfg0.N) : Memref sig .tc .vmem S1x128 .f32 := win0_2.stage (cfg0.slots t 2)
abbrev hC0 (t : Fin cfg0.N) : (mC0 t).IsWhole := hstage0_2 ((cfg0.slots t 2).cast nbuf0_2)
/-- the result's block. -/
abbrev mO0 (t : Fin cfg0.N) : Memref sig .tc .vmem S512x128 .bf16 := win0_3.stage (cfg0.slots t 3)
abbrev hO0 (t : Fin cfg0.N) : (mO0 t).IsWhole := hstage0_3 ((cfg0.slots t 3).cast nbuf0_3)
/-- The accumulator: a whole scoped buffer of the kernel's own, passed beside the windows and carried from point to point. -/
abbrev mS0 : Memref sig .tc .vmem S512x128 .f32 := Memref.whole cc0_scratch0
/-- The views through which the result buffer's and the accumulator's contents are stated (one of the result's two
    staging buffers: for a covering list of stores the choice does not matter). -/
abbrev vO0 : View sig .tc .vmem S512x128 .bf16 := (Memref.whole cc0_stg3_0 : Memref sig .tc .vmem S512x128 .bf16).view
abbrev vS0 : View sig .tc .vmem S512x128 .f32 := mS0.view

/-! ## The region invariant, with the accumulator split off -/

/-- Every other scoped buffer of the core that is no staging buffer of this region: carried unopened. -/
abbrev rest0 (c : Dev nD) : sProp 𝕄 :=
  Pipeline.scopedRestBut (Ix := Unit) (Name := ℕ) (U := UR sig nD τ) (Lvl := ℕ) (Val := Elt F) spec0 c [cc0_scratch0]

/-- The class's invariant is: the accumulator owned at some contents, the other scoped buffers, the generator
    register at some state. -/
theorem PhiA0_eq (c : Dev nD) :
    (Pipeline.ΦA spec0 c : sProp 𝕄)
      = iprop(iprop((∃ d, owns (c : Thread nD τ) mS0 fullShare d) ∗ rest0 (F := F) c) ∗ (∃ r, prngReg c r)) := by
  unfold Pipeline.ΦA; rw [scopedRest0_split]; simp only [mS0, owns_whole]; try rfl

section Entry
variable (V : (c : Dev nD) → (b : Ref sig .tc) → Buf (Elt F) ((c : Thread nD τ).loc b))

/-! ## The windows' blocks -/

/-- Window `w`'s block at point `t`, read off its array as the region finds it. -/
def iblk0 (c : Dev nD) (w : Fin cfg0.W) (t : Fin cfg0.N) : ((cfg0.win w).xblock (cfg0.grid.coords t)).Idx → Elt F (cfg0.win w).elt :=
  ((cfg0.win w).blk t).view.read (Elt F) (V c (Pipeline.arrRef spec0 w))

/-- An input window's current staging buffer holds its block at every point, fetched there or not (where it is not
    fetched its block index has not moved), for any proof data whose array is `V`'s and whose body leaves the block
    in place. -/
theorem before0_0_of {c : Dev nD} (dat : Dat τ (Elt F) Unit ℕ (UR sig nD τ) ℕ cfg0 c) (hA : dat.A 0 = V c (Pipeline.arrRef spec0 0))
    (hafter : ∀ t, dat.after 0 t = iblk0 V c 0 t) (t : Fin cfg0.N) (d) : dat.before 0 t d = iblk0 V c 0 t :=
  (dat.before_in_eq_fetched 0 rfl (fun _ => rfl) (fun _ _ _ => rfl) (fun t => by rw [hafter]; unfold Dat.blockOf iblk0; rw [hA]; try rfl) t d).trans
    (by unfold Dat.fetched Dat.blockOf iblk0; rw [hA]; try rfl)
theorem before0_1_of {c : Dev nD} (dat : Dat τ (Elt F) Unit ℕ (UR sig nD τ) ℕ cfg0 c) (hA : dat.A 1 = V c (Pipeline.arrRef spec0 1))
    (hafter : ∀ t, dat.after 1 t = iblk0 V c 1 t) (t : Fin cfg0.N) (d) : dat.before 1 t d = iblk0 V c 1 t :=
  (dat.before_in_eq_fetched 1 rfl (fun _ => rfl) (fun _ _ _ => rfl) (fun t => by rw [hafter]; unfold Dat.blockOf iblk0; rw [hA]; try rfl) t d).trans
    (by unfold Dat.fetched Dat.blockOf iblk0; rw [hA]; try rfl)
theorem before0_2_of {c : Dev nD} (dat : Dat τ (Elt F) Unit ℕ (UR sig nD τ) ℕ cfg0 c) (hA : dat.A 2 = V c (Pipeline.arrRef spec0 2))
    (hafter : ∀ t, dat.after 2 t = iblk0 V c 2 t) (t : Fin cfg0.N) (d) : dat.before 2 t d = iblk0 V c 2 t :=
  (dat.before_in_eq_fetched 2 rfl (fun _ => rfl) (fun _ _ _ => rfl) (fun t => by rw [hafter]; unfold Dat.blockOf iblk0; rw [hA]; try rfl) t d).trans
    (by unfold Dat.fetched Dat.blockOf iblk0; rw [hA]; try rfl)

end Entry

/-! # Part 2: the body's run in each of the three control cases -/
/-! ### The control case `k = 0`: the accumulator is stored whole with zeros, then read back, the block product added and the sum stored
   whole again; the result buffer is not touched. -/

-- (the run's proof term is large: the definition's epilogue walks it past the default budget)
set_option maxHeartbeats 1000000 in
/-- The lists of stores, last first, that the body leaves in the result buffer (`L3`) and in the accumulator (`LS`) in
    this case, TOGETHER WITH the proof that on whole memrefs — the three inputs at contents `x0 x1 x2`, the result
    buffer at contents `xi3` handed back as found, the accumulator at anything — the body runs to a
    continuation that holds the inputs as they were, the result buffer as it was and the accumulator with
    `LS` written. The two lists are found by running the body's memory operations in order over named payloads; each
    conditional is decided by the case's hypotheses. -/
noncomputable def runZero0 (c : Dev nD) (i : grid0.Coords) (arg2 : Memref sig .tc .vmem S512x1024 .bf16) (harg2 : arg2.IsWhole) (arg3 : Memref sig .tc .vmem S10240x128 .bf16) (harg3 : arg3.IsWhole) (arg4 : Memref sig .tc .vmem S1x128 .f32) (harg4 : arg4.IsWhole) (arg5 : Memref sig .tc .vmem S512x128 .bf16) (harg5 : arg5.IsWhole) (arg6 : Memref sig .tc .vmem S512x128 .f32) (harg6 : arg6.IsWhole) (hc0 : zeroC0 i) (hc1 : ¬flushC0 i)
    (x0 : Vec F S512x1024 .bf16) (x1 : Vec F S10240x128 .bf16) (x2 : Vec F S1x128 .f32) :
    Σ' (L3 : List (View.Piece (Elt F) S512x128 .bf16)), { LS : List (View.Piece (Elt F) S512x128 .f32) //
      ∀ (xi3 : Vec F S512x128 .bf16) (E : Set ℕ) (K : PUnit → sProp 𝕄),
        iprop(owns (c : Thread nD τ) arg2 fullShare x0 ∗ owns (c : Thread nD τ) arg3 fullShare x1 ∗ owns (c : Thread nD τ) arg4 fullShare x2 ∗ owns (c : Thread nD τ) arg5 fullShare xi3 ∗ (∃ d, owns (c : Thread nD τ) arg6 fullShare d)
            ∗ (iprop(owns (c : Thread nD τ) arg2 fullShare x0 ∗ owns (c : Thread nD τ) arg3 fullShare x1 ∗ owns (c : Thread nD τ) arg4 fullShare x2 ∗ owns (c : Thread nD τ) arg5 fullShare xi3 ∗ (∃ f, arg6.view.loc (c : Thread nD τ) ↦[arg6.view.set]{fullShare} arg6.view.writes (Elt F) f LS)) -∗ K ⟨⟩))
          ⊢ wp frame (wpE (defs₀ (F := F)) Variants.none c none) E (cc0__stage2_kernel i arg2 harg2 arg3 harg3 arg4 harg4 arg5 harg5 arg6 harg6) K } := by
  refine ⟨[], ?_, fun xi3 E K => ?run⟩
  case run =>
    simp only [cc0__stage2_kernel_eq_skeleton]; unfold cc0__stage2_kernel_skel
    unfold owns
    iintro ⟨⟨%f0, %hf0, H0⟩, ⟨%f1, %hf1, H1⟩, ⟨%f2, %hf2, H2⟩, ⟨%f3, %hf3, H3⟩, ⟨%ds, %fs, -, HS⟩, Hk⟩
    obtain rfl := harg2.eq_unread hf0; obtain rfl := harg3.eq_unread hf1; obtain rfl := harg4.eq_unread hf2; obtain rfl := harg5.eq_unread hf3
    sl_exec (disch := first | exact hc0 | exact hc1)
    sl_step
    iapply Hk
    isplitl [H0]
    · iexists _; isplitr; · ipureintro; exact harg2.read_unread _
      iexact H0
    isplitl [H1]
    · iexists _; isplitr; · ipureintro; exact harg3.read_unread _
      iexact H1
    isplitl [H2]
    · iexists _; isplitr; · ipureintro; exact harg4.read_unread _
      iexact H2
    isplitl [H3]
    · iexists _; isplitr; · ipureintro; exact harg5.read_unread _
      iexact H3
    iexists _; iexact HS

/-! ### The control case `0 < k < 9`: the accumulator is read, the block product added and the sum stored whole; the result
   buffer is not touched. -/

-- (the run's proof term is large: the definition's epilogue walks it past the default budget)
set_option maxHeartbeats 1000000 in
/-- The lists of stores, last first, that the body leaves in the result buffer (`L3`) and in the accumulator (`LS`) in
    this case, TOGETHER WITH the proof that on whole memrefs — the three inputs at contents `x0 x1 x2`, the result
    buffer at contents `xi3` handed back as found, the accumulator at the contents `xs` the point before left — the body runs to a
    continuation that holds the inputs as they were, the result buffer as it was and the accumulator with
    `LS` written. The two lists are found by running the body's memory operations in order over named payloads; each
    conditional is decided by the case's hypotheses. -/
noncomputable def runMid0 (c : Dev nD) (i : grid0.Coords) (arg2 : Memref sig .tc .vmem S512x1024 .bf16) (harg2 : arg2.IsWhole) (arg3 : Memref sig .tc .vmem S10240x128 .bf16) (harg3 : arg3.IsWhole) (arg4 : Memref sig .tc .vmem S1x128 .f32) (harg4 : arg4.IsWhole) (arg5 : Memref sig .tc .vmem S512x128 .bf16) (harg5 : arg5.IsWhole) (arg6 : Memref sig .tc .vmem S512x128 .f32) (harg6 : arg6.IsWhole) (hc0 : ¬zeroC0 i) (hc1 : ¬flushC0 i)
    (x0 : Vec F S512x1024 .bf16) (x1 : Vec F S10240x128 .bf16) (x2 : Vec F S1x128 .f32) (xs : Vec F S512x128 .f32) :
    Σ' (L3 : List (View.Piece (Elt F) S512x128 .bf16)), { LS : List (View.Piece (Elt F) S512x128 .f32) //
      ∀ (xi3 : Vec F S512x128 .bf16) (E : Set ℕ) (K : PUnit → sProp 𝕄),
        iprop(owns (c : Thread nD τ) arg2 fullShare x0 ∗ owns (c : Thread nD τ) arg3 fullShare x1 ∗ owns (c : Thread nD τ) arg4 fullShare x2 ∗ owns (c : Thread nD τ) arg5 fullShare xi3 ∗ owns (c : Thread nD τ) arg6 fullShare xs
            ∗ (iprop(owns (c : Thread nD τ) arg2 fullShare x0 ∗ owns (c : Thread nD τ) arg3 fullShare x1 ∗ owns (c : Thread nD τ) arg4 fullShare x2 ∗ owns (c : Thread nD τ) arg5 fullShare xi3 ∗ (∃ f, arg6.view.loc (c : Thread nD τ) ↦[arg6.view.set]{fullShare} arg6.view.writes (Elt F) f LS)) -∗ K ⟨⟩))
          ⊢ wp frame (wpE (defs₀ (F := F)) Variants.none c none) E (cc0__stage2_kernel i arg2 harg2 arg3 harg3 arg4 harg4 arg5 harg5 arg6 harg6) K } := by
  refine ⟨[], ?_, fun xi3 E K => ?run⟩
  case run =>
    simp only [cc0__stage2_kernel_eq_skeleton]; unfold cc0__stage2_kernel_skel
    unfold owns
    iintro ⟨⟨%f0, %hf0, H0⟩, ⟨%f1, %hf1, H1⟩, ⟨%f2, %hf2, H2⟩, ⟨%f3, %hf3, H3⟩, ⟨%fs, %hfs, HS⟩, Hk⟩
    obtain rfl := harg2.eq_unread hf0; obtain rfl := harg3.eq_unread hf1; obtain rfl := harg4.eq_unread hf2; obtain rfl := harg5.eq_unread hf3; obtain rfl := harg6.eq_unread hfs
    sl_exec (disch := first | exact hc0 | exact hc1)
    sl_step
    iapply Hk
    isplitl [H0]
    · iexists _; isplitr; · ipureintro; exact harg2.read_unread _
      iexact H0
    isplitl [H1]
    · iexists _; isplitr; · ipureintro; exact harg3.read_unread _
      iexact H1
    isplitl [H2]
    · iexists _; isplitr; · ipureintro; exact harg4.read_unread _
      iexact H2
    isplitl [H3]
    · iexists _; isplitr; · ipureintro; exact harg5.read_unread _
      iexact H3
    iexists _; iexact HS

/-! ### The control case `k = 9`: the accumulator is read, the block product added and the sum stored whole; then the accumulator
   is read back, the bias row added, the sum converted to the result's format and stored whole into the result buffer. -/

-- (the run's proof term is large: the definition's epilogue walks it past the default budget)
set_option maxHeartbeats 1000000 in
/-- The lists of stores, last first, that the body leaves in the result buffer (`L3`) and in the accumulator (`LS`) in
    this case, TOGETHER WITH the proof that on whole memrefs — the three inputs at contents `x0 x1 x2`, the result buffer at anything, the accumulator at the contents `xs` the point before left — the body runs to a
    continuation that holds the inputs as they were, the result buffer with `L3` written and the accumulator with
    `LS` written. The two lists are found by running the body's memory operations in order over named payloads; each
    conditional is decided by the case's hypotheses. -/
noncomputable def runLast0 (c : Dev nD) (i : grid0.Coords) (arg2 : Memref sig .tc .vmem S512x1024 .bf16) (harg2 : arg2.IsWhole) (arg3 : Memref sig .tc .vmem S10240x128 .bf16) (harg3 : arg3.IsWhole) (arg4 : Memref sig .tc .vmem S1x128 .f32) (harg4 : arg4.IsWhole) (arg5 : Memref sig .tc .vmem S512x128 .bf16) (harg5 : arg5.IsWhole) (arg6 : Memref sig .tc .vmem S512x128 .f32) (harg6 : arg6.IsWhole) (hc0 : ¬zeroC0 i) (hc1 : flushC0 i)
    (x0 : Vec F S512x1024 .bf16) (x1 : Vec F S10240x128 .bf16) (x2 : Vec F S1x128 .f32) (xs : Vec F S512x128 .f32) :
    Σ' (L3 : List (View.Piece (Elt F) S512x128 .bf16)), { LS : List (View.Piece (Elt F) S512x128 .f32) //
      ∀ (E : Set ℕ) (K : PUnit → sProp 𝕄),
        iprop(owns (c : Thread nD τ) arg2 fullShare x0 ∗ owns (c : Thread nD τ) arg3 fullShare x1 ∗ owns (c : Thread nD τ) arg4 fullShare x2 ∗ (∃ d, owns (c : Thread nD τ) arg5 fullShare d) ∗ owns (c : Thread nD τ) arg6 fullShare xs
            ∗ (iprop(owns (c : Thread nD τ) arg2 fullShare x0 ∗ owns (c : Thread nD τ) arg3 fullShare x1 ∗ owns (c : Thread nD τ) arg4 fullShare x2 ∗ (∃ f, arg5.view.loc (c : Thread nD τ) ↦[arg5.view.set]{fullShare} arg5.view.writes (Elt F) f L3) ∗ (∃ f, arg6.view.loc (c : Thread nD τ) ↦[arg6.view.set]{fullShare} arg6.view.writes (Elt F) f LS)) -∗ K ⟨⟩))
          ⊢ wp frame (wpE (defs₀ (F := F)) Variants.none c none) E (cc0__stage2_kernel i arg2 harg2 arg3 harg3 arg4 harg4 arg5 harg5 arg6 harg6) K } := by
  refine ⟨?_, ?_, fun E K => ?run⟩
  case run =>
    simp only [cc0__stage2_kernel_eq_skeleton]; unfold cc0__stage2_kernel_skel
    unfold owns
    iintro ⟨⟨%f0, %hf0, H0⟩, ⟨%f1, %hf1, H1⟩, ⟨%f2, %hf2, H2⟩, ⟨%d3, %f3, -, H3⟩, ⟨%fs, %hfs, HS⟩, Hk⟩
    obtain rfl := harg2.eq_unread hf0; obtain rfl := harg3.eq_unread hf1; obtain rfl := harg4.eq_unread hf2; obtain rfl := harg6.eq_unread hfs
    sl_exec (disch := first | exact hc0 | exact hc1)
    sl_step
    iapply Hk
    isplitl [H0]
    · iexists _; isplitr; · ipureintro; exact harg2.read_unread _
      iexact H0
    isplitl [H1]
    · iexists _; isplitr; · ipureintro; exact harg3.read_unread _
      iexact H1
    isplitl [H2]
    · iexists _; isplitr; · ipureintro; exact harg4.read_unread _
      iexact H2
    isplitl [H3]; · iexists _; iexact H3
    iexists _; iexact HS

/-! # Part 3: what each case leaves, point by point; the proof data; the body obligation; the invariant's ends -/

/-! ## What each case leaves

In the cases `k = 0` and `0 < k < 9` nothing is stored into the result buffer: its "contents" below is a placeholder
(no stores read back over junk) that nothing consults, the window being idle and not written back at those points. -/

def out0_Z_3 (c : Dev nD) (i : grid0.Coords) (arg2 : Memref sig .tc .vmem S512x1024 .bf16) (harg2 : arg2.IsWhole) (arg3 : Memref sig .tc .vmem S10240x128 .bf16) (harg3 : arg3.IsWhole) (arg4 : Memref sig .tc .vmem S1x128 .f32) (harg4 : arg4.IsWhole) (arg5 : Memref sig .tc .vmem S512x128 .bf16) (harg5 : arg5.IsWhole) (arg6 : Memref sig .tc .vmem S512x128 .f32) (harg6 : arg6.IsWhole) (hc0 : zeroC0 i) (hc1 : ¬flushC0 i)
    (x0 : Vec F S512x1024 .bf16) (x1 : Vec F S10240x128 .bf16) (x2 : Vec F S1x128 .f32) : Vec F S512x128 .bf16 :=
  vO0.read (Elt F) (vO0.writes (Elt F) vO0.junk (runZero0 c i arg2 harg2 arg3 harg3 arg4 harg4 arg5 harg5 arg6 harg6 hc0 hc1 x0 x1 x2).1)

/-- At `k = 0` the accumulator's stores (the zero fill, then the first partial sum) cover it. -/
theorem scover0_Z (c : Dev nD) (i : grid0.Coords) (arg2 : Memref sig .tc .vmem S512x1024 .bf16) (harg2 : arg2.IsWhole) (arg3 : Memref sig .tc .vmem S10240x128 .bf16) (harg3 : arg3.IsWhole) (arg4 : Memref sig .tc .vmem S1x128 .f32) (harg4 : arg4.IsWhole) (arg5 : Memref sig .tc .vmem S512x128 .bf16) (harg5 : arg5.IsWhole) (arg6 : Memref sig .tc .vmem S512x128 .f32) (harg6 : arg6.IsWhole) (hc0 : zeroC0 i) (hc1 : ¬flushC0 i)
    (x0 : Vec F S512x1024 .bf16) (x1 : Vec F S10240x128 .bf16) (x2 : Vec F S1x128 .f32) (y : S512x128.Idx) :
    ∃ pc ∈ (runZero0 c i arg2 harg2 arg3 harg3 arg4 harg4 arg5 harg5 arg6 harg6 hc0 hc1 x0 x1 x2).2.1, y ∈ pc.1.set :=
  View.cover_of_tiledL (runZero0 c i arg2 harg2 arg3 harg3 arg4 harg4 arg5 harg5 arg6 harg6 hc0 hc1 x0 x1 x2).2.1 S512x128.size (by sl_kernel_rfl) y

/-- What the case `k = 0` leaves in the accumulator: its stores read back. -/
def acc0_Z (c : Dev nD) (i : grid0.Coords) (arg2 : Memref sig .tc .vmem S512x1024 .bf16) (harg2 : arg2.IsWhole) (arg3 : Memref sig .tc .vmem S10240x128 .bf16) (harg3 : arg3.IsWhole) (arg4 : Memref sig .tc .vmem S1x128 .f32) (harg4 : arg4.IsWhole) (arg5 : Memref sig .tc .vmem S512x128 .bf16) (harg5 : arg5.IsWhole) (arg6 : Memref sig .tc .vmem S512x128 .f32) (harg6 : arg6.IsWhole) (hc0 : zeroC0 i) (hc1 : ¬flushC0 i)
    (x0 : Vec F S512x1024 .bf16) (x1 : Vec F S10240x128 .bf16) (x2 : Vec F S1x128 .f32) : Vec F S512x128 .f32 :=
  vS0.read (Elt F) (vS0.writes (Elt F) vS0.junk (runZero0 c i arg2 harg2 arg3 harg3 arg4 harg4 arg5 harg5 arg6 harg6 hc0 hc1 x0 x1 x2).2.1)

def out0_M_3 (c : Dev nD) (i : grid0.Coords) (arg2 : Memref sig .tc .vmem S512x1024 .bf16) (harg2 : arg2.IsWhole) (arg3 : Memref sig .tc .vmem S10240x128 .bf16) (harg3 : arg3.IsWhole) (arg4 : Memref sig .tc .vmem S1x128 .f32) (harg4 : arg4.IsWhole) (arg5 : Memref sig .tc .vmem S512x128 .bf16) (harg5 : arg5.IsWhole) (arg6 : Memref sig .tc .vmem S512x128 .f32) (harg6 : arg6.IsWhole) (hc0 : ¬zeroC0 i) (hc1 : ¬flushC0 i)
    (x0 : Vec F S512x1024 .bf16) (x1 : Vec F S10240x128 .bf16) (x2 : Vec F S1x128 .f32) (xs : Vec F S512x128 .f32) : Vec F S512x128 .bf16 :=
  vO0.read (Elt F) (vO0.writes (Elt F) vO0.junk (runMid0 c i arg2 harg2 arg3 harg3 arg4 harg4 arg5 harg5 arg6 harg6 hc0 hc1 x0 x1 x2 xs).1)

/-- For `0 < k < 9` the accumulator's one store covers it. -/
theorem scover0_M (c : Dev nD) (i : grid0.Coords) (arg2 : Memref sig .tc .vmem S512x1024 .bf16) (harg2 : arg2.IsWhole) (arg3 : Memref sig .tc .vmem S10240x128 .bf16) (harg3 : arg3.IsWhole) (arg4 : Memref sig .tc .vmem S1x128 .f32) (harg4 : arg4.IsWhole) (arg5 : Memref sig .tc .vmem S512x128 .bf16) (harg5 : arg5.IsWhole) (arg6 : Memref sig .tc .vmem S512x128 .f32) (harg6 : arg6.IsWhole) (hc0 : ¬zeroC0 i) (hc1 : ¬flushC0 i)
    (x0 : Vec F S512x1024 .bf16) (x1 : Vec F S10240x128 .bf16) (x2 : Vec F S1x128 .f32) (xs : Vec F S512x128 .f32) (y : S512x128.Idx) :
    ∃ pc ∈ (runMid0 c i arg2 harg2 arg3 harg3 arg4 harg4 arg5 harg5 arg6 harg6 hc0 hc1 x0 x1 x2 xs).2.1, y ∈ pc.1.set :=
  View.cover_of_tiledL (runMid0 c i arg2 harg2 arg3 harg3 arg4 harg4 arg5 harg5 arg6 harg6 hc0 hc1 x0 x1 x2 xs).2.1 S512x128.size (by sl_kernel_rfl) y

/-- What the case `0 < k < 9` leaves in the accumulator, over what the point before left (`xs`). -/
def acc0_M (c : Dev nD) (i : grid0.Coords) (arg2 : Memref sig .tc .vmem S512x1024 .bf16) (harg2 : arg2.IsWhole) (arg3 : Memref sig .tc .vmem S10240x128 .bf16) (harg3 : arg3.IsWhole) (arg4 : Memref sig .tc .vmem S1x128 .f32) (harg4 : arg4.IsWhole) (arg5 : Memref sig .tc .vmem S512x128 .bf16) (harg5 : arg5.IsWhole) (arg6 : Memref sig .tc .vmem S512x128 .f32) (harg6 : arg6.IsWhole) (hc0 : ¬zeroC0 i) (hc1 : ¬flushC0 i)
    (x0 : Vec F S512x1024 .bf16) (x1 : Vec F S10240x128 .bf16) (x2 : Vec F S1x128 .f32) (xs : Vec F S512x128 .f32) : Vec F S512x128 .f32 :=
  vS0.read (Elt F) (vS0.writes (Elt F) vS0.junk (runMid0 c i arg2 harg2 arg3 harg3 arg4 harg4 arg5 harg5 arg6 harg6 hc0 hc1 x0 x1 x2 xs).2.1)

/-- At `k = 9` the one store into the result buffer covers it. -/
theorem cover0_L_3 (c : Dev nD) (i : grid0.Coords) (arg2 : Memref sig .tc .vmem S512x1024 .bf16) (harg2 : arg2.IsWhole) (arg3 : Memref sig .tc .vmem S10240x128 .bf16) (harg3 : arg3.IsWhole) (arg4 : Memref sig .tc .vmem S1x128 .f32) (harg4 : arg4.IsWhole) (arg5 : Memref sig .tc .vmem S512x128 .bf16) (harg5 : arg5.IsWhole) (arg6 : Memref sig .tc .vmem S512x128 .f32) (harg6 : arg6.IsWhole) (hc0 : ¬zeroC0 i) (hc1 : flushC0 i)
    (x0 : Vec F S512x1024 .bf16) (x1 : Vec F S10240x128 .bf16) (x2 : Vec F S1x128 .f32) (xs : Vec F S512x128 .f32) (y : S512x128.Idx) :
    ∃ pc ∈ (runLast0 c i arg2 harg2 arg3 harg3 arg4 harg4 arg5 harg5 arg6 harg6 hc0 hc1 x0 x1 x2 xs).1, y ∈ pc.1.set :=
  View.cover_of_tiledL (runLast0 c i arg2 harg2 arg3 harg3 arg4 harg4 arg5 harg5 arg6 harg6 hc0 hc1 x0 x1 x2 xs).1 S512x128.size (by sl_kernel_rfl) y

/-- THE RESULT BLOCK: what the case `k = 9` leaves in the result buffer — the accumulated sum plus the bias row, in the
    result's format — as a term of the three input blocks and of the accumulator the point before left. -/
def out0_L_3 (c : Dev nD) (i : grid0.Coords) (arg2 : Memref sig .tc .vmem S512x1024 .bf16) (harg2 : arg2.IsWhole) (arg3 : Memref sig .tc .vmem S10240x128 .bf16) (harg3 : arg3.IsWhole) (arg4 : Memref sig .tc .vmem S1x128 .f32) (harg4 : arg4.IsWhole) (arg5 : Memref sig .tc .vmem S512x128 .bf16) (harg5 : arg5.IsWhole) (arg6 : Memref sig .tc .vmem S512x128 .f32) (harg6 : arg6.IsWhole) (hc0 : ¬zeroC0 i) (hc1 : flushC0 i)
    (x0 : Vec F S512x1024 .bf16) (x1 : Vec F S10240x128 .bf16) (x2 : Vec F S1x128 .f32) (xs : Vec F S512x128 .f32) : Vec F S512x128 .bf16 :=
  vO0.read (Elt F) (vO0.writes (Elt F) vO0.junk (runLast0 c i arg2 harg2 arg3 harg3 arg4 harg4 arg5 harg5 arg6 harg6 hc0 hc1 x0 x1 x2 xs).1)

/-- At `k = 9` the accumulator's one store covers it. -/
theorem scover0_L (c : Dev nD) (i : grid0.Coords) (arg2 : Memref sig .tc .vmem S512x1024 .bf16) (harg2 : arg2.IsWhole) (arg3 : Memref sig .tc .vmem S10240x128 .bf16) (harg3 : arg3.IsWhole) (arg4 : Memref sig .tc .vmem S1x128 .f32) (harg4 : arg4.IsWhole) (arg5 : Memref sig .tc .vmem S512x128 .bf16) (harg5 : arg5.IsWhole) (arg6 : Memref sig .tc .vmem S512x128 .f32) (harg6 : arg6.IsWhole) (hc0 : ¬zeroC0 i) (hc1 : flushC0 i)
    (x0 : Vec F S512x1024 .bf16) (x1 : Vec F S10240x128 .bf16) (x2 : Vec F S1x128 .f32) (xs : Vec F S512x128 .f32) (y : S512x128.Idx) :
    ∃ pc ∈ (runLast0 c i arg2 harg2 arg3 harg3 arg4 harg4 arg5 harg5 arg6 harg6 hc0 hc1 x0 x1 x2 xs).2.1, y ∈ pc.1.set :=
  View.cover_of_tiledL (runLast0 c i arg2 harg2 arg3 harg3 arg4 harg4 arg5 harg5 arg6 harg6 hc0 hc1 x0 x1 x2 xs).2.1 S512x128.size (by sl_kernel_rfl) y

/-- What the case `k = 9` leaves in the accumulator. -/
def acc0_L (c : Dev nD) (i : grid0.Coords) (arg2 : Memref sig .tc .vmem S512x1024 .bf16) (harg2 : arg2.IsWhole) (arg3 : Memref sig .tc .vmem S10240x128 .bf16) (harg3 : arg3.IsWhole) (arg4 : Memref sig .tc .vmem S1x128 .f32) (harg4 : arg4.IsWhole) (arg5 : Memref sig .tc .vmem S512x128 .bf16) (harg5 : arg5.IsWhole) (arg6 : Memref sig .tc .vmem S512x128 .f32) (harg6 : arg6.IsWhole) (hc0 : ¬zeroC0 i) (hc1 : flushC0 i)
    (x0 : Vec F S512x1024 .bf16) (x1 : Vec F S10240x128 .bf16) (x2 : Vec F S1x128 .f32) (xs : Vec F S512x128 .f32) : Vec F S512x128 .f32 :=
  vS0.read (Elt F) (vS0.writes (Elt F) vS0.junk (runLast0 c i arg2 harg2 arg3 harg3 arg4 harg4 arg5 harg5 arg6 harg6 hc0 hc1 x0 x1 x2 xs).2.1)

section Entry
variable (V : (c : Dev nD) → (b : Ref sig .tc) → Buf (Elt F) ((c : Thread nD τ).loc b))

/-! ## Point by point -/

/-- THE ACCUMULATION. After the body at position `n`: (the result buffer, the accumulator). The case is the one the
    closed forms select at `n`, run on the point's memrefs and input blocks; for `k > 0` the accumulator starts from what
    position `n - 1` left in it. The two conditions cannot hold together. -/
def outsAt0 (c : Dev nD) : (n : ℕ) → n < cfg0.N → Vec F S512x128 .bf16 × Vec F S512x128 .f32
  | 0, hn => (out0_Z_3 c (grid0.coords ⟨0, hn⟩) (mA0 ⟨0, hn⟩) (hA0 ⟨0, hn⟩) (mB0 ⟨0, hn⟩) (hB0 ⟨0, hn⟩) (mC0 ⟨0, hn⟩) (hC0 ⟨0, hn⟩) (mO0 ⟨0, hn⟩) (hO0 ⟨0, hn⟩) mS0 (Memref.isWhole_whole _) ((zeroC0_iff ⟨0, hn⟩).mpr (Nat.zero_mod _)) (fun h => (fun h => by (try dsimp only at h); omega) ((flushC0_iff ⟨0, hn⟩).mp h)) (iblk0 V c 0 ⟨0, hn⟩) (iblk0 V c 1 ⟨0, hn⟩) (iblk0 V c 2 ⟨0, hn⟩), acc0_Z c (grid0.coords ⟨0, hn⟩) (mA0 ⟨0, hn⟩) (hA0 ⟨0, hn⟩) (mB0 ⟨0, hn⟩) (hB0 ⟨0, hn⟩) (mC0 ⟨0, hn⟩) (hC0 ⟨0, hn⟩) (mO0 ⟨0, hn⟩) (hO0 ⟨0, hn⟩) mS0 (Memref.isWhole_whole _) ((zeroC0_iff ⟨0, hn⟩).mpr (Nat.zero_mod _)) (fun h => (fun h => by (try dsimp only at h); omega) ((flushC0_iff ⟨0, hn⟩).mp h)) (iblk0 V c 0 ⟨0, hn⟩) (iblk0 V c 1 ⟨0, hn⟩) (iblk0 V c 2 ⟨0, hn⟩))
  | n + 1, hn =>
    if h0 : (n + 1) % 10 = 0 then
      if h1 : (n + 1) % 10 = 9 then
        False.elim (by omega)
      else
        (out0_Z_3 c (grid0.coords ⟨n + 1, hn⟩) (mA0 ⟨n + 1, hn⟩) (hA0 ⟨n + 1, hn⟩) (mB0 ⟨n + 1, hn⟩) (hB0 ⟨n + 1, hn⟩) (mC0 ⟨n + 1, hn⟩) (hC0 ⟨n + 1, hn⟩) (mO0 ⟨n + 1, hn⟩) (hO0 ⟨n + 1, hn⟩) mS0 (Memref.isWhole_whole _) ((zeroC0_iff ⟨n + 1, hn⟩).mpr h0) (fun h => h1 ((flushC0_iff ⟨n + 1, hn⟩).mp h)) (iblk0 V c 0 ⟨n + 1, hn⟩) (iblk0 V c 1 ⟨n + 1, hn⟩) (iblk0 V c 2 ⟨n + 1, hn⟩), acc0_Z c (grid0.coords ⟨n + 1, hn⟩) (mA0 ⟨n + 1, hn⟩) (hA0 ⟨n + 1, hn⟩) (mB0 ⟨n + 1, hn⟩) (hB0 ⟨n + 1, hn⟩) (mC0 ⟨n + 1, hn⟩) (hC0 ⟨n + 1, hn⟩) (mO0 ⟨n + 1, hn⟩) (hO0 ⟨n + 1, hn⟩) mS0 (Memref.isWhole_whole _) ((zeroC0_iff ⟨n + 1, hn⟩).mpr h0) (fun h => h1 ((flushC0_iff ⟨n + 1, hn⟩).mp h)) (iblk0 V c 0 ⟨n + 1, hn⟩) (iblk0 V c 1 ⟨n + 1, hn⟩) (iblk0 V c 2 ⟨n + 1, hn⟩))
    else
      if h1 : (n + 1) % 10 = 9 then
        (out0_L_3 c (grid0.coords ⟨n + 1, hn⟩) (mA0 ⟨n + 1, hn⟩) (hA0 ⟨n + 1, hn⟩) (mB0 ⟨n + 1, hn⟩) (hB0 ⟨n + 1, hn⟩) (mC0 ⟨n + 1, hn⟩) (hC0 ⟨n + 1, hn⟩) (mO0 ⟨n + 1, hn⟩) (hO0 ⟨n + 1, hn⟩) mS0 (Memref.isWhole_whole _) (fun h => h0 ((zeroC0_iff ⟨n + 1, hn⟩).mp h)) ((flushC0_iff ⟨n + 1, hn⟩).mpr h1) (iblk0 V c 0 ⟨n + 1, hn⟩) (iblk0 V c 1 ⟨n + 1, hn⟩) (iblk0 V c 2 ⟨n + 1, hn⟩) (outsAt0 c n (Nat.lt_of_succ_lt hn)).2, acc0_L c (grid0.coords ⟨n + 1, hn⟩) (mA0 ⟨n + 1, hn⟩) (hA0 ⟨n + 1, hn⟩) (mB0 ⟨n + 1, hn⟩) (hB0 ⟨n + 1, hn⟩) (mC0 ⟨n + 1, hn⟩) (hC0 ⟨n + 1, hn⟩) (mO0 ⟨n + 1, hn⟩) (hO0 ⟨n + 1, hn⟩) mS0 (Memref.isWhole_whole _) (fun h => h0 ((zeroC0_iff ⟨n + 1, hn⟩).mp h)) ((flushC0_iff ⟨n + 1, hn⟩).mpr h1) (iblk0 V c 0 ⟨n + 1, hn⟩) (iblk0 V c 1 ⟨n + 1, hn⟩) (iblk0 V c 2 ⟨n + 1, hn⟩) (outsAt0 c n (Nat.lt_of_succ_lt hn)).2)
      else
        (out0_M_3 c (grid0.coords ⟨n + 1, hn⟩) (mA0 ⟨n + 1, hn⟩) (hA0 ⟨n + 1, hn⟩) (mB0 ⟨n + 1, hn⟩) (hB0 ⟨n + 1, hn⟩) (mC0 ⟨n + 1, hn⟩) (hC0 ⟨n + 1, hn⟩) (mO0 ⟨n + 1, hn⟩) (hO0 ⟨n + 1, hn⟩) mS0 (Memref.isWhole_whole _) (fun h => h0 ((zeroC0_iff ⟨n + 1, hn⟩).mp h)) (fun h => h1 ((flushC0_iff ⟨n + 1, hn⟩).mp h)) (iblk0 V c 0 ⟨n + 1, hn⟩) (iblk0 V c 1 ⟨n + 1, hn⟩) (iblk0 V c 2 ⟨n + 1, hn⟩) (outsAt0 c n (Nat.lt_of_succ_lt hn)).2, acc0_M c (grid0.coords ⟨n + 1, hn⟩) (mA0 ⟨n + 1, hn⟩) (hA0 ⟨n + 1, hn⟩) (mB0 ⟨n + 1, hn⟩) (hB0 ⟨n + 1, hn⟩) (mC0 ⟨n + 1, hn⟩) (hC0 ⟨n + 1, hn⟩) (mO0 ⟨n + 1, hn⟩) (hO0 ⟨n + 1, hn⟩) mS0 (Memref.isWhole_whole _) (fun h => h0 ((zeroC0_iff ⟨n + 1, hn⟩).mp h)) (fun h => h1 ((flushC0_iff ⟨n + 1, hn⟩).mp h)) (iblk0 V c 0 ⟨n + 1, hn⟩) (iblk0 V c 1 ⟨n + 1, hn⟩) (iblk0 V c 2 ⟨n + 1, hn⟩) (outsAt0 c n (Nat.lt_of_succ_lt hn)).2)

/-- `outsAt0` at a point with `k = 0`. -/
theorem outsAt0_Z (c : Dev nD) (t : Fin cfg0.N) (h0 : t.val % 10 = 0) (h1 : ¬t.val % 10 = 9) :
    outsAt0 V c t.val t.isLt = (out0_Z_3 c (grid0.coords t) (mA0 t) (hA0 t) (mB0 t) (hB0 t) (mC0 t) (hC0 t) (mO0 t) (hO0 t) mS0 (Memref.isWhole_whole _) ((zeroC0_iff t).mpr h0) (fun h => h1 ((flushC0_iff t).mp h)) (iblk0 V c 0 t) (iblk0 V c 1 t) (iblk0 V c 2 t), acc0_Z c (grid0.coords t) (mA0 t) (hA0 t) (mB0 t) (hB0 t) (mC0 t) (hC0 t) (mO0 t) (hO0 t) mS0 (Memref.isWhole_whole _) ((zeroC0_iff t).mpr h0) (fun h => h1 ((flushC0_iff t).mp h)) (iblk0 V c 0 t) (iblk0 V c 1 t) (iblk0 V c 2 t)) := by
  obtain ⟨n, hn⟩ := t
  cases n with
  | zero => exact rfl
  | succ n => exact (dif_pos h0).trans ((dif_neg h1).trans rfl)

/-- `outsAt0` at a point with `0 < k < 9`: over what the point before left. -/
theorem outsAt0_M (c : Dev nD) (t : Fin cfg0.N) (h0 : ¬t.val % 10 = 0) (h1 : ¬t.val % 10 = 9) :
    outsAt0 V c t.val t.isLt = (out0_M_3 c (grid0.coords t) (mA0 t) (hA0 t) (mB0 t) (hB0 t) (mC0 t) (hC0 t) (mO0 t) (hO0 t) mS0 (Memref.isWhole_whole _) (fun h => h0 ((zeroC0_iff t).mp h)) (fun h => h1 ((flushC0_iff t).mp h)) (iblk0 V c 0 t) (iblk0 V c 1 t) (iblk0 V c 2 t) (outsAt0 V c (t.val - 1) (Nat.lt_of_le_of_lt (Nat.sub_le _ _) t.isLt)).2, acc0_M c (grid0.coords t) (mA0 t) (hA0 t) (mB0 t) (hB0 t) (mC0 t) (hC0 t) (mO0 t) (hO0 t) mS0 (Memref.isWhole_whole _) (fun h => h0 ((zeroC0_iff t).mp h)) (fun h => h1 ((flushC0_iff t).mp h)) (iblk0 V c 0 t) (iblk0 V c 1 t) (iblk0 V c 2 t) (outsAt0 V c (t.val - 1) (Nat.lt_of_le_of_lt (Nat.sub_le _ _) t.isLt)).2) := by
  obtain ⟨n, hn⟩ := t
  cases n with
  | zero => exact (by exfalso; (try dsimp only at h0); exact absurd (Nat.zero_mod _) h0)
  | succ n => exact (dif_neg h0).trans ((dif_neg h1).trans rfl)

/-- `outsAt0` at a point with `k = 9`: over what the point before left. -/
theorem outsAt0_L (c : Dev nD) (t : Fin cfg0.N) (h0 : ¬t.val % 10 = 0) (h1 : t.val % 10 = 9) :
    outsAt0 V c t.val t.isLt = (out0_L_3 c (grid0.coords t) (mA0 t) (hA0 t) (mB0 t) (hB0 t) (mC0 t) (hC0 t) (mO0 t) (hO0 t) mS0 (Memref.isWhole_whole _) (fun h => h0 ((zeroC0_iff t).mp h)) ((flushC0_iff t).mpr h1) (iblk0 V c 0 t) (iblk0 V c 1 t) (iblk0 V c 2 t) (outsAt0 V c (t.val - 1) (Nat.lt_of_le_of_lt (Nat.sub_le _ _) t.isLt)).2, acc0_L c (grid0.coords t) (mA0 t) (hA0 t) (mB0 t) (hB0 t) (mC0 t) (hC0 t) (mO0 t) (hO0 t) mS0 (Memref.isWhole_whole _) (fun h => h0 ((zeroC0_iff t).mp h)) ((flushC0_iff t).mpr h1) (iblk0 V c 0 t) (iblk0 V c 1 t) (iblk0 V c 2 t) (outsAt0 V c (t.val - 1) (Nat.lt_of_le_of_lt (Nat.sub_le _ _) t.isLt)).2) := by
  obtain ⟨n, hn⟩ := t
  cases n with
  | zero => exact (by exfalso; (try dsimp only at h0); exact absurd (Nat.zero_mod _) h0)
  | succ n => exact (dif_neg h0).trans ((dif_pos h1).trans rfl)

/-! ## The invariant -/

/-- The region invariant before position `n`: before the first point the class's (the accumulator at anything);
    afterwards the accumulator at what the point before left in it, the other scoped buffers and the generator
    register as ever. -/
def PhiS0 (c : Dev nD) : (n : ℕ) → n ≤ cfg0.N → sProp 𝕄
  | 0, _ => Pipeline.ΦA spec0 c
  | n + 1, hn => iprop(iprop(owns (c : Thread nD τ) mS0 fullShare ((outsAt0 V c n hn).2) ∗ rest0 (F := F) c) ∗ (∃ r, prngReg c r))

theorem PhiS0_zero (c : Dev nD) (n : ℕ) (h : n ≤ cfg0.N) (hz : n = 0) : PhiS0 V c n h = Pipeline.ΦA spec0 c := by
  subst hz; rfl

theorem PhiS0_succ (c : Dev nD) (n : ℕ) (hn : n < cfg0.N) :
    PhiS0 V c (n + 1) hn = iprop(iprop(owns (c : Thread nD τ) mS0 fullShare ((outsAt0 V c n hn).2) ∗ rest0 (F := F) c) ∗ (∃ r, prngReg c r)) := rfl

theorem PhiS0_pos (c : Dev nD) (n : ℕ) (h : n ≤ cfg0.N) (hz : n ≠ 0) :
    PhiS0 V c n h = iprop(iprop(owns (c : Thread nD τ) mS0 fullShare ((outsAt0 V c (n - 1) (by omega)).2) ∗ rest0 (F := F) c) ∗ (∃ r, prngReg c r)) := by
  cases n with
  | zero => exact absurd rfl hz
  | succ n => rfl

/-! ## The proof data -/

/-- The proof data of region 0's pipeline on core `c`: the arrays as the region finds them; after the body at point
    `t` each input's buffer at its block and the result's at `outsAt0`'s first component; the invariant `PhiS0`;
    nothing owed; full shares. -/
def dat0 (c : Dev nD) : Dat τ (Elt F) Unit ℕ (UR sig nD τ) ℕ cfg0 c where
  A w := V c (Pipeline.arrRef spec0 w)
  after w t := match w with
    | ⟨0, _⟩ => iblk0 V c 0 t
    | ⟨1, _⟩ => iblk0 V c 1 t
    | ⟨2, _⟩ => iblk0 V c 2 t
    | ⟨3, _⟩ => (outsAt0 V c t.val t.isLt).1
  Φ t := PhiS0 V c t.val (Nat.le_of_lt_succ t.isLt)
  q _ := fullShare
  owed _ := 0

/-- The proof data's arrays are the region-entry contents (the definition projected, `V` never unfolded). -/
theorem A_eq0 (c : Dev nD) (w : Fin cfg0.W) : (dat0 V c).A w = V c (Pipeline.arrRef spec0 w) := by
  dsimp only [dat0]

/-- The invariant at a point's start, restated at `t.val`. -/
theorem PhiS0_castSucc (c : Dev nD) (t : Fin cfg0.N) :
    (dat0 V c).Φ t.castSucc = PhiS0 V c t.val (Nat.le_of_lt t.isLt) := by
  dsimp only [dat0]; simp only [Fin.coe_castSucc]

/-- What the body leaves, window by window. -/
theorem after0_0 (c : Dev nD) (t : Fin cfg0.N) : (dat0 V c).after 0 t = iblk0 V c 0 t := by dsimp only [dat0]
theorem after0_1 (c : Dev nD) (t : Fin cfg0.N) : (dat0 V c).after 1 t = iblk0 V c 1 t := by dsimp only [dat0]
theorem after0_2 (c : Dev nD) (t : Fin cfg0.N) : (dat0 V c).after 2 t = iblk0 V c 2 t := by dsimp only [dat0]
theorem after0_3 (c : Dev nD) (t : Fin cfg0.N) : (dat0 V c).after 3 t = (outsAt0 V c t.val t.isLt).1 := by dsimp only [dat0]

/-- Each input's current staging buffer holds its block at every point. -/
theorem before0_0 (c : Dev nD) (t : Fin cfg0.N) (d) : (dat0 V c).before 0 t d = iblk0 V c 0 t :=
  before0_0_of V (dat0 V c) (A_eq0 V c 0) (after0_0 V c) t d
theorem before0_1 (c : Dev nD) (t : Fin cfg0.N) (d) : (dat0 V c).before 1 t d = iblk0 V c 1 t :=
  before0_1_of V (dat0 V c) (A_eq0 V c 1) (after0_1 V c) t d
theorem before0_2 (c : Dev nD) (t : Fin cfg0.N) (d) : (dat0 V c).before 2 t d = iblk0 V c 2 t :=
  before0_2_of V (dat0 V c) (A_eq0 V c 2) (after0_2 V c) t d

/-! ## The body obligation, at a generic point -/

/-- What the body is called with at point `t`, the windows one by one, -/
def bodyPre0 (c : Dev nD) (t : Fin cfg0.N) : sProp 𝕄 :=
  iprop((dat0 V c).Φ t.castSucc ∗ (dat0 V c).owesAt () t.castSucc
    ∗ (∃ d, owns (c : Thread nD τ) (mA0 t) fullShare ((dat0 V c).before 0 t d))
    ∗ (∃ d, owns (c : Thread nD τ) (mB0 t) fullShare ((dat0 V c).before 1 t d))
    ∗ (∃ d, owns (c : Thread nD τ) (mC0 t) fullShare ((dat0 V c).before 2 t d))
    ∗ (∃ d, owns (c : Thread nD τ) (mO0 t) fullShare ((dat0 V c).before 3 t d)))

/-- and what it returns. -/
def bodyPost0 (c : Dev nD) (t : Fin cfg0.N) : sProp 𝕄 :=
  iprop((dat0 V c).Φ t.succ ∗ (dat0 V c).owesAt () t.succ
    ∗ (dat0 V c).leavesExact 0 t
    ∗ (dat0 V c).leavesExact 1 t
    ∗ (dat0 V c).leavesExact 2 t
    ∗ (dat0 V c).leavesExact 3 t)

set_option maxHeartbeats 4800000 in
/-- The body at any point. The inputs' memrefs hold their blocks; the closed forms say which control case the point is
    in, and that case's run applies. The invariant hands the body the accumulator at what the point before left (at
    anything before the first point) and takes it back at this point's contents, its stores covering it; where the
    result window is idle its buffer goes back as found, and at `k = 9` its one store covers it. The other scoped
    buffers, the generator register and what the core owes pass through. -/
theorem sound_body0 (c : Dev nD) (t : Fin cfg0.N) :
    bodyPre0 V c t ⊢ wp frame (wpE (defs₀ (F := F)) Variants.none c none) Set.univ (bodyAt0 t) (fun _ => bodyPost0 V c t) := by
  unfold bodyPre0 bodyPost0 bodyAt0
  simp only [before0_0, before0_1, before0_2]
  rw [show (dat0 V c).owesAt () t.succ = (dat0 V c).owesAt () t.castSucc from rfl]
  rw [show (dat0 V c).Φ t.succ = PhiS0 V c (t.val + 1) t.isLt from rfl, PhiS0_succ]
  rw [show (dat0 V c).leavesExact 0 t = owns (c : Thread nD τ) (mA0 t) fullShare ((dat0 V c).after 0 t) from by
    unfold Dat.leavesExact; rw [live0_0 t], after0_0]
  rw [show (dat0 V c).leavesExact 1 t = owns (c : Thread nD τ) (mB0 t) fullShare ((dat0 V c).after 1 t) from by
    unfold Dat.leavesExact; rw [live0_1 t], after0_1]
  rw [show (dat0 V c).leavesExact 2 t = owns (c : Thread nD τ) (mC0 t) fullShare ((dat0 V c).after 2 t) from by
    unfold Dat.leavesExact; rw [live0_2 t], after0_2]
  have hN : t.val < 200 := lt_of_lt_of_eq t.isLt (show cfg0.N = 200 from N_0)
  by_cases h0 : t.val % 10 = 0
  · by_cases h1 : t.val % 10 = 9
    · exfalso; omega
    · rw [Dat.leavesExact_idle (dat0 V c) 3 t (idle0_3 t (fun h => h1 ((flushC0_iff t).mp h))) (noFlush0_3 t (fun h => h1 ((flushC0_iff t).mp h)))]
      rw [outsAt0_Z V c t h0 h1]
      unfold acc0_Z; (try dsimp only)
      by_cases hz : t.val = 0
      · rw [PhiS0_castSucc V c t, PhiS0_zero V c _ _ hz, PhiA0_eq]
        iintro ⟨⟨⟨HS, Hr⟩, Hg⟩, Ho, ⟨%d0, H0⟩, ⟨%d1, H1⟩, ⟨%d2, H2⟩, ⟨%d3, H3⟩⟩
        iapply ((runZero0 c (grid0.coords t) _ _ _ _ _ _ _ _ _ _ ((zeroC0_iff t).mpr h0) (fun h => h1 ((flushC0_iff t).mp h)) (iblk0 V c 0 t) (iblk0 V c 1 t) (iblk0 V c 2 t)).2.2 _ Set.univ _)
        isplitl [H0]; · iexact H0
        isplitl [H1]; · iexact H1
        isplitl [H2]; · iexact H2
        isplitl [H3]; · iexact H3
        isplitl [HS]; · iexact HS
        iintro ⟨H0, H1, H2, H3, ⟨%es, HS⟩⟩
        isplitl [HS Hr Hg]
        · isplitl [HS Hr]
          · isplitl [HS]
            · unfold owns; iexists _; isplitr
              swap; · iexact HS
              ipureintro; exact View.read_writes_of_cover _ _ _ _ _ (scover0_Z c _ _ _ _ _ _ _ _ _ _ _ _ _ _ _ _)
            iexact Hr
          iexact Hg
        isplitl [Ho]; · iexact Ho
        isplitl [H0]; · iexact H0
        isplitl [H1]; · iexact H1
        isplitl [H2]; · iexact H2
        iexists _; iexact H3
      · rw [PhiS0_castSucc V c t, PhiS0_pos V c _ _ hz]
        iintro ⟨⟨⟨HS, Hr⟩, Hg⟩, Ho, ⟨%d0, H0⟩, ⟨%d1, H1⟩, ⟨%d2, H2⟩, ⟨%d3, H3⟩⟩
        iapply ((runZero0 c (grid0.coords t) _ _ _ _ _ _ _ _ _ _ ((zeroC0_iff t).mpr h0) (fun h => h1 ((flushC0_iff t).mp h)) (iblk0 V c 0 t) (iblk0 V c 1 t) (iblk0 V c 2 t)).2.2 _ Set.univ _)
        isplitl [H0]; · iexact H0
        isplitl [H1]; · iexact H1
        isplitl [H2]; · iexact H2
        isplitl [H3]; · iexact H3
        isplitl [HS]; · iexists _; iexact HS
        iintro ⟨H0, H1, H2, H3, ⟨%es, HS⟩⟩
        isplitl [HS Hr Hg]
        · isplitl [HS Hr]
          · isplitl [HS]
            · unfold owns; iexists _; isplitr
              swap; · iexact HS
              ipureintro; exact View.read_writes_of_cover _ _ _ _ _ (scover0_Z c _ _ _ _ _ _ _ _ _ _ _ _ _ _ _ _)
            iexact Hr
          iexact Hg
        isplitl [Ho]; · iexact Ho
        isplitl [H0]; · iexact H0
        isplitl [H1]; · iexact H1
        isplitl [H2]; · iexact H2
        iexists _; iexact H3
  · have hz : t.val ≠ 0 := fun e => h0 (by rw [e])
    by_cases h1 : t.val % 10 = 9
    · rw [show (dat0 V c).leavesExact 3 t = owns (c : Thread nD τ) (mO0 t) fullShare ((dat0 V c).after 3 t) from by
        unfold Dat.leavesExact; rw [live0_3 t ((flushC0_iff t).mpr h1)], after0_3]
      rw [outsAt0_L V c t h0 h1]
      unfold out0_L_3 acc0_L; (try dsimp only)
      rw [PhiS0_castSucc V c t, PhiS0_pos V c _ _ hz]
      iintro ⟨⟨⟨HS, Hr⟩, Hg⟩, Ho, ⟨%d0, H0⟩, ⟨%d1, H1⟩, ⟨%d2, H2⟩, ⟨%d3, H3⟩⟩
      iapply ((runLast0 c (grid0.coords t) _ _ _ _ _ _ _ _ _ _ (fun h => h0 ((zeroC0_iff t).mp h)) ((flushC0_iff t).mpr h1) (iblk0 V c 0 t) (iblk0 V c 1 t) (iblk0 V c 2 t) _).2.2 Set.univ _)
      isplitl [H0]; · iexact H0
      isplitl [H1]; · iexact H1
      isplitl [H2]; · iexact H2
      isplitl [H3]; · iexists _; iexact H3
      isplitl [HS]; · iexact HS
      iintro ⟨H0, H1, H2, ⟨%e3, H3⟩, ⟨%es, HS⟩⟩
      isplitl [HS Hr Hg]
      · isplitl [HS Hr]
        · isplitl [HS]
          · unfold owns; iexists _; isplitr
            swap; · iexact HS
            ipureintro; exact View.read_writes_of_cover _ _ _ _ _ (scover0_L c _ _ _ _ _ _ _ _ _ _ _ _ _ _ _ _ _)
          iexact Hr
        iexact Hg
      isplitl [Ho]; · iexact Ho
      isplitl [H0]; · iexact H0
      isplitl [H1]; · iexact H1
      isplitl [H2]; · iexact H2
      unfold owns; iexists _; isplitr
      swap; · iexact H3
      ipureintro; exact View.read_writes_of_cover _ _ _ _ _ (cover0_L_3 c _ _ _ _ _ _ _ _ _ _ _ _ _ _ _ _ _)
    · rw [Dat.leavesExact_idle (dat0 V c) 3 t (idle0_3 t (fun h => h1 ((flushC0_iff t).mp h))) (noFlush0_3 t (fun h => h1 ((flushC0_iff t).mp h)))]
      rw [outsAt0_M V c t h0 h1]
      unfold acc0_M; (try dsimp only)
      rw [PhiS0_castSucc V c t, PhiS0_pos V c _ _ hz]
      iintro ⟨⟨⟨HS, Hr⟩, Hg⟩, Ho, ⟨%d0, H0⟩, ⟨%d1, H1⟩, ⟨%d2, H2⟩, ⟨%d3, H3⟩⟩
      iapply ((runMid0 c (grid0.coords t) _ _ _ _ _ _ _ _ _ _ (fun h => h0 ((zeroC0_iff t).mp h)) (fun h => h1 ((flushC0_iff t).mp h)) (iblk0 V c 0 t) (iblk0 V c 1 t) (iblk0 V c 2 t) _).2.2 _ Set.univ _)
      isplitl [H0]; · iexact H0
      isplitl [H1]; · iexact H1
      isplitl [H2]; · iexact H2
      isplitl [H3]; · iexact H3
      isplitl [HS]; · iexact HS
      iintro ⟨H0, H1, H2, H3, ⟨%es, HS⟩⟩
      isplitl [HS Hr Hg]
      · isplitl [HS Hr]
        · isplitl [HS]
          · unfold owns; iexists _; isplitr
            swap; · iexact HS
            ipureintro; exact View.read_writes_of_cover _ _ _ _ _ (scover0_M c _ _ _ _ _ _ _ _ _ _ _ _ _ _ _ _ _)
          iexact Hr
        iexact Hg
      isplitl [Ho]; · iexact Ho
      isplitl [H0]; · iexact H0
      isplitl [H1]; · iexact H1
      isplitl [H2]; · iexact H2
      iexists _; iexact H3

/-- The library's body obligation, at every point. -/
theorem body_obligation0 (c : Dev nD) : BodyObligation (dat0 (F := F) V c) (defs₀ (F := F)) Variants.none () Set.univ := fun t => by
  rw [bigSep_W0, bigSep_W0]
  exact sound_body0 V c t

/-- What the launch hands the region is the invariant before the first point. -/
theorem hin0 (c : Dev nD) : Pipeline.ΦA spec0 c ⊢ (dat0 V c).Φ 0 := by
  rw [show (dat0 V c).Φ 0 = PhiS0 V c 0 (Nat.zero_le _) from rfl, PhiS0_zero V c 0 _ rfl]
  try exact Idealize.SL.BI.Entails.refl _

/-- After any point the invariant gives the class's back: the accumulator's named contents are forgotten. -/
theorem Phi_out0 (c : Dev nD) (t : Fin (cfg0.N + 1)) (ht : t.val ≠ 0) : (dat0 V c).Φ t ⊢ Pipeline.ΦA spec0 c := by
  rw [show (dat0 V c).Φ t = PhiS0 V c t.val (Nat.le_of_lt_succ t.isLt) from rfl, PhiS0_pos V c _ _ ht, PhiA0_eq]
  iintro ⟨⟨HS, Hr⟩, Hg⟩
  isplitl [HS Hr]
  · isplitl [HS]
    · iexists _; iexact HS
    iexact Hr
  iexact Hg

/-- The same after the last point. -/
theorem hout0 (c : Dev nD) : (dat0 V c).Φ (Fin.last cfg0.N) ⊢ Pipeline.ΦA spec0 c :=
  Phi_out0 V c _ (by rw [Fin.val_last]; have : cfg0.N = 200 := N_0; omega)

end Entry

end Cert.KernelIdeal.Rg

end
-- ==== Proof.KI.Reg1.lean ====
/- Stage-1 region 1 (custom_call 1): the per-region half of the frame argument, at the buffer
   contents `V` found when the region is entered. One row block of the left operand times the whole
   right operand, plus the bias row, written to the result's row block. -/
import proofs.«181230_j19834158973077_2_alg».proof.Proof.Gen.KernelIdeal.Launch
import proofs.«181230_j19834158973077_2_alg».proof.Proof.Gen.KernelIdeal.Skeleton
import proofs.«181230_j19834158973077_2_alg».proof.Proof.Gen.KernelIdeal.Points
import Idealize.ShloMosaic.Lib.Pipeline.FrameBody
import Idealize.ShloMosaic.Lib.Ring
import Idealize.ShloMosaic.Lib.Tactic

-- membership in a rectangle of full extents recurses once per coordinate of the long axes
set_option maxRecDepth 16384

noncomputable section

namespace Cert.KernelIdeal.Rg

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

-- the TensorCore's buffer contents when the region is entered
variable (V : (c : Dev nD) → (b : Ref sig .tc) → Buf (Elt F) ((c : Thread nD τ).loc b))

/-! ## The windows' blocks -/

/-- Window `w`'s block at point `t`, read off its array as the region finds it. -/
def iblk1 (c : Dev nD) (w : Fin cfg1.W) (t : Fin cfg1.N) : ((cfg1.win w).xblock (cfg1.grid.coords t)).Idx → Elt F (cfg1.win w).elt :=
  ((cfg1.win w).blk t).view.read (Elt F) (V c (Pipeline.arrRef spec1 w))

/-- Input window 0's current staging buffer holds its block at every point, fetched there or not: where it is
    not fetched the block index has not moved, and the body leaves the block in place. -/
theorem before1_0_of {c : Dev nD} (dat : Dat τ (Elt F) Unit ℕ (UR sig nD τ) ℕ cfg1 c) (hA : dat.A 0 = V c (Pipeline.arrRef spec1 0))
    (hafter : ∀ t, dat.after 0 t = iblk1 V c 0 t) (t : Fin cfg1.N) (d) : dat.before 0 t d = iblk1 V c 0 t :=
  (dat.before_in_eq_fetched 0 rfl (fun _ => rfl) (fun _ _ _ => rfl) (fun t => by rw [hafter]; unfold Dat.blockOf iblk1; rw [hA]; try rfl) t d).trans
    (by unfold Dat.fetched Dat.blockOf iblk1; rw [hA]; try rfl)

/-- Input window 1's current staging buffer holds its block at every point, fetched there or not: where it is
    not fetched the block index has not moved, and the body leaves the block in place. -/
theorem before1_1_of {c : Dev nD} (dat : Dat τ (Elt F) Unit ℕ (UR sig nD τ) ℕ cfg1 c) (hA : dat.A 1 = V c (Pipeline.arrRef spec1 1))
    (hafter : ∀ t, dat.after 1 t = iblk1 V c 1 t) (t : Fin cfg1.N) (d) : dat.before 1 t d = iblk1 V c 1 t :=
  (dat.before_in_eq_fetched 1 rfl (fun _ => rfl) (fun _ _ _ => rfl) (fun t => by rw [hafter]; unfold Dat.blockOf iblk1; rw [hA]; try rfl) t d).trans
    (by unfold Dat.fetched Dat.blockOf iblk1; rw [hA]; try rfl)

/-- Input window 2's current staging buffer holds its block at every point, fetched there or not: where it is
    not fetched the block index has not moved, and the body leaves the block in place. -/
theorem before1_2_of {c : Dev nD} (dat : Dat τ (Elt F) Unit ℕ (UR sig nD τ) ℕ cfg1 c) (hA : dat.A 2 = V c (Pipeline.arrRef spec1 2))
    (hafter : ∀ t, dat.after 2 t = iblk1 V c 2 t) (t : Fin cfg1.N) (d) : dat.before 2 t d = iblk1 V c 2 t :=
  (dat.before_in_eq_fetched 2 rfl (fun _ => rfl) (fun _ _ _ => rfl) (fun t => by rw [hafter]; unfold Dat.blockOf iblk1; rw [hA]; try rfl) t d).trans
    (by unfold Dat.fetched Dat.blockOf iblk1; rw [hA]; try rfl)

/-! ## The body's accesses: each staging buffer whole -/

abbrev r1_0 : Rect S1024x128 := Rect.unit (s := S1024x128) ![0, 0] S1024x128.size inb_S1024x128_S1024x128_0_0
abbrev r1_1 : Rect S128x1024 := Rect.unit (s := S128x1024) ![0, 0] S128x1024.size inb_S128x1024_S128x1024_0_0
abbrev r1_2 : Rect S1x1024 := Rect.unit (s := S1x1024) ![0, 0] S1x1024.size inb_S1x1024_S1x1024_0_0
abbrev r1_3 : Rect S1024x1024 := Rect.unit (s := S1024x1024) ![0, 0] S1024x1024.size inb_S1024x1024_S1024x1024_0_0

/-! ## What the body leaves in the result's buffer -/

/-- The result window's staging buffer after the body, from the three input blocks: its one whole-block store
    of the payload (product into a zero accumulator, plus the bias row, then the format change). -/
def out1_3 (x0 : Vec F S1024x128 .bf16) (x1 : Vec F S128x1024 .bf16) (x2 : Vec F S1x1024 .f32) : Vec F S1024x1024 .bf16 :=
  View.canon [⟨r1_3, k1_pay1 (View.ld x0 r1_0) (View.ld x1 r1_1) (View.ld x2 r1_2)⟩]

/-- The one store is the whole buffer, so it covers it. -/
theorem cover1_3 (p0 : Vec F S1024x1024 .bf16) (y : S1024x1024.Idx) :
    ∃ pc ∈ ([⟨r1_3, p0⟩] : List (View.Piece (Elt F) S1024x1024 .bf16)), y ∈ pc.1.set :=
  View.cover_of_tiled [⟨r1_3, p0⟩] S1024x1024.size (by rfl) y

/-! ## The body's triple -/

set_option maxHeartbeats 1000000 in
/-- The kernel body on whole staging memrefs, the inputs' at contents `x0 x1 x2` and the result's at anything, runs
    to the continuation holding the inputs' as they were and the result's at `out1_3` of the inputs'. -/
theorem sound_kernel1 (c : Dev nD) (E : Set ℕ) (i : grid1.Coords)
    (arg0 : Memref sig .tc .vmem S1024x128 .bf16) (harg0 : arg0.IsWhole) (arg1 : Memref sig .tc .vmem S128x1024 .bf16) (harg1 : arg1.IsWhole)
    (arg2 : Memref sig .tc .vmem S1x1024 .f32) (harg2 : arg2.IsWhole) (arg3 : Memref sig .tc .vmem S1024x1024 .bf16) (harg3 : arg3.IsWhole)
    (x0 : Vec F S1024x128 .bf16) (x1 : Vec F S128x1024 .bf16) (x2 : Vec F S1x1024 .f32) (K : PUnit → sProp 𝕄) :
    iprop(owns (c : Thread nD τ) arg0 fullShare x0 ∗ owns (c : Thread nD τ) arg1 fullShare x1 ∗ owns (c : Thread nD τ) arg2 fullShare x2
        ∗ (∃ d, owns (c : Thread nD τ) arg3 fullShare d)
        ∗ (iprop(owns (c : Thread nD τ) arg0 fullShare x0 ∗ owns (c : Thread nD τ) arg1 fullShare x1 ∗ owns (c : Thread nD τ) arg2 fullShare x2
            ∗ owns (c : Thread nD τ) arg3 fullShare (out1_3 x0 x1 x2)) -∗ K ⟨⟩))
      ⊢ wp frame (wpE (defs₀ (F := F)) Variants.none c none) E (cc1__stage1_kernel i arg0 harg0 arg1 harg1 arg2 harg2 arg3 harg3) K := by
  simp only [cc1__stage1_kernel_eq_skeleton]; unfold cc1__stage1_kernel_skel
  unfold owns
  iintro ⟨⟨%f0, %hf0, H0⟩, ⟨%f1, %hf1, H1⟩, ⟨%f2, %hf2, H2⟩, ⟨%d3, %f3, -, H3⟩, Hk⟩
  subst hf0 hf1 hf2
  sl_exec
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  iexists _; isplitr
  swap; · iexact H3
  ipureintro
  exact View.read_writes_eq_canon _ _ _ (cover1_3 _)

/-! ## The pipeline's proof data -/

/-- The proof data of pipeline 1 on core `c`: the arrays as the region finds them; after the body at point `t`
    each input's buffer at its block and the result's at `out1_3` of the input blocks; the invariant the scoped
    rest and the generator register, untouched; nothing owed; full shares. -/
def dat1 (c : Dev nD) : Dat τ (Elt F) Unit ℕ (UR sig nD τ) ℕ cfg1 c where
  A w := V c (Pipeline.arrRef spec1 w)
  after w t := match w with
    | ⟨0, _⟩ => iblk1 V c 0 t
    | ⟨1, _⟩ => iblk1 V c 1 t
    | ⟨2, _⟩ => iblk1 V c 2 t
    | ⟨3, _⟩ => out1_3 (iblk1 V c 0 t) (iblk1 V c 1 t) (iblk1 V c 2 t)
  Φ _ := Pipeline.ΦA spec1 c
  q _ := fullShare
  owed _ := 0

/-- The proof data's arrays are the region-entry contents. -/
theorem A_eq1 (c : Dev nD) (w : Fin cfg1.W) : (dat1 V c).A w = V c (Pipeline.arrRef spec1 w) := by
  dsimp only [dat1]

/-- What the body leaves, window by window. -/
theorem after1_0 (c : Dev nD) (t : Fin cfg1.N) : (dat1 V c).after 0 t = iblk1 V c 0 t := by dsimp only [dat1]
theorem after1_1 (c : Dev nD) (t : Fin cfg1.N) : (dat1 V c).after 1 t = iblk1 V c 1 t := by dsimp only [dat1]
theorem after1_2 (c : Dev nD) (t : Fin cfg1.N) : (dat1 V c).after 2 t = iblk1 V c 2 t := by dsimp only [dat1]
theorem after1_3 (c : Dev nD) (t : Fin cfg1.N) :
    (dat1 V c).after 3 t = out1_3 (iblk1 V c 0 t) (iblk1 V c 1 t) (iblk1 V c 2 t) := by dsimp only [dat1]

/-- Each input's current staging buffer holds its block at every point, fetched there or not. -/
theorem before1_0 (c : Dev nD) (t : Fin cfg1.N) (d) : (dat1 V c).before 0 t d = iblk1 V c 0 t :=
  before1_0_of V (dat1 V c) (A_eq1 V c 0) (after1_0 V c) t d
theorem before1_1 (c : Dev nD) (t : Fin cfg1.N) (d) : (dat1 V c).before 1 t d = iblk1 V c 1 t :=
  before1_1_of V (dat1 V c) (A_eq1 V c 1) (after1_1 V c) t d
theorem before1_2 (c : Dev nD) (t : Fin cfg1.N) (d) : (dat1 V c).before 2 t d = iblk1 V c 2 t :=
  before1_2_of V (dat1 V c) (A_eq1 V c 2) (after1_2 V c) t d

/-- The invariant is the class's at every point: entering and leaving the region are identities on it. -/
theorem hin1 (c : Dev nD) : (Pipeline.ΦA spec1 c : sProp 𝕄) ⊢ (dat1 V c).Φ 0 := by
  show (Pipeline.ΦA spec1 c : sProp 𝕄) ⊢ Pipeline.ΦA spec1 c
  exact .rfl
theorem hout1 (c : Dev nD) : (dat1 V c).Φ (Fin.last cfg1.N) ⊢ (Pipeline.ΦA spec1 c : sProp 𝕄) := by
  show (Pipeline.ΦA spec1 c : sProp 𝕄) ⊢ Pipeline.ΦA spec1 c
  exact .rfl

/-! ## The body obligation, at a generic point -/

/-- What the body is called with at point `t`, the windows one by one, -/
def bodyPre1 (c : Dev nD) (t : Fin cfg1.N) : sProp 𝕄 :=
  iprop((dat1 V c).Φ t.castSucc ∗ (dat1 V c).owesAt () t.castSucc
    ∗ (∃ d, owns (c : Thread nD τ) (st1_0 t) fullShare ((dat1 V c).before 0 t d))
    ∗ (∃ d, owns (c : Thread nD τ) (st1_1 t) fullShare ((dat1 V c).before 1 t d))
    ∗ (∃ d, owns (c : Thread nD τ) (st1_2 t) fullShare ((dat1 V c).before 2 t d))
    ∗ (∃ d, owns (c : Thread nD τ) (st1_3 t) fullShare ((dat1 V c).before 3 t d)))

/-- and what it returns. -/
def bodyPost1 (c : Dev nD) (t : Fin cfg1.N) : sProp 𝕄 :=
  iprop((dat1 V c).Φ t.succ ∗ (dat1 V c).owesAt () t.succ
    ∗ owns (c : Thread nD τ) (st1_0 t) fullShare ((dat1 V c).after 0 t)
    ∗ owns (c : Thread nD τ) (st1_1 t) fullShare ((dat1 V c).after 1 t)
    ∗ owns (c : Thread nD τ) (st1_2 t) fullShare ((dat1 V c).after 2 t)
    ∗ owns (c : Thread nD τ) (st1_3 t) fullShare ((dat1 V c).after 3 t))

/-- The body at any point: the inputs' memrefs hold their blocks, so the body's triple applies; the invariant and
    the core's debts pass through unread. -/
theorem sound_body1 (c : Dev nD) (t : Fin cfg1.N) :
    bodyPre1 V c t ⊢ wp frame (wpE (defs₀ (F := F)) Variants.none c none) Set.univ (bodyAt1 t) (fun _ => bodyPost1 V c t) := by
  unfold bodyPre1 bodyPost1 bodyAt1
  simp only [before1_0, before1_1, before1_2]
  rw [show (dat1 V c).Φ t.succ = (dat1 V c).Φ t.castSucc from rfl,
    show (dat1 V c).owesAt () t.succ = (dat1 V c).owesAt () t.castSucc from rfl,
    after1_0, after1_1, after1_2, after1_3]
  iintro ⟨HΦ, Ho, ⟨%d0, H0⟩, ⟨%d1, H1⟩, ⟨%d2, H2⟩, ⟨%d3, H3⟩⟩
  iapply (sound_kernel1 c Set.univ _ _ _ _ _ _ _ _ _ (iblk1 V c 0 t) (iblk1 V c 1 t) (iblk1 V c 2 t) _)
  isplitl [H0]; · iexact H0
  isplitl [H1]; · iexact H1
  isplitl [H2]; · iexact H2
  isplitl [H3]; · iexists _; iexact H3
  iintro ⟨H0, H1, H2, H3⟩
  isplitl [HΦ]; · iexact HΦ
  isplitl [Ho]; · iexact Ho
  isplitl [H0]; · iexact H0
  isplitl [H1]; · iexact H1
  isplitl [H2]; · iexact H2
  iexact H3

/-- The library's body obligation, at every point. -/
theorem body_obligation1 (c : Dev nD) : BodyObligation (dat1 (F := F) V c) (defs₀ (F := F)) Variants.none () Set.univ := fun t => by
  rw [bigSep_W1, bigSep_W1]
  exact sound_body1 V c t

end Cert.KernelIdeal.Rg
-- ==== Proof.KI.Reg2.lean ====
/- Stage-1 region 2 (custom_call 2): the per-region half of the frame argument, at the buffer
   contents `V` found when the region is entered. One row block of the left operand times the whole
   right operand, plus the bias row, written to the result's row block. -/
import proofs.«181230_j19834158973077_2_alg».proof.Proof.Gen.KernelIdeal.Launch
import proofs.«181230_j19834158973077_2_alg».proof.Proof.Gen.KernelIdeal.Skeleton
import proofs.«181230_j19834158973077_2_alg».proof.Proof.Gen.KernelIdeal.Points
import Idealize.ShloMosaic.Lib.Pipeline.FrameBody
import Idealize.ShloMosaic.Lib.Ring
import Idealize.ShloMosaic.Lib.Tactic

-- membership in a rectangle of full extents recurses once per coordinate of the long axes
set_option maxRecDepth 16384

noncomputable section

namespace Cert.KernelIdeal.Rg

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

-- the TensorCore's buffer contents when the region is entered
variable (V : (c : Dev nD) → (b : Ref sig .tc) → Buf (Elt F) ((c : Thread nD τ).loc b))

/-! ## The windows' blocks -/

/-- Window `w`'s block at point `t`, read off its array as the region finds it. -/
def iblk2 (c : Dev nD) (w : Fin cfg2.W) (t : Fin cfg2.N) : ((cfg2.win w).xblock (cfg2.grid.coords t)).Idx → Elt F (cfg2.win w).elt :=
  ((cfg2.win w).blk t).view.read (Elt F) (V c (Pipeline.arrRef spec2 w))

/-- Input window 0's current staging buffer holds its block at every point, fetched there or not: where it is
    not fetched the block index has not moved, and the body leaves the block in place. -/
theorem before2_0_of {c : Dev nD} (dat : Dat τ (Elt F) Unit ℕ (UR sig nD τ) ℕ cfg2 c) (hA : dat.A 0 = V c (Pipeline.arrRef spec2 0))
    (hafter : ∀ t, dat.after 0 t = iblk2 V c 0 t) (t : Fin cfg2.N) (d) : dat.before 0 t d = iblk2 V c 0 t :=
  (dat.before_in_eq_fetched 0 rfl (fun _ => rfl) (fun _ _ _ => rfl) (fun t => by rw [hafter]; unfold Dat.blockOf iblk2; rw [hA]; try rfl) t d).trans
    (by unfold Dat.fetched Dat.blockOf iblk2; rw [hA]; try rfl)

/-- Input window 1's current staging buffer holds its block at every point, fetched there or not: where it is
    not fetched the block index has not moved, and the body leaves the block in place. -/
theorem before2_1_of {c : Dev nD} (dat : Dat τ (Elt F) Unit ℕ (UR sig nD τ) ℕ cfg2 c) (hA : dat.A 1 = V c (Pipeline.arrRef spec2 1))
    (hafter : ∀ t, dat.after 1 t = iblk2 V c 1 t) (t : Fin cfg2.N) (d) : dat.before 1 t d = iblk2 V c 1 t :=
  (dat.before_in_eq_fetched 1 rfl (fun _ => rfl) (fun _ _ _ => rfl) (fun t => by rw [hafter]; unfold Dat.blockOf iblk2; rw [hA]; try rfl) t d).trans
    (by unfold Dat.fetched Dat.blockOf iblk2; rw [hA]; try rfl)

/-- Input window 2's current staging buffer holds its block at every point, fetched there or not: where it is
    not fetched the block index has not moved, and the body leaves the block in place. -/
theorem before2_2_of {c : Dev nD} (dat : Dat τ (Elt F) Unit ℕ (UR sig nD τ) ℕ cfg2 c) (hA : dat.A 2 = V c (Pipeline.arrRef spec2 2))
    (hafter : ∀ t, dat.after 2 t = iblk2 V c 2 t) (t : Fin cfg2.N) (d) : dat.before 2 t d = iblk2 V c 2 t :=
  (dat.before_in_eq_fetched 2 rfl (fun _ => rfl) (fun _ _ _ => rfl) (fun t => by rw [hafter]; unfold Dat.blockOf iblk2; rw [hA]; try rfl) t d).trans
    (by unfold Dat.fetched Dat.blockOf iblk2; rw [hA]; try rfl)

/-! ## The body's accesses: each staging buffer whole -/

abbrev r2_0 : Rect S1024x1024 := Rect.unit (s := S1024x1024) ![0, 0] S1024x1024.size inb_S1024x1024_S1024x1024_0_0
abbrev r2_1 : Rect S1024x1024 := Rect.unit (s := S1024x1024) ![0, 0] S1024x1024.size inb_S1024x1024_S1024x1024_0_0
abbrev r2_2 : Rect S1x1024 := Rect.unit (s := S1x1024) ![0, 0] S1x1024.size inb_S1x1024_S1x1024_0_0
abbrev r2_3 : Rect S1024x1024 := Rect.unit (s := S1024x1024) ![0, 0] S1024x1024.size inb_S1024x1024_S1024x1024_0_0

/-! ## What the body leaves in the result's buffer -/

/-- The result window's staging buffer after the body, from the three input blocks: its one whole-block store
    of the payload (product into a zero accumulator, plus the bias row, then the format change). -/
def out2_3 (x0 : Vec F S1024x1024 .bf16) (x1 : Vec F S1024x1024 .bf16) (x2 : Vec F S1x1024 .f32) : Vec F S1024x1024 .bf16 :=
  View.canon [⟨r2_3, k2_pay1 (View.ld x0 r2_0) (View.ld x1 r2_1) (View.ld x2 r2_2)⟩]

/-- The one store is the whole buffer, so it covers it. -/
theorem cover2_3 (p0 : Vec F S1024x1024 .bf16) (y : S1024x1024.Idx) :
    ∃ pc ∈ ([⟨r2_3, p0⟩] : List (View.Piece (Elt F) S1024x1024 .bf16)), y ∈ pc.1.set :=
  View.cover_of_tiled [⟨r2_3, p0⟩] S1024x1024.size (by rfl) y

/-! ## The body's triple -/

set_option maxHeartbeats 1000000 in
/-- The kernel body on whole staging memrefs, the inputs' at contents `x0 x1 x2` and the result's at anything, runs
    to the continuation holding the inputs' as they were and the result's at `out2_3` of the inputs'. -/
theorem sound_kernel2 (c : Dev nD) (E : Set ℕ) (i : grid2.Coords)
    (arg0 : Memref sig .tc .vmem S1024x1024 .bf16) (harg0 : arg0.IsWhole) (arg1 : Memref sig .tc .vmem S1024x1024 .bf16) (harg1 : arg1.IsWhole)
    (arg2 : Memref sig .tc .vmem S1x1024 .f32) (harg2 : arg2.IsWhole) (arg3 : Memref sig .tc .vmem S1024x1024 .bf16) (harg3 : arg3.IsWhole)
    (x0 : Vec F S1024x1024 .bf16) (x1 : Vec F S1024x1024 .bf16) (x2 : Vec F S1x1024 .f32) (K : PUnit → sProp 𝕄) :
    iprop(owns (c : Thread nD τ) arg0 fullShare x0 ∗ owns (c : Thread nD τ) arg1 fullShare x1 ∗ owns (c : Thread nD τ) arg2 fullShare x2
        ∗ (∃ d, owns (c : Thread nD τ) arg3 fullShare d)
        ∗ (iprop(owns (c : Thread nD τ) arg0 fullShare x0 ∗ owns (c : Thread nD τ) arg1 fullShare x1 ∗ owns (c : Thread nD τ) arg2 fullShare x2
            ∗ owns (c : Thread nD τ) arg3 fullShare (out2_3 x0 x1 x2)) -∗ K ⟨⟩))
      ⊢ wp frame (wpE (defs₀ (F := F)) Variants.none c none) E (cc2__stage1_kernel i arg0 harg0 arg1 harg1 arg2 harg2 arg3 harg3) K := by
  simp only [cc2__stage1_kernel_eq_skeleton]; unfold cc2__stage1_kernel_skel
  unfold owns
  iintro ⟨⟨%f0, %hf0, H0⟩, ⟨%f1, %hf1, H1⟩, ⟨%f2, %hf2, H2⟩, ⟨%d3, %f3, -, H3⟩, Hk⟩
  subst hf0 hf1 hf2
  sl_exec
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  iexists _; isplitr
  swap; · iexact H3
  ipureintro
  exact View.read_writes_eq_canon _ _ _ (cover2_3 _)

/-! ## The pipeline's proof data -/

/-- The proof data of pipeline 2 on core `c`: the arrays as the region finds them; after the body at point `t`
    each input's buffer at its block and the result's at `out2_3` of the input blocks; the invariant the scoped
    rest and the generator register, untouched; nothing owed; full shares. -/
def dat2 (c : Dev nD) : Dat τ (Elt F) Unit ℕ (UR sig nD τ) ℕ cfg2 c where
  A w := V c (Pipeline.arrRef spec2 w)
  after w t := match w with
    | ⟨0, _⟩ => iblk2 V c 0 t
    | ⟨1, _⟩ => iblk2 V c 1 t
    | ⟨2, _⟩ => iblk2 V c 2 t
    | ⟨3, _⟩ => out2_3 (iblk2 V c 0 t) (iblk2 V c 1 t) (iblk2 V c 2 t)
  Φ _ := Pipeline.ΦA spec2 c
  q _ := fullShare
  owed _ := 0

/-- The proof data's arrays are the region-entry contents. -/
theorem A_eq2 (c : Dev nD) (w : Fin cfg2.W) : (dat2 V c).A w = V c (Pipeline.arrRef spec2 w) := by
  dsimp only [dat2]

/-- What the body leaves, window by window. -/
theorem after2_0 (c : Dev nD) (t : Fin cfg2.N) : (dat2 V c).after 0 t = iblk2 V c 0 t := by dsimp only [dat2]
theorem after2_1 (c : Dev nD) (t : Fin cfg2.N) : (dat2 V c).after 1 t = iblk2 V c 1 t := by dsimp only [dat2]
theorem after2_2 (c : Dev nD) (t : Fin cfg2.N) : (dat2 V c).after 2 t = iblk2 V c 2 t := by dsimp only [dat2]
theorem after2_3 (c : Dev nD) (t : Fin cfg2.N) :
    (dat2 V c).after 3 t = out2_3 (iblk2 V c 0 t) (iblk2 V c 1 t) (iblk2 V c 2 t) := by dsimp only [dat2]

/-- Each input's current staging buffer holds its block at every point, fetched there or not. -/
theorem before2_0 (c : Dev nD) (t : Fin cfg2.N) (d) : (dat2 V c).before 0 t d = iblk2 V c 0 t :=
  before2_0_of V (dat2 V c) (A_eq2 V c 0) (after2_0 V c) t d
theorem before2_1 (c : Dev nD) (t : Fin cfg2.N) (d) : (dat2 V c).before 1 t d = iblk2 V c 1 t :=
  before2_1_of V (dat2 V c) (A_eq2 V c 1) (after2_1 V c) t d
theorem before2_2 (c : Dev nD) (t : Fin cfg2.N) (d) : (dat2 V c).before 2 t d = iblk2 V c 2 t :=
  before2_2_of V (dat2 V c) (A_eq2 V c 2) (after2_2 V c) t d

/-- The invariant is the class's at every point: entering and leaving the region are identities on it. -/
theorem hin2 (c : Dev nD) : (Pipeline.ΦA spec2 c : sProp 𝕄) ⊢ (dat2 V c).Φ 0 := by
  show (Pipeline.ΦA spec2 c : sProp 𝕄) ⊢ Pipeline.ΦA spec2 c
  exact .rfl
theorem hout2 (c : Dev nD) : (dat2 V c).Φ (Fin.last cfg2.N) ⊢ (Pipeline.ΦA spec2 c : sProp 𝕄) := by
  show (Pipeline.ΦA spec2 c : sProp 𝕄) ⊢ Pipeline.ΦA spec2 c
  exact .rfl

/-! ## The body obligation, at a generic point -/

/-- What the body is called with at point `t`, the windows one by one, -/
def bodyPre2 (c : Dev nD) (t : Fin cfg2.N) : sProp 𝕄 :=
  iprop((dat2 V c).Φ t.castSucc ∗ (dat2 V c).owesAt () t.castSucc
    ∗ (∃ d, owns (c : Thread nD τ) (st2_0 t) fullShare ((dat2 V c).before 0 t d))
    ∗ (∃ d, owns (c : Thread nD τ) (st2_1 t) fullShare ((dat2 V c).before 1 t d))
    ∗ (∃ d, owns (c : Thread nD τ) (st2_2 t) fullShare ((dat2 V c).before 2 t d))
    ∗ (∃ d, owns (c : Thread nD τ) (st2_3 t) fullShare ((dat2 V c).before 3 t d)))

/-- and what it returns. -/
def bodyPost2 (c : Dev nD) (t : Fin cfg2.N) : sProp 𝕄 :=
  iprop((dat2 V c).Φ t.succ ∗ (dat2 V c).owesAt () t.succ
    ∗ owns (c : Thread nD τ) (st2_0 t) fullShare ((dat2 V c).after 0 t)
    ∗ owns (c : Thread nD τ) (st2_1 t) fullShare ((dat2 V c).after 1 t)
    ∗ owns (c : Thread nD τ) (st2_2 t) fullShare ((dat2 V c).after 2 t)
    ∗ owns (c : Thread nD τ) (st2_3 t) fullShare ((dat2 V c).after 3 t))

/-- The body at any point: the inputs' memrefs hold their blocks, so the body's triple applies; the invariant and
    the core's debts pass through unread. -/
theorem sound_body2 (c : Dev nD) (t : Fin cfg2.N) :
    bodyPre2 V c t ⊢ wp frame (wpE (defs₀ (F := F)) Variants.none c none) Set.univ (bodyAt2 t) (fun _ => bodyPost2 V c t) := by
  unfold bodyPre2 bodyPost2 bodyAt2
  simp only [before2_0, before2_1, before2_2]
  rw [show (dat2 V c).Φ t.succ = (dat2 V c).Φ t.castSucc from rfl,
    show (dat2 V c).owesAt () t.succ = (dat2 V c).owesAt () t.castSucc from rfl,
    after2_0, after2_1, after2_2, after2_3]
  iintro ⟨HΦ, Ho, ⟨%d0, H0⟩, ⟨%d1, H1⟩, ⟨%d2, H2⟩, ⟨%d3, H3⟩⟩
  iapply (sound_kernel2 c Set.univ _ _ _ _ _ _ _ _ _ (iblk2 V c 0 t) (iblk2 V c 1 t) (iblk2 V c 2 t) _)
  isplitl [H0]; · iexact H0
  isplitl [H1]; · iexact H1
  isplitl [H2]; · iexact H2
  isplitl [H3]; · iexists _; iexact H3
  iintro ⟨H0, H1, H2, H3⟩
  isplitl [HΦ]; · iexact HΦ
  isplitl [Ho]; · iexact Ho
  isplitl [H0]; · iexact H0
  isplitl [H1]; · iexact H1
  isplitl [H2]; · iexact H2
  iexact H3

/-- The library's body obligation, at every point. -/
theorem body_obligation2 (c : Dev nD) : BodyObligation (dat2 (F := F) V c) (defs₀ (F := F)) Variants.none () Set.univ := fun t => by
  rw [bigSep_W2, bigSep_W2]
  exact sound_body2 V c t

end Cert.KernelIdeal.Rg
-- ==== Proof.KI.Reg3.lean ====
/- REGION 3: the adjacency product with a carried accumulator (grid 20 × 10, the reduction step `k = t % 10`). The f32
   accumulator [512x1024] is zeroed when `k = 0`, takes the product of the left operand's block with the right operand's
   rows `k*1024 … k*1024+1023` at every point, and when `k = 9` is read back, the bias row added, the positive part taken, the sum converted to the result's format and stored whole into the
   result's block. Stated at a parameter `V`, the TensorCore's buffer contents when the region is entered: the proof
   data `dat3`, its body obligation, and the invariant's two ends `hin3` / `hout3`; `out3_L_3` / `outsAt3` name what
   the result window holds. -/
import proofs.«181230_j19834158973077_2_alg».proof.Proof.Gen.KernelIdeal.Launch
import proofs.«181230_j19834158973077_2_alg».proof.Proof.Gen.KernelIdeal.Skeleton
import proofs.«181230_j19834158973077_2_alg».proof.Proof.Gen.KernelIdeal.Points
import Idealize.ShloMosaic.Lib.Pipeline.FrameBody
import Idealize.ShloMosaic.Lib.Ring
import Idealize.ShloMosaic.Lib.Tactic

-- membership in a rectangle of full extents recurses once per coordinate of the long axes
set_option maxRecDepth 16384

noncomputable section

namespace Cert.KernelIdeal.Rg

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

/-! # Part 1: the conditionals over the grid, the memrefs, the invariant's split, the blocks -/

/-! ## The body's two conditionals, over the grid

A grid point `t` has coordinates `(m, k)` with `k = t % 10` the reduction step. The accumulator is zeroed when
`k = 0`; the result block is written when `k = 9`. -/

/-- The first conditional's condition (`k = 0`), with the scalar chain that computes it substituted. -/
abbrev zeroC3 (i : grid3.Coords) : Prop :=
  (Scalar.cmpi .ne (Scalar.extui (Scalar.cmpi .eq (BitVec.ofNat 32 (i 1).val) 0#32)) 0#32) = 1#1
/-- It holds exactly at the points ≡ 0 (mod 10): decided over the 200 points. -/
theorem zeroC3_iff : ∀ t : Fin cfg3.N, zeroC3 (grid3.coords t) ↔ t.val % 10 = 0 :=
  (by decide +kernel : ∀ t : Fin grid3.N, zeroC3 (grid3.coords t) ↔ t.val % 10 = 0)

/-- The second conditional's condition (`k = 9`). -/
abbrev flushC3 (i : grid3.Coords) : Prop := k3_cond2 i = 1#1
/-- It holds exactly at the points ≡ 9 (mod 10). -/
theorem flushC3_iff : ∀ t : Fin cfg3.N, flushC3 (grid3.coords t) ↔ t.val % 10 = 9 :=
  (by decide +kernel : ∀ t : Fin grid3.N, flushC3 (grid3.coords t) ↔ t.val % 10 = 9)

/-! ## Where the windows are idle -/

/-- The three input windows are never idle. -/
theorem live3_0 : ∀ t : Fin cfg3.N, cfg3.idle 0 (grid3.coords t) = false := by decide +kernel
theorem live3_1 : ∀ t : Fin cfg3.N, cfg3.idle 1 (grid3.coords t) = false := by decide +kernel
theorem live3_2 : ∀ t : Fin cfg3.N, cfg3.idle 2 (grid3.coords t) = false := by decide +kernel
/-- Away from `k = 9` the result window is idle (the body stores nothing into it) -/
theorem idle3_3 : ∀ t : Fin cfg3.N, ¬flushC3 (grid3.coords t) → cfg3.idle 3 (grid3.coords t) = true := by decide +kernel
/-- and its block is not written back; -/
theorem noFlush3_3 : ∀ t : Fin cfg3.N, ¬flushC3 (grid3.coords t) → (cfg3.win 3).flush t = false := by decide +kernel
/-- at `k = 9` it is live. -/
theorem live3_3 : ∀ t : Fin cfg3.N, flushC3 (grid3.coords t) → cfg3.idle 3 (grid3.coords t) = false := by decide +kernel

/-! ## The memrefs the body is called with -/

/-- Each window's current staging memref at point `t`, and that it is a whole buffer: the left operand's block, -/
abbrev mA3 (t : Fin cfg3.N) : Memref sig .tc .vmem S512x1024 .bf16 := win3_0.stage (cfg3.slots t 0)
abbrev hA3 (t : Fin cfg3.N) : (mA3 t).IsWhole := hstage3_0 ((cfg3.slots t 0).cast nbuf3_0)
/-- the right operand, resident whole, -/
abbrev mB3 (t : Fin cfg3.N) : Memref sig .tc .vmem S10240x1024 .bf16 := win3_1.stage (cfg3.slots t 1)
abbrev hB3 (t : Fin cfg3.N) : (mB3 t).IsWhole := hstage3_1 ((cfg3.slots t 1).cast nbuf3_1)
/-- the bias row, -/
abbrev mC3 (t : Fin cfg3.N) : Memref sig .tc .vmem S1x1024 .f32 := win3_2.stage (cfg3.slots t 2)
abbrev hC3 (t : Fin cfg3.N) : (mC3 t).IsWhole := hstage3_2 ((cfg3.slots t 2).cast nbuf3_2)
/-- the result's block. -/
abbrev mO3 (t : Fin cfg3.N) : Memref sig .tc .vmem S512x1024 .bf16 := win3_3.stage (cfg3.slots t 3)
abbrev hO3 (t : Fin cfg3.N) : (mO3 t).IsWhole := hstage3_3 ((cfg3.slots t 3).cast nbuf3_3)
/-- The accumulator: a whole scoped buffer of the kernel's own, passed beside the windows and carried from point to point. -/
abbrev mS3 : Memref sig .tc .vmem S512x1024 .f32 := Memref.whole cc3_scratch0
/-- The views through which the result buffer's and the accumulator's contents are stated (one of the result's two
    staging buffers: for a covering list of stores the choice does not matter). -/
abbrev vO3 : View sig .tc .vmem S512x1024 .bf16 := (Memref.whole cc3_stg3_0 : Memref sig .tc .vmem S512x1024 .bf16).view
abbrev vS3 : View sig .tc .vmem S512x1024 .f32 := mS3.view

/-! ## The region invariant, with the accumulator split off -/

/-- Every other scoped buffer of the core that is no staging buffer of this region: carried unopened. -/
abbrev rest3 (c : Dev nD) : sProp 𝕄 :=
  Pipeline.scopedRestBut (Ix := Unit) (Name := ℕ) (U := UR sig nD τ) (Lvl := ℕ) (Val := Elt F) spec3 c [cc3_scratch0]

/-- The class's invariant is: the accumulator owned at some contents, the other scoped buffers, the generator
    register at some state. -/
theorem PhiA3_eq (c : Dev nD) :
    (Pipeline.ΦA spec3 c : sProp 𝕄)
      = iprop(iprop((∃ d, owns (c : Thread nD τ) mS3 fullShare d) ∗ rest3 (F := F) c) ∗ (∃ r, prngReg c r)) := by
  unfold Pipeline.ΦA; rw [scopedRest3_split]; simp only [mS3, owns_whole]; try rfl

section Entry
variable (V : (c : Dev nD) → (b : Ref sig .tc) → Buf (Elt F) ((c : Thread nD τ).loc b))

/-! ## The windows' blocks -/

/-- Window `w`'s block at point `t`, read off its array as the region finds it. -/
def iblk3 (c : Dev nD) (w : Fin cfg3.W) (t : Fin cfg3.N) : ((cfg3.win w).xblock (cfg3.grid.coords t)).Idx → Elt F (cfg3.win w).elt :=
  ((cfg3.win w).blk t).view.read (Elt F) (V c (Pipeline.arrRef spec3 w))

/-- An input window's current staging buffer holds its block at every point, fetched there or not (where it is not
    fetched its block index has not moved), for any proof data whose array is `V`'s and whose body leaves the block
    in place. -/
theorem before3_0_of {c : Dev nD} (dat : Dat τ (Elt F) Unit ℕ (UR sig nD τ) ℕ cfg3 c) (hA : dat.A 0 = V c (Pipeline.arrRef spec3 0))
    (hafter : ∀ t, dat.after 0 t = iblk3 V c 0 t) (t : Fin cfg3.N) (d) : dat.before 0 t d = iblk3 V c 0 t :=
  (dat.before_in_eq_fetched 0 rfl (fun _ => rfl) (fun _ _ _ => rfl) (fun t => by rw [hafter]; unfold Dat.blockOf iblk3; rw [hA]; try rfl) t d).trans
    (by unfold Dat.fetched Dat.blockOf iblk3; rw [hA]; try rfl)
theorem before3_1_of {c : Dev nD} (dat : Dat τ (Elt F) Unit ℕ (UR sig nD τ) ℕ cfg3 c) (hA : dat.A 1 = V c (Pipeline.arrRef spec3 1))
    (hafter : ∀ t, dat.after 1 t = iblk3 V c 1 t) (t : Fin cfg3.N) (d) : dat.before 1 t d = iblk3 V c 1 t :=
  (dat.before_in_eq_fetched 1 rfl (fun _ => rfl) (fun _ _ _ => rfl) (fun t => by rw [hafter]; unfold Dat.blockOf iblk3; rw [hA]; try rfl) t d).trans
    (by unfold Dat.fetched Dat.blockOf iblk3; rw [hA]; try rfl)
theorem before3_2_of {c : Dev nD} (dat : Dat τ (Elt F) Unit ℕ (UR sig nD τ) ℕ cfg3 c) (hA : dat.A 2 = V c (Pipeline.arrRef spec3 2))
    (hafter : ∀ t, dat.after 2 t = iblk3 V c 2 t) (t : Fin cfg3.N) (d) : dat.before 2 t d = iblk3 V c 2 t :=
  (dat.before_in_eq_fetched 2 rfl (fun _ => rfl) (fun _ _ _ => rfl) (fun t => by rw [hafter]; unfold Dat.blockOf iblk3; rw [hA]; try rfl) t d).trans
    (by unfold Dat.fetched Dat.blockOf iblk3; rw [hA]; try rfl)

end Entry

/-! # Part 2: the body's run in each of the three control cases -/
/-! ### The control case `k = 0`: the accumulator is stored whole with zeros, then read back, the block product added and the sum stored
   whole again; the result buffer is not touched. -/

-- (the run's proof term is large: the definition's epilogue walks it past the default budget)
set_option maxHeartbeats 1000000 in
/-- The lists of stores, last first, that the body leaves in the result buffer (`L3`) and in the accumulator (`LS`) in
    this case, TOGETHER WITH the proof that on whole memrefs — the three inputs at contents `x0 x1 x2`, the result
    buffer at contents `xi3` handed back as found, the accumulator at anything — the body runs to a
    continuation that holds the inputs as they were, the result buffer as it was and the accumulator with
    `LS` written. The two lists are found by running the body's memory operations in order over named payloads; each
    conditional is decided by the case's hypotheses. -/
noncomputable def runZero3 (c : Dev nD) (i : grid3.Coords) (arg2 : Memref sig .tc .vmem S512x1024 .bf16) (harg2 : arg2.IsWhole) (arg3 : Memref sig .tc .vmem S10240x1024 .bf16) (harg3 : arg3.IsWhole) (arg4 : Memref sig .tc .vmem S1x1024 .f32) (harg4 : arg4.IsWhole) (arg5 : Memref sig .tc .vmem S512x1024 .bf16) (harg5 : arg5.IsWhole) (arg6 : Memref sig .tc .vmem S512x1024 .f32) (harg6 : arg6.IsWhole) (hc0 : zeroC3 i) (hc1 : ¬flushC3 i)
    (x0 : Vec F S512x1024 .bf16) (x1 : Vec F S10240x1024 .bf16) (x2 : Vec F S1x1024 .f32) :
    Σ' (L3 : List (View.Piece (Elt F) S512x1024 .bf16)), { LS : List (View.Piece (Elt F) S512x1024 .f32) //
      ∀ (xi3 : Vec F S512x1024 .bf16) (E : Set ℕ) (K : PUnit → sProp 𝕄),
        iprop(owns (c : Thread nD τ) arg2 fullShare x0 ∗ owns (c : Thread nD τ) arg3 fullShare x1 ∗ owns (c : Thread nD τ) arg4 fullShare x2 ∗ owns (c : Thread nD τ) arg5 fullShare xi3 ∗ (∃ d, owns (c : Thread nD τ) arg6 fullShare d)
            ∗ (iprop(owns (c : Thread nD τ) arg2 fullShare x0 ∗ owns (c : Thread nD τ) arg3 fullShare x1 ∗ owns (c : Thread nD τ) arg4 fullShare x2 ∗ owns (c : Thread nD τ) arg5 fullShare xi3 ∗ (∃ f, arg6.view.loc (c : Thread nD τ) ↦[arg6.view.set]{fullShare} arg6.view.writes (Elt F) f LS)) -∗ K ⟨⟩))
          ⊢ wp frame (wpE (defs₀ (F := F)) Variants.none c none) E (cc3__stage2_kernel i arg2 harg2 arg3 harg3 arg4 harg4 arg5 harg5 arg6 harg6) K } := by
  refine ⟨[], ?_, fun xi3 E K => ?run⟩
  case run =>
    simp only [cc3__stage2_kernel_eq_skeleton]; unfold cc3__stage2_kernel_skel
    unfold owns
    iintro ⟨⟨%f0, %hf0, H0⟩, ⟨%f1, %hf1, H1⟩, ⟨%f2, %hf2, H2⟩, ⟨%f3, %hf3, H3⟩, ⟨%ds, %fs, -, HS⟩, Hk⟩
    obtain rfl := harg2.eq_unread hf0; obtain rfl := harg3.eq_unread hf1; obtain rfl := harg4.eq_unread hf2; obtain rfl := harg5.eq_unread hf3
    sl_exec (disch := first | exact hc0 | exact hc1)
    sl_step
    iapply Hk
    isplitl [H0]
    · iexists _; isplitr; · ipureintro; exact harg2.read_unread _
      iexact H0
    isplitl [H1]
    · iexists _; isplitr; · ipureintro; exact harg3.read_unread _
      iexact H1
    isplitl [H2]
    · iexists _; isplitr; · ipureintro; exact harg4.read_unread _
      iexact H2
    isplitl [H3]
    · iexists _; isplitr; · ipureintro; exact harg5.read_unread _
      iexact H3
    iexists _; iexact HS

/-! ### The control case `0 < k < 9`: the accumulator is read, the block product added and the sum stored whole; the result
   buffer is not touched. -/

-- (the run's proof term is large: the definition's epilogue walks it past the default budget)
set_option maxHeartbeats 1000000 in
/-- The lists of stores, last first, that the body leaves in the result buffer (`L3`) and in the accumulator (`LS`) in
    this case, TOGETHER WITH the proof that on whole memrefs — the three inputs at contents `x0 x1 x2`, the result
    buffer at contents `xi3` handed back as found, the accumulator at the contents `xs` the point before left — the body runs to a
    continuation that holds the inputs as they were, the result buffer as it was and the accumulator with
    `LS` written. The two lists are found by running the body's memory operations in order over named payloads; each
    conditional is decided by the case's hypotheses. -/
noncomputable def runMid3 (c : Dev nD) (i : grid3.Coords) (arg2 : Memref sig .tc .vmem S512x1024 .bf16) (harg2 : arg2.IsWhole) (arg3 : Memref sig .tc .vmem S10240x1024 .bf16) (harg3 : arg3.IsWhole) (arg4 : Memref sig .tc .vmem S1x1024 .f32) (harg4 : arg4.IsWhole) (arg5 : Memref sig .tc .vmem S512x1024 .bf16) (harg5 : arg5.IsWhole) (arg6 : Memref sig .tc .vmem S512x1024 .f32) (harg6 : arg6.IsWhole) (hc0 : ¬zeroC3 i) (hc1 : ¬flushC3 i)
    (x0 : Vec F S512x1024 .bf16) (x1 : Vec F S10240x1024 .bf16) (x2 : Vec F S1x1024 .f32) (xs : Vec F S512x1024 .f32) :
    Σ' (L3 : List (View.Piece (Elt F) S512x1024 .bf16)), { LS : List (View.Piece (Elt F) S512x1024 .f32) //
      ∀ (xi3 : Vec F S512x1024 .bf16) (E : Set ℕ) (K : PUnit → sProp 𝕄),
        iprop(owns (c : Thread nD τ) arg2 fullShare x0 ∗ owns (c : Thread nD τ) arg3 fullShare x1 ∗ owns (c : Thread nD τ) arg4 fullShare x2 ∗ owns (c : Thread nD τ) arg5 fullShare xi3 ∗ owns (c : Thread nD τ) arg6 fullShare xs
            ∗ (iprop(owns (c : Thread nD τ) arg2 fullShare x0 ∗ owns (c : Thread nD τ) arg3 fullShare x1 ∗ owns (c : Thread nD τ) arg4 fullShare x2 ∗ owns (c : Thread nD τ) arg5 fullShare xi3 ∗ (∃ f, arg6.view.loc (c : Thread nD τ) ↦[arg6.view.set]{fullShare} arg6.view.writes (Elt F) f LS)) -∗ K ⟨⟩))
          ⊢ wp frame (wpE (defs₀ (F := F)) Variants.none c none) E (cc3__stage2_kernel i arg2 harg2 arg3 harg3 arg4 harg4 arg5 harg5 arg6 harg6) K } := by
  refine ⟨[], ?_, fun xi3 E K => ?run⟩
  case run =>
    simp only [cc3__stage2_kernel_eq_skeleton]; unfold cc3__stage2_kernel_skel
    unfold owns
    iintro ⟨⟨%f0, %hf0, H0⟩, ⟨%f1, %hf1, H1⟩, ⟨%f2, %hf2, H2⟩, ⟨%f3, %hf3, H3⟩, ⟨%fs, %hfs, HS⟩, Hk⟩
    obtain rfl := harg2.eq_unread hf0; obtain rfl := harg3.eq_unread hf1; obtain rfl := harg4.eq_unread hf2; obtain rfl := harg5.eq_unread hf3; obtain rfl := harg6.eq_unread hfs
    sl_exec (disch := first | exact hc0 | exact hc1)
    sl_step
    iapply Hk
    isplitl [H0]
    · iexists _; isplitr; · ipureintro; exact harg2.read_unread _
      iexact H0
    isplitl [H1]
    · iexists _; isplitr; · ipureintro; exact harg3.read_unread _
      iexact H1
    isplitl [H2]
    · iexists _; isplitr; · ipureintro; exact harg4.read_unread _
      iexact H2
    isplitl [H3]
    · iexists _; isplitr; · ipureintro; exact harg5.read_unread _
      iexact H3
    iexists _; iexact HS

/-! ### The control case `k = 9`: the accumulator is read, the block product added and the sum stored whole; then the accumulator
   is read back, the bias row added, the sum converted to the result's format and stored whole into the result buffer. -/

-- (the run's proof term is large: the definition's epilogue walks it past the default budget)
set_option maxHeartbeats 1000000 in
/-- The lists of stores, last first, that the body leaves in the result buffer (`L3`) and in the accumulator (`LS`) in
    this case, TOGETHER WITH the proof that on whole memrefs — the three inputs at contents `x0 x1 x2`, the result buffer at anything, the accumulator at the contents `xs` the point before left — the body runs to a
    continuation that holds the inputs as they were, the result buffer with `L3` written and the accumulator with
    `LS` written. The two lists are found by running the body's memory operations in order over named payloads; each
    conditional is decided by the case's hypotheses. -/
noncomputable def runLast3 (c : Dev nD) (i : grid3.Coords) (arg2 : Memref sig .tc .vmem S512x1024 .bf16) (harg2 : arg2.IsWhole) (arg3 : Memref sig .tc .vmem S10240x1024 .bf16) (harg3 : arg3.IsWhole) (arg4 : Memref sig .tc .vmem S1x1024 .f32) (harg4 : arg4.IsWhole) (arg5 : Memref sig .tc .vmem S512x1024 .bf16) (harg5 : arg5.IsWhole) (arg6 : Memref sig .tc .vmem S512x1024 .f32) (harg6 : arg6.IsWhole) (hc0 : ¬zeroC3 i) (hc1 : flushC3 i)
    (x0 : Vec F S512x1024 .bf16) (x1 : Vec F S10240x1024 .bf16) (x2 : Vec F S1x1024 .f32) (xs : Vec F S512x1024 .f32) :
    Σ' (L3 : List (View.Piece (Elt F) S512x1024 .bf16)), { LS : List (View.Piece (Elt F) S512x1024 .f32) //
      ∀ (E : Set ℕ) (K : PUnit → sProp 𝕄),
        iprop(owns (c : Thread nD τ) arg2 fullShare x0 ∗ owns (c : Thread nD τ) arg3 fullShare x1 ∗ owns (c : Thread nD τ) arg4 fullShare x2 ∗ (∃ d, owns (c : Thread nD τ) arg5 fullShare d) ∗ owns (c : Thread nD τ) arg6 fullShare xs
            ∗ (iprop(owns (c : Thread nD τ) arg2 fullShare x0 ∗ owns (c : Thread nD τ) arg3 fullShare x1 ∗ owns (c : Thread nD τ) arg4 fullShare x2 ∗ (∃ f, arg5.view.loc (c : Thread nD τ) ↦[arg5.view.set]{fullShare} arg5.view.writes (Elt F) f L3) ∗ (∃ f, arg6.view.loc (c : Thread nD τ) ↦[arg6.view.set]{fullShare} arg6.view.writes (Elt F) f LS)) -∗ K ⟨⟩))
          ⊢ wp frame (wpE (defs₀ (F := F)) Variants.none c none) E (cc3__stage2_kernel i arg2 harg2 arg3 harg3 arg4 harg4 arg5 harg5 arg6 harg6) K } := by
  refine ⟨?_, ?_, fun E K => ?run⟩
  case run =>
    simp only [cc3__stage2_kernel_eq_skeleton]; unfold cc3__stage2_kernel_skel
    unfold owns
    iintro ⟨⟨%f0, %hf0, H0⟩, ⟨%f1, %hf1, H1⟩, ⟨%f2, %hf2, H2⟩, ⟨%d3, %f3, -, H3⟩, ⟨%fs, %hfs, HS⟩, Hk⟩
    obtain rfl := harg2.eq_unread hf0; obtain rfl := harg3.eq_unread hf1; obtain rfl := harg4.eq_unread hf2; obtain rfl := harg6.eq_unread hfs
    sl_exec (disch := first | exact hc0 | exact hc1)
    sl_step
    iapply Hk
    isplitl [H0]
    · iexists _; isplitr; · ipureintro; exact harg2.read_unread _
      iexact H0
    isplitl [H1]
    · iexists _; isplitr; · ipureintro; exact harg3.read_unread _
      iexact H1
    isplitl [H2]
    · iexists _; isplitr; · ipureintro; exact harg4.read_unread _
      iexact H2
    isplitl [H3]; · iexists _; iexact H3
    iexists _; iexact HS

/-! # Part 3: what each case leaves, point by point; the proof data; the body obligation; the invariant's ends -/

/-! ## What each case leaves

In the cases `k = 0` and `0 < k < 9` nothing is stored into the result buffer: its "contents" below is a placeholder
(no stores read back over junk) that nothing consults, the window being idle and not written back at those points. -/

def out3_Z_3 (c : Dev nD) (i : grid3.Coords) (arg2 : Memref sig .tc .vmem S512x1024 .bf16) (harg2 : arg2.IsWhole) (arg3 : Memref sig .tc .vmem S10240x1024 .bf16) (harg3 : arg3.IsWhole) (arg4 : Memref sig .tc .vmem S1x1024 .f32) (harg4 : arg4.IsWhole) (arg5 : Memref sig .tc .vmem S512x1024 .bf16) (harg5 : arg5.IsWhole) (arg6 : Memref sig .tc .vmem S512x1024 .f32) (harg6 : arg6.IsWhole) (hc0 : zeroC3 i) (hc1 : ¬flushC3 i)
    (x0 : Vec F S512x1024 .bf16) (x1 : Vec F S10240x1024 .bf16) (x2 : Vec F S1x1024 .f32) : Vec F S512x1024 .bf16 :=
  vO3.read (Elt F) (vO3.writes (Elt F) vO3.junk (runZero3 c i arg2 harg2 arg3 harg3 arg4 harg4 arg5 harg5 arg6 harg6 hc0 hc1 x0 x1 x2).1)

/-- At `k = 0` the accumulator's stores (the zero fill, then the first partial sum) cover it. -/
theorem scover3_Z (c : Dev nD) (i : grid3.Coords) (arg2 : Memref sig .tc .vmem S512x1024 .bf16) (harg2 : arg2.IsWhole) (arg3 : Memref sig .tc .vmem S10240x1024 .bf16) (harg3 : arg3.IsWhole) (arg4 : Memref sig .tc .vmem S1x1024 .f32) (harg4 : arg4.IsWhole) (arg5 : Memref sig .tc .vmem S512x1024 .bf16) (harg5 : arg5.IsWhole) (arg6 : Memref sig .tc .vmem S512x1024 .f32) (harg6 : arg6.IsWhole) (hc0 : zeroC3 i) (hc1 : ¬flushC3 i)
    (x0 : Vec F S512x1024 .bf16) (x1 : Vec F S10240x1024 .bf16) (x2 : Vec F S1x1024 .f32) (y : S512x1024.Idx) :
    ∃ pc ∈ (runZero3 c i arg2 harg2 arg3 harg3 arg4 harg4 arg5 harg5 arg6 harg6 hc0 hc1 x0 x1 x2).2.1, y ∈ pc.1.set :=
  View.cover_of_tiledL (runZero3 c i arg2 harg2 arg3 harg3 arg4 harg4 arg5 harg5 arg6 harg6 hc0 hc1 x0 x1 x2).2.1 S512x1024.size (by sl_kernel_rfl) y

/-- What the case `k = 0` leaves in the accumulator: its stores read back. -/
def acc3_Z (c : Dev nD) (i : grid3.Coords) (arg2 : Memref sig .tc .vmem S512x1024 .bf16) (harg2 : arg2.IsWhole) (arg3 : Memref sig .tc .vmem S10240x1024 .bf16) (harg3 : arg3.IsWhole) (arg4 : Memref sig .tc .vmem S1x1024 .f32) (harg4 : arg4.IsWhole) (arg5 : Memref sig .tc .vmem S512x1024 .bf16) (harg5 : arg5.IsWhole) (arg6 : Memref sig .tc .vmem S512x1024 .f32) (harg6 : arg6.IsWhole) (hc0 : zeroC3 i) (hc1 : ¬flushC3 i)
    (x0 : Vec F S512x1024 .bf16) (x1 : Vec F S10240x1024 .bf16) (x2 : Vec F S1x1024 .f32) : Vec F S512x1024 .f32 :=
  vS3.read (Elt F) (vS3.writes (Elt F) vS3.junk (runZero3 c i arg2 harg2 arg3 harg3 arg4 harg4 arg5 harg5 arg6 harg6 hc0 hc1 x0 x1 x2).2.1)

def out3_M_3 (c : Dev nD) (i : grid3.Coords) (arg2 : Memref sig .tc .vmem S512x1024 .bf16) (harg2 : arg2.IsWhole) (arg3 : Memref sig .tc .vmem S10240x1024 .bf16) (harg3 : arg3.IsWhole) (arg4 : Memref sig .tc .vmem S1x1024 .f32) (harg4 : arg4.IsWhole) (arg5 : Memref sig .tc .vmem S512x1024 .bf16) (harg5 : arg5.IsWhole) (arg6 : Memref sig .tc .vmem S512x1024 .f32) (harg6 : arg6.IsWhole) (hc0 : ¬zeroC3 i) (hc1 : ¬flushC3 i)
    (x0 : Vec F S512x1024 .bf16) (x1 : Vec F S10240x1024 .bf16) (x2 : Vec F S1x1024 .f32) (xs : Vec F S512x1024 .f32) : Vec F S512x1024 .bf16 :=
  vO3.read (Elt F) (vO3.writes (Elt F) vO3.junk (runMid3 c i arg2 harg2 arg3 harg3 arg4 harg4 arg5 harg5 arg6 harg6 hc0 hc1 x0 x1 x2 xs).1)

/-- For `0 < k < 9` the accumulator's one store covers it. -/
theorem scover3_M (c : Dev nD) (i : grid3.Coords) (arg2 : Memref sig .tc .vmem S512x1024 .bf16) (harg2 : arg2.IsWhole) (arg3 : Memref sig .tc .vmem S10240x1024 .bf16) (harg3 : arg3.IsWhole) (arg4 : Memref sig .tc .vmem S1x1024 .f32) (harg4 : arg4.IsWhole) (arg5 : Memref sig .tc .vmem S512x1024 .bf16) (harg5 : arg5.IsWhole) (arg6 : Memref sig .tc .vmem S512x1024 .f32) (harg6 : arg6.IsWhole) (hc0 : ¬zeroC3 i) (hc1 : ¬flushC3 i)
    (x0 : Vec F S512x1024 .bf16) (x1 : Vec F S10240x1024 .bf16) (x2 : Vec F S1x1024 .f32) (xs : Vec F S512x1024 .f32) (y : S512x1024.Idx) :
    ∃ pc ∈ (runMid3 c i arg2 harg2 arg3 harg3 arg4 harg4 arg5 harg5 arg6 harg6 hc0 hc1 x0 x1 x2 xs).2.1, y ∈ pc.1.set :=
  View.cover_of_tiledL (runMid3 c i arg2 harg2 arg3 harg3 arg4 harg4 arg5 harg5 arg6 harg6 hc0 hc1 x0 x1 x2 xs).2.1 S512x1024.size (by sl_kernel_rfl) y

/-- What the case `0 < k < 9` leaves in the accumulator, over what the point before left (`xs`). -/
def acc3_M (c : Dev nD) (i : grid3.Coords) (arg2 : Memref sig .tc .vmem S512x1024 .bf16) (harg2 : arg2.IsWhole) (arg3 : Memref sig .tc .vmem S10240x1024 .bf16) (harg3 : arg3.IsWhole) (arg4 : Memref sig .tc .vmem S1x1024 .f32) (harg4 : arg4.IsWhole) (arg5 : Memref sig .tc .vmem S512x1024 .bf16) (harg5 : arg5.IsWhole) (arg6 : Memref sig .tc .vmem S512x1024 .f32) (harg6 : arg6.IsWhole) (hc0 : ¬zeroC3 i) (hc1 : ¬flushC3 i)
    (x0 : Vec F S512x1024 .bf16) (x1 : Vec F S10240x1024 .bf16) (x2 : Vec F S1x1024 .f32) (xs : Vec F S512x1024 .f32) : Vec F S512x1024 .f32 :=
  vS3.read (Elt F) (vS3.writes (Elt F) vS3.junk (runMid3 c i arg2 harg2 arg3 harg3 arg4 harg4 arg5 harg5 arg6 harg6 hc0 hc1 x0 x1 x2 xs).2.1)

/-- At `k = 9` the one store into the result buffer covers it. -/
theorem cover3_L_3 (c : Dev nD) (i : grid3.Coords) (arg2 : Memref sig .tc .vmem S512x1024 .bf16) (harg2 : arg2.IsWhole) (arg3 : Memref sig .tc .vmem S10240x1024 .bf16) (harg3 : arg3.IsWhole) (arg4 : Memref sig .tc .vmem S1x1024 .f32) (harg4 : arg4.IsWhole) (arg5 : Memref sig .tc .vmem S512x1024 .bf16) (harg5 : arg5.IsWhole) (arg6 : Memref sig .tc .vmem S512x1024 .f32) (harg6 : arg6.IsWhole) (hc0 : ¬zeroC3 i) (hc1 : flushC3 i)
    (x0 : Vec F S512x1024 .bf16) (x1 : Vec F S10240x1024 .bf16) (x2 : Vec F S1x1024 .f32) (xs : Vec F S512x1024 .f32) (y : S512x1024.Idx) :
    ∃ pc ∈ (runLast3 c i arg2 harg2 arg3 harg3 arg4 harg4 arg5 harg5 arg6 harg6 hc0 hc1 x0 x1 x2 xs).1, y ∈ pc.1.set :=
  View.cover_of_tiledL (runLast3 c i arg2 harg2 arg3 harg3 arg4 harg4 arg5 harg5 arg6 harg6 hc0 hc1 x0 x1 x2 xs).1 S512x1024.size (by sl_kernel_rfl) y

/-- THE RESULT BLOCK: what the case `k = 9` leaves in the result buffer — the accumulated sum plus the bias row, in the
    result's format — as a term of the three input blocks and of the accumulator the point before left. -/
def out3_L_3 (c : Dev nD) (i : grid3.Coords) (arg2 : Memref sig .tc .vmem S512x1024 .bf16) (harg2 : arg2.IsWhole) (arg3 : Memref sig .tc .vmem S10240x1024 .bf16) (harg3 : arg3.IsWhole) (arg4 : Memref sig .tc .vmem S1x1024 .f32) (harg4 : arg4.IsWhole) (arg5 : Memref sig .tc .vmem S512x1024 .bf16) (harg5 : arg5.IsWhole) (arg6 : Memref sig .tc .vmem S512x1024 .f32) (harg6 : arg6.IsWhole) (hc0 : ¬zeroC3 i) (hc1 : flushC3 i)
    (x0 : Vec F S512x1024 .bf16) (x1 : Vec F S10240x1024 .bf16) (x2 : Vec F S1x1024 .f32) (xs : Vec F S512x1024 .f32) : Vec F S512x1024 .bf16 :=
  vO3.read (Elt F) (vO3.writes (Elt F) vO3.junk (runLast3 c i arg2 harg2 arg3 harg3 arg4 harg4 arg5 harg5 arg6 harg6 hc0 hc1 x0 x1 x2 xs).1)

/-- At `k = 9` the accumulator's one store covers it. -/
theorem scover3_L (c : Dev nD) (i : grid3.Coords) (arg2 : Memref sig .tc .vmem S512x1024 .bf16) (harg2 : arg2.IsWhole) (arg3 : Memref sig .tc .vmem S10240x1024 .bf16) (harg3 : arg3.IsWhole) (arg4 : Memref sig .tc .vmem S1x1024 .f32) (harg4 : arg4.IsWhole) (arg5 : Memref sig .tc .vmem S512x1024 .bf16) (harg5 : arg5.IsWhole) (arg6 : Memref sig .tc .vmem S512x1024 .f32) (harg6 : arg6.IsWhole) (hc0 : ¬zeroC3 i) (hc1 : flushC3 i)
    (x0 : Vec F S512x1024 .bf16) (x1 : Vec F S10240x1024 .bf16) (x2 : Vec F S1x1024 .f32) (xs : Vec F S512x1024 .f32) (y : S512x1024.Idx) :
    ∃ pc ∈ (runLast3 c i arg2 harg2 arg3 harg3 arg4 harg4 arg5 harg5 arg6 harg6 hc0 hc1 x0 x1 x2 xs).2.1, y ∈ pc.1.set :=
  View.cover_of_tiledL (runLast3 c i arg2 harg2 arg3 harg3 arg4 harg4 arg5 harg5 arg6 harg6 hc0 hc1 x0 x1 x2 xs).2.1 S512x1024.size (by sl_kernel_rfl) y

/-- What the case `k = 9` leaves in the accumulator. -/
def acc3_L (c : Dev nD) (i : grid3.Coords) (arg2 : Memref sig .tc .vmem S512x1024 .bf16) (harg2 : arg2.IsWhole) (arg3 : Memref sig .tc .vmem S10240x1024 .bf16) (harg3 : arg3.IsWhole) (arg4 : Memref sig .tc .vmem S1x1024 .f32) (harg4 : arg4.IsWhole) (arg5 : Memref sig .tc .vmem S512x1024 .bf16) (harg5 : arg5.IsWhole) (arg6 : Memref sig .tc .vmem S512x1024 .f32) (harg6 : arg6.IsWhole) (hc0 : ¬zeroC3 i) (hc1 : flushC3 i)
    (x0 : Vec F S512x1024 .bf16) (x1 : Vec F S10240x1024 .bf16) (x2 : Vec F S1x1024 .f32) (xs : Vec F S512x1024 .f32) : Vec F S512x1024 .f32 :=
  vS3.read (Elt F) (vS3.writes (Elt F) vS3.junk (runLast3 c i arg2 harg2 arg3 harg3 arg4 harg4 arg5 harg5 arg6 harg6 hc0 hc1 x0 x1 x2 xs).2.1)

section Entry
variable (V : (c : Dev nD) → (b : Ref sig .tc) → Buf (Elt F) ((c : Thread nD τ).loc b))

/-! ## Point by point -/

/-- THE ACCUMULATION. After the body at position `n`: (the result buffer, the accumulator). The case is the one the
    closed forms select at `n`, run on the point's memrefs and input blocks; for `k > 0` the accumulator starts from what
    position `n - 1` left in it. The two conditions cannot hold together. -/
def outsAt3 (c : Dev nD) : (n : ℕ) → n < cfg3.N → Vec F S512x1024 .bf16 × Vec F S512x1024 .f32
  | 0, hn => (out3_Z_3 c (grid3.coords ⟨0, hn⟩) (mA3 ⟨0, hn⟩) (hA3 ⟨0, hn⟩) (mB3 ⟨0, hn⟩) (hB3 ⟨0, hn⟩) (mC3 ⟨0, hn⟩) (hC3 ⟨0, hn⟩) (mO3 ⟨0, hn⟩) (hO3 ⟨0, hn⟩) mS3 (Memref.isWhole_whole _) ((zeroC3_iff ⟨0, hn⟩).mpr (Nat.zero_mod _)) (fun h => (fun h => by (try dsimp only at h); omega) ((flushC3_iff ⟨0, hn⟩).mp h)) (iblk3 V c 0 ⟨0, hn⟩) (iblk3 V c 1 ⟨0, hn⟩) (iblk3 V c 2 ⟨0, hn⟩), acc3_Z c (grid3.coords ⟨0, hn⟩) (mA3 ⟨0, hn⟩) (hA3 ⟨0, hn⟩) (mB3 ⟨0, hn⟩) (hB3 ⟨0, hn⟩) (mC3 ⟨0, hn⟩) (hC3 ⟨0, hn⟩) (mO3 ⟨0, hn⟩) (hO3 ⟨0, hn⟩) mS3 (Memref.isWhole_whole _) ((zeroC3_iff ⟨0, hn⟩).mpr (Nat.zero_mod _)) (fun h => (fun h => by (try dsimp only at h); omega) ((flushC3_iff ⟨0, hn⟩).mp h)) (iblk3 V c 0 ⟨0, hn⟩) (iblk3 V c 1 ⟨0, hn⟩) (iblk3 V c 2 ⟨0, hn⟩))
  | n + 1, hn =>
    if h0 : (n + 1) % 10 = 0 then
      if h1 : (n + 1) % 10 = 9 then
        False.elim (by omega)
      else
        (out3_Z_3 c (grid3.coords ⟨n + 1, hn⟩) (mA3 ⟨n + 1, hn⟩) (hA3 ⟨n + 1, hn⟩) (mB3 ⟨n + 1, hn⟩) (hB3 ⟨n + 1, hn⟩) (mC3 ⟨n + 1, hn⟩) (hC3 ⟨n + 1, hn⟩) (mO3 ⟨n + 1, hn⟩) (hO3 ⟨n + 1, hn⟩) mS3 (Memref.isWhole_whole _) ((zeroC3_iff ⟨n + 1, hn⟩).mpr h0) (fun h => h1 ((flushC3_iff ⟨n + 1, hn⟩).mp h)) (iblk3 V c 0 ⟨n + 1, hn⟩) (iblk3 V c 1 ⟨n + 1, hn⟩) (iblk3 V c 2 ⟨n + 1, hn⟩), acc3_Z c (grid3.coords ⟨n + 1, hn⟩) (mA3 ⟨n + 1, hn⟩) (hA3 ⟨n + 1, hn⟩) (mB3 ⟨n + 1, hn⟩) (hB3 ⟨n + 1, hn⟩) (mC3 ⟨n + 1, hn⟩) (hC3 ⟨n + 1, hn⟩) (mO3 ⟨n + 1, hn⟩) (hO3 ⟨n + 1, hn⟩) mS3 (Memref.isWhole_whole _) ((zeroC3_iff ⟨n + 1, hn⟩).mpr h0) (fun h => h1 ((flushC3_iff ⟨n + 1, hn⟩).mp h)) (iblk3 V c 0 ⟨n + 1, hn⟩) (iblk3 V c 1 ⟨n + 1, hn⟩) (iblk3 V c 2 ⟨n + 1, hn⟩))
    else
      if h1 : (n + 1) % 10 = 9 then
        (out3_L_3 c (grid3.coords ⟨n + 1, hn⟩) (mA3 ⟨n + 1, hn⟩) (hA3 ⟨n + 1, hn⟩) (mB3 ⟨n + 1, hn⟩) (hB3 ⟨n + 1, hn⟩) (mC3 ⟨n + 1, hn⟩) (hC3 ⟨n + 1, hn⟩) (mO3 ⟨n + 1, hn⟩) (hO3 ⟨n + 1, hn⟩) mS3 (Memref.isWhole_whole _) (fun h => h0 ((zeroC3_iff ⟨n + 1, hn⟩).mp h)) ((flushC3_iff ⟨n + 1, hn⟩).mpr h1) (iblk3 V c 0 ⟨n + 1, hn⟩) (iblk3 V c 1 ⟨n + 1, hn⟩) (iblk3 V c 2 ⟨n + 1, hn⟩) (outsAt3 c n (Nat.lt_of_succ_lt hn)).2, acc3_L c (grid3.coords ⟨n + 1, hn⟩) (mA3 ⟨n + 1, hn⟩) (hA3 ⟨n + 1, hn⟩) (mB3 ⟨n + 1, hn⟩) (hB3 ⟨n + 1, hn⟩) (mC3 ⟨n + 1, hn⟩) (hC3 ⟨n + 1, hn⟩) (mO3 ⟨n + 1, hn⟩) (hO3 ⟨n + 1, hn⟩) mS3 (Memref.isWhole_whole _) (fun h => h0 ((zeroC3_iff ⟨n + 1, hn⟩).mp h)) ((flushC3_iff ⟨n + 1, hn⟩).mpr h1) (iblk3 V c 0 ⟨n + 1, hn⟩) (iblk3 V c 1 ⟨n + 1, hn⟩) (iblk3 V c 2 ⟨n + 1, hn⟩) (outsAt3 c n (Nat.lt_of_succ_lt hn)).2)
      else
        (out3_M_3 c (grid3.coords ⟨n + 1, hn⟩) (mA3 ⟨n + 1, hn⟩) (hA3 ⟨n + 1, hn⟩) (mB3 ⟨n + 1, hn⟩) (hB3 ⟨n + 1, hn⟩) (mC3 ⟨n + 1, hn⟩) (hC3 ⟨n + 1, hn⟩) (mO3 ⟨n + 1, hn⟩) (hO3 ⟨n + 1, hn⟩) mS3 (Memref.isWhole_whole _) (fun h => h0 ((zeroC3_iff ⟨n + 1, hn⟩).mp h)) (fun h => h1 ((flushC3_iff ⟨n + 1, hn⟩).mp h)) (iblk3 V c 0 ⟨n + 1, hn⟩) (iblk3 V c 1 ⟨n + 1, hn⟩) (iblk3 V c 2 ⟨n + 1, hn⟩) (outsAt3 c n (Nat.lt_of_succ_lt hn)).2, acc3_M c (grid3.coords ⟨n + 1, hn⟩) (mA3 ⟨n + 1, hn⟩) (hA3 ⟨n + 1, hn⟩) (mB3 ⟨n + 1, hn⟩) (hB3 ⟨n + 1, hn⟩) (mC3 ⟨n + 1, hn⟩) (hC3 ⟨n + 1, hn⟩) (mO3 ⟨n + 1, hn⟩) (hO3 ⟨n + 1, hn⟩) mS3 (Memref.isWhole_whole _) (fun h => h0 ((zeroC3_iff ⟨n + 1, hn⟩).mp h)) (fun h => h1 ((flushC3_iff ⟨n + 1, hn⟩).mp h)) (iblk3 V c 0 ⟨n + 1, hn⟩) (iblk3 V c 1 ⟨n + 1, hn⟩) (iblk3 V c 2 ⟨n + 1, hn⟩) (outsAt3 c n (Nat.lt_of_succ_lt hn)).2)

/-- `outsAt3` at a point with `k = 0`. -/
theorem outsAt3_Z (c : Dev nD) (t : Fin cfg3.N) (h0 : t.val % 10 = 0) (h1 : ¬t.val % 10 = 9) :
    outsAt3 V c t.val t.isLt = (out3_Z_3 c (grid3.coords t) (mA3 t) (hA3 t) (mB3 t) (hB3 t) (mC3 t) (hC3 t) (mO3 t) (hO3 t) mS3 (Memref.isWhole_whole _) ((zeroC3_iff t).mpr h0) (fun h => h1 ((flushC3_iff t).mp h)) (iblk3 V c 0 t) (iblk3 V c 1 t) (iblk3 V c 2 t), acc3_Z c (grid3.coords t) (mA3 t) (hA3 t) (mB3 t) (hB3 t) (mC3 t) (hC3 t) (mO3 t) (hO3 t) mS3 (Memref.isWhole_whole _) ((zeroC3_iff t).mpr h0) (fun h => h1 ((flushC3_iff t).mp h)) (iblk3 V c 0 t) (iblk3 V c 1 t) (iblk3 V c 2 t)) := by
  obtain ⟨n, hn⟩ := t
  cases n with
  | zero => exact rfl
  | succ n => exact (dif_pos h0).trans ((dif_neg h1).trans rfl)

/-- `outsAt3` at a point with `0 < k < 9`: over what the point before left. -/
theorem outsAt3_M (c : Dev nD) (t : Fin cfg3.N) (h0 : ¬t.val % 10 = 0) (h1 : ¬t.val % 10 = 9) :
    outsAt3 V c t.val t.isLt = (out3_M_3 c (grid3.coords t) (mA3 t) (hA3 t) (mB3 t) (hB3 t) (mC3 t) (hC3 t) (mO3 t) (hO3 t) mS3 (Memref.isWhole_whole _) (fun h => h0 ((zeroC3_iff t).mp h)) (fun h => h1 ((flushC3_iff t).mp h)) (iblk3 V c 0 t) (iblk3 V c 1 t) (iblk3 V c 2 t) (outsAt3 V c (t.val - 1) (Nat.lt_of_le_of_lt (Nat.sub_le _ _) t.isLt)).2, acc3_M c (grid3.coords t) (mA3 t) (hA3 t) (mB3 t) (hB3 t) (mC3 t) (hC3 t) (mO3 t) (hO3 t) mS3 (Memref.isWhole_whole _) (fun h => h0 ((zeroC3_iff t).mp h)) (fun h => h1 ((flushC3_iff t).mp h)) (iblk3 V c 0 t) (iblk3 V c 1 t) (iblk3 V c 2 t) (outsAt3 V c (t.val - 1) (Nat.lt_of_le_of_lt (Nat.sub_le _ _) t.isLt)).2) := by
  obtain ⟨n, hn⟩ := t
  cases n with
  | zero => exact (by exfalso; (try dsimp only at h0); exact absurd (Nat.zero_mod _) h0)
  | succ n => exact (dif_neg h0).trans ((dif_neg h1).trans rfl)

/-- `outsAt3` at a point with `k = 9`: over what the point before left. -/
theorem outsAt3_L (c : Dev nD) (t : Fin cfg3.N) (h0 : ¬t.val % 10 = 0) (h1 : t.val % 10 = 9) :
    outsAt3 V c t.val t.isLt = (out3_L_3 c (grid3.coords t) (mA3 t) (hA3 t) (mB3 t) (hB3 t) (mC3 t) (hC3 t) (mO3 t) (hO3 t) mS3 (Memref.isWhole_whole _) (fun h => h0 ((zeroC3_iff t).mp h)) ((flushC3_iff t).mpr h1) (iblk3 V c 0 t) (iblk3 V c 1 t) (iblk3 V c 2 t) (outsAt3 V c (t.val - 1) (Nat.lt_of_le_of_lt (Nat.sub_le _ _) t.isLt)).2, acc3_L c (grid3.coords t) (mA3 t) (hA3 t) (mB3 t) (hB3 t) (mC3 t) (hC3 t) (mO3 t) (hO3 t) mS3 (Memref.isWhole_whole _) (fun h => h0 ((zeroC3_iff t).mp h)) ((flushC3_iff t).mpr h1) (iblk3 V c 0 t) (iblk3 V c 1 t) (iblk3 V c 2 t) (outsAt3 V c (t.val - 1) (Nat.lt_of_le_of_lt (Nat.sub_le _ _) t.isLt)).2) := by
  obtain ⟨n, hn⟩ := t
  cases n with
  | zero => exact (by exfalso; (try dsimp only at h0); exact absurd (Nat.zero_mod _) h0)
  | succ n => exact (dif_neg h0).trans ((dif_pos h1).trans rfl)

/-! ## The invariant -/

/-- The region invariant before position `n`: before the first point the class's (the accumulator at anything);
    afterwards the accumulator at what the point before left in it, the other scoped buffers and the generator
    register as ever. -/
def PhiS3 (c : Dev nD) : (n : ℕ) → n ≤ cfg3.N → sProp 𝕄
  | 0, _ => Pipeline.ΦA spec3 c
  | n + 1, hn => iprop(iprop(owns (c : Thread nD τ) mS3 fullShare ((outsAt3 V c n hn).2) ∗ rest3 (F := F) c) ∗ (∃ r, prngReg c r))

theorem PhiS3_zero (c : Dev nD) (n : ℕ) (h : n ≤ cfg3.N) (hz : n = 0) : PhiS3 V c n h = Pipeline.ΦA spec3 c := by
  subst hz; rfl

theorem PhiS3_succ (c : Dev nD) (n : ℕ) (hn : n < cfg3.N) :
    PhiS3 V c (n + 1) hn = iprop(iprop(owns (c : Thread nD τ) mS3 fullShare ((outsAt3 V c n hn).2) ∗ rest3 (F := F) c) ∗ (∃ r, prngReg c r)) := rfl

theorem PhiS3_pos (c : Dev nD) (n : ℕ) (h : n ≤ cfg3.N) (hz : n ≠ 0) :
    PhiS3 V c n h = iprop(iprop(owns (c : Thread nD τ) mS3 fullShare ((outsAt3 V c (n - 1) (by omega)).2) ∗ rest3 (F := F) c) ∗ (∃ r, prngReg c r)) := by
  cases n with
  | zero => exact absurd rfl hz
  | succ n => rfl

/-! ## The proof data -/

/-- The proof data of region 3's pipeline on core `c`: the arrays as the region finds them; after the body at point
    `t` each input's buffer at its block and the result's at `outsAt3`'s first component; the invariant `PhiS3`;
    nothing owed; full shares. -/
def dat3 (c : Dev nD) : Dat τ (Elt F) Unit ℕ (UR sig nD τ) ℕ cfg3 c where
  A w := V c (Pipeline.arrRef spec3 w)
  after w t := match w with
    | ⟨0, _⟩ => iblk3 V c 0 t
    | ⟨1, _⟩ => iblk3 V c 1 t
    | ⟨2, _⟩ => iblk3 V c 2 t
    | ⟨3, _⟩ => (outsAt3 V c t.val t.isLt).1
  Φ t := PhiS3 V c t.val (Nat.le_of_lt_succ t.isLt)
  q _ := fullShare
  owed _ := 0

/-- The proof data's arrays are the region-entry contents (the definition projected, `V` never unfolded). -/
theorem A_eq3 (c : Dev nD) (w : Fin cfg3.W) : (dat3 V c).A w = V c (Pipeline.arrRef spec3 w) := by
  dsimp only [dat3]

/-- The invariant at a point's start, restated at `t.val`. -/
theorem PhiS3_castSucc (c : Dev nD) (t : Fin cfg3.N) :
    (dat3 V c).Φ t.castSucc = PhiS3 V c t.val (Nat.le_of_lt t.isLt) := by
  dsimp only [dat3]; simp only [Fin.coe_castSucc]

/-- What the body leaves, window by window. -/
theorem after3_0 (c : Dev nD) (t : Fin cfg3.N) : (dat3 V c).after 0 t = iblk3 V c 0 t := by dsimp only [dat3]
theorem after3_1 (c : Dev nD) (t : Fin cfg3.N) : (dat3 V c).after 1 t = iblk3 V c 1 t := by dsimp only [dat3]
theorem after3_2 (c : Dev nD) (t : Fin cfg3.N) : (dat3 V c).after 2 t = iblk3 V c 2 t := by dsimp only [dat3]
theorem after3_3 (c : Dev nD) (t : Fin cfg3.N) : (dat3 V c).after 3 t = (outsAt3 V c t.val t.isLt).1 := by dsimp only [dat3]

/-- Each input's current staging buffer holds its block at every point. -/
theorem before3_0 (c : Dev nD) (t : Fin cfg3.N) (d) : (dat3 V c).before 0 t d = iblk3 V c 0 t :=
  before3_0_of V (dat3 V c) (A_eq3 V c 0) (after3_0 V c) t d
theorem before3_1 (c : Dev nD) (t : Fin cfg3.N) (d) : (dat3 V c).before 1 t d = iblk3 V c 1 t :=
  before3_1_of V (dat3 V c) (A_eq3 V c 1) (after3_1 V c) t d
theorem before3_2 (c : Dev nD) (t : Fin cfg3.N) (d) : (dat3 V c).before 2 t d = iblk3 V c 2 t :=
  before3_2_of V (dat3 V c) (A_eq3 V c 2) (after3_2 V c) t d

/-! ## The body obligation, at a generic point -/

/-- What the body is called with at point `t`, the windows one by one, -/
def bodyPre3 (c : Dev nD) (t : Fin cfg3.N) : sProp 𝕄 :=
  iprop((dat3 V c).Φ t.castSucc ∗ (dat3 V c).owesAt () t.castSucc
    ∗ (∃ d, owns (c : Thread nD τ) (mA3 t) fullShare ((dat3 V c).before 0 t d))
    ∗ (∃ d, owns (c : Thread nD τ) (mB3 t) fullShare ((dat3 V c).before 1 t d))
    ∗ (∃ d, owns (c : Thread nD τ) (mC3 t) fullShare ((dat3 V c).before 2 t d))
    ∗ (∃ d, owns (c : Thread nD τ) (mO3 t) fullShare ((dat3 V c).before 3 t d)))

/-- and what it returns. -/
def bodyPost3 (c : Dev nD) (t : Fin cfg3.N) : sProp 𝕄 :=
  iprop((dat3 V c).Φ t.succ ∗ (dat3 V c).owesAt () t.succ
    ∗ (dat3 V c).leavesExact 0 t
    ∗ (dat3 V c).leavesExact 1 t
    ∗ (dat3 V c).leavesExact 2 t
    ∗ (dat3 V c).leavesExact 3 t)

set_option maxHeartbeats 4800000 in
/-- The body at any point. The inputs' memrefs hold their blocks; the closed forms say which control case the point is
    in, and that case's run applies. The invariant hands the body the accumulator at what the point before left (at
    anything before the first point) and takes it back at this point's contents, its stores covering it; where the
    result window is idle its buffer goes back as found, and at `k = 9` its one store covers it. The other scoped
    buffers, the generator register and what the core owes pass through. -/
theorem sound_body3 (c : Dev nD) (t : Fin cfg3.N) :
    bodyPre3 V c t ⊢ wp frame (wpE (defs₀ (F := F)) Variants.none c none) Set.univ (bodyAt3 t) (fun _ => bodyPost3 V c t) := by
  unfold bodyPre3 bodyPost3 bodyAt3
  simp only [before3_0, before3_1, before3_2]
  rw [show (dat3 V c).owesAt () t.succ = (dat3 V c).owesAt () t.castSucc from rfl]
  rw [show (dat3 V c).Φ t.succ = PhiS3 V c (t.val + 1) t.isLt from rfl, PhiS3_succ]
  rw [show (dat3 V c).leavesExact 0 t = owns (c : Thread nD τ) (mA3 t) fullShare ((dat3 V c).after 0 t) from by
    unfold Dat.leavesExact; rw [live3_0 t], after3_0]
  rw [show (dat3 V c).leavesExact 1 t = owns (c : Thread nD τ) (mB3 t) fullShare ((dat3 V c).after 1 t) from by
    unfold Dat.leavesExact; rw [live3_1 t], after3_1]
  rw [show (dat3 V c).leavesExact 2 t = owns (c : Thread nD τ) (mC3 t) fullShare ((dat3 V c).after 2 t) from by
    unfold Dat.leavesExact; rw [live3_2 t], after3_2]
  have hN : t.val < 200 := lt_of_lt_of_eq t.isLt (show cfg3.N = 200 from N_3)
  by_cases h0 : t.val % 10 = 0
  · by_cases h1 : t.val % 10 = 9
    · exfalso; omega
    · rw [Dat.leavesExact_idle (dat3 V c) 3 t (idle3_3 t (fun h => h1 ((flushC3_iff t).mp h))) (noFlush3_3 t (fun h => h1 ((flushC3_iff t).mp h)))]
      rw [outsAt3_Z V c t h0 h1]
      unfold acc3_Z; (try dsimp only)
      by_cases hz : t.val = 0
      · rw [PhiS3_castSucc V c t, PhiS3_zero V c _ _ hz, PhiA3_eq]
        iintro ⟨⟨⟨HS, Hr⟩, Hg⟩, Ho, ⟨%d0, H0⟩, ⟨%d1, H1⟩, ⟨%d2, H2⟩, ⟨%d3, H3⟩⟩
        iapply ((runZero3 c (grid3.coords t) _ _ _ _ _ _ _ _ _ _ ((zeroC3_iff t).mpr h0) (fun h => h1 ((flushC3_iff t).mp h)) (iblk3 V c 0 t) (iblk3 V c 1 t) (iblk3 V c 2 t)).2.2 _ Set.univ _)
        isplitl [H0]; · iexact H0
        isplitl [H1]; · iexact H1
        isplitl [H2]; · iexact H2
        isplitl [H3]; · iexact H3
        isplitl [HS]; · iexact HS
        iintro ⟨H0, H1, H2, H3, ⟨%es, HS⟩⟩
        isplitl [HS Hr Hg]
        · isplitl [HS Hr]
          · isplitl [HS]
            · unfold owns; iexists _; isplitr
              swap; · iexact HS
              ipureintro; exact View.read_writes_of_cover _ _ _ _ _ (scover3_Z c _ _ _ _ _ _ _ _ _ _ _ _ _ _ _ _)
            iexact Hr
          iexact Hg
        isplitl [Ho]; · iexact Ho
        isplitl [H0]; · iexact H0
        isplitl [H1]; · iexact H1
        isplitl [H2]; · iexact H2
        iexists _; iexact H3
      · rw [PhiS3_castSucc V c t, PhiS3_pos V c _ _ hz]
        iintro ⟨⟨⟨HS, Hr⟩, Hg⟩, Ho, ⟨%d0, H0⟩, ⟨%d1, H1⟩, ⟨%d2, H2⟩, ⟨%d3, H3⟩⟩
        iapply ((runZero3 c (grid3.coords t) _ _ _ _ _ _ _ _ _ _ ((zeroC3_iff t).mpr h0) (fun h => h1 ((flushC3_iff t).mp h)) (iblk3 V c 0 t) (iblk3 V c 1 t) (iblk3 V c 2 t)).2.2 _ Set.univ _)
        isplitl [H0]; · iexact H0
        isplitl [H1]; · iexact H1
        isplitl [H2]; · iexact H2
        isplitl [H3]; · iexact H3
        isplitl [HS]; · iexists _; iexact HS
        iintro ⟨H0, H1, H2, H3, ⟨%es, HS⟩⟩
        isplitl [HS Hr Hg]
        · isplitl [HS Hr]
          · isplitl [HS]
            · unfold owns; iexists _; isplitr
              swap; · iexact HS
              ipureintro; exact View.read_writes_of_cover _ _ _ _ _ (scover3_Z c _ _ _ _ _ _ _ _ _ _ _ _ _ _ _ _)
            iexact Hr
          iexact Hg
        isplitl [Ho]; · iexact Ho
        isplitl [H0]; · iexact H0
        isplitl [H1]; · iexact H1
        isplitl [H2]; · iexact H2
        iexists _; iexact H3
  · have hz : t.val ≠ 0 := fun e => h0 (by rw [e])
    by_cases h1 : t.val % 10 = 9
    · rw [show (dat3 V c).leavesExact 3 t = owns (c : Thread nD τ) (mO3 t) fullShare ((dat3 V c).after 3 t) from by
        unfold Dat.leavesExact; rw [live3_3 t ((flushC3_iff t).mpr h1)], after3_3]
      rw [outsAt3_L V c t h0 h1]
      unfold out3_L_3 acc3_L; (try dsimp only)
      rw [PhiS3_castSucc V c t, PhiS3_pos V c _ _ hz]
      iintro ⟨⟨⟨HS, Hr⟩, Hg⟩, Ho, ⟨%d0, H0⟩, ⟨%d1, H1⟩, ⟨%d2, H2⟩, ⟨%d3, H3⟩⟩
      iapply ((runLast3 c (grid3.coords t) _ _ _ _ _ _ _ _ _ _ (fun h => h0 ((zeroC3_iff t).mp h)) ((flushC3_iff t).mpr h1) (iblk3 V c 0 t) (iblk3 V c 1 t) (iblk3 V c 2 t) _).2.2 Set.univ _)
      isplitl [H0]; · iexact H0
      isplitl [H1]; · iexact H1
      isplitl [H2]; · iexact H2
      isplitl [H3]; · iexists _; iexact H3
      isplitl [HS]; · iexact HS
      iintro ⟨H0, H1, H2, ⟨%e3, H3⟩, ⟨%es, HS⟩⟩
      isplitl [HS Hr Hg]
      · isplitl [HS Hr]
        · isplitl [HS]
          · unfold owns; iexists _; isplitr
            swap; · iexact HS
            ipureintro; exact View.read_writes_of_cover _ _ _ _ _ (scover3_L c _ _ _ _ _ _ _ _ _ _ _ _ _ _ _ _ _)
          iexact Hr
        iexact Hg
      isplitl [Ho]; · iexact Ho
      isplitl [H0]; · iexact H0
      isplitl [H1]; · iexact H1
      isplitl [H2]; · iexact H2
      unfold owns; iexists _; isplitr
      swap; · iexact H3
      ipureintro; exact View.read_writes_of_cover _ _ _ _ _ (cover3_L_3 c _ _ _ _ _ _ _ _ _ _ _ _ _ _ _ _ _)
    · rw [Dat.leavesExact_idle (dat3 V c) 3 t (idle3_3 t (fun h => h1 ((flushC3_iff t).mp h))) (noFlush3_3 t (fun h => h1 ((flushC3_iff t).mp h)))]
      rw [outsAt3_M V c t h0 h1]
      unfold acc3_M; (try dsimp only)
      rw [PhiS3_castSucc V c t, PhiS3_pos V c _ _ hz]
      iintro ⟨⟨⟨HS, Hr⟩, Hg⟩, Ho, ⟨%d0, H0⟩, ⟨%d1, H1⟩, ⟨%d2, H2⟩, ⟨%d3, H3⟩⟩
      iapply ((runMid3 c (grid3.coords t) _ _ _ _ _ _ _ _ _ _ (fun h => h0 ((zeroC3_iff t).mp h)) (fun h => h1 ((flushC3_iff t).mp h)) (iblk3 V c 0 t) (iblk3 V c 1 t) (iblk3 V c 2 t) _).2.2 _ Set.univ _)
      isplitl [H0]; · iexact H0
      isplitl [H1]; · iexact H1
      isplitl [H2]; · iexact H2
      isplitl [H3]; · iexact H3
      isplitl [HS]; · iexact HS
      iintro ⟨H0, H1, H2, H3, ⟨%es, HS⟩⟩
      isplitl [HS Hr Hg]
      · isplitl [HS Hr]
        · isplitl [HS]
          · unfold owns; iexists _; isplitr
            swap; · iexact HS
            ipureintro; exact View.read_writes_of_cover _ _ _ _ _ (scover3_M c _ _ _ _ _ _ _ _ _ _ _ _ _ _ _ _ _)
          iexact Hr
        iexact Hg
      isplitl [Ho]; · iexact Ho
      isplitl [H0]; · iexact H0
      isplitl [H1]; · iexact H1
      isplitl [H2]; · iexact H2
      iexists _; iexact H3

/-- The library's body obligation, at every point. -/
theorem body_obligation3 (c : Dev nD) : BodyObligation (dat3 (F := F) V c) (defs₀ (F := F)) Variants.none () Set.univ := fun t => by
  rw [bigSep_W3, bigSep_W3]
  exact sound_body3 V c t

/-- What the launch hands the region is the invariant before the first point. -/
theorem hin3 (c : Dev nD) : Pipeline.ΦA spec3 c ⊢ (dat3 V c).Φ 0 := by
  rw [show (dat3 V c).Φ 0 = PhiS3 V c 0 (Nat.zero_le _) from rfl, PhiS3_zero V c 0 _ rfl]
  try exact Idealize.SL.BI.Entails.refl _

/-- After any point the invariant gives the class's back: the accumulator's named contents are forgotten. -/
theorem Phi_out3 (c : Dev nD) (t : Fin (cfg3.N + 1)) (ht : t.val ≠ 0) : (dat3 V c).Φ t ⊢ Pipeline.ΦA spec3 c := by
  rw [show (dat3 V c).Φ t = PhiS3 V c t.val (Nat.le_of_lt_succ t.isLt) from rfl, PhiS3_pos V c _ _ ht, PhiA3_eq]
  iintro ⟨⟨HS, Hr⟩, Hg⟩
  isplitl [HS Hr]
  · isplitl [HS]
    · iexists _; iexact HS
    iexact Hr
  iexact Hg

/-- The same after the last point. -/
theorem hout3 (c : Dev nD) : (dat3 V c).Φ (Fin.last cfg3.N) ⊢ Pipeline.ΦA spec3 c :=
  Phi_out3 V c _ (by rw [Fin.val_last]; have : cfg3.N = 200 := N_3; omega)

end Entry

end Cert.KernelIdeal.Rg

end
-- ==== Proof.KI.Reg4.lean ====
/- Stage-1 region 4 (custom_call 4): the per-region half of the frame argument, at the buffer
   contents `V` found when the region is entered. One row block of the left operand times the whole
   right operand, plus the bias row, written to the result's row block. -/
import proofs.«181230_j19834158973077_2_alg».proof.Proof.Gen.KernelIdeal.Launch
import proofs.«181230_j19834158973077_2_alg».proof.Proof.Gen.KernelIdeal.Skeleton
import proofs.«181230_j19834158973077_2_alg».proof.Proof.Gen.KernelIdeal.Points
import Idealize.ShloMosaic.Lib.Pipeline.FrameBody
import Idealize.ShloMosaic.Lib.Ring
import Idealize.ShloMosaic.Lib.Tactic

-- membership in a rectangle of full extents recurses once per coordinate of the long axes
set_option maxRecDepth 16384

noncomputable section

namespace Cert.KernelIdeal.Rg

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

-- the TensorCore's buffer contents when the region is entered
variable (V : (c : Dev nD) → (b : Ref sig .tc) → Buf (Elt F) ((c : Thread nD τ).loc b))

/-! ## The windows' blocks -/

/-- Window `w`'s block at point `t`, read off its array as the region finds it. -/
def iblk4 (c : Dev nD) (w : Fin cfg4.W) (t : Fin cfg4.N) : ((cfg4.win w).xblock (cfg4.grid.coords t)).Idx → Elt F (cfg4.win w).elt :=
  ((cfg4.win w).blk t).view.read (Elt F) (V c (Pipeline.arrRef spec4 w))

/-- Input window 0's current staging buffer holds its block at every point, fetched there or not: where it is
    not fetched the block index has not moved, and the body leaves the block in place. -/
theorem before4_0_of {c : Dev nD} (dat : Dat τ (Elt F) Unit ℕ (UR sig nD τ) ℕ cfg4 c) (hA : dat.A 0 = V c (Pipeline.arrRef spec4 0))
    (hafter : ∀ t, dat.after 0 t = iblk4 V c 0 t) (t : Fin cfg4.N) (d) : dat.before 0 t d = iblk4 V c 0 t :=
  (dat.before_in_eq_fetched 0 rfl (fun _ => rfl) (fun _ _ _ => rfl) (fun t => by rw [hafter]; unfold Dat.blockOf iblk4; rw [hA]; try rfl) t d).trans
    (by unfold Dat.fetched Dat.blockOf iblk4; rw [hA]; try rfl)

/-- Input window 1's current staging buffer holds its block at every point, fetched there or not: where it is
    not fetched the block index has not moved, and the body leaves the block in place. -/
theorem before4_1_of {c : Dev nD} (dat : Dat τ (Elt F) Unit ℕ (UR sig nD τ) ℕ cfg4 c) (hA : dat.A 1 = V c (Pipeline.arrRef spec4 1))
    (hafter : ∀ t, dat.after 1 t = iblk4 V c 1 t) (t : Fin cfg4.N) (d) : dat.before 1 t d = iblk4 V c 1 t :=
  (dat.before_in_eq_fetched 1 rfl (fun _ => rfl) (fun _ _ _ => rfl) (fun t => by rw [hafter]; unfold Dat.blockOf iblk4; rw [hA]; try rfl) t d).trans
    (by unfold Dat.fetched Dat.blockOf iblk4; rw [hA]; try rfl)

/-- Input window 2's current staging buffer holds its block at every point, fetched there or not: where it is
    not fetched the block index has not moved, and the body leaves the block in place. -/
theorem before4_2_of {c : Dev nD} (dat : Dat τ (Elt F) Unit ℕ (UR sig nD τ) ℕ cfg4 c) (hA : dat.A 2 = V c (Pipeline.arrRef spec4 2))
    (hafter : ∀ t, dat.after 2 t = iblk4 V c 2 t) (t : Fin cfg4.N) (d) : dat.before 2 t d = iblk4 V c 2 t :=
  (dat.before_in_eq_fetched 2 rfl (fun _ => rfl) (fun _ _ _ => rfl) (fun t => by rw [hafter]; unfold Dat.blockOf iblk4; rw [hA]; try rfl) t d).trans
    (by unfold Dat.fetched Dat.blockOf iblk4; rw [hA]; try rfl)

/-! ## The body's accesses: each staging buffer whole -/

abbrev r4_0 : Rect S1024x1024 := Rect.unit (s := S1024x1024) ![0, 0] S1024x1024.size inb_S1024x1024_S1024x1024_0_0
abbrev r4_1 : Rect S1024x1024 := Rect.unit (s := S1024x1024) ![0, 0] S1024x1024.size inb_S1024x1024_S1024x1024_0_0
abbrev r4_2 : Rect S1x1024 := Rect.unit (s := S1x1024) ![0, 0] S1x1024.size inb_S1x1024_S1x1024_0_0
abbrev r4_3 : Rect S1024x1024 := Rect.unit (s := S1024x1024) ![0, 0] S1024x1024.size inb_S1024x1024_S1024x1024_0_0

/-! ## What the body leaves in the result's buffer -/

/-- The result window's staging buffer after the body, from the three input blocks: its one whole-block store
    of the payload (product into a zero accumulator, plus the bias row, then the format change). -/
def out4_3 (x0 : Vec F S1024x1024 .bf16) (x1 : Vec F S1024x1024 .bf16) (x2 : Vec F S1x1024 .f32) : Vec F S1024x1024 .bf16 :=
  View.canon [⟨r4_3, k4_pay1 (View.ld x0 r4_0) (View.ld x1 r4_1) (View.ld x2 r4_2)⟩]

/-- The one store is the whole buffer, so it covers it. -/
theorem cover4_3 (p0 : Vec F S1024x1024 .bf16) (y : S1024x1024.Idx) :
    ∃ pc ∈ ([⟨r4_3, p0⟩] : List (View.Piece (Elt F) S1024x1024 .bf16)), y ∈ pc.1.set :=
  View.cover_of_tiled [⟨r4_3, p0⟩] S1024x1024.size (by rfl) y

/-! ## The body's triple -/

set_option maxHeartbeats 1000000 in
/-- The kernel body on whole staging memrefs, the inputs' at contents `x0 x1 x2` and the result's at anything, runs
    to the continuation holding the inputs' as they were and the result's at `out4_3` of the inputs'. -/
theorem sound_kernel4 (c : Dev nD) (E : Set ℕ) (i : grid4.Coords)
    (arg0 : Memref sig .tc .vmem S1024x1024 .bf16) (harg0 : arg0.IsWhole) (arg1 : Memref sig .tc .vmem S1024x1024 .bf16) (harg1 : arg1.IsWhole)
    (arg2 : Memref sig .tc .vmem S1x1024 .f32) (harg2 : arg2.IsWhole) (arg3 : Memref sig .tc .vmem S1024x1024 .bf16) (harg3 : arg3.IsWhole)
    (x0 : Vec F S1024x1024 .bf16) (x1 : Vec F S1024x1024 .bf16) (x2 : Vec F S1x1024 .f32) (K : PUnit → sProp 𝕄) :
    iprop(owns (c : Thread nD τ) arg0 fullShare x0 ∗ owns (c : Thread nD τ) arg1 fullShare x1 ∗ owns (c : Thread nD τ) arg2 fullShare x2
        ∗ (∃ d, owns (c : Thread nD τ) arg3 fullShare d)
        ∗ (iprop(owns (c : Thread nD τ) arg0 fullShare x0 ∗ owns (c : Thread nD τ) arg1 fullShare x1 ∗ owns (c : Thread nD τ) arg2 fullShare x2
            ∗ owns (c : Thread nD τ) arg3 fullShare (out4_3 x0 x1 x2)) -∗ K ⟨⟩))
      ⊢ wp frame (wpE (defs₀ (F := F)) Variants.none c none) E (cc4__stage1_kernel i arg0 harg0 arg1 harg1 arg2 harg2 arg3 harg3) K := by
  simp only [cc4__stage1_kernel_eq_skeleton]; unfold cc4__stage1_kernel_skel
  unfold owns
  iintro ⟨⟨%f0, %hf0, H0⟩, ⟨%f1, %hf1, H1⟩, ⟨%f2, %hf2, H2⟩, ⟨%d3, %f3, -, H3⟩, Hk⟩
  subst hf0 hf1 hf2
  sl_exec
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  iexists _; isplitr
  swap; · iexact H3
  ipureintro
  exact View.read_writes_eq_canon _ _ _ (cover4_3 _)

/-! ## The pipeline's proof data -/

/-- The proof data of pipeline 4 on core `c`: the arrays as the region finds them; after the body at point `t`
    each input's buffer at its block and the result's at `out4_3` of the input blocks; the invariant the scoped
    rest and the generator register, untouched; nothing owed; full shares. -/
def dat4 (c : Dev nD) : Dat τ (Elt F) Unit ℕ (UR sig nD τ) ℕ cfg4 c where
  A w := V c (Pipeline.arrRef spec4 w)
  after w t := match w with
    | ⟨0, _⟩ => iblk4 V c 0 t
    | ⟨1, _⟩ => iblk4 V c 1 t
    | ⟨2, _⟩ => iblk4 V c 2 t
    | ⟨3, _⟩ => out4_3 (iblk4 V c 0 t) (iblk4 V c 1 t) (iblk4 V c 2 t)
  Φ _ := Pipeline.ΦA spec4 c
  q _ := fullShare
  owed _ := 0

/-- The proof data's arrays are the region-entry contents. -/
theorem A_eq4 (c : Dev nD) (w : Fin cfg4.W) : (dat4 V c).A w = V c (Pipeline.arrRef spec4 w) := by
  dsimp only [dat4]

/-- What the body leaves, window by window. -/
theorem after4_0 (c : Dev nD) (t : Fin cfg4.N) : (dat4 V c).after 0 t = iblk4 V c 0 t := by dsimp only [dat4]
theorem after4_1 (c : Dev nD) (t : Fin cfg4.N) : (dat4 V c).after 1 t = iblk4 V c 1 t := by dsimp only [dat4]
theorem after4_2 (c : Dev nD) (t : Fin cfg4.N) : (dat4 V c).after 2 t = iblk4 V c 2 t := by dsimp only [dat4]
theorem after4_3 (c : Dev nD) (t : Fin cfg4.N) :
    (dat4 V c).after 3 t = out4_3 (iblk4 V c 0 t) (iblk4 V c 1 t) (iblk4 V c 2 t) := by dsimp only [dat4]

/-- Each input's current staging buffer holds its block at every point, fetched there or not. -/
theorem before4_0 (c : Dev nD) (t : Fin cfg4.N) (d) : (dat4 V c).before 0 t d = iblk4 V c 0 t :=
  before4_0_of V (dat4 V c) (A_eq4 V c 0) (after4_0 V c) t d
theorem before4_1 (c : Dev nD) (t : Fin cfg4.N) (d) : (dat4 V c).before 1 t d = iblk4 V c 1 t :=
  before4_1_of V (dat4 V c) (A_eq4 V c 1) (after4_1 V c) t d
theorem before4_2 (c : Dev nD) (t : Fin cfg4.N) (d) : (dat4 V c).before 2 t d = iblk4 V c 2 t :=
  before4_2_of V (dat4 V c) (A_eq4 V c 2) (after4_2 V c) t d

/-- The invariant is the class's at every point: entering and leaving the region are identities on it. -/
theorem hin4 (c : Dev nD) : (Pipeline.ΦA spec4 c : sProp 𝕄) ⊢ (dat4 V c).Φ 0 := by
  show (Pipeline.ΦA spec4 c : sProp 𝕄) ⊢ Pipeline.ΦA spec4 c
  exact .rfl
theorem hout4 (c : Dev nD) : (dat4 V c).Φ (Fin.last cfg4.N) ⊢ (Pipeline.ΦA spec4 c : sProp 𝕄) := by
  show (Pipeline.ΦA spec4 c : sProp 𝕄) ⊢ Pipeline.ΦA spec4 c
  exact .rfl

/-! ## The body obligation, at a generic point -/

/-- What the body is called with at point `t`, the windows one by one, -/
def bodyPre4 (c : Dev nD) (t : Fin cfg4.N) : sProp 𝕄 :=
  iprop((dat4 V c).Φ t.castSucc ∗ (dat4 V c).owesAt () t.castSucc
    ∗ (∃ d, owns (c : Thread nD τ) (st4_0 t) fullShare ((dat4 V c).before 0 t d))
    ∗ (∃ d, owns (c : Thread nD τ) (st4_1 t) fullShare ((dat4 V c).before 1 t d))
    ∗ (∃ d, owns (c : Thread nD τ) (st4_2 t) fullShare ((dat4 V c).before 2 t d))
    ∗ (∃ d, owns (c : Thread nD τ) (st4_3 t) fullShare ((dat4 V c).before 3 t d)))

/-- and what it returns. -/
def bodyPost4 (c : Dev nD) (t : Fin cfg4.N) : sProp 𝕄 :=
  iprop((dat4 V c).Φ t.succ ∗ (dat4 V c).owesAt () t.succ
    ∗ owns (c : Thread nD τ) (st4_0 t) fullShare ((dat4 V c).after 0 t)
    ∗ owns (c : Thread nD τ) (st4_1 t) fullShare ((dat4 V c).after 1 t)
    ∗ owns (c : Thread nD τ) (st4_2 t) fullShare ((dat4 V c).after 2 t)
    ∗ owns (c : Thread nD τ) (st4_3 t) fullShare ((dat4 V c).after 3 t))

/-- The body at any point: the inputs' memrefs hold their blocks, so the body's triple applies; the invariant and
    the core's debts pass through unread. -/
theorem sound_body4 (c : Dev nD) (t : Fin cfg4.N) :
    bodyPre4 V c t ⊢ wp frame (wpE (defs₀ (F := F)) Variants.none c none) Set.univ (bodyAt4 t) (fun _ => bodyPost4 V c t) := by
  unfold bodyPre4 bodyPost4 bodyAt4
  simp only [before4_0, before4_1, before4_2]
  rw [show (dat4 V c).Φ t.succ = (dat4 V c).Φ t.castSucc from rfl,
    show (dat4 V c).owesAt () t.succ = (dat4 V c).owesAt () t.castSucc from rfl,
    after4_0, after4_1, after4_2, after4_3]
  iintro ⟨HΦ, Ho, ⟨%d0, H0⟩, ⟨%d1, H1⟩, ⟨%d2, H2⟩, ⟨%d3, H3⟩⟩
  iapply (sound_kernel4 c Set.univ _ _ _ _ _ _ _ _ _ (iblk4 V c 0 t) (iblk4 V c 1 t) (iblk4 V c 2 t) _)
  isplitl [H0]; · iexact H0
  isplitl [H1]; · iexact H1
  isplitl [H2]; · iexact H2
  isplitl [H3]; · iexists _; iexact H3
  iintro ⟨H0, H1, H2, H3⟩
  isplitl [HΦ]; · iexact HΦ
  isplitl [Ho]; · iexact Ho
  isplitl [H0]; · iexact H0
  isplitl [H1]; · iexact H1
  isplitl [H2]; · iexact H2
  iexact H3

/-- The library's body obligation, at every point. -/
theorem body_obligation4 (c : Dev nD) : BodyObligation (dat4 (F := F) V c) (defs₀ (F := F)) Variants.none () Set.univ := fun t => by
  rw [bigSep_W4, bigSep_W4]
  exact sound_body4 V c t

end Cert.KernelIdeal.Rg
-- ==== Proof.KI.Reg5.lean ====
/- REGION 5: the adjacency product with a carried accumulator (grid 20 × 10, the reduction step `k = t % 10`). The f32
   accumulator [512x1024] is zeroed when `k = 0`, takes the product of the left operand's block with the right operand's
   rows `k*1024 … k*1024+1023` at every point, and when `k = 9` is read back, the bias row added, the positive part taken, the sum converted to the result's format and stored whole into the
   result's block. Stated at a parameter `V`, the TensorCore's buffer contents when the region is entered: the proof
   data `dat5`, its body obligation, and the invariant's two ends `hin5` / `hout5`; `out5_L_3` / `outsAt5` name what
   the result window holds. -/
import proofs.«181230_j19834158973077_2_alg».proof.Proof.Gen.KernelIdeal.Launch
import proofs.«181230_j19834158973077_2_alg».proof.Proof.Gen.KernelIdeal.Skeleton
import proofs.«181230_j19834158973077_2_alg».proof.Proof.Gen.KernelIdeal.Points
import Idealize.ShloMosaic.Lib.Pipeline.FrameBody
import Idealize.ShloMosaic.Lib.Ring
import Idealize.ShloMosaic.Lib.Tactic

-- membership in a rectangle of full extents recurses once per coordinate of the long axes
set_option maxRecDepth 16384

noncomputable section

namespace Cert.KernelIdeal.Rg

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

/-! # Part 1: the conditionals over the grid, the memrefs, the invariant's split, the blocks -/

/-! ## The body's two conditionals, over the grid

A grid point `t` has coordinates `(m, k)` with `k = t % 10` the reduction step. The accumulator is zeroed when
`k = 0`; the result block is written when `k = 9`. -/

/-- The first conditional's condition (`k = 0`), with the scalar chain that computes it substituted. -/
abbrev zeroC5 (i : grid5.Coords) : Prop :=
  (Scalar.cmpi .ne (Scalar.extui (Scalar.cmpi .eq (BitVec.ofNat 32 (i 1).val) 0#32)) 0#32) = 1#1
/-- It holds exactly at the points ≡ 0 (mod 10): decided over the 200 points. -/
theorem zeroC5_iff : ∀ t : Fin cfg5.N, zeroC5 (grid5.coords t) ↔ t.val % 10 = 0 :=
  (by decide +kernel : ∀ t : Fin grid5.N, zeroC5 (grid5.coords t) ↔ t.val % 10 = 0)

/-- The second conditional's condition (`k = 9`). -/
abbrev flushC5 (i : grid5.Coords) : Prop := k5_cond2 i = 1#1
/-- It holds exactly at the points ≡ 9 (mod 10). -/
theorem flushC5_iff : ∀ t : Fin cfg5.N, flushC5 (grid5.coords t) ↔ t.val % 10 = 9 :=
  (by decide +kernel : ∀ t : Fin grid5.N, flushC5 (grid5.coords t) ↔ t.val % 10 = 9)

/-! ## Where the windows are idle -/

/-- The three input windows are never idle. -/
theorem live5_0 : ∀ t : Fin cfg5.N, cfg5.idle 0 (grid5.coords t) = false := by decide +kernel
theorem live5_1 : ∀ t : Fin cfg5.N, cfg5.idle 1 (grid5.coords t) = false := by decide +kernel
theorem live5_2 : ∀ t : Fin cfg5.N, cfg5.idle 2 (grid5.coords t) = false := by decide +kernel
/-- Away from `k = 9` the result window is idle (the body stores nothing into it) -/
theorem idle5_3 : ∀ t : Fin cfg5.N, ¬flushC5 (grid5.coords t) → cfg5.idle 3 (grid5.coords t) = true := by decide +kernel
/-- and its block is not written back; -/
theorem noFlush5_3 : ∀ t : Fin cfg5.N, ¬flushC5 (grid5.coords t) → (cfg5.win 3).flush t = false := by decide +kernel
/-- at `k = 9` it is live. -/
theorem live5_3 : ∀ t : Fin cfg5.N, flushC5 (grid5.coords t) → cfg5.idle 3 (grid5.coords t) = false := by decide +kernel

/-! ## The memrefs the body is called with -/

/-- Each window's current staging memref at point `t`, and that it is a whole buffer: the left operand's block, -/
abbrev mA5 (t : Fin cfg5.N) : Memref sig .tc .vmem S512x1024 .bf16 := win5_0.stage (cfg5.slots t 0)
abbrev hA5 (t : Fin cfg5.N) : (mA5 t).IsWhole := hstage5_0 ((cfg5.slots t 0).cast nbuf5_0)
/-- the right operand, resident whole, -/
abbrev mB5 (t : Fin cfg5.N) : Memref sig .tc .vmem S10240x1024 .bf16 := win5_1.stage (cfg5.slots t 1)
abbrev hB5 (t : Fin cfg5.N) : (mB5 t).IsWhole := hstage5_1 ((cfg5.slots t 1).cast nbuf5_1)
/-- the bias row, -/
abbrev mC5 (t : Fin cfg5.N) : Memref sig .tc .vmem S1x1024 .f32 := win5_2.stage (cfg5.slots t 2)
abbrev hC5 (t : Fin cfg5.N) : (mC5 t).IsWhole := hstage5_2 ((cfg5.slots t 2).cast nbuf5_2)
/-- the result's block. -/
abbrev mO5 (t : Fin cfg5.N) : Memref sig .tc .vmem S512x1024 .bf16 := win5_3.stage (cfg5.slots t 3)
abbrev hO5 (t : Fin cfg5.N) : (mO5 t).IsWhole := hstage5_3 ((cfg5.slots t 3).cast nbuf5_3)
/-- The accumulator: a whole scoped buffer of the kernel's own, passed beside the windows and carried from point to point. -/
abbrev mS5 : Memref sig .tc .vmem S512x1024 .f32 := Memref.whole cc5_scratch0
/-- The views through which the result buffer's and the accumulator's contents are stated (one of the result's two
    staging buffers: for a covering list of stores the choice does not matter). -/
abbrev vO5 : View sig .tc .vmem S512x1024 .bf16 := (Memref.whole cc5_stg3_0 : Memref sig .tc .vmem S512x1024 .bf16).view
abbrev vS5 : View sig .tc .vmem S512x1024 .f32 := mS5.view

/-! ## The region invariant, with the accumulator split off -/

/-- Every other scoped buffer of the core that is no staging buffer of this region: carried unopened. -/
abbrev rest5 (c : Dev nD) : sProp 𝕄 :=
  Pipeline.scopedRestBut (Ix := Unit) (Name := ℕ) (U := UR sig nD τ) (Lvl := ℕ) (Val := Elt F) spec5 c [cc5_scratch0]

/-- The class's invariant is: the accumulator owned at some contents, the other scoped buffers, the generator
    register at some state. -/
theorem PhiA5_eq (c : Dev nD) :
    (Pipeline.ΦA spec5 c : sProp 𝕄)
      = iprop(iprop((∃ d, owns (c : Thread nD τ) mS5 fullShare d) ∗ rest5 (F := F) c) ∗ (∃ r, prngReg c r)) := by
  unfold Pipeline.ΦA; rw [scopedRest5_split]; simp only [mS5, owns_whole]; try rfl

section Entry
variable (V : (c : Dev nD) → (b : Ref sig .tc) → Buf (Elt F) ((c : Thread nD τ).loc b))

/-! ## The windows' blocks -/

/-- Window `w`'s block at point `t`, read off its array as the region finds it. -/
def iblk5 (c : Dev nD) (w : Fin cfg5.W) (t : Fin cfg5.N) : ((cfg5.win w).xblock (cfg5.grid.coords t)).Idx → Elt F (cfg5.win w).elt :=
  ((cfg5.win w).blk t).view.read (Elt F) (V c (Pipeline.arrRef spec5 w))

/-- An input window's current staging buffer holds its block at every point, fetched there or not (where it is not
    fetched its block index has not moved), for any proof data whose array is `V`'s and whose body leaves the block
    in place. -/
theorem before5_0_of {c : Dev nD} (dat : Dat τ (Elt F) Unit ℕ (UR sig nD τ) ℕ cfg5 c) (hA : dat.A 0 = V c (Pipeline.arrRef spec5 0))
    (hafter : ∀ t, dat.after 0 t = iblk5 V c 0 t) (t : Fin cfg5.N) (d) : dat.before 0 t d = iblk5 V c 0 t :=
  (dat.before_in_eq_fetched 0 rfl (fun _ => rfl) (fun _ _ _ => rfl) (fun t => by rw [hafter]; unfold Dat.blockOf iblk5; rw [hA]; try rfl) t d).trans
    (by unfold Dat.fetched Dat.blockOf iblk5; rw [hA]; try rfl)
theorem before5_1_of {c : Dev nD} (dat : Dat τ (Elt F) Unit ℕ (UR sig nD τ) ℕ cfg5 c) (hA : dat.A 1 = V c (Pipeline.arrRef spec5 1))
    (hafter : ∀ t, dat.after 1 t = iblk5 V c 1 t) (t : Fin cfg5.N) (d) : dat.before 1 t d = iblk5 V c 1 t :=
  (dat.before_in_eq_fetched 1 rfl (fun _ => rfl) (fun _ _ _ => rfl) (fun t => by rw [hafter]; unfold Dat.blockOf iblk5; rw [hA]; try rfl) t d).trans
    (by unfold Dat.fetched Dat.blockOf iblk5; rw [hA]; try rfl)
theorem before5_2_of {c : Dev nD} (dat : Dat τ (Elt F) Unit ℕ (UR sig nD τ) ℕ cfg5 c) (hA : dat.A 2 = V c (Pipeline.arrRef spec5 2))
    (hafter : ∀ t, dat.after 2 t = iblk5 V c 2 t) (t : Fin cfg5.N) (d) : dat.before 2 t d = iblk5 V c 2 t :=
  (dat.before_in_eq_fetched 2 rfl (fun _ => rfl) (fun _ _ _ => rfl) (fun t => by rw [hafter]; unfold Dat.blockOf iblk5; rw [hA]; try rfl) t d).trans
    (by unfold Dat.fetched Dat.blockOf iblk5; rw [hA]; try rfl)

end Entry

/-! # Part 2: the body's run in each of the three control cases -/
/-! ### The control case `k = 0`: the accumulator is stored whole with zeros, then read back, the block product added and the sum stored
   whole again; the result buffer is not touched. -/

-- (the run's proof term is large: the definition's epilogue walks it past the default budget)
set_option maxHeartbeats 1000000 in
/-- The lists of stores, last first, that the body leaves in the result buffer (`L3`) and in the accumulator (`LS`) in
    this case, TOGETHER WITH the proof that on whole memrefs — the three inputs at contents `x0 x1 x2`, the result
    buffer at contents `xi3` handed back as found, the accumulator at anything — the body runs to a
    continuation that holds the inputs as they were, the result buffer as it was and the accumulator with
    `LS` written. The two lists are found by running the body's memory operations in order over named payloads; each
    conditional is decided by the case's hypotheses. -/
noncomputable def runZero5 (c : Dev nD) (i : grid5.Coords) (arg2 : Memref sig .tc .vmem S512x1024 .bf16) (harg2 : arg2.IsWhole) (arg3 : Memref sig .tc .vmem S10240x1024 .bf16) (harg3 : arg3.IsWhole) (arg4 : Memref sig .tc .vmem S1x1024 .f32) (harg4 : arg4.IsWhole) (arg5 : Memref sig .tc .vmem S512x1024 .bf16) (harg5 : arg5.IsWhole) (arg6 : Memref sig .tc .vmem S512x1024 .f32) (harg6 : arg6.IsWhole) (hc0 : zeroC5 i) (hc1 : ¬flushC5 i)
    (x0 : Vec F S512x1024 .bf16) (x1 : Vec F S10240x1024 .bf16) (x2 : Vec F S1x1024 .f32) :
    Σ' (L3 : List (View.Piece (Elt F) S512x1024 .bf16)), { LS : List (View.Piece (Elt F) S512x1024 .f32) //
      ∀ (xi3 : Vec F S512x1024 .bf16) (E : Set ℕ) (K : PUnit → sProp 𝕄),
        iprop(owns (c : Thread nD τ) arg2 fullShare x0 ∗ owns (c : Thread nD τ) arg3 fullShare x1 ∗ owns (c : Thread nD τ) arg4 fullShare x2 ∗ owns (c : Thread nD τ) arg5 fullShare xi3 ∗ (∃ d, owns (c : Thread nD τ) arg6 fullShare d)
            ∗ (iprop(owns (c : Thread nD τ) arg2 fullShare x0 ∗ owns (c : Thread nD τ) arg3 fullShare x1 ∗ owns (c : Thread nD τ) arg4 fullShare x2 ∗ owns (c : Thread nD τ) arg5 fullShare xi3 ∗ (∃ f, arg6.view.loc (c : Thread nD τ) ↦[arg6.view.set]{fullShare} arg6.view.writes (Elt F) f LS)) -∗ K ⟨⟩))
          ⊢ wp frame (wpE (defs₀ (F := F)) Variants.none c none) E (cc5__stage2_kernel i arg2 harg2 arg3 harg3 arg4 harg4 arg5 harg5 arg6 harg6) K } := by
  refine ⟨[], ?_, fun xi3 E K => ?run⟩
  case run =>
    simp only [cc5__stage2_kernel_eq_skeleton]; unfold cc5__stage2_kernel_skel
    unfold owns
    iintro ⟨⟨%f0, %hf0, H0⟩, ⟨%f1, %hf1, H1⟩, ⟨%f2, %hf2, H2⟩, ⟨%f3, %hf3, H3⟩, ⟨%ds, %fs, -, HS⟩, Hk⟩
    obtain rfl := harg2.eq_unread hf0; obtain rfl := harg3.eq_unread hf1; obtain rfl := harg4.eq_unread hf2; obtain rfl := harg5.eq_unread hf3
    sl_exec (disch := first | exact hc0 | exact hc1)
    sl_step
    iapply Hk
    isplitl [H0]
    · iexists _; isplitr; · ipureintro; exact harg2.read_unread _
      iexact H0
    isplitl [H1]
    · iexists _; isplitr; · ipureintro; exact harg3.read_unread _
      iexact H1
    isplitl [H2]
    · iexists _; isplitr; · ipureintro; exact harg4.read_unread _
      iexact H2
    isplitl [H3]
    · iexists _; isplitr; · ipureintro; exact harg5.read_unread _
      iexact H3
    iexists _; iexact HS

/-! ### The control case `0 < k < 9`: the accumulator is read, the block product added and the sum stored whole; the result
   buffer is not touched. -/

-- (the run's proof term is large: the definition's epilogue walks it past the default budget)
set_option maxHeartbeats 1000000 in
/-- The lists of stores, last first, that the body leaves in the result buffer (`L3`) and in the accumulator (`LS`) in
    this case, TOGETHER WITH the proof that on whole memrefs — the three inputs at contents `x0 x1 x2`, the result
    buffer at contents `xi3` handed back as found, the accumulator at the contents `xs` the point before left — the body runs to a
    continuation that holds the inputs as they were, the result buffer as it was and the accumulator with
    `LS` written. The two lists are found by running the body's memory operations in order over named payloads; each
    conditional is decided by the case's hypotheses. -/
noncomputable def runMid5 (c : Dev nD) (i : grid5.Coords) (arg2 : Memref sig .tc .vmem S512x1024 .bf16) (harg2 : arg2.IsWhole) (arg3 : Memref sig .tc .vmem S10240x1024 .bf16) (harg3 : arg3.IsWhole) (arg4 : Memref sig .tc .vmem S1x1024 .f32) (harg4 : arg4.IsWhole) (arg5 : Memref sig .tc .vmem S512x1024 .bf16) (harg5 : arg5.IsWhole) (arg6 : Memref sig .tc .vmem S512x1024 .f32) (harg6 : arg6.IsWhole) (hc0 : ¬zeroC5 i) (hc1 : ¬flushC5 i)
    (x0 : Vec F S512x1024 .bf16) (x1 : Vec F S10240x1024 .bf16) (x2 : Vec F S1x1024 .f32) (xs : Vec F S512x1024 .f32) :
    Σ' (L3 : List (View.Piece (Elt F) S512x1024 .bf16)), { LS : List (View.Piece (Elt F) S512x1024 .f32) //
      ∀ (xi3 : Vec F S512x1024 .bf16) (E : Set ℕ) (K : PUnit → sProp 𝕄),
        iprop(owns (c : Thread nD τ) arg2 fullShare x0 ∗ owns (c : Thread nD τ) arg3 fullShare x1 ∗ owns (c : Thread nD τ) arg4 fullShare x2 ∗ owns (c : Thread nD τ) arg5 fullShare xi3 ∗ owns (c : Thread nD τ) arg6 fullShare xs
            ∗ (iprop(owns (c : Thread nD τ) arg2 fullShare x0 ∗ owns (c : Thread nD τ) arg3 fullShare x1 ∗ owns (c : Thread nD τ) arg4 fullShare x2 ∗ owns (c : Thread nD τ) arg5 fullShare xi3 ∗ (∃ f, arg6.view.loc (c : Thread nD τ) ↦[arg6.view.set]{fullShare} arg6.view.writes (Elt F) f LS)) -∗ K ⟨⟩))
          ⊢ wp frame (wpE (defs₀ (F := F)) Variants.none c none) E (cc5__stage2_kernel i arg2 harg2 arg3 harg3 arg4 harg4 arg5 harg5 arg6 harg6) K } := by
  refine ⟨[], ?_, fun xi3 E K => ?run⟩
  case run =>
    simp only [cc5__stage2_kernel_eq_skeleton]; unfold cc5__stage2_kernel_skel
    unfold owns
    iintro ⟨⟨%f0, %hf0, H0⟩, ⟨%f1, %hf1, H1⟩, ⟨%f2, %hf2, H2⟩, ⟨%f3, %hf3, H3⟩, ⟨%fs, %hfs, HS⟩, Hk⟩
    obtain rfl := harg2.eq_unread hf0; obtain rfl := harg3.eq_unread hf1; obtain rfl := harg4.eq_unread hf2; obtain rfl := harg5.eq_unread hf3; obtain rfl := harg6.eq_unread hfs
    sl_exec (disch := first | exact hc0 | exact hc1)
    sl_step
    iapply Hk
    isplitl [H0]
    · iexists _; isplitr; · ipureintro; exact harg2.read_unread _
      iexact H0
    isplitl [H1]
    · iexists _; isplitr; · ipureintro; exact harg3.read_unread _
      iexact H1
    isplitl [H2]
    · iexists _; isplitr; · ipureintro; exact harg4.read_unread _
      iexact H2
    isplitl [H3]
    · iexists _; isplitr; · ipureintro; exact harg5.read_unread _
      iexact H3
    iexists _; iexact HS

/-! ### The control case `k = 9`: the accumulator is read, the block product added and the sum stored whole; then the accumulator
   is read back, the bias row added, the sum converted to the result's format and stored whole into the result buffer. -/

-- (the run's proof term is large: the definition's epilogue walks it past the default budget)
set_option maxHeartbeats 1000000 in
/-- The lists of stores, last first, that the body leaves in the result buffer (`L3`) and in the accumulator (`LS`) in
    this case, TOGETHER WITH the proof that on whole memrefs — the three inputs at contents `x0 x1 x2`, the result buffer at anything, the accumulator at the contents `xs` the point before left — the body runs to a
    continuation that holds the inputs as they were, the result buffer with `L3` written and the accumulator with
    `LS` written. The two lists are found by running the body's memory operations in order over named payloads; each
    conditional is decided by the case's hypotheses. -/
noncomputable def runLast5 (c : Dev nD) (i : grid5.Coords) (arg2 : Memref sig .tc .vmem S512x1024 .bf16) (harg2 : arg2.IsWhole) (arg3 : Memref sig .tc .vmem S10240x1024 .bf16) (harg3 : arg3.IsWhole) (arg4 : Memref sig .tc .vmem S1x1024 .f32) (harg4 : arg4.IsWhole) (arg5 : Memref sig .tc .vmem S512x1024 .bf16) (harg5 : arg5.IsWhole) (arg6 : Memref sig .tc .vmem S512x1024 .f32) (harg6 : arg6.IsWhole) (hc0 : ¬zeroC5 i) (hc1 : flushC5 i)
    (x0 : Vec F S512x1024 .bf16) (x1 : Vec F S10240x1024 .bf16) (x2 : Vec F S1x1024 .f32) (xs : Vec F S512x1024 .f32) :
    Σ' (L3 : List (View.Piece (Elt F) S512x1024 .bf16)), { LS : List (View.Piece (Elt F) S512x1024 .f32) //
      ∀ (E : Set ℕ) (K : PUnit → sProp 𝕄),
        iprop(owns (c : Thread nD τ) arg2 fullShare x0 ∗ owns (c : Thread nD τ) arg3 fullShare x1 ∗ owns (c : Thread nD τ) arg4 fullShare x2 ∗ (∃ d, owns (c : Thread nD τ) arg5 fullShare d) ∗ owns (c : Thread nD τ) arg6 fullShare xs
            ∗ (iprop(owns (c : Thread nD τ) arg2 fullShare x0 ∗ owns (c : Thread nD τ) arg3 fullShare x1 ∗ owns (c : Thread nD τ) arg4 fullShare x2 ∗ (∃ f, arg5.view.loc (c : Thread nD τ) ↦[arg5.view.set]{fullShare} arg5.view.writes (Elt F) f L3) ∗ (∃ f, arg6.view.loc (c : Thread nD τ) ↦[arg6.view.set]{fullShare} arg6.view.writes (Elt F) f LS)) -∗ K ⟨⟩))
          ⊢ wp frame (wpE (defs₀ (F := F)) Variants.none c none) E (cc5__stage2_kernel i arg2 harg2 arg3 harg3 arg4 harg4 arg5 harg5 arg6 harg6) K } := by
  refine ⟨?_, ?_, fun E K => ?run⟩
  case run =>
    simp only [cc5__stage2_kernel_eq_skeleton]; unfold cc5__stage2_kernel_skel
    unfold owns
    iintro ⟨⟨%f0, %hf0, H0⟩, ⟨%f1, %hf1, H1⟩, ⟨%f2, %hf2, H2⟩, ⟨%d3, %f3, -, H3⟩, ⟨%fs, %hfs, HS⟩, Hk⟩
    obtain rfl := harg2.eq_unread hf0; obtain rfl := harg3.eq_unread hf1; obtain rfl := harg4.eq_unread hf2; obtain rfl := harg6.eq_unread hfs
    sl_exec (disch := first | exact hc0 | exact hc1)
    sl_step
    iapply Hk
    isplitl [H0]
    · iexists _; isplitr; · ipureintro; exact harg2.read_unread _
      iexact H0
    isplitl [H1]
    · iexists _; isplitr; · ipureintro; exact harg3.read_unread _
      iexact H1
    isplitl [H2]
    · iexists _; isplitr; · ipureintro; exact harg4.read_unread _
      iexact H2
    isplitl [H3]; · iexists _; iexact H3
    iexists _; iexact HS

/-! # Part 3: what each case leaves, point by point; the proof data; the body obligation; the invariant's ends -/

/-! ## What each case leaves

In the cases `k = 0` and `0 < k < 9` nothing is stored into the result buffer: its "contents" below is a placeholder
(no stores read back over junk) that nothing consults, the window being idle and not written back at those points. -/

def out5_Z_3 (c : Dev nD) (i : grid5.Coords) (arg2 : Memref sig .tc .vmem S512x1024 .bf16) (harg2 : arg2.IsWhole) (arg3 : Memref sig .tc .vmem S10240x1024 .bf16) (harg3 : arg3.IsWhole) (arg4 : Memref sig .tc .vmem S1x1024 .f32) (harg4 : arg4.IsWhole) (arg5 : Memref sig .tc .vmem S512x1024 .bf16) (harg5 : arg5.IsWhole) (arg6 : Memref sig .tc .vmem S512x1024 .f32) (harg6 : arg6.IsWhole) (hc0 : zeroC5 i) (hc1 : ¬flushC5 i)
    (x0 : Vec F S512x1024 .bf16) (x1 : Vec F S10240x1024 .bf16) (x2 : Vec F S1x1024 .f32) : Vec F S512x1024 .bf16 :=
  vO5.read (Elt F) (vO5.writes (Elt F) vO5.junk (runZero5 c i arg2 harg2 arg3 harg3 arg4 harg4 arg5 harg5 arg6 harg6 hc0 hc1 x0 x1 x2).1)

/-- At `k = 0` the accumulator's stores (the zero fill, then the first partial sum) cover it. -/
theorem scover5_Z (c : Dev nD) (i : grid5.Coords) (arg2 : Memref sig .tc .vmem S512x1024 .bf16) (harg2 : arg2.IsWhole) (arg3 : Memref sig .tc .vmem S10240x1024 .bf16) (harg3 : arg3.IsWhole) (arg4 : Memref sig .tc .vmem S1x1024 .f32) (harg4 : arg4.IsWhole) (arg5 : Memref sig .tc .vmem S512x1024 .bf16) (harg5 : arg5.IsWhole) (arg6 : Memref sig .tc .vmem S512x1024 .f32) (harg6 : arg6.IsWhole) (hc0 : zeroC5 i) (hc1 : ¬flushC5 i)
    (x0 : Vec F S512x1024 .bf16) (x1 : Vec F S10240x1024 .bf16) (x2 : Vec F S1x1024 .f32) (y : S512x1024.Idx) :
    ∃ pc ∈ (runZero5 c i arg2 harg2 arg3 harg3 arg4 harg4 arg5 harg5 arg6 harg6 hc0 hc1 x0 x1 x2).2.1, y ∈ pc.1.set :=
  View.cover_of_tiledL (runZero5 c i arg2 harg2 arg3 harg3 arg4 harg4 arg5 harg5 arg6 harg6 hc0 hc1 x0 x1 x2).2.1 S512x1024.size (by sl_kernel_rfl) y

/-- What the case `k = 0` leaves in the accumulator: its stores read back. -/
def acc5_Z (c : Dev nD) (i : grid5.Coords) (arg2 : Memref sig .tc .vmem S512x1024 .bf16) (harg2 : arg2.IsWhole) (arg3 : Memref sig .tc .vmem S10240x1024 .bf16) (harg3 : arg3.IsWhole) (arg4 : Memref sig .tc .vmem S1x1024 .f32) (harg4 : arg4.IsWhole) (arg5 : Memref sig .tc .vmem S512x1024 .bf16) (harg5 : arg5.IsWhole) (arg6 : Memref sig .tc .vmem S512x1024 .f32) (harg6 : arg6.IsWhole) (hc0 : zeroC5 i) (hc1 : ¬flushC5 i)
    (x0 : Vec F S512x1024 .bf16) (x1 : Vec F S10240x1024 .bf16) (x2 : Vec F S1x1024 .f32) : Vec F S512x1024 .f32 :=
  vS5.read (Elt F) (vS5.writes (Elt F) vS5.junk (runZero5 c i arg2 harg2 arg3 harg3 arg4 harg4 arg5 harg5 arg6 harg6 hc0 hc1 x0 x1 x2).2.1)

def out5_M_3 (c : Dev nD) (i : grid5.Coords) (arg2 : Memref sig .tc .vmem S512x1024 .bf16) (harg2 : arg2.IsWhole) (arg3 : Memref sig .tc .vmem S10240x1024 .bf16) (harg3 : arg3.IsWhole) (arg4 : Memref sig .tc .vmem S1x1024 .f32) (harg4 : arg4.IsWhole) (arg5 : Memref sig .tc .vmem S512x1024 .bf16) (harg5 : arg5.IsWhole) (arg6 : Memref sig .tc .vmem S512x1024 .f32) (harg6 : arg6.IsWhole) (hc0 : ¬zeroC5 i) (hc1 : ¬flushC5 i)
    (x0 : Vec F S512x1024 .bf16) (x1 : Vec F S10240x1024 .bf16) (x2 : Vec F S1x1024 .f32) (xs : Vec F S512x1024 .f32) : Vec F S512x1024 .bf16 :=
  vO5.read (Elt F) (vO5.writes (Elt F) vO5.junk (runMid5 c i arg2 harg2 arg3 harg3 arg4 harg4 arg5 harg5 arg6 harg6 hc0 hc1 x0 x1 x2 xs).1)

/-- For `0 < k < 9` the accumulator's one store covers it. -/
theorem scover5_M (c : Dev nD) (i : grid5.Coords) (arg2 : Memref sig .tc .vmem S512x1024 .bf16) (harg2 : arg2.IsWhole) (arg3 : Memref sig .tc .vmem S10240x1024 .bf16) (harg3 : arg3.IsWhole) (arg4 : Memref sig .tc .vmem S1x1024 .f32) (harg4 : arg4.IsWhole) (arg5 : Memref sig .tc .vmem S512x1024 .bf16) (harg5 : arg5.IsWhole) (arg6 : Memref sig .tc .vmem S512x1024 .f32) (harg6 : arg6.IsWhole) (hc0 : ¬zeroC5 i) (hc1 : ¬flushC5 i)
    (x0 : Vec F S512x1024 .bf16) (x1 : Vec F S10240x1024 .bf16) (x2 : Vec F S1x1024 .f32) (xs : Vec F S512x1024 .f32) (y : S512x1024.Idx) :
    ∃ pc ∈ (runMid5 c i arg2 harg2 arg3 harg3 arg4 harg4 arg5 harg5 arg6 harg6 hc0 hc1 x0 x1 x2 xs).2.1, y ∈ pc.1.set :=
  View.cover_of_tiledL (runMid5 c i arg2 harg2 arg3 harg3 arg4 harg4 arg5 harg5 arg6 harg6 hc0 hc1 x0 x1 x2 xs).2.1 S512x1024.size (by sl_kernel_rfl) y

/-- What the case `0 < k < 9` leaves in the accumulator, over what the point before left (`xs`). -/
def acc5_M (c : Dev nD) (i : grid5.Coords) (arg2 : Memref sig .tc .vmem S512x1024 .bf16) (harg2 : arg2.IsWhole) (arg3 : Memref sig .tc .vmem S10240x1024 .bf16) (harg3 : arg3.IsWhole) (arg4 : Memref sig .tc .vmem S1x1024 .f32) (harg4 : arg4.IsWhole) (arg5 : Memref sig .tc .vmem S512x1024 .bf16) (harg5 : arg5.IsWhole) (arg6 : Memref sig .tc .vmem S512x1024 .f32) (harg6 : arg6.IsWhole) (hc0 : ¬zeroC5 i) (hc1 : ¬flushC5 i)
    (x0 : Vec F S512x1024 .bf16) (x1 : Vec F S10240x1024 .bf16) (x2 : Vec F S1x1024 .f32) (xs : Vec F S512x1024 .f32) : Vec F S512x1024 .f32 :=
  vS5.read (Elt F) (vS5.writes (Elt F) vS5.junk (runMid5 c i arg2 harg2 arg3 harg3 arg4 harg4 arg5 harg5 arg6 harg6 hc0 hc1 x0 x1 x2 xs).2.1)

/-- At `k = 9` the one store into the result buffer covers it. -/
theorem cover5_L_3 (c : Dev nD) (i : grid5.Coords) (arg2 : Memref sig .tc .vmem S512x1024 .bf16) (harg2 : arg2.IsWhole) (arg3 : Memref sig .tc .vmem S10240x1024 .bf16) (harg3 : arg3.IsWhole) (arg4 : Memref sig .tc .vmem S1x1024 .f32) (harg4 : arg4.IsWhole) (arg5 : Memref sig .tc .vmem S512x1024 .bf16) (harg5 : arg5.IsWhole) (arg6 : Memref sig .tc .vmem S512x1024 .f32) (harg6 : arg6.IsWhole) (hc0 : ¬zeroC5 i) (hc1 : flushC5 i)
    (x0 : Vec F S512x1024 .bf16) (x1 : Vec F S10240x1024 .bf16) (x2 : Vec F S1x1024 .f32) (xs : Vec F S512x1024 .f32) (y : S512x1024.Idx) :
    ∃ pc ∈ (runLast5 c i arg2 harg2 arg3 harg3 arg4 harg4 arg5 harg5 arg6 harg6 hc0 hc1 x0 x1 x2 xs).1, y ∈ pc.1.set :=
  View.cover_of_tiledL (runLast5 c i arg2 harg2 arg3 harg3 arg4 harg4 arg5 harg5 arg6 harg6 hc0 hc1 x0 x1 x2 xs).1 S512x1024.size (by sl_kernel_rfl) y

/-- THE RESULT BLOCK: what the case `k = 9` leaves in the result buffer — the accumulated sum plus the bias row, in the
    result's format — as a term of the three input blocks and of the accumulator the point before left. -/
def out5_L_3 (c : Dev nD) (i : grid5.Coords) (arg2 : Memref sig .tc .vmem S512x1024 .bf16) (harg2 : arg2.IsWhole) (arg3 : Memref sig .tc .vmem S10240x1024 .bf16) (harg3 : arg3.IsWhole) (arg4 : Memref sig .tc .vmem S1x1024 .f32) (harg4 : arg4.IsWhole) (arg5 : Memref sig .tc .vmem S512x1024 .bf16) (harg5 : arg5.IsWhole) (arg6 : Memref sig .tc .vmem S512x1024 .f32) (harg6 : arg6.IsWhole) (hc0 : ¬zeroC5 i) (hc1 : flushC5 i)
    (x0 : Vec F S512x1024 .bf16) (x1 : Vec F S10240x1024 .bf16) (x2 : Vec F S1x1024 .f32) (xs : Vec F S512x1024 .f32) : Vec F S512x1024 .bf16 :=
  vO5.read (Elt F) (vO5.writes (Elt F) vO5.junk (runLast5 c i arg2 harg2 arg3 harg3 arg4 harg4 arg5 harg5 arg6 harg6 hc0 hc1 x0 x1 x2 xs).1)

/-- At `k = 9` the accumulator's one store covers it. -/
theorem scover5_L (c : Dev nD) (i : grid5.Coords) (arg2 : Memref sig .tc .vmem S512x1024 .bf16) (harg2 : arg2.IsWhole) (arg3 : Memref sig .tc .vmem S10240x1024 .bf16) (harg3 : arg3.IsWhole) (arg4 : Memref sig .tc .vmem S1x1024 .f32) (harg4 : arg4.IsWhole) (arg5 : Memref sig .tc .vmem S512x1024 .bf16) (harg5 : arg5.IsWhole) (arg6 : Memref sig .tc .vmem S512x1024 .f32) (harg6 : arg6.IsWhole) (hc0 : ¬zeroC5 i) (hc1 : flushC5 i)
    (x0 : Vec F S512x1024 .bf16) (x1 : Vec F S10240x1024 .bf16) (x2 : Vec F S1x1024 .f32) (xs : Vec F S512x1024 .f32) (y : S512x1024.Idx) :
    ∃ pc ∈ (runLast5 c i arg2 harg2 arg3 harg3 arg4 harg4 arg5 harg5 arg6 harg6 hc0 hc1 x0 x1 x2 xs).2.1, y ∈ pc.1.set :=
  View.cover_of_tiledL (runLast5 c i arg2 harg2 arg3 harg3 arg4 harg4 arg5 harg5 arg6 harg6 hc0 hc1 x0 x1 x2 xs).2.1 S512x1024.size (by sl_kernel_rfl) y

/-- What the case `k = 9` leaves in the accumulator. -/
def acc5_L (c : Dev nD) (i : grid5.Coords) (arg2 : Memref sig .tc .vmem S512x1024 .bf16) (harg2 : arg2.IsWhole) (arg3 : Memref sig .tc .vmem S10240x1024 .bf16) (harg3 : arg3.IsWhole) (arg4 : Memref sig .tc .vmem S1x1024 .f32) (harg4 : arg4.IsWhole) (arg5 : Memref sig .tc .vmem S512x1024 .bf16) (harg5 : arg5.IsWhole) (arg6 : Memref sig .tc .vmem S512x1024 .f32) (harg6 : arg6.IsWhole) (hc0 : ¬zeroC5 i) (hc1 : flushC5 i)
    (x0 : Vec F S512x1024 .bf16) (x1 : Vec F S10240x1024 .bf16) (x2 : Vec F S1x1024 .f32) (xs : Vec F S512x1024 .f32) : Vec F S512x1024 .f32 :=
  vS5.read (Elt F) (vS5.writes (Elt F) vS5.junk (runLast5 c i arg2 harg2 arg3 harg3 arg4 harg4 arg5 harg5 arg6 harg6 hc0 hc1 x0 x1 x2 xs).2.1)

section Entry
variable (V : (c : Dev nD) → (b : Ref sig .tc) → Buf (Elt F) ((c : Thread nD τ).loc b))

/-! ## Point by point -/

/-- THE ACCUMULATION. After the body at position `n`: (the result buffer, the accumulator). The case is the one the
    closed forms select at `n`, run on the point's memrefs and input blocks; for `k > 0` the accumulator starts from what
    position `n - 1` left in it. The two conditions cannot hold together. -/
def outsAt5 (c : Dev nD) : (n : ℕ) → n < cfg5.N → Vec F S512x1024 .bf16 × Vec F S512x1024 .f32
  | 0, hn => (out5_Z_3 c (grid5.coords ⟨0, hn⟩) (mA5 ⟨0, hn⟩) (hA5 ⟨0, hn⟩) (mB5 ⟨0, hn⟩) (hB5 ⟨0, hn⟩) (mC5 ⟨0, hn⟩) (hC5 ⟨0, hn⟩) (mO5 ⟨0, hn⟩) (hO5 ⟨0, hn⟩) mS5 (Memref.isWhole_whole _) ((zeroC5_iff ⟨0, hn⟩).mpr (Nat.zero_mod _)) (fun h => (fun h => by (try dsimp only at h); omega) ((flushC5_iff ⟨0, hn⟩).mp h)) (iblk5 V c 0 ⟨0, hn⟩) (iblk5 V c 1 ⟨0, hn⟩) (iblk5 V c 2 ⟨0, hn⟩), acc5_Z c (grid5.coords ⟨0, hn⟩) (mA5 ⟨0, hn⟩) (hA5 ⟨0, hn⟩) (mB5 ⟨0, hn⟩) (hB5 ⟨0, hn⟩) (mC5 ⟨0, hn⟩) (hC5 ⟨0, hn⟩) (mO5 ⟨0, hn⟩) (hO5 ⟨0, hn⟩) mS5 (Memref.isWhole_whole _) ((zeroC5_iff ⟨0, hn⟩).mpr (Nat.zero_mod _)) (fun h => (fun h => by (try dsimp only at h); omega) ((flushC5_iff ⟨0, hn⟩).mp h)) (iblk5 V c 0 ⟨0, hn⟩) (iblk5 V c 1 ⟨0, hn⟩) (iblk5 V c 2 ⟨0, hn⟩))
  | n + 1, hn =>
    if h0 : (n + 1) % 10 = 0 then
      if h1 : (n + 1) % 10 = 9 then
        False.elim (by omega)
      else
        (out5_Z_3 c (grid5.coords ⟨n + 1, hn⟩) (mA5 ⟨n + 1, hn⟩) (hA5 ⟨n + 1, hn⟩) (mB5 ⟨n + 1, hn⟩) (hB5 ⟨n + 1, hn⟩) (mC5 ⟨n + 1, hn⟩) (hC5 ⟨n + 1, hn⟩) (mO5 ⟨n + 1, hn⟩) (hO5 ⟨n + 1, hn⟩) mS5 (Memref.isWhole_whole _) ((zeroC5_iff ⟨n + 1, hn⟩).mpr h0) (fun h => h1 ((flushC5_iff ⟨n + 1, hn⟩).mp h)) (iblk5 V c 0 ⟨n + 1, hn⟩) (iblk5 V c 1 ⟨n + 1, hn⟩) (iblk5 V c 2 ⟨n + 1, hn⟩), acc5_Z c (grid5.coords ⟨n + 1, hn⟩) (mA5 ⟨n + 1, hn⟩) (hA5 ⟨n + 1, hn⟩) (mB5 ⟨n + 1, hn⟩) (hB5 ⟨n + 1, hn⟩) (mC5 ⟨n + 1, hn⟩) (hC5 ⟨n + 1, hn⟩) (mO5 ⟨n + 1, hn⟩) (hO5 ⟨n + 1, hn⟩) mS5 (Memref.isWhole_whole _) ((zeroC5_iff ⟨n + 1, hn⟩).mpr h0) (fun h => h1 ((flushC5_iff ⟨n + 1, hn⟩).mp h)) (iblk5 V c 0 ⟨n + 1, hn⟩) (iblk5 V c 1 ⟨n + 1, hn⟩) (iblk5 V c 2 ⟨n + 1, hn⟩))
    else
      if h1 : (n + 1) % 10 = 9 then
        (out5_L_3 c (grid5.coords ⟨n + 1, hn⟩) (mA5 ⟨n + 1, hn⟩) (hA5 ⟨n + 1, hn⟩) (mB5 ⟨n + 1, hn⟩) (hB5 ⟨n + 1, hn⟩) (mC5 ⟨n + 1, hn⟩) (hC5 ⟨n + 1, hn⟩) (mO5 ⟨n + 1, hn⟩) (hO5 ⟨n + 1, hn⟩) mS5 (Memref.isWhole_whole _) (fun h => h0 ((zeroC5_iff ⟨n + 1, hn⟩).mp h)) ((flushC5_iff ⟨n + 1, hn⟩).mpr h1) (iblk5 V c 0 ⟨n + 1, hn⟩) (iblk5 V c 1 ⟨n + 1, hn⟩) (iblk5 V c 2 ⟨n + 1, hn⟩) (outsAt5 c n (Nat.lt_of_succ_lt hn)).2, acc5_L c (grid5.coords ⟨n + 1, hn⟩) (mA5 ⟨n + 1, hn⟩) (hA5 ⟨n + 1, hn⟩) (mB5 ⟨n + 1, hn⟩) (hB5 ⟨n + 1, hn⟩) (mC5 ⟨n + 1, hn⟩) (hC5 ⟨n + 1, hn⟩) (mO5 ⟨n + 1, hn⟩) (hO5 ⟨n + 1, hn⟩) mS5 (Memref.isWhole_whole _) (fun h => h0 ((zeroC5_iff ⟨n + 1, hn⟩).mp h)) ((flushC5_iff ⟨n + 1, hn⟩).mpr h1) (iblk5 V c 0 ⟨n + 1, hn⟩) (iblk5 V c 1 ⟨n + 1, hn⟩) (iblk5 V c 2 ⟨n + 1, hn⟩) (outsAt5 c n (Nat.lt_of_succ_lt hn)).2)
      else
        (out5_M_3 c (grid5.coords ⟨n + 1, hn⟩) (mA5 ⟨n + 1, hn⟩) (hA5 ⟨n + 1, hn⟩) (mB5 ⟨n + 1, hn⟩) (hB5 ⟨n + 1, hn⟩) (mC5 ⟨n + 1, hn⟩) (hC5 ⟨n + 1, hn⟩) (mO5 ⟨n + 1, hn⟩) (hO5 ⟨n + 1, hn⟩) mS5 (Memref.isWhole_whole _) (fun h => h0 ((zeroC5_iff ⟨n + 1, hn⟩).mp h)) (fun h => h1 ((flushC5_iff ⟨n + 1, hn⟩).mp h)) (iblk5 V c 0 ⟨n + 1, hn⟩) (iblk5 V c 1 ⟨n + 1, hn⟩) (iblk5 V c 2 ⟨n + 1, hn⟩) (outsAt5 c n (Nat.lt_of_succ_lt hn)).2, acc5_M c (grid5.coords ⟨n + 1, hn⟩) (mA5 ⟨n + 1, hn⟩) (hA5 ⟨n + 1, hn⟩) (mB5 ⟨n + 1, hn⟩) (hB5 ⟨n + 1, hn⟩) (mC5 ⟨n + 1, hn⟩) (hC5 ⟨n + 1, hn⟩) (mO5 ⟨n + 1, hn⟩) (hO5 ⟨n + 1, hn⟩) mS5 (Memref.isWhole_whole _) (fun h => h0 ((zeroC5_iff ⟨n + 1, hn⟩).mp h)) (fun h => h1 ((flushC5_iff ⟨n + 1, hn⟩).mp h)) (iblk5 V c 0 ⟨n + 1, hn⟩) (iblk5 V c 1 ⟨n + 1, hn⟩) (iblk5 V c 2 ⟨n + 1, hn⟩) (outsAt5 c n (Nat.lt_of_succ_lt hn)).2)

/-- `outsAt5` at a point with `k = 0`. -/
theorem outsAt5_Z (c : Dev nD) (t : Fin cfg5.N) (h0 : t.val % 10 = 0) (h1 : ¬t.val % 10 = 9) :
    outsAt5 V c t.val t.isLt = (out5_Z_3 c (grid5.coords t) (mA5 t) (hA5 t) (mB5 t) (hB5 t) (mC5 t) (hC5 t) (mO5 t) (hO5 t) mS5 (Memref.isWhole_whole _) ((zeroC5_iff t).mpr h0) (fun h => h1 ((flushC5_iff t).mp h)) (iblk5 V c 0 t) (iblk5 V c 1 t) (iblk5 V c 2 t), acc5_Z c (grid5.coords t) (mA5 t) (hA5 t) (mB5 t) (hB5 t) (mC5 t) (hC5 t) (mO5 t) (hO5 t) mS5 (Memref.isWhole_whole _) ((zeroC5_iff t).mpr h0) (fun h => h1 ((flushC5_iff t).mp h)) (iblk5 V c 0 t) (iblk5 V c 1 t) (iblk5 V c 2 t)) := by
  obtain ⟨n, hn⟩ := t
  cases n with
  | zero => exact rfl
  | succ n => exact (dif_pos h0).trans ((dif_neg h1).trans rfl)

/-- `outsAt5` at a point with `0 < k < 9`: over what the point before left. -/
theorem outsAt5_M (c : Dev nD) (t : Fin cfg5.N) (h0 : ¬t.val % 10 = 0) (h1 : ¬t.val % 10 = 9) :
    outsAt5 V c t.val t.isLt = (out5_M_3 c (grid5.coords t) (mA5 t) (hA5 t) (mB5 t) (hB5 t) (mC5 t) (hC5 t) (mO5 t) (hO5 t) mS5 (Memref.isWhole_whole _) (fun h => h0 ((zeroC5_iff t).mp h)) (fun h => h1 ((flushC5_iff t).mp h)) (iblk5 V c 0 t) (iblk5 V c 1 t) (iblk5 V c 2 t) (outsAt5 V c (t.val - 1) (Nat.lt_of_le_of_lt (Nat.sub_le _ _) t.isLt)).2, acc5_M c (grid5.coords t) (mA5 t) (hA5 t) (mB5 t) (hB5 t) (mC5 t) (hC5 t) (mO5 t) (hO5 t) mS5 (Memref.isWhole_whole _) (fun h => h0 ((zeroC5_iff t).mp h)) (fun h => h1 ((flushC5_iff t).mp h)) (iblk5 V c 0 t) (iblk5 V c 1 t) (iblk5 V c 2 t) (outsAt5 V c (t.val - 1) (Nat.lt_of_le_of_lt (Nat.sub_le _ _) t.isLt)).2) := by
  obtain ⟨n, hn⟩ := t
  cases n with
  | zero => exact (by exfalso; (try dsimp only at h0); exact absurd (Nat.zero_mod _) h0)
  | succ n => exact (dif_neg h0).trans ((dif_neg h1).trans rfl)

/-- `outsAt5` at a point with `k = 9`: over what the point before left. -/
theorem outsAt5_L (c : Dev nD) (t : Fin cfg5.N) (h0 : ¬t.val % 10 = 0) (h1 : t.val % 10 = 9) :
    outsAt5 V c t.val t.isLt = (out5_L_3 c (grid5.coords t) (mA5 t) (hA5 t) (mB5 t) (hB5 t) (mC5 t) (hC5 t) (mO5 t) (hO5 t) mS5 (Memref.isWhole_whole _) (fun h => h0 ((zeroC5_iff t).mp h)) ((flushC5_iff t).mpr h1) (iblk5 V c 0 t) (iblk5 V c 1 t) (iblk5 V c 2 t) (outsAt5 V c (t.val - 1) (Nat.lt_of_le_of_lt (Nat.sub_le _ _) t.isLt)).2, acc5_L c (grid5.coords t) (mA5 t) (hA5 t) (mB5 t) (hB5 t) (mC5 t) (hC5 t) (mO5 t) (hO5 t) mS5 (Memref.isWhole_whole _) (fun h => h0 ((zeroC5_iff t).mp h)) ((flushC5_iff t).mpr h1) (iblk5 V c 0 t) (iblk5 V c 1 t) (iblk5 V c 2 t) (outsAt5 V c (t.val - 1) (Nat.lt_of_le_of_lt (Nat.sub_le _ _) t.isLt)).2) := by
  obtain ⟨n, hn⟩ := t
  cases n with
  | zero => exact (by exfalso; (try dsimp only at h0); exact absurd (Nat.zero_mod _) h0)
  | succ n => exact (dif_neg h0).trans ((dif_pos h1).trans rfl)

/-! ## The invariant -/

/-- The region invariant before position `n`: before the first point the class's (the accumulator at anything);
    afterwards the accumulator at what the point before left in it, the other scoped buffers and the generator
    register as ever. -/
def PhiS5 (c : Dev nD) : (n : ℕ) → n ≤ cfg5.N → sProp 𝕄
  | 0, _ => Pipeline.ΦA spec5 c
  | n + 1, hn => iprop(iprop(owns (c : Thread nD τ) mS5 fullShare ((outsAt5 V c n hn).2) ∗ rest5 (F := F) c) ∗ (∃ r, prngReg c r))

theorem PhiS5_zero (c : Dev nD) (n : ℕ) (h : n ≤ cfg5.N) (hz : n = 0) : PhiS5 V c n h = Pipeline.ΦA spec5 c := by
  subst hz; rfl

theorem PhiS5_succ (c : Dev nD) (n : ℕ) (hn : n < cfg5.N) :
    PhiS5 V c (n + 1) hn = iprop(iprop(owns (c : Thread nD τ) mS5 fullShare ((outsAt5 V c n hn).2) ∗ rest5 (F := F) c) ∗ (∃ r, prngReg c r)) := rfl

theorem PhiS5_pos (c : Dev nD) (n : ℕ) (h : n ≤ cfg5.N) (hz : n ≠ 0) :
    PhiS5 V c n h = iprop(iprop(owns (c : Thread nD τ) mS5 fullShare ((outsAt5 V c (n - 1) (by omega)).2) ∗ rest5 (F := F) c) ∗ (∃ r, prngReg c r)) := by
  cases n with
  | zero => exact absurd rfl hz
  | succ n => rfl

/-! ## The proof data -/

/-- The proof data of region 5's pipeline on core `c`: the arrays as the region finds them; after the body at point
    `t` each input's buffer at its block and the result's at `outsAt5`'s first component; the invariant `PhiS5`;
    nothing owed; full shares. -/
def dat5 (c : Dev nD) : Dat τ (Elt F) Unit ℕ (UR sig nD τ) ℕ cfg5 c where
  A w := V c (Pipeline.arrRef spec5 w)
  after w t := match w with
    | ⟨0, _⟩ => iblk5 V c 0 t
    | ⟨1, _⟩ => iblk5 V c 1 t
    | ⟨2, _⟩ => iblk5 V c 2 t
    | ⟨3, _⟩ => (outsAt5 V c t.val t.isLt).1
  Φ t := PhiS5 V c t.val (Nat.le_of_lt_succ t.isLt)
  q _ := fullShare
  owed _ := 0

/-- The proof data's arrays are the region-entry contents (the definition projected, `V` never unfolded). -/
theorem A_eq5 (c : Dev nD) (w : Fin cfg5.W) : (dat5 V c).A w = V c (Pipeline.arrRef spec5 w) := by
  dsimp only [dat5]

/-- The invariant at a point's start, restated at `t.val`. -/
theorem PhiS5_castSucc (c : Dev nD) (t : Fin cfg5.N) :
    (dat5 V c).Φ t.castSucc = PhiS5 V c t.val (Nat.le_of_lt t.isLt) := by
  dsimp only [dat5]; simp only [Fin.coe_castSucc]

/-- What the body leaves, window by window. -/
theorem after5_0 (c : Dev nD) (t : Fin cfg5.N) : (dat5 V c).after 0 t = iblk5 V c 0 t := by dsimp only [dat5]
theorem after5_1 (c : Dev nD) (t : Fin cfg5.N) : (dat5 V c).after 1 t = iblk5 V c 1 t := by dsimp only [dat5]
theorem after5_2 (c : Dev nD) (t : Fin cfg5.N) : (dat5 V c).after 2 t = iblk5 V c 2 t := by dsimp only [dat5]
theorem after5_3 (c : Dev nD) (t : Fin cfg5.N) : (dat5 V c).after 3 t = (outsAt5 V c t.val t.isLt).1 := by dsimp only [dat5]

/-- Each input's current staging buffer holds its block at every point. -/
theorem before5_0 (c : Dev nD) (t : Fin cfg5.N) (d) : (dat5 V c).before 0 t d = iblk5 V c 0 t :=
  before5_0_of V (dat5 V c) (A_eq5 V c 0) (after5_0 V c) t d
theorem before5_1 (c : Dev nD) (t : Fin cfg5.N) (d) : (dat5 V c).before 1 t d = iblk5 V c 1 t :=
  before5_1_of V (dat5 V c) (A_eq5 V c 1) (after5_1 V c) t d
theorem before5_2 (c : Dev nD) (t : Fin cfg5.N) (d) : (dat5 V c).before 2 t d = iblk5 V c 2 t :=
  before5_2_of V (dat5 V c) (A_eq5 V c 2) (after5_2 V c) t d

/-! ## The body obligation, at a generic point -/

/-- What the body is called with at point `t`, the windows one by one, -/
def bodyPre5 (c : Dev nD) (t : Fin cfg5.N) : sProp 𝕄 :=
  iprop((dat5 V c).Φ t.castSucc ∗ (dat5 V c).owesAt () t.castSucc
    ∗ (∃ d, owns (c : Thread nD τ) (mA5 t) fullShare ((dat5 V c).before 0 t d))
    ∗ (∃ d, owns (c : Thread nD τ) (mB5 t) fullShare ((dat5 V c).before 1 t d))
    ∗ (∃ d, owns (c : Thread nD τ) (mC5 t) fullShare ((dat5 V c).before 2 t d))
    ∗ (∃ d, owns (c : Thread nD τ) (mO5 t) fullShare ((dat5 V c).before 3 t d)))

/-- and what it returns. -/
def bodyPost5 (c : Dev nD) (t : Fin cfg5.N) : sProp 𝕄 :=
  iprop((dat5 V c).Φ t.succ ∗ (dat5 V c).owesAt () t.succ
    ∗ (dat5 V c).leavesExact 0 t
    ∗ (dat5 V c).leavesExact 1 t
    ∗ (dat5 V c).leavesExact 2 t
    ∗ (dat5 V c).leavesExact 3 t)

set_option maxHeartbeats 4800000 in
/-- The body at any point. The inputs' memrefs hold their blocks; the closed forms say which control case the point is
    in, and that case's run applies. The invariant hands the body the accumulator at what the point before left (at
    anything before the first point) and takes it back at this point's contents, its stores covering it; where the
    result window is idle its buffer goes back as found, and at `k = 9` its one store covers it. The other scoped
    buffers, the generator register and what the core owes pass through. -/
theorem sound_body5 (c : Dev nD) (t : Fin cfg5.N) :
    bodyPre5 V c t ⊢ wp frame (wpE (defs₀ (F := F)) Variants.none c none) Set.univ (bodyAt5 t) (fun _ => bodyPost5 V c t) := by
  unfold bodyPre5 bodyPost5 bodyAt5
  simp only [before5_0, before5_1, before5_2]
  rw [show (dat5 V c).owesAt () t.succ = (dat5 V c).owesAt () t.castSucc from rfl]
  rw [show (dat5 V c).Φ t.succ = PhiS5 V c (t.val + 1) t.isLt from rfl, PhiS5_succ]
  rw [show (dat5 V c).leavesExact 0 t = owns (c : Thread nD τ) (mA5 t) fullShare ((dat5 V c).after 0 t) from by
    unfold Dat.leavesExact; rw [live5_0 t], after5_0]
  rw [show (dat5 V c).leavesExact 1 t = owns (c : Thread nD τ) (mB5 t) fullShare ((dat5 V c).after 1 t) from by
    unfold Dat.leavesExact; rw [live5_1 t], after5_1]
  rw [show (dat5 V c).leavesExact 2 t = owns (c : Thread nD τ) (mC5 t) fullShare ((dat5 V c).after 2 t) from by
    unfold Dat.leavesExact; rw [live5_2 t], after5_2]
  have hN : t.val < 200 := lt_of_lt_of_eq t.isLt (show cfg5.N = 200 from N_5)
  by_cases h0 : t.val % 10 = 0
  · by_cases h1 : t.val % 10 = 9
    · exfalso; omega
    · rw [Dat.leavesExact_idle (dat5 V c) 3 t (idle5_3 t (fun h => h1 ((flushC5_iff t).mp h))) (noFlush5_3 t (fun h => h1 ((flushC5_iff t).mp h)))]
      rw [outsAt5_Z V c t h0 h1]
      unfold acc5_Z; (try dsimp only)
      by_cases hz : t.val = 0
      · rw [PhiS5_castSucc V c t, PhiS5_zero V c _ _ hz, PhiA5_eq]
        iintro ⟨⟨⟨HS, Hr⟩, Hg⟩, Ho, ⟨%d0, H0⟩, ⟨%d1, H1⟩, ⟨%d2, H2⟩, ⟨%d3, H3⟩⟩
        iapply ((runZero5 c (grid5.coords t) _ _ _ _ _ _ _ _ _ _ ((zeroC5_iff t).mpr h0) (fun h => h1 ((flushC5_iff t).mp h)) (iblk5 V c 0 t) (iblk5 V c 1 t) (iblk5 V c 2 t)).2.2 _ Set.univ _)
        isplitl [H0]; · iexact H0
        isplitl [H1]; · iexact H1
        isplitl [H2]; · iexact H2
        isplitl [H3]; · iexact H3
        isplitl [HS]; · iexact HS
        iintro ⟨H0, H1, H2, H3, ⟨%es, HS⟩⟩
        isplitl [HS Hr Hg]
        · isplitl [HS Hr]
          · isplitl [HS]
            · unfold owns; iexists _; isplitr
              swap; · iexact HS
              ipureintro; exact View.read_writes_of_cover _ _ _ _ _ (scover5_Z c _ _ _ _ _ _ _ _ _ _ _ _ _ _ _ _)
            iexact Hr
          iexact Hg
        isplitl [Ho]; · iexact Ho
        isplitl [H0]; · iexact H0
        isplitl [H1]; · iexact H1
        isplitl [H2]; · iexact H2
        iexists _; iexact H3
      · rw [PhiS5_castSucc V c t, PhiS5_pos V c _ _ hz]
        iintro ⟨⟨⟨HS, Hr⟩, Hg⟩, Ho, ⟨%d0, H0⟩, ⟨%d1, H1⟩, ⟨%d2, H2⟩, ⟨%d3, H3⟩⟩
        iapply ((runZero5 c (grid5.coords t) _ _ _ _ _ _ _ _ _ _ ((zeroC5_iff t).mpr h0) (fun h => h1 ((flushC5_iff t).mp h)) (iblk5 V c 0 t) (iblk5 V c 1 t) (iblk5 V c 2 t)).2.2 _ Set.univ _)
        isplitl [H0]; · iexact H0
        isplitl [H1]; · iexact H1
        isplitl [H2]; · iexact H2
        isplitl [H3]; · iexact H3
        isplitl [HS]; · iexists _; iexact HS
        iintro ⟨H0, H1, H2, H3, ⟨%es, HS⟩⟩
        isplitl [HS Hr Hg]
        · isplitl [HS Hr]
          · isplitl [HS]
            · unfold owns; iexists _; isplitr
              swap; · iexact HS
              ipureintro; exact View.read_writes_of_cover _ _ _ _ _ (scover5_Z c _ _ _ _ _ _ _ _ _ _ _ _ _ _ _ _)
            iexact Hr
          iexact Hg
        isplitl [Ho]; · iexact Ho
        isplitl [H0]; · iexact H0
        isplitl [H1]; · iexact H1
        isplitl [H2]; · iexact H2
        iexists _; iexact H3
  · have hz : t.val ≠ 0 := fun e => h0 (by rw [e])
    by_cases h1 : t.val % 10 = 9
    · rw [show (dat5 V c).leavesExact 3 t = owns (c : Thread nD τ) (mO5 t) fullShare ((dat5 V c).after 3 t) from by
        unfold Dat.leavesExact; rw [live5_3 t ((flushC5_iff t).mpr h1)], after5_3]
      rw [outsAt5_L V c t h0 h1]
      unfold out5_L_3 acc5_L; (try dsimp only)
      rw [PhiS5_castSucc V c t, PhiS5_pos V c _ _ hz]
      iintro ⟨⟨⟨HS, Hr⟩, Hg⟩, Ho, ⟨%d0, H0⟩, ⟨%d1, H1⟩, ⟨%d2, H2⟩, ⟨%d3, H3⟩⟩
      iapply ((runLast5 c (grid5.coords t) _ _ _ _ _ _ _ _ _ _ (fun h => h0 ((zeroC5_iff t).mp h)) ((flushC5_iff t).mpr h1) (iblk5 V c 0 t) (iblk5 V c 1 t) (iblk5 V c 2 t) _).2.2 Set.univ _)
      isplitl [H0]; · iexact H0
      isplitl [H1]; · iexact H1
      isplitl [H2]; · iexact H2
      isplitl [H3]; · iexists _; iexact H3
      isplitl [HS]; · iexact HS
      iintro ⟨H0, H1, H2, ⟨%e3, H3⟩, ⟨%es, HS⟩⟩
      isplitl [HS Hr Hg]
      · isplitl [HS Hr]
        · isplitl [HS]
          · unfold owns; iexists _; isplitr
            swap; · iexact HS
            ipureintro; exact View.read_writes_of_cover _ _ _ _ _ (scover5_L c _ _ _ _ _ _ _ _ _ _ _ _ _ _ _ _ _)
          iexact Hr
        iexact Hg
      isplitl [Ho]; · iexact Ho
      isplitl [H0]; · iexact H0
      isplitl [H1]; · iexact H1
      isplitl [H2]; · iexact H2
      unfold owns; iexists _; isplitr
      swap; · iexact H3
      ipureintro; exact View.read_writes_of_cover _ _ _ _ _ (cover5_L_3 c _ _ _ _ _ _ _ _ _ _ _ _ _ _ _ _ _)
    · rw [Dat.leavesExact_idle (dat5 V c) 3 t (idle5_3 t (fun h => h1 ((flushC5_iff t).mp h))) (noFlush5_3 t (fun h => h1 ((flushC5_iff t).mp h)))]
      rw [outsAt5_M V c t h0 h1]
      unfold acc5_M; (try dsimp only)
      rw [PhiS5_castSucc V c t, PhiS5_pos V c _ _ hz]
      iintro ⟨⟨⟨HS, Hr⟩, Hg⟩, Ho, ⟨%d0, H0⟩, ⟨%d1, H1⟩, ⟨%d2, H2⟩, ⟨%d3, H3⟩⟩
      iapply ((runMid5 c (grid5.coords t) _ _ _ _ _ _ _ _ _ _ (fun h => h0 ((zeroC5_iff t).mp h)) (fun h => h1 ((flushC5_iff t).mp h)) (iblk5 V c 0 t) (iblk5 V c 1 t) (iblk5 V c 2 t) _).2.2 _ Set.univ _)
      isplitl [H0]; · iexact H0
      isplitl [H1]; · iexact H1
      isplitl [H2]; · iexact H2
      isplitl [H3]; · iexact H3
      isplitl [HS]; · iexact HS
      iintro ⟨H0, H1, H2, H3, ⟨%es, HS⟩⟩
      isplitl [HS Hr Hg]
      · isplitl [HS Hr]
        · isplitl [HS]
          · unfold owns; iexists _; isplitr
            swap; · iexact HS
            ipureintro; exact View.read_writes_of_cover _ _ _ _ _ (scover5_M c _ _ _ _ _ _ _ _ _ _ _ _ _ _ _ _ _)
          iexact Hr
        iexact Hg
      isplitl [Ho]; · iexact Ho
      isplitl [H0]; · iexact H0
      isplitl [H1]; · iexact H1
      isplitl [H2]; · iexact H2
      iexists _; iexact H3

/-- The library's body obligation, at every point. -/
theorem body_obligation5 (c : Dev nD) : BodyObligation (dat5 (F := F) V c) (defs₀ (F := F)) Variants.none () Set.univ := fun t => by
  rw [bigSep_W5, bigSep_W5]
  exact sound_body5 V c t

/-- What the launch hands the region is the invariant before the first point. -/
theorem hin5 (c : Dev nD) : Pipeline.ΦA spec5 c ⊢ (dat5 V c).Φ 0 := by
  rw [show (dat5 V c).Φ 0 = PhiS5 V c 0 (Nat.zero_le _) from rfl, PhiS5_zero V c 0 _ rfl]
  try exact Idealize.SL.BI.Entails.refl _

/-- After any point the invariant gives the class's back: the accumulator's named contents are forgotten. -/
theorem Phi_out5 (c : Dev nD) (t : Fin (cfg5.N + 1)) (ht : t.val ≠ 0) : (dat5 V c).Φ t ⊢ Pipeline.ΦA spec5 c := by
  rw [show (dat5 V c).Φ t = PhiS5 V c t.val (Nat.le_of_lt_succ t.isLt) from rfl, PhiS5_pos V c _ _ ht, PhiA5_eq]
  iintro ⟨⟨HS, Hr⟩, Hg⟩
  isplitl [HS Hr]
  · isplitl [HS]
    · iexists _; iexact HS
    iexact Hr
  iexact Hg

/-- The same after the last point. -/
theorem hout5 (c : Dev nD) : (dat5 V c).Φ (Fin.last cfg5.N) ⊢ Pipeline.ΦA spec5 c :=
  Phi_out5 V c _ (by rw [Fin.val_last]; have : cfg5.N = 200 := N_5; omega)

end Entry

end Cert.KernelIdeal.Rg

end
-- ==== Proof.KI.Reg6.lean ====
/- Stage-1 region 6 (custom_call 6): the per-region half of the frame argument, at the buffer
   contents `V` found when the region is entered. One row block of the left operand times the whole
   right operand, plus the bias row, written to the result's row block. -/
import proofs.«181230_j19834158973077_2_alg».proof.Proof.Gen.KernelIdeal.Launch
import proofs.«181230_j19834158973077_2_alg».proof.Proof.Gen.KernelIdeal.Skeleton
import proofs.«181230_j19834158973077_2_alg».proof.Proof.Gen.KernelIdeal.Points
import Idealize.ShloMosaic.Lib.Pipeline.FrameBody
import Idealize.ShloMosaic.Lib.Ring
import Idealize.ShloMosaic.Lib.Tactic

-- membership in a rectangle of full extents recurses once per coordinate of the long axes
set_option maxRecDepth 16384

noncomputable section

namespace Cert.KernelIdeal.Rg

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

-- the TensorCore's buffer contents when the region is entered
variable (V : (c : Dev nD) → (b : Ref sig .tc) → Buf (Elt F) ((c : Thread nD τ).loc b))

/-! ## The windows' blocks -/

/-- Window `w`'s block at point `t`, read off its array as the region finds it. -/
def iblk6 (c : Dev nD) (w : Fin cfg6.W) (t : Fin cfg6.N) : ((cfg6.win w).xblock (cfg6.grid.coords t)).Idx → Elt F (cfg6.win w).elt :=
  ((cfg6.win w).blk t).view.read (Elt F) (V c (Pipeline.arrRef spec6 w))

/-- Input window 0's current staging buffer holds its block at every point, fetched there or not: where it is
    not fetched the block index has not moved, and the body leaves the block in place. -/
theorem before6_0_of {c : Dev nD} (dat : Dat τ (Elt F) Unit ℕ (UR sig nD τ) ℕ cfg6 c) (hA : dat.A 0 = V c (Pipeline.arrRef spec6 0))
    (hafter : ∀ t, dat.after 0 t = iblk6 V c 0 t) (t : Fin cfg6.N) (d) : dat.before 0 t d = iblk6 V c 0 t :=
  (dat.before_in_eq_fetched 0 rfl (fun _ => rfl) (fun _ _ _ => rfl) (fun t => by rw [hafter]; unfold Dat.blockOf iblk6; rw [hA]; try rfl) t d).trans
    (by unfold Dat.fetched Dat.blockOf iblk6; rw [hA]; try rfl)

/-- Input window 1's current staging buffer holds its block at every point, fetched there or not: where it is
    not fetched the block index has not moved, and the body leaves the block in place. -/
theorem before6_1_of {c : Dev nD} (dat : Dat τ (Elt F) Unit ℕ (UR sig nD τ) ℕ cfg6 c) (hA : dat.A 1 = V c (Pipeline.arrRef spec6 1))
    (hafter : ∀ t, dat.after 1 t = iblk6 V c 1 t) (t : Fin cfg6.N) (d) : dat.before 1 t d = iblk6 V c 1 t :=
  (dat.before_in_eq_fetched 1 rfl (fun _ => rfl) (fun _ _ _ => rfl) (fun t => by rw [hafter]; unfold Dat.blockOf iblk6; rw [hA]; try rfl) t d).trans
    (by unfold Dat.fetched Dat.blockOf iblk6; rw [hA]; try rfl)

/-- Input window 2's current staging buffer holds its block at every point, fetched there or not: where it is
    not fetched the block index has not moved, and the body leaves the block in place. -/
theorem before6_2_of {c : Dev nD} (dat : Dat τ (Elt F) Unit ℕ (UR sig nD τ) ℕ cfg6 c) (hA : dat.A 2 = V c (Pipeline.arrRef spec6 2))
    (hafter : ∀ t, dat.after 2 t = iblk6 V c 2 t) (t : Fin cfg6.N) (d) : dat.before 2 t d = iblk6 V c 2 t :=
  (dat.before_in_eq_fetched 2 rfl (fun _ => rfl) (fun _ _ _ => rfl) (fun t => by rw [hafter]; unfold Dat.blockOf iblk6; rw [hA]; try rfl) t d).trans
    (by unfold Dat.fetched Dat.blockOf iblk6; rw [hA]; try rfl)

/-! ## The body's accesses: each staging buffer whole -/

abbrev r6_0 : Rect S1024x1024 := Rect.unit (s := S1024x1024) ![0, 0] S1024x1024.size inb_S1024x1024_S1024x1024_0_0
abbrev r6_1 : Rect S1024x1024 := Rect.unit (s := S1024x1024) ![0, 0] S1024x1024.size inb_S1024x1024_S1024x1024_0_0
abbrev r6_2 : Rect S1x1024 := Rect.unit (s := S1x1024) ![0, 0] S1x1024.size inb_S1x1024_S1x1024_0_0
abbrev r6_3 : Rect S1024x1024 := Rect.unit (s := S1024x1024) ![0, 0] S1024x1024.size inb_S1024x1024_S1024x1024_0_0

/-! ## What the body leaves in the result's buffer -/

/-- The result window's staging buffer after the body, from the three input blocks: its one whole-block store
    of the payload (product into a zero accumulator, plus the bias row, then the format change). -/
def out6_3 (x0 : Vec F S1024x1024 .bf16) (x1 : Vec F S1024x1024 .bf16) (x2 : Vec F S1x1024 .f32) : Vec F S1024x1024 .bf16 :=
  View.canon [⟨r6_3, k6_pay1 (View.ld x0 r6_0) (View.ld x1 r6_1) (View.ld x2 r6_2)⟩]

/-- The one store is the whole buffer, so it covers it. -/
theorem cover6_3 (p0 : Vec F S1024x1024 .bf16) (y : S1024x1024.Idx) :
    ∃ pc ∈ ([⟨r6_3, p0⟩] : List (View.Piece (Elt F) S1024x1024 .bf16)), y ∈ pc.1.set :=
  View.cover_of_tiled [⟨r6_3, p0⟩] S1024x1024.size (by rfl) y

/-! ## The body's triple -/

set_option maxHeartbeats 1000000 in
/-- The kernel body on whole staging memrefs, the inputs' at contents `x0 x1 x2` and the result's at anything, runs
    to the continuation holding the inputs' as they were and the result's at `out6_3` of the inputs'. -/
theorem sound_kernel6 (c : Dev nD) (E : Set ℕ) (i : grid6.Coords)
    (arg0 : Memref sig .tc .vmem S1024x1024 .bf16) (harg0 : arg0.IsWhole) (arg1 : Memref sig .tc .vmem S1024x1024 .bf16) (harg1 : arg1.IsWhole)
    (arg2 : Memref sig .tc .vmem S1x1024 .f32) (harg2 : arg2.IsWhole) (arg3 : Memref sig .tc .vmem S1024x1024 .bf16) (harg3 : arg3.IsWhole)
    (x0 : Vec F S1024x1024 .bf16) (x1 : Vec F S1024x1024 .bf16) (x2 : Vec F S1x1024 .f32) (K : PUnit → sProp 𝕄) :
    iprop(owns (c : Thread nD τ) arg0 fullShare x0 ∗ owns (c : Thread nD τ) arg1 fullShare x1 ∗ owns (c : Thread nD τ) arg2 fullShare x2
        ∗ (∃ d, owns (c : Thread nD τ) arg3 fullShare d)
        ∗ (iprop(owns (c : Thread nD τ) arg0 fullShare x0 ∗ owns (c : Thread nD τ) arg1 fullShare x1 ∗ owns (c : Thread nD τ) arg2 fullShare x2
            ∗ owns (c : Thread nD τ) arg3 fullShare (out6_3 x0 x1 x2)) -∗ K ⟨⟩))
      ⊢ wp frame (wpE (defs₀ (F := F)) Variants.none c none) E (cc6__stage1_kernel i arg0 harg0 arg1 harg1 arg2 harg2 arg3 harg3) K := by
  simp only [cc6__stage1_kernel_eq_skeleton]; unfold cc6__stage1_kernel_skel
  unfold owns
  iintro ⟨⟨%f0, %hf0, H0⟩, ⟨%f1, %hf1, H1⟩, ⟨%f2, %hf2, H2⟩, ⟨%d3, %f3, -, H3⟩, Hk⟩
  subst hf0 hf1 hf2
  sl_exec
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  iexists _; isplitr
  swap; · iexact H3
  ipureintro
  exact View.read_writes_eq_canon _ _ _ (cover6_3 _)

/-! ## The pipeline's proof data -/

/-- The proof data of pipeline 6 on core `c`: the arrays as the region finds them; after the body at point `t`
    each input's buffer at its block and the result's at `out6_3` of the input blocks; the invariant the scoped
    rest and the generator register, untouched; nothing owed; full shares. -/
def dat6 (c : Dev nD) : Dat τ (Elt F) Unit ℕ (UR sig nD τ) ℕ cfg6 c where
  A w := V c (Pipeline.arrRef spec6 w)
  after w t := match w with
    | ⟨0, _⟩ => iblk6 V c 0 t
    | ⟨1, _⟩ => iblk6 V c 1 t
    | ⟨2, _⟩ => iblk6 V c 2 t
    | ⟨3, _⟩ => out6_3 (iblk6 V c 0 t) (iblk6 V c 1 t) (iblk6 V c 2 t)
  Φ _ := Pipeline.ΦA spec6 c
  q _ := fullShare
  owed _ := 0

/-- The proof data's arrays are the region-entry contents. -/
theorem A_eq6 (c : Dev nD) (w : Fin cfg6.W) : (dat6 V c).A w = V c (Pipeline.arrRef spec6 w) := by
  dsimp only [dat6]

/-- What the body leaves, window by window. -/
theorem after6_0 (c : Dev nD) (t : Fin cfg6.N) : (dat6 V c).after 0 t = iblk6 V c 0 t := by dsimp only [dat6]
theorem after6_1 (c : Dev nD) (t : Fin cfg6.N) : (dat6 V c).after 1 t = iblk6 V c 1 t := by dsimp only [dat6]
theorem after6_2 (c : Dev nD) (t : Fin cfg6.N) : (dat6 V c).after 2 t = iblk6 V c 2 t := by dsimp only [dat6]
theorem after6_3 (c : Dev nD) (t : Fin cfg6.N) :
    (dat6 V c).after 3 t = out6_3 (iblk6 V c 0 t) (iblk6 V c 1 t) (iblk6 V c 2 t) := by dsimp only [dat6]

/-- Each input's current staging buffer holds its block at every point, fetched there or not. -/
theorem before6_0 (c : Dev nD) (t : Fin cfg6.N) (d) : (dat6 V c).before 0 t d = iblk6 V c 0 t :=
  before6_0_of V (dat6 V c) (A_eq6 V c 0) (after6_0 V c) t d
theorem before6_1 (c : Dev nD) (t : Fin cfg6.N) (d) : (dat6 V c).before 1 t d = iblk6 V c 1 t :=
  before6_1_of V (dat6 V c) (A_eq6 V c 1) (after6_1 V c) t d
theorem before6_2 (c : Dev nD) (t : Fin cfg6.N) (d) : (dat6 V c).before 2 t d = iblk6 V c 2 t :=
  before6_2_of V (dat6 V c) (A_eq6 V c 2) (after6_2 V c) t d

/-- The invariant is the class's at every point: entering and leaving the region are identities on it. -/
theorem hin6 (c : Dev nD) : (Pipeline.ΦA spec6 c : sProp 𝕄) ⊢ (dat6 V c).Φ 0 := by
  show (Pipeline.ΦA spec6 c : sProp 𝕄) ⊢ Pipeline.ΦA spec6 c
  exact .rfl
theorem hout6 (c : Dev nD) : (dat6 V c).Φ (Fin.last cfg6.N) ⊢ (Pipeline.ΦA spec6 c : sProp 𝕄) := by
  show (Pipeline.ΦA spec6 c : sProp 𝕄) ⊢ Pipeline.ΦA spec6 c
  exact .rfl

/-! ## The body obligation, at a generic point -/

/-- What the body is called with at point `t`, the windows one by one, -/
def bodyPre6 (c : Dev nD) (t : Fin cfg6.N) : sProp 𝕄 :=
  iprop((dat6 V c).Φ t.castSucc ∗ (dat6 V c).owesAt () t.castSucc
    ∗ (∃ d, owns (c : Thread nD τ) (st6_0 t) fullShare ((dat6 V c).before 0 t d))
    ∗ (∃ d, owns (c : Thread nD τ) (st6_1 t) fullShare ((dat6 V c).before 1 t d))
    ∗ (∃ d, owns (c : Thread nD τ) (st6_2 t) fullShare ((dat6 V c).before 2 t d))
    ∗ (∃ d, owns (c : Thread nD τ) (st6_3 t) fullShare ((dat6 V c).before 3 t d)))

/-- and what it returns. -/
def bodyPost6 (c : Dev nD) (t : Fin cfg6.N) : sProp 𝕄 :=
  iprop((dat6 V c).Φ t.succ ∗ (dat6 V c).owesAt () t.succ
    ∗ owns (c : Thread nD τ) (st6_0 t) fullShare ((dat6 V c).after 0 t)
    ∗ owns (c : Thread nD τ) (st6_1 t) fullShare ((dat6 V c).after 1 t)
    ∗ owns (c : Thread nD τ) (st6_2 t) fullShare ((dat6 V c).after 2 t)
    ∗ owns (c : Thread nD τ) (st6_3 t) fullShare ((dat6 V c).after 3 t))

/-- The body at any point: the inputs' memrefs hold their blocks, so the body's triple applies; the invariant and
    the core's debts pass through unread. -/
theorem sound_body6 (c : Dev nD) (t : Fin cfg6.N) :
    bodyPre6 V c t ⊢ wp frame (wpE (defs₀ (F := F)) Variants.none c none) Set.univ (bodyAt6 t) (fun _ => bodyPost6 V c t) := by
  unfold bodyPre6 bodyPost6 bodyAt6
  simp only [before6_0, before6_1, before6_2]
  rw [show (dat6 V c).Φ t.succ = (dat6 V c).Φ t.castSucc from rfl,
    show (dat6 V c).owesAt () t.succ = (dat6 V c).owesAt () t.castSucc from rfl,
    after6_0, after6_1, after6_2, after6_3]
  iintro ⟨HΦ, Ho, ⟨%d0, H0⟩, ⟨%d1, H1⟩, ⟨%d2, H2⟩, ⟨%d3, H3⟩⟩
  iapply (sound_kernel6 c Set.univ _ _ _ _ _ _ _ _ _ (iblk6 V c 0 t) (iblk6 V c 1 t) (iblk6 V c 2 t) _)
  isplitl [H0]; · iexact H0
  isplitl [H1]; · iexact H1
  isplitl [H2]; · iexact H2
  isplitl [H3]; · iexists _; iexact H3
  iintro ⟨H0, H1, H2, H3⟩
  isplitl [HΦ]; · iexact HΦ
  isplitl [Ho]; · iexact Ho
  isplitl [H0]; · iexact H0
  isplitl [H1]; · iexact H1
  isplitl [H2]; · iexact H2
  iexact H3

/-- The library's body obligation, at every point. -/
theorem body_obligation6 (c : Dev nD) : BodyObligation (dat6 (F := F) V c) (defs₀ (F := F)) Variants.none () Set.univ := fun t => by
  rw [bigSep_W6, bigSep_W6]
  exact sound_body6 V c t

end Cert.KernelIdeal.Rg
-- ==== Proof.KI.Reg7.lean ====
/- REGION 7: the adjacency product with a carried accumulator (grid 20 × 10, the reduction step `k = t % 10`). The f32
   accumulator [512x1024] is zeroed when `k = 0`, takes the product of the left operand's block with the right operand's
   rows `k*1024 … k*1024+1023` at every point, and when `k = 9` is read back, the bias row added, the positive part taken, the sum converted to the result's format and stored whole into the
   result's block. Stated at a parameter `V`, the TensorCore's buffer contents when the region is entered: the proof
   data `dat7`, its body obligation, and the invariant's two ends `hin7` / `hout7`; `out7_L_3` / `outsAt7` name what
   the result window holds. -/
import proofs.«181230_j19834158973077_2_alg».proof.Proof.Gen.KernelIdeal.Launch
import proofs.«181230_j19834158973077_2_alg».proof.Proof.Gen.KernelIdeal.Skeleton
import proofs.«181230_j19834158973077_2_alg».proof.Proof.Gen.KernelIdeal.Points
import Idealize.ShloMosaic.Lib.Pipeline.FrameBody
import Idealize.ShloMosaic.Lib.Ring
import Idealize.ShloMosaic.Lib.Tactic

-- membership in a rectangle of full extents recurses once per coordinate of the long axes
set_option maxRecDepth 16384

noncomputable section

namespace Cert.KernelIdeal.Rg

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

/-! # Part 1: the conditionals over the grid, the memrefs, the invariant's split, the blocks -/

/-! ## The body's two conditionals, over the grid

A grid point `t` has coordinates `(m, k)` with `k = t % 10` the reduction step. The accumulator is zeroed when
`k = 0`; the result block is written when `k = 9`. -/

/-- The first conditional's condition (`k = 0`), with the scalar chain that computes it substituted. -/
abbrev zeroC7 (i : grid7.Coords) : Prop :=
  (Scalar.cmpi .ne (Scalar.extui (Scalar.cmpi .eq (BitVec.ofNat 32 (i 1).val) 0#32)) 0#32) = 1#1
/-- It holds exactly at the points ≡ 0 (mod 10): decided over the 200 points. -/
theorem zeroC7_iff : ∀ t : Fin cfg7.N, zeroC7 (grid7.coords t) ↔ t.val % 10 = 0 :=
  (by decide +kernel : ∀ t : Fin grid7.N, zeroC7 (grid7.coords t) ↔ t.val % 10 = 0)

/-- The second conditional's condition (`k = 9`). -/
abbrev flushC7 (i : grid7.Coords) : Prop := k7_cond2 i = 1#1
/-- It holds exactly at the points ≡ 9 (mod 10). -/
theorem flushC7_iff : ∀ t : Fin cfg7.N, flushC7 (grid7.coords t) ↔ t.val % 10 = 9 :=
  (by decide +kernel : ∀ t : Fin grid7.N, flushC7 (grid7.coords t) ↔ t.val % 10 = 9)

/-! ## Where the windows are idle -/

/-- The three input windows are never idle. -/
theorem live7_0 : ∀ t : Fin cfg7.N, cfg7.idle 0 (grid7.coords t) = false := by decide +kernel
theorem live7_1 : ∀ t : Fin cfg7.N, cfg7.idle 1 (grid7.coords t) = false := by decide +kernel
theorem live7_2 : ∀ t : Fin cfg7.N, cfg7.idle 2 (grid7.coords t) = false := by decide +kernel
/-- Away from `k = 9` the result window is idle (the body stores nothing into it) -/
theorem idle7_3 : ∀ t : Fin cfg7.N, ¬flushC7 (grid7.coords t) → cfg7.idle 3 (grid7.coords t) = true := by decide +kernel
/-- and its block is not written back; -/
theorem noFlush7_3 : ∀ t : Fin cfg7.N, ¬flushC7 (grid7.coords t) → (cfg7.win 3).flush t = false := by decide +kernel
/-- at `k = 9` it is live. -/
theorem live7_3 : ∀ t : Fin cfg7.N, flushC7 (grid7.coords t) → cfg7.idle 3 (grid7.coords t) = false := by decide +kernel

/-! ## The memrefs the body is called with -/

/-- Each window's current staging memref at point `t`, and that it is a whole buffer: the left operand's block, -/
abbrev mA7 (t : Fin cfg7.N) : Memref sig .tc .vmem S512x1024 .bf16 := win7_0.stage (cfg7.slots t 0)
abbrev hA7 (t : Fin cfg7.N) : (mA7 t).IsWhole := hstage7_0 ((cfg7.slots t 0).cast nbuf7_0)
/-- the right operand, resident whole, -/
abbrev mB7 (t : Fin cfg7.N) : Memref sig .tc .vmem S10240x1024 .bf16 := win7_1.stage (cfg7.slots t 1)
abbrev hB7 (t : Fin cfg7.N) : (mB7 t).IsWhole := hstage7_1 ((cfg7.slots t 1).cast nbuf7_1)
/-- the bias row, -/
abbrev mC7 (t : Fin cfg7.N) : Memref sig .tc .vmem S1x1024 .f32 := win7_2.stage (cfg7.slots t 2)
abbrev hC7 (t : Fin cfg7.N) : (mC7 t).IsWhole := hstage7_2 ((cfg7.slots t 2).cast nbuf7_2)
/-- the result's block. -/
abbrev mO7 (t : Fin cfg7.N) : Memref sig .tc .vmem S512x1024 .bf16 := win7_3.stage (cfg7.slots t 3)
abbrev hO7 (t : Fin cfg7.N) : (mO7 t).IsWhole := hstage7_3 ((cfg7.slots t 3).cast nbuf7_3)
/-- The accumulator: a whole scoped buffer of the kernel's own, passed beside the windows and carried from point to point. -/
abbrev mS7 : Memref sig .tc .vmem S512x1024 .f32 := Memref.whole cc7_scratch0
/-- The views through which the result buffer's and the accumulator's contents are stated (one of the result's two
    staging buffers: for a covering list of stores the choice does not matter). -/
abbrev vO7 : View sig .tc .vmem S512x1024 .bf16 := (Memref.whole cc7_stg3_0 : Memref sig .tc .vmem S512x1024 .bf16).view
abbrev vS7 : View sig .tc .vmem S512x1024 .f32 := mS7.view

/-! ## The region invariant, with the accumulator split off -/

/-- Every other scoped buffer of the core that is no staging buffer of this region: carried unopened. -/
abbrev rest7 (c : Dev nD) : sProp 𝕄 :=
  Pipeline.scopedRestBut (Ix := Unit) (Name := ℕ) (U := UR sig nD τ) (Lvl := ℕ) (Val := Elt F) spec7 c [cc7_scratch0]

/-- The class's invariant is: the accumulator owned at some contents, the other scoped buffers, the generator
    register at some state. -/
theorem PhiA7_eq (c : Dev nD) :
    (Pipeline.ΦA spec7 c : sProp 𝕄)
      = iprop(iprop((∃ d, owns (c : Thread nD τ) mS7 fullShare d) ∗ rest7 (F := F) c) ∗ (∃ r, prngReg c r)) := by
  unfold Pipeline.ΦA; rw [scopedRest7_split]; simp only [mS7, owns_whole]; try rfl

section Entry
variable (V : (c : Dev nD) → (b : Ref sig .tc) → Buf (Elt F) ((c : Thread nD τ).loc b))

/-! ## The windows' blocks -/

/-- Window `w`'s block at point `t`, read off its array as the region finds it. -/
def iblk7 (c : Dev nD) (w : Fin cfg7.W) (t : Fin cfg7.N) : ((cfg7.win w).xblock (cfg7.grid.coords t)).Idx → Elt F (cfg7.win w).elt :=
  ((cfg7.win w).blk t).view.read (Elt F) (V c (Pipeline.arrRef spec7 w))

/-- An input window's current staging buffer holds its block at every point, fetched there or not (where it is not
    fetched its block index has not moved), for any proof data whose array is `V`'s and whose body leaves the block
    in place. -/
theorem before7_0_of {c : Dev nD} (dat : Dat τ (Elt F) Unit ℕ (UR sig nD τ) ℕ cfg7 c) (hA : dat.A 0 = V c (Pipeline.arrRef spec7 0))
    (hafter : ∀ t, dat.after 0 t = iblk7 V c 0 t) (t : Fin cfg7.N) (d) : dat.before 0 t d = iblk7 V c 0 t :=
  (dat.before_in_eq_fetched 0 rfl (fun _ => rfl) (fun _ _ _ => rfl) (fun t => by rw [hafter]; unfold Dat.blockOf iblk7; rw [hA]; try rfl) t d).trans
    (by unfold Dat.fetched Dat.blockOf iblk7; rw [hA]; try rfl)
theorem before7_1_of {c : Dev nD} (dat : Dat τ (Elt F) Unit ℕ (UR sig nD τ) ℕ cfg7 c) (hA : dat.A 1 = V c (Pipeline.arrRef spec7 1))
    (hafter : ∀ t, dat.after 1 t = iblk7 V c 1 t) (t : Fin cfg7.N) (d) : dat.before 1 t d = iblk7 V c 1 t :=
  (dat.before_in_eq_fetched 1 rfl (fun _ => rfl) (fun _ _ _ => rfl) (fun t => by rw [hafter]; unfold Dat.blockOf iblk7; rw [hA]; try rfl) t d).trans
    (by unfold Dat.fetched Dat.blockOf iblk7; rw [hA]; try rfl)
theorem before7_2_of {c : Dev nD} (dat : Dat τ (Elt F) Unit ℕ (UR sig nD τ) ℕ cfg7 c) (hA : dat.A 2 = V c (Pipeline.arrRef spec7 2))
    (hafter : ∀ t, dat.after 2 t = iblk7 V c 2 t) (t : Fin cfg7.N) (d) : dat.before 2 t d = iblk7 V c 2 t :=
  (dat.before_in_eq_fetched 2 rfl (fun _ => rfl) (fun _ _ _ => rfl) (fun t => by rw [hafter]; unfold Dat.blockOf iblk7; rw [hA]; try rfl) t d).trans
    (by unfold Dat.fetched Dat.blockOf iblk7; rw [hA]; try rfl)

end Entry

/-! # Part 2: the body's run in each of the three control cases -/
/-! ### The control case `k = 0`: the accumulator is stored whole with zeros, then read back, the block product added and the sum stored
   whole again; the result buffer is not touched. -/

-- (the run's proof term is large: the definition's epilogue walks it past the default budget)
set_option maxHeartbeats 1000000 in
/-- The lists of stores, last first, that the body leaves in the result buffer (`L3`) and in the accumulator (`LS`) in
    this case, TOGETHER WITH the proof that on whole memrefs — the three inputs at contents `x0 x1 x2`, the result
    buffer at contents `xi3` handed back as found, the accumulator at anything — the body runs to a
    continuation that holds the inputs as they were, the result buffer as it was and the accumulator with
    `LS` written. The two lists are found by running the body's memory operations in order over named payloads; each
    conditional is decided by the case's hypotheses. -/
noncomputable def runZero7 (c : Dev nD) (i : grid7.Coords) (arg2 : Memref sig .tc .vmem S512x1024 .bf16) (harg2 : arg2.IsWhole) (arg3 : Memref sig .tc .vmem S10240x1024 .bf16) (harg3 : arg3.IsWhole) (arg4 : Memref sig .tc .vmem S1x1024 .f32) (harg4 : arg4.IsWhole) (arg5 : Memref sig .tc .vmem S512x1024 .bf16) (harg5 : arg5.IsWhole) (arg6 : Memref sig .tc .vmem S512x1024 .f32) (harg6 : arg6.IsWhole) (hc0 : zeroC7 i) (hc1 : ¬flushC7 i)
    (x0 : Vec F S512x1024 .bf16) (x1 : Vec F S10240x1024 .bf16) (x2 : Vec F S1x1024 .f32) :
    Σ' (L3 : List (View.Piece (Elt F) S512x1024 .bf16)), { LS : List (View.Piece (Elt F) S512x1024 .f32) //
      ∀ (xi3 : Vec F S512x1024 .bf16) (E : Set ℕ) (K : PUnit → sProp 𝕄),
        iprop(owns (c : Thread nD τ) arg2 fullShare x0 ∗ owns (c : Thread nD τ) arg3 fullShare x1 ∗ owns (c : Thread nD τ) arg4 fullShare x2 ∗ owns (c : Thread nD τ) arg5 fullShare xi3 ∗ (∃ d, owns (c : Thread nD τ) arg6 fullShare d)
            ∗ (iprop(owns (c : Thread nD τ) arg2 fullShare x0 ∗ owns (c : Thread nD τ) arg3 fullShare x1 ∗ owns (c : Thread nD τ) arg4 fullShare x2 ∗ owns (c : Thread nD τ) arg5 fullShare xi3 ∗ (∃ f, arg6.view.loc (c : Thread nD τ) ↦[arg6.view.set]{fullShare} arg6.view.writes (Elt F) f LS)) -∗ K ⟨⟩))
          ⊢ wp frame (wpE (defs₀ (F := F)) Variants.none c none) E (cc7__stage2_kernel i arg2 harg2 arg3 harg3 arg4 harg4 arg5 harg5 arg6 harg6) K } := by
  refine ⟨[], ?_, fun xi3 E K => ?run⟩
  case run =>
    simp only [cc7__stage2_kernel_eq_skeleton]; unfold cc7__stage2_kernel_skel
    unfold owns
    iintro ⟨⟨%f0, %hf0, H0⟩, ⟨%f1, %hf1, H1⟩, ⟨%f2, %hf2, H2⟩, ⟨%f3, %hf3, H3⟩, ⟨%ds, %fs, -, HS⟩, Hk⟩
    obtain rfl := harg2.eq_unread hf0; obtain rfl := harg3.eq_unread hf1; obtain rfl := harg4.eq_unread hf2; obtain rfl := harg5.eq_unread hf3
    sl_exec (disch := first | exact hc0 | exact hc1)
    sl_step
    iapply Hk
    isplitl [H0]
    · iexists _; isplitr; · ipureintro; exact harg2.read_unread _
      iexact H0
    isplitl [H1]
    · iexists _; isplitr; · ipureintro; exact harg3.read_unread _
      iexact H1
    isplitl [H2]
    · iexists _; isplitr; · ipureintro; exact harg4.read_unread _
      iexact H2
    isplitl [H3]
    · iexists _; isplitr; · ipureintro; exact harg5.read_unread _
      iexact H3
    iexists _; iexact HS

/-! ### The control case `0 < k < 9`: the accumulator is read, the block product added and the sum stored whole; the result
   buffer is not touched. -/

-- (the run's proof term is large: the definition's epilogue walks it past the default budget)
set_option maxHeartbeats 1000000 in
/-- The lists of stores, last first, that the body leaves in the result buffer (`L3`) and in the accumulator (`LS`) in
    this case, TOGETHER WITH the proof that on whole memrefs — the three inputs at contents `x0 x1 x2`, the result
    buffer at contents `xi3` handed back as found, the accumulator at the contents `xs` the point before left — the body runs to a
    continuation that holds the inputs as they were, the result buffer as it was and the accumulator with
    `LS` written. The two lists are found by running the body's memory operations in order over named payloads; each
    conditional is decided by the case's hypotheses. -/
noncomputable def runMid7 (c : Dev nD) (i : grid7.Coords) (arg2 : Memref sig .tc .vmem S512x1024 .bf16) (harg2 : arg2.IsWhole) (arg3 : Memref sig .tc .vmem S10240x1024 .bf16) (harg3 : arg3.IsWhole) (arg4 : Memref sig .tc .vmem S1x1024 .f32) (harg4 : arg4.IsWhole) (arg5 : Memref sig .tc .vmem S512x1024 .bf16) (harg5 : arg5.IsWhole) (arg6 : Memref sig .tc .vmem S512x1024 .f32) (harg6 : arg6.IsWhole) (hc0 : ¬zeroC7 i) (hc1 : ¬flushC7 i)
    (x0 : Vec F S512x1024 .bf16) (x1 : Vec F S10240x1024 .bf16) (x2 : Vec F S1x1024 .f32) (xs : Vec F S512x1024 .f32) :
    Σ' (L3 : List (View.Piece (Elt F) S512x1024 .bf16)), { LS : List (View.Piece (Elt F) S512x1024 .f32) //
      ∀ (xi3 : Vec F S512x1024 .bf16) (E : Set ℕ) (K : PUnit → sProp 𝕄),
        iprop(owns (c : Thread nD τ) arg2 fullShare x0 ∗ owns (c : Thread nD τ) arg3 fullShare x1 ∗ owns (c : Thread nD τ) arg4 fullShare x2 ∗ owns (c : Thread nD τ) arg5 fullShare xi3 ∗ owns (c : Thread nD τ) arg6 fullShare xs
            ∗ (iprop(owns (c : Thread nD τ) arg2 fullShare x0 ∗ owns (c : Thread nD τ) arg3 fullShare x1 ∗ owns (c : Thread nD τ) arg4 fullShare x2 ∗ owns (c : Thread nD τ) arg5 fullShare xi3 ∗ (∃ f, arg6.view.loc (c : Thread nD τ) ↦[arg6.view.set]{fullShare} arg6.view.writes (Elt F) f LS)) -∗ K ⟨⟩))
          ⊢ wp frame (wpE (defs₀ (F := F)) Variants.none c none) E (cc7__stage2_kernel i arg2 harg2 arg3 harg3 arg4 harg4 arg5 harg5 arg6 harg6) K } := by
  refine ⟨[], ?_, fun xi3 E K => ?run⟩
  case run =>
    simp only [cc7__stage2_kernel_eq_skeleton]; unfold cc7__stage2_kernel_skel
    unfold owns
    iintro ⟨⟨%f0, %hf0, H0⟩, ⟨%f1, %hf1, H1⟩, ⟨%f2, %hf2, H2⟩, ⟨%f3, %hf3, H3⟩, ⟨%fs, %hfs, HS⟩, Hk⟩
    obtain rfl := harg2.eq_unread hf0; obtain rfl := harg3.eq_unread hf1; obtain rfl := harg4.eq_unread hf2; obtain rfl := harg5.eq_unread hf3; obtain rfl := harg6.eq_unread hfs
    sl_exec (disch := first | exact hc0 | exact hc1)
    sl_step
    iapply Hk
    isplitl [H0]
    · iexists _; isplitr; · ipureintro; exact harg2.read_unread _
      iexact H0
    isplitl [H1]
    · iexists _; isplitr; · ipureintro; exact harg3.read_unread _
      iexact H1
    isplitl [H2]
    · iexists _; isplitr; · ipureintro; exact harg4.read_unread _
      iexact H2
    isplitl [H3]
    · iexists _; isplitr; · ipureintro; exact harg5.read_unread _
      iexact H3
    iexists _; iexact HS

/-! ### The control case `k = 9`: the accumulator is read, the block product added and the sum stored whole; then the accumulator
   is read back, the bias row added, the sum converted to the result's format and stored whole into the result buffer. -/

-- (the run's proof term is large: the definition's epilogue walks it past the default budget)
set_option maxHeartbeats 1000000 in
/-- The lists of stores, last first, that the body leaves in the result buffer (`L3`) and in the accumulator (`LS`) in
    this case, TOGETHER WITH the proof that on whole memrefs — the three inputs at contents `x0 x1 x2`, the result buffer at anything, the accumulator at the contents `xs` the point before left — the body runs to a
    continuation that holds the inputs as they were, the result buffer with `L3` written and the accumulator with
    `LS` written. The two lists are found by running the body's memory operations in order over named payloads; each
    conditional is decided by the case's hypotheses. -/
noncomputable def runLast7 (c : Dev nD) (i : grid7.Coords) (arg2 : Memref sig .tc .vmem S512x1024 .bf16) (harg2 : arg2.IsWhole) (arg3 : Memref sig .tc .vmem S10240x1024 .bf16) (harg3 : arg3.IsWhole) (arg4 : Memref sig .tc .vmem S1x1024 .f32) (harg4 : arg4.IsWhole) (arg5 : Memref sig .tc .vmem S512x1024 .bf16) (harg5 : arg5.IsWhole) (arg6 : Memref sig .tc .vmem S512x1024 .f32) (harg6 : arg6.IsWhole) (hc0 : ¬zeroC7 i) (hc1 : flushC7 i)
    (x0 : Vec F S512x1024 .bf16) (x1 : Vec F S10240x1024 .bf16) (x2 : Vec F S1x1024 .f32) (xs : Vec F S512x1024 .f32) :
    Σ' (L3 : List (View.Piece (Elt F) S512x1024 .bf16)), { LS : List (View.Piece (Elt F) S512x1024 .f32) //
      ∀ (E : Set ℕ) (K : PUnit → sProp 𝕄),
        iprop(owns (c : Thread nD τ) arg2 fullShare x0 ∗ owns (c : Thread nD τ) arg3 fullShare x1 ∗ owns (c : Thread nD τ) arg4 fullShare x2 ∗ (∃ d, owns (c : Thread nD τ) arg5 fullShare d) ∗ owns (c : Thread nD τ) arg6 fullShare xs
            ∗ (iprop(owns (c : Thread nD τ) arg2 fullShare x0 ∗ owns (c : Thread nD τ) arg3 fullShare x1 ∗ owns (c : Thread nD τ) arg4 fullShare x2 ∗ (∃ f, arg5.view.loc (c : Thread nD τ) ↦[arg5.view.set]{fullShare} arg5.view.writes (Elt F) f L3) ∗ (∃ f, arg6.view.loc (c : Thread nD τ) ↦[arg6.view.set]{fullShare} arg6.view.writes (Elt F) f LS)) -∗ K ⟨⟩))
          ⊢ wp frame (wpE (defs₀ (F := F)) Variants.none c none) E (cc7__stage2_kernel i arg2 harg2 arg3 harg3 arg4 harg4 arg5 harg5 arg6 harg6) K } := by
  refine ⟨?_, ?_, fun E K => ?run⟩
  case run =>
    simp only [cc7__stage2_kernel_eq_skeleton]; unfold cc7__stage2_kernel_skel
    unfold owns
    iintro ⟨⟨%f0, %hf0, H0⟩, ⟨%f1, %hf1, H1⟩, ⟨%f2, %hf2, H2⟩, ⟨%d3, %f3, -, H3⟩, ⟨%fs, %hfs, HS⟩, Hk⟩
    obtain rfl := harg2.eq_unread hf0; obtain rfl := harg3.eq_unread hf1; obtain rfl := harg4.eq_unread hf2; obtain rfl := harg6.eq_unread hfs
    sl_exec (disch := first | exact hc0 | exact hc1)
    sl_step
    iapply Hk
    isplitl [H0]
    · iexists _; isplitr; · ipureintro; exact harg2.read_unread _
      iexact H0
    isplitl [H1]
    · iexists _; isplitr; · ipureintro; exact harg3.read_unread _
      iexact H1
    isplitl [H2]
    · iexists _; isplitr; · ipureintro; exact harg4.read_unread _
      iexact H2
    isplitl [H3]; · iexists _; iexact H3
    iexists _; iexact HS

/-! # Part 3: what each case leaves, point by point; the proof data; the body obligation; the invariant's ends -/

/-! ## What each case leaves

In the cases `k = 0` and `0 < k < 9` nothing is stored into the result buffer: its "contents" below is a placeholder
(no stores read back over junk) that nothing consults, the window being idle and not written back at those points. -/

def out7_Z_3 (c : Dev nD) (i : grid7.Coords) (arg2 : Memref sig .tc .vmem S512x1024 .bf16) (harg2 : arg2.IsWhole) (arg3 : Memref sig .tc .vmem S10240x1024 .bf16) (harg3 : arg3.IsWhole) (arg4 : Memref sig .tc .vmem S1x1024 .f32) (harg4 : arg4.IsWhole) (arg5 : Memref sig .tc .vmem S512x1024 .bf16) (harg5 : arg5.IsWhole) (arg6 : Memref sig .tc .vmem S512x1024 .f32) (harg6 : arg6.IsWhole) (hc0 : zeroC7 i) (hc1 : ¬flushC7 i)
    (x0 : Vec F S512x1024 .bf16) (x1 : Vec F S10240x1024 .bf16) (x2 : Vec F S1x1024 .f32) : Vec F S512x1024 .bf16 :=
  vO7.read (Elt F) (vO7.writes (Elt F) vO7.junk (runZero7 c i arg2 harg2 arg3 harg3 arg4 harg4 arg5 harg5 arg6 harg6 hc0 hc1 x0 x1 x2).1)

/-- At `k = 0` the accumulator's stores (the zero fill, then the first partial sum) cover it. -/
theorem scover7_Z (c : Dev nD) (i : grid7.Coords) (arg2 : Memref sig .tc .vmem S512x1024 .bf16) (harg2 : arg2.IsWhole) (arg3 : Memref sig .tc .vmem S10240x1024 .bf16) (harg3 : arg3.IsWhole) (arg4 : Memref sig .tc .vmem S1x1024 .f32) (harg4 : arg4.IsWhole) (arg5 : Memref sig .tc .vmem S512x1024 .bf16) (harg5 : arg5.IsWhole) (arg6 : Memref sig .tc .vmem S512x1024 .f32) (harg6 : arg6.IsWhole) (hc0 : zeroC7 i) (hc1 : ¬flushC7 i)
    (x0 : Vec F S512x1024 .bf16) (x1 : Vec F S10240x1024 .bf16) (x2 : Vec F S1x1024 .f32) (y : S512x1024.Idx) :
    ∃ pc ∈ (runZero7 c i arg2 harg2 arg3 harg3 arg4 harg4 arg5 harg5 arg6 harg6 hc0 hc1 x0 x1 x2).2.1, y ∈ pc.1.set :=
  View.cover_of_tiledL (runZero7 c i arg2 harg2 arg3 harg3 arg4 harg4 arg5 harg5 arg6 harg6 hc0 hc1 x0 x1 x2).2.1 S512x1024.size (by sl_kernel_rfl) y

/-- What the case `k = 0` leaves in the accumulator: its stores read back. -/
def acc7_Z (c : Dev nD) (i : grid7.Coords) (arg2 : Memref sig .tc .vmem S512x1024 .bf16) (harg2 : arg2.IsWhole) (arg3 : Memref sig .tc .vmem S10240x1024 .bf16) (harg3 : arg3.IsWhole) (arg4 : Memref sig .tc .vmem S1x1024 .f32) (harg4 : arg4.IsWhole) (arg5 : Memref sig .tc .vmem S512x1024 .bf16) (harg5 : arg5.IsWhole) (arg6 : Memref sig .tc .vmem S512x1024 .f32) (harg6 : arg6.IsWhole) (hc0 : zeroC7 i) (hc1 : ¬flushC7 i)
    (x0 : Vec F S512x1024 .bf16) (x1 : Vec F S10240x1024 .bf16) (x2 : Vec F S1x1024 .f32) : Vec F S512x1024 .f32 :=
  vS7.read (Elt F) (vS7.writes (Elt F) vS7.junk (runZero7 c i arg2 harg2 arg3 harg3 arg4 harg4 arg5 harg5 arg6 harg6 hc0 hc1 x0 x1 x2).2.1)

def out7_M_3 (c : Dev nD) (i : grid7.Coords) (arg2 : Memref sig .tc .vmem S512x1024 .bf16) (harg2 : arg2.IsWhole) (arg3 : Memref sig .tc .vmem S10240x1024 .bf16) (harg3 : arg3.IsWhole) (arg4 : Memref sig .tc .vmem S1x1024 .f32) (harg4 : arg4.IsWhole) (arg5 : Memref sig .tc .vmem S512x1024 .bf16) (harg5 : arg5.IsWhole) (arg6 : Memref sig .tc .vmem S512x1024 .f32) (harg6 : arg6.IsWhole) (hc0 : ¬zeroC7 i) (hc1 : ¬flushC7 i)
    (x0 : Vec F S512x1024 .bf16) (x1 : Vec F S10240x1024 .bf16) (x2 : Vec F S1x1024 .f32) (xs : Vec F S512x1024 .f32) : Vec F S512x1024 .bf16 :=
  vO7.read (Elt F) (vO7.writes (Elt F) vO7.junk (runMid7 c i arg2 harg2 arg3 harg3 arg4 harg4 arg5 harg5 arg6 harg6 hc0 hc1 x0 x1 x2 xs).1)

/-- For `0 < k < 9` the accumulator's one store covers it. -/
theorem scover7_M (c : Dev nD) (i : grid7.Coords) (arg2 : Memref sig .tc .vmem S512x1024 .bf16) (harg2 : arg2.IsWhole) (arg3 : Memref sig .tc .vmem S10240x1024 .bf16) (harg3 : arg3.IsWhole) (arg4 : Memref sig .tc .vmem S1x1024 .f32) (harg4 : arg4.IsWhole) (arg5 : Memref sig .tc .vmem S512x1024 .bf16) (harg5 : arg5.IsWhole) (arg6 : Memref sig .tc .vmem S512x1024 .f32) (harg6 : arg6.IsWhole) (hc0 : ¬zeroC7 i) (hc1 : ¬flushC7 i)
    (x0 : Vec F S512x1024 .bf16) (x1 : Vec F S10240x1024 .bf16) (x2 : Vec F S1x1024 .f32) (xs : Vec F S512x1024 .f32) (y : S512x1024.Idx) :
    ∃ pc ∈ (runMid7 c i arg2 harg2 arg3 harg3 arg4 harg4 arg5 harg5 arg6 harg6 hc0 hc1 x0 x1 x2 xs).2.1, y ∈ pc.1.set :=
  View.cover_of_tiledL (runMid7 c i arg2 harg2 arg3 harg3 arg4 harg4 arg5 harg5 arg6 harg6 hc0 hc1 x0 x1 x2 xs).2.1 S512x1024.size (by sl_kernel_rfl) y

/-- What the case `0 < k < 9` leaves in the accumulator, over what the point before left (`xs`). -/
def acc7_M (c : Dev nD) (i : grid7.Coords) (arg2 : Memref sig .tc .vmem S512x1024 .bf16) (harg2 : arg2.IsWhole) (arg3 : Memref sig .tc .vmem S10240x1024 .bf16) (harg3 : arg3.IsWhole) (arg4 : Memref sig .tc .vmem S1x1024 .f32) (harg4 : arg4.IsWhole) (arg5 : Memref sig .tc .vmem S512x1024 .bf16) (harg5 : arg5.IsWhole) (arg6 : Memref sig .tc .vmem S512x1024 .f32) (harg6 : arg6.IsWhole) (hc0 : ¬zeroC7 i) (hc1 : ¬flushC7 i)
    (x0 : Vec F S512x1024 .bf16) (x1 : Vec F S10240x1024 .bf16) (x2 : Vec F S1x1024 .f32) (xs : Vec F S512x1024 .f32) : Vec F S512x1024 .f32 :=
  vS7.read (Elt F) (vS7.writes (Elt F) vS7.junk (runMid7 c i arg2 harg2 arg3 harg3 arg4 harg4 arg5 harg5 arg6 harg6 hc0 hc1 x0 x1 x2 xs).2.1)

/-- At `k = 9` the one store into the result buffer covers it. -/
theorem cover7_L_3 (c : Dev nD) (i : grid7.Coords) (arg2 : Memref sig .tc .vmem S512x1024 .bf16) (harg2 : arg2.IsWhole) (arg3 : Memref sig .tc .vmem S10240x1024 .bf16) (harg3 : arg3.IsWhole) (arg4 : Memref sig .tc .vmem S1x1024 .f32) (harg4 : arg4.IsWhole) (arg5 : Memref sig .tc .vmem S512x1024 .bf16) (harg5 : arg5.IsWhole) (arg6 : Memref sig .tc .vmem S512x1024 .f32) (harg6 : arg6.IsWhole) (hc0 : ¬zeroC7 i) (hc1 : flushC7 i)
    (x0 : Vec F S512x1024 .bf16) (x1 : Vec F S10240x1024 .bf16) (x2 : Vec F S1x1024 .f32) (xs : Vec F S512x1024 .f32) (y : S512x1024.Idx) :
    ∃ pc ∈ (runLast7 c i arg2 harg2 arg3 harg3 arg4 harg4 arg5 harg5 arg6 harg6 hc0 hc1 x0 x1 x2 xs).1, y ∈ pc.1.set :=
  View.cover_of_tiledL (runLast7 c i arg2 harg2 arg3 harg3 arg4 harg4 arg5 harg5 arg6 harg6 hc0 hc1 x0 x1 x2 xs).1 S512x1024.size (by sl_kernel_rfl) y

/-- THE RESULT BLOCK: what the case `k = 9` leaves in the result buffer — the accumulated sum plus the bias row, in the
    result's format — as a term of the three input blocks and of the accumulator the point before left. -/
def out7_L_3 (c : Dev nD) (i : grid7.Coords) (arg2 : Memref sig .tc .vmem S512x1024 .bf16) (harg2 : arg2.IsWhole) (arg3 : Memref sig .tc .vmem S10240x1024 .bf16) (harg3 : arg3.IsWhole) (arg4 : Memref sig .tc .vmem S1x1024 .f32) (harg4 : arg4.IsWhole) (arg5 : Memref sig .tc .vmem S512x1024 .bf16) (harg5 : arg5.IsWhole) (arg6 : Memref sig .tc .vmem S512x1024 .f32) (harg6 : arg6.IsWhole) (hc0 : ¬zeroC7 i) (hc1 : flushC7 i)
    (x0 : Vec F S512x1024 .bf16) (x1 : Vec F S10240x1024 .bf16) (x2 : Vec F S1x1024 .f32) (xs : Vec F S512x1024 .f32) : Vec F S512x1024 .bf16 :=
  vO7.read (Elt F) (vO7.writes (Elt F) vO7.junk (runLast7 c i arg2 harg2 arg3 harg3 arg4 harg4 arg5 harg5 arg6 harg6 hc0 hc1 x0 x1 x2 xs).1)

/-- At `k = 9` the accumulator's one store covers it. -/
theorem scover7_L (c : Dev nD) (i : grid7.Coords) (arg2 : Memref sig .tc .vmem S512x1024 .bf16) (harg2 : arg2.IsWhole) (arg3 : Memref sig .tc .vmem S10240x1024 .bf16) (harg3 : arg3.IsWhole) (arg4 : Memref sig .tc .vmem S1x1024 .f32) (harg4 : arg4.IsWhole) (arg5 : Memref sig .tc .vmem S512x1024 .bf16) (harg5 : arg5.IsWhole) (arg6 : Memref sig .tc .vmem S512x1024 .f32) (harg6 : arg6.IsWhole) (hc0 : ¬zeroC7 i) (hc1 : flushC7 i)
    (x0 : Vec F S512x1024 .bf16) (x1 : Vec F S10240x1024 .bf16) (x2 : Vec F S1x1024 .f32) (xs : Vec F S512x1024 .f32) (y : S512x1024.Idx) :
    ∃ pc ∈ (runLast7 c i arg2 harg2 arg3 harg3 arg4 harg4 arg5 harg5 arg6 harg6 hc0 hc1 x0 x1 x2 xs).2.1, y ∈ pc.1.set :=
  View.cover_of_tiledL (runLast7 c i arg2 harg2 arg3 harg3 arg4 harg4 arg5 harg5 arg6 harg6 hc0 hc1 x0 x1 x2 xs).2.1 S512x1024.size (by sl_kernel_rfl) y

/-- What the case `k = 9` leaves in the accumulator. -/
def acc7_L (c : Dev nD) (i : grid7.Coords) (arg2 : Memref sig .tc .vmem S512x1024 .bf16) (harg2 : arg2.IsWhole) (arg3 : Memref sig .tc .vmem S10240x1024 .bf16) (harg3 : arg3.IsWhole) (arg4 : Memref sig .tc .vmem S1x1024 .f32) (harg4 : arg4.IsWhole) (arg5 : Memref sig .tc .vmem S512x1024 .bf16) (harg5 : arg5.IsWhole) (arg6 : Memref sig .tc .vmem S512x1024 .f32) (harg6 : arg6.IsWhole) (hc0 : ¬zeroC7 i) (hc1 : flushC7 i)
    (x0 : Vec F S512x1024 .bf16) (x1 : Vec F S10240x1024 .bf16) (x2 : Vec F S1x1024 .f32) (xs : Vec F S512x1024 .f32) : Vec F S512x1024 .f32 :=
  vS7.read (Elt F) (vS7.writes (Elt F) vS7.junk (runLast7 c i arg2 harg2 arg3 harg3 arg4 harg4 arg5 harg5 arg6 harg6 hc0 hc1 x0 x1 x2 xs).2.1)

section Entry
variable (V : (c : Dev nD) → (b : Ref sig .tc) → Buf (Elt F) ((c : Thread nD τ).loc b))

/-! ## Point by point -/

/-- THE ACCUMULATION. After the body at position `n`: (the result buffer, the accumulator). The case is the one the
    closed forms select at `n`, run on the point's memrefs and input blocks; for `k > 0` the accumulator starts from what
    position `n - 1` left in it. The two conditions cannot hold together. -/
def outsAt7 (c : Dev nD) : (n : ℕ) → n < cfg7.N → Vec F S512x1024 .bf16 × Vec F S512x1024 .f32
  | 0, hn => (out7_Z_3 c (grid7.coords ⟨0, hn⟩) (mA7 ⟨0, hn⟩) (hA7 ⟨0, hn⟩) (mB7 ⟨0, hn⟩) (hB7 ⟨0, hn⟩) (mC7 ⟨0, hn⟩) (hC7 ⟨0, hn⟩) (mO7 ⟨0, hn⟩) (hO7 ⟨0, hn⟩) mS7 (Memref.isWhole_whole _) ((zeroC7_iff ⟨0, hn⟩).mpr (Nat.zero_mod _)) (fun h => (fun h => by (try dsimp only at h); omega) ((flushC7_iff ⟨0, hn⟩).mp h)) (iblk7 V c 0 ⟨0, hn⟩) (iblk7 V c 1 ⟨0, hn⟩) (iblk7 V c 2 ⟨0, hn⟩), acc7_Z c (grid7.coords ⟨0, hn⟩) (mA7 ⟨0, hn⟩) (hA7 ⟨0, hn⟩) (mB7 ⟨0, hn⟩) (hB7 ⟨0, hn⟩) (mC7 ⟨0, hn⟩) (hC7 ⟨0, hn⟩) (mO7 ⟨0, hn⟩) (hO7 ⟨0, hn⟩) mS7 (Memref.isWhole_whole _) ((zeroC7_iff ⟨0, hn⟩).mpr (Nat.zero_mod _)) (fun h => (fun h => by (try dsimp only at h); omega) ((flushC7_iff ⟨0, hn⟩).mp h)) (iblk7 V c 0 ⟨0, hn⟩) (iblk7 V c 1 ⟨0, hn⟩) (iblk7 V c 2 ⟨0, hn⟩))
  | n + 1, hn =>
    if h0 : (n + 1) % 10 = 0 then
      if h1 : (n + 1) % 10 = 9 then
        False.elim (by omega)
      else
        (out7_Z_3 c (grid7.coords ⟨n + 1, hn⟩) (mA7 ⟨n + 1, hn⟩) (hA7 ⟨n + 1, hn⟩) (mB7 ⟨n + 1, hn⟩) (hB7 ⟨n + 1, hn⟩) (mC7 ⟨n + 1, hn⟩) (hC7 ⟨n + 1, hn⟩) (mO7 ⟨n + 1, hn⟩) (hO7 ⟨n + 1, hn⟩) mS7 (Memref.isWhole_whole _) ((zeroC7_iff ⟨n + 1, hn⟩).mpr h0) (fun h => h1 ((flushC7_iff ⟨n + 1, hn⟩).mp h)) (iblk7 V c 0 ⟨n + 1, hn⟩) (iblk7 V c 1 ⟨n + 1, hn⟩) (iblk7 V c 2 ⟨n + 1, hn⟩), acc7_Z c (grid7.coords ⟨n + 1, hn⟩) (mA7 ⟨n + 1, hn⟩) (hA7 ⟨n + 1, hn⟩) (mB7 ⟨n + 1, hn⟩) (hB7 ⟨n + 1, hn⟩) (mC7 ⟨n + 1, hn⟩) (hC7 ⟨n + 1, hn⟩) (mO7 ⟨n + 1, hn⟩) (hO7 ⟨n + 1, hn⟩) mS7 (Memref.isWhole_whole _) ((zeroC7_iff ⟨n + 1, hn⟩).mpr h0) (fun h => h1 ((flushC7_iff ⟨n + 1, hn⟩).mp h)) (iblk7 V c 0 ⟨n + 1, hn⟩) (iblk7 V c 1 ⟨n + 1, hn⟩) (iblk7 V c 2 ⟨n + 1, hn⟩))
    else
      if h1 : (n + 1) % 10 = 9 then
        (out7_L_3 c (grid7.coords ⟨n + 1, hn⟩) (mA7 ⟨n + 1, hn⟩) (hA7 ⟨n + 1, hn⟩) (mB7 ⟨n + 1, hn⟩) (hB7 ⟨n + 1, hn⟩) (mC7 ⟨n + 1, hn⟩) (hC7 ⟨n + 1, hn⟩) (mO7 ⟨n + 1, hn⟩) (hO7 ⟨n + 1, hn⟩) mS7 (Memref.isWhole_whole _) (fun h => h0 ((zeroC7_iff ⟨n + 1, hn⟩).mp h)) ((flushC7_iff ⟨n + 1, hn⟩).mpr h1) (iblk7 V c 0 ⟨n + 1, hn⟩) (iblk7 V c 1 ⟨n + 1, hn⟩) (iblk7 V c 2 ⟨n + 1, hn⟩) (outsAt7 c n (Nat.lt_of_succ_lt hn)).2, acc7_L c (grid7.coords ⟨n + 1, hn⟩) (mA7 ⟨n + 1, hn⟩) (hA7 ⟨n + 1, hn⟩) (mB7 ⟨n + 1, hn⟩) (hB7 ⟨n + 1, hn⟩) (mC7 ⟨n + 1, hn⟩) (hC7 ⟨n + 1, hn⟩) (mO7 ⟨n + 1, hn⟩) (hO7 ⟨n + 1, hn⟩) mS7 (Memref.isWhole_whole _) (fun h => h0 ((zeroC7_iff ⟨n + 1, hn⟩).mp h)) ((flushC7_iff ⟨n + 1, hn⟩).mpr h1) (iblk7 V c 0 ⟨n + 1, hn⟩) (iblk7 V c 1 ⟨n + 1, hn⟩) (iblk7 V c 2 ⟨n + 1, hn⟩) (outsAt7 c n (Nat.lt_of_succ_lt hn)).2)
      else
        (out7_M_3 c (grid7.coords ⟨n + 1, hn⟩) (mA7 ⟨n + 1, hn⟩) (hA7 ⟨n + 1, hn⟩) (mB7 ⟨n + 1, hn⟩) (hB7 ⟨n + 1, hn⟩) (mC7 ⟨n + 1, hn⟩) (hC7 ⟨n + 1, hn⟩) (mO7 ⟨n + 1, hn⟩) (hO7 ⟨n + 1, hn⟩) mS7 (Memref.isWhole_whole _) (fun h => h0 ((zeroC7_iff ⟨n + 1, hn⟩).mp h)) (fun h => h1 ((flushC7_iff ⟨n + 1, hn⟩).mp h)) (iblk7 V c 0 ⟨n + 1, hn⟩) (iblk7 V c 1 ⟨n + 1, hn⟩) (iblk7 V c 2 ⟨n + 1, hn⟩) (outsAt7 c n (Nat.lt_of_succ_lt hn)).2, acc7_M c (grid7.coords ⟨n + 1, hn⟩) (mA7 ⟨n + 1, hn⟩) (hA7 ⟨n + 1, hn⟩) (mB7 ⟨n + 1, hn⟩) (hB7 ⟨n + 1, hn⟩) (mC7 ⟨n + 1, hn⟩) (hC7 ⟨n + 1, hn⟩) (mO7 ⟨n + 1, hn⟩) (hO7 ⟨n + 1, hn⟩) mS7 (Memref.isWhole_whole _) (fun h => h0 ((zeroC7_iff ⟨n + 1, hn⟩).mp h)) (fun h => h1 ((flushC7_iff ⟨n + 1, hn⟩).mp h)) (iblk7 V c 0 ⟨n + 1, hn⟩) (iblk7 V c 1 ⟨n + 1, hn⟩) (iblk7 V c 2 ⟨n + 1, hn⟩) (outsAt7 c n (Nat.lt_of_succ_lt hn)).2)

/-- `outsAt7` at a point with `k = 0`. -/
theorem outsAt7_Z (c : Dev nD) (t : Fin cfg7.N) (h0 : t.val % 10 = 0) (h1 : ¬t.val % 10 = 9) :
    outsAt7 V c t.val t.isLt = (out7_Z_3 c (grid7.coords t) (mA7 t) (hA7 t) (mB7 t) (hB7 t) (mC7 t) (hC7 t) (mO7 t) (hO7 t) mS7 (Memref.isWhole_whole _) ((zeroC7_iff t).mpr h0) (fun h => h1 ((flushC7_iff t).mp h)) (iblk7 V c 0 t) (iblk7 V c 1 t) (iblk7 V c 2 t), acc7_Z c (grid7.coords t) (mA7 t) (hA7 t) (mB7 t) (hB7 t) (mC7 t) (hC7 t) (mO7 t) (hO7 t) mS7 (Memref.isWhole_whole _) ((zeroC7_iff t).mpr h0) (fun h => h1 ((flushC7_iff t).mp h)) (iblk7 V c 0 t) (iblk7 V c 1 t) (iblk7 V c 2 t)) := by
  obtain ⟨n, hn⟩ := t
  cases n with
  | zero => exact rfl
  | succ n => exact (dif_pos h0).trans ((dif_neg h1).trans rfl)

/-- `outsAt7` at a point with `0 < k < 9`: over what the point before left. -/
theorem outsAt7_M (c : Dev nD) (t : Fin cfg7.N) (h0 : ¬t.val % 10 = 0) (h1 : ¬t.val % 10 = 9) :
    outsAt7 V c t.val t.isLt = (out7_M_3 c (grid7.coords t) (mA7 t) (hA7 t) (mB7 t) (hB7 t) (mC7 t) (hC7 t) (mO7 t) (hO7 t) mS7 (Memref.isWhole_whole _) (fun h => h0 ((zeroC7_iff t).mp h)) (fun h => h1 ((flushC7_iff t).mp h)) (iblk7 V c 0 t) (iblk7 V c 1 t) (iblk7 V c 2 t) (outsAt7 V c (t.val - 1) (Nat.lt_of_le_of_lt (Nat.sub_le _ _) t.isLt)).2, acc7_M c (grid7.coords t) (mA7 t) (hA7 t) (mB7 t) (hB7 t) (mC7 t) (hC7 t) (mO7 t) (hO7 t) mS7 (Memref.isWhole_whole _) (fun h => h0 ((zeroC7_iff t).mp h)) (fun h => h1 ((flushC7_iff t).mp h)) (iblk7 V c 0 t) (iblk7 V c 1 t) (iblk7 V c 2 t) (outsAt7 V c (t.val - 1) (Nat.lt_of_le_of_lt (Nat.sub_le _ _) t.isLt)).2) := by
  obtain ⟨n, hn⟩ := t
  cases n with
  | zero => exact (by exfalso; (try dsimp only at h0); exact absurd (Nat.zero_mod _) h0)
  | succ n => exact (dif_neg h0).trans ((dif_neg h1).trans rfl)

/-- `outsAt7` at a point with `k = 9`: over what the point before left. -/
theorem outsAt7_L (c : Dev nD) (t : Fin cfg7.N) (h0 : ¬t.val % 10 = 0) (h1 : t.val % 10 = 9) :
    outsAt7 V c t.val t.isLt = (out7_L_3 c (grid7.coords t) (mA7 t) (hA7 t) (mB7 t) (hB7 t) (mC7 t) (hC7 t) (mO7 t) (hO7 t) mS7 (Memref.isWhole_whole _) (fun h => h0 ((zeroC7_iff t).mp h)) ((flushC7_iff t).mpr h1) (iblk7 V c 0 t) (iblk7 V c 1 t) (iblk7 V c 2 t) (outsAt7 V c (t.val - 1) (Nat.lt_of_le_of_lt (Nat.sub_le _ _) t.isLt)).2, acc7_L c (grid7.coords t) (mA7 t) (hA7 t) (mB7 t) (hB7 t) (mC7 t) (hC7 t) (mO7 t) (hO7 t) mS7 (Memref.isWhole_whole _) (fun h => h0 ((zeroC7_iff t).mp h)) ((flushC7_iff t).mpr h1) (iblk7 V c 0 t) (iblk7 V c 1 t) (iblk7 V c 2 t) (outsAt7 V c (t.val - 1) (Nat.lt_of_le_of_lt (Nat.sub_le _ _) t.isLt)).2) := by
  obtain ⟨n, hn⟩ := t
  cases n with
  | zero => exact (by exfalso; (try dsimp only at h0); exact absurd (Nat.zero_mod _) h0)
  | succ n => exact (dif_neg h0).trans ((dif_pos h1).trans rfl)

/-! ## The invariant -/

/-- The region invariant before position `n`: before the first point the class's (the accumulator at anything);
    afterwards the accumulator at what the point before left in it, the other scoped buffers and the generator
    register as ever. -/
def PhiS7 (c : Dev nD) : (n : ℕ) → n ≤ cfg7.N → sProp 𝕄
  | 0, _ => Pipeline.ΦA spec7 c
  | n + 1, hn => iprop(iprop(owns (c : Thread nD τ) mS7 fullShare ((outsAt7 V c n hn).2) ∗ rest7 (F := F) c) ∗ (∃ r, prngReg c r))

theorem PhiS7_zero (c : Dev nD) (n : ℕ) (h : n ≤ cfg7.N) (hz : n = 0) : PhiS7 V c n h = Pipeline.ΦA spec7 c := by
  subst hz; rfl

theorem PhiS7_succ (c : Dev nD) (n : ℕ) (hn : n < cfg7.N) :
    PhiS7 V c (n + 1) hn = iprop(iprop(owns (c : Thread nD τ) mS7 fullShare ((outsAt7 V c n hn).2) ∗ rest7 (F := F) c) ∗ (∃ r, prngReg c r)) := rfl

theorem PhiS7_pos (c : Dev nD) (n : ℕ) (h : n ≤ cfg7.N) (hz : n ≠ 0) :
    PhiS7 V c n h = iprop(iprop(owns (c : Thread nD τ) mS7 fullShare ((outsAt7 V c (n - 1) (by omega)).2) ∗ rest7 (F := F) c) ∗ (∃ r, prngReg c r)) := by
  cases n with
  | zero => exact absurd rfl hz
  | succ n => rfl

/-! ## The proof data -/

/-- The proof data of region 7's pipeline on core `c`: the arrays as the region finds them; after the body at point
    `t` each input's buffer at its block and the result's at `outsAt7`'s first component; the invariant `PhiS7`;
    nothing owed; full shares. -/
def dat7 (c : Dev nD) : Dat τ (Elt F) Unit ℕ (UR sig nD τ) ℕ cfg7 c where
  A w := V c (Pipeline.arrRef spec7 w)
  after w t := match w with
    | ⟨0, _⟩ => iblk7 V c 0 t
    | ⟨1, _⟩ => iblk7 V c 1 t
    | ⟨2, _⟩ => iblk7 V c 2 t
    | ⟨3, _⟩ => (outsAt7 V c t.val t.isLt).1
  Φ t := PhiS7 V c t.val (Nat.le_of_lt_succ t.isLt)
  q _ := fullShare
  owed _ := 0

/-- The proof data's arrays are the region-entry contents (the definition projected, `V` never unfolded). -/
theorem A_eq7 (c : Dev nD) (w : Fin cfg7.W) : (dat7 V c).A w = V c (Pipeline.arrRef spec7 w) := by
  dsimp only [dat7]

/-- The invariant at a point's start, restated at `t.val`. -/
theorem PhiS7_castSucc (c : Dev nD) (t : Fin cfg7.N) :
    (dat7 V c).Φ t.castSucc = PhiS7 V c t.val (Nat.le_of_lt t.isLt) := by
  dsimp only [dat7]; simp only [Fin.coe_castSucc]

/-- What the body leaves, window by window. -/
theorem after7_0 (c : Dev nD) (t : Fin cfg7.N) : (dat7 V c).after 0 t = iblk7 V c 0 t := by dsimp only [dat7]
theorem after7_1 (c : Dev nD) (t : Fin cfg7.N) : (dat7 V c).after 1 t = iblk7 V c 1 t := by dsimp only [dat7]
theorem after7_2 (c : Dev nD) (t : Fin cfg7.N) : (dat7 V c).after 2 t = iblk7 V c 2 t := by dsimp only [dat7]
theorem after7_3 (c : Dev nD) (t : Fin cfg7.N) : (dat7 V c).after 3 t = (outsAt7 V c t.val t.isLt).1 := by dsimp only [dat7]

/-- Each input's current staging buffer holds its block at every point. -/
theorem before7_0 (c : Dev nD) (t : Fin cfg7.N) (d) : (dat7 V c).before 0 t d = iblk7 V c 0 t :=
  before7_0_of V (dat7 V c) (A_eq7 V c 0) (after7_0 V c) t d
theorem before7_1 (c : Dev nD) (t : Fin cfg7.N) (d) : (dat7 V c).before 1 t d = iblk7 V c 1 t :=
  before7_1_of V (dat7 V c) (A_eq7 V c 1) (after7_1 V c) t d
theorem before7_2 (c : Dev nD) (t : Fin cfg7.N) (d) : (dat7 V c).before 2 t d = iblk7 V c 2 t :=
  before7_2_of V (dat7 V c) (A_eq7 V c 2) (after7_2 V c) t d

/-! ## The body obligation, at a generic point -/

/-- What the body is called with at point `t`, the windows one by one, -/
def bodyPre7 (c : Dev nD) (t : Fin cfg7.N) : sProp 𝕄 :=
  iprop((dat7 V c).Φ t.castSucc ∗ (dat7 V c).owesAt () t.castSucc
    ∗ (∃ d, owns (c : Thread nD τ) (mA7 t) fullShare ((dat7 V c).before 0 t d))
    ∗ (∃ d, owns (c : Thread nD τ) (mB7 t) fullShare ((dat7 V c).before 1 t d))
    ∗ (∃ d, owns (c : Thread nD τ) (mC7 t) fullShare ((dat7 V c).before 2 t d))
    ∗ (∃ d, owns (c : Thread nD τ) (mO7 t) fullShare ((dat7 V c).before 3 t d)))

/-- and what it returns. -/
def bodyPost7 (c : Dev nD) (t : Fin cfg7.N) : sProp 𝕄 :=
  iprop((dat7 V c).Φ t.succ ∗ (dat7 V c).owesAt () t.succ
    ∗ (dat7 V c).leavesExact 0 t
    ∗ (dat7 V c).leavesExact 1 t
    ∗ (dat7 V c).leavesExact 2 t
    ∗ (dat7 V c).leavesExact 3 t)

set_option maxHeartbeats 4800000 in
/-- The body at any point. The inputs' memrefs hold their blocks; the closed forms say which control case the point is
    in, and that case's run applies. The invariant hands the body the accumulator at what the point before left (at
    anything before the first point) and takes it back at this point's contents, its stores covering it; where the
    result window is idle its buffer goes back as found, and at `k = 9` its one store covers it. The other scoped
    buffers, the generator register and what the core owes pass through. -/
theorem sound_body7 (c : Dev nD) (t : Fin cfg7.N) :
    bodyPre7 V c t ⊢ wp frame (wpE (defs₀ (F := F)) Variants.none c none) Set.univ (bodyAt7 t) (fun _ => bodyPost7 V c t) := by
  unfold bodyPre7 bodyPost7 bodyAt7
  simp only [before7_0, before7_1, before7_2]
  rw [show (dat7 V c).owesAt () t.succ = (dat7 V c).owesAt () t.castSucc from rfl]
  rw [show (dat7 V c).Φ t.succ = PhiS7 V c (t.val + 1) t.isLt from rfl, PhiS7_succ]
  rw [show (dat7 V c).leavesExact 0 t = owns (c : Thread nD τ) (mA7 t) fullShare ((dat7 V c).after 0 t) from by
    unfold Dat.leavesExact; rw [live7_0 t], after7_0]
  rw [show (dat7 V c).leavesExact 1 t = owns (c : Thread nD τ) (mB7 t) fullShare ((dat7 V c).after 1 t) from by
    unfold Dat.leavesExact; rw [live7_1 t], after7_1]
  rw [show (dat7 V c).leavesExact 2 t = owns (c : Thread nD τ) (mC7 t) fullShare ((dat7 V c).after 2 t) from by
    unfold Dat.leavesExact; rw [live7_2 t], after7_2]
  have hN : t.val < 200 := lt_of_lt_of_eq t.isLt (show cfg7.N = 200 from N_7)
  by_cases h0 : t.val % 10 = 0
  · by_cases h1 : t.val % 10 = 9
    · exfalso; omega
    · rw [Dat.leavesExact_idle (dat7 V c) 3 t (idle7_3 t (fun h => h1 ((flushC7_iff t).mp h))) (noFlush7_3 t (fun h => h1 ((flushC7_iff t).mp h)))]
      rw [outsAt7_Z V c t h0 h1]
      unfold acc7_Z; (try dsimp only)
      by_cases hz : t.val = 0
      · rw [PhiS7_castSucc V c t, PhiS7_zero V c _ _ hz, PhiA7_eq]
        iintro ⟨⟨⟨HS, Hr⟩, Hg⟩, Ho, ⟨%d0, H0⟩, ⟨%d1, H1⟩, ⟨%d2, H2⟩, ⟨%d3, H3⟩⟩
        iapply ((runZero7 c (grid7.coords t) _ _ _ _ _ _ _ _ _ _ ((zeroC7_iff t).mpr h0) (fun h => h1 ((flushC7_iff t).mp h)) (iblk7 V c 0 t) (iblk7 V c 1 t) (iblk7 V c 2 t)).2.2 _ Set.univ _)
        isplitl [H0]; · iexact H0
        isplitl [H1]; · iexact H1
        isplitl [H2]; · iexact H2
        isplitl [H3]; · iexact H3
        isplitl [HS]; · iexact HS
        iintro ⟨H0, H1, H2, H3, ⟨%es, HS⟩⟩
        isplitl [HS Hr Hg]
        · isplitl [HS Hr]
          · isplitl [HS]
            · unfold owns; iexists _; isplitr
              swap; · iexact HS
              ipureintro; exact View.read_writes_of_cover _ _ _ _ _ (scover7_Z c _ _ _ _ _ _ _ _ _ _ _ _ _ _ _ _)
            iexact Hr
          iexact Hg
        isplitl [Ho]; · iexact Ho
        isplitl [H0]; · iexact H0
        isplitl [H1]; · iexact H1
        isplitl [H2]; · iexact H2
        iexists _; iexact H3
      · rw [PhiS7_castSucc V c t, PhiS7_pos V c _ _ hz]
        iintro ⟨⟨⟨HS, Hr⟩, Hg⟩, Ho, ⟨%d0, H0⟩, ⟨%d1, H1⟩, ⟨%d2, H2⟩, ⟨%d3, H3⟩⟩
        iapply ((runZero7 c (grid7.coords t) _ _ _ _ _ _ _ _ _ _ ((zeroC7_iff t).mpr h0) (fun h => h1 ((flushC7_iff t).mp h)) (iblk7 V c 0 t) (iblk7 V c 1 t) (iblk7 V c 2 t)).2.2 _ Set.univ _)
        isplitl [H0]; · iexact H0
        isplitl [H1]; · iexact H1
        isplitl [H2]; · iexact H2
        isplitl [H3]; · iexact H3
        isplitl [HS]; · iexists _; iexact HS
        iintro ⟨H0, H1, H2, H3, ⟨%es, HS⟩⟩
        isplitl [HS Hr Hg]
        · isplitl [HS Hr]
          · isplitl [HS]
            · unfold owns; iexists _; isplitr
              swap; · iexact HS
              ipureintro; exact View.read_writes_of_cover _ _ _ _ _ (scover7_Z c _ _ _ _ _ _ _ _ _ _ _ _ _ _ _ _)
            iexact Hr
          iexact Hg
        isplitl [Ho]; · iexact Ho
        isplitl [H0]; · iexact H0
        isplitl [H1]; · iexact H1
        isplitl [H2]; · iexact H2
        iexists _; iexact H3
  · have hz : t.val ≠ 0 := fun e => h0 (by rw [e])
    by_cases h1 : t.val % 10 = 9
    · rw [show (dat7 V c).leavesExact 3 t = owns (c : Thread nD τ) (mO7 t) fullShare ((dat7 V c).after 3 t) from by
        unfold Dat.leavesExact; rw [live7_3 t ((flushC7_iff t).mpr h1)], after7_3]
      rw [outsAt7_L V c t h0 h1]
      unfold out7_L_3 acc7_L; (try dsimp only)
      rw [PhiS7_castSucc V c t, PhiS7_pos V c _ _ hz]
      iintro ⟨⟨⟨HS, Hr⟩, Hg⟩, Ho, ⟨%d0, H0⟩, ⟨%d1, H1⟩, ⟨%d2, H2⟩, ⟨%d3, H3⟩⟩
      iapply ((runLast7 c (grid7.coords t) _ _ _ _ _ _ _ _ _ _ (fun h => h0 ((zeroC7_iff t).mp h)) ((flushC7_iff t).mpr h1) (iblk7 V c 0 t) (iblk7 V c 1 t) (iblk7 V c 2 t) _).2.2 Set.univ _)
      isplitl [H0]; · iexact H0
      isplitl [H1]; · iexact H1
      isplitl [H2]; · iexact H2
      isplitl [H3]; · iexists _; iexact H3
      isplitl [HS]; · iexact HS
      iintro ⟨H0, H1, H2, ⟨%e3, H3⟩, ⟨%es, HS⟩⟩
      isplitl [HS Hr Hg]
      · isplitl [HS Hr]
        · isplitl [HS]
          · unfold owns; iexists _; isplitr
            swap; · iexact HS
            ipureintro; exact View.read_writes_of_cover _ _ _ _ _ (scover7_L c _ _ _ _ _ _ _ _ _ _ _ _ _ _ _ _ _)
          iexact Hr
        iexact Hg
      isplitl [Ho]; · iexact Ho
      isplitl [H0]; · iexact H0
      isplitl [H1]; · iexact H1
      isplitl [H2]; · iexact H2
      unfold owns; iexists _; isplitr
      swap; · iexact H3
      ipureintro; exact View.read_writes_of_cover _ _ _ _ _ (cover7_L_3 c _ _ _ _ _ _ _ _ _ _ _ _ _ _ _ _ _)
    · rw [Dat.leavesExact_idle (dat7 V c) 3 t (idle7_3 t (fun h => h1 ((flushC7_iff t).mp h))) (noFlush7_3 t (fun h => h1 ((flushC7_iff t).mp h)))]
      rw [outsAt7_M V c t h0 h1]
      unfold acc7_M; (try dsimp only)
      rw [PhiS7_castSucc V c t, PhiS7_pos V c _ _ hz]
      iintro ⟨⟨⟨HS, Hr⟩, Hg⟩, Ho, ⟨%d0, H0⟩, ⟨%d1, H1⟩, ⟨%d2, H2⟩, ⟨%d3, H3⟩⟩
      iapply ((runMid7 c (grid7.coords t) _ _ _ _ _ _ _ _ _ _ (fun h => h0 ((zeroC7_iff t).mp h)) (fun h => h1 ((flushC7_iff t).mp h)) (iblk7 V c 0 t) (iblk7 V c 1 t) (iblk7 V c 2 t) _).2.2 _ Set.univ _)
      isplitl [H0]; · iexact H0
      isplitl [H1]; · iexact H1
      isplitl [H2]; · iexact H2
      isplitl [H3]; · iexact H3
      isplitl [HS]; · iexact HS
      iintro ⟨H0, H1, H2, H3, ⟨%es, HS⟩⟩
      isplitl [HS Hr Hg]
      · isplitl [HS Hr]
        · isplitl [HS]
          · unfold owns; iexists _; isplitr
            swap; · iexact HS
            ipureintro; exact View.read_writes_of_cover _ _ _ _ _ (scover7_M c _ _ _ _ _ _ _ _ _ _ _ _ _ _ _ _ _)
          iexact Hr
        iexact Hg
      isplitl [Ho]; · iexact Ho
      isplitl [H0]; · iexact H0
      isplitl [H1]; · iexact H1
      isplitl [H2]; · iexact H2
      iexists _; iexact H3

/-- The library's body obligation, at every point. -/
theorem body_obligation7 (c : Dev nD) : BodyObligation (dat7 (F := F) V c) (defs₀ (F := F)) Variants.none () Set.univ := fun t => by
  rw [bigSep_W7, bigSep_W7]
  exact sound_body7 V c t

/-- What the launch hands the region is the invariant before the first point. -/
theorem hin7 (c : Dev nD) : Pipeline.ΦA spec7 c ⊢ (dat7 V c).Φ 0 := by
  rw [show (dat7 V c).Φ 0 = PhiS7 V c 0 (Nat.zero_le _) from rfl, PhiS7_zero V c 0 _ rfl]
  try exact Idealize.SL.BI.Entails.refl _

/-- After any point the invariant gives the class's back: the accumulator's named contents are forgotten. -/
theorem Phi_out7 (c : Dev nD) (t : Fin (cfg7.N + 1)) (ht : t.val ≠ 0) : (dat7 V c).Φ t ⊢ Pipeline.ΦA spec7 c := by
  rw [show (dat7 V c).Φ t = PhiS7 V c t.val (Nat.le_of_lt_succ t.isLt) from rfl, PhiS7_pos V c _ _ ht, PhiA7_eq]
  iintro ⟨⟨HS, Hr⟩, Hg⟩
  isplitl [HS Hr]
  · isplitl [HS]
    · iexists _; iexact HS
    iexact Hr
  iexact Hg

/-- The same after the last point. -/
theorem hout7 (c : Dev nD) : (dat7 V c).Φ (Fin.last cfg7.N) ⊢ Pipeline.ΦA spec7 c :=
  Phi_out7 V c _ (by rw [Fin.val_last]; have : cfg7.N = 200 := N_7; omega)

end Entry

end Cert.KernelIdeal.Rg

end
-- ==== Proof.KI.Reg8.lean ====
/- Stage-1 region 8 (custom_call 8): the per-region half of the frame argument, at the buffer
   contents `V` found when the region is entered. One row block of the left operand times the whole
   right operand, plus the bias row, written to the result's row block. -/
import proofs.«181230_j19834158973077_2_alg».proof.Proof.Gen.KernelIdeal.Launch
import proofs.«181230_j19834158973077_2_alg».proof.Proof.Gen.KernelIdeal.Skeleton
import proofs.«181230_j19834158973077_2_alg».proof.Proof.Gen.KernelIdeal.Points
import Idealize.ShloMosaic.Lib.Pipeline.FrameBody
import Idealize.ShloMosaic.Lib.Ring
import Idealize.ShloMosaic.Lib.Tactic

-- membership in a rectangle of full extents recurses once per coordinate of the long axes
set_option maxRecDepth 16384

noncomputable section

namespace Cert.KernelIdeal.Rg

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

-- the TensorCore's buffer contents when the region is entered
variable (V : (c : Dev nD) → (b : Ref sig .tc) → Buf (Elt F) ((c : Thread nD τ).loc b))

/-! ## The windows' blocks -/

/-- Window `w`'s block at point `t`, read off its array as the region finds it. -/
def iblk8 (c : Dev nD) (w : Fin cfg8.W) (t : Fin cfg8.N) : ((cfg8.win w).xblock (cfg8.grid.coords t)).Idx → Elt F (cfg8.win w).elt :=
  ((cfg8.win w).blk t).view.read (Elt F) (V c (Pipeline.arrRef spec8 w))

/-- Input window 0's current staging buffer holds its block at every point, fetched there or not: where it is
    not fetched the block index has not moved, and the body leaves the block in place. -/
theorem before8_0_of {c : Dev nD} (dat : Dat τ (Elt F) Unit ℕ (UR sig nD τ) ℕ cfg8 c) (hA : dat.A 0 = V c (Pipeline.arrRef spec8 0))
    (hafter : ∀ t, dat.after 0 t = iblk8 V c 0 t) (t : Fin cfg8.N) (d) : dat.before 0 t d = iblk8 V c 0 t :=
  (dat.before_in_eq_fetched 0 rfl (fun _ => rfl) (fun _ _ _ => rfl) (fun t => by rw [hafter]; unfold Dat.blockOf iblk8; rw [hA]; try rfl) t d).trans
    (by unfold Dat.fetched Dat.blockOf iblk8; rw [hA]; try rfl)

/-- Input window 1's current staging buffer holds its block at every point, fetched there or not: where it is
    not fetched the block index has not moved, and the body leaves the block in place. -/
theorem before8_1_of {c : Dev nD} (dat : Dat τ (Elt F) Unit ℕ (UR sig nD τ) ℕ cfg8 c) (hA : dat.A 1 = V c (Pipeline.arrRef spec8 1))
    (hafter : ∀ t, dat.after 1 t = iblk8 V c 1 t) (t : Fin cfg8.N) (d) : dat.before 1 t d = iblk8 V c 1 t :=
  (dat.before_in_eq_fetched 1 rfl (fun _ => rfl) (fun _ _ _ => rfl) (fun t => by rw [hafter]; unfold Dat.blockOf iblk8; rw [hA]; try rfl) t d).trans
    (by unfold Dat.fetched Dat.blockOf iblk8; rw [hA]; try rfl)

/-- Input window 2's current staging buffer holds its block at every point, fetched there or not: where it is
    not fetched the block index has not moved, and the body leaves the block in place. -/
theorem before8_2_of {c : Dev nD} (dat : Dat τ (Elt F) Unit ℕ (UR sig nD τ) ℕ cfg8 c) (hA : dat.A 2 = V c (Pipeline.arrRef spec8 2))
    (hafter : ∀ t, dat.after 2 t = iblk8 V c 2 t) (t : Fin cfg8.N) (d) : dat.before 2 t d = iblk8 V c 2 t :=
  (dat.before_in_eq_fetched 2 rfl (fun _ => rfl) (fun _ _ _ => rfl) (fun t => by rw [hafter]; unfold Dat.blockOf iblk8; rw [hA]; try rfl) t d).trans
    (by unfold Dat.fetched Dat.blockOf iblk8; rw [hA]; try rfl)

/-! ## The body's accesses: each staging buffer whole -/

abbrev r8_0 : Rect S1024x1024 := Rect.unit (s := S1024x1024) ![0, 0] S1024x1024.size inb_S1024x1024_S1024x1024_0_0
abbrev r8_1 : Rect S1024x1024 := Rect.unit (s := S1024x1024) ![0, 0] S1024x1024.size inb_S1024x1024_S1024x1024_0_0
abbrev r8_2 : Rect S1x1024 := Rect.unit (s := S1x1024) ![0, 0] S1x1024.size inb_S1x1024_S1x1024_0_0
abbrev r8_3 : Rect S1024x1024 := Rect.unit (s := S1024x1024) ![0, 0] S1024x1024.size inb_S1024x1024_S1024x1024_0_0

/-! ## What the body leaves in the result's buffer -/

/-- The result window's staging buffer after the body, from the three input blocks: its one whole-block store
    of the payload (product into a zero accumulator, plus the bias row, then the format change). -/
def out8_3 (x0 : Vec F S1024x1024 .bf16) (x1 : Vec F S1024x1024 .bf16) (x2 : Vec F S1x1024 .f32) : Vec F S1024x1024 .bf16 :=
  View.canon [⟨r8_3, k8_pay1 (View.ld x0 r8_0) (View.ld x1 r8_1) (View.ld x2 r8_2)⟩]

/-- The one store is the whole buffer, so it covers it. -/
theorem cover8_3 (p0 : Vec F S1024x1024 .bf16) (y : S1024x1024.Idx) :
    ∃ pc ∈ ([⟨r8_3, p0⟩] : List (View.Piece (Elt F) S1024x1024 .bf16)), y ∈ pc.1.set :=
  View.cover_of_tiled [⟨r8_3, p0⟩] S1024x1024.size (by rfl) y

/-! ## The body's triple -/

set_option maxHeartbeats 1000000 in
/-- The kernel body on whole staging memrefs, the inputs' at contents `x0 x1 x2` and the result's at anything, runs
    to the continuation holding the inputs' as they were and the result's at `out8_3` of the inputs'. -/
theorem sound_kernel8 (c : Dev nD) (E : Set ℕ) (i : grid8.Coords)
    (arg0 : Memref sig .tc .vmem S1024x1024 .bf16) (harg0 : arg0.IsWhole) (arg1 : Memref sig .tc .vmem S1024x1024 .bf16) (harg1 : arg1.IsWhole)
    (arg2 : Memref sig .tc .vmem S1x1024 .f32) (harg2 : arg2.IsWhole) (arg3 : Memref sig .tc .vmem S1024x1024 .bf16) (harg3 : arg3.IsWhole)
    (x0 : Vec F S1024x1024 .bf16) (x1 : Vec F S1024x1024 .bf16) (x2 : Vec F S1x1024 .f32) (K : PUnit → sProp 𝕄) :
    iprop(owns (c : Thread nD τ) arg0 fullShare x0 ∗ owns (c : Thread nD τ) arg1 fullShare x1 ∗ owns (c : Thread nD τ) arg2 fullShare x2
        ∗ (∃ d, owns (c : Thread nD τ) arg3 fullShare d)
        ∗ (iprop(owns (c : Thread nD τ) arg0 fullShare x0 ∗ owns (c : Thread nD τ) arg1 fullShare x1 ∗ owns (c : Thread nD τ) arg2 fullShare x2
            ∗ owns (c : Thread nD τ) arg3 fullShare (out8_3 x0 x1 x2)) -∗ K ⟨⟩))
      ⊢ wp frame (wpE (defs₀ (F := F)) Variants.none c none) E (cc8__stage1_kernel i arg0 harg0 arg1 harg1 arg2 harg2 arg3 harg3) K := by
  simp only [cc8__stage1_kernel_eq_skeleton]; unfold cc8__stage1_kernel_skel
  unfold owns
  iintro ⟨⟨%f0, %hf0, H0⟩, ⟨%f1, %hf1, H1⟩, ⟨%f2, %hf2, H2⟩, ⟨%d3, %f3, -, H3⟩, Hk⟩
  subst hf0 hf1 hf2
  sl_exec
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  iexists _; isplitr
  swap; · iexact H3
  ipureintro
  exact View.read_writes_eq_canon _ _ _ (cover8_3 _)

/-! ## The pipeline's proof data -/

/-- The proof data of pipeline 8 on core `c`: the arrays as the region finds them; after the body at point `t`
    each input's buffer at its block and the result's at `out8_3` of the input blocks; the invariant the scoped
    rest and the generator register, untouched; nothing owed; full shares. -/
def dat8 (c : Dev nD) : Dat τ (Elt F) Unit ℕ (UR sig nD τ) ℕ cfg8 c where
  A w := V c (Pipeline.arrRef spec8 w)
  after w t := match w with
    | ⟨0, _⟩ => iblk8 V c 0 t
    | ⟨1, _⟩ => iblk8 V c 1 t
    | ⟨2, _⟩ => iblk8 V c 2 t
    | ⟨3, _⟩ => out8_3 (iblk8 V c 0 t) (iblk8 V c 1 t) (iblk8 V c 2 t)
  Φ _ := Pipeline.ΦA spec8 c
  q _ := fullShare
  owed _ := 0

/-- The proof data's arrays are the region-entry contents. -/
theorem A_eq8 (c : Dev nD) (w : Fin cfg8.W) : (dat8 V c).A w = V c (Pipeline.arrRef spec8 w) := by
  dsimp only [dat8]

/-- What the body leaves, window by window. -/
theorem after8_0 (c : Dev nD) (t : Fin cfg8.N) : (dat8 V c).after 0 t = iblk8 V c 0 t := by dsimp only [dat8]
theorem after8_1 (c : Dev nD) (t : Fin cfg8.N) : (dat8 V c).after 1 t = iblk8 V c 1 t := by dsimp only [dat8]
theorem after8_2 (c : Dev nD) (t : Fin cfg8.N) : (dat8 V c).after 2 t = iblk8 V c 2 t := by dsimp only [dat8]
theorem after8_3 (c : Dev nD) (t : Fin cfg8.N) :
    (dat8 V c).after 3 t = out8_3 (iblk8 V c 0 t) (iblk8 V c 1 t) (iblk8 V c 2 t) := by dsimp only [dat8]

/-- Each input's current staging buffer holds its block at every point, fetched there or not. -/
theorem before8_0 (c : Dev nD) (t : Fin cfg8.N) (d) : (dat8 V c).before 0 t d = iblk8 V c 0 t :=
  before8_0_of V (dat8 V c) (A_eq8 V c 0) (after8_0 V c) t d
theorem before8_1 (c : Dev nD) (t : Fin cfg8.N) (d) : (dat8 V c).before 1 t d = iblk8 V c 1 t :=
  before8_1_of V (dat8 V c) (A_eq8 V c 1) (after8_1 V c) t d
theorem before8_2 (c : Dev nD) (t : Fin cfg8.N) (d) : (dat8 V c).before 2 t d = iblk8 V c 2 t :=
  before8_2_of V (dat8 V c) (A_eq8 V c 2) (after8_2 V c) t d

/-- The invariant is the class's at every point: entering and leaving the region are identities on it. -/
theorem hin8 (c : Dev nD) : (Pipeline.ΦA spec8 c : sProp 𝕄) ⊢ (dat8 V c).Φ 0 := by
  show (Pipeline.ΦA spec8 c : sProp 𝕄) ⊢ Pipeline.ΦA spec8 c
  exact .rfl
theorem hout8 (c : Dev nD) : (dat8 V c).Φ (Fin.last cfg8.N) ⊢ (Pipeline.ΦA spec8 c : sProp 𝕄) := by
  show (Pipeline.ΦA spec8 c : sProp 𝕄) ⊢ Pipeline.ΦA spec8 c
  exact .rfl

/-! ## The body obligation, at a generic point -/

/-- What the body is called with at point `t`, the windows one by one, -/
def bodyPre8 (c : Dev nD) (t : Fin cfg8.N) : sProp 𝕄 :=
  iprop((dat8 V c).Φ t.castSucc ∗ (dat8 V c).owesAt () t.castSucc
    ∗ (∃ d, owns (c : Thread nD τ) (st8_0 t) fullShare ((dat8 V c).before 0 t d))
    ∗ (∃ d, owns (c : Thread nD τ) (st8_1 t) fullShare ((dat8 V c).before 1 t d))
    ∗ (∃ d, owns (c : Thread nD τ) (st8_2 t) fullShare ((dat8 V c).before 2 t d))
    ∗ (∃ d, owns (c : Thread nD τ) (st8_3 t) fullShare ((dat8 V c).before 3 t d)))

/-- and what it returns. -/
def bodyPost8 (c : Dev nD) (t : Fin cfg8.N) : sProp 𝕄 :=
  iprop((dat8 V c).Φ t.succ ∗ (dat8 V c).owesAt () t.succ
    ∗ owns (c : Thread nD τ) (st8_0 t) fullShare ((dat8 V c).after 0 t)
    ∗ owns (c : Thread nD τ) (st8_1 t) fullShare ((dat8 V c).after 1 t)
    ∗ owns (c : Thread nD τ) (st8_2 t) fullShare ((dat8 V c).after 2 t)
    ∗ owns (c : Thread nD τ) (st8_3 t) fullShare ((dat8 V c).after 3 t))

/-- The body at any point: the inputs' memrefs hold their blocks, so the body's triple applies; the invariant and
    the core's debts pass through unread. -/
theorem sound_body8 (c : Dev nD) (t : Fin cfg8.N) :
    bodyPre8 V c t ⊢ wp frame (wpE (defs₀ (F := F)) Variants.none c none) Set.univ (bodyAt8 t) (fun _ => bodyPost8 V c t) := by
  unfold bodyPre8 bodyPost8 bodyAt8
  simp only [before8_0, before8_1, before8_2]
  rw [show (dat8 V c).Φ t.succ = (dat8 V c).Φ t.castSucc from rfl,
    show (dat8 V c).owesAt () t.succ = (dat8 V c).owesAt () t.castSucc from rfl,
    after8_0, after8_1, after8_2, after8_3]
  iintro ⟨HΦ, Ho, ⟨%d0, H0⟩, ⟨%d1, H1⟩, ⟨%d2, H2⟩, ⟨%d3, H3⟩⟩
  iapply (sound_kernel8 c Set.univ _ _ _ _ _ _ _ _ _ (iblk8 V c 0 t) (iblk8 V c 1 t) (iblk8 V c 2 t) _)
  isplitl [H0]; · iexact H0
  isplitl [H1]; · iexact H1
  isplitl [H2]; · iexact H2
  isplitl [H3]; · iexists _; iexact H3
  iintro ⟨H0, H1, H2, H3⟩
  isplitl [HΦ]; · iexact HΦ
  isplitl [Ho]; · iexact Ho
  isplitl [H0]; · iexact H0
  isplitl [H1]; · iexact H1
  isplitl [H2]; · iexact H2
  iexact H3

/-- The library's body obligation, at every point. -/
theorem body_obligation8 (c : Dev nD) : BodyObligation (dat8 (F := F) V c) (defs₀ (F := F)) Variants.none () Set.univ := fun t => by
  rw [bigSep_W8, bigSep_W8]
  exact sound_body8 V c t

end Cert.KernelIdeal.Rg
-- ==== Proof.KI.Reg9.lean ====
/- REGION 9: the adjacency product with a carried accumulator (grid 20 × 10, the reduction step `k = t % 10`). The f32
   accumulator [512x1024] is zeroed when `k = 0`, takes the product of the left operand's block with the right operand's
   rows `k*1024 … k*1024+1023` at every point, and when `k = 9` is read back, the bias row added, the positive part taken, the sum converted to the result's format and stored whole into the
   result's block. Stated at a parameter `V`, the TensorCore's buffer contents when the region is entered: the proof
   data `dat9`, its body obligation, and the invariant's two ends `hin9` / `hout9`; `out9_L_3` / `outsAt9` name what
   the result window holds. -/
import proofs.«181230_j19834158973077_2_alg».proof.Proof.Gen.KernelIdeal.Launch
import proofs.«181230_j19834158973077_2_alg».proof.Proof.Gen.KernelIdeal.Skeleton
import proofs.«181230_j19834158973077_2_alg».proof.Proof.Gen.KernelIdeal.Points
import Idealize.ShloMosaic.Lib.Pipeline.FrameBody
import Idealize.ShloMosaic.Lib.Ring
import Idealize.ShloMosaic.Lib.Tactic

-- membership in a rectangle of full extents recurses once per coordinate of the long axes
set_option maxRecDepth 16384

noncomputable section

namespace Cert.KernelIdeal.Rg

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

/-! # Part 1: the conditionals over the grid, the memrefs, the invariant's split, the blocks -/

/-! ## The body's two conditionals, over the grid

A grid point `t` has coordinates `(m, k)` with `k = t % 10` the reduction step. The accumulator is zeroed when
`k = 0`; the result block is written when `k = 9`. -/

/-- The first conditional's condition (`k = 0`), with the scalar chain that computes it substituted. -/
abbrev zeroC9 (i : grid9.Coords) : Prop :=
  (Scalar.cmpi .ne (Scalar.extui (Scalar.cmpi .eq (BitVec.ofNat 32 (i 1).val) 0#32)) 0#32) = 1#1
/-- It holds exactly at the points ≡ 0 (mod 10): decided over the 200 points. -/
theorem zeroC9_iff : ∀ t : Fin cfg9.N, zeroC9 (grid9.coords t) ↔ t.val % 10 = 0 :=
  (by decide +kernel : ∀ t : Fin grid9.N, zeroC9 (grid9.coords t) ↔ t.val % 10 = 0)

/-- The second conditional's condition (`k = 9`). -/
abbrev flushC9 (i : grid9.Coords) : Prop := k9_cond2 i = 1#1
/-- It holds exactly at the points ≡ 9 (mod 10). -/
theorem flushC9_iff : ∀ t : Fin cfg9.N, flushC9 (grid9.coords t) ↔ t.val % 10 = 9 :=
  (by decide +kernel : ∀ t : Fin grid9.N, flushC9 (grid9.coords t) ↔ t.val % 10 = 9)

/-! ## Where the windows are idle -/

/-- The three input windows are never idle. -/
theorem live9_0 : ∀ t : Fin cfg9.N, cfg9.idle 0 (grid9.coords t) = false := by decide +kernel
theorem live9_1 : ∀ t : Fin cfg9.N, cfg9.idle 1 (grid9.coords t) = false := by decide +kernel
theorem live9_2 : ∀ t : Fin cfg9.N, cfg9.idle 2 (grid9.coords t) = false := by decide +kernel
/-- Away from `k = 9` the result window is idle (the body stores nothing into it) -/
theorem idle9_3 : ∀ t : Fin cfg9.N, ¬flushC9 (grid9.coords t) → cfg9.idle 3 (grid9.coords t) = true := by decide +kernel
/-- and its block is not written back; -/
theorem noFlush9_3 : ∀ t : Fin cfg9.N, ¬flushC9 (grid9.coords t) → (cfg9.win 3).flush t = false := by decide +kernel
/-- at `k = 9` it is live. -/
theorem live9_3 : ∀ t : Fin cfg9.N, flushC9 (grid9.coords t) → cfg9.idle 3 (grid9.coords t) = false := by decide +kernel

/-! ## The memrefs the body is called with -/

/-- Each window's current staging memref at point `t`, and that it is a whole buffer: the left operand's block, -/
abbrev mA9 (t : Fin cfg9.N) : Memref sig .tc .vmem S512x1024 .bf16 := win9_0.stage (cfg9.slots t 0)
abbrev hA9 (t : Fin cfg9.N) : (mA9 t).IsWhole := hstage9_0 ((cfg9.slots t 0).cast nbuf9_0)
/-- the right operand, resident whole, -/
abbrev mB9 (t : Fin cfg9.N) : Memref sig .tc .vmem S10240x1024 .bf16 := win9_1.stage (cfg9.slots t 1)
abbrev hB9 (t : Fin cfg9.N) : (mB9 t).IsWhole := hstage9_1 ((cfg9.slots t 1).cast nbuf9_1)
/-- the bias row, -/
abbrev mC9 (t : Fin cfg9.N) : Memref sig .tc .vmem S1x1024 .f32 := win9_2.stage (cfg9.slots t 2)
abbrev hC9 (t : Fin cfg9.N) : (mC9 t).IsWhole := hstage9_2 ((cfg9.slots t 2).cast nbuf9_2)
/-- the result's block. -/
abbrev mO9 (t : Fin cfg9.N) : Memref sig .tc .vmem S512x1024 .bf16 := win9_3.stage (cfg9.slots t 3)
abbrev hO9 (t : Fin cfg9.N) : (mO9 t).IsWhole := hstage9_3 ((cfg9.slots t 3).cast nbuf9_3)
/-- The accumulator: a whole scoped buffer of the kernel's own, passed beside the windows and carried from point to point. -/
abbrev mS9 : Memref sig .tc .vmem S512x1024 .f32 := Memref.whole cc9_scratch0
/-- The views through which the result buffer's and the accumulator's contents are stated (one of the result's two
    staging buffers: for a covering list of stores the choice does not matter). -/
abbrev vO9 : View sig .tc .vmem S512x1024 .bf16 := (Memref.whole cc9_stg3_0 : Memref sig .tc .vmem S512x1024 .bf16).view
abbrev vS9 : View sig .tc .vmem S512x1024 .f32 := mS9.view

/-! ## The region invariant, with the accumulator split off -/

/-- Every other scoped buffer of the core that is no staging buffer of this region: carried unopened. -/
abbrev rest9 (c : Dev nD) : sProp 𝕄 :=
  Pipeline.scopedRestBut (Ix := Unit) (Name := ℕ) (U := UR sig nD τ) (Lvl := ℕ) (Val := Elt F) spec9 c [cc9_scratch0]

/-- The class's invariant is: the accumulator owned at some contents, the other scoped buffers, the generator
    register at some state. -/
theorem PhiA9_eq (c : Dev nD) :
    (Pipeline.ΦA spec9 c : sProp 𝕄)
      = iprop(iprop((∃ d, owns (c : Thread nD τ) mS9 fullShare d) ∗ rest9 (F := F) c) ∗ (∃ r, prngReg c r)) := by
  unfold Pipeline.ΦA; rw [scopedRest9_split]; simp only [mS9, owns_whole]; try rfl

section Entry
variable (V : (c : Dev nD) → (b : Ref sig .tc) → Buf (Elt F) ((c : Thread nD τ).loc b))

/-! ## The windows' blocks -/

/-- Window `w`'s block at point `t`, read off its array as the region finds it. -/
def iblk9 (c : Dev nD) (w : Fin cfg9.W) (t : Fin cfg9.N) : ((cfg9.win w).xblock (cfg9.grid.coords t)).Idx → Elt F (cfg9.win w).elt :=
  ((cfg9.win w).blk t).view.read (Elt F) (V c (Pipeline.arrRef spec9 w))

/-- An input window's current staging buffer holds its block at every point, fetched there or not (where it is not
    fetched its block index has not moved), for any proof data whose array is `V`'s and whose body leaves the block
    in place. -/
theorem before9_0_of {c : Dev nD} (dat : Dat τ (Elt F) Unit ℕ (UR sig nD τ) ℕ cfg9 c) (hA : dat.A 0 = V c (Pipeline.arrRef spec9 0))
    (hafter : ∀ t, dat.after 0 t = iblk9 V c 0 t) (t : Fin cfg9.N) (d) : dat.before 0 t d = iblk9 V c 0 t :=
  (dat.before_in_eq_fetched 0 rfl (fun _ => rfl) (fun _ _ _ => rfl) (fun t => by rw [hafter]; unfold Dat.blockOf iblk9; rw [hA]; try rfl) t d).trans
    (by unfold Dat.fetched Dat.blockOf iblk9; rw [hA]; try rfl)
theorem before9_1_of {c : Dev nD} (dat : Dat τ (Elt F) Unit ℕ (UR sig nD τ) ℕ cfg9 c) (hA : dat.A 1 = V c (Pipeline.arrRef spec9 1))
    (hafter : ∀ t, dat.after 1 t = iblk9 V c 1 t) (t : Fin cfg9.N) (d) : dat.before 1 t d = iblk9 V c 1 t :=
  (dat.before_in_eq_fetched 1 rfl (fun _ => rfl) (fun _ _ _ => rfl) (fun t => by rw [hafter]; unfold Dat.blockOf iblk9; rw [hA]; try rfl) t d).trans
    (by unfold Dat.fetched Dat.blockOf iblk9; rw [hA]; try rfl)
theorem before9_2_of {c : Dev nD} (dat : Dat τ (Elt F) Unit ℕ (UR sig nD τ) ℕ cfg9 c) (hA : dat.A 2 = V c (Pipeline.arrRef spec9 2))
    (hafter : ∀ t, dat.after 2 t = iblk9 V c 2 t) (t : Fin cfg9.N) (d) : dat.before 2 t d = iblk9 V c 2 t :=
  (dat.before_in_eq_fetched 2 rfl (fun _ => rfl) (fun _ _ _ => rfl) (fun t => by rw [hafter]; unfold Dat.blockOf iblk9; rw [hA]; try rfl) t d).trans
    (by unfold Dat.fetched Dat.blockOf iblk9; rw [hA]; try rfl)

end Entry

/-! # Part 2: the body's run in each of the three control cases -/
/-! ### The control case `k = 0`: the accumulator is stored whole with zeros, then read back, the block product added and the sum stored
   whole again; the result buffer is not touched. -/

-- (the run's proof term is large: the definition's epilogue walks it past the default budget)
set_option maxHeartbeats 1000000 in
/-- The lists of stores, last first, that the body leaves in the result buffer (`L3`) and in the accumulator (`LS`) in
    this case, TOGETHER WITH the proof that on whole memrefs — the three inputs at contents `x0 x1 x2`, the result
    buffer at contents `xi3` handed back as found, the accumulator at anything — the body runs to a
    continuation that holds the inputs as they were, the result buffer as it was and the accumulator with
    `LS` written. The two lists are found by running the body's memory operations in order over named payloads; each
    conditional is decided by the case's hypotheses. -/
noncomputable def runZero9 (c : Dev nD) (i : grid9.Coords) (arg2 : Memref sig .tc .vmem S512x1024 .bf16) (harg2 : arg2.IsWhole) (arg3 : Memref sig .tc .vmem S10240x1024 .bf16) (harg3 : arg3.IsWhole) (arg4 : Memref sig .tc .vmem S1x1024 .f32) (harg4 : arg4.IsWhole) (arg5 : Memref sig .tc .vmem S512x1024 .bf16) (harg5 : arg5.IsWhole) (arg6 : Memref sig .tc .vmem S512x1024 .f32) (harg6 : arg6.IsWhole) (hc0 : zeroC9 i) (hc1 : ¬flushC9 i)
    (x0 : Vec F S512x1024 .bf16) (x1 : Vec F S10240x1024 .bf16) (x2 : Vec F S1x1024 .f32) :
    Σ' (L3 : List (View.Piece (Elt F) S512x1024 .bf16)), { LS : List (View.Piece (Elt F) S512x1024 .f32) //
      ∀ (xi3 : Vec F S512x1024 .bf16) (E : Set ℕ) (K : PUnit → sProp 𝕄),
        iprop(owns (c : Thread nD τ) arg2 fullShare x0 ∗ owns (c : Thread nD τ) arg3 fullShare x1 ∗ owns (c : Thread nD τ) arg4 fullShare x2 ∗ owns (c : Thread nD τ) arg5 fullShare xi3 ∗ (∃ d, owns (c : Thread nD τ) arg6 fullShare d)
            ∗ (iprop(owns (c : Thread nD τ) arg2 fullShare x0 ∗ owns (c : Thread nD τ) arg3 fullShare x1 ∗ owns (c : Thread nD τ) arg4 fullShare x2 ∗ owns (c : Thread nD τ) arg5 fullShare xi3 ∗ (∃ f, arg6.view.loc (c : Thread nD τ) ↦[arg6.view.set]{fullShare} arg6.view.writes (Elt F) f LS)) -∗ K ⟨⟩))
          ⊢ wp frame (wpE (defs₀ (F := F)) Variants.none c none) E (cc9__stage2_kernel i arg2 harg2 arg3 harg3 arg4 harg4 arg5 harg5 arg6 harg6) K } := by
  refine ⟨[], ?_, fun xi3 E K => ?run⟩
  case run =>
    simp only [cc9__stage2_kernel_eq_skeleton]; unfold cc9__stage2_kernel_skel
    unfold owns
    iintro ⟨⟨%f0, %hf0, H0⟩, ⟨%f1, %hf1, H1⟩, ⟨%f2, %hf2, H2⟩, ⟨%f3, %hf3, H3⟩, ⟨%ds, %fs, -, HS⟩, Hk⟩
    obtain rfl := harg2.eq_unread hf0; obtain rfl := harg3.eq_unread hf1; obtain rfl := harg4.eq_unread hf2; obtain rfl := harg5.eq_unread hf3
    sl_exec (disch := first | exact hc0 | exact hc1)
    sl_step
    iapply Hk
    isplitl [H0]
    · iexists _; isplitr; · ipureintro; exact harg2.read_unread _
      iexact H0
    isplitl [H1]
    · iexists _; isplitr; · ipureintro; exact harg3.read_unread _
      iexact H1
    isplitl [H2]
    · iexists _; isplitr; · ipureintro; exact harg4.read_unread _
      iexact H2
    isplitl [H3]
    · iexists _; isplitr; · ipureintro; exact harg5.read_unread _
      iexact H3
    iexists _; iexact HS

/-! ### The control case `0 < k < 9`: the accumulator is read, the block product added and the sum stored whole; the result
   buffer is not touched. -/

-- (the run's proof term is large: the definition's epilogue walks it past the default budget)
set_option maxHeartbeats 1000000 in
/-- The lists of stores, last first, that the body leaves in the result buffer (`L3`) and in the accumulator (`LS`) in
    this case, TOGETHER WITH the proof that on whole memrefs — the three inputs at contents `x0 x1 x2`, the result
    buffer at contents `xi3` handed back as found, the accumulator at the contents `xs` the point before left — the body runs to a
    continuation that holds the inputs as they were, the result buffer as it was and the accumulator with
    `LS` written. The two lists are found by running the body's memory operations in order over named payloads; each
    conditional is decided by the case's hypotheses. -/
noncomputable def runMid9 (c : Dev nD) (i : grid9.Coords) (arg2 : Memref sig .tc .vmem S512x1024 .bf16) (harg2 : arg2.IsWhole) (arg3 : Memref sig .tc .vmem S10240x1024 .bf16) (harg3 : arg3.IsWhole) (arg4 : Memref sig .tc .vmem S1x1024 .f32) (harg4 : arg4.IsWhole) (arg5 : Memref sig .tc .vmem S512x1024 .bf16) (harg5 : arg5.IsWhole) (arg6 : Memref sig .tc .vmem S512x1024 .f32) (harg6 : arg6.IsWhole) (hc0 : ¬zeroC9 i) (hc1 : ¬flushC9 i)
    (x0 : Vec F S512x1024 .bf16) (x1 : Vec F S10240x1024 .bf16) (x2 : Vec F S1x1024 .f32) (xs : Vec F S512x1024 .f32) :
    Σ' (L3 : List (View.Piece (Elt F) S512x1024 .bf16)), { LS : List (View.Piece (Elt F) S512x1024 .f32) //
      ∀ (xi3 : Vec F S512x1024 .bf16) (E : Set ℕ) (K : PUnit → sProp 𝕄),
        iprop(owns (c : Thread nD τ) arg2 fullShare x0 ∗ owns (c : Thread nD τ) arg3 fullShare x1 ∗ owns (c : Thread nD τ) arg4 fullShare x2 ∗ owns (c : Thread nD τ) arg5 fullShare xi3 ∗ owns (c : Thread nD τ) arg6 fullShare xs
            ∗ (iprop(owns (c : Thread nD τ) arg2 fullShare x0 ∗ owns (c : Thread nD τ) arg3 fullShare x1 ∗ owns (c : Thread nD τ) arg4 fullShare x2 ∗ owns (c : Thread nD τ) arg5 fullShare xi3 ∗ (∃ f, arg6.view.loc (c : Thread nD τ) ↦[arg6.view.set]{fullShare} arg6.view.writes (Elt F) f LS)) -∗ K ⟨⟩))
          ⊢ wp frame (wpE (defs₀ (F := F)) Variants.none c none) E (cc9__stage2_kernel i arg2 harg2 arg3 harg3 arg4 harg4 arg5 harg5 arg6 harg6) K } := by
  refine ⟨[], ?_, fun xi3 E K => ?run⟩
  case run =>
    simp only [cc9__stage2_kernel_eq_skeleton]; unfold cc9__stage2_kernel_skel
    unfold owns
    iintro ⟨⟨%f0, %hf0, H0⟩, ⟨%f1, %hf1, H1⟩, ⟨%f2, %hf2, H2⟩, ⟨%f3, %hf3, H3⟩, ⟨%fs, %hfs, HS⟩, Hk⟩
    obtain rfl := harg2.eq_unread hf0; obtain rfl := harg3.eq_unread hf1; obtain rfl := harg4.eq_unread hf2; obtain rfl := harg5.eq_unread hf3; obtain rfl := harg6.eq_unread hfs
    sl_exec (disch := first | exact hc0 | exact hc1)
    sl_step
    iapply Hk
    isplitl [H0]
    · iexists _; isplitr; · ipureintro; exact harg2.read_unread _
      iexact H0
    isplitl [H1]
    · iexists _; isplitr; · ipureintro; exact harg3.read_unread _
      iexact H1
    isplitl [H2]
    · iexists _; isplitr; · ipureintro; exact harg4.read_unread _
      iexact H2
    isplitl [H3]
    · iexists _; isplitr; · ipureintro; exact harg5.read_unread _
      iexact H3
    iexists _; iexact HS

/-! ### The control case `k = 9`: the accumulator is read, the block product added and the sum stored whole; then the accumulator
   is read back, the bias row added, the sum converted to the result's format and stored whole into the result buffer. -/

-- (the run's proof term is large: the definition's epilogue walks it past the default budget)
set_option maxHeartbeats 1000000 in
/-- The lists of stores, last first, that the body leaves in the result buffer (`L3`) and in the accumulator (`LS`) in
    this case, TOGETHER WITH the proof that on whole memrefs — the three inputs at contents `x0 x1 x2`, the result buffer at anything, the accumulator at the contents `xs` the point before left — the body runs to a
    continuation that holds the inputs as they were, the result buffer with `L3` written and the accumulator with
    `LS` written. The two lists are found by running the body's memory operations in order over named payloads; each
    conditional is decided by the case's hypotheses. -/
noncomputable def runLast9 (c : Dev nD) (i : grid9.Coords) (arg2 : Memref sig .tc .vmem S512x1024 .bf16) (harg2 : arg2.IsWhole) (arg3 : Memref sig .tc .vmem S10240x1024 .bf16) (harg3 : arg3.IsWhole) (arg4 : Memref sig .tc .vmem S1x1024 .f32) (harg4 : arg4.IsWhole) (arg5 : Memref sig .tc .vmem S512x1024 .bf16) (harg5 : arg5.IsWhole) (arg6 : Memref sig .tc .vmem S512x1024 .f32) (harg6 : arg6.IsWhole) (hc0 : ¬zeroC9 i) (hc1 : flushC9 i)
    (x0 : Vec F S512x1024 .bf16) (x1 : Vec F S10240x1024 .bf16) (x2 : Vec F S1x1024 .f32) (xs : Vec F S512x1024 .f32) :
    Σ' (L3 : List (View.Piece (Elt F) S512x1024 .bf16)), { LS : List (View.Piece (Elt F) S512x1024 .f32) //
      ∀ (E : Set ℕ) (K : PUnit → sProp 𝕄),
        iprop(owns (c : Thread nD τ) arg2 fullShare x0 ∗ owns (c : Thread nD τ) arg3 fullShare x1 ∗ owns (c : Thread nD τ) arg4 fullShare x2 ∗ (∃ d, owns (c : Thread nD τ) arg5 fullShare d) ∗ owns (c : Thread nD τ) arg6 fullShare xs
            ∗ (iprop(owns (c : Thread nD τ) arg2 fullShare x0 ∗ owns (c : Thread nD τ) arg3 fullShare x1 ∗ owns (c : Thread nD τ) arg4 fullShare x2 ∗ (∃ f, arg5.view.loc (c : Thread nD τ) ↦[arg5.view.set]{fullShare} arg5.view.writes (Elt F) f L3) ∗ (∃ f, arg6.view.loc (c : Thread nD τ) ↦[arg6.view.set]{fullShare} arg6.view.writes (Elt F) f LS)) -∗ K ⟨⟩))
          ⊢ wp frame (wpE (defs₀ (F := F)) Variants.none c none) E (cc9__stage2_kernel i arg2 harg2 arg3 harg3 arg4 harg4 arg5 harg5 arg6 harg6) K } := by
  refine ⟨?_, ?_, fun E K => ?run⟩
  case run =>
    simp only [cc9__stage2_kernel_eq_skeleton]; unfold cc9__stage2_kernel_skel
    unfold owns
    iintro ⟨⟨%f0, %hf0, H0⟩, ⟨%f1, %hf1, H1⟩, ⟨%f2, %hf2, H2⟩, ⟨%d3, %f3, -, H3⟩, ⟨%fs, %hfs, HS⟩, Hk⟩
    obtain rfl := harg2.eq_unread hf0; obtain rfl := harg3.eq_unread hf1; obtain rfl := harg4.eq_unread hf2; obtain rfl := harg6.eq_unread hfs
    sl_exec (disch := first | exact hc0 | exact hc1)
    sl_step
    iapply Hk
    isplitl [H0]
    · iexists _; isplitr; · ipureintro; exact harg2.read_unread _
      iexact H0
    isplitl [H1]
    · iexists _; isplitr; · ipureintro; exact harg3.read_unread _
      iexact H1
    isplitl [H2]
    · iexists _; isplitr; · ipureintro; exact harg4.read_unread _
      iexact H2
    isplitl [H3]; · iexists _; iexact H3
    iexists _; iexact HS

/-! # Part 3: what each case leaves, point by point; the proof data; the body obligation; the invariant's ends -/

/-! ## What each case leaves

In the cases `k = 0` and `0 < k < 9` nothing is stored into the result buffer: its "contents" below is a placeholder
(no stores read back over junk) that nothing consults, the window being idle and not written back at those points. -/

def out9_Z_3 (c : Dev nD) (i : grid9.Coords) (arg2 : Memref sig .tc .vmem S512x1024 .bf16) (harg2 : arg2.IsWhole) (arg3 : Memref sig .tc .vmem S10240x1024 .bf16) (harg3 : arg3.IsWhole) (arg4 : Memref sig .tc .vmem S1x1024 .f32) (harg4 : arg4.IsWhole) (arg5 : Memref sig .tc .vmem S512x1024 .bf16) (harg5 : arg5.IsWhole) (arg6 : Memref sig .tc .vmem S512x1024 .f32) (harg6 : arg6.IsWhole) (hc0 : zeroC9 i) (hc1 : ¬flushC9 i)
    (x0 : Vec F S512x1024 .bf16) (x1 : Vec F S10240x1024 .bf16) (x2 : Vec F S1x1024 .f32) : Vec F S512x1024 .bf16 :=
  vO9.read (Elt F) (vO9.writes (Elt F) vO9.junk (runZero9 c i arg2 harg2 arg3 harg3 arg4 harg4 arg5 harg5 arg6 harg6 hc0 hc1 x0 x1 x2).1)

/-- At `k = 0` the accumulator's stores (the zero fill, then the first partial sum) cover it. -/
theorem scover9_Z (c : Dev nD) (i : grid9.Coords) (arg2 : Memref sig .tc .vmem S512x1024 .bf16) (harg2 : arg2.IsWhole) (arg3 : Memref sig .tc .vmem S10240x1024 .bf16) (harg3 : arg3.IsWhole) (arg4 : Memref sig .tc .vmem S1x1024 .f32) (harg4 : arg4.IsWhole) (arg5 : Memref sig .tc .vmem S512x1024 .bf16) (harg5 : arg5.IsWhole) (arg6 : Memref sig .tc .vmem S512x1024 .f32) (harg6 : arg6.IsWhole) (hc0 : zeroC9 i) (hc1 : ¬flushC9 i)
    (x0 : Vec F S512x1024 .bf16) (x1 : Vec F S10240x1024 .bf16) (x2 : Vec F S1x1024 .f32) (y : S512x1024.Idx) :
    ∃ pc ∈ (runZero9 c i arg2 harg2 arg3 harg3 arg4 harg4 arg5 harg5 arg6 harg6 hc0 hc1 x0 x1 x2).2.1, y ∈ pc.1.set :=
  View.cover_of_tiledL (runZero9 c i arg2 harg2 arg3 harg3 arg4 harg4 arg5 harg5 arg6 harg6 hc0 hc1 x0 x1 x2).2.1 S512x1024.size (by sl_kernel_rfl) y

/-- What the case `k = 0` leaves in the accumulator: its stores read back. -/
def acc9_Z (c : Dev nD) (i : grid9.Coords) (arg2 : Memref sig .tc .vmem S512x1024 .bf16) (harg2 : arg2.IsWhole) (arg3 : Memref sig .tc .vmem S10240x1024 .bf16) (harg3 : arg3.IsWhole) (arg4 : Memref sig .tc .vmem S1x1024 .f32) (harg4 : arg4.IsWhole) (arg5 : Memref sig .tc .vmem S512x1024 .bf16) (harg5 : arg5.IsWhole) (arg6 : Memref sig .tc .vmem S512x1024 .f32) (harg6 : arg6.IsWhole) (hc0 : zeroC9 i) (hc1 : ¬flushC9 i)
    (x0 : Vec F S512x1024 .bf16) (x1 : Vec F S10240x1024 .bf16) (x2 : Vec F S1x1024 .f32) : Vec F S512x1024 .f32 :=
  vS9.read (Elt F) (vS9.writes (Elt F) vS9.junk (runZero9 c i arg2 harg2 arg3 harg3 arg4 harg4 arg5 harg5 arg6 harg6 hc0 hc1 x0 x1 x2).2.1)

def out9_M_3 (c : Dev nD) (i : grid9.Coords) (arg2 : Memref sig .tc .vmem S512x1024 .bf16) (harg2 : arg2.IsWhole) (arg3 : Memref sig .tc .vmem S10240x1024 .bf16) (harg3 : arg3.IsWhole) (arg4 : Memref sig .tc .vmem S1x1024 .f32) (harg4 : arg4.IsWhole) (arg5 : Memref sig .tc .vmem S512x1024 .bf16) (harg5 : arg5.IsWhole) (arg6 : Memref sig .tc .vmem S512x1024 .f32) (harg6 : arg6.IsWhole) (hc0 : ¬zeroC9 i) (hc1 : ¬flushC9 i)
    (x0 : Vec F S512x1024 .bf16) (x1 : Vec F S10240x1024 .bf16) (x2 : Vec F S1x1024 .f32) (xs : Vec F S512x1024 .f32) : Vec F S512x1024 .bf16 :=
  vO9.read (Elt F) (vO9.writes (Elt F) vO9.junk (runMid9 c i arg2 harg2 arg3 harg3 arg4 harg4 arg5 harg5 arg6 harg6 hc0 hc1 x0 x1 x2 xs).1)

/-- For `0 < k < 9` the accumulator's one store covers it. -/
theorem scover9_M (c : Dev nD) (i : grid9.Coords) (arg2 : Memref sig .tc .vmem S512x1024 .bf16) (harg2 : arg2.IsWhole) (arg3 : Memref sig .tc .vmem S10240x1024 .bf16) (harg3 : arg3.IsWhole) (arg4 : Memref sig .tc .vmem S1x1024 .f32) (harg4 : arg4.IsWhole) (arg5 : Memref sig .tc .vmem S512x1024 .bf16) (harg5 : arg5.IsWhole) (arg6 : Memref sig .tc .vmem S512x1024 .f32) (harg6 : arg6.IsWhole) (hc0 : ¬zeroC9 i) (hc1 : ¬flushC9 i)
    (x0 : Vec F S512x1024 .bf16) (x1 : Vec F S10240x1024 .bf16) (x2 : Vec F S1x1024 .f32) (xs : Vec F S512x1024 .f32) (y : S512x1024.Idx) :
    ∃ pc ∈ (runMid9 c i arg2 harg2 arg3 harg3 arg4 harg4 arg5 harg5 arg6 harg6 hc0 hc1 x0 x1 x2 xs).2.1, y ∈ pc.1.set :=
  View.cover_of_tiledL (runMid9 c i arg2 harg2 arg3 harg3 arg4 harg4 arg5 harg5 arg6 harg6 hc0 hc1 x0 x1 x2 xs).2.1 S512x1024.size (by sl_kernel_rfl) y

/-- What the case `0 < k < 9` leaves in the accumulator, over what the point before left (`xs`). -/
def acc9_M (c : Dev nD) (i : grid9.Coords) (arg2 : Memref sig .tc .vmem S512x1024 .bf16) (harg2 : arg2.IsWhole) (arg3 : Memref sig .tc .vmem S10240x1024 .bf16) (harg3 : arg3.IsWhole) (arg4 : Memref sig .tc .vmem S1x1024 .f32) (harg4 : arg4.IsWhole) (arg5 : Memref sig .tc .vmem S512x1024 .bf16) (harg5 : arg5.IsWhole) (arg6 : Memref sig .tc .vmem S512x1024 .f32) (harg6 : arg6.IsWhole) (hc0 : ¬zeroC9 i) (hc1 : ¬flushC9 i)
    (x0 : Vec F S512x1024 .bf16) (x1 : Vec F S10240x1024 .bf16) (x2 : Vec F S1x1024 .f32) (xs : Vec F S512x1024 .f32) : Vec F S512x1024 .f32 :=
  vS9.read (Elt F) (vS9.writes (Elt F) vS9.junk (runMid9 c i arg2 harg2 arg3 harg3 arg4 harg4 arg5 harg5 arg6 harg6 hc0 hc1 x0 x1 x2 xs).2.1)

/-- At `k = 9` the one store into the result buffer covers it. -/
theorem cover9_L_3 (c : Dev nD) (i : grid9.Coords) (arg2 : Memref sig .tc .vmem S512x1024 .bf16) (harg2 : arg2.IsWhole) (arg3 : Memref sig .tc .vmem S10240x1024 .bf16) (harg3 : arg3.IsWhole) (arg4 : Memref sig .tc .vmem S1x1024 .f32) (harg4 : arg4.IsWhole) (arg5 : Memref sig .tc .vmem S512x1024 .bf16) (harg5 : arg5.IsWhole) (arg6 : Memref sig .tc .vmem S512x1024 .f32) (harg6 : arg6.IsWhole) (hc0 : ¬zeroC9 i) (hc1 : flushC9 i)
    (x0 : Vec F S512x1024 .bf16) (x1 : Vec F S10240x1024 .bf16) (x2 : Vec F S1x1024 .f32) (xs : Vec F S512x1024 .f32) (y : S512x1024.Idx) :
    ∃ pc ∈ (runLast9 c i arg2 harg2 arg3 harg3 arg4 harg4 arg5 harg5 arg6 harg6 hc0 hc1 x0 x1 x2 xs).1, y ∈ pc.1.set :=
  View.cover_of_tiledL (runLast9 c i arg2 harg2 arg3 harg3 arg4 harg4 arg5 harg5 arg6 harg6 hc0 hc1 x0 x1 x2 xs).1 S512x1024.size (by sl_kernel_rfl) y

/-- THE RESULT BLOCK: what the case `k = 9` leaves in the result buffer — the accumulated sum plus the bias row, in the
    result's format — as a term of the three input blocks and of the accumulator the point before left. -/
def out9_L_3 (c : Dev nD) (i : grid9.Coords) (arg2 : Memref sig .tc .vmem S512x1024 .bf16) (harg2 : arg2.IsWhole) (arg3 : Memref sig .tc .vmem S10240x1024 .bf16) (harg3 : arg3.IsWhole) (arg4 : Memref sig .tc .vmem S1x1024 .f32) (harg4 : arg4.IsWhole) (arg5 : Memref sig .tc .vmem S512x1024 .bf16) (harg5 : arg5.IsWhole) (arg6 : Memref sig .tc .vmem S512x1024 .f32) (harg6 : arg6.IsWhole) (hc0 : ¬zeroC9 i) (hc1 : flushC9 i)
    (x0 : Vec F S512x1024 .bf16) (x1 : Vec F S10240x1024 .bf16) (x2 : Vec F S1x1024 .f32) (xs : Vec F S512x1024 .f32) : Vec F S512x1024 .bf16 :=
  vO9.read (Elt F) (vO9.writes (Elt F) vO9.junk (runLast9 c i arg2 harg2 arg3 harg3 arg4 harg4 arg5 harg5 arg6 harg6 hc0 hc1 x0 x1 x2 xs).1)

/-- At `k = 9` the accumulator's one store covers it. -/
theorem scover9_L (c : Dev nD) (i : grid9.Coords) (arg2 : Memref sig .tc .vmem S512x1024 .bf16) (harg2 : arg2.IsWhole) (arg3 : Memref sig .tc .vmem S10240x1024 .bf16) (harg3 : arg3.IsWhole) (arg4 : Memref sig .tc .vmem S1x1024 .f32) (harg4 : arg4.IsWhole) (arg5 : Memref sig .tc .vmem S512x1024 .bf16) (harg5 : arg5.IsWhole) (arg6 : Memref sig .tc .vmem S512x1024 .f32) (harg6 : arg6.IsWhole) (hc0 : ¬zeroC9 i) (hc1 : flushC9 i)
    (x0 : Vec F S512x1024 .bf16) (x1 : Vec F S10240x1024 .bf16) (x2 : Vec F S1x1024 .f32) (xs : Vec F S512x1024 .f32) (y : S512x1024.Idx) :
    ∃ pc ∈ (runLast9 c i arg2 harg2 arg3 harg3 arg4 harg4 arg5 harg5 arg6 harg6 hc0 hc1 x0 x1 x2 xs).2.1, y ∈ pc.1.set :=
  View.cover_of_tiledL (runLast9 c i arg2 harg2 arg3 harg3 arg4 harg4 arg5 harg5 arg6 harg6 hc0 hc1 x0 x1 x2 xs).2.1 S512x1024.size (by sl_kernel_rfl) y

/-- What the case `k = 9` leaves in the accumulator. -/
def acc9_L (c : Dev nD) (i : grid9.Coords) (arg2 : Memref sig .tc .vmem S512x1024 .bf16) (harg2 : arg2.IsWhole) (arg3 : Memref sig .tc .vmem S10240x1024 .bf16) (harg3 : arg3.IsWhole) (arg4 : Memref sig .tc .vmem S1x1024 .f32) (harg4 : arg4.IsWhole) (arg5 : Memref sig .tc .vmem S512x1024 .bf16) (harg5 : arg5.IsWhole) (arg6 : Memref sig .tc .vmem S512x1024 .f32) (harg6 : arg6.IsWhole) (hc0 : ¬zeroC9 i) (hc1 : flushC9 i)
    (x0 : Vec F S512x1024 .bf16) (x1 : Vec F S10240x1024 .bf16) (x2 : Vec F S1x1024 .f32) (xs : Vec F S512x1024 .f32) : Vec F S512x1024 .f32 :=
  vS9.read (Elt F) (vS9.writes (Elt F) vS9.junk (runLast9 c i arg2 harg2 arg3 harg3 arg4 harg4 arg5 harg5 arg6 harg6 hc0 hc1 x0 x1 x2 xs).2.1)

section Entry
variable (V : (c : Dev nD) → (b : Ref sig .tc) → Buf (Elt F) ((c : Thread nD τ).loc b))

/-! ## Point by point -/

/-- THE ACCUMULATION. After the body at position `n`: (the result buffer, the accumulator). The case is the one the
    closed forms select at `n`, run on the point's memrefs and input blocks; for `k > 0` the accumulator starts from what
    position `n - 1` left in it. The two conditions cannot hold together. -/
def outsAt9 (c : Dev nD) : (n : ℕ) → n < cfg9.N → Vec F S512x1024 .bf16 × Vec F S512x1024 .f32
  | 0, hn => (out9_Z_3 c (grid9.coords ⟨0, hn⟩) (mA9 ⟨0, hn⟩) (hA9 ⟨0, hn⟩) (mB9 ⟨0, hn⟩) (hB9 ⟨0, hn⟩) (mC9 ⟨0, hn⟩) (hC9 ⟨0, hn⟩) (mO9 ⟨0, hn⟩) (hO9 ⟨0, hn⟩) mS9 (Memref.isWhole_whole _) ((zeroC9_iff ⟨0, hn⟩).mpr (Nat.zero_mod _)) (fun h => (fun h => by (try dsimp only at h); omega) ((flushC9_iff ⟨0, hn⟩).mp h)) (iblk9 V c 0 ⟨0, hn⟩) (iblk9 V c 1 ⟨0, hn⟩) (iblk9 V c 2 ⟨0, hn⟩), acc9_Z c (grid9.coords ⟨0, hn⟩) (mA9 ⟨0, hn⟩) (hA9 ⟨0, hn⟩) (mB9 ⟨0, hn⟩) (hB9 ⟨0, hn⟩) (mC9 ⟨0, hn⟩) (hC9 ⟨0, hn⟩) (mO9 ⟨0, hn⟩) (hO9 ⟨0, hn⟩) mS9 (Memref.isWhole_whole _) ((zeroC9_iff ⟨0, hn⟩).mpr (Nat.zero_mod _)) (fun h => (fun h => by (try dsimp only at h); omega) ((flushC9_iff ⟨0, hn⟩).mp h)) (iblk9 V c 0 ⟨0, hn⟩) (iblk9 V c 1 ⟨0, hn⟩) (iblk9 V c 2 ⟨0, hn⟩))
  | n + 1, hn =>
    if h0 : (n + 1) % 10 = 0 then
      if h1 : (n + 1) % 10 = 9 then
        False.elim (by omega)
      else
        (out9_Z_3 c (grid9.coords ⟨n + 1, hn⟩) (mA9 ⟨n + 1, hn⟩) (hA9 ⟨n + 1, hn⟩) (mB9 ⟨n + 1, hn⟩) (hB9 ⟨n + 1, hn⟩) (mC9 ⟨n + 1, hn⟩) (hC9 ⟨n + 1, hn⟩) (mO9 ⟨n + 1, hn⟩) (hO9 ⟨n + 1, hn⟩) mS9 (Memref.isWhole_whole _) ((zeroC9_iff ⟨n + 1, hn⟩).mpr h0) (fun h => h1 ((flushC9_iff ⟨n + 1, hn⟩).mp h)) (iblk9 V c 0 ⟨n + 1, hn⟩) (iblk9 V c 1 ⟨n + 1, hn⟩) (iblk9 V c 2 ⟨n + 1, hn⟩), acc9_Z c (grid9.coords ⟨n + 1, hn⟩) (mA9 ⟨n + 1, hn⟩) (hA9 ⟨n + 1, hn⟩) (mB9 ⟨n + 1, hn⟩) (hB9 ⟨n + 1, hn⟩) (mC9 ⟨n + 1, hn⟩) (hC9 ⟨n + 1, hn⟩) (mO9 ⟨n + 1, hn⟩) (hO9 ⟨n + 1, hn⟩) mS9 (Memref.isWhole_whole _) ((zeroC9_iff ⟨n + 1, hn⟩).mpr h0) (fun h => h1 ((flushC9_iff ⟨n + 1, hn⟩).mp h)) (iblk9 V c 0 ⟨n + 1, hn⟩) (iblk9 V c 1 ⟨n + 1, hn⟩) (iblk9 V c 2 ⟨n + 1, hn⟩))
    else
      if h1 : (n + 1) % 10 = 9 then
        (out9_L_3 c (grid9.coords ⟨n + 1, hn⟩) (mA9 ⟨n + 1, hn⟩) (hA9 ⟨n + 1, hn⟩) (mB9 ⟨n + 1, hn⟩) (hB9 ⟨n + 1, hn⟩) (mC9 ⟨n + 1, hn⟩) (hC9 ⟨n + 1, hn⟩) (mO9 ⟨n + 1, hn⟩) (hO9 ⟨n + 1, hn⟩) mS9 (Memref.isWhole_whole _) (fun h => h0 ((zeroC9_iff ⟨n + 1, hn⟩).mp h)) ((flushC9_iff ⟨n + 1, hn⟩).mpr h1) (iblk9 V c 0 ⟨n + 1, hn⟩) (iblk9 V c 1 ⟨n + 1, hn⟩) (iblk9 V c 2 ⟨n + 1, hn⟩) (outsAt9 c n (Nat.lt_of_succ_lt hn)).2, acc9_L c (grid9.coords ⟨n + 1, hn⟩) (mA9 ⟨n + 1, hn⟩) (hA9 ⟨n + 1, hn⟩) (mB9 ⟨n + 1, hn⟩) (hB9 ⟨n + 1, hn⟩) (mC9 ⟨n + 1, hn⟩) (hC9 ⟨n + 1, hn⟩) (mO9 ⟨n + 1, hn⟩) (hO9 ⟨n + 1, hn⟩) mS9 (Memref.isWhole_whole _) (fun h => h0 ((zeroC9_iff ⟨n + 1, hn⟩).mp h)) ((flushC9_iff ⟨n + 1, hn⟩).mpr h1) (iblk9 V c 0 ⟨n + 1, hn⟩) (iblk9 V c 1 ⟨n + 1, hn⟩) (iblk9 V c 2 ⟨n + 1, hn⟩) (outsAt9 c n (Nat.lt_of_succ_lt hn)).2)
      else
        (out9_M_3 c (grid9.coords ⟨n + 1, hn⟩) (mA9 ⟨n + 1, hn⟩) (hA9 ⟨n + 1, hn⟩) (mB9 ⟨n + 1, hn⟩) (hB9 ⟨n + 1, hn⟩) (mC9 ⟨n + 1, hn⟩) (hC9 ⟨n + 1, hn⟩) (mO9 ⟨n + 1, hn⟩) (hO9 ⟨n + 1, hn⟩) mS9 (Memref.isWhole_whole _) (fun h => h0 ((zeroC9_iff ⟨n + 1, hn⟩).mp h)) (fun h => h1 ((flushC9_iff ⟨n + 1, hn⟩).mp h)) (iblk9 V c 0 ⟨n + 1, hn⟩) (iblk9 V c 1 ⟨n + 1, hn⟩) (iblk9 V c 2 ⟨n + 1, hn⟩) (outsAt9 c n (Nat.lt_of_succ_lt hn)).2, acc9_M c (grid9.coords ⟨n + 1, hn⟩) (mA9 ⟨n + 1, hn⟩) (hA9 ⟨n + 1, hn⟩) (mB9 ⟨n + 1, hn⟩) (hB9 ⟨n + 1, hn⟩) (mC9 ⟨n + 1, hn⟩) (hC9 ⟨n + 1, hn⟩) (mO9 ⟨n + 1, hn⟩) (hO9 ⟨n + 1, hn⟩) mS9 (Memref.isWhole_whole _) (fun h => h0 ((zeroC9_iff ⟨n + 1, hn⟩).mp h)) (fun h => h1 ((flushC9_iff ⟨n + 1, hn⟩).mp h)) (iblk9 V c 0 ⟨n + 1, hn⟩) (iblk9 V c 1 ⟨n + 1, hn⟩) (iblk9 V c 2 ⟨n + 1, hn⟩) (outsAt9 c n (Nat.lt_of_succ_lt hn)).2)

/-- `outsAt9` at a point with `k = 0`. -/
theorem outsAt9_Z (c : Dev nD) (t : Fin cfg9.N) (h0 : t.val % 10 = 0) (h1 : ¬t.val % 10 = 9) :
    outsAt9 V c t.val t.isLt = (out9_Z_3 c (grid9.coords t) (mA9 t) (hA9 t) (mB9 t) (hB9 t) (mC9 t) (hC9 t) (mO9 t) (hO9 t) mS9 (Memref.isWhole_whole _) ((zeroC9_iff t).mpr h0) (fun h => h1 ((flushC9_iff t).mp h)) (iblk9 V c 0 t) (iblk9 V c 1 t) (iblk9 V c 2 t), acc9_Z c (grid9.coords t) (mA9 t) (hA9 t) (mB9 t) (hB9 t) (mC9 t) (hC9 t) (mO9 t) (hO9 t) mS9 (Memref.isWhole_whole _) ((zeroC9_iff t).mpr h0) (fun h => h1 ((flushC9_iff t).mp h)) (iblk9 V c 0 t) (iblk9 V c 1 t) (iblk9 V c 2 t)) := by
  obtain ⟨n, hn⟩ := t
  cases n with
  | zero => exact rfl
  | succ n => exact (dif_pos h0).trans ((dif_neg h1).trans rfl)

/-- `outsAt9` at a point with `0 < k < 9`: over what the point before left. -/
theorem outsAt9_M (c : Dev nD) (t : Fin cfg9.N) (h0 : ¬t.val % 10 = 0) (h1 : ¬t.val % 10 = 9) :
    outsAt9 V c t.val t.isLt = (out9_M_3 c (grid9.coords t) (mA9 t) (hA9 t) (mB9 t) (hB9 t) (mC9 t) (hC9 t) (mO9 t) (hO9 t) mS9 (Memref.isWhole_whole _) (fun h => h0 ((zeroC9_iff t).mp h)) (fun h => h1 ((flushC9_iff t).mp h)) (iblk9 V c 0 t) (iblk9 V c 1 t) (iblk9 V c 2 t) (outsAt9 V c (t.val - 1) (Nat.lt_of_le_of_lt (Nat.sub_le _ _) t.isLt)).2, acc9_M c (grid9.coords t) (mA9 t) (hA9 t) (mB9 t) (hB9 t) (mC9 t) (hC9 t) (mO9 t) (hO9 t) mS9 (Memref.isWhole_whole _) (fun h => h0 ((zeroC9_iff t).mp h)) (fun h => h1 ((flushC9_iff t).mp h)) (iblk9 V c 0 t) (iblk9 V c 1 t) (iblk9 V c 2 t) (outsAt9 V c (t.val - 1) (Nat.lt_of_le_of_lt (Nat.sub_le _ _) t.isLt)).2) := by
  obtain ⟨n, hn⟩ := t
  cases n with
  | zero => exact (by exfalso; (try dsimp only at h0); exact absurd (Nat.zero_mod _) h0)
  | succ n => exact (dif_neg h0).trans ((dif_neg h1).trans rfl)

/-- `outsAt9` at a point with `k = 9`: over what the point before left. -/
theorem outsAt9_L (c : Dev nD) (t : Fin cfg9.N) (h0 : ¬t.val % 10 = 0) (h1 : t.val % 10 = 9) :
    outsAt9 V c t.val t.isLt = (out9_L_3 c (grid9.coords t) (mA9 t) (hA9 t) (mB9 t) (hB9 t) (mC9 t) (hC9 t) (mO9 t) (hO9 t) mS9 (Memref.isWhole_whole _) (fun h => h0 ((zeroC9_iff t).mp h)) ((flushC9_iff t).mpr h1) (iblk9 V c 0 t) (iblk9 V c 1 t) (iblk9 V c 2 t) (outsAt9 V c (t.val - 1) (Nat.lt_of_le_of_lt (Nat.sub_le _ _) t.isLt)).2, acc9_L c (grid9.coords t) (mA9 t) (hA9 t) (mB9 t) (hB9 t) (mC9 t) (hC9 t) (mO9 t) (hO9 t) mS9 (Memref.isWhole_whole _) (fun h => h0 ((zeroC9_iff t).mp h)) ((flushC9_iff t).mpr h1) (iblk9 V c 0 t) (iblk9 V c 1 t) (iblk9 V c 2 t) (outsAt9 V c (t.val - 1) (Nat.lt_of_le_of_lt (Nat.sub_le _ _) t.isLt)).2) := by
  obtain ⟨n, hn⟩ := t
  cases n with
  | zero => exact (by exfalso; (try dsimp only at h0); exact absurd (Nat.zero_mod _) h0)
  | succ n => exact (dif_neg h0).trans ((dif_pos h1).trans rfl)

/-! ## The invariant -/

/-- The region invariant before position `n`: before the first point the class's (the accumulator at anything);
    afterwards the accumulator at what the point before left in it, the other scoped buffers and the generator
    register as ever. -/
def PhiS9 (c : Dev nD) : (n : ℕ) → n ≤ cfg9.N → sProp 𝕄
  | 0, _ => Pipeline.ΦA spec9 c
  | n + 1, hn => iprop(iprop(owns (c : Thread nD τ) mS9 fullShare ((outsAt9 V c n hn).2) ∗ rest9 (F := F) c) ∗ (∃ r, prngReg c r))

theorem PhiS9_zero (c : Dev nD) (n : ℕ) (h : n ≤ cfg9.N) (hz : n = 0) : PhiS9 V c n h = Pipeline.ΦA spec9 c := by
  subst hz; rfl

theorem PhiS9_succ (c : Dev nD) (n : ℕ) (hn : n < cfg9.N) :
    PhiS9 V c (n + 1) hn = iprop(iprop(owns (c : Thread nD τ) mS9 fullShare ((outsAt9 V c n hn).2) ∗ rest9 (F := F) c) ∗ (∃ r, prngReg c r)) := rfl

theorem PhiS9_pos (c : Dev nD) (n : ℕ) (h : n ≤ cfg9.N) (hz : n ≠ 0) :
    PhiS9 V c n h = iprop(iprop(owns (c : Thread nD τ) mS9 fullShare ((outsAt9 V c (n - 1) (by omega)).2) ∗ rest9 (F := F) c) ∗ (∃ r, prngReg c r)) := by
  cases n with
  | zero => exact absurd rfl hz
  | succ n => rfl

/-! ## The proof data -/

/-- The proof data of region 9's pipeline on core `c`: the arrays as the region finds them; after the body at point
    `t` each input's buffer at its block and the result's at `outsAt9`'s first component; the invariant `PhiS9`;
    nothing owed; full shares. -/
def dat9 (c : Dev nD) : Dat τ (Elt F) Unit ℕ (UR sig nD τ) ℕ cfg9 c where
  A w := V c (Pipeline.arrRef spec9 w)
  after w t := match w with
    | ⟨0, _⟩ => iblk9 V c 0 t
    | ⟨1, _⟩ => iblk9 V c 1 t
    | ⟨2, _⟩ => iblk9 V c 2 t
    | ⟨3, _⟩ => (outsAt9 V c t.val t.isLt).1
  Φ t := PhiS9 V c t.val (Nat.le_of_lt_succ t.isLt)
  q _ := fullShare
  owed _ := 0

/-- The proof data's arrays are the region-entry contents (the definition projected, `V` never unfolded). -/
theorem A_eq9 (c : Dev nD) (w : Fin cfg9.W) : (dat9 V c).A w = V c (Pipeline.arrRef spec9 w) := by
  dsimp only [dat9]

/-- The invariant at a point's start, restated at `t.val`. -/
theorem PhiS9_castSucc (c : Dev nD) (t : Fin cfg9.N) :
    (dat9 V c).Φ t.castSucc = PhiS9 V c t.val (Nat.le_of_lt t.isLt) := by
  dsimp only [dat9]; simp only [Fin.coe_castSucc]

/-- What the body leaves, window by window. -/
theorem after9_0 (c : Dev nD) (t : Fin cfg9.N) : (dat9 V c).after 0 t = iblk9 V c 0 t := by dsimp only [dat9]
theorem after9_1 (c : Dev nD) (t : Fin cfg9.N) : (dat9 V c).after 1 t = iblk9 V c 1 t := by dsimp only [dat9]
theorem after9_2 (c : Dev nD) (t : Fin cfg9.N) : (dat9 V c).after 2 t = iblk9 V c 2 t := by dsimp only [dat9]
theorem after9_3 (c : Dev nD) (t : Fin cfg9.N) : (dat9 V c).after 3 t = (outsAt9 V c t.val t.isLt).1 := by dsimp only [dat9]

/-- Each input's current staging buffer holds its block at every point. -/
theorem before9_0 (c : Dev nD) (t : Fin cfg9.N) (d) : (dat9 V c).before 0 t d = iblk9 V c 0 t :=
  before9_0_of V (dat9 V c) (A_eq9 V c 0) (after9_0 V c) t d
theorem before9_1 (c : Dev nD) (t : Fin cfg9.N) (d) : (dat9 V c).before 1 t d = iblk9 V c 1 t :=
  before9_1_of V (dat9 V c) (A_eq9 V c 1) (after9_1 V c) t d
theorem before9_2 (c : Dev nD) (t : Fin cfg9.N) (d) : (dat9 V c).before 2 t d = iblk9 V c 2 t :=
  before9_2_of V (dat9 V c) (A_eq9 V c 2) (after9_2 V c) t d

/-! ## The body obligation, at a generic point -/

/-- What the body is called with at point `t`, the windows one by one, -/
def bodyPre9 (c : Dev nD) (t : Fin cfg9.N) : sProp 𝕄 :=
  iprop((dat9 V c).Φ t.castSucc ∗ (dat9 V c).owesAt () t.castSucc
    ∗ (∃ d, owns (c : Thread nD τ) (mA9 t) fullShare ((dat9 V c).before 0 t d))
    ∗ (∃ d, owns (c : Thread nD τ) (mB9 t) fullShare ((dat9 V c).before 1 t d))
    ∗ (∃ d, owns (c : Thread nD τ) (mC9 t) fullShare ((dat9 V c).before 2 t d))
    ∗ (∃ d, owns (c : Thread nD τ) (mO9 t) fullShare ((dat9 V c).before 3 t d)))

/-- and what it returns. -/
def bodyPost9 (c : Dev nD) (t : Fin cfg9.N) : sProp 𝕄 :=
  iprop((dat9 V c).Φ t.succ ∗ (dat9 V c).owesAt () t.succ
    ∗ (dat9 V c).leavesExact 0 t
    ∗ (dat9 V c).leavesExact 1 t
    ∗ (dat9 V c).leavesExact 2 t
    ∗ (dat9 V c).leavesExact 3 t)

set_option maxHeartbeats 4800000 in
/-- The body at any point. The inputs' memrefs hold their blocks; the closed forms say which control case the point is
    in, and that case's run applies. The invariant hands the body the accumulator at what the point before left (at
    anything before the first point) and takes it back at this point's contents, its stores covering it; where the
    result window is idle its buffer goes back as found, and at `k = 9` its one store covers it. The other scoped
    buffers, the generator register and what the core owes pass through. -/
theorem sound_body9 (c : Dev nD) (t : Fin cfg9.N) :
    bodyPre9 V c t ⊢ wp frame (wpE (defs₀ (F := F)) Variants.none c none) Set.univ (bodyAt9 t) (fun _ => bodyPost9 V c t) := by
  unfold bodyPre9 bodyPost9 bodyAt9
  simp only [before9_0, before9_1, before9_2]
  rw [show (dat9 V c).owesAt () t.succ = (dat9 V c).owesAt () t.castSucc from rfl]
  rw [show (dat9 V c).Φ t.succ = PhiS9 V c (t.val + 1) t.isLt from rfl, PhiS9_succ]
  rw [show (dat9 V c).leavesExact 0 t = owns (c : Thread nD τ) (mA9 t) fullShare ((dat9 V c).after 0 t) from by
    unfold Dat.leavesExact; rw [live9_0 t], after9_0]
  rw [show (dat9 V c).leavesExact 1 t = owns (c : Thread nD τ) (mB9 t) fullShare ((dat9 V c).after 1 t) from by
    unfold Dat.leavesExact; rw [live9_1 t], after9_1]
  rw [show (dat9 V c).leavesExact 2 t = owns (c : Thread nD τ) (mC9 t) fullShare ((dat9 V c).after 2 t) from by
    unfold Dat.leavesExact; rw [live9_2 t], after9_2]
  have hN : t.val < 200 := lt_of_lt_of_eq t.isLt (show cfg9.N = 200 from N_9)
  by_cases h0 : t.val % 10 = 0
  · by_cases h1 : t.val % 10 = 9
    · exfalso; omega
    · rw [Dat.leavesExact_idle (dat9 V c) 3 t (idle9_3 t (fun h => h1 ((flushC9_iff t).mp h))) (noFlush9_3 t (fun h => h1 ((flushC9_iff t).mp h)))]
      rw [outsAt9_Z V c t h0 h1]
      unfold acc9_Z; (try dsimp only)
      by_cases hz : t.val = 0
      · rw [PhiS9_castSucc V c t, PhiS9_zero V c _ _ hz, PhiA9_eq]
        iintro ⟨⟨⟨HS, Hr⟩, Hg⟩, Ho, ⟨%d0, H0⟩, ⟨%d1, H1⟩, ⟨%d2, H2⟩, ⟨%d3, H3⟩⟩
        iapply ((runZero9 c (grid9.coords t) _ _ _ _ _ _ _ _ _ _ ((zeroC9_iff t).mpr h0) (fun h => h1 ((flushC9_iff t).mp h)) (iblk9 V c 0 t) (iblk9 V c 1 t) (iblk9 V c 2 t)).2.2 _ Set.univ _)
        isplitl [H0]; · iexact H0
        isplitl [H1]; · iexact H1
        isplitl [H2]; · iexact H2
        isplitl [H3]; · iexact H3
        isplitl [HS]; · iexact HS
        iintro ⟨H0, H1, H2, H3, ⟨%es, HS⟩⟩
        isplitl [HS Hr Hg]
        · isplitl [HS Hr]
          · isplitl [HS]
            · unfold owns; iexists _; isplitr
              swap; · iexact HS
              ipureintro; exact View.read_writes_of_cover _ _ _ _ _ (scover9_Z c _ _ _ _ _ _ _ _ _ _ _ _ _ _ _ _)
            iexact Hr
          iexact Hg
        isplitl [Ho]; · iexact Ho
        isplitl [H0]; · iexact H0
        isplitl [H1]; · iexact H1
        isplitl [H2]; · iexact H2
        iexists _; iexact H3
      · rw [PhiS9_castSucc V c t, PhiS9_pos V c _ _ hz]
        iintro ⟨⟨⟨HS, Hr⟩, Hg⟩, Ho, ⟨%d0, H0⟩, ⟨%d1, H1⟩, ⟨%d2, H2⟩, ⟨%d3, H3⟩⟩
        iapply ((runZero9 c (grid9.coords t) _ _ _ _ _ _ _ _ _ _ ((zeroC9_iff t).mpr h0) (fun h => h1 ((flushC9_iff t).mp h)) (iblk9 V c 0 t) (iblk9 V c 1 t) (iblk9 V c 2 t)).2.2 _ Set.univ _)
        isplitl [H0]; · iexact H0
        isplitl [H1]; · iexact H1
        isplitl [H2]; · iexact H2
        isplitl [H3]; · iexact H3
        isplitl [HS]; · iexists _; iexact HS
        iintro ⟨H0, H1, H2, H3, ⟨%es, HS⟩⟩
        isplitl [HS Hr Hg]
        · isplitl [HS Hr]
          · isplitl [HS]
            · unfold owns; iexists _; isplitr
              swap; · iexact HS
              ipureintro; exact View.read_writes_of_cover _ _ _ _ _ (scover9_Z c _ _ _ _ _ _ _ _ _ _ _ _ _ _ _ _)
            iexact Hr
          iexact Hg
        isplitl [Ho]; · iexact Ho
        isplitl [H0]; · iexact H0
        isplitl [H1]; · iexact H1
        isplitl [H2]; · iexact H2
        iexists _; iexact H3
  · have hz : t.val ≠ 0 := fun e => h0 (by rw [e])
    by_cases h1 : t.val % 10 = 9
    · rw [show (dat9 V c).leavesExact 3 t = owns (c : Thread nD τ) (mO9 t) fullShare ((dat9 V c).after 3 t) from by
        unfold Dat.leavesExact; rw [live9_3 t ((flushC9_iff t).mpr h1)], after9_3]
      rw [outsAt9_L V c t h0 h1]
      unfold out9_L_3 acc9_L; (try dsimp only)
      rw [PhiS9_castSucc V c t, PhiS9_pos V c _ _ hz]
      iintro ⟨⟨⟨HS, Hr⟩, Hg⟩, Ho, ⟨%d0, H0⟩, ⟨%d1, H1⟩, ⟨%d2, H2⟩, ⟨%d3, H3⟩⟩
      iapply ((runLast9 c (grid9.coords t) _ _ _ _ _ _ _ _ _ _ (fun h => h0 ((zeroC9_iff t).mp h)) ((flushC9_iff t).mpr h1) (iblk9 V c 0 t) (iblk9 V c 1 t) (iblk9 V c 2 t) _).2.2 Set.univ _)
      isplitl [H0]; · iexact H0
      isplitl [H1]; · iexact H1
      isplitl [H2]; · iexact H2
      isplitl [H3]; · iexists _; iexact H3
      isplitl [HS]; · iexact HS
      iintro ⟨H0, H1, H2, ⟨%e3, H3⟩, ⟨%es, HS⟩⟩
      isplitl [HS Hr Hg]
      · isplitl [HS Hr]
        · isplitl [HS]
          · unfold owns; iexists _; isplitr
            swap; · iexact HS
            ipureintro; exact View.read_writes_of_cover _ _ _ _ _ (scover9_L c _ _ _ _ _ _ _ _ _ _ _ _ _ _ _ _ _)
          iexact Hr
        iexact Hg
      isplitl [Ho]; · iexact Ho
      isplitl [H0]; · iexact H0
      isplitl [H1]; · iexact H1
      isplitl [H2]; · iexact H2
      unfold owns; iexists _; isplitr
      swap; · iexact H3
      ipureintro; exact View.read_writes_of_cover _ _ _ _ _ (cover9_L_3 c _ _ _ _ _ _ _ _ _ _ _ _ _ _ _ _ _)
    · rw [Dat.leavesExact_idle (dat9 V c) 3 t (idle9_3 t (fun h => h1 ((flushC9_iff t).mp h))) (noFlush9_3 t (fun h => h1 ((flushC9_iff t).mp h)))]
      rw [outsAt9_M V c t h0 h1]
      unfold acc9_M; (try dsimp only)
      rw [PhiS9_castSucc V c t, PhiS9_pos V c _ _ hz]
      iintro ⟨⟨⟨HS, Hr⟩, Hg⟩, Ho, ⟨%d0, H0⟩, ⟨%d1, H1⟩, ⟨%d2, H2⟩, ⟨%d3, H3⟩⟩
      iapply ((runMid9 c (grid9.coords t) _ _ _ _ _ _ _ _ _ _ (fun h => h0 ((zeroC9_iff t).mp h)) (fun h => h1 ((flushC9_iff t).mp h)) (iblk9 V c 0 t) (iblk9 V c 1 t) (iblk9 V c 2 t) _).2.2 _ Set.univ _)
      isplitl [H0]; · iexact H0
      isplitl [H1]; · iexact H1
      isplitl [H2]; · iexact H2
      isplitl [H3]; · iexact H3
      isplitl [HS]; · iexact HS
      iintro ⟨H0, H1, H2, H3, ⟨%es, HS⟩⟩
      isplitl [HS Hr Hg]
      · isplitl [HS Hr]
        · isplitl [HS]
          · unfold owns; iexists _; isplitr
            swap; · iexact HS
            ipureintro; exact View.read_writes_of_cover _ _ _ _ _ (scover9_M c _ _ _ _ _ _ _ _ _ _ _ _ _ _ _ _ _)
          iexact Hr
        iexact Hg
      isplitl [Ho]; · iexact Ho
      isplitl [H0]; · iexact H0
      isplitl [H1]; · iexact H1
      isplitl [H2]; · iexact H2
      iexists _; iexact H3

/-- The library's body obligation, at every point. -/
theorem body_obligation9 (c : Dev nD) : BodyObligation (dat9 (F := F) V c) (defs₀ (F := F)) Variants.none () Set.univ := fun t => by
  rw [bigSep_W9, bigSep_W9]
  exact sound_body9 V c t

/-- What the launch hands the region is the invariant before the first point. -/
theorem hin9 (c : Dev nD) : Pipeline.ΦA spec9 c ⊢ (dat9 V c).Φ 0 := by
  rw [show (dat9 V c).Φ 0 = PhiS9 V c 0 (Nat.zero_le _) from rfl, PhiS9_zero V c 0 _ rfl]
  try exact Idealize.SL.BI.Entails.refl _

/-- After any point the invariant gives the class's back: the accumulator's named contents are forgotten. -/
theorem Phi_out9 (c : Dev nD) (t : Fin (cfg9.N + 1)) (ht : t.val ≠ 0) : (dat9 V c).Φ t ⊢ Pipeline.ΦA spec9 c := by
  rw [show (dat9 V c).Φ t = PhiS9 V c t.val (Nat.le_of_lt_succ t.isLt) from rfl, PhiS9_pos V c _ _ ht, PhiA9_eq]
  iintro ⟨⟨HS, Hr⟩, Hg⟩
  isplitl [HS Hr]
  · isplitl [HS]
    · iexists _; iexact HS
    iexact Hr
  iexact Hg

/-- The same after the last point. -/
theorem hout9 (c : Dev nD) : (dat9 V c).Φ (Fin.last cfg9.N) ⊢ Pipeline.ΦA spec9 c :=
  Phi_out9 V c _ (by rw [Fin.val_last]; have : cfg9.N = 200 := N_9; omega)

end Entry

end Cert.KernelIdeal.Rg

end
-- ==== Proof.KI.Reg10.lean ====
/- Stage-1 region 10 (custom_call 10): the per-region half of the frame argument, at the buffer
   contents `V` found when the region is entered. One row block of the left operand times the whole
   right operand, plus the bias row, written to the result's row block. -/
import proofs.«181230_j19834158973077_2_alg».proof.Proof.Gen.KernelIdeal.Launch
import proofs.«181230_j19834158973077_2_alg».proof.Proof.Gen.KernelIdeal.Skeleton
import proofs.«181230_j19834158973077_2_alg».proof.Proof.Gen.KernelIdeal.Points
import Idealize.ShloMosaic.Lib.Pipeline.FrameBody
import Idealize.ShloMosaic.Lib.Ring
import Idealize.ShloMosaic.Lib.Tactic

-- membership in a rectangle of full extents recurses once per coordinate of the long axes
set_option maxRecDepth 16384

noncomputable section

namespace Cert.KernelIdeal.Rg

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

-- the TensorCore's buffer contents when the region is entered
variable (V : (c : Dev nD) → (b : Ref sig .tc) → Buf (Elt F) ((c : Thread nD τ).loc b))

/-! ## The windows' blocks -/

/-- Window `w`'s block at point `t`, read off its array as the region finds it. -/
def iblk10 (c : Dev nD) (w : Fin cfg10.W) (t : Fin cfg10.N) : ((cfg10.win w).xblock (cfg10.grid.coords t)).Idx → Elt F (cfg10.win w).elt :=
  ((cfg10.win w).blk t).view.read (Elt F) (V c (Pipeline.arrRef spec10 w))

/-- Input window 0's current staging buffer holds its block at every point, fetched there or not: where it is
    not fetched the block index has not moved, and the body leaves the block in place. -/
theorem before10_0_of {c : Dev nD} (dat : Dat τ (Elt F) Unit ℕ (UR sig nD τ) ℕ cfg10 c) (hA : dat.A 0 = V c (Pipeline.arrRef spec10 0))
    (hafter : ∀ t, dat.after 0 t = iblk10 V c 0 t) (t : Fin cfg10.N) (d) : dat.before 0 t d = iblk10 V c 0 t :=
  (dat.before_in_eq_fetched 0 rfl (fun _ => rfl) (fun _ _ _ => rfl) (fun t => by rw [hafter]; unfold Dat.blockOf iblk10; rw [hA]; try rfl) t d).trans
    (by unfold Dat.fetched Dat.blockOf iblk10; rw [hA]; try rfl)

/-- Input window 1's current staging buffer holds its block at every point, fetched there or not: where it is
    not fetched the block index has not moved, and the body leaves the block in place. -/
theorem before10_1_of {c : Dev nD} (dat : Dat τ (Elt F) Unit ℕ (UR sig nD τ) ℕ cfg10 c) (hA : dat.A 1 = V c (Pipeline.arrRef spec10 1))
    (hafter : ∀ t, dat.after 1 t = iblk10 V c 1 t) (t : Fin cfg10.N) (d) : dat.before 1 t d = iblk10 V c 1 t :=
  (dat.before_in_eq_fetched 1 rfl (fun _ => rfl) (fun _ _ _ => rfl) (fun t => by rw [hafter]; unfold Dat.blockOf iblk10; rw [hA]; try rfl) t d).trans
    (by unfold Dat.fetched Dat.blockOf iblk10; rw [hA]; try rfl)

/-- Input window 2's current staging buffer holds its block at every point, fetched there or not: where it is
    not fetched the block index has not moved, and the body leaves the block in place. -/
theorem before10_2_of {c : Dev nD} (dat : Dat τ (Elt F) Unit ℕ (UR sig nD τ) ℕ cfg10 c) (hA : dat.A 2 = V c (Pipeline.arrRef spec10 2))
    (hafter : ∀ t, dat.after 2 t = iblk10 V c 2 t) (t : Fin cfg10.N) (d) : dat.before 2 t d = iblk10 V c 2 t :=
  (dat.before_in_eq_fetched 2 rfl (fun _ => rfl) (fun _ _ _ => rfl) (fun t => by rw [hafter]; unfold Dat.blockOf iblk10; rw [hA]; try rfl) t d).trans
    (by unfold Dat.fetched Dat.blockOf iblk10; rw [hA]; try rfl)

/-! ## The body's accesses: each staging buffer whole -/

abbrev r10_0 : Rect S1024x1024 := Rect.unit (s := S1024x1024) ![0, 0] S1024x1024.size inb_S1024x1024_S1024x1024_0_0
abbrev r10_1 : Rect S1024x1024 := Rect.unit (s := S1024x1024) ![0, 0] S1024x1024.size inb_S1024x1024_S1024x1024_0_0
abbrev r10_2 : Rect S1x1024 := Rect.unit (s := S1x1024) ![0, 0] S1x1024.size inb_S1x1024_S1x1024_0_0
abbrev r10_3 : Rect S1024x1024 := Rect.unit (s := S1024x1024) ![0, 0] S1024x1024.size inb_S1024x1024_S1024x1024_0_0

/-! ## What the body leaves in the result's buffer -/

/-- The result window's staging buffer after the body, from the three input blocks: its one whole-block store
    of the payload (product into a zero accumulator, plus the bias row, then the format change). -/
def out10_3 (x0 : Vec F S1024x1024 .bf16) (x1 : Vec F S1024x1024 .bf16) (x2 : Vec F S1x1024 .f32) : Vec F S1024x1024 .bf16 :=
  View.canon [⟨r10_3, k10_pay1 (View.ld x0 r10_0) (View.ld x1 r10_1) (View.ld x2 r10_2)⟩]

/-- The one store is the whole buffer, so it covers it. -/
theorem cover10_3 (p0 : Vec F S1024x1024 .bf16) (y : S1024x1024.Idx) :
    ∃ pc ∈ ([⟨r10_3, p0⟩] : List (View.Piece (Elt F) S1024x1024 .bf16)), y ∈ pc.1.set :=
  View.cover_of_tiled [⟨r10_3, p0⟩] S1024x1024.size (by rfl) y

/-! ## The body's triple -/

set_option maxHeartbeats 1000000 in
/-- The kernel body on whole staging memrefs, the inputs' at contents `x0 x1 x2` and the result's at anything, runs
    to the continuation holding the inputs' as they were and the result's at `out10_3` of the inputs'. -/
theorem sound_kernel10 (c : Dev nD) (E : Set ℕ) (i : grid10.Coords)
    (arg0 : Memref sig .tc .vmem S1024x1024 .bf16) (harg0 : arg0.IsWhole) (arg1 : Memref sig .tc .vmem S1024x1024 .bf16) (harg1 : arg1.IsWhole)
    (arg2 : Memref sig .tc .vmem S1x1024 .f32) (harg2 : arg2.IsWhole) (arg3 : Memref sig .tc .vmem S1024x1024 .bf16) (harg3 : arg3.IsWhole)
    (x0 : Vec F S1024x1024 .bf16) (x1 : Vec F S1024x1024 .bf16) (x2 : Vec F S1x1024 .f32) (K : PUnit → sProp 𝕄) :
    iprop(owns (c : Thread nD τ) arg0 fullShare x0 ∗ owns (c : Thread nD τ) arg1 fullShare x1 ∗ owns (c : Thread nD τ) arg2 fullShare x2
        ∗ (∃ d, owns (c : Thread nD τ) arg3 fullShare d)
        ∗ (iprop(owns (c : Thread nD τ) arg0 fullShare x0 ∗ owns (c : Thread nD τ) arg1 fullShare x1 ∗ owns (c : Thread nD τ) arg2 fullShare x2
            ∗ owns (c : Thread nD τ) arg3 fullShare (out10_3 x0 x1 x2)) -∗ K ⟨⟩))
      ⊢ wp frame (wpE (defs₀ (F := F)) Variants.none c none) E (cc10__stage1_kernel i arg0 harg0 arg1 harg1 arg2 harg2 arg3 harg3) K := by
  simp only [cc10__stage1_kernel_eq_skeleton]; unfold cc10__stage1_kernel_skel
  unfold owns
  iintro ⟨⟨%f0, %hf0, H0⟩, ⟨%f1, %hf1, H1⟩, ⟨%f2, %hf2, H2⟩, ⟨%d3, %f3, -, H3⟩, Hk⟩
  subst hf0 hf1 hf2
  sl_exec
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  iexists _; isplitr
  swap; · iexact H3
  ipureintro
  exact View.read_writes_eq_canon _ _ _ (cover10_3 _)

/-! ## The pipeline's proof data -/

/-- The proof data of pipeline 10 on core `c`: the arrays as the region finds them; after the body at point `t`
    each input's buffer at its block and the result's at `out10_3` of the input blocks; the invariant the scoped
    rest and the generator register, untouched; nothing owed; full shares. -/
def dat10 (c : Dev nD) : Dat τ (Elt F) Unit ℕ (UR sig nD τ) ℕ cfg10 c where
  A w := V c (Pipeline.arrRef spec10 w)
  after w t := match w with
    | ⟨0, _⟩ => iblk10 V c 0 t
    | ⟨1, _⟩ => iblk10 V c 1 t
    | ⟨2, _⟩ => iblk10 V c 2 t
    | ⟨3, _⟩ => out10_3 (iblk10 V c 0 t) (iblk10 V c 1 t) (iblk10 V c 2 t)
  Φ _ := Pipeline.ΦA spec10 c
  q _ := fullShare
  owed _ := 0

/-- The proof data's arrays are the region-entry contents. -/
theorem A_eq10 (c : Dev nD) (w : Fin cfg10.W) : (dat10 V c).A w = V c (Pipeline.arrRef spec10 w) := by
  dsimp only [dat10]

/-- What the body leaves, window by window. -/
theorem after10_0 (c : Dev nD) (t : Fin cfg10.N) : (dat10 V c).after 0 t = iblk10 V c 0 t := by dsimp only [dat10]
theorem after10_1 (c : Dev nD) (t : Fin cfg10.N) : (dat10 V c).after 1 t = iblk10 V c 1 t := by dsimp only [dat10]
theorem after10_2 (c : Dev nD) (t : Fin cfg10.N) : (dat10 V c).after 2 t = iblk10 V c 2 t := by dsimp only [dat10]
theorem after10_3 (c : Dev nD) (t : Fin cfg10.N) :
    (dat10 V c).after 3 t = out10_3 (iblk10 V c 0 t) (iblk10 V c 1 t) (iblk10 V c 2 t) := by dsimp only [dat10]

/-- Each input's current staging buffer holds its block at every point, fetched there or not. -/
theorem before10_0 (c : Dev nD) (t : Fin cfg10.N) (d) : (dat10 V c).before 0 t d = iblk10 V c 0 t :=
  before10_0_of V (dat10 V c) (A_eq10 V c 0) (after10_0 V c) t d
theorem before10_1 (c : Dev nD) (t : Fin cfg10.N) (d) : (dat10 V c).before 1 t d = iblk10 V c 1 t :=
  before10_1_of V (dat10 V c) (A_eq10 V c 1) (after10_1 V c) t d
theorem before10_2 (c : Dev nD) (t : Fin cfg10.N) (d) : (dat10 V c).before 2 t d = iblk10 V c 2 t :=
  before10_2_of V (dat10 V c) (A_eq10 V c 2) (after10_2 V c) t d

/-- The invariant is the class's at every point: entering and leaving the region are identities on it. -/
theorem hin10 (c : Dev nD) : (Pipeline.ΦA spec10 c : sProp 𝕄) ⊢ (dat10 V c).Φ 0 := by
  show (Pipeline.ΦA spec10 c : sProp 𝕄) ⊢ Pipeline.ΦA spec10 c
  exact .rfl
theorem hout10 (c : Dev nD) : (dat10 V c).Φ (Fin.last cfg10.N) ⊢ (Pipeline.ΦA spec10 c : sProp 𝕄) := by
  show (Pipeline.ΦA spec10 c : sProp 𝕄) ⊢ Pipeline.ΦA spec10 c
  exact .rfl

/-! ## The body obligation, at a generic point -/

/-- What the body is called with at point `t`, the windows one by one, -/
def bodyPre10 (c : Dev nD) (t : Fin cfg10.N) : sProp 𝕄 :=
  iprop((dat10 V c).Φ t.castSucc ∗ (dat10 V c).owesAt () t.castSucc
    ∗ (∃ d, owns (c : Thread nD τ) (st10_0 t) fullShare ((dat10 V c).before 0 t d))
    ∗ (∃ d, owns (c : Thread nD τ) (st10_1 t) fullShare ((dat10 V c).before 1 t d))
    ∗ (∃ d, owns (c : Thread nD τ) (st10_2 t) fullShare ((dat10 V c).before 2 t d))
    ∗ (∃ d, owns (c : Thread nD τ) (st10_3 t) fullShare ((dat10 V c).before 3 t d)))

/-- and what it returns. -/
def bodyPost10 (c : Dev nD) (t : Fin cfg10.N) : sProp 𝕄 :=
  iprop((dat10 V c).Φ t.succ ∗ (dat10 V c).owesAt () t.succ
    ∗ owns (c : Thread nD τ) (st10_0 t) fullShare ((dat10 V c).after 0 t)
    ∗ owns (c : Thread nD τ) (st10_1 t) fullShare ((dat10 V c).after 1 t)
    ∗ owns (c : Thread nD τ) (st10_2 t) fullShare ((dat10 V c).after 2 t)
    ∗ owns (c : Thread nD τ) (st10_3 t) fullShare ((dat10 V c).after 3 t))

/-- The body at any point: the inputs' memrefs hold their blocks, so the body's triple applies; the invariant and
    the core's debts pass through unread. -/
theorem sound_body10 (c : Dev nD) (t : Fin cfg10.N) :
    bodyPre10 V c t ⊢ wp frame (wpE (defs₀ (F := F)) Variants.none c none) Set.univ (bodyAt10 t) (fun _ => bodyPost10 V c t) := by
  unfold bodyPre10 bodyPost10 bodyAt10
  simp only [before10_0, before10_1, before10_2]
  rw [show (dat10 V c).Φ t.succ = (dat10 V c).Φ t.castSucc from rfl,
    show (dat10 V c).owesAt () t.succ = (dat10 V c).owesAt () t.castSucc from rfl,
    after10_0, after10_1, after10_2, after10_3]
  iintro ⟨HΦ, Ho, ⟨%d0, H0⟩, ⟨%d1, H1⟩, ⟨%d2, H2⟩, ⟨%d3, H3⟩⟩
  iapply (sound_kernel10 c Set.univ _ _ _ _ _ _ _ _ _ (iblk10 V c 0 t) (iblk10 V c 1 t) (iblk10 V c 2 t) _)
  isplitl [H0]; · iexact H0
  isplitl [H1]; · iexact H1
  isplitl [H2]; · iexact H2
  isplitl [H3]; · iexists _; iexact H3
  iintro ⟨H0, H1, H2, H3⟩
  isplitl [HΦ]; · iexact HΦ
  isplitl [Ho]; · iexact Ho
  isplitl [H0]; · iexact H0
  isplitl [H1]; · iexact H1
  isplitl [H2]; · iexact H2
  iexact H3

/-- The library's body obligation, at every point. -/
theorem body_obligation10 (c : Dev nD) : BodyObligation (dat10 (F := F) V c) (defs₀ (F := F)) Variants.none () Set.univ := fun t => by
  rw [bigSep_W10, bigSep_W10]
  exact sound_body10 V c t

end Cert.KernelIdeal.Rg
-- ==== Proof.KI.Reg11.lean ====
/- REGION 11: the adjacency product with a carried accumulator (grid 20 × 10, the reduction step `k = t % 10`). The f32
   accumulator [512x1024] is zeroed when `k = 0`, takes the product of the left operand's block with the right operand's
   rows `k*1024 … k*1024+1023` at every point, and when `k = 9` is read back, the bias row added, the positive part taken, the sum converted to the result's format and stored whole into the
   result's block. Stated at a parameter `V`, the TensorCore's buffer contents when the region is entered: the proof
   data `dat11`, its body obligation, and the invariant's two ends `hin11` / `hout11`; `out11_L_3` / `outsAt11` name what
   the result window holds. -/
import proofs.«181230_j19834158973077_2_alg».proof.Proof.Gen.KernelIdeal.Launch
import proofs.«181230_j19834158973077_2_alg».proof.Proof.Gen.KernelIdeal.Skeleton
import proofs.«181230_j19834158973077_2_alg».proof.Proof.Gen.KernelIdeal.Points
import Idealize.ShloMosaic.Lib.Pipeline.FrameBody
import Idealize.ShloMosaic.Lib.Ring
import Idealize.ShloMosaic.Lib.Tactic

-- membership in a rectangle of full extents recurses once per coordinate of the long axes
set_option maxRecDepth 16384

noncomputable section

namespace Cert.KernelIdeal.Rg

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

/-! # Part 1: the conditionals over the grid, the memrefs, the invariant's split, the blocks -/

/-! ## The body's two conditionals, over the grid

A grid point `t` has coordinates `(m, k)` with `k = t % 10` the reduction step. The accumulator is zeroed when
`k = 0`; the result block is written when `k = 9`. -/

/-- The first conditional's condition (`k = 0`), with the scalar chain that computes it substituted. -/
abbrev zeroC11 (i : grid11.Coords) : Prop :=
  (Scalar.cmpi .ne (Scalar.extui (Scalar.cmpi .eq (BitVec.ofNat 32 (i 1).val) 0#32)) 0#32) = 1#1
/-- It holds exactly at the points ≡ 0 (mod 10): decided over the 200 points. -/
theorem zeroC11_iff : ∀ t : Fin cfg11.N, zeroC11 (grid11.coords t) ↔ t.val % 10 = 0 :=
  (by decide +kernel : ∀ t : Fin grid11.N, zeroC11 (grid11.coords t) ↔ t.val % 10 = 0)

/-- The second conditional's condition (`k = 9`). -/
abbrev flushC11 (i : grid11.Coords) : Prop := k11_cond2 i = 1#1
/-- It holds exactly at the points ≡ 9 (mod 10). -/
theorem flushC11_iff : ∀ t : Fin cfg11.N, flushC11 (grid11.coords t) ↔ t.val % 10 = 9 :=
  (by decide +kernel : ∀ t : Fin grid11.N, flushC11 (grid11.coords t) ↔ t.val % 10 = 9)

/-! ## Where the windows are idle -/

/-- The three input windows are never idle. -/
theorem live11_0 : ∀ t : Fin cfg11.N, cfg11.idle 0 (grid11.coords t) = false := by decide +kernel
theorem live11_1 : ∀ t : Fin cfg11.N, cfg11.idle 1 (grid11.coords t) = false := by decide +kernel
theorem live11_2 : ∀ t : Fin cfg11.N, cfg11.idle 2 (grid11.coords t) = false := by decide +kernel
/-- Away from `k = 9` the result window is idle (the body stores nothing into it) -/
theorem idle11_3 : ∀ t : Fin cfg11.N, ¬flushC11 (grid11.coords t) → cfg11.idle 3 (grid11.coords t) = true := by decide +kernel
/-- and its block is not written back; -/
theorem noFlush11_3 : ∀ t : Fin cfg11.N, ¬flushC11 (grid11.coords t) → (cfg11.win 3).flush t = false := by decide +kernel
/-- at `k = 9` it is live. -/
theorem live11_3 : ∀ t : Fin cfg11.N, flushC11 (grid11.coords t) → cfg11.idle 3 (grid11.coords t) = false := by decide +kernel

/-! ## The memrefs the body is called with -/

/-- Each window's current staging memref at point `t`, and that it is a whole buffer: the left operand's block, -/
abbrev mA11 (t : Fin cfg11.N) : Memref sig .tc .vmem S512x1024 .bf16 := win11_0.stage (cfg11.slots t 0)
abbrev hA11 (t : Fin cfg11.N) : (mA11 t).IsWhole := hstage11_0 ((cfg11.slots t 0).cast nbuf11_0)
/-- the right operand, resident whole, -/
abbrev mB11 (t : Fin cfg11.N) : Memref sig .tc .vmem S10240x1024 .bf16 := win11_1.stage (cfg11.slots t 1)
abbrev hB11 (t : Fin cfg11.N) : (mB11 t).IsWhole := hstage11_1 ((cfg11.slots t 1).cast nbuf11_1)
/-- the bias row, -/
abbrev mC11 (t : Fin cfg11.N) : Memref sig .tc .vmem S1x1024 .f32 := win11_2.stage (cfg11.slots t 2)
abbrev hC11 (t : Fin cfg11.N) : (mC11 t).IsWhole := hstage11_2 ((cfg11.slots t 2).cast nbuf11_2)
/-- the result's block. -/
abbrev mO11 (t : Fin cfg11.N) : Memref sig .tc .vmem S512x1024 .bf16 := win11_3.stage (cfg11.slots t 3)
abbrev hO11 (t : Fin cfg11.N) : (mO11 t).IsWhole := hstage11_3 ((cfg11.slots t 3).cast nbuf11_3)
/-- The accumulator: a whole scoped buffer of the kernel's own, passed beside the windows and carried from point to point. -/
abbrev mS11 : Memref sig .tc .vmem S512x1024 .f32 := Memref.whole cc11_scratch0
/-- The views through which the result buffer's and the accumulator's contents are stated (one of the result's two
    staging buffers: for a covering list of stores the choice does not matter). -/
abbrev vO11 : View sig .tc .vmem S512x1024 .bf16 := (Memref.whole cc11_stg3_0 : Memref sig .tc .vmem S512x1024 .bf16).view
abbrev vS11 : View sig .tc .vmem S512x1024 .f32 := mS11.view

/-! ## The region invariant, with the accumulator split off -/

/-- Every other scoped buffer of the core that is no staging buffer of this region: carried unopened. -/
abbrev rest11 (c : Dev nD) : sProp 𝕄 :=
  Pipeline.scopedRestBut (Ix := Unit) (Name := ℕ) (U := UR sig nD τ) (Lvl := ℕ) (Val := Elt F) spec11 c [cc11_scratch0]

/-- The class's invariant is: the accumulator owned at some contents, the other scoped buffers, the generator
    register at some state. -/
theorem PhiA11_eq (c : Dev nD) :
    (Pipeline.ΦA spec11 c : sProp 𝕄)
      = iprop(iprop((∃ d, owns (c : Thread nD τ) mS11 fullShare d) ∗ rest11 (F := F) c) ∗ (∃ r, prngReg c r)) := by
  unfold Pipeline.ΦA; rw [scopedRest11_split]; simp only [mS11, owns_whole]; try rfl

section Entry
variable (V : (c : Dev nD) → (b : Ref sig .tc) → Buf (Elt F) ((c : Thread nD τ).loc b))

/-! ## The windows' blocks -/

/-- Window `w`'s block at point `t`, read off its array as the region finds it. -/
def iblk11 (c : Dev nD) (w : Fin cfg11.W) (t : Fin cfg11.N) : ((cfg11.win w).xblock (cfg11.grid.coords t)).Idx → Elt F (cfg11.win w).elt :=
  ((cfg11.win w).blk t).view.read (Elt F) (V c (Pipeline.arrRef spec11 w))

/-- An input window's current staging buffer holds its block at every point, fetched there or not (where it is not
    fetched its block index has not moved), for any proof data whose array is `V`'s and whose body leaves the block
    in place. -/
theorem before11_0_of {c : Dev nD} (dat : Dat τ (Elt F) Unit ℕ (UR sig nD τ) ℕ cfg11 c) (hA : dat.A 0 = V c (Pipeline.arrRef spec11 0))
    (hafter : ∀ t, dat.after 0 t = iblk11 V c 0 t) (t : Fin cfg11.N) (d) : dat.before 0 t d = iblk11 V c 0 t :=
  (dat.before_in_eq_fetched 0 rfl (fun _ => rfl) (fun _ _ _ => rfl) (fun t => by rw [hafter]; unfold Dat.blockOf iblk11; rw [hA]; try rfl) t d).trans
    (by unfold Dat.fetched Dat.blockOf iblk11; rw [hA]; try rfl)
theorem before11_1_of {c : Dev nD} (dat : Dat τ (Elt F) Unit ℕ (UR sig nD τ) ℕ cfg11 c) (hA : dat.A 1 = V c (Pipeline.arrRef spec11 1))
    (hafter : ∀ t, dat.after 1 t = iblk11 V c 1 t) (t : Fin cfg11.N) (d) : dat.before 1 t d = iblk11 V c 1 t :=
  (dat.before_in_eq_fetched 1 rfl (fun _ => rfl) (fun _ _ _ => rfl) (fun t => by rw [hafter]; unfold Dat.blockOf iblk11; rw [hA]; try rfl) t d).trans
    (by unfold Dat.fetched Dat.blockOf iblk11; rw [hA]; try rfl)
theorem before11_2_of {c : Dev nD} (dat : Dat τ (Elt F) Unit ℕ (UR sig nD τ) ℕ cfg11 c) (hA : dat.A 2 = V c (Pipeline.arrRef spec11 2))
    (hafter : ∀ t, dat.after 2 t = iblk11 V c 2 t) (t : Fin cfg11.N) (d) : dat.before 2 t d = iblk11 V c 2 t :=
  (dat.before_in_eq_fetched 2 rfl (fun _ => rfl) (fun _ _ _ => rfl) (fun t => by rw [hafter]; unfold Dat.blockOf iblk11; rw [hA]; try rfl) t d).trans
    (by unfold Dat.fetched Dat.blockOf iblk11; rw [hA]; try rfl)

end Entry

/-! # Part 2: the body's run in each of the three control cases -/
/-! ### The control case `k = 0`: the accumulator is stored whole with zeros, then read back, the block product added and the sum stored
   whole again; the result buffer is not touched. -/

-- (the run's proof term is large: the definition's epilogue walks it past the default budget)
set_option maxHeartbeats 1000000 in
/-- The lists of stores, last first, that the body leaves in the result buffer (`L3`) and in the accumulator (`LS`) in
    this case, TOGETHER WITH the proof that on whole memrefs — the three inputs at contents `x0 x1 x2`, the result
    buffer at contents `xi3` handed back as found, the accumulator at anything — the body runs to a
    continuation that holds the inputs as they were, the result buffer as it was and the accumulator with
    `LS` written. The two lists are found by running the body's memory operations in order over named payloads; each
    conditional is decided by the case's hypotheses. -/
noncomputable def runZero11 (c : Dev nD) (i : grid11.Coords) (arg2 : Memref sig .tc .vmem S512x1024 .bf16) (harg2 : arg2.IsWhole) (arg3 : Memref sig .tc .vmem S10240x1024 .bf16) (harg3 : arg3.IsWhole) (arg4 : Memref sig .tc .vmem S1x1024 .f32) (harg4 : arg4.IsWhole) (arg5 : Memref sig .tc .vmem S512x1024 .bf16) (harg5 : arg5.IsWhole) (arg6 : Memref sig .tc .vmem S512x1024 .f32) (harg6 : arg6.IsWhole) (hc0 : zeroC11 i) (hc1 : ¬flushC11 i)
    (x0 : Vec F S512x1024 .bf16) (x1 : Vec F S10240x1024 .bf16) (x2 : Vec F S1x1024 .f32) :
    Σ' (L3 : List (View.Piece (Elt F) S512x1024 .bf16)), { LS : List (View.Piece (Elt F) S512x1024 .f32) //
      ∀ (xi3 : Vec F S512x1024 .bf16) (E : Set ℕ) (K : PUnit → sProp 𝕄),
        iprop(owns (c : Thread nD τ) arg2 fullShare x0 ∗ owns (c : Thread nD τ) arg3 fullShare x1 ∗ owns (c : Thread nD τ) arg4 fullShare x2 ∗ owns (c : Thread nD τ) arg5 fullShare xi3 ∗ (∃ d, owns (c : Thread nD τ) arg6 fullShare d)
            ∗ (iprop(owns (c : Thread nD τ) arg2 fullShare x0 ∗ owns (c : Thread nD τ) arg3 fullShare x1 ∗ owns (c : Thread nD τ) arg4 fullShare x2 ∗ owns (c : Thread nD τ) arg5 fullShare xi3 ∗ (∃ f, arg6.view.loc (c : Thread nD τ) ↦[arg6.view.set]{fullShare} arg6.view.writes (Elt F) f LS)) -∗ K ⟨⟩))
          ⊢ wp frame (wpE (defs₀ (F := F)) Variants.none c none) E (cc11__stage2_kernel i arg2 harg2 arg3 harg3 arg4 harg4 arg5 harg5 arg6 harg6) K } := by
  refine ⟨[], ?_, fun xi3 E K => ?run⟩
  case run =>
    simp only [cc11__stage2_kernel_eq_skeleton]; unfold cc11__stage2_kernel_skel
    unfold owns
    iintro ⟨⟨%f0, %hf0, H0⟩, ⟨%f1, %hf1, H1⟩, ⟨%f2, %hf2, H2⟩, ⟨%f3, %hf3, H3⟩, ⟨%ds, %fs, -, HS⟩, Hk⟩
    obtain rfl := harg2.eq_unread hf0; obtain rfl := harg3.eq_unread hf1; obtain rfl := harg4.eq_unread hf2; obtain rfl := harg5.eq_unread hf3
    sl_exec (disch := first | exact hc0 | exact hc1)
    sl_step
    iapply Hk
    isplitl [H0]
    · iexists _; isplitr; · ipureintro; exact harg2.read_unread _
      iexact H0
    isplitl [H1]
    · iexists _; isplitr; · ipureintro; exact harg3.read_unread _
      iexact H1
    isplitl [H2]
    · iexists _; isplitr; · ipureintro; exact harg4.read_unread _
      iexact H2
    isplitl [H3]
    · iexists _; isplitr; · ipureintro; exact harg5.read_unread _
      iexact H3
    iexists _; iexact HS

/-! ### The control case `0 < k < 9`: the accumulator is read, the block product added and the sum stored whole; the result
   buffer is not touched. -/

-- (the run's proof term is large: the definition's epilogue walks it past the default budget)
set_option maxHeartbeats 1000000 in
/-- The lists of stores, last first, that the body leaves in the result buffer (`L3`) and in the accumulator (`LS`) in
    this case, TOGETHER WITH the proof that on whole memrefs — the three inputs at contents `x0 x1 x2`, the result
    buffer at contents `xi3` handed back as found, the accumulator at the contents `xs` the point before left — the body runs to a
    continuation that holds the inputs as they were, the result buffer as it was and the accumulator with
    `LS` written. The two lists are found by running the body's memory operations in order over named payloads; each
    conditional is decided by the case's hypotheses. -/
noncomputable def runMid11 (c : Dev nD) (i : grid11.Coords) (arg2 : Memref sig .tc .vmem S512x1024 .bf16) (harg2 : arg2.IsWhole) (arg3 : Memref sig .tc .vmem S10240x1024 .bf16) (harg3 : arg3.IsWhole) (arg4 : Memref sig .tc .vmem S1x1024 .f32) (harg4 : arg4.IsWhole) (arg5 : Memref sig .tc .vmem S512x1024 .bf16) (harg5 : arg5.IsWhole) (arg6 : Memref sig .tc .vmem S512x1024 .f32) (harg6 : arg6.IsWhole) (hc0 : ¬zeroC11 i) (hc1 : ¬flushC11 i)
    (x0 : Vec F S512x1024 .bf16) (x1 : Vec F S10240x1024 .bf16) (x2 : Vec F S1x1024 .f32) (xs : Vec F S512x1024 .f32) :
    Σ' (L3 : List (View.Piece (Elt F) S512x1024 .bf16)), { LS : List (View.Piece (Elt F) S512x1024 .f32) //
      ∀ (xi3 : Vec F S512x1024 .bf16) (E : Set ℕ) (K : PUnit → sProp 𝕄),
        iprop(owns (c : Thread nD τ) arg2 fullShare x0 ∗ owns (c : Thread nD τ) arg3 fullShare x1 ∗ owns (c : Thread nD τ) arg4 fullShare x2 ∗ owns (c : Thread nD τ) arg5 fullShare xi3 ∗ owns (c : Thread nD τ) arg6 fullShare xs
            ∗ (iprop(owns (c : Thread nD τ) arg2 fullShare x0 ∗ owns (c : Thread nD τ) arg3 fullShare x1 ∗ owns (c : Thread nD τ) arg4 fullShare x2 ∗ owns (c : Thread nD τ) arg5 fullShare xi3 ∗ (∃ f, arg6.view.loc (c : Thread nD τ) ↦[arg6.view.set]{fullShare} arg6.view.writes (Elt F) f LS)) -∗ K ⟨⟩))
          ⊢ wp frame (wpE (defs₀ (F := F)) Variants.none c none) E (cc11__stage2_kernel i arg2 harg2 arg3 harg3 arg4 harg4 arg5 harg5 arg6 harg6) K } := by
  refine ⟨[], ?_, fun xi3 E K => ?run⟩
  case run =>
    simp only [cc11__stage2_kernel_eq_skeleton]; unfold cc11__stage2_kernel_skel
    unfold owns
    iintro ⟨⟨%f0, %hf0, H0⟩, ⟨%f1, %hf1, H1⟩, ⟨%f2, %hf2, H2⟩, ⟨%f3, %hf3, H3⟩, ⟨%fs, %hfs, HS⟩, Hk⟩
    obtain rfl := harg2.eq_unread hf0; obtain rfl := harg3.eq_unread hf1; obtain rfl := harg4.eq_unread hf2; obtain rfl := harg5.eq_unread hf3; obtain rfl := harg6.eq_unread hfs
    sl_exec (disch := first | exact hc0 | exact hc1)
    sl_step
    iapply Hk
    isplitl [H0]
    · iexists _; isplitr; · ipureintro; exact harg2.read_unread _
      iexact H0
    isplitl [H1]
    · iexists _; isplitr; · ipureintro; exact harg3.read_unread _
      iexact H1
    isplitl [H2]
    · iexists _; isplitr; · ipureintro; exact harg4.read_unread _
      iexact H2
    isplitl [H3]
    · iexists _; isplitr; · ipureintro; exact harg5.read_unread _
      iexact H3
    iexists _; iexact HS

/-! ### The control case `k = 9`: the accumulator is read, the block product added and the sum stored whole; then the accumulator
   is read back, the bias row added, the sum converted to the result's format and stored whole into the result buffer. -/

-- (the run's proof term is large: the definition's epilogue walks it past the default budget)
set_option maxHeartbeats 1000000 in
/-- The lists of stores, last first, that the body leaves in the result buffer (`L3`) and in the accumulator (`LS`) in
    this case, TOGETHER WITH the proof that on whole memrefs — the three inputs at contents `x0 x1 x2`, the result buffer at anything, the accumulator at the contents `xs` the point before left — the body runs to a
    continuation that holds the inputs as they were, the result buffer with `L3` written and the accumulator with
    `LS` written. The two lists are found by running the body's memory operations in order over named payloads; each
    conditional is decided by the case's hypotheses. -/
noncomputable def runLast11 (c : Dev nD) (i : grid11.Coords) (arg2 : Memref sig .tc .vmem S512x1024 .bf16) (harg2 : arg2.IsWhole) (arg3 : Memref sig .tc .vmem S10240x1024 .bf16) (harg3 : arg3.IsWhole) (arg4 : Memref sig .tc .vmem S1x1024 .f32) (harg4 : arg4.IsWhole) (arg5 : Memref sig .tc .vmem S512x1024 .bf16) (harg5 : arg5.IsWhole) (arg6 : Memref sig .tc .vmem S512x1024 .f32) (harg6 : arg6.IsWhole) (hc0 : ¬zeroC11 i) (hc1 : flushC11 i)
    (x0 : Vec F S512x1024 .bf16) (x1 : Vec F S10240x1024 .bf16) (x2 : Vec F S1x1024 .f32) (xs : Vec F S512x1024 .f32) :
    Σ' (L3 : List (View.Piece (Elt F) S512x1024 .bf16)), { LS : List (View.Piece (Elt F) S512x1024 .f32) //
      ∀ (E : Set ℕ) (K : PUnit → sProp 𝕄),
        iprop(owns (c : Thread nD τ) arg2 fullShare x0 ∗ owns (c : Thread nD τ) arg3 fullShare x1 ∗ owns (c : Thread nD τ) arg4 fullShare x2 ∗ (∃ d, owns (c : Thread nD τ) arg5 fullShare d) ∗ owns (c : Thread nD τ) arg6 fullShare xs
            ∗ (iprop(owns (c : Thread nD τ) arg2 fullShare x0 ∗ owns (c : Thread nD τ) arg3 fullShare x1 ∗ owns (c : Thread nD τ) arg4 fullShare x2 ∗ (∃ f, arg5.view.loc (c : Thread nD τ) ↦[arg5.view.set]{fullShare} arg5.view.writes (Elt F) f L3) ∗ (∃ f, arg6.view.loc (c : Thread nD τ) ↦[arg6.view.set]{fullShare} arg6.view.writes (Elt F) f LS)) -∗ K ⟨⟩))
          ⊢ wp frame (wpE (defs₀ (F := F)) Variants.none c none) E (cc11__stage2_kernel i arg2 harg2 arg3 harg3 arg4 harg4 arg5 harg5 arg6 harg6) K } := by
  refine ⟨?_, ?_, fun E K => ?run⟩
  case run =>
    simp only [cc11__stage2_kernel_eq_skeleton]; unfold cc11__stage2_kernel_skel
    unfold owns
    iintro ⟨⟨%f0, %hf0, H0⟩, ⟨%f1, %hf1, H1⟩, ⟨%f2, %hf2, H2⟩, ⟨%d3, %f3, -, H3⟩, ⟨%fs, %hfs, HS⟩, Hk⟩
    obtain rfl := harg2.eq_unread hf0; obtain rfl := harg3.eq_unread hf1; obtain rfl := harg4.eq_unread hf2; obtain rfl := harg6.eq_unread hfs
    sl_exec (disch := first | exact hc0 | exact hc1)
    sl_step
    iapply Hk
    isplitl [H0]
    · iexists _; isplitr; · ipureintro; exact harg2.read_unread _
      iexact H0
    isplitl [H1]
    · iexists _; isplitr; · ipureintro; exact harg3.read_unread _
      iexact H1
    isplitl [H2]
    · iexists _; isplitr; · ipureintro; exact harg4.read_unread _
      iexact H2
    isplitl [H3]; · iexists _; iexact H3
    iexists _; iexact HS

/-! # Part 3: what each case leaves, point by point; the proof data; the body obligation; the invariant's ends -/

/-! ## What each case leaves

In the cases `k = 0` and `0 < k < 9` nothing is stored into the result buffer: its "contents" below is a placeholder
(no stores read back over junk) that nothing consults, the window being idle and not written back at those points. -/

def out11_Z_3 (c : Dev nD) (i : grid11.Coords) (arg2 : Memref sig .tc .vmem S512x1024 .bf16) (harg2 : arg2.IsWhole) (arg3 : Memref sig .tc .vmem S10240x1024 .bf16) (harg3 : arg3.IsWhole) (arg4 : Memref sig .tc .vmem S1x1024 .f32) (harg4 : arg4.IsWhole) (arg5 : Memref sig .tc .vmem S512x1024 .bf16) (harg5 : arg5.IsWhole) (arg6 : Memref sig .tc .vmem S512x1024 .f32) (harg6 : arg6.IsWhole) (hc0 : zeroC11 i) (hc1 : ¬flushC11 i)
    (x0 : Vec F S512x1024 .bf16) (x1 : Vec F S10240x1024 .bf16) (x2 : Vec F S1x1024 .f32) : Vec F S512x1024 .bf16 :=
  vO11.read (Elt F) (vO11.writes (Elt F) vO11.junk (runZero11 c i arg2 harg2 arg3 harg3 arg4 harg4 arg5 harg5 arg6 harg6 hc0 hc1 x0 x1 x2).1)

/-- At `k = 0` the accumulator's stores (the zero fill, then the first partial sum) cover it. -/
theorem scover11_Z (c : Dev nD) (i : grid11.Coords) (arg2 : Memref sig .tc .vmem S512x1024 .bf16) (harg2 : arg2.IsWhole) (arg3 : Memref sig .tc .vmem S10240x1024 .bf16) (harg3 : arg3.IsWhole) (arg4 : Memref sig .tc .vmem S1x1024 .f32) (harg4 : arg4.IsWhole) (arg5 : Memref sig .tc .vmem S512x1024 .bf16) (harg5 : arg5.IsWhole) (arg6 : Memref sig .tc .vmem S512x1024 .f32) (harg6 : arg6.IsWhole) (hc0 : zeroC11 i) (hc1 : ¬flushC11 i)
    (x0 : Vec F S512x1024 .bf16) (x1 : Vec F S10240x1024 .bf16) (x2 : Vec F S1x1024 .f32) (y : S512x1024.Idx) :
    ∃ pc ∈ (runZero11 c i arg2 harg2 arg3 harg3 arg4 harg4 arg5 harg5 arg6 harg6 hc0 hc1 x0 x1 x2).2.1, y ∈ pc.1.set :=
  View.cover_of_tiledL (runZero11 c i arg2 harg2 arg3 harg3 arg4 harg4 arg5 harg5 arg6 harg6 hc0 hc1 x0 x1 x2).2.1 S512x1024.size (by sl_kernel_rfl) y

/-- What the case `k = 0` leaves in the accumulator: its stores read back. -/
def acc11_Z (c : Dev nD) (i : grid11.Coords) (arg2 : Memref sig .tc .vmem S512x1024 .bf16) (harg2 : arg2.IsWhole) (arg3 : Memref sig .tc .vmem S10240x1024 .bf16) (harg3 : arg3.IsWhole) (arg4 : Memref sig .tc .vmem S1x1024 .f32) (harg4 : arg4.IsWhole) (arg5 : Memref sig .tc .vmem S512x1024 .bf16) (harg5 : arg5.IsWhole) (arg6 : Memref sig .tc .vmem S512x1024 .f32) (harg6 : arg6.IsWhole) (hc0 : zeroC11 i) (hc1 : ¬flushC11 i)
    (x0 : Vec F S512x1024 .bf16) (x1 : Vec F S10240x1024 .bf16) (x2 : Vec F S1x1024 .f32) : Vec F S512x1024 .f32 :=
  vS11.read (Elt F) (vS11.writes (Elt F) vS11.junk (runZero11 c i arg2 harg2 arg3 harg3 arg4 harg4 arg5 harg5 arg6 harg6 hc0 hc1 x0 x1 x2).2.1)

def out11_M_3 (c : Dev nD) (i : grid11.Coords) (arg2 : Memref sig .tc .vmem S512x1024 .bf16) (harg2 : arg2.IsWhole) (arg3 : Memref sig .tc .vmem S10240x1024 .bf16) (harg3 : arg3.IsWhole) (arg4 : Memref sig .tc .vmem S1x1024 .f32) (harg4 : arg4.IsWhole) (arg5 : Memref sig .tc .vmem S512x1024 .bf16) (harg5 : arg5.IsWhole) (arg6 : Memref sig .tc .vmem S512x1024 .f32) (harg6 : arg6.IsWhole) (hc0 : ¬zeroC11 i) (hc1 : ¬flushC11 i)
    (x0 : Vec F S512x1024 .bf16) (x1 : Vec F S10240x1024 .bf16) (x2 : Vec F S1x1024 .f32) (xs : Vec F S512x1024 .f32) : Vec F S512x1024 .bf16 :=
  vO11.read (Elt F) (vO11.writes (Elt F) vO11.junk (runMid11 c i arg2 harg2 arg3 harg3 arg4 harg4 arg5 harg5 arg6 harg6 hc0 hc1 x0 x1 x2 xs).1)

/-- For `0 < k < 9` the accumulator's one store covers it. -/
theorem scover11_M (c : Dev nD) (i : grid11.Coords) (arg2 : Memref sig .tc .vmem S512x1024 .bf16) (harg2 : arg2.IsWhole) (arg3 : Memref sig .tc .vmem S10240x1024 .bf16) (harg3 : arg3.IsWhole) (arg4 : Memref sig .tc .vmem S1x1024 .f32) (harg4 : arg4.IsWhole) (arg5 : Memref sig .tc .vmem S512x1024 .bf16) (harg5 : arg5.IsWhole) (arg6 : Memref sig .tc .vmem S512x1024 .f32) (harg6 : arg6.IsWhole) (hc0 : ¬zeroC11 i) (hc1 : ¬flushC11 i)
    (x0 : Vec F S512x1024 .bf16) (x1 : Vec F S10240x1024 .bf16) (x2 : Vec F S1x1024 .f32) (xs : Vec F S512x1024 .f32) (y : S512x1024.Idx) :
    ∃ pc ∈ (runMid11 c i arg2 harg2 arg3 harg3 arg4 harg4 arg5 harg5 arg6 harg6 hc0 hc1 x0 x1 x2 xs).2.1, y ∈ pc.1.set :=
  View.cover_of_tiledL (runMid11 c i arg2 harg2 arg3 harg3 arg4 harg4 arg5 harg5 arg6 harg6 hc0 hc1 x0 x1 x2 xs).2.1 S512x1024.size (by sl_kernel_rfl) y

/-- What the case `0 < k < 9` leaves in the accumulator, over what the point before left (`xs`). -/
def acc11_M (c : Dev nD) (i : grid11.Coords) (arg2 : Memref sig .tc .vmem S512x1024 .bf16) (harg2 : arg2.IsWhole) (arg3 : Memref sig .tc .vmem S10240x1024 .bf16) (harg3 : arg3.IsWhole) (arg4 : Memref sig .tc .vmem S1x1024 .f32) (harg4 : arg4.IsWhole) (arg5 : Memref sig .tc .vmem S512x1024 .bf16) (harg5 : arg5.IsWhole) (arg6 : Memref sig .tc .vmem S512x1024 .f32) (harg6 : arg6.IsWhole) (hc0 : ¬zeroC11 i) (hc1 : ¬flushC11 i)
    (x0 : Vec F S512x1024 .bf16) (x1 : Vec F S10240x1024 .bf16) (x2 : Vec F S1x1024 .f32) (xs : Vec F S512x1024 .f32) : Vec F S512x1024 .f32 :=
  vS11.read (Elt F) (vS11.writes (Elt F) vS11.junk (runMid11 c i arg2 harg2 arg3 harg3 arg4 harg4 arg5 harg5 arg6 harg6 hc0 hc1 x0 x1 x2 xs).2.1)

/-- At `k = 9` the one store into the result buffer covers it. -/
theorem cover11_L_3 (c : Dev nD) (i : grid11.Coords) (arg2 : Memref sig .tc .vmem S512x1024 .bf16) (harg2 : arg2.IsWhole) (arg3 : Memref sig .tc .vmem S10240x1024 .bf16) (harg3 : arg3.IsWhole) (arg4 : Memref sig .tc .vmem S1x1024 .f32) (harg4 : arg4.IsWhole) (arg5 : Memref sig .tc .vmem S512x1024 .bf16) (harg5 : arg5.IsWhole) (arg6 : Memref sig .tc .vmem S512x1024 .f32) (harg6 : arg6.IsWhole) (hc0 : ¬zeroC11 i) (hc1 : flushC11 i)
    (x0 : Vec F S512x1024 .bf16) (x1 : Vec F S10240x1024 .bf16) (x2 : Vec F S1x1024 .f32) (xs : Vec F S512x1024 .f32) (y : S512x1024.Idx) :
    ∃ pc ∈ (runLast11 c i arg2 harg2 arg3 harg3 arg4 harg4 arg5 harg5 arg6 harg6 hc0 hc1 x0 x1 x2 xs).1, y ∈ pc.1.set :=
  View.cover_of_tiledL (runLast11 c i arg2 harg2 arg3 harg3 arg4 harg4 arg5 harg5 arg6 harg6 hc0 hc1 x0 x1 x2 xs).1 S512x1024.size (by sl_kernel_rfl) y

/-- THE RESULT BLOCK: what the case `k = 9` leaves in the result buffer — the accumulated sum plus the bias row, in the
    result's format — as a term of the three input blocks and of the accumulator the point before left. -/
def out11_L_3 (c : Dev nD) (i : grid11.Coords) (arg2 : Memref sig .tc .vmem S512x1024 .bf16) (harg2 : arg2.IsWhole) (arg3 : Memref sig .tc .vmem S10240x1024 .bf16) (harg3 : arg3.IsWhole) (arg4 : Memref sig .tc .vmem S1x1024 .f32) (harg4 : arg4.IsWhole) (arg5 : Memref sig .tc .vmem S512x1024 .bf16) (harg5 : arg5.IsWhole) (arg6 : Memref sig .tc .vmem S512x1024 .f32) (harg6 : arg6.IsWhole) (hc0 : ¬zeroC11 i) (hc1 : flushC11 i)
    (x0 : Vec F S512x1024 .bf16) (x1 : Vec F S10240x1024 .bf16) (x2 : Vec F S1x1024 .f32) (xs : Vec F S512x1024 .f32) : Vec F S512x1024 .bf16 :=
  vO11.read (Elt F) (vO11.writes (Elt F) vO11.junk (runLast11 c i arg2 harg2 arg3 harg3 arg4 harg4 arg5 harg5 arg6 harg6 hc0 hc1 x0 x1 x2 xs).1)

/-- At `k = 9` the accumulator's one store covers it. -/
theorem scover11_L (c : Dev nD) (i : grid11.Coords) (arg2 : Memref sig .tc .vmem S512x1024 .bf16) (harg2 : arg2.IsWhole) (arg3 : Memref sig .tc .vmem S10240x1024 .bf16) (harg3 : arg3.IsWhole) (arg4 : Memref sig .tc .vmem S1x1024 .f32) (harg4 : arg4.IsWhole) (arg5 : Memref sig .tc .vmem S512x1024 .bf16) (harg5 : arg5.IsWhole) (arg6 : Memref sig .tc .vmem S512x1024 .f32) (harg6 : arg6.IsWhole) (hc0 : ¬zeroC11 i) (hc1 : flushC11 i)
    (x0 : Vec F S512x1024 .bf16) (x1 : Vec F S10240x1024 .bf16) (x2 : Vec F S1x1024 .f32) (xs : Vec F S512x1024 .f32) (y : S512x1024.Idx) :
    ∃ pc ∈ (runLast11 c i arg2 harg2 arg3 harg3 arg4 harg4 arg5 harg5 arg6 harg6 hc0 hc1 x0 x1 x2 xs).2.1, y ∈ pc.1.set :=
  View.cover_of_tiledL (runLast11 c i arg2 harg2 arg3 harg3 arg4 harg4 arg5 harg5 arg6 harg6 hc0 hc1 x0 x1 x2 xs).2.1 S512x1024.size (by sl_kernel_rfl) y

/-- What the case `k = 9` leaves in the accumulator. -/
def acc11_L (c : Dev nD) (i : grid11.Coords) (arg2 : Memref sig .tc .vmem S512x1024 .bf16) (harg2 : arg2.IsWhole) (arg3 : Memref sig .tc .vmem S10240x1024 .bf16) (harg3 : arg3.IsWhole) (arg4 : Memref sig .tc .vmem S1x1024 .f32) (harg4 : arg4.IsWhole) (arg5 : Memref sig .tc .vmem S512x1024 .bf16) (harg5 : arg5.IsWhole) (arg6 : Memref sig .tc .vmem S512x1024 .f32) (harg6 : arg6.IsWhole) (hc0 : ¬zeroC11 i) (hc1 : flushC11 i)
    (x0 : Vec F S512x1024 .bf16) (x1 : Vec F S10240x1024 .bf16) (x2 : Vec F S1x1024 .f32) (xs : Vec F S512x1024 .f32) : Vec F S512x1024 .f32 :=
  vS11.read (Elt F) (vS11.writes (Elt F) vS11.junk (runLast11 c i arg2 harg2 arg3 harg3 arg4 harg4 arg5 harg5 arg6 harg6 hc0 hc1 x0 x1 x2 xs).2.1)

section Entry
variable (V : (c : Dev nD) → (b : Ref sig .tc) → Buf (Elt F) ((c : Thread nD τ).loc b))

/-! ## Point by point -/

/-- THE ACCUMULATION. After the body at position `n`: (the result buffer, the accumulator). The case is the one the
    closed forms select at `n`, run on the point's memrefs and input blocks; for `k > 0` the accumulator starts from what
    position `n - 1` left in it. The two conditions cannot hold together. -/
def outsAt11 (c : Dev nD) : (n : ℕ) → n < cfg11.N → Vec F S512x1024 .bf16 × Vec F S512x1024 .f32
  | 0, hn => (out11_Z_3 c (grid11.coords ⟨0, hn⟩) (mA11 ⟨0, hn⟩) (hA11 ⟨0, hn⟩) (mB11 ⟨0, hn⟩) (hB11 ⟨0, hn⟩) (mC11 ⟨0, hn⟩) (hC11 ⟨0, hn⟩) (mO11 ⟨0, hn⟩) (hO11 ⟨0, hn⟩) mS11 (Memref.isWhole_whole _) ((zeroC11_iff ⟨0, hn⟩).mpr (Nat.zero_mod _)) (fun h => (fun h => by (try dsimp only at h); omega) ((flushC11_iff ⟨0, hn⟩).mp h)) (iblk11 V c 0 ⟨0, hn⟩) (iblk11 V c 1 ⟨0, hn⟩) (iblk11 V c 2 ⟨0, hn⟩), acc11_Z c (grid11.coords ⟨0, hn⟩) (mA11 ⟨0, hn⟩) (hA11 ⟨0, hn⟩) (mB11 ⟨0, hn⟩) (hB11 ⟨0, hn⟩) (mC11 ⟨0, hn⟩) (hC11 ⟨0, hn⟩) (mO11 ⟨0, hn⟩) (hO11 ⟨0, hn⟩) mS11 (Memref.isWhole_whole _) ((zeroC11_iff ⟨0, hn⟩).mpr (Nat.zero_mod _)) (fun h => (fun h => by (try dsimp only at h); omega) ((flushC11_iff ⟨0, hn⟩).mp h)) (iblk11 V c 0 ⟨0, hn⟩) (iblk11 V c 1 ⟨0, hn⟩) (iblk11 V c 2 ⟨0, hn⟩))
  | n + 1, hn =>
    if h0 : (n + 1) % 10 = 0 then
      if h1 : (n + 1) % 10 = 9 then
        False.elim (by omega)
      else
        (out11_Z_3 c (grid11.coords ⟨n + 1, hn⟩) (mA11 ⟨n + 1, hn⟩) (hA11 ⟨n + 1, hn⟩) (mB11 ⟨n + 1, hn⟩) (hB11 ⟨n + 1, hn⟩) (mC11 ⟨n + 1, hn⟩) (hC11 ⟨n + 1, hn⟩) (mO11 ⟨n + 1, hn⟩) (hO11 ⟨n + 1, hn⟩) mS11 (Memref.isWhole_whole _) ((zeroC11_iff ⟨n + 1, hn⟩).mpr h0) (fun h => h1 ((flushC11_iff ⟨n + 1, hn⟩).mp h)) (iblk11 V c 0 ⟨n + 1, hn⟩) (iblk11 V c 1 ⟨n + 1, hn⟩) (iblk11 V c 2 ⟨n + 1, hn⟩), acc11_Z c (grid11.coords ⟨n + 1, hn⟩) (mA11 ⟨n + 1, hn⟩) (hA11 ⟨n + 1, hn⟩) (mB11 ⟨n + 1, hn⟩) (hB11 ⟨n + 1, hn⟩) (mC11 ⟨n + 1, hn⟩) (hC11 ⟨n + 1, hn⟩) (mO11 ⟨n + 1, hn⟩) (hO11 ⟨n + 1, hn⟩) mS11 (Memref.isWhole_whole _) ((zeroC11_iff ⟨n + 1, hn⟩).mpr h0) (fun h => h1 ((flushC11_iff ⟨n + 1, hn⟩).mp h)) (iblk11 V c 0 ⟨n + 1, hn⟩) (iblk11 V c 1 ⟨n + 1, hn⟩) (iblk11 V c 2 ⟨n + 1, hn⟩))
    else
      if h1 : (n + 1) % 10 = 9 then
        (out11_L_3 c (grid11.coords ⟨n + 1, hn⟩) (mA11 ⟨n + 1, hn⟩) (hA11 ⟨n + 1, hn⟩) (mB11 ⟨n + 1, hn⟩) (hB11 ⟨n + 1, hn⟩) (mC11 ⟨n + 1, hn⟩) (hC11 ⟨n + 1, hn⟩) (mO11 ⟨n + 1, hn⟩) (hO11 ⟨n + 1, hn⟩) mS11 (Memref.isWhole_whole _) (fun h => h0 ((zeroC11_iff ⟨n + 1, hn⟩).mp h)) ((flushC11_iff ⟨n + 1, hn⟩).mpr h1) (iblk11 V c 0 ⟨n + 1, hn⟩) (iblk11 V c 1 ⟨n + 1, hn⟩) (iblk11 V c 2 ⟨n + 1, hn⟩) (outsAt11 c n (Nat.lt_of_succ_lt hn)).2, acc11_L c (grid11.coords ⟨n + 1, hn⟩) (mA11 ⟨n + 1, hn⟩) (hA11 ⟨n + 1, hn⟩) (mB11 ⟨n + 1, hn⟩) (hB11 ⟨n + 1, hn⟩) (mC11 ⟨n + 1, hn⟩) (hC11 ⟨n + 1, hn⟩) (mO11 ⟨n + 1, hn⟩) (hO11 ⟨n + 1, hn⟩) mS11 (Memref.isWhole_whole _) (fun h => h0 ((zeroC11_iff ⟨n + 1, hn⟩).mp h)) ((flushC11_iff ⟨n + 1, hn⟩).mpr h1) (iblk11 V c 0 ⟨n + 1, hn⟩) (iblk11 V c 1 ⟨n + 1, hn⟩) (iblk11 V c 2 ⟨n + 1, hn⟩) (outsAt11 c n (Nat.lt_of_succ_lt hn)).2)
      else
        (out11_M_3 c (grid11.coords ⟨n + 1, hn⟩) (mA11 ⟨n + 1, hn⟩) (hA11 ⟨n + 1, hn⟩) (mB11 ⟨n + 1, hn⟩) (hB11 ⟨n + 1, hn⟩) (mC11 ⟨n + 1, hn⟩) (hC11 ⟨n + 1, hn⟩) (mO11 ⟨n + 1, hn⟩) (hO11 ⟨n + 1, hn⟩) mS11 (Memref.isWhole_whole _) (fun h => h0 ((zeroC11_iff ⟨n + 1, hn⟩).mp h)) (fun h => h1 ((flushC11_iff ⟨n + 1, hn⟩).mp h)) (iblk11 V c 0 ⟨n + 1, hn⟩) (iblk11 V c 1 ⟨n + 1, hn⟩) (iblk11 V c 2 ⟨n + 1, hn⟩) (outsAt11 c n (Nat.lt_of_succ_lt hn)).2, acc11_M c (grid11.coords ⟨n + 1, hn⟩) (mA11 ⟨n + 1, hn⟩) (hA11 ⟨n + 1, hn⟩) (mB11 ⟨n + 1, hn⟩) (hB11 ⟨n + 1, hn⟩) (mC11 ⟨n + 1, hn⟩) (hC11 ⟨n + 1, hn⟩) (mO11 ⟨n + 1, hn⟩) (hO11 ⟨n + 1, hn⟩) mS11 (Memref.isWhole_whole _) (fun h => h0 ((zeroC11_iff ⟨n + 1, hn⟩).mp h)) (fun h => h1 ((flushC11_iff ⟨n + 1, hn⟩).mp h)) (iblk11 V c 0 ⟨n + 1, hn⟩) (iblk11 V c 1 ⟨n + 1, hn⟩) (iblk11 V c 2 ⟨n + 1, hn⟩) (outsAt11 c n (Nat.lt_of_succ_lt hn)).2)

/-- `outsAt11` at a point with `k = 0`. -/
theorem outsAt11_Z (c : Dev nD) (t : Fin cfg11.N) (h0 : t.val % 10 = 0) (h1 : ¬t.val % 10 = 9) :
    outsAt11 V c t.val t.isLt = (out11_Z_3 c (grid11.coords t) (mA11 t) (hA11 t) (mB11 t) (hB11 t) (mC11 t) (hC11 t) (mO11 t) (hO11 t) mS11 (Memref.isWhole_whole _) ((zeroC11_iff t).mpr h0) (fun h => h1 ((flushC11_iff t).mp h)) (iblk11 V c 0 t) (iblk11 V c 1 t) (iblk11 V c 2 t), acc11_Z c (grid11.coords t) (mA11 t) (hA11 t) (mB11 t) (hB11 t) (mC11 t) (hC11 t) (mO11 t) (hO11 t) mS11 (Memref.isWhole_whole _) ((zeroC11_iff t).mpr h0) (fun h => h1 ((flushC11_iff t).mp h)) (iblk11 V c 0 t) (iblk11 V c 1 t) (iblk11 V c 2 t)) := by
  obtain ⟨n, hn⟩ := t
  cases n with
  | zero => exact rfl
  | succ n => exact (dif_pos h0).trans ((dif_neg h1).trans rfl)

/-- `outsAt11` at a point with `0 < k < 9`: over what the point before left. -/
theorem outsAt11_M (c : Dev nD) (t : Fin cfg11.N) (h0 : ¬t.val % 10 = 0) (h1 : ¬t.val % 10 = 9) :
    outsAt11 V c t.val t.isLt = (out11_M_3 c (grid11.coords t) (mA11 t) (hA11 t) (mB11 t) (hB11 t) (mC11 t) (hC11 t) (mO11 t) (hO11 t) mS11 (Memref.isWhole_whole _) (fun h => h0 ((zeroC11_iff t).mp h)) (fun h => h1 ((flushC11_iff t).mp h)) (iblk11 V c 0 t) (iblk11 V c 1 t) (iblk11 V c 2 t) (outsAt11 V c (t.val - 1) (Nat.lt_of_le_of_lt (Nat.sub_le _ _) t.isLt)).2, acc11_M c (grid11.coords t) (mA11 t) (hA11 t) (mB11 t) (hB11 t) (mC11 t) (hC11 t) (mO11 t) (hO11 t) mS11 (Memref.isWhole_whole _) (fun h => h0 ((zeroC11_iff t).mp h)) (fun h => h1 ((flushC11_iff t).mp h)) (iblk11 V c 0 t) (iblk11 V c 1 t) (iblk11 V c 2 t) (outsAt11 V c (t.val - 1) (Nat.lt_of_le_of_lt (Nat.sub_le _ _) t.isLt)).2) := by
  obtain ⟨n, hn⟩ := t
  cases n with
  | zero => exact (by exfalso; (try dsimp only at h0); exact absurd (Nat.zero_mod _) h0)
  | succ n => exact (dif_neg h0).trans ((dif_neg h1).trans rfl)

/-- `outsAt11` at a point with `k = 9`: over what the point before left. -/
theorem outsAt11_L (c : Dev nD) (t : Fin cfg11.N) (h0 : ¬t.val % 10 = 0) (h1 : t.val % 10 = 9) :
    outsAt11 V c t.val t.isLt = (out11_L_3 c (grid11.coords t) (mA11 t) (hA11 t) (mB11 t) (hB11 t) (mC11 t) (hC11 t) (mO11 t) (hO11 t) mS11 (Memref.isWhole_whole _) (fun h => h0 ((zeroC11_iff t).mp h)) ((flushC11_iff t).mpr h1) (iblk11 V c 0 t) (iblk11 V c 1 t) (iblk11 V c 2 t) (outsAt11 V c (t.val - 1) (Nat.lt_of_le_of_lt (Nat.sub_le _ _) t.isLt)).2, acc11_L c (grid11.coords t) (mA11 t) (hA11 t) (mB11 t) (hB11 t) (mC11 t) (hC11 t) (mO11 t) (hO11 t) mS11 (Memref.isWhole_whole _) (fun h => h0 ((zeroC11_iff t).mp h)) ((flushC11_iff t).mpr h1) (iblk11 V c 0 t) (iblk11 V c 1 t) (iblk11 V c 2 t) (outsAt11 V c (t.val - 1) (Nat.lt_of_le_of_lt (Nat.sub_le _ _) t.isLt)).2) := by
  obtain ⟨n, hn⟩ := t
  cases n with
  | zero => exact (by exfalso; (try dsimp only at h0); exact absurd (Nat.zero_mod _) h0)
  | succ n => exact (dif_neg h0).trans ((dif_pos h1).trans rfl)

/-! ## The invariant -/

/-- The region invariant before position `n`: before the first point the class's (the accumulator at anything);
    afterwards the accumulator at what the point before left in it, the other scoped buffers and the generator
    register as ever. -/
def PhiS11 (c : Dev nD) : (n : ℕ) → n ≤ cfg11.N → sProp 𝕄
  | 0, _ => Pipeline.ΦA spec11 c
  | n + 1, hn => iprop(iprop(owns (c : Thread nD τ) mS11 fullShare ((outsAt11 V c n hn).2) ∗ rest11 (F := F) c) ∗ (∃ r, prngReg c r))

theorem PhiS11_zero (c : Dev nD) (n : ℕ) (h : n ≤ cfg11.N) (hz : n = 0) : PhiS11 V c n h = Pipeline.ΦA spec11 c := by
  subst hz; rfl

theorem PhiS11_succ (c : Dev nD) (n : ℕ) (hn : n < cfg11.N) :
    PhiS11 V c (n + 1) hn = iprop(iprop(owns (c : Thread nD τ) mS11 fullShare ((outsAt11 V c n hn).2) ∗ rest11 (F := F) c) ∗ (∃ r, prngReg c r)) := rfl

theorem PhiS11_pos (c : Dev nD) (n : ℕ) (h : n ≤ cfg11.N) (hz : n ≠ 0) :
    PhiS11 V c n h = iprop(iprop(owns (c : Thread nD τ) mS11 fullShare ((outsAt11 V c (n - 1) (by omega)).2) ∗ rest11 (F := F) c) ∗ (∃ r, prngReg c r)) := by
  cases n with
  | zero => exact absurd rfl hz
  | succ n => rfl

/-! ## The proof data -/

/-- The proof data of region 11's pipeline on core `c`: the arrays as the region finds them; after the body at point
    `t` each input's buffer at its block and the result's at `outsAt11`'s first component; the invariant `PhiS11`;
    nothing owed; full shares. -/
def dat11 (c : Dev nD) : Dat τ (Elt F) Unit ℕ (UR sig nD τ) ℕ cfg11 c where
  A w := V c (Pipeline.arrRef spec11 w)
  after w t := match w with
    | ⟨0, _⟩ => iblk11 V c 0 t
    | ⟨1, _⟩ => iblk11 V c 1 t
    | ⟨2, _⟩ => iblk11 V c 2 t
    | ⟨3, _⟩ => (outsAt11 V c t.val t.isLt).1
  Φ t := PhiS11 V c t.val (Nat.le_of_lt_succ t.isLt)
  q _ := fullShare
  owed _ := 0

/-- The proof data's arrays are the region-entry contents (the definition projected, `V` never unfolded). -/
theorem A_eq11 (c : Dev nD) (w : Fin cfg11.W) : (dat11 V c).A w = V c (Pipeline.arrRef spec11 w) := by
  dsimp only [dat11]

/-- The invariant at a point's start, restated at `t.val`. -/
theorem PhiS11_castSucc (c : Dev nD) (t : Fin cfg11.N) :
    (dat11 V c).Φ t.castSucc = PhiS11 V c t.val (Nat.le_of_lt t.isLt) := by
  dsimp only [dat11]; simp only [Fin.coe_castSucc]

/-- What the body leaves, window by window. -/
theorem after11_0 (c : Dev nD) (t : Fin cfg11.N) : (dat11 V c).after 0 t = iblk11 V c 0 t := by dsimp only [dat11]
theorem after11_1 (c : Dev nD) (t : Fin cfg11.N) : (dat11 V c).after 1 t = iblk11 V c 1 t := by dsimp only [dat11]
theorem after11_2 (c : Dev nD) (t : Fin cfg11.N) : (dat11 V c).after 2 t = iblk11 V c 2 t := by dsimp only [dat11]
theorem after11_3 (c : Dev nD) (t : Fin cfg11.N) : (dat11 V c).after 3 t = (outsAt11 V c t.val t.isLt).1 := by dsimp only [dat11]

/-- Each input's current staging buffer holds its block at every point. -/
theorem before11_0 (c : Dev nD) (t : Fin cfg11.N) (d) : (dat11 V c).before 0 t d = iblk11 V c 0 t :=
  before11_0_of V (dat11 V c) (A_eq11 V c 0) (after11_0 V c) t d
theorem before11_1 (c : Dev nD) (t : Fin cfg11.N) (d) : (dat11 V c).before 1 t d = iblk11 V c 1 t :=
  before11_1_of V (dat11 V c) (A_eq11 V c 1) (after11_1 V c) t d
theorem before11_2 (c : Dev nD) (t : Fin cfg11.N) (d) : (dat11 V c).before 2 t d = iblk11 V c 2 t :=
  before11_2_of V (dat11 V c) (A_eq11 V c 2) (after11_2 V c) t d

/-! ## The body obligation, at a generic point -/

/-- What the body is called with at point `t`, the windows one by one, -/
def bodyPre11 (c : Dev nD) (t : Fin cfg11.N) : sProp 𝕄 :=
  iprop((dat11 V c).Φ t.castSucc ∗ (dat11 V c).owesAt () t.castSucc
    ∗ (∃ d, owns (c : Thread nD τ) (mA11 t) fullShare ((dat11 V c).before 0 t d))
    ∗ (∃ d, owns (c : Thread nD τ) (mB11 t) fullShare ((dat11 V c).before 1 t d))
    ∗ (∃ d, owns (c : Thread nD τ) (mC11 t) fullShare ((dat11 V c).before 2 t d))
    ∗ (∃ d, owns (c : Thread nD τ) (mO11 t) fullShare ((dat11 V c).before 3 t d)))

/-- and what it returns. -/
def bodyPost11 (c : Dev nD) (t : Fin cfg11.N) : sProp 𝕄 :=
  iprop((dat11 V c).Φ t.succ ∗ (dat11 V c).owesAt () t.succ
    ∗ (dat11 V c).leavesExact 0 t
    ∗ (dat11 V c).leavesExact 1 t
    ∗ (dat11 V c).leavesExact 2 t
    ∗ (dat11 V c).leavesExact 3 t)

set_option maxHeartbeats 4800000 in
/-- The body at any point. The inputs' memrefs hold their blocks; the closed forms say which control case the point is
    in, and that case's run applies. The invariant hands the body the accumulator at what the point before left (at
    anything before the first point) and takes it back at this point's contents, its stores covering it; where the
    result window is idle its buffer goes back as found, and at `k = 9` its one store covers it. The other scoped
    buffers, the generator register and what the core owes pass through. -/
theorem sound_body11 (c : Dev nD) (t : Fin cfg11.N) :
    bodyPre11 V c t ⊢ wp frame (wpE (defs₀ (F := F)) Variants.none c none) Set.univ (bodyAt11 t) (fun _ => bodyPost11 V c t) := by
  unfold bodyPre11 bodyPost11 bodyAt11
  simp only [before11_0, before11_1, before11_2]
  rw [show (dat11 V c).owesAt () t.succ = (dat11 V c).owesAt () t.castSucc from rfl]
  rw [show (dat11 V c).Φ t.succ = PhiS11 V c (t.val + 1) t.isLt from rfl, PhiS11_succ]
  rw [show (dat11 V c).leavesExact 0 t = owns (c : Thread nD τ) (mA11 t) fullShare ((dat11 V c).after 0 t) from by
    unfold Dat.leavesExact; rw [live11_0 t], after11_0]
  rw [show (dat11 V c).leavesExact 1 t = owns (c : Thread nD τ) (mB11 t) fullShare ((dat11 V c).after 1 t) from by
    unfold Dat.leavesExact; rw [live11_1 t], after11_1]
  rw [show (dat11 V c).leavesExact 2 t = owns (c : Thread nD τ) (mC11 t) fullShare ((dat11 V c).after 2 t) from by
    unfold Dat.leavesExact; rw [live11_2 t], after11_2]
  have hN : t.val < 200 := lt_of_lt_of_eq t.isLt (show cfg11.N = 200 from N_11)
  by_cases h0 : t.val % 10 = 0
  · by_cases h1 : t.val % 10 = 9
    · exfalso; omega
    · rw [Dat.leavesExact_idle (dat11 V c) 3 t (idle11_3 t (fun h => h1 ((flushC11_iff t).mp h))) (noFlush11_3 t (fun h => h1 ((flushC11_iff t).mp h)))]
      rw [outsAt11_Z V c t h0 h1]
      unfold acc11_Z; (try dsimp only)
      by_cases hz : t.val = 0
      · rw [PhiS11_castSucc V c t, PhiS11_zero V c _ _ hz, PhiA11_eq]
        iintro ⟨⟨⟨HS, Hr⟩, Hg⟩, Ho, ⟨%d0, H0⟩, ⟨%d1, H1⟩, ⟨%d2, H2⟩, ⟨%d3, H3⟩⟩
        iapply ((runZero11 c (grid11.coords t) _ _ _ _ _ _ _ _ _ _ ((zeroC11_iff t).mpr h0) (fun h => h1 ((flushC11_iff t).mp h)) (iblk11 V c 0 t) (iblk11 V c 1 t) (iblk11 V c 2 t)).2.2 _ Set.univ _)
        isplitl [H0]; · iexact H0
        isplitl [H1]; · iexact H1
        isplitl [H2]; · iexact H2
        isplitl [H3]; · iexact H3
        isplitl [HS]; · iexact HS
        iintro ⟨H0, H1, H2, H3, ⟨%es, HS⟩⟩
        isplitl [HS Hr Hg]
        · isplitl [HS Hr]
          · isplitl [HS]
            · unfold owns; iexists _; isplitr
              swap; · iexact HS
              ipureintro; exact View.read_writes_of_cover _ _ _ _ _ (scover11_Z c _ _ _ _ _ _ _ _ _ _ _ _ _ _ _ _)
            iexact Hr
          iexact Hg
        isplitl [Ho]; · iexact Ho
        isplitl [H0]; · iexact H0
        isplitl [H1]; · iexact H1
        isplitl [H2]; · iexact H2
        iexists _; iexact H3
      · rw [PhiS11_castSucc V c t, PhiS11_pos V c _ _ hz]
        iintro ⟨⟨⟨HS, Hr⟩, Hg⟩, Ho, ⟨%d0, H0⟩, ⟨%d1, H1⟩, ⟨%d2, H2⟩, ⟨%d3, H3⟩⟩
        iapply ((runZero11 c (grid11.coords t) _ _ _ _ _ _ _ _ _ _ ((zeroC11_iff t).mpr h0) (fun h => h1 ((flushC11_iff t).mp h)) (iblk11 V c 0 t) (iblk11 V c 1 t) (iblk11 V c 2 t)).2.2 _ Set.univ _)
        isplitl [H0]; · iexact H0
        isplitl [H1]; · iexact H1
        isplitl [H2]; · iexact H2
        isplitl [H3]; · iexact H3
        isplitl [HS]; · iexists _; iexact HS
        iintro ⟨H0, H1, H2, H3, ⟨%es, HS⟩⟩
        isplitl [HS Hr Hg]
        · isplitl [HS Hr]
          · isplitl [HS]
            · unfold owns; iexists _; isplitr
              swap; · iexact HS
              ipureintro; exact View.read_writes_of_cover _ _ _ _ _ (scover11_Z c _ _ _ _ _ _ _ _ _ _ _ _ _ _ _ _)
            iexact Hr
          iexact Hg
        isplitl [Ho]; · iexact Ho
        isplitl [H0]; · iexact H0
        isplitl [H1]; · iexact H1
        isplitl [H2]; · iexact H2
        iexists _; iexact H3
  · have hz : t.val ≠ 0 := fun e => h0 (by rw [e])
    by_cases h1 : t.val % 10 = 9
    · rw [show (dat11 V c).leavesExact 3 t = owns (c : Thread nD τ) (mO11 t) fullShare ((dat11 V c).after 3 t) from by
        unfold Dat.leavesExact; rw [live11_3 t ((flushC11_iff t).mpr h1)], after11_3]
      rw [outsAt11_L V c t h0 h1]
      unfold out11_L_3 acc11_L; (try dsimp only)
      rw [PhiS11_castSucc V c t, PhiS11_pos V c _ _ hz]
      iintro ⟨⟨⟨HS, Hr⟩, Hg⟩, Ho, ⟨%d0, H0⟩, ⟨%d1, H1⟩, ⟨%d2, H2⟩, ⟨%d3, H3⟩⟩
      iapply ((runLast11 c (grid11.coords t) _ _ _ _ _ _ _ _ _ _ (fun h => h0 ((zeroC11_iff t).mp h)) ((flushC11_iff t).mpr h1) (iblk11 V c 0 t) (iblk11 V c 1 t) (iblk11 V c 2 t) _).2.2 Set.univ _)
      isplitl [H0]; · iexact H0
      isplitl [H1]; · iexact H1
      isplitl [H2]; · iexact H2
      isplitl [H3]; · iexists _; iexact H3
      isplitl [HS]; · iexact HS
      iintro ⟨H0, H1, H2, ⟨%e3, H3⟩, ⟨%es, HS⟩⟩
      isplitl [HS Hr Hg]
      · isplitl [HS Hr]
        · isplitl [HS]
          · unfold owns; iexists _; isplitr
            swap; · iexact HS
            ipureintro; exact View.read_writes_of_cover _ _ _ _ _ (scover11_L c _ _ _ _ _ _ _ _ _ _ _ _ _ _ _ _ _)
          iexact Hr
        iexact Hg
      isplitl [Ho]; · iexact Ho
      isplitl [H0]; · iexact H0
      isplitl [H1]; · iexact H1
      isplitl [H2]; · iexact H2
      unfold owns; iexists _; isplitr
      swap; · iexact H3
      ipureintro; exact View.read_writes_of_cover _ _ _ _ _ (cover11_L_3 c _ _ _ _ _ _ _ _ _ _ _ _ _ _ _ _ _)
    · rw [Dat.leavesExact_idle (dat11 V c) 3 t (idle11_3 t (fun h => h1 ((flushC11_iff t).mp h))) (noFlush11_3 t (fun h => h1 ((flushC11_iff t).mp h)))]
      rw [outsAt11_M V c t h0 h1]
      unfold acc11_M; (try dsimp only)
      rw [PhiS11_castSucc V c t, PhiS11_pos V c _ _ hz]
      iintro ⟨⟨⟨HS, Hr⟩, Hg⟩, Ho, ⟨%d0, H0⟩, ⟨%d1, H1⟩, ⟨%d2, H2⟩, ⟨%d3, H3⟩⟩
      iapply ((runMid11 c (grid11.coords t) _ _ _ _ _ _ _ _ _ _ (fun h => h0 ((zeroC11_iff t).mp h)) (fun h => h1 ((flushC11_iff t).mp h)) (iblk11 V c 0 t) (iblk11 V c 1 t) (iblk11 V c 2 t) _).2.2 _ Set.univ _)
      isplitl [H0]; · iexact H0
      isplitl [H1]; · iexact H1
      isplitl [H2]; · iexact H2
      isplitl [H3]; · iexact H3
      isplitl [HS]; · iexact HS
      iintro ⟨H0, H1, H2, H3, ⟨%es, HS⟩⟩
      isplitl [HS Hr Hg]
      · isplitl [HS Hr]
        · isplitl [HS]
          · unfold owns; iexists _; isplitr
            swap; · iexact HS
            ipureintro; exact View.read_writes_of_cover _ _ _ _ _ (scover11_M c _ _ _ _ _ _ _ _ _ _ _ _ _ _ _ _ _)
          iexact Hr
        iexact Hg
      isplitl [Ho]; · iexact Ho
      isplitl [H0]; · iexact H0
      isplitl [H1]; · iexact H1
      isplitl [H2]; · iexact H2
      iexists _; iexact H3

/-- The library's body obligation, at every point. -/
theorem body_obligation11 (c : Dev nD) : BodyObligation (dat11 (F := F) V c) (defs₀ (F := F)) Variants.none () Set.univ := fun t => by
  rw [bigSep_W11, bigSep_W11]
  exact sound_body11 V c t

/-- What the launch hands the region is the invariant before the first point. -/
theorem hin11 (c : Dev nD) : Pipeline.ΦA spec11 c ⊢ (dat11 V c).Φ 0 := by
  rw [show (dat11 V c).Φ 0 = PhiS11 V c 0 (Nat.zero_le _) from rfl, PhiS11_zero V c 0 _ rfl]
  try exact Idealize.SL.BI.Entails.refl _

/-- After any point the invariant gives the class's back: the accumulator's named contents are forgotten. -/
theorem Phi_out11 (c : Dev nD) (t : Fin (cfg11.N + 1)) (ht : t.val ≠ 0) : (dat11 V c).Φ t ⊢ Pipeline.ΦA spec11 c := by
  rw [show (dat11 V c).Φ t = PhiS11 V c t.val (Nat.le_of_lt_succ t.isLt) from rfl, PhiS11_pos V c _ _ ht, PhiA11_eq]
  iintro ⟨⟨HS, Hr⟩, Hg⟩
  isplitl [HS Hr]
  · isplitl [HS]
    · iexists _; iexact HS
    iexact Hr
  iexact Hg

/-- The same after the last point. -/
theorem hout11 (c : Dev nD) : (dat11 V c).Φ (Fin.last cfg11.N) ⊢ Pipeline.ΦA spec11 c :=
  Phi_out11 V c _ (by rw [Fin.val_last]; have : cfg11.N = 200 := N_11; omega)

end Entry

end Cert.KernelIdeal.Rg

end
-- ==== Proof.KI.Reg12.lean ====
/- Stage-1 region 12 (custom_call 12): the per-region half of the frame argument, at the buffer
   contents `V` found when the region is entered. One row block of the left operand times the whole
   right operand, plus the bias row, written to the result's row block. -/
import proofs.«181230_j19834158973077_2_alg».proof.Proof.Gen.KernelIdeal.Launch
import proofs.«181230_j19834158973077_2_alg».proof.Proof.Gen.KernelIdeal.Skeleton
import proofs.«181230_j19834158973077_2_alg».proof.Proof.Gen.KernelIdeal.Points
import Idealize.ShloMosaic.Lib.Pipeline.FrameBody
import Idealize.ShloMosaic.Lib.Ring
import Idealize.ShloMosaic.Lib.Tactic

-- membership in a rectangle of full extents recurses once per coordinate of the long axes
set_option maxRecDepth 16384

noncomputable section

namespace Cert.KernelIdeal.Rg

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

-- the TensorCore's buffer contents when the region is entered
variable (V : (c : Dev nD) → (b : Ref sig .tc) → Buf (Elt F) ((c : Thread nD τ).loc b))

/-! ## The windows' blocks -/

/-- Window `w`'s block at point `t`, read off its array as the region finds it. -/
def iblk12 (c : Dev nD) (w : Fin cfg12.W) (t : Fin cfg12.N) : ((cfg12.win w).xblock (cfg12.grid.coords t)).Idx → Elt F (cfg12.win w).elt :=
  ((cfg12.win w).blk t).view.read (Elt F) (V c (Pipeline.arrRef spec12 w))

/-- Input window 0's current staging buffer holds its block at every point, fetched there or not: where it is
    not fetched the block index has not moved, and the body leaves the block in place. -/
theorem before12_0_of {c : Dev nD} (dat : Dat τ (Elt F) Unit ℕ (UR sig nD τ) ℕ cfg12 c) (hA : dat.A 0 = V c (Pipeline.arrRef spec12 0))
    (hafter : ∀ t, dat.after 0 t = iblk12 V c 0 t) (t : Fin cfg12.N) (d) : dat.before 0 t d = iblk12 V c 0 t :=
  (dat.before_in_eq_fetched 0 rfl (fun _ => rfl) (fun _ _ _ => rfl) (fun t => by rw [hafter]; unfold Dat.blockOf iblk12; rw [hA]; try rfl) t d).trans
    (by unfold Dat.fetched Dat.blockOf iblk12; rw [hA]; try rfl)

/-- Input window 1's current staging buffer holds its block at every point, fetched there or not: where it is
    not fetched the block index has not moved, and the body leaves the block in place. -/
theorem before12_1_of {c : Dev nD} (dat : Dat τ (Elt F) Unit ℕ (UR sig nD τ) ℕ cfg12 c) (hA : dat.A 1 = V c (Pipeline.arrRef spec12 1))
    (hafter : ∀ t, dat.after 1 t = iblk12 V c 1 t) (t : Fin cfg12.N) (d) : dat.before 1 t d = iblk12 V c 1 t :=
  (dat.before_in_eq_fetched 1 rfl (fun _ => rfl) (fun _ _ _ => rfl) (fun t => by rw [hafter]; unfold Dat.blockOf iblk12; rw [hA]; try rfl) t d).trans
    (by unfold Dat.fetched Dat.blockOf iblk12; rw [hA]; try rfl)

/-- Input window 2's current staging buffer holds its block at every point, fetched there or not: where it is
    not fetched the block index has not moved, and the body leaves the block in place. -/
theorem before12_2_of {c : Dev nD} (dat : Dat τ (Elt F) Unit ℕ (UR sig nD τ) ℕ cfg12 c) (hA : dat.A 2 = V c (Pipeline.arrRef spec12 2))
    (hafter : ∀ t, dat.after 2 t = iblk12 V c 2 t) (t : Fin cfg12.N) (d) : dat.before 2 t d = iblk12 V c 2 t :=
  (dat.before_in_eq_fetched 2 rfl (fun _ => rfl) (fun _ _ _ => rfl) (fun t => by rw [hafter]; unfold Dat.blockOf iblk12; rw [hA]; try rfl) t d).trans
    (by unfold Dat.fetched Dat.blockOf iblk12; rw [hA]; try rfl)

/-! ## The body's accesses: each staging buffer whole -/

abbrev r12_0 : Rect S1024x1024 := Rect.unit (s := S1024x1024) ![0, 0] S1024x1024.size inb_S1024x1024_S1024x1024_0_0
abbrev r12_1 : Rect S1024x256 := Rect.unit (s := S1024x256) ![0, 0] S1024x256.size inb_S1024x256_S1024x256_0_0
abbrev r12_2 : Rect S1x256 := Rect.unit (s := S1x256) ![0, 0] S1x256.size inb_S1x256_S1x256_0_0
abbrev r12_3 : Rect S1024x256 := Rect.unit (s := S1024x256) ![0, 0] S1024x256.size inb_S1024x256_S1024x256_0_0

/-! ## What the body leaves in the result's buffer -/

/-- The result window's staging buffer after the body, from the three input blocks: its one whole-block store
    of the payload (product into a zero accumulator, plus the bias row, then the format change). -/
def out12_3 (x0 : Vec F S1024x1024 .bf16) (x1 : Vec F S1024x256 .bf16) (x2 : Vec F S1x256 .f32) : Vec F S1024x256 .bf16 :=
  View.canon [⟨r12_3, k12_pay1 (View.ld x0 r12_0) (View.ld x1 r12_1) (View.ld x2 r12_2)⟩]

/-- The one store is the whole buffer, so it covers it. -/
theorem cover12_3 (p0 : Vec F S1024x256 .bf16) (y : S1024x256.Idx) :
    ∃ pc ∈ ([⟨r12_3, p0⟩] : List (View.Piece (Elt F) S1024x256 .bf16)), y ∈ pc.1.set :=
  View.cover_of_tiled [⟨r12_3, p0⟩] S1024x256.size (by rfl) y

/-! ## The body's triple -/

set_option maxHeartbeats 1000000 in
/-- The kernel body on whole staging memrefs, the inputs' at contents `x0 x1 x2` and the result's at anything, runs
    to the continuation holding the inputs' as they were and the result's at `out12_3` of the inputs'. -/
theorem sound_kernel12 (c : Dev nD) (E : Set ℕ) (i : grid12.Coords)
    (arg0 : Memref sig .tc .vmem S1024x1024 .bf16) (harg0 : arg0.IsWhole) (arg1 : Memref sig .tc .vmem S1024x256 .bf16) (harg1 : arg1.IsWhole)
    (arg2 : Memref sig .tc .vmem S1x256 .f32) (harg2 : arg2.IsWhole) (arg3 : Memref sig .tc .vmem S1024x256 .bf16) (harg3 : arg3.IsWhole)
    (x0 : Vec F S1024x1024 .bf16) (x1 : Vec F S1024x256 .bf16) (x2 : Vec F S1x256 .f32) (K : PUnit → sProp 𝕄) :
    iprop(owns (c : Thread nD τ) arg0 fullShare x0 ∗ owns (c : Thread nD τ) arg1 fullShare x1 ∗ owns (c : Thread nD τ) arg2 fullShare x2
        ∗ (∃ d, owns (c : Thread nD τ) arg3 fullShare d)
        ∗ (iprop(owns (c : Thread nD τ) arg0 fullShare x0 ∗ owns (c : Thread nD τ) arg1 fullShare x1 ∗ owns (c : Thread nD τ) arg2 fullShare x2
            ∗ owns (c : Thread nD τ) arg3 fullShare (out12_3 x0 x1 x2)) -∗ K ⟨⟩))
      ⊢ wp frame (wpE (defs₀ (F := F)) Variants.none c none) E (cc12__stage1_kernel i arg0 harg0 arg1 harg1 arg2 harg2 arg3 harg3) K := by
  simp only [cc12__stage1_kernel_eq_skeleton]; unfold cc12__stage1_kernel_skel
  unfold owns
  iintro ⟨⟨%f0, %hf0, H0⟩, ⟨%f1, %hf1, H1⟩, ⟨%f2, %hf2, H2⟩, ⟨%d3, %f3, -, H3⟩, Hk⟩
  subst hf0 hf1 hf2
  sl_exec
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  iexists _; isplitr
  swap; · iexact H3
  ipureintro
  exact View.read_writes_eq_canon _ _ _ (cover12_3 _)

/-! ## The pipeline's proof data -/

/-- The proof data of pipeline 12 on core `c`: the arrays as the region finds them; after the body at point `t`
    each input's buffer at its block and the result's at `out12_3` of the input blocks; the invariant the scoped
    rest and the generator register, untouched; nothing owed; full shares. -/
def dat12 (c : Dev nD) : Dat τ (Elt F) Unit ℕ (UR sig nD τ) ℕ cfg12 c where
  A w := V c (Pipeline.arrRef spec12 w)
  after w t := match w with
    | ⟨0, _⟩ => iblk12 V c 0 t
    | ⟨1, _⟩ => iblk12 V c 1 t
    | ⟨2, _⟩ => iblk12 V c 2 t
    | ⟨3, _⟩ => out12_3 (iblk12 V c 0 t) (iblk12 V c 1 t) (iblk12 V c 2 t)
  Φ _ := Pipeline.ΦA spec12 c
  q _ := fullShare
  owed _ := 0

/-- The proof data's arrays are the region-entry contents. -/
theorem A_eq12 (c : Dev nD) (w : Fin cfg12.W) : (dat12 V c).A w = V c (Pipeline.arrRef spec12 w) := by
  dsimp only [dat12]

/-- What the body leaves, window by window. -/
theorem after12_0 (c : Dev nD) (t : Fin cfg12.N) : (dat12 V c).after 0 t = iblk12 V c 0 t := by dsimp only [dat12]
theorem after12_1 (c : Dev nD) (t : Fin cfg12.N) : (dat12 V c).after 1 t = iblk12 V c 1 t := by dsimp only [dat12]
theorem after12_2 (c : Dev nD) (t : Fin cfg12.N) : (dat12 V c).after 2 t = iblk12 V c 2 t := by dsimp only [dat12]
theorem after12_3 (c : Dev nD) (t : Fin cfg12.N) :
    (dat12 V c).after 3 t = out12_3 (iblk12 V c 0 t) (iblk12 V c 1 t) (iblk12 V c 2 t) := by dsimp only [dat12]

/-- Each input's current staging buffer holds its block at every point, fetched there or not. -/
theorem before12_0 (c : Dev nD) (t : Fin cfg12.N) (d) : (dat12 V c).before 0 t d = iblk12 V c 0 t :=
  before12_0_of V (dat12 V c) (A_eq12 V c 0) (after12_0 V c) t d
theorem before12_1 (c : Dev nD) (t : Fin cfg12.N) (d) : (dat12 V c).before 1 t d = iblk12 V c 1 t :=
  before12_1_of V (dat12 V c) (A_eq12 V c 1) (after12_1 V c) t d
theorem before12_2 (c : Dev nD) (t : Fin cfg12.N) (d) : (dat12 V c).before 2 t d = iblk12 V c 2 t :=
  before12_2_of V (dat12 V c) (A_eq12 V c 2) (after12_2 V c) t d

/-- The invariant is the class's at every point: entering and leaving the region are identities on it. -/
theorem hin12 (c : Dev nD) : (Pipeline.ΦA spec12 c : sProp 𝕄) ⊢ (dat12 V c).Φ 0 := by
  show (Pipeline.ΦA spec12 c : sProp 𝕄) ⊢ Pipeline.ΦA spec12 c
  exact .rfl
theorem hout12 (c : Dev nD) : (dat12 V c).Φ (Fin.last cfg12.N) ⊢ (Pipeline.ΦA spec12 c : sProp 𝕄) := by
  show (Pipeline.ΦA spec12 c : sProp 𝕄) ⊢ Pipeline.ΦA spec12 c
  exact .rfl

/-! ## The body obligation, at a generic point -/

/-- What the body is called with at point `t`, the windows one by one, -/
def bodyPre12 (c : Dev nD) (t : Fin cfg12.N) : sProp 𝕄 :=
  iprop((dat12 V c).Φ t.castSucc ∗ (dat12 V c).owesAt () t.castSucc
    ∗ (∃ d, owns (c : Thread nD τ) (st12_0 t) fullShare ((dat12 V c).before 0 t d))
    ∗ (∃ d, owns (c : Thread nD τ) (st12_1 t) fullShare ((dat12 V c).before 1 t d))
    ∗ (∃ d, owns (c : Thread nD τ) (st12_2 t) fullShare ((dat12 V c).before 2 t d))
    ∗ (∃ d, owns (c : Thread nD τ) (st12_3 t) fullShare ((dat12 V c).before 3 t d)))

/-- and what it returns. -/
def bodyPost12 (c : Dev nD) (t : Fin cfg12.N) : sProp 𝕄 :=
  iprop((dat12 V c).Φ t.succ ∗ (dat12 V c).owesAt () t.succ
    ∗ owns (c : Thread nD τ) (st12_0 t) fullShare ((dat12 V c).after 0 t)
    ∗ owns (c : Thread nD τ) (st12_1 t) fullShare ((dat12 V c).after 1 t)
    ∗ owns (c : Thread nD τ) (st12_2 t) fullShare ((dat12 V c).after 2 t)
    ∗ owns (c : Thread nD τ) (st12_3 t) fullShare ((dat12 V c).after 3 t))

/-- The body at any point: the inputs' memrefs hold their blocks, so the body's triple applies; the invariant and
    the core's debts pass through unread. -/
theorem sound_body12 (c : Dev nD) (t : Fin cfg12.N) :
    bodyPre12 V c t ⊢ wp frame (wpE (defs₀ (F := F)) Variants.none c none) Set.univ (bodyAt12 t) (fun _ => bodyPost12 V c t) := by
  unfold bodyPre12 bodyPost12 bodyAt12
  simp only [before12_0, before12_1, before12_2]
  rw [show (dat12 V c).Φ t.succ = (dat12 V c).Φ t.castSucc from rfl,
    show (dat12 V c).owesAt () t.succ = (dat12 V c).owesAt () t.castSucc from rfl,
    after12_0, after12_1, after12_2, after12_3]
  iintro ⟨HΦ, Ho, ⟨%d0, H0⟩, ⟨%d1, H1⟩, ⟨%d2, H2⟩, ⟨%d3, H3⟩⟩
  iapply (sound_kernel12 c Set.univ _ _ _ _ _ _ _ _ _ (iblk12 V c 0 t) (iblk12 V c 1 t) (iblk12 V c 2 t) _)
  isplitl [H0]; · iexact H0
  isplitl [H1]; · iexact H1
  isplitl [H2]; · iexact H2
  isplitl [H3]; · iexists _; iexact H3
  iintro ⟨H0, H1, H2, H3⟩
  isplitl [HΦ]; · iexact HΦ
  isplitl [Ho]; · iexact Ho
  isplitl [H0]; · iexact H0
  isplitl [H1]; · iexact H1
  isplitl [H2]; · iexact H2
  iexact H3

/-- The library's body obligation, at every point. -/
theorem body_obligation12 (c : Dev nD) : BodyObligation (dat12 (F := F) V c) (defs₀ (F := F)) Variants.none () Set.univ := fun t => by
  rw [bigSep_W12, bigSep_W12]
  exact sound_body12 V c t

end Cert.KernelIdeal.Rg
-- ==== Proof.KI.Reg13.lean ====
/- REGION 13: the adjacency product with a carried accumulator (grid 20 × 10, the reduction step `k = t % 10`). The f32
   accumulator [512x256] is zeroed when `k = 0`, takes the product of the left operand's block with the right operand's
   rows `k*1024 … k*1024+1023` at every point, and when `k = 9` is read back, the bias row added and stored whole into the
   result's block. Stated at a parameter `V`, the TensorCore's buffer contents when the region is entered: the proof
   data `dat13`, its body obligation, and the invariant's two ends `hin13` / `hout13`; `out13_L_3` / `outsAt13` name what
   the result window holds. -/
import proofs.«181230_j19834158973077_2_alg».proof.Proof.Gen.KernelIdeal.Launch
import proofs.«181230_j19834158973077_2_alg».proof.Proof.Gen.KernelIdeal.Skeleton
import proofs.«181230_j19834158973077_2_alg».proof.Proof.Gen.KernelIdeal.Points
import Idealize.ShloMosaic.Lib.Pipeline.FrameBody
import Idealize.ShloMosaic.Lib.Ring
import Idealize.ShloMosaic.Lib.Tactic

-- membership in a rectangle of full extents recurses once per coordinate of the long axes
set_option maxRecDepth 16384

noncomputable section

namespace Cert.KernelIdeal.Rg

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

/-! # Part 1: the conditionals over the grid, the memrefs, the invariant's split, the blocks -/

/-! ## The body's two conditionals, over the grid

A grid point `t` has coordinates `(m, k)` with `k = t % 10` the reduction step. The accumulator is zeroed when
`k = 0`; the result block is written when `k = 9`. -/

/-- The first conditional's condition (`k = 0`), with the scalar chain that computes it substituted. -/
abbrev zeroC13 (i : grid13.Coords) : Prop :=
  (Scalar.cmpi .ne (Scalar.extui (Scalar.cmpi .eq (BitVec.ofNat 32 (i 1).val) 0#32)) 0#32) = 1#1
/-- It holds exactly at the points ≡ 0 (mod 10): decided over the 200 points. -/
theorem zeroC13_iff : ∀ t : Fin cfg13.N, zeroC13 (grid13.coords t) ↔ t.val % 10 = 0 :=
  (by decide +kernel : ∀ t : Fin grid13.N, zeroC13 (grid13.coords t) ↔ t.val % 10 = 0)

/-- The second conditional's condition (`k = 9`). -/
abbrev flushC13 (i : grid13.Coords) : Prop := k13_cond2 i = 1#1
/-- It holds exactly at the points ≡ 9 (mod 10). -/
theorem flushC13_iff : ∀ t : Fin cfg13.N, flushC13 (grid13.coords t) ↔ t.val % 10 = 9 :=
  (by decide +kernel : ∀ t : Fin grid13.N, flushC13 (grid13.coords t) ↔ t.val % 10 = 9)

/-! ## Where the windows are idle -/

/-- The three input windows are never idle. -/
theorem live13_0 : ∀ t : Fin cfg13.N, cfg13.idle 0 (grid13.coords t) = false := by decide +kernel
theorem live13_1 : ∀ t : Fin cfg13.N, cfg13.idle 1 (grid13.coords t) = false := by decide +kernel
theorem live13_2 : ∀ t : Fin cfg13.N, cfg13.idle 2 (grid13.coords t) = false := by decide +kernel
/-- Away from `k = 9` the result window is idle (the body stores nothing into it) -/
theorem idle13_3 : ∀ t : Fin cfg13.N, ¬flushC13 (grid13.coords t) → cfg13.idle 3 (grid13.coords t) = true := by decide +kernel
/-- and its block is not written back; -/
theorem noFlush13_3 : ∀ t : Fin cfg13.N, ¬flushC13 (grid13.coords t) → (cfg13.win 3).flush t = false := by decide +kernel
/-- at `k = 9` it is live. -/
theorem live13_3 : ∀ t : Fin cfg13.N, flushC13 (grid13.coords t) → cfg13.idle 3 (grid13.coords t) = false := by decide +kernel

/-! ## The memrefs the body is called with -/

/-- Each window's current staging memref at point `t`, and that it is a whole buffer: the left operand's block, -/
abbrev mA13 (t : Fin cfg13.N) : Memref sig .tc .vmem S512x1024 .bf16 := win13_0.stage (cfg13.slots t 0)
abbrev hA13 (t : Fin cfg13.N) : (mA13 t).IsWhole := hstage13_0 ((cfg13.slots t 0).cast nbuf13_0)
/-- the right operand, resident whole, -/
abbrev mB13 (t : Fin cfg13.N) : Memref sig .tc .vmem S10240x256 .bf16 := win13_1.stage (cfg13.slots t 1)
abbrev hB13 (t : Fin cfg13.N) : (mB13 t).IsWhole := hstage13_1 ((cfg13.slots t 1).cast nbuf13_1)
/-- the bias row, -/
abbrev mC13 (t : Fin cfg13.N) : Memref sig .tc .vmem S1x256 .f32 := win13_2.stage (cfg13.slots t 2)
abbrev hC13 (t : Fin cfg13.N) : (mC13 t).IsWhole := hstage13_2 ((cfg13.slots t 2).cast nbuf13_2)
/-- the result's block. -/
abbrev mO13 (t : Fin cfg13.N) : Memref sig .tc .vmem S512x256 .f32 := win13_3.stage (cfg13.slots t 3)
abbrev hO13 (t : Fin cfg13.N) : (mO13 t).IsWhole := hstage13_3 ((cfg13.slots t 3).cast nbuf13_3)
/-- The accumulator: a whole scoped buffer of the kernel's own, passed beside the windows and carried from point to point. -/
abbrev mS13 : Memref sig .tc .vmem S512x256 .f32 := Memref.whole cc13_scratch0
/-- The views through which the result buffer's and the accumulator's contents are stated (one of the result's two
    staging buffers: for a covering list of stores the choice does not matter). -/
abbrev vO13 : View sig .tc .vmem S512x256 .f32 := (Memref.whole cc13_stg3_0 : Memref sig .tc .vmem S512x256 .f32).view
abbrev vS13 : View sig .tc .vmem S512x256 .f32 := mS13.view

/-! ## The region invariant, with the accumulator split off -/

/-- Every other scoped buffer of the core that is no staging buffer of this region: carried unopened. -/
abbrev rest13 (c : Dev nD) : sProp 𝕄 :=
  Pipeline.scopedRestBut (Ix := Unit) (Name := ℕ) (U := UR sig nD τ) (Lvl := ℕ) (Val := Elt F) spec13 c [cc13_scratch0]

/-- The class's invariant is: the accumulator owned at some contents, the other scoped buffers, the generator
    register at some state. -/
theorem PhiA13_eq (c : Dev nD) :
    (Pipeline.ΦA spec13 c : sProp 𝕄)
      = iprop(iprop((∃ d, owns (c : Thread nD τ) mS13 fullShare d) ∗ rest13 (F := F) c) ∗ (∃ r, prngReg c r)) := by
  unfold Pipeline.ΦA; rw [scopedRest13_split]; simp only [mS13, owns_whole]; try rfl

section Entry
variable (V : (c : Dev nD) → (b : Ref sig .tc) → Buf (Elt F) ((c : Thread nD τ).loc b))

/-! ## The windows' blocks -/

/-- Window `w`'s block at point `t`, read off its array as the region finds it. -/
def iblk13 (c : Dev nD) (w : Fin cfg13.W) (t : Fin cfg13.N) : ((cfg13.win w).xblock (cfg13.grid.coords t)).Idx → Elt F (cfg13.win w).elt :=
  ((cfg13.win w).blk t).view.read (Elt F) (V c (Pipeline.arrRef spec13 w))

/-- An input window's current staging buffer holds its block at every point, fetched there or not (where it is not
    fetched its block index has not moved), for any proof data whose array is `V`'s and whose body leaves the block
    in place. -/
theorem before13_0_of {c : Dev nD} (dat : Dat τ (Elt F) Unit ℕ (UR sig nD τ) ℕ cfg13 c) (hA : dat.A 0 = V c (Pipeline.arrRef spec13 0))
    (hafter : ∀ t, dat.after 0 t = iblk13 V c 0 t) (t : Fin cfg13.N) (d) : dat.before 0 t d = iblk13 V c 0 t :=
  (dat.before_in_eq_fetched 0 rfl (fun _ => rfl) (fun _ _ _ => rfl) (fun t => by rw [hafter]; unfold Dat.blockOf iblk13; rw [hA]; try rfl) t d).trans
    (by unfold Dat.fetched Dat.blockOf iblk13; rw [hA]; try rfl)
theorem before13_1_of {c : Dev nD} (dat : Dat τ (Elt F) Unit ℕ (UR sig nD τ) ℕ cfg13 c) (hA : dat.A 1 = V c (Pipeline.arrRef spec13 1))
    (hafter : ∀ t, dat.after 1 t = iblk13 V c 1 t) (t : Fin cfg13.N) (d) : dat.before 1 t d = iblk13 V c 1 t :=
  (dat.before_in_eq_fetched 1 rfl (fun _ => rfl) (fun _ _ _ => rfl) (fun t => by rw [hafter]; unfold Dat.blockOf iblk13; rw [hA]; try rfl) t d).trans
    (by unfold Dat.fetched Dat.blockOf iblk13; rw [hA]; try rfl)
theorem before13_2_of {c : Dev nD} (dat : Dat τ (Elt F) Unit ℕ (UR sig nD τ) ℕ cfg13 c) (hA : dat.A 2 = V c (Pipeline.arrRef spec13 2))
    (hafter : ∀ t, dat.after 2 t = iblk13 V c 2 t) (t : Fin cfg13.N) (d) : dat.before 2 t d = iblk13 V c 2 t :=
  (dat.before_in_eq_fetched 2 rfl (fun _ => rfl) (fun _ _ _ => rfl) (fun t => by rw [hafter]; unfold Dat.blockOf iblk13; rw [hA]; try rfl) t d).trans
    (by unfold Dat.fetched Dat.blockOf iblk13; rw [hA]; try rfl)

end Entry

/-! # Part 2: the body's run in each of the three control cases -/
/-! ### The control case `k = 0`: the accumulator is stored whole with zeros, then read back, the block product added and the sum stored
   whole again; the result buffer is not touched. -/

-- (the run's proof term is large: the definition's epilogue walks it past the default budget)
set_option maxHeartbeats 1000000 in
/-- The lists of stores, last first, that the body leaves in the result buffer (`L3`) and in the accumulator (`LS`) in
    this case, TOGETHER WITH the proof that on whole memrefs — the three inputs at contents `x0 x1 x2`, the result
    buffer at contents `xi3` handed back as found, the accumulator at anything — the body runs to a
    continuation that holds the inputs as they were, the result buffer as it was and the accumulator with
    `LS` written. The two lists are found by running the body's memory operations in order over named payloads; each
    conditional is decided by the case's hypotheses. -/
noncomputable def runZero13 (c : Dev nD) (i : grid13.Coords) (arg2 : Memref sig .tc .vmem S512x1024 .bf16) (harg2 : arg2.IsWhole) (arg3 : Memref sig .tc .vmem S10240x256 .bf16) (harg3 : arg3.IsWhole) (arg4 : Memref sig .tc .vmem S1x256 .f32) (harg4 : arg4.IsWhole) (arg5 : Memref sig .tc .vmem S512x256 .f32) (harg5 : arg5.IsWhole) (arg6 : Memref sig .tc .vmem S512x256 .f32) (harg6 : arg6.IsWhole) (hc0 : zeroC13 i) (hc1 : ¬flushC13 i)
    (x0 : Vec F S512x1024 .bf16) (x1 : Vec F S10240x256 .bf16) (x2 : Vec F S1x256 .f32) :
    Σ' (L3 : List (View.Piece (Elt F) S512x256 .f32)), { LS : List (View.Piece (Elt F) S512x256 .f32) //
      ∀ (xi3 : Vec F S512x256 .f32) (E : Set ℕ) (K : PUnit → sProp 𝕄),
        iprop(owns (c : Thread nD τ) arg2 fullShare x0 ∗ owns (c : Thread nD τ) arg3 fullShare x1 ∗ owns (c : Thread nD τ) arg4 fullShare x2 ∗ owns (c : Thread nD τ) arg5 fullShare xi3 ∗ (∃ d, owns (c : Thread nD τ) arg6 fullShare d)
            ∗ (iprop(owns (c : Thread nD τ) arg2 fullShare x0 ∗ owns (c : Thread nD τ) arg3 fullShare x1 ∗ owns (c : Thread nD τ) arg4 fullShare x2 ∗ owns (c : Thread nD τ) arg5 fullShare xi3 ∗ (∃ f, arg6.view.loc (c : Thread nD τ) ↦[arg6.view.set]{fullShare} arg6.view.writes (Elt F) f LS)) -∗ K ⟨⟩))
          ⊢ wp frame (wpE (defs₀ (F := F)) Variants.none c none) E (cc13__stage2_kernel i arg2 harg2 arg3 harg3 arg4 harg4 arg5 harg5 arg6 harg6) K } := by
  refine ⟨[], ?_, fun xi3 E K => ?run⟩
  case run =>
    simp only [cc13__stage2_kernel_eq_skeleton]; unfold cc13__stage2_kernel_skel
    unfold owns
    iintro ⟨⟨%f0, %hf0, H0⟩, ⟨%f1, %hf1, H1⟩, ⟨%f2, %hf2, H2⟩, ⟨%f3, %hf3, H3⟩, ⟨%ds, %fs, -, HS⟩, Hk⟩
    obtain rfl := harg2.eq_unread hf0; obtain rfl := harg3.eq_unread hf1; obtain rfl := harg4.eq_unread hf2; obtain rfl := harg5.eq_unread hf3
    sl_exec (disch := first | exact hc0 | exact hc1)
    sl_step
    iapply Hk
    isplitl [H0]
    · iexists _; isplitr; · ipureintro; exact harg2.read_unread _
      iexact H0
    isplitl [H1]
    · iexists _; isplitr; · ipureintro; exact harg3.read_unread _
      iexact H1
    isplitl [H2]
    · iexists _; isplitr; · ipureintro; exact harg4.read_unread _
      iexact H2
    isplitl [H3]
    · iexists _; isplitr; · ipureintro; exact harg5.read_unread _
      iexact H3
    iexists _; iexact HS

/-! ### The control case `0 < k < 9`: the accumulator is read, the block product added and the sum stored whole; the result
   buffer is not touched. -/

-- (the run's proof term is large: the definition's epilogue walks it past the default budget)
set_option maxHeartbeats 1000000 in
/-- The lists of stores, last first, that the body leaves in the result buffer (`L3`) and in the accumulator (`LS`) in
    this case, TOGETHER WITH the proof that on whole memrefs — the three inputs at contents `x0 x1 x2`, the result
    buffer at contents `xi3` handed back as found, the accumulator at the contents `xs` the point before left — the body runs to a
    continuation that holds the inputs as they were, the result buffer as it was and the accumulator with
    `LS` written. The two lists are found by running the body's memory operations in order over named payloads; each
    conditional is decided by the case's hypotheses. -/
noncomputable def runMid13 (c : Dev nD) (i : grid13.Coords) (arg2 : Memref sig .tc .vmem S512x1024 .bf16) (harg2 : arg2.IsWhole) (arg3 : Memref sig .tc .vmem S10240x256 .bf16) (harg3 : arg3.IsWhole) (arg4 : Memref sig .tc .vmem S1x256 .f32) (harg4 : arg4.IsWhole) (arg5 : Memref sig .tc .vmem S512x256 .f32) (harg5 : arg5.IsWhole) (arg6 : Memref sig .tc .vmem S512x256 .f32) (harg6 : arg6.IsWhole) (hc0 : ¬zeroC13 i) (hc1 : ¬flushC13 i)
    (x0 : Vec F S512x1024 .bf16) (x1 : Vec F S10240x256 .bf16) (x2 : Vec F S1x256 .f32) (xs : Vec F S512x256 .f32) :
    Σ' (L3 : List (View.Piece (Elt F) S512x256 .f32)), { LS : List (View.Piece (Elt F) S512x256 .f32) //
      ∀ (xi3 : Vec F S512x256 .f32) (E : Set ℕ) (K : PUnit → sProp 𝕄),
        iprop(owns (c : Thread nD τ) arg2 fullShare x0 ∗ owns (c : Thread nD τ) arg3 fullShare x1 ∗ owns (c : Thread nD τ) arg4 fullShare x2 ∗ owns (c : Thread nD τ) arg5 fullShare xi3 ∗ owns (c : Thread nD τ) arg6 fullShare xs
            ∗ (iprop(owns (c : Thread nD τ) arg2 fullShare x0 ∗ owns (c : Thread nD τ) arg3 fullShare x1 ∗ owns (c : Thread nD τ) arg4 fullShare x2 ∗ owns (c : Thread nD τ) arg5 fullShare xi3 ∗ (∃ f, arg6.view.loc (c : Thread nD τ) ↦[arg6.view.set]{fullShare} arg6.view.writes (Elt F) f LS)) -∗ K ⟨⟩))
          ⊢ wp frame (wpE (defs₀ (F := F)) Variants.none c none) E (cc13__stage2_kernel i arg2 harg2 arg3 harg3 arg4 harg4 arg5 harg5 arg6 harg6) K } := by
  refine ⟨[], ?_, fun xi3 E K => ?run⟩
  case run =>
    simp only [cc13__stage2_kernel_eq_skeleton]; unfold cc13__stage2_kernel_skel
    unfold owns
    iintro ⟨⟨%f0, %hf0, H0⟩, ⟨%f1, %hf1, H1⟩, ⟨%f2, %hf2, H2⟩, ⟨%f3, %hf3, H3⟩, ⟨%fs, %hfs, HS⟩, Hk⟩
    obtain rfl := harg2.eq_unread hf0; obtain rfl := harg3.eq_unread hf1; obtain rfl := harg4.eq_unread hf2; obtain rfl := harg5.eq_unread hf3; obtain rfl := harg6.eq_unread hfs
    sl_exec (disch := first | exact hc0 | exact hc1)
    sl_step
    iapply Hk
    isplitl [H0]
    · iexists _; isplitr; · ipureintro; exact harg2.read_unread _
      iexact H0
    isplitl [H1]
    · iexists _; isplitr; · ipureintro; exact harg3.read_unread _
      iexact H1
    isplitl [H2]
    · iexists _; isplitr; · ipureintro; exact harg4.read_unread _
      iexact H2
    isplitl [H3]
    · iexists _; isplitr; · ipureintro; exact harg5.read_unread _
      iexact H3
    iexists _; iexact HS

/-! ### The control case `k = 9`: the accumulator is read, the block product added and the sum stored whole; then the accumulator
   is read back, the bias row added and the sum stored whole into the result buffer. -/

-- (the run's proof term is large: the definition's epilogue walks it past the default budget)
set_option maxHeartbeats 1000000 in
/-- The lists of stores, last first, that the body leaves in the result buffer (`L3`) and in the accumulator (`LS`) in
    this case, TOGETHER WITH the proof that on whole memrefs — the three inputs at contents `x0 x1 x2`, the result buffer at anything, the accumulator at the contents `xs` the point before left — the body runs to a
    continuation that holds the inputs as they were, the result buffer with `L3` written and the accumulator with
    `LS` written. The two lists are found by running the body's memory operations in order over named payloads; each
    conditional is decided by the case's hypotheses. -/
noncomputable def runLast13 (c : Dev nD) (i : grid13.Coords) (arg2 : Memref sig .tc .vmem S512x1024 .bf16) (harg2 : arg2.IsWhole) (arg3 : Memref sig .tc .vmem S10240x256 .bf16) (harg3 : arg3.IsWhole) (arg4 : Memref sig .tc .vmem S1x256 .f32) (harg4 : arg4.IsWhole) (arg5 : Memref sig .tc .vmem S512x256 .f32) (harg5 : arg5.IsWhole) (arg6 : Memref sig .tc .vmem S512x256 .f32) (harg6 : arg6.IsWhole) (hc0 : ¬zeroC13 i) (hc1 : flushC13 i)
    (x0 : Vec F S512x1024 .bf16) (x1 : Vec F S10240x256 .bf16) (x2 : Vec F S1x256 .f32) (xs : Vec F S512x256 .f32) :
    Σ' (L3 : List (View.Piece (Elt F) S512x256 .f32)), { LS : List (View.Piece (Elt F) S512x256 .f32) //
      ∀ (E : Set ℕ) (K : PUnit → sProp 𝕄),
        iprop(owns (c : Thread nD τ) arg2 fullShare x0 ∗ owns (c : Thread nD τ) arg3 fullShare x1 ∗ owns (c : Thread nD τ) arg4 fullShare x2 ∗ (∃ d, owns (c : Thread nD τ) arg5 fullShare d) ∗ owns (c : Thread nD τ) arg6 fullShare xs
            ∗ (iprop(owns (c : Thread nD τ) arg2 fullShare x0 ∗ owns (c : Thread nD τ) arg3 fullShare x1 ∗ owns (c : Thread nD τ) arg4 fullShare x2 ∗ (∃ f, arg5.view.loc (c : Thread nD τ) ↦[arg5.view.set]{fullShare} arg5.view.writes (Elt F) f L3) ∗ (∃ f, arg6.view.loc (c : Thread nD τ) ↦[arg6.view.set]{fullShare} arg6.view.writes (Elt F) f LS)) -∗ K ⟨⟩))
          ⊢ wp frame (wpE (defs₀ (F := F)) Variants.none c none) E (cc13__stage2_kernel i arg2 harg2 arg3 harg3 arg4 harg4 arg5 harg5 arg6 harg6) K } := by
  refine ⟨?_, ?_, fun E K => ?run⟩
  case run =>
    simp only [cc13__stage2_kernel_eq_skeleton]; unfold cc13__stage2_kernel_skel
    unfold owns
    iintro ⟨⟨%f0, %hf0, H0⟩, ⟨%f1, %hf1, H1⟩, ⟨%f2, %hf2, H2⟩, ⟨%d3, %f3, -, H3⟩, ⟨%fs, %hfs, HS⟩, Hk⟩
    obtain rfl := harg2.eq_unread hf0; obtain rfl := harg3.eq_unread hf1; obtain rfl := harg4.eq_unread hf2; obtain rfl := harg6.eq_unread hfs
    sl_exec (disch := first | exact hc0 | exact hc1)
    sl_step
    iapply Hk
    isplitl [H0]
    · iexists _; isplitr; · ipureintro; exact harg2.read_unread _
      iexact H0
    isplitl [H1]
    · iexists _; isplitr; · ipureintro; exact harg3.read_unread _
      iexact H1
    isplitl [H2]
    · iexists _; isplitr; · ipureintro; exact harg4.read_unread _
      iexact H2
    isplitl [H3]; · iexists _; iexact H3
    iexists _; iexact HS

/-! # Part 3: what each case leaves, point by point; the proof data; the body obligation; the invariant's ends -/

/-! ## What each case leaves

In the cases `k = 0` and `0 < k < 9` nothing is stored into the result buffer: its "contents" below is a placeholder
(no stores read back over junk) that nothing consults, the window being idle and not written back at those points. -/

def out13_Z_3 (c : Dev nD) (i : grid13.Coords) (arg2 : Memref sig .tc .vmem S512x1024 .bf16) (harg2 : arg2.IsWhole) (arg3 : Memref sig .tc .vmem S10240x256 .bf16) (harg3 : arg3.IsWhole) (arg4 : Memref sig .tc .vmem S1x256 .f32) (harg4 : arg4.IsWhole) (arg5 : Memref sig .tc .vmem S512x256 .f32) (harg5 : arg5.IsWhole) (arg6 : Memref sig .tc .vmem S512x256 .f32) (harg6 : arg6.IsWhole) (hc0 : zeroC13 i) (hc1 : ¬flushC13 i)
    (x0 : Vec F S512x1024 .bf16) (x1 : Vec F S10240x256 .bf16) (x2 : Vec F S1x256 .f32) : Vec F S512x256 .f32 :=
  vO13.read (Elt F) (vO13.writes (Elt F) vO13.junk (runZero13 c i arg2 harg2 arg3 harg3 arg4 harg4 arg5 harg5 arg6 harg6 hc0 hc1 x0 x1 x2).1)

/-- At `k = 0` the accumulator's stores (the zero fill, then the first partial sum) cover it. -/
theorem scover13_Z (c : Dev nD) (i : grid13.Coords) (arg2 : Memref sig .tc .vmem S512x1024 .bf16) (harg2 : arg2.IsWhole) (arg3 : Memref sig .tc .vmem S10240x256 .bf16) (harg3 : arg3.IsWhole) (arg4 : Memref sig .tc .vmem S1x256 .f32) (harg4 : arg4.IsWhole) (arg5 : Memref sig .tc .vmem S512x256 .f32) (harg5 : arg5.IsWhole) (arg6 : Memref sig .tc .vmem S512x256 .f32) (harg6 : arg6.IsWhole) (hc0 : zeroC13 i) (hc1 : ¬flushC13 i)
    (x0 : Vec F S512x1024 .bf16) (x1 : Vec F S10240x256 .bf16) (x2 : Vec F S1x256 .f32) (y : S512x256.Idx) :
    ∃ pc ∈ (runZero13 c i arg2 harg2 arg3 harg3 arg4 harg4 arg5 harg5 arg6 harg6 hc0 hc1 x0 x1 x2).2.1, y ∈ pc.1.set :=
  View.cover_of_tiledL (runZero13 c i arg2 harg2 arg3 harg3 arg4 harg4 arg5 harg5 arg6 harg6 hc0 hc1 x0 x1 x2).2.1 S512x256.size (by sl_kernel_rfl) y

/-- What the case `k = 0` leaves in the accumulator: its stores read back. -/
def acc13_Z (c : Dev nD) (i : grid13.Coords) (arg2 : Memref sig .tc .vmem S512x1024 .bf16) (harg2 : arg2.IsWhole) (arg3 : Memref sig .tc .vmem S10240x256 .bf16) (harg3 : arg3.IsWhole) (arg4 : Memref sig .tc .vmem S1x256 .f32) (harg4 : arg4.IsWhole) (arg5 : Memref sig .tc .vmem S512x256 .f32) (harg5 : arg5.IsWhole) (arg6 : Memref sig .tc .vmem S512x256 .f32) (harg6 : arg6.IsWhole) (hc0 : zeroC13 i) (hc1 : ¬flushC13 i)
    (x0 : Vec F S512x1024 .bf16) (x1 : Vec F S10240x256 .bf16) (x2 : Vec F S1x256 .f32) : Vec F S512x256 .f32 :=
  vS13.read (Elt F) (vS13.writes (Elt F) vS13.junk (runZero13 c i arg2 harg2 arg3 harg3 arg4 harg4 arg5 harg5 arg6 harg6 hc0 hc1 x0 x1 x2).2.1)

def out13_M_3 (c : Dev nD) (i : grid13.Coords) (arg2 : Memref sig .tc .vmem S512x1024 .bf16) (harg2 : arg2.IsWhole) (arg3 : Memref sig .tc .vmem S10240x256 .bf16) (harg3 : arg3.IsWhole) (arg4 : Memref sig .tc .vmem S1x256 .f32) (harg4 : arg4.IsWhole) (arg5 : Memref sig .tc .vmem S512x256 .f32) (harg5 : arg5.IsWhole) (arg6 : Memref sig .tc .vmem S512x256 .f32) (harg6 : arg6.IsWhole) (hc0 : ¬zeroC13 i) (hc1 : ¬flushC13 i)
    (x0 : Vec F S512x1024 .bf16) (x1 : Vec F S10240x256 .bf16) (x2 : Vec F S1x256 .f32) (xs : Vec F S512x256 .f32) : Vec F S512x256 .f32 :=
  vO13.read (Elt F) (vO13.writes (Elt F) vO13.junk (runMid13 c i arg2 harg2 arg3 harg3 arg4 harg4 arg5 harg5 arg6 harg6 hc0 hc1 x0 x1 x2 xs).1)

/-- For `0 < k < 9` the accumulator's one store covers it. -/
theorem scover13_M (c : Dev nD) (i : grid13.Coords) (arg2 : Memref sig .tc .vmem S512x1024 .bf16) (harg2 : arg2.IsWhole) (arg3 : Memref sig .tc .vmem S10240x256 .bf16) (harg3 : arg3.IsWhole) (arg4 : Memref sig .tc .vmem S1x256 .f32) (harg4 : arg4.IsWhole) (arg5 : Memref sig .tc .vmem S512x256 .f32) (harg5 : arg5.IsWhole) (arg6 : Memref sig .tc .vmem S512x256 .f32) (harg6 : arg6.IsWhole) (hc0 : ¬zeroC13 i) (hc1 : ¬flushC13 i)
    (x0 : Vec F S512x1024 .bf16) (x1 : Vec F S10240x256 .bf16) (x2 : Vec F S1x256 .f32) (xs : Vec F S512x256 .f32) (y : S512x256.Idx) :
    ∃ pc ∈ (runMid13 c i arg2 harg2 arg3 harg3 arg4 harg4 arg5 harg5 arg6 harg6 hc0 hc1 x0 x1 x2 xs).2.1, y ∈ pc.1.set :=
  View.cover_of_tiledL (runMid13 c i arg2 harg2 arg3 harg3 arg4 harg4 arg5 harg5 arg6 harg6 hc0 hc1 x0 x1 x2 xs).2.1 S512x256.size (by sl_kernel_rfl) y

/-- What the case `0 < k < 9` leaves in the accumulator, over what the point before left (`xs`). -/
def acc13_M (c : Dev nD) (i : grid13.Coords) (arg2 : Memref sig .tc .vmem S512x1024 .bf16) (harg2 : arg2.IsWhole) (arg3 : Memref sig .tc .vmem S10240x256 .bf16) (harg3 : arg3.IsWhole) (arg4 : Memref sig .tc .vmem S1x256 .f32) (harg4 : arg4.IsWhole) (arg5 : Memref sig .tc .vmem S512x256 .f32) (harg5 : arg5.IsWhole) (arg6 : Memref sig .tc .vmem S512x256 .f32) (harg6 : arg6.IsWhole) (hc0 : ¬zeroC13 i) (hc1 : ¬flushC13 i)
    (x0 : Vec F S512x1024 .bf16) (x1 : Vec F S10240x256 .bf16) (x2 : Vec F S1x256 .f32) (xs : Vec F S512x256 .f32) : Vec F S512x256 .f32 :=
  vS13.read (Elt F) (vS13.writes (Elt F) vS13.junk (runMid13 c i arg2 harg2 arg3 harg3 arg4 harg4 arg5 harg5 arg6 harg6 hc0 hc1 x0 x1 x2 xs).2.1)

/-- At `k = 9` the one store into the result buffer covers it. -/
theorem cover13_L_3 (c : Dev nD) (i : grid13.Coords) (arg2 : Memref sig .tc .vmem S512x1024 .bf16) (harg2 : arg2.IsWhole) (arg3 : Memref sig .tc .vmem S10240x256 .bf16) (harg3 : arg3.IsWhole) (arg4 : Memref sig .tc .vmem S1x256 .f32) (harg4 : arg4.IsWhole) (arg5 : Memref sig .tc .vmem S512x256 .f32) (harg5 : arg5.IsWhole) (arg6 : Memref sig .tc .vmem S512x256 .f32) (harg6 : arg6.IsWhole) (hc0 : ¬zeroC13 i) (hc1 : flushC13 i)
    (x0 : Vec F S512x1024 .bf16) (x1 : Vec F S10240x256 .bf16) (x2 : Vec F S1x256 .f32) (xs : Vec F S512x256 .f32) (y : S512x256.Idx) :
    ∃ pc ∈ (runLast13 c i arg2 harg2 arg3 harg3 arg4 harg4 arg5 harg5 arg6 harg6 hc0 hc1 x0 x1 x2 xs).1, y ∈ pc.1.set :=
  View.cover_of_tiledL (runLast13 c i arg2 harg2 arg3 harg3 arg4 harg4 arg5 harg5 arg6 harg6 hc0 hc1 x0 x1 x2 xs).1 S512x256.size (by sl_kernel_rfl) y

/-- THE RESULT BLOCK: what the case `k = 9` leaves in the result buffer — the accumulated sum plus the bias row — as a term of the three input blocks and of the accumulator the point before left. -/
def out13_L_3 (c : Dev nD) (i : grid13.Coords) (arg2 : Memref sig .tc .vmem S512x1024 .bf16) (harg2 : arg2.IsWhole) (arg3 : Memref sig .tc .vmem S10240x256 .bf16) (harg3 : arg3.IsWhole) (arg4 : Memref sig .tc .vmem S1x256 .f32) (harg4 : arg4.IsWhole) (arg5 : Memref sig .tc .vmem S512x256 .f32) (harg5 : arg5.IsWhole) (arg6 : Memref sig .tc .vmem S512x256 .f32) (harg6 : arg6.IsWhole) (hc0 : ¬zeroC13 i) (hc1 : flushC13 i)
    (x0 : Vec F S512x1024 .bf16) (x1 : Vec F S10240x256 .bf16) (x2 : Vec F S1x256 .f32) (xs : Vec F S512x256 .f32) : Vec F S512x256 .f32 :=
  vO13.read (Elt F) (vO13.writes (Elt F) vO13.junk (runLast13 c i arg2 harg2 arg3 harg3 arg4 harg4 arg5 harg5 arg6 harg6 hc0 hc1 x0 x1 x2 xs).1)

/-- At `k = 9` the accumulator's one store covers it. -/
theorem scover13_L (c : Dev nD) (i : grid13.Coords) (arg2 : Memref sig .tc .vmem S512x1024 .bf16) (harg2 : arg2.IsWhole) (arg3 : Memref sig .tc .vmem S10240x256 .bf16) (harg3 : arg3.IsWhole) (arg4 : Memref sig .tc .vmem S1x256 .f32) (harg4 : arg4.IsWhole) (arg5 : Memref sig .tc .vmem S512x256 .f32) (harg5 : arg5.IsWhole) (arg6 : Memref sig .tc .vmem S512x256 .f32) (harg6 : arg6.IsWhole) (hc0 : ¬zeroC13 i) (hc1 : flushC13 i)
    (x0 : Vec F S512x1024 .bf16) (x1 : Vec F S10240x256 .bf16) (x2 : Vec F S1x256 .f32) (xs : Vec F S512x256 .f32) (y : S512x256.Idx) :
    ∃ pc ∈ (runLast13 c i arg2 harg2 arg3 harg3 arg4 harg4 arg5 harg5 arg6 harg6 hc0 hc1 x0 x1 x2 xs).2.1, y ∈ pc.1.set :=
  View.cover_of_tiledL (runLast13 c i arg2 harg2 arg3 harg3 arg4 harg4 arg5 harg5 arg6 harg6 hc0 hc1 x0 x1 x2 xs).2.1 S512x256.size (by sl_kernel_rfl) y

/-- What the case `k = 9` leaves in the accumulator. -/
def acc13_L (c : Dev nD) (i : grid13.Coords) (arg2 : Memref sig .tc .vmem S512x1024 .bf16) (harg2 : arg2.IsWhole) (arg3 : Memref sig .tc .vmem S10240x256 .bf16) (harg3 : arg3.IsWhole) (arg4 : Memref sig .tc .vmem S1x256 .f32) (harg4 : arg4.IsWhole) (arg5 : Memref sig .tc .vmem S512x256 .f32) (harg5 : arg5.IsWhole) (arg6 : Memref sig .tc .vmem S512x256 .f32) (harg6 : arg6.IsWhole) (hc0 : ¬zeroC13 i) (hc1 : flushC13 i)
    (x0 : Vec F S512x1024 .bf16) (x1 : Vec F S10240x256 .bf16) (x2 : Vec F S1x256 .f32) (xs : Vec F S512x256 .f32) : Vec F S512x256 .f32 :=
  vS13.read (Elt F) (vS13.writes (Elt F) vS13.junk (runLast13 c i arg2 harg2 arg3 harg3 arg4 harg4 arg5 harg5 arg6 harg6 hc0 hc1 x0 x1 x2 xs).2.1)

section Entry
variable (V : (c : Dev nD) → (b : Ref sig .tc) → Buf (Elt F) ((c : Thread nD τ).loc b))

/-! ## Point by point -/

/-- THE ACCUMULATION. After the body at position `n`: (the result buffer, the accumulator). The case is the one the
    closed forms select at `n`, run on the point's memrefs and input blocks; for `k > 0` the accumulator starts from what
    position `n - 1` left in it. The two conditions cannot hold together. -/
def outsAt13 (c : Dev nD) : (n : ℕ) → n < cfg13.N → Vec F S512x256 .f32 × Vec F S512x256 .f32
  | 0, hn => (out13_Z_3 c (grid13.coords ⟨0, hn⟩) (mA13 ⟨0, hn⟩) (hA13 ⟨0, hn⟩) (mB13 ⟨0, hn⟩) (hB13 ⟨0, hn⟩) (mC13 ⟨0, hn⟩) (hC13 ⟨0, hn⟩) (mO13 ⟨0, hn⟩) (hO13 ⟨0, hn⟩) mS13 (Memref.isWhole_whole _) ((zeroC13_iff ⟨0, hn⟩).mpr (Nat.zero_mod _)) (fun h => (fun h => by (try dsimp only at h); omega) ((flushC13_iff ⟨0, hn⟩).mp h)) (iblk13 V c 0 ⟨0, hn⟩) (iblk13 V c 1 ⟨0, hn⟩) (iblk13 V c 2 ⟨0, hn⟩), acc13_Z c (grid13.coords ⟨0, hn⟩) (mA13 ⟨0, hn⟩) (hA13 ⟨0, hn⟩) (mB13 ⟨0, hn⟩) (hB13 ⟨0, hn⟩) (mC13 ⟨0, hn⟩) (hC13 ⟨0, hn⟩) (mO13 ⟨0, hn⟩) (hO13 ⟨0, hn⟩) mS13 (Memref.isWhole_whole _) ((zeroC13_iff ⟨0, hn⟩).mpr (Nat.zero_mod _)) (fun h => (fun h => by (try dsimp only at h); omega) ((flushC13_iff ⟨0, hn⟩).mp h)) (iblk13 V c 0 ⟨0, hn⟩) (iblk13 V c 1 ⟨0, hn⟩) (iblk13 V c 2 ⟨0, hn⟩))
  | n + 1, hn =>
    if h0 : (n + 1) % 10 = 0 then
      if h1 : (n + 1) % 10 = 9 then
        False.elim (by omega)
      else
        (out13_Z_3 c (grid13.coords ⟨n + 1, hn⟩) (mA13 ⟨n + 1, hn⟩) (hA13 ⟨n + 1, hn⟩) (mB13 ⟨n + 1, hn⟩) (hB13 ⟨n + 1, hn⟩) (mC13 ⟨n + 1, hn⟩) (hC13 ⟨n + 1, hn⟩) (mO13 ⟨n + 1, hn⟩) (hO13 ⟨n + 1, hn⟩) mS13 (Memref.isWhole_whole _) ((zeroC13_iff ⟨n + 1, hn⟩).mpr h0) (fun h => h1 ((flushC13_iff ⟨n + 1, hn⟩).mp h)) (iblk13 V c 0 ⟨n + 1, hn⟩) (iblk13 V c 1 ⟨n + 1, hn⟩) (iblk13 V c 2 ⟨n + 1, hn⟩), acc13_Z c (grid13.coords ⟨n + 1, hn⟩) (mA13 ⟨n + 1, hn⟩) (hA13 ⟨n + 1, hn⟩) (mB13 ⟨n + 1, hn⟩) (hB13 ⟨n + 1, hn⟩) (mC13 ⟨n + 1, hn⟩) (hC13 ⟨n + 1, hn⟩) (mO13 ⟨n + 1, hn⟩) (hO13 ⟨n + 1, hn⟩) mS13 (Memref.isWhole_whole _) ((zeroC13_iff ⟨n + 1, hn⟩).mpr h0) (fun h => h1 ((flushC13_iff ⟨n + 1, hn⟩).mp h)) (iblk13 V c 0 ⟨n + 1, hn⟩) (iblk13 V c 1 ⟨n + 1, hn⟩) (iblk13 V c 2 ⟨n + 1, hn⟩))
    else
      if h1 : (n + 1) % 10 = 9 then
        (out13_L_3 c (grid13.coords ⟨n + 1, hn⟩) (mA13 ⟨n + 1, hn⟩) (hA13 ⟨n + 1, hn⟩) (mB13 ⟨n + 1, hn⟩) (hB13 ⟨n + 1, hn⟩) (mC13 ⟨n + 1, hn⟩) (hC13 ⟨n + 1, hn⟩) (mO13 ⟨n + 1, hn⟩) (hO13 ⟨n + 1, hn⟩) mS13 (Memref.isWhole_whole _) (fun h => h0 ((zeroC13_iff ⟨n + 1, hn⟩).mp h)) ((flushC13_iff ⟨n + 1, hn⟩).mpr h1) (iblk13 V c 0 ⟨n + 1, hn⟩) (iblk13 V c 1 ⟨n + 1, hn⟩) (iblk13 V c 2 ⟨n + 1, hn⟩) (outsAt13 c n (Nat.lt_of_succ_lt hn)).2, acc13_L c (grid13.coords ⟨n + 1, hn⟩) (mA13 ⟨n + 1, hn⟩) (hA13 ⟨n + 1, hn⟩) (mB13 ⟨n + 1, hn⟩) (hB13 ⟨n + 1, hn⟩) (mC13 ⟨n + 1, hn⟩) (hC13 ⟨n + 1, hn⟩) (mO13 ⟨n + 1, hn⟩) (hO13 ⟨n + 1, hn⟩) mS13 (Memref.isWhole_whole _) (fun h => h0 ((zeroC13_iff ⟨n + 1, hn⟩).mp h)) ((flushC13_iff ⟨n + 1, hn⟩).mpr h1) (iblk13 V c 0 ⟨n + 1, hn⟩) (iblk13 V c 1 ⟨n + 1, hn⟩) (iblk13 V c 2 ⟨n + 1, hn⟩) (outsAt13 c n (Nat.lt_of_succ_lt hn)).2)
      else
        (out13_M_3 c (grid13.coords ⟨n + 1, hn⟩) (mA13 ⟨n + 1, hn⟩) (hA13 ⟨n + 1, hn⟩) (mB13 ⟨n + 1, hn⟩) (hB13 ⟨n + 1, hn⟩) (mC13 ⟨n + 1, hn⟩) (hC13 ⟨n + 1, hn⟩) (mO13 ⟨n + 1, hn⟩) (hO13 ⟨n + 1, hn⟩) mS13 (Memref.isWhole_whole _) (fun h => h0 ((zeroC13_iff ⟨n + 1, hn⟩).mp h)) (fun h => h1 ((flushC13_iff ⟨n + 1, hn⟩).mp h)) (iblk13 V c 0 ⟨n + 1, hn⟩) (iblk13 V c 1 ⟨n + 1, hn⟩) (iblk13 V c 2 ⟨n + 1, hn⟩) (outsAt13 c n (Nat.lt_of_succ_lt hn)).2, acc13_M c (grid13.coords ⟨n + 1, hn⟩) (mA13 ⟨n + 1, hn⟩) (hA13 ⟨n + 1, hn⟩) (mB13 ⟨n + 1, hn⟩) (hB13 ⟨n + 1, hn⟩) (mC13 ⟨n + 1, hn⟩) (hC13 ⟨n + 1, hn⟩) (mO13 ⟨n + 1, hn⟩) (hO13 ⟨n + 1, hn⟩) mS13 (Memref.isWhole_whole _) (fun h => h0 ((zeroC13_iff ⟨n + 1, hn⟩).mp h)) (fun h => h1 ((flushC13_iff ⟨n + 1, hn⟩).mp h)) (iblk13 V c 0 ⟨n + 1, hn⟩) (iblk13 V c 1 ⟨n + 1, hn⟩) (iblk13 V c 2 ⟨n + 1, hn⟩) (outsAt13 c n (Nat.lt_of_succ_lt hn)).2)

/-- `outsAt13` at a point with `k = 0`. -/
theorem outsAt13_Z (c : Dev nD) (t : Fin cfg13.N) (h0 : t.val % 10 = 0) (h1 : ¬t.val % 10 = 9) :
    outsAt13 V c t.val t.isLt = (out13_Z_3 c (grid13.coords t) (mA13 t) (hA13 t) (mB13 t) (hB13 t) (mC13 t) (hC13 t) (mO13 t) (hO13 t) mS13 (Memref.isWhole_whole _) ((zeroC13_iff t).mpr h0) (fun h => h1 ((flushC13_iff t).mp h)) (iblk13 V c 0 t) (iblk13 V c 1 t) (iblk13 V c 2 t), acc13_Z c (grid13.coords t) (mA13 t) (hA13 t) (mB13 t) (hB13 t) (mC13 t) (hC13 t) (mO13 t) (hO13 t) mS13 (Memref.isWhole_whole _) ((zeroC13_iff t).mpr h0) (fun h => h1 ((flushC13_iff t).mp h)) (iblk13 V c 0 t) (iblk13 V c 1 t) (iblk13 V c 2 t)) := by
  obtain ⟨n, hn⟩ := t
  cases n with
  | zero => exact rfl
  | succ n => exact (dif_pos h0).trans ((dif_neg h1).trans rfl)

/-- `outsAt13` at a point with `0 < k < 9`: over what the point before left. -/
theorem outsAt13_M (c : Dev nD) (t : Fin cfg13.N) (h0 : ¬t.val % 10 = 0) (h1 : ¬t.val % 10 = 9) :
    outsAt13 V c t.val t.isLt = (out13_M_3 c (grid13.coords t) (mA13 t) (hA13 t) (mB13 t) (hB13 t) (mC13 t) (hC13 t) (mO13 t) (hO13 t) mS13 (Memref.isWhole_whole _) (fun h => h0 ((zeroC13_iff t).mp h)) (fun h => h1 ((flushC13_iff t).mp h)) (iblk13 V c 0 t) (iblk13 V c 1 t) (iblk13 V c 2 t) (outsAt13 V c (t.val - 1) (Nat.lt_of_le_of_lt (Nat.sub_le _ _) t.isLt)).2, acc13_M c (grid13.coords t) (mA13 t) (hA13 t) (mB13 t) (hB13 t) (mC13 t) (hC13 t) (mO13 t) (hO13 t) mS13 (Memref.isWhole_whole _) (fun h => h0 ((zeroC13_iff t).mp h)) (fun h => h1 ((flushC13_iff t).mp h)) (iblk13 V c 0 t) (iblk13 V c 1 t) (iblk13 V c 2 t) (outsAt13 V c (t.val - 1) (Nat.lt_of_le_of_lt (Nat.sub_le _ _) t.isLt)).2) := by
  obtain ⟨n, hn⟩ := t
  cases n with
  | zero => exact (by exfalso; (try dsimp only at h0); exact absurd (Nat.zero_mod _) h0)
  | succ n => exact (dif_neg h0).trans ((dif_neg h1).trans rfl)

/-- `outsAt13` at a point with `k = 9`: over what the point before left. -/
theorem outsAt13_L (c : Dev nD) (t : Fin cfg13.N) (h0 : ¬t.val % 10 = 0) (h1 : t.val % 10 = 9) :
    outsAt13 V c t.val t.isLt = (out13_L_3 c (grid13.coords t) (mA13 t) (hA13 t) (mB13 t) (hB13 t) (mC13 t) (hC13 t) (mO13 t) (hO13 t) mS13 (Memref.isWhole_whole _) (fun h => h0 ((zeroC13_iff t).mp h)) ((flushC13_iff t).mpr h1) (iblk13 V c 0 t) (iblk13 V c 1 t) (iblk13 V c 2 t) (outsAt13 V c (t.val - 1) (Nat.lt_of_le_of_lt (Nat.sub_le _ _) t.isLt)).2, acc13_L c (grid13.coords t) (mA13 t) (hA13 t) (mB13 t) (hB13 t) (mC13 t) (hC13 t) (mO13 t) (hO13 t) mS13 (Memref.isWhole_whole _) (fun h => h0 ((zeroC13_iff t).mp h)) ((flushC13_iff t).mpr h1) (iblk13 V c 0 t) (iblk13 V c 1 t) (iblk13 V c 2 t) (outsAt13 V c (t.val - 1) (Nat.lt_of_le_of_lt (Nat.sub_le _ _) t.isLt)).2) := by
  obtain ⟨n, hn⟩ := t
  cases n with
  | zero => exact (by exfalso; (try dsimp only at h0); exact absurd (Nat.zero_mod _) h0)
  | succ n => exact (dif_neg h0).trans ((dif_pos h1).trans rfl)

/-! ## The invariant -/

/-- The region invariant before position `n`: before the first point the class's (the accumulator at anything);
    afterwards the accumulator at what the point before left in it, the other scoped buffers and the generator
    register as ever. -/
def PhiS13 (c : Dev nD) : (n : ℕ) → n ≤ cfg13.N → sProp 𝕄
  | 0, _ => Pipeline.ΦA spec13 c
  | n + 1, hn => iprop(iprop(owns (c : Thread nD τ) mS13 fullShare ((outsAt13 V c n hn).2) ∗ rest13 (F := F) c) ∗ (∃ r, prngReg c r))

theorem PhiS13_zero (c : Dev nD) (n : ℕ) (h : n ≤ cfg13.N) (hz : n = 0) : PhiS13 V c n h = Pipeline.ΦA spec13 c := by
  subst hz; rfl

theorem PhiS13_succ (c : Dev nD) (n : ℕ) (hn : n < cfg13.N) :
    PhiS13 V c (n + 1) hn = iprop(iprop(owns (c : Thread nD τ) mS13 fullShare ((outsAt13 V c n hn).2) ∗ rest13 (F := F) c) ∗ (∃ r, prngReg c r)) := rfl

theorem PhiS13_pos (c : Dev nD) (n : ℕ) (h : n ≤ cfg13.N) (hz : n ≠ 0) :
    PhiS13 V c n h = iprop(iprop(owns (c : Thread nD τ) mS13 fullShare ((outsAt13 V c (n - 1) (by omega)).2) ∗ rest13 (F := F) c) ∗ (∃ r, prngReg c r)) := by
  cases n with
  | zero => exact absurd rfl hz
  | succ n => rfl

/-! ## The proof data -/

/-- The proof data of region 13's pipeline on core `c`: the arrays as the region finds them; after the body at point
    `t` each input's buffer at its block and the result's at `outsAt13`'s first component; the invariant `PhiS13`;
    nothing owed; full shares. -/
def dat13 (c : Dev nD) : Dat τ (Elt F) Unit ℕ (UR sig nD τ) ℕ cfg13 c where
  A w := V c (Pipeline.arrRef spec13 w)
  after w t := match w with
    | ⟨0, _⟩ => iblk13 V c 0 t
    | ⟨1, _⟩ => iblk13 V c 1 t
    | ⟨2, _⟩ => iblk13 V c 2 t
    | ⟨3, _⟩ => (outsAt13 V c t.val t.isLt).1
  Φ t := PhiS13 V c t.val (Nat.le_of_lt_succ t.isLt)
  q _ := fullShare
  owed _ := 0

/-- The proof data's arrays are the region-entry contents (the definition projected, `V` never unfolded). -/
theorem A_eq13 (c : Dev nD) (w : Fin cfg13.W) : (dat13 V c).A w = V c (Pipeline.arrRef spec13 w) := by
  dsimp only [dat13]

/-- The invariant at a point's start, restated at `t.val`. -/
theorem PhiS13_castSucc (c : Dev nD) (t : Fin cfg13.N) :
    (dat13 V c).Φ t.castSucc = PhiS13 V c t.val (Nat.le_of_lt t.isLt) := by
  dsimp only [dat13]; simp only [Fin.coe_castSucc]

/-- What the body leaves, window by window. -/
theorem after13_0 (c : Dev nD) (t : Fin cfg13.N) : (dat13 V c).after 0 t = iblk13 V c 0 t := by dsimp only [dat13]
theorem after13_1 (c : Dev nD) (t : Fin cfg13.N) : (dat13 V c).after 1 t = iblk13 V c 1 t := by dsimp only [dat13]
theorem after13_2 (c : Dev nD) (t : Fin cfg13.N) : (dat13 V c).after 2 t = iblk13 V c 2 t := by dsimp only [dat13]
theorem after13_3 (c : Dev nD) (t : Fin cfg13.N) : (dat13 V c).after 3 t = (outsAt13 V c t.val t.isLt).1 := by dsimp only [dat13]

/-- Each input's current staging buffer holds its block at every point. -/
theorem before13_0 (c : Dev nD) (t : Fin cfg13.N) (d) : (dat13 V c).before 0 t d = iblk13 V c 0 t :=
  before13_0_of V (dat13 V c) (A_eq13 V c 0) (after13_0 V c) t d
theorem before13_1 (c : Dev nD) (t : Fin cfg13.N) (d) : (dat13 V c).before 1 t d = iblk13 V c 1 t :=
  before13_1_of V (dat13 V c) (A_eq13 V c 1) (after13_1 V c) t d
theorem before13_2 (c : Dev nD) (t : Fin cfg13.N) (d) : (dat13 V c).before 2 t d = iblk13 V c 2 t :=
  before13_2_of V (dat13 V c) (A_eq13 V c 2) (after13_2 V c) t d

/-! ## The body obligation, at a generic point -/

/-- What the body is called with at point `t`, the windows one by one, -/
def bodyPre13 (c : Dev nD) (t : Fin cfg13.N) : sProp 𝕄 :=
  iprop((dat13 V c).Φ t.castSucc ∗ (dat13 V c).owesAt () t.castSucc
    ∗ (∃ d, owns (c : Thread nD τ) (mA13 t) fullShare ((dat13 V c).before 0 t d))
    ∗ (∃ d, owns (c : Thread nD τ) (mB13 t) fullShare ((dat13 V c).before 1 t d))
    ∗ (∃ d, owns (c : Thread nD τ) (mC13 t) fullShare ((dat13 V c).before 2 t d))
    ∗ (∃ d, owns (c : Thread nD τ) (mO13 t) fullShare ((dat13 V c).before 3 t d)))

/-- and what it returns. -/
def bodyPost13 (c : Dev nD) (t : Fin cfg13.N) : sProp 𝕄 :=
  iprop((dat13 V c).Φ t.succ ∗ (dat13 V c).owesAt () t.succ
    ∗ (dat13 V c).leavesExact 0 t
    ∗ (dat13 V c).leavesExact 1 t
    ∗ (dat13 V c).leavesExact 2 t
    ∗ (dat13 V c).leavesExact 3 t)

set_option maxHeartbeats 4800000 in
/-- The body at any point. The inputs' memrefs hold their blocks; the closed forms say which control case the point is
    in, and that case's run applies. The invariant hands the body the accumulator at what the point before left (at
    anything before the first point) and takes it back at this point's contents, its stores covering it; where the
    result window is idle its buffer goes back as found, and at `k = 9` its one store covers it. The other scoped
    buffers, the generator register and what the core owes pass through. -/
theorem sound_body13 (c : Dev nD) (t : Fin cfg13.N) :
    bodyPre13 V c t ⊢ wp frame (wpE (defs₀ (F := F)) Variants.none c none) Set.univ (bodyAt13 t) (fun _ => bodyPost13 V c t) := by
  unfold bodyPre13 bodyPost13 bodyAt13
  simp only [before13_0, before13_1, before13_2]
  rw [show (dat13 V c).owesAt () t.succ = (dat13 V c).owesAt () t.castSucc from rfl]
  rw [show (dat13 V c).Φ t.succ = PhiS13 V c (t.val + 1) t.isLt from rfl, PhiS13_succ]
  rw [show (dat13 V c).leavesExact 0 t = owns (c : Thread nD τ) (mA13 t) fullShare ((dat13 V c).after 0 t) from by
    unfold Dat.leavesExact; rw [live13_0 t], after13_0]
  rw [show (dat13 V c).leavesExact 1 t = owns (c : Thread nD τ) (mB13 t) fullShare ((dat13 V c).after 1 t) from by
    unfold Dat.leavesExact; rw [live13_1 t], after13_1]
  rw [show (dat13 V c).leavesExact 2 t = owns (c : Thread nD τ) (mC13 t) fullShare ((dat13 V c).after 2 t) from by
    unfold Dat.leavesExact; rw [live13_2 t], after13_2]
  have hN : t.val < 200 := lt_of_lt_of_eq t.isLt (show cfg13.N = 200 from N_13)
  by_cases h0 : t.val % 10 = 0
  · by_cases h1 : t.val % 10 = 9
    · exfalso; omega
    · rw [Dat.leavesExact_idle (dat13 V c) 3 t (idle13_3 t (fun h => h1 ((flushC13_iff t).mp h))) (noFlush13_3 t (fun h => h1 ((flushC13_iff t).mp h)))]
      rw [outsAt13_Z V c t h0 h1]
      unfold acc13_Z; (try dsimp only)
      by_cases hz : t.val = 0
      · rw [PhiS13_castSucc V c t, PhiS13_zero V c _ _ hz, PhiA13_eq]
        iintro ⟨⟨⟨HS, Hr⟩, Hg⟩, Ho, ⟨%d0, H0⟩, ⟨%d1, H1⟩, ⟨%d2, H2⟩, ⟨%d3, H3⟩⟩
        iapply ((runZero13 c (grid13.coords t) _ _ _ _ _ _ _ _ _ _ ((zeroC13_iff t).mpr h0) (fun h => h1 ((flushC13_iff t).mp h)) (iblk13 V c 0 t) (iblk13 V c 1 t) (iblk13 V c 2 t)).2.2 _ Set.univ _)
        isplitl [H0]; · iexact H0
        isplitl [H1]; · iexact H1
        isplitl [H2]; · iexact H2
        isplitl [H3]; · iexact H3
        isplitl [HS]; · iexact HS
        iintro ⟨H0, H1, H2, H3, ⟨%es, HS⟩⟩
        isplitl [HS Hr Hg]
        · isplitl [HS Hr]
          · isplitl [HS]
            · unfold owns; iexists _; isplitr
              swap; · iexact HS
              ipureintro; exact View.read_writes_of_cover _ _ _ _ _ (scover13_Z c _ _ _ _ _ _ _ _ _ _ _ _ _ _ _ _)
            iexact Hr
          iexact Hg
        isplitl [Ho]; · iexact Ho
        isplitl [H0]; · iexact H0
        isplitl [H1]; · iexact H1
        isplitl [H2]; · iexact H2
        iexists _; iexact H3
      · rw [PhiS13_castSucc V c t, PhiS13_pos V c _ _ hz]
        iintro ⟨⟨⟨HS, Hr⟩, Hg⟩, Ho, ⟨%d0, H0⟩, ⟨%d1, H1⟩, ⟨%d2, H2⟩, ⟨%d3, H3⟩⟩
        iapply ((runZero13 c (grid13.coords t) _ _ _ _ _ _ _ _ _ _ ((zeroC13_iff t).mpr h0) (fun h => h1 ((flushC13_iff t).mp h)) (iblk13 V c 0 t) (iblk13 V c 1 t) (iblk13 V c 2 t)).2.2 _ Set.univ _)
        isplitl [H0]; · iexact H0
        isplitl [H1]; · iexact H1
        isplitl [H2]; · iexact H2
        isplitl [H3]; · iexact H3
        isplitl [HS]; · iexists _; iexact HS
        iintro ⟨H0, H1, H2, H3, ⟨%es, HS⟩⟩
        isplitl [HS Hr Hg]
        · isplitl [HS Hr]
          · isplitl [HS]
            · unfold owns; iexists _; isplitr
              swap; · iexact HS
              ipureintro; exact View.read_writes_of_cover _ _ _ _ _ (scover13_Z c _ _ _ _ _ _ _ _ _ _ _ _ _ _ _ _)
            iexact Hr
          iexact Hg
        isplitl [Ho]; · iexact Ho
        isplitl [H0]; · iexact H0
        isplitl [H1]; · iexact H1
        isplitl [H2]; · iexact H2
        iexists _; iexact H3
  · have hz : t.val ≠ 0 := fun e => h0 (by rw [e])
    by_cases h1 : t.val % 10 = 9
    · rw [show (dat13 V c).leavesExact 3 t = owns (c : Thread nD τ) (mO13 t) fullShare ((dat13 V c).after 3 t) from by
        unfold Dat.leavesExact; rw [live13_3 t ((flushC13_iff t).mpr h1)], after13_3]
      rw [outsAt13_L V c t h0 h1]
      unfold out13_L_3 acc13_L; (try dsimp only)
      rw [PhiS13_castSucc V c t, PhiS13_pos V c _ _ hz]
      iintro ⟨⟨⟨HS, Hr⟩, Hg⟩, Ho, ⟨%d0, H0⟩, ⟨%d1, H1⟩, ⟨%d2, H2⟩, ⟨%d3, H3⟩⟩
      iapply ((runLast13 c (grid13.coords t) _ _ _ _ _ _ _ _ _ _ (fun h => h0 ((zeroC13_iff t).mp h)) ((flushC13_iff t).mpr h1) (iblk13 V c 0 t) (iblk13 V c 1 t) (iblk13 V c 2 t) _).2.2 Set.univ _)
      isplitl [H0]; · iexact H0
      isplitl [H1]; · iexact H1
      isplitl [H2]; · iexact H2
      isplitl [H3]; · iexists _; iexact H3
      isplitl [HS]; · iexact HS
      iintro ⟨H0, H1, H2, ⟨%e3, H3⟩, ⟨%es, HS⟩⟩
      isplitl [HS Hr Hg]
      · isplitl [HS Hr]
        · isplitl [HS]
          · unfold owns; iexists _; isplitr
            swap; · iexact HS
            ipureintro; exact View.read_writes_of_cover _ _ _ _ _ (scover13_L c _ _ _ _ _ _ _ _ _ _ _ _ _ _ _ _ _)
          iexact Hr
        iexact Hg
      isplitl [Ho]; · iexact Ho
      isplitl [H0]; · iexact H0
      isplitl [H1]; · iexact H1
      isplitl [H2]; · iexact H2
      unfold owns; iexists _; isplitr
      swap; · iexact H3
      ipureintro; exact View.read_writes_of_cover _ _ _ _ _ (cover13_L_3 c _ _ _ _ _ _ _ _ _ _ _ _ _ _ _ _ _)
    · rw [Dat.leavesExact_idle (dat13 V c) 3 t (idle13_3 t (fun h => h1 ((flushC13_iff t).mp h))) (noFlush13_3 t (fun h => h1 ((flushC13_iff t).mp h)))]
      rw [outsAt13_M V c t h0 h1]
      unfold acc13_M; (try dsimp only)
      rw [PhiS13_castSucc V c t, PhiS13_pos V c _ _ hz]
      iintro ⟨⟨⟨HS, Hr⟩, Hg⟩, Ho, ⟨%d0, H0⟩, ⟨%d1, H1⟩, ⟨%d2, H2⟩, ⟨%d3, H3⟩⟩
      iapply ((runMid13 c (grid13.coords t) _ _ _ _ _ _ _ _ _ _ (fun h => h0 ((zeroC13_iff t).mp h)) (fun h => h1 ((flushC13_iff t).mp h)) (iblk13 V c 0 t) (iblk13 V c 1 t) (iblk13 V c 2 t) _).2.2 _ Set.univ _)
      isplitl [H0]; · iexact H0
      isplitl [H1]; · iexact H1
      isplitl [H2]; · iexact H2
      isplitl [H3]; · iexact H3
      isplitl [HS]; · iexact HS
      iintro ⟨H0, H1, H2, H3, ⟨%es, HS⟩⟩
      isplitl [HS Hr Hg]
      · isplitl [HS Hr]
        · isplitl [HS]
          · unfold owns; iexists _; isplitr
            swap; · iexact HS
            ipureintro; exact View.read_writes_of_cover _ _ _ _ _ (scover13_M c _ _ _ _ _ _ _ _ _ _ _ _ _ _ _ _ _)
          iexact Hr
        iexact Hg
      isplitl [Ho]; · iexact Ho
      isplitl [H0]; · iexact H0
      isplitl [H1]; · iexact H1
      isplitl [H2]; · iexact H2
      iexists _; iexact H3

/-- The library's body obligation, at every point. -/
theorem body_obligation13 (c : Dev nD) : BodyObligation (dat13 (F := F) V c) (defs₀ (F := F)) Variants.none () Set.univ := fun t => by
  rw [bigSep_W13, bigSep_W13]
  exact sound_body13 V c t

/-- What the launch hands the region is the invariant before the first point. -/
theorem hin13 (c : Dev nD) : Pipeline.ΦA spec13 c ⊢ (dat13 V c).Φ 0 := by
  rw [show (dat13 V c).Φ 0 = PhiS13 V c 0 (Nat.zero_le _) from rfl, PhiS13_zero V c 0 _ rfl]
  try exact Idealize.SL.BI.Entails.refl _

/-- After any point the invariant gives the class's back: the accumulator's named contents are forgotten. -/
theorem Phi_out13 (c : Dev nD) (t : Fin (cfg13.N + 1)) (ht : t.val ≠ 0) : (dat13 V c).Φ t ⊢ Pipeline.ΦA spec13 c := by
  rw [show (dat13 V c).Φ t = PhiS13 V c t.val (Nat.le_of_lt_succ t.isLt) from rfl, PhiS13_pos V c _ _ ht, PhiA13_eq]
  iintro ⟨⟨HS, Hr⟩, Hg⟩
  isplitl [HS Hr]
  · isplitl [HS]
    · iexists _; iexact HS
    iexact Hr
  iexact Hg

/-- The same after the last point. -/
theorem hout13 (c : Dev nD) : (dat13 V c).Φ (Fin.last cfg13.N) ⊢ Pipeline.ΦA spec13 c :=
  Phi_out13 V c _ (by rw [Fin.val_last]; have : cfg13.N = 200 := N_13; omega)

end Entry

end Cert.KernelIdeal.Rg

end
-- ==== Proof.KI.Data.lean ====
/- The contents of every unscoped buffer between two segments of @main, named outright: before region 0 what the host operations
   leave of the launch memory; after a region the same except its result array, which holds what the region's write-backs leave;
   after a host stretch the stretch applied. With them the family of the 14 regions' proof data, each at its region's entry contents,
   and the two facts a region's exit needs: every array of the region ends at its exit contents, every other buffer is untouched. -/
import proofs.«181230_j19834158973077_2_alg».proof.Proof.KernelIdealRegions
import proofs.«181230_j19834158973077_2_alg».proof.Proof.KI.Reg0
import proofs.«181230_j19834158973077_2_alg».proof.Proof.KI.Reg1
import proofs.«181230_j19834158973077_2_alg».proof.Proof.KI.Reg2
import proofs.«181230_j19834158973077_2_alg».proof.Proof.KI.Reg3
import proofs.«181230_j19834158973077_2_alg».proof.Proof.KI.Reg4
import proofs.«181230_j19834158973077_2_alg».proof.Proof.KI.Reg5
import proofs.«181230_j19834158973077_2_alg».proof.Proof.KI.Reg6
import proofs.«181230_j19834158973077_2_alg».proof.Proof.KI.Reg7
import proofs.«181230_j19834158973077_2_alg».proof.Proof.KI.Reg8
import proofs.«181230_j19834158973077_2_alg».proof.Proof.KI.Reg9
import proofs.«181230_j19834158973077_2_alg».proof.Proof.KI.Reg10
import proofs.«181230_j19834158973077_2_alg».proof.Proof.KI.Reg11
import proofs.«181230_j19834158973077_2_alg».proof.Proof.KI.Reg12
import proofs.«181230_j19834158973077_2_alg».proof.Proof.KI.Reg13
import Idealize.ShloMosaic.Lib.Pipeline.RegionsLoop
import Idealize.ShloMosaic.Lib.Pipeline.FrameSuffix

set_option maxRecDepth 16384

noncomputable section

namespace Cert.KernelIdeal.Rg

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal Cert.KernelIdeal.Gen

variable {F : FTy → Type} [FloatOps F]

local notation "𝕄" => MT nD τ sig Unit (Elt F) ℕ (UR sig nD τ) ℕ

abbrev L : GSem nD τ sig → Finset Unit := fun _ => ∅
abbrev lv : GSem nD τ sig → Unit → ℕ := fun _ _ => 0
/-- What rides beside the buffers through every segment: the core's generator register at some state and its debts, none. -/
abbrev R (c : Dev nD) : sProp 𝕄 := iprop((∃ r, prngReg c r) ∗ ∃ W, owes (c : Thread nD τ) (0 : CellTallies nD τ sig Unit) W)

variable (m : (ℓ : Loc nD τ sig) → Buf (Elt F) ℓ)

/-! ## The buffers between the segments -/

/-- Before region 0: the launch memory after the host operations that build the adjacency, the padded features, weights and biases. -/
abbrev W15 (c : Dev nD) : Valuation τ sig (Elt F) := V15 m c
/-- The same read at the TensorCore's references (what region 0's proof data take). -/
abbrev B15 : (c : Dev nD) → (b : Ref sig .tc) → Buf (Elt F) ((c : Thread nD τ).loc b) := fun c b => W15 m c b
/-- What region 0 leaves in its result array: the fold of its write-backs over the grid. -/
def res0 (c : Dev nD) : Buf (Elt F) ((c : Thread nD τ).loc main_v60) := (dat0 (B15 m) c).arrAt 3 cfg0.N
/-- After region 0: as before it, except the result array. -/
def W16 (c : Dev nD) : Valuation τ sig (Elt F) := Function.update (W15 m c) main_v60 (res0 m c)
theorem W16_out (c : Dev nD) : W16 m c main_v60 = res0 m c := by unfold W16; exact Function.update_self _ _ _
theorem W16_of_ne (c : Dev nD) (b : Ref sig .tc) (hb : b ≠ main_v60) : W16 m c b = W15 m c b := by
  unfold W16; exact Function.update_of_ne (StableHlo.devRef_ne_of_ne hb) _ _
abbrev B16 : (c : Dev nD) → (b : Ref sig .tc) → Buf (Elt F) ((c : Thread nD τ).loc b) := fun c b => W16 m c b
/-- After the host stretch that follows region 0. -/
abbrev W17 (c : Dev nD) : Valuation τ sig (Elt F) := StableHlo.after hostOps1 (W16 m c)
/-- The same read at the TensorCore's references (what region 1's proof data take). -/
abbrev B17 : (c : Dev nD) → (b : Ref sig .tc) → Buf (Elt F) ((c : Thread nD τ).loc b) := fun c b => W17 m c b
/-- What region 1 leaves in its result array: the fold of its write-backs over the grid. -/
def res1 (c : Dev nD) : Buf (Elt F) ((c : Thread nD τ).loc main_v62) := (dat1 (B17 m) c).arrAt 3 cfg1.N
/-- After region 1: as before it, except the result array. -/
def W18 (c : Dev nD) : Valuation τ sig (Elt F) := Function.update (W17 m c) main_v62 (res1 m c)
theorem W18_out (c : Dev nD) : W18 m c main_v62 = res1 m c := by unfold W18; exact Function.update_self _ _ _
theorem W18_of_ne (c : Dev nD) (b : Ref sig .tc) (hb : b ≠ main_v62) : W18 m c b = W17 m c b := by
  unfold W18; exact Function.update_of_ne (StableHlo.devRef_ne_of_ne hb) _ _
abbrev B18 : (c : Dev nD) → (b : Ref sig .tc) → Buf (Elt F) ((c : Thread nD τ).loc b) := fun c b => W18 m c b
/-- After the host stretch that follows region 1. -/
abbrev W19 (c : Dev nD) : Valuation τ sig (Elt F) := StableHlo.after hostOps2 (W18 m c)
/-- The same read at the TensorCore's references (what region 2's proof data take). -/
abbrev B19 : (c : Dev nD) → (b : Ref sig .tc) → Buf (Elt F) ((c : Thread nD τ).loc b) := fun c b => W19 m c b
/-- What region 2 leaves in its result array: the fold of its write-backs over the grid. -/
def res2 (c : Dev nD) : Buf (Elt F) ((c : Thread nD τ).loc main_v69) := (dat2 (B19 m) c).arrAt 3 cfg2.N
/-- After region 2: as before it, except the result array. -/
def W20 (c : Dev nD) : Valuation τ sig (Elt F) := Function.update (W19 m c) main_v69 (res2 m c)
theorem W20_out (c : Dev nD) : W20 m c main_v69 = res2 m c := by unfold W20; exact Function.update_self _ _ _
theorem W20_of_ne (c : Dev nD) (b : Ref sig .tc) (hb : b ≠ main_v69) : W20 m c b = W19 m c b := by
  unfold W20; exact Function.update_of_ne (StableHlo.devRef_ne_of_ne hb) _ _
abbrev B20 : (c : Dev nD) → (b : Ref sig .tc) → Buf (Elt F) ((c : Thread nD τ).loc b) := fun c b => W20 m c b
/-- After the host stretch that follows region 2. -/
abbrev W21 (c : Dev nD) : Valuation τ sig (Elt F) := StableHlo.after hostOps3 (W20 m c)
/-- The same read at the TensorCore's references (what region 3's proof data take). -/
abbrev B21 : (c : Dev nD) → (b : Ref sig .tc) → Buf (Elt F) ((c : Thread nD τ).loc b) := fun c b => W21 m c b
/-- What region 3 leaves in its result array: the fold of its write-backs over the grid. -/
def res3 (c : Dev nD) : Buf (Elt F) ((c : Thread nD τ).loc main_v71) := (dat3 (B21 m) c).arrAt 3 cfg3.N
/-- After region 3: as before it, except the result array. -/
def W22 (c : Dev nD) : Valuation τ sig (Elt F) := Function.update (W21 m c) main_v71 (res3 m c)
theorem W22_out (c : Dev nD) : W22 m c main_v71 = res3 m c := by unfold W22; exact Function.update_self _ _ _
theorem W22_of_ne (c : Dev nD) (b : Ref sig .tc) (hb : b ≠ main_v71) : W22 m c b = W21 m c b := by
  unfold W22; exact Function.update_of_ne (StableHlo.devRef_ne_of_ne hb) _ _
abbrev B22 : (c : Dev nD) → (b : Ref sig .tc) → Buf (Elt F) ((c : Thread nD τ).loc b) := fun c b => W22 m c b
/-- After the host stretch that follows region 3. -/
abbrev W23 (c : Dev nD) : Valuation τ sig (Elt F) := StableHlo.after hostOps4 (W22 m c)
/-- The same read at the TensorCore's references (what region 4's proof data take). -/
abbrev B23 : (c : Dev nD) → (b : Ref sig .tc) → Buf (Elt F) ((c : Thread nD τ).loc b) := fun c b => W23 m c b
/-- What region 4 leaves in its result array: the fold of its write-backs over the grid. -/
def res4 (c : Dev nD) : Buf (Elt F) ((c : Thread nD τ).loc main_v78) := (dat4 (B23 m) c).arrAt 3 cfg4.N
/-- After region 4: as before it, except the result array. -/
def W24 (c : Dev nD) : Valuation τ sig (Elt F) := Function.update (W23 m c) main_v78 (res4 m c)
theorem W24_out (c : Dev nD) : W24 m c main_v78 = res4 m c := by unfold W24; exact Function.update_self _ _ _
theorem W24_of_ne (c : Dev nD) (b : Ref sig .tc) (hb : b ≠ main_v78) : W24 m c b = W23 m c b := by
  unfold W24; exact Function.update_of_ne (StableHlo.devRef_ne_of_ne hb) _ _
abbrev B24 : (c : Dev nD) → (b : Ref sig .tc) → Buf (Elt F) ((c : Thread nD τ).loc b) := fun c b => W24 m c b
/-- After the host stretch that follows region 4. -/
abbrev W25 (c : Dev nD) : Valuation τ sig (Elt F) := StableHlo.after hostOps5 (W24 m c)
/-- The same read at the TensorCore's references (what region 5's proof data take). -/
abbrev B25 : (c : Dev nD) → (b : Ref sig .tc) → Buf (Elt F) ((c : Thread nD τ).loc b) := fun c b => W25 m c b
/-- What region 5 leaves in its result array: the fold of its write-backs over the grid. -/
def res5 (c : Dev nD) : Buf (Elt F) ((c : Thread nD τ).loc main_v80) := (dat5 (B25 m) c).arrAt 3 cfg5.N
/-- After region 5: as before it, except the result array. -/
def W26 (c : Dev nD) : Valuation τ sig (Elt F) := Function.update (W25 m c) main_v80 (res5 m c)
theorem W26_out (c : Dev nD) : W26 m c main_v80 = res5 m c := by unfold W26; exact Function.update_self _ _ _
theorem W26_of_ne (c : Dev nD) (b : Ref sig .tc) (hb : b ≠ main_v80) : W26 m c b = W25 m c b := by
  unfold W26; exact Function.update_of_ne (StableHlo.devRef_ne_of_ne hb) _ _
abbrev B26 : (c : Dev nD) → (b : Ref sig .tc) → Buf (Elt F) ((c : Thread nD τ).loc b) := fun c b => W26 m c b
/-- After the host stretch that follows region 5. -/
abbrev W27 (c : Dev nD) : Valuation τ sig (Elt F) := StableHlo.after hostOps6 (W26 m c)
/-- The same read at the TensorCore's references (what region 6's proof data take). -/
abbrev B27 : (c : Dev nD) → (b : Ref sig .tc) → Buf (Elt F) ((c : Thread nD τ).loc b) := fun c b => W27 m c b
/-- What region 6 leaves in its result array: the fold of its write-backs over the grid. -/
def res6 (c : Dev nD) : Buf (Elt F) ((c : Thread nD τ).loc main_v87) := (dat6 (B27 m) c).arrAt 3 cfg6.N
/-- After region 6: as before it, except the result array. -/
def W28 (c : Dev nD) : Valuation τ sig (Elt F) := Function.update (W27 m c) main_v87 (res6 m c)
theorem W28_out (c : Dev nD) : W28 m c main_v87 = res6 m c := by unfold W28; exact Function.update_self _ _ _
theorem W28_of_ne (c : Dev nD) (b : Ref sig .tc) (hb : b ≠ main_v87) : W28 m c b = W27 m c b := by
  unfold W28; exact Function.update_of_ne (StableHlo.devRef_ne_of_ne hb) _ _
abbrev B28 : (c : Dev nD) → (b : Ref sig .tc) → Buf (Elt F) ((c : Thread nD τ).loc b) := fun c b => W28 m c b
/-- After the host stretch that follows region 6. -/
abbrev W29 (c : Dev nD) : Valuation τ sig (Elt F) := StableHlo.after hostOps7 (W28 m c)
/-- The same read at the TensorCore's references (what region 7's proof data take). -/
abbrev B29 : (c : Dev nD) → (b : Ref sig .tc) → Buf (Elt F) ((c : Thread nD τ).loc b) := fun c b => W29 m c b
/-- What region 7 leaves in its result array: the fold of its write-backs over the grid. -/
def res7 (c : Dev nD) : Buf (Elt F) ((c : Thread nD τ).loc main_v89) := (dat7 (B29 m) c).arrAt 3 cfg7.N
/-- After region 7: as before it, except the result array. -/
def W30 (c : Dev nD) : Valuation τ sig (Elt F) := Function.update (W29 m c) main_v89 (res7 m c)
theorem W30_out (c : Dev nD) : W30 m c main_v89 = res7 m c := by unfold W30; exact Function.update_self _ _ _
theorem W30_of_ne (c : Dev nD) (b : Ref sig .tc) (hb : b ≠ main_v89) : W30 m c b = W29 m c b := by
  unfold W30; exact Function.update_of_ne (StableHlo.devRef_ne_of_ne hb) _ _
abbrev B30 : (c : Dev nD) → (b : Ref sig .tc) → Buf (Elt F) ((c : Thread nD τ).loc b) := fun c b => W30 m c b
/-- After the host stretch that follows region 7. -/
abbrev W31 (c : Dev nD) : Valuation τ sig (Elt F) := StableHlo.after hostOps8 (W30 m c)
/-- The same read at the TensorCore's references (what region 8's proof data take). -/
abbrev B31 : (c : Dev nD) → (b : Ref sig .tc) → Buf (Elt F) ((c : Thread nD τ).loc b) := fun c b => W31 m c b
/-- What region 8 leaves in its result array: the fold of its write-backs over the grid. -/
def res8 (c : Dev nD) : Buf (Elt F) ((c : Thread nD τ).loc main_v96) := (dat8 (B31 m) c).arrAt 3 cfg8.N
/-- After region 8: as before it, except the result array. -/
def W32 (c : Dev nD) : Valuation τ sig (Elt F) := Function.update (W31 m c) main_v96 (res8 m c)
theorem W32_out (c : Dev nD) : W32 m c main_v96 = res8 m c := by unfold W32; exact Function.update_self _ _ _
theorem W32_of_ne (c : Dev nD) (b : Ref sig .tc) (hb : b ≠ main_v96) : W32 m c b = W31 m c b := by
  unfold W32; exact Function.update_of_ne (StableHlo.devRef_ne_of_ne hb) _ _
abbrev B32 : (c : Dev nD) → (b : Ref sig .tc) → Buf (Elt F) ((c : Thread nD τ).loc b) := fun c b => W32 m c b
/-- After the host stretch that follows region 8. -/
abbrev W33 (c : Dev nD) : Valuation τ sig (Elt F) := StableHlo.after hostOps9 (W32 m c)
/-- The same read at the TensorCore's references (what region 9's proof data take). -/
abbrev B33 : (c : Dev nD) → (b : Ref sig .tc) → Buf (Elt F) ((c : Thread nD τ).loc b) := fun c b => W33 m c b
/-- What region 9 leaves in its result array: the fold of its write-backs over the grid. -/
def res9 (c : Dev nD) : Buf (Elt F) ((c : Thread nD τ).loc main_v98) := (dat9 (B33 m) c).arrAt 3 cfg9.N
/-- After region 9: as before it, except the result array. -/
def W34 (c : Dev nD) : Valuation τ sig (Elt F) := Function.update (W33 m c) main_v98 (res9 m c)
theorem W34_out (c : Dev nD) : W34 m c main_v98 = res9 m c := by unfold W34; exact Function.update_self _ _ _
theorem W34_of_ne (c : Dev nD) (b : Ref sig .tc) (hb : b ≠ main_v98) : W34 m c b = W33 m c b := by
  unfold W34; exact Function.update_of_ne (StableHlo.devRef_ne_of_ne hb) _ _
abbrev B34 : (c : Dev nD) → (b : Ref sig .tc) → Buf (Elt F) ((c : Thread nD τ).loc b) := fun c b => W34 m c b
/-- After the host stretch that follows region 9. -/
abbrev W35 (c : Dev nD) : Valuation τ sig (Elt F) := StableHlo.after hostOps10 (W34 m c)
/-- The same read at the TensorCore's references (what region 10's proof data take). -/
abbrev B35 : (c : Dev nD) → (b : Ref sig .tc) → Buf (Elt F) ((c : Thread nD τ).loc b) := fun c b => W35 m c b
/-- What region 10 leaves in its result array: the fold of its write-backs over the grid. -/
def res10 (c : Dev nD) : Buf (Elt F) ((c : Thread nD τ).loc main_v105) := (dat10 (B35 m) c).arrAt 3 cfg10.N
/-- After region 10: as before it, except the result array. -/
def W36 (c : Dev nD) : Valuation τ sig (Elt F) := Function.update (W35 m c) main_v105 (res10 m c)
theorem W36_out (c : Dev nD) : W36 m c main_v105 = res10 m c := by unfold W36; exact Function.update_self _ _ _
theorem W36_of_ne (c : Dev nD) (b : Ref sig .tc) (hb : b ≠ main_v105) : W36 m c b = W35 m c b := by
  unfold W36; exact Function.update_of_ne (StableHlo.devRef_ne_of_ne hb) _ _
abbrev B36 : (c : Dev nD) → (b : Ref sig .tc) → Buf (Elt F) ((c : Thread nD τ).loc b) := fun c b => W36 m c b
/-- After the host stretch that follows region 10. -/
abbrev W37 (c : Dev nD) : Valuation τ sig (Elt F) := StableHlo.after hostOps11 (W36 m c)
/-- The same read at the TensorCore's references (what region 11's proof data take). -/
abbrev B37 : (c : Dev nD) → (b : Ref sig .tc) → Buf (Elt F) ((c : Thread nD τ).loc b) := fun c b => W37 m c b
/-- What region 11 leaves in its result array: the fold of its write-backs over the grid. -/
def res11 (c : Dev nD) : Buf (Elt F) ((c : Thread nD τ).loc main_v107) := (dat11 (B37 m) c).arrAt 3 cfg11.N
/-- After region 11: as before it, except the result array. -/
def W38 (c : Dev nD) : Valuation τ sig (Elt F) := Function.update (W37 m c) main_v107 (res11 m c)
theorem W38_out (c : Dev nD) : W38 m c main_v107 = res11 m c := by unfold W38; exact Function.update_self _ _ _
theorem W38_of_ne (c : Dev nD) (b : Ref sig .tc) (hb : b ≠ main_v107) : W38 m c b = W37 m c b := by
  unfold W38; exact Function.update_of_ne (StableHlo.devRef_ne_of_ne hb) _ _
abbrev B38 : (c : Dev nD) → (b : Ref sig .tc) → Buf (Elt F) ((c : Thread nD τ).loc b) := fun c b => W38 m c b
/-- After the host stretch that follows region 11. -/
abbrev W39 (c : Dev nD) : Valuation τ sig (Elt F) := StableHlo.after hostOps12 (W38 m c)
/-- The same read at the TensorCore's references (what region 12's proof data take). -/
abbrev B39 : (c : Dev nD) → (b : Ref sig .tc) → Buf (Elt F) ((c : Thread nD τ).loc b) := fun c b => W39 m c b
/-- What region 12 leaves in its result array: the fold of its write-backs over the grid. -/
def res12 (c : Dev nD) : Buf (Elt F) ((c : Thread nD τ).loc main_v110) := (dat12 (B39 m) c).arrAt 3 cfg12.N
/-- After region 12: as before it, except the result array. -/
def W40 (c : Dev nD) : Valuation τ sig (Elt F) := Function.update (W39 m c) main_v110 (res12 m c)
theorem W40_out (c : Dev nD) : W40 m c main_v110 = res12 m c := by unfold W40; exact Function.update_self _ _ _
theorem W40_of_ne (c : Dev nD) (b : Ref sig .tc) (hb : b ≠ main_v110) : W40 m c b = W39 m c b := by
  unfold W40; exact Function.update_of_ne (StableHlo.devRef_ne_of_ne hb) _ _
abbrev B40 : (c : Dev nD) → (b : Ref sig .tc) → Buf (Elt F) ((c : Thread nD τ).loc b) := fun c b => W40 m c b
/-- After the host stretch that follows region 12. -/
abbrev W41 (c : Dev nD) : Valuation τ sig (Elt F) := StableHlo.after hostOps13 (W40 m c)
/-- The same read at the TensorCore's references (what region 13's proof data take). -/
abbrev B41 : (c : Dev nD) → (b : Ref sig .tc) → Buf (Elt F) ((c : Thread nD τ).loc b) := fun c b => W41 m c b
/-- What region 13 leaves in its result array: the fold of its write-backs over the grid. -/
def res13 (c : Dev nD) : Buf (Elt F) ((c : Thread nD τ).loc main_v112) := (dat13 (B41 m) c).arrAt 3 cfg13.N
/-- After region 13: as before it, except the result array. -/
def W42 (c : Dev nD) : Valuation τ sig (Elt F) := Function.update (W41 m c) main_v112 (res13 m c)
theorem W42_out (c : Dev nD) : W42 m c main_v112 = res13 m c := by unfold W42; exact Function.update_self _ _ _
theorem W42_of_ne (c : Dev nD) (b : Ref sig .tc) (hb : b ≠ main_v112) : W42 m c b = W41 m c b := by
  unfold W42; exact Function.update_of_ne (StableHlo.devRef_ne_of_ne hb) _ _
abbrev B42 : (c : Dev nD) → (b : Ref sig .tc) → Buf (Elt F) ((c : Thread nD τ).loc b) := fun c b => W42 m c b
/-- After the host stretch that follows region 13. -/
abbrev W43 (c : Dev nD) : Valuation τ sig (Elt F) := StableHlo.after hostOps14 (W42 m c)

/-! ## The same contents as the conditional frame's unknowns -/

/-- The contents after item n − 1, for the items that are regions. -/
def contents : ℕ → Dev nD → Valuation τ sig (Elt F)
  | 16 => W16 m
  | 18 => W18 m
  | 20 => W20 m
  | 22 => W22 m
  | 24 => W24 m
  | 26 => W26 m
  | 28 => W28 m
  | 30 => W30 m
  | 32 => W32 m
  | 34 => W34 m
  | 36 => W36 m
  | 38 => W38 m
  | 40 => W40 m
  | 42 => W42 m
  | _ => W15 m
/-- What each region leaves in the buffers it may change, read off the named contents. -/
def outs : Outs (F := F) := fun n r c => contents m n c r

theorem V16_eq (c : Dev nD) : V16 m (outs m) c = W16 m c := by
  show Function.update (V15 m c) main_v60 (W16 m c main_v60) = W16 m c
  unfold W16; rw [Function.update_self]
theorem V17_eq (c : Dev nD) : V17 m (outs m) c = W17 m c := by
  show StableHlo.after hostOps1 (V16 m (outs m) c) = _; rw [V16_eq]
theorem V18_eq (c : Dev nD) : V18 m (outs m) c = W18 m c := by
  show Function.update (V17 m (outs m) c) main_v62 (W18 m c main_v62) = W18 m c
  rw [V17_eq]; unfold W18; rw [Function.update_self]
theorem V19_eq (c : Dev nD) : V19 m (outs m) c = W19 m c := by
  show StableHlo.after hostOps2 (V18 m (outs m) c) = _; rw [V18_eq]
theorem V20_eq (c : Dev nD) : V20 m (outs m) c = W20 m c := by
  show Function.update (V19 m (outs m) c) main_v69 (W20 m c main_v69) = W20 m c
  rw [V19_eq]; unfold W20; rw [Function.update_self]
theorem V21_eq (c : Dev nD) : V21 m (outs m) c = W21 m c := by
  show StableHlo.after hostOps3 (V20 m (outs m) c) = _; rw [V20_eq]
theorem V22_eq (c : Dev nD) : V22 m (outs m) c = W22 m c := by
  show Function.update (V21 m (outs m) c) main_v71 (W22 m c main_v71) = W22 m c
  rw [V21_eq]; unfold W22; rw [Function.update_self]
theorem V23_eq (c : Dev nD) : V23 m (outs m) c = W23 m c := by
  show StableHlo.after hostOps4 (V22 m (outs m) c) = _; rw [V22_eq]
theorem V24_eq (c : Dev nD) : V24 m (outs m) c = W24 m c := by
  show Function.update (V23 m (outs m) c) main_v78 (W24 m c main_v78) = W24 m c
  rw [V23_eq]; unfold W24; rw [Function.update_self]
theorem V25_eq (c : Dev nD) : V25 m (outs m) c = W25 m c := by
  show StableHlo.after hostOps5 (V24 m (outs m) c) = _; rw [V24_eq]
theorem V26_eq (c : Dev nD) : V26 m (outs m) c = W26 m c := by
  show Function.update (V25 m (outs m) c) main_v80 (W26 m c main_v80) = W26 m c
  rw [V25_eq]; unfold W26; rw [Function.update_self]
theorem V27_eq (c : Dev nD) : V27 m (outs m) c = W27 m c := by
  show StableHlo.after hostOps6 (V26 m (outs m) c) = _; rw [V26_eq]
theorem V28_eq (c : Dev nD) : V28 m (outs m) c = W28 m c := by
  show Function.update (V27 m (outs m) c) main_v87 (W28 m c main_v87) = W28 m c
  rw [V27_eq]; unfold W28; rw [Function.update_self]
theorem V29_eq (c : Dev nD) : V29 m (outs m) c = W29 m c := by
  show StableHlo.after hostOps7 (V28 m (outs m) c) = _; rw [V28_eq]
theorem V30_eq (c : Dev nD) : V30 m (outs m) c = W30 m c := by
  show Function.update (V29 m (outs m) c) main_v89 (W30 m c main_v89) = W30 m c
  rw [V29_eq]; unfold W30; rw [Function.update_self]
theorem V31_eq (c : Dev nD) : V31 m (outs m) c = W31 m c := by
  show StableHlo.after hostOps8 (V30 m (outs m) c) = _; rw [V30_eq]
theorem V32_eq (c : Dev nD) : V32 m (outs m) c = W32 m c := by
  show Function.update (V31 m (outs m) c) main_v96 (W32 m c main_v96) = W32 m c
  rw [V31_eq]; unfold W32; rw [Function.update_self]
theorem V33_eq (c : Dev nD) : V33 m (outs m) c = W33 m c := by
  show StableHlo.after hostOps9 (V32 m (outs m) c) = _; rw [V32_eq]
theorem V34_eq (c : Dev nD) : V34 m (outs m) c = W34 m c := by
  show Function.update (V33 m (outs m) c) main_v98 (W34 m c main_v98) = W34 m c
  rw [V33_eq]; unfold W34; rw [Function.update_self]
theorem V35_eq (c : Dev nD) : V35 m (outs m) c = W35 m c := by
  show StableHlo.after hostOps10 (V34 m (outs m) c) = _; rw [V34_eq]
theorem V36_eq (c : Dev nD) : V36 m (outs m) c = W36 m c := by
  show Function.update (V35 m (outs m) c) main_v105 (W36 m c main_v105) = W36 m c
  rw [V35_eq]; unfold W36; rw [Function.update_self]
theorem V37_eq (c : Dev nD) : V37 m (outs m) c = W37 m c := by
  show StableHlo.after hostOps11 (V36 m (outs m) c) = _; rw [V36_eq]
theorem V38_eq (c : Dev nD) : V38 m (outs m) c = W38 m c := by
  show Function.update (V37 m (outs m) c) main_v107 (W38 m c main_v107) = W38 m c
  rw [V37_eq]; unfold W38; rw [Function.update_self]
theorem V39_eq (c : Dev nD) : V39 m (outs m) c = W39 m c := by
  show StableHlo.after hostOps12 (V38 m (outs m) c) = _; rw [V38_eq]
theorem V40_eq (c : Dev nD) : V40 m (outs m) c = W40 m c := by
  show Function.update (V39 m (outs m) c) main_v110 (W40 m c main_v110) = W40 m c
  rw [V39_eq]; unfold W40; rw [Function.update_self]
theorem V41_eq (c : Dev nD) : V41 m (outs m) c = W41 m c := by
  show StableHlo.after hostOps13 (V40 m (outs m) c) = _; rw [V40_eq]
theorem V42_eq (c : Dev nD) : V42 m (outs m) c = W42 m c := by
  show Function.update (V41 m (outs m) c) main_v112 (W42 m c main_v112) = W42 m c
  rw [V41_eq]; unfold W42; rw [Function.update_self]
theorem V43_eq (c : Dev nD) : V43 m (outs m) c = W43 m c := by
  show StableHlo.after hostOps14 (V42 m (outs m) c) = _; rw [V42_eq]

/-! ## The proof data of the 14 pipelines, each at its region's entry contents — a literal match on the pipeline's number -/

def pdats : (p : Fin 14) → (c : Dev nD) → Dat τ (Elt F) Unit ℕ (UR sig nD τ) ℕ (cfgs p) c
  | ⟨0, _⟩ => fun c => dat0 (B15 m) c
  | ⟨1, _⟩ => fun c => dat1 (B17 m) c
  | ⟨2, _⟩ => fun c => dat2 (B19 m) c
  | ⟨3, _⟩ => fun c => dat3 (B21 m) c
  | ⟨4, _⟩ => fun c => dat4 (B23 m) c
  | ⟨5, _⟩ => fun c => dat5 (B25 m) c
  | ⟨6, _⟩ => fun c => dat6 (B27 m) c
  | ⟨7, _⟩ => fun c => dat7 (B29 m) c
  | ⟨8, _⟩ => fun c => dat8 (B31 m) c
  | ⟨9, _⟩ => fun c => dat9 (B33 m) c
  | ⟨10, _⟩ => fun c => dat10 (B35 m) c
  | ⟨11, _⟩ => fun c => dat11 (B37 m) c
  | ⟨12, _⟩ => fun c => dat12 (B39 m) c
  | ⟨13, _⟩ => fun c => dat13 (B41 m) c

/-! ## At a region's exit: each of its arrays holds the exit contents, every other buffer the entry contents -/

/-- Region 0: an input window's array is never written back, so it ends as entered, and the exit contents differ from the entry
    contents at the result's buffer only; the result's array ends at the fold of the write-backs, by the exit contents' definition. -/
theorem ne0_0 : Pipeline.arrRef spec0 0 ≠ main_v60 := by decide
theorem ne0_1 : Pipeline.arrRef spec0 1 ≠ main_v60 := by decide
theorem ne0_2 : Pipeline.arrRef spec0 2 ≠ main_v60 := by decide
theorem hF0_0 (c : Dev nD) : (dat0 (B15 m) c).arrAt 0 cfg0.N = B16 m c (Pipeline.arrRef spec0 0) :=
  ((dat0 (B15 m) c).arrAt_in 0 rfl _).trans ((A_eq0 (B15 m) c 0).trans (W16_of_ne m c _ ne0_0).symm)
theorem hF0_1 (c : Dev nD) : (dat0 (B15 m) c).arrAt 1 cfg0.N = B16 m c (Pipeline.arrRef spec0 1) :=
  ((dat0 (B15 m) c).arrAt_in 1 rfl _).trans ((A_eq0 (B15 m) c 1).trans (W16_of_ne m c _ ne0_1).symm)
theorem hF0_2 (c : Dev nD) : (dat0 (B15 m) c).arrAt 2 cfg0.N = B16 m c (Pipeline.arrRef spec0 2) :=
  ((dat0 (B15 m) c).arrAt_in 2 rfl _).trans ((A_eq0 (B15 m) c 2).trans (W16_of_ne m c _ ne0_2).symm)
theorem hF0_3 (c : Dev nD) : (dat0 (B15 m) c).arrAt 3 cfg0.N = B16 m c (Pipeline.arrRef spec0 3) := (W16_out m c).symm
theorem hF0 (c : Dev nD) (w : Fin cfg0.W) : (pdats m 0 c).arrAt w cfg0.N = B16 m c (Pipeline.arrRef spec0 w) := by
  show (dat0 (B15 m) c).arrAt w cfg0.N = _
  match w with
  | ⟨0, _⟩ => exact hF0_0 m c
  | ⟨1, _⟩ => exact hF0_1 m c
  | ⟨2, _⟩ => exact hF0_2 m c
  | ⟨3, _⟩ => exact hF0_3 m c
theorem hrest0 (c : Dev nD) : ∀ b, b ∉ Finset.univ.image (Pipeline.arrRef spec0) → B16 m c b = B15 m c b :=
  fun b hb => W16_of_ne m c b fun e => hb (Finset.mem_image.mpr ⟨3, Finset.mem_univ _, e.symm ▸ (rfl : Pipeline.arrRef spec0 3 = main_v60)⟩)
/-- Region 1: an input window's array is never written back, so it ends as entered, and the exit contents differ from the entry
    contents at the result's buffer only; the result's array ends at the fold of the write-backs, by the exit contents' definition. -/
theorem ne1_0 : Pipeline.arrRef spec1 0 ≠ main_v62 := by decide
theorem ne1_1 : Pipeline.arrRef spec1 1 ≠ main_v62 := by decide
theorem ne1_2 : Pipeline.arrRef spec1 2 ≠ main_v62 := by decide
theorem hF1_0 (c : Dev nD) : (dat1 (B17 m) c).arrAt 0 cfg1.N = B18 m c (Pipeline.arrRef spec1 0) :=
  ((dat1 (B17 m) c).arrAt_in 0 rfl _).trans ((A_eq1 (B17 m) c 0).trans (W18_of_ne m c _ ne1_0).symm)
theorem hF1_1 (c : Dev nD) : (dat1 (B17 m) c).arrAt 1 cfg1.N = B18 m c (Pipeline.arrRef spec1 1) :=
  ((dat1 (B17 m) c).arrAt_in 1 rfl _).trans ((A_eq1 (B17 m) c 1).trans (W18_of_ne m c _ ne1_1).symm)
theorem hF1_2 (c : Dev nD) : (dat1 (B17 m) c).arrAt 2 cfg1.N = B18 m c (Pipeline.arrRef spec1 2) :=
  ((dat1 (B17 m) c).arrAt_in 2 rfl _).trans ((A_eq1 (B17 m) c 2).trans (W18_of_ne m c _ ne1_2).symm)
theorem hF1_3 (c : Dev nD) : (dat1 (B17 m) c).arrAt 3 cfg1.N = B18 m c (Pipeline.arrRef spec1 3) := (W18_out m c).symm
theorem hF1 (c : Dev nD) (w : Fin cfg1.W) : (pdats m 1 c).arrAt w cfg1.N = B18 m c (Pipeline.arrRef spec1 w) := by
  show (dat1 (B17 m) c).arrAt w cfg1.N = _
  match w with
  | ⟨0, _⟩ => exact hF1_0 m c
  | ⟨1, _⟩ => exact hF1_1 m c
  | ⟨2, _⟩ => exact hF1_2 m c
  | ⟨3, _⟩ => exact hF1_3 m c
theorem hrest1 (c : Dev nD) : ∀ b, b ∉ Finset.univ.image (Pipeline.arrRef spec1) → B18 m c b = B17 m c b :=
  fun b hb => W18_of_ne m c b fun e => hb (Finset.mem_image.mpr ⟨3, Finset.mem_univ _, e.symm ▸ (rfl : Pipeline.arrRef spec1 3 = main_v62)⟩)
/-- Region 2: an input window's array is never written back, so it ends as entered, and the exit contents differ from the entry
    contents at the result's buffer only; the result's array ends at the fold of the write-backs, by the exit contents' definition. -/
theorem ne2_0 : Pipeline.arrRef spec2 0 ≠ main_v69 := by decide
theorem ne2_1 : Pipeline.arrRef spec2 1 ≠ main_v69 := by decide
theorem ne2_2 : Pipeline.arrRef spec2 2 ≠ main_v69 := by decide
theorem hF2_0 (c : Dev nD) : (dat2 (B19 m) c).arrAt 0 cfg2.N = B20 m c (Pipeline.arrRef spec2 0) :=
  ((dat2 (B19 m) c).arrAt_in 0 rfl _).trans ((A_eq2 (B19 m) c 0).trans (W20_of_ne m c _ ne2_0).symm)
theorem hF2_1 (c : Dev nD) : (dat2 (B19 m) c).arrAt 1 cfg2.N = B20 m c (Pipeline.arrRef spec2 1) :=
  ((dat2 (B19 m) c).arrAt_in 1 rfl _).trans ((A_eq2 (B19 m) c 1).trans (W20_of_ne m c _ ne2_1).symm)
theorem hF2_2 (c : Dev nD) : (dat2 (B19 m) c).arrAt 2 cfg2.N = B20 m c (Pipeline.arrRef spec2 2) :=
  ((dat2 (B19 m) c).arrAt_in 2 rfl _).trans ((A_eq2 (B19 m) c 2).trans (W20_of_ne m c _ ne2_2).symm)
theorem hF2_3 (c : Dev nD) : (dat2 (B19 m) c).arrAt 3 cfg2.N = B20 m c (Pipeline.arrRef spec2 3) := (W20_out m c).symm
theorem hF2 (c : Dev nD) (w : Fin cfg2.W) : (pdats m 2 c).arrAt w cfg2.N = B20 m c (Pipeline.arrRef spec2 w) := by
  show (dat2 (B19 m) c).arrAt w cfg2.N = _
  match w with
  | ⟨0, _⟩ => exact hF2_0 m c
  | ⟨1, _⟩ => exact hF2_1 m c
  | ⟨2, _⟩ => exact hF2_2 m c
  | ⟨3, _⟩ => exact hF2_3 m c
theorem hrest2 (c : Dev nD) : ∀ b, b ∉ Finset.univ.image (Pipeline.arrRef spec2) → B20 m c b = B19 m c b :=
  fun b hb => W20_of_ne m c b fun e => hb (Finset.mem_image.mpr ⟨3, Finset.mem_univ _, e.symm ▸ (rfl : Pipeline.arrRef spec2 3 = main_v69)⟩)
/-- Region 3: an input window's array is never written back, so it ends as entered, and the exit contents differ from the entry
    contents at the result's buffer only; the result's array ends at the fold of the write-backs, by the exit contents' definition. -/
theorem ne3_0 : Pipeline.arrRef spec3 0 ≠ main_v71 := by decide
theorem ne3_1 : Pipeline.arrRef spec3 1 ≠ main_v71 := by decide
theorem ne3_2 : Pipeline.arrRef spec3 2 ≠ main_v71 := by decide
theorem hF3_0 (c : Dev nD) : (dat3 (B21 m) c).arrAt 0 cfg3.N = B22 m c (Pipeline.arrRef spec3 0) :=
  ((dat3 (B21 m) c).arrAt_in 0 rfl _).trans ((A_eq3 (B21 m) c 0).trans (W22_of_ne m c _ ne3_0).symm)
theorem hF3_1 (c : Dev nD) : (dat3 (B21 m) c).arrAt 1 cfg3.N = B22 m c (Pipeline.arrRef spec3 1) :=
  ((dat3 (B21 m) c).arrAt_in 1 rfl _).trans ((A_eq3 (B21 m) c 1).trans (W22_of_ne m c _ ne3_1).symm)
theorem hF3_2 (c : Dev nD) : (dat3 (B21 m) c).arrAt 2 cfg3.N = B22 m c (Pipeline.arrRef spec3 2) :=
  ((dat3 (B21 m) c).arrAt_in 2 rfl _).trans ((A_eq3 (B21 m) c 2).trans (W22_of_ne m c _ ne3_2).symm)
theorem hF3_3 (c : Dev nD) : (dat3 (B21 m) c).arrAt 3 cfg3.N = B22 m c (Pipeline.arrRef spec3 3) := (W22_out m c).symm
theorem hF3 (c : Dev nD) (w : Fin cfg3.W) : (pdats m 3 c).arrAt w cfg3.N = B22 m c (Pipeline.arrRef spec3 w) := by
  show (dat3 (B21 m) c).arrAt w cfg3.N = _
  match w with
  | ⟨0, _⟩ => exact hF3_0 m c
  | ⟨1, _⟩ => exact hF3_1 m c
  | ⟨2, _⟩ => exact hF3_2 m c
  | ⟨3, _⟩ => exact hF3_3 m c
theorem hrest3 (c : Dev nD) : ∀ b, b ∉ Finset.univ.image (Pipeline.arrRef spec3) → B22 m c b = B21 m c b :=
  fun b hb => W22_of_ne m c b fun e => hb (Finset.mem_image.mpr ⟨3, Finset.mem_univ _, e.symm ▸ (rfl : Pipeline.arrRef spec3 3 = main_v71)⟩)
/-- Region 4: an input window's array is never written back, so it ends as entered, and the exit contents differ from the entry
    contents at the result's buffer only; the result's array ends at the fold of the write-backs, by the exit contents' definition. -/
theorem ne4_0 : Pipeline.arrRef spec4 0 ≠ main_v78 := by decide
theorem ne4_1 : Pipeline.arrRef spec4 1 ≠ main_v78 := by decide
theorem ne4_2 : Pipeline.arrRef spec4 2 ≠ main_v78 := by decide
theorem hF4_0 (c : Dev nD) : (dat4 (B23 m) c).arrAt 0 cfg4.N = B24 m c (Pipeline.arrRef spec4 0) :=
  ((dat4 (B23 m) c).arrAt_in 0 rfl _).trans ((A_eq4 (B23 m) c 0).trans (W24_of_ne m c _ ne4_0).symm)
theorem hF4_1 (c : Dev nD) : (dat4 (B23 m) c).arrAt 1 cfg4.N = B24 m c (Pipeline.arrRef spec4 1) :=
  ((dat4 (B23 m) c).arrAt_in 1 rfl _).trans ((A_eq4 (B23 m) c 1).trans (W24_of_ne m c _ ne4_1).symm)
theorem hF4_2 (c : Dev nD) : (dat4 (B23 m) c).arrAt 2 cfg4.N = B24 m c (Pipeline.arrRef spec4 2) :=
  ((dat4 (B23 m) c).arrAt_in 2 rfl _).trans ((A_eq4 (B23 m) c 2).trans (W24_of_ne m c _ ne4_2).symm)
theorem hF4_3 (c : Dev nD) : (dat4 (B23 m) c).arrAt 3 cfg4.N = B24 m c (Pipeline.arrRef spec4 3) := (W24_out m c).symm
theorem hF4 (c : Dev nD) (w : Fin cfg4.W) : (pdats m 4 c).arrAt w cfg4.N = B24 m c (Pipeline.arrRef spec4 w) := by
  show (dat4 (B23 m) c).arrAt w cfg4.N = _
  match w with
  | ⟨0, _⟩ => exact hF4_0 m c
  | ⟨1, _⟩ => exact hF4_1 m c
  | ⟨2, _⟩ => exact hF4_2 m c
  | ⟨3, _⟩ => exact hF4_3 m c
theorem hrest4 (c : Dev nD) : ∀ b, b ∉ Finset.univ.image (Pipeline.arrRef spec4) → B24 m c b = B23 m c b :=
  fun b hb => W24_of_ne m c b fun e => hb (Finset.mem_image.mpr ⟨3, Finset.mem_univ _, e.symm ▸ (rfl : Pipeline.arrRef spec4 3 = main_v78)⟩)
/-- Region 5: an input window's array is never written back, so it ends as entered, and the exit contents differ from the entry
    contents at the result's buffer only; the result's array ends at the fold of the write-backs, by the exit contents' definition. -/
theorem ne5_0 : Pipeline.arrRef spec5 0 ≠ main_v80 := by decide
theorem ne5_1 : Pipeline.arrRef spec5 1 ≠ main_v80 := by decide
theorem ne5_2 : Pipeline.arrRef spec5 2 ≠ main_v80 := by decide
theorem hF5_0 (c : Dev nD) : (dat5 (B25 m) c).arrAt 0 cfg5.N = B26 m c (Pipeline.arrRef spec5 0) :=
  ((dat5 (B25 m) c).arrAt_in 0 rfl _).trans ((A_eq5 (B25 m) c 0).trans (W26_of_ne m c _ ne5_0).symm)
theorem hF5_1 (c : Dev nD) : (dat5 (B25 m) c).arrAt 1 cfg5.N = B26 m c (Pipeline.arrRef spec5 1) :=
  ((dat5 (B25 m) c).arrAt_in 1 rfl _).trans ((A_eq5 (B25 m) c 1).trans (W26_of_ne m c _ ne5_1).symm)
theorem hF5_2 (c : Dev nD) : (dat5 (B25 m) c).arrAt 2 cfg5.N = B26 m c (Pipeline.arrRef spec5 2) :=
  ((dat5 (B25 m) c).arrAt_in 2 rfl _).trans ((A_eq5 (B25 m) c 2).trans (W26_of_ne m c _ ne5_2).symm)
theorem hF5_3 (c : Dev nD) : (dat5 (B25 m) c).arrAt 3 cfg5.N = B26 m c (Pipeline.arrRef spec5 3) := (W26_out m c).symm
theorem hF5 (c : Dev nD) (w : Fin cfg5.W) : (pdats m 5 c).arrAt w cfg5.N = B26 m c (Pipeline.arrRef spec5 w) := by
  show (dat5 (B25 m) c).arrAt w cfg5.N = _
  match w with
  | ⟨0, _⟩ => exact hF5_0 m c
  | ⟨1, _⟩ => exact hF5_1 m c
  | ⟨2, _⟩ => exact hF5_2 m c
  | ⟨3, _⟩ => exact hF5_3 m c
theorem hrest5 (c : Dev nD) : ∀ b, b ∉ Finset.univ.image (Pipeline.arrRef spec5) → B26 m c b = B25 m c b :=
  fun b hb => W26_of_ne m c b fun e => hb (Finset.mem_image.mpr ⟨3, Finset.mem_univ _, e.symm ▸ (rfl : Pipeline.arrRef spec5 3 = main_v80)⟩)
/-- Region 6: an input window's array is never written back, so it ends as entered, and the exit contents differ from the entry
    contents at the result's buffer only; the result's array ends at the fold of the write-backs, by the exit contents' definition. -/
theorem ne6_0 : Pipeline.arrRef spec6 0 ≠ main_v87 := by decide
theorem ne6_1 : Pipeline.arrRef spec6 1 ≠ main_v87 := by decide
theorem ne6_2 : Pipeline.arrRef spec6 2 ≠ main_v87 := by decide
theorem hF6_0 (c : Dev nD) : (dat6 (B27 m) c).arrAt 0 cfg6.N = B28 m c (Pipeline.arrRef spec6 0) :=
  ((dat6 (B27 m) c).arrAt_in 0 rfl _).trans ((A_eq6 (B27 m) c 0).trans (W28_of_ne m c _ ne6_0).symm)
theorem hF6_1 (c : Dev nD) : (dat6 (B27 m) c).arrAt 1 cfg6.N = B28 m c (Pipeline.arrRef spec6 1) :=
  ((dat6 (B27 m) c).arrAt_in 1 rfl _).trans ((A_eq6 (B27 m) c 1).trans (W28_of_ne m c _ ne6_1).symm)
theorem hF6_2 (c : Dev nD) : (dat6 (B27 m) c).arrAt 2 cfg6.N = B28 m c (Pipeline.arrRef spec6 2) :=
  ((dat6 (B27 m) c).arrAt_in 2 rfl _).trans ((A_eq6 (B27 m) c 2).trans (W28_of_ne m c _ ne6_2).symm)
theorem hF6_3 (c : Dev nD) : (dat6 (B27 m) c).arrAt 3 cfg6.N = B28 m c (Pipeline.arrRef spec6 3) := (W28_out m c).symm
theorem hF6 (c : Dev nD) (w : Fin cfg6.W) : (pdats m 6 c).arrAt w cfg6.N = B28 m c (Pipeline.arrRef spec6 w) := by
  show (dat6 (B27 m) c).arrAt w cfg6.N = _
  match w with
  | ⟨0, _⟩ => exact hF6_0 m c
  | ⟨1, _⟩ => exact hF6_1 m c
  | ⟨2, _⟩ => exact hF6_2 m c
  | ⟨3, _⟩ => exact hF6_3 m c
theorem hrest6 (c : Dev nD) : ∀ b, b ∉ Finset.univ.image (Pipeline.arrRef spec6) → B28 m c b = B27 m c b :=
  fun b hb => W28_of_ne m c b fun e => hb (Finset.mem_image.mpr ⟨3, Finset.mem_univ _, e.symm ▸ (rfl : Pipeline.arrRef spec6 3 = main_v87)⟩)
/-- Region 7: an input window's array is never written back, so it ends as entered, and the exit contents differ from the entry
    contents at the result's buffer only; the result's array ends at the fold of the write-backs, by the exit contents' definition. -/
theorem ne7_0 : Pipeline.arrRef spec7 0 ≠ main_v89 := by decide
theorem ne7_1 : Pipeline.arrRef spec7 1 ≠ main_v89 := by decide
theorem ne7_2 : Pipeline.arrRef spec7 2 ≠ main_v89 := by decide
theorem hF7_0 (c : Dev nD) : (dat7 (B29 m) c).arrAt 0 cfg7.N = B30 m c (Pipeline.arrRef spec7 0) :=
  ((dat7 (B29 m) c).arrAt_in 0 rfl _).trans ((A_eq7 (B29 m) c 0).trans (W30_of_ne m c _ ne7_0).symm)
theorem hF7_1 (c : Dev nD) : (dat7 (B29 m) c).arrAt 1 cfg7.N = B30 m c (Pipeline.arrRef spec7 1) :=
  ((dat7 (B29 m) c).arrAt_in 1 rfl _).trans ((A_eq7 (B29 m) c 1).trans (W30_of_ne m c _ ne7_1).symm)
theorem hF7_2 (c : Dev nD) : (dat7 (B29 m) c).arrAt 2 cfg7.N = B30 m c (Pipeline.arrRef spec7 2) :=
  ((dat7 (B29 m) c).arrAt_in 2 rfl _).trans ((A_eq7 (B29 m) c 2).trans (W30_of_ne m c _ ne7_2).symm)
theorem hF7_3 (c : Dev nD) : (dat7 (B29 m) c).arrAt 3 cfg7.N = B30 m c (Pipeline.arrRef spec7 3) := (W30_out m c).symm
theorem hF7 (c : Dev nD) (w : Fin cfg7.W) : (pdats m 7 c).arrAt w cfg7.N = B30 m c (Pipeline.arrRef spec7 w) := by
  show (dat7 (B29 m) c).arrAt w cfg7.N = _
  match w with
  | ⟨0, _⟩ => exact hF7_0 m c
  | ⟨1, _⟩ => exact hF7_1 m c
  | ⟨2, _⟩ => exact hF7_2 m c
  | ⟨3, _⟩ => exact hF7_3 m c
theorem hrest7 (c : Dev nD) : ∀ b, b ∉ Finset.univ.image (Pipeline.arrRef spec7) → B30 m c b = B29 m c b :=
  fun b hb => W30_of_ne m c b fun e => hb (Finset.mem_image.mpr ⟨3, Finset.mem_univ _, e.symm ▸ (rfl : Pipeline.arrRef spec7 3 = main_v89)⟩)
/-- Region 8: an input window's array is never written back, so it ends as entered, and the exit contents differ from the entry
    contents at the result's buffer only; the result's array ends at the fold of the write-backs, by the exit contents' definition. -/
theorem ne8_0 : Pipeline.arrRef spec8 0 ≠ main_v96 := by decide
theorem ne8_1 : Pipeline.arrRef spec8 1 ≠ main_v96 := by decide
theorem ne8_2 : Pipeline.arrRef spec8 2 ≠ main_v96 := by decide
theorem hF8_0 (c : Dev nD) : (dat8 (B31 m) c).arrAt 0 cfg8.N = B32 m c (Pipeline.arrRef spec8 0) :=
  ((dat8 (B31 m) c).arrAt_in 0 rfl _).trans ((A_eq8 (B31 m) c 0).trans (W32_of_ne m c _ ne8_0).symm)
theorem hF8_1 (c : Dev nD) : (dat8 (B31 m) c).arrAt 1 cfg8.N = B32 m c (Pipeline.arrRef spec8 1) :=
  ((dat8 (B31 m) c).arrAt_in 1 rfl _).trans ((A_eq8 (B31 m) c 1).trans (W32_of_ne m c _ ne8_1).symm)
theorem hF8_2 (c : Dev nD) : (dat8 (B31 m) c).arrAt 2 cfg8.N = B32 m c (Pipeline.arrRef spec8 2) :=
  ((dat8 (B31 m) c).arrAt_in 2 rfl _).trans ((A_eq8 (B31 m) c 2).trans (W32_of_ne m c _ ne8_2).symm)
theorem hF8_3 (c : Dev nD) : (dat8 (B31 m) c).arrAt 3 cfg8.N = B32 m c (Pipeline.arrRef spec8 3) := (W32_out m c).symm
theorem hF8 (c : Dev nD) (w : Fin cfg8.W) : (pdats m 8 c).arrAt w cfg8.N = B32 m c (Pipeline.arrRef spec8 w) := by
  show (dat8 (B31 m) c).arrAt w cfg8.N = _
  match w with
  | ⟨0, _⟩ => exact hF8_0 m c
  | ⟨1, _⟩ => exact hF8_1 m c
  | ⟨2, _⟩ => exact hF8_2 m c
  | ⟨3, _⟩ => exact hF8_3 m c
theorem hrest8 (c : Dev nD) : ∀ b, b ∉ Finset.univ.image (Pipeline.arrRef spec8) → B32 m c b = B31 m c b :=
  fun b hb => W32_of_ne m c b fun e => hb (Finset.mem_image.mpr ⟨3, Finset.mem_univ _, e.symm ▸ (rfl : Pipeline.arrRef spec8 3 = main_v96)⟩)
/-- Region 9: an input window's array is never written back, so it ends as entered, and the exit contents differ from the entry
    contents at the result's buffer only; the result's array ends at the fold of the write-backs, by the exit contents' definition. -/
theorem ne9_0 : Pipeline.arrRef spec9 0 ≠ main_v98 := by decide
theorem ne9_1 : Pipeline.arrRef spec9 1 ≠ main_v98 := by decide
theorem ne9_2 : Pipeline.arrRef spec9 2 ≠ main_v98 := by decide
theorem hF9_0 (c : Dev nD) : (dat9 (B33 m) c).arrAt 0 cfg9.N = B34 m c (Pipeline.arrRef spec9 0) :=
  ((dat9 (B33 m) c).arrAt_in 0 rfl _).trans ((A_eq9 (B33 m) c 0).trans (W34_of_ne m c _ ne9_0).symm)
theorem hF9_1 (c : Dev nD) : (dat9 (B33 m) c).arrAt 1 cfg9.N = B34 m c (Pipeline.arrRef spec9 1) :=
  ((dat9 (B33 m) c).arrAt_in 1 rfl _).trans ((A_eq9 (B33 m) c 1).trans (W34_of_ne m c _ ne9_1).symm)
theorem hF9_2 (c : Dev nD) : (dat9 (B33 m) c).arrAt 2 cfg9.N = B34 m c (Pipeline.arrRef spec9 2) :=
  ((dat9 (B33 m) c).arrAt_in 2 rfl _).trans ((A_eq9 (B33 m) c 2).trans (W34_of_ne m c _ ne9_2).symm)
theorem hF9_3 (c : Dev nD) : (dat9 (B33 m) c).arrAt 3 cfg9.N = B34 m c (Pipeline.arrRef spec9 3) := (W34_out m c).symm
theorem hF9 (c : Dev nD) (w : Fin cfg9.W) : (pdats m 9 c).arrAt w cfg9.N = B34 m c (Pipeline.arrRef spec9 w) := by
  show (dat9 (B33 m) c).arrAt w cfg9.N = _
  match w with
  | ⟨0, _⟩ => exact hF9_0 m c
  | ⟨1, _⟩ => exact hF9_1 m c
  | ⟨2, _⟩ => exact hF9_2 m c
  | ⟨3, _⟩ => exact hF9_3 m c
theorem hrest9 (c : Dev nD) : ∀ b, b ∉ Finset.univ.image (Pipeline.arrRef spec9) → B34 m c b = B33 m c b :=
  fun b hb => W34_of_ne m c b fun e => hb (Finset.mem_image.mpr ⟨3, Finset.mem_univ _, e.symm ▸ (rfl : Pipeline.arrRef spec9 3 = main_v98)⟩)
/-- Region 10: an input window's array is never written back, so it ends as entered, and the exit contents differ from the entry
    contents at the result's buffer only; the result's array ends at the fold of the write-backs, by the exit contents' definition. -/
theorem ne10_0 : Pipeline.arrRef spec10 0 ≠ main_v105 := by decide
theorem ne10_1 : Pipeline.arrRef spec10 1 ≠ main_v105 := by decide
theorem ne10_2 : Pipeline.arrRef spec10 2 ≠ main_v105 := by decide
theorem hF10_0 (c : Dev nD) : (dat10 (B35 m) c).arrAt 0 cfg10.N = B36 m c (Pipeline.arrRef spec10 0) :=
  ((dat10 (B35 m) c).arrAt_in 0 rfl _).trans ((A_eq10 (B35 m) c 0).trans (W36_of_ne m c _ ne10_0).symm)
theorem hF10_1 (c : Dev nD) : (dat10 (B35 m) c).arrAt 1 cfg10.N = B36 m c (Pipeline.arrRef spec10 1) :=
  ((dat10 (B35 m) c).arrAt_in 1 rfl _).trans ((A_eq10 (B35 m) c 1).trans (W36_of_ne m c _ ne10_1).symm)
theorem hF10_2 (c : Dev nD) : (dat10 (B35 m) c).arrAt 2 cfg10.N = B36 m c (Pipeline.arrRef spec10 2) :=
  ((dat10 (B35 m) c).arrAt_in 2 rfl _).trans ((A_eq10 (B35 m) c 2).trans (W36_of_ne m c _ ne10_2).symm)
theorem hF10_3 (c : Dev nD) : (dat10 (B35 m) c).arrAt 3 cfg10.N = B36 m c (Pipeline.arrRef spec10 3) := (W36_out m c).symm
theorem hF10 (c : Dev nD) (w : Fin cfg10.W) : (pdats m 10 c).arrAt w cfg10.N = B36 m c (Pipeline.arrRef spec10 w) := by
  show (dat10 (B35 m) c).arrAt w cfg10.N = _
  match w with
  | ⟨0, _⟩ => exact hF10_0 m c
  | ⟨1, _⟩ => exact hF10_1 m c
  | ⟨2, _⟩ => exact hF10_2 m c
  | ⟨3, _⟩ => exact hF10_3 m c
theorem hrest10 (c : Dev nD) : ∀ b, b ∉ Finset.univ.image (Pipeline.arrRef spec10) → B36 m c b = B35 m c b :=
  fun b hb => W36_of_ne m c b fun e => hb (Finset.mem_image.mpr ⟨3, Finset.mem_univ _, e.symm ▸ (rfl : Pipeline.arrRef spec10 3 = main_v105)⟩)
/-- Region 11: an input window's array is never written back, so it ends as entered, and the exit contents differ from the entry
    contents at the result's buffer only; the result's array ends at the fold of the write-backs, by the exit contents' definition. -/
theorem ne11_0 : Pipeline.arrRef spec11 0 ≠ main_v107 := by decide
theorem ne11_1 : Pipeline.arrRef spec11 1 ≠ main_v107 := by decide
theorem ne11_2 : Pipeline.arrRef spec11 2 ≠ main_v107 := by decide
theorem hF11_0 (c : Dev nD) : (dat11 (B37 m) c).arrAt 0 cfg11.N = B38 m c (Pipeline.arrRef spec11 0) :=
  ((dat11 (B37 m) c).arrAt_in 0 rfl _).trans ((A_eq11 (B37 m) c 0).trans (W38_of_ne m c _ ne11_0).symm)
theorem hF11_1 (c : Dev nD) : (dat11 (B37 m) c).arrAt 1 cfg11.N = B38 m c (Pipeline.arrRef spec11 1) :=
  ((dat11 (B37 m) c).arrAt_in 1 rfl _).trans ((A_eq11 (B37 m) c 1).trans (W38_of_ne m c _ ne11_1).symm)
theorem hF11_2 (c : Dev nD) : (dat11 (B37 m) c).arrAt 2 cfg11.N = B38 m c (Pipeline.arrRef spec11 2) :=
  ((dat11 (B37 m) c).arrAt_in 2 rfl _).trans ((A_eq11 (B37 m) c 2).trans (W38_of_ne m c _ ne11_2).symm)
theorem hF11_3 (c : Dev nD) : (dat11 (B37 m) c).arrAt 3 cfg11.N = B38 m c (Pipeline.arrRef spec11 3) := (W38_out m c).symm
theorem hF11 (c : Dev nD) (w : Fin cfg11.W) : (pdats m 11 c).arrAt w cfg11.N = B38 m c (Pipeline.arrRef spec11 w) := by
  show (dat11 (B37 m) c).arrAt w cfg11.N = _
  match w with
  | ⟨0, _⟩ => exact hF11_0 m c
  | ⟨1, _⟩ => exact hF11_1 m c
  | ⟨2, _⟩ => exact hF11_2 m c
  | ⟨3, _⟩ => exact hF11_3 m c
theorem hrest11 (c : Dev nD) : ∀ b, b ∉ Finset.univ.image (Pipeline.arrRef spec11) → B38 m c b = B37 m c b :=
  fun b hb => W38_of_ne m c b fun e => hb (Finset.mem_image.mpr ⟨3, Finset.mem_univ _, e.symm ▸ (rfl : Pipeline.arrRef spec11 3 = main_v107)⟩)
/-- Region 12: an input window's array is never written back, so it ends as entered, and the exit contents differ from the entry
    contents at the result's buffer only; the result's array ends at the fold of the write-backs, by the exit contents' definition. -/
theorem ne12_0 : Pipeline.arrRef spec12 0 ≠ main_v110 := by decide
theorem ne12_1 : Pipeline.arrRef spec12 1 ≠ main_v110 := by decide
theorem ne12_2 : Pipeline.arrRef spec12 2 ≠ main_v110 := by decide
theorem hF12_0 (c : Dev nD) : (dat12 (B39 m) c).arrAt 0 cfg12.N = B40 m c (Pipeline.arrRef spec12 0) :=
  ((dat12 (B39 m) c).arrAt_in 0 rfl _).trans ((A_eq12 (B39 m) c 0).trans (W40_of_ne m c _ ne12_0).symm)
theorem hF12_1 (c : Dev nD) : (dat12 (B39 m) c).arrAt 1 cfg12.N = B40 m c (Pipeline.arrRef spec12 1) :=
  ((dat12 (B39 m) c).arrAt_in 1 rfl _).trans ((A_eq12 (B39 m) c 1).trans (W40_of_ne m c _ ne12_1).symm)
theorem hF12_2 (c : Dev nD) : (dat12 (B39 m) c).arrAt 2 cfg12.N = B40 m c (Pipeline.arrRef spec12 2) :=
  ((dat12 (B39 m) c).arrAt_in 2 rfl _).trans ((A_eq12 (B39 m) c 2).trans (W40_of_ne m c _ ne12_2).symm)
theorem hF12_3 (c : Dev nD) : (dat12 (B39 m) c).arrAt 3 cfg12.N = B40 m c (Pipeline.arrRef spec12 3) := (W40_out m c).symm
theorem hF12 (c : Dev nD) (w : Fin cfg12.W) : (pdats m 12 c).arrAt w cfg12.N = B40 m c (Pipeline.arrRef spec12 w) := by
  show (dat12 (B39 m) c).arrAt w cfg12.N = _
  match w with
  | ⟨0, _⟩ => exact hF12_0 m c
  | ⟨1, _⟩ => exact hF12_1 m c
  | ⟨2, _⟩ => exact hF12_2 m c
  | ⟨3, _⟩ => exact hF12_3 m c
theorem hrest12 (c : Dev nD) : ∀ b, b ∉ Finset.univ.image (Pipeline.arrRef spec12) → B40 m c b = B39 m c b :=
  fun b hb => W40_of_ne m c b fun e => hb (Finset.mem_image.mpr ⟨3, Finset.mem_univ _, e.symm ▸ (rfl : Pipeline.arrRef spec12 3 = main_v110)⟩)
/-- Region 13: an input window's array is never written back, so it ends as entered, and the exit contents differ from the entry
    contents at the result's buffer only; the result's array ends at the fold of the write-backs, by the exit contents' definition. -/
theorem ne13_0 : Pipeline.arrRef spec13 0 ≠ main_v112 := by decide
theorem ne13_1 : Pipeline.arrRef spec13 1 ≠ main_v112 := by decide
theorem ne13_2 : Pipeline.arrRef spec13 2 ≠ main_v112 := by decide
theorem hF13_0 (c : Dev nD) : (dat13 (B41 m) c).arrAt 0 cfg13.N = B42 m c (Pipeline.arrRef spec13 0) :=
  ((dat13 (B41 m) c).arrAt_in 0 rfl _).trans ((A_eq13 (B41 m) c 0).trans (W42_of_ne m c _ ne13_0).symm)
theorem hF13_1 (c : Dev nD) : (dat13 (B41 m) c).arrAt 1 cfg13.N = B42 m c (Pipeline.arrRef spec13 1) :=
  ((dat13 (B41 m) c).arrAt_in 1 rfl _).trans ((A_eq13 (B41 m) c 1).trans (W42_of_ne m c _ ne13_1).symm)
theorem hF13_2 (c : Dev nD) : (dat13 (B41 m) c).arrAt 2 cfg13.N = B42 m c (Pipeline.arrRef spec13 2) :=
  ((dat13 (B41 m) c).arrAt_in 2 rfl _).trans ((A_eq13 (B41 m) c 2).trans (W42_of_ne m c _ ne13_2).symm)
theorem hF13_3 (c : Dev nD) : (dat13 (B41 m) c).arrAt 3 cfg13.N = B42 m c (Pipeline.arrRef spec13 3) := (W42_out m c).symm
theorem hF13 (c : Dev nD) (w : Fin cfg13.W) : (pdats m 13 c).arrAt w cfg13.N = B42 m c (Pipeline.arrRef spec13 w) := by
  show (dat13 (B41 m) c).arrAt w cfg13.N = _
  match w with
  | ⟨0, _⟩ => exact hF13_0 m c
  | ⟨1, _⟩ => exact hF13_1 m c
  | ⟨2, _⟩ => exact hF13_2 m c
  | ⟨3, _⟩ => exact hF13_3 m c
theorem hrest13 (c : Dev nD) : ∀ b, b ∉ Finset.univ.image (Pipeline.arrRef spec13) → B42 m c b = B41 m c b :=
  fun b hb => W42_of_ne m c b fun e => hb (Finset.mem_image.mpr ⟨3, Finset.mem_univ _, e.symm ▸ (rfl : Pipeline.arrRef spec13 3 = main_v112)⟩)

end Cert.KernelIdeal.Rg
end
-- ==== Proof.KI.SegsA.lean ====
/- Regions 0, 1, 2, 3 of @main as segments: the same record once per region (the launch's layout; the region's body obligation;
   entry: the region's arrays split out of the unscoped buffers; exit: put back at the exit contents). -/
import proofs.«181230_j19834158973077_2_alg».proof.Proof.KI.Data

set_option maxRecDepth 16384

noncomputable section

namespace Cert.KernelIdeal.Rg

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal Cert.KernelIdeal.Gen

variable {F : FTy → Type} [FloatOps F]

local notation "𝕄" => MT nD τ sig Unit (Elt F) ℕ (UR sig nD τ) ℕ

variable (m : (ℓ : Loc nD τ sig) → Buf (Elt F) ℓ)

-- the library's lemmas are stated over the pinned configuration; unifying it with the printed one unfolds plain definitions in a metavariable's type
set_option backward.isDefEq.respectTransparency.types false in
/-- Region 0 as a segment of @main: entered with every unscoped buffer at the contents before it, left with the result's array at what the
    pipeline's write-backs leave and every other buffer as entered. Its four arrays are split out of the unscoped buffers at entry and put
    back at exit; the generator register goes into the region's invariant and comes back; nothing is owed; the kernel has no semaphore of its own. -/
def reg0 : Pipeline.RegionSeg (pcfgs (F := F)) adm (pdats m) () defs₀ Variants.none L lv 0 where
  win := launch0.win.to₀
  block_pos := launch0.block_pos
  stage_whole := launch0.stage_whole
  K := PEmpty
  osem k := k.elim
  ho := Pipeline.OwnSemFacts.none _
  hbody c := (body_obligation0 (B15 m) c).loose
  hwaits := Pipeline.hwaits_of_owed_zero _ _ _ _ L lv 0 fun _ _ => rfl
  pre c := iprop(StableHlo.held (c : Thread nD τ) (Pipeline.ucRefs τ sig) (W15 m c) ∗ R c)
  post c := iprop(StableHlo.held (c : Thread nD τ) (Pipeline.ucRefs τ sig) (W16 m c) ∗ R c)
  X c := iprop(∃ r, prngReg c r)
  Y c := iprop(∃ r, prngReg c r)
  Z c := Pipeline.unscopedRest (Ix := Unit) (Name := ℕ) (U := UR sig nD τ) (Lvl := ℕ) spec0 c (B15 m c)
  hentry c := by
    rw [Pipeline.ownSems0_none]
    have hsplit := Pipeline.arrays_of_unscopedBufs (p := 0) (pcfgs (F := F)) adm (pdats m) launch0.win launch0.arr_whole c
      ((pdats m 0 c).share_full fun _ => rfl) (B15 m c) fun w => A_eq0 (B15 m) c w
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    refine (show _ ⊢ (Pipeline.ΦA spec0 c : sProp 𝕄) from ?_).trans (hin0 (B15 m) c)
    unfold Pipeline.ΦA
    iintro ⟨Hp, -, Hr⟩
    isplitl [Hr]; · iexact Hr
    iexact Hp
  hout c := by
    refine (hout0 (B15 m) c).trans ?_
    rw [Pipeline.ownSems0_none]; unfold Pipeline.ΦA
    iintro ⟨Hr, Hp⟩
    isplitl [Hp]; · iexact Hp
    isplitr; · iempintro
    iexact Hr
  hexit c := by
    have hjoin := Pipeline.unscopedBufs_of_arrays (p := 0) (pcfgs (F := F)) adm (Ix := Unit) (Name := ℕ) (U := UR sig nD τ) (Lvl := ℕ)
      launch0.win launch0.arr_whole c (pdats m) ((pdats m 0 c).share_full fun _ => rfl)
      (B15 m c) (B16 m c) ((pdats m 0 c).arrAt · cfg0.N) (hF0 m c) (hrest0 m c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

-- the library's lemmas are stated over the pinned configuration; unifying it with the printed one unfolds plain definitions in a metavariable's type
set_option backward.isDefEq.respectTransparency.types false in
/-- Region 1 as a segment of @main: entered with every unscoped buffer at the contents before it, left with the result's array at what the
    pipeline's write-backs leave and every other buffer as entered. Its four arrays are split out of the unscoped buffers at entry and put
    back at exit; the generator register goes into the region's invariant and comes back; nothing is owed; the kernel has no semaphore of its own. -/
def reg1 : Pipeline.RegionSeg (pcfgs (F := F)) adm (pdats m) () defs₀ Variants.none L lv 1 where
  win := launch1.win.to₀
  block_pos := launch1.block_pos
  stage_whole := launch1.stage_whole
  K := PEmpty
  osem k := k.elim
  ho := Pipeline.OwnSemFacts.none _
  hbody c := (body_obligation1 (B17 m) c).loose
  hwaits := Pipeline.hwaits_of_owed_zero _ _ _ _ L lv 1 fun _ _ => rfl
  pre c := iprop(StableHlo.held (c : Thread nD τ) (Pipeline.ucRefs τ sig) (W17 m c) ∗ R c)
  post c := iprop(StableHlo.held (c : Thread nD τ) (Pipeline.ucRefs τ sig) (W18 m c) ∗ R c)
  X c := iprop(∃ r, prngReg c r)
  Y c := iprop(∃ r, prngReg c r)
  Z c := Pipeline.unscopedRest (Ix := Unit) (Name := ℕ) (U := UR sig nD τ) (Lvl := ℕ) spec1 c (B17 m c)
  hentry c := by
    rw [Pipeline.ownSems0_none]
    have hsplit := Pipeline.arrays_of_unscopedBufs (p := 1) (pcfgs (F := F)) adm (pdats m) launch1.win launch1.arr_whole c
      ((pdats m 1 c).share_full fun _ => rfl) (B17 m c) fun w => A_eq1 (B17 m) c w
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    refine (show _ ⊢ (Pipeline.ΦA spec1 c : sProp 𝕄) from ?_).trans (hin1 (B17 m) c)
    unfold Pipeline.ΦA
    iintro ⟨Hp, -, Hr⟩
    isplitl [Hr]; · iexact Hr
    iexact Hp
  hout c := by
    refine (hout1 (B17 m) c).trans ?_
    rw [Pipeline.ownSems0_none]; unfold Pipeline.ΦA
    iintro ⟨Hr, Hp⟩
    isplitl [Hp]; · iexact Hp
    isplitr; · iempintro
    iexact Hr
  hexit c := by
    have hjoin := Pipeline.unscopedBufs_of_arrays (p := 1) (pcfgs (F := F)) adm (Ix := Unit) (Name := ℕ) (U := UR sig nD τ) (Lvl := ℕ)
      launch1.win launch1.arr_whole c (pdats m) ((pdats m 1 c).share_full fun _ => rfl)
      (B17 m c) (B18 m c) ((pdats m 1 c).arrAt · cfg1.N) (hF1 m c) (hrest1 m c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

-- the library's lemmas are stated over the pinned configuration; unifying it with the printed one unfolds plain definitions in a metavariable's type
set_option backward.isDefEq.respectTransparency.types false in
/-- Region 2 as a segment of @main: entered with every unscoped buffer at the contents before it, left with the result's array at what the
    pipeline's write-backs leave and every other buffer as entered. Its four arrays are split out of the unscoped buffers at entry and put
    back at exit; the generator register goes into the region's invariant and comes back; nothing is owed; the kernel has no semaphore of its own. -/
def reg2 : Pipeline.RegionSeg (pcfgs (F := F)) adm (pdats m) () defs₀ Variants.none L lv 2 where
  win := launch2.win.to₀
  block_pos := launch2.block_pos
  stage_whole := launch2.stage_whole
  K := PEmpty
  osem k := k.elim
  ho := Pipeline.OwnSemFacts.none _
  hbody c := (body_obligation2 (B19 m) c).loose
  hwaits := Pipeline.hwaits_of_owed_zero _ _ _ _ L lv 2 fun _ _ => rfl
  pre c := iprop(StableHlo.held (c : Thread nD τ) (Pipeline.ucRefs τ sig) (W19 m c) ∗ R c)
  post c := iprop(StableHlo.held (c : Thread nD τ) (Pipeline.ucRefs τ sig) (W20 m c) ∗ R c)
  X c := iprop(∃ r, prngReg c r)
  Y c := iprop(∃ r, prngReg c r)
  Z c := Pipeline.unscopedRest (Ix := Unit) (Name := ℕ) (U := UR sig nD τ) (Lvl := ℕ) spec2 c (B19 m c)
  hentry c := by
    rw [Pipeline.ownSems0_none]
    have hsplit := Pipeline.arrays_of_unscopedBufs (p := 2) (pcfgs (F := F)) adm (pdats m) launch2.win launch2.arr_whole c
      ((pdats m 2 c).share_full fun _ => rfl) (B19 m c) fun w => A_eq2 (B19 m) c w
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    refine (show _ ⊢ (Pipeline.ΦA spec2 c : sProp 𝕄) from ?_).trans (hin2 (B19 m) c)
    unfold Pipeline.ΦA
    iintro ⟨Hp, -, Hr⟩
    isplitl [Hr]; · iexact Hr
    iexact Hp
  hout c := by
    refine (hout2 (B19 m) c).trans ?_
    rw [Pipeline.ownSems0_none]; unfold Pipeline.ΦA
    iintro ⟨Hr, Hp⟩
    isplitl [Hp]; · iexact Hp
    isplitr; · iempintro
    iexact Hr
  hexit c := by
    have hjoin := Pipeline.unscopedBufs_of_arrays (p := 2) (pcfgs (F := F)) adm (Ix := Unit) (Name := ℕ) (U := UR sig nD τ) (Lvl := ℕ)
      launch2.win launch2.arr_whole c (pdats m) ((pdats m 2 c).share_full fun _ => rfl)
      (B19 m c) (B20 m c) ((pdats m 2 c).arrAt · cfg2.N) (hF2 m c) (hrest2 m c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

-- the library's lemmas are stated over the pinned configuration; unifying it with the printed one unfolds plain definitions in a metavariable's type
set_option backward.isDefEq.respectTransparency.types false in
/-- Region 3 as a segment of @main: entered with every unscoped buffer at the contents before it, left with the result's array at what the
    pipeline's write-backs leave and every other buffer as entered. Its four arrays are split out of the unscoped buffers at entry and put
    back at exit; the generator register goes into the region's invariant and comes back; nothing is owed; the kernel has no semaphore of its own. -/
def reg3 : Pipeline.RegionSeg (pcfgs (F := F)) adm (pdats m) () defs₀ Variants.none L lv 3 where
  win := launch3.win.to₀
  block_pos := launch3.block_pos
  stage_whole := launch3.stage_whole
  K := PEmpty
  osem k := k.elim
  ho := Pipeline.OwnSemFacts.none _
  hbody c := (body_obligation3 (B21 m) c).loose
  hwaits := Pipeline.hwaits_of_owed_zero _ _ _ _ L lv 3 fun _ _ => rfl
  pre c := iprop(StableHlo.held (c : Thread nD τ) (Pipeline.ucRefs τ sig) (W21 m c) ∗ R c)
  post c := iprop(StableHlo.held (c : Thread nD τ) (Pipeline.ucRefs τ sig) (W22 m c) ∗ R c)
  X c := iprop(∃ r, prngReg c r)
  Y c := iprop(∃ r, prngReg c r)
  Z c := Pipeline.unscopedRest (Ix := Unit) (Name := ℕ) (U := UR sig nD τ) (Lvl := ℕ) spec3 c (B21 m c)
  hentry c := by
    rw [Pipeline.ownSems0_none]
    have hsplit := Pipeline.arrays_of_unscopedBufs (p := 3) (pcfgs (F := F)) adm (pdats m) launch3.win launch3.arr_whole c
      ((pdats m 3 c).share_full fun _ => rfl) (B21 m c) fun w => A_eq3 (B21 m) c w
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    refine (show _ ⊢ (Pipeline.ΦA spec3 c : sProp 𝕄) from ?_).trans (hin3 (B21 m) c)
    unfold Pipeline.ΦA
    iintro ⟨Hp, -, Hr⟩
    isplitl [Hr]; · iexact Hr
    iexact Hp
  hout c := by
    refine (hout3 (B21 m) c).trans ?_
    rw [Pipeline.ownSems0_none]; unfold Pipeline.ΦA
    iintro ⟨Hr, Hp⟩
    isplitl [Hp]; · iexact Hp
    isplitr; · iempintro
    iexact Hr
  hexit c := by
    have hjoin := Pipeline.unscopedBufs_of_arrays (p := 3) (pcfgs (F := F)) adm (Ix := Unit) (Name := ℕ) (U := UR sig nD τ) (Lvl := ℕ)
      launch3.win launch3.arr_whole c (pdats m) ((pdats m 3 c).share_full fun _ => rfl)
      (B21 m c) (B22 m c) ((pdats m 3 c).arrAt · cfg3.N) (hF3 m c) (hrest3 m c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

end Cert.KernelIdeal.Rg
end
-- ==== Proof.KI.SegsB.lean ====
/- Regions 4, 5, 6, 7 of @main as segments: the same record once per region (the launch's layout; the region's body obligation;
   entry: the region's arrays split out of the unscoped buffers; exit: put back at the exit contents). -/
import proofs.«181230_j19834158973077_2_alg».proof.Proof.KI.Data

set_option maxRecDepth 16384

noncomputable section

namespace Cert.KernelIdeal.Rg

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal Cert.KernelIdeal.Gen

variable {F : FTy → Type} [FloatOps F]

local notation "𝕄" => MT nD τ sig Unit (Elt F) ℕ (UR sig nD τ) ℕ

variable (m : (ℓ : Loc nD τ sig) → Buf (Elt F) ℓ)

-- the library's lemmas are stated over the pinned configuration; unifying it with the printed one unfolds plain definitions in a metavariable's type
set_option backward.isDefEq.respectTransparency.types false in
/-- Region 4 as a segment of @main: entered with every unscoped buffer at the contents before it, left with the result's array at what the
    pipeline's write-backs leave and every other buffer as entered. Its four arrays are split out of the unscoped buffers at entry and put
    back at exit; the generator register goes into the region's invariant and comes back; nothing is owed; the kernel has no semaphore of its own. -/
def reg4 : Pipeline.RegionSeg (pcfgs (F := F)) adm (pdats m) () defs₀ Variants.none L lv 4 where
  win := launch4.win.to₀
  block_pos := launch4.block_pos
  stage_whole := launch4.stage_whole
  K := PEmpty
  osem k := k.elim
  ho := Pipeline.OwnSemFacts.none _
  hbody c := (body_obligation4 (B23 m) c).loose
  hwaits := Pipeline.hwaits_of_owed_zero _ _ _ _ L lv 4 fun _ _ => rfl
  pre c := iprop(StableHlo.held (c : Thread nD τ) (Pipeline.ucRefs τ sig) (W23 m c) ∗ R c)
  post c := iprop(StableHlo.held (c : Thread nD τ) (Pipeline.ucRefs τ sig) (W24 m c) ∗ R c)
  X c := iprop(∃ r, prngReg c r)
  Y c := iprop(∃ r, prngReg c r)
  Z c := Pipeline.unscopedRest (Ix := Unit) (Name := ℕ) (U := UR sig nD τ) (Lvl := ℕ) spec4 c (B23 m c)
  hentry c := by
    rw [Pipeline.ownSems0_none]
    have hsplit := Pipeline.arrays_of_unscopedBufs (p := 4) (pcfgs (F := F)) adm (pdats m) launch4.win launch4.arr_whole c
      ((pdats m 4 c).share_full fun _ => rfl) (B23 m c) fun w => A_eq4 (B23 m) c w
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    refine (show _ ⊢ (Pipeline.ΦA spec4 c : sProp 𝕄) from ?_).trans (hin4 (B23 m) c)
    unfold Pipeline.ΦA
    iintro ⟨Hp, -, Hr⟩
    isplitl [Hr]; · iexact Hr
    iexact Hp
  hout c := by
    refine (hout4 (B23 m) c).trans ?_
    rw [Pipeline.ownSems0_none]; unfold Pipeline.ΦA
    iintro ⟨Hr, Hp⟩
    isplitl [Hp]; · iexact Hp
    isplitr; · iempintro
    iexact Hr
  hexit c := by
    have hjoin := Pipeline.unscopedBufs_of_arrays (p := 4) (pcfgs (F := F)) adm (Ix := Unit) (Name := ℕ) (U := UR sig nD τ) (Lvl := ℕ)
      launch4.win launch4.arr_whole c (pdats m) ((pdats m 4 c).share_full fun _ => rfl)
      (B23 m c) (B24 m c) ((pdats m 4 c).arrAt · cfg4.N) (hF4 m c) (hrest4 m c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

-- the library's lemmas are stated over the pinned configuration; unifying it with the printed one unfolds plain definitions in a metavariable's type
set_option backward.isDefEq.respectTransparency.types false in
/-- Region 5 as a segment of @main: entered with every unscoped buffer at the contents before it, left with the result's array at what the
    pipeline's write-backs leave and every other buffer as entered. Its four arrays are split out of the unscoped buffers at entry and put
    back at exit; the generator register goes into the region's invariant and comes back; nothing is owed; the kernel has no semaphore of its own. -/
def reg5 : Pipeline.RegionSeg (pcfgs (F := F)) adm (pdats m) () defs₀ Variants.none L lv 5 where
  win := launch5.win.to₀
  block_pos := launch5.block_pos
  stage_whole := launch5.stage_whole
  K := PEmpty
  osem k := k.elim
  ho := Pipeline.OwnSemFacts.none _
  hbody c := (body_obligation5 (B25 m) c).loose
  hwaits := Pipeline.hwaits_of_owed_zero _ _ _ _ L lv 5 fun _ _ => rfl
  pre c := iprop(StableHlo.held (c : Thread nD τ) (Pipeline.ucRefs τ sig) (W25 m c) ∗ R c)
  post c := iprop(StableHlo.held (c : Thread nD τ) (Pipeline.ucRefs τ sig) (W26 m c) ∗ R c)
  X c := iprop(∃ r, prngReg c r)
  Y c := iprop(∃ r, prngReg c r)
  Z c := Pipeline.unscopedRest (Ix := Unit) (Name := ℕ) (U := UR sig nD τ) (Lvl := ℕ) spec5 c (B25 m c)
  hentry c := by
    rw [Pipeline.ownSems0_none]
    have hsplit := Pipeline.arrays_of_unscopedBufs (p := 5) (pcfgs (F := F)) adm (pdats m) launch5.win launch5.arr_whole c
      ((pdats m 5 c).share_full fun _ => rfl) (B25 m c) fun w => A_eq5 (B25 m) c w
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    refine (show _ ⊢ (Pipeline.ΦA spec5 c : sProp 𝕄) from ?_).trans (hin5 (B25 m) c)
    unfold Pipeline.ΦA
    iintro ⟨Hp, -, Hr⟩
    isplitl [Hr]; · iexact Hr
    iexact Hp
  hout c := by
    refine (hout5 (B25 m) c).trans ?_
    rw [Pipeline.ownSems0_none]; unfold Pipeline.ΦA
    iintro ⟨Hr, Hp⟩
    isplitl [Hp]; · iexact Hp
    isplitr; · iempintro
    iexact Hr
  hexit c := by
    have hjoin := Pipeline.unscopedBufs_of_arrays (p := 5) (pcfgs (F := F)) adm (Ix := Unit) (Name := ℕ) (U := UR sig nD τ) (Lvl := ℕ)
      launch5.win launch5.arr_whole c (pdats m) ((pdats m 5 c).share_full fun _ => rfl)
      (B25 m c) (B26 m c) ((pdats m 5 c).arrAt · cfg5.N) (hF5 m c) (hrest5 m c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

-- the library's lemmas are stated over the pinned configuration; unifying it with the printed one unfolds plain definitions in a metavariable's type
set_option backward.isDefEq.respectTransparency.types false in
/-- Region 6 as a segment of @main: entered with every unscoped buffer at the contents before it, left with the result's array at what the
    pipeline's write-backs leave and every other buffer as entered. Its four arrays are split out of the unscoped buffers at entry and put
    back at exit; the generator register goes into the region's invariant and comes back; nothing is owed; the kernel has no semaphore of its own. -/
def reg6 : Pipeline.RegionSeg (pcfgs (F := F)) adm (pdats m) () defs₀ Variants.none L lv 6 where
  win := launch6.win.to₀
  block_pos := launch6.block_pos
  stage_whole := launch6.stage_whole
  K := PEmpty
  osem k := k.elim
  ho := Pipeline.OwnSemFacts.none _
  hbody c := (body_obligation6 (B27 m) c).loose
  hwaits := Pipeline.hwaits_of_owed_zero _ _ _ _ L lv 6 fun _ _ => rfl
  pre c := iprop(StableHlo.held (c : Thread nD τ) (Pipeline.ucRefs τ sig) (W27 m c) ∗ R c)
  post c := iprop(StableHlo.held (c : Thread nD τ) (Pipeline.ucRefs τ sig) (W28 m c) ∗ R c)
  X c := iprop(∃ r, prngReg c r)
  Y c := iprop(∃ r, prngReg c r)
  Z c := Pipeline.unscopedRest (Ix := Unit) (Name := ℕ) (U := UR sig nD τ) (Lvl := ℕ) spec6 c (B27 m c)
  hentry c := by
    rw [Pipeline.ownSems0_none]
    have hsplit := Pipeline.arrays_of_unscopedBufs (p := 6) (pcfgs (F := F)) adm (pdats m) launch6.win launch6.arr_whole c
      ((pdats m 6 c).share_full fun _ => rfl) (B27 m c) fun w => A_eq6 (B27 m) c w
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    refine (show _ ⊢ (Pipeline.ΦA spec6 c : sProp 𝕄) from ?_).trans (hin6 (B27 m) c)
    unfold Pipeline.ΦA
    iintro ⟨Hp, -, Hr⟩
    isplitl [Hr]; · iexact Hr
    iexact Hp
  hout c := by
    refine (hout6 (B27 m) c).trans ?_
    rw [Pipeline.ownSems0_none]; unfold Pipeline.ΦA
    iintro ⟨Hr, Hp⟩
    isplitl [Hp]; · iexact Hp
    isplitr; · iempintro
    iexact Hr
  hexit c := by
    have hjoin := Pipeline.unscopedBufs_of_arrays (p := 6) (pcfgs (F := F)) adm (Ix := Unit) (Name := ℕ) (U := UR sig nD τ) (Lvl := ℕ)
      launch6.win launch6.arr_whole c (pdats m) ((pdats m 6 c).share_full fun _ => rfl)
      (B27 m c) (B28 m c) ((pdats m 6 c).arrAt · cfg6.N) (hF6 m c) (hrest6 m c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

-- the library's lemmas are stated over the pinned configuration; unifying it with the printed one unfolds plain definitions in a metavariable's type
set_option backward.isDefEq.respectTransparency.types false in
/-- Region 7 as a segment of @main: entered with every unscoped buffer at the contents before it, left with the result's array at what the
    pipeline's write-backs leave and every other buffer as entered. Its four arrays are split out of the unscoped buffers at entry and put
    back at exit; the generator register goes into the region's invariant and comes back; nothing is owed; the kernel has no semaphore of its own. -/
def reg7 : Pipeline.RegionSeg (pcfgs (F := F)) adm (pdats m) () defs₀ Variants.none L lv 7 where
  win := launch7.win.to₀
  block_pos := launch7.block_pos
  stage_whole := launch7.stage_whole
  K := PEmpty
  osem k := k.elim
  ho := Pipeline.OwnSemFacts.none _
  hbody c := (body_obligation7 (B29 m) c).loose
  hwaits := Pipeline.hwaits_of_owed_zero _ _ _ _ L lv 7 fun _ _ => rfl
  pre c := iprop(StableHlo.held (c : Thread nD τ) (Pipeline.ucRefs τ sig) (W29 m c) ∗ R c)
  post c := iprop(StableHlo.held (c : Thread nD τ) (Pipeline.ucRefs τ sig) (W30 m c) ∗ R c)
  X c := iprop(∃ r, prngReg c r)
  Y c := iprop(∃ r, prngReg c r)
  Z c := Pipeline.unscopedRest (Ix := Unit) (Name := ℕ) (U := UR sig nD τ) (Lvl := ℕ) spec7 c (B29 m c)
  hentry c := by
    rw [Pipeline.ownSems0_none]
    have hsplit := Pipeline.arrays_of_unscopedBufs (p := 7) (pcfgs (F := F)) adm (pdats m) launch7.win launch7.arr_whole c
      ((pdats m 7 c).share_full fun _ => rfl) (B29 m c) fun w => A_eq7 (B29 m) c w
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    refine (show _ ⊢ (Pipeline.ΦA spec7 c : sProp 𝕄) from ?_).trans (hin7 (B29 m) c)
    unfold Pipeline.ΦA
    iintro ⟨Hp, -, Hr⟩
    isplitl [Hr]; · iexact Hr
    iexact Hp
  hout c := by
    refine (hout7 (B29 m) c).trans ?_
    rw [Pipeline.ownSems0_none]; unfold Pipeline.ΦA
    iintro ⟨Hr, Hp⟩
    isplitl [Hp]; · iexact Hp
    isplitr; · iempintro
    iexact Hr
  hexit c := by
    have hjoin := Pipeline.unscopedBufs_of_arrays (p := 7) (pcfgs (F := F)) adm (Ix := Unit) (Name := ℕ) (U := UR sig nD τ) (Lvl := ℕ)
      launch7.win launch7.arr_whole c (pdats m) ((pdats m 7 c).share_full fun _ => rfl)
      (B29 m c) (B30 m c) ((pdats m 7 c).arrAt · cfg7.N) (hF7 m c) (hrest7 m c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

end Cert.KernelIdeal.Rg
end
-- ==== Proof.KI.SegsC.lean ====
/- Regions 8, 9, 10, 11 of @main as segments: the same record once per region (the launch's layout; the region's body obligation;
   entry: the region's arrays split out of the unscoped buffers; exit: put back at the exit contents). -/
import proofs.«181230_j19834158973077_2_alg».proof.Proof.KI.Data

set_option maxRecDepth 16384

noncomputable section

namespace Cert.KernelIdeal.Rg

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal Cert.KernelIdeal.Gen

variable {F : FTy → Type} [FloatOps F]

local notation "𝕄" => MT nD τ sig Unit (Elt F) ℕ (UR sig nD τ) ℕ

variable (m : (ℓ : Loc nD τ sig) → Buf (Elt F) ℓ)

-- the library's lemmas are stated over the pinned configuration; unifying it with the printed one unfolds plain definitions in a metavariable's type
set_option backward.isDefEq.respectTransparency.types false in
/-- Region 8 as a segment of @main: entered with every unscoped buffer at the contents before it, left with the result's array at what the
    pipeline's write-backs leave and every other buffer as entered. Its four arrays are split out of the unscoped buffers at entry and put
    back at exit; the generator register goes into the region's invariant and comes back; nothing is owed; the kernel has no semaphore of its own. -/
def reg8 : Pipeline.RegionSeg (pcfgs (F := F)) adm (pdats m) () defs₀ Variants.none L lv 8 where
  win := launch8.win.to₀
  block_pos := launch8.block_pos
  stage_whole := launch8.stage_whole
  K := PEmpty
  osem k := k.elim
  ho := Pipeline.OwnSemFacts.none _
  hbody c := (body_obligation8 (B31 m) c).loose
  hwaits := Pipeline.hwaits_of_owed_zero _ _ _ _ L lv 8 fun _ _ => rfl
  pre c := iprop(StableHlo.held (c : Thread nD τ) (Pipeline.ucRefs τ sig) (W31 m c) ∗ R c)
  post c := iprop(StableHlo.held (c : Thread nD τ) (Pipeline.ucRefs τ sig) (W32 m c) ∗ R c)
  X c := iprop(∃ r, prngReg c r)
  Y c := iprop(∃ r, prngReg c r)
  Z c := Pipeline.unscopedRest (Ix := Unit) (Name := ℕ) (U := UR sig nD τ) (Lvl := ℕ) spec8 c (B31 m c)
  hentry c := by
    rw [Pipeline.ownSems0_none]
    have hsplit := Pipeline.arrays_of_unscopedBufs (p := 8) (pcfgs (F := F)) adm (pdats m) launch8.win launch8.arr_whole c
      ((pdats m 8 c).share_full fun _ => rfl) (B31 m c) fun w => A_eq8 (B31 m) c w
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    refine (show _ ⊢ (Pipeline.ΦA spec8 c : sProp 𝕄) from ?_).trans (hin8 (B31 m) c)
    unfold Pipeline.ΦA
    iintro ⟨Hp, -, Hr⟩
    isplitl [Hr]; · iexact Hr
    iexact Hp
  hout c := by
    refine (hout8 (B31 m) c).trans ?_
    rw [Pipeline.ownSems0_none]; unfold Pipeline.ΦA
    iintro ⟨Hr, Hp⟩
    isplitl [Hp]; · iexact Hp
    isplitr; · iempintro
    iexact Hr
  hexit c := by
    have hjoin := Pipeline.unscopedBufs_of_arrays (p := 8) (pcfgs (F := F)) adm (Ix := Unit) (Name := ℕ) (U := UR sig nD τ) (Lvl := ℕ)
      launch8.win launch8.arr_whole c (pdats m) ((pdats m 8 c).share_full fun _ => rfl)
      (B31 m c) (B32 m c) ((pdats m 8 c).arrAt · cfg8.N) (hF8 m c) (hrest8 m c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

-- the library's lemmas are stated over the pinned configuration; unifying it with the printed one unfolds plain definitions in a metavariable's type
set_option backward.isDefEq.respectTransparency.types false in
/-- Region 9 as a segment of @main: entered with every unscoped buffer at the contents before it, left with the result's array at what the
    pipeline's write-backs leave and every other buffer as entered. Its four arrays are split out of the unscoped buffers at entry and put
    back at exit; the generator register goes into the region's invariant and comes back; nothing is owed; the kernel has no semaphore of its own. -/
def reg9 : Pipeline.RegionSeg (pcfgs (F := F)) adm (pdats m) () defs₀ Variants.none L lv 9 where
  win := launch9.win.to₀
  block_pos := launch9.block_pos
  stage_whole := launch9.stage_whole
  K := PEmpty
  osem k := k.elim
  ho := Pipeline.OwnSemFacts.none _
  hbody c := (body_obligation9 (B33 m) c).loose
  hwaits := Pipeline.hwaits_of_owed_zero _ _ _ _ L lv 9 fun _ _ => rfl
  pre c := iprop(StableHlo.held (c : Thread nD τ) (Pipeline.ucRefs τ sig) (W33 m c) ∗ R c)
  post c := iprop(StableHlo.held (c : Thread nD τ) (Pipeline.ucRefs τ sig) (W34 m c) ∗ R c)
  X c := iprop(∃ r, prngReg c r)
  Y c := iprop(∃ r, prngReg c r)
  Z c := Pipeline.unscopedRest (Ix := Unit) (Name := ℕ) (U := UR sig nD τ) (Lvl := ℕ) spec9 c (B33 m c)
  hentry c := by
    rw [Pipeline.ownSems0_none]
    have hsplit := Pipeline.arrays_of_unscopedBufs (p := 9) (pcfgs (F := F)) adm (pdats m) launch9.win launch9.arr_whole c
      ((pdats m 9 c).share_full fun _ => rfl) (B33 m c) fun w => A_eq9 (B33 m) c w
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    refine (show _ ⊢ (Pipeline.ΦA spec9 c : sProp 𝕄) from ?_).trans (hin9 (B33 m) c)
    unfold Pipeline.ΦA
    iintro ⟨Hp, -, Hr⟩
    isplitl [Hr]; · iexact Hr
    iexact Hp
  hout c := by
    refine (hout9 (B33 m) c).trans ?_
    rw [Pipeline.ownSems0_none]; unfold Pipeline.ΦA
    iintro ⟨Hr, Hp⟩
    isplitl [Hp]; · iexact Hp
    isplitr; · iempintro
    iexact Hr
  hexit c := by
    have hjoin := Pipeline.unscopedBufs_of_arrays (p := 9) (pcfgs (F := F)) adm (Ix := Unit) (Name := ℕ) (U := UR sig nD τ) (Lvl := ℕ)
      launch9.win launch9.arr_whole c (pdats m) ((pdats m 9 c).share_full fun _ => rfl)
      (B33 m c) (B34 m c) ((pdats m 9 c).arrAt · cfg9.N) (hF9 m c) (hrest9 m c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

-- the library's lemmas are stated over the pinned configuration; unifying it with the printed one unfolds plain definitions in a metavariable's type
set_option backward.isDefEq.respectTransparency.types false in
/-- Region 10 as a segment of @main: entered with every unscoped buffer at the contents before it, left with the result's array at what the
    pipeline's write-backs leave and every other buffer as entered. Its four arrays are split out of the unscoped buffers at entry and put
    back at exit; the generator register goes into the region's invariant and comes back; nothing is owed; the kernel has no semaphore of its own. -/
def reg10 : Pipeline.RegionSeg (pcfgs (F := F)) adm (pdats m) () defs₀ Variants.none L lv 10 where
  win := launch10.win.to₀
  block_pos := launch10.block_pos
  stage_whole := launch10.stage_whole
  K := PEmpty
  osem k := k.elim
  ho := Pipeline.OwnSemFacts.none _
  hbody c := (body_obligation10 (B35 m) c).loose
  hwaits := Pipeline.hwaits_of_owed_zero _ _ _ _ L lv 10 fun _ _ => rfl
  pre c := iprop(StableHlo.held (c : Thread nD τ) (Pipeline.ucRefs τ sig) (W35 m c) ∗ R c)
  post c := iprop(StableHlo.held (c : Thread nD τ) (Pipeline.ucRefs τ sig) (W36 m c) ∗ R c)
  X c := iprop(∃ r, prngReg c r)
  Y c := iprop(∃ r, prngReg c r)
  Z c := Pipeline.unscopedRest (Ix := Unit) (Name := ℕ) (U := UR sig nD τ) (Lvl := ℕ) spec10 c (B35 m c)
  hentry c := by
    rw [Pipeline.ownSems0_none]
    have hsplit := Pipeline.arrays_of_unscopedBufs (p := 10) (pcfgs (F := F)) adm (pdats m) launch10.win launch10.arr_whole c
      ((pdats m 10 c).share_full fun _ => rfl) (B35 m c) fun w => A_eq10 (B35 m) c w
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    refine (show _ ⊢ (Pipeline.ΦA spec10 c : sProp 𝕄) from ?_).trans (hin10 (B35 m) c)
    unfold Pipeline.ΦA
    iintro ⟨Hp, -, Hr⟩
    isplitl [Hr]; · iexact Hr
    iexact Hp
  hout c := by
    refine (hout10 (B35 m) c).trans ?_
    rw [Pipeline.ownSems0_none]; unfold Pipeline.ΦA
    iintro ⟨Hr, Hp⟩
    isplitl [Hp]; · iexact Hp
    isplitr; · iempintro
    iexact Hr
  hexit c := by
    have hjoin := Pipeline.unscopedBufs_of_arrays (p := 10) (pcfgs (F := F)) adm (Ix := Unit) (Name := ℕ) (U := UR sig nD τ) (Lvl := ℕ)
      launch10.win launch10.arr_whole c (pdats m) ((pdats m 10 c).share_full fun _ => rfl)
      (B35 m c) (B36 m c) ((pdats m 10 c).arrAt · cfg10.N) (hF10 m c) (hrest10 m c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

-- the library's lemmas are stated over the pinned configuration; unifying it with the printed one unfolds plain definitions in a metavariable's type
set_option backward.isDefEq.respectTransparency.types false in
/-- Region 11 as a segment of @main: entered with every unscoped buffer at the contents before it, left with the result's array at what the
    pipeline's write-backs leave and every other buffer as entered. Its four arrays are split out of the unscoped buffers at entry and put
    back at exit; the generator register goes into the region's invariant and comes back; nothing is owed; the kernel has no semaphore of its own. -/
def reg11 : Pipeline.RegionSeg (pcfgs (F := F)) adm (pdats m) () defs₀ Variants.none L lv 11 where
  win := launch11.win.to₀
  block_pos := launch11.block_pos
  stage_whole := launch11.stage_whole
  K := PEmpty
  osem k := k.elim
  ho := Pipeline.OwnSemFacts.none _
  hbody c := (body_obligation11 (B37 m) c).loose
  hwaits := Pipeline.hwaits_of_owed_zero _ _ _ _ L lv 11 fun _ _ => rfl
  pre c := iprop(StableHlo.held (c : Thread nD τ) (Pipeline.ucRefs τ sig) (W37 m c) ∗ R c)
  post c := iprop(StableHlo.held (c : Thread nD τ) (Pipeline.ucRefs τ sig) (W38 m c) ∗ R c)
  X c := iprop(∃ r, prngReg c r)
  Y c := iprop(∃ r, prngReg c r)
  Z c := Pipeline.unscopedRest (Ix := Unit) (Name := ℕ) (U := UR sig nD τ) (Lvl := ℕ) spec11 c (B37 m c)
  hentry c := by
    rw [Pipeline.ownSems0_none]
    have hsplit := Pipeline.arrays_of_unscopedBufs (p := 11) (pcfgs (F := F)) adm (pdats m) launch11.win launch11.arr_whole c
      ((pdats m 11 c).share_full fun _ => rfl) (B37 m c) fun w => A_eq11 (B37 m) c w
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    refine (show _ ⊢ (Pipeline.ΦA spec11 c : sProp 𝕄) from ?_).trans (hin11 (B37 m) c)
    unfold Pipeline.ΦA
    iintro ⟨Hp, -, Hr⟩
    isplitl [Hr]; · iexact Hr
    iexact Hp
  hout c := by
    refine (hout11 (B37 m) c).trans ?_
    rw [Pipeline.ownSems0_none]; unfold Pipeline.ΦA
    iintro ⟨Hr, Hp⟩
    isplitl [Hp]; · iexact Hp
    isplitr; · iempintro
    iexact Hr
  hexit c := by
    have hjoin := Pipeline.unscopedBufs_of_arrays (p := 11) (pcfgs (F := F)) adm (Ix := Unit) (Name := ℕ) (U := UR sig nD τ) (Lvl := ℕ)
      launch11.win launch11.arr_whole c (pdats m) ((pdats m 11 c).share_full fun _ => rfl)
      (B37 m c) (B38 m c) ((pdats m 11 c).arrAt · cfg11.N) (hF11 m c) (hrest11 m c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

end Cert.KernelIdeal.Rg
end
-- ==== Proof.KI.SegsD.lean ====
/- Regions 12, 13 of @main as segments: the same record once per region (the launch's layout; the region's body obligation;
   entry: the region's arrays split out of the unscoped buffers; exit: put back at the exit contents). -/
import proofs.«181230_j19834158973077_2_alg».proof.Proof.KI.Data

set_option maxRecDepth 16384

noncomputable section

namespace Cert.KernelIdeal.Rg

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal Cert.KernelIdeal.Gen

variable {F : FTy → Type} [FloatOps F]

local notation "𝕄" => MT nD τ sig Unit (Elt F) ℕ (UR sig nD τ) ℕ

variable (m : (ℓ : Loc nD τ sig) → Buf (Elt F) ℓ)

-- the library's lemmas are stated over the pinned configuration; unifying it with the printed one unfolds plain definitions in a metavariable's type
set_option backward.isDefEq.respectTransparency.types false in
/-- Region 12 as a segment of @main: entered with every unscoped buffer at the contents before it, left with the result's array at what the
    pipeline's write-backs leave and every other buffer as entered. Its four arrays are split out of the unscoped buffers at entry and put
    back at exit; the generator register goes into the region's invariant and comes back; nothing is owed; the kernel has no semaphore of its own. -/
def reg12 : Pipeline.RegionSeg (pcfgs (F := F)) adm (pdats m) () defs₀ Variants.none L lv 12 where
  win := launch12.win.to₀
  block_pos := launch12.block_pos
  stage_whole := launch12.stage_whole
  K := PEmpty
  osem k := k.elim
  ho := Pipeline.OwnSemFacts.none _
  hbody c := (body_obligation12 (B39 m) c).loose
  hwaits := Pipeline.hwaits_of_owed_zero _ _ _ _ L lv 12 fun _ _ => rfl
  pre c := iprop(StableHlo.held (c : Thread nD τ) (Pipeline.ucRefs τ sig) (W39 m c) ∗ R c)
  post c := iprop(StableHlo.held (c : Thread nD τ) (Pipeline.ucRefs τ sig) (W40 m c) ∗ R c)
  X c := iprop(∃ r, prngReg c r)
  Y c := iprop(∃ r, prngReg c r)
  Z c := Pipeline.unscopedRest (Ix := Unit) (Name := ℕ) (U := UR sig nD τ) (Lvl := ℕ) spec12 c (B39 m c)
  hentry c := by
    rw [Pipeline.ownSems0_none]
    have hsplit := Pipeline.arrays_of_unscopedBufs (p := 12) (pcfgs (F := F)) adm (pdats m) launch12.win launch12.arr_whole c
      ((pdats m 12 c).share_full fun _ => rfl) (B39 m c) fun w => A_eq12 (B39 m) c w
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    refine (show _ ⊢ (Pipeline.ΦA spec12 c : sProp 𝕄) from ?_).trans (hin12 (B39 m) c)
    unfold Pipeline.ΦA
    iintro ⟨Hp, -, Hr⟩
    isplitl [Hr]; · iexact Hr
    iexact Hp
  hout c := by
    refine (hout12 (B39 m) c).trans ?_
    rw [Pipeline.ownSems0_none]; unfold Pipeline.ΦA
    iintro ⟨Hr, Hp⟩
    isplitl [Hp]; · iexact Hp
    isplitr; · iempintro
    iexact Hr
  hexit c := by
    have hjoin := Pipeline.unscopedBufs_of_arrays (p := 12) (pcfgs (F := F)) adm (Ix := Unit) (Name := ℕ) (U := UR sig nD τ) (Lvl := ℕ)
      launch12.win launch12.arr_whole c (pdats m) ((pdats m 12 c).share_full fun _ => rfl)
      (B39 m c) (B40 m c) ((pdats m 12 c).arrAt · cfg12.N) (hF12 m c) (hrest12 m c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

-- the library's lemmas are stated over the pinned configuration; unifying it with the printed one unfolds plain definitions in a metavariable's type
set_option backward.isDefEq.respectTransparency.types false in
/-- Region 13 as a segment of @main: entered with every unscoped buffer at the contents before it, left with the result's array at what the
    pipeline's write-backs leave and every other buffer as entered. Its four arrays are split out of the unscoped buffers at entry and put
    back at exit; the generator register goes into the region's invariant and comes back; nothing is owed; the kernel has no semaphore of its own. -/
def reg13 : Pipeline.RegionSeg (pcfgs (F := F)) adm (pdats m) () defs₀ Variants.none L lv 13 where
  win := launch13.win.to₀
  block_pos := launch13.block_pos
  stage_whole := launch13.stage_whole
  K := PEmpty
  osem k := k.elim
  ho := Pipeline.OwnSemFacts.none _
  hbody c := (body_obligation13 (B41 m) c).loose
  hwaits := Pipeline.hwaits_of_owed_zero _ _ _ _ L lv 13 fun _ _ => rfl
  pre c := iprop(StableHlo.held (c : Thread nD τ) (Pipeline.ucRefs τ sig) (W41 m c) ∗ R c)
  post c := iprop(StableHlo.held (c : Thread nD τ) (Pipeline.ucRefs τ sig) (W42 m c) ∗ R c)
  X c := iprop(∃ r, prngReg c r)
  Y c := iprop(∃ r, prngReg c r)
  Z c := Pipeline.unscopedRest (Ix := Unit) (Name := ℕ) (U := UR sig nD τ) (Lvl := ℕ) spec13 c (B41 m c)
  hentry c := by
    rw [Pipeline.ownSems0_none]
    have hsplit := Pipeline.arrays_of_unscopedBufs (p := 13) (pcfgs (F := F)) adm (pdats m) launch13.win launch13.arr_whole c
      ((pdats m 13 c).share_full fun _ => rfl) (B41 m c) fun w => A_eq13 (B41 m) c w
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    refine (show _ ⊢ (Pipeline.ΦA spec13 c : sProp 𝕄) from ?_).trans (hin13 (B41 m) c)
    unfold Pipeline.ΦA
    iintro ⟨Hp, -, Hr⟩
    isplitl [Hr]; · iexact Hr
    iexact Hp
  hout c := by
    refine (hout13 (B41 m) c).trans ?_
    rw [Pipeline.ownSems0_none]; unfold Pipeline.ΦA
    iintro ⟨Hr, Hp⟩
    isplitl [Hp]; · iexact Hp
    isplitr; · iempintro
    iexact Hr
  hexit c := by
    have hjoin := Pipeline.unscopedBufs_of_arrays (p := 13) (pcfgs (F := F)) adm (Ix := Unit) (Name := ℕ) (U := UR sig nD τ) (Lvl := ℕ)
      launch13.win launch13.arr_whole c (pdats m) ((pdats m 13 c).share_full fun _ => rfl)
      (B41 m c) (B42 m c) ((pdats m 13 c).arrAt · cfg13.N) (hF13 m c) (hrest13 m c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

end Cert.KernelIdeal.Rg
end
-- ==== Proof.KI.Run.lean ====
/- The run of @main: the conditional run's hypotheses discharged — the family of proof data, the named buffer contents as the
   regions' unknowns, the 14 segment records, each entered from and left at the named contents; beside the buffers every core
   carries its generator register and owes nothing. The result buffer ends at the last host stretch applied to the last region's exit contents. -/
import proofs.«181230_j19834158973077_2_alg».proof.Proof.KI.RunCond
import proofs.«181230_j19834158973077_2_alg».proof.Proof.KI.SegsA
import proofs.«181230_j19834158973077_2_alg».proof.Proof.KI.SegsB
import proofs.«181230_j19834158973077_2_alg».proof.Proof.KI.SegsC
import proofs.«181230_j19834158973077_2_alg».proof.Proof.KI.SegsD

set_option maxRecDepth 16384

noncomputable section

namespace Cert.KernelIdeal.Rg

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal Cert.KernelIdeal.Gen

variable {F : FTy → Type} [FloatOps F]

local notation "𝕄" => MT nD τ sig Unit (Elt F) ℕ (UR sig nD τ) ℕ

variable (m : (ℓ : Loc nD τ sig) → Buf (Elt F) ℓ) (ρ : Dev nD → PrngReg)

set_option maxHeartbeats 4000000 in
set_option backward.isDefEq.respectTransparency.types false in
theorem run_main : θ_run defs (onTc (τ := τ) (main (F := F))) ⟨m, fun _ => 0, ρ⟩ (fun r => ∀ c : Dev nD,
      r.2.mem ((c.tc : Thread nD τ).loc main_v113) = W43 m c main_v113
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)) := by
  have h := run_cond (F := F) (m := m) (EP := emb₁) (ι := ()) (𝒱₀ := Variants.none) (L := L) (lv := lv) (hL := fun _ _ => rfl) (ρ := ρ)
    (outs := outs m) (pdats := pdats m) (O₀ := 0) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (E := fun _ c => R c)
    (hE0 := Pipeline.initEach L lv fun c => by
      iintro ⟨⟨-, HO, -, Hp, -⟩, -⟩
      imodintro
      isplitl [Hp]; · iexists _; iexact Hp
      iexists ∅; iexact HO)
    (hE14 := fun c => by iintro ⟨-, HO⟩; iexact HO)
    (R0 := reg0 m) (hpre0 := fun c => by exact .rfl) (hpost0 := fun c => by rw [V16_eq]; exact .rfl)
    (R1 := reg1 m) (hpre1 := fun c => by rw [V17_eq]; exact .rfl) (hpost1 := fun c => by rw [V18_eq]; exact .rfl)
    (R2 := reg2 m) (hpre2 := fun c => by rw [V19_eq]; exact .rfl) (hpost2 := fun c => by rw [V20_eq]; exact .rfl)
    (R3 := reg3 m) (hpre3 := fun c => by rw [V21_eq]; exact .rfl) (hpost3 := fun c => by rw [V22_eq]; exact .rfl)
    (R4 := reg4 m) (hpre4 := fun c => by rw [V23_eq]; exact .rfl) (hpost4 := fun c => by rw [V24_eq]; exact .rfl)
    (R5 := reg5 m) (hpre5 := fun c => by rw [V25_eq]; exact .rfl) (hpost5 := fun c => by rw [V26_eq]; exact .rfl)
    (R6 := reg6 m) (hpre6 := fun c => by rw [V27_eq]; exact .rfl) (hpost6 := fun c => by rw [V28_eq]; exact .rfl)
    (R7 := reg7 m) (hpre7 := fun c => by rw [V29_eq]; exact .rfl) (hpost7 := fun c => by rw [V30_eq]; exact .rfl)
    (R8 := reg8 m) (hpre8 := fun c => by rw [V31_eq]; exact .rfl) (hpost8 := fun c => by rw [V32_eq]; exact .rfl)
    (R9 := reg9 m) (hpre9 := fun c => by rw [V33_eq]; exact .rfl) (hpost9 := fun c => by rw [V34_eq]; exact .rfl)
    (R10 := reg10 m) (hpre10 := fun c => by rw [V35_eq]; exact .rfl) (hpost10 := fun c => by rw [V36_eq]; exact .rfl)
    (R11 := reg11 m) (hpre11 := fun c => by rw [V37_eq]; exact .rfl) (hpost11 := fun c => by rw [V38_eq]; exact .rfl)
    (R12 := reg12 m) (hpre12 := fun c => by rw [V39_eq]; exact .rfl) (hpost12 := fun c => by rw [V40_eq]; exact .rfl)
    (R13 := reg13 m) (hpre13 := fun c => by rw [V41_eq]; exact .rfl) (hpost13 := fun c => by rw [V42_eq]; exact .rfl)
  refine (θ_run defs _ _).mono (fun r hr c => ?_) h
  rw [← V43_eq m c]; exact hr c

end Cert.KernelIdeal.Rg
end
-- ==== Proof.KI.Carry.lean ====
/- Buffers that nothing writes between two items of @main keep their contents: a host stretch changes only the buffers its
   operations write, a region only its result array. One lemma per (buffer, from, to) that the result's chain needs. -/
import proofs.«181230_j19834158973077_2_alg».proof.Proof.KI.Data

set_option maxRecDepth 16384

noncomputable section

namespace Cert.KernelIdeal.Rg

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal Cert.KernelIdeal.Gen

variable {F : FTy → Type} [FloatOps F]

local notation "𝕄" => MT nD τ sig Unit (Elt F) ℕ (UR sig nD τ) ℕ

variable (m : (ℓ : Loc nD τ sig) → Buf (Elt F) ℓ)
theorem carry_v47_15_21 (c : Dev nD) : W21 m c main_v47 = W15 m c main_v47 := by
  have h : V21 m (outs m) c main_v47 = V15 m c main_v47 := (V21_of m (outs m) c main_v47 (by decide)).trans ((V20_of m (outs m) c main_v47 (by decide)).trans ((V19_of m (outs m) c main_v47 (by decide)).trans ((V18_of m (outs m) c main_v47 (by decide)).trans ((V17_of m (outs m) c main_v47 (by decide)).trans ((V16_of m (outs m) c main_v47 (by decide)))))))
  rwa [V21_eq] at h
theorem carry_v47_15_25 (c : Dev nD) : W25 m c main_v47 = W15 m c main_v47 := by
  have h : V25 m (outs m) c main_v47 = V15 m c main_v47 := (V25_of m (outs m) c main_v47 (by decide)).trans ((V24_of m (outs m) c main_v47 (by decide)).trans ((V23_of m (outs m) c main_v47 (by decide)).trans ((V22_of m (outs m) c main_v47 (by decide)).trans ((V21_of m (outs m) c main_v47 (by decide)).trans ((V20_of m (outs m) c main_v47 (by decide)).trans ((V19_of m (outs m) c main_v47 (by decide)).trans ((V18_of m (outs m) c main_v47 (by decide)).trans ((V17_of m (outs m) c main_v47 (by decide)).trans ((V16_of m (outs m) c main_v47 (by decide)))))))))))
  rwa [V25_eq] at h
theorem carry_v47_15_29 (c : Dev nD) : W29 m c main_v47 = W15 m c main_v47 := by
  have h : V29 m (outs m) c main_v47 = V15 m c main_v47 := (V29_of m (outs m) c main_v47 (by decide)).trans ((V28_of m (outs m) c main_v47 (by decide)).trans ((V27_of m (outs m) c main_v47 (by decide)).trans ((V26_of m (outs m) c main_v47 (by decide)).trans ((V25_of m (outs m) c main_v47 (by decide)).trans ((V24_of m (outs m) c main_v47 (by decide)).trans ((V23_of m (outs m) c main_v47 (by decide)).trans ((V22_of m (outs m) c main_v47 (by decide)).trans ((V21_of m (outs m) c main_v47 (by decide)).trans ((V20_of m (outs m) c main_v47 (by decide)).trans ((V19_of m (outs m) c main_v47 (by decide)).trans ((V18_of m (outs m) c main_v47 (by decide)).trans ((V17_of m (outs m) c main_v47 (by decide)).trans ((V16_of m (outs m) c main_v47 (by decide)))))))))))))))
  rwa [V29_eq] at h
theorem carry_v47_15_33 (c : Dev nD) : W33 m c main_v47 = W15 m c main_v47 := by
  have h : V33 m (outs m) c main_v47 = V15 m c main_v47 := (V33_of m (outs m) c main_v47 (by decide)).trans ((V32_of m (outs m) c main_v47 (by decide)).trans ((V31_of m (outs m) c main_v47 (by decide)).trans ((V30_of m (outs m) c main_v47 (by decide)).trans ((V29_of m (outs m) c main_v47 (by decide)).trans ((V28_of m (outs m) c main_v47 (by decide)).trans ((V27_of m (outs m) c main_v47 (by decide)).trans ((V26_of m (outs m) c main_v47 (by decide)).trans ((V25_of m (outs m) c main_v47 (by decide)).trans ((V24_of m (outs m) c main_v47 (by decide)).trans ((V23_of m (outs m) c main_v47 (by decide)).trans ((V22_of m (outs m) c main_v47 (by decide)).trans ((V21_of m (outs m) c main_v47 (by decide)).trans ((V20_of m (outs m) c main_v47 (by decide)).trans ((V19_of m (outs m) c main_v47 (by decide)).trans ((V18_of m (outs m) c main_v47 (by decide)).trans ((V17_of m (outs m) c main_v47 (by decide)).trans ((V16_of m (outs m) c main_v47 (by decide)))))))))))))))))))
  rwa [V33_eq] at h
theorem carry_v47_15_37 (c : Dev nD) : W37 m c main_v47 = W15 m c main_v47 := by
  have h : V37 m (outs m) c main_v47 = V15 m c main_v47 := (V37_of m (outs m) c main_v47 (by decide)).trans ((V36_of m (outs m) c main_v47 (by decide)).trans ((V35_of m (outs m) c main_v47 (by decide)).trans ((V34_of m (outs m) c main_v47 (by decide)).trans ((V33_of m (outs m) c main_v47 (by decide)).trans ((V32_of m (outs m) c main_v47 (by decide)).trans ((V31_of m (outs m) c main_v47 (by decide)).trans ((V30_of m (outs m) c main_v47 (by decide)).trans ((V29_of m (outs m) c main_v47 (by decide)).trans ((V28_of m (outs m) c main_v47 (by decide)).trans ((V27_of m (outs m) c main_v47 (by decide)).trans ((V26_of m (outs m) c main_v47 (by decide)).trans ((V25_of m (outs m) c main_v47 (by decide)).trans ((V24_of m (outs m) c main_v47 (by decide)).trans ((V23_of m (outs m) c main_v47 (by decide)).trans ((V22_of m (outs m) c main_v47 (by decide)).trans ((V21_of m (outs m) c main_v47 (by decide)).trans ((V20_of m (outs m) c main_v47 (by decide)).trans ((V19_of m (outs m) c main_v47 (by decide)).trans ((V18_of m (outs m) c main_v47 (by decide)).trans ((V17_of m (outs m) c main_v47 (by decide)).trans ((V16_of m (outs m) c main_v47 (by decide)))))))))))))))))))))))
  rwa [V37_eq] at h
theorem carry_v47_15_41 (c : Dev nD) : W41 m c main_v47 = W15 m c main_v47 := by
  have h : V41 m (outs m) c main_v47 = V15 m c main_v47 := (V41_of m (outs m) c main_v47 (by decide)).trans ((V40_of m (outs m) c main_v47 (by decide)).trans ((V39_of m (outs m) c main_v47 (by decide)).trans ((V38_of m (outs m) c main_v47 (by decide)).trans ((V37_of m (outs m) c main_v47 (by decide)).trans ((V36_of m (outs m) c main_v47 (by decide)).trans ((V35_of m (outs m) c main_v47 (by decide)).trans ((V34_of m (outs m) c main_v47 (by decide)).trans ((V33_of m (outs m) c main_v47 (by decide)).trans ((V32_of m (outs m) c main_v47 (by decide)).trans ((V31_of m (outs m) c main_v47 (by decide)).trans ((V30_of m (outs m) c main_v47 (by decide)).trans ((V29_of m (outs m) c main_v47 (by decide)).trans ((V28_of m (outs m) c main_v47 (by decide)).trans ((V27_of m (outs m) c main_v47 (by decide)).trans ((V26_of m (outs m) c main_v47 (by decide)).trans ((V25_of m (outs m) c main_v47 (by decide)).trans ((V24_of m (outs m) c main_v47 (by decide)).trans ((V23_of m (outs m) c main_v47 (by decide)).trans ((V22_of m (outs m) c main_v47 (by decide)).trans ((V21_of m (outs m) c main_v47 (by decide)).trans ((V20_of m (outs m) c main_v47 (by decide)).trans ((V19_of m (outs m) c main_v47 (by decide)).trans ((V18_of m (outs m) c main_v47 (by decide)).trans ((V17_of m (outs m) c main_v47 (by decide)).trans ((V16_of m (outs m) c main_v47 (by decide)))))))))))))))))))))))))))
  rwa [V41_eq] at h
theorem carry_v60_16_17 (c : Dev nD) : W17 m c main_v60 = W16 m c main_v60 := by
  have h : V17 m (outs m) c main_v60 = V16 m (outs m) c main_v60 := (V17_of m (outs m) c main_v60 (by decide))
  rwa [V17_eq, V16_eq] at h
theorem carry_v62_18_19 (c : Dev nD) : W19 m c main_v62 = W18 m c main_v62 := by
  have h : V19 m (outs m) c main_v62 = V18 m (outs m) c main_v62 := (V19_of m (outs m) c main_v62 (by decide))
  rwa [V19_eq, V18_eq] at h
theorem carry_v69_20_21 (c : Dev nD) : W21 m c main_v69 = W20 m c main_v69 := by
  have h : V21 m (outs m) c main_v69 = V20 m (outs m) c main_v69 := (V21_of m (outs m) c main_v69 (by decide))
  rwa [V21_eq, V20_eq] at h
theorem carry_v71_22_23 (c : Dev nD) : W23 m c main_v71 = W22 m c main_v71 := by
  have h : V23 m (outs m) c main_v71 = V22 m (outs m) c main_v71 := (V23_of m (outs m) c main_v71 (by decide))
  rwa [V23_eq, V22_eq] at h
theorem carry_v78_24_25 (c : Dev nD) : W25 m c main_v78 = W24 m c main_v78 := by
  have h : V25 m (outs m) c main_v78 = V24 m (outs m) c main_v78 := (V25_of m (outs m) c main_v78 (by decide))
  rwa [V25_eq, V24_eq] at h
theorem carry_v80_26_27 (c : Dev nD) : W27 m c main_v80 = W26 m c main_v80 := by
  have h : V27 m (outs m) c main_v80 = V26 m (outs m) c main_v80 := (V27_of m (outs m) c main_v80 (by decide))
  rwa [V27_eq, V26_eq] at h
theorem carry_v87_28_29 (c : Dev nD) : W29 m c main_v87 = W28 m c main_v87 := by
  have h : V29 m (outs m) c main_v87 = V28 m (outs m) c main_v87 := (V29_of m (outs m) c main_v87 (by decide))
  rwa [V29_eq, V28_eq] at h
theorem carry_v89_30_31 (c : Dev nD) : W31 m c main_v89 = W30 m c main_v89 := by
  have h : V31 m (outs m) c main_v89 = V30 m (outs m) c main_v89 := (V31_of m (outs m) c main_v89 (by decide))
  rwa [V31_eq, V30_eq] at h
theorem carry_v96_32_33 (c : Dev nD) : W33 m c main_v96 = W32 m c main_v96 := by
  have h : V33 m (outs m) c main_v96 = V32 m (outs m) c main_v96 := (V33_of m (outs m) c main_v96 (by decide))
  rwa [V33_eq, V32_eq] at h
theorem carry_v98_34_35 (c : Dev nD) : W35 m c main_v98 = W34 m c main_v98 := by
  have h : V35 m (outs m) c main_v98 = V34 m (outs m) c main_v98 := (V35_of m (outs m) c main_v98 (by decide))
  rwa [V35_eq, V34_eq] at h
theorem carry_v105_36_37 (c : Dev nD) : W37 m c main_v105 = W36 m c main_v105 := by
  have h : V37 m (outs m) c main_v105 = V36 m (outs m) c main_v105 := (V37_of m (outs m) c main_v105 (by decide))
  rwa [V37_eq, V36_eq] at h
theorem carry_v107_38_39 (c : Dev nD) : W39 m c main_v107 = W38 m c main_v107 := by
  have h : V39 m (outs m) c main_v107 = V38 m (outs m) c main_v107 := (V39_of m (outs m) c main_v107 (by decide))
  rwa [V39_eq, V38_eq] at h
theorem carry_v110_40_41 (c : Dev nD) : W41 m c main_v110 = W40 m c main_v110 := by
  have h : V41 m (outs m) c main_v110 = V40 m (outs m) c main_v110 := (V41_of m (outs m) c main_v110 (by decide))
  rwa [V41_eq, V40_eq] at h
theorem carry_v51_15_17 (c : Dev nD) : W17 m c main_v51 = W15 m c main_v51 := by
  have h : V17 m (outs m) c main_v51 = V15 m c main_v51 := (V17_of m (outs m) c main_v51 (by decide)).trans ((V16_of m (outs m) c main_v51 (by decide)))
  rwa [V17_eq] at h
theorem carry_v52_15_16 (c : Dev nD) : W16 m c main_v52 = W15 m c main_v52 := by
  have h : V16 m (outs m) c main_v52 = V15 m c main_v52 := (V16_of m (outs m) c main_v52 (by decide))
  rwa [V16_eq] at h
theorem carry_v57_15_39 (c : Dev nD) : W39 m c main_v57 = W15 m c main_v57 := by
  have h : V39 m (outs m) c main_v57 = V15 m c main_v57 := (V39_of m (outs m) c main_v57 (by decide)).trans ((V38_of m (outs m) c main_v57 (by decide)).trans ((V37_of m (outs m) c main_v57 (by decide)).trans ((V36_of m (outs m) c main_v57 (by decide)).trans ((V35_of m (outs m) c main_v57 (by decide)).trans ((V34_of m (outs m) c main_v57 (by decide)).trans ((V33_of m (outs m) c main_v57 (by decide)).trans ((V32_of m (outs m) c main_v57 (by decide)).trans ((V31_of m (outs m) c main_v57 (by decide)).trans ((V30_of m (outs m) c main_v57 (by decide)).trans ((V29_of m (outs m) c main_v57 (by decide)).trans ((V28_of m (outs m) c main_v57 (by decide)).trans ((V27_of m (outs m) c main_v57 (by decide)).trans ((V26_of m (outs m) c main_v57 (by decide)).trans ((V25_of m (outs m) c main_v57 (by decide)).trans ((V24_of m (outs m) c main_v57 (by decide)).trans ((V23_of m (outs m) c main_v57 (by decide)).trans ((V22_of m (outs m) c main_v57 (by decide)).trans ((V21_of m (outs m) c main_v57 (by decide)).trans ((V20_of m (outs m) c main_v57 (by decide)).trans ((V19_of m (outs m) c main_v57 (by decide)).trans ((V18_of m (outs m) c main_v57 (by decide)).trans ((V17_of m (outs m) c main_v57 (by decide)).trans ((V16_of m (outs m) c main_v57 (by decide)))))))))))))))))))))))))
  rwa [V39_eq] at h
theorem carry_v54_15_18 (c : Dev nD) : W18 m c main_v54 = W15 m c main_v54 := by
  have h : V18 m (outs m) c main_v54 = V15 m c main_v54 := (V18_of m (outs m) c main_v54 (by decide)).trans ((V17_of m (outs m) c main_v54 (by decide)).trans ((V16_of m (outs m) c main_v54 (by decide))))
  rwa [V18_eq] at h
theorem carry_v55_15_18 (c : Dev nD) : W18 m c main_v55 = W15 m c main_v55 := by
  have h : V18 m (outs m) c main_v55 = V15 m c main_v55 := (V18_of m (outs m) c main_v55 (by decide)).trans ((V17_of m (outs m) c main_v55 (by decide)).trans ((V16_of m (outs m) c main_v55 (by decide))))
  rwa [V18_eq] at h
theorem carry_v54_15_22 (c : Dev nD) : W22 m c main_v54 = W15 m c main_v54 := by
  have h : V22 m (outs m) c main_v54 = V15 m c main_v54 := (V22_of m (outs m) c main_v54 (by decide)).trans ((V21_of m (outs m) c main_v54 (by decide)).trans ((V20_of m (outs m) c main_v54 (by decide)).trans ((V19_of m (outs m) c main_v54 (by decide)).trans ((V18_of m (outs m) c main_v54 (by decide)).trans ((V17_of m (outs m) c main_v54 (by decide)).trans ((V16_of m (outs m) c main_v54 (by decide))))))))
  rwa [V22_eq] at h
theorem carry_v55_15_22 (c : Dev nD) : W22 m c main_v55 = W15 m c main_v55 := by
  have h : V22 m (outs m) c main_v55 = V15 m c main_v55 := (V22_of m (outs m) c main_v55 (by decide)).trans ((V21_of m (outs m) c main_v55 (by decide)).trans ((V20_of m (outs m) c main_v55 (by decide)).trans ((V19_of m (outs m) c main_v55 (by decide)).trans ((V18_of m (outs m) c main_v55 (by decide)).trans ((V17_of m (outs m) c main_v55 (by decide)).trans ((V16_of m (outs m) c main_v55 (by decide))))))))
  rwa [V22_eq] at h
theorem carry_v54_15_26 (c : Dev nD) : W26 m c main_v54 = W15 m c main_v54 := by
  have h : V26 m (outs m) c main_v54 = V15 m c main_v54 := (V26_of m (outs m) c main_v54 (by decide)).trans ((V25_of m (outs m) c main_v54 (by decide)).trans ((V24_of m (outs m) c main_v54 (by decide)).trans ((V23_of m (outs m) c main_v54 (by decide)).trans ((V22_of m (outs m) c main_v54 (by decide)).trans ((V21_of m (outs m) c main_v54 (by decide)).trans ((V20_of m (outs m) c main_v54 (by decide)).trans ((V19_of m (outs m) c main_v54 (by decide)).trans ((V18_of m (outs m) c main_v54 (by decide)).trans ((V17_of m (outs m) c main_v54 (by decide)).trans ((V16_of m (outs m) c main_v54 (by decide))))))))))))
  rwa [V26_eq] at h
theorem carry_v55_15_26 (c : Dev nD) : W26 m c main_v55 = W15 m c main_v55 := by
  have h : V26 m (outs m) c main_v55 = V15 m c main_v55 := (V26_of m (outs m) c main_v55 (by decide)).trans ((V25_of m (outs m) c main_v55 (by decide)).trans ((V24_of m (outs m) c main_v55 (by decide)).trans ((V23_of m (outs m) c main_v55 (by decide)).trans ((V22_of m (outs m) c main_v55 (by decide)).trans ((V21_of m (outs m) c main_v55 (by decide)).trans ((V20_of m (outs m) c main_v55 (by decide)).trans ((V19_of m (outs m) c main_v55 (by decide)).trans ((V18_of m (outs m) c main_v55 (by decide)).trans ((V17_of m (outs m) c main_v55 (by decide)).trans ((V16_of m (outs m) c main_v55 (by decide))))))))))))
  rwa [V26_eq] at h
theorem carry_v54_15_30 (c : Dev nD) : W30 m c main_v54 = W15 m c main_v54 := by
  have h : V30 m (outs m) c main_v54 = V15 m c main_v54 := (V30_of m (outs m) c main_v54 (by decide)).trans ((V29_of m (outs m) c main_v54 (by decide)).trans ((V28_of m (outs m) c main_v54 (by decide)).trans ((V27_of m (outs m) c main_v54 (by decide)).trans ((V26_of m (outs m) c main_v54 (by decide)).trans ((V25_of m (outs m) c main_v54 (by decide)).trans ((V24_of m (outs m) c main_v54 (by decide)).trans ((V23_of m (outs m) c main_v54 (by decide)).trans ((V22_of m (outs m) c main_v54 (by decide)).trans ((V21_of m (outs m) c main_v54 (by decide)).trans ((V20_of m (outs m) c main_v54 (by decide)).trans ((V19_of m (outs m) c main_v54 (by decide)).trans ((V18_of m (outs m) c main_v54 (by decide)).trans ((V17_of m (outs m) c main_v54 (by decide)).trans ((V16_of m (outs m) c main_v54 (by decide))))))))))))))))
  rwa [V30_eq] at h
theorem carry_v55_15_30 (c : Dev nD) : W30 m c main_v55 = W15 m c main_v55 := by
  have h : V30 m (outs m) c main_v55 = V15 m c main_v55 := (V30_of m (outs m) c main_v55 (by decide)).trans ((V29_of m (outs m) c main_v55 (by decide)).trans ((V28_of m (outs m) c main_v55 (by decide)).trans ((V27_of m (outs m) c main_v55 (by decide)).trans ((V26_of m (outs m) c main_v55 (by decide)).trans ((V25_of m (outs m) c main_v55 (by decide)).trans ((V24_of m (outs m) c main_v55 (by decide)).trans ((V23_of m (outs m) c main_v55 (by decide)).trans ((V22_of m (outs m) c main_v55 (by decide)).trans ((V21_of m (outs m) c main_v55 (by decide)).trans ((V20_of m (outs m) c main_v55 (by decide)).trans ((V19_of m (outs m) c main_v55 (by decide)).trans ((V18_of m (outs m) c main_v55 (by decide)).trans ((V17_of m (outs m) c main_v55 (by decide)).trans ((V16_of m (outs m) c main_v55 (by decide))))))))))))))))
  rwa [V30_eq] at h
theorem carry_v54_15_34 (c : Dev nD) : W34 m c main_v54 = W15 m c main_v54 := by
  have h : V34 m (outs m) c main_v54 = V15 m c main_v54 := (V34_of m (outs m) c main_v54 (by decide)).trans ((V33_of m (outs m) c main_v54 (by decide)).trans ((V32_of m (outs m) c main_v54 (by decide)).trans ((V31_of m (outs m) c main_v54 (by decide)).trans ((V30_of m (outs m) c main_v54 (by decide)).trans ((V29_of m (outs m) c main_v54 (by decide)).trans ((V28_of m (outs m) c main_v54 (by decide)).trans ((V27_of m (outs m) c main_v54 (by decide)).trans ((V26_of m (outs m) c main_v54 (by decide)).trans ((V25_of m (outs m) c main_v54 (by decide)).trans ((V24_of m (outs m) c main_v54 (by decide)).trans ((V23_of m (outs m) c main_v54 (by decide)).trans ((V22_of m (outs m) c main_v54 (by decide)).trans ((V21_of m (outs m) c main_v54 (by decide)).trans ((V20_of m (outs m) c main_v54 (by decide)).trans ((V19_of m (outs m) c main_v54 (by decide)).trans ((V18_of m (outs m) c main_v54 (by decide)).trans ((V17_of m (outs m) c main_v54 (by decide)).trans ((V16_of m (outs m) c main_v54 (by decide))))))))))))))))))))
  rwa [V34_eq] at h
theorem carry_v55_15_34 (c : Dev nD) : W34 m c main_v55 = W15 m c main_v55 := by
  have h : V34 m (outs m) c main_v55 = V15 m c main_v55 := (V34_of m (outs m) c main_v55 (by decide)).trans ((V33_of m (outs m) c main_v55 (by decide)).trans ((V32_of m (outs m) c main_v55 (by decide)).trans ((V31_of m (outs m) c main_v55 (by decide)).trans ((V30_of m (outs m) c main_v55 (by decide)).trans ((V29_of m (outs m) c main_v55 (by decide)).trans ((V28_of m (outs m) c main_v55 (by decide)).trans ((V27_of m (outs m) c main_v55 (by decide)).trans ((V26_of m (outs m) c main_v55 (by decide)).trans ((V25_of m (outs m) c main_v55 (by decide)).trans ((V24_of m (outs m) c main_v55 (by decide)).trans ((V23_of m (outs m) c main_v55 (by decide)).trans ((V22_of m (outs m) c main_v55 (by decide)).trans ((V21_of m (outs m) c main_v55 (by decide)).trans ((V20_of m (outs m) c main_v55 (by decide)).trans ((V19_of m (outs m) c main_v55 (by decide)).trans ((V18_of m (outs m) c main_v55 (by decide)).trans ((V17_of m (outs m) c main_v55 (by decide)).trans ((V16_of m (outs m) c main_v55 (by decide))))))))))))))))))))
  rwa [V34_eq] at h
theorem carry_v66_19_20 (c : Dev nD) : W20 m c main_v66 = W19 m c main_v66 := by
  have h : V20 m (outs m) c main_v66 = V19 m (outs m) c main_v66 := (V20_of m (outs m) c main_v66 (by decide))
  rwa [V20_eq, V19_eq] at h
theorem carry_v75_23_24 (c : Dev nD) : W24 m c main_v75 = W23 m c main_v75 := by
  have h : V24 m (outs m) c main_v75 = V23 m (outs m) c main_v75 := (V24_of m (outs m) c main_v75 (by decide))
  rwa [V24_eq, V23_eq] at h
theorem carry_v84_27_28 (c : Dev nD) : W28 m c main_v84 = W27 m c main_v84 := by
  have h : V28 m (outs m) c main_v84 = V27 m (outs m) c main_v84 := (V28_of m (outs m) c main_v84 (by decide))
  rwa [V28_eq, V27_eq] at h
theorem carry_v93_31_32 (c : Dev nD) : W32 m c main_v93 = W31 m c main_v93 := by
  have h : V32 m (outs m) c main_v93 = V31 m (outs m) c main_v93 := (V32_of m (outs m) c main_v93 (by decide))
  rwa [V32_eq, V31_eq] at h
theorem carry_v102_35_36 (c : Dev nD) : W36 m c main_v102 = W35 m c main_v102 := by
  have h : V36 m (outs m) c main_v102 = V35 m (outs m) c main_v102 := (V36_of m (outs m) c main_v102 (by decide))
  rwa [V36_eq, V35_eq] at h
theorem carry_arg8_15_40 (c : Dev nD) : W40 m c main_arg8 = W15 m c main_arg8 := by
  have h : V40 m (outs m) c main_arg8 = V15 m c main_arg8 := (V40_of m (outs m) c main_arg8 (by decide)).trans ((V39_of m (outs m) c main_arg8 (by decide)).trans ((V38_of m (outs m) c main_arg8 (by decide)).trans ((V37_of m (outs m) c main_arg8 (by decide)).trans ((V36_of m (outs m) c main_arg8 (by decide)).trans ((V35_of m (outs m) c main_arg8 (by decide)).trans ((V34_of m (outs m) c main_arg8 (by decide)).trans ((V33_of m (outs m) c main_arg8 (by decide)).trans ((V32_of m (outs m) c main_arg8 (by decide)).trans ((V31_of m (outs m) c main_arg8 (by decide)).trans ((V30_of m (outs m) c main_arg8 (by decide)).trans ((V29_of m (outs m) c main_arg8 (by decide)).trans ((V28_of m (outs m) c main_arg8 (by decide)).trans ((V27_of m (outs m) c main_arg8 (by decide)).trans ((V26_of m (outs m) c main_arg8 (by decide)).trans ((V25_of m (outs m) c main_arg8 (by decide)).trans ((V24_of m (outs m) c main_arg8 (by decide)).trans ((V23_of m (outs m) c main_arg8 (by decide)).trans ((V22_of m (outs m) c main_arg8 (by decide)).trans ((V21_of m (outs m) c main_arg8 (by decide)).trans ((V20_of m (outs m) c main_arg8 (by decide)).trans ((V19_of m (outs m) c main_arg8 (by decide)).trans ((V18_of m (outs m) c main_arg8 (by decide)).trans ((V17_of m (outs m) c main_arg8 (by decide)).trans ((V16_of m (outs m) c main_arg8 (by decide))))))))))))))))))))))))))
  rwa [V40_eq] at h

end Cert.KernelIdeal.Rg
end
-- ==== Proof.Spec.lean ====
/-
  The two networks as plain functions of abstract data.

  A graph on 10000 nodes is given by 170000 weighted entries: entry `e` goes from node `row e` to node `col e` with
  weight `w e`. A graph convolution sends node features `h` to `(S (h W)) + b`, where `S` adds into each node `i` the
  weighted feature rows of the sources of the entries that point at `i`.

  `refNet` is the seven-layer network in gather / scatter-add form over the 10000 nodes and the hidden width 1000.
  `kerNet` is the same network in dense form: the entries are summed into a 10240 × 10240 matrix `adj`, node features are
  padded with 240 zero rows, the hidden width is padded to 1024 with zero columns and rows of the weights and zero bias
  entries, the first layer aggregates before it transforms, and the first 10000 rows of the result are kept.
-/
import Idealize.ShloMosaic.PureOps.Ideal
import Idealize.ShloMosaic.Lib.ValueIdx

noncomputable section

namespace Cert.Spec

open Finset

/-- The rectifier: the larger of `x` and zero. -/
def relu (x : EReal) : EReal := max x 0

/-- The matrix product: entry `(p, q)` is `∑ k, X p k * W k q`. -/
def matMul {M K D : ℕ} (X : Fin M → Fin K → EReal) (W : Fin K → Fin D → EReal) : Fin M → Fin D → EReal :=
  fun p q => ∑ k, X p k * W k q

/-- A matrix product plus a bias row: entry `(p, q)` is `(∑ k, X p k * W k q) + b q`. -/
def affine {M K D : ℕ} (X : Fin M → Fin K → EReal) (W : Fin K → Fin D → EReal) (b : Fin D → EReal) :
    Fin M → Fin D → EReal :=
  fun p q => matMul X W p q + b q

/-- The rectifier applied to every entry. -/
def reluAll {M D : ℕ} (X : Fin M → Fin D → EReal) : Fin M → Fin D → EReal := fun p q => relu (X p q)

/-- The all-zero bias row. -/
def zeroBias (D : ℕ) : Fin D → EReal := fun _ => 0

/-! ### The reference network: gather and scatter-add over the entries -/

section Reference

variable (row col : Fin 170000 → Fin 10000) (w : Fin 170000 → EReal)

/-- Aggregation: node `i` receives, from every entry `e` that points at it, the weight `w e` times the feature row of
    the entry's source. -/
def agg {D : ℕ} (h : Fin 10000 → Fin D → EReal) : Fin 10000 → Fin D → EReal :=
  fun i c => ∑ e ∈ univ.filter (fun e => col e = i), w e * h (row e) c

/-- One graph convolution: transform by `W`, aggregate, add the bias. -/
def conv {K D : ℕ} (h : Fin 10000 → Fin K → EReal) (W : Fin K → Fin D → EReal) (b : Fin D → EReal) :
    Fin 10000 → Fin D → EReal :=
  fun i c => agg row col w (matMul h W) i c + b c

/-- A graph convolution followed by the rectifier. -/
def reluConv {K D : ℕ} (h : Fin 10000 → Fin K → EReal) (W : Fin K → Fin D → EReal) (b : Fin D → EReal) :
    Fin 10000 → Fin D → EReal :=
  reluAll (conv row col w h W b)

variable (x : Fin 10000 → Fin 128 → EReal) (W1 : Fin 128 → Fin 1000 → EReal) (b1 : Fin 1000 → EReal)
  (Wmid : Fin 5 → Fin 1000 → Fin 1000 → EReal) (bmid : Fin 5 → Fin 1000 → EReal)
  (W7 : Fin 1000 → Fin 256 → EReal) (b7 : Fin 256 → EReal)

/-- The hidden features of the reference after its first layer (`n = 0`) and after `n` more of the five middle layers;
    beyond five middle layers the value is that after five. -/
def refHidden : ℕ → Fin 10000 → Fin 1000 → EReal
  | 0 => reluConv row col w x W1 b1
  | n + 1 =>
    if h : n < 5 then reluConv row col w (refHidden n) (Wmid ⟨n, h⟩) (bmid ⟨n, h⟩) else refHidden n

theorem refHidden_zero : refHidden row col w x W1 b1 Wmid bmid 0 = reluConv row col w x W1 b1 := rfl

theorem refHidden_succ (n : ℕ) (h : n < 5) :
    refHidden row col w x W1 b1 Wmid bmid (n + 1)
      = reluConv row col w (refHidden row col w x W1 b1 Wmid bmid n) (Wmid ⟨n, h⟩) (bmid ⟨n, h⟩) := by
  rw [refHidden, dif_pos h]

/-- The reference network: a rectified convolution 128 → 1000, five rectified convolutions 1000 → 1000, and a last
    convolution 1000 → 256 with no rectifier. -/
def refNet : Fin 10000 → Fin 256 → EReal :=
  conv row col w (refHidden row col w x W1 b1 Wmid bmid 5) W7 b7

end Reference

/-! ### The dense padded network -/

section Dense

variable (row col : Fin 170000 → Fin 10000) (w : Fin 170000 → EReal)

/-- The dense adjacency matrix on 10240 nodes: entry `(i, j)` is the sum of the weights of the entries from node `j` to
    node `i`; it is zero as soon as `i` or `j` is not one of the 10000 nodes. -/
def adj : Fin 10240 → Fin 10240 → EReal :=
  fun i j => ∑ e ∈ univ.filter (fun e => (col e).val = i.val ∧ (row e).val = j.val), w e

/-- A matrix padded with zeros to `M` rows and `N` columns. -/
def padMat {m n : ℕ} (M N : ℕ) (A : Fin m → Fin n → EReal) : Fin M → Fin N → EReal :=
  fun i j => if h : i.val < m ∧ j.val < n then A ⟨i.val, h.1⟩ ⟨j.val, h.2⟩ else 0

/-- A row padded with zeros to `N` entries. -/
def padVec {n : ℕ} (N : ℕ) (b : Fin n → EReal) : Fin N → EReal :=
  fun j => if h : j.val < n then b ⟨j.val, h⟩ else 0

/-- One padded middle or last layer: transform by the padded weights with a zero bias, aggregate densely, add the padded
    bias. -/
def denseConv {K D : ℕ} (H : Fin 10240 → Fin K → EReal) (W : Fin K → Fin D → EReal) (b : Fin D → EReal) :
    Fin 10240 → Fin D → EReal :=
  affine (adj row col w) (affine H W (zeroBias D)) b

variable (x : Fin 10000 → Fin 128 → EReal) (W1 : Fin 128 → Fin 1000 → EReal) (b1 : Fin 1000 → EReal)
  (Wmid : Fin 5 → Fin 1000 → Fin 1000 → EReal) (bmid : Fin 5 → Fin 1000 → EReal)
  (W7 : Fin 1000 → Fin 256 → EReal) (b7 : Fin 256 → EReal)

/-- The first dense layer, aggregating first: `relu ((adj · xpad + 0) · W1pad + b1pad)`. -/
def kerFirst : Fin 10240 → Fin 1024 → EReal :=
  reluAll (affine (affine (adj row col w) (padMat 10240 128 x) (zeroBias 128)) (padMat 128 1024 W1) (padVec 1024 b1))

/-- The padded hidden features after the first layer (`n = 0`) and after `n` more of the five middle layers; beyond five
    middle layers the value is that after five. -/
def kerHidden : ℕ → Fin 10240 → Fin 1024 → EReal
  | 0 => kerFirst row col w x W1 b1
  | n + 1 =>
    if h : n < 5 then
      reluAll (denseConv row col w (kerHidden n) (padMat 1024 1024 (Wmid ⟨n, h⟩)) (padVec 1024 (bmid ⟨n, h⟩)))
    else kerHidden n

theorem kerHidden_zero : kerHidden row col w x W1 b1 Wmid bmid 0 = kerFirst row col w x W1 b1 := rfl

theorem kerHidden_succ (n : ℕ) (h : n < 5) :
    kerHidden row col w x W1 b1 Wmid bmid (n + 1)
      = reluAll (denseConv row col w (kerHidden row col w x W1 b1 Wmid bmid n)
          (padMat 1024 1024 (Wmid ⟨n, h⟩)) (padVec 1024 (bmid ⟨n, h⟩))) := by
  rw [kerHidden, dif_pos h]

/-- The dense network on all 10240 padded rows. -/
def kerFull : Fin 10240 → Fin 256 → EReal :=
  denseConv row col w (kerHidden row col w x W1 b1 Wmid bmid 5) (padMat 1024 256 W7) b7

/-- The dense network: the first 10000 rows of `kerFull`. -/
def kerNet : Fin 10000 → Fin 256 → EReal :=
  fun i c => kerFull row col w x W1 b1 Wmid bmid W7 b7 ⟨i.val, by omega⟩ c

end Dense

end Cert.Spec
-- ==== Proof.Norm.lean ====
/-
  The symmetric normalisation of a graph with self loops, as one function of the edge-index and edge-weight arrays.

  Entries: the 160000 edges followed by 10000 self loops (node n to node n, weight 1), 170000 in all.
  `rowArr` / `colArr` are the entries' source / target node ids as 32-bit words, `weightArr` their weights,
  `degOf` the weighted in-degree (a scatter-add of the weights by target), `disOf` its inverse square root where the
  degree is positive and 0 elsewhere, and `normOf` entry e's coefficient dis[row e] * weight e * dis[col e], the two
  gathers reading through an index array in which a negative id would have the node count added.
  `rowOf` / `colOf` are the same endpoints as numbers below 10000; when every edge-index word encodes a number
  below 10000 the arrays hold exactly those numbers (`rowArr_apply`, `colArr_apply`) and the negative-id adjustment
  changes nothing (`wrapIdx_apply`).
-/
import Idealize.ShloMosaic.PureOps
import Idealize.ShloMosaic.Lib.ValueIdx
import Idealize.ShloMosaic.Lib.Pipeline.Value

noncomputable section

namespace Cert.Norm

open Idealize.ShloMosaic Idealize.ShloMosaic.ValueIdx

/-! ## Shapes and the side conditions of the layout operations -/

abbrev SEdgeIndex : Shape := ⟨2, ![2, 160000]⟩
abbrev SEdgeLine : Shape := ⟨2, ![1, 160000]⟩
abbrev SEdges : Shape := ⟨1, ![160000]⟩
abbrev SNodes : Shape := ⟨1, ![10000]⟩
abbrev SEntries : Shape := ⟨1, ![170000]⟩
abbrev SEntriesCol : Shape := ⟨2, ![170000, 1]⟩
abbrev SScalar : Shape := ⟨0, ![]⟩

theorem sliceLine0 : SEdgeIndex.Slices ![0, 0] SEdgeLine := by decide
theorem sliceLine1 : SEdgeIndex.Slices ![1, 0] SEdgeLine := by decide
theorem castLine : SEdgeLine.ShapeCasts SEdges := by decide
theorem joinEntries : Shape.Concatenates [SEdges, SNodes] SEntries 0 := by decide
theorem splatNodes : SScalar.BroadcastsInDim SNodes (![] : Fin 0 → Fin SNodes.rank) := by decide
theorem splatEntries : SScalar.BroadcastsInDim SEntries (![] : Fin 0 → Fin SEntries.rank) := by decide
theorem colEntries : SEntries.BroadcastsInDim SEntriesCol (![0] : Fin 1 → Fin SEntriesCol.rank) := by decide

/-- The degree's scatter: one target per entry, each update a single element. -/
def degScatter : ScatterDims SNodes SEntriesCol SEntries where
  updateWindowDims := []
  insertedWindowDims := [0]
  scatterDimsToOperandDims := [0]
  indexVectorDim := 1
  wf := by decide

/-- The gather of one per-node value per entry. -/
def nodeGather : GatherDims SNodes SEntriesCol SEntries where
  offsetDims := []
  collapsedSliceDims := [0]
  operandBatchingDims := []
  startIndicesBatchingDims := []
  startIndexMap := [0]
  indexVectorDim := 1
  sliceSizes := ![1]
  wf := by decide

/-! ## The arrays -/

/-- One line of the edge-index array (the line the offset `off` selects) followed by the node ids 0 … 9999. -/
def endsArr (off : Fin SEdgeIndex.rank → Nat) (h : SEdgeIndex.Slices off SEdgeLine) (ei : IVec SEdgeIndex 32) : IVec SEntries 32 :=
  concatenate SEntries 0 [⟨SEdges, shapeCast _ (extractStridedSlice SEdgeLine off ei h) castLine⟩, ⟨SNodes, iotaInDim SNodes 32 0⟩]
    joinEntries

/-- The entries' source nodes. -/
abbrev rowArr (ei : IVec SEdgeIndex 32) : IVec SEntries 32 := endsArr ![0, 0] sliceLine0 ei
/-- The entries' target nodes. -/
abbrev colArr (ei : IVec SEdgeIndex 32) : IVec SEntries 32 := endsArr ![1, 0] sliceLine1 ei

/-- The entries' weights: the edge weights, then 1 for every self loop. -/
def weightArr (ew : FVec Ideal SEdges .f32) : FVec Ideal SEntries .f32 :=
  concatenate SEntries 0 [⟨SEdges, ew⟩,
    ⟨SNodes, broadcastInDim SNodes ![] splatNodes (constant (F := Ideal) SScalar .f32 0x3F800000#32)⟩] joinEntries

/-- The weighted in-degree: the entries' weights added up by target node, from 0. -/
def degOf (ei : IVec SEdgeIndex 32) (ew : FVec Ideal SEdges .f32) : FVec Ideal SNodes .f32 :=
  Host.scatterAdd degScatter (broadcastInDim SNodes ![] splatNodes (constant (F := Ideal) SScalar .f32 0x00000000#32))
    (broadcastInDim SEntriesCol ![0] colEntries (colArr ei)) (weightArr ew)

/-- The degree's inverse square root where the degree is positive, 0 elsewhere. -/
def disOf (ei : IVec SEdgeIndex 32) (ew : FVec Ideal SEdges .f32) : FVec Ideal SNodes .f32 :=
  select (cmpf .ogt (degOf ei ew) (broadcastInDim SNodes ![] splatNodes (constant (F := Ideal) SScalar .f32 0x00000000#32)))
    (Host.rsqrt (degOf ei ew))
    (broadcastInDim SNodes ![] splatNodes (id (constant (F := Ideal) SScalar .f32 0x00000000#32)))

/-- An index array with the node count added to every negative entry. -/
def wrapIdx (v : IVec SEntries 32) : IVec SEntries 32 :=
  select (cmpi .slt v (broadcastInDim SEntries ![] splatEntries (constantI SScalar 32 0#32)))
    (addi v (broadcastInDim SEntries ![] splatEntries (constantI SScalar 32 10000#32))) v

/-- Entry e's coefficient dis[row e] * weight e * dis[col e]. -/
def normOf (ei : IVec SEdgeIndex 32) (ew : FVec Ideal SEdges .f32) : FVec Ideal SEntries .f32 :=
  mulf
    (mulf (Host.gather nodeGather (disOf ei ew) (broadcastInDim SEntriesCol ![0] colEntries (wrapIdx (rowArr ei)))) (weightArr ew))
    (Host.gather nodeGather (disOf ei ew) (broadcastInDim SEntriesCol ![0] colEntries (wrapIdx (colArr ei))))

/-- The coefficients as a function of the entry's number. -/
def weightOf (ei : IVec SEdgeIndex 32) (ew : FVec Ideal SEdges .f32) : Fin 170000 → EReal := fun e => normOf ei ew (ix1 e)

/-! ## The endpoints as numbers -/

/-- Endpoint `r` (0 the source, 1 the target) of entry e: the edge-index word for an edge (reduced below the node
    count, which changes nothing when the word encodes a node id), the loop's own node for a self loop. -/
def endOf (r : Fin 2) (ei : IVec SEdgeIndex 32) (e : Fin 170000) : Fin 10000 :=
  if h : e.val < 160000 then ⟨(ei (ix2 r ⟨e.val, h⟩)).toNat % 10000, Nat.mod_lt _ (by decide)⟩
  else ⟨e.val - 160000, by have := e.isLt; omega⟩

/-- The entries' source nodes as numbers. -/
abbrev rowOf (ei : IVec SEdgeIndex 32) : Fin 170000 → Fin 10000 := endOf 0 ei
/-- The entries' target nodes as numbers. -/
abbrev colOf (ei : IVec SEdgeIndex 32) : Fin 170000 → Fin 10000 := endOf 1 ei

/-- Every edge-index word encodes a node id. -/
def InRange (ei : IVec SEdgeIndex 32) : Prop := ∀ i : SEdgeIndex.Idx, ∃ n : Fin 10000, ei i = BitVec.ofNat 32 n.val

theorem endsArr_apply (r : Fin 2) (off : Fin SEdgeIndex.rank → Nat) (h : SEdgeIndex.Slices off SEdgeLine)
    (h0 : off 0 = r.val) (h1 : off 1 = 0) (ei : IVec SEdgeIndex 32) (hin : InRange ei) (e : Fin 170000) :
    endsArr off h ei (ix1 e) = BitVec.ofNat 32 (endOf r ei e).val := by
  unfold endsArr endOf
  by_cases he : e.val < 160000
  · rw [dif_pos he]
    rw [concatenate_pair_apply_left (s₁ := SEdges) (s₂ := SNodes) (t := SEntries) (0 : Fin 1) _ _ joinEntries (ix1 e) rfl (ix1 (⟨e.val, he⟩ : Fin 160000))
      (fun b => by obtain rfl : b = 0 := Subsingleton.elim _ _; rfl)]
    rw [shapeCast_apply _ castLine (ix1 (⟨e.val, he⟩ : Fin 160000)) (ix2 (⟨0, Nat.one_pos⟩ : Fin 1) (⟨e.val, he⟩ : Fin 160000))
      (by rewrite [Shape.rowMajor_val_two, Shape.rowMajor_val_one]; show 0 * 160000 + e.val = e.val; omega)]
    rw [extractStridedSlice_apply off ei h _ (ix2 r (⟨e.val, he⟩ : Fin 160000)) (fun a => match a with
      | ⟨0, _⟩ => by show r.val = off 0 + 0; omega
      | ⟨1, _⟩ => by show e.val = off 1 + e.val; omega)]
    obtain ⟨n, hn⟩ := hin (ix2 r (⟨e.val, he⟩ : Fin 160000))
    have hlt := n.isLt
    have ht : (ei (ix2 r (⟨e.val, he⟩ : Fin 160000))).toNat = n.val := by
      rw [hn, BitVec.toNat_ofNat]; exact Nat.mod_eq_of_lt (by omega)
    show ei (ix2 r (⟨e.val, he⟩ : Fin 160000)) = BitVec.ofNat 32 ((ei (ix2 r (⟨e.val, he⟩ : Fin 160000))).toNat % 10000)
    rw [ht, Nat.mod_eq_of_lt hlt]; exact hn
  · rw [dif_neg he]
    have hlt := e.isLt
    rw [concatenate_pair_apply_right (s₁ := SEdges) (s₂ := SNodes) (t := SEntries) (0 : Fin 1) _ _ joinEntries (ix1 e) rfl rfl (ix1 (⟨e.val - 160000, by omega⟩ : Fin 10000))
      (fun b hb => absurd (Subsingleton.elim _ _) hb) (by show e.val - 160000 + 160000 = e.val; omega)]
    rfl

theorem rowArr_apply (ei : IVec SEdgeIndex 32) (hin : InRange ei) (e : Fin 170000) :
    rowArr ei (ix1 e) = BitVec.ofNat 32 (rowOf ei e).val :=
  endsArr_apply 0 _ sliceLine0 rfl rfl ei hin e

theorem colArr_apply (ei : IVec SEdgeIndex 32) (hin : InRange ei) (e : Fin 170000) :
    colArr ei (ix1 e) = BitVec.ofNat 32 (colOf ei e).val :=
  endsArr_apply 1 _ sliceLine1 rfl rfl ei hin e

/-- A word that encodes a number below 10000 is not negative, so the adjustment keeps it. -/
theorem wrap_word (n : Nat) (hn : n < 10000) :
    Scalar.select (IntOp.cmpi .slt (BitVec.ofNat 32 n) 0#32) (IntOp.addi (BitVec.ofNat 32 n) 10000#32) (BitVec.ofNat 32 n)
      = BitVec.ofNat 32 n := by
  have hi : (BitVec.ofNat 32 n).toInt = (n : Int) := by
    rw [BitVec.toInt_eq_toNat_cond, BitVec.toNat_ofNat, Nat.mod_eq_of_lt (by omega : n < 2 ^ 32)]
    rw [if_pos (by omega)]
  have h0 : (0#32 : BitVec 32).toInt = 0 := by decide
  have hs : (BitVec.ofNat 32 n).slt 0#32 = false := by
    simp only [BitVec.slt, hi, h0]
    exact decide_eq_false (by omega)
  show Scalar.select (BitVec.ofBool ((BitVec.ofNat 32 n).slt 0#32)) _ _ = _
  rw [hs]; exact select_zero _ _

theorem wrapIdx_apply (v : IVec SEntries 32) (i : SEntries.Idx) (n : Nat) (hn : n < 10000) (hv : v i = BitVec.ofNat 32 n) :
    wrapIdx v i = BitVec.ofNat 32 n := by
  show Scalar.select (IntOp.cmpi .slt (v i) 0#32) (IntOp.addi (v i) 10000#32) (v i) = _
  rw [hv]; exact wrap_word n hn

end Cert.Norm

end
-- ==== Proof.RefOps.lean ====
/-
  Two host operations read at an index, for the shapes a row-wise neighbour aggregation uses.

  * A gather of whole rows: operand [N, D], one start index per result row held in an [E, 1] integer array;
    result row e is the operand's row at that start index, read signed and clamped into [0, N - 1].
  * A scatter-add of whole rows: operand [N, D], one target per update row held in an [E, 1] integer array,
    updates [E, D]; at the extended reals, result element (i, c) is the operand's element plus the sum of the
    update elements (e, c) over the update rows e whose target, read signed, is i.
-/
import Idealize.ShloMosaic.PureOps
import Idealize.ShloMosaic.Lib.ValueIdx

noncomputable section

open scoped BigOperators

namespace Cert.RefOps

open Idealize.ShloMosaic Idealize.ShloMosaic.ValueIdx

/-! ## Gather of rows -/

section GatherRows
variable {α : Type}

/-- Dimension numbers of a row gather: operand [N, D], start indices [E, 1], result [E, D]; axis 0 is collapsed and
    indexed, axis 1 is the offset axis taken whole. -/
abbrev rowGather (N E D : Nat)
    (wf : GatherDims.WF ⟨2, ![N, D]⟩ ⟨2, ![E, 1]⟩ ⟨2, ![E, D]⟩ [1] [0] [] [0] [] 1 ![1, D]) :
    GatherDims ⟨2, ![N, D]⟩ ⟨2, ![E, 1]⟩ ⟨2, ![E, D]⟩ where
  offsetDims := [1]
  collapsedSliceDims := [0]
  operandBatchingDims := []
  startIndicesBatchingDims := []
  startIndexMap := [0]
  indexVectorDim := 1
  sliceSizes := ![1, D]
  wf := wf

/-- Result element (e, c) of a row gather is the operand at (start e, c), the start index read signed and clamped. -/
theorem rowGather_apply {N E D w : Nat} (hN : 0 < N)
    (wf : GatherDims.WF ⟨2, ![N, D]⟩ ⟨2, ![E, 1]⟩ ⟨2, ![E, D]⟩ [1] [0] [] [0] [] 1 ![1, D])
    (x : (⟨2, ![N, D]⟩ : Shape).Idx → α) (idx : IVec ⟨2, ![E, 1]⟩ w) (e : Fin E) (c : Fin D) :
    Host.gather (rowGather N E D wf) x idx (ix2 e c)
      = x (ix2 ⟨min (idx (ix2 e ⟨0, Nat.one_pos⟩)).toInt.toNat (N - 1), by omega⟩ c) := by
  have ne10 : ¬ ((1 : Fin 2) = 0) := by decide
  -- axis 0: the clamped start index, no batching coordinate, no offset (the axis is collapsed)
  have h0 : (rowGather N E D wf).start (ix2 e c) idx (0 : Fin 2) + (rowGather N E D wf).batchCoord (ix2 e c) (0 : Fin 2)
      + (rowGather N E D wf).offCoord (ix2 e c) (0 : Fin 2) = min (idx (ix2 e ⟨0, Nat.one_pos⟩)).toInt.toNat (N - 1) := by
    rw [GatherDims.batchCoord_eq_zero _ _ _ List.not_mem_nil,
      GatherDims.offCoord_eq_zero _ _ _ (fun h => ((GatherDims.mem_sKept _ _).mp h).1 (List.mem_singleton.mpr rfl))]
    simp only [Nat.add_zero]
    unfold GatherDims.start
    rw [dif_pos (show (0 : Fin 2) ∈ (rowGather N E D wf).startIndexMap from List.mem_singleton.mpr rfl)]
    have hsi : (rowGather N E D wf).siIdx (ix2 e c) ⟨List.idxOf (0 : Fin 2) (rowGather N E D wf).startIndexMap,
        List.idxOf_lt_length_iff.2 (List.mem_singleton.mpr rfl)⟩ = ix2 e ⟨0, Nat.one_pos⟩ := by
      funext b; refine Fin.ext ?_
      match b with
      | ⟨0, _⟩ => rfl
      | ⟨1, _⟩ => rfl
    rw [hsi]
    rfl
  -- axis 1: no start index, no batching coordinate, the result's own column
  have h1 : (rowGather N E D wf).start (ix2 e c) idx (1 : Fin 2) + (rowGather N E D wf).batchCoord (ix2 e c) (1 : Fin 2)
      + (rowGather N E D wf).offCoord (ix2 e c) (1 : Fin 2) = c.val := by
    rw [GatherDims.batchCoord_eq_zero _ _ _ List.not_mem_nil]
    have hs : (rowGather N E D wf).start (ix2 e c) idx (1 : Fin 2) = 0 := by
      unfold GatherDims.start
      rw [dif_neg (fun h => ne10 (List.mem_singleton.mp h))]
    rw [hs]
    simp only [Nat.zero_add, Nat.add_zero]
    unfold GatherDims.offCoord
    rw [dif_pos ((GatherDims.mem_sKept _ _).mpr ⟨fun h => ne10 (List.mem_singleton.mp h), List.not_mem_nil⟩)]
    rfl
  unfold Host.gather
  congr 1
  funext a
  refine Fin.ext ?_
  match a with
  | ⟨0, _⟩ => exact h0
  | ⟨1, _⟩ => exact h1

end GatherRows

/-! ## Scatter-add of rows -/

section ScatterRows

/-- Dimension numbers of a row scatter: operand [N, D], scatter indices [E, 1], updates [E, D]; axis 0 is the
    scattered (inserted) axis, axis 1 the window axis taken whole. -/
abbrev rowScatter (N E D : Nat)
    (wf : ScatterDims.WF ⟨2, ![N, D]⟩ ⟨2, ![E, 1]⟩ ⟨2, ![E, D]⟩ [1] [0] [0] 1) :
    ScatterDims ⟨2, ![N, D]⟩ ⟨2, ![E, 1]⟩ ⟨2, ![E, D]⟩ where
  updateWindowDims := [1]
  insertedWindowDims := [0]
  scatterDimsToOperandDims := [0]
  indexVectorDim := 1
  wf := wf

variable {N E D w : Nat} (wf : ScatterDims.WF ⟨2, ![N, D]⟩ ⟨2, ![E, 1]⟩ ⟨2, ![E, D]⟩ [1] [0] [0] 1)

private theorem ne10 : ¬ ((1 : Fin 2) = 0) := by decide

/-- On the scattered axis the window starts at the update row's target, read signed. -/
theorem rowScatter_start0 (e : Fin E) (c : Fin D) (idx : IVec ⟨2, ![E, 1]⟩ w) :
    (rowScatter N E D wf).start (ix2 e c) idx (0 : Fin 2) = (idx (ix2 e ⟨0, Nat.one_pos⟩)).toInt := by
  unfold ScatterDims.start
  rw [dif_pos (show (0 : Fin 2) ∈ (rowScatter N E D wf).scatterDimsToOperandDims from List.mem_singleton.mpr rfl)]
  have hsi : (rowScatter N E D wf).siIdx (ix2 e c) ⟨List.idxOf (0 : Fin 2) (rowScatter N E D wf).scatterDimsToOperandDims,
      List.idxOf_lt_length_iff.2 (List.mem_singleton.mpr rfl)⟩ = ix2 e ⟨0, Nat.one_pos⟩ := by
    funext b; refine Fin.ext ?_
    match b with
    | ⟨0, _⟩ => rfl
    | ⟨1, _⟩ => rfl
  rw [hsi]

/-- On the window axis the window starts at 0. -/
theorem rowScatter_start1 (e : Fin E) (c : Fin D) (idx : IVec ⟨2, ![E, 1]⟩ w) :
    (rowScatter N E D wf).start (ix2 e c) idx (1 : Fin 2) = 0 := by
  unfold ScatterDims.start
  rw [dif_neg (fun h => ne10 (List.mem_singleton.mp h))]

/-- The scattered axis carries no window coordinate. -/
theorem rowScatter_window0 (e : Fin E) (c : Fin D) :
    (rowScatter N E D wf).window (ix2 e c) (0 : Fin 2) = 0 := by
  unfold ScatterDims.window
  rw [dif_neg]
  intro h
  have := (List.mem_filter.mp h).2
  simp at this

/-- The window axis carries the update's column. -/
theorem rowScatter_window1 (e : Fin E) (c : Fin D) :
    (rowScatter N E D wf).window (ix2 e c) (1 : Fin 2) = c.val := by
  have hm : (1 : Fin 2) ∈ (rowScatter N E D wf).sKept :=
    List.mem_filter.mpr ⟨List.mem_finRange _, by simpa using fun h => ne10 (List.mem_singleton.mp h)⟩
  unfold ScatterDims.window
  rw [dif_pos hm]
  rfl

/-- Update (e, c') lands on element (i, c) exactly when row e's target, read signed, is i and the columns agree. -/
theorem rowScatter_resultIdx?_eq_some (idx : IVec ⟨2, ![E, 1]⟩ w) (e : Fin E) (c' : Fin D) (i : Fin N) (c : Fin D) :
    (rowScatter N E D wf).resultIdx? (ix2 e c') idx = some (ix2 i c)
      ↔ (idx (ix2 e ⟨0, Nat.one_pos⟩)).toInt = (i.val : Int) ∧ c' = c := by
  have s0 := rowScatter_start0 wf e c' idx
  have s1 := rowScatter_start1 wf e c' idx
  have w0 := rowScatter_window0 wf e c'
  have w1 := rowScatter_window1 wf e c'
  unfold ScatterDims.resultIdx?
  split
  next h =>
    have h0 := h (0 : Fin 2)
    have h1 := h (1 : Fin 2)
    rw [s0, w0] at h0
    rw [s1, w1] at h1
    constructor
    · intro hsome
      have hf := Option.some.inj hsome
      have e0 := congrArg (fun f => (f (0 : Fin 2)).val) hf
      have e1 := congrArg (fun f => (f (1 : Fin 2)).val) hf
      simp only [s0, w0, s1, w1] at e0 e1
      have e0' : ((idx (ix2 e ⟨0, Nat.one_pos⟩)).toInt + ((0 : Nat) : Int)).toNat = i.val := e0
      have e1' : ((0 : Int) + (c'.val : Int)).toNat = c.val := e1
      refine ⟨by omega, Fin.ext (by omega)⟩
    · rintro ⟨ht, rfl⟩
      refine congrArg some (funext fun a => Fin.ext ?_)
      match a with
      | ⟨0, _⟩ =>
        show ((rowScatter N E D wf).start (ix2 e c') idx (0 : Fin 2) + ((rowScatter N E D wf).window (ix2 e c') (0 : Fin 2) : Int)).toNat = i.val
        rw [s0, w0]; omega
      | ⟨1, _⟩ =>
        show ((rowScatter N E D wf).start (ix2 e c') idx (1 : Fin 2) + ((rowScatter N E D wf).window (ix2 e c') (1 : Fin 2) : Int)).toNat = c'.val
        rw [s1, w1]; omega
  next h =>
    constructor
    · intro hn; exact absurd hn (by simp)
    · rintro ⟨ht, rfl⟩
      exfalso
      apply h
      intro a
      match a with
      | ⟨0, _⟩ =>
        show 0 ≤ (rowScatter N E D wf).start (ix2 e c') idx (0 : Fin 2) + ((rowScatter N E D wf).window (ix2 e c') (0 : Fin 2) : Int)
          ∧ (rowScatter N E D wf).start (ix2 e c') idx (0 : Fin 2) + ((rowScatter N E D wf).window (ix2 e c') (0 : Fin 2) : Int) < (N : Int)
        rw [s0, w0]
        have := i.isLt
        omega
      | ⟨1, _⟩ =>
        show 0 ≤ (rowScatter N E D wf).start (ix2 e c') idx (1 : Fin 2) + ((rowScatter N E D wf).window (ix2 e c') (1 : Fin 2) : Int)
          ∧ (rowScatter N E D wf).start (ix2 e c') idx (1 : Fin 2) + ((rowScatter N E D wf).window (ix2 e c') (1 : Fin 2) : Int) < (D : Int)
        rw [s1, w1]
        have := c'.isLt
        omega

/-- At the extended reals, element (i, c) of a row scatter-add is the operand's element plus the sum of the update
    elements (e, c) over the update rows e whose target, read signed, is i. -/
theorem rowScatterAdd_apply {φ : FTy} (x : FVec Ideal ⟨2, ![N, D]⟩ φ) (idx : IVec ⟨2, ![E, 1]⟩ w)
    (upd : FVec Ideal ⟨2, ![E, D]⟩ φ) (i : Fin N) (c : Fin D) :
    Host.scatterAdd (rowScatter N E D wf) x idx upd (ix2 i c)
      = x (ix2 i c) + ∑ e ∈ Finset.univ.filter (fun e : Fin E => (idx (ix2 e ⟨0, Nat.one_pos⟩)).toInt = (i.val : Int)),
          upd (ix2 e c) := by
  show Ideal.hostScatterAdd (rowScatter N E D wf) x idx upd (ix2 i c) = _
  unfold Ideal.hostScatterAdd
  refine congrArg (x (ix2 i c) + ·) ?_
  rw [Finset.sum_filter, sum_idx2, Finset.sum_filter]
  refine Finset.sum_congr rfl fun e _ => ?_
  simp only [rowScatter_resultIdx?_eq_some wf idx e _ i c]
  by_cases ht : (idx (ix2 e ⟨0, Nat.one_pos⟩)).toInt = (i.val : Int)
  · simp only [ht, true_and, if_true]
    rw [Finset.sum_ite_eq' Finset.univ c (fun c' => upd (ix2 e c'))]
    simp
  · simp only [ht, false_and, if_false, Finset.sum_const_zero]

end ScatterRows

/-! ## Neighbour aggregation: coefficient times gathered source row, added up by target -/

section Aggregate

/-- A word that encodes a number below 2^31 reads, signed, as that number. -/
theorem toInt_ofNat_small (n : Nat) (hn : n < 2147483648) : (BitVec.ofNat 32 n).toInt = (n : Int) := by
  rw [BitVec.toInt_eq_toNat_cond, BitVec.toNat_ofNat, Nat.mod_eq_of_lt (by omega : n < 2 ^ 32)]
  rw [if_pos (by omega)]

/-- With the source and target index arrays holding the numbers `row e`, `col e` (below N), the coefficient array
    constant along each row (`w e`) and the operand zero, element (i, c) of the scatter-add of
    coefficient * gathered row is the sum over the entries e with target i of `w e * H (row e, c)`. -/
theorem rowAggregate_apply {N E D : Nat} {φ : FTy} (hN : 0 < N) (hN31 : N ≤ 2147483648)
    (wfg : GatherDims.WF ⟨2, ![N, D]⟩ ⟨2, ![E, 1]⟩ ⟨2, ![E, D]⟩ [1] [0] [] [0] [] 1 ![1, D])
    (wfs : ScatterDims.WF ⟨2, ![N, D]⟩ ⟨2, ![E, 1]⟩ ⟨2, ![E, D]⟩ [1] [0] [0] 1)
    (H Z : FVec Ideal ⟨2, ![N, D]⟩ φ) (rowI colI : IVec ⟨2, ![E, 1]⟩ 32) (coef : FVec Ideal ⟨2, ![E, D]⟩ φ)
    (row col : Fin E → Fin N) (w : Fin E → EReal)
    (hrow : ∀ e, rowI (ix2 e ⟨0, Nat.one_pos⟩) = BitVec.ofNat 32 (row e).val)
    (hcol : ∀ e, colI (ix2 e ⟨0, Nat.one_pos⟩) = BitVec.ofNat 32 (col e).val)
    (hcoef : ∀ e c, coef (ix2 e c) = w e) (hZ : ∀ i c, Z (ix2 i c) = 0) (i : Fin N) (c : Fin D) :
    Host.scatterAdd (rowScatter N E D wfs) Z colI (mulf coef (Host.gather (rowGather N E D wfg) H rowI)) (ix2 i c)
      = ∑ e ∈ Finset.univ.filter (fun e => col e = i), w e * H (ix2 (row e) c) := by
  rw [rowScatterAdd_apply wfs Z colI _ i c, hZ, zero_add]
  have hf : (Finset.univ.filter fun e : Fin E => (colI (ix2 e ⟨0, Nat.one_pos⟩)).toInt = (i.val : Int))
      = Finset.univ.filter (fun e => col e = i) := by
    ext e
    simp only [Finset.mem_filter, Finset.mem_univ, true_and]
    rw [hcol e, toInt_ofNat_small _ (by have := (col e).isLt; omega)]
    constructor
    · intro h; exact Fin.ext (by exact_mod_cast h)
    · rintro rfl; rfl
  rw [hf]
  refine Finset.sum_congr rfl fun e _ => ?_
  show coef (ix2 e c) * Host.gather (rowGather N E D wfg) H rowI (ix2 e c) = _
  rw [hcoef, rowGather_apply hN wfg H rowI e c]
  have hr : (⟨min (rowI (ix2 e ⟨0, Nat.one_pos⟩)).toInt.toNat (N - 1), by omega⟩ : Fin N) = row e := by
    refine Fin.ext ?_
    show min (rowI (ix2 e ⟨0, Nat.one_pos⟩)).toInt.toNat (N - 1) = (row e).val
    rw [hrow e, toInt_ofNat_small _ (by have := (row e).isLt; omega)]
    have := (row e).isLt
    simp only [Int.toNat_natCast]
    omega
  rw [hr]

end Aggregate

end Cert.RefOps

end
-- ==== Proof.HostArrays.lean ====
/-
  A point scatter-add, and the dense adjacency matrix it builds.

  A point scatter-add into an [M, N] array takes one (target row, target column) pair per update, held in an [E, 2]
  integer array, and one scalar update each. At the extended reals, element (i, j) of the result is the operand's element
  plus the sum of the updates whose pair, read signed, is (i, j); a pair outside the array drops its update.

  With the pairs (col e, row e) of a graph's entries (numbers below 10000, a negative-index adjustment that changes
  nothing) and the entries' coefficients as updates, into the zero array, the result is the dense adjacency matrix.
-/
import Idealize.ShloMosaic.PureOps
import Idealize.ShloMosaic.Lib.ValueIdx
import Idealize.ShloMosaic.Lib.Pipeline.Value
import Idealize.ShloMosaic.Lib.KernelVsHost
import proofs.«181230_j19834158973077_2_alg».proof.Proof.Spec
import proofs.«181230_j19834158973077_2_alg».proof.Proof.Norm
import proofs.«181230_j19834158973077_2_alg».proof.Proof.RefOps

noncomputable section

open scoped BigOperators

namespace Cert.HostArrays

open Idealize.ShloMosaic Idealize.ShloMosaic.ValueIdx

/-! ## Sums over the indices of a vector -/

/-- The indices of a vector of `n` entries are the numbers below `n`. -/
def idxEquiv1 {n : Nat} : (⟨1, ![n]⟩ : Shape).Idx ≃ Fin n where
  toFun j := j 0
  invFun a := ix1 a
  left_inv j := (eq_ix1 j).symm
  right_inv _ := rfl

theorem sum_idx1 {M : Type*} [AddCommMonoid M] {n : Nat} (f : (⟨1, ![n]⟩ : Shape).Idx → M) :
    ∑ j, f j = ∑ a : Fin n, f (ix1 a) :=
  Fintype.sum_equiv idxEquiv1 f (fun a => f (ix1 a)) fun j => congrArg f (eq_ix1 j)

/-! ## The point scatter -/

section PointScatter

/-- Dimension numbers of a point scatter: operand [M, N], scatter indices [E, 2], updates [E]; both operand axes are
    scattered (inserted), no window axis. -/
abbrev pointScatter (M N E : Nat)
    (wf : ScatterDims.WF ⟨2, ![M, N]⟩ ⟨2, ![E, 2]⟩ ⟨1, ![E]⟩ [] [0, 1] [0, 1] 1) :
    ScatterDims ⟨2, ![M, N]⟩ ⟨2, ![E, 2]⟩ ⟨1, ![E]⟩ where
  updateWindowDims := []
  insertedWindowDims := [0, 1]
  scatterDimsToOperandDims := [0, 1]
  indexVectorDim := 1
  wf := wf

variable {M N E w : Nat} (wf : ScatterDims.WF ⟨2, ![M, N]⟩ ⟨2, ![E, 2]⟩ ⟨1, ![E]⟩ [] [0, 1] [0, 1] 1)

/-- On axis 0 the window starts at the first component of update e's pair, read signed. -/
theorem pointScatter_start0 (e : Fin E) (idx : IVec ⟨2, ![E, 2]⟩ w) :
    (pointScatter M N E wf).start (ix1 e) idx (0 : Fin 2) = (idx (ix2 e (0 : Fin 2))).toInt := by
  have hmem : (0 : Fin 2) ∈ (pointScatter M N E wf).scatterDimsToOperandDims :=
    show (0 : Fin 2) ∈ ([0, 1] : List (Fin 2)) from List.mem_cons_self
  unfold ScatterDims.start
  rw [dif_pos hmem]
  have hsi : (pointScatter M N E wf).siIdx (ix1 e) ⟨List.idxOf (0 : Fin 2) (pointScatter M N E wf).scatterDimsToOperandDims,
      List.idxOf_lt_length_iff.2 hmem⟩ = ix2 e (0 : Fin 2) := by
    funext b; refine Fin.ext ?_
    match b with
    | ⟨0, _⟩ => rfl
    | ⟨1, _⟩ => rfl
  rw [hsi]

/-- On axis 1 the window starts at the second component of update e's pair, read signed. -/
theorem pointScatter_start1 (e : Fin E) (idx : IVec ⟨2, ![E, 2]⟩ w) :
    (pointScatter M N E wf).start (ix1 e) idx (1 : Fin 2) = (idx (ix2 e (1 : Fin 2))).toInt := by
  have hmem : (1 : Fin 2) ∈ (pointScatter M N E wf).scatterDimsToOperandDims :=
    show (1 : Fin 2) ∈ ([0, 1] : List (Fin 2)) from List.mem_cons_of_mem _ (List.mem_singleton.mpr rfl)
  unfold ScatterDims.start
  rw [dif_pos hmem]
  have hsi : (pointScatter M N E wf).siIdx (ix1 e) ⟨List.idxOf (1 : Fin 2) (pointScatter M N E wf).scatterDimsToOperandDims,
      List.idxOf_lt_length_iff.2 hmem⟩ = ix2 e (1 : Fin 2) := by
    funext b; refine Fin.ext ?_
    match b with
    | ⟨0, _⟩ => rfl
    | ⟨1, _⟩ => rfl
  rw [hsi]

/-- Neither operand axis carries a window coordinate. -/
theorem pointScatter_window (e : Fin E) (a : Fin 2) : (pointScatter M N E wf).window (ix1 e) a = 0 := by
  unfold ScatterDims.window
  rw [dif_neg]
  intro h
  have h2 := (List.mem_filter.mp h).2
  match a with
  | ⟨0, _⟩ => simp at h2
  | ⟨1, _⟩ => simp at h2

/-- Update e lands on element (i, j) exactly when its pair, read signed, is (i, j). -/
theorem pointScatter_resultIdx?_eq_some (idx : IVec ⟨2, ![E, 2]⟩ w) (e : Fin E) (i : Fin M) (j : Fin N) :
    (pointScatter M N E wf).resultIdx? (ix1 e) idx = some (ix2 i j)
      ↔ (idx (ix2 e (0 : Fin 2))).toInt = (i.val : Int) ∧ (idx (ix2 e (1 : Fin 2))).toInt = (j.val : Int) := by
  have s0 := pointScatter_start0 wf e idx
  have s1 := pointScatter_start1 wf e idx
  have w0 := pointScatter_window wf e (0 : Fin 2)
  have w1 := pointScatter_window wf e (1 : Fin 2)
  unfold ScatterDims.resultIdx?
  split
  next h =>
    constructor
    · intro hsome
      have hf := Option.some.inj hsome
      have e0 := congrArg (fun f => (f (0 : Fin 2)).val) hf
      have e1 := congrArg (fun f => (f (1 : Fin 2)).val) hf
      have h0 := h (0 : Fin 2)
      have h1 := h (1 : Fin 2)
      rw [s0, w0] at h0
      rw [s1, w1] at h1
      simp only [s0, w0, s1, w1] at e0 e1
      have e0' : ((idx (ix2 e (0 : Fin 2))).toInt + ((0 : Nat) : Int)).toNat = i.val := e0
      have e1' : ((idx (ix2 e (1 : Fin 2))).toInt + ((0 : Nat) : Int)).toNat = j.val := e1
      exact ⟨by omega, by omega⟩
    · rintro ⟨hi, hj⟩
      refine congrArg some (funext fun a => Fin.ext ?_)
      match a with
      | ⟨0, _⟩ =>
        show ((pointScatter M N E wf).start (ix1 e) idx (0 : Fin 2)
          + ((pointScatter M N E wf).window (ix1 e) (0 : Fin 2) : Int)).toNat = i.val
        rw [s0, w0]; omega
      | ⟨1, _⟩ =>
        show ((pointScatter M N E wf).start (ix1 e) idx (1 : Fin 2)
          + ((pointScatter M N E wf).window (ix1 e) (1 : Fin 2) : Int)).toNat = j.val
        rw [s1, w1]; omega
  next h =>
    constructor
    · intro hn; exact absurd hn (by simp)
    · rintro ⟨hi, hj⟩
      exfalso
      apply h
      intro a
      match a with
      | ⟨0, _⟩ =>
        show 0 ≤ (pointScatter M N E wf).start (ix1 e) idx (0 : Fin 2)
            + ((pointScatter M N E wf).window (ix1 e) (0 : Fin 2) : Int)
          ∧ (pointScatter M N E wf).start (ix1 e) idx (0 : Fin 2)
            + ((pointScatter M N E wf).window (ix1 e) (0 : Fin 2) : Int) < (M : Int)
        rw [s0, w0]
        have := i.isLt
        omega
      | ⟨1, _⟩ =>
        show 0 ≤ (pointScatter M N E wf).start (ix1 e) idx (1 : Fin 2)
            + ((pointScatter M N E wf).window (ix1 e) (1 : Fin 2) : Int)
          ∧ (pointScatter M N E wf).start (ix1 e) idx (1 : Fin 2)
            + ((pointScatter M N E wf).window (ix1 e) (1 : Fin 2) : Int) < (N : Int)
        rw [s1, w1]
        have := j.isLt
        omega

/-- At the extended reals, element (i, j) of a point scatter-add is the operand's element plus the sum of the updates
    whose pair, read signed, is (i, j). -/
theorem pointScatterAdd_apply {φ : FTy} (x : FVec Ideal ⟨2, ![M, N]⟩ φ) (idx : IVec ⟨2, ![E, 2]⟩ w)
    (upd : FVec Ideal ⟨1, ![E]⟩ φ) (i : Fin M) (j : Fin N) :
    Host.scatterAdd (pointScatter M N E wf) x idx upd (ix2 i j)
      = x (ix2 i j) + ∑ e ∈ Finset.univ.filter (fun e : Fin E =>
          (idx (ix2 e (0 : Fin 2))).toInt = (i.val : Int) ∧ (idx (ix2 e (1 : Fin 2))).toInt = (j.val : Int)),
          upd (ix1 e) := by
  show Ideal.hostScatterAdd (pointScatter M N E wf) x idx upd (ix2 i j) = _
  unfold Ideal.hostScatterAdd
  refine congrArg (x (ix2 i j) + ·) ?_
  rw [Finset.sum_filter, sum_idx1, Finset.sum_filter]
  exact Finset.sum_congr rfl fun e _ => if_congr (pointScatter_resultIdx?_eq_some wf idx e i j) rfl rfl

end PointScatter

end Cert.HostArrays
-- ==== Proof.HostPads.lean ====
/-
  Zero padding, slices of a stack and row reshapes, read at an index.

  An array padded with zeros at the high end of its axes, read at an index, is the array there when the index is inside
  it and zero otherwise: the zero-padded matrix or row. One member of a stack, cut out as a one-member stack and reshaped,
  is the stack read at that member. A row reshaped to a one-row matrix is the row; a zero row is zero.
-/
import proofs.«181230_j19834158973077_2_alg».proof.Proof.HostArrays

noncomputable section

namespace Cert.HostArrays

open Idealize.ShloMosaic Idealize.ShloMosaic.ValueIdx

abbrev SUnit : Shape := ⟨0, ![]⟩

/-- The padding value of the dense program: the integer zero converted to a float. -/
abbrev zeroScalar : FVec Ideal SUnit .f32 := sitofp .f32 (constantI SUnit 32 0#32)

theorem zeroScalar_apply (j : SUnit.Idx) : zeroScalar j = (0 : EReal) := sitofp_zero

/-! ## Padding at the high ends -/

/-- A matrix padded with `v` at the high ends, read at (i, j). -/
theorem pad2_apply {m n M N : Nat} (hi : Fin 2 → Nat) (x : (⟨2, ![m, n]⟩ : Shape).Idx → EReal) {u : Shape} (v : u.Idx → EReal)
    (h : (⟨2, ![m, n]⟩ : Shape).Pads ![0, 0] hi ![0, 0] ⟨2, ![M, N]⟩) (hu : 0 < u.numel) (i : Fin M) (j : Fin N) :
    pad ⟨2, ![M, N]⟩ ![0, 0] hi ![0, 0] x v h hu (ix2 i j)
      = if hij : i.val < m ∧ j.val < n then x (ix2 ⟨i.val, hij.1⟩ ⟨j.val, hij.2⟩) else v (Shape.Idx.first hu) := by
  by_cases hij : i.val < m ∧ j.val < n
  · rw [dif_pos hij]
    exact pad_apply_of_inside _ _ _ x v h hu (ix2 i j) (ix2 ⟨i.val, hij.1⟩ ⟨j.val, hij.2⟩) fun a => match a with
      | ⟨0, _⟩ => by show i.val = 0 + i.val * (0 + 1); omega
      | ⟨1, _⟩ => by show j.val = 0 + j.val * (0 + 1); omega
  · rw [dif_neg hij]
    by_cases hi0 : i.val < m
    · have hj : ¬ j.val < n := fun hj => hij ⟨hi0, hj⟩
      exact pad_apply_of_not_inside _ _ _ x v h hu (ix2 i j) (1 : Fin 2) fun hc => hj (by
        have h3 : (j.val - 0) / (0 + 1) < n := hc.2.2
        simpa using h3)
    · exact pad_apply_of_not_inside _ _ _ x v h hu (ix2 i j) (0 : Fin 2) fun hc => hi0 (by
        have h3 : (i.val - 0) / (0 + 1) < m := hc.2.2
        simpa using h3)

/-- A row padded with `v` at the high end, read at j. -/
theorem pad1_apply {n N : Nat} (hi : Fin 1 → Nat) (x : (⟨1, ![n]⟩ : Shape).Idx → EReal) {u : Shape} (v : u.Idx → EReal)
    (h : (⟨1, ![n]⟩ : Shape).Pads ![0] hi ![0] ⟨1, ![N]⟩) (hu : 0 < u.numel) (j : Fin N) :
    pad ⟨1, ![N]⟩ ![0] hi ![0] x v h hu (ix1 j)
      = if hj : j.val < n then x (ix1 ⟨j.val, hj⟩) else v (Shape.Idx.first hu) := by
  by_cases hj : j.val < n
  · rw [dif_pos hj]
    exact pad_apply_of_inside _ _ _ x v h hu (ix1 j) (ix1 ⟨j.val, hj⟩) fun a => match a with
      | ⟨0, _⟩ => by show j.val = 0 + j.val * (0 + 1); omega
  · rw [dif_neg hj]
    exact pad_apply_of_not_inside _ _ _ x v h hu (ix1 j) (0 : Fin 1) fun hc => hj (by
      have h3 : (j.val - 0) / (0 + 1) < n := hc.2.2
      simpa using h3)

/-- A stack of matrices, each padded with `v` at the high ends of its two axes, read at (l, i, j). -/
theorem pad3_apply {g m n M N : Nat} (hi : Fin 3 → Nat) (x : (⟨3, ![g, m, n]⟩ : Shape).Idx → EReal) {u : Shape} (v : u.Idx → EReal)
    (h : (⟨3, ![g, m, n]⟩ : Shape).Pads ![0, 0, 0] hi ![0, 0, 0] ⟨3, ![g, M, N]⟩) (hu : 0 < u.numel)
    (l : Fin g) (i : Fin M) (j : Fin N) :
    pad ⟨3, ![g, M, N]⟩ ![0, 0, 0] hi ![0, 0, 0] x v h hu (ix3 l i j)
      = if hij : i.val < m ∧ j.val < n then x (ix3 l ⟨i.val, hij.1⟩ ⟨j.val, hij.2⟩) else v (Shape.Idx.first hu) := by
  by_cases hij : i.val < m ∧ j.val < n
  · rw [dif_pos hij]
    exact pad_apply_of_inside _ _ _ x v h hu (ix3 l i j) (ix3 l ⟨i.val, hij.1⟩ ⟨j.val, hij.2⟩) fun a => match a with
      | ⟨0, _⟩ => by show l.val = 0 + l.val * (0 + 1); omega
      | ⟨1, _⟩ => by show i.val = 0 + i.val * (0 + 1); omega
      | ⟨2, _⟩ => by show j.val = 0 + j.val * (0 + 1); omega
  · rw [dif_neg hij]
    by_cases hi0 : i.val < m
    · have hj : ¬ j.val < n := fun hj => hij ⟨hi0, hj⟩
      exact pad_apply_of_not_inside _ _ _ x v h hu (ix3 l i j) (2 : Fin 3) fun hc => hj (by
        have h3 : (j.val - 0) / (0 + 1) < n := hc.2.2
        simpa using h3)
    · exact pad_apply_of_not_inside _ _ _ x v h hu (ix3 l i j) (1 : Fin 3) fun hc => hi0 (by
        have h3 : (i.val - 0) / (0 + 1) < m := hc.2.2
        simpa using h3)

/-- A matrix padded with zeros at the high ends is the zero-padded matrix. -/
theorem pad2_eq_padMat {m n M N : Nat} (hi : Fin 2 → Nat) (x : (⟨2, ![m, n]⟩ : Shape).Idx → EReal)
    (h : (⟨2, ![m, n]⟩ : Shape).Pads ![0, 0] hi ![0, 0] ⟨2, ![M, N]⟩) (hu : 0 < SUnit.numel) (i : Fin M) (j : Fin N) :
    pad ⟨2, ![M, N]⟩ ![0, 0] hi ![0, 0] x zeroScalar h hu (ix2 i j)
      = Cert.Spec.padMat M N (fun a b => x (ix2 a b)) i j := by
  rw [pad2_apply, zeroScalar_apply]
  rfl

/-- A row padded with zeros at the high end is the zero-padded row. -/
theorem pad1_eq_padVec {n N : Nat} (hi : Fin 1 → Nat) (x : (⟨1, ![n]⟩ : Shape).Idx → EReal)
    (h : (⟨1, ![n]⟩ : Shape).Pads ![0] hi ![0] ⟨1, ![N]⟩) (hu : 0 < SUnit.numel) (j : Fin N) :
    pad ⟨1, ![N]⟩ ![0] hi ![0] x zeroScalar h hu (ix1 j) = Cert.Spec.padVec N (fun a => x (ix1 a)) j := by
  rw [pad1_apply, zeroScalar_apply]
  rfl

/-- Member l of a stack of matrices padded with zeros is the zero-padded member. -/
theorem pad3_eq_padMat {g m n M N : Nat} (hi : Fin 3 → Nat) (x : (⟨3, ![g, m, n]⟩ : Shape).Idx → EReal)
    (h : (⟨3, ![g, m, n]⟩ : Shape).Pads ![0, 0, 0] hi ![0, 0, 0] ⟨3, ![g, M, N]⟩) (hu : 0 < SUnit.numel)
    (l : Fin g) (i : Fin M) (j : Fin N) :
    pad ⟨3, ![g, M, N]⟩ ![0, 0, 0] hi ![0, 0, 0] x zeroScalar h hu (ix3 l i j)
      = Cert.Spec.padMat M N (fun a b => x (ix3 l a b)) i j := by
  rw [pad3_apply, zeroScalar_apply]
  rfl

/-- Row l of a stack of rows padded with zeros along the rows is the zero-padded row. -/
theorem pad2_eq_padVec {g n N : Nat} (hi : Fin 2 → Nat) (x : (⟨2, ![g, n]⟩ : Shape).Idx → EReal)
    (h : (⟨2, ![g, n]⟩ : Shape).Pads ![0, 0] hi ![0, 0] ⟨2, ![g, N]⟩) (hu : 0 < SUnit.numel) (l : Fin g) (j : Fin N) :
    pad ⟨2, ![g, N]⟩ ![0, 0] hi ![0, 0] x zeroScalar h hu (ix2 l j)
      = Cert.Spec.padVec N (fun a => x (ix2 l a)) j := by
  rw [pad2_apply, zeroScalar_apply]
  unfold Cert.Spec.padVec
  by_cases hj : j.val < n
  · rw [dif_pos ⟨l.isLt, hj⟩, dif_pos hj]
  · rw [dif_neg fun hc => hj hc.2, dif_neg hj]

/-! ## Members of a stack, rows as one-row matrices -/

/-- Member l of a stack of matrices, cut out as a one-member stack and reshaped to a matrix, read at (k, q). -/
theorem memberMat_apply {α : Type} {G K D : Nat} (off : Fin 3 → Nat) (x : (⟨3, ![G, K, D]⟩ : Shape).Idx → α)
    (hs : (⟨3, ![G, K, D]⟩ : Shape).Slices off ⟨3, ![1, K, D]⟩)
    (hc : (⟨3, ![1, K, D]⟩ : Shape).ShapeCasts ⟨2, ![K, D]⟩) (l : Fin G) (h0 : off 0 = l.val) (h1 : off 1 = 0) (h2 : off 2 = 0)
    (k : Fin K) (q : Fin D) :
    shapeCast ⟨2, ![K, D]⟩ (extractStridedSlice ⟨3, ![1, K, D]⟩ off x hs) hc (ix2 k q) = x (ix3 l k q) := by
  rw [shapeCast_apply _ hc (ix2 k q) (ix3 (⟨0, Nat.one_pos⟩ : Fin 1) k q)
    (by rw [Shape.rowMajor_val_two, Shape.rowMajor_val_three]; show (0 * K + k.val) * D + q.val = k.val * D + q.val; rw [Nat.zero_mul, Nat.zero_add])]
  exact extractStridedSlice_apply off x hs _ (ix3 l k q) fun a => match a with
    | ⟨0, _⟩ => by show l.val = off 0 + 0; omega
    | ⟨1, _⟩ => by show k.val = off 1 + k.val; omega
    | ⟨2, _⟩ => by show q.val = off 2 + q.val; omega

/-- Row l of a stack of rows, cut out as a one-row matrix and reshaped to a row, read at q. -/
theorem memberRow_apply {α : Type} {G D : Nat} (off : Fin 2 → Nat) (x : (⟨2, ![G, D]⟩ : Shape).Idx → α)
    (hs : (⟨2, ![G, D]⟩ : Shape).Slices off ⟨2, ![1, D]⟩)
    (hc : (⟨2, ![1, D]⟩ : Shape).ShapeCasts ⟨1, ![D]⟩) (l : Fin G) (h0 : off 0 = l.val) (h1 : off 1 = 0) (q : Fin D) :
    shapeCast ⟨1, ![D]⟩ (extractStridedSlice ⟨2, ![1, D]⟩ off x hs) hc (ix1 q) = x (ix2 l q) := by
  rw [shapeCast_apply _ hc (ix1 q) (ix2 (⟨0, Nat.one_pos⟩ : Fin 1) q)
    (by rw [Shape.rowMajor_val_two, Shape.rowMajor_val_one]; show 0 * D + q.val = q.val; omega)]
  exact extractStridedSlice_apply off x hs _ (ix2 l q) fun a => match a with
    | ⟨0, _⟩ => by show l.val = off 0 + 0; omega
    | ⟨1, _⟩ => by show q.val = off 1 + q.val; omega

/-- A row reshaped to a one-row matrix, read at (0, q). -/
theorem rowMat_apply {α : Type} {D : Nat} (x : (⟨1, ![D]⟩ : Shape).Idx → α)
    (hc : (⟨1, ![D]⟩ : Shape).ShapeCasts ⟨2, ![1, D]⟩) (z : Fin 1) (q : Fin D) :
    shapeCast ⟨2, ![1, D]⟩ x hc (ix2 z q) = x (ix1 q) := by
  have hz := z.isLt
  exact shapeCast_apply x hc (ix2 z q) (ix1 q)
    (by rw [Shape.rowMajor_val_two, Shape.rowMajor_val_one]; show q.val = z.val * D + q.val
        have : z.val = 0 := by omega
        rw [this]; omega)

/-- The zero row as a one-row matrix. -/
theorem zeroRowMat_apply {D : Nat} (hb : SUnit.BroadcastsInDim ⟨1, ![D]⟩ (![] : Fin 0 → Fin 1))
    (hc : (⟨1, ![D]⟩ : Shape).ShapeCasts ⟨2, ![1, D]⟩) (z : Fin 1) (q : Fin D) :
    shapeCast ⟨2, ![1, D]⟩ (broadcastInDim ⟨1, ![D]⟩ ![] hb (constant (F := Ideal) SUnit .f32 0x00000000#32)) hc (ix2 z q)
      = (0 : EReal) := by
  rw [rowMat_apply, broadcastInDim_apply _ hb _ (ix1 q) ix0 (fun a => a.elim0), constant_apply]
  exact Ideal.ofBits_zero_f32

/-- The first rows of a matrix, cut out, read at (i, c). -/
theorem topRows_apply {α : Type} {M m D : Nat} (hm : m ≤ M) (off : Fin 2 → Nat) (x : (⟨2, ![M, D]⟩ : Shape).Idx → α)
    (hs : (⟨2, ![M, D]⟩ : Shape).Slices off ⟨2, ![m, D]⟩) (h0 : off 0 = 0) (h1 : off 1 = 0) (i : Fin m) (c : Fin D) :
    extractStridedSlice ⟨2, ![m, D]⟩ off x hs (ix2 i c) = x (ix2 (Fin.castLE hm i) c) :=
  extractStridedSlice_apply off x hs _ (ix2 (Fin.castLE hm i) c) fun a => match a with
    | ⟨0, _⟩ => by show i.val = off 0 + i.val; omega
    | ⟨1, _⟩ => by show c.val = off 1 + c.val; omega

end Cert.HostArrays
-- ==== Proof.KI.HostBetween.lean ====
/-
  The dense program's host operations between two kernel regions and after the last one, read at an index.

  Between two regions the program only rearranges data it already holds: it cuts member l out of the stack of padded
  middle weights and out of the stack of padded middle biases, reshapes a bias row into a one-row matrix, and makes a zero
  row. After the last region it keeps the first 10000 rows of the result. Each statement is for arbitrary contents W of the
  buffers when the stretch starts.
-/
import proofs.«181230_j19834158973077_2_alg».proof.Proof.KernelIdealRegions
import proofs.«181230_j19834158973077_2_alg».proof.Proof.HostPads

set_option maxRecDepth 16384

noncomputable section

namespace Cert.KernelIdeal.Rg

open Cert.KernelIdeal Cert.KernelIdeal.Gen
open Idealize.ShloMosaic Idealize.ShloMosaic.TcCoe Idealize.ShloMosaic.ValueIdx
open Cert.HostArrays

variable (W : Valuation τ sig (Elt Ideal))

/-! ## Before region 1: the first padded bias as a one-row matrix -/

theorem hostOps1_v61 (z : Fin 1) (q : Fin 1024) :
    (StableHlo.after (hostOps1 (F := Ideal)) W (Proc.devRef .tc main_v61) : S1x1024.Idx → EReal) (ix2 z q)
      = (W (Proc.devRef .tc main_v52) : S1024.Idx → EReal) (ix1 q) := by
  after_results
  exact rowMat_apply (α := EReal) (D := 1024) _ _ z q

/-! ## Before regions 2 and 3: member 0 of the padded middle weights and biases, a zero row -/

theorem hostOps2_v64 (k q : Fin 1024) :
    (StableHlo.after (hostOps2 (F := Ideal)) W (Proc.devRef .tc main_v64) : S1024x1024.Idx → EReal) (ix2 k q)
      = (W (Proc.devRef .tc main_v54) : S5x1024x1024.Idx → EReal) (ix3 (0 : Fin 5) k q) := by
  after_results
  exact memberMat_apply (α := EReal) (G := 5) (K := 1024) (D := 1024) _ _ _ _ (0 : Fin 5) rfl rfl rfl k q

theorem hostOps2_v66 (q : Fin 1024) :
    (StableHlo.after (hostOps2 (F := Ideal)) W (Proc.devRef .tc main_v66) : S1024.Idx → EReal) (ix1 q)
      = (W (Proc.devRef .tc main_v55) : S5x1024.Idx → EReal) (ix2 (0 : Fin 5) q) := by
  after_results
  exact memberRow_apply (α := EReal) (G := 5) (D := 1024) _ _ _ _ (0 : Fin 5) rfl rfl q

theorem hostOps2_v68 (z : Fin 1) (q : Fin 1024) :
    (StableHlo.after (hostOps2 (F := Ideal)) W (Proc.devRef .tc main_v68) : S1x1024.Idx → EReal) (ix2 z q) = (0 : EReal) := by
  after_results
  exact zeroRowMat_apply (D := 1024) _ _ z q

theorem hostOps3_v70 (z : Fin 1) (q : Fin 1024) :
    (StableHlo.after (hostOps3 (F := Ideal)) W (Proc.devRef .tc main_v70) : S1x1024.Idx → EReal) (ix2 z q)
      = (W (Proc.devRef .tc main_v66) : S1024.Idx → EReal) (ix1 q) := by
  after_results
  exact rowMat_apply (α := EReal) (D := 1024) _ _ z q

/-! ## Before regions 4 and 5: member 1 -/

theorem hostOps4_v73 (k q : Fin 1024) :
    (StableHlo.after (hostOps4 (F := Ideal)) W (Proc.devRef .tc main_v73) : S1024x1024.Idx → EReal) (ix2 k q)
      = (W (Proc.devRef .tc main_v54) : S5x1024x1024.Idx → EReal) (ix3 (1 : Fin 5) k q) := by
  after_results
  exact memberMat_apply (α := EReal) (G := 5) (K := 1024) (D := 1024) _ _ _ _ (1 : Fin 5) rfl rfl rfl k q

theorem hostOps4_v75 (q : Fin 1024) :
    (StableHlo.after (hostOps4 (F := Ideal)) W (Proc.devRef .tc main_v75) : S1024.Idx → EReal) (ix1 q)
      = (W (Proc.devRef .tc main_v55) : S5x1024.Idx → EReal) (ix2 (1 : Fin 5) q) := by
  after_results
  exact memberRow_apply (α := EReal) (G := 5) (D := 1024) _ _ _ _ (1 : Fin 5) rfl rfl q

theorem hostOps4_v77 (z : Fin 1) (q : Fin 1024) :
    (StableHlo.after (hostOps4 (F := Ideal)) W (Proc.devRef .tc main_v77) : S1x1024.Idx → EReal) (ix2 z q) = (0 : EReal) := by
  after_results
  exact zeroRowMat_apply (D := 1024) _ _ z q

theorem hostOps5_v79 (z : Fin 1) (q : Fin 1024) :
    (StableHlo.after (hostOps5 (F := Ideal)) W (Proc.devRef .tc main_v79) : S1x1024.Idx → EReal) (ix2 z q)
      = (W (Proc.devRef .tc main_v75) : S1024.Idx → EReal) (ix1 q) := by
  after_results
  exact rowMat_apply (α := EReal) (D := 1024) _ _ z q

/-! ## Before regions 6 and 7: member 2 -/

theorem hostOps6_v82 (k q : Fin 1024) :
    (StableHlo.after (hostOps6 (F := Ideal)) W (Proc.devRef .tc main_v82) : S1024x1024.Idx → EReal) (ix2 k q)
      = (W (Proc.devRef .tc main_v54) : S5x1024x1024.Idx → EReal) (ix3 (2 : Fin 5) k q) := by
  after_results
  exact memberMat_apply (α := EReal) (G := 5) (K := 1024) (D := 1024) _ _ _ _ (2 : Fin 5) rfl rfl rfl k q

theorem hostOps6_v84 (q : Fin 1024) :
    (StableHlo.after (hostOps6 (F := Ideal)) W (Proc.devRef .tc main_v84) : S1024.Idx → EReal) (ix1 q)
      = (W (Proc.devRef .tc main_v55) : S5x1024.Idx → EReal) (ix2 (2 : Fin 5) q) := by
  after_results
  exact memberRow_apply (α := EReal) (G := 5) (D := 1024) _ _ _ _ (2 : Fin 5) rfl rfl q

theorem hostOps6_v86 (z : Fin 1) (q : Fin 1024) :
    (StableHlo.after (hostOps6 (F := Ideal)) W (Proc.devRef .tc main_v86) : S1x1024.Idx → EReal) (ix2 z q) = (0 : EReal) := by
  after_results
  exact zeroRowMat_apply (D := 1024) _ _ z q

theorem hostOps7_v88 (z : Fin 1) (q : Fin 1024) :
    (StableHlo.after (hostOps7 (F := Ideal)) W (Proc.devRef .tc main_v88) : S1x1024.Idx → EReal) (ix2 z q)
      = (W (Proc.devRef .tc main_v84) : S1024.Idx → EReal) (ix1 q) := by
  after_results
  exact rowMat_apply (α := EReal) (D := 1024) _ _ z q

/-! ## Before regions 8 and 9: member 3 -/

theorem hostOps8_v91 (k q : Fin 1024) :
    (StableHlo.after (hostOps8 (F := Ideal)) W (Proc.devRef .tc main_v91) : S1024x1024.Idx → EReal) (ix2 k q)
      = (W (Proc.devRef .tc main_v54) : S5x1024x1024.Idx → EReal) (ix3 (3 : Fin 5) k q) := by
  after_results
  exact memberMat_apply (α := EReal) (G := 5) (K := 1024) (D := 1024) _ _ _ _ (3 : Fin 5) rfl rfl rfl k q

theorem hostOps8_v93 (q : Fin 1024) :
    (StableHlo.after (hostOps8 (F := Ideal)) W (Proc.devRef .tc main_v93) : S1024.Idx → EReal) (ix1 q)
      = (W (Proc.devRef .tc main_v55) : S5x1024.Idx → EReal) (ix2 (3 : Fin 5) q) := by
  after_results
  exact memberRow_apply (α := EReal) (G := 5) (D := 1024) _ _ _ _ (3 : Fin 5) rfl rfl q

theorem hostOps8_v95 (z : Fin 1) (q : Fin 1024) :
    (StableHlo.after (hostOps8 (F := Ideal)) W (Proc.devRef .tc main_v95) : S1x1024.Idx → EReal) (ix2 z q) = (0 : EReal) := by
  after_results
  exact zeroRowMat_apply (D := 1024) _ _ z q

theorem hostOps9_v97 (z : Fin 1) (q : Fin 1024) :
    (StableHlo.after (hostOps9 (F := Ideal)) W (Proc.devRef .tc main_v97) : S1x1024.Idx → EReal) (ix2 z q)
      = (W (Proc.devRef .tc main_v93) : S1024.Idx → EReal) (ix1 q) := by
  after_results
  exact rowMat_apply (α := EReal) (D := 1024) _ _ z q

/-! ## Before regions 10 and 11: member 4 -/

theorem hostOps10_v100 (k q : Fin 1024) :
    (StableHlo.after (hostOps10 (F := Ideal)) W (Proc.devRef .tc main_v100) : S1024x1024.Idx → EReal) (ix2 k q)
      = (W (Proc.devRef .tc main_v54) : S5x1024x1024.Idx → EReal) (ix3 (4 : Fin 5) k q) := by
  after_results
  exact memberMat_apply (α := EReal) (G := 5) (K := 1024) (D := 1024) _ _ _ _ (4 : Fin 5) rfl rfl rfl k q

theorem hostOps10_v102 (q : Fin 1024) :
    (StableHlo.after (hostOps10 (F := Ideal)) W (Proc.devRef .tc main_v102) : S1024.Idx → EReal) (ix1 q)
      = (W (Proc.devRef .tc main_v55) : S5x1024.Idx → EReal) (ix2 (4 : Fin 5) q) := by
  after_results
  exact memberRow_apply (α := EReal) (G := 5) (D := 1024) _ _ _ _ (4 : Fin 5) rfl rfl q

theorem hostOps10_v104 (z : Fin 1) (q : Fin 1024) :
    (StableHlo.after (hostOps10 (F := Ideal)) W (Proc.devRef .tc main_v104) : S1x1024.Idx → EReal) (ix2 z q) = (0 : EReal) := by
  after_results
  exact zeroRowMat_apply (D := 1024) _ _ z q

theorem hostOps11_v106 (z : Fin 1) (q : Fin 1024) :
    (StableHlo.after (hostOps11 (F := Ideal)) W (Proc.devRef .tc main_v106) : S1x1024.Idx → EReal) (ix2 z q)
      = (W (Proc.devRef .tc main_v102) : S1024.Idx → EReal) (ix1 q) := by
  after_results
  exact rowMat_apply (α := EReal) (D := 1024) _ _ z q

/-! ## Before regions 12 and 13: a zero row, the last bias as a one-row matrix -/

theorem hostOps12_v109 (z : Fin 1) (q : Fin 256) :
    (StableHlo.after (hostOps12 (F := Ideal)) W (Proc.devRef .tc main_v109) : S1x256.Idx → EReal) (ix2 z q) = (0 : EReal) := by
  after_results
  exact zeroRowMat_apply (D := 256) _ _ z q

theorem hostOps13_v111 (z : Fin 1) (q : Fin 256) :
    (StableHlo.after (hostOps13 (F := Ideal)) W (Proc.devRef .tc main_v111) : S1x256.Idx → EReal) (ix2 z q)
      = (W (Proc.devRef .tc main_arg8) : S256.Idx → EReal) (ix1 q) := by
  after_results
  exact rowMat_apply (α := EReal) (D := 256) _ _ z q

/-! ## After region 13: the first 10000 rows of the result -/

theorem hostOps14_v113 (i : Fin 10000) (q : Fin 256) :
    (StableHlo.after (hostOps14 (F := Ideal)) W (Proc.devRef .tc main_v113) : S10000x256.Idx → EReal) (ix2 i q)
      = (W (Proc.devRef .tc main_v112) : S10240x256.Idx → EReal) (ix2 (Fin.castLE (by norm_num : 10000 ≤ 10240) i) q) := by
  after_results
  exact topRows_apply (α := EReal) (M := 10240) (m := 10000) (D := 256) _ _ _ _ rfl rfl i q

end Cert.KernelIdeal.Rg
-- ==== Proof.KI.HostPrefix.lean ====
/-
  The dense program's padded arrays when the first kernel region is entered, read at an index.

  Before region 0 the program pads, with zeros, the node features (240 rows), the first weights (24 columns), the first
  bias (24 entries), every middle weight matrix (to 1024 × 1024), every middle bias (to 1024) and the last weights (24
  rows), and makes a zero row. The padding value is an integer zero, converted; the narrowing of an array to bf16 changes
  nothing at the extended reals.
-/
import proofs.«181230_j19834158973077_2_alg».proof.Proof.KernelIdealRegions
import proofs.«181230_j19834158973077_2_alg».proof.Proof.HostPads

set_option maxRecDepth 16384

noncomputable section

namespace Cert.KernelIdeal.Rg

open Cert.KernelIdeal Cert.KernelIdeal.Gen
open Idealize.ShloMosaic Idealize.ShloMosaic.TcCoe Idealize.ShloMosaic.ValueIdx
open Cert.HostArrays

variable (m : (ℓ : Loc nD τ sig) → Buf (Elt Ideal) ℓ)

/-! ## The padded arrays, one stretch at a time

Each padding stretch converts an integer zero written by the stretch before it into the padding value, then pads an
argument array; the next stretch narrows the padded array to bf16. -/

section Stretches

variable (W : Valuation τ sig (Elt Ideal))

theorem hostOps0_2_c11 :
    (StableHlo.after (hostOps0_2 (F := Ideal)) W (Proc.devRef .tc main_c_11) : S_.Idx → BitVec 32) = constantI S_ 32 0#32 := by
  after_results
  try rfl

theorem hostOps0_3_v48 :
    (StableHlo.after (hostOps0_3 (F := Ideal)) W (Proc.devRef .tc main_v48) : S10240x128.Idx → EReal)
      = pad S10240x128 ![0, 0] ![240, 0] ![0, 0] (W (Proc.devRef .tc main_arg0) : S10000x128.Idx → EReal)
          (sitofp .f32 (W (Proc.devRef .tc main_c_11) : S_.Idx → BitVec 32) : FVec Ideal S_ .f32) := by
  after_results
  try rfl

theorem hostOps0_4_v49 :
    (StableHlo.after (hostOps0_4 (F := Ideal)) W (Proc.devRef .tc main_v49) : S10240x128.Idx → EReal)
      = truncf (F := Ideal) (s := S10240x128) (φ := .f32) .bf16 (W (Proc.devRef .tc main_v48) : FVec Ideal S10240x128 .f32) := by
  after_results
  try rfl

theorem hostOps0_4_c12 :
    (StableHlo.after (hostOps0_4 (F := Ideal)) W (Proc.devRef .tc main_c_12) : S_.Idx → BitVec 32) = constantI S_ 32 0#32 := by
  after_results
  try rfl

theorem hostOps0_5_v50 :
    (StableHlo.after (hostOps0_5 (F := Ideal)) W (Proc.devRef .tc main_v50) : S128x1024.Idx → EReal)
      = pad S128x1024 ![0, 0] ![0, 24] ![0, 0] (W (Proc.devRef .tc main_arg3) : S128x1000.Idx → EReal)
          (sitofp .f32 (W (Proc.devRef .tc main_c_12) : S_.Idx → BitVec 32) : FVec Ideal S_ .f32) := by
  after_results
  try rfl

theorem hostOps0_6_v51 :
    (StableHlo.after (hostOps0_6 (F := Ideal)) W (Proc.devRef .tc main_v51) : S128x1024.Idx → EReal)
      = truncf (F := Ideal) (s := S128x1024) (φ := .f32) .bf16 (W (Proc.devRef .tc main_v50) : FVec Ideal S128x1024 .f32) := by
  after_results
  try rfl

theorem hostOps0_6_c13 :
    (StableHlo.after (hostOps0_6 (F := Ideal)) W (Proc.devRef .tc main_c_13) : S_.Idx → BitVec 32) = constantI S_ 32 0#32 := by
  after_results
  try rfl

theorem hostOps0_7_v52 :
    (StableHlo.after (hostOps0_7 (F := Ideal)) W (Proc.devRef .tc main_v52) : S1024.Idx → EReal)
      = pad S1024 ![0] ![24] ![0] (W (Proc.devRef .tc main_arg4) : S1000.Idx → EReal)
          (sitofp .f32 (W (Proc.devRef .tc main_c_13) : S_.Idx → BitVec 32) : FVec Ideal S_ .f32) := by
  after_results
  try rfl

theorem hostOps0_8_c14 :
    (StableHlo.after (hostOps0_8 (F := Ideal)) W (Proc.devRef .tc main_c_14) : S_.Idx → BitVec 32) = constantI S_ 32 0#32 := by
  after_results
  try rfl

theorem hostOps0_9_v53 :
    (StableHlo.after (hostOps0_9 (F := Ideal)) W (Proc.devRef .tc main_v53) : S5x1024x1024.Idx → EReal)
      = pad S5x1024x1024 ![0, 0, 0] ![0, 24, 24] ![0, 0, 0] (W (Proc.devRef .tc main_arg5) : S5x1000x1000.Idx → EReal)
          (sitofp .f32 (W (Proc.devRef .tc main_c_14) : S_.Idx → BitVec 32) : FVec Ideal S_ .f32) := by
  after_results
  try rfl

theorem hostOps0_10_v54 :
    (StableHlo.after (hostOps0_10 (F := Ideal)) W (Proc.devRef .tc main_v54) : S5x1024x1024.Idx → EReal)
      = truncf (F := Ideal) (s := S5x1024x1024) (φ := .f32) .bf16 (W (Proc.devRef .tc main_v53) : FVec Ideal S5x1024x1024 .f32) := by
  after_results
  try rfl

theorem hostOps0_10_c15 :
    (StableHlo.after (hostOps0_10 (F := Ideal)) W (Proc.devRef .tc main_c_15) : S_.Idx → BitVec 32) = constantI S_ 32 0#32 := by
  after_results
  try rfl

theorem hostOps0_11_v55 :
    (StableHlo.after (hostOps0_11 (F := Ideal)) W (Proc.devRef .tc main_v55) : S5x1024.Idx → EReal)
      = pad S5x1024 ![0, 0] ![0, 24] ![0, 0] (W (Proc.devRef .tc main_arg6) : S5x1000.Idx → EReal)
          (sitofp .f32 (W (Proc.devRef .tc main_c_15) : S_.Idx → BitVec 32) : FVec Ideal S_ .f32) := by
  after_results
  try rfl

theorem hostOps0_12_c16 :
    (StableHlo.after (hostOps0_12 (F := Ideal)) W (Proc.devRef .tc main_c_16) : S_.Idx → BitVec 32) = constantI S_ 32 0#32 := by
  after_results
  try rfl

theorem hostOps0_13_v56 :
    (StableHlo.after (hostOps0_13 (F := Ideal)) W (Proc.devRef .tc main_v56) : S1024x256.Idx → EReal)
      = pad S1024x256 ![0, 0] ![24, 0] ![0, 0] (W (Proc.devRef .tc main_arg7) : S1000x256.Idx → EReal)
          (sitofp .f32 (W (Proc.devRef .tc main_c_16) : S_.Idx → BitVec 32) : FVec Ideal S_ .f32) := by
  after_results
  try rfl

theorem hostOps0_14_v57 :
    (StableHlo.after (hostOps0_14 (F := Ideal)) W (Proc.devRef .tc main_v57) : S1024x256.Idx → EReal)
      = truncf (F := Ideal) (s := S1024x256) (φ := .f32) .bf16 (W (Proc.devRef .tc main_v56) : FVec Ideal S1024x256 .f32) := by
  after_results
  try rfl

theorem hostOps0_14_v59 (z : Fin 1) (q : Fin 128) :
    (StableHlo.after (hostOps0_14 (F := Ideal)) W (Proc.devRef .tc main_v59) : S1x128.Idx → EReal) (ix2 z q) = (0 : EReal) := by
  after_results
  exact zeroRowMat_apply (D := 128) _ _ z q

end Stretches

/-! ## The padded arrays when region 0 is entered -/

/-- An argument array is untouched by the first three stretches. -/
theorem V3_arg (c : Dev nD) (r : Ref sig .tc) (h0 : r ∉ hostOps0_W) (h1 : r ∉ hostOps0_1_W) (h2 : r ∉ hostOps0_2_W) :
    V3 m c r = V0 m c r :=
  (V3_of m c r h2).trans ((V2_of m c r h1).trans (V1_of m c r h0))

/-- The node features padded with zero rows. -/
theorem V15_features_apply (c : Dev nD) (i : Fin 10240) (k : Fin 128) :
    (V15 m c main_v49 : S10240x128.Idx → EReal) (ix2 i k)
      = Cert.Spec.padMat 10240 128 (fun a b => (V0 m c main_arg0 : S10000x128.Idx → EReal) (ix2 a b)) i k := by
  rw [V15_of m c main_v49 (by decide), V14_of m c main_v49 (by decide), V13_of m c main_v49 (by decide),
    V12_of m c main_v49 (by decide), V11_of m c main_v49 (by decide), V10_of m c main_v49 (by decide),
    V9_of m c main_v49 (by decide), V8_of m c main_v49 (by decide), V7_of m c main_v49 (by decide),
    V6_of m c main_v49 (by decide)]
  have e5 : (V5 m c main_v49 : S10240x128.Idx → EReal) = truncf (F := Ideal) (s := S10240x128) (φ := .f32) .bf16 (V4 m c main_v48 : FVec Ideal S10240x128 .f32) :=
    hostOps0_4_v49 (V4 m c)
  have e4 : (V4 m c main_v48 : S10240x128.Idx → EReal)
      = pad S10240x128 ![0, 0] ![240, 0] ![0, 0] (V3 m c main_arg0 : S10000x128.Idx → EReal)
          (sitofp .f32 (V3 m c main_c_11 : S_.Idx → BitVec 32) : FVec Ideal S_ .f32) := hostOps0_3_v48 (V3 m c)
  have ec : (V3 m c main_c_11 : S_.Idx → BitVec 32) = constantI S_ 32 0#32 := hostOps0_2_c11 (V2 m c)
  have ea : V3 m c main_arg0 = V0 m c main_arg0 := V3_arg m c main_arg0 (by decide) (by decide) (by decide)
  rw [e5, truncf_apply, e4, ec, ea]
  exact pad2_eq_padMat _ _ _ _ i k

/-- Region 0's bias row is zero. -/
theorem V15_zeroRow_apply (c : Dev nD) (z : Fin 1) (q : Fin 128) :
    (V15 m c main_v59 : S1x128.Idx → EReal) (ix2 z q) = (0 : EReal) :=
  hostOps0_14_v59 (V14 m c) z q

/-- The first weights padded with zero columns. -/
theorem V15_firstWeights_apply (c : Dev nD) (k : Fin 128) (q : Fin 1024) :
    (V15 m c main_v51 : S128x1024.Idx → EReal) (ix2 k q)
      = Cert.Spec.padMat 128 1024 (fun a b => (V0 m c main_arg3 : S128x1000.Idx → EReal) (ix2 a b)) k q := by
  rw [V15_of m c main_v51 (by decide), V14_of m c main_v51 (by decide), V13_of m c main_v51 (by decide),
    V12_of m c main_v51 (by decide), V11_of m c main_v51 (by decide), V10_of m c main_v51 (by decide),
    V9_of m c main_v51 (by decide), V8_of m c main_v51 (by decide)]
  have e7 : (V7 m c main_v51 : S128x1024.Idx → EReal) = truncf (F := Ideal) (s := S128x1024) (φ := .f32) .bf16 (V6 m c main_v50 : FVec Ideal S128x1024 .f32) :=
    hostOps0_6_v51 (V6 m c)
  have e6 : (V6 m c main_v50 : S128x1024.Idx → EReal)
      = pad S128x1024 ![0, 0] ![0, 24] ![0, 0] (V5 m c main_arg3 : S128x1000.Idx → EReal)
          (sitofp .f32 (V5 m c main_c_12 : S_.Idx → BitVec 32) : FVec Ideal S_ .f32) := hostOps0_5_v50 (V5 m c)
  have ec : (V5 m c main_c_12 : S_.Idx → BitVec 32) = constantI S_ 32 0#32 := hostOps0_4_c12 (V4 m c)
  have ea : V5 m c main_arg3 = V0 m c main_arg3 :=
    (V5_of m c main_arg3 (by decide)).trans ((V4_of m c main_arg3 (by decide)).trans
      (V3_arg m c main_arg3 (by decide) (by decide) (by decide)))
  rw [e7, truncf_apply, e6, ec, ea]
  exact pad2_eq_padMat _ _ _ _ k q

/-- The first bias padded with zeros. -/
theorem V15_firstBias_apply (c : Dev nD) (q : Fin 1024) :
    (V15 m c main_v52 : S1024.Idx → EReal) (ix1 q)
      = Cert.Spec.padVec 1024 (fun a => (V0 m c main_arg4 : S1000.Idx → EReal) (ix1 a)) q := by
  rw [V15_of m c main_v52 (by decide), V14_of m c main_v52 (by decide), V13_of m c main_v52 (by decide),
    V12_of m c main_v52 (by decide), V11_of m c main_v52 (by decide), V10_of m c main_v52 (by decide),
    V9_of m c main_v52 (by decide)]
  have e8 : (V8 m c main_v52 : S1024.Idx → EReal)
      = pad S1024 ![0] ![24] ![0] (V7 m c main_arg4 : S1000.Idx → EReal)
          (sitofp .f32 (V7 m c main_c_13 : S_.Idx → BitVec 32) : FVec Ideal S_ .f32) := hostOps0_7_v52 (V7 m c)
  have ec : (V7 m c main_c_13 : S_.Idx → BitVec 32) = constantI S_ 32 0#32 := hostOps0_6_c13 (V6 m c)
  have ea : V7 m c main_arg4 = V0 m c main_arg4 :=
    (V7_of m c main_arg4 (by decide)).trans ((V6_of m c main_arg4 (by decide)).trans
      ((V5_of m c main_arg4 (by decide)).trans ((V4_of m c main_arg4 (by decide)).trans
        (V3_arg m c main_arg4 (by decide) (by decide) (by decide)))))
  rw [e8, ec, ea]
  exact pad1_eq_padVec _ _ _ _ q

/-- An argument array is untouched by the first nine stretches. -/
theorem V9_arg (c : Dev nD) (r : Ref sig .tc) (h0 : r ∉ hostOps0_W) (h1 : r ∉ hostOps0_1_W) (h2 : r ∉ hostOps0_2_W)
    (h3 : r ∉ hostOps0_3_W) (h4 : r ∉ hostOps0_4_W) (h5 : r ∉ hostOps0_5_W) (h6 : r ∉ hostOps0_6_W)
    (h7 : r ∉ hostOps0_7_W) (h8 : r ∉ hostOps0_8_W) : V9 m c r = V0 m c r :=
  (V9_of m c r h8).trans ((V8_of m c r h7).trans ((V7_of m c r h6).trans ((V6_of m c r h5).trans
    ((V5_of m c r h4).trans ((V4_of m c r h3).trans (V3_arg m c r h0 h1 h2))))))

/-- The stack of middle weights, each padded to 1024 × 1024. -/
theorem V15_midWeights_apply (c : Dev nD) (l : Fin 5) (k q : Fin 1024) :
    (V15 m c main_v54 : S5x1024x1024.Idx → EReal) (ix3 l k q)
      = Cert.Spec.padMat 1024 1024 (fun a b => (V0 m c main_arg5 : S5x1000x1000.Idx → EReal) (ix3 l a b)) k q := by
  rw [V15_of m c main_v54 (by decide), V14_of m c main_v54 (by decide), V13_of m c main_v54 (by decide),
    V12_of m c main_v54 (by decide)]
  have e11 : (V11 m c main_v54 : S5x1024x1024.Idx → EReal)
      = truncf (F := Ideal) (s := S5x1024x1024) (φ := .f32) .bf16 (V10 m c main_v53 : FVec Ideal S5x1024x1024 .f32) := hostOps0_10_v54 (V10 m c)
  have e10 : (V10 m c main_v53 : S5x1024x1024.Idx → EReal)
      = pad S5x1024x1024 ![0, 0, 0] ![0, 24, 24] ![0, 0, 0] (V9 m c main_arg5 : S5x1000x1000.Idx → EReal)
          (sitofp .f32 (V9 m c main_c_14 : S_.Idx → BitVec 32) : FVec Ideal S_ .f32) := hostOps0_9_v53 (V9 m c)
  have ec : (V9 m c main_c_14 : S_.Idx → BitVec 32) = constantI S_ 32 0#32 := hostOps0_8_c14 (V8 m c)
  have ea : V9 m c main_arg5 = V0 m c main_arg5 :=
    V9_arg m c main_arg5 (by decide) (by decide) (by decide) (by decide) (by decide) (by decide) (by decide) (by decide) (by decide)
  rw [e11, truncf_apply, e10, ec, ea]
  exact pad3_eq_padMat _ _ _ _ l k q

/-- The stack of middle biases, each padded to 1024. -/
theorem V15_midBiases_apply (c : Dev nD) (l : Fin 5) (q : Fin 1024) :
    (V15 m c main_v55 : S5x1024.Idx → EReal) (ix2 l q)
      = Cert.Spec.padVec 1024 (fun a => (V0 m c main_arg6 : S5x1000.Idx → EReal) (ix2 l a)) q := by
  rw [V15_of m c main_v55 (by decide), V14_of m c main_v55 (by decide), V13_of m c main_v55 (by decide)]
  have e12 : (V12 m c main_v55 : S5x1024.Idx → EReal)
      = pad S5x1024 ![0, 0] ![0, 24] ![0, 0] (V11 m c main_arg6 : S5x1000.Idx → EReal)
          (sitofp .f32 (V11 m c main_c_15 : S_.Idx → BitVec 32) : FVec Ideal S_ .f32) := hostOps0_11_v55 (V11 m c)
  have ec : (V11 m c main_c_15 : S_.Idx → BitVec 32) = constantI S_ 32 0#32 := hostOps0_10_c15 (V10 m c)
  have ea : V11 m c main_arg6 = V0 m c main_arg6 :=
    (V11_of m c main_arg6 (by decide)).trans ((V10_of m c main_arg6 (by decide)).trans
      (V9_arg m c main_arg6 (by decide) (by decide) (by decide) (by decide) (by decide) (by decide) (by decide) (by decide) (by decide)))
  rw [e12, ec, ea]
  exact pad2_eq_padVec _ _ _ _ l q

/-- The last weights padded with zero rows. -/
theorem V15_lastWeights_apply (c : Dev nD) (k : Fin 1024) (q : Fin 256) :
    (V15 m c main_v57 : S1024x256.Idx → EReal) (ix2 k q)
      = Cert.Spec.padMat 1024 256 (fun a b => (V0 m c main_arg7 : S1000x256.Idx → EReal) (ix2 a b)) k q := by
  have e15 : (V15 m c main_v57 : S1024x256.Idx → EReal)
      = truncf (F := Ideal) (s := S1024x256) (φ := .f32) .bf16 (V14 m c main_v56 : FVec Ideal S1024x256 .f32) := hostOps0_14_v57 (V14 m c)
  have e14 : (V14 m c main_v56 : S1024x256.Idx → EReal)
      = pad S1024x256 ![0, 0] ![24, 0] ![0, 0] (V13 m c main_arg7 : S1000x256.Idx → EReal)
          (sitofp .f32 (V13 m c main_c_16 : S_.Idx → BitVec 32) : FVec Ideal S_ .f32) := hostOps0_13_v56 (V13 m c)
  have ec : (V13 m c main_c_16 : S_.Idx → BitVec 32) = constantI S_ 32 0#32 := hostOps0_12_c16 (V12 m c)
  have ea : V13 m c main_arg7 = V0 m c main_arg7 :=
    (V13_of m c main_arg7 (by decide)).trans ((V12_of m c main_arg7 (by decide)).trans
      ((V11_of m c main_arg7 (by decide)).trans ((V10_of m c main_arg7 (by decide)).trans
        (V9_arg m c main_arg7 (by decide) (by decide) (by decide) (by decide) (by decide) (by decide) (by decide) (by decide) (by decide)))))
  rw [e15, truncf_apply, e14, ec, ea]
  exact pad2_eq_padMat _ _ _ _ k q

end Cert.KernelIdeal.Rg
-- ==== Proof.HostAdjacency.lean ====
/-
  The dense adjacency array of a graph with self loops, as the dense program builds it.

  The entries' (target, source) pairs — each endpoint with 10240 added where it is negative, which never happens for node
  ids below 10000 — are put side by side in a [170000, 2] array; the entries' coefficients are scatter-added at those
  pairs into the zero [10240, 10240] array; the result is narrowed to bf16, which at the extended reals changes nothing.
  Element (i, j) is therefore the sum of the coefficients of the entries from node j to node i: the dense adjacency matrix.
-/
import proofs.«181230_j19834158973077_2_alg».proof.Proof.HostArrays

noncomputable section

open scoped BigOperators

namespace Cert.HostArrays

open Idealize.ShloMosaic Idealize.ShloMosaic.ValueIdx Cert.Norm

abbrev SAdj : Shape := ⟨2, ![10240, 10240]⟩
abbrev SPairs : Shape := ⟨2, ![170000, 2]⟩

theorem joinPairs : Shape.Concatenates [SEntriesCol, SEntriesCol] SPairs 1 := by decide
theorem splatAdj : SScalar.BroadcastsInDim SAdj (![] : Fin 0 → Fin SAdj.rank) := by decide

/-- A word that encodes a number below 2³¹ is not negative, so an adjustment of the negative words keeps it. -/
theorem keep_nonneg_word (n : Nat) (hn : n < 2147483648) (k : BitVec 32) :
    Scalar.select (IntOp.cmpi .slt (BitVec.ofNat 32 n) 0#32) (IntOp.addi (BitVec.ofNat 32 n) k) (BitVec.ofNat 32 n)
      = BitVec.ofNat 32 n := by
  have hi : (BitVec.ofNat 32 n).toInt = (n : Int) := Cert.RefOps.toInt_ofNat_small n hn
  have h0 : (0#32 : BitVec 32).toInt = 0 := by decide
  have hs : (BitVec.ofNat 32 n).slt 0#32 = false := by
    simp only [BitVec.slt, hi, h0]
    exact decide_eq_false (by omega)
  show Scalar.select (BitVec.ofBool ((BitVec.ofNat 32 n).slt 0#32)) _ _ = _
  rw [hs]; exact select_zero _ _

/-- An index array with 10240 added to every negative entry. -/
def wrapPad (v : IVec SEntries 32) : IVec SEntries 32 :=
  select (cmpi .slt v (broadcastInDim SEntries ![] splatEntries (constantI SScalar 32 0#32)))
    (addi v (broadcastInDim SEntries ![] splatEntries (constantI SScalar 32 10240#32))) v

theorem wrapPad_apply (v : IVec SEntries 32) (i : SEntries.Idx) (n : Nat) (hn : n < 10000) (hv : v i = BitVec.ofNat 32 n) :
    wrapPad v i = BitVec.ofNat 32 n := by
  show Scalar.select (IntOp.cmpi .slt (v i) 0#32) (IntOp.addi (v i) 10240#32) (v i) = _
  rw [hv]; exact keep_nonneg_word n (by omega) _

/-- The entries' (target, source) pairs, one per row. -/
def pairsArr (ei : IVec SEdgeIndex 32) : IVec SPairs 32 :=
  concatenate SPairs 1
    [⟨SEntriesCol, broadcastInDim SEntriesCol ![0] colEntries (wrapPad (colArr ei))⟩,
     ⟨SEntriesCol, broadcastInDim SEntriesCol ![0] colEntries (wrapPad (rowArr ei))⟩] joinPairs

/-- An entry's number as the row of a one-column array. -/
theorem column_apply (v : IVec SEntries 32) (e : Fin 170000) :
    broadcastInDim SEntriesCol ![0] colEntries v (ix2 e (0 : Fin 1)) = v (ix1 e) :=
  broadcastInDim_apply _ colEntries v (ix2 e (0 : Fin 1)) (ix1 e) fun a => by
    obtain rfl : a = 0 := Subsingleton.elim _ _
    rfl

theorem pairsArr_target (ei : IVec SEdgeIndex 32) (hin : InRange ei) (e : Fin 170000) :
    pairsArr ei (ix2 e (0 : Fin 2)) = BitVec.ofNat 32 (colOf ei e).val := by
  unfold pairsArr
  rw [concatenate_pair_apply_left (s₁ := SEntriesCol) (s₂ := SEntriesCol) (t := SPairs) (1 : Fin 2) _ _ joinPairs
    (ix2 e (0 : Fin 2)) rfl (ix2 e (0 : Fin 1)) (fun b => match b with
      | ⟨0, _⟩ => rfl
      | ⟨1, _⟩ => rfl)]
  rw [column_apply]
  exact wrapPad_apply _ _ _ (colOf ei e).isLt (colArr_apply ei hin e)

theorem pairsArr_source (ei : IVec SEdgeIndex 32) (hin : InRange ei) (e : Fin 170000) :
    pairsArr ei (ix2 e (1 : Fin 2)) = BitVec.ofNat 32 (rowOf ei e).val := by
  unfold pairsArr
  rw [concatenate_pair_apply_right (s₁ := SEntriesCol) (s₂ := SEntriesCol) (t := SPairs) (1 : Fin 2) _ _ joinPairs
    (ix2 e (1 : Fin 2)) rfl rfl (ix2 e (0 : Fin 1)) (fun b hb => match b, hb with
      | ⟨0, _⟩, _ => rfl
      | ⟨1, _⟩, hb => absurd rfl hb) rfl]
  rw [column_apply]
  exact wrapPad_apply _ _ _ (rowOf ei e).isLt (rowArr_apply ei hin e)

/-- The dense adjacency array: the coefficients scatter-added at the pairs into zeros, narrowed to bf16. -/
def adjArr (wf : ScatterDims.WF SAdj SPairs SEntries [] [0, 1] [0, 1] 1) (ei : IVec SEdgeIndex 32)
    (ew : FVec Ideal SEdges .f32) : FVec Ideal SAdj .bf16 :=
  truncf .bf16
    (Host.scatterAdd (pointScatter 10240 10240 170000 wf)
      (broadcastInDim SAdj ![] splatAdj (constant (F := Ideal) SScalar .f32 0x00000000#32)) (pairsArr ei) (normOf ei ew))
    (by decide)

/-- A word that encodes a number below 2³¹, read signed, is a given number exactly when it encodes it. -/
theorem toInt_word_eq_iff (n k : Nat) (hn : n < 2147483648) : (BitVec.ofNat 32 n).toInt = (k : Int) ↔ n = k := by
  rw [Cert.RefOps.toInt_ofNat_small n hn]
  exact Int.ofNat_inj

/-- Element (i, j) of the dense adjacency array is the dense adjacency matrix of the entries' endpoints and coefficients. -/
theorem adjArr_apply (wf : ScatterDims.WF SAdj SPairs SEntries [] [0, 1] [0, 1] 1) (ei : IVec SEdgeIndex 32)
    (ew : FVec Ideal SEdges .f32) (hin : InRange ei) (i j : Fin 10240) :
    adjArr wf ei ew (ix2 i j) = Cert.Spec.adj (rowOf ei) (colOf ei) (weightOf ei ew) i j := by
  unfold adjArr
  rw [truncf_apply, pointScatterAdd_apply wf _ (pairsArr ei) (normOf ei ew) i j]
  have hz : broadcastInDim SAdj ![] splatAdj (constant (F := Ideal) SScalar .f32 0x00000000#32) (ix2 i j) = (0 : EReal) := by
    rw [broadcastInDim_apply _ splatAdj _ (ix2 i j) ix0 (fun a => a.elim0), constant_apply]
    exact Ideal.ofBits_zero_f32
  rw [hz, zero_add]
  unfold Cert.Spec.adj weightOf
  refine Finset.sum_congr (Finset.filter_congr fun e _ => ?_) fun e _ => rfl
  rw [pairsArr_target ei hin e, pairsArr_source ei hin e,
    toInt_word_eq_iff _ _ (by have := (colOf ei e).isLt; omega), toInt_word_eq_iff _ _ (by have := (rowOf ei e).isLt; omega)]

end Cert.HostArrays
-- ==== Proof.KI.HostAdj.lean ====
/-
  The dense program's adjacency array when the first kernel region is entered.

  The first stretch lists the entries' sources, targets and weights and the nodes' degrees; the second guards the
  reciprocal square roots of the degrees; the third multiplies out the entries' coefficients and scatter-adds them at the
  (target, source) pairs into the zero array. Element (i, j) of the result is the dense adjacency matrix of the graph.
-/
import proofs.«181230_j19834158973077_2_alg».proof.Proof.KernelIdealRegions
import proofs.«181230_j19834158973077_2_alg».proof.Proof.HostAdjacency

set_option maxRecDepth 16384

noncomputable section

namespace Cert.HostArrays

open Idealize.ShloMosaic Idealize.ShloMosaic.ValueIdx Cert.Norm

/-- The point scatter's dimension numbers are well formed at the adjacency array's shapes. -/
theorem adjWF : ScatterDims.WF SAdj SPairs SEntries [] [0, 1] [0, 1] 1 := by decide

/-- The dense adjacency array from the source indices `r`, the target indices `c`, the weights `wt` and the per-node
    factors `dis` (the guarded reciprocal square roots of the degrees): the coefficient of an entry is
    factor[source] * weight * factor[target], and the coefficients are scatter-added at the (target, source) pairs. -/
def adjOfParts (wf : ScatterDims.WF SAdj SPairs SEntries [] [0, 1] [0, 1] 1) (r c : IVec SEntries 32)
    (wt : FVec Ideal SEntries .f32) (dis : FVec Ideal SNodes .f32) : FVec Ideal SAdj .bf16 :=
  truncf .bf16
    (Host.scatterAdd (pointScatter 10240 10240 170000 wf)
      (broadcastInDim SAdj ![] splatAdj (constant (F := Ideal) SScalar .f32 0x00000000#32))
      (concatenate SPairs 1
        [⟨SEntriesCol, broadcastInDim SEntriesCol ![0] colEntries (wrapPad c)⟩,
         ⟨SEntriesCol, broadcastInDim SEntriesCol ![0] colEntries (wrapPad r)⟩] joinPairs)
      (mulf
        (mulf (Host.gather nodeGather dis (broadcastInDim SEntriesCol ![0] colEntries (wrapIdx r))) wt)
        (Host.gather nodeGather dis (broadcastInDim SEntriesCol ![0] colEntries (wrapIdx c)))))
    (by decide)

/-- With the graph's own four arrays the function gives the dense adjacency array. -/
theorem adjArr_eq_parts (wf : ScatterDims.WF SAdj SPairs SEntries [] [0, 1] [0, 1] 1) (ei : IVec SEdgeIndex 32)
    (ew : FVec Ideal SEdges .f32) :
    adjArr wf ei ew = adjOfParts wf (rowArr ei) (colArr ei) (weightArr ew) (disOf ei ew) := rfl

end Cert.HostArrays

namespace Cert.KernelIdeal.Rg

open Cert.KernelIdeal Cert.KernelIdeal.Gen
open Idealize.ShloMosaic Idealize.ShloMosaic.TcCoe Idealize.ShloMosaic.ValueIdx
open Cert.HostArrays Cert.Norm

variable (m : (ℓ : Loc nD τ sig) → Buf (Elt Ideal) ℓ)

/-- The edge-index argument as core c finds it at launch. -/
abbrev edgeIndex (c : Dev nD) : IVec S2x160000 32 := V0 m c main_arg1
/-- The edge-weight argument as core c finds it at launch. -/
abbrev edgeWeight (c : Dev nD) : FVec Ideal S160000 .f32 := V0 m c main_arg2

/-! ## The adjacency array, one stretch at a time -/

theorem V1_sources (c : Dev nD) : (V1 m c main_v3 : S170000.Idx → BitVec 32) = rowArr (edgeIndex m c) := by
  dsimp only [V1, V0, hostOps0]
  after_results
  try rfl

theorem V1_targets (c : Dev nD) : (V1 m c main_v6 : S170000.Idx → BitVec 32) = colArr (edgeIndex m c) := by
  dsimp only [V1, V0, hostOps0]
  after_results
  try rfl

theorem V1_weights (c : Dev nD) : (V1 m c main_v8 : S170000.Idx → EReal) = weightArr (edgeWeight m c) := by
  dsimp only [V1, V0, hostOps0]
  after_results
  try rfl

set_option maxHeartbeats 4000000 in
set_option maxRecDepth 200000 in
theorem V2_factors (c : Dev nD) :
    (V2 m c main_v15 : S10000.Idx → EReal) = disOf (edgeIndex m c) (edgeWeight m c) := by
  dsimp only [V2, V1, V0, hostOps0_1, hostOps0]
  after_results
  try rfl

set_option maxHeartbeats 8000000 in
/-- The third stretch builds the adjacency array from the four arrays it finds, whatever they hold. -/
theorem hostOps0_2_adjacency (W : Valuation τ sig (Elt Ideal)) :
    (StableHlo.after (hostOps0_2 (F := Ideal)) W (Proc.devRef .tc main_v47) : S10240x10240.Idx → EReal)
      = adjOfParts adjWF (W (Proc.devRef .tc main_v3)) (W (Proc.devRef .tc main_v6)) (W (Proc.devRef .tc main_v8))
          (W (Proc.devRef .tc main_v15)) := by
  after_results
  try rfl

theorem V15_adjacency (c : Dev nD) :
    (V15 m c main_v47 : S10240x10240.Idx → EReal) = adjArr adjWF (edgeIndex m c) (edgeWeight m c) := by
  rw [V15_of m c main_v47 (by decide), V14_of m c main_v47 (by decide), V13_of m c main_v47 (by decide),
    V12_of m c main_v47 (by decide), V11_of m c main_v47 (by decide), V10_of m c main_v47 (by decide),
    V9_of m c main_v47 (by decide), V8_of m c main_v47 (by decide), V7_of m c main_v47 (by decide),
    V6_of m c main_v47 (by decide), V5_of m c main_v47 (by decide), V4_of m c main_v47 (by decide)]
  show StableHlo.after (hostOps0_2 (F := Ideal)) (V2 m c) (Proc.devRef .tc main_v47) = _
  rw [hostOps0_2_adjacency, adjArr_eq_parts]
  have h3 : V2 m c main_v3 = V1 m c main_v3 := V2_of m c main_v3 (by decide)
  have h6 : V2 m c main_v6 = V1 m c main_v6 := V2_of m c main_v6 (by decide)
  have h8 : V2 m c main_v8 = V1 m c main_v8 := V2_of m c main_v8 (by decide)
  rw [h3, h6, h8, V1_sources, V1_targets, V1_weights, V2_factors]

/-- The adjacency buffer of every aggregation region, at (i, j), is the dense adjacency matrix. -/
theorem V15_adjacency_apply (c : Dev nD) (hin : InRange (edgeIndex m c)) (i j : Fin 10240) :
    (V15 m c main_v47 : S10240x10240.Idx → EReal) (ix2 i j)
      = Cert.Spec.adj (rowOf (edgeIndex m c)) (colOf (edgeIndex m c)) (weightOf (edgeIndex m c) (edgeWeight m c)) i j := by
  rw [V15_adjacency]
  exact adjArr_apply adjWF _ _ hin i j

end Cert.KernelIdeal.Rg
-- ==== Proof.KI.Glue.lean ====
/-
  Reading a region's result entry as an entry of the dense network.

  A kernel region leaves, at entry (p, q) of its result, a sum over the shared axis of products of two entries, plus one
  bias entry, possibly rectified. When the two factors are, entry by entry, a row of a matrix X and a column of a matrix W,
  and the bias entry is entry q of a row b, that number is entry (p, q) of X W + b. The laws below say so, and name the
  layers of the dense network that such entries make up.
-/
import proofs.«181230_j19834158973077_2_alg».proof.Proof.Spec

noncomputable section

namespace Cert.Spec

open Finset

/-- A sum of products plus a term, whose factors and term are entries of X, W and b, is an entry of X W + b. -/
theorem affine_of_entries {M K D : ℕ} (X : Fin M → Fin K → EReal) (W : Fin K → Fin D → EReal) (b : Fin D → EReal)
    (p : Fin M) (q : Fin D) (x w : Fin K → EReal) (β : EReal)
    (hx : ∀ k, x k = X p k) (hw : ∀ k, w k = W k q) (hb : β = b q) :
    (∑ k, x k * w k) + β = affine X W b p q := by
  unfold affine matMul
  rw [hb]
  exact congrArg (· + b q) (Finset.sum_congr rfl fun k _ => by rw [hx k, hw k])

/-- The same under the rectifier. -/
theorem relu_affine_of_entries {M K D : ℕ} (X : Fin M → Fin K → EReal) (W : Fin K → Fin D → EReal) (b : Fin D → EReal)
    (p : Fin M) (q : Fin D) (x w : Fin K → EReal) (β : EReal)
    (hx : ∀ k, x k = X p k) (hw : ∀ k, w k = W k q) (hb : β = b q) :
    relu ((∑ k, x k * w k) + β) = reluAll (affine X W b) p q :=
  congrArg relu (affine_of_entries X W b p q x w β hx hw hb)

section Dense

variable (row col : Fin 170000 → Fin 10000) (w : Fin 170000 → EReal)
variable (x : Fin 10000 → Fin 128 → EReal) (W1 : Fin 128 → Fin 1000 → EReal) (b1 : Fin 1000 → EReal)
  (Wmid : Fin 5 → Fin 1000 → Fin 1000 → EReal) (bmid : Fin 5 → Fin 1000 → EReal)
  (W7 : Fin 1000 → Fin 256 → EReal) (b7 : Fin 256 → EReal)

/-- The first layer's aggregation: the adjacency matrix times the padded features, with no bias. -/
def kerAgg0 : Fin 10240 → Fin 128 → EReal := affine (adj row col w) (padMat 10240 128 x) (zeroBias 128)

/-- The hidden features after the first layer are the rectified transform of the first aggregation. -/
theorem kerHidden_zero_eq :
    kerHidden row col w x W1 b1 Wmid bmid 0
      = reluAll (affine (kerAgg0 row col w x) (padMat 128 1024 W1) (padVec 1024 b1)) := rfl

/-- Middle layer l's transform: the hidden features after l middle layers times the padded weights, with no bias. -/
def kerLin (l : Fin 5) : Fin 10240 → Fin 1024 → EReal :=
  affine (kerHidden row col w x W1 b1 Wmid bmid l.val) (padMat 1024 1024 (Wmid l)) (zeroBias 1024)

/-- The hidden features after one more middle layer: aggregate the transform, add the padded bias, rectify. -/
theorem kerHidden_succ_eq (l : Fin 5) :
    kerHidden row col w x W1 b1 Wmid bmid (l.val + 1)
      = reluAll (affine (adj row col w) (kerLin row col w x W1 b1 Wmid bmid l) (padVec 1024 (bmid l))) := by
  rw [kerHidden_succ row col w x W1 b1 Wmid bmid l.val l.isLt]
  rfl

/-- The same with the layer count given as a number. -/
theorem kerHidden_succ_at (l : Fin 5) (n : ℕ) (hn : n = l.val + 1) :
    kerHidden row col w x W1 b1 Wmid bmid n
      = reluAll (affine (adj row col w) (kerLin row col w x W1 b1 Wmid bmid l) (padVec 1024 (bmid l))) := by
  subst hn; exact kerHidden_succ_eq row col w x W1 b1 Wmid bmid l

/-- Middle layer l's transform, with the number of middle layers before it given as a number. -/
theorem kerLin_at (l : Fin 5) (n : ℕ) (hn : n = l.val) :
    kerLin row col w x W1 b1 Wmid bmid l
      = affine (kerHidden row col w x W1 b1 Wmid bmid n) (padMat 1024 1024 (Wmid l)) (zeroBias 1024) := by
  subst hn; rfl

/-- The last layer's transform: the hidden features after the five middle layers times the padded last weights. -/
def kerLinLast : Fin 10240 → Fin 256 → EReal :=
  affine (kerHidden row col w x W1 b1 Wmid bmid 5) (padMat 1024 256 W7) (zeroBias 256)

/-- The dense network on the padded rows: aggregate the last transform, add the last bias. -/
theorem kerFull_eq :
    kerFull row col w x W1 b1 Wmid bmid W7 b7
      = affine (adj row col w) (kerLinLast row col w x W1 b1 Wmid bmid W7) b7 := rfl

/-- The dense network keeps the first 10000 rows. -/
theorem kerNet_apply (i : Fin 10000) (c : Fin 256) :
    kerNet row col w x W1 b1 Wmid bmid W7 b7 i c
      = kerFull row col w x W1 b1 Wmid bmid W7 b7 (Fin.castLE (by norm_num : 10000 ≤ 10240) i) c := rfl

end Dense

end Cert.Spec
-- ==== Proof.KI.Result.lean ====
/-
  The dense program's result, region by region.

  Each kernel region leaves in its result array, at entry (p, q), a sum over the shared axis of products of entries of its
  first two arrays plus an entry of its bias row, rectified in the regions that end a layer. Its arrays are what earlier
  regions and the host operations between the regions left: the adjacency matrix, the previous region's result, a member of
  the padded weights, a padded bias or a zero row. Reading the fourteen regions in order gives the layers of the dense
  network, and the host operation after the last region keeps its first 10000 rows.
-/
import proofs.«181230_j19834158973077_2_alg».proof.Proof.KI.Data
import proofs.«181230_j19834158973077_2_alg».proof.Proof.KI.Carry
import proofs.«181230_j19834158973077_2_alg».proof.Proof.KI.HostBetween
import proofs.«181230_j19834158973077_2_alg».proof.Proof.KI.HostPrefix
import proofs.«181230_j19834158973077_2_alg».proof.Proof.KI.HostAdj
import proofs.«181230_j19834158973077_2_alg».proof.Proof.KI.Glue

set_option maxRecDepth 16384

noncomputable section

namespace Cert.KernelIdeal.Rg

open Cert.KernelIdeal Cert.KernelIdeal.Gen
open Idealize.ShloMosaic Idealize.ShloMosaic.TcCoe Idealize.ShloMosaic.ValueIdx Idealize.SL.Sem
open Idealize.ShloMosaic.Pipeline (Dat)
open Cert.Norm

/-! ## A region's three input arrays as functions on the extended reals -/

section Operands
variable (V : (c : Dev nD) → (b : Ref sig .tc) → Buf (Elt Ideal) ((c : Thread nD τ).loc b))
abbrev inL0 (c : Dev nD) : S10240x10240.Idx → EReal := V c (Pipeline.arrRef spec0 0)
abbrev inR0 (c : Dev nD) : S10240x128.Idx → EReal := V c (Pipeline.arrRef spec0 1)
abbrev inB0 (c : Dev nD) : S1x128.Idx → EReal := V c (Pipeline.arrRef spec0 2)
abbrev inL1 (c : Dev nD) : S10240x128.Idx → EReal := V c (Pipeline.arrRef spec1 0)
abbrev inR1 (c : Dev nD) : S128x1024.Idx → EReal := V c (Pipeline.arrRef spec1 1)
abbrev inB1 (c : Dev nD) : S1x1024.Idx → EReal := V c (Pipeline.arrRef spec1 2)
abbrev inL2 (c : Dev nD) : S10240x1024.Idx → EReal := V c (Pipeline.arrRef spec2 0)
abbrev inR2 (c : Dev nD) : S1024x1024.Idx → EReal := V c (Pipeline.arrRef spec2 1)
abbrev inB2 (c : Dev nD) : S1x1024.Idx → EReal := V c (Pipeline.arrRef spec2 2)
abbrev inL3 (c : Dev nD) : S10240x10240.Idx → EReal := V c (Pipeline.arrRef spec3 0)
abbrev inR3 (c : Dev nD) : S10240x1024.Idx → EReal := V c (Pipeline.arrRef spec3 1)
abbrev inB3 (c : Dev nD) : S1x1024.Idx → EReal := V c (Pipeline.arrRef spec3 2)
abbrev inL4 (c : Dev nD) : S10240x1024.Idx → EReal := V c (Pipeline.arrRef spec4 0)
abbrev inR4 (c : Dev nD) : S1024x1024.Idx → EReal := V c (Pipeline.arrRef spec4 1)
abbrev inB4 (c : Dev nD) : S1x1024.Idx → EReal := V c (Pipeline.arrRef spec4 2)
abbrev inL5 (c : Dev nD) : S10240x10240.Idx → EReal := V c (Pipeline.arrRef spec5 0)
abbrev inR5 (c : Dev nD) : S10240x1024.Idx → EReal := V c (Pipeline.arrRef spec5 1)
abbrev inB5 (c : Dev nD) : S1x1024.Idx → EReal := V c (Pipeline.arrRef spec5 2)
abbrev inL6 (c : Dev nD) : S10240x1024.Idx → EReal := V c (Pipeline.arrRef spec6 0)
abbrev inR6 (c : Dev nD) : S1024x1024.Idx → EReal := V c (Pipeline.arrRef spec6 1)
abbrev inB6 (c : Dev nD) : S1x1024.Idx → EReal := V c (Pipeline.arrRef spec6 2)
abbrev inL7 (c : Dev nD) : S10240x10240.Idx → EReal := V c (Pipeline.arrRef spec7 0)
abbrev inR7 (c : Dev nD) : S10240x1024.Idx → EReal := V c (Pipeline.arrRef spec7 1)
abbrev inB7 (c : Dev nD) : S1x1024.Idx → EReal := V c (Pipeline.arrRef spec7 2)
abbrev inL8 (c : Dev nD) : S10240x1024.Idx → EReal := V c (Pipeline.arrRef spec8 0)
abbrev inR8 (c : Dev nD) : S1024x1024.Idx → EReal := V c (Pipeline.arrRef spec8 1)
abbrev inB8 (c : Dev nD) : S1x1024.Idx → EReal := V c (Pipeline.arrRef spec8 2)
abbrev inL9 (c : Dev nD) : S10240x10240.Idx → EReal := V c (Pipeline.arrRef spec9 0)
abbrev inR9 (c : Dev nD) : S10240x1024.Idx → EReal := V c (Pipeline.arrRef spec9 1)
abbrev inB9 (c : Dev nD) : S1x1024.Idx → EReal := V c (Pipeline.arrRef spec9 2)
abbrev inL10 (c : Dev nD) : S10240x1024.Idx → EReal := V c (Pipeline.arrRef spec10 0)
abbrev inR10 (c : Dev nD) : S1024x1024.Idx → EReal := V c (Pipeline.arrRef spec10 1)
abbrev inB10 (c : Dev nD) : S1x1024.Idx → EReal := V c (Pipeline.arrRef spec10 2)
abbrev inL11 (c : Dev nD) : S10240x10240.Idx → EReal := V c (Pipeline.arrRef spec11 0)
abbrev inR11 (c : Dev nD) : S10240x1024.Idx → EReal := V c (Pipeline.arrRef spec11 1)
abbrev inB11 (c : Dev nD) : S1x1024.Idx → EReal := V c (Pipeline.arrRef spec11 2)
abbrev inL12 (c : Dev nD) : S10240x1024.Idx → EReal := V c (Pipeline.arrRef spec12 0)
abbrev inR12 (c : Dev nD) : S1024x256.Idx → EReal := V c (Pipeline.arrRef spec12 1)
abbrev inB12 (c : Dev nD) : S1x256.Idx → EReal := V c (Pipeline.arrRef spec12 2)
abbrev inL13 (c : Dev nD) : S10240x10240.Idx → EReal := V c (Pipeline.arrRef spec13 0)
abbrev inR13 (c : Dev nD) : S10240x256.Idx → EReal := V c (Pipeline.arrRef spec13 1)
abbrev inB13 (c : Dev nD) : S1x256.Idx → EReal := V c (Pipeline.arrRef spec13 2)
end Operands

/-! ## What each region computes, as a hypothesis -/

/-- Region 0's value: entry (p, q) of its result array when it is left is the sum over the shared axis of (first array at
    (p, k)) · (second array at (k, q)), plus the bias row's entry q. -/
abbrev ValOf0 : Prop :=
  ∀ (V : (c : Dev nD) → (b : Ref sig .tc) → Buf (Elt Ideal) ((c : Thread nD τ).loc b)) (c : Dev nD) (p : Fin 10240) (q : Fin 128),
    (dat0 (F := Ideal) V c).arrAt 3 cfg0.N (ix2 p q)
      = ((∑ k : Fin 10240, inL0 V c (ix2 p k) * inR0 V c (ix2 k q)) + inB0 V c (ix2 (0 : Fin 1) q))
/-- Region 1's value: entry (p, q) of its result array when it is left is the sum over the shared axis of (first array at
    (p, k)) · (second array at (k, q)), plus the bias row's entry q, rectified. -/
abbrev ValOf1 : Prop :=
  ∀ (V : (c : Dev nD) → (b : Ref sig .tc) → Buf (Elt Ideal) ((c : Thread nD τ).loc b)) (c : Dev nD) (p : Fin 10240) (q : Fin 1024),
    (dat1 (F := Ideal) V c).arrAt 3 cfg1.N (ix2 p q)
      = Cert.Spec.relu ((∑ k : Fin 128, inL1 V c (ix2 p k) * inR1 V c (ix2 k q)) + inB1 V c (ix2 (0 : Fin 1) q))
/-- Region 2's value: entry (p, q) of its result array when it is left is the sum over the shared axis of (first array at
    (p, k)) · (second array at (k, q)), plus the bias row's entry q. -/
abbrev ValOf2 : Prop :=
  ∀ (V : (c : Dev nD) → (b : Ref sig .tc) → Buf (Elt Ideal) ((c : Thread nD τ).loc b)) (c : Dev nD) (p : Fin 10240) (q : Fin 1024),
    (dat2 (F := Ideal) V c).arrAt 3 cfg2.N (ix2 p q)
      = ((∑ k : Fin 1024, inL2 V c (ix2 p k) * inR2 V c (ix2 k q)) + inB2 V c (ix2 (0 : Fin 1) q))
/-- Region 3's value: entry (p, q) of its result array when it is left is the sum over the shared axis of (first array at
    (p, k)) · (second array at (k, q)), plus the bias row's entry q, rectified. -/
abbrev ValOf3 : Prop :=
  ∀ (V : (c : Dev nD) → (b : Ref sig .tc) → Buf (Elt Ideal) ((c : Thread nD τ).loc b)) (c : Dev nD) (p : Fin 10240) (q : Fin 1024),
    (dat3 (F := Ideal) V c).arrAt 3 cfg3.N (ix2 p q)
      = Cert.Spec.relu ((∑ k : Fin 10240, inL3 V c (ix2 p k) * inR3 V c (ix2 k q)) + inB3 V c (ix2 (0 : Fin 1) q))
/-- Region 4's value: entry (p, q) of its result array when it is left is the sum over the shared axis of (first array at
    (p, k)) · (second array at (k, q)), plus the bias row's entry q. -/
abbrev ValOf4 : Prop :=
  ∀ (V : (c : Dev nD) → (b : Ref sig .tc) → Buf (Elt Ideal) ((c : Thread nD τ).loc b)) (c : Dev nD) (p : Fin 10240) (q : Fin 1024),
    (dat4 (F := Ideal) V c).arrAt 3 cfg4.N (ix2 p q)
      = ((∑ k : Fin 1024, inL4 V c (ix2 p k) * inR4 V c (ix2 k q)) + inB4 V c (ix2 (0 : Fin 1) q))
/-- Region 5's value: entry (p, q) of its result array when it is left is the sum over the shared axis of (first array at
    (p, k)) · (second array at (k, q)), plus the bias row's entry q, rectified. -/
abbrev ValOf5 : Prop :=
  ∀ (V : (c : Dev nD) → (b : Ref sig .tc) → Buf (Elt Ideal) ((c : Thread nD τ).loc b)) (c : Dev nD) (p : Fin 10240) (q : Fin 1024),
    (dat5 (F := Ideal) V c).arrAt 3 cfg5.N (ix2 p q)
      = Cert.Spec.relu ((∑ k : Fin 10240, inL5 V c (ix2 p k) * inR5 V c (ix2 k q)) + inB5 V c (ix2 (0 : Fin 1) q))
/-- Region 6's value: entry (p, q) of its result array when it is left is the sum over the shared axis of (first array at
    (p, k)) · (second array at (k, q)), plus the bias row's entry q. -/
abbrev ValOf6 : Prop :=
  ∀ (V : (c : Dev nD) → (b : Ref sig .tc) → Buf (Elt Ideal) ((c : Thread nD τ).loc b)) (c : Dev nD) (p : Fin 10240) (q : Fin 1024),
    (dat6 (F := Ideal) V c).arrAt 3 cfg6.N (ix2 p q)
      = ((∑ k : Fin 1024, inL6 V c (ix2 p k) * inR6 V c (ix2 k q)) + inB6 V c (ix2 (0 : Fin 1) q))
/-- Region 7's value: entry (p, q) of its result array when it is left is the sum over the shared axis of (first array at
    (p, k)) · (second array at (k, q)), plus the bias row's entry q, rectified. -/
abbrev ValOf7 : Prop :=
  ∀ (V : (c : Dev nD) → (b : Ref sig .tc) → Buf (Elt Ideal) ((c : Thread nD τ).loc b)) (c : Dev nD) (p : Fin 10240) (q : Fin 1024),
    (dat7 (F := Ideal) V c).arrAt 3 cfg7.N (ix2 p q)
      = Cert.Spec.relu ((∑ k : Fin 10240, inL7 V c (ix2 p k) * inR7 V c (ix2 k q)) + inB7 V c (ix2 (0 : Fin 1) q))
/-- Region 8's value: entry (p, q) of its result array when it is left is the sum over the shared axis of (first array at
    (p, k)) · (second array at (k, q)), plus the bias row's entry q. -/
abbrev ValOf8 : Prop :=
  ∀ (V : (c : Dev nD) → (b : Ref sig .tc) → Buf (Elt Ideal) ((c : Thread nD τ).loc b)) (c : Dev nD) (p : Fin 10240) (q : Fin 1024),
    (dat8 (F := Ideal) V c).arrAt 3 cfg8.N (ix2 p q)
      = ((∑ k : Fin 1024, inL8 V c (ix2 p k) * inR8 V c (ix2 k q)) + inB8 V c (ix2 (0 : Fin 1) q))
/-- Region 9's value: entry (p, q) of its result array when it is left is the sum over the shared axis of (first array at
    (p, k)) · (second array at (k, q)), plus the bias row's entry q, rectified. -/
abbrev ValOf9 : Prop :=
  ∀ (V : (c : Dev nD) → (b : Ref sig .tc) → Buf (Elt Ideal) ((c : Thread nD τ).loc b)) (c : Dev nD) (p : Fin 10240) (q : Fin 1024),
    (dat9 (F := Ideal) V c).arrAt 3 cfg9.N (ix2 p q)
      = Cert.Spec.relu ((∑ k : Fin 10240, inL9 V c (ix2 p k) * inR9 V c (ix2 k q)) + inB9 V c (ix2 (0 : Fin 1) q))
/-- Region 10's value: entry (p, q) of its result array when it is left is the sum over the shared axis of (first array at
    (p, k)) · (second array at (k, q)), plus the bias row's entry q. -/
abbrev ValOf10 : Prop :=
  ∀ (V : (c : Dev nD) → (b : Ref sig .tc) → Buf (Elt Ideal) ((c : Thread nD τ).loc b)) (c : Dev nD) (p : Fin 10240) (q : Fin 1024),
    (dat10 (F := Ideal) V c).arrAt 3 cfg10.N (ix2 p q)
      = ((∑ k : Fin 1024, inL10 V c (ix2 p k) * inR10 V c (ix2 k q)) + inB10 V c (ix2 (0 : Fin 1) q))
/-- Region 11's value: entry (p, q) of its result array when it is left is the sum over the shared axis of (first array at
    (p, k)) · (second array at (k, q)), plus the bias row's entry q, rectified. -/
abbrev ValOf11 : Prop :=
  ∀ (V : (c : Dev nD) → (b : Ref sig .tc) → Buf (Elt Ideal) ((c : Thread nD τ).loc b)) (c : Dev nD) (p : Fin 10240) (q : Fin 1024),
    (dat11 (F := Ideal) V c).arrAt 3 cfg11.N (ix2 p q)
      = Cert.Spec.relu ((∑ k : Fin 10240, inL11 V c (ix2 p k) * inR11 V c (ix2 k q)) + inB11 V c (ix2 (0 : Fin 1) q))
/-- Region 12's value: entry (p, q) of its result array when it is left is the sum over the shared axis of (first array at
    (p, k)) · (second array at (k, q)), plus the bias row's entry q. -/
abbrev ValOf12 : Prop :=
  ∀ (V : (c : Dev nD) → (b : Ref sig .tc) → Buf (Elt Ideal) ((c : Thread nD τ).loc b)) (c : Dev nD) (p : Fin 10240) (q : Fin 256),
    (dat12 (F := Ideal) V c).arrAt 3 cfg12.N (ix2 p q)
      = ((∑ k : Fin 1024, inL12 V c (ix2 p k) * inR12 V c (ix2 k q)) + inB12 V c (ix2 (0 : Fin 1) q))
/-- Region 13's value: entry (p, q) of its result array when it is left is the sum over the shared axis of (first array at
    (p, k)) · (second array at (k, q)), plus the bias row's entry q. -/
abbrev ValOf13 : Prop :=
  ∀ (V : (c : Dev nD) → (b : Ref sig .tc) → Buf (Elt Ideal) ((c : Thread nD τ).loc b)) (c : Dev nD) (p : Fin 10240) (q : Fin 256),
    (dat13 (F := Ideal) V c).arrAt 3 cfg13.N (ix2 p q)
      = ((∑ k : Fin 10240, inL13 V c (ix2 p k) * inR13 V c (ix2 k q)) + inB13 V c (ix2 (0 : Fin 1) q))

/-- The fourteen regions' values. -/
structure RegionValues : Prop where
  val0 : ValOf0
  val1 : ValOf1
  val2 : ValOf2
  val3 : ValOf3
  val4 : ValOf4
  val5 : ValOf5
  val6 : ValOf6
  val7 : ValOf7
  val8 : ValOf8
  val9 : ValOf9
  val10 : ValOf10
  val11 : ValOf11
  val12 : ValOf12
  val13 : ValOf13

variable (m : (ℓ : Loc nD τ sig) → Buf (Elt Ideal) ℓ)

/-! ## The network's data, read off the program's arguments -/

/-- The sources, the targets and the weights of the graph's 170000 entries. -/
abbrev rowsOf (c : Dev nD) : Fin 170000 → Fin 10000 := rowOf (edgeIndex m c)
abbrev colsOf (c : Dev nD) : Fin 170000 → Fin 10000 := colOf (edgeIndex m c)
abbrev wtsOf (c : Dev nD) : Fin 170000 → EReal := weightOf (edgeIndex m c) (edgeWeight m c)
/-- The node features, the three groups of weights and their biases. -/
abbrev featOf (c : Dev nD) : Fin 10000 → Fin 128 → EReal := fun a b => (V0 m c main_arg0 : S10000x128.Idx → EReal) (ix2 a b)
abbrev w1Of (c : Dev nD) : Fin 128 → Fin 1000 → EReal := fun a b => (V0 m c main_arg3 : S128x1000.Idx → EReal) (ix2 a b)
abbrev b1Of (c : Dev nD) : Fin 1000 → EReal := fun a => (V0 m c main_arg4 : S1000.Idx → EReal) (ix1 a)
abbrev wmidOf (c : Dev nD) : Fin 5 → Fin 1000 → Fin 1000 → EReal :=
  fun l a b => (V0 m c main_arg5 : S5x1000x1000.Idx → EReal) (ix3 l a b)
abbrev bmidOf (c : Dev nD) : Fin 5 → Fin 1000 → EReal := fun l a => (V0 m c main_arg6 : S5x1000.Idx → EReal) (ix2 l a)
abbrev w7Of (c : Dev nD) : Fin 1000 → Fin 256 → EReal := fun a b => (V0 m c main_arg7 : S1000x256.Idx → EReal) (ix2 a b)
abbrev b7Of (c : Dev nD) : Fin 256 → EReal := fun a => (V0 m c main_arg8 : S256.Idx → EReal) (ix1 a)

/-- No host operation before region 0 writes the last bias: it is still the argument. -/
theorem V15_lastBias (c : Dev nD) : V15 m c main_arg8 = V0 m c main_arg8 := by
  rw [V15_of m c main_arg8 (by decide),
    V14_of m c main_arg8 (by decide),
    V13_of m c main_arg8 (by decide),
    V12_of m c main_arg8 (by decide),
    V11_of m c main_arg8 (by decide),
    V10_of m c main_arg8 (by decide),
    V9_of m c main_arg8 (by decide),
    V8_of m c main_arg8 (by decide),
    V7_of m c main_arg8 (by decide),
    V6_of m c main_arg8 (by decide),
    V5_of m c main_arg8 (by decide),
    V4_of m c main_arg8 (by decide),
    V3_of m c main_arg8 (by decide),
    V2_of m c main_arg8 (by decide),
    V1_of m c main_arg8 (by decide)]

/-! ## The adjacency matrix where each aggregation region finds it -/

theorem adj_at21 (c : Dev nD) (hin : InRange (edgeIndex m c)) (i j : Fin 10240) :
    (W21 m c main_v47 : S10240x10240.Idx → EReal) (ix2 i j) = Cert.Spec.adj (rowsOf m c) (colsOf m c) (wtsOf m c) i j := by
  rw [carry_v47_15_21 m c]; exact V15_adjacency_apply m c hin i j
theorem adj_at25 (c : Dev nD) (hin : InRange (edgeIndex m c)) (i j : Fin 10240) :
    (W25 m c main_v47 : S10240x10240.Idx → EReal) (ix2 i j) = Cert.Spec.adj (rowsOf m c) (colsOf m c) (wtsOf m c) i j := by
  rw [carry_v47_15_25 m c]; exact V15_adjacency_apply m c hin i j
theorem adj_at29 (c : Dev nD) (hin : InRange (edgeIndex m c)) (i j : Fin 10240) :
    (W29 m c main_v47 : S10240x10240.Idx → EReal) (ix2 i j) = Cert.Spec.adj (rowsOf m c) (colsOf m c) (wtsOf m c) i j := by
  rw [carry_v47_15_29 m c]; exact V15_adjacency_apply m c hin i j
theorem adj_at33 (c : Dev nD) (hin : InRange (edgeIndex m c)) (i j : Fin 10240) :
    (W33 m c main_v47 : S10240x10240.Idx → EReal) (ix2 i j) = Cert.Spec.adj (rowsOf m c) (colsOf m c) (wtsOf m c) i j := by
  rw [carry_v47_15_33 m c]; exact V15_adjacency_apply m c hin i j
theorem adj_at37 (c : Dev nD) (hin : InRange (edgeIndex m c)) (i j : Fin 10240) :
    (W37 m c main_v47 : S10240x10240.Idx → EReal) (ix2 i j) = Cert.Spec.adj (rowsOf m c) (colsOf m c) (wtsOf m c) i j := by
  rw [carry_v47_15_37 m c]; exact V15_adjacency_apply m c hin i j
theorem adj_at41 (c : Dev nD) (hin : InRange (edgeIndex m c)) (i j : Fin 10240) :
    (W41 m c main_v47 : S10240x10240.Idx → EReal) (ix2 i j) = Cert.Spec.adj (rowsOf m c) (colsOf m c) (wtsOf m c) i j := by
  rw [carry_v47_15_41 m c]; exact V15_adjacency_apply m c hin i j

/-! ## The regions in order -/

/-- Region 0: the adjacency matrix times the padded features; its bias row is zero. -/
theorem res0_eq (H : RegionValues) (c : Dev nD) (hin : InRange (edgeIndex m c)) (p : Fin 10240) (q : Fin 128) :
    (res0 m c : S10240x128.Idx → EReal) (ix2 p q) = Cert.Spec.kerAgg0 (rowsOf m c) (colsOf m c) (wtsOf m c) (featOf m c) p q := by
  unfold res0
  refine (H.val0 (B15 m) c p q).trans ?_
  exact Cert.Spec.affine_of_entries (Cert.Spec.adj (rowsOf m c) (colsOf m c) (wtsOf m c)) (Cert.Spec.padMat 10240 128 (featOf m c)) (Cert.Spec.zeroBias 128) p q _ _ _
    (fun k => V15_adjacency_apply m c hin p k)
    (fun k => V15_features_apply m c k q)
    (V15_zeroRow_apply m c 0 q)

/-- Region 1: region 0's result times the padded first weights, plus the padded first bias, rectified: the hidden
    features after the first layer. -/
theorem res1_eq (H : RegionValues) (c : Dev nD) (hin : InRange (edgeIndex m c)) (p : Fin 10240) (q : Fin 1024) :
    (res1 m c : S10240x1024.Idx → EReal) (ix2 p q) = Cert.Spec.kerHidden (rowsOf m c) (colsOf m c) (wtsOf m c) (featOf m c) (w1Of m c) (b1Of m c) (wmidOf m c) (bmidOf m c) 0 p q := by
  unfold res1
  refine (H.val1 (B17 m) c p q).trans ?_
  refine Eq.trans ?_ (congrFun (congrFun (Cert.Spec.kerHidden_zero_eq (rowsOf m c) (colsOf m c) (wtsOf m c) (featOf m c) (w1Of m c) (b1Of m c) (wmidOf m c) (bmidOf m c)).symm p) q)
  exact Cert.Spec.relu_affine_of_entries (Cert.Spec.kerAgg0 (rowsOf m c) (colsOf m c) (wtsOf m c) (featOf m c)) (Cert.Spec.padMat 128 1024 (w1Of m c)) (Cert.Spec.padVec 1024 (b1Of m c)) p q _ _ _
    (fun k => by
      show (W17 m c main_v60 : S10240x128.Idx → EReal) (ix2 p k) = _
      rw [carry_v60_16_17 m c, W16_out m c]; exact res0_eq m H c hin p k)
    (fun k => by
      show (W17 m c main_v51 : S128x1024.Idx → EReal) (ix2 k q) = _
      rw [carry_v51_15_17 m c]; exact V15_firstWeights_apply m c k q)
    (by
      show (W17 m c main_v61 : S1x1024.Idx → EReal) (ix2 (0 : Fin 1) q) = _
      refine (hostOps1_v61 (W16 m c) 0 q).trans ?_
      show (W16 m c main_v52 : S1024.Idx → EReal) (ix1 q) = _
      rw [carry_v52_15_16 m c]; exact V15_firstBias_apply m c q)

/-- Region 2: the hidden features after 0 middle layers times member 0 of the padded middle weights; its bias row is zero. -/
theorem res2_eq (H : RegionValues) (c : Dev nD) (hin : InRange (edgeIndex m c)) (p : Fin 10240) (q : Fin 1024) :
    (res2 m c : S10240x1024.Idx → EReal) (ix2 p q) = Cert.Spec.kerLin (rowsOf m c) (colsOf m c) (wtsOf m c) (featOf m c) (w1Of m c) (b1Of m c) (wmidOf m c) (bmidOf m c) (0 : Fin 5) p q := by
  unfold res2
  refine (H.val2 (B19 m) c p q).trans ?_
  refine Eq.trans ?_ (congrFun (congrFun (Cert.Spec.kerLin_at (rowsOf m c) (colsOf m c) (wtsOf m c) (featOf m c) (w1Of m c) (b1Of m c) (wmidOf m c) (bmidOf m c) (0 : Fin 5) 0 rfl).symm p) q)
  exact Cert.Spec.affine_of_entries (Cert.Spec.kerHidden (rowsOf m c) (colsOf m c) (wtsOf m c) (featOf m c) (w1Of m c) (b1Of m c) (wmidOf m c) (bmidOf m c) 0) (Cert.Spec.padMat 1024 1024 (wmidOf m c (0 : Fin 5))) (Cert.Spec.zeroBias 1024) p q _ _ _
    (fun k => by
      show (W19 m c main_v62 : S10240x1024.Idx → EReal) (ix2 p k) = _
      rw [carry_v62_18_19 m c, W18_out m c]; exact res1_eq m H c hin p k)
    (fun k => by
      show (W19 m c main_v64 : S1024x1024.Idx → EReal) (ix2 k q) = _
      refine (hostOps2_v64 (W18 m c) k q).trans ?_
      show (W18 m c main_v54 : S5x1024x1024.Idx → EReal) (ix3 (0 : Fin 5) k q) = _
      rw [carry_v54_15_18 m c]; exact V15_midWeights_apply m c (0 : Fin 5) k q)
    (by
      show (W19 m c main_v68 : S1x1024.Idx → EReal) (ix2 (0 : Fin 1) q) = _
      exact hostOps2_v68 (W18 m c) 0 q)

/-- Region 3: the adjacency matrix times region 2's result, plus member 0 of the padded middle biases, rectified: the
    hidden features after 1 middle layer. -/
theorem res3_eq (H : RegionValues) (c : Dev nD) (hin : InRange (edgeIndex m c)) (p : Fin 10240) (q : Fin 1024) :
    (res3 m c : S10240x1024.Idx → EReal) (ix2 p q) = Cert.Spec.kerHidden (rowsOf m c) (colsOf m c) (wtsOf m c) (featOf m c) (w1Of m c) (b1Of m c) (wmidOf m c) (bmidOf m c) 1 p q := by
  unfold res3
  refine (H.val3 (B21 m) c p q).trans ?_
  refine Eq.trans ?_ (congrFun (congrFun (Cert.Spec.kerHidden_succ_at (rowsOf m c) (colsOf m c) (wtsOf m c) (featOf m c) (w1Of m c) (b1Of m c) (wmidOf m c) (bmidOf m c) (0 : Fin 5) 1 rfl).symm p) q)
  exact Cert.Spec.relu_affine_of_entries (Cert.Spec.adj (rowsOf m c) (colsOf m c) (wtsOf m c)) (Cert.Spec.kerLin (rowsOf m c) (colsOf m c) (wtsOf m c) (featOf m c) (w1Of m c) (b1Of m c) (wmidOf m c) (bmidOf m c) (0 : Fin 5)) (Cert.Spec.padVec 1024 (bmidOf m c (0 : Fin 5))) p q _ _ _
    (fun k => adj_at21 m c hin p k)
    (fun k => by
      show (W21 m c main_v69 : S10240x1024.Idx → EReal) (ix2 k q) = _
      rw [carry_v69_20_21 m c, W20_out m c]; exact res2_eq m H c hin k q)
    (by
      show (W21 m c main_v70 : S1x1024.Idx → EReal) (ix2 (0 : Fin 1) q) = _
      refine (hostOps3_v70 (W20 m c) 0 q).trans ?_
      show (W20 m c main_v66 : S1024.Idx → EReal) (ix1 q) = _
      rw [carry_v66_19_20 m c]
      refine (hostOps2_v66 (W18 m c) q).trans ?_
      show (W18 m c main_v55 : S5x1024.Idx → EReal) (ix2 (0 : Fin 5) q) = _
      rw [carry_v55_15_18 m c]; exact V15_midBiases_apply m c (0 : Fin 5) q)

/-- Region 4: the hidden features after 1 middle layer times member 1 of the padded middle weights; its bias row is zero. -/
theorem res4_eq (H : RegionValues) (c : Dev nD) (hin : InRange (edgeIndex m c)) (p : Fin 10240) (q : Fin 1024) :
    (res4 m c : S10240x1024.Idx → EReal) (ix2 p q) = Cert.Spec.kerLin (rowsOf m c) (colsOf m c) (wtsOf m c) (featOf m c) (w1Of m c) (b1Of m c) (wmidOf m c) (bmidOf m c) (1 : Fin 5) p q := by
  unfold res4
  refine (H.val4 (B23 m) c p q).trans ?_
  refine Eq.trans ?_ (congrFun (congrFun (Cert.Spec.kerLin_at (rowsOf m c) (colsOf m c) (wtsOf m c) (featOf m c) (w1Of m c) (b1Of m c) (wmidOf m c) (bmidOf m c) (1 : Fin 5) 1 rfl).symm p) q)
  exact Cert.Spec.affine_of_entries (Cert.Spec.kerHidden (rowsOf m c) (colsOf m c) (wtsOf m c) (featOf m c) (w1Of m c) (b1Of m c) (wmidOf m c) (bmidOf m c) 1) (Cert.Spec.padMat 1024 1024 (wmidOf m c (1 : Fin 5))) (Cert.Spec.zeroBias 1024) p q _ _ _
    (fun k => by
      show (W23 m c main_v71 : S10240x1024.Idx → EReal) (ix2 p k) = _
      rw [carry_v71_22_23 m c, W22_out m c]; exact res3_eq m H c hin p k)
    (fun k => by
      show (W23 m c main_v73 : S1024x1024.Idx → EReal) (ix2 k q) = _
      refine (hostOps4_v73 (W22 m c) k q).trans ?_
      show (W22 m c main_v54 : S5x1024x1024.Idx → EReal) (ix3 (1 : Fin 5) k q) = _
      rw [carry_v54_15_22 m c]; exact V15_midWeights_apply m c (1 : Fin 5) k q)
    (by
      show (W23 m c main_v77 : S1x1024.Idx → EReal) (ix2 (0 : Fin 1) q) = _
      exact hostOps4_v77 (W22 m c) 0 q)

/-- Region 5: the adjacency matrix times region 4's result, plus member 1 of the padded middle biases, rectified: the
    hidden features after 2 middle layers. -/
theorem res5_eq (H : RegionValues) (c : Dev nD) (hin : InRange (edgeIndex m c)) (p : Fin 10240) (q : Fin 1024) :
    (res5 m c : S10240x1024.Idx → EReal) (ix2 p q) = Cert.Spec.kerHidden (rowsOf m c) (colsOf m c) (wtsOf m c) (featOf m c) (w1Of m c) (b1Of m c) (wmidOf m c) (bmidOf m c) 2 p q := by
  unfold res5
  refine (H.val5 (B25 m) c p q).trans ?_
  refine Eq.trans ?_ (congrFun (congrFun (Cert.Spec.kerHidden_succ_at (rowsOf m c) (colsOf m c) (wtsOf m c) (featOf m c) (w1Of m c) (b1Of m c) (wmidOf m c) (bmidOf m c) (1 : Fin 5) 2 rfl).symm p) q)
  exact Cert.Spec.relu_affine_of_entries (Cert.Spec.adj (rowsOf m c) (colsOf m c) (wtsOf m c)) (Cert.Spec.kerLin (rowsOf m c) (colsOf m c) (wtsOf m c) (featOf m c) (w1Of m c) (b1Of m c) (wmidOf m c) (bmidOf m c) (1 : Fin 5)) (Cert.Spec.padVec 1024 (bmidOf m c (1 : Fin 5))) p q _ _ _
    (fun k => adj_at25 m c hin p k)
    (fun k => by
      show (W25 m c main_v78 : S10240x1024.Idx → EReal) (ix2 k q) = _
      rw [carry_v78_24_25 m c, W24_out m c]; exact res4_eq m H c hin k q)
    (by
      show (W25 m c main_v79 : S1x1024.Idx → EReal) (ix2 (0 : Fin 1) q) = _
      refine (hostOps5_v79 (W24 m c) 0 q).trans ?_
      show (W24 m c main_v75 : S1024.Idx → EReal) (ix1 q) = _
      rw [carry_v75_23_24 m c]
      refine (hostOps4_v75 (W22 m c) q).trans ?_
      show (W22 m c main_v55 : S5x1024.Idx → EReal) (ix2 (1 : Fin 5) q) = _
      rw [carry_v55_15_22 m c]; exact V15_midBiases_apply m c (1 : Fin 5) q)

/-- Region 6: the hidden features after 2 middle layers times member 2 of the padded middle weights; its bias row is zero. -/
theorem res6_eq (H : RegionValues) (c : Dev nD) (hin : InRange (edgeIndex m c)) (p : Fin 10240) (q : Fin 1024) :
    (res6 m c : S10240x1024.Idx → EReal) (ix2 p q) = Cert.Spec.kerLin (rowsOf m c) (colsOf m c) (wtsOf m c) (featOf m c) (w1Of m c) (b1Of m c) (wmidOf m c) (bmidOf m c) (2 : Fin 5) p q := by
  unfold res6
  refine (H.val6 (B27 m) c p q).trans ?_
  refine Eq.trans ?_ (congrFun (congrFun (Cert.Spec.kerLin_at (rowsOf m c) (colsOf m c) (wtsOf m c) (featOf m c) (w1Of m c) (b1Of m c) (wmidOf m c) (bmidOf m c) (2 : Fin 5) 2 rfl).symm p) q)
  exact Cert.Spec.affine_of_entries (Cert.Spec.kerHidden (rowsOf m c) (colsOf m c) (wtsOf m c) (featOf m c) (w1Of m c) (b1Of m c) (wmidOf m c) (bmidOf m c) 2) (Cert.Spec.padMat 1024 1024 (wmidOf m c (2 : Fin 5))) (Cert.Spec.zeroBias 1024) p q _ _ _
    (fun k => by
      show (W27 m c main_v80 : S10240x1024.Idx → EReal) (ix2 p k) = _
      rw [carry_v80_26_27 m c, W26_out m c]; exact res5_eq m H c hin p k)
    (fun k => by
      show (W27 m c main_v82 : S1024x1024.Idx → EReal) (ix2 k q) = _
      refine (hostOps6_v82 (W26 m c) k q).trans ?_
      show (W26 m c main_v54 : S5x1024x1024.Idx → EReal) (ix3 (2 : Fin 5) k q) = _
      rw [carry_v54_15_26 m c]; exact V15_midWeights_apply m c (2 : Fin 5) k q)
    (by
      show (W27 m c main_v86 : S1x1024.Idx → EReal) (ix2 (0 : Fin 1) q) = _
      exact hostOps6_v86 (W26 m c) 0 q)

/-- Region 7: the adjacency matrix times region 6's result, plus member 2 of the padded middle biases, rectified: the
    hidden features after 3 middle layers. -/
theorem res7_eq (H : RegionValues) (c : Dev nD) (hin : InRange (edgeIndex m c)) (p : Fin 10240) (q : Fin 1024) :
    (res7 m c : S10240x1024.Idx → EReal) (ix2 p q) = Cert.Spec.kerHidden (rowsOf m c) (colsOf m c) (wtsOf m c) (featOf m c) (w1Of m c) (b1Of m c) (wmidOf m c) (bmidOf m c) 3 p q := by
  unfold res7
  refine (H.val7 (B29 m) c p q).trans ?_
  refine Eq.trans ?_ (congrFun (congrFun (Cert.Spec.kerHidden_succ_at (rowsOf m c) (colsOf m c) (wtsOf m c) (featOf m c) (w1Of m c) (b1Of m c) (wmidOf m c) (bmidOf m c) (2 : Fin 5) 3 rfl).symm p) q)
  exact Cert.Spec.relu_affine_of_entries (Cert.Spec.adj (rowsOf m c) (colsOf m c) (wtsOf m c)) (Cert.Spec.kerLin (rowsOf m c) (colsOf m c) (wtsOf m c) (featOf m c) (w1Of m c) (b1Of m c) (wmidOf m c) (bmidOf m c) (2 : Fin 5)) (Cert.Spec.padVec 1024 (bmidOf m c (2 : Fin 5))) p q _ _ _
    (fun k => adj_at29 m c hin p k)
    (fun k => by
      show (W29 m c main_v87 : S10240x1024.Idx → EReal) (ix2 k q) = _
      rw [carry_v87_28_29 m c, W28_out m c]; exact res6_eq m H c hin k q)
    (by
      show (W29 m c main_v88 : S1x1024.Idx → EReal) (ix2 (0 : Fin 1) q) = _
      refine (hostOps7_v88 (W28 m c) 0 q).trans ?_
      show (W28 m c main_v84 : S1024.Idx → EReal) (ix1 q) = _
      rw [carry_v84_27_28 m c]
      refine (hostOps6_v84 (W26 m c) q).trans ?_
      show (W26 m c main_v55 : S5x1024.Idx → EReal) (ix2 (2 : Fin 5) q) = _
      rw [carry_v55_15_26 m c]; exact V15_midBiases_apply m c (2 : Fin 5) q)

/-- Region 8: the hidden features after 3 middle layers times member 3 of the padded middle weights; its bias row is zero. -/
theorem res8_eq (H : RegionValues) (c : Dev nD) (hin : InRange (edgeIndex m c)) (p : Fin 10240) (q : Fin 1024) :
    (res8 m c : S10240x1024.Idx → EReal) (ix2 p q) = Cert.Spec.kerLin (rowsOf m c) (colsOf m c) (wtsOf m c) (featOf m c) (w1Of m c) (b1Of m c) (wmidOf m c) (bmidOf m c) (3 : Fin 5) p q := by
  unfold res8
  refine (H.val8 (B31 m) c p q).trans ?_
  refine Eq.trans ?_ (congrFun (congrFun (Cert.Spec.kerLin_at (rowsOf m c) (colsOf m c) (wtsOf m c) (featOf m c) (w1Of m c) (b1Of m c) (wmidOf m c) (bmidOf m c) (3 : Fin 5) 3 rfl).symm p) q)
  exact Cert.Spec.affine_of_entries (Cert.Spec.kerHidden (rowsOf m c) (colsOf m c) (wtsOf m c) (featOf m c) (w1Of m c) (b1Of m c) (wmidOf m c) (bmidOf m c) 3) (Cert.Spec.padMat 1024 1024 (wmidOf m c (3 : Fin 5))) (Cert.Spec.zeroBias 1024) p q _ _ _
    (fun k => by
      show (W31 m c main_v89 : S10240x1024.Idx → EReal) (ix2 p k) = _
      rw [carry_v89_30_31 m c, W30_out m c]; exact res7_eq m H c hin p k)
    (fun k => by
      show (W31 m c main_v91 : S1024x1024.Idx → EReal) (ix2 k q) = _
      refine (hostOps8_v91 (W30 m c) k q).trans ?_
      show (W30 m c main_v54 : S5x1024x1024.Idx → EReal) (ix3 (3 : Fin 5) k q) = _
      rw [carry_v54_15_30 m c]; exact V15_midWeights_apply m c (3 : Fin 5) k q)
    (by
      show (W31 m c main_v95 : S1x1024.Idx → EReal) (ix2 (0 : Fin 1) q) = _
      exact hostOps8_v95 (W30 m c) 0 q)

/-- Region 9: the adjacency matrix times region 8's result, plus member 3 of the padded middle biases, rectified: the
    hidden features after 4 middle layers. -/
theorem res9_eq (H : RegionValues) (c : Dev nD) (hin : InRange (edgeIndex m c)) (p : Fin 10240) (q : Fin 1024) :
    (res9 m c : S10240x1024.Idx → EReal) (ix2 p q) = Cert.Spec.kerHidden (rowsOf m c) (colsOf m c) (wtsOf m c) (featOf m c) (w1Of m c) (b1Of m c) (wmidOf m c) (bmidOf m c) 4 p q := by
  unfold res9
  refine (H.val9 (B33 m) c p q).trans ?_
  refine Eq.trans ?_ (congrFun (congrFun (Cert.Spec.kerHidden_succ_at (rowsOf m c) (colsOf m c) (wtsOf m c) (featOf m c) (w1Of m c) (b1Of m c) (wmidOf m c) (bmidOf m c) (3 : Fin 5) 4 rfl).symm p) q)
  exact Cert.Spec.relu_affine_of_entries (Cert.Spec.adj (rowsOf m c) (colsOf m c) (wtsOf m c)) (Cert.Spec.kerLin (rowsOf m c) (colsOf m c) (wtsOf m c) (featOf m c) (w1Of m c) (b1Of m c) (wmidOf m c) (bmidOf m c) (3 : Fin 5)) (Cert.Spec.padVec 1024 (bmidOf m c (3 : Fin 5))) p q _ _ _
    (fun k => adj_at33 m c hin p k)
    (fun k => by
      show (W33 m c main_v96 : S10240x1024.Idx → EReal) (ix2 k q) = _
      rw [carry_v96_32_33 m c, W32_out m c]; exact res8_eq m H c hin k q)
    (by
      show (W33 m c main_v97 : S1x1024.Idx → EReal) (ix2 (0 : Fin 1) q) = _
      refine (hostOps9_v97 (W32 m c) 0 q).trans ?_
      show (W32 m c main_v93 : S1024.Idx → EReal) (ix1 q) = _
      rw [carry_v93_31_32 m c]
      refine (hostOps8_v93 (W30 m c) q).trans ?_
      show (W30 m c main_v55 : S5x1024.Idx → EReal) (ix2 (3 : Fin 5) q) = _
      rw [carry_v55_15_30 m c]; exact V15_midBiases_apply m c (3 : Fin 5) q)

/-- Region 10: the hidden features after 4 middle layers times member 4 of the padded middle weights; its bias row is zero. -/
theorem res10_eq (H : RegionValues) (c : Dev nD) (hin : InRange (edgeIndex m c)) (p : Fin 10240) (q : Fin 1024) :
    (res10 m c : S10240x1024.Idx → EReal) (ix2 p q) = Cert.Spec.kerLin (rowsOf m c) (colsOf m c) (wtsOf m c) (featOf m c) (w1Of m c) (b1Of m c) (wmidOf m c) (bmidOf m c) (4 : Fin 5) p q := by
  unfold res10
  refine (H.val10 (B35 m) c p q).trans ?_
  refine Eq.trans ?_ (congrFun (congrFun (Cert.Spec.kerLin_at (rowsOf m c) (colsOf m c) (wtsOf m c) (featOf m c) (w1Of m c) (b1Of m c) (wmidOf m c) (bmidOf m c) (4 : Fin 5) 4 rfl).symm p) q)
  exact Cert.Spec.affine_of_entries (Cert.Spec.kerHidden (rowsOf m c) (colsOf m c) (wtsOf m c) (featOf m c) (w1Of m c) (b1Of m c) (wmidOf m c) (bmidOf m c) 4) (Cert.Spec.padMat 1024 1024 (wmidOf m c (4 : Fin 5))) (Cert.Spec.zeroBias 1024) p q _ _ _
    (fun k => by
      show (W35 m c main_v98 : S10240x1024.Idx → EReal) (ix2 p k) = _
      rw [carry_v98_34_35 m c, W34_out m c]; exact res9_eq m H c hin p k)
    (fun k => by
      show (W35 m c main_v100 : S1024x1024.Idx → EReal) (ix2 k q) = _
      refine (hostOps10_v100 (W34 m c) k q).trans ?_
      show (W34 m c main_v54 : S5x1024x1024.Idx → EReal) (ix3 (4 : Fin 5) k q) = _
      rw [carry_v54_15_34 m c]; exact V15_midWeights_apply m c (4 : Fin 5) k q)
    (by
      show (W35 m c main_v104 : S1x1024.Idx → EReal) (ix2 (0 : Fin 1) q) = _
      exact hostOps10_v104 (W34 m c) 0 q)

/-- Region 11: the adjacency matrix times region 10's result, plus member 4 of the padded middle biases, rectified: the
    hidden features after 5 middle layers. -/
theorem res11_eq (H : RegionValues) (c : Dev nD) (hin : InRange (edgeIndex m c)) (p : Fin 10240) (q : Fin 1024) :
    (res11 m c : S10240x1024.Idx → EReal) (ix2 p q) = Cert.Spec.kerHidden (rowsOf m c) (colsOf m c) (wtsOf m c) (featOf m c) (w1Of m c) (b1Of m c) (wmidOf m c) (bmidOf m c) 5 p q := by
  unfold res11
  refine (H.val11 (B37 m) c p q).trans ?_
  refine Eq.trans ?_ (congrFun (congrFun (Cert.Spec.kerHidden_succ_at (rowsOf m c) (colsOf m c) (wtsOf m c) (featOf m c) (w1Of m c) (b1Of m c) (wmidOf m c) (bmidOf m c) (4 : Fin 5) 5 rfl).symm p) q)
  exact Cert.Spec.relu_affine_of_entries (Cert.Spec.adj (rowsOf m c) (colsOf m c) (wtsOf m c)) (Cert.Spec.kerLin (rowsOf m c) (colsOf m c) (wtsOf m c) (featOf m c) (w1Of m c) (b1Of m c) (wmidOf m c) (bmidOf m c) (4 : Fin 5)) (Cert.Spec.padVec 1024 (bmidOf m c (4 : Fin 5))) p q _ _ _
    (fun k => adj_at37 m c hin p k)
    (fun k => by
      show (W37 m c main_v105 : S10240x1024.Idx → EReal) (ix2 k q) = _
      rw [carry_v105_36_37 m c, W36_out m c]; exact res10_eq m H c hin k q)
    (by
      show (W37 m c main_v106 : S1x1024.Idx → EReal) (ix2 (0 : Fin 1) q) = _
      refine (hostOps11_v106 (W36 m c) 0 q).trans ?_
      show (W36 m c main_v102 : S1024.Idx → EReal) (ix1 q) = _
      rw [carry_v102_35_36 m c]
      refine (hostOps10_v102 (W34 m c) q).trans ?_
      show (W34 m c main_v55 : S5x1024.Idx → EReal) (ix2 (4 : Fin 5) q) = _
      rw [carry_v55_15_34 m c]; exact V15_midBiases_apply m c (4 : Fin 5) q)

/-- Region 12: the hidden features after the five middle layers times the padded last weights; its bias row is zero. -/
theorem res12_eq (H : RegionValues) (c : Dev nD) (hin : InRange (edgeIndex m c)) (p : Fin 10240) (q : Fin 256) :
    (res12 m c : S10240x256.Idx → EReal) (ix2 p q) = Cert.Spec.kerLinLast (rowsOf m c) (colsOf m c) (wtsOf m c) (featOf m c) (w1Of m c) (b1Of m c) (wmidOf m c) (bmidOf m c) (w7Of m c) p q := by
  unfold res12
  refine (H.val12 (B39 m) c p q).trans ?_
  exact Cert.Spec.affine_of_entries (Cert.Spec.kerHidden (rowsOf m c) (colsOf m c) (wtsOf m c) (featOf m c) (w1Of m c) (b1Of m c) (wmidOf m c) (bmidOf m c) 5) (Cert.Spec.padMat 1024 256 (w7Of m c)) (Cert.Spec.zeroBias 256) p q _ _ _
    (fun k => by
      show (W39 m c main_v107 : S10240x1024.Idx → EReal) (ix2 p k) = _
      rw [carry_v107_38_39 m c, W38_out m c]; exact res11_eq m H c hin p k)
    (fun k => by
      show (W39 m c main_v57 : S1024x256.Idx → EReal) (ix2 k q) = _
      rw [carry_v57_15_39 m c]; exact V15_lastWeights_apply m c k q)
    (by
      show (W39 m c main_v109 : S1x256.Idx → EReal) (ix2 (0 : Fin 1) q) = _
      exact hostOps12_v109 (W38 m c) 0 q)

/-- Region 13: the adjacency matrix times region 12's result, plus the last bias: the dense network on the padded rows. -/
theorem res13_eq (H : RegionValues) (c : Dev nD) (hin : InRange (edgeIndex m c)) (p : Fin 10240) (q : Fin 256) :
    (res13 m c : S10240x256.Idx → EReal) (ix2 p q) = Cert.Spec.kerFull (rowsOf m c) (colsOf m c) (wtsOf m c) (featOf m c) (w1Of m c) (b1Of m c) (wmidOf m c) (bmidOf m c) (w7Of m c) (b7Of m c) p q := by
  unfold res13
  refine (H.val13 (B41 m) c p q).trans ?_
  refine Eq.trans ?_ (congrFun (congrFun (Cert.Spec.kerFull_eq (rowsOf m c) (colsOf m c) (wtsOf m c) (featOf m c) (w1Of m c) (b1Of m c) (wmidOf m c) (bmidOf m c) (w7Of m c) (b7Of m c)).symm p) q)
  exact Cert.Spec.affine_of_entries (Cert.Spec.adj (rowsOf m c) (colsOf m c) (wtsOf m c)) (Cert.Spec.kerLinLast (rowsOf m c) (colsOf m c) (wtsOf m c) (featOf m c) (w1Of m c) (b1Of m c) (wmidOf m c) (bmidOf m c) (w7Of m c)) (b7Of m c) p q _ _ _
    (fun k => adj_at41 m c hin p k)
    (fun k => by
      show (W41 m c main_v110 : S10240x256.Idx → EReal) (ix2 k q) = _
      rw [carry_v110_40_41 m c, W40_out m c]; exact res12_eq m H c hin k q)
    (by
      show (W41 m c main_v111 : S1x256.Idx → EReal) (ix2 (0 : Fin 1) q) = _
      refine (hostOps13_v111 (W40 m c) 0 q).trans ?_
      show (W40 m c main_arg8 : S256.Idx → EReal) (ix1 q) = _
      rw [carry_arg8_15_40 m c]
      show (V15 m c main_arg8 : S256.Idx → EReal) (ix1 q) = _
      rw [V15_lastBias m c])

/-! ## The program's result -/

/-- The result buffer after the last host operation, which keeps the first 10000 rows of region 13's result, is the dense
    network of the program's arguments. -/
theorem ker_result_of (H : RegionValues) (c : Dev nD) (hin : InRange (edgeIndex m c)) (p : Fin 10000) (q : Fin 256) :
    (W43 m c main_v113 : S10000x256.Idx → EReal) (ix2 p q)
      = Cert.Spec.kerNet (rowsOf m c) (colsOf m c) (wtsOf m c) (featOf m c) (w1Of m c) (b1Of m c) (wmidOf m c) (bmidOf m c) (w7Of m c) (b7Of m c) p q := by
  refine (hostOps14_v113 (W42 m c) p q).trans ?_
  show (W42 m c main_v112 : S10240x256.Idx → EReal) (ix2 (Fin.castLE (by norm_num : 10000 ≤ 10240) p) q) = _
  rw [W42_out m c]
  exact (res13_eq m H c hin _ q).trans (Cert.Spec.kerNet_apply (rowsOf m c) (colsOf m c) (wtsOf m c) (featOf m c) (w1Of m c) (b1Of m c) (wmidOf m c) (bmidOf m c) (w7Of m c) (b7Of m c) p q).symm

/-- The same from the fourteen regions' values one by one. -/
theorem ker_result
    (val0 : ValOf0) (val1 : ValOf1) (val2 : ValOf2) (val3 : ValOf3) (val4 : ValOf4) (val5 : ValOf5) (val6 : ValOf6) (val7 : ValOf7) (val8 : ValOf8) (val9 : ValOf9) (val10 : ValOf10) (val11 : ValOf11) (val12 : ValOf12) (val13 : ValOf13)
    (c : Dev nD) (hin : InRange (edgeIndex m c)) (p : Fin 10000) (q : Fin 256) :
    (W43 m c main_v113 : S10000x256.Idx → EReal) (ix2 p q)
      = Cert.Spec.kerNet (rowsOf m c) (colsOf m c) (wtsOf m c) (featOf m c) (w1Of m c) (b1Of m c) (wmidOf m c) (bmidOf m c) (w7Of m c) (b7Of m c) p q :=
  ker_result_of m ⟨val0, val1, val2, val3, val4, val5, val6, val7, val8, val9, val10, val11, val12, val13⟩ c hin p q

end Cert.KernelIdeal.Rg

end
-- ==== Proof.LibArrays.lean ====
/-
  Small general facts about arrays of literal shapes, used by the decoder's proof and tied to no program.

  * a product of a block of rows with a whole right operand, accumulated from zero, plus a bias vector added to every
    row, read at an entry;
  * a slot of a stack of matrices, loaded as a one-slot stack and cast to a matrix, read at an entry.
-/
import Idealize.ShloMosaic.Lib.Pipeline.Value
import Idealize.ShloMosaic.Lib.ValueIdx
import Idealize.ShloMosaic.Lib.ValueLayout
import Idealize.ShloMosaic.Lib.ValueIdxRank6
import Idealize.ShloMosaic.PureOps.Ideal.Laws

noncomputable section

namespace Cert.Decoder.Lib

open Idealize.ShloMosaic Idealize.ShloMosaic.ValueIdx

/-- Rows times a whole right operand, accumulated from the zero array: entry (p, q) is the sum over the shared axis. -/
theorem matmul_rows_apply {φ₁ φ₂ : FTy} (M K N : Nat) (x : FVec Ideal ⟨2, ![M, K]⟩ φ₁) (w : FVec Ideal ⟨2, ![K, N]⟩ φ₂)
    (p : Fin M) (q : Fin N) :
    (matmul (DotDims.plain M K N) none x w (constant ⟨2, ![M, N]⟩ .f32 0x00000000#32) : FVec Ideal ⟨2, ![M, N]⟩ .f32) (ix2 p q)
      = ∑ k : Fin K, x (ix2 p k) * w (ix2 k q) := by
  show FloatOps.matmul (DotDims.plain M K N) none x w (constant ⟨2, ![M, N]⟩ .f32 0x00000000#32) (ix2 p q) = _
  rw [Ideal.matmul_constant_zero_apply, ← Equiv.sum_comp (contrEquiv1 (DotDims.plain M K N) K rfl rfl).symm]
  refine Finset.sum_congr rfl fun k _ => ?_
  have hk := contrEquiv1_symm_val (DotDims.plain M K N) K rfl rfl k
  have el : (DotDims.plain M K N).lhsIdx (ix2 p q) ((contrEquiv1 (DotDims.plain M K N) K rfl rfl).symm k) = ix2 p k :=
    funext fun a => Fin.ext (by
      match a with
      | ⟨0, _⟩ => rfl
      | ⟨1, _⟩ => exact ((DotDims.plain M K N).lhsIdx_val_of_single rfl (ix2 p q) _).trans hk)
  have er : (DotDims.plain M K N).rhsIdx (ix2 p q) ((contrEquiv1 (DotDims.plain M K N) K rfl rfl).symm k) = ix2 k q :=
    funext fun a => Fin.ext (by
      match a with
      | ⟨0, _⟩ => exact ((DotDims.plain M K N).rhsIdx_val_of_single rfl (ix2 p q) _).trans hk
      | ⟨1, _⟩ => rfl)
  rw [el, er]

/-- A bias vector, cast to one row and broadcast down M rows, reads at (p, q) its entry q. -/
theorem bias_rows_apply {α : Type} (M N : Nat) (b : (⟨1, ![N]⟩ : Shape).Idx → α)
    (h1 : (⟨1, ![N]⟩ : Shape).ShapeCasts ⟨2, ![1, N]⟩) (h2 : (⟨2, ![1, N]⟩ : Shape).Broadcasts ⟨2, ![M, N]⟩) (p : Fin M) (q : Fin N) :
    broadcastTo ⟨2, ![M, N]⟩ (shapeCast ⟨2, ![1, N]⟩ b h1) h2 (ix2 p q) = b (ix1 q) :=
  (broadcastTo_1b_ab_apply _ h2 p q).trans (shapeCast_a_1a_apply b h1 0 q)

/-- Slot 0 of a one-slot stack of matrices, cast to a matrix, reads at (k, f) the stack at (0, k, f). -/
theorem slot_apply {α : Type} (K N : Nat) (v : (⟨3, ![1, K, N]⟩ : Shape).Idx → α)
    (h : (⟨3, ![1, K, N]⟩ : Shape).ShapeCasts ⟨2, ![K, N]⟩) (k : Fin K) (f : Fin N) :
    shapeCast ⟨2, ![K, N]⟩ v h (ix2 k f) = v (ix3 (0 : Fin 1) k f) :=
  shapeCast_apply v h _ _ (by
    rw [Shape.rowMajor_val_three, Shape.rowMajor_val_two]
    show (0 * K + k.val) * N + f.val = k.val * N + f.val
    rw [Nat.zero_mul, Nat.zero_add])

end Cert.Decoder.Lib

end
-- ==== Proof.LibLinearAt.lean ====
/-
  Affine maps between rows, read at one entry.

  A matrix product of an M × K array with a K × N array, plus a bias given as ONE ROW (1 × N) repeated down the
  M rows, has at entry (p, q) the value  (∑ k, x (p, k) * w (k, q)) + b (0, q).  The two ways the programs spell it —
  a product accumulated from the zero array with the row cast and repeated, and a contraction with the row laid along
  both axes — are read here at an entry, each as that same expression, for every M, K, N.  A change of number format
  is the identity on the extended reals, so the lemmas apply as they stand to operands that were converted first.
-/
import Idealize.ShloMosaic.Lib.Pipeline.Value
import Idealize.ShloMosaic.Lib.ValueIdx
import Idealize.ShloMosaic.Lib.ValueLayout
import Idealize.ShloMosaic.Lib.StackMember
import Idealize.ShloMosaic.PureOps.Ideal.Laws
import proofs.«181230_j19834158973077_2_alg».proof.Proof.LibArrays

noncomputable section

namespace Cert.LinearAt

open Idealize.ShloMosaic Idealize.ShloMosaic.ValueIdx

/-- A product of an M × K array with a K × N array, accumulated from the zero array: entry (p, q) is the sum over the
    shared axis.  The contraction record is any one that is the plain rows-by-columns contraction. -/
theorem matmul_apply {φ₁ φ₂ : FTy} (M K N : Nat) (d : DotDims ⟨2, ![M, K]⟩ ⟨2, ![K, N]⟩ ⟨2, ![M, N]⟩)
    (hd : d = DotDims.plain M K N) (x : FVec Ideal ⟨2, ![M, K]⟩ φ₁) (w : FVec Ideal ⟨2, ![K, N]⟩ φ₂) (p : Fin M) (q : Fin N) :
    (matmul d none x w (constant ⟨2, ![M, N]⟩ .f32 0x00000000#32) : FVec Ideal ⟨2, ![M, N]⟩ .f32) (ix2 p q)
      = ∑ k : Fin K, x (ix2 p k) * w (ix2 k q) := by
  subst hd
  exact Cert.Decoder.Lib.matmul_rows_apply M K N x w p q

/-- The same product written as a contraction with no accumulator: entry (p, q) is the same sum. -/
theorem dot_apply {φ₁ φ₂ : FTy} (M K N : Nat) (d : DotDims ⟨2, ![M, K]⟩ ⟨2, ![K, N]⟩ ⟨2, ![M, N]⟩)
    (hd : d = DotDims.plain M K N) (x : FVec Ideal ⟨2, ![M, K]⟩ φ₁) (w : FVec Ideal ⟨2, ![K, N]⟩ φ₂) (p : Fin M) (q : Fin N) :
    (Host.dotGeneral d none x w : FVec Ideal ⟨2, ![M, N]⟩ .f32) (ix2 p q) = ∑ k : Fin K, x (ix2 p k) * w (ix2 k q) := by
  subst hd
  exact StackMember.dotGeneral_plain_apply none x w p q

/-- One row, cast to its own shape and repeated down M rows, reads at (p, q) the row's entry q. -/
theorem row_repeat_apply {α : Type} (M N : Nat) (b : (⟨2, ![1, N]⟩ : Shape).Idx → α)
    (h1 : (⟨2, ![1, N]⟩ : Shape).ShapeCasts ⟨2, ![1, N]⟩) (h2 : (⟨2, ![1, N]⟩ : Shape).Broadcasts ⟨2, ![M, N]⟩)
    (p : Fin M) (q : Fin N) :
    broadcastTo ⟨2, ![M, N]⟩ (shapeCast ⟨2, ![1, N]⟩ b h1) h2 (ix2 p q) = b (ix2 (0 : Fin 1) q) := by
  rw [shapeCast_self]
  exact broadcastTo_1b_ab_apply b h2 p q

/-- One row laid along both axes of an M × N array (its row axis of extent one stretched) reads at (p, q) the row's
    entry q. -/
theorem row_stretch_apply {α : Type} (M N : Nat) (b : (⟨2, ![1, N]⟩ : Shape).Idx → α)
    (dims : Fin (⟨2, ![1, N]⟩ : Shape).rank → Fin (⟨2, ![M, N]⟩ : Shape).rank) (hdims : (dims 1).val = 1)
    (h : (⟨2, ![1, N]⟩ : Shape).BroadcastsInDim ⟨2, ![M, N]⟩ dims) (p : Fin M) (q : Fin N) :
    broadcastInDim ⟨2, ![M, N]⟩ dims h b (ix2 p q) = b (ix2 (0 : Fin 1) q) := by
  refine broadcastInDim_apply dims h b (ix2 p q) (ix2 (0 : Fin 1) q) fun a => ?_
  match a with
  | ⟨0, _⟩ => rfl
  | ⟨1, _⟩ =>
    have e : dims 1 = (1 : Fin 2) := Fin.ext hdims
    show q.val = if N = 1 then 0 else ((ix2 p q : (⟨2, ![M, N]⟩ : Shape).Idx) (dims 1)).val
    rw [e]
    show q.val = if N = 1 then 0 else q.val
    split
    · have := q.isLt; omega
    · rfl

/-- Product accumulated from zero plus the repeated row, at entry (p, q). -/
theorem matmul_bias_apply {φ₁ φ₂ : FTy} (M K N : Nat) (d : DotDims ⟨2, ![M, K]⟩ ⟨2, ![K, N]⟩ ⟨2, ![M, N]⟩)
    (hd : d = DotDims.plain M K N) (x : FVec Ideal ⟨2, ![M, K]⟩ φ₁) (w : FVec Ideal ⟨2, ![K, N]⟩ φ₂)
    (b : FVec Ideal ⟨2, ![1, N]⟩ .f32)
    (h1 : (⟨2, ![1, N]⟩ : Shape).ShapeCasts ⟨2, ![1, N]⟩) (h2 : (⟨2, ![1, N]⟩ : Shape).Broadcasts ⟨2, ![M, N]⟩)
    (p : Fin M) (q : Fin N) :
    (addf (matmul d none x w (constant ⟨2, ![M, N]⟩ .f32 0x00000000#32))
        (broadcastTo ⟨2, ![M, N]⟩ (shapeCast ⟨2, ![1, N]⟩ b h1) h2) : FVec Ideal ⟨2, ![M, N]⟩ .f32) (ix2 p q)
      = (∑ k : Fin K, x (ix2 p k) * w (ix2 k q)) + b (ix2 (0 : Fin 1) q) := by
  rw [addf_apply, matmul_apply M K N d hd x w p q, row_repeat_apply M N b h1 h2 p q]

/-- Contraction plus the stretched row, at entry (p, q). -/
theorem dot_bias_apply {φ₁ φ₂ : FTy} (M K N : Nat) (d : DotDims ⟨2, ![M, K]⟩ ⟨2, ![K, N]⟩ ⟨2, ![M, N]⟩)
    (hd : d = DotDims.plain M K N) (x : FVec Ideal ⟨2, ![M, K]⟩ φ₁) (w : FVec Ideal ⟨2, ![K, N]⟩ φ₂)
    (b : FVec Ideal ⟨2, ![1, N]⟩ .f32)
    (dims : Fin (⟨2, ![1, N]⟩ : Shape).rank → Fin (⟨2, ![M, N]⟩ : Shape).rank) (hdims : (dims 1).val = 1)
    (h : (⟨2, ![1, N]⟩ : Shape).BroadcastsInDim ⟨2, ![M, N]⟩ dims) (p : Fin M) (q : Fin N) :
    (addf (Host.dotGeneral d none x w) (broadcastInDim ⟨2, ![M, N]⟩ dims h b) : FVec Ideal ⟨2, ![M, N]⟩ .f32) (ix2 p q)
      = (∑ k : Fin K, x (ix2 p k) * w (ix2 k q)) + b (ix2 (0 : Fin 1) q) := by
  rw [addf_apply, dot_apply M K N d hd x w p q, row_stretch_apply M N b dims hdims h p q]

end Cert.LinearAt

end
-- ==== Proof.AccEntry.lean ====
/-
  One step of a matrix product accumulated tile by tile, read at one entry.

  The aggregation stage keeps an M × N accumulator.  It is filled with zeros before the first tile; every tile adds to
  it the product of an M × K block of the left operand with a K × N slice of the right operand (the product itself
  accumulated from the zero array); after the last tile one bias row, repeated down the M rows, is added, in one
  variant followed by the rectifier, and the result is stored, possibly in a narrower number format.  On the extended
  reals a change of number format is the identity and a cast of an array to its own shape changes nothing, so at entry
  (p, q): the fill is 0, a step is  acc (p, q) + ∑ k, x (p, k) * w (k, q),  and the last step is
  acc (p, q) + b (0, q),  respectively the larger of that number and zero.  Stated for every M, K, N.
-/
import Idealize.ShloMosaic.Lib.Pipeline.Value
import Idealize.ShloMosaic.Lib.ValueIdx
import Idealize.ShloMosaic.Lib.ValueLayout
import Idealize.ShloMosaic.PureOps.Ideal.Laws
import proofs.«181230_j19834158973077_2_alg».proof.Proof.LibLinearAt

noncomputable section

namespace Cert.AccEntry

open Idealize.ShloMosaic Idealize.ShloMosaic.ValueIdx

/-- The fill: the zero word repeated over the array reads 0 at every entry. -/
theorem zero_fill_at (M N : Nat) (h : (⟨2, ![M, N]⟩ : Shape).ShapeCasts ⟨2, ![M, N]⟩) (p : Fin M) (q : Fin N) :
    (shapeCast ⟨2, ![M, N]⟩ (broadcast ⟨2, ![M, N]⟩ (Scalar.ofBits (F := Ideal) .f32 0x00000000#32)) h
        : FVec Ideal ⟨2, ![M, N]⟩ .f32) (ix2 p q) = (0 : EReal) := by
  rw [shapeCast_self, broadcast_apply]
  exact Ideal.ofBits_zero_f32

/-- One step: the accumulator plus the product of the two blocks, at entry (p, q). -/
theorem acc_step_at {φ₁ φ₂ : FTy} (M K N : Nat) (d : DotDims ⟨2, ![M, K]⟩ ⟨2, ![K, N]⟩ ⟨2, ![M, N]⟩)
    (hd : d = DotDims.plain M K N) (x : FVec Ideal ⟨2, ![M, K]⟩ φ₁) (w : FVec Ideal ⟨2, ![K, N]⟩ φ₂)
    (acc : FVec Ideal ⟨2, ![M, N]⟩ .f32)
    (hx : (⟨2, ![M, K]⟩ : Shape).ShapeCasts ⟨2, ![M, K]⟩) (hw : (⟨2, ![K, N]⟩ : Shape).ShapeCasts ⟨2, ![K, N]⟩)
    (ho : (⟨2, ![M, N]⟩ : Shape).ShapeCasts ⟨2, ![M, N]⟩) (p : Fin M) (q : Fin N) :
    (shapeCast ⟨2, ![M, N]⟩ (addf acc (matmul d none (shapeCast ⟨2, ![M, K]⟩ x hx) (shapeCast ⟨2, ![K, N]⟩ w hw)
          (constant ⟨2, ![M, N]⟩ .f32 0x00000000#32))) ho : FVec Ideal ⟨2, ![M, N]⟩ .f32) (ix2 p q)
      = acc (ix2 p q) + ∑ k : Fin K, x (ix2 p k) * w (ix2 k q) := by
  rw [shapeCast_self, addf_apply, shapeCast_self x hx, shapeCast_self w hw,
    Cert.LinearAt.matmul_apply M K N d hd x w p q]

/-- The last step, stored in a narrower format: the accumulator plus the bias entry of column q. -/
theorem flush_at {ψ : FTy} (M N : Nat) (acc : FVec Ideal ⟨2, ![M, N]⟩ .f32) (b : FVec Ideal ⟨2, ![1, N]⟩ .f32)
    (h1 : (⟨2, ![1, N]⟩ : Shape).ShapeCasts ⟨2, ![1, N]⟩) (h2 : (⟨2, ![1, N]⟩ : Shape).Broadcasts ⟨2, ![M, N]⟩)
    (hψ : ψ.bits < FTy.f32.bits) (p : Fin M) (q : Fin N) :
    (truncf ψ (addf acc (broadcastTo ⟨2, ![M, N]⟩ (shapeCast ⟨2, ![1, N]⟩ b h1) h2)) hψ
        : FVec Ideal ⟨2, ![M, N]⟩ ψ) (ix2 p q)
      = acc (ix2 p q) + b (ix2 (0 : Fin 1) q) := by
  rw [truncf_apply, addf_apply, Cert.LinearAt.row_repeat_apply M N b h1 h2 p q]

/-- The last step stored as it is (no change of format). -/
theorem flush_plain_at (M N : Nat) (acc : FVec Ideal ⟨2, ![M, N]⟩ .f32) (b : FVec Ideal ⟨2, ![1, N]⟩ .f32)
    (h1 : (⟨2, ![1, N]⟩ : Shape).ShapeCasts ⟨2, ![1, N]⟩) (h2 : (⟨2, ![1, N]⟩ : Shape).Broadcasts ⟨2, ![M, N]⟩)
    (p : Fin M) (q : Fin N) :
    (addf acc (broadcastTo ⟨2, ![M, N]⟩ (shapeCast ⟨2, ![1, N]⟩ b h1) h2) : FVec Ideal ⟨2, ![M, N]⟩ .f32) (ix2 p q)
      = acc (ix2 p q) + b (ix2 (0 : Fin 1) q) := by
  rw [addf_apply, Cert.LinearAt.row_repeat_apply M N b h1 h2 p q]

/-- The last step followed by the rectifier, stored in a narrower format. -/
theorem flush_relu_at {ψ : FTy} (M N : Nat) (acc : FVec Ideal ⟨2, ![M, N]⟩ .f32) (b : FVec Ideal ⟨2, ![1, N]⟩ .f32)
    (h1 : (⟨2, ![1, N]⟩ : Shape).ShapeCasts ⟨2, ![1, N]⟩) (h2 : (⟨2, ![1, N]⟩ : Shape).Broadcasts ⟨2, ![M, N]⟩)
    (hψ : ψ.bits < FTy.f32.bits) (p : Fin M) (q : Fin N) :
    (truncf ψ (maximumf (addf acc (broadcastTo ⟨2, ![M, N]⟩ (shapeCast ⟨2, ![1, N]⟩ b h1) h2))
        (broadcast ⟨2, ![M, N]⟩ (Scalar.ofBits (F := Ideal) .f32 0x00000000#32))) hψ
        : FVec Ideal ⟨2, ![M, N]⟩ ψ) (ix2 p q)
      = max (acc (ix2 p q) + b (ix2 (0 : Fin 1) q)) (0 : EReal) := by
  rw [truncf_apply, maximumf_apply, broadcast_apply, addf_apply, Cert.LinearAt.row_repeat_apply M N b h1 h2 p q]
  exact congrArg (max _) Ideal.ofBits_zero_f32

end Cert.AccEntry

end
-- ==== Proof.LibSumTiles.lean ====
/-
  Sums over consecutive indices, cut into tiles.

  A finite sum over the first `T * n` naturals, in any commutative additive monoid, is the sum over the `T` tiles
  `{s * n, …, s * n + n - 1}` of the sum over each tile: the tiles are consecutive and disjoint, and together they are
  the whole range. The proof is an induction on the number of tiles: one more tile appends `n` more consecutive indices.
-/
import Mathlib.Algebra.BigOperators.Fin

namespace Cert.LibSumTiles

open Finset

/-- A sum over the first `T * n` naturals is the sum over `T` consecutive tiles of `n` indices each:
    `∑ k < T * n, f k = ∑ s < T, ∑ j < n, f (s * n + j)`. Both outer sums are over ranges of naturals. -/
theorem sum_range_tiles {β : Type*} [AddCommMonoid β] (T n : ℕ) (f : ℕ → β) :
    ∑ k ∈ range (T * n), f k = ∑ s ∈ range T, ∑ j ∈ range n, f (s * n + j) := by
  induction T with
  | zero => simp
  | succ T ih => rw [sum_range_succ, ← ih, Nat.add_mul, Nat.one_mul, sum_range_add]

/-- A sum over `Fin (T * n)` of a function of the index's value is the sum over `T` tiles of the sum over each
    tile's `n` indices: `∑ k : Fin (T * n), f k = ∑ s < T, ∑ j : Fin n, f (s * n + j)`. -/
theorem sum_tiles {β : Type*} [AddCommMonoid β] (T n : ℕ) (f : ℕ → β) :
    ∑ k : Fin (T * n), f k.val = ∑ s ∈ Finset.range T, ∑ j : Fin n, f (s * n + j.val) := by
  rw [Fin.sum_univ_eq_sum_range f (T * n), sum_range_tiles]
  exact sum_congr rfl fun s _ => (Fin.sum_univ_eq_sum_range (fun j => f (s * n + j)) n).symm

/-- The instance at `8192 = 16 * 512`: a sum over 8192 consecutive indices is the sum over 16 tiles of 512. -/
theorem sum_tiles_8192 {β : Type*} [AddCommMonoid β] (f : ℕ → β) :
    ∑ k : Fin 8192, f k.val = ∑ s ∈ Finset.range 16, ∑ j : Fin 512, f (s * 512 + j.val) :=
  sum_tiles 16 512 f

end Cert.LibSumTiles
-- ==== Proof.SpecTiles.lean ====
/-
  A sum over 10240 consecutive indices, taken ten tiles of 1024 at a time.

  The tiles are the ten runs `{s * 1024, …, s * 1024 + 1023}`; they are disjoint and cover the 10240 indices, so the sum
  over all indices is the sum over the tiles of the sum over each tile. An accumulator that starts at zero and adds one
  tile's sum at a time therefore holds the whole sum after the tenth tile.
-/
import proofs.«181230_j19834158973077_2_alg».proof.Proof.LibSumTiles

namespace Cert.Spec

open Finset

/-- Index `r` of tile `s`. -/
def tileIdx (s : Fin 10) (r : Fin 1024) : Fin 10240 := ⟨s.val * 1024 + r.val, by omega⟩

theorem tileIdx_val (s : Fin 10) (r : Fin 1024) : (tileIdx s r).val = s.val * 1024 + r.val := rfl

/-- The sum over the 10240 indices is the sum over the ten tiles of the sum over each tile's 1024 indices. -/
theorem sum_tiles_ten {β : Type*} [AddCommMonoid β] (g : Fin 10240 → β) :
    ∑ j, g j = ∑ s : Fin 10, ∑ r : Fin 1024, g (tileIdx s r) := by
  let f : ℕ → β := fun n => if h : n < 10240 then g ⟨n, h⟩ else 0
  have hg : ∀ j : Fin 10240, g j = f j.val := fun j => by simp only [f, dif_pos j.isLt]
  have hf : ∀ (s : Fin 10) (r : Fin 1024), f (s.val * 1024 + r.val) = g (tileIdx s r) := fun s r => by
    have h : s.val * 1024 + r.val < 10240 := by omega
    simp only [f, dif_pos h, tileIdx]
  have h1 : ∑ k : Fin 10240, f k.val = ∑ s ∈ Finset.range 10, ∑ j : Fin 1024, f (s * 1024 + j.val) :=
    Cert.LibSumTiles.sum_tiles 10 1024 f
  have h2 : ∑ s ∈ Finset.range 10, ∑ j : Fin 1024, f (s * 1024 + j.val)
      = ∑ s : Fin 10, ∑ j : Fin 1024, f (s.val * 1024 + j.val) :=
    (Fin.sum_univ_eq_sum_range (fun s => ∑ j : Fin 1024, f (s * 1024 + j.val)) 10).symm
  rw [Finset.sum_congr rfl fun j _ => hg j, h1, h2]
  exact Finset.sum_congr rfl fun s _ => Finset.sum_congr rfl fun r _ => hf s r

/-- The accumulator after `k` tiles: zero, then one tile's sum added at a time (unchanged past the tenth tile). -/
def tileAcc {β : Type*} [AddCommMonoid β] (g : Fin 10240 → β) : ℕ → β
  | 0 => 0
  | k + 1 => if h : k < 10 then tileAcc g k + ∑ r : Fin 1024, g (tileIdx ⟨k, h⟩ r) else tileAcc g k

theorem tileAcc_zero {β : Type*} [AddCommMonoid β] (g : Fin 10240 → β) : tileAcc g 0 = 0 := rfl

theorem tileAcc_succ {β : Type*} [AddCommMonoid β] (g : Fin 10240 → β) (k : ℕ) (h : k < 10) :
    tileAcc g (k + 1) = tileAcc g k + ∑ r : Fin 1024, g (tileIdx ⟨k, h⟩ r) := by
  rw [tileAcc, dif_pos h]

/-- After the tenth tile the accumulator holds the sum over all 10240 indices. -/
theorem tileAcc_ten {β : Type*} [AddCommMonoid β] (g : Fin 10240 → β) : tileAcc g 10 = ∑ j, g j := by
  let G : ℕ → β := fun s => if h : s < 10 then ∑ r : Fin 1024, g (tileIdx ⟨s, h⟩ r) else 0
  have hk : ∀ k : ℕ, tileAcc g k = ∑ s ∈ Finset.range k, G s := by
    intro k
    induction k with
    | zero => simp [tileAcc]
    | succ k ih =>
      rw [Finset.sum_range_succ, ← ih, tileAcc]
      by_cases h : k < 10
      · simp only [G, dif_pos h]
      · simp only [G, dif_neg h, add_zero]
  rw [hk 10, ← Fin.sum_univ_eq_sum_range G 10, sum_tiles_ten g]
  exact Finset.sum_congr rfl fun s _ => by simp only [G, dif_pos s.isLt]

end Cert.Spec
-- ==== Proof.KI.Val0.lean ====
/- The aggregation region 0 (custom_call 0): the value of its result array when the region is left, at the buffer
   contents `V` found when it is entered. Every entry (p, q) of the 10240 × 128 result is the sum over the 10240 indices j of
   (left operand at (p, j)) · (right operand at (j, q)), plus the bias row's entry q. The grid is 20 blocks of 512 rows
   by 10 tiles of 1024 indices of the shared axis: at tile 0 the accumulator is filled with zeros, every tile adds to it the
   product of the left operand's 512 × 1024 block with the 1024 rows of the right operand that the tile names, and at tile 9
   the accumulator plus the bias row is stored as the block of 512 rows of the result. Ten tiles regroup one finite sum, and
   the twenty blocks cover the 10240 rows. -/
import proofs.«181230_j19834158973077_2_alg».proof.Proof.KI.Reg0
import proofs.«181230_j19834158973077_2_alg».proof.Proof.AccEntry
import proofs.«181230_j19834158973077_2_alg».proof.Proof.Spec
import proofs.«181230_j19834158973077_2_alg».proof.Proof.SpecTiles
import Idealize.ShloMosaic.Lib.Pipeline.Value
import Idealize.ShloMosaic.Lib.ValueIdx

set_option maxRecDepth 16384

noncomputable section

namespace Cert.KernelIdeal.Rg

open Cert.KernelIdeal Cert.KernelIdeal.Gen
open Idealize.ShloMosaic Idealize.ShloMosaic.TcCoe Idealize.ShloMosaic.ValueIdx Idealize.SL.Sem Idealize.ShloMosaic.Tactic
open Idealize.ShloMosaic.Pipeline (Dat)

theorem zero_offsets0 : (![0, 0] : Fin 2 → Nat) = fun _ => 0 := funext fun a => by fin_cases a <;> rfl

/-! ## What each control case leaves, as the body's arithmetic over the blocks it loads

In every number format: the accumulator after tile 0 is the step applied to the zero fill; after a later tile the step
applied to what the tile before left; the result block at tile 9 is the last step applied to the accumulator. The right
operand is loaded through the rectangle of the 1024 rows the tile names. -/

section Pieces
variable {F : FTy → Type} [FloatOps F]

/-- Tile 0: the zero fill is stored whole, read back, and the first product added to it. -/
theorem acc0_Z_eq (c : Dev nD) (i : grid0.Coords) (arg2 : Memref sig .tc .vmem S512x1024 .bf16) (harg2 : arg2.IsWhole) (arg3 : Memref sig .tc .vmem S10240x128 .bf16) (harg3 : arg3.IsWhole) (arg4 : Memref sig .tc .vmem S1x128 .f32) (harg4 : arg4.IsWhole) (arg5 : Memref sig .tc .vmem S512x128 .bf16) (harg5 : arg5.IsWhole) (arg6 : Memref sig .tc .vmem S512x128 .f32) (harg6 : arg6.IsWhole) (hc0 : zeroC0 i) (hc1 : ¬flushC0 i)
    (x0 : Vec F S512x1024 .bf16) (x1 : Vec F S10240x128 .bf16) (x2 : Vec F S1x128 .f32) :
    acc0_Z c i arg2 harg2 arg3 harg3 arg4 harg4 arg5 harg5 arg6 harg6 hc0 hc1 x0 x1 x2
      = k0_pay2 (View.ld x1 (Rect.unit (s := S10240x128) (k0_off1 i) S1024x128.size (k0_off1_inb i))) k0_pay1 x0 := by
  unfold acc0_Z
  rw [View.read_writes_eq_canon _ _ _ (scover0_Z c i arg2 harg2 arg3 harg3 arg4 harg4 arg5 harg5 arg6 harg6 hc0 hc1 x0 x1 x2)]
  unfold runZero0
  dsimp only
  try sl_unfold_words
  rw [View.canon_cons_unit_zero (S := S512x128) zero_offsets0, View.readCov_unit_zero (S := S512x128) _ zero_offsets0]
  simp only [View.readAt_eq_ld, harg2.read_unread, harg3.read_unread, harg4.read_unread, harg6.read_unread,
    View.ld_unit_zero (S := S512x128) zero_offsets0, View.ld_unit_zero (S := S512x1024) zero_offsets0, View.ld_unit_zero (S := S1x128) zero_offsets0]

/-- A tile strictly between the first and the last: the product added to what the tile before left. -/
theorem acc0_M_eq (c : Dev nD) (i : grid0.Coords) (arg2 : Memref sig .tc .vmem S512x1024 .bf16) (harg2 : arg2.IsWhole) (arg3 : Memref sig .tc .vmem S10240x128 .bf16) (harg3 : arg3.IsWhole) (arg4 : Memref sig .tc .vmem S1x128 .f32) (harg4 : arg4.IsWhole) (arg5 : Memref sig .tc .vmem S512x128 .bf16) (harg5 : arg5.IsWhole) (arg6 : Memref sig .tc .vmem S512x128 .f32) (harg6 : arg6.IsWhole) (hc0 : ¬zeroC0 i) (hc1 : ¬flushC0 i)
    (x0 : Vec F S512x1024 .bf16) (x1 : Vec F S10240x128 .bf16) (x2 : Vec F S1x128 .f32) (xs : Vec F S512x128 .f32) :
    acc0_M c i arg2 harg2 arg3 harg3 arg4 harg4 arg5 harg5 arg6 harg6 hc0 hc1 x0 x1 x2 xs
      = k0_pay2 (View.ld x1 (Rect.unit (s := S10240x128) (k0_off1 i) S1024x128.size (k0_off1_inb i))) xs x0 := by
  unfold acc0_M
  rw [View.read_writes_eq_canon _ _ _ (scover0_M c i arg2 harg2 arg3 harg3 arg4 harg4 arg5 harg5 arg6 harg6 hc0 hc1 x0 x1 x2 xs)]
  unfold runMid0
  dsimp only
  try sl_unfold_words
  rw [View.canon_unit_zero zero_offsets0]
  simp only [View.readAt_eq_ld, harg2.read_unread, harg3.read_unread, harg4.read_unread, harg6.read_unread,
    View.ld_unit_zero (S := S512x128) zero_offsets0, View.ld_unit_zero (S := S512x1024) zero_offsets0, View.ld_unit_zero (S := S1x128) zero_offsets0]

/-- Tile 9, the accumulator: as for a middle tile. -/
theorem acc0_L_eq (c : Dev nD) (i : grid0.Coords) (arg2 : Memref sig .tc .vmem S512x1024 .bf16) (harg2 : arg2.IsWhole) (arg3 : Memref sig .tc .vmem S10240x128 .bf16) (harg3 : arg3.IsWhole) (arg4 : Memref sig .tc .vmem S1x128 .f32) (harg4 : arg4.IsWhole) (arg5 : Memref sig .tc .vmem S512x128 .bf16) (harg5 : arg5.IsWhole) (arg6 : Memref sig .tc .vmem S512x128 .f32) (harg6 : arg6.IsWhole) (hc0 : ¬zeroC0 i) (hc1 : flushC0 i)
    (x0 : Vec F S512x1024 .bf16) (x1 : Vec F S10240x128 .bf16) (x2 : Vec F S1x128 .f32) (xs : Vec F S512x128 .f32) :
    acc0_L c i arg2 harg2 arg3 harg3 arg4 harg4 arg5 harg5 arg6 harg6 hc0 hc1 x0 x1 x2 xs
      = k0_pay2 (View.ld x1 (Rect.unit (s := S10240x128) (k0_off1 i) S1024x128.size (k0_off1_inb i))) xs x0 := by
  unfold acc0_L
  rw [View.read_writes_eq_canon _ _ _ (scover0_L c i arg2 harg2 arg3 harg3 arg4 harg4 arg5 harg5 arg6 harg6 hc0 hc1 x0 x1 x2 xs)]
  unfold runLast0
  dsimp only
  try sl_unfold_words
  rw [View.canon_unit_zero zero_offsets0]
  simp only [View.readAt_eq_ld, harg2.read_unread, harg3.read_unread, harg4.read_unread, harg6.read_unread,
    View.ld_unit_zero (S := S512x128) zero_offsets0, View.ld_unit_zero (S := S512x1024) zero_offsets0, View.ld_unit_zero (S := S1x128) zero_offsets0]

/-- Tile 9, the result block: the last step applied to the accumulator just stored and read back. -/
theorem out0_L_eq (c : Dev nD) (i : grid0.Coords) (arg2 : Memref sig .tc .vmem S512x1024 .bf16) (harg2 : arg2.IsWhole) (arg3 : Memref sig .tc .vmem S10240x128 .bf16) (harg3 : arg3.IsWhole) (arg4 : Memref sig .tc .vmem S1x128 .f32) (harg4 : arg4.IsWhole) (arg5 : Memref sig .tc .vmem S512x128 .bf16) (harg5 : arg5.IsWhole) (arg6 : Memref sig .tc .vmem S512x128 .f32) (harg6 : arg6.IsWhole) (hc0 : ¬zeroC0 i) (hc1 : flushC0 i)
    (x0 : Vec F S512x1024 .bf16) (x1 : Vec F S10240x128 .bf16) (x2 : Vec F S1x128 .f32) (xs : Vec F S512x128 .f32) :
    out0_L_3 c i arg2 harg2 arg3 harg3 arg4 harg4 arg5 harg5 arg6 harg6 hc0 hc1 x0 x1 x2 xs
      = k0_pay3 (k0_pay2 (View.ld x1 (Rect.unit (s := S10240x128) (k0_off1 i) S1024x128.size (k0_off1_inb i))) xs x0) x2 := by
  unfold out0_L_3
  rw [View.read_writes_eq_canon _ _ _ (cover0_L_3 c i arg2 harg2 arg3 harg3 arg4 harg4 arg5 harg5 arg6 harg6 hc0 hc1 x0 x1 x2 xs)]
  unfold runLast0
  dsimp only
  try sl_unfold_words
  rw [View.canon_unit_zero zero_offsets0, View.readCov_unit_zero (S := S512x128) _ zero_offsets0]
  simp only [View.readAt_eq_ld, harg2.read_unread, harg3.read_unread, harg4.read_unread, harg6.read_unread,
    View.ld_unit_zero (S := S512x128) zero_offsets0, View.ld_unit_zero (S := S512x1024) zero_offsets0, View.ld_unit_zero (S := S1x128) zero_offsets0]

end Pieces

/-! ## The body's arithmetic at an entry, on the extended reals -/

/-- The zero fill reads 0. -/
theorem pay1_at0 (r : Fin 512) (q : Fin 128) : k0_pay1 (F := Ideal) (ix2 r q) = (0 : EReal) := by
  unfold k0_pay1
  exact Cert.AccEntry.zero_fill_at 512 128 _ r q

/-- Row r of a 512 × 1024 block against column q of a 1024 × 128 block. -/
def stepSum0 (x : S512x1024.Idx → EReal) (w : S1024x128.Idx → EReal) (r : Fin 512) (q : Fin 128) : EReal :=
  ∑ k : Fin 1024, x (ix2 r k) * w (ix2 k q)

/-- One step: the accumulator's entry plus row r of the left block against column q of the right block. -/
theorem pay2_at0 (v6 : FVec Ideal S1024x128 .bf16) (v8 : FVec Ideal S512x128 .f32) (v9 : FVec Ideal S512x1024 .bf16)
    (r : Fin 512) (q : Fin 128) :
    k0_pay2 (F := Ideal) v6 v8 v9 (ix2 r q) = v8 (ix2 r q) + stepSum0 v9 v6 r q := by
  unfold k0_pay2
  exact Cert.AccEntry.acc_step_at (φ₁ := .bf16) (φ₂ := .bf16) 512 1024 128 _ rfl v9 v6 v8 _ _ _ r q

/-- The last step: the accumulator's entry plus the bias entry of column q. -/
theorem pay3_at0 (v19 : FVec Ideal S512x128 .f32) (v20 : FVec Ideal S1x128 .f32) (r : Fin 512) (q : Fin 128) :
    k0_pay3 (F := Ideal) v19 v20 (ix2 r q) = (v19 (ix2 r q) + v20 (ix2 (0 : Fin 1) q)) := by
  unfold k0_pay3
  exact Cert.AccEntry.flush_at (ψ := .bf16) 512 128 v19 v20 _ _ _ r q

/-! ## Where the blocks sit -/

/-- Over the 200 grid points: the left operand's block is (point / 10, point % 10); the right operand and the bias row are
    read whole; the result's block is (point / 10, 0); the tile coordinate is point % 10. -/
theorem pointIdx0 : ∀ t : Fin cfg0.N,
      win0_0.index t (0 : Fin 2) = t.val / 10 ∧ win0_0.index t (1 : Fin 2) = t.val % 10
    ∧ win0_1.index t (0 : Fin 2) = 0 ∧ win0_1.index t (1 : Fin 2) = 0
    ∧ win0_2.index t (0 : Fin 2) = 0 ∧ win0_2.index t (1 : Fin 2) = 0
    ∧ win0_3.index t (0 : Fin 2) = t.val / 10 ∧ win0_3.index t (1 : Fin 2) = 0
    ∧ ((grid0.coords t) 1).val = t.val % 10 :=
  (by decide +kernel : ∀ t : Fin grid0.N, _)

/-- Row r of the block of 512 rows that point n works on. -/
def rowAt0 (n : ℕ) (r : Fin 512) : Fin 10240 := ⟨512 * (n / 10 % 20) + r.val, by omega⟩

/-- The tile that point n adds. -/
def tileAt0 (n : ℕ) : Fin 10 := ⟨n % 10, Nat.mod_lt n (by decide)⟩

/-- The rows of the right operand loaded at a point, at an entry: row 1024 · tile + k of the operand. -/
theorem slice_at0 (i : grid0.Coords) (X : Vec Ideal S10240x128 .bf16) (k : Fin 1024) (q : Fin 128) (j : Fin 10240)
    (hj : j.val = 1024 * (i 1).val + k.val) :
    View.ld (Val := Elt Ideal) (e' := .bf16) X (Rect.unit (s := S10240x128) (k0_off1 i) S1024x128.size (k0_off1_inb i)) (ix2 k q) = X (ix2 j q) := by
  have e0 : k0_off1 i 0 = 1024 * (i 1).val := (congrFun (k0_off1_eq i) 0).trans rfl
  have e1 : k0_off1 i 1 = 0 := (congrFun (k0_off1_eq i) 1).trans rfl
  show X _ = X _
  congr 1
  funext a; apply Fin.ext
  match a with
  | ⟨0, _⟩ => show k0_off1 i 0 + 1 * k.val = j.val; omega
  | ⟨1, _⟩ => show k0_off1 i 1 + 1 * q.val = q.val; omega

-- the TensorCore's buffer contents when the region is entered, on the extended reals
variable (V : (c : Dev nD) → (b : Ref sig .tc) → Buf (Elt Ideal) ((c : Thread nD τ).loc b))

/-- The left operand's block at point t, at (r, k): the left array at (row r of the point's block, index k of its tile). -/
theorem blkA_at0 (c : Dev nD) (t : Fin cfg0.N) (r : Fin 512) (k : Fin 1024) :
    (iblk0 (F := Ideal) V c 0 t : S512x1024.Idx → EReal) (ix2 r k)
      = (V c (Pipeline.arrRef spec0 0) : S10240x10240.Idx → EReal) (ix2 (rowAt0 t.val r) (Cert.Spec.tileIdx (tileAt0 t.val) k)) := by
  obtain ⟨e00, e01, -⟩ := pointIdx0 t
  have hN : t.val < 200 := lt_of_lt_of_eq t.isLt (show cfg0.N = 200 from N_0)
  show (V c (Pipeline.arrRef spec0 0) : S10240x10240.Idx → EReal) (((cfg0.win 0).blk t).view.emb (ix2 r k)) = _
  congr 1
  funext a; apply Fin.ext
  match a with
  | ⟨0, _⟩ => show win0_0.index t (0 : Fin 2) * 512 + 1 * r.val = 512 * (t.val / 10 % 20) + r.val; omega
  | ⟨1, _⟩ => show win0_0.index t (1 : Fin 2) * 1024 + 1 * k.val = t.val % 10 * 1024 + k.val; omega

/-- The right operand is resident whole: its block at any point is the array. -/
theorem blkH_at0 (c : Dev nD) (t : Fin cfg0.N) (j : Fin 10240) (q : Fin 128) :
    (iblk0 (F := Ideal) V c 1 t : S10240x128.Idx → EReal) (ix2 j q) = (V c (Pipeline.arrRef spec0 1) : S10240x128.Idx → EReal) (ix2 j q) := by
  obtain ⟨-, -, e10, e11, -⟩ := pointIdx0 t
  show (V c (Pipeline.arrRef spec0 1) : S10240x128.Idx → EReal) (((cfg0.win 1).blk t).view.emb (ix2 j q)) = _
  congr 1
  funext a; apply Fin.ext
  match a with
  | ⟨0, _⟩ => show win0_1.index t (0 : Fin 2) * 10240 + 1 * j.val = j.val; omega
  | ⟨1, _⟩ => show win0_1.index t (1 : Fin 2) * 128 + 1 * q.val = q.val; omega

/-- So is the bias row. -/
theorem blkB_at0 (c : Dev nD) (t : Fin cfg0.N) (q : Fin 128) :
    (iblk0 (F := Ideal) V c 2 t : S1x128.Idx → EReal) (ix2 (0 : Fin 1) q) = (V c (Pipeline.arrRef spec0 2) : S1x128.Idx → EReal) (ix2 (0 : Fin 1) q) := by
  obtain ⟨-, -, -, -, e20, e21, -⟩ := pointIdx0 t
  show (V c (Pipeline.arrRef spec0 2) : S1x128.Idx → EReal) (((cfg0.win 2).blk t).view.emb (ix2 (0 : Fin 1) q)) = _
  congr 1
  funext a; apply Fin.ext
  match a with
  | ⟨0, _⟩ => show win0_2.index t (0 : Fin 2) * 1 + 1 * 0 = 0; omega
  | ⟨1, _⟩ => show win0_2.index t (1 : Fin 2) * 128 + 1 * q.val = q.val; omega

/-! ## The accumulator, point by point -/

/-- The products summed along the shared axis for the entry (row r of point n's block, column q), of any two arrays, -/
def termOf0 (A : S10240x10240.Idx → EReal) (H : S10240x128.Idx → EReal) (n : ℕ) (r : Fin 512) (q : Fin 128) : Fin 10240 → EReal :=
  fun j => A (ix2 (rowAt0 n r) j) * H (ix2 j q)

/-- and of the two operands as the region finds them. -/
def term0 (c : Dev nD) (n : ℕ) (r : Fin 512) (q : Fin 128) : Fin 10240 → EReal :=
  termOf0 (V c (Pipeline.arrRef spec0 0)) (V c (Pipeline.arrRef spec0 1)) n r q

/-- What a point adds at entry (r, q): the sum of the products over the indices of the point's tile. -/
theorem step_sum0 (c : Dev nD) (t : Fin cfg0.N) (r : Fin 512) (q : Fin 128) :
    stepSum0 (iblk0 (F := Ideal) V c 0 t)
        (View.ld (Val := Elt Ideal) (e' := .bf16) (iblk0 (F := Ideal) V c 1 t : Vec Ideal S10240x128 .bf16) (Rect.unit (s := S10240x128) (k0_off1 (grid0.coords t)) S1024x128.size (k0_off1_inb (grid0.coords t)))) r q
      = ∑ k : Fin 1024, term0 V c t.val r q (Cert.Spec.tileIdx (tileAt0 t.val) k) := by
  obtain ⟨-, -, -, -, -, -, -, -, eg⟩ := pointIdx0 t
  unfold stepSum0
  refine Finset.sum_congr rfl fun k _ => ?_
  have hj : (Cert.Spec.tileIdx (tileAt0 t.val) k).val = 1024 * ((grid0.coords t) 1).val + k.val := by
    show t.val % 10 * 1024 + k.val = _; omega
  exact congrArg₂ (fun (a b : EReal) => a * b) (blkA_at0 V c t r k)
    ((slice_at0 (grid0.coords t) (iblk0 (F := Ideal) V c 1 t) k q (Cert.Spec.tileIdx (tileAt0 t.val) k) hj).trans
      (blkH_at0 V c t (Cert.Spec.tileIdx (tileAt0 t.val) k) q))

/-- At tile 0 the accumulator's entry is 0 plus the tile's sum. -/
theorem accZ_at0 (c : Dev nD) (t : Fin cfg0.N) (h0 : t.val % 10 = 0) (r : Fin 512) (q : Fin 128) :
    ((outsAt0 (F := Ideal) V c t.val t.isLt).2 : S512x128.Idx → EReal) (ix2 r q)
      = 0 + ∑ k : Fin 1024, term0 V c t.val r q (Cert.Spec.tileIdx (tileAt0 t.val) k) := by
  have h1 : ¬t.val % 10 = 9 := by omega
  rw [outsAt0_Z V c t h0 h1]
  dsimp only
  refine (congrFun (acc0_Z_eq (F := Ideal) c (grid0.coords t) (mA0 t) (hA0 t) (mB0 t) (hB0 t) (mC0 t) (hC0 t) (mO0 t) (hO0 t) mS0 (Memref.isWhole_whole _) ((zeroC0_iff t).mpr h0) (fun h => h1 ((flushC0_iff t).mp h)) (iblk0 V c 0 t) (iblk0 V c 1 t) (iblk0 V c 2 t)) (ix2 r q)).trans ?_
  refine (pay2_at0 _ _ _ r q).trans ?_
  exact congrArg₂ (fun (a b : EReal) => a + b) (pay1_at0 r q) (step_sum0 V c t r q)

/-- At a later tile it is the entry the point before left plus the tile's sum. -/
theorem accS_at0 (c : Dev nD) (t : Fin cfg0.N) (h0 : ¬t.val % 10 = 0) (r : Fin 512) (q : Fin 128) :
    ((outsAt0 (F := Ideal) V c t.val t.isLt).2 : S512x128.Idx → EReal) (ix2 r q)
      = ((outsAt0 V c (t.val - 1) (Nat.lt_of_le_of_lt (Nat.sub_le _ _) t.isLt)).2 : S512x128.Idx → EReal) (ix2 r q)
        + ∑ k : Fin 1024, term0 V c t.val r q (Cert.Spec.tileIdx (tileAt0 t.val) k) := by
  by_cases h1 : t.val % 10 = 9
  · rw [outsAt0_L V c t h0 h1]
    dsimp only
    refine (congrFun (acc0_L_eq (F := Ideal) c (grid0.coords t) (mA0 t) (hA0 t) (mB0 t) (hB0 t) (mC0 t) (hC0 t) (mO0 t) (hO0 t) mS0 (Memref.isWhole_whole _) (fun h => h0 ((zeroC0_iff t).mp h)) ((flushC0_iff t).mpr h1) (iblk0 V c 0 t) (iblk0 V c 1 t) (iblk0 V c 2 t) (outsAt0 V c (t.val - 1) (Nat.lt_of_le_of_lt (Nat.sub_le _ _) t.isLt)).2) (ix2 r q)).trans ?_
    refine (pay2_at0 _ _ _ r q).trans ?_
    exact congrArg (fun (b : EReal) => _ + b) (step_sum0 V c t r q)
  · rw [outsAt0_M V c t h0 h1]
    dsimp only
    refine (congrFun (acc0_M_eq (F := Ideal) c (grid0.coords t) (mA0 t) (hA0 t) (mB0 t) (hB0 t) (mC0 t) (hC0 t) (mO0 t) (hO0 t) mS0 (Memref.isWhole_whole _) (fun h => h0 ((zeroC0_iff t).mp h)) (fun h => h1 ((flushC0_iff t).mp h)) (iblk0 V c 0 t) (iblk0 V c 1 t) (iblk0 V c 2 t) (outsAt0 V c (t.val - 1) (Nat.lt_of_le_of_lt (Nat.sub_le _ _) t.isLt)).2) (ix2 r q)).trans ?_
    refine (pay2_at0 _ _ _ r q).trans ?_
    exact congrArg (fun (b : EReal) => _ + b) (step_sum0 V c t r q)

/-- Adding a tile's sum to the accumulator after the tiles before it is the accumulator after one more tile. -/
theorem tile_step0 (g : Fin 10240 → EReal) (n : ℕ) (a : EReal) (ha : a = Cert.Spec.tileAcc g (n % 10)) :
    a + ∑ k : Fin 1024, g (Cert.Spec.tileIdx (tileAt0 n) k) = Cert.Spec.tileAcc g (n % 10 + 1) := by
  rw [ha]
  exact (Cert.Spec.tileAcc_succ g (n % 10) (Nat.mod_lt n (by decide))).symm

/-- THE INVARIANT: after point n the accumulator's entry (r, q) is the sum of the products over the tiles 0 … n % 10 of
    the shared axis, for the row r of the point's block. By induction on the point: a point that is not at tile 0 works on
    the same block of rows as the point before it. -/
theorem acc_inv0 (c : Dev nD) : ∀ (n : ℕ) (h : n < cfg0.N) (r : Fin 512) (q : Fin 128),
    ((outsAt0 (F := Ideal) V c n h).2 : S512x128.Idx → EReal) (ix2 r q)
      = Cert.Spec.tileAcc (term0 V c n r q) (n % 10 + 1) := by
  intro n
  induction n with
  | zero =>
    intro h r q
    exact (accZ_at0 V c ⟨0, h⟩ (Nat.zero_mod 10) r q).trans (tile_step0 (term0 V c 0 r q) 0 0 rfl)
  | succ n ih =>
    intro h r q
    by_cases h0 : (n + 1) % 10 = 0
    · refine (accZ_at0 V c ⟨n + 1, h⟩ h0 r q).trans (tile_step0 (term0 V c (n + 1) r q) (n + 1) 0 ?_)
      rw [h0]; rfl
    · have e1 : ((outsAt0 (F := Ideal) V c (n + 1) h).2 : S512x128.Idx → EReal) (ix2 r q)
          = ((outsAt0 (F := Ideal) V c n (Nat.lt_of_succ_lt h)).2 : S512x128.Idx → EReal) (ix2 r q)
            + ∑ k : Fin 1024, term0 V c (n + 1) r q (Cert.Spec.tileIdx (tileAt0 (n + 1)) k) :=
        accS_at0 V c ⟨n + 1, h⟩ h0 r q
      have e2 : ((outsAt0 (F := Ideal) V c n (Nat.lt_of_succ_lt h)).2 : S512x128.Idx → EReal) (ix2 r q)
          = Cert.Spec.tileAcc (term0 V c n r q) (n % 10 + 1) := ih (Nat.lt_of_succ_lt h) r q
      have e3 : rowAt0 n r = rowAt0 (n + 1) r := Fin.ext (by show 512 * (n / 10 % 20) + r.val = 512 * ((n + 1) / 10 % 20) + r.val; omega)
      have e4 : term0 V c n r q = term0 V c (n + 1) r q := by unfold term0 termOf0; rw [e3]
      have e5 : n % 10 + 1 = (n + 1) % 10 := by omega
      rw [e1, e2, e4, e5]
      exact tile_step0 (term0 V c (n + 1) r q) (n + 1) _ rfl

/-! ## The result block at tile 9 -/

/-- At tile 9 the result buffer's entry is the accumulator's entry plus the bias entry of the column. -/
theorem out_at0 (c : Dev nD) (t : Fin cfg0.N) (h1 : t.val % 10 = 9) (r : Fin 512) (q : Fin 128) :
    ((outsAt0 (F := Ideal) V c t.val t.isLt).1 : S512x128.Idx → EReal) (ix2 r q)
      = (((outsAt0 (F := Ideal) V c t.val t.isLt).2 : S512x128.Idx → EReal) (ix2 r q) + (V c (Pipeline.arrRef spec0 2) : S1x128.Idx → EReal) (ix2 (0 : Fin 1) q)) := by
  have h0 : ¬t.val % 10 = 0 := by omega
  rw [outsAt0_L V c t h0 h1]
  dsimp only
  rw [out0_L_eq (F := Ideal) c (grid0.coords t) (mA0 t) (hA0 t) (mB0 t) (hB0 t) (mC0 t) (hC0 t) (mO0 t) (hO0 t) mS0 (Memref.isWhole_whole _) (fun h => h0 ((zeroC0_iff t).mp h)) ((flushC0_iff t).mpr h1) (iblk0 V c 0 t) (iblk0 V c 1 t) (iblk0 V c 2 t) (outsAt0 V c (t.val - 1) (Nat.lt_of_le_of_lt (Nat.sub_le _ _) t.isLt)).2,
    acc0_L_eq (F := Ideal) c (grid0.coords t) (mA0 t) (hA0 t) (mB0 t) (hB0 t) (mC0 t) (hC0 t) (mO0 t) (hO0 t) mS0 (Memref.isWhole_whole _) (fun h => h0 ((zeroC0_iff t).mp h)) ((flushC0_iff t).mpr h1) (iblk0 V c 0 t) (iblk0 V c 1 t) (iblk0 V c 2 t) (outsAt0 V c (t.val - 1) (Nat.lt_of_le_of_lt (Nat.sub_le _ _) t.isLt)).2]
  refine (pay3_at0 _ _ r q).trans ?_
  exact congrArg (fun z => (_ + z)) (blkB_at0 V c t q)

/-! ## The result as one function of the three arrays -/

/-- Entry (p, q): row p of the left operand against column q of the right operand over all 10240 indices, plus the bias
    entry q. -/
def entry0 (A : S10240x10240.Idx → EReal) (H : S10240x128.Idx → EReal) (B : S1x128.Idx → EReal) (p : Fin 10240) (q : Fin 128) : EReal :=
  ((∑ j : Fin 10240, A (ix2 p j) * H (ix2 j q)) + B (ix2 (0 : Fin 1) q))

/-- The whole result array, index by index. -/
def whole0 (A : S10240x10240.Idx → EReal) (H : S10240x128.Idx → EReal) (B : S1x128.Idx → EReal) : S10240x128.Idx → EReal :=
  fun i => entry0 A H B (i 0) (i 1)

/-- What a point at tile 9 writes back is its block of 512 rows of the whole result: the accumulator holds the sum over
    all ten tiles, which is the sum over the 10240 indices. -/
theorem flushed0_eq (c : Dev nD) (t : Fin cfg0.N) (hf : (cfg0.win 3).flush t = true) :
    (dat0 (F := Ideal) V c).flushed 3 t
      = ((cfg0.win 3).blk t).view.read (Elt Ideal)
          (whole0 (V c (Pipeline.arrRef spec0 0)) (V c (Pipeline.arrRef spec0 1)) (V c (Pipeline.arrRef spec0 2))) := by
  have h1 : t.val % 10 = 9 := (flush0_3 t).mp hf
  have hN : t.val < 200 := lt_of_lt_of_eq t.isLt (show cfg0.N = 200 from N_0)
  obtain ⟨-, -, -, -, -, -, e30, e31, -⟩ := pointIdx0 t
  show (cfg0.win 3).cut (grid0.coords t) ((dat0 V c).after 3 t) = _
  rw [after0_3]
  funext j
  obtain ⟨r, q, rfl⟩ : ∃ (r : Fin 512) (q : Fin 128), j = ix2 r q := ⟨j 0, j 1, eq_ix2 j⟩
  refine (out_at0 V c t h1 r q).trans ?_
  have hacc : ((outsAt0 (F := Ideal) V c t.val t.isLt).2 : S512x128.Idx → EReal) (ix2 r q)
      = ∑ j : Fin 10240, term0 V c t.val r q j := by
    refine (acc_inv0 V c t.val t.isLt r q).trans ?_
    rw [h1]
    exact Cert.Spec.tileAcc_ten _
  rw [hacc]
  have hp : ((((cfg0.win 3).blk t).view.emb (ix2 r q)) 0 : Fin 10240) = rowAt0 t.val r :=
    Fin.ext (by show win0_3.index t (0 : Fin 2) * 512 + 1 * r.val = 512 * (t.val / 10 % 20) + r.val; omega)
  have hq : ((((cfg0.win 3).blk t).view.emb (ix2 r q)) 1 : Fin 128) = q :=
    Fin.ext (by show win0_3.index t (1 : Fin 2) * 128 + 1 * q.val = q.val; omega)
  exact (congrArg₂ (entry0 (V c (Pipeline.arrRef spec0 0)) (V c (Pipeline.arrRef spec0 1)) (V c (Pipeline.arrRef spec0 2))) hp hq).symm

/-! ## The twenty blocks cover the array -/

/-- An index of the result is in point `t`'s block iff each coordinate is in the block's range on its axis. -/
theorem mem_blk0 (t : Fin cfg0.N) (i : S10240x128.Idx) :
    i ∈ ((cfg0.win 3).blk t).view.set ↔ ∀ a : Fin 2, win0_3.index t a * S512x128.size a ≤ (i a).val
      ∧ (i a).val < win0_3.index t a * S512x128.size a + S512x128.size a := by
  show i ∈ ((View.whole main_v60).slice (win0_3.rect t)).set ↔ _
  rw [View.set_slice_whole, Rect.mem_set_unit]
  exact Iff.rfl

/-- Row p lies in the block of the points of row block p / 512, and the point at tile 9 of that row block writes it back. -/
theorem cover0 (i : S10240x128.Idx) :
    ∃ t : Fin cfg0.N, (cfg0.win 3).flush t = true ∧ i ∈ ((cfg0.win 3).blk t).view.set := by
  have hi0 : (i 0).val < 10240 := (i 0).isLt
  have hi1 : (i 1).val < 128 := (i 1).isLt
  have hN : grid0.N = 200 := N_0
  obtain ⟨t, ht⟩ : ∃ t : Fin cfg0.N, t.val = 10 * ((i 0).val / 512) + 9 :=
    ⟨⟨10 * ((i 0).val / 512) + 9, by show _ < grid0.N; omega⟩, rfl⟩
  obtain ⟨-, -, -, -, -, -, e30, e31, -⟩ := pointIdx0 t
  refine ⟨t, (flush0_3 t).mpr (by omega), ?_⟩
  rw [mem_blk0]
  intro a
  match a with
  | ⟨0, _⟩ => show win0_3.index t (0 : Fin 2) * 512 ≤ (i 0).val ∧ (i 0).val < win0_3.index t (0 : Fin 2) * 512 + 512; omega
  | ⟨1, _⟩ => show win0_3.index t (1 : Fin 2) * 128 ≤ (i 1).val ∧ (i 1).val < win0_3.index t (1 : Fin 2) * 128 + 128; omega

/-! ## The array when the region is left -/

/-- The result array after the twenty write-backs is the whole function of the three arrays as the region found them. -/
theorem final0 (c : Dev nD) :
    (dat0 (F := Ideal) V c).arrAt 3 cfg0.N
      = whole0 (V c (Pipeline.arrRef spec0 0)) (V c (Pipeline.arrRef spec0 1)) (V c (Pipeline.arrRef spec0 2)) :=
  (dat0 (F := Ideal) V c).arrAt_eq_of_cover 3 _ (fun t hf => flushed0_eq V c t hf) cover0

/-- Entry (p, q) of the result array after the region. -/
theorem val0 (c : Dev nD) (p : Fin 10240) (q : Fin 128) :
    (dat0 (F := Ideal) V c).arrAt 3 cfg0.N (ix2 p q)
      = entry0 (V c (Pipeline.arrRef spec0 0)) (V c (Pipeline.arrRef spec0 1)) (V c (Pipeline.arrRef spec0 2)) p q := by
  rw [final0]; rfl

/-- The entry written out. -/
theorem entry0_eq (A : S10240x10240.Idx → EReal) (H : S10240x128.Idx → EReal) (B : S1x128.Idx → EReal) (p : Fin 10240) (q : Fin 128) :
    entry0 A H B p q = ((∑ j : Fin 10240, A (ix2 p j) * H (ix2 j q)) + B (ix2 (0 : Fin 1) q)) := rfl

end Cert.KernelIdeal.Rg

end
-- ==== Proof.AffineEntry.lean ====
/-
  A block of rows of a matrix product plus a bias row, read at one entry.

  The stage that transforms node features takes M rows X of width K, a K × N matrix W and one bias row b, and stores
  X · W + b  (the row b repeated down the M rows), in one variant followed by the rectifier, in a narrower number
  format.  On the extended reals a change of number format is the identity and a cast of an array to its own shape
  changes nothing, so entry (p, q) of what is stored is
      (∑ k, X (p, k) * W (k, q)) + b (0, q),
  respectively the larger of that number and zero.  Stated for every M, K, N.
-/
import Idealize.ShloMosaic.Lib.Pipeline.Value
import Idealize.ShloMosaic.Lib.ValueIdx
import Idealize.ShloMosaic.Lib.ValueLayout
import Idealize.ShloMosaic.PureOps.Ideal.Laws
import proofs.«181230_j19834158973077_2_alg».proof.Proof.LibLinearAt

noncomputable section

namespace Cert.AffineEntry

open Idealize.ShloMosaic Idealize.ShloMosaic.ValueIdx

/-- The product accumulated from the zero array, plus the repeated bias row, stored in a narrower format: entry (p, q)
    is the sum over the shared axis plus the bias entry of column q. -/
theorem affine_at {φ₁ φ₂ ψ : FTy} (M K N : Nat) (d : DotDims ⟨2, ![M, K]⟩ ⟨2, ![K, N]⟩ ⟨2, ![M, N]⟩)
    (hd : d = DotDims.plain M K N) (x : FVec Ideal ⟨2, ![M, K]⟩ φ₁) (w : FVec Ideal ⟨2, ![K, N]⟩ φ₂)
    (b : FVec Ideal ⟨2, ![1, N]⟩ .f32)
    (hx : (⟨2, ![M, K]⟩ : Shape).ShapeCasts ⟨2, ![M, K]⟩) (hw : (⟨2, ![K, N]⟩ : Shape).ShapeCasts ⟨2, ![K, N]⟩)
    (h1 : (⟨2, ![1, N]⟩ : Shape).ShapeCasts ⟨2, ![1, N]⟩) (h2 : (⟨2, ![1, N]⟩ : Shape).Broadcasts ⟨2, ![M, N]⟩)
    (hψ : ψ.bits < FTy.f32.bits) (p : Fin M) (q : Fin N) :
    (truncf ψ (addf (matmul d none (shapeCast ⟨2, ![M, K]⟩ x hx) (shapeCast ⟨2, ![K, N]⟩ w hw)
          (constant ⟨2, ![M, N]⟩ .f32 0x00000000#32))
        (broadcastTo ⟨2, ![M, N]⟩ (shapeCast ⟨2, ![1, N]⟩ b h1) h2)) hψ : FVec Ideal ⟨2, ![M, N]⟩ ψ) (ix2 p q)
      = (∑ k : Fin K, x (ix2 p k) * w (ix2 k q)) + b (ix2 (0 : Fin 1) q) := by
  rw [truncf_apply, shapeCast_self x hx, shapeCast_self w hw]
  exact Cert.LinearAt.matmul_bias_apply M K N d hd x w b h1 h2 p q

/-- The same followed by the rectifier (the entrywise larger of the array and the all-zero array) before it is stored:
    entry (p, q) is the larger of that number and zero. -/
theorem relu_affine_at {φ₁ φ₂ ψ : FTy} (M K N : Nat) (d : DotDims ⟨2, ![M, K]⟩ ⟨2, ![K, N]⟩ ⟨2, ![M, N]⟩)
    (hd : d = DotDims.plain M K N) (x : FVec Ideal ⟨2, ![M, K]⟩ φ₁) (w : FVec Ideal ⟨2, ![K, N]⟩ φ₂)
    (b : FVec Ideal ⟨2, ![1, N]⟩ .f32)
    (hx : (⟨2, ![M, K]⟩ : Shape).ShapeCasts ⟨2, ![M, K]⟩) (hw : (⟨2, ![K, N]⟩ : Shape).ShapeCasts ⟨2, ![K, N]⟩)
    (h1 : (⟨2, ![1, N]⟩ : Shape).ShapeCasts ⟨2, ![1, N]⟩) (h2 : (⟨2, ![1, N]⟩ : Shape).Broadcasts ⟨2, ![M, N]⟩)
    (hψ : ψ.bits < FTy.f32.bits) (p : Fin M) (q : Fin N) :
    (truncf ψ (maximumf (addf (matmul d none (shapeCast ⟨2, ![M, K]⟩ x hx) (shapeCast ⟨2, ![K, N]⟩ w hw)
            (constant ⟨2, ![M, N]⟩ .f32 0x00000000#32))
          (broadcastTo ⟨2, ![M, N]⟩ (shapeCast ⟨2, ![1, N]⟩ b h1) h2))
        (broadcast ⟨2, ![M, N]⟩ (Scalar.ofBits (F := Ideal) .f32 0x00000000#32))) hψ : FVec Ideal ⟨2, ![M, N]⟩ ψ) (ix2 p q)
      = max ((∑ k : Fin K, x (ix2 p k) * w (ix2 k q)) + b (ix2 (0 : Fin 1) q)) (0 : EReal) := by
  rw [truncf_apply, maximumf_apply, broadcast_apply, shapeCast_self x hx, shapeCast_self w hw,
    Cert.LinearAt.matmul_bias_apply M K N d hd x w b h1 h2 p q]
  exact congrArg (max _) Ideal.ofBits_zero_f32

end Cert.AffineEntry

end
-- ==== Proof.KI.Val1.lean ====
/- Stage-1 region 1 (custom_call 1): the value of its result array when the region is left, at the buffer
   contents `V` found when it is entered. Every entry (p, q) of the 10240 × 1024 result is the larger of zero and the sum over the shared
   axis of (left operand at (p, k)) · (right operand at (k, q)), plus the bias row's entry q: each grid
   point writes one block of 1024 rows of that one array, and the ten blocks cover its 10240 rows. -/
import proofs.«181230_j19834158973077_2_alg».proof.Proof.KI.Reg1
import proofs.«181230_j19834158973077_2_alg».proof.Proof.AffineEntry
import proofs.«181230_j19834158973077_2_alg».proof.Proof.Spec
import Idealize.ShloMosaic.Lib.Pipeline.Value
import Idealize.ShloMosaic.Lib.ValueIdx

set_option maxRecDepth 16384

noncomputable section

namespace Cert.KernelIdeal.Rg

open Cert.KernelIdeal Cert.KernelIdeal.Gen
open Idealize.ShloMosaic Idealize.ShloMosaic.TcCoe Idealize.ShloMosaic.ValueIdx Idealize.SL.Sem
open Idealize.ShloMosaic.Pipeline (Dat)

-- the TensorCore's buffer contents when the region is entered, on the extended reals
variable (V : (c : Dev nD) → (b : Ref sig .tc) → Buf (Elt Ideal) ((c : Thread nD τ).loc b))

/-! ## The three arrays the region reads, and the result as one function of them -/

/-- The left operand (10240 rows), the right operand and the bias row, as the region finds them. -/
abbrev lhs1 (c : Dev nD) : S10240x128.Idx → EReal := V c (Pipeline.arrRef spec1 0)
abbrev rhs1 (c : Dev nD) : S128x1024.Idx → EReal := V c (Pipeline.arrRef spec1 1)
abbrev bias1 (c : Dev nD) : S1x1024.Idx → EReal := V c (Pipeline.arrRef spec1 2)

/-- Entry (p, q): the row p of the left operand against the column q of the right operand, plus the bias entry q,
    rectified. -/
def entry1 (X : S10240x128.Idx → EReal) (W : S128x1024.Idx → EReal) (B : S1x1024.Idx → EReal) (p : Fin 10240) (q : Fin 1024) : EReal :=
  Cert.Spec.relu ((∑ k : Fin 128, X (ix2 p k) * W (ix2 k q)) + B (ix2 (0 : Fin 1) q))

/-- The whole result array, index by index. -/
def whole1 (X : S10240x128.Idx → EReal) (W : S128x1024.Idx → EReal) (B : S1x1024.Idx → EReal) : S10240x1024.Idx → EReal :=
  fun i => entry1 X W B (i 0) (i 1)

/-! ## The body's payload at an entry of the block -/

/-- What the body stores, at entry (p, q) of the block, from the three blocks it loads: the product accumulated from
    zero plus the repeated bias row, rectified; the casts to the same shape and the change of format are identities. -/
theorem pay1_apply (x0 : FVec Ideal S1024x128 .bf16) (x1 : FVec Ideal S128x1024 .bf16) (x2 : FVec Ideal S1x1024 .f32)
    (p : Fin 1024) (q : Fin 1024) :
    k1_pay1 (F := Ideal) x0 x1 x2 (ix2 p q)
      = Cert.Spec.relu ((∑ k : Fin 128, x0 (ix2 p k) * x1 (ix2 k q)) + x2 (ix2 (0 : Fin 1) q)) := by
  unfold k1_pay1
  exact Cert.AffineEntry.relu_affine_at (φ₁ := .bf16) (φ₂ := .bf16) (ψ := .bf16) 1024 128 1024 _ rfl x0 x1 x2 _ _ _ _ _ p q

/-! ## Where each block sits -/

theorem zero_offsets1 : (![0, 0] : Fin 2 → Nat) = fun _ => 0 := funext fun a => by fin_cases a <;> rfl

/-- The index maps over the ten grid points: the left operand's row block and the result's row block are both the
    point's number; on the column axis, and for the right operand and the bias row, every block index is zero. -/
theorem blockIdx1 : ∀ t : Fin cfg1.N,
      win1_0.index t (0 : Fin 2) = t.val ∧ win1_0.index t (1 : Fin 2) = 0
    ∧ win1_1.index t (0 : Fin 2) = 0 ∧ win1_1.index t (1 : Fin 2) = 0
    ∧ win1_2.index t (0 : Fin 2) = 0 ∧ win1_2.index t (1 : Fin 2) = 0
    ∧ win1_3.index t (0 : Fin 2) = t.val ∧ win1_3.index t (1 : Fin 2) = 0 :=
  (by decide +kernel : ∀ t : Fin grid1.N, _)

/-! ## The blocks at a point, read in their arrays

A block's element sits, on each axis, at block index × block size + its coordinate inside the block. -/

/-- The left operand's block at point `t` is rows [1024 t, 1024 t + 1024) of the left array. -/
theorem blk1_lhs (c : Dev nD) (t : Fin cfg1.N) (p : Fin 1024) (k : Fin 128) (r : Fin 10240)
    (hr : r.val = t.val * 1024 + p.val) : iblk1 V c 0 t (ix2 p k) = lhs1 V c (ix2 r k) := by
  obtain ⟨e00, e01, -⟩ := blockIdx1 t
  show lhs1 V c (((cfg1.win 0).blk t).view.emb (ix2 p k)) = lhs1 V c (ix2 r k)
  refine congrArg (lhs1 V c) ?_
  funext a; apply Fin.ext
  match a with
  | ⟨0, _⟩ => show win1_0.index t (0 : Fin 2) * 1024 + 1 * p.val = r.val; omega
  | ⟨1, _⟩ => show win1_0.index t (1 : Fin 2) * 128 + 1 * k.val = k.val; omega

/-- The right operand's block at every point is the whole right array. -/
theorem blk1_rhs (c : Dev nD) (t : Fin cfg1.N) (k : Fin 128) (q : Fin 1024) :
    iblk1 V c 1 t (ix2 k q) = rhs1 V c (ix2 k q) := by
  obtain ⟨-, -, e10, e11, -⟩ := blockIdx1 t
  show rhs1 V c (((cfg1.win 1).blk t).view.emb (ix2 k q)) = rhs1 V c (ix2 k q)
  refine congrArg (rhs1 V c) ?_
  funext a; apply Fin.ext
  match a with
  | ⟨0, _⟩ => show win1_1.index t (0 : Fin 2) * 128 + 1 * k.val = k.val; omega
  | ⟨1, _⟩ => show win1_1.index t (1 : Fin 2) * 1024 + 1 * q.val = q.val; omega

/-- The bias row's block at every point is the whole row. -/
theorem blk1_bias (c : Dev nD) (t : Fin cfg1.N) (q : Fin 1024) :
    iblk1 V c 2 t (ix2 (0 : Fin 1) q) = bias1 V c (ix2 (0 : Fin 1) q) := by
  obtain ⟨-, -, -, -, e20, e21, -⟩ := blockIdx1 t
  show bias1 V c (((cfg1.win 2).blk t).view.emb (ix2 (0 : Fin 1) q)) = bias1 V c (ix2 (0 : Fin 1) q)
  refine congrArg (bias1 V c) ?_
  funext a; apply Fin.ext
  match a with
  | ⟨0, _⟩ => show win1_2.index t (0 : Fin 2) * 1 + 1 * 0 = 0; omega
  | ⟨1, _⟩ => show win1_2.index t (1 : Fin 2) * 1024 + 1 * q.val = q.val; omega

/-- The result's block at point `t`, read off any whole array `G`, is rows [1024 t, 1024 t + 1024) of `G`. -/
theorem blk1_out (t : Fin cfg1.N) (G : S10240x1024.Idx → EReal) (p : Fin 1024) (q : Fin 1024) (r : Fin 10240)
    (hr : r.val = t.val * 1024 + p.val) :
    ((cfg1.win 3).blk t).view.read (Elt Ideal) G (ix2 p q) = G (ix2 r q) := by
  obtain ⟨-, -, -, -, -, -, e30, e31⟩ := blockIdx1 t
  show G (((cfg1.win 3).blk t).view.emb (ix2 p q)) = G (ix2 r q)
  refine congrArg G ?_
  funext a; apply Fin.ext
  match a with
  | ⟨0, _⟩ => show win1_3.index t (0 : Fin 2) * 1024 + 1 * p.val = r.val; omega
  | ⟨1, _⟩ => show win1_3.index t (1 : Fin 2) * 1024 + 1 * q.val = q.val; omega

/-! ## What a point writes back -/

/-- What point `t` writes back is the block of rows [1024 t, 1024 t + 1024) of the whole result: the body's one store is
    its payload of the three loaded blocks, and each block is read in its array by the lemmas above. -/
theorem flushed1_eq (c : Dev nD) (t : Fin cfg1.N) :
    (dat1 (F := Ideal) V c).flushed 3 t
      = ((cfg1.win 3).blk t).view.read (Elt Ideal) (whole1 (lhs1 V c) (rhs1 V c) (bias1 V c)) := by
  show (cfg1.win 3).cut (grid1.coords t) ((dat1 V c).after 3 t) = _
  rw [after1_3]
  unfold out1_3
  rw [View.canon_unit_zero zero_offsets1]
  simp only [View.ld_unit_zero (S := S1024x128) zero_offsets1, View.ld_unit_zero (S := S128x1024) zero_offsets1,
    View.ld_unit_zero (S := S1x1024) zero_offsets1]
  funext j
  obtain ⟨p, q, rfl⟩ : ∃ (p : Fin 1024) (q : Fin 1024), j = ix2 p q := ⟨j 0, j 1, eq_ix2 j⟩
  refine (pay1_apply _ _ _ p q).trans ?_
  have ht : t.val < 10 := lt_of_lt_of_eq t.isLt N_1
  obtain ⟨r, hr⟩ : ∃ r : Fin 10240, r.val = t.val * 1024 + p.val :=
    ⟨⟨t.val * 1024 + p.val, by have := p.isLt; omega⟩, rfl⟩
  refine Eq.trans ?_ (blk1_out t (whole1 (lhs1 V c) (rhs1 V c) (bias1 V c)) p q r hr).symm
  show _ = entry1 (lhs1 V c) (rhs1 V c) (bias1 V c) r q
  unfold entry1
  rw [blk1_bias V c t q]
  refine congrArg (fun s => Cert.Spec.relu (s + bias1 V c (ix2 (0 : Fin 1) q))) ?_
  exact Finset.sum_congr rfl fun k _ => by rw [blk1_lhs V c t p k r hr, blk1_rhs V c t k q]

/-! ## The ten blocks cover the array -/

/-- An index of the result is in point `t`'s block iff each coordinate is in the block's range on its axis. -/
theorem mem_blk1 (t : Fin cfg1.N) (i : S10240x1024.Idx) :
    i ∈ ((cfg1.win 3).blk t).view.set ↔ ∀ a : Fin 2, win1_3.index t a * S1024x1024.size a ≤ (i a).val
      ∧ (i a).val < win1_3.index t a * S1024x1024.size a + S1024x1024.size a := by
  show i ∈ ((View.whole main_v62).slice (win1_3.rect t)).set ↔ _
  rw [View.set_slice_whole, Rect.mem_set_unit]
  exact Iff.rfl

/-- Row r lies in the block of point r / 1024, and every point writes its block back. -/
theorem cover1 (i : S10240x1024.Idx) :
    ∃ t : Fin cfg1.N, (cfg1.win 3).flush t = true ∧ i ∈ ((cfg1.win 3).blk t).view.set := by
  have hi0 : (i 0).val < 10240 := (i 0).isLt
  have hi1 : (i 1).val < 1024 := (i 1).isLt
  have hN : grid1.N = 10 := N_1
  obtain ⟨t, ht⟩ : ∃ t : Fin cfg1.N, t.val = (i 0).val / 1024 := ⟨⟨(i 0).val / 1024, by show _ < grid1.N; omega⟩, rfl⟩
  obtain ⟨-, -, -, -, -, -, e30, e31⟩ := blockIdx1 t
  refine ⟨t, flush1_3 t, ?_⟩
  rw [mem_blk1]
  intro a
  match a with
  | ⟨0, _⟩ => show win1_3.index t (0 : Fin 2) * 1024 ≤ (i 0).val ∧ (i 0).val < win1_3.index t (0 : Fin 2) * 1024 + 1024; omega
  | ⟨1, _⟩ => show win1_3.index t (1 : Fin 2) * 1024 ≤ (i 1).val ∧ (i 1).val < win1_3.index t (1 : Fin 2) * 1024 + 1024; omega

/-! ## The array when the region is left -/

/-- The result array after the ten write-backs is the whole function of the three arrays as the region found them. -/
theorem final1 (c : Dev nD) :
    (dat1 (F := Ideal) V c).arrAt 3 cfg1.N = whole1 (lhs1 V c) (rhs1 V c) (bias1 V c) :=
  (dat1 (F := Ideal) V c).arrAt_eq_of_cover 3 _ (fun t _ => flushed1_eq V c t) cover1

/-- Entry (p, q) of the result array after the region. -/
theorem val1 (c : Dev nD) (p : Fin 10240) (q : Fin 1024) :
    (dat1 (F := Ideal) V c).arrAt 3 cfg1.N (ix2 p q)
      = Cert.Spec.relu ((∑ k : Fin 128, lhs1 V c (ix2 p k) * rhs1 V c (ix2 k q)) + bias1 V c (ix2 (0 : Fin 1) q)) := by
  rw [final1]; rfl

end Cert.KernelIdeal.Rg

end
-- ==== Proof.KI.Val2.lean ====
/- Stage-1 region 2 (custom_call 2): the value of its result array when the region is left, at the buffer
   contents `V` found when it is entered. Every entry (p, q) of the 10240 × 1024 result is the sum over the shared
   axis of (left operand at (p, k)) · (right operand at (k, q)), plus the bias row's entry q (no rectifier here): each grid
   point writes one block of 1024 rows of that one array, and the ten blocks cover its 10240 rows. -/
import proofs.«181230_j19834158973077_2_alg».proof.Proof.KI.Reg2
import proofs.«181230_j19834158973077_2_alg».proof.Proof.AffineEntry
import proofs.«181230_j19834158973077_2_alg».proof.Proof.Spec
import Idealize.ShloMosaic.Lib.Pipeline.Value
import Idealize.ShloMosaic.Lib.ValueIdx

set_option maxRecDepth 16384

noncomputable section

namespace Cert.KernelIdeal.Rg

open Cert.KernelIdeal Cert.KernelIdeal.Gen
open Idealize.ShloMosaic Idealize.ShloMosaic.TcCoe Idealize.ShloMosaic.ValueIdx Idealize.SL.Sem
open Idealize.ShloMosaic.Pipeline (Dat)

-- the TensorCore's buffer contents when the region is entered, on the extended reals
variable (V : (c : Dev nD) → (b : Ref sig .tc) → Buf (Elt Ideal) ((c : Thread nD τ).loc b))

/-! ## The three arrays the region reads, and the result as one function of them -/

/-- The left operand (10240 rows), the right operand and the bias row, as the region finds them. -/
abbrev lhs2 (c : Dev nD) : S10240x1024.Idx → EReal := V c (Pipeline.arrRef spec2 0)
abbrev rhs2 (c : Dev nD) : S1024x1024.Idx → EReal := V c (Pipeline.arrRef spec2 1)
abbrev bias2 (c : Dev nD) : S1x1024.Idx → EReal := V c (Pipeline.arrRef spec2 2)

/-- Entry (p, q): the row p of the left operand against the column q of the right operand, plus the bias entry q. -/
def entry2 (X : S10240x1024.Idx → EReal) (W : S1024x1024.Idx → EReal) (B : S1x1024.Idx → EReal) (p : Fin 10240) (q : Fin 1024) : EReal :=
  (∑ k : Fin 1024, X (ix2 p k) * W (ix2 k q)) + B (ix2 (0 : Fin 1) q)

/-- The whole result array, index by index. -/
def whole2 (X : S10240x1024.Idx → EReal) (W : S1024x1024.Idx → EReal) (B : S1x1024.Idx → EReal) : S10240x1024.Idx → EReal :=
  fun i => entry2 X W B (i 0) (i 1)

/-! ## The body's payload at an entry of the block -/

/-- What the body stores, at entry (p, q) of the block, from the three blocks it loads: the product accumulated from
    zero plus the repeated bias row; the casts to the same shape and the change of format are identities. -/
theorem pay2_apply (x0 : FVec Ideal S1024x1024 .bf16) (x1 : FVec Ideal S1024x1024 .bf16) (x2 : FVec Ideal S1x1024 .f32)
    (p : Fin 1024) (q : Fin 1024) :
    k2_pay1 (F := Ideal) x0 x1 x2 (ix2 p q)
      = (∑ k : Fin 1024, x0 (ix2 p k) * x1 (ix2 k q)) + x2 (ix2 (0 : Fin 1) q) := by
  unfold k2_pay1
  exact Cert.AffineEntry.affine_at (φ₁ := .bf16) (φ₂ := .bf16) (ψ := .bf16) 1024 1024 1024 _ rfl x0 x1 x2 _ _ _ _ _ p q

/-! ## Where each block sits -/

theorem zero_offsets2 : (![0, 0] : Fin 2 → Nat) = fun _ => 0 := funext fun a => by fin_cases a <;> rfl

/-- The index maps over the ten grid points: the left operand's row block and the result's row block are both the
    point's number; on the column axis, and for the right operand and the bias row, every block index is zero. -/
theorem blockIdx2 : ∀ t : Fin cfg2.N,
      win2_0.index t (0 : Fin 2) = t.val ∧ win2_0.index t (1 : Fin 2) = 0
    ∧ win2_1.index t (0 : Fin 2) = 0 ∧ win2_1.index t (1 : Fin 2) = 0
    ∧ win2_2.index t (0 : Fin 2) = 0 ∧ win2_2.index t (1 : Fin 2) = 0
    ∧ win2_3.index t (0 : Fin 2) = t.val ∧ win2_3.index t (1 : Fin 2) = 0 :=
  (by decide +kernel : ∀ t : Fin grid2.N, _)

/-! ## The blocks at a point, read in their arrays

A block's element sits, on each axis, at block index × block size + its coordinate inside the block. -/

/-- The left operand's block at point `t` is rows [1024 t, 1024 t + 1024) of the left array. -/
theorem blk2_lhs (c : Dev nD) (t : Fin cfg2.N) (p : Fin 1024) (k : Fin 1024) (r : Fin 10240)
    (hr : r.val = t.val * 1024 + p.val) : iblk2 V c 0 t (ix2 p k) = lhs2 V c (ix2 r k) := by
  obtain ⟨e00, e01, -⟩ := blockIdx2 t
  show lhs2 V c (((cfg2.win 0).blk t).view.emb (ix2 p k)) = lhs2 V c (ix2 r k)
  refine congrArg (lhs2 V c) ?_
  funext a; apply Fin.ext
  match a with
  | ⟨0, _⟩ => show win2_0.index t (0 : Fin 2) * 1024 + 1 * p.val = r.val; omega
  | ⟨1, _⟩ => show win2_0.index t (1 : Fin 2) * 1024 + 1 * k.val = k.val; omega

/-- The right operand's block at every point is the whole right array. -/
theorem blk2_rhs (c : Dev nD) (t : Fin cfg2.N) (k : Fin 1024) (q : Fin 1024) :
    iblk2 V c 1 t (ix2 k q) = rhs2 V c (ix2 k q) := by
  obtain ⟨-, -, e10, e11, -⟩ := blockIdx2 t
  show rhs2 V c (((cfg2.win 1).blk t).view.emb (ix2 k q)) = rhs2 V c (ix2 k q)
  refine congrArg (rhs2 V c) ?_
  funext a; apply Fin.ext
  match a with
  | ⟨0, _⟩ => show win2_1.index t (0 : Fin 2) * 1024 + 1 * k.val = k.val; omega
  | ⟨1, _⟩ => show win2_1.index t (1 : Fin 2) * 1024 + 1 * q.val = q.val; omega

/-- The bias row's block at every point is the whole row. -/
theorem blk2_bias (c : Dev nD) (t : Fin cfg2.N) (q : Fin 1024) :
    iblk2 V c 2 t (ix2 (0 : Fin 1) q) = bias2 V c (ix2 (0 : Fin 1) q) := by
  obtain ⟨-, -, -, -, e20, e21, -⟩ := blockIdx2 t
  show bias2 V c (((cfg2.win 2).blk t).view.emb (ix2 (0 : Fin 1) q)) = bias2 V c (ix2 (0 : Fin 1) q)
  refine congrArg (bias2 V c) ?_
  funext a; apply Fin.ext
  match a with
  | ⟨0, _⟩ => show win2_2.index t (0 : Fin 2) * 1 + 1 * 0 = 0; omega
  | ⟨1, _⟩ => show win2_2.index t (1 : Fin 2) * 1024 + 1 * q.val = q.val; omega

/-- The result's block at point `t`, read off any whole array `G`, is rows [1024 t, 1024 t + 1024) of `G`. -/
theorem blk2_out (t : Fin cfg2.N) (G : S10240x1024.Idx → EReal) (p : Fin 1024) (q : Fin 1024) (r : Fin 10240)
    (hr : r.val = t.val * 1024 + p.val) :
    ((cfg2.win 3).blk t).view.read (Elt Ideal) G (ix2 p q) = G (ix2 r q) := by
  obtain ⟨-, -, -, -, -, -, e30, e31⟩ := blockIdx2 t
  show G (((cfg2.win 3).blk t).view.emb (ix2 p q)) = G (ix2 r q)
  refine congrArg G ?_
  funext a; apply Fin.ext
  match a with
  | ⟨0, _⟩ => show win2_3.index t (0 : Fin 2) * 1024 + 1 * p.val = r.val; omega
  | ⟨1, _⟩ => show win2_3.index t (1 : Fin 2) * 1024 + 1 * q.val = q.val; omega

/-! ## What a point writes back -/

/-- What point `t` writes back is the block of rows [1024 t, 1024 t + 1024) of the whole result: the body's one store is
    its payload of the three loaded blocks, and each block is read in its array by the lemmas above. -/
theorem flushed2_eq (c : Dev nD) (t : Fin cfg2.N) :
    (dat2 (F := Ideal) V c).flushed 3 t
      = ((cfg2.win 3).blk t).view.read (Elt Ideal) (whole2 (lhs2 V c) (rhs2 V c) (bias2 V c)) := by
  show (cfg2.win 3).cut (grid2.coords t) ((dat2 V c).after 3 t) = _
  rw [after2_3]
  unfold out2_3
  rw [View.canon_unit_zero zero_offsets2]
  simp only [View.ld_unit_zero (S := S1024x1024) zero_offsets2, View.ld_unit_zero (S := S1024x1024) zero_offsets2,
    View.ld_unit_zero (S := S1x1024) zero_offsets2]
  funext j
  obtain ⟨p, q, rfl⟩ : ∃ (p : Fin 1024) (q : Fin 1024), j = ix2 p q := ⟨j 0, j 1, eq_ix2 j⟩
  refine (pay2_apply _ _ _ p q).trans ?_
  have ht : t.val < 10 := lt_of_lt_of_eq t.isLt N_2
  obtain ⟨r, hr⟩ : ∃ r : Fin 10240, r.val = t.val * 1024 + p.val :=
    ⟨⟨t.val * 1024 + p.val, by have := p.isLt; omega⟩, rfl⟩
  refine Eq.trans ?_ (blk2_out t (whole2 (lhs2 V c) (rhs2 V c) (bias2 V c)) p q r hr).symm
  show _ = entry2 (lhs2 V c) (rhs2 V c) (bias2 V c) r q
  unfold entry2
  rw [blk2_bias V c t q]
  refine congrArg (fun s => s + bias2 V c (ix2 (0 : Fin 1) q)) ?_
  exact Finset.sum_congr rfl fun k _ => by rw [blk2_lhs V c t p k r hr, blk2_rhs V c t k q]

/-! ## The ten blocks cover the array -/

/-- An index of the result is in point `t`'s block iff each coordinate is in the block's range on its axis. -/
theorem mem_blk2 (t : Fin cfg2.N) (i : S10240x1024.Idx) :
    i ∈ ((cfg2.win 3).blk t).view.set ↔ ∀ a : Fin 2, win2_3.index t a * S1024x1024.size a ≤ (i a).val
      ∧ (i a).val < win2_3.index t a * S1024x1024.size a + S1024x1024.size a := by
  show i ∈ ((View.whole main_v69).slice (win2_3.rect t)).set ↔ _
  rw [View.set_slice_whole, Rect.mem_set_unit]
  exact Iff.rfl

/-- Row r lies in the block of point r / 1024, and every point writes its block back. -/
theorem cover2 (i : S10240x1024.Idx) :
    ∃ t : Fin cfg2.N, (cfg2.win 3).flush t = true ∧ i ∈ ((cfg2.win 3).blk t).view.set := by
  have hi0 : (i 0).val < 10240 := (i 0).isLt
  have hi1 : (i 1).val < 1024 := (i 1).isLt
  have hN : grid2.N = 10 := N_2
  obtain ⟨t, ht⟩ : ∃ t : Fin cfg2.N, t.val = (i 0).val / 1024 := ⟨⟨(i 0).val / 1024, by show _ < grid2.N; omega⟩, rfl⟩
  obtain ⟨-, -, -, -, -, -, e30, e31⟩ := blockIdx2 t
  refine ⟨t, flush2_3 t, ?_⟩
  rw [mem_blk2]
  intro a
  match a with
  | ⟨0, _⟩ => show win2_3.index t (0 : Fin 2) * 1024 ≤ (i 0).val ∧ (i 0).val < win2_3.index t (0 : Fin 2) * 1024 + 1024; omega
  | ⟨1, _⟩ => show win2_3.index t (1 : Fin 2) * 1024 ≤ (i 1).val ∧ (i 1).val < win2_3.index t (1 : Fin 2) * 1024 + 1024; omega

/-! ## The array when the region is left -/

/-- The result array after the ten write-backs is the whole function of the three arrays as the region found them. -/
theorem final2 (c : Dev nD) :
    (dat2 (F := Ideal) V c).arrAt 3 cfg2.N = whole2 (lhs2 V c) (rhs2 V c) (bias2 V c) :=
  (dat2 (F := Ideal) V c).arrAt_eq_of_cover 3 _ (fun t _ => flushed2_eq V c t) cover2

/-- Entry (p, q) of the result array after the region. -/
theorem val2 (c : Dev nD) (p : Fin 10240) (q : Fin 1024) :
    (dat2 (F := Ideal) V c).arrAt 3 cfg2.N (ix2 p q)
      = (∑ k : Fin 1024, lhs2 V c (ix2 p k) * rhs2 V c (ix2 k q)) + bias2 V c (ix2 (0 : Fin 1) q) := by
  rw [final2]; rfl

end Cert.KernelIdeal.Rg

end
-- ==== Proof.KI.Val3.lean ====
/- The aggregation region 3 (custom_call 3): the value of its result array when the region is left, at the buffer
   contents `V` found when it is entered. Every entry (p, q) of the 10240 × 1024 result is the sum over the 10240 indices j of
   (left operand at (p, j)) · (right operand at (j, q)), plus the bias row's entry q, rectified. The grid is 20 blocks of 512 rows
   by 10 tiles of 1024 indices of the shared axis: at tile 0 the accumulator is filled with zeros, every tile adds to it the
   product of the left operand's 512 × 1024 block with the 1024 rows of the right operand that the tile names, and at tile 9
   the accumulator plus the bias row is stored as the block of 512 rows of the result. Ten tiles regroup one finite sum, and
   the twenty blocks cover the 10240 rows. -/
import proofs.«181230_j19834158973077_2_alg».proof.Proof.KI.Reg3
import proofs.«181230_j19834158973077_2_alg».proof.Proof.AccEntry
import proofs.«181230_j19834158973077_2_alg».proof.Proof.Spec
import proofs.«181230_j19834158973077_2_alg».proof.Proof.SpecTiles
import Idealize.ShloMosaic.Lib.Pipeline.Value
import Idealize.ShloMosaic.Lib.ValueIdx

set_option maxRecDepth 16384

noncomputable section

namespace Cert.KernelIdeal.Rg

open Cert.KernelIdeal Cert.KernelIdeal.Gen
open Idealize.ShloMosaic Idealize.ShloMosaic.TcCoe Idealize.ShloMosaic.ValueIdx Idealize.SL.Sem Idealize.ShloMosaic.Tactic
open Idealize.ShloMosaic.Pipeline (Dat)

theorem zero_offsets3 : (![0, 0] : Fin 2 → Nat) = fun _ => 0 := funext fun a => by fin_cases a <;> rfl

/-! ## What each control case leaves, as the body's arithmetic over the blocks it loads

In every number format: the accumulator after tile 0 is the step applied to the zero fill; after a later tile the step
applied to what the tile before left; the result block at tile 9 is the last step applied to the accumulator. The right
operand is loaded through the rectangle of the 1024 rows the tile names. -/

section Pieces
variable {F : FTy → Type} [FloatOps F]

/-- Tile 0: the zero fill is stored whole, read back, and the first product added to it. -/
theorem acc3_Z_eq (c : Dev nD) (i : grid3.Coords) (arg2 : Memref sig .tc .vmem S512x1024 .bf16) (harg2 : arg2.IsWhole) (arg3 : Memref sig .tc .vmem S10240x1024 .bf16) (harg3 : arg3.IsWhole) (arg4 : Memref sig .tc .vmem S1x1024 .f32) (harg4 : arg4.IsWhole) (arg5 : Memref sig .tc .vmem S512x1024 .bf16) (harg5 : arg5.IsWhole) (arg6 : Memref sig .tc .vmem S512x1024 .f32) (harg6 : arg6.IsWhole) (hc0 : zeroC3 i) (hc1 : ¬flushC3 i)
    (x0 : Vec F S512x1024 .bf16) (x1 : Vec F S10240x1024 .bf16) (x2 : Vec F S1x1024 .f32) :
    acc3_Z c i arg2 harg2 arg3 harg3 arg4 harg4 arg5 harg5 arg6 harg6 hc0 hc1 x0 x1 x2
      = k3_pay2 (View.ld x1 (Rect.unit (s := S10240x1024) (k3_off1 i) S1024x1024.size (k3_off1_inb i))) k3_pay1 x0 := by
  unfold acc3_Z
  rw [View.read_writes_eq_canon _ _ _ (scover3_Z c i arg2 harg2 arg3 harg3 arg4 harg4 arg5 harg5 arg6 harg6 hc0 hc1 x0 x1 x2)]
  unfold runZero3
  dsimp only
  try sl_unfold_words
  rw [View.canon_cons_unit_zero (S := S512x1024) zero_offsets3, View.readCov_unit_zero (S := S512x1024) _ zero_offsets3]
  simp only [View.readAt_eq_ld, harg2.read_unread, harg3.read_unread, harg4.read_unread, harg6.read_unread,
    View.ld_unit_zero (S := S512x1024) zero_offsets3, View.ld_unit_zero (S := S512x1024) zero_offsets3, View.ld_unit_zero (S := S1x1024) zero_offsets3]

/-- A tile strictly between the first and the last: the product added to what the tile before left. -/
theorem acc3_M_eq (c : Dev nD) (i : grid3.Coords) (arg2 : Memref sig .tc .vmem S512x1024 .bf16) (harg2 : arg2.IsWhole) (arg3 : Memref sig .tc .vmem S10240x1024 .bf16) (harg3 : arg3.IsWhole) (arg4 : Memref sig .tc .vmem S1x1024 .f32) (harg4 : arg4.IsWhole) (arg5 : Memref sig .tc .vmem S512x1024 .bf16) (harg5 : arg5.IsWhole) (arg6 : Memref sig .tc .vmem S512x1024 .f32) (harg6 : arg6.IsWhole) (hc0 : ¬zeroC3 i) (hc1 : ¬flushC3 i)
    (x0 : Vec F S512x1024 .bf16) (x1 : Vec F S10240x1024 .bf16) (x2 : Vec F S1x1024 .f32) (xs : Vec F S512x1024 .f32) :
    acc3_M c i arg2 harg2 arg3 harg3 arg4 harg4 arg5 harg5 arg6 harg6 hc0 hc1 x0 x1 x2 xs
      = k3_pay2 (View.ld x1 (Rect.unit (s := S10240x1024) (k3_off1 i) S1024x1024.size (k3_off1_inb i))) xs x0 := by
  unfold acc3_M
  rw [View.read_writes_eq_canon _ _ _ (scover3_M c i arg2 harg2 arg3 harg3 arg4 harg4 arg5 harg5 arg6 harg6 hc0 hc1 x0 x1 x2 xs)]
  unfold runMid3
  dsimp only
  try sl_unfold_words
  rw [View.canon_unit_zero zero_offsets3]
  simp only [View.readAt_eq_ld, harg2.read_unread, harg3.read_unread, harg4.read_unread, harg6.read_unread,
    View.ld_unit_zero (S := S512x1024) zero_offsets3, View.ld_unit_zero (S := S512x1024) zero_offsets3, View.ld_unit_zero (S := S1x1024) zero_offsets3]

/-- Tile 9, the accumulator: as for a middle tile. -/
theorem acc3_L_eq (c : Dev nD) (i : grid3.Coords) (arg2 : Memref sig .tc .vmem S512x1024 .bf16) (harg2 : arg2.IsWhole) (arg3 : Memref sig .tc .vmem S10240x1024 .bf16) (harg3 : arg3.IsWhole) (arg4 : Memref sig .tc .vmem S1x1024 .f32) (harg4 : arg4.IsWhole) (arg5 : Memref sig .tc .vmem S512x1024 .bf16) (harg5 : arg5.IsWhole) (arg6 : Memref sig .tc .vmem S512x1024 .f32) (harg6 : arg6.IsWhole) (hc0 : ¬zeroC3 i) (hc1 : flushC3 i)
    (x0 : Vec F S512x1024 .bf16) (x1 : Vec F S10240x1024 .bf16) (x2 : Vec F S1x1024 .f32) (xs : Vec F S512x1024 .f32) :
    acc3_L c i arg2 harg2 arg3 harg3 arg4 harg4 arg5 harg5 arg6 harg6 hc0 hc1 x0 x1 x2 xs
      = k3_pay2 (View.ld x1 (Rect.unit (s := S10240x1024) (k3_off1 i) S1024x1024.size (k3_off1_inb i))) xs x0 := by
  unfold acc3_L
  rw [View.read_writes_eq_canon _ _ _ (scover3_L c i arg2 harg2 arg3 harg3 arg4 harg4 arg5 harg5 arg6 harg6 hc0 hc1 x0 x1 x2 xs)]
  unfold runLast3
  dsimp only
  try sl_unfold_words
  rw [View.canon_unit_zero zero_offsets3]
  simp only [View.readAt_eq_ld, harg2.read_unread, harg3.read_unread, harg4.read_unread, harg6.read_unread,
    View.ld_unit_zero (S := S512x1024) zero_offsets3, View.ld_unit_zero (S := S512x1024) zero_offsets3, View.ld_unit_zero (S := S1x1024) zero_offsets3]

/-- Tile 9, the result block: the last step applied to the accumulator just stored and read back. -/
theorem out3_L_eq (c : Dev nD) (i : grid3.Coords) (arg2 : Memref sig .tc .vmem S512x1024 .bf16) (harg2 : arg2.IsWhole) (arg3 : Memref sig .tc .vmem S10240x1024 .bf16) (harg3 : arg3.IsWhole) (arg4 : Memref sig .tc .vmem S1x1024 .f32) (harg4 : arg4.IsWhole) (arg5 : Memref sig .tc .vmem S512x1024 .bf16) (harg5 : arg5.IsWhole) (arg6 : Memref sig .tc .vmem S512x1024 .f32) (harg6 : arg6.IsWhole) (hc0 : ¬zeroC3 i) (hc1 : flushC3 i)
    (x0 : Vec F S512x1024 .bf16) (x1 : Vec F S10240x1024 .bf16) (x2 : Vec F S1x1024 .f32) (xs : Vec F S512x1024 .f32) :
    out3_L_3 c i arg2 harg2 arg3 harg3 arg4 harg4 arg5 harg5 arg6 harg6 hc0 hc1 x0 x1 x2 xs
      = k3_pay3 (k3_pay2 (View.ld x1 (Rect.unit (s := S10240x1024) (k3_off1 i) S1024x1024.size (k3_off1_inb i))) xs x0) x2 := by
  unfold out3_L_3
  rw [View.read_writes_eq_canon _ _ _ (cover3_L_3 c i arg2 harg2 arg3 harg3 arg4 harg4 arg5 harg5 arg6 harg6 hc0 hc1 x0 x1 x2 xs)]
  unfold runLast3
  dsimp only
  try sl_unfold_words
  rw [View.canon_unit_zero zero_offsets3, View.readCov_unit_zero (S := S512x1024) _ zero_offsets3]
  simp only [View.readAt_eq_ld, harg2.read_unread, harg3.read_unread, harg4.read_unread, harg6.read_unread,
    View.ld_unit_zero (S := S512x1024) zero_offsets3, View.ld_unit_zero (S := S512x1024) zero_offsets3, View.ld_unit_zero (S := S1x1024) zero_offsets3]

end Pieces

/-! ## The body's arithmetic at an entry, on the extended reals -/

/-- The zero fill reads 0. -/
theorem pay1_at3 (r : Fin 512) (q : Fin 1024) : k3_pay1 (F := Ideal) (ix2 r q) = (0 : EReal) := by
  unfold k3_pay1
  exact Cert.AccEntry.zero_fill_at 512 1024 _ r q

/-- Row r of a 512 × 1024 block against column q of a 1024 × 1024 block. -/
def stepSum3 (x : S512x1024.Idx → EReal) (w : S1024x1024.Idx → EReal) (r : Fin 512) (q : Fin 1024) : EReal :=
  ∑ k : Fin 1024, x (ix2 r k) * w (ix2 k q)

/-- One step: the accumulator's entry plus row r of the left block against column q of the right block. -/
theorem pay2_at3 (v6 : FVec Ideal S1024x1024 .bf16) (v8 : FVec Ideal S512x1024 .f32) (v9 : FVec Ideal S512x1024 .bf16)
    (r : Fin 512) (q : Fin 1024) :
    k3_pay2 (F := Ideal) v6 v8 v9 (ix2 r q) = v8 (ix2 r q) + stepSum3 v9 v6 r q := by
  unfold k3_pay2
  exact Cert.AccEntry.acc_step_at (φ₁ := .bf16) (φ₂ := .bf16) 512 1024 1024 _ rfl v9 v6 v8 _ _ _ r q

/-- The last step: the accumulator's entry plus the bias entry of column q, rectified. -/
theorem pay3_at3 (v19 : FVec Ideal S512x1024 .f32) (v20 : FVec Ideal S1x1024 .f32) (r : Fin 512) (q : Fin 1024) :
    k3_pay3 (F := Ideal) v19 v20 (ix2 r q) = Cert.Spec.relu (v19 (ix2 r q) + v20 (ix2 (0 : Fin 1) q)) := by
  unfold k3_pay3
  exact Cert.AccEntry.flush_relu_at (ψ := .bf16) 512 1024 v19 v20 _ _ _ r q

/-! ## Where the blocks sit -/

/-- Over the 200 grid points: the left operand's block is (point / 10, point % 10); the right operand and the bias row are
    read whole; the result's block is (point / 10, 0); the tile coordinate is point % 10. -/
theorem pointIdx3 : ∀ t : Fin cfg3.N,
      win3_0.index t (0 : Fin 2) = t.val / 10 ∧ win3_0.index t (1 : Fin 2) = t.val % 10
    ∧ win3_1.index t (0 : Fin 2) = 0 ∧ win3_1.index t (1 : Fin 2) = 0
    ∧ win3_2.index t (0 : Fin 2) = 0 ∧ win3_2.index t (1 : Fin 2) = 0
    ∧ win3_3.index t (0 : Fin 2) = t.val / 10 ∧ win3_3.index t (1 : Fin 2) = 0
    ∧ ((grid3.coords t) 1).val = t.val % 10 :=
  (by decide +kernel : ∀ t : Fin grid3.N, _)

/-- Row r of the block of 512 rows that point n works on. -/
def rowAt3 (n : ℕ) (r : Fin 512) : Fin 10240 := ⟨512 * (n / 10 % 20) + r.val, by omega⟩

/-- The tile that point n adds. -/
def tileAt3 (n : ℕ) : Fin 10 := ⟨n % 10, Nat.mod_lt n (by decide)⟩

/-- The rows of the right operand loaded at a point, at an entry: row 1024 · tile + k of the operand. -/
theorem slice_at3 (i : grid3.Coords) (X : Vec Ideal S10240x1024 .bf16) (k : Fin 1024) (q : Fin 1024) (j : Fin 10240)
    (hj : j.val = 1024 * (i 1).val + k.val) :
    View.ld (Val := Elt Ideal) (e' := .bf16) X (Rect.unit (s := S10240x1024) (k3_off1 i) S1024x1024.size (k3_off1_inb i)) (ix2 k q) = X (ix2 j q) := by
  have e0 : k3_off1 i 0 = 1024 * (i 1).val := (congrFun (k3_off1_eq i) 0).trans rfl
  have e1 : k3_off1 i 1 = 0 := (congrFun (k3_off1_eq i) 1).trans rfl
  show X _ = X _
  congr 1
  funext a; apply Fin.ext
  match a with
  | ⟨0, _⟩ => show k3_off1 i 0 + 1 * k.val = j.val; omega
  | ⟨1, _⟩ => show k3_off1 i 1 + 1 * q.val = q.val; omega

-- the TensorCore's buffer contents when the region is entered, on the extended reals
variable (V : (c : Dev nD) → (b : Ref sig .tc) → Buf (Elt Ideal) ((c : Thread nD τ).loc b))

/-- The left operand's block at point t, at (r, k): the left array at (row r of the point's block, index k of its tile). -/
theorem blkA_at3 (c : Dev nD) (t : Fin cfg3.N) (r : Fin 512) (k : Fin 1024) :
    (iblk3 (F := Ideal) V c 0 t : S512x1024.Idx → EReal) (ix2 r k)
      = (V c (Pipeline.arrRef spec3 0) : S10240x10240.Idx → EReal) (ix2 (rowAt3 t.val r) (Cert.Spec.tileIdx (tileAt3 t.val) k)) := by
  obtain ⟨e00, e01, -⟩ := pointIdx3 t
  have hN : t.val < 200 := lt_of_lt_of_eq t.isLt (show cfg3.N = 200 from N_3)
  show (V c (Pipeline.arrRef spec3 0) : S10240x10240.Idx → EReal) (((cfg3.win 0).blk t).view.emb (ix2 r k)) = _
  congr 1
  funext a; apply Fin.ext
  match a with
  | ⟨0, _⟩ => show win3_0.index t (0 : Fin 2) * 512 + 1 * r.val = 512 * (t.val / 10 % 20) + r.val; omega
  | ⟨1, _⟩ => show win3_0.index t (1 : Fin 2) * 1024 + 1 * k.val = t.val % 10 * 1024 + k.val; omega

/-- The right operand is resident whole: its block at any point is the array. -/
theorem blkH_at3 (c : Dev nD) (t : Fin cfg3.N) (j : Fin 10240) (q : Fin 1024) :
    (iblk3 (F := Ideal) V c 1 t : S10240x1024.Idx → EReal) (ix2 j q) = (V c (Pipeline.arrRef spec3 1) : S10240x1024.Idx → EReal) (ix2 j q) := by
  obtain ⟨-, -, e10, e11, -⟩ := pointIdx3 t
  show (V c (Pipeline.arrRef spec3 1) : S10240x1024.Idx → EReal) (((cfg3.win 1).blk t).view.emb (ix2 j q)) = _
  congr 1
  funext a; apply Fin.ext
  match a with
  | ⟨0, _⟩ => show win3_1.index t (0 : Fin 2) * 10240 + 1 * j.val = j.val; omega
  | ⟨1, _⟩ => show win3_1.index t (1 : Fin 2) * 1024 + 1 * q.val = q.val; omega

/-- So is the bias row. -/
theorem blkB_at3 (c : Dev nD) (t : Fin cfg3.N) (q : Fin 1024) :
    (iblk3 (F := Ideal) V c 2 t : S1x1024.Idx → EReal) (ix2 (0 : Fin 1) q) = (V c (Pipeline.arrRef spec3 2) : S1x1024.Idx → EReal) (ix2 (0 : Fin 1) q) := by
  obtain ⟨-, -, -, -, e20, e21, -⟩ := pointIdx3 t
  show (V c (Pipeline.arrRef spec3 2) : S1x1024.Idx → EReal) (((cfg3.win 2).blk t).view.emb (ix2 (0 : Fin 1) q)) = _
  congr 1
  funext a; apply Fin.ext
  match a with
  | ⟨0, _⟩ => show win3_2.index t (0 : Fin 2) * 1 + 1 * 0 = 0; omega
  | ⟨1, _⟩ => show win3_2.index t (1 : Fin 2) * 1024 + 1 * q.val = q.val; omega

/-! ## The accumulator, point by point -/

/-- The products summed along the shared axis for the entry (row r of point n's block, column q), of any two arrays, -/
def termOf3 (A : S10240x10240.Idx → EReal) (H : S10240x1024.Idx → EReal) (n : ℕ) (r : Fin 512) (q : Fin 1024) : Fin 10240 → EReal :=
  fun j => A (ix2 (rowAt3 n r) j) * H (ix2 j q)

/-- and of the two operands as the region finds them. -/
def term3 (c : Dev nD) (n : ℕ) (r : Fin 512) (q : Fin 1024) : Fin 10240 → EReal :=
  termOf3 (V c (Pipeline.arrRef spec3 0)) (V c (Pipeline.arrRef spec3 1)) n r q

/-- What a point adds at entry (r, q): the sum of the products over the indices of the point's tile. -/
theorem step_sum3 (c : Dev nD) (t : Fin cfg3.N) (r : Fin 512) (q : Fin 1024) :
    stepSum3 (iblk3 (F := Ideal) V c 0 t)
        (View.ld (Val := Elt Ideal) (e' := .bf16) (iblk3 (F := Ideal) V c 1 t : Vec Ideal S10240x1024 .bf16) (Rect.unit (s := S10240x1024) (k3_off1 (grid3.coords t)) S1024x1024.size (k3_off1_inb (grid3.coords t)))) r q
      = ∑ k : Fin 1024, term3 V c t.val r q (Cert.Spec.tileIdx (tileAt3 t.val) k) := by
  obtain ⟨-, -, -, -, -, -, -, -, eg⟩ := pointIdx3 t
  unfold stepSum3
  refine Finset.sum_congr rfl fun k _ => ?_
  have hj : (Cert.Spec.tileIdx (tileAt3 t.val) k).val = 1024 * ((grid3.coords t) 1).val + k.val := by
    show t.val % 10 * 1024 + k.val = _; omega
  exact congrArg₂ (fun (a b : EReal) => a * b) (blkA_at3 V c t r k)
    ((slice_at3 (grid3.coords t) (iblk3 (F := Ideal) V c 1 t) k q (Cert.Spec.tileIdx (tileAt3 t.val) k) hj).trans
      (blkH_at3 V c t (Cert.Spec.tileIdx (tileAt3 t.val) k) q))

/-- At tile 0 the accumulator's entry is 0 plus the tile's sum. -/
theorem accZ_at3 (c : Dev nD) (t : Fin cfg3.N) (h0 : t.val % 10 = 0) (r : Fin 512) (q : Fin 1024) :
    ((outsAt3 (F := Ideal) V c t.val t.isLt).2 : S512x1024.Idx → EReal) (ix2 r q)
      = 0 + ∑ k : Fin 1024, term3 V c t.val r q (Cert.Spec.tileIdx (tileAt3 t.val) k) := by
  have h1 : ¬t.val % 10 = 9 := by omega
  rw [outsAt3_Z V c t h0 h1]
  dsimp only
  refine (congrFun (acc3_Z_eq (F := Ideal) c (grid3.coords t) (mA3 t) (hA3 t) (mB3 t) (hB3 t) (mC3 t) (hC3 t) (mO3 t) (hO3 t) mS3 (Memref.isWhole_whole _) ((zeroC3_iff t).mpr h0) (fun h => h1 ((flushC3_iff t).mp h)) (iblk3 V c 0 t) (iblk3 V c 1 t) (iblk3 V c 2 t)) (ix2 r q)).trans ?_
  refine (pay2_at3 _ _ _ r q).trans ?_
  exact congrArg₂ (fun (a b : EReal) => a + b) (pay1_at3 r q) (step_sum3 V c t r q)

/-- At a later tile it is the entry the point before left plus the tile's sum. -/
theorem accS_at3 (c : Dev nD) (t : Fin cfg3.N) (h0 : ¬t.val % 10 = 0) (r : Fin 512) (q : Fin 1024) :
    ((outsAt3 (F := Ideal) V c t.val t.isLt).2 : S512x1024.Idx → EReal) (ix2 r q)
      = ((outsAt3 V c (t.val - 1) (Nat.lt_of_le_of_lt (Nat.sub_le _ _) t.isLt)).2 : S512x1024.Idx → EReal) (ix2 r q)
        + ∑ k : Fin 1024, term3 V c t.val r q (Cert.Spec.tileIdx (tileAt3 t.val) k) := by
  by_cases h1 : t.val % 10 = 9
  · rw [outsAt3_L V c t h0 h1]
    dsimp only
    refine (congrFun (acc3_L_eq (F := Ideal) c (grid3.coords t) (mA3 t) (hA3 t) (mB3 t) (hB3 t) (mC3 t) (hC3 t) (mO3 t) (hO3 t) mS3 (Memref.isWhole_whole _) (fun h => h0 ((zeroC3_iff t).mp h)) ((flushC3_iff t).mpr h1) (iblk3 V c 0 t) (iblk3 V c 1 t) (iblk3 V c 2 t) (outsAt3 V c (t.val - 1) (Nat.lt_of_le_of_lt (Nat.sub_le _ _) t.isLt)).2) (ix2 r q)).trans ?_
    refine (pay2_at3 _ _ _ r q).trans ?_
    exact congrArg (fun (b : EReal) => _ + b) (step_sum3 V c t r q)
  · rw [outsAt3_M V c t h0 h1]
    dsimp only
    refine (congrFun (acc3_M_eq (F := Ideal) c (grid3.coords t) (mA3 t) (hA3 t) (mB3 t) (hB3 t) (mC3 t) (hC3 t) (mO3 t) (hO3 t) mS3 (Memref.isWhole_whole _) (fun h => h0 ((zeroC3_iff t).mp h)) (fun h => h1 ((flushC3_iff t).mp h)) (iblk3 V c 0 t) (iblk3 V c 1 t) (iblk3 V c 2 t) (outsAt3 V c (t.val - 1) (Nat.lt_of_le_of_lt (Nat.sub_le _ _) t.isLt)).2) (ix2 r q)).trans ?_
    refine (pay2_at3 _ _ _ r q).trans ?_
    exact congrArg (fun (b : EReal) => _ + b) (step_sum3 V c t r q)

/-- Adding a tile's sum to the accumulator after the tiles before it is the accumulator after one more tile. -/
theorem tile_step3 (g : Fin 10240 → EReal) (n : ℕ) (a : EReal) (ha : a = Cert.Spec.tileAcc g (n % 10)) :
    a + ∑ k : Fin 1024, g (Cert.Spec.tileIdx (tileAt3 n) k) = Cert.Spec.tileAcc g (n % 10 + 1) := by
  rw [ha]
  exact (Cert.Spec.tileAcc_succ g (n % 10) (Nat.mod_lt n (by decide))).symm

/-- THE INVARIANT: after point n the accumulator's entry (r, q) is the sum of the products over the tiles 0 … n % 10 of
    the shared axis, for the row r of the point's block. By induction on the point: a point that is not at tile 0 works on
    the same block of rows as the point before it. -/
theorem acc_inv3 (c : Dev nD) : ∀ (n : ℕ) (h : n < cfg3.N) (r : Fin 512) (q : Fin 1024),
    ((outsAt3 (F := Ideal) V c n h).2 : S512x1024.Idx → EReal) (ix2 r q)
      = Cert.Spec.tileAcc (term3 V c n r q) (n % 10 + 1) := by
  intro n
  induction n with
  | zero =>
    intro h r q
    exact (accZ_at3 V c ⟨0, h⟩ (Nat.zero_mod 10) r q).trans (tile_step3 (term3 V c 0 r q) 0 0 rfl)
  | succ n ih =>
    intro h r q
    by_cases h0 : (n + 1) % 10 = 0
    · refine (accZ_at3 V c ⟨n + 1, h⟩ h0 r q).trans (tile_step3 (term3 V c (n + 1) r q) (n + 1) 0 ?_)
      rw [h0]; rfl
    · have e1 : ((outsAt3 (F := Ideal) V c (n + 1) h).2 : S512x1024.Idx → EReal) (ix2 r q)
          = ((outsAt3 (F := Ideal) V c n (Nat.lt_of_succ_lt h)).2 : S512x1024.Idx → EReal) (ix2 r q)
            + ∑ k : Fin 1024, term3 V c (n + 1) r q (Cert.Spec.tileIdx (tileAt3 (n + 1)) k) :=
        accS_at3 V c ⟨n + 1, h⟩ h0 r q
      have e2 : ((outsAt3 (F := Ideal) V c n (Nat.lt_of_succ_lt h)).2 : S512x1024.Idx → EReal) (ix2 r q)
          = Cert.Spec.tileAcc (term3 V c n r q) (n % 10 + 1) := ih (Nat.lt_of_succ_lt h) r q
      have e3 : rowAt3 n r = rowAt3 (n + 1) r := Fin.ext (by show 512 * (n / 10 % 20) + r.val = 512 * ((n + 1) / 10 % 20) + r.val; omega)
      have e4 : term3 V c n r q = term3 V c (n + 1) r q := by unfold term3 termOf3; rw [e3]
      have e5 : n % 10 + 1 = (n + 1) % 10 := by omega
      rw [e1, e2, e4, e5]
      exact tile_step3 (term3 V c (n + 1) r q) (n + 1) _ rfl

/-! ## The result block at tile 9 -/

/-- At tile 9 the result buffer's entry is the accumulator's entry plus the bias entry of the column, rectified. -/
theorem out_at3 (c : Dev nD) (t : Fin cfg3.N) (h1 : t.val % 10 = 9) (r : Fin 512) (q : Fin 1024) :
    ((outsAt3 (F := Ideal) V c t.val t.isLt).1 : S512x1024.Idx → EReal) (ix2 r q)
      = Cert.Spec.relu (((outsAt3 (F := Ideal) V c t.val t.isLt).2 : S512x1024.Idx → EReal) (ix2 r q) + (V c (Pipeline.arrRef spec3 2) : S1x1024.Idx → EReal) (ix2 (0 : Fin 1) q)) := by
  have h0 : ¬t.val % 10 = 0 := by omega
  rw [outsAt3_L V c t h0 h1]
  dsimp only
  rw [out3_L_eq (F := Ideal) c (grid3.coords t) (mA3 t) (hA3 t) (mB3 t) (hB3 t) (mC3 t) (hC3 t) (mO3 t) (hO3 t) mS3 (Memref.isWhole_whole _) (fun h => h0 ((zeroC3_iff t).mp h)) ((flushC3_iff t).mpr h1) (iblk3 V c 0 t) (iblk3 V c 1 t) (iblk3 V c 2 t) (outsAt3 V c (t.val - 1) (Nat.lt_of_le_of_lt (Nat.sub_le _ _) t.isLt)).2,
    acc3_L_eq (F := Ideal) c (grid3.coords t) (mA3 t) (hA3 t) (mB3 t) (hB3 t) (mC3 t) (hC3 t) (mO3 t) (hO3 t) mS3 (Memref.isWhole_whole _) (fun h => h0 ((zeroC3_iff t).mp h)) ((flushC3_iff t).mpr h1) (iblk3 V c 0 t) (iblk3 V c 1 t) (iblk3 V c 2 t) (outsAt3 V c (t.val - 1) (Nat.lt_of_le_of_lt (Nat.sub_le _ _) t.isLt)).2]
  refine (pay3_at3 _ _ r q).trans ?_
  exact congrArg (fun z => Cert.Spec.relu (_ + z)) (blkB_at3 V c t q)

/-! ## The result as one function of the three arrays -/

/-- Entry (p, q): row p of the left operand against column q of the right operand over all 10240 indices, plus the bias
    entry q, rectified. -/
def entry3 (A : S10240x10240.Idx → EReal) (H : S10240x1024.Idx → EReal) (B : S1x1024.Idx → EReal) (p : Fin 10240) (q : Fin 1024) : EReal :=
  Cert.Spec.relu ((∑ j : Fin 10240, A (ix2 p j) * H (ix2 j q)) + B (ix2 (0 : Fin 1) q))

/-- The whole result array, index by index. -/
def whole3 (A : S10240x10240.Idx → EReal) (H : S10240x1024.Idx → EReal) (B : S1x1024.Idx → EReal) : S10240x1024.Idx → EReal :=
  fun i => entry3 A H B (i 0) (i 1)

/-- What a point at tile 9 writes back is its block of 512 rows of the whole result: the accumulator holds the sum over
    all ten tiles, which is the sum over the 10240 indices. -/
theorem flushed3_eq (c : Dev nD) (t : Fin cfg3.N) (hf : (cfg3.win 3).flush t = true) :
    (dat3 (F := Ideal) V c).flushed 3 t
      = ((cfg3.win 3).blk t).view.read (Elt Ideal)
          (whole3 (V c (Pipeline.arrRef spec3 0)) (V c (Pipeline.arrRef spec3 1)) (V c (Pipeline.arrRef spec3 2))) := by
  have h1 : t.val % 10 = 9 := (flush3_3 t).mp hf
  have hN : t.val < 200 := lt_of_lt_of_eq t.isLt (show cfg3.N = 200 from N_3)
  obtain ⟨-, -, -, -, -, -, e30, e31, -⟩ := pointIdx3 t
  show (cfg3.win 3).cut (grid3.coords t) ((dat3 V c).after 3 t) = _
  rw [after3_3]
  funext j
  obtain ⟨r, q, rfl⟩ : ∃ (r : Fin 512) (q : Fin 1024), j = ix2 r q := ⟨j 0, j 1, eq_ix2 j⟩
  refine (out_at3 V c t h1 r q).trans ?_
  have hacc : ((outsAt3 (F := Ideal) V c t.val t.isLt).2 : S512x1024.Idx → EReal) (ix2 r q)
      = ∑ j : Fin 10240, term3 V c t.val r q j := by
    refine (acc_inv3 V c t.val t.isLt r q).trans ?_
    rw [h1]
    exact Cert.Spec.tileAcc_ten _
  rw [hacc]
  have hp : ((((cfg3.win 3).blk t).view.emb (ix2 r q)) 0 : Fin 10240) = rowAt3 t.val r :=
    Fin.ext (by show win3_3.index t (0 : Fin 2) * 512 + 1 * r.val = 512 * (t.val / 10 % 20) + r.val; omega)
  have hq : ((((cfg3.win 3).blk t).view.emb (ix2 r q)) 1 : Fin 1024) = q :=
    Fin.ext (by show win3_3.index t (1 : Fin 2) * 1024 + 1 * q.val = q.val; omega)
  exact (congrArg₂ (entry3 (V c (Pipeline.arrRef spec3 0)) (V c (Pipeline.arrRef spec3 1)) (V c (Pipeline.arrRef spec3 2))) hp hq).symm

/-! ## The twenty blocks cover the array -/

/-- An index of the result is in point `t`'s block iff each coordinate is in the block's range on its axis. -/
theorem mem_blk3 (t : Fin cfg3.N) (i : S10240x1024.Idx) :
    i ∈ ((cfg3.win 3).blk t).view.set ↔ ∀ a : Fin 2, win3_3.index t a * S512x1024.size a ≤ (i a).val
      ∧ (i a).val < win3_3.index t a * S512x1024.size a + S512x1024.size a := by
  show i ∈ ((View.whole main_v71).slice (win3_3.rect t)).set ↔ _
  rw [View.set_slice_whole, Rect.mem_set_unit]
  exact Iff.rfl

/-- Row p lies in the block of the points of row block p / 512, and the point at tile 9 of that row block writes it back. -/
theorem cover3 (i : S10240x1024.Idx) :
    ∃ t : Fin cfg3.N, (cfg3.win 3).flush t = true ∧ i ∈ ((cfg3.win 3).blk t).view.set := by
  have hi0 : (i 0).val < 10240 := (i 0).isLt
  have hi1 : (i 1).val < 1024 := (i 1).isLt
  have hN : grid3.N = 200 := N_3
  obtain ⟨t, ht⟩ : ∃ t : Fin cfg3.N, t.val = 10 * ((i 0).val / 512) + 9 :=
    ⟨⟨10 * ((i 0).val / 512) + 9, by show _ < grid3.N; omega⟩, rfl⟩
  obtain ⟨-, -, -, -, -, -, e30, e31, -⟩ := pointIdx3 t
  refine ⟨t, (flush3_3 t).mpr (by omega), ?_⟩
  rw [mem_blk3]
  intro a
  match a with
  | ⟨0, _⟩ => show win3_3.index t (0 : Fin 2) * 512 ≤ (i 0).val ∧ (i 0).val < win3_3.index t (0 : Fin 2) * 512 + 512; omega
  | ⟨1, _⟩ => show win3_3.index t (1 : Fin 2) * 1024 ≤ (i 1).val ∧ (i 1).val < win3_3.index t (1 : Fin 2) * 1024 + 1024; omega

/-! ## The array when the region is left -/

/-- The result array after the twenty write-backs is the whole function of the three arrays as the region found them. -/
theorem final3 (c : Dev nD) :
    (dat3 (F := Ideal) V c).arrAt 3 cfg3.N
      = whole3 (V c (Pipeline.arrRef spec3 0)) (V c (Pipeline.arrRef spec3 1)) (V c (Pipeline.arrRef spec3 2)) :=
  (dat3 (F := Ideal) V c).arrAt_eq_of_cover 3 _ (fun t hf => flushed3_eq V c t hf) cover3

/-- Entry (p, q) of the result array after the region. -/
theorem val3 (c : Dev nD) (p : Fin 10240) (q : Fin 1024) :
    (dat3 (F := Ideal) V c).arrAt 3 cfg3.N (ix2 p q)
      = entry3 (V c (Pipeline.arrRef spec3 0)) (V c (Pipeline.arrRef spec3 1)) (V c (Pipeline.arrRef spec3 2)) p q := by
  rw [final3]; rfl

/-- The entry written out. -/
theorem entry3_eq (A : S10240x10240.Idx → EReal) (H : S10240x1024.Idx → EReal) (B : S1x1024.Idx → EReal) (p : Fin 10240) (q : Fin 1024) :
    entry3 A H B p q = Cert.Spec.relu ((∑ j : Fin 10240, A (ix2 p j) * H (ix2 j q)) + B (ix2 (0 : Fin 1) q)) := rfl

end Cert.KernelIdeal.Rg

end
-- ==== Proof.KI.Val4.lean ====
/- Stage-1 region 4 (custom_call 4): the value of its result array when the region is left, at the buffer
   contents `V` found when it is entered. Every entry (p, q) of the 10240 × 1024 result is the sum over the shared
   axis of (left operand at (p, k)) · (right operand at (k, q)), plus the bias row's entry q (no rectifier here): each grid
   point writes one block of 1024 rows of that one array, and the ten blocks cover its 10240 rows. -/
import proofs.«181230_j19834158973077_2_alg».proof.Proof.KI.Reg4
import proofs.«181230_j19834158973077_2_alg».proof.Proof.AffineEntry
import proofs.«181230_j19834158973077_2_alg».proof.Proof.Spec
import Idealize.ShloMosaic.Lib.Pipeline.Value
import Idealize.ShloMosaic.Lib.ValueIdx

set_option maxRecDepth 16384

noncomputable section

namespace Cert.KernelIdeal.Rg

open Cert.KernelIdeal Cert.KernelIdeal.Gen
open Idealize.ShloMosaic Idealize.ShloMosaic.TcCoe Idealize.ShloMosaic.ValueIdx Idealize.SL.Sem
open Idealize.ShloMosaic.Pipeline (Dat)

-- the TensorCore's buffer contents when the region is entered, on the extended reals
variable (V : (c : Dev nD) → (b : Ref sig .tc) → Buf (Elt Ideal) ((c : Thread nD τ).loc b))

/-! ## The three arrays the region reads, and the result as one function of them -/

/-- The left operand (10240 rows), the right operand and the bias row, as the region finds them. -/
abbrev lhs4 (c : Dev nD) : S10240x1024.Idx → EReal := V c (Pipeline.arrRef spec4 0)
abbrev rhs4 (c : Dev nD) : S1024x1024.Idx → EReal := V c (Pipeline.arrRef spec4 1)
abbrev bias4 (c : Dev nD) : S1x1024.Idx → EReal := V c (Pipeline.arrRef spec4 2)

/-- Entry (p, q): the row p of the left operand against the column q of the right operand, plus the bias entry q. -/
def entry4 (X : S10240x1024.Idx → EReal) (W : S1024x1024.Idx → EReal) (B : S1x1024.Idx → EReal) (p : Fin 10240) (q : Fin 1024) : EReal :=
  (∑ k : Fin 1024, X (ix2 p k) * W (ix2 k q)) + B (ix2 (0 : Fin 1) q)

/-- The whole result array, index by index. -/
def whole4 (X : S10240x1024.Idx → EReal) (W : S1024x1024.Idx → EReal) (B : S1x1024.Idx → EReal) : S10240x1024.Idx → EReal :=
  fun i => entry4 X W B (i 0) (i 1)

/-! ## The body's payload at an entry of the block -/

/-- What the body stores, at entry (p, q) of the block, from the three blocks it loads: the product accumulated from
    zero plus the repeated bias row; the casts to the same shape and the change of format are identities. -/
theorem pay4_apply (x0 : FVec Ideal S1024x1024 .bf16) (x1 : FVec Ideal S1024x1024 .bf16) (x2 : FVec Ideal S1x1024 .f32)
    (p : Fin 1024) (q : Fin 1024) :
    k4_pay1 (F := Ideal) x0 x1 x2 (ix2 p q)
      = (∑ k : Fin 1024, x0 (ix2 p k) * x1 (ix2 k q)) + x2 (ix2 (0 : Fin 1) q) := by
  unfold k4_pay1
  exact Cert.AffineEntry.affine_at (φ₁ := .bf16) (φ₂ := .bf16) (ψ := .bf16) 1024 1024 1024 _ rfl x0 x1 x2 _ _ _ _ _ p q

/-! ## Where each block sits -/

theorem zero_offsets4 : (![0, 0] : Fin 2 → Nat) = fun _ => 0 := funext fun a => by fin_cases a <;> rfl

/-- The index maps over the ten grid points: the left operand's row block and the result's row block are both the
    point's number; on the column axis, and for the right operand and the bias row, every block index is zero. -/
theorem blockIdx4 : ∀ t : Fin cfg4.N,
      win4_0.index t (0 : Fin 2) = t.val ∧ win4_0.index t (1 : Fin 2) = 0
    ∧ win4_1.index t (0 : Fin 2) = 0 ∧ win4_1.index t (1 : Fin 2) = 0
    ∧ win4_2.index t (0 : Fin 2) = 0 ∧ win4_2.index t (1 : Fin 2) = 0
    ∧ win4_3.index t (0 : Fin 2) = t.val ∧ win4_3.index t (1 : Fin 2) = 0 :=
  (by decide +kernel : ∀ t : Fin grid4.N, _)

/-! ## The blocks at a point, read in their arrays

A block's element sits, on each axis, at block index × block size + its coordinate inside the block. -/

/-- The left operand's block at point `t` is rows [1024 t, 1024 t + 1024) of the left array. -/
theorem blk4_lhs (c : Dev nD) (t : Fin cfg4.N) (p : Fin 1024) (k : Fin 1024) (r : Fin 10240)
    (hr : r.val = t.val * 1024 + p.val) : iblk4 V c 0 t (ix2 p k) = lhs4 V c (ix2 r k) := by
  obtain ⟨e00, e01, -⟩ := blockIdx4 t
  show lhs4 V c (((cfg4.win 0).blk t).view.emb (ix2 p k)) = lhs4 V c (ix2 r k)
  refine congrArg (lhs4 V c) ?_
  funext a; apply Fin.ext
  match a with
  | ⟨0, _⟩ => show win4_0.index t (0 : Fin 2) * 1024 + 1 * p.val = r.val; omega
  | ⟨1, _⟩ => show win4_0.index t (1 : Fin 2) * 1024 + 1 * k.val = k.val; omega

/-- The right operand's block at every point is the whole right array. -/
theorem blk4_rhs (c : Dev nD) (t : Fin cfg4.N) (k : Fin 1024) (q : Fin 1024) :
    iblk4 V c 1 t (ix2 k q) = rhs4 V c (ix2 k q) := by
  obtain ⟨-, -, e10, e11, -⟩ := blockIdx4 t
  show rhs4 V c (((cfg4.win 1).blk t).view.emb (ix2 k q)) = rhs4 V c (ix2 k q)
  refine congrArg (rhs4 V c) ?_
  funext a; apply Fin.ext
  match a with
  | ⟨0, _⟩ => show win4_1.index t (0 : Fin 2) * 1024 + 1 * k.val = k.val; omega
  | ⟨1, _⟩ => show win4_1.index t (1 : Fin 2) * 1024 + 1 * q.val = q.val; omega

/-- The bias row's block at every point is the whole row. -/
theorem blk4_bias (c : Dev nD) (t : Fin cfg4.N) (q : Fin 1024) :
    iblk4 V c 2 t (ix2 (0 : Fin 1) q) = bias4 V c (ix2 (0 : Fin 1) q) := by
  obtain ⟨-, -, -, -, e20, e21, -⟩ := blockIdx4 t
  show bias4 V c (((cfg4.win 2).blk t).view.emb (ix2 (0 : Fin 1) q)) = bias4 V c (ix2 (0 : Fin 1) q)
  refine congrArg (bias4 V c) ?_
  funext a; apply Fin.ext
  match a with
  | ⟨0, _⟩ => show win4_2.index t (0 : Fin 2) * 1 + 1 * 0 = 0; omega
  | ⟨1, _⟩ => show win4_2.index t (1 : Fin 2) * 1024 + 1 * q.val = q.val; omega

/-- The result's block at point `t`, read off any whole array `G`, is rows [1024 t, 1024 t + 1024) of `G`. -/
theorem blk4_out (t : Fin cfg4.N) (G : S10240x1024.Idx → EReal) (p : Fin 1024) (q : Fin 1024) (r : Fin 10240)
    (hr : r.val = t.val * 1024 + p.val) :
    ((cfg4.win 3).blk t).view.read (Elt Ideal) G (ix2 p q) = G (ix2 r q) := by
  obtain ⟨-, -, -, -, -, -, e30, e31⟩ := blockIdx4 t
  show G (((cfg4.win 3).blk t).view.emb (ix2 p q)) = G (ix2 r q)
  refine congrArg G ?_
  funext a; apply Fin.ext
  match a with
  | ⟨0, _⟩ => show win4_3.index t (0 : Fin 2) * 1024 + 1 * p.val = r.val; omega
  | ⟨1, _⟩ => show win4_3.index t (1 : Fin 2) * 1024 + 1 * q.val = q.val; omega

/-! ## What a point writes back -/

/-- What point `t` writes back is the block of rows [1024 t, 1024 t + 1024) of the whole result: the body's one store is
    its payload of the three loaded blocks, and each block is read in its array by the lemmas above. -/
theorem flushed4_eq (c : Dev nD) (t : Fin cfg4.N) :
    (dat4 (F := Ideal) V c).flushed 3 t
      = ((cfg4.win 3).blk t).view.read (Elt Ideal) (whole4 (lhs4 V c) (rhs4 V c) (bias4 V c)) := by
  show (cfg4.win 3).cut (grid4.coords t) ((dat4 V c).after 3 t) = _
  rw [after4_3]
  unfold out4_3
  rw [View.canon_unit_zero zero_offsets4]
  simp only [View.ld_unit_zero (S := S1024x1024) zero_offsets4, View.ld_unit_zero (S := S1024x1024) zero_offsets4,
    View.ld_unit_zero (S := S1x1024) zero_offsets4]
  funext j
  obtain ⟨p, q, rfl⟩ : ∃ (p : Fin 1024) (q : Fin 1024), j = ix2 p q := ⟨j 0, j 1, eq_ix2 j⟩
  refine (pay4_apply _ _ _ p q).trans ?_
  have ht : t.val < 10 := lt_of_lt_of_eq t.isLt N_4
  obtain ⟨r, hr⟩ : ∃ r : Fin 10240, r.val = t.val * 1024 + p.val :=
    ⟨⟨t.val * 1024 + p.val, by have := p.isLt; omega⟩, rfl⟩
  refine Eq.trans ?_ (blk4_out t (whole4 (lhs4 V c) (rhs4 V c) (bias4 V c)) p q r hr).symm
  show _ = entry4 (lhs4 V c) (rhs4 V c) (bias4 V c) r q
  unfold entry4
  rw [blk4_bias V c t q]
  refine congrArg (fun s => s + bias4 V c (ix2 (0 : Fin 1) q)) ?_
  exact Finset.sum_congr rfl fun k _ => by rw [blk4_lhs V c t p k r hr, blk4_rhs V c t k q]

/-! ## The ten blocks cover the array -/

/-- An index of the result is in point `t`'s block iff each coordinate is in the block's range on its axis. -/
theorem mem_blk4 (t : Fin cfg4.N) (i : S10240x1024.Idx) :
    i ∈ ((cfg4.win 3).blk t).view.set ↔ ∀ a : Fin 2, win4_3.index t a * S1024x1024.size a ≤ (i a).val
      ∧ (i a).val < win4_3.index t a * S1024x1024.size a + S1024x1024.size a := by
  show i ∈ ((View.whole main_v78).slice (win4_3.rect t)).set ↔ _
  rw [View.set_slice_whole, Rect.mem_set_unit]
  exact Iff.rfl

/-- Row r lies in the block of point r / 1024, and every point writes its block back. -/
theorem cover4 (i : S10240x1024.Idx) :
    ∃ t : Fin cfg4.N, (cfg4.win 3).flush t = true ∧ i ∈ ((cfg4.win 3).blk t).view.set := by
  have hi0 : (i 0).val < 10240 := (i 0).isLt
  have hi1 : (i 1).val < 1024 := (i 1).isLt
  have hN : grid4.N = 10 := N_4
  obtain ⟨t, ht⟩ : ∃ t : Fin cfg4.N, t.val = (i 0).val / 1024 := ⟨⟨(i 0).val / 1024, by show _ < grid4.N; omega⟩, rfl⟩
  obtain ⟨-, -, -, -, -, -, e30, e31⟩ := blockIdx4 t
  refine ⟨t, flush4_3 t, ?_⟩
  rw [mem_blk4]
  intro a
  match a with
  | ⟨0, _⟩ => show win4_3.index t (0 : Fin 2) * 1024 ≤ (i 0).val ∧ (i 0).val < win4_3.index t (0 : Fin 2) * 1024 + 1024; omega
  | ⟨1, _⟩ => show win4_3.index t (1 : Fin 2) * 1024 ≤ (i 1).val ∧ (i 1).val < win4_3.index t (1 : Fin 2) * 1024 + 1024; omega

/-! ## The array when the region is left -/

/-- The result array after the ten write-backs is the whole function of the three arrays as the region found them. -/
theorem final4 (c : Dev nD) :
    (dat4 (F := Ideal) V c).arrAt 3 cfg4.N = whole4 (lhs4 V c) (rhs4 V c) (bias4 V c) :=
  (dat4 (F := Ideal) V c).arrAt_eq_of_cover 3 _ (fun t _ => flushed4_eq V c t) cover4

/-- Entry (p, q) of the result array after the region. -/
theorem val4 (c : Dev nD) (p : Fin 10240) (q : Fin 1024) :
    (dat4 (F := Ideal) V c).arrAt 3 cfg4.N (ix2 p q)
      = (∑ k : Fin 1024, lhs4 V c (ix2 p k) * rhs4 V c (ix2 k q)) + bias4 V c (ix2 (0 : Fin 1) q) := by
  rw [final4]; rfl

end Cert.KernelIdeal.Rg

end
-- ==== Proof.KI.Val5.lean ====
/- The aggregation region 5 (custom_call 5): the value of its result array when the region is left, at the buffer
   contents `V` found when it is entered. Every entry (p, q) of the 10240 × 1024 result is the sum over the 10240 indices j of
   (left operand at (p, j)) · (right operand at (j, q)), plus the bias row's entry q, rectified. The grid is 20 blocks of 512 rows
   by 10 tiles of 1024 indices of the shared axis: at tile 0 the accumulator is filled with zeros, every tile adds to it the
   product of the left operand's 512 × 1024 block with the 1024 rows of the right operand that the tile names, and at tile 9
   the accumulator plus the bias row is stored as the block of 512 rows of the result. Ten tiles regroup one finite sum, and
   the twenty blocks cover the 10240 rows. -/
import proofs.«181230_j19834158973077_2_alg».proof.Proof.KI.Reg5
import proofs.«181230_j19834158973077_2_alg».proof.Proof.AccEntry
import proofs.«181230_j19834158973077_2_alg».proof.Proof.Spec
import proofs.«181230_j19834158973077_2_alg».proof.Proof.SpecTiles
import Idealize.ShloMosaic.Lib.Pipeline.Value
import Idealize.ShloMosaic.Lib.ValueIdx

set_option maxRecDepth 16384

noncomputable section

namespace Cert.KernelIdeal.Rg

open Cert.KernelIdeal Cert.KernelIdeal.Gen
open Idealize.ShloMosaic Idealize.ShloMosaic.TcCoe Idealize.ShloMosaic.ValueIdx Idealize.SL.Sem Idealize.ShloMosaic.Tactic
open Idealize.ShloMosaic.Pipeline (Dat)

theorem zero_offsets5 : (![0, 0] : Fin 2 → Nat) = fun _ => 0 := funext fun a => by fin_cases a <;> rfl

/-! ## What each control case leaves, as the body's arithmetic over the blocks it loads

In every number format: the accumulator after tile 0 is the step applied to the zero fill; after a later tile the step
applied to what the tile before left; the result block at tile 9 is the last step applied to the accumulator. The right
operand is loaded through the rectangle of the 1024 rows the tile names. -/

section Pieces
variable {F : FTy → Type} [FloatOps F]

/-- Tile 0: the zero fill is stored whole, read back, and the first product added to it. -/
theorem acc5_Z_eq (c : Dev nD) (i : grid5.Coords) (arg2 : Memref sig .tc .vmem S512x1024 .bf16) (harg2 : arg2.IsWhole) (arg3 : Memref sig .tc .vmem S10240x1024 .bf16) (harg3 : arg3.IsWhole) (arg4 : Memref sig .tc .vmem S1x1024 .f32) (harg4 : arg4.IsWhole) (arg5 : Memref sig .tc .vmem S512x1024 .bf16) (harg5 : arg5.IsWhole) (arg6 : Memref sig .tc .vmem S512x1024 .f32) (harg6 : arg6.IsWhole) (hc0 : zeroC5 i) (hc1 : ¬flushC5 i)
    (x0 : Vec F S512x1024 .bf16) (x1 : Vec F S10240x1024 .bf16) (x2 : Vec F S1x1024 .f32) :
    acc5_Z c i arg2 harg2 arg3 harg3 arg4 harg4 arg5 harg5 arg6 harg6 hc0 hc1 x0 x1 x2
      = k5_pay2 (View.ld x1 (Rect.unit (s := S10240x1024) (k5_off1 i) S1024x1024.size (k5_off1_inb i))) k5_pay1 x0 := by
  unfold acc5_Z
  rw [View.read_writes_eq_canon _ _ _ (scover5_Z c i arg2 harg2 arg3 harg3 arg4 harg4 arg5 harg5 arg6 harg6 hc0 hc1 x0 x1 x2)]
  unfold runZero5
  dsimp only
  try sl_unfold_words
  rw [View.canon_cons_unit_zero (S := S512x1024) zero_offsets5, View.readCov_unit_zero (S := S512x1024) _ zero_offsets5]
  simp only [View.readAt_eq_ld, harg2.read_unread, harg3.read_unread, harg4.read_unread, harg6.read_unread,
    View.ld_unit_zero (S := S512x1024) zero_offsets5, View.ld_unit_zero (S := S512x1024) zero_offsets5, View.ld_unit_zero (S := S1x1024) zero_offsets5]

/-- A tile strictly between the first and the last: the product added to what the tile before left. -/
theorem acc5_M_eq (c : Dev nD) (i : grid5.Coords) (arg2 : Memref sig .tc .vmem S512x1024 .bf16) (harg2 : arg2.IsWhole) (arg3 : Memref sig .tc .vmem S10240x1024 .bf16) (harg3 : arg3.IsWhole) (arg4 : Memref sig .tc .vmem S1x1024 .f32) (harg4 : arg4.IsWhole) (arg5 : Memref sig .tc .vmem S512x1024 .bf16) (harg5 : arg5.IsWhole) (arg6 : Memref sig .tc .vmem S512x1024 .f32) (harg6 : arg6.IsWhole) (hc0 : ¬zeroC5 i) (hc1 : ¬flushC5 i)
    (x0 : Vec F S512x1024 .bf16) (x1 : Vec F S10240x1024 .bf16) (x2 : Vec F S1x1024 .f32) (xs : Vec F S512x1024 .f32) :
    acc5_M c i arg2 harg2 arg3 harg3 arg4 harg4 arg5 harg5 arg6 harg6 hc0 hc1 x0 x1 x2 xs
      = k5_pay2 (View.ld x1 (Rect.unit (s := S10240x1024) (k5_off1 i) S1024x1024.size (k5_off1_inb i))) xs x0 := by
  unfold acc5_M
  rw [View.read_writes_eq_canon _ _ _ (scover5_M c i arg2 harg2 arg3 harg3 arg4 harg4 arg5 harg5 arg6 harg6 hc0 hc1 x0 x1 x2 xs)]
  unfold runMid5
  dsimp only
  try sl_unfold_words
  rw [View.canon_unit_zero zero_offsets5]
  simp only [View.readAt_eq_ld, harg2.read_unread, harg3.read_unread, harg4.read_unread, harg6.read_unread,
    View.ld_unit_zero (S := S512x1024) zero_offsets5, View.ld_unit_zero (S := S512x1024) zero_offsets5, View.ld_unit_zero (S := S1x1024) zero_offsets5]

/-- Tile 9, the accumulator: as for a middle tile. -/
theorem acc5_L_eq (c : Dev nD) (i : grid5.Coords) (arg2 : Memref sig .tc .vmem S512x1024 .bf16) (harg2 : arg2.IsWhole) (arg3 : Memref sig .tc .vmem S10240x1024 .bf16) (harg3 : arg3.IsWhole) (arg4 : Memref sig .tc .vmem S1x1024 .f32) (harg4 : arg4.IsWhole) (arg5 : Memref sig .tc .vmem S512x1024 .bf16) (harg5 : arg5.IsWhole) (arg6 : Memref sig .tc .vmem S512x1024 .f32) (harg6 : arg6.IsWhole) (hc0 : ¬zeroC5 i) (hc1 : flushC5 i)
    (x0 : Vec F S512x1024 .bf16) (x1 : Vec F S10240x1024 .bf16) (x2 : Vec F S1x1024 .f32) (xs : Vec F S512x1024 .f32) :
    acc5_L c i arg2 harg2 arg3 harg3 arg4 harg4 arg5 harg5 arg6 harg6 hc0 hc1 x0 x1 x2 xs
      = k5_pay2 (View.ld x1 (Rect.unit (s := S10240x1024) (k5_off1 i) S1024x1024.size (k5_off1_inb i))) xs x0 := by
  unfold acc5_L
  rw [View.read_writes_eq_canon _ _ _ (scover5_L c i arg2 harg2 arg3 harg3 arg4 harg4 arg5 harg5 arg6 harg6 hc0 hc1 x0 x1 x2 xs)]
  unfold runLast5
  dsimp only
  try sl_unfold_words
  rw [View.canon_unit_zero zero_offsets5]
  simp only [View.readAt_eq_ld, harg2.read_unread, harg3.read_unread, harg4.read_unread, harg6.read_unread,
    View.ld_unit_zero (S := S512x1024) zero_offsets5, View.ld_unit_zero (S := S512x1024) zero_offsets5, View.ld_unit_zero (S := S1x1024) zero_offsets5]

/-- Tile 9, the result block: the last step applied to the accumulator just stored and read back. -/
theorem out5_L_eq (c : Dev nD) (i : grid5.Coords) (arg2 : Memref sig .tc .vmem S512x1024 .bf16) (harg2 : arg2.IsWhole) (arg3 : Memref sig .tc .vmem S10240x1024 .bf16) (harg3 : arg3.IsWhole) (arg4 : Memref sig .tc .vmem S1x1024 .f32) (harg4 : arg4.IsWhole) (arg5 : Memref sig .tc .vmem S512x1024 .bf16) (harg5 : arg5.IsWhole) (arg6 : Memref sig .tc .vmem S512x1024 .f32) (harg6 : arg6.IsWhole) (hc0 : ¬zeroC5 i) (hc1 : flushC5 i)
    (x0 : Vec F S512x1024 .bf16) (x1 : Vec F S10240x1024 .bf16) (x2 : Vec F S1x1024 .f32) (xs : Vec F S512x1024 .f32) :
    out5_L_3 c i arg2 harg2 arg3 harg3 arg4 harg4 arg5 harg5 arg6 harg6 hc0 hc1 x0 x1 x2 xs
      = k5_pay3 (k5_pay2 (View.ld x1 (Rect.unit (s := S10240x1024) (k5_off1 i) S1024x1024.size (k5_off1_inb i))) xs x0) x2 := by
  unfold out5_L_3
  rw [View.read_writes_eq_canon _ _ _ (cover5_L_3 c i arg2 harg2 arg3 harg3 arg4 harg4 arg5 harg5 arg6 harg6 hc0 hc1 x0 x1 x2 xs)]
  unfold runLast5
  dsimp only
  try sl_unfold_words
  rw [View.canon_unit_zero zero_offsets5, View.readCov_unit_zero (S := S512x1024) _ zero_offsets5]
  simp only [View.readAt_eq_ld, harg2.read_unread, harg3.read_unread, harg4.read_unread, harg6.read_unread,
    View.ld_unit_zero (S := S512x1024) zero_offsets5, View.ld_unit_zero (S := S512x1024) zero_offsets5, View.ld_unit_zero (S := S1x1024) zero_offsets5]

end Pieces

/-! ## The body's arithmetic at an entry, on the extended reals -/

/-- The zero fill reads 0. -/
theorem pay1_at5 (r : Fin 512) (q : Fin 1024) : k5_pay1 (F := Ideal) (ix2 r q) = (0 : EReal) := by
  unfold k5_pay1
  exact Cert.AccEntry.zero_fill_at 512 1024 _ r q

/-- Row r of a 512 × 1024 block against column q of a 1024 × 1024 block. -/
def stepSum5 (x : S512x1024.Idx → EReal) (w : S1024x1024.Idx → EReal) (r : Fin 512) (q : Fin 1024) : EReal :=
  ∑ k : Fin 1024, x (ix2 r k) * w (ix2 k q)

/-- One step: the accumulator's entry plus row r of the left block against column q of the right block. -/
theorem pay2_at5 (v6 : FVec Ideal S1024x1024 .bf16) (v8 : FVec Ideal S512x1024 .f32) (v9 : FVec Ideal S512x1024 .bf16)
    (r : Fin 512) (q : Fin 1024) :
    k5_pay2 (F := Ideal) v6 v8 v9 (ix2 r q) = v8 (ix2 r q) + stepSum5 v9 v6 r q := by
  unfold k5_pay2
  exact Cert.AccEntry.acc_step_at (φ₁ := .bf16) (φ₂ := .bf16) 512 1024 1024 _ rfl v9 v6 v8 _ _ _ r q

/-- The last step: the accumulator's entry plus the bias entry of column q, rectified. -/
theorem pay3_at5 (v19 : FVec Ideal S512x1024 .f32) (v20 : FVec Ideal S1x1024 .f32) (r : Fin 512) (q : Fin 1024) :
    k5_pay3 (F := Ideal) v19 v20 (ix2 r q) = Cert.Spec.relu (v19 (ix2 r q) + v20 (ix2 (0 : Fin 1) q)) := by
  unfold k5_pay3
  exact Cert.AccEntry.flush_relu_at (ψ := .bf16) 512 1024 v19 v20 _ _ _ r q

/-! ## Where the blocks sit -/

/-- Over the 200 grid points: the left operand's block is (point / 10, point % 10); the right operand and the bias row are
    read whole; the result's block is (point / 10, 0); the tile coordinate is point % 10. -/
theorem pointIdx5 : ∀ t : Fin cfg5.N,
      win5_0.index t (0 : Fin 2) = t.val / 10 ∧ win5_0.index t (1 : Fin 2) = t.val % 10
    ∧ win5_1.index t (0 : Fin 2) = 0 ∧ win5_1.index t (1 : Fin 2) = 0
    ∧ win5_2.index t (0 : Fin 2) = 0 ∧ win5_2.index t (1 : Fin 2) = 0
    ∧ win5_3.index t (0 : Fin 2) = t.val / 10 ∧ win5_3.index t (1 : Fin 2) = 0
    ∧ ((grid5.coords t) 1).val = t.val % 10 :=
  (by decide +kernel : ∀ t : Fin grid5.N, _)

/-- Row r of the block of 512 rows that point n works on. -/
def rowAt5 (n : ℕ) (r : Fin 512) : Fin 10240 := ⟨512 * (n / 10 % 20) + r.val, by omega⟩

/-- The tile that point n adds. -/
def tileAt5 (n : ℕ) : Fin 10 := ⟨n % 10, Nat.mod_lt n (by decide)⟩

/-- The rows of the right operand loaded at a point, at an entry: row 1024 · tile + k of the operand. -/
theorem slice_at5 (i : grid5.Coords) (X : Vec Ideal S10240x1024 .bf16) (k : Fin 1024) (q : Fin 1024) (j : Fin 10240)
    (hj : j.val = 1024 * (i 1).val + k.val) :
    View.ld (Val := Elt Ideal) (e' := .bf16) X (Rect.unit (s := S10240x1024) (k5_off1 i) S1024x1024.size (k5_off1_inb i)) (ix2 k q) = X (ix2 j q) := by
  have e0 : k5_off1 i 0 = 1024 * (i 1).val := (congrFun (k5_off1_eq i) 0).trans rfl
  have e1 : k5_off1 i 1 = 0 := (congrFun (k5_off1_eq i) 1).trans rfl
  show X _ = X _
  congr 1
  funext a; apply Fin.ext
  match a with
  | ⟨0, _⟩ => show k5_off1 i 0 + 1 * k.val = j.val; omega
  | ⟨1, _⟩ => show k5_off1 i 1 + 1 * q.val = q.val; omega

-- the TensorCore's buffer contents when the region is entered, on the extended reals
variable (V : (c : Dev nD) → (b : Ref sig .tc) → Buf (Elt Ideal) ((c : Thread nD τ).loc b))

/-- The left operand's block at point t, at (r, k): the left array at (row r of the point's block, index k of its tile). -/
theorem blkA_at5 (c : Dev nD) (t : Fin cfg5.N) (r : Fin 512) (k : Fin 1024) :
    (iblk5 (F := Ideal) V c 0 t : S512x1024.Idx → EReal) (ix2 r k)
      = (V c (Pipeline.arrRef spec5 0) : S10240x10240.Idx → EReal) (ix2 (rowAt5 t.val r) (Cert.Spec.tileIdx (tileAt5 t.val) k)) := by
  obtain ⟨e00, e01, -⟩ := pointIdx5 t
  have hN : t.val < 200 := lt_of_lt_of_eq t.isLt (show cfg5.N = 200 from N_5)
  show (V c (Pipeline.arrRef spec5 0) : S10240x10240.Idx → EReal) (((cfg5.win 0).blk t).view.emb (ix2 r k)) = _
  congr 1
  funext a; apply Fin.ext
  match a with
  | ⟨0, _⟩ => show win5_0.index t (0 : Fin 2) * 512 + 1 * r.val = 512 * (t.val / 10 % 20) + r.val; omega
  | ⟨1, _⟩ => show win5_0.index t (1 : Fin 2) * 1024 + 1 * k.val = t.val % 10 * 1024 + k.val; omega

/-- The right operand is resident whole: its block at any point is the array. -/
theorem blkH_at5 (c : Dev nD) (t : Fin cfg5.N) (j : Fin 10240) (q : Fin 1024) :
    (iblk5 (F := Ideal) V c 1 t : S10240x1024.Idx → EReal) (ix2 j q) = (V c (Pipeline.arrRef spec5 1) : S10240x1024.Idx → EReal) (ix2 j q) := by
  obtain ⟨-, -, e10, e11, -⟩ := pointIdx5 t
  show (V c (Pipeline.arrRef spec5 1) : S10240x1024.Idx → EReal) (((cfg5.win 1).blk t).view.emb (ix2 j q)) = _
  congr 1
  funext a; apply Fin.ext
  match a with
  | ⟨0, _⟩ => show win5_1.index t (0 : Fin 2) * 10240 + 1 * j.val = j.val; omega
  | ⟨1, _⟩ => show win5_1.index t (1 : Fin 2) * 1024 + 1 * q.val = q.val; omega

/-- So is the bias row. -/
theorem blkB_at5 (c : Dev nD) (t : Fin cfg5.N) (q : Fin 1024) :
    (iblk5 (F := Ideal) V c 2 t : S1x1024.Idx → EReal) (ix2 (0 : Fin 1) q) = (V c (Pipeline.arrRef spec5 2) : S1x1024.Idx → EReal) (ix2 (0 : Fin 1) q) := by
  obtain ⟨-, -, -, -, e20, e21, -⟩ := pointIdx5 t
  show (V c (Pipeline.arrRef spec5 2) : S1x1024.Idx → EReal) (((cfg5.win 2).blk t).view.emb (ix2 (0 : Fin 1) q)) = _
  congr 1
  funext a; apply Fin.ext
  match a with
  | ⟨0, _⟩ => show win5_2.index t (0 : Fin 2) * 1 + 1 * 0 = 0; omega
  | ⟨1, _⟩ => show win5_2.index t (1 : Fin 2) * 1024 + 1 * q.val = q.val; omega

/-! ## The accumulator, point by point -/

/-- The products summed along the shared axis for the entry (row r of point n's block, column q), of any two arrays, -/
def termOf5 (A : S10240x10240.Idx → EReal) (H : S10240x1024.Idx → EReal) (n : ℕ) (r : Fin 512) (q : Fin 1024) : Fin 10240 → EReal :=
  fun j => A (ix2 (rowAt5 n r) j) * H (ix2 j q)

/-- and of the two operands as the region finds them. -/
def term5 (c : Dev nD) (n : ℕ) (r : Fin 512) (q : Fin 1024) : Fin 10240 → EReal :=
  termOf5 (V c (Pipeline.arrRef spec5 0)) (V c (Pipeline.arrRef spec5 1)) n r q

/-- What a point adds at entry (r, q): the sum of the products over the indices of the point's tile. -/
theorem step_sum5 (c : Dev nD) (t : Fin cfg5.N) (r : Fin 512) (q : Fin 1024) :
    stepSum5 (iblk5 (F := Ideal) V c 0 t)
        (View.ld (Val := Elt Ideal) (e' := .bf16) (iblk5 (F := Ideal) V c 1 t : Vec Ideal S10240x1024 .bf16) (Rect.unit (s := S10240x1024) (k5_off1 (grid5.coords t)) S1024x1024.size (k5_off1_inb (grid5.coords t)))) r q
      = ∑ k : Fin 1024, term5 V c t.val r q (Cert.Spec.tileIdx (tileAt5 t.val) k) := by
  obtain ⟨-, -, -, -, -, -, -, -, eg⟩ := pointIdx5 t
  unfold stepSum5
  refine Finset.sum_congr rfl fun k _ => ?_
  have hj : (Cert.Spec.tileIdx (tileAt5 t.val) k).val = 1024 * ((grid5.coords t) 1).val + k.val := by
    show t.val % 10 * 1024 + k.val = _; omega
  exact congrArg₂ (fun (a b : EReal) => a * b) (blkA_at5 V c t r k)
    ((slice_at5 (grid5.coords t) (iblk5 (F := Ideal) V c 1 t) k q (Cert.Spec.tileIdx (tileAt5 t.val) k) hj).trans
      (blkH_at5 V c t (Cert.Spec.tileIdx (tileAt5 t.val) k) q))

/-- At tile 0 the accumulator's entry is 0 plus the tile's sum. -/
theorem accZ_at5 (c : Dev nD) (t : Fin cfg5.N) (h0 : t.val % 10 = 0) (r : Fin 512) (q : Fin 1024) :
    ((outsAt5 (F := Ideal) V c t.val t.isLt).2 : S512x1024.Idx → EReal) (ix2 r q)
      = 0 + ∑ k : Fin 1024, term5 V c t.val r q (Cert.Spec.tileIdx (tileAt5 t.val) k) := by
  have h1 : ¬t.val % 10 = 9 := by omega
  rw [outsAt5_Z V c t h0 h1]
  dsimp only
  refine (congrFun (acc5_Z_eq (F := Ideal) c (grid5.coords t) (mA5 t) (hA5 t) (mB5 t) (hB5 t) (mC5 t) (hC5 t) (mO5 t) (hO5 t) mS5 (Memref.isWhole_whole _) ((zeroC5_iff t).mpr h0) (fun h => h1 ((flushC5_iff t).mp h)) (iblk5 V c 0 t) (iblk5 V c 1 t) (iblk5 V c 2 t)) (ix2 r q)).trans ?_
  refine (pay2_at5 _ _ _ r q).trans ?_
  exact congrArg₂ (fun (a b : EReal) => a + b) (pay1_at5 r q) (step_sum5 V c t r q)

/-- At a later tile it is the entry the point before left plus the tile's sum. -/
theorem accS_at5 (c : Dev nD) (t : Fin cfg5.N) (h0 : ¬t.val % 10 = 0) (r : Fin 512) (q : Fin 1024) :
    ((outsAt5 (F := Ideal) V c t.val t.isLt).2 : S512x1024.Idx → EReal) (ix2 r q)
      = ((outsAt5 V c (t.val - 1) (Nat.lt_of_le_of_lt (Nat.sub_le _ _) t.isLt)).2 : S512x1024.Idx → EReal) (ix2 r q)
        + ∑ k : Fin 1024, term5 V c t.val r q (Cert.Spec.tileIdx (tileAt5 t.val) k) := by
  by_cases h1 : t.val % 10 = 9
  · rw [outsAt5_L V c t h0 h1]
    dsimp only
    refine (congrFun (acc5_L_eq (F := Ideal) c (grid5.coords t) (mA5 t) (hA5 t) (mB5 t) (hB5 t) (mC5 t) (hC5 t) (mO5 t) (hO5 t) mS5 (Memref.isWhole_whole _) (fun h => h0 ((zeroC5_iff t).mp h)) ((flushC5_iff t).mpr h1) (iblk5 V c 0 t) (iblk5 V c 1 t) (iblk5 V c 2 t) (outsAt5 V c (t.val - 1) (Nat.lt_of_le_of_lt (Nat.sub_le _ _) t.isLt)).2) (ix2 r q)).trans ?_
    refine (pay2_at5 _ _ _ r q).trans ?_
    exact congrArg (fun (b : EReal) => _ + b) (step_sum5 V c t r q)
  · rw [outsAt5_M V c t h0 h1]
    dsimp only
    refine (congrFun (acc5_M_eq (F := Ideal) c (grid5.coords t) (mA5 t) (hA5 t) (mB5 t) (hB5 t) (mC5 t) (hC5 t) (mO5 t) (hO5 t) mS5 (Memref.isWhole_whole _) (fun h => h0 ((zeroC5_iff t).mp h)) (fun h => h1 ((flushC5_iff t).mp h)) (iblk5 V c 0 t) (iblk5 V c 1 t) (iblk5 V c 2 t) (outsAt5 V c (t.val - 1) (Nat.lt_of_le_of_lt (Nat.sub_le _ _) t.isLt)).2) (ix2 r q)).trans ?_
    refine (pay2_at5 _ _ _ r q).trans ?_
    exact congrArg (fun (b : EReal) => _ + b) (step_sum5 V c t r q)

/-- Adding a tile's sum to the accumulator after the tiles before it is the accumulator after one more tile. -/
theorem tile_step5 (g : Fin 10240 → EReal) (n : ℕ) (a : EReal) (ha : a = Cert.Spec.tileAcc g (n % 10)) :
    a + ∑ k : Fin 1024, g (Cert.Spec.tileIdx (tileAt5 n) k) = Cert.Spec.tileAcc g (n % 10 + 1) := by
  rw [ha]
  exact (Cert.Spec.tileAcc_succ g (n % 10) (Nat.mod_lt n (by decide))).symm

/-- THE INVARIANT: after point n the accumulator's entry (r, q) is the sum of the products over the tiles 0 … n % 10 of
    the shared axis, for the row r of the point's block. By induction on the point: a point that is not at tile 0 works on
    the same block of rows as the point before it. -/
theorem acc_inv5 (c : Dev nD) : ∀ (n : ℕ) (h : n < cfg5.N) (r : Fin 512) (q : Fin 1024),
    ((outsAt5 (F := Ideal) V c n h).2 : S512x1024.Idx → EReal) (ix2 r q)
      = Cert.Spec.tileAcc (term5 V c n r q) (n % 10 + 1) := by
  intro n
  induction n with
  | zero =>
    intro h r q
    exact (accZ_at5 V c ⟨0, h⟩ (Nat.zero_mod 10) r q).trans (tile_step5 (term5 V c 0 r q) 0 0 rfl)
  | succ n ih =>
    intro h r q
    by_cases h0 : (n + 1) % 10 = 0
    · refine (accZ_at5 V c ⟨n + 1, h⟩ h0 r q).trans (tile_step5 (term5 V c (n + 1) r q) (n + 1) 0 ?_)
      rw [h0]; rfl
    · have e1 : ((outsAt5 (F := Ideal) V c (n + 1) h).2 : S512x1024.Idx → EReal) (ix2 r q)
          = ((outsAt5 (F := Ideal) V c n (Nat.lt_of_succ_lt h)).2 : S512x1024.Idx → EReal) (ix2 r q)
            + ∑ k : Fin 1024, term5 V c (n + 1) r q (Cert.Spec.tileIdx (tileAt5 (n + 1)) k) :=
        accS_at5 V c ⟨n + 1, h⟩ h0 r q
      have e2 : ((outsAt5 (F := Ideal) V c n (Nat.lt_of_succ_lt h)).2 : S512x1024.Idx → EReal) (ix2 r q)
          = Cert.Spec.tileAcc (term5 V c n r q) (n % 10 + 1) := ih (Nat.lt_of_succ_lt h) r q
      have e3 : rowAt5 n r = rowAt5 (n + 1) r := Fin.ext (by show 512 * (n / 10 % 20) + r.val = 512 * ((n + 1) / 10 % 20) + r.val; omega)
      have e4 : term5 V c n r q = term5 V c (n + 1) r q := by unfold term5 termOf5; rw [e3]
      have e5 : n % 10 + 1 = (n + 1) % 10 := by omega
      rw [e1, e2, e4, e5]
      exact tile_step5 (term5 V c (n + 1) r q) (n + 1) _ rfl

/-! ## The result block at tile 9 -/

/-- At tile 9 the result buffer's entry is the accumulator's entry plus the bias entry of the column, rectified. -/
theorem out_at5 (c : Dev nD) (t : Fin cfg5.N) (h1 : t.val % 10 = 9) (r : Fin 512) (q : Fin 1024) :
    ((outsAt5 (F := Ideal) V c t.val t.isLt).1 : S512x1024.Idx → EReal) (ix2 r q)
      = Cert.Spec.relu (((outsAt5 (F := Ideal) V c t.val t.isLt).2 : S512x1024.Idx → EReal) (ix2 r q) + (V c (Pipeline.arrRef spec5 2) : S1x1024.Idx → EReal) (ix2 (0 : Fin 1) q)) := by
  have h0 : ¬t.val % 10 = 0 := by omega
  rw [outsAt5_L V c t h0 h1]
  dsimp only
  rw [out5_L_eq (F := Ideal) c (grid5.coords t) (mA5 t) (hA5 t) (mB5 t) (hB5 t) (mC5 t) (hC5 t) (mO5 t) (hO5 t) mS5 (Memref.isWhole_whole _) (fun h => h0 ((zeroC5_iff t).mp h)) ((flushC5_iff t).mpr h1) (iblk5 V c 0 t) (iblk5 V c 1 t) (iblk5 V c 2 t) (outsAt5 V c (t.val - 1) (Nat.lt_of_le_of_lt (Nat.sub_le _ _) t.isLt)).2,
    acc5_L_eq (F := Ideal) c (grid5.coords t) (mA5 t) (hA5 t) (mB5 t) (hB5 t) (mC5 t) (hC5 t) (mO5 t) (hO5 t) mS5 (Memref.isWhole_whole _) (fun h => h0 ((zeroC5_iff t).mp h)) ((flushC5_iff t).mpr h1) (iblk5 V c 0 t) (iblk5 V c 1 t) (iblk5 V c 2 t) (outsAt5 V c (t.val - 1) (Nat.lt_of_le_of_lt (Nat.sub_le _ _) t.isLt)).2]
  refine (pay3_at5 _ _ r q).trans ?_
  exact congrArg (fun z => Cert.Spec.relu (_ + z)) (blkB_at5 V c t q)

/-! ## The result as one function of the three arrays -/

/-- Entry (p, q): row p of the left operand against column q of the right operand over all 10240 indices, plus the bias
    entry q, rectified. -/
def entry5 (A : S10240x10240.Idx → EReal) (H : S10240x1024.Idx → EReal) (B : S1x1024.Idx → EReal) (p : Fin 10240) (q : Fin 1024) : EReal :=
  Cert.Spec.relu ((∑ j : Fin 10240, A (ix2 p j) * H (ix2 j q)) + B (ix2 (0 : Fin 1) q))

/-- The whole result array, index by index. -/
def whole5 (A : S10240x10240.Idx → EReal) (H : S10240x1024.Idx → EReal) (B : S1x1024.Idx → EReal) : S10240x1024.Idx → EReal :=
  fun i => entry5 A H B (i 0) (i 1)

/-- What a point at tile 9 writes back is its block of 512 rows of the whole result: the accumulator holds the sum over
    all ten tiles, which is the sum over the 10240 indices. -/
theorem flushed5_eq (c : Dev nD) (t : Fin cfg5.N) (hf : (cfg5.win 3).flush t = true) :
    (dat5 (F := Ideal) V c).flushed 3 t
      = ((cfg5.win 3).blk t).view.read (Elt Ideal)
          (whole5 (V c (Pipeline.arrRef spec5 0)) (V c (Pipeline.arrRef spec5 1)) (V c (Pipeline.arrRef spec5 2))) := by
  have h1 : t.val % 10 = 9 := (flush5_3 t).mp hf
  have hN : t.val < 200 := lt_of_lt_of_eq t.isLt (show cfg5.N = 200 from N_5)
  obtain ⟨-, -, -, -, -, -, e30, e31, -⟩ := pointIdx5 t
  show (cfg5.win 3).cut (grid5.coords t) ((dat5 V c).after 3 t) = _
  rw [after5_3]
  funext j
  obtain ⟨r, q, rfl⟩ : ∃ (r : Fin 512) (q : Fin 1024), j = ix2 r q := ⟨j 0, j 1, eq_ix2 j⟩
  refine (out_at5 V c t h1 r q).trans ?_
  have hacc : ((outsAt5 (F := Ideal) V c t.val t.isLt).2 : S512x1024.Idx → EReal) (ix2 r q)
      = ∑ j : Fin 10240, term5 V c t.val r q j := by
    refine (acc_inv5 V c t.val t.isLt r q).trans ?_
    rw [h1]
    exact Cert.Spec.tileAcc_ten _
  rw [hacc]
  have hp : ((((cfg5.win 3).blk t).view.emb (ix2 r q)) 0 : Fin 10240) = rowAt5 t.val r :=
    Fin.ext (by show win5_3.index t (0 : Fin 2) * 512 + 1 * r.val = 512 * (t.val / 10 % 20) + r.val; omega)
  have hq : ((((cfg5.win 3).blk t).view.emb (ix2 r q)) 1 : Fin 1024) = q :=
    Fin.ext (by show win5_3.index t (1 : Fin 2) * 1024 + 1 * q.val = q.val; omega)
  exact (congrArg₂ (entry5 (V c (Pipeline.arrRef spec5 0)) (V c (Pipeline.arrRef spec5 1)) (V c (Pipeline.arrRef spec5 2))) hp hq).symm

/-! ## The twenty blocks cover the array -/

/-- An index of the result is in point `t`'s block iff each coordinate is in the block's range on its axis. -/
theorem mem_blk5 (t : Fin cfg5.N) (i : S10240x1024.Idx) :
    i ∈ ((cfg5.win 3).blk t).view.set ↔ ∀ a : Fin 2, win5_3.index t a * S512x1024.size a ≤ (i a).val
      ∧ (i a).val < win5_3.index t a * S512x1024.size a + S512x1024.size a := by
  show i ∈ ((View.whole main_v80).slice (win5_3.rect t)).set ↔ _
  rw [View.set_slice_whole, Rect.mem_set_unit]
  exact Iff.rfl

/-- Row p lies in the block of the points of row block p / 512, and the point at tile 9 of that row block writes it back. -/
theorem cover5 (i : S10240x1024.Idx) :
    ∃ t : Fin cfg5.N, (cfg5.win 3).flush t = true ∧ i ∈ ((cfg5.win 3).blk t).view.set := by
  have hi0 : (i 0).val < 10240 := (i 0).isLt
  have hi1 : (i 1).val < 1024 := (i 1).isLt
  have hN : grid5.N = 200 := N_5
  obtain ⟨t, ht⟩ : ∃ t : Fin cfg5.N, t.val = 10 * ((i 0).val / 512) + 9 :=
    ⟨⟨10 * ((i 0).val / 512) + 9, by show _ < grid5.N; omega⟩, rfl⟩
  obtain ⟨-, -, -, -, -, -, e30, e31, -⟩ := pointIdx5 t
  refine ⟨t, (flush5_3 t).mpr (by omega), ?_⟩
  rw [mem_blk5]
  intro a
  match a with
  | ⟨0, _⟩ => show win5_3.index t (0 : Fin 2) * 512 ≤ (i 0).val ∧ (i 0).val < win5_3.index t (0 : Fin 2) * 512 + 512; omega
  | ⟨1, _⟩ => show win5_3.index t (1 : Fin 2) * 1024 ≤ (i 1).val ∧ (i 1).val < win5_3.index t (1 : Fin 2) * 1024 + 1024; omega

/-! ## The array when the region is left -/

/-- The result array after the twenty write-backs is the whole function of the three arrays as the region found them. -/
theorem final5 (c : Dev nD) :
    (dat5 (F := Ideal) V c).arrAt 3 cfg5.N
      = whole5 (V c (Pipeline.arrRef spec5 0)) (V c (Pipeline.arrRef spec5 1)) (V c (Pipeline.arrRef spec5 2)) :=
  (dat5 (F := Ideal) V c).arrAt_eq_of_cover 3 _ (fun t hf => flushed5_eq V c t hf) cover5

/-- Entry (p, q) of the result array after the region. -/
theorem val5 (c : Dev nD) (p : Fin 10240) (q : Fin 1024) :
    (dat5 (F := Ideal) V c).arrAt 3 cfg5.N (ix2 p q)
      = entry5 (V c (Pipeline.arrRef spec5 0)) (V c (Pipeline.arrRef spec5 1)) (V c (Pipeline.arrRef spec5 2)) p q := by
  rw [final5]; rfl

/-- The entry written out. -/
theorem entry5_eq (A : S10240x10240.Idx → EReal) (H : S10240x1024.Idx → EReal) (B : S1x1024.Idx → EReal) (p : Fin 10240) (q : Fin 1024) :
    entry5 A H B p q = Cert.Spec.relu ((∑ j : Fin 10240, A (ix2 p j) * H (ix2 j q)) + B (ix2 (0 : Fin 1) q)) := rfl

end Cert.KernelIdeal.Rg

end
-- ==== Proof.KI.Val6.lean ====
/- Stage-1 region 6 (custom_call 6): the value of its result array when the region is left, at the buffer
   contents `V` found when it is entered. Every entry (p, q) of the 10240 × 1024 result is the sum over the shared
   axis of (left operand at (p, k)) · (right operand at (k, q)), plus the bias row's entry q (no rectifier here): each grid
   point writes one block of 1024 rows of that one array, and the ten blocks cover its 10240 rows. -/
import proofs.«181230_j19834158973077_2_alg».proof.Proof.KI.Reg6
import proofs.«181230_j19834158973077_2_alg».proof.Proof.AffineEntry
import proofs.«181230_j19834158973077_2_alg».proof.Proof.Spec
import Idealize.ShloMosaic.Lib.Pipeline.Value
import Idealize.ShloMosaic.Lib.ValueIdx

set_option maxRecDepth 16384

noncomputable section

namespace Cert.KernelIdeal.Rg

open Cert.KernelIdeal Cert.KernelIdeal.Gen
open Idealize.ShloMosaic Idealize.ShloMosaic.TcCoe Idealize.ShloMosaic.ValueIdx Idealize.SL.Sem
open Idealize.ShloMosaic.Pipeline (Dat)

-- the TensorCore's buffer contents when the region is entered, on the extended reals
variable (V : (c : Dev nD) → (b : Ref sig .tc) → Buf (Elt Ideal) ((c : Thread nD τ).loc b))

/-! ## The three arrays the region reads, and the result as one function of them -/

/-- The left operand (10240 rows), the right operand and the bias row, as the region finds them. -/
abbrev lhs6 (c : Dev nD) : S10240x1024.Idx → EReal := V c (Pipeline.arrRef spec6 0)
abbrev rhs6 (c : Dev nD) : S1024x1024.Idx → EReal := V c (Pipeline.arrRef spec6 1)
abbrev bias6 (c : Dev nD) : S1x1024.Idx → EReal := V c (Pipeline.arrRef spec6 2)

/-- Entry (p, q): the row p of the left operand against the column q of the right operand, plus the bias entry q. -/
def entry6 (X : S10240x1024.Idx → EReal) (W : S1024x1024.Idx → EReal) (B : S1x1024.Idx → EReal) (p : Fin 10240) (q : Fin 1024) : EReal :=
  (∑ k : Fin 1024, X (ix2 p k) * W (ix2 k q)) + B (ix2 (0 : Fin 1) q)

/-- The whole result array, index by index. -/
def whole6 (X : S10240x1024.Idx → EReal) (W : S1024x1024.Idx → EReal) (B : S1x1024.Idx → EReal) : S10240x1024.Idx → EReal :=
  fun i => entry6 X W B (i 0) (i 1)

/-! ## The body's payload at an entry of the block -/

/-- What the body stores, at entry (p, q) of the block, from the three blocks it loads: the product accumulated from
    zero plus the repeated bias row; the casts to the same shape and the change of format are identities. -/
theorem pay6_apply (x0 : FVec Ideal S1024x1024 .bf16) (x1 : FVec Ideal S1024x1024 .bf16) (x2 : FVec Ideal S1x1024 .f32)
    (p : Fin 1024) (q : Fin 1024) :
    k6_pay1 (F := Ideal) x0 x1 x2 (ix2 p q)
      = (∑ k : Fin 1024, x0 (ix2 p k) * x1 (ix2 k q)) + x2 (ix2 (0 : Fin 1) q) := by
  unfold k6_pay1
  exact Cert.AffineEntry.affine_at (φ₁ := .bf16) (φ₂ := .bf16) (ψ := .bf16) 1024 1024 1024 _ rfl x0 x1 x2 _ _ _ _ _ p q

/-! ## Where each block sits -/

theorem zero_offsets6 : (![0, 0] : Fin 2 → Nat) = fun _ => 0 := funext fun a => by fin_cases a <;> rfl

/-- The index maps over the ten grid points: the left operand's row block and the result's row block are both the
    point's number; on the column axis, and for the right operand and the bias row, every block index is zero. -/
theorem blockIdx6 : ∀ t : Fin cfg6.N,
      win6_0.index t (0 : Fin 2) = t.val ∧ win6_0.index t (1 : Fin 2) = 0
    ∧ win6_1.index t (0 : Fin 2) = 0 ∧ win6_1.index t (1 : Fin 2) = 0
    ∧ win6_2.index t (0 : Fin 2) = 0 ∧ win6_2.index t (1 : Fin 2) = 0
    ∧ win6_3.index t (0 : Fin 2) = t.val ∧ win6_3.index t (1 : Fin 2) = 0 :=
  (by decide +kernel : ∀ t : Fin grid6.N, _)

/-! ## The blocks at a point, read in their arrays

A block's element sits, on each axis, at block index × block size + its coordinate inside the block. -/

/-- The left operand's block at point `t` is rows [1024 t, 1024 t + 1024) of the left array. -/
theorem blk6_lhs (c : Dev nD) (t : Fin cfg6.N) (p : Fin 1024) (k : Fin 1024) (r : Fin 10240)
    (hr : r.val = t.val * 1024 + p.val) : iblk6 V c 0 t (ix2 p k) = lhs6 V c (ix2 r k) := by
  obtain ⟨e00, e01, -⟩ := blockIdx6 t
  show lhs6 V c (((cfg6.win 0).blk t).view.emb (ix2 p k)) = lhs6 V c (ix2 r k)
  refine congrArg (lhs6 V c) ?_
  funext a; apply Fin.ext
  match a with
  | ⟨0, _⟩ => show win6_0.index t (0 : Fin 2) * 1024 + 1 * p.val = r.val; omega
  | ⟨1, _⟩ => show win6_0.index t (1 : Fin 2) * 1024 + 1 * k.val = k.val; omega

/-- The right operand's block at every point is the whole right array. -/
theorem blk6_rhs (c : Dev nD) (t : Fin cfg6.N) (k : Fin 1024) (q : Fin 1024) :
    iblk6 V c 1 t (ix2 k q) = rhs6 V c (ix2 k q) := by
  obtain ⟨-, -, e10, e11, -⟩ := blockIdx6 t
  show rhs6 V c (((cfg6.win 1).blk t).view.emb (ix2 k q)) = rhs6 V c (ix2 k q)
  refine congrArg (rhs6 V c) ?_
  funext a; apply Fin.ext
  match a with
  | ⟨0, _⟩ => show win6_1.index t (0 : Fin 2) * 1024 + 1 * k.val = k.val; omega
  | ⟨1, _⟩ => show win6_1.index t (1 : Fin 2) * 1024 + 1 * q.val = q.val; omega

/-- The bias row's block at every point is the whole row. -/
theorem blk6_bias (c : Dev nD) (t : Fin cfg6.N) (q : Fin 1024) :
    iblk6 V c 2 t (ix2 (0 : Fin 1) q) = bias6 V c (ix2 (0 : Fin 1) q) := by
  obtain ⟨-, -, -, -, e20, e21, -⟩ := blockIdx6 t
  show bias6 V c (((cfg6.win 2).blk t).view.emb (ix2 (0 : Fin 1) q)) = bias6 V c (ix2 (0 : Fin 1) q)
  refine congrArg (bias6 V c) ?_
  funext a; apply Fin.ext
  match a with
  | ⟨0, _⟩ => show win6_2.index t (0 : Fin 2) * 1 + 1 * 0 = 0; omega
  | ⟨1, _⟩ => show win6_2.index t (1 : Fin 2) * 1024 + 1 * q.val = q.val; omega

/-- The result's block at point `t`, read off any whole array `G`, is rows [1024 t, 1024 t + 1024) of `G`. -/
theorem blk6_out (t : Fin cfg6.N) (G : S10240x1024.Idx → EReal) (p : Fin 1024) (q : Fin 1024) (r : Fin 10240)
    (hr : r.val = t.val * 1024 + p.val) :
    ((cfg6.win 3).blk t).view.read (Elt Ideal) G (ix2 p q) = G (ix2 r q) := by
  obtain ⟨-, -, -, -, -, -, e30, e31⟩ := blockIdx6 t
  show G (((cfg6.win 3).blk t).view.emb (ix2 p q)) = G (ix2 r q)
  refine congrArg G ?_
  funext a; apply Fin.ext
  match a with
  | ⟨0, _⟩ => show win6_3.index t (0 : Fin 2) * 1024 + 1 * p.val = r.val; omega
  | ⟨1, _⟩ => show win6_3.index t (1 : Fin 2) * 1024 + 1 * q.val = q.val; omega

/-! ## What a point writes back -/

/-- What point `t` writes back is the block of rows [1024 t, 1024 t + 1024) of the whole result: the body's one store is
    its payload of the three loaded blocks, and each block is read in its array by the lemmas above. -/
theorem flushed6_eq (c : Dev nD) (t : Fin cfg6.N) :
    (dat6 (F := Ideal) V c).flushed 3 t
      = ((cfg6.win 3).blk t).view.read (Elt Ideal) (whole6 (lhs6 V c) (rhs6 V c) (bias6 V c)) := by
  show (cfg6.win 3).cut (grid6.coords t) ((dat6 V c).after 3 t) = _
  rw [after6_3]
  unfold out6_3
  rw [View.canon_unit_zero zero_offsets6]
  simp only [View.ld_unit_zero (S := S1024x1024) zero_offsets6, View.ld_unit_zero (S := S1024x1024) zero_offsets6,
    View.ld_unit_zero (S := S1x1024) zero_offsets6]
  funext j
  obtain ⟨p, q, rfl⟩ : ∃ (p : Fin 1024) (q : Fin 1024), j = ix2 p q := ⟨j 0, j 1, eq_ix2 j⟩
  refine (pay6_apply _ _ _ p q).trans ?_
  have ht : t.val < 10 := lt_of_lt_of_eq t.isLt N_6
  obtain ⟨r, hr⟩ : ∃ r : Fin 10240, r.val = t.val * 1024 + p.val :=
    ⟨⟨t.val * 1024 + p.val, by have := p.isLt; omega⟩, rfl⟩
  refine Eq.trans ?_ (blk6_out t (whole6 (lhs6 V c) (rhs6 V c) (bias6 V c)) p q r hr).symm
  show _ = entry6 (lhs6 V c) (rhs6 V c) (bias6 V c) r q
  unfold entry6
  rw [blk6_bias V c t q]
  refine congrArg (fun s => s + bias6 V c (ix2 (0 : Fin 1) q)) ?_
  exact Finset.sum_congr rfl fun k _ => by rw [blk6_lhs V c t p k r hr, blk6_rhs V c t k q]

/-! ## The ten blocks cover the array -/

/-- An index of the result is in point `t`'s block iff each coordinate is in the block's range on its axis. -/
theorem mem_blk6 (t : Fin cfg6.N) (i : S10240x1024.Idx) :
    i ∈ ((cfg6.win 3).blk t).view.set ↔ ∀ a : Fin 2, win6_3.index t a * S1024x1024.size a ≤ (i a).val
      ∧ (i a).val < win6_3.index t a * S1024x1024.size a + S1024x1024.size a := by
  show i ∈ ((View.whole main_v87).slice (win6_3.rect t)).set ↔ _
  rw [View.set_slice_whole, Rect.mem_set_unit]
  exact Iff.rfl

/-- Row r lies in the block of point r / 1024, and every point writes its block back. -/
theorem cover6 (i : S10240x1024.Idx) :
    ∃ t : Fin cfg6.N, (cfg6.win 3).flush t = true ∧ i ∈ ((cfg6.win 3).blk t).view.set := by
  have hi0 : (i 0).val < 10240 := (i 0).isLt
  have hi1 : (i 1).val < 1024 := (i 1).isLt
  have hN : grid6.N = 10 := N_6
  obtain ⟨t, ht⟩ : ∃ t : Fin cfg6.N, t.val = (i 0).val / 1024 := ⟨⟨(i 0).val / 1024, by show _ < grid6.N; omega⟩, rfl⟩
  obtain ⟨-, -, -, -, -, -, e30, e31⟩ := blockIdx6 t
  refine ⟨t, flush6_3 t, ?_⟩
  rw [mem_blk6]
  intro a
  match a with
  | ⟨0, _⟩ => show win6_3.index t (0 : Fin 2) * 1024 ≤ (i 0).val ∧ (i 0).val < win6_3.index t (0 : Fin 2) * 1024 + 1024; omega
  | ⟨1, _⟩ => show win6_3.index t (1 : Fin 2) * 1024 ≤ (i 1).val ∧ (i 1).val < win6_3.index t (1 : Fin 2) * 1024 + 1024; omega

/-! ## The array when the region is left -/

/-- The result array after the ten write-backs is the whole function of the three arrays as the region found them. -/
theorem final6 (c : Dev nD) :
    (dat6 (F := Ideal) V c).arrAt 3 cfg6.N = whole6 (lhs6 V c) (rhs6 V c) (bias6 V c) :=
  (dat6 (F := Ideal) V c).arrAt_eq_of_cover 3 _ (fun t _ => flushed6_eq V c t) cover6

/-- Entry (p, q) of the result array after the region. -/
theorem val6 (c : Dev nD) (p : Fin 10240) (q : Fin 1024) :
    (dat6 (F := Ideal) V c).arrAt 3 cfg6.N (ix2 p q)
      = (∑ k : Fin 1024, lhs6 V c (ix2 p k) * rhs6 V c (ix2 k q)) + bias6 V c (ix2 (0 : Fin 1) q) := by
  rw [final6]; rfl

end Cert.KernelIdeal.Rg

end
-- ==== Proof.KI.Val7.lean ====
/- The aggregation region 7 (custom_call 7): the value of its result array when the region is left, at the buffer
   contents `V` found when it is entered. Every entry (p, q) of the 10240 × 1024 result is the sum over the 10240 indices j of
   (left operand at (p, j)) · (right operand at (j, q)), plus the bias row's entry q, rectified. The grid is 20 blocks of 512 rows
   by 10 tiles of 1024 indices of the shared axis: at tile 0 the accumulator is filled with zeros, every tile adds to it the
   product of the left operand's 512 × 1024 block with the 1024 rows of the right operand that the tile names, and at tile 9
   the accumulator plus the bias row is stored as the block of 512 rows of the result. Ten tiles regroup one finite sum, and
   the twenty blocks cover the 10240 rows. -/
import proofs.«181230_j19834158973077_2_alg».proof.Proof.KI.Reg7
import proofs.«181230_j19834158973077_2_alg».proof.Proof.AccEntry
import proofs.«181230_j19834158973077_2_alg».proof.Proof.Spec
import proofs.«181230_j19834158973077_2_alg».proof.Proof.SpecTiles
import Idealize.ShloMosaic.Lib.Pipeline.Value
import Idealize.ShloMosaic.Lib.ValueIdx

set_option maxRecDepth 16384

noncomputable section

namespace Cert.KernelIdeal.Rg

open Cert.KernelIdeal Cert.KernelIdeal.Gen
open Idealize.ShloMosaic Idealize.ShloMosaic.TcCoe Idealize.ShloMosaic.ValueIdx Idealize.SL.Sem Idealize.ShloMosaic.Tactic
open Idealize.ShloMosaic.Pipeline (Dat)

theorem zero_offsets7 : (![0, 0] : Fin 2 → Nat) = fun _ => 0 := funext fun a => by fin_cases a <;> rfl

/-! ## What each control case leaves, as the body's arithmetic over the blocks it loads

In every number format: the accumulator after tile 0 is the step applied to the zero fill; after a later tile the step
applied to what the tile before left; the result block at tile 9 is the last step applied to the accumulator. The right
operand is loaded through the rectangle of the 1024 rows the tile names. -/

section Pieces
variable {F : FTy → Type} [FloatOps F]

/-- Tile 0: the zero fill is stored whole, read back, and the first product added to it. -/
theorem acc7_Z_eq (c : Dev nD) (i : grid7.Coords) (arg2 : Memref sig .tc .vmem S512x1024 .bf16) (harg2 : arg2.IsWhole) (arg3 : Memref sig .tc .vmem S10240x1024 .bf16) (harg3 : arg3.IsWhole) (arg4 : Memref sig .tc .vmem S1x1024 .f32) (harg4 : arg4.IsWhole) (arg5 : Memref sig .tc .vmem S512x1024 .bf16) (harg5 : arg5.IsWhole) (arg6 : Memref sig .tc .vmem S512x1024 .f32) (harg6 : arg6.IsWhole) (hc0 : zeroC7 i) (hc1 : ¬flushC7 i)
    (x0 : Vec F S512x1024 .bf16) (x1 : Vec F S10240x1024 .bf16) (x2 : Vec F S1x1024 .f32) :
    acc7_Z c i arg2 harg2 arg3 harg3 arg4 harg4 arg5 harg5 arg6 harg6 hc0 hc1 x0 x1 x2
      = k7_pay2 (View.ld x1 (Rect.unit (s := S10240x1024) (k7_off1 i) S1024x1024.size (k7_off1_inb i))) k7_pay1 x0 := by
  unfold acc7_Z
  rw [View.read_writes_eq_canon _ _ _ (scover7_Z c i arg2 harg2 arg3 harg3 arg4 harg4 arg5 harg5 arg6 harg6 hc0 hc1 x0 x1 x2)]
  unfold runZero7
  dsimp only
  try sl_unfold_words
  rw [View.canon_cons_unit_zero (S := S512x1024) zero_offsets7, View.readCov_unit_zero (S := S512x1024) _ zero_offsets7]
  simp only [View.readAt_eq_ld, harg2.read_unread, harg3.read_unread, harg4.read_unread, harg6.read_unread,
    View.ld_unit_zero (S := S512x1024) zero_offsets7, View.ld_unit_zero (S := S512x1024) zero_offsets7, View.ld_unit_zero (S := S1x1024) zero_offsets7]

/-- A tile strictly between the first and the last: the product added to what the tile before left. -/
theorem acc7_M_eq (c : Dev nD) (i : grid7.Coords) (arg2 : Memref sig .tc .vmem S512x1024 .bf16) (harg2 : arg2.IsWhole) (arg3 : Memref sig .tc .vmem S10240x1024 .bf16) (harg3 : arg3.IsWhole) (arg4 : Memref sig .tc .vmem S1x1024 .f32) (harg4 : arg4.IsWhole) (arg5 : Memref sig .tc .vmem S512x1024 .bf16) (harg5 : arg5.IsWhole) (arg6 : Memref sig .tc .vmem S512x1024 .f32) (harg6 : arg6.IsWhole) (hc0 : ¬zeroC7 i) (hc1 : ¬flushC7 i)
    (x0 : Vec F S512x1024 .bf16) (x1 : Vec F S10240x1024 .bf16) (x2 : Vec F S1x1024 .f32) (xs : Vec F S512x1024 .f32) :
    acc7_M c i arg2 harg2 arg3 harg3 arg4 harg4 arg5 harg5 arg6 harg6 hc0 hc1 x0 x1 x2 xs
      = k7_pay2 (View.ld x1 (Rect.unit (s := S10240x1024) (k7_off1 i) S1024x1024.size (k7_off1_inb i))) xs x0 := by
  unfold acc7_M
  rw [View.read_writes_eq_canon _ _ _ (scover7_M c i arg2 harg2 arg3 harg3 arg4 harg4 arg5 harg5 arg6 harg6 hc0 hc1 x0 x1 x2 xs)]
  unfold runMid7
  dsimp only
  try sl_unfold_words
  rw [View.canon_unit_zero zero_offsets7]
  simp only [View.readAt_eq_ld, harg2.read_unread, harg3.read_unread, harg4.read_unread, harg6.read_unread,
    View.ld_unit_zero (S := S512x1024) zero_offsets7, View.ld_unit_zero (S := S512x1024) zero_offsets7, View.ld_unit_zero (S := S1x1024) zero_offsets7]

/-- Tile 9, the accumulator: as for a middle tile. -/
theorem acc7_L_eq (c : Dev nD) (i : grid7.Coords) (arg2 : Memref sig .tc .vmem S512x1024 .bf16) (harg2 : arg2.IsWhole) (arg3 : Memref sig .tc .vmem S10240x1024 .bf16) (harg3 : arg3.IsWhole) (arg4 : Memref sig .tc .vmem S1x1024 .f32) (harg4 : arg4.IsWhole) (arg5 : Memref sig .tc .vmem S512x1024 .bf16) (harg5 : arg5.IsWhole) (arg6 : Memref sig .tc .vmem S512x1024 .f32) (harg6 : arg6.IsWhole) (hc0 : ¬zeroC7 i) (hc1 : flushC7 i)
    (x0 : Vec F S512x1024 .bf16) (x1 : Vec F S10240x1024 .bf16) (x2 : Vec F S1x1024 .f32) (xs : Vec F S512x1024 .f32) :
    acc7_L c i arg2 harg2 arg3 harg3 arg4 harg4 arg5 harg5 arg6 harg6 hc0 hc1 x0 x1 x2 xs
      = k7_pay2 (View.ld x1 (Rect.unit (s := S10240x1024) (k7_off1 i) S1024x1024.size (k7_off1_inb i))) xs x0 := by
  unfold acc7_L
  rw [View.read_writes_eq_canon _ _ _ (scover7_L c i arg2 harg2 arg3 harg3 arg4 harg4 arg5 harg5 arg6 harg6 hc0 hc1 x0 x1 x2 xs)]
  unfold runLast7
  dsimp only
  try sl_unfold_words
  rw [View.canon_unit_zero zero_offsets7]
  simp only [View.readAt_eq_ld, harg2.read_unread, harg3.read_unread, harg4.read_unread, harg6.read_unread,
    View.ld_unit_zero (S := S512x1024) zero_offsets7, View.ld_unit_zero (S := S512x1024) zero_offsets7, View.ld_unit_zero (S := S1x1024) zero_offsets7]

/-- Tile 9, the result block: the last step applied to the accumulator just stored and read back. -/
theorem out7_L_eq (c : Dev nD) (i : grid7.Coords) (arg2 : Memref sig .tc .vmem S512x1024 .bf16) (harg2 : arg2.IsWhole) (arg3 : Memref sig .tc .vmem S10240x1024 .bf16) (harg3 : arg3.IsWhole) (arg4 : Memref sig .tc .vmem S1x1024 .f32) (harg4 : arg4.IsWhole) (arg5 : Memref sig .tc .vmem S512x1024 .bf16) (harg5 : arg5.IsWhole) (arg6 : Memref sig .tc .vmem S512x1024 .f32) (harg6 : arg6.IsWhole) (hc0 : ¬zeroC7 i) (hc1 : flushC7 i)
    (x0 : Vec F S512x1024 .bf16) (x1 : Vec F S10240x1024 .bf16) (x2 : Vec F S1x1024 .f32) (xs : Vec F S512x1024 .f32) :
    out7_L_3 c i arg2 harg2 arg3 harg3 arg4 harg4 arg5 harg5 arg6 harg6 hc0 hc1 x0 x1 x2 xs
      = k7_pay3 (k7_pay2 (View.ld x1 (Rect.unit (s := S10240x1024) (k7_off1 i) S1024x1024.size (k7_off1_inb i))) xs x0) x2 := by
  unfold out7_L_3
  rw [View.read_writes_eq_canon _ _ _ (cover7_L_3 c i arg2 harg2 arg3 harg3 arg4 harg4 arg5 harg5 arg6 harg6 hc0 hc1 x0 x1 x2 xs)]
  unfold runLast7
  dsimp only
  try sl_unfold_words
  rw [View.canon_unit_zero zero_offsets7, View.readCov_unit_zero (S := S512x1024) _ zero_offsets7]
  simp only [View.readAt_eq_ld, harg2.read_unread, harg3.read_unread, harg4.read_unread, harg6.read_unread,
    View.ld_unit_zero (S := S512x1024) zero_offsets7, View.ld_unit_zero (S := S512x1024) zero_offsets7, View.ld_unit_zero (S := S1x1024) zero_offsets7]

end Pieces

/-! ## The body's arithmetic at an entry, on the extended reals -/

/-- The zero fill reads 0. -/
theorem pay1_at7 (r : Fin 512) (q : Fin 1024) : k7_pay1 (F := Ideal) (ix2 r q) = (0 : EReal) := by
  unfold k7_pay1
  exact Cert.AccEntry.zero_fill_at 512 1024 _ r q

/-- Row r of a 512 × 1024 block against column q of a 1024 × 1024 block. -/
def stepSum7 (x : S512x1024.Idx → EReal) (w : S1024x1024.Idx → EReal) (r : Fin 512) (q : Fin 1024) : EReal :=
  ∑ k : Fin 1024, x (ix2 r k) * w (ix2 k q)

/-- One step: the accumulator's entry plus row r of the left block against column q of the right block. -/
theorem pay2_at7 (v6 : FVec Ideal S1024x1024 .bf16) (v8 : FVec Ideal S512x1024 .f32) (v9 : FVec Ideal S512x1024 .bf16)
    (r : Fin 512) (q : Fin 1024) :
    k7_pay2 (F := Ideal) v6 v8 v9 (ix2 r q) = v8 (ix2 r q) + stepSum7 v9 v6 r q := by
  unfold k7_pay2
  exact Cert.AccEntry.acc_step_at (φ₁ := .bf16) (φ₂ := .bf16) 512 1024 1024 _ rfl v9 v6 v8 _ _ _ r q

/-- The last step: the accumulator's entry plus the bias entry of column q, rectified. -/
theorem pay3_at7 (v19 : FVec Ideal S512x1024 .f32) (v20 : FVec Ideal S1x1024 .f32) (r : Fin 512) (q : Fin 1024) :
    k7_pay3 (F := Ideal) v19 v20 (ix2 r q) = Cert.Spec.relu (v19 (ix2 r q) + v20 (ix2 (0 : Fin 1) q)) := by
  unfold k7_pay3
  exact Cert.AccEntry.flush_relu_at (ψ := .bf16) 512 1024 v19 v20 _ _ _ r q

/-! ## Where the blocks sit -/

/-- Over the 200 grid points: the left operand's block is (point / 10, point % 10); the right operand and the bias row are
    read whole; the result's block is (point / 10, 0); the tile coordinate is point % 10. -/
theorem pointIdx7 : ∀ t : Fin cfg7.N,
      win7_0.index t (0 : Fin 2) = t.val / 10 ∧ win7_0.index t (1 : Fin 2) = t.val % 10
    ∧ win7_1.index t (0 : Fin 2) = 0 ∧ win7_1.index t (1 : Fin 2) = 0
    ∧ win7_2.index t (0 : Fin 2) = 0 ∧ win7_2.index t (1 : Fin 2) = 0
    ∧ win7_3.index t (0 : Fin 2) = t.val / 10 ∧ win7_3.index t (1 : Fin 2) = 0
    ∧ ((grid7.coords t) 1).val = t.val % 10 :=
  (by decide +kernel : ∀ t : Fin grid7.N, _)

/-- Row r of the block of 512 rows that point n works on. -/
def rowAt7 (n : ℕ) (r : Fin 512) : Fin 10240 := ⟨512 * (n / 10 % 20) + r.val, by omega⟩

/-- The tile that point n adds. -/
def tileAt7 (n : ℕ) : Fin 10 := ⟨n % 10, Nat.mod_lt n (by decide)⟩

/-- The rows of the right operand loaded at a point, at an entry: row 1024 · tile + k of the operand. -/
theorem slice_at7 (i : grid7.Coords) (X : Vec Ideal S10240x1024 .bf16) (k : Fin 1024) (q : Fin 1024) (j : Fin 10240)
    (hj : j.val = 1024 * (i 1).val + k.val) :
    View.ld (Val := Elt Ideal) (e' := .bf16) X (Rect.unit (s := S10240x1024) (k7_off1 i) S1024x1024.size (k7_off1_inb i)) (ix2 k q) = X (ix2 j q) := by
  have e0 : k7_off1 i 0 = 1024 * (i 1).val := (congrFun (k7_off1_eq i) 0).trans rfl
  have e1 : k7_off1 i 1 = 0 := (congrFun (k7_off1_eq i) 1).trans rfl
  show X _ = X _
  congr 1
  funext a; apply Fin.ext
  match a with
  | ⟨0, _⟩ => show k7_off1 i 0 + 1 * k.val = j.val; omega
  | ⟨1, _⟩ => show k7_off1 i 1 + 1 * q.val = q.val; omega

-- the TensorCore's buffer contents when the region is entered, on the extended reals
variable (V : (c : Dev nD) → (b : Ref sig .tc) → Buf (Elt Ideal) ((c : Thread nD τ).loc b))

/-- The left operand's block at point t, at (r, k): the left array at (row r of the point's block, index k of its tile). -/
theorem blkA_at7 (c : Dev nD) (t : Fin cfg7.N) (r : Fin 512) (k : Fin 1024) :
    (iblk7 (F := Ideal) V c 0 t : S512x1024.Idx → EReal) (ix2 r k)
      = (V c (Pipeline.arrRef spec7 0) : S10240x10240.Idx → EReal) (ix2 (rowAt7 t.val r) (Cert.Spec.tileIdx (tileAt7 t.val) k)) := by
  obtain ⟨e00, e01, -⟩ := pointIdx7 t
  have hN : t.val < 200 := lt_of_lt_of_eq t.isLt (show cfg7.N = 200 from N_7)
  show (V c (Pipeline.arrRef spec7 0) : S10240x10240.Idx → EReal) (((cfg7.win 0).blk t).view.emb (ix2 r k)) = _
  congr 1
  funext a; apply Fin.ext
  match a with
  | ⟨0, _⟩ => show win7_0.index t (0 : Fin 2) * 512 + 1 * r.val = 512 * (t.val / 10 % 20) + r.val; omega
  | ⟨1, _⟩ => show win7_0.index t (1 : Fin 2) * 1024 + 1 * k.val = t.val % 10 * 1024 + k.val; omega

/-- The right operand is resident whole: its block at any point is the array. -/
theorem blkH_at7 (c : Dev nD) (t : Fin cfg7.N) (j : Fin 10240) (q : Fin 1024) :
    (iblk7 (F := Ideal) V c 1 t : S10240x1024.Idx → EReal) (ix2 j q) = (V c (Pipeline.arrRef spec7 1) : S10240x1024.Idx → EReal) (ix2 j q) := by
  obtain ⟨-, -, e10, e11, -⟩ := pointIdx7 t
  show (V c (Pipeline.arrRef spec7 1) : S10240x1024.Idx → EReal) (((cfg7.win 1).blk t).view.emb (ix2 j q)) = _
  congr 1
  funext a; apply Fin.ext
  match a with
  | ⟨0, _⟩ => show win7_1.index t (0 : Fin 2) * 10240 + 1 * j.val = j.val; omega
  | ⟨1, _⟩ => show win7_1.index t (1 : Fin 2) * 1024 + 1 * q.val = q.val; omega

/-- So is the bias row. -/
theorem blkB_at7 (c : Dev nD) (t : Fin cfg7.N) (q : Fin 1024) :
    (iblk7 (F := Ideal) V c 2 t : S1x1024.Idx → EReal) (ix2 (0 : Fin 1) q) = (V c (Pipeline.arrRef spec7 2) : S1x1024.Idx → EReal) (ix2 (0 : Fin 1) q) := by
  obtain ⟨-, -, -, -, e20, e21, -⟩ := pointIdx7 t
  show (V c (Pipeline.arrRef spec7 2) : S1x1024.Idx → EReal) (((cfg7.win 2).blk t).view.emb (ix2 (0 : Fin 1) q)) = _
  congr 1
  funext a; apply Fin.ext
  match a with
  | ⟨0, _⟩ => show win7_2.index t (0 : Fin 2) * 1 + 1 * 0 = 0; omega
  | ⟨1, _⟩ => show win7_2.index t (1 : Fin 2) * 1024 + 1 * q.val = q.val; omega

/-! ## The accumulator, point by point -/

/-- The products summed along the shared axis for the entry (row r of point n's block, column q), of any two arrays, -/
def termOf7 (A : S10240x10240.Idx → EReal) (H : S10240x1024.Idx → EReal) (n : ℕ) (r : Fin 512) (q : Fin 1024) : Fin 10240 → EReal :=
  fun j => A (ix2 (rowAt7 n r) j) * H (ix2 j q)

/-- and of the two operands as the region finds them. -/
def term7 (c : Dev nD) (n : ℕ) (r : Fin 512) (q : Fin 1024) : Fin 10240 → EReal :=
  termOf7 (V c (Pipeline.arrRef spec7 0)) (V c (Pipeline.arrRef spec7 1)) n r q

/-- What a point adds at entry (r, q): the sum of the products over the indices of the point's tile. -/
theorem step_sum7 (c : Dev nD) (t : Fin cfg7.N) (r : Fin 512) (q : Fin 1024) :
    stepSum7 (iblk7 (F := Ideal) V c 0 t)
        (View.ld (Val := Elt Ideal) (e' := .bf16) (iblk7 (F := Ideal) V c 1 t : Vec Ideal S10240x1024 .bf16) (Rect.unit (s := S10240x1024) (k7_off1 (grid7.coords t)) S1024x1024.size (k7_off1_inb (grid7.coords t)))) r q
      = ∑ k : Fin 1024, term7 V c t.val r q (Cert.Spec.tileIdx (tileAt7 t.val) k) := by
  obtain ⟨-, -, -, -, -, -, -, -, eg⟩ := pointIdx7 t
  unfold stepSum7
  refine Finset.sum_congr rfl fun k _ => ?_
  have hj : (Cert.Spec.tileIdx (tileAt7 t.val) k).val = 1024 * ((grid7.coords t) 1).val + k.val := by
    show t.val % 10 * 1024 + k.val = _; omega
  exact congrArg₂ (fun (a b : EReal) => a * b) (blkA_at7 V c t r k)
    ((slice_at7 (grid7.coords t) (iblk7 (F := Ideal) V c 1 t) k q (Cert.Spec.tileIdx (tileAt7 t.val) k) hj).trans
      (blkH_at7 V c t (Cert.Spec.tileIdx (tileAt7 t.val) k) q))

/-- At tile 0 the accumulator's entry is 0 plus the tile's sum. -/
theorem accZ_at7 (c : Dev nD) (t : Fin cfg7.N) (h0 : t.val % 10 = 0) (r : Fin 512) (q : Fin 1024) :
    ((outsAt7 (F := Ideal) V c t.val t.isLt).2 : S512x1024.Idx → EReal) (ix2 r q)
      = 0 + ∑ k : Fin 1024, term7 V c t.val r q (Cert.Spec.tileIdx (tileAt7 t.val) k) := by
  have h1 : ¬t.val % 10 = 9 := by omega
  rw [outsAt7_Z V c t h0 h1]
  dsimp only
  refine (congrFun (acc7_Z_eq (F := Ideal) c (grid7.coords t) (mA7 t) (hA7 t) (mB7 t) (hB7 t) (mC7 t) (hC7 t) (mO7 t) (hO7 t) mS7 (Memref.isWhole_whole _) ((zeroC7_iff t).mpr h0) (fun h => h1 ((flushC7_iff t).mp h)) (iblk7 V c 0 t) (iblk7 V c 1 t) (iblk7 V c 2 t)) (ix2 r q)).trans ?_
  refine (pay2_at7 _ _ _ r q).trans ?_
  exact congrArg₂ (fun (a b : EReal) => a + b) (pay1_at7 r q) (step_sum7 V c t r q)

/-- At a later tile it is the entry the point before left plus the tile's sum. -/
theorem accS_at7 (c : Dev nD) (t : Fin cfg7.N) (h0 : ¬t.val % 10 = 0) (r : Fin 512) (q : Fin 1024) :
    ((outsAt7 (F := Ideal) V c t.val t.isLt).2 : S512x1024.Idx → EReal) (ix2 r q)
      = ((outsAt7 V c (t.val - 1) (Nat.lt_of_le_of_lt (Nat.sub_le _ _) t.isLt)).2 : S512x1024.Idx → EReal) (ix2 r q)
        + ∑ k : Fin 1024, term7 V c t.val r q (Cert.Spec.tileIdx (tileAt7 t.val) k) := by
  by_cases h1 : t.val % 10 = 9
  · rw [outsAt7_L V c t h0 h1]
    dsimp only
    refine (congrFun (acc7_L_eq (F := Ideal) c (grid7.coords t) (mA7 t) (hA7 t) (mB7 t) (hB7 t) (mC7 t) (hC7 t) (mO7 t) (hO7 t) mS7 (Memref.isWhole_whole _) (fun h => h0 ((zeroC7_iff t).mp h)) ((flushC7_iff t).mpr h1) (iblk7 V c 0 t) (iblk7 V c 1 t) (iblk7 V c 2 t) (outsAt7 V c (t.val - 1) (Nat.lt_of_le_of_lt (Nat.sub_le _ _) t.isLt)).2) (ix2 r q)).trans ?_
    refine (pay2_at7 _ _ _ r q).trans ?_
    exact congrArg (fun (b : EReal) => _ + b) (step_sum7 V c t r q)
  · rw [outsAt7_M V c t h0 h1]
    dsimp only
    refine (congrFun (acc7_M_eq (F := Ideal) c (grid7.coords t) (mA7 t) (hA7 t) (mB7 t) (hB7 t) (mC7 t) (hC7 t) (mO7 t) (hO7 t) mS7 (Memref.isWhole_whole _) (fun h => h0 ((zeroC7_iff t).mp h)) (fun h => h1 ((flushC7_iff t).mp h)) (iblk7 V c 0 t) (iblk7 V c 1 t) (iblk7 V c 2 t) (outsAt7 V c (t.val - 1) (Nat.lt_of_le_of_lt (Nat.sub_le _ _) t.isLt)).2) (ix2 r q)).trans ?_
    refine (pay2_at7 _ _ _ r q).trans ?_
    exact congrArg (fun (b : EReal) => _ + b) (step_sum7 V c t r q)

/-- Adding a tile's sum to the accumulator after the tiles before it is the accumulator after one more tile. -/
theorem tile_step7 (g : Fin 10240 → EReal) (n : ℕ) (a : EReal) (ha : a = Cert.Spec.tileAcc g (n % 10)) :
    a + ∑ k : Fin 1024, g (Cert.Spec.tileIdx (tileAt7 n) k) = Cert.Spec.tileAcc g (n % 10 + 1) := by
  rw [ha]
  exact (Cert.Spec.tileAcc_succ g (n % 10) (Nat.mod_lt n (by decide))).symm

/-- THE INVARIANT: after point n the accumulator's entry (r, q) is the sum of the products over the tiles 0 … n % 10 of
    the shared axis, for the row r of the point's block. By induction on the point: a point that is not at tile 0 works on
    the same block of rows as the point before it. -/
theorem acc_inv7 (c : Dev nD) : ∀ (n : ℕ) (h : n < cfg7.N) (r : Fin 512) (q : Fin 1024),
    ((outsAt7 (F := Ideal) V c n h).2 : S512x1024.Idx → EReal) (ix2 r q)
      = Cert.Spec.tileAcc (term7 V c n r q) (n % 10 + 1) := by
  intro n
  induction n with
  | zero =>
    intro h r q
    exact (accZ_at7 V c ⟨0, h⟩ (Nat.zero_mod 10) r q).trans (tile_step7 (term7 V c 0 r q) 0 0 rfl)
  | succ n ih =>
    intro h r q
    by_cases h0 : (n + 1) % 10 = 0
    · refine (accZ_at7 V c ⟨n + 1, h⟩ h0 r q).trans (tile_step7 (term7 V c (n + 1) r q) (n + 1) 0 ?_)
      rw [h0]; rfl
    · have e1 : ((outsAt7 (F := Ideal) V c (n + 1) h).2 : S512x1024.Idx → EReal) (ix2 r q)
          = ((outsAt7 (F := Ideal) V c n (Nat.lt_of_succ_lt h)).2 : S512x1024.Idx → EReal) (ix2 r q)
            + ∑ k : Fin 1024, term7 V c (n + 1) r q (Cert.Spec.tileIdx (tileAt7 (n + 1)) k) :=
        accS_at7 V c ⟨n + 1, h⟩ h0 r q
      have e2 : ((outsAt7 (F := Ideal) V c n (Nat.lt_of_succ_lt h)).2 : S512x1024.Idx → EReal) (ix2 r q)
          = Cert.Spec.tileAcc (term7 V c n r q) (n % 10 + 1) := ih (Nat.lt_of_succ_lt h) r q
      have e3 : rowAt7 n r = rowAt7 (n + 1) r := Fin.ext (by show 512 * (n / 10 % 20) + r.val = 512 * ((n + 1) / 10 % 20) + r.val; omega)
      have e4 : term7 V c n r q = term7 V c (n + 1) r q := by unfold term7 termOf7; rw [e3]
      have e5 : n % 10 + 1 = (n + 1) % 10 := by omega
      rw [e1, e2, e4, e5]
      exact tile_step7 (term7 V c (n + 1) r q) (n + 1) _ rfl

/-! ## The result block at tile 9 -/

/-- At tile 9 the result buffer's entry is the accumulator's entry plus the bias entry of the column, rectified. -/
theorem out_at7 (c : Dev nD) (t : Fin cfg7.N) (h1 : t.val % 10 = 9) (r : Fin 512) (q : Fin 1024) :
    ((outsAt7 (F := Ideal) V c t.val t.isLt).1 : S512x1024.Idx → EReal) (ix2 r q)
      = Cert.Spec.relu (((outsAt7 (F := Ideal) V c t.val t.isLt).2 : S512x1024.Idx → EReal) (ix2 r q) + (V c (Pipeline.arrRef spec7 2) : S1x1024.Idx → EReal) (ix2 (0 : Fin 1) q)) := by
  have h0 : ¬t.val % 10 = 0 := by omega
  rw [outsAt7_L V c t h0 h1]
  dsimp only
  rw [out7_L_eq (F := Ideal) c (grid7.coords t) (mA7 t) (hA7 t) (mB7 t) (hB7 t) (mC7 t) (hC7 t) (mO7 t) (hO7 t) mS7 (Memref.isWhole_whole _) (fun h => h0 ((zeroC7_iff t).mp h)) ((flushC7_iff t).mpr h1) (iblk7 V c 0 t) (iblk7 V c 1 t) (iblk7 V c 2 t) (outsAt7 V c (t.val - 1) (Nat.lt_of_le_of_lt (Nat.sub_le _ _) t.isLt)).2,
    acc7_L_eq (F := Ideal) c (grid7.coords t) (mA7 t) (hA7 t) (mB7 t) (hB7 t) (mC7 t) (hC7 t) (mO7 t) (hO7 t) mS7 (Memref.isWhole_whole _) (fun h => h0 ((zeroC7_iff t).mp h)) ((flushC7_iff t).mpr h1) (iblk7 V c 0 t) (iblk7 V c 1 t) (iblk7 V c 2 t) (outsAt7 V c (t.val - 1) (Nat.lt_of_le_of_lt (Nat.sub_le _ _) t.isLt)).2]
  refine (pay3_at7 _ _ r q).trans ?_
  exact congrArg (fun z => Cert.Spec.relu (_ + z)) (blkB_at7 V c t q)

/-! ## The result as one function of the three arrays -/

/-- Entry (p, q): row p of the left operand against column q of the right operand over all 10240 indices, plus the bias
    entry q, rectified. -/
def entry7 (A : S10240x10240.Idx → EReal) (H : S10240x1024.Idx → EReal) (B : S1x1024.Idx → EReal) (p : Fin 10240) (q : Fin 1024) : EReal :=
  Cert.Spec.relu ((∑ j : Fin 10240, A (ix2 p j) * H (ix2 j q)) + B (ix2 (0 : Fin 1) q))

/-- The whole result array, index by index. -/
def whole7 (A : S10240x10240.Idx → EReal) (H : S10240x1024.Idx → EReal) (B : S1x1024.Idx → EReal) : S10240x1024.Idx → EReal :=
  fun i => entry7 A H B (i 0) (i 1)

/-- What a point at tile 9 writes back is its block of 512 rows of the whole result: the accumulator holds the sum over
    all ten tiles, which is the sum over the 10240 indices. -/
theorem flushed7_eq (c : Dev nD) (t : Fin cfg7.N) (hf : (cfg7.win 3).flush t = true) :
    (dat7 (F := Ideal) V c).flushed 3 t
      = ((cfg7.win 3).blk t).view.read (Elt Ideal)
          (whole7 (V c (Pipeline.arrRef spec7 0)) (V c (Pipeline.arrRef spec7 1)) (V c (Pipeline.arrRef spec7 2))) := by
  have h1 : t.val % 10 = 9 := (flush7_3 t).mp hf
  have hN : t.val < 200 := lt_of_lt_of_eq t.isLt (show cfg7.N = 200 from N_7)
  obtain ⟨-, -, -, -, -, -, e30, e31, -⟩ := pointIdx7 t
  show (cfg7.win 3).cut (grid7.coords t) ((dat7 V c).after 3 t) = _
  rw [after7_3]
  funext j
  obtain ⟨r, q, rfl⟩ : ∃ (r : Fin 512) (q : Fin 1024), j = ix2 r q := ⟨j 0, j 1, eq_ix2 j⟩
  refine (out_at7 V c t h1 r q).trans ?_
  have hacc : ((outsAt7 (F := Ideal) V c t.val t.isLt).2 : S512x1024.Idx → EReal) (ix2 r q)
      = ∑ j : Fin 10240, term7 V c t.val r q j := by
    refine (acc_inv7 V c t.val t.isLt r q).trans ?_
    rw [h1]
    exact Cert.Spec.tileAcc_ten _
  rw [hacc]
  have hp : ((((cfg7.win 3).blk t).view.emb (ix2 r q)) 0 : Fin 10240) = rowAt7 t.val r :=
    Fin.ext (by show win7_3.index t (0 : Fin 2) * 512 + 1 * r.val = 512 * (t.val / 10 % 20) + r.val; omega)
  have hq : ((((cfg7.win 3).blk t).view.emb (ix2 r q)) 1 : Fin 1024) = q :=
    Fin.ext (by show win7_3.index t (1 : Fin 2) * 1024 + 1 * q.val = q.val; omega)
  exact (congrArg₂ (entry7 (V c (Pipeline.arrRef spec7 0)) (V c (Pipeline.arrRef spec7 1)) (V c (Pipeline.arrRef spec7 2))) hp hq).symm

/-! ## The twenty blocks cover the array -/

/-- An index of the result is in point `t`'s block iff each coordinate is in the block's range on its axis. -/
theorem mem_blk7 (t : Fin cfg7.N) (i : S10240x1024.Idx) :
    i ∈ ((cfg7.win 3).blk t).view.set ↔ ∀ a : Fin 2, win7_3.index t a * S512x1024.size a ≤ (i a).val
      ∧ (i a).val < win7_3.index t a * S512x1024.size a + S512x1024.size a := by
  show i ∈ ((View.whole main_v89).slice (win7_3.rect t)).set ↔ _
  rw [View.set_slice_whole, Rect.mem_set_unit]
  exact Iff.rfl

/-- Row p lies in the block of the points of row block p / 512, and the point at tile 9 of that row block writes it back. -/
theorem cover7 (i : S10240x1024.Idx) :
    ∃ t : Fin cfg7.N, (cfg7.win 3).flush t = true ∧ i ∈ ((cfg7.win 3).blk t).view.set := by
  have hi0 : (i 0).val < 10240 := (i 0).isLt
  have hi1 : (i 1).val < 1024 := (i 1).isLt
  have hN : grid7.N = 200 := N_7
  obtain ⟨t, ht⟩ : ∃ t : Fin cfg7.N, t.val = 10 * ((i 0).val / 512) + 9 :=
    ⟨⟨10 * ((i 0).val / 512) + 9, by show _ < grid7.N; omega⟩, rfl⟩
  obtain ⟨-, -, -, -, -, -, e30, e31, -⟩ := pointIdx7 t
  refine ⟨t, (flush7_3 t).mpr (by omega), ?_⟩
  rw [mem_blk7]
  intro a
  match a with
  | ⟨0, _⟩ => show win7_3.index t (0 : Fin 2) * 512 ≤ (i 0).val ∧ (i 0).val < win7_3.index t (0 : Fin 2) * 512 + 512; omega
  | ⟨1, _⟩ => show win7_3.index t (1 : Fin 2) * 1024 ≤ (i 1).val ∧ (i 1).val < win7_3.index t (1 : Fin 2) * 1024 + 1024; omega

/-! ## The array when the region is left -/

/-- The result array after the twenty write-backs is the whole function of the three arrays as the region found them. -/
theorem final7 (c : Dev nD) :
    (dat7 (F := Ideal) V c).arrAt 3 cfg7.N
      = whole7 (V c (Pipeline.arrRef spec7 0)) (V c (Pipeline.arrRef spec7 1)) (V c (Pipeline.arrRef spec7 2)) :=
  (dat7 (F := Ideal) V c).arrAt_eq_of_cover 3 _ (fun t hf => flushed7_eq V c t hf) cover7

/-- Entry (p, q) of the result array after the region. -/
theorem val7 (c : Dev nD) (p : Fin 10240) (q : Fin 1024) :
    (dat7 (F := Ideal) V c).arrAt 3 cfg7.N (ix2 p q)
      = entry7 (V c (Pipeline.arrRef spec7 0)) (V c (Pipeline.arrRef spec7 1)) (V c (Pipeline.arrRef spec7 2)) p q := by
  rw [final7]; rfl

/-- The entry written out. -/
theorem entry7_eq (A : S10240x10240.Idx → EReal) (H : S10240x1024.Idx → EReal) (B : S1x1024.Idx → EReal) (p : Fin 10240) (q : Fin 1024) :
    entry7 A H B p q = Cert.Spec.relu ((∑ j : Fin 10240, A (ix2 p j) * H (ix2 j q)) + B (ix2 (0 : Fin 1) q)) := rfl

end Cert.KernelIdeal.Rg

end
-- ==== Proof.KI.Val8.lean ====
/- Stage-1 region 8 (custom_call 8): the value of its result array when the region is left, at the buffer
   contents `V` found when it is entered. Every entry (p, q) of the 10240 × 1024 result is the sum over the shared
   axis of (left operand at (p, k)) · (right operand at (k, q)), plus the bias row's entry q (no rectifier here): each grid
   point writes one block of 1024 rows of that one array, and the ten blocks cover its 10240 rows. -/
import proofs.«181230_j19834158973077_2_alg».proof.Proof.KI.Reg8
import proofs.«181230_j19834158973077_2_alg».proof.Proof.AffineEntry
import proofs.«181230_j19834158973077_2_alg».proof.Proof.Spec
import Idealize.ShloMosaic.Lib.Pipeline.Value
import Idealize.ShloMosaic.Lib.ValueIdx

set_option maxRecDepth 16384

noncomputable section

namespace Cert.KernelIdeal.Rg

open Cert.KernelIdeal Cert.KernelIdeal.Gen
open Idealize.ShloMosaic Idealize.ShloMosaic.TcCoe Idealize.ShloMosaic.ValueIdx Idealize.SL.Sem
open Idealize.ShloMosaic.Pipeline (Dat)

-- the TensorCore's buffer contents when the region is entered, on the extended reals
variable (V : (c : Dev nD) → (b : Ref sig .tc) → Buf (Elt Ideal) ((c : Thread nD τ).loc b))

/-! ## The three arrays the region reads, and the result as one function of them -/

/-- The left operand (10240 rows), the right operand and the bias row, as the region finds them. -/
abbrev lhs8 (c : Dev nD) : S10240x1024.Idx → EReal := V c (Pipeline.arrRef spec8 0)
abbrev rhs8 (c : Dev nD) : S1024x1024.Idx → EReal := V c (Pipeline.arrRef spec8 1)
abbrev bias8 (c : Dev nD) : S1x1024.Idx → EReal := V c (Pipeline.arrRef spec8 2)

/-- Entry (p, q): the row p of the left operand against the column q of the right operand, plus the bias entry q. -/
def entry8 (X : S10240x1024.Idx → EReal) (W : S1024x1024.Idx → EReal) (B : S1x1024.Idx → EReal) (p : Fin 10240) (q : Fin 1024) : EReal :=
  (∑ k : Fin 1024, X (ix2 p k) * W (ix2 k q)) + B (ix2 (0 : Fin 1) q)

/-- The whole result array, index by index. -/
def whole8 (X : S10240x1024.Idx → EReal) (W : S1024x1024.Idx → EReal) (B : S1x1024.Idx → EReal) : S10240x1024.Idx → EReal :=
  fun i => entry8 X W B (i 0) (i 1)

/-! ## The body's payload at an entry of the block -/

/-- What the body stores, at entry (p, q) of the block, from the three blocks it loads: the product accumulated from
    zero plus the repeated bias row; the casts to the same shape and the change of format are identities. -/
theorem pay8_apply (x0 : FVec Ideal S1024x1024 .bf16) (x1 : FVec Ideal S1024x1024 .bf16) (x2 : FVec Ideal S1x1024 .f32)
    (p : Fin 1024) (q : Fin 1024) :
    k8_pay1 (F := Ideal) x0 x1 x2 (ix2 p q)
      = (∑ k : Fin 1024, x0 (ix2 p k) * x1 (ix2 k q)) + x2 (ix2 (0 : Fin 1) q) := by
  unfold k8_pay1
  exact Cert.AffineEntry.affine_at (φ₁ := .bf16) (φ₂ := .bf16) (ψ := .bf16) 1024 1024 1024 _ rfl x0 x1 x2 _ _ _ _ _ p q

/-! ## Where each block sits -/

theorem zero_offsets8 : (![0, 0] : Fin 2 → Nat) = fun _ => 0 := funext fun a => by fin_cases a <;> rfl

/-- The index maps over the ten grid points: the left operand's row block and the result's row block are both the
    point's number; on the column axis, and for the right operand and the bias row, every block index is zero. -/
theorem blockIdx8 : ∀ t : Fin cfg8.N,
      win8_0.index t (0 : Fin 2) = t.val ∧ win8_0.index t (1 : Fin 2) = 0
    ∧ win8_1.index t (0 : Fin 2) = 0 ∧ win8_1.index t (1 : Fin 2) = 0
    ∧ win8_2.index t (0 : Fin 2) = 0 ∧ win8_2.index t (1 : Fin 2) = 0
    ∧ win8_3.index t (0 : Fin 2) = t.val ∧ win8_3.index t (1 : Fin 2) = 0 :=
  (by decide +kernel : ∀ t : Fin grid8.N, _)

/-! ## The blocks at a point, read in their arrays

A block's element sits, on each axis, at block index × block size + its coordinate inside the block. -/

/-- The left operand's block at point `t` is rows [1024 t, 1024 t + 1024) of the left array. -/
theorem blk8_lhs (c : Dev nD) (t : Fin cfg8.N) (p : Fin 1024) (k : Fin 1024) (r : Fin 10240)
    (hr : r.val = t.val * 1024 + p.val) : iblk8 V c 0 t (ix2 p k) = lhs8 V c (ix2 r k) := by
  obtain ⟨e00, e01, -⟩ := blockIdx8 t
  show lhs8 V c (((cfg8.win 0).blk t).view.emb (ix2 p k)) = lhs8 V c (ix2 r k)
  refine congrArg (lhs8 V c) ?_
  funext a; apply Fin.ext
  match a with
  | ⟨0, _⟩ => show win8_0.index t (0 : Fin 2) * 1024 + 1 * p.val = r.val; omega
  | ⟨1, _⟩ => show win8_0.index t (1 : Fin 2) * 1024 + 1 * k.val = k.val; omega

/-- The right operand's block at every point is the whole right array. -/
theorem blk8_rhs (c : Dev nD) (t : Fin cfg8.N) (k : Fin 1024) (q : Fin 1024) :
    iblk8 V c 1 t (ix2 k q) = rhs8 V c (ix2 k q) := by
  obtain ⟨-, -, e10, e11, -⟩ := blockIdx8 t
  show rhs8 V c (((cfg8.win 1).blk t).view.emb (ix2 k q)) = rhs8 V c (ix2 k q)
  refine congrArg (rhs8 V c) ?_
  funext a; apply Fin.ext
  match a with
  | ⟨0, _⟩ => show win8_1.index t (0 : Fin 2) * 1024 + 1 * k.val = k.val; omega
  | ⟨1, _⟩ => show win8_1.index t (1 : Fin 2) * 1024 + 1 * q.val = q.val; omega

/-- The bias row's block at every point is the whole row. -/
theorem blk8_bias (c : Dev nD) (t : Fin cfg8.N) (q : Fin 1024) :
    iblk8 V c 2 t (ix2 (0 : Fin 1) q) = bias8 V c (ix2 (0 : Fin 1) q) := by
  obtain ⟨-, -, -, -, e20, e21, -⟩ := blockIdx8 t
  show bias8 V c (((cfg8.win 2).blk t).view.emb (ix2 (0 : Fin 1) q)) = bias8 V c (ix2 (0 : Fin 1) q)
  refine congrArg (bias8 V c) ?_
  funext a; apply Fin.ext
  match a with
  | ⟨0, _⟩ => show win8_2.index t (0 : Fin 2) * 1 + 1 * 0 = 0; omega
  | ⟨1, _⟩ => show win8_2.index t (1 : Fin 2) * 1024 + 1 * q.val = q.val; omega

/-- The result's block at point `t`, read off any whole array `G`, is rows [1024 t, 1024 t + 1024) of `G`. -/
theorem blk8_out (t : Fin cfg8.N) (G : S10240x1024.Idx → EReal) (p : Fin 1024) (q : Fin 1024) (r : Fin 10240)
    (hr : r.val = t.val * 1024 + p.val) :
    ((cfg8.win 3).blk t).view.read (Elt Ideal) G (ix2 p q) = G (ix2 r q) := by
  obtain ⟨-, -, -, -, -, -, e30, e31⟩ := blockIdx8 t
  show G (((cfg8.win 3).blk t).view.emb (ix2 p q)) = G (ix2 r q)
  refine congrArg G ?_
  funext a; apply Fin.ext
  match a with
  | ⟨0, _⟩ => show win8_3.index t (0 : Fin 2) * 1024 + 1 * p.val = r.val; omega
  | ⟨1, _⟩ => show win8_3.index t (1 : Fin 2) * 1024 + 1 * q.val = q.val; omega

/-! ## What a point writes back -/

/-- What point `t` writes back is the block of rows [1024 t, 1024 t + 1024) of the whole result: the body's one store is
    its payload of the three loaded blocks, and each block is read in its array by the lemmas above. -/
theorem flushed8_eq (c : Dev nD) (t : Fin cfg8.N) :
    (dat8 (F := Ideal) V c).flushed 3 t
      = ((cfg8.win 3).blk t).view.read (Elt Ideal) (whole8 (lhs8 V c) (rhs8 V c) (bias8 V c)) := by
  show (cfg8.win 3).cut (grid8.coords t) ((dat8 V c).after 3 t) = _
  rw [after8_3]
  unfold out8_3
  rw [View.canon_unit_zero zero_offsets8]
  simp only [View.ld_unit_zero (S := S1024x1024) zero_offsets8, View.ld_unit_zero (S := S1024x1024) zero_offsets8,
    View.ld_unit_zero (S := S1x1024) zero_offsets8]
  funext j
  obtain ⟨p, q, rfl⟩ : ∃ (p : Fin 1024) (q : Fin 1024), j = ix2 p q := ⟨j 0, j 1, eq_ix2 j⟩
  refine (pay8_apply _ _ _ p q).trans ?_
  have ht : t.val < 10 := lt_of_lt_of_eq t.isLt N_8
  obtain ⟨r, hr⟩ : ∃ r : Fin 10240, r.val = t.val * 1024 + p.val :=
    ⟨⟨t.val * 1024 + p.val, by have := p.isLt; omega⟩, rfl⟩
  refine Eq.trans ?_ (blk8_out t (whole8 (lhs8 V c) (rhs8 V c) (bias8 V c)) p q r hr).symm
  show _ = entry8 (lhs8 V c) (rhs8 V c) (bias8 V c) r q
  unfold entry8
  rw [blk8_bias V c t q]
  refine congrArg (fun s => s + bias8 V c (ix2 (0 : Fin 1) q)) ?_
  exact Finset.sum_congr rfl fun k _ => by rw [blk8_lhs V c t p k r hr, blk8_rhs V c t k q]

/-! ## The ten blocks cover the array -/

/-- An index of the result is in point `t`'s block iff each coordinate is in the block's range on its axis. -/
theorem mem_blk8 (t : Fin cfg8.N) (i : S10240x1024.Idx) :
    i ∈ ((cfg8.win 3).blk t).view.set ↔ ∀ a : Fin 2, win8_3.index t a * S1024x1024.size a ≤ (i a).val
      ∧ (i a).val < win8_3.index t a * S1024x1024.size a + S1024x1024.size a := by
  show i ∈ ((View.whole main_v96).slice (win8_3.rect t)).set ↔ _
  rw [View.set_slice_whole, Rect.mem_set_unit]
  exact Iff.rfl

/-- Row r lies in the block of point r / 1024, and every point writes its block back. -/
theorem cover8 (i : S10240x1024.Idx) :
    ∃ t : Fin cfg8.N, (cfg8.win 3).flush t = true ∧ i ∈ ((cfg8.win 3).blk t).view.set := by
  have hi0 : (i 0).val < 10240 := (i 0).isLt
  have hi1 : (i 1).val < 1024 := (i 1).isLt
  have hN : grid8.N = 10 := N_8
  obtain ⟨t, ht⟩ : ∃ t : Fin cfg8.N, t.val = (i 0).val / 1024 := ⟨⟨(i 0).val / 1024, by show _ < grid8.N; omega⟩, rfl⟩
  obtain ⟨-, -, -, -, -, -, e30, e31⟩ := blockIdx8 t
  refine ⟨t, flush8_3 t, ?_⟩
  rw [mem_blk8]
  intro a
  match a with
  | ⟨0, _⟩ => show win8_3.index t (0 : Fin 2) * 1024 ≤ (i 0).val ∧ (i 0).val < win8_3.index t (0 : Fin 2) * 1024 + 1024; omega
  | ⟨1, _⟩ => show win8_3.index t (1 : Fin 2) * 1024 ≤ (i 1).val ∧ (i 1).val < win8_3.index t (1 : Fin 2) * 1024 + 1024; omega

/-! ## The array when the region is left -/

/-- The result array after the ten write-backs is the whole function of the three arrays as the region found them. -/
theorem final8 (c : Dev nD) :
    (dat8 (F := Ideal) V c).arrAt 3 cfg8.N = whole8 (lhs8 V c) (rhs8 V c) (bias8 V c) :=
  (dat8 (F := Ideal) V c).arrAt_eq_of_cover 3 _ (fun t _ => flushed8_eq V c t) cover8

/-- Entry (p, q) of the result array after the region. -/
theorem val8 (c : Dev nD) (p : Fin 10240) (q : Fin 1024) :
    (dat8 (F := Ideal) V c).arrAt 3 cfg8.N (ix2 p q)
      = (∑ k : Fin 1024, lhs8 V c (ix2 p k) * rhs8 V c (ix2 k q)) + bias8 V c (ix2 (0 : Fin 1) q) := by
  rw [final8]; rfl

end Cert.KernelIdeal.Rg

end
-- ==== Proof.KI.Val9.lean ====
/- The aggregation region 9 (custom_call 9): the value of its result array when the region is left, at the buffer
   contents `V` found when it is entered. Every entry (p, q) of the 10240 × 1024 result is the sum over the 10240 indices j of
   (left operand at (p, j)) · (right operand at (j, q)), plus the bias row's entry q, rectified. The grid is 20 blocks of 512 rows
   by 10 tiles of 1024 indices of the shared axis: at tile 0 the accumulator is filled with zeros, every tile adds to it the
   product of the left operand's 512 × 1024 block with the 1024 rows of the right operand that the tile names, and at tile 9
   the accumulator plus the bias row is stored as the block of 512 rows of the result. Ten tiles regroup one finite sum, and
   the twenty blocks cover the 10240 rows. -/
import proofs.«181230_j19834158973077_2_alg».proof.Proof.KI.Reg9
import proofs.«181230_j19834158973077_2_alg».proof.Proof.AccEntry
import proofs.«181230_j19834158973077_2_alg».proof.Proof.Spec
import proofs.«181230_j19834158973077_2_alg».proof.Proof.SpecTiles
import Idealize.ShloMosaic.Lib.Pipeline.Value
import Idealize.ShloMosaic.Lib.ValueIdx

set_option maxRecDepth 16384

noncomputable section

namespace Cert.KernelIdeal.Rg

open Cert.KernelIdeal Cert.KernelIdeal.Gen
open Idealize.ShloMosaic Idealize.ShloMosaic.TcCoe Idealize.ShloMosaic.ValueIdx Idealize.SL.Sem Idealize.ShloMosaic.Tactic
open Idealize.ShloMosaic.Pipeline (Dat)

theorem zero_offsets9 : (![0, 0] : Fin 2 → Nat) = fun _ => 0 := funext fun a => by fin_cases a <;> rfl

/-! ## What each control case leaves, as the body's arithmetic over the blocks it loads

In every number format: the accumulator after tile 0 is the step applied to the zero fill; after a later tile the step
applied to what the tile before left; the result block at tile 9 is the last step applied to the accumulator. The right
operand is loaded through the rectangle of the 1024 rows the tile names. -/

section Pieces
variable {F : FTy → Type} [FloatOps F]

/-- Tile 0: the zero fill is stored whole, read back, and the first product added to it. -/
theorem acc9_Z_eq (c : Dev nD) (i : grid9.Coords) (arg2 : Memref sig .tc .vmem S512x1024 .bf16) (harg2 : arg2.IsWhole) (arg3 : Memref sig .tc .vmem S10240x1024 .bf16) (harg3 : arg3.IsWhole) (arg4 : Memref sig .tc .vmem S1x1024 .f32) (harg4 : arg4.IsWhole) (arg5 : Memref sig .tc .vmem S512x1024 .bf16) (harg5 : arg5.IsWhole) (arg6 : Memref sig .tc .vmem S512x1024 .f32) (harg6 : arg6.IsWhole) (hc0 : zeroC9 i) (hc1 : ¬flushC9 i)
    (x0 : Vec F S512x1024 .bf16) (x1 : Vec F S10240x1024 .bf16) (x2 : Vec F S1x1024 .f32) :
    acc9_Z c i arg2 harg2 arg3 harg3 arg4 harg4 arg5 harg5 arg6 harg6 hc0 hc1 x0 x1 x2
      = k9_pay2 (View.ld x1 (Rect.unit (s := S10240x1024) (k9_off1 i) S1024x1024.size (k9_off1_inb i))) k9_pay1 x0 := by
  unfold acc9_Z
  rw [View.read_writes_eq_canon _ _ _ (scover9_Z c i arg2 harg2 arg3 harg3 arg4 harg4 arg5 harg5 arg6 harg6 hc0 hc1 x0 x1 x2)]
  unfold runZero9
  dsimp only
  try sl_unfold_words
  rw [View.canon_cons_unit_zero (S := S512x1024) zero_offsets9, View.readCov_unit_zero (S := S512x1024) _ zero_offsets9]
  simp only [View.readAt_eq_ld, harg2.read_unread, harg3.read_unread, harg4.read_unread, harg6.read_unread,
    View.ld_unit_zero (S := S512x1024) zero_offsets9, View.ld_unit_zero (S := S512x1024) zero_offsets9, View.ld_unit_zero (S := S1x1024) zero_offsets9]

/-- A tile strictly between the first and the last: the product added to what the tile before left. -/
theorem acc9_M_eq (c : Dev nD) (i : grid9.Coords) (arg2 : Memref sig .tc .vmem S512x1024 .bf16) (harg2 : arg2.IsWhole) (arg3 : Memref sig .tc .vmem S10240x1024 .bf16) (harg3 : arg3.IsWhole) (arg4 : Memref sig .tc .vmem S1x1024 .f32) (harg4 : arg4.IsWhole) (arg5 : Memref sig .tc .vmem S512x1024 .bf16) (harg5 : arg5.IsWhole) (arg6 : Memref sig .tc .vmem S512x1024 .f32) (harg6 : arg6.IsWhole) (hc0 : ¬zeroC9 i) (hc1 : ¬flushC9 i)
    (x0 : Vec F S512x1024 .bf16) (x1 : Vec F S10240x1024 .bf16) (x2 : Vec F S1x1024 .f32) (xs : Vec F S512x1024 .f32) :
    acc9_M c i arg2 harg2 arg3 harg3 arg4 harg4 arg5 harg5 arg6 harg6 hc0 hc1 x0 x1 x2 xs
      = k9_pay2 (View.ld x1 (Rect.unit (s := S10240x1024) (k9_off1 i) S1024x1024.size (k9_off1_inb i))) xs x0 := by
  unfold acc9_M
  rw [View.read_writes_eq_canon _ _ _ (scover9_M c i arg2 harg2 arg3 harg3 arg4 harg4 arg5 harg5 arg6 harg6 hc0 hc1 x0 x1 x2 xs)]
  unfold runMid9
  dsimp only
  try sl_unfold_words
  rw [View.canon_unit_zero zero_offsets9]
  simp only [View.readAt_eq_ld, harg2.read_unread, harg3.read_unread, harg4.read_unread, harg6.read_unread,
    View.ld_unit_zero (S := S512x1024) zero_offsets9, View.ld_unit_zero (S := S512x1024) zero_offsets9, View.ld_unit_zero (S := S1x1024) zero_offsets9]

/-- Tile 9, the accumulator: as for a middle tile. -/
theorem acc9_L_eq (c : Dev nD) (i : grid9.Coords) (arg2 : Memref sig .tc .vmem S512x1024 .bf16) (harg2 : arg2.IsWhole) (arg3 : Memref sig .tc .vmem S10240x1024 .bf16) (harg3 : arg3.IsWhole) (arg4 : Memref sig .tc .vmem S1x1024 .f32) (harg4 : arg4.IsWhole) (arg5 : Memref sig .tc .vmem S512x1024 .bf16) (harg5 : arg5.IsWhole) (arg6 : Memref sig .tc .vmem S512x1024 .f32) (harg6 : arg6.IsWhole) (hc0 : ¬zeroC9 i) (hc1 : flushC9 i)
    (x0 : Vec F S512x1024 .bf16) (x1 : Vec F S10240x1024 .bf16) (x2 : Vec F S1x1024 .f32) (xs : Vec F S512x1024 .f32) :
    acc9_L c i arg2 harg2 arg3 harg3 arg4 harg4 arg5 harg5 arg6 harg6 hc0 hc1 x0 x1 x2 xs
      = k9_pay2 (View.ld x1 (Rect.unit (s := S10240x1024) (k9_off1 i) S1024x1024.size (k9_off1_inb i))) xs x0 := by
  unfold acc9_L
  rw [View.read_writes_eq_canon _ _ _ (scover9_L c i arg2 harg2 arg3 harg3 arg4 harg4 arg5 harg5 arg6 harg6 hc0 hc1 x0 x1 x2 xs)]
  unfold runLast9
  dsimp only
  try sl_unfold_words
  rw [View.canon_unit_zero zero_offsets9]
  simp only [View.readAt_eq_ld, harg2.read_unread, harg3.read_unread, harg4.read_unread, harg6.read_unread,
    View.ld_unit_zero (S := S512x1024) zero_offsets9, View.ld_unit_zero (S := S512x1024) zero_offsets9, View.ld_unit_zero (S := S1x1024) zero_offsets9]

/-- Tile 9, the result block: the last step applied to the accumulator just stored and read back. -/
theorem out9_L_eq (c : Dev nD) (i : grid9.Coords) (arg2 : Memref sig .tc .vmem S512x1024 .bf16) (harg2 : arg2.IsWhole) (arg3 : Memref sig .tc .vmem S10240x1024 .bf16) (harg3 : arg3.IsWhole) (arg4 : Memref sig .tc .vmem S1x1024 .f32) (harg4 : arg4.IsWhole) (arg5 : Memref sig .tc .vmem S512x1024 .bf16) (harg5 : arg5.IsWhole) (arg6 : Memref sig .tc .vmem S512x1024 .f32) (harg6 : arg6.IsWhole) (hc0 : ¬zeroC9 i) (hc1 : flushC9 i)
    (x0 : Vec F S512x1024 .bf16) (x1 : Vec F S10240x1024 .bf16) (x2 : Vec F S1x1024 .f32) (xs : Vec F S512x1024 .f32) :
    out9_L_3 c i arg2 harg2 arg3 harg3 arg4 harg4 arg5 harg5 arg6 harg6 hc0 hc1 x0 x1 x2 xs
      = k9_pay3 (k9_pay2 (View.ld x1 (Rect.unit (s := S10240x1024) (k9_off1 i) S1024x1024.size (k9_off1_inb i))) xs x0) x2 := by
  unfold out9_L_3
  rw [View.read_writes_eq_canon _ _ _ (cover9_L_3 c i arg2 harg2 arg3 harg3 arg4 harg4 arg5 harg5 arg6 harg6 hc0 hc1 x0 x1 x2 xs)]
  unfold runLast9
  dsimp only
  try sl_unfold_words
  rw [View.canon_unit_zero zero_offsets9, View.readCov_unit_zero (S := S512x1024) _ zero_offsets9]
  simp only [View.readAt_eq_ld, harg2.read_unread, harg3.read_unread, harg4.read_unread, harg6.read_unread,
    View.ld_unit_zero (S := S512x1024) zero_offsets9, View.ld_unit_zero (S := S512x1024) zero_offsets9, View.ld_unit_zero (S := S1x1024) zero_offsets9]

end Pieces

/-! ## The body's arithmetic at an entry, on the extended reals -/

/-- The zero fill reads 0. -/
theorem pay1_at9 (r : Fin 512) (q : Fin 1024) : k9_pay1 (F := Ideal) (ix2 r q) = (0 : EReal) := by
  unfold k9_pay1
  exact Cert.AccEntry.zero_fill_at 512 1024 _ r q

/-- Row r of a 512 × 1024 block against column q of a 1024 × 1024 block. -/
def stepSum9 (x : S512x1024.Idx → EReal) (w : S1024x1024.Idx → EReal) (r : Fin 512) (q : Fin 1024) : EReal :=
  ∑ k : Fin 1024, x (ix2 r k) * w (ix2 k q)

/-- One step: the accumulator's entry plus row r of the left block against column q of the right block. -/
theorem pay2_at9 (v6 : FVec Ideal S1024x1024 .bf16) (v8 : FVec Ideal S512x1024 .f32) (v9 : FVec Ideal S512x1024 .bf16)
    (r : Fin 512) (q : Fin 1024) :
    k9_pay2 (F := Ideal) v6 v8 v9 (ix2 r q) = v8 (ix2 r q) + stepSum9 v9 v6 r q := by
  unfold k9_pay2
  exact Cert.AccEntry.acc_step_at (φ₁ := .bf16) (φ₂ := .bf16) 512 1024 1024 _ rfl v9 v6 v8 _ _ _ r q

/-- The last step: the accumulator's entry plus the bias entry of column q, rectified. -/
theorem pay3_at9 (v19 : FVec Ideal S512x1024 .f32) (v20 : FVec Ideal S1x1024 .f32) (r : Fin 512) (q : Fin 1024) :
    k9_pay3 (F := Ideal) v19 v20 (ix2 r q) = Cert.Spec.relu (v19 (ix2 r q) + v20 (ix2 (0 : Fin 1) q)) := by
  unfold k9_pay3
  exact Cert.AccEntry.flush_relu_at (ψ := .bf16) 512 1024 v19 v20 _ _ _ r q

/-! ## Where the blocks sit -/

/-- Over the 200 grid points: the left operand's block is (point / 10, point % 10); the right operand and the bias row are
    read whole; the result's block is (point / 10, 0); the tile coordinate is point % 10. -/
theorem pointIdx9 : ∀ t : Fin cfg9.N,
      win9_0.index t (0 : Fin 2) = t.val / 10 ∧ win9_0.index t (1 : Fin 2) = t.val % 10
    ∧ win9_1.index t (0 : Fin 2) = 0 ∧ win9_1.index t (1 : Fin 2) = 0
    ∧ win9_2.index t (0 : Fin 2) = 0 ∧ win9_2.index t (1 : Fin 2) = 0
    ∧ win9_3.index t (0 : Fin 2) = t.val / 10 ∧ win9_3.index t (1 : Fin 2) = 0
    ∧ ((grid9.coords t) 1).val = t.val % 10 :=
  (by decide +kernel : ∀ t : Fin grid9.N, _)

/-- Row r of the block of 512 rows that point n works on. -/
def rowAt9 (n : ℕ) (r : Fin 512) : Fin 10240 := ⟨512 * (n / 10 % 20) + r.val, by omega⟩

/-- The tile that point n adds. -/
def tileAt9 (n : ℕ) : Fin 10 := ⟨n % 10, Nat.mod_lt n (by decide)⟩

/-- The rows of the right operand loaded at a point, at an entry: row 1024 · tile + k of the operand. -/
theorem slice_at9 (i : grid9.Coords) (X : Vec Ideal S10240x1024 .bf16) (k : Fin 1024) (q : Fin 1024) (j : Fin 10240)
    (hj : j.val = 1024 * (i 1).val + k.val) :
    View.ld (Val := Elt Ideal) (e' := .bf16) X (Rect.unit (s := S10240x1024) (k9_off1 i) S1024x1024.size (k9_off1_inb i)) (ix2 k q) = X (ix2 j q) := by
  have e0 : k9_off1 i 0 = 1024 * (i 1).val := (congrFun (k9_off1_eq i) 0).trans rfl
  have e1 : k9_off1 i 1 = 0 := (congrFun (k9_off1_eq i) 1).trans rfl
  show X _ = X _
  congr 1
  funext a; apply Fin.ext
  match a with
  | ⟨0, _⟩ => show k9_off1 i 0 + 1 * k.val = j.val; omega
  | ⟨1, _⟩ => show k9_off1 i 1 + 1 * q.val = q.val; omega

-- the TensorCore's buffer contents when the region is entered, on the extended reals
variable (V : (c : Dev nD) → (b : Ref sig .tc) → Buf (Elt Ideal) ((c : Thread nD τ).loc b))

/-- The left operand's block at point t, at (r, k): the left array at (row r of the point's block, index k of its tile). -/
theorem blkA_at9 (c : Dev nD) (t : Fin cfg9.N) (r : Fin 512) (k : Fin 1024) :
    (iblk9 (F := Ideal) V c 0 t : S512x1024.Idx → EReal) (ix2 r k)
      = (V c (Pipeline.arrRef spec9 0) : S10240x10240.Idx → EReal) (ix2 (rowAt9 t.val r) (Cert.Spec.tileIdx (tileAt9 t.val) k)) := by
  obtain ⟨e00, e01, -⟩ := pointIdx9 t
  have hN : t.val < 200 := lt_of_lt_of_eq t.isLt (show cfg9.N = 200 from N_9)
  show (V c (Pipeline.arrRef spec9 0) : S10240x10240.Idx → EReal) (((cfg9.win 0).blk t).view.emb (ix2 r k)) = _
  congr 1
  funext a; apply Fin.ext
  match a with
  | ⟨0, _⟩ => show win9_0.index t (0 : Fin 2) * 512 + 1 * r.val = 512 * (t.val / 10 % 20) + r.val; omega
  | ⟨1, _⟩ => show win9_0.index t (1 : Fin 2) * 1024 + 1 * k.val = t.val % 10 * 1024 + k.val; omega

/-- The right operand is resident whole: its block at any point is the array. -/
theorem blkH_at9 (c : Dev nD) (t : Fin cfg9.N) (j : Fin 10240) (q : Fin 1024) :
    (iblk9 (F := Ideal) V c 1 t : S10240x1024.Idx → EReal) (ix2 j q) = (V c (Pipeline.arrRef spec9 1) : S10240x1024.Idx → EReal) (ix2 j q) := by
  obtain ⟨-, -, e10, e11, -⟩ := pointIdx9 t
  show (V c (Pipeline.arrRef spec9 1) : S10240x1024.Idx → EReal) (((cfg9.win 1).blk t).view.emb (ix2 j q)) = _
  congr 1
  funext a; apply Fin.ext
  match a with
  | ⟨0, _⟩ => show win9_1.index t (0 : Fin 2) * 10240 + 1 * j.val = j.val; omega
  | ⟨1, _⟩ => show win9_1.index t (1 : Fin 2) * 1024 + 1 * q.val = q.val; omega

/-- So is the bias row. -/
theorem blkB_at9 (c : Dev nD) (t : Fin cfg9.N) (q : Fin 1024) :
    (iblk9 (F := Ideal) V c 2 t : S1x1024.Idx → EReal) (ix2 (0 : Fin 1) q) = (V c (Pipeline.arrRef spec9 2) : S1x1024.Idx → EReal) (ix2 (0 : Fin 1) q) := by
  obtain ⟨-, -, -, -, e20, e21, -⟩ := pointIdx9 t
  show (V c (Pipeline.arrRef spec9 2) : S1x1024.Idx → EReal) (((cfg9.win 2).blk t).view.emb (ix2 (0 : Fin 1) q)) = _
  congr 1
  funext a; apply Fin.ext
  match a with
  | ⟨0, _⟩ => show win9_2.index t (0 : Fin 2) * 1 + 1 * 0 = 0; omega
  | ⟨1, _⟩ => show win9_2.index t (1 : Fin 2) * 1024 + 1 * q.val = q.val; omega

/-! ## The accumulator, point by point -/

/-- The products summed along the shared axis for the entry (row r of point n's block, column q), of any two arrays, -/
def termOf9 (A : S10240x10240.Idx → EReal) (H : S10240x1024.Idx → EReal) (n : ℕ) (r : Fin 512) (q : Fin 1024) : Fin 10240 → EReal :=
  fun j => A (ix2 (rowAt9 n r) j) * H (ix2 j q)

/-- and of the two operands as the region finds them. -/
def term9 (c : Dev nD) (n : ℕ) (r : Fin 512) (q : Fin 1024) : Fin 10240 → EReal :=
  termOf9 (V c (Pipeline.arrRef spec9 0)) (V c (Pipeline.arrRef spec9 1)) n r q

/-- What a point adds at entry (r, q): the sum of the products over the indices of the point's tile. -/
theorem step_sum9 (c : Dev nD) (t : Fin cfg9.N) (r : Fin 512) (q : Fin 1024) :
    stepSum9 (iblk9 (F := Ideal) V c 0 t)
        (View.ld (Val := Elt Ideal) (e' := .bf16) (iblk9 (F := Ideal) V c 1 t : Vec Ideal S10240x1024 .bf16) (Rect.unit (s := S10240x1024) (k9_off1 (grid9.coords t)) S1024x1024.size (k9_off1_inb (grid9.coords t)))) r q
      = ∑ k : Fin 1024, term9 V c t.val r q (Cert.Spec.tileIdx (tileAt9 t.val) k) := by
  obtain ⟨-, -, -, -, -, -, -, -, eg⟩ := pointIdx9 t
  unfold stepSum9
  refine Finset.sum_congr rfl fun k _ => ?_
  have hj : (Cert.Spec.tileIdx (tileAt9 t.val) k).val = 1024 * ((grid9.coords t) 1).val + k.val := by
    show t.val % 10 * 1024 + k.val = _; omega
  exact congrArg₂ (fun (a b : EReal) => a * b) (blkA_at9 V c t r k)
    ((slice_at9 (grid9.coords t) (iblk9 (F := Ideal) V c 1 t) k q (Cert.Spec.tileIdx (tileAt9 t.val) k) hj).trans
      (blkH_at9 V c t (Cert.Spec.tileIdx (tileAt9 t.val) k) q))

/-- At tile 0 the accumulator's entry is 0 plus the tile's sum. -/
theorem accZ_at9 (c : Dev nD) (t : Fin cfg9.N) (h0 : t.val % 10 = 0) (r : Fin 512) (q : Fin 1024) :
    ((outsAt9 (F := Ideal) V c t.val t.isLt).2 : S512x1024.Idx → EReal) (ix2 r q)
      = 0 + ∑ k : Fin 1024, term9 V c t.val r q (Cert.Spec.tileIdx (tileAt9 t.val) k) := by
  have h1 : ¬t.val % 10 = 9 := by omega
  rw [outsAt9_Z V c t h0 h1]
  dsimp only
  refine (congrFun (acc9_Z_eq (F := Ideal) c (grid9.coords t) (mA9 t) (hA9 t) (mB9 t) (hB9 t) (mC9 t) (hC9 t) (mO9 t) (hO9 t) mS9 (Memref.isWhole_whole _) ((zeroC9_iff t).mpr h0) (fun h => h1 ((flushC9_iff t).mp h)) (iblk9 V c 0 t) (iblk9 V c 1 t) (iblk9 V c 2 t)) (ix2 r q)).trans ?_
  refine (pay2_at9 _ _ _ r q).trans ?_
  exact congrArg₂ (fun (a b : EReal) => a + b) (pay1_at9 r q) (step_sum9 V c t r q)

/-- At a later tile it is the entry the point before left plus the tile's sum. -/
theorem accS_at9 (c : Dev nD) (t : Fin cfg9.N) (h0 : ¬t.val % 10 = 0) (r : Fin 512) (q : Fin 1024) :
    ((outsAt9 (F := Ideal) V c t.val t.isLt).2 : S512x1024.Idx → EReal) (ix2 r q)
      = ((outsAt9 V c (t.val - 1) (Nat.lt_of_le_of_lt (Nat.sub_le _ _) t.isLt)).2 : S512x1024.Idx → EReal) (ix2 r q)
        + ∑ k : Fin 1024, term9 V c t.val r q (Cert.Spec.tileIdx (tileAt9 t.val) k) := by
  by_cases h1 : t.val % 10 = 9
  · rw [outsAt9_L V c t h0 h1]
    dsimp only
    refine (congrFun (acc9_L_eq (F := Ideal) c (grid9.coords t) (mA9 t) (hA9 t) (mB9 t) (hB9 t) (mC9 t) (hC9 t) (mO9 t) (hO9 t) mS9 (Memref.isWhole_whole _) (fun h => h0 ((zeroC9_iff t).mp h)) ((flushC9_iff t).mpr h1) (iblk9 V c 0 t) (iblk9 V c 1 t) (iblk9 V c 2 t) (outsAt9 V c (t.val - 1) (Nat.lt_of_le_of_lt (Nat.sub_le _ _) t.isLt)).2) (ix2 r q)).trans ?_
    refine (pay2_at9 _ _ _ r q).trans ?_
    exact congrArg (fun (b : EReal) => _ + b) (step_sum9 V c t r q)
  · rw [outsAt9_M V c t h0 h1]
    dsimp only
    refine (congrFun (acc9_M_eq (F := Ideal) c (grid9.coords t) (mA9 t) (hA9 t) (mB9 t) (hB9 t) (mC9 t) (hC9 t) (mO9 t) (hO9 t) mS9 (Memref.isWhole_whole _) (fun h => h0 ((zeroC9_iff t).mp h)) (fun h => h1 ((flushC9_iff t).mp h)) (iblk9 V c 0 t) (iblk9 V c 1 t) (iblk9 V c 2 t) (outsAt9 V c (t.val - 1) (Nat.lt_of_le_of_lt (Nat.sub_le _ _) t.isLt)).2) (ix2 r q)).trans ?_
    refine (pay2_at9 _ _ _ r q).trans ?_
    exact congrArg (fun (b : EReal) => _ + b) (step_sum9 V c t r q)

/-- Adding a tile's sum to the accumulator after the tiles before it is the accumulator after one more tile. -/
theorem tile_step9 (g : Fin 10240 → EReal) (n : ℕ) (a : EReal) (ha : a = Cert.Spec.tileAcc g (n % 10)) :
    a + ∑ k : Fin 1024, g (Cert.Spec.tileIdx (tileAt9 n) k) = Cert.Spec.tileAcc g (n % 10 + 1) := by
  rw [ha]
  exact (Cert.Spec.tileAcc_succ g (n % 10) (Nat.mod_lt n (by decide))).symm

/-- THE INVARIANT: after point n the accumulator's entry (r, q) is the sum of the products over the tiles 0 … n % 10 of
    the shared axis, for the row r of the point's block. By induction on the point: a point that is not at tile 0 works on
    the same block of rows as the point before it. -/
theorem acc_inv9 (c : Dev nD) : ∀ (n : ℕ) (h : n < cfg9.N) (r : Fin 512) (q : Fin 1024),
    ((outsAt9 (F := Ideal) V c n h).2 : S512x1024.Idx → EReal) (ix2 r q)
      = Cert.Spec.tileAcc (term9 V c n r q) (n % 10 + 1) := by
  intro n
  induction n with
  | zero =>
    intro h r q
    exact (accZ_at9 V c ⟨0, h⟩ (Nat.zero_mod 10) r q).trans (tile_step9 (term9 V c 0 r q) 0 0 rfl)
  | succ n ih =>
    intro h r q
    by_cases h0 : (n + 1) % 10 = 0
    · refine (accZ_at9 V c ⟨n + 1, h⟩ h0 r q).trans (tile_step9 (term9 V c (n + 1) r q) (n + 1) 0 ?_)
      rw [h0]; rfl
    · have e1 : ((outsAt9 (F := Ideal) V c (n + 1) h).2 : S512x1024.Idx → EReal) (ix2 r q)
          = ((outsAt9 (F := Ideal) V c n (Nat.lt_of_succ_lt h)).2 : S512x1024.Idx → EReal) (ix2 r q)
            + ∑ k : Fin 1024, term9 V c (n + 1) r q (Cert.Spec.tileIdx (tileAt9 (n + 1)) k) :=
        accS_at9 V c ⟨n + 1, h⟩ h0 r q
      have e2 : ((outsAt9 (F := Ideal) V c n (Nat.lt_of_succ_lt h)).2 : S512x1024.Idx → EReal) (ix2 r q)
          = Cert.Spec.tileAcc (term9 V c n r q) (n % 10 + 1) := ih (Nat.lt_of_succ_lt h) r q
      have e3 : rowAt9 n r = rowAt9 (n + 1) r := Fin.ext (by show 512 * (n / 10 % 20) + r.val = 512 * ((n + 1) / 10 % 20) + r.val; omega)
      have e4 : term9 V c n r q = term9 V c (n + 1) r q := by unfold term9 termOf9; rw [e3]
      have e5 : n % 10 + 1 = (n + 1) % 10 := by omega
      rw [e1, e2, e4, e5]
      exact tile_step9 (term9 V c (n + 1) r q) (n + 1) _ rfl

/-! ## The result block at tile 9 -/

/-- At tile 9 the result buffer's entry is the accumulator's entry plus the bias entry of the column, rectified. -/
theorem out_at9 (c : Dev nD) (t : Fin cfg9.N) (h1 : t.val % 10 = 9) (r : Fin 512) (q : Fin 1024) :
    ((outsAt9 (F := Ideal) V c t.val t.isLt).1 : S512x1024.Idx → EReal) (ix2 r q)
      = Cert.Spec.relu (((outsAt9 (F := Ideal) V c t.val t.isLt).2 : S512x1024.Idx → EReal) (ix2 r q) + (V c (Pipeline.arrRef spec9 2) : S1x1024.Idx → EReal) (ix2 (0 : Fin 1) q)) := by
  have h0 : ¬t.val % 10 = 0 := by omega
  rw [outsAt9_L V c t h0 h1]
  dsimp only
  rw [out9_L_eq (F := Ideal) c (grid9.coords t) (mA9 t) (hA9 t) (mB9 t) (hB9 t) (mC9 t) (hC9 t) (mO9 t) (hO9 t) mS9 (Memref.isWhole_whole _) (fun h => h0 ((zeroC9_iff t).mp h)) ((flushC9_iff t).mpr h1) (iblk9 V c 0 t) (iblk9 V c 1 t) (iblk9 V c 2 t) (outsAt9 V c (t.val - 1) (Nat.lt_of_le_of_lt (Nat.sub_le _ _) t.isLt)).2,
    acc9_L_eq (F := Ideal) c (grid9.coords t) (mA9 t) (hA9 t) (mB9 t) (hB9 t) (mC9 t) (hC9 t) (mO9 t) (hO9 t) mS9 (Memref.isWhole_whole _) (fun h => h0 ((zeroC9_iff t).mp h)) ((flushC9_iff t).mpr h1) (iblk9 V c 0 t) (iblk9 V c 1 t) (iblk9 V c 2 t) (outsAt9 V c (t.val - 1) (Nat.lt_of_le_of_lt (Nat.sub_le _ _) t.isLt)).2]
  refine (pay3_at9 _ _ r q).trans ?_
  exact congrArg (fun z => Cert.Spec.relu (_ + z)) (blkB_at9 V c t q)

/-! ## The result as one function of the three arrays -/

/-- Entry (p, q): row p of the left operand against column q of the right operand over all 10240 indices, plus the bias
    entry q, rectified. -/
def entry9 (A : S10240x10240.Idx → EReal) (H : S10240x1024.Idx → EReal) (B : S1x1024.Idx → EReal) (p : Fin 10240) (q : Fin 1024) : EReal :=
  Cert.Spec.relu ((∑ j : Fin 10240, A (ix2 p j) * H (ix2 j q)) + B (ix2 (0 : Fin 1) q))

/-- The whole result array, index by index. -/
def whole9 (A : S10240x10240.Idx → EReal) (H : S10240x1024.Idx → EReal) (B : S1x1024.Idx → EReal) : S10240x1024.Idx → EReal :=
  fun i => entry9 A H B (i 0) (i 1)

/-- What a point at tile 9 writes back is its block of 512 rows of the whole result: the accumulator holds the sum over
    all ten tiles, which is the sum over the 10240 indices. -/
theorem flushed9_eq (c : Dev nD) (t : Fin cfg9.N) (hf : (cfg9.win 3).flush t = true) :
    (dat9 (F := Ideal) V c).flushed 3 t
      = ((cfg9.win 3).blk t).view.read (Elt Ideal)
          (whole9 (V c (Pipeline.arrRef spec9 0)) (V c (Pipeline.arrRef spec9 1)) (V c (Pipeline.arrRef spec9 2))) := by
  have h1 : t.val % 10 = 9 := (flush9_3 t).mp hf
  have hN : t.val < 200 := lt_of_lt_of_eq t.isLt (show cfg9.N = 200 from N_9)
  obtain ⟨-, -, -, -, -, -, e30, e31, -⟩ := pointIdx9 t
  show (cfg9.win 3).cut (grid9.coords t) ((dat9 V c).after 3 t) = _
  rw [after9_3]
  funext j
  obtain ⟨r, q, rfl⟩ : ∃ (r : Fin 512) (q : Fin 1024), j = ix2 r q := ⟨j 0, j 1, eq_ix2 j⟩
  refine (out_at9 V c t h1 r q).trans ?_
  have hacc : ((outsAt9 (F := Ideal) V c t.val t.isLt).2 : S512x1024.Idx → EReal) (ix2 r q)
      = ∑ j : Fin 10240, term9 V c t.val r q j := by
    refine (acc_inv9 V c t.val t.isLt r q).trans ?_
    rw [h1]
    exact Cert.Spec.tileAcc_ten _
  rw [hacc]
  have hp : ((((cfg9.win 3).blk t).view.emb (ix2 r q)) 0 : Fin 10240) = rowAt9 t.val r :=
    Fin.ext (by show win9_3.index t (0 : Fin 2) * 512 + 1 * r.val = 512 * (t.val / 10 % 20) + r.val; omega)
  have hq : ((((cfg9.win 3).blk t).view.emb (ix2 r q)) 1 : Fin 1024) = q :=
    Fin.ext (by show win9_3.index t (1 : Fin 2) * 1024 + 1 * q.val = q.val; omega)
  exact (congrArg₂ (entry9 (V c (Pipeline.arrRef spec9 0)) (V c (Pipeline.arrRef spec9 1)) (V c (Pipeline.arrRef spec9 2))) hp hq).symm

/-! ## The twenty blocks cover the array -/

/-- An index of the result is in point `t`'s block iff each coordinate is in the block's range on its axis. -/
theorem mem_blk9 (t : Fin cfg9.N) (i : S10240x1024.Idx) :
    i ∈ ((cfg9.win 3).blk t).view.set ↔ ∀ a : Fin 2, win9_3.index t a * S512x1024.size a ≤ (i a).val
      ∧ (i a).val < win9_3.index t a * S512x1024.size a + S512x1024.size a := by
  show i ∈ ((View.whole main_v98).slice (win9_3.rect t)).set ↔ _
  rw [View.set_slice_whole, Rect.mem_set_unit]
  exact Iff.rfl

/-- Row p lies in the block of the points of row block p / 512, and the point at tile 9 of that row block writes it back. -/
theorem cover9 (i : S10240x1024.Idx) :
    ∃ t : Fin cfg9.N, (cfg9.win 3).flush t = true ∧ i ∈ ((cfg9.win 3).blk t).view.set := by
  have hi0 : (i 0).val < 10240 := (i 0).isLt
  have hi1 : (i 1).val < 1024 := (i 1).isLt
  have hN : grid9.N = 200 := N_9
  obtain ⟨t, ht⟩ : ∃ t : Fin cfg9.N, t.val = 10 * ((i 0).val / 512) + 9 :=
    ⟨⟨10 * ((i 0).val / 512) + 9, by show _ < grid9.N; omega⟩, rfl⟩
  obtain ⟨-, -, -, -, -, -, e30, e31, -⟩ := pointIdx9 t
  refine ⟨t, (flush9_3 t).mpr (by omega), ?_⟩
  rw [mem_blk9]
  intro a
  match a with
  | ⟨0, _⟩ => show win9_3.index t (0 : Fin 2) * 512 ≤ (i 0).val ∧ (i 0).val < win9_3.index t (0 : Fin 2) * 512 + 512; omega
  | ⟨1, _⟩ => show win9_3.index t (1 : Fin 2) * 1024 ≤ (i 1).val ∧ (i 1).val < win9_3.index t (1 : Fin 2) * 1024 + 1024; omega

/-! ## The array when the region is left -/

/-- The result array after the twenty write-backs is the whole function of the three arrays as the region found them. -/
theorem final9 (c : Dev nD) :
    (dat9 (F := Ideal) V c).arrAt 3 cfg9.N
      = whole9 (V c (Pipeline.arrRef spec9 0)) (V c (Pipeline.arrRef spec9 1)) (V c (Pipeline.arrRef spec9 2)) :=
  (dat9 (F := Ideal) V c).arrAt_eq_of_cover 3 _ (fun t hf => flushed9_eq V c t hf) cover9

/-- Entry (p, q) of the result array after the region. -/
theorem val9 (c : Dev nD) (p : Fin 10240) (q : Fin 1024) :
    (dat9 (F := Ideal) V c).arrAt 3 cfg9.N (ix2 p q)
      = entry9 (V c (Pipeline.arrRef spec9 0)) (V c (Pipeline.arrRef spec9 1)) (V c (Pipeline.arrRef spec9 2)) p q := by
  rw [final9]; rfl

/-- The entry written out. -/
theorem entry9_eq (A : S10240x10240.Idx → EReal) (H : S10240x1024.Idx → EReal) (B : S1x1024.Idx → EReal) (p : Fin 10240) (q : Fin 1024) :
    entry9 A H B p q = Cert.Spec.relu ((∑ j : Fin 10240, A (ix2 p j) * H (ix2 j q)) + B (ix2 (0 : Fin 1) q)) := rfl

end Cert.KernelIdeal.Rg

end
-- ==== Proof.KI.Val10.lean ====
/- Stage-1 region 10 (custom_call 10): the value of its result array when the region is left, at the buffer
   contents `V` found when it is entered. Every entry (p, q) of the 10240 × 1024 result is the sum over the shared
   axis of (left operand at (p, k)) · (right operand at (k, q)), plus the bias row's entry q (no rectifier here): each grid
   point writes one block of 1024 rows of that one array, and the ten blocks cover its 10240 rows. -/
import proofs.«181230_j19834158973077_2_alg».proof.Proof.KI.Reg10
import proofs.«181230_j19834158973077_2_alg».proof.Proof.AffineEntry
import proofs.«181230_j19834158973077_2_alg».proof.Proof.Spec
import Idealize.ShloMosaic.Lib.Pipeline.Value
import Idealize.ShloMosaic.Lib.ValueIdx

set_option maxRecDepth 16384

noncomputable section

namespace Cert.KernelIdeal.Rg

open Cert.KernelIdeal Cert.KernelIdeal.Gen
open Idealize.ShloMosaic Idealize.ShloMosaic.TcCoe Idealize.ShloMosaic.ValueIdx Idealize.SL.Sem
open Idealize.ShloMosaic.Pipeline (Dat)

-- the TensorCore's buffer contents when the region is entered, on the extended reals
variable (V : (c : Dev nD) → (b : Ref sig .tc) → Buf (Elt Ideal) ((c : Thread nD τ).loc b))

/-! ## The three arrays the region reads, and the result as one function of them -/

/-- The left operand (10240 rows), the right operand and the bias row, as the region finds them. -/
abbrev lhs10 (c : Dev nD) : S10240x1024.Idx → EReal := V c (Pipeline.arrRef spec10 0)
abbrev rhs10 (c : Dev nD) : S1024x1024.Idx → EReal := V c (Pipeline.arrRef spec10 1)
abbrev bias10 (c : Dev nD) : S1x1024.Idx → EReal := V c (Pipeline.arrRef spec10 2)

/-- Entry (p, q): the row p of the left operand against the column q of the right operand, plus the bias entry q. -/
def entry10 (X : S10240x1024.Idx → EReal) (W : S1024x1024.Idx → EReal) (B : S1x1024.Idx → EReal) (p : Fin 10240) (q : Fin 1024) : EReal :=
  (∑ k : Fin 1024, X (ix2 p k) * W (ix2 k q)) + B (ix2 (0 : Fin 1) q)

/-- The whole result array, index by index. -/
def whole10 (X : S10240x1024.Idx → EReal) (W : S1024x1024.Idx → EReal) (B : S1x1024.Idx → EReal) : S10240x1024.Idx → EReal :=
  fun i => entry10 X W B (i 0) (i 1)

/-! ## The body's payload at an entry of the block -/

/-- What the body stores, at entry (p, q) of the block, from the three blocks it loads: the product accumulated from
    zero plus the repeated bias row; the casts to the same shape and the change of format are identities. -/
theorem pay10_apply (x0 : FVec Ideal S1024x1024 .bf16) (x1 : FVec Ideal S1024x1024 .bf16) (x2 : FVec Ideal S1x1024 .f32)
    (p : Fin 1024) (q : Fin 1024) :
    k10_pay1 (F := Ideal) x0 x1 x2 (ix2 p q)
      = (∑ k : Fin 1024, x0 (ix2 p k) * x1 (ix2 k q)) + x2 (ix2 (0 : Fin 1) q) := by
  unfold k10_pay1
  exact Cert.AffineEntry.affine_at (φ₁ := .bf16) (φ₂ := .bf16) (ψ := .bf16) 1024 1024 1024 _ rfl x0 x1 x2 _ _ _ _ _ p q

/-! ## Where each block sits -/

theorem zero_offsets10 : (![0, 0] : Fin 2 → Nat) = fun _ => 0 := funext fun a => by fin_cases a <;> rfl

/-- The index maps over the ten grid points: the left operand's row block and the result's row block are both the
    point's number; on the column axis, and for the right operand and the bias row, every block index is zero. -/
theorem blockIdx10 : ∀ t : Fin cfg10.N,
      win10_0.index t (0 : Fin 2) = t.val ∧ win10_0.index t (1 : Fin 2) = 0
    ∧ win10_1.index t (0 : Fin 2) = 0 ∧ win10_1.index t (1 : Fin 2) = 0
    ∧ win10_2.index t (0 : Fin 2) = 0 ∧ win10_2.index t (1 : Fin 2) = 0
    ∧ win10_3.index t (0 : Fin 2) = t.val ∧ win10_3.index t (1 : Fin 2) = 0 :=
  (by decide +kernel : ∀ t : Fin grid10.N, _)

/-! ## The blocks at a point, read in their arrays

A block's element sits, on each axis, at block index × block size + its coordinate inside the block. -/

/-- The left operand's block at point `t` is rows [1024 t, 1024 t + 1024) of the left array. -/
theorem blk10_lhs (c : Dev nD) (t : Fin cfg10.N) (p : Fin 1024) (k : Fin 1024) (r : Fin 10240)
    (hr : r.val = t.val * 1024 + p.val) : iblk10 V c 0 t (ix2 p k) = lhs10 V c (ix2 r k) := by
  obtain ⟨e00, e01, -⟩ := blockIdx10 t
  show lhs10 V c (((cfg10.win 0).blk t).view.emb (ix2 p k)) = lhs10 V c (ix2 r k)
  refine congrArg (lhs10 V c) ?_
  funext a; apply Fin.ext
  match a with
  | ⟨0, _⟩ => show win10_0.index t (0 : Fin 2) * 1024 + 1 * p.val = r.val; omega
  | ⟨1, _⟩ => show win10_0.index t (1 : Fin 2) * 1024 + 1 * k.val = k.val; omega

/-- The right operand's block at every point is the whole right array. -/
theorem blk10_rhs (c : Dev nD) (t : Fin cfg10.N) (k : Fin 1024) (q : Fin 1024) :
    iblk10 V c 1 t (ix2 k q) = rhs10 V c (ix2 k q) := by
  obtain ⟨-, -, e10, e11, -⟩ := blockIdx10 t
  show rhs10 V c (((cfg10.win 1).blk t).view.emb (ix2 k q)) = rhs10 V c (ix2 k q)
  refine congrArg (rhs10 V c) ?_
  funext a; apply Fin.ext
  match a with
  | ⟨0, _⟩ => show win10_1.index t (0 : Fin 2) * 1024 + 1 * k.val = k.val; omega
  | ⟨1, _⟩ => show win10_1.index t (1 : Fin 2) * 1024 + 1 * q.val = q.val; omega

/-- The bias row's block at every point is the whole row. -/
theorem blk10_bias (c : Dev nD) (t : Fin cfg10.N) (q : Fin 1024) :
    iblk10 V c 2 t (ix2 (0 : Fin 1) q) = bias10 V c (ix2 (0 : Fin 1) q) := by
  obtain ⟨-, -, -, -, e20, e21, -⟩ := blockIdx10 t
  show bias10 V c (((cfg10.win 2).blk t).view.emb (ix2 (0 : Fin 1) q)) = bias10 V c (ix2 (0 : Fin 1) q)
  refine congrArg (bias10 V c) ?_
  funext a; apply Fin.ext
  match a with
  | ⟨0, _⟩ => show win10_2.index t (0 : Fin 2) * 1 + 1 * 0 = 0; omega
  | ⟨1, _⟩ => show win10_2.index t (1 : Fin 2) * 1024 + 1 * q.val = q.val; omega

/-- The result's block at point `t`, read off any whole array `G`, is rows [1024 t, 1024 t + 1024) of `G`. -/
theorem blk10_out (t : Fin cfg10.N) (G : S10240x1024.Idx → EReal) (p : Fin 1024) (q : Fin 1024) (r : Fin 10240)
    (hr : r.val = t.val * 1024 + p.val) :
    ((cfg10.win 3).blk t).view.read (Elt Ideal) G (ix2 p q) = G (ix2 r q) := by
  obtain ⟨-, -, -, -, -, -, e30, e31⟩ := blockIdx10 t
  show G (((cfg10.win 3).blk t).view.emb (ix2 p q)) = G (ix2 r q)
  refine congrArg G ?_
  funext a; apply Fin.ext
  match a with
  | ⟨0, _⟩ => show win10_3.index t (0 : Fin 2) * 1024 + 1 * p.val = r.val; omega
  | ⟨1, _⟩ => show win10_3.index t (1 : Fin 2) * 1024 + 1 * q.val = q.val; omega

/-! ## What a point writes back -/

/-- What point `t` writes back is the block of rows [1024 t, 1024 t + 1024) of the whole result: the body's one store is
    its payload of the three loaded blocks, and each block is read in its array by the lemmas above. -/
theorem flushed10_eq (c : Dev nD) (t : Fin cfg10.N) :
    (dat10 (F := Ideal) V c).flushed 3 t
      = ((cfg10.win 3).blk t).view.read (Elt Ideal) (whole10 (lhs10 V c) (rhs10 V c) (bias10 V c)) := by
  show (cfg10.win 3).cut (grid10.coords t) ((dat10 V c).after 3 t) = _
  rw [after10_3]
  unfold out10_3
  rw [View.canon_unit_zero zero_offsets10]
  simp only [View.ld_unit_zero (S := S1024x1024) zero_offsets10, View.ld_unit_zero (S := S1024x1024) zero_offsets10,
    View.ld_unit_zero (S := S1x1024) zero_offsets10]
  funext j
  obtain ⟨p, q, rfl⟩ : ∃ (p : Fin 1024) (q : Fin 1024), j = ix2 p q := ⟨j 0, j 1, eq_ix2 j⟩
  refine (pay10_apply _ _ _ p q).trans ?_
  have ht : t.val < 10 := lt_of_lt_of_eq t.isLt N_10
  obtain ⟨r, hr⟩ : ∃ r : Fin 10240, r.val = t.val * 1024 + p.val :=
    ⟨⟨t.val * 1024 + p.val, by have := p.isLt; omega⟩, rfl⟩
  refine Eq.trans ?_ (blk10_out t (whole10 (lhs10 V c) (rhs10 V c) (bias10 V c)) p q r hr).symm
  show _ = entry10 (lhs10 V c) (rhs10 V c) (bias10 V c) r q
  unfold entry10
  rw [blk10_bias V c t q]
  refine congrArg (fun s => s + bias10 V c (ix2 (0 : Fin 1) q)) ?_
  exact Finset.sum_congr rfl fun k _ => by rw [blk10_lhs V c t p k r hr, blk10_rhs V c t k q]

/-! ## The ten blocks cover the array -/

/-- An index of the result is in point `t`'s block iff each coordinate is in the block's range on its axis. -/
theorem mem_blk10 (t : Fin cfg10.N) (i : S10240x1024.Idx) :
    i ∈ ((cfg10.win 3).blk t).view.set ↔ ∀ a : Fin 2, win10_3.index t a * S1024x1024.size a ≤ (i a).val
      ∧ (i a).val < win10_3.index t a * S1024x1024.size a + S1024x1024.size a := by
  show i ∈ ((View.whole main_v105).slice (win10_3.rect t)).set ↔ _
  rw [View.set_slice_whole, Rect.mem_set_unit]
  exact Iff.rfl

/-- Row r lies in the block of point r / 1024, and every point writes its block back. -/
theorem cover10 (i : S10240x1024.Idx) :
    ∃ t : Fin cfg10.N, (cfg10.win 3).flush t = true ∧ i ∈ ((cfg10.win 3).blk t).view.set := by
  have hi0 : (i 0).val < 10240 := (i 0).isLt
  have hi1 : (i 1).val < 1024 := (i 1).isLt
  have hN : grid10.N = 10 := N_10
  obtain ⟨t, ht⟩ : ∃ t : Fin cfg10.N, t.val = (i 0).val / 1024 := ⟨⟨(i 0).val / 1024, by show _ < grid10.N; omega⟩, rfl⟩
  obtain ⟨-, -, -, -, -, -, e30, e31⟩ := blockIdx10 t
  refine ⟨t, flush10_3 t, ?_⟩
  rw [mem_blk10]
  intro a
  match a with
  | ⟨0, _⟩ => show win10_3.index t (0 : Fin 2) * 1024 ≤ (i 0).val ∧ (i 0).val < win10_3.index t (0 : Fin 2) * 1024 + 1024; omega
  | ⟨1, _⟩ => show win10_3.index t (1 : Fin 2) * 1024 ≤ (i 1).val ∧ (i 1).val < win10_3.index t (1 : Fin 2) * 1024 + 1024; omega

/-! ## The array when the region is left -/

/-- The result array after the ten write-backs is the whole function of the three arrays as the region found them. -/
theorem final10 (c : Dev nD) :
    (dat10 (F := Ideal) V c).arrAt 3 cfg10.N = whole10 (lhs10 V c) (rhs10 V c) (bias10 V c) :=
  (dat10 (F := Ideal) V c).arrAt_eq_of_cover 3 _ (fun t _ => flushed10_eq V c t) cover10

/-- Entry (p, q) of the result array after the region. -/
theorem val10 (c : Dev nD) (p : Fin 10240) (q : Fin 1024) :
    (dat10 (F := Ideal) V c).arrAt 3 cfg10.N (ix2 p q)
      = (∑ k : Fin 1024, lhs10 V c (ix2 p k) * rhs10 V c (ix2 k q)) + bias10 V c (ix2 (0 : Fin 1) q) := by
  rw [final10]; rfl

end Cert.KernelIdeal.Rg

end
-- ==== Proof.KI.Val11.lean ====
/- The aggregation region 11 (custom_call 11): the value of its result array when the region is left, at the buffer
   contents `V` found when it is entered. Every entry (p, q) of the 10240 × 1024 result is the sum over the 10240 indices j of
   (left operand at (p, j)) · (right operand at (j, q)), plus the bias row's entry q, rectified. The grid is 20 blocks of 512 rows
   by 10 tiles of 1024 indices of the shared axis: at tile 0 the accumulator is filled with zeros, every tile adds to it the
   product of the left operand's 512 × 1024 block with the 1024 rows of the right operand that the tile names, and at tile 9
   the accumulator plus the bias row is stored as the block of 512 rows of the result. Ten tiles regroup one finite sum, and
   the twenty blocks cover the 10240 rows. -/
import proofs.«181230_j19834158973077_2_alg».proof.Proof.KI.Reg11
import proofs.«181230_j19834158973077_2_alg».proof.Proof.AccEntry
import proofs.«181230_j19834158973077_2_alg».proof.Proof.Spec
import proofs.«181230_j19834158973077_2_alg».proof.Proof.SpecTiles
import Idealize.ShloMosaic.Lib.Pipeline.Value
import Idealize.ShloMosaic.Lib.ValueIdx

set_option maxRecDepth 16384

noncomputable section

namespace Cert.KernelIdeal.Rg

open Cert.KernelIdeal Cert.KernelIdeal.Gen
open Idealize.ShloMosaic Idealize.ShloMosaic.TcCoe Idealize.ShloMosaic.ValueIdx Idealize.SL.Sem Idealize.ShloMosaic.Tactic
open Idealize.ShloMosaic.Pipeline (Dat)

theorem zero_offsets11 : (![0, 0] : Fin 2 → Nat) = fun _ => 0 := funext fun a => by fin_cases a <;> rfl

/-! ## What each control case leaves, as the body's arithmetic over the blocks it loads

In every number format: the accumulator after tile 0 is the step applied to the zero fill; after a later tile the step
applied to what the tile before left; the result block at tile 9 is the last step applied to the accumulator. The right
operand is loaded through the rectangle of the 1024 rows the tile names. -/

section Pieces
variable {F : FTy → Type} [FloatOps F]

/-- Tile 0: the zero fill is stored whole, read back, and the first product added to it. -/
theorem acc11_Z_eq (c : Dev nD) (i : grid11.Coords) (arg2 : Memref sig .tc .vmem S512x1024 .bf16) (harg2 : arg2.IsWhole) (arg3 : Memref sig .tc .vmem S10240x1024 .bf16) (harg3 : arg3.IsWhole) (arg4 : Memref sig .tc .vmem S1x1024 .f32) (harg4 : arg4.IsWhole) (arg5 : Memref sig .tc .vmem S512x1024 .bf16) (harg5 : arg5.IsWhole) (arg6 : Memref sig .tc .vmem S512x1024 .f32) (harg6 : arg6.IsWhole) (hc0 : zeroC11 i) (hc1 : ¬flushC11 i)
    (x0 : Vec F S512x1024 .bf16) (x1 : Vec F S10240x1024 .bf16) (x2 : Vec F S1x1024 .f32) :
    acc11_Z c i arg2 harg2 arg3 harg3 arg4 harg4 arg5 harg5 arg6 harg6 hc0 hc1 x0 x1 x2
      = k11_pay2 (View.ld x1 (Rect.unit (s := S10240x1024) (k11_off1 i) S1024x1024.size (k11_off1_inb i))) k11_pay1 x0 := by
  unfold acc11_Z
  rw [View.read_writes_eq_canon _ _ _ (scover11_Z c i arg2 harg2 arg3 harg3 arg4 harg4 arg5 harg5 arg6 harg6 hc0 hc1 x0 x1 x2)]
  unfold runZero11
  dsimp only
  try sl_unfold_words
  rw [View.canon_cons_unit_zero (S := S512x1024) zero_offsets11, View.readCov_unit_zero (S := S512x1024) _ zero_offsets11]
  simp only [View.readAt_eq_ld, harg2.read_unread, harg3.read_unread, harg4.read_unread, harg6.read_unread,
    View.ld_unit_zero (S := S512x1024) zero_offsets11, View.ld_unit_zero (S := S512x1024) zero_offsets11, View.ld_unit_zero (S := S1x1024) zero_offsets11]

/-- A tile strictly between the first and the last: the product added to what the tile before left. -/
theorem acc11_M_eq (c : Dev nD) (i : grid11.Coords) (arg2 : Memref sig .tc .vmem S512x1024 .bf16) (harg2 : arg2.IsWhole) (arg3 : Memref sig .tc .vmem S10240x1024 .bf16) (harg3 : arg3.IsWhole) (arg4 : Memref sig .tc .vmem S1x1024 .f32) (harg4 : arg4.IsWhole) (arg5 : Memref sig .tc .vmem S512x1024 .bf16) (harg5 : arg5.IsWhole) (arg6 : Memref sig .tc .vmem S512x1024 .f32) (harg6 : arg6.IsWhole) (hc0 : ¬zeroC11 i) (hc1 : ¬flushC11 i)
    (x0 : Vec F S512x1024 .bf16) (x1 : Vec F S10240x1024 .bf16) (x2 : Vec F S1x1024 .f32) (xs : Vec F S512x1024 .f32) :
    acc11_M c i arg2 harg2 arg3 harg3 arg4 harg4 arg5 harg5 arg6 harg6 hc0 hc1 x0 x1 x2 xs
      = k11_pay2 (View.ld x1 (Rect.unit (s := S10240x1024) (k11_off1 i) S1024x1024.size (k11_off1_inb i))) xs x0 := by
  unfold acc11_M
  rw [View.read_writes_eq_canon _ _ _ (scover11_M c i arg2 harg2 arg3 harg3 arg4 harg4 arg5 harg5 arg6 harg6 hc0 hc1 x0 x1 x2 xs)]
  unfold runMid11
  dsimp only
  try sl_unfold_words
  rw [View.canon_unit_zero zero_offsets11]
  simp only [View.readAt_eq_ld, harg2.read_unread, harg3.read_unread, harg4.read_unread, harg6.read_unread,
    View.ld_unit_zero (S := S512x1024) zero_offsets11, View.ld_unit_zero (S := S512x1024) zero_offsets11, View.ld_unit_zero (S := S1x1024) zero_offsets11]

/-- Tile 9, the accumulator: as for a middle tile. -/
theorem acc11_L_eq (c : Dev nD) (i : grid11.Coords) (arg2 : Memref sig .tc .vmem S512x1024 .bf16) (harg2 : arg2.IsWhole) (arg3 : Memref sig .tc .vmem S10240x1024 .bf16) (harg3 : arg3.IsWhole) (arg4 : Memref sig .tc .vmem S1x1024 .f32) (harg4 : arg4.IsWhole) (arg5 : Memref sig .tc .vmem S512x1024 .bf16) (harg5 : arg5.IsWhole) (arg6 : Memref sig .tc .vmem S512x1024 .f32) (harg6 : arg6.IsWhole) (hc0 : ¬zeroC11 i) (hc1 : flushC11 i)
    (x0 : Vec F S512x1024 .bf16) (x1 : Vec F S10240x1024 .bf16) (x2 : Vec F S1x1024 .f32) (xs : Vec F S512x1024 .f32) :
    acc11_L c i arg2 harg2 arg3 harg3 arg4 harg4 arg5 harg5 arg6 harg6 hc0 hc1 x0 x1 x2 xs
      = k11_pay2 (View.ld x1 (Rect.unit (s := S10240x1024) (k11_off1 i) S1024x1024.size (k11_off1_inb i))) xs x0 := by
  unfold acc11_L
  rw [View.read_writes_eq_canon _ _ _ (scover11_L c i arg2 harg2 arg3 harg3 arg4 harg4 arg5 harg5 arg6 harg6 hc0 hc1 x0 x1 x2 xs)]
  unfold runLast11
  dsimp only
  try sl_unfold_words
  rw [View.canon_unit_zero zero_offsets11]
  simp only [View.readAt_eq_ld, harg2.read_unread, harg3.read_unread, harg4.read_unread, harg6.read_unread,
    View.ld_unit_zero (S := S512x1024) zero_offsets11, View.ld_unit_zero (S := S512x1024) zero_offsets11, View.ld_unit_zero (S := S1x1024) zero_offsets11]

/-- Tile 9, the result block: the last step applied to the accumulator just stored and read back. -/
theorem out11_L_eq (c : Dev nD) (i : grid11.Coords) (arg2 : Memref sig .tc .vmem S512x1024 .bf16) (harg2 : arg2.IsWhole) (arg3 : Memref sig .tc .vmem S10240x1024 .bf16) (harg3 : arg3.IsWhole) (arg4 : Memref sig .tc .vmem S1x1024 .f32) (harg4 : arg4.IsWhole) (arg5 : Memref sig .tc .vmem S512x1024 .bf16) (harg5 : arg5.IsWhole) (arg6 : Memref sig .tc .vmem S512x1024 .f32) (harg6 : arg6.IsWhole) (hc0 : ¬zeroC11 i) (hc1 : flushC11 i)
    (x0 : Vec F S512x1024 .bf16) (x1 : Vec F S10240x1024 .bf16) (x2 : Vec F S1x1024 .f32) (xs : Vec F S512x1024 .f32) :
    out11_L_3 c i arg2 harg2 arg3 harg3 arg4 harg4 arg5 harg5 arg6 harg6 hc0 hc1 x0 x1 x2 xs
      = k11_pay3 (k11_pay2 (View.ld x1 (Rect.unit (s := S10240x1024) (k11_off1 i) S1024x1024.size (k11_off1_inb i))) xs x0) x2 := by
  unfold out11_L_3
  rw [View.read_writes_eq_canon _ _ _ (cover11_L_3 c i arg2 harg2 arg3 harg3 arg4 harg4 arg5 harg5 arg6 harg6 hc0 hc1 x0 x1 x2 xs)]
  unfold runLast11
  dsimp only
  try sl_unfold_words
  rw [View.canon_unit_zero zero_offsets11, View.readCov_unit_zero (S := S512x1024) _ zero_offsets11]
  simp only [View.readAt_eq_ld, harg2.read_unread, harg3.read_unread, harg4.read_unread, harg6.read_unread,
    View.ld_unit_zero (S := S512x1024) zero_offsets11, View.ld_unit_zero (S := S512x1024) zero_offsets11, View.ld_unit_zero (S := S1x1024) zero_offsets11]

end Pieces

/-! ## The body's arithmetic at an entry, on the extended reals -/

/-- The zero fill reads 0. -/
theorem pay1_at11 (r : Fin 512) (q : Fin 1024) : k11_pay1 (F := Ideal) (ix2 r q) = (0 : EReal) := by
  unfold k11_pay1
  exact Cert.AccEntry.zero_fill_at 512 1024 _ r q

/-- Row r of a 512 × 1024 block against column q of a 1024 × 1024 block. -/
def stepSum11 (x : S512x1024.Idx → EReal) (w : S1024x1024.Idx → EReal) (r : Fin 512) (q : Fin 1024) : EReal :=
  ∑ k : Fin 1024, x (ix2 r k) * w (ix2 k q)

/-- One step: the accumulator's entry plus row r of the left block against column q of the right block. -/
theorem pay2_at11 (v6 : FVec Ideal S1024x1024 .bf16) (v8 : FVec Ideal S512x1024 .f32) (v9 : FVec Ideal S512x1024 .bf16)
    (r : Fin 512) (q : Fin 1024) :
    k11_pay2 (F := Ideal) v6 v8 v9 (ix2 r q) = v8 (ix2 r q) + stepSum11 v9 v6 r q := by
  unfold k11_pay2
  exact Cert.AccEntry.acc_step_at (φ₁ := .bf16) (φ₂ := .bf16) 512 1024 1024 _ rfl v9 v6 v8 _ _ _ r q

/-- The last step: the accumulator's entry plus the bias entry of column q, rectified. -/
theorem pay3_at11 (v19 : FVec Ideal S512x1024 .f32) (v20 : FVec Ideal S1x1024 .f32) (r : Fin 512) (q : Fin 1024) :
    k11_pay3 (F := Ideal) v19 v20 (ix2 r q) = Cert.Spec.relu (v19 (ix2 r q) + v20 (ix2 (0 : Fin 1) q)) := by
  unfold k11_pay3
  exact Cert.AccEntry.flush_relu_at (ψ := .bf16) 512 1024 v19 v20 _ _ _ r q

/-! ## Where the blocks sit -/

/-- Over the 200 grid points: the left operand's block is (point / 10, point % 10); the right operand and the bias row are
    read whole; the result's block is (point / 10, 0); the tile coordinate is point % 10. -/
theorem pointIdx11 : ∀ t : Fin cfg11.N,
      win11_0.index t (0 : Fin 2) = t.val / 10 ∧ win11_0.index t (1 : Fin 2) = t.val % 10
    ∧ win11_1.index t (0 : Fin 2) = 0 ∧ win11_1.index t (1 : Fin 2) = 0
    ∧ win11_2.index t (0 : Fin 2) = 0 ∧ win11_2.index t (1 : Fin 2) = 0
    ∧ win11_3.index t (0 : Fin 2) = t.val / 10 ∧ win11_3.index t (1 : Fin 2) = 0
    ∧ ((grid11.coords t) 1).val = t.val % 10 :=
  (by decide +kernel : ∀ t : Fin grid11.N, _)

/-- Row r of the block of 512 rows that point n works on. -/
def rowAt11 (n : ℕ) (r : Fin 512) : Fin 10240 := ⟨512 * (n / 10 % 20) + r.val, by omega⟩

/-- The tile that point n adds. -/
def tileAt11 (n : ℕ) : Fin 10 := ⟨n % 10, Nat.mod_lt n (by decide)⟩

/-- The rows of the right operand loaded at a point, at an entry: row 1024 · tile + k of the operand. -/
theorem slice_at11 (i : grid11.Coords) (X : Vec Ideal S10240x1024 .bf16) (k : Fin 1024) (q : Fin 1024) (j : Fin 10240)
    (hj : j.val = 1024 * (i 1).val + k.val) :
    View.ld (Val := Elt Ideal) (e' := .bf16) X (Rect.unit (s := S10240x1024) (k11_off1 i) S1024x1024.size (k11_off1_inb i)) (ix2 k q) = X (ix2 j q) := by
  have e0 : k11_off1 i 0 = 1024 * (i 1).val := (congrFun (k11_off1_eq i) 0).trans rfl
  have e1 : k11_off1 i 1 = 0 := (congrFun (k11_off1_eq i) 1).trans rfl
  show X _ = X _
  congr 1
  funext a; apply Fin.ext
  match a with
  | ⟨0, _⟩ => show k11_off1 i 0 + 1 * k.val = j.val; omega
  | ⟨1, _⟩ => show k11_off1 i 1 + 1 * q.val = q.val; omega

-- the TensorCore's buffer contents when the region is entered, on the extended reals
variable (V : (c : Dev nD) → (b : Ref sig .tc) → Buf (Elt Ideal) ((c : Thread nD τ).loc b))

/-- The left operand's block at point t, at (r, k): the left array at (row r of the point's block, index k of its tile). -/
theorem blkA_at11 (c : Dev nD) (t : Fin cfg11.N) (r : Fin 512) (k : Fin 1024) :
    (iblk11 (F := Ideal) V c 0 t : S512x1024.Idx → EReal) (ix2 r k)
      = (V c (Pipeline.arrRef spec11 0) : S10240x10240.Idx → EReal) (ix2 (rowAt11 t.val r) (Cert.Spec.tileIdx (tileAt11 t.val) k)) := by
  obtain ⟨e00, e01, -⟩ := pointIdx11 t
  have hN : t.val < 200 := lt_of_lt_of_eq t.isLt (show cfg11.N = 200 from N_11)
  show (V c (Pipeline.arrRef spec11 0) : S10240x10240.Idx → EReal) (((cfg11.win 0).blk t).view.emb (ix2 r k)) = _
  congr 1
  funext a; apply Fin.ext
  match a with
  | ⟨0, _⟩ => show win11_0.index t (0 : Fin 2) * 512 + 1 * r.val = 512 * (t.val / 10 % 20) + r.val; omega
  | ⟨1, _⟩ => show win11_0.index t (1 : Fin 2) * 1024 + 1 * k.val = t.val % 10 * 1024 + k.val; omega

/-- The right operand is resident whole: its block at any point is the array. -/
theorem blkH_at11 (c : Dev nD) (t : Fin cfg11.N) (j : Fin 10240) (q : Fin 1024) :
    (iblk11 (F := Ideal) V c 1 t : S10240x1024.Idx → EReal) (ix2 j q) = (V c (Pipeline.arrRef spec11 1) : S10240x1024.Idx → EReal) (ix2 j q) := by
  obtain ⟨-, -, e10, e11, -⟩ := pointIdx11 t
  show (V c (Pipeline.arrRef spec11 1) : S10240x1024.Idx → EReal) (((cfg11.win 1).blk t).view.emb (ix2 j q)) = _
  congr 1
  funext a; apply Fin.ext
  match a with
  | ⟨0, _⟩ => show win11_1.index t (0 : Fin 2) * 10240 + 1 * j.val = j.val; omega
  | ⟨1, _⟩ => show win11_1.index t (1 : Fin 2) * 1024 + 1 * q.val = q.val; omega

/-- So is the bias row. -/
theorem blkB_at11 (c : Dev nD) (t : Fin cfg11.N) (q : Fin 1024) :
    (iblk11 (F := Ideal) V c 2 t : S1x1024.Idx → EReal) (ix2 (0 : Fin 1) q) = (V c (Pipeline.arrRef spec11 2) : S1x1024.Idx → EReal) (ix2 (0 : Fin 1) q) := by
  obtain ⟨-, -, -, -, e20, e21, -⟩ := pointIdx11 t
  show (V c (Pipeline.arrRef spec11 2) : S1x1024.Idx → EReal) (((cfg11.win 2).blk t).view.emb (ix2 (0 : Fin 1) q)) = _
  congr 1
  funext a; apply Fin.ext
  match a with
  | ⟨0, _⟩ => show win11_2.index t (0 : Fin 2) * 1 + 1 * 0 = 0; omega
  | ⟨1, _⟩ => show win11_2.index t (1 : Fin 2) * 1024 + 1 * q.val = q.val; omega

/-! ## The accumulator, point by point -/

/-- The products summed along the shared axis for the entry (row r of point n's block, column q), of any two arrays, -/
def termOf11 (A : S10240x10240.Idx → EReal) (H : S10240x1024.Idx → EReal) (n : ℕ) (r : Fin 512) (q : Fin 1024) : Fin 10240 → EReal :=
  fun j => A (ix2 (rowAt11 n r) j) * H (ix2 j q)

/-- and of the two operands as the region finds them. -/
def term11 (c : Dev nD) (n : ℕ) (r : Fin 512) (q : Fin 1024) : Fin 10240 → EReal :=
  termOf11 (V c (Pipeline.arrRef spec11 0)) (V c (Pipeline.arrRef spec11 1)) n r q

/-- What a point adds at entry (r, q): the sum of the products over the indices of the point's tile. -/
theorem step_sum11 (c : Dev nD) (t : Fin cfg11.N) (r : Fin 512) (q : Fin 1024) :
    stepSum11 (iblk11 (F := Ideal) V c 0 t)
        (View.ld (Val := Elt Ideal) (e' := .bf16) (iblk11 (F := Ideal) V c 1 t : Vec Ideal S10240x1024 .bf16) (Rect.unit (s := S10240x1024) (k11_off1 (grid11.coords t)) S1024x1024.size (k11_off1_inb (grid11.coords t)))) r q
      = ∑ k : Fin 1024, term11 V c t.val r q (Cert.Spec.tileIdx (tileAt11 t.val) k) := by
  obtain ⟨-, -, -, -, -, -, -, -, eg⟩ := pointIdx11 t
  unfold stepSum11
  refine Finset.sum_congr rfl fun k _ => ?_
  have hj : (Cert.Spec.tileIdx (tileAt11 t.val) k).val = 1024 * ((grid11.coords t) 1).val + k.val := by
    show t.val % 10 * 1024 + k.val = _; omega
  exact congrArg₂ (fun (a b : EReal) => a * b) (blkA_at11 V c t r k)
    ((slice_at11 (grid11.coords t) (iblk11 (F := Ideal) V c 1 t) k q (Cert.Spec.tileIdx (tileAt11 t.val) k) hj).trans
      (blkH_at11 V c t (Cert.Spec.tileIdx (tileAt11 t.val) k) q))

/-- At tile 0 the accumulator's entry is 0 plus the tile's sum. -/
theorem accZ_at11 (c : Dev nD) (t : Fin cfg11.N) (h0 : t.val % 10 = 0) (r : Fin 512) (q : Fin 1024) :
    ((outsAt11 (F := Ideal) V c t.val t.isLt).2 : S512x1024.Idx → EReal) (ix2 r q)
      = 0 + ∑ k : Fin 1024, term11 V c t.val r q (Cert.Spec.tileIdx (tileAt11 t.val) k) := by
  have h1 : ¬t.val % 10 = 9 := by omega
  rw [outsAt11_Z V c t h0 h1]
  dsimp only
  refine (congrFun (acc11_Z_eq (F := Ideal) c (grid11.coords t) (mA11 t) (hA11 t) (mB11 t) (hB11 t) (mC11 t) (hC11 t) (mO11 t) (hO11 t) mS11 (Memref.isWhole_whole _) ((zeroC11_iff t).mpr h0) (fun h => h1 ((flushC11_iff t).mp h)) (iblk11 V c 0 t) (iblk11 V c 1 t) (iblk11 V c 2 t)) (ix2 r q)).trans ?_
  refine (pay2_at11 _ _ _ r q).trans ?_
  exact congrArg₂ (fun (a b : EReal) => a + b) (pay1_at11 r q) (step_sum11 V c t r q)

/-- At a later tile it is the entry the point before left plus the tile's sum. -/
theorem accS_at11 (c : Dev nD) (t : Fin cfg11.N) (h0 : ¬t.val % 10 = 0) (r : Fin 512) (q : Fin 1024) :
    ((outsAt11 (F := Ideal) V c t.val t.isLt).2 : S512x1024.Idx → EReal) (ix2 r q)
      = ((outsAt11 V c (t.val - 1) (Nat.lt_of_le_of_lt (Nat.sub_le _ _) t.isLt)).2 : S512x1024.Idx → EReal) (ix2 r q)
        + ∑ k : Fin 1024, term11 V c t.val r q (Cert.Spec.tileIdx (tileAt11 t.val) k) := by
  by_cases h1 : t.val % 10 = 9
  · rw [outsAt11_L V c t h0 h1]
    dsimp only
    refine (congrFun (acc11_L_eq (F := Ideal) c (grid11.coords t) (mA11 t) (hA11 t) (mB11 t) (hB11 t) (mC11 t) (hC11 t) (mO11 t) (hO11 t) mS11 (Memref.isWhole_whole _) (fun h => h0 ((zeroC11_iff t).mp h)) ((flushC11_iff t).mpr h1) (iblk11 V c 0 t) (iblk11 V c 1 t) (iblk11 V c 2 t) (outsAt11 V c (t.val - 1) (Nat.lt_of_le_of_lt (Nat.sub_le _ _) t.isLt)).2) (ix2 r q)).trans ?_
    refine (pay2_at11 _ _ _ r q).trans ?_
    exact congrArg (fun (b : EReal) => _ + b) (step_sum11 V c t r q)
  · rw [outsAt11_M V c t h0 h1]
    dsimp only
    refine (congrFun (acc11_M_eq (F := Ideal) c (grid11.coords t) (mA11 t) (hA11 t) (mB11 t) (hB11 t) (mC11 t) (hC11 t) (mO11 t) (hO11 t) mS11 (Memref.isWhole_whole _) (fun h => h0 ((zeroC11_iff t).mp h)) (fun h => h1 ((flushC11_iff t).mp h)) (iblk11 V c 0 t) (iblk11 V c 1 t) (iblk11 V c 2 t) (outsAt11 V c (t.val - 1) (Nat.lt_of_le_of_lt (Nat.sub_le _ _) t.isLt)).2) (ix2 r q)).trans ?_
    refine (pay2_at11 _ _ _ r q).trans ?_
    exact congrArg (fun (b : EReal) => _ + b) (step_sum11 V c t r q)

/-- Adding a tile's sum to the accumulator after the tiles before it is the accumulator after one more tile. -/
theorem tile_step11 (g : Fin 10240 → EReal) (n : ℕ) (a : EReal) (ha : a = Cert.Spec.tileAcc g (n % 10)) :
    a + ∑ k : Fin 1024, g (Cert.Spec.tileIdx (tileAt11 n) k) = Cert.Spec.tileAcc g (n % 10 + 1) := by
  rw [ha]
  exact (Cert.Spec.tileAcc_succ g (n % 10) (Nat.mod_lt n (by decide))).symm

/-- THE INVARIANT: after point n the accumulator's entry (r, q) is the sum of the products over the tiles 0 … n % 10 of
    the shared axis, for the row r of the point's block. By induction on the point: a point that is not at tile 0 works on
    the same block of rows as the point before it. -/
theorem acc_inv11 (c : Dev nD) : ∀ (n : ℕ) (h : n < cfg11.N) (r : Fin 512) (q : Fin 1024),
    ((outsAt11 (F := Ideal) V c n h).2 : S512x1024.Idx → EReal) (ix2 r q)
      = Cert.Spec.tileAcc (term11 V c n r q) (n % 10 + 1) := by
  intro n
  induction n with
  | zero =>
    intro h r q
    exact (accZ_at11 V c ⟨0, h⟩ (Nat.zero_mod 10) r q).trans (tile_step11 (term11 V c 0 r q) 0 0 rfl)
  | succ n ih =>
    intro h r q
    by_cases h0 : (n + 1) % 10 = 0
    · refine (accZ_at11 V c ⟨n + 1, h⟩ h0 r q).trans (tile_step11 (term11 V c (n + 1) r q) (n + 1) 0 ?_)
      rw [h0]; rfl
    · have e1 : ((outsAt11 (F := Ideal) V c (n + 1) h).2 : S512x1024.Idx → EReal) (ix2 r q)
          = ((outsAt11 (F := Ideal) V c n (Nat.lt_of_succ_lt h)).2 : S512x1024.Idx → EReal) (ix2 r q)
            + ∑ k : Fin 1024, term11 V c (n + 1) r q (Cert.Spec.tileIdx (tileAt11 (n + 1)) k) :=
        accS_at11 V c ⟨n + 1, h⟩ h0 r q
      have e2 : ((outsAt11 (F := Ideal) V c n (Nat.lt_of_succ_lt h)).2 : S512x1024.Idx → EReal) (ix2 r q)
          = Cert.Spec.tileAcc (term11 V c n r q) (n % 10 + 1) := ih (Nat.lt_of_succ_lt h) r q
      have e3 : rowAt11 n r = rowAt11 (n + 1) r := Fin.ext (by show 512 * (n / 10 % 20) + r.val = 512 * ((n + 1) / 10 % 20) + r.val; omega)
      have e4 : term11 V c n r q = term11 V c (n + 1) r q := by unfold term11 termOf11; rw [e3]
      have e5 : n % 10 + 1 = (n + 1) % 10 := by omega
      rw [e1, e2, e4, e5]
      exact tile_step11 (term11 V c (n + 1) r q) (n + 1) _ rfl

/-! ## The result block at tile 9 -/

/-- At tile 9 the result buffer's entry is the accumulator's entry plus the bias entry of the column, rectified. -/
theorem out_at11 (c : Dev nD) (t : Fin cfg11.N) (h1 : t.val % 10 = 9) (r : Fin 512) (q : Fin 1024) :
    ((outsAt11 (F := Ideal) V c t.val t.isLt).1 : S512x1024.Idx → EReal) (ix2 r q)
      = Cert.Spec.relu (((outsAt11 (F := Ideal) V c t.val t.isLt).2 : S512x1024.Idx → EReal) (ix2 r q) + (V c (Pipeline.arrRef spec11 2) : S1x1024.Idx → EReal) (ix2 (0 : Fin 1) q)) := by
  have h0 : ¬t.val % 10 = 0 := by omega
  rw [outsAt11_L V c t h0 h1]
  dsimp only
  rw [out11_L_eq (F := Ideal) c (grid11.coords t) (mA11 t) (hA11 t) (mB11 t) (hB11 t) (mC11 t) (hC11 t) (mO11 t) (hO11 t) mS11 (Memref.isWhole_whole _) (fun h => h0 ((zeroC11_iff t).mp h)) ((flushC11_iff t).mpr h1) (iblk11 V c 0 t) (iblk11 V c 1 t) (iblk11 V c 2 t) (outsAt11 V c (t.val - 1) (Nat.lt_of_le_of_lt (Nat.sub_le _ _) t.isLt)).2,
    acc11_L_eq (F := Ideal) c (grid11.coords t) (mA11 t) (hA11 t) (mB11 t) (hB11 t) (mC11 t) (hC11 t) (mO11 t) (hO11 t) mS11 (Memref.isWhole_whole _) (fun h => h0 ((zeroC11_iff t).mp h)) ((flushC11_iff t).mpr h1) (iblk11 V c 0 t) (iblk11 V c 1 t) (iblk11 V c 2 t) (outsAt11 V c (t.val - 1) (Nat.lt_of_le_of_lt (Nat.sub_le _ _) t.isLt)).2]
  refine (pay3_at11 _ _ r q).trans ?_
  exact congrArg (fun z => Cert.Spec.relu (_ + z)) (blkB_at11 V c t q)

/-! ## The result as one function of the three arrays -/

/-- Entry (p, q): row p of the left operand against column q of the right operand over all 10240 indices, plus the bias
    entry q, rectified. -/
def entry11 (A : S10240x10240.Idx → EReal) (H : S10240x1024.Idx → EReal) (B : S1x1024.Idx → EReal) (p : Fin 10240) (q : Fin 1024) : EReal :=
  Cert.Spec.relu ((∑ j : Fin 10240, A (ix2 p j) * H (ix2 j q)) + B (ix2 (0 : Fin 1) q))

/-- The whole result array, index by index. -/
def whole11 (A : S10240x10240.Idx → EReal) (H : S10240x1024.Idx → EReal) (B : S1x1024.Idx → EReal) : S10240x1024.Idx → EReal :=
  fun i => entry11 A H B (i 0) (i 1)

/-- What a point at tile 9 writes back is its block of 512 rows of the whole result: the accumulator holds the sum over
    all ten tiles, which is the sum over the 10240 indices. -/
theorem flushed11_eq (c : Dev nD) (t : Fin cfg11.N) (hf : (cfg11.win 3).flush t = true) :
    (dat11 (F := Ideal) V c).flushed 3 t
      = ((cfg11.win 3).blk t).view.read (Elt Ideal)
          (whole11 (V c (Pipeline.arrRef spec11 0)) (V c (Pipeline.arrRef spec11 1)) (V c (Pipeline.arrRef spec11 2))) := by
  have h1 : t.val % 10 = 9 := (flush11_3 t).mp hf
  have hN : t.val < 200 := lt_of_lt_of_eq t.isLt (show cfg11.N = 200 from N_11)
  obtain ⟨-, -, -, -, -, -, e30, e31, -⟩ := pointIdx11 t
  show (cfg11.win 3).cut (grid11.coords t) ((dat11 V c).after 3 t) = _
  rw [after11_3]
  funext j
  obtain ⟨r, q, rfl⟩ : ∃ (r : Fin 512) (q : Fin 1024), j = ix2 r q := ⟨j 0, j 1, eq_ix2 j⟩
  refine (out_at11 V c t h1 r q).trans ?_
  have hacc : ((outsAt11 (F := Ideal) V c t.val t.isLt).2 : S512x1024.Idx → EReal) (ix2 r q)
      = ∑ j : Fin 10240, term11 V c t.val r q j := by
    refine (acc_inv11 V c t.val t.isLt r q).trans ?_
    rw [h1]
    exact Cert.Spec.tileAcc_ten _
  rw [hacc]
  have hp : ((((cfg11.win 3).blk t).view.emb (ix2 r q)) 0 : Fin 10240) = rowAt11 t.val r :=
    Fin.ext (by show win11_3.index t (0 : Fin 2) * 512 + 1 * r.val = 512 * (t.val / 10 % 20) + r.val; omega)
  have hq : ((((cfg11.win 3).blk t).view.emb (ix2 r q)) 1 : Fin 1024) = q :=
    Fin.ext (by show win11_3.index t (1 : Fin 2) * 1024 + 1 * q.val = q.val; omega)
  exact (congrArg₂ (entry11 (V c (Pipeline.arrRef spec11 0)) (V c (Pipeline.arrRef spec11 1)) (V c (Pipeline.arrRef spec11 2))) hp hq).symm

/-! ## The twenty blocks cover the array -/

/-- An index of the result is in point `t`'s block iff each coordinate is in the block's range on its axis. -/
theorem mem_blk11 (t : Fin cfg11.N) (i : S10240x1024.Idx) :
    i ∈ ((cfg11.win 3).blk t).view.set ↔ ∀ a : Fin 2, win11_3.index t a * S512x1024.size a ≤ (i a).val
      ∧ (i a).val < win11_3.index t a * S512x1024.size a + S512x1024.size a := by
  show i ∈ ((View.whole main_v107).slice (win11_3.rect t)).set ↔ _
  rw [View.set_slice_whole, Rect.mem_set_unit]
  exact Iff.rfl

/-- Row p lies in the block of the points of row block p / 512, and the point at tile 9 of that row block writes it back. -/
theorem cover11 (i : S10240x1024.Idx) :
    ∃ t : Fin cfg11.N, (cfg11.win 3).flush t = true ∧ i ∈ ((cfg11.win 3).blk t).view.set := by
  have hi0 : (i 0).val < 10240 := (i 0).isLt
  have hi1 : (i 1).val < 1024 := (i 1).isLt
  have hN : grid11.N = 200 := N_11
  obtain ⟨t, ht⟩ : ∃ t : Fin cfg11.N, t.val = 10 * ((i 0).val / 512) + 9 :=
    ⟨⟨10 * ((i 0).val / 512) + 9, by show _ < grid11.N; omega⟩, rfl⟩
  obtain ⟨-, -, -, -, -, -, e30, e31, -⟩ := pointIdx11 t
  refine ⟨t, (flush11_3 t).mpr (by omega), ?_⟩
  rw [mem_blk11]
  intro a
  match a with
  | ⟨0, _⟩ => show win11_3.index t (0 : Fin 2) * 512 ≤ (i 0).val ∧ (i 0).val < win11_3.index t (0 : Fin 2) * 512 + 512; omega
  | ⟨1, _⟩ => show win11_3.index t (1 : Fin 2) * 1024 ≤ (i 1).val ∧ (i 1).val < win11_3.index t (1 : Fin 2) * 1024 + 1024; omega

/-! ## The array when the region is left -/

/-- The result array after the twenty write-backs is the whole function of the three arrays as the region found them. -/
theorem final11 (c : Dev nD) :
    (dat11 (F := Ideal) V c).arrAt 3 cfg11.N
      = whole11 (V c (Pipeline.arrRef spec11 0)) (V c (Pipeline.arrRef spec11 1)) (V c (Pipeline.arrRef spec11 2)) :=
  (dat11 (F := Ideal) V c).arrAt_eq_of_cover 3 _ (fun t hf => flushed11_eq V c t hf) cover11

/-- Entry (p, q) of the result array after the region. -/
theorem val11 (c : Dev nD) (p : Fin 10240) (q : Fin 1024) :
    (dat11 (F := Ideal) V c).arrAt 3 cfg11.N (ix2 p q)
      = entry11 (V c (Pipeline.arrRef spec11 0)) (V c (Pipeline.arrRef spec11 1)) (V c (Pipeline.arrRef spec11 2)) p q := by
  rw [final11]; rfl

/-- The entry written out. -/
theorem entry11_eq (A : S10240x10240.Idx → EReal) (H : S10240x1024.Idx → EReal) (B : S1x1024.Idx → EReal) (p : Fin 10240) (q : Fin 1024) :
    entry11 A H B p q = Cert.Spec.relu ((∑ j : Fin 10240, A (ix2 p j) * H (ix2 j q)) + B (ix2 (0 : Fin 1) q)) := rfl

end Cert.KernelIdeal.Rg

end
-- ==== Proof.KI.Val12.lean ====
/- Stage-1 region 12 (custom_call 12): the value of its result array when the region is left, at the buffer
   contents `V` found when it is entered. Every entry (p, q) of the 10240 × 256 result is the sum over the shared
   axis of (left operand at (p, k)) · (right operand at (k, q)), plus the bias row's entry q (no rectifier here): each grid
   point writes one block of 1024 rows of that one array, and the ten blocks cover its 10240 rows. -/
import proofs.«181230_j19834158973077_2_alg».proof.Proof.KI.Reg12
import proofs.«181230_j19834158973077_2_alg».proof.Proof.AffineEntry
import proofs.«181230_j19834158973077_2_alg».proof.Proof.Spec
import Idealize.ShloMosaic.Lib.Pipeline.Value
import Idealize.ShloMosaic.Lib.ValueIdx

set_option maxRecDepth 16384

noncomputable section

namespace Cert.KernelIdeal.Rg

open Cert.KernelIdeal Cert.KernelIdeal.Gen
open Idealize.ShloMosaic Idealize.ShloMosaic.TcCoe Idealize.ShloMosaic.ValueIdx Idealize.SL.Sem
open Idealize.ShloMosaic.Pipeline (Dat)

-- the TensorCore's buffer contents when the region is entered, on the extended reals
variable (V : (c : Dev nD) → (b : Ref sig .tc) → Buf (Elt Ideal) ((c : Thread nD τ).loc b))

/-! ## The three arrays the region reads, and the result as one function of them -/

/-- The left operand (10240 rows), the right operand and the bias row, as the region finds them. -/
abbrev lhs12 (c : Dev nD) : S10240x1024.Idx → EReal := V c (Pipeline.arrRef spec12 0)
abbrev rhs12 (c : Dev nD) : S1024x256.Idx → EReal := V c (Pipeline.arrRef spec12 1)
abbrev bias12 (c : Dev nD) : S1x256.Idx → EReal := V c (Pipeline.arrRef spec12 2)

/-- Entry (p, q): the row p of the left operand against the column q of the right operand, plus the bias entry q. -/
def entry12 (X : S10240x1024.Idx → EReal) (W : S1024x256.Idx → EReal) (B : S1x256.Idx → EReal) (p : Fin 10240) (q : Fin 256) : EReal :=
  (∑ k : Fin 1024, X (ix2 p k) * W (ix2 k q)) + B (ix2 (0 : Fin 1) q)

/-- The whole result array, index by index. -/
def whole12 (X : S10240x1024.Idx → EReal) (W : S1024x256.Idx → EReal) (B : S1x256.Idx → EReal) : S10240x256.Idx → EReal :=
  fun i => entry12 X W B (i 0) (i 1)

/-! ## The body's payload at an entry of the block -/

/-- What the body stores, at entry (p, q) of the block, from the three blocks it loads: the product accumulated from
    zero plus the repeated bias row; the casts to the same shape and the change of format are identities. -/
theorem pay12_apply (x0 : FVec Ideal S1024x1024 .bf16) (x1 : FVec Ideal S1024x256 .bf16) (x2 : FVec Ideal S1x256 .f32)
    (p : Fin 1024) (q : Fin 256) :
    k12_pay1 (F := Ideal) x0 x1 x2 (ix2 p q)
      = (∑ k : Fin 1024, x0 (ix2 p k) * x1 (ix2 k q)) + x2 (ix2 (0 : Fin 1) q) := by
  unfold k12_pay1
  exact Cert.AffineEntry.affine_at (φ₁ := .bf16) (φ₂ := .bf16) (ψ := .bf16) 1024 1024 256 _ rfl x0 x1 x2 _ _ _ _ _ p q

/-! ## Where each block sits -/

theorem zero_offsets12 : (![0, 0] : Fin 2 → Nat) = fun _ => 0 := funext fun a => by fin_cases a <;> rfl

/-- The index maps over the ten grid points: the left operand's row block and the result's row block are both the
    point's number; on the column axis, and for the right operand and the bias row, every block index is zero. -/
theorem blockIdx12 : ∀ t : Fin cfg12.N,
      win12_0.index t (0 : Fin 2) = t.val ∧ win12_0.index t (1 : Fin 2) = 0
    ∧ win12_1.index t (0 : Fin 2) = 0 ∧ win12_1.index t (1 : Fin 2) = 0
    ∧ win12_2.index t (0 : Fin 2) = 0 ∧ win12_2.index t (1 : Fin 2) = 0
    ∧ win12_3.index t (0 : Fin 2) = t.val ∧ win12_3.index t (1 : Fin 2) = 0 :=
  (by decide +kernel : ∀ t : Fin grid12.N, _)

/-! ## The blocks at a point, read in their arrays

A block's element sits, on each axis, at block index × block size + its coordinate inside the block. -/

/-- The left operand's block at point `t` is rows [1024 t, 1024 t + 1024) of the left array. -/
theorem blk12_lhs (c : Dev nD) (t : Fin cfg12.N) (p : Fin 1024) (k : Fin 1024) (r : Fin 10240)
    (hr : r.val = t.val * 1024 + p.val) : iblk12 V c 0 t (ix2 p k) = lhs12 V c (ix2 r k) := by
  obtain ⟨e00, e01, -⟩ := blockIdx12 t
  show lhs12 V c (((cfg12.win 0).blk t).view.emb (ix2 p k)) = lhs12 V c (ix2 r k)
  refine congrArg (lhs12 V c) ?_
  funext a; apply Fin.ext
  match a with
  | ⟨0, _⟩ => show win12_0.index t (0 : Fin 2) * 1024 + 1 * p.val = r.val; omega
  | ⟨1, _⟩ => show win12_0.index t (1 : Fin 2) * 1024 + 1 * k.val = k.val; omega

/-- The right operand's block at every point is the whole right array. -/
theorem blk12_rhs (c : Dev nD) (t : Fin cfg12.N) (k : Fin 1024) (q : Fin 256) :
    iblk12 V c 1 t (ix2 k q) = rhs12 V c (ix2 k q) := by
  obtain ⟨-, -, e10, e11, -⟩ := blockIdx12 t
  show rhs12 V c (((cfg12.win 1).blk t).view.emb (ix2 k q)) = rhs12 V c (ix2 k q)
  refine congrArg (rhs12 V c) ?_
  funext a; apply Fin.ext
  match a with
  | ⟨0, _⟩ => show win12_1.index t (0 : Fin 2) * 1024 + 1 * k.val = k.val; omega
  | ⟨1, _⟩ => show win12_1.index t (1 : Fin 2) * 256 + 1 * q.val = q.val; omega

/-- The bias row's block at every point is the whole row. -/
theorem blk12_bias (c : Dev nD) (t : Fin cfg12.N) (q : Fin 256) :
    iblk12 V c 2 t (ix2 (0 : Fin 1) q) = bias12 V c (ix2 (0 : Fin 1) q) := by
  obtain ⟨-, -, -, -, e20, e21, -⟩ := blockIdx12 t
  show bias12 V c (((cfg12.win 2).blk t).view.emb (ix2 (0 : Fin 1) q)) = bias12 V c (ix2 (0 : Fin 1) q)
  refine congrArg (bias12 V c) ?_
  funext a; apply Fin.ext
  match a with
  | ⟨0, _⟩ => show win12_2.index t (0 : Fin 2) * 1 + 1 * 0 = 0; omega
  | ⟨1, _⟩ => show win12_2.index t (1 : Fin 2) * 256 + 1 * q.val = q.val; omega

/-- The result's block at point `t`, read off any whole array `G`, is rows [1024 t, 1024 t + 1024) of `G`. -/
theorem blk12_out (t : Fin cfg12.N) (G : S10240x256.Idx → EReal) (p : Fin 1024) (q : Fin 256) (r : Fin 10240)
    (hr : r.val = t.val * 1024 + p.val) :
    ((cfg12.win 3).blk t).view.read (Elt Ideal) G (ix2 p q) = G (ix2 r q) := by
  obtain ⟨-, -, -, -, -, -, e30, e31⟩ := blockIdx12 t
  show G (((cfg12.win 3).blk t).view.emb (ix2 p q)) = G (ix2 r q)
  refine congrArg G ?_
  funext a; apply Fin.ext
  match a with
  | ⟨0, _⟩ => show win12_3.index t (0 : Fin 2) * 1024 + 1 * p.val = r.val; omega
  | ⟨1, _⟩ => show win12_3.index t (1 : Fin 2) * 256 + 1 * q.val = q.val; omega

/-! ## What a point writes back -/

/-- What point `t` writes back is the block of rows [1024 t, 1024 t + 1024) of the whole result: the body's one store is
    its payload of the three loaded blocks, and each block is read in its array by the lemmas above. -/
theorem flushed12_eq (c : Dev nD) (t : Fin cfg12.N) :
    (dat12 (F := Ideal) V c).flushed 3 t
      = ((cfg12.win 3).blk t).view.read (Elt Ideal) (whole12 (lhs12 V c) (rhs12 V c) (bias12 V c)) := by
  show (cfg12.win 3).cut (grid12.coords t) ((dat12 V c).after 3 t) = _
  rw [after12_3]
  unfold out12_3
  rw [View.canon_unit_zero zero_offsets12]
  simp only [View.ld_unit_zero (S := S1024x1024) zero_offsets12, View.ld_unit_zero (S := S1024x256) zero_offsets12,
    View.ld_unit_zero (S := S1x256) zero_offsets12]
  funext j
  obtain ⟨p, q, rfl⟩ : ∃ (p : Fin 1024) (q : Fin 256), j = ix2 p q := ⟨j 0, j 1, eq_ix2 j⟩
  refine (pay12_apply _ _ _ p q).trans ?_
  have ht : t.val < 10 := lt_of_lt_of_eq t.isLt N_12
  obtain ⟨r, hr⟩ : ∃ r : Fin 10240, r.val = t.val * 1024 + p.val :=
    ⟨⟨t.val * 1024 + p.val, by have := p.isLt; omega⟩, rfl⟩
  refine Eq.trans ?_ (blk12_out t (whole12 (lhs12 V c) (rhs12 V c) (bias12 V c)) p q r hr).symm
  show _ = entry12 (lhs12 V c) (rhs12 V c) (bias12 V c) r q
  unfold entry12
  rw [blk12_bias V c t q]
  refine congrArg (fun s => s + bias12 V c (ix2 (0 : Fin 1) q)) ?_
  exact Finset.sum_congr rfl fun k _ => by rw [blk12_lhs V c t p k r hr, blk12_rhs V c t k q]

/-! ## The ten blocks cover the array -/

/-- An index of the result is in point `t`'s block iff each coordinate is in the block's range on its axis. -/
theorem mem_blk12 (t : Fin cfg12.N) (i : S10240x256.Idx) :
    i ∈ ((cfg12.win 3).blk t).view.set ↔ ∀ a : Fin 2, win12_3.index t a * S1024x256.size a ≤ (i a).val
      ∧ (i a).val < win12_3.index t a * S1024x256.size a + S1024x256.size a := by
  show i ∈ ((View.whole main_v110).slice (win12_3.rect t)).set ↔ _
  rw [View.set_slice_whole, Rect.mem_set_unit]
  exact Iff.rfl

/-- Row r lies in the block of point r / 1024, and every point writes its block back. -/
theorem cover12 (i : S10240x256.Idx) :
    ∃ t : Fin cfg12.N, (cfg12.win 3).flush t = true ∧ i ∈ ((cfg12.win 3).blk t).view.set := by
  have hi0 : (i 0).val < 10240 := (i 0).isLt
  have hi1 : (i 1).val < 256 := (i 1).isLt
  have hN : grid12.N = 10 := N_12
  obtain ⟨t, ht⟩ : ∃ t : Fin cfg12.N, t.val = (i 0).val / 1024 := ⟨⟨(i 0).val / 1024, by show _ < grid12.N; omega⟩, rfl⟩
  obtain ⟨-, -, -, -, -, -, e30, e31⟩ := blockIdx12 t
  refine ⟨t, flush12_3 t, ?_⟩
  rw [mem_blk12]
  intro a
  match a with
  | ⟨0, _⟩ => show win12_3.index t (0 : Fin 2) * 1024 ≤ (i 0).val ∧ (i 0).val < win12_3.index t (0 : Fin 2) * 1024 + 1024; omega
  | ⟨1, _⟩ => show win12_3.index t (1 : Fin 2) * 256 ≤ (i 1).val ∧ (i 1).val < win12_3.index t (1 : Fin 2) * 256 + 256; omega

/-! ## The array when the region is left -/

/-- The result array after the ten write-backs is the whole function of the three arrays as the region found them. -/
theorem final12 (c : Dev nD) :
    (dat12 (F := Ideal) V c).arrAt 3 cfg12.N = whole12 (lhs12 V c) (rhs12 V c) (bias12 V c) :=
  (dat12 (F := Ideal) V c).arrAt_eq_of_cover 3 _ (fun t _ => flushed12_eq V c t) cover12

/-- Entry (p, q) of the result array after the region. -/
theorem val12 (c : Dev nD) (p : Fin 10240) (q : Fin 256) :
    (dat12 (F := Ideal) V c).arrAt 3 cfg12.N (ix2 p q)
      = (∑ k : Fin 1024, lhs12 V c (ix2 p k) * rhs12 V c (ix2 k q)) + bias12 V c (ix2 (0 : Fin 1) q) := by
  rw [final12]; rfl

end Cert.KernelIdeal.Rg

end
-- ==== Proof.KI.Val13.lean ====
/- The aggregation region 13 (custom_call 13): the value of its result array when the region is left, at the buffer
   contents `V` found when it is entered. Every entry (p, q) of the 10240 × 256 result is the sum over the 10240 indices j of
   (left operand at (p, j)) · (right operand at (j, q)), plus the bias row's entry q. The grid is 20 blocks of 512 rows
   by 10 tiles of 1024 indices of the shared axis: at tile 0 the accumulator is filled with zeros, every tile adds to it the
   product of the left operand's 512 × 1024 block with the 1024 rows of the right operand that the tile names, and at tile 9
   the accumulator plus the bias row is stored as the block of 512 rows of the result. Ten tiles regroup one finite sum, and
   the twenty blocks cover the 10240 rows. -/
import proofs.«181230_j19834158973077_2_alg».proof.Proof.KI.Reg13
import proofs.«181230_j19834158973077_2_alg».proof.Proof.AccEntry
import proofs.«181230_j19834158973077_2_alg».proof.Proof.Spec
import proofs.«181230_j19834158973077_2_alg».proof.Proof.SpecTiles
import Idealize.ShloMosaic.Lib.Pipeline.Value
import Idealize.ShloMosaic.Lib.ValueIdx

set_option maxRecDepth 16384

noncomputable section

namespace Cert.KernelIdeal.Rg

open Cert.KernelIdeal Cert.KernelIdeal.Gen
open Idealize.ShloMosaic Idealize.ShloMosaic.TcCoe Idealize.ShloMosaic.ValueIdx Idealize.SL.Sem Idealize.ShloMosaic.Tactic
open Idealize.ShloMosaic.Pipeline (Dat)

theorem zero_offsets13 : (![0, 0] : Fin 2 → Nat) = fun _ => 0 := funext fun a => by fin_cases a <;> rfl

/-! ## What each control case leaves, as the body's arithmetic over the blocks it loads

In every number format: the accumulator after tile 0 is the step applied to the zero fill; after a later tile the step
applied to what the tile before left; the result block at tile 9 is the last step applied to the accumulator. The right
operand is loaded through the rectangle of the 1024 rows the tile names. -/

section Pieces
variable {F : FTy → Type} [FloatOps F]

/-- Tile 0: the zero fill is stored whole, read back, and the first product added to it. -/
theorem acc13_Z_eq (c : Dev nD) (i : grid13.Coords) (arg2 : Memref sig .tc .vmem S512x1024 .bf16) (harg2 : arg2.IsWhole) (arg3 : Memref sig .tc .vmem S10240x256 .bf16) (harg3 : arg3.IsWhole) (arg4 : Memref sig .tc .vmem S1x256 .f32) (harg4 : arg4.IsWhole) (arg5 : Memref sig .tc .vmem S512x256 .f32) (harg5 : arg5.IsWhole) (arg6 : Memref sig .tc .vmem S512x256 .f32) (harg6 : arg6.IsWhole) (hc0 : zeroC13 i) (hc1 : ¬flushC13 i)
    (x0 : Vec F S512x1024 .bf16) (x1 : Vec F S10240x256 .bf16) (x2 : Vec F S1x256 .f32) :
    acc13_Z c i arg2 harg2 arg3 harg3 arg4 harg4 arg5 harg5 arg6 harg6 hc0 hc1 x0 x1 x2
      = k13_pay2 (View.ld x1 (Rect.unit (s := S10240x256) (k13_off1 i) S1024x256.size (k13_off1_inb i))) k13_pay1 x0 := by
  unfold acc13_Z
  rw [View.read_writes_eq_canon _ _ _ (scover13_Z c i arg2 harg2 arg3 harg3 arg4 harg4 arg5 harg5 arg6 harg6 hc0 hc1 x0 x1 x2)]
  unfold runZero13
  dsimp only
  try sl_unfold_words
  rw [View.canon_cons_unit_zero (S := S512x256) zero_offsets13, View.readCov_unit_zero (S := S512x256) _ zero_offsets13]
  simp only [View.readAt_eq_ld, harg2.read_unread, harg3.read_unread, harg4.read_unread, harg6.read_unread,
    View.ld_unit_zero (S := S512x256) zero_offsets13, View.ld_unit_zero (S := S512x1024) zero_offsets13, View.ld_unit_zero (S := S1x256) zero_offsets13]

/-- A tile strictly between the first and the last: the product added to what the tile before left. -/
theorem acc13_M_eq (c : Dev nD) (i : grid13.Coords) (arg2 : Memref sig .tc .vmem S512x1024 .bf16) (harg2 : arg2.IsWhole) (arg3 : Memref sig .tc .vmem S10240x256 .bf16) (harg3 : arg3.IsWhole) (arg4 : Memref sig .tc .vmem S1x256 .f32) (harg4 : arg4.IsWhole) (arg5 : Memref sig .tc .vmem S512x256 .f32) (harg5 : arg5.IsWhole) (arg6 : Memref sig .tc .vmem S512x256 .f32) (harg6 : arg6.IsWhole) (hc0 : ¬zeroC13 i) (hc1 : ¬flushC13 i)
    (x0 : Vec F S512x1024 .bf16) (x1 : Vec F S10240x256 .bf16) (x2 : Vec F S1x256 .f32) (xs : Vec F S512x256 .f32) :
    acc13_M c i arg2 harg2 arg3 harg3 arg4 harg4 arg5 harg5 arg6 harg6 hc0 hc1 x0 x1 x2 xs
      = k13_pay2 (View.ld x1 (Rect.unit (s := S10240x256) (k13_off1 i) S1024x256.size (k13_off1_inb i))) xs x0 := by
  unfold acc13_M
  rw [View.read_writes_eq_canon _ _ _ (scover13_M c i arg2 harg2 arg3 harg3 arg4 harg4 arg5 harg5 arg6 harg6 hc0 hc1 x0 x1 x2 xs)]
  unfold runMid13
  dsimp only
  try sl_unfold_words
  rw [View.canon_unit_zero zero_offsets13]
  simp only [View.readAt_eq_ld, harg2.read_unread, harg3.read_unread, harg4.read_unread, harg6.read_unread,
    View.ld_unit_zero (S := S512x256) zero_offsets13, View.ld_unit_zero (S := S512x1024) zero_offsets13, View.ld_unit_zero (S := S1x256) zero_offsets13]

/-- Tile 9, the accumulator: as for a middle tile. -/
theorem acc13_L_eq (c : Dev nD) (i : grid13.Coords) (arg2 : Memref sig .tc .vmem S512x1024 .bf16) (harg2 : arg2.IsWhole) (arg3 : Memref sig .tc .vmem S10240x256 .bf16) (harg3 : arg3.IsWhole) (arg4 : Memref sig .tc .vmem S1x256 .f32) (harg4 : arg4.IsWhole) (arg5 : Memref sig .tc .vmem S512x256 .f32) (harg5 : arg5.IsWhole) (arg6 : Memref sig .tc .vmem S512x256 .f32) (harg6 : arg6.IsWhole) (hc0 : ¬zeroC13 i) (hc1 : flushC13 i)
    (x0 : Vec F S512x1024 .bf16) (x1 : Vec F S10240x256 .bf16) (x2 : Vec F S1x256 .f32) (xs : Vec F S512x256 .f32) :
    acc13_L c i arg2 harg2 arg3 harg3 arg4 harg4 arg5 harg5 arg6 harg6 hc0 hc1 x0 x1 x2 xs
      = k13_pay2 (View.ld x1 (Rect.unit (s := S10240x256) (k13_off1 i) S1024x256.size (k13_off1_inb i))) xs x0 := by
  unfold acc13_L
  rw [View.read_writes_eq_canon _ _ _ (scover13_L c i arg2 harg2 arg3 harg3 arg4 harg4 arg5 harg5 arg6 harg6 hc0 hc1 x0 x1 x2 xs)]
  unfold runLast13
  dsimp only
  try sl_unfold_words
  rw [View.canon_unit_zero zero_offsets13]
  simp only [View.readAt_eq_ld, harg2.read_unread, harg3.read_unread, harg4.read_unread, harg6.read_unread,
    View.ld_unit_zero (S := S512x256) zero_offsets13, View.ld_unit_zero (S := S512x1024) zero_offsets13, View.ld_unit_zero (S := S1x256) zero_offsets13]

/-- Tile 9, the result block: the last step applied to the accumulator just stored and read back. -/
theorem out13_L_eq (c : Dev nD) (i : grid13.Coords) (arg2 : Memref sig .tc .vmem S512x1024 .bf16) (harg2 : arg2.IsWhole) (arg3 : Memref sig .tc .vmem S10240x256 .bf16) (harg3 : arg3.IsWhole) (arg4 : Memref sig .tc .vmem S1x256 .f32) (harg4 : arg4.IsWhole) (arg5 : Memref sig .tc .vmem S512x256 .f32) (harg5 : arg5.IsWhole) (arg6 : Memref sig .tc .vmem S512x256 .f32) (harg6 : arg6.IsWhole) (hc0 : ¬zeroC13 i) (hc1 : flushC13 i)
    (x0 : Vec F S512x1024 .bf16) (x1 : Vec F S10240x256 .bf16) (x2 : Vec F S1x256 .f32) (xs : Vec F S512x256 .f32) :
    out13_L_3 c i arg2 harg2 arg3 harg3 arg4 harg4 arg5 harg5 arg6 harg6 hc0 hc1 x0 x1 x2 xs
      = k13_pay3 (k13_pay2 (View.ld x1 (Rect.unit (s := S10240x256) (k13_off1 i) S1024x256.size (k13_off1_inb i))) xs x0) x2 := by
  unfold out13_L_3
  rw [View.read_writes_eq_canon _ _ _ (cover13_L_3 c i arg2 harg2 arg3 harg3 arg4 harg4 arg5 harg5 arg6 harg6 hc0 hc1 x0 x1 x2 xs)]
  unfold runLast13
  dsimp only
  try sl_unfold_words
  rw [View.canon_unit_zero zero_offsets13, View.readCov_unit_zero (S := S512x256) _ zero_offsets13]
  simp only [View.readAt_eq_ld, harg2.read_unread, harg3.read_unread, harg4.read_unread, harg6.read_unread,
    View.ld_unit_zero (S := S512x256) zero_offsets13, View.ld_unit_zero (S := S512x1024) zero_offsets13, View.ld_unit_zero (S := S1x256) zero_offsets13]

end Pieces

/-! ## The body's arithmetic at an entry, on the extended reals -/

/-- The zero fill reads 0. -/
theorem pay1_at13 (r : Fin 512) (q : Fin 256) : k13_pay1 (F := Ideal) (ix2 r q) = (0 : EReal) := by
  unfold k13_pay1
  exact Cert.AccEntry.zero_fill_at 512 256 _ r q

/-- Row r of a 512 × 1024 block against column q of a 1024 × 256 block. -/
def stepSum13 (x : S512x1024.Idx → EReal) (w : S1024x256.Idx → EReal) (r : Fin 512) (q : Fin 256) : EReal :=
  ∑ k : Fin 1024, x (ix2 r k) * w (ix2 k q)

/-- One step: the accumulator's entry plus row r of the left block against column q of the right block. -/
theorem pay2_at13 (v6 : FVec Ideal S1024x256 .bf16) (v8 : FVec Ideal S512x256 .f32) (v9 : FVec Ideal S512x1024 .bf16)
    (r : Fin 512) (q : Fin 256) :
    k13_pay2 (F := Ideal) v6 v8 v9 (ix2 r q) = v8 (ix2 r q) + stepSum13 v9 v6 r q := by
  unfold k13_pay2
  exact Cert.AccEntry.acc_step_at (φ₁ := .bf16) (φ₂ := .bf16) 512 1024 256 _ rfl v9 v6 v8 _ _ _ r q

/-- The last step: the accumulator's entry plus the bias entry of column q. -/
theorem pay3_at13 (v19 : FVec Ideal S512x256 .f32) (v20 : FVec Ideal S1x256 .f32) (r : Fin 512) (q : Fin 256) :
    k13_pay3 (F := Ideal) v19 v20 (ix2 r q) = (v19 (ix2 r q) + v20 (ix2 (0 : Fin 1) q)) := by
  unfold k13_pay3
  exact Cert.AccEntry.flush_plain_at 512 256 v19 v20 _ _ r q

/-! ## Where the blocks sit -/

/-- Over the 200 grid points: the left operand's block is (point / 10, point % 10); the right operand and the bias row are
    read whole; the result's block is (point / 10, 0); the tile coordinate is point % 10. -/
theorem pointIdx13 : ∀ t : Fin cfg13.N,
      win13_0.index t (0 : Fin 2) = t.val / 10 ∧ win13_0.index t (1 : Fin 2) = t.val % 10
    ∧ win13_1.index t (0 : Fin 2) = 0 ∧ win13_1.index t (1 : Fin 2) = 0
    ∧ win13_2.index t (0 : Fin 2) = 0 ∧ win13_2.index t (1 : Fin 2) = 0
    ∧ win13_3.index t (0 : Fin 2) = t.val / 10 ∧ win13_3.index t (1 : Fin 2) = 0
    ∧ ((grid13.coords t) 1).val = t.val % 10 :=
  (by decide +kernel : ∀ t : Fin grid13.N, _)

/-- Row r of the block of 512 rows that point n works on. -/
def rowAt13 (n : ℕ) (r : Fin 512) : Fin 10240 := ⟨512 * (n / 10 % 20) + r.val, by omega⟩

/-- The tile that point n adds. -/
def tileAt13 (n : ℕ) : Fin 10 := ⟨n % 10, Nat.mod_lt n (by decide)⟩

/-- The rows of the right operand loaded at a point, at an entry: row 1024 · tile + k of the operand. -/
theorem slice_at13 (i : grid13.Coords) (X : Vec Ideal S10240x256 .bf16) (k : Fin 1024) (q : Fin 256) (j : Fin 10240)
    (hj : j.val = 1024 * (i 1).val + k.val) :
    View.ld (Val := Elt Ideal) (e' := .bf16) X (Rect.unit (s := S10240x256) (k13_off1 i) S1024x256.size (k13_off1_inb i)) (ix2 k q) = X (ix2 j q) := by
  have e0 : k13_off1 i 0 = 1024 * (i 1).val := (congrFun (k13_off1_eq i) 0).trans rfl
  have e1 : k13_off1 i 1 = 0 := (congrFun (k13_off1_eq i) 1).trans rfl
  show X _ = X _
  congr 1
  funext a; apply Fin.ext
  match a with
  | ⟨0, _⟩ => show k13_off1 i 0 + 1 * k.val = j.val; omega
  | ⟨1, _⟩ => show k13_off1 i 1 + 1 * q.val = q.val; omega

-- the TensorCore's buffer contents when the region is entered, on the extended reals
variable (V : (c : Dev nD) → (b : Ref sig .tc) → Buf (Elt Ideal) ((c : Thread nD τ).loc b))

/-- The left operand's block at point t, at (r, k): the left array at (row r of the point's block, index k of its tile). -/
theorem blkA_at13 (c : Dev nD) (t : Fin cfg13.N) (r : Fin 512) (k : Fin 1024) :
    (iblk13 (F := Ideal) V c 0 t : S512x1024.Idx → EReal) (ix2 r k)
      = (V c (Pipeline.arrRef spec13 0) : S10240x10240.Idx → EReal) (ix2 (rowAt13 t.val r) (Cert.Spec.tileIdx (tileAt13 t.val) k)) := by
  obtain ⟨e00, e01, -⟩ := pointIdx13 t
  have hN : t.val < 200 := lt_of_lt_of_eq t.isLt (show cfg13.N = 200 from N_13)
  show (V c (Pipeline.arrRef spec13 0) : S10240x10240.Idx → EReal) (((cfg13.win 0).blk t).view.emb (ix2 r k)) = _
  congr 1
  funext a; apply Fin.ext
  match a with
  | ⟨0, _⟩ => show win13_0.index t (0 : Fin 2) * 512 + 1 * r.val = 512 * (t.val / 10 % 20) + r.val; omega
  | ⟨1, _⟩ => show win13_0.index t (1 : Fin 2) * 1024 + 1 * k.val = t.val % 10 * 1024 + k.val; omega

/-- The right operand is resident whole: its block at any point is the array. -/
theorem blkH_at13 (c : Dev nD) (t : Fin cfg13.N) (j : Fin 10240) (q : Fin 256) :
    (iblk13 (F := Ideal) V c 1 t : S10240x256.Idx → EReal) (ix2 j q) = (V c (Pipeline.arrRef spec13 1) : S10240x256.Idx → EReal) (ix2 j q) := by
  obtain ⟨-, -, e10, e11, -⟩ := pointIdx13 t
  show (V c (Pipeline.arrRef spec13 1) : S10240x256.Idx → EReal) (((cfg13.win 1).blk t).view.emb (ix2 j q)) = _
  congr 1
  funext a; apply Fin.ext
  match a with
  | ⟨0, _⟩ => show win13_1.index t (0 : Fin 2) * 10240 + 1 * j.val = j.val; omega
  | ⟨1, _⟩ => show win13_1.index t (1 : Fin 2) * 256 + 1 * q.val = q.val; omega

/-- So is the bias row. -/
theorem blkB_at13 (c : Dev nD) (t : Fin cfg13.N) (q : Fin 256) :
    (iblk13 (F := Ideal) V c 2 t : S1x256.Idx → EReal) (ix2 (0 : Fin 1) q) = (V c (Pipeline.arrRef spec13 2) : S1x256.Idx → EReal) (ix2 (0 : Fin 1) q) := by
  obtain ⟨-, -, -, -, e20, e21, -⟩ := pointIdx13 t
  show (V c (Pipeline.arrRef spec13 2) : S1x256.Idx → EReal) (((cfg13.win 2).blk t).view.emb (ix2 (0 : Fin 1) q)) = _
  congr 1
  funext a; apply Fin.ext
  match a with
  | ⟨0, _⟩ => show win13_2.index t (0 : Fin 2) * 1 + 1 * 0 = 0; omega
  | ⟨1, _⟩ => show win13_2.index t (1 : Fin 2) * 256 + 1 * q.val = q.val; omega

/-! ## The accumulator, point by point -/

/-- The products summed along the shared axis for the entry (row r of point n's block, column q), of any two arrays, -/
def termOf13 (A : S10240x10240.Idx → EReal) (H : S10240x256.Idx → EReal) (n : ℕ) (r : Fin 512) (q : Fin 256) : Fin 10240 → EReal :=
  fun j => A (ix2 (rowAt13 n r) j) * H (ix2 j q)

/-- and of the two operands as the region finds them. -/
def term13 (c : Dev nD) (n : ℕ) (r : Fin 512) (q : Fin 256) : Fin 10240 → EReal :=
  termOf13 (V c (Pipeline.arrRef spec13 0)) (V c (Pipeline.arrRef spec13 1)) n r q

/-- What a point adds at entry (r, q): the sum of the products over the indices of the point's tile. -/
theorem step_sum13 (c : Dev nD) (t : Fin cfg13.N) (r : Fin 512) (q : Fin 256) :
    stepSum13 (iblk13 (F := Ideal) V c 0 t)
        (View.ld (Val := Elt Ideal) (e' := .bf16) (iblk13 (F := Ideal) V c 1 t : Vec Ideal S10240x256 .bf16) (Rect.unit (s := S10240x256) (k13_off1 (grid13.coords t)) S1024x256.size (k13_off1_inb (grid13.coords t)))) r q
      = ∑ k : Fin 1024, term13 V c t.val r q (Cert.Spec.tileIdx (tileAt13 t.val) k) := by
  obtain ⟨-, -, -, -, -, -, -, -, eg⟩ := pointIdx13 t
  unfold stepSum13
  refine Finset.sum_congr rfl fun k _ => ?_
  have hj : (Cert.Spec.tileIdx (tileAt13 t.val) k).val = 1024 * ((grid13.coords t) 1).val + k.val := by
    show t.val % 10 * 1024 + k.val = _; omega
  exact congrArg₂ (fun (a b : EReal) => a * b) (blkA_at13 V c t r k)
    ((slice_at13 (grid13.coords t) (iblk13 (F := Ideal) V c 1 t) k q (Cert.Spec.tileIdx (tileAt13 t.val) k) hj).trans
      (blkH_at13 V c t (Cert.Spec.tileIdx (tileAt13 t.val) k) q))

/-- At tile 0 the accumulator's entry is 0 plus the tile's sum. -/
theorem accZ_at13 (c : Dev nD) (t : Fin cfg13.N) (h0 : t.val % 10 = 0) (r : Fin 512) (q : Fin 256) :
    ((outsAt13 (F := Ideal) V c t.val t.isLt).2 : S512x256.Idx → EReal) (ix2 r q)
      = 0 + ∑ k : Fin 1024, term13 V c t.val r q (Cert.Spec.tileIdx (tileAt13 t.val) k) := by
  have h1 : ¬t.val % 10 = 9 := by omega
  rw [outsAt13_Z V c t h0 h1]
  dsimp only
  refine (congrFun (acc13_Z_eq (F := Ideal) c (grid13.coords t) (mA13 t) (hA13 t) (mB13 t) (hB13 t) (mC13 t) (hC13 t) (mO13 t) (hO13 t) mS13 (Memref.isWhole_whole _) ((zeroC13_iff t).mpr h0) (fun h => h1 ((flushC13_iff t).mp h)) (iblk13 V c 0 t) (iblk13 V c 1 t) (iblk13 V c 2 t)) (ix2 r q)).trans ?_
  refine (pay2_at13 _ _ _ r q).trans ?_
  exact congrArg₂ (fun (a b : EReal) => a + b) (pay1_at13 r q) (step_sum13 V c t r q)

/-- At a later tile it is the entry the point before left plus the tile's sum. -/
theorem accS_at13 (c : Dev nD) (t : Fin cfg13.N) (h0 : ¬t.val % 10 = 0) (r : Fin 512) (q : Fin 256) :
    ((outsAt13 (F := Ideal) V c t.val t.isLt).2 : S512x256.Idx → EReal) (ix2 r q)
      = ((outsAt13 V c (t.val - 1) (Nat.lt_of_le_of_lt (Nat.sub_le _ _) t.isLt)).2 : S512x256.Idx → EReal) (ix2 r q)
        + ∑ k : Fin 1024, term13 V c t.val r q (Cert.Spec.tileIdx (tileAt13 t.val) k) := by
  by_cases h1 : t.val % 10 = 9
  · rw [outsAt13_L V c t h0 h1]
    dsimp only
    refine (congrFun (acc13_L_eq (F := Ideal) c (grid13.coords t) (mA13 t) (hA13 t) (mB13 t) (hB13 t) (mC13 t) (hC13 t) (mO13 t) (hO13 t) mS13 (Memref.isWhole_whole _) (fun h => h0 ((zeroC13_iff t).mp h)) ((flushC13_iff t).mpr h1) (iblk13 V c 0 t) (iblk13 V c 1 t) (iblk13 V c 2 t) (outsAt13 V c (t.val - 1) (Nat.lt_of_le_of_lt (Nat.sub_le _ _) t.isLt)).2) (ix2 r q)).trans ?_
    refine (pay2_at13 _ _ _ r q).trans ?_
    exact congrArg (fun (b : EReal) => _ + b) (step_sum13 V c t r q)
  · rw [outsAt13_M V c t h0 h1]
    dsimp only
    refine (congrFun (acc13_M_eq (F := Ideal) c (grid13.coords t) (mA13 t) (hA13 t) (mB13 t) (hB13 t) (mC13 t) (hC13 t) (mO13 t) (hO13 t) mS13 (Memref.isWhole_whole _) (fun h => h0 ((zeroC13_iff t).mp h)) (fun h => h1 ((flushC13_iff t).mp h)) (iblk13 V c 0 t) (iblk13 V c 1 t) (iblk13 V c 2 t) (outsAt13 V c (t.val - 1) (Nat.lt_of_le_of_lt (Nat.sub_le _ _) t.isLt)).2) (ix2 r q)).trans ?_
    refine (pay2_at13 _ _ _ r q).trans ?_
    exact congrArg (fun (b : EReal) => _ + b) (step_sum13 V c t r q)

/-- Adding a tile's sum to the accumulator after the tiles before it is the accumulator after one more tile. -/
theorem tile_step13 (g : Fin 10240 → EReal) (n : ℕ) (a : EReal) (ha : a = Cert.Spec.tileAcc g (n % 10)) :
    a + ∑ k : Fin 1024, g (Cert.Spec.tileIdx (tileAt13 n) k) = Cert.Spec.tileAcc g (n % 10 + 1) := by
  rw [ha]
  exact (Cert.Spec.tileAcc_succ g (n % 10) (Nat.mod_lt n (by decide))).symm

/-- THE INVARIANT: after point n the accumulator's entry (r, q) is the sum of the products over the tiles 0 … n % 10 of
    the shared axis, for the row r of the point's block. By induction on the point: a point that is not at tile 0 works on
    the same block of rows as the point before it. -/
theorem acc_inv13 (c : Dev nD) : ∀ (n : ℕ) (h : n < cfg13.N) (r : Fin 512) (q : Fin 256),
    ((outsAt13 (F := Ideal) V c n h).2 : S512x256.Idx → EReal) (ix2 r q)
      = Cert.Spec.tileAcc (term13 V c n r q) (n % 10 + 1) := by
  intro n
  induction n with
  | zero =>
    intro h r q
    exact (accZ_at13 V c ⟨0, h⟩ (Nat.zero_mod 10) r q).trans (tile_step13 (term13 V c 0 r q) 0 0 rfl)
  | succ n ih =>
    intro h r q
    by_cases h0 : (n + 1) % 10 = 0
    · refine (accZ_at13 V c ⟨n + 1, h⟩ h0 r q).trans (tile_step13 (term13 V c (n + 1) r q) (n + 1) 0 ?_)
      rw [h0]; rfl
    · have e1 : ((outsAt13 (F := Ideal) V c (n + 1) h).2 : S512x256.Idx → EReal) (ix2 r q)
          = ((outsAt13 (F := Ideal) V c n (Nat.lt_of_succ_lt h)).2 : S512x256.Idx → EReal) (ix2 r q)
            + ∑ k : Fin 1024, term13 V c (n + 1) r q (Cert.Spec.tileIdx (tileAt13 (n + 1)) k) :=
        accS_at13 V c ⟨n + 1, h⟩ h0 r q
      have e2 : ((outsAt13 (F := Ideal) V c n (Nat.lt_of_succ_lt h)).2 : S512x256.Idx → EReal) (ix2 r q)
          = Cert.Spec.tileAcc (term13 V c n r q) (n % 10 + 1) := ih (Nat.lt_of_succ_lt h) r q
      have e3 : rowAt13 n r = rowAt13 (n + 1) r := Fin.ext (by show 512 * (n / 10 % 20) + r.val = 512 * ((n + 1) / 10 % 20) + r.val; omega)
      have e4 : term13 V c n r q = term13 V c (n + 1) r q := by unfold term13 termOf13; rw [e3]
      have e5 : n % 10 + 1 = (n + 1) % 10 := by omega
      rw [e1, e2, e4, e5]
      exact tile_step13 (term13 V c (n + 1) r q) (n + 1) _ rfl

/-! ## The result block at tile 9 -/

/-- At tile 9 the result buffer's entry is the accumulator's entry plus the bias entry of the column. -/
theorem out_at13 (c : Dev nD) (t : Fin cfg13.N) (h1 : t.val % 10 = 9) (r : Fin 512) (q : Fin 256) :
    ((outsAt13 (F := Ideal) V c t.val t.isLt).1 : S512x256.Idx → EReal) (ix2 r q)
      = (((outsAt13 (F := Ideal) V c t.val t.isLt).2 : S512x256.Idx → EReal) (ix2 r q) + (V c (Pipeline.arrRef spec13 2) : S1x256.Idx → EReal) (ix2 (0 : Fin 1) q)) := by
  have h0 : ¬t.val % 10 = 0 := by omega
  rw [outsAt13_L V c t h0 h1]
  dsimp only
  rw [out13_L_eq (F := Ideal) c (grid13.coords t) (mA13 t) (hA13 t) (mB13 t) (hB13 t) (mC13 t) (hC13 t) (mO13 t) (hO13 t) mS13 (Memref.isWhole_whole _) (fun h => h0 ((zeroC13_iff t).mp h)) ((flushC13_iff t).mpr h1) (iblk13 V c 0 t) (iblk13 V c 1 t) (iblk13 V c 2 t) (outsAt13 V c (t.val - 1) (Nat.lt_of_le_of_lt (Nat.sub_le _ _) t.isLt)).2,
    acc13_L_eq (F := Ideal) c (grid13.coords t) (mA13 t) (hA13 t) (mB13 t) (hB13 t) (mC13 t) (hC13 t) (mO13 t) (hO13 t) mS13 (Memref.isWhole_whole _) (fun h => h0 ((zeroC13_iff t).mp h)) ((flushC13_iff t).mpr h1) (iblk13 V c 0 t) (iblk13 V c 1 t) (iblk13 V c 2 t) (outsAt13 V c (t.val - 1) (Nat.lt_of_le_of_lt (Nat.sub_le _ _) t.isLt)).2]
  refine (pay3_at13 _ _ r q).trans ?_
  exact congrArg (fun z => (_ + z)) (blkB_at13 V c t q)

/-! ## The result as one function of the three arrays -/

/-- Entry (p, q): row p of the left operand against column q of the right operand over all 10240 indices, plus the bias
    entry q. -/
def entry13 (A : S10240x10240.Idx → EReal) (H : S10240x256.Idx → EReal) (B : S1x256.Idx → EReal) (p : Fin 10240) (q : Fin 256) : EReal :=
  ((∑ j : Fin 10240, A (ix2 p j) * H (ix2 j q)) + B (ix2 (0 : Fin 1) q))

/-- The whole result array, index by index. -/
def whole13 (A : S10240x10240.Idx → EReal) (H : S10240x256.Idx → EReal) (B : S1x256.Idx → EReal) : S10240x256.Idx → EReal :=
  fun i => entry13 A H B (i 0) (i 1)

/-- What a point at tile 9 writes back is its block of 512 rows of the whole result: the accumulator holds the sum over
    all ten tiles, which is the sum over the 10240 indices. -/
theorem flushed13_eq (c : Dev nD) (t : Fin cfg13.N) (hf : (cfg13.win 3).flush t = true) :
    (dat13 (F := Ideal) V c).flushed 3 t
      = ((cfg13.win 3).blk t).view.read (Elt Ideal)
          (whole13 (V c (Pipeline.arrRef spec13 0)) (V c (Pipeline.arrRef spec13 1)) (V c (Pipeline.arrRef spec13 2))) := by
  have h1 : t.val % 10 = 9 := (flush13_3 t).mp hf
  have hN : t.val < 200 := lt_of_lt_of_eq t.isLt (show cfg13.N = 200 from N_13)
  obtain ⟨-, -, -, -, -, -, e30, e31, -⟩ := pointIdx13 t
  show (cfg13.win 3).cut (grid13.coords t) ((dat13 V c).after 3 t) = _
  rw [after13_3]
  funext j
  obtain ⟨r, q, rfl⟩ : ∃ (r : Fin 512) (q : Fin 256), j = ix2 r q := ⟨j 0, j 1, eq_ix2 j⟩
  refine (out_at13 V c t h1 r q).trans ?_
  have hacc : ((outsAt13 (F := Ideal) V c t.val t.isLt).2 : S512x256.Idx → EReal) (ix2 r q)
      = ∑ j : Fin 10240, term13 V c t.val r q j := by
    refine (acc_inv13 V c t.val t.isLt r q).trans ?_
    rw [h1]
    exact Cert.Spec.tileAcc_ten _
  rw [hacc]
  have hp : ((((cfg13.win 3).blk t).view.emb (ix2 r q)) 0 : Fin 10240) = rowAt13 t.val r :=
    Fin.ext (by show win13_3.index t (0 : Fin 2) * 512 + 1 * r.val = 512 * (t.val / 10 % 20) + r.val; omega)
  have hq : ((((cfg13.win 3).blk t).view.emb (ix2 r q)) 1 : Fin 256) = q :=
    Fin.ext (by show win13_3.index t (1 : Fin 2) * 256 + 1 * q.val = q.val; omega)
  exact (congrArg₂ (entry13 (V c (Pipeline.arrRef spec13 0)) (V c (Pipeline.arrRef spec13 1)) (V c (Pipeline.arrRef spec13 2))) hp hq).symm

/-! ## The twenty blocks cover the array -/

/-- An index of the result is in point `t`'s block iff each coordinate is in the block's range on its axis. -/
theorem mem_blk13 (t : Fin cfg13.N) (i : S10240x256.Idx) :
    i ∈ ((cfg13.win 3).blk t).view.set ↔ ∀ a : Fin 2, win13_3.index t a * S512x256.size a ≤ (i a).val
      ∧ (i a).val < win13_3.index t a * S512x256.size a + S512x256.size a := by
  show i ∈ ((View.whole main_v112).slice (win13_3.rect t)).set ↔ _
  rw [View.set_slice_whole, Rect.mem_set_unit]
  exact Iff.rfl

/-- Row p lies in the block of the points of row block p / 512, and the point at tile 9 of that row block writes it back. -/
theorem cover13 (i : S10240x256.Idx) :
    ∃ t : Fin cfg13.N, (cfg13.win 3).flush t = true ∧ i ∈ ((cfg13.win 3).blk t).view.set := by
  have hi0 : (i 0).val < 10240 := (i 0).isLt
  have hi1 : (i 1).val < 256 := (i 1).isLt
  have hN : grid13.N = 200 := N_13
  obtain ⟨t, ht⟩ : ∃ t : Fin cfg13.N, t.val = 10 * ((i 0).val / 512) + 9 :=
    ⟨⟨10 * ((i 0).val / 512) + 9, by show _ < grid13.N; omega⟩, rfl⟩
  obtain ⟨-, -, -, -, -, -, e30, e31, -⟩ := pointIdx13 t
  refine ⟨t, (flush13_3 t).mpr (by omega), ?_⟩
  rw [mem_blk13]
  intro a
  match a with
  | ⟨0, _⟩ => show win13_3.index t (0 : Fin 2) * 512 ≤ (i 0).val ∧ (i 0).val < win13_3.index t (0 : Fin 2) * 512 + 512; omega
  | ⟨1, _⟩ => show win13_3.index t (1 : Fin 2) * 256 ≤ (i 1).val ∧ (i 1).val < win13_3.index t (1 : Fin 2) * 256 + 256; omega

/-! ## The array when the region is left -/

/-- The result array after the twenty write-backs is the whole function of the three arrays as the region found them. -/
theorem final13 (c : Dev nD) :
    (dat13 (F := Ideal) V c).arrAt 3 cfg13.N
      = whole13 (V c (Pipeline.arrRef spec13 0)) (V c (Pipeline.arrRef spec13 1)) (V c (Pipeline.arrRef spec13 2)) :=
  (dat13 (F := Ideal) V c).arrAt_eq_of_cover 3 _ (fun t hf => flushed13_eq V c t hf) cover13

/-- Entry (p, q) of the result array after the region. -/
theorem val13 (c : Dev nD) (p : Fin 10240) (q : Fin 256) :
    (dat13 (F := Ideal) V c).arrAt 3 cfg13.N (ix2 p q)
      = entry13 (V c (Pipeline.arrRef spec13 0)) (V c (Pipeline.arrRef spec13 1)) (V c (Pipeline.arrRef spec13 2)) p q := by
  rw [final13]; rfl

/-- The entry written out. -/
theorem entry13_eq (A : S10240x10240.Idx → EReal) (H : S10240x256.Idx → EReal) (B : S1x256.Idx → EReal) (p : Fin 10240) (q : Fin 256) :
    entry13 A H B p q = ((∑ j : Fin 10240, A (ix2 p j) * H (ix2 j q)) + B (ix2 (0 : Fin 1) q)) := rfl

end Cert.KernelIdeal.Rg

end
-- ==== Proof.KI.Values.lean ====
/-
  The fourteen regions' values, collected.

  Each transforming region (1, 2, 4, 6, 8, 10, 12) leaves, at entry (p, q) of its result, the sum over the shared axis of
  the products of its first two arrays plus the bias entry of column q; each aggregating region (0, 3, 5, 7, 9, 11, 13)
  leaves the same over the 10240 indices of the shared axis, its ten tiles regrouped into one sum; the regions that end a
  layer rectify. Here the fourteen statements are put in the one form the reading of the regions in order asks for.
-/
import proofs.«181230_j19834158973077_2_alg».proof.Proof.KI.Result
import proofs.«181230_j19834158973077_2_alg».proof.Proof.KI.Val0
import proofs.«181230_j19834158973077_2_alg».proof.Proof.KI.Val1
import proofs.«181230_j19834158973077_2_alg».proof.Proof.KI.Val2
import proofs.«181230_j19834158973077_2_alg».proof.Proof.KI.Val3
import proofs.«181230_j19834158973077_2_alg».proof.Proof.KI.Val4
import proofs.«181230_j19834158973077_2_alg».proof.Proof.KI.Val5
import proofs.«181230_j19834158973077_2_alg».proof.Proof.KI.Val6
import proofs.«181230_j19834158973077_2_alg».proof.Proof.KI.Val7
import proofs.«181230_j19834158973077_2_alg».proof.Proof.KI.Val8
import proofs.«181230_j19834158973077_2_alg».proof.Proof.KI.Val9
import proofs.«181230_j19834158973077_2_alg».proof.Proof.KI.Val10
import proofs.«181230_j19834158973077_2_alg».proof.Proof.KI.Val11
import proofs.«181230_j19834158973077_2_alg».proof.Proof.KI.Val12
import proofs.«181230_j19834158973077_2_alg».proof.Proof.KI.Val13

set_option maxRecDepth 16384

noncomputable section

namespace Cert.KernelIdeal.Rg

open Cert.KernelIdeal Cert.KernelIdeal.Gen
open Idealize.ShloMosaic Idealize.ShloMosaic.TcCoe Idealize.ShloMosaic.ValueIdx Idealize.SL.Sem
open Idealize.ShloMosaic.Pipeline (Dat)

/-- Region 0 (aggregation): the entry written out over the 10240 indices of the shared axis. -/
theorem valOf0 : ValOf0 := fun V c p q => (val0 V c p q).trans (entry0_eq _ _ _ p q)

/-- Region 1 (transformation). -/
theorem valOf1 : ValOf1 := fun V c p q => val1 V c p q

/-- Region 2 (transformation). -/
theorem valOf2 : ValOf2 := fun V c p q => val2 V c p q

/-- Region 3 (aggregation): the entry written out over the 10240 indices of the shared axis. -/
theorem valOf3 : ValOf3 := fun V c p q => (val3 V c p q).trans (entry3_eq _ _ _ p q)

/-- Region 4 (transformation). -/
theorem valOf4 : ValOf4 := fun V c p q => val4 V c p q

/-- Region 5 (aggregation): the entry written out over the 10240 indices of the shared axis. -/
theorem valOf5 : ValOf5 := fun V c p q => (val5 V c p q).trans (entry5_eq _ _ _ p q)

/-- Region 6 (transformation). -/
theorem valOf6 : ValOf6 := fun V c p q => val6 V c p q

/-- Region 7 (aggregation): the entry written out over the 10240 indices of the shared axis. -/
theorem valOf7 : ValOf7 := fun V c p q => (val7 V c p q).trans (entry7_eq _ _ _ p q)

/-- Region 8 (transformation). -/
theorem valOf8 : ValOf8 := fun V c p q => val8 V c p q

/-- Region 9 (aggregation): the entry written out over the 10240 indices of the shared axis. -/
theorem valOf9 : ValOf9 := fun V c p q => (val9 V c p q).trans (entry9_eq _ _ _ p q)

/-- Region 10 (transformation). -/
theorem valOf10 : ValOf10 := fun V c p q => val10 V c p q

/-- Region 11 (aggregation): the entry written out over the 10240 indices of the shared axis. -/
theorem valOf11 : ValOf11 := fun V c p q => (val11 V c p q).trans (entry11_eq _ _ _ p q)

/-- Region 12 (transformation). -/
theorem valOf12 : ValOf12 := fun V c p q => val12 V c p q

/-- Region 13 (aggregation): the entry written out over the 10240 indices of the shared axis. -/
theorem valOf13 : ValOf13 := fun V c p q => (val13 V c p q).trans (entry13_eq _ _ _ p q)

/-- The fourteen regions' values. -/
theorem regionValues : RegionValues :=
  ⟨valOf0, valOf1, valOf2, valOf3, valOf4, valOf5, valOf6, valOf7, valOf8, valOf9, valOf10, valOf11, valOf12, valOf13⟩

end Cert.KernelIdeal.Rg

end
-- ==== Proof.LibRealEntries.lean ====
/-
  Extended reals that are real numbers.

  The exact instance computes on the extended reals, where distributivity and cancellation fail at ±∞. A value built from
  real entries by sums, products, differences, finite sums, exponentials, quotients by nonzero reals and finite suprema over
  nonempty index sets is again a real; `IsReal` records that, so that laws of the reals can be applied to it.
-/
import Idealize.ShloMosaic.PureOps.Ideal

namespace Cert.Lib

open Idealize.ShloMosaic

/-- The extended real `x` is (the coercion of) a real number. -/
def IsReal (x : EReal) : Prop := ∃ r : ℝ, x = (r : EReal)

namespace IsReal

theorem coe (r : ℝ) : IsReal (r : EReal) := ⟨r, rfl⟩
theorem zero : IsReal 0 := ⟨0, rfl⟩
theorem one : IsReal 1 := ⟨1, rfl⟩

theorem add {x y : EReal} (hx : IsReal x) (hy : IsReal y) : IsReal (x + y) := by
  obtain ⟨a, rfl⟩ := hx; obtain ⟨b, rfl⟩ := hy; exact ⟨a + b, (EReal.coe_add a b).symm⟩
theorem mul {x y : EReal} (hx : IsReal x) (hy : IsReal y) : IsReal (x * y) := by
  obtain ⟨a, rfl⟩ := hx; obtain ⟨b, rfl⟩ := hy; exact ⟨a * b, (EReal.coe_mul a b).symm⟩
theorem sub {x y : EReal} (hx : IsReal x) (hy : IsReal y) : IsReal (x - y) := by
  obtain ⟨a, rfl⟩ := hx; obtain ⟨b, rfl⟩ := hy; exact ⟨a - b, (EReal.coe_sub a b).symm⟩
theorem exp {x : EReal} (hx : IsReal x) : IsReal (Ideal.exp x) := by
  obtain ⟨a, rfl⟩ := hx; exact ⟨Real.exp a, Ideal.exp_coe a⟩
/-- A quotient of a real by a nonzero real. -/
theorem div {x : EReal} {y : ℝ} (hx : IsReal x) (hy : y ≠ 0) : IsReal (Ideal.div x (y : EReal)) := by
  obtain ⟨a, rfl⟩ := hx; rw [Ideal.div_coe hy]; exact mul (coe a) (coe _)
theorem ite {p : Prop} [Decidable p] {x y : EReal} (hx : IsReal x) (hy : IsReal y) : IsReal (if p then x else y) := by
  split <;> assumption
theorem sum {ι : Type*} (t : Finset ι) (f : ι → EReal) (h : ∀ i ∈ t, IsReal (f i)) : IsReal (∑ i ∈ t, f i) := by
  classical
  induction t using Finset.induction_on with
  | empty => simpa using zero
  | insert i t hi ih =>
    rw [Finset.sum_insert hi]
    exact add (h i (Finset.mem_insert_self i t)) (ih fun j hj => h j (Finset.mem_insert_of_mem hj))
/-- A finite supremum of reals over a nonempty index set is a real: it is one of them. -/
theorem sup {ι : Type*} (t : Finset ι) (ht : t.Nonempty) (f : ι → EReal) (h : ∀ i ∈ t, IsReal (f i)) : IsReal (t.sup f) := by
  obtain ⟨i, hi, e⟩ := Finset.exists_mem_eq_sup t ht f
  rw [e]; exact h i hi

/-- The real a real-valued extended real is. -/
noncomputable def val {x : EReal} (hx : IsReal x) : ℝ := hx.choose
theorem coe_val {x : EReal} (hx : IsReal x) : ((val hx : ℝ) : EReal) = x := hx.choose_spec.symm

end IsReal

end Cert.Lib
-- ==== Proof.PreFacts.lean ====
/-
  The precondition, decoded.

  The claim's precondition is a host function of the nine argument arrays returning one bit: the conjunction, over the eight
  float arguments a, of jnp.all(|a| < +inf), and, for the integer argument, of jnp.all(idx >= 0) and jnp.all(idx < 10000).
  Here that bit being 1 is read back: every entry of every float argument is a real number (on the extended reals |x| < +∞
  excludes exactly x = +∞ and x = -∞), and every word of the integer argument, read signed, lies in [0, 10000), so it is the
  word of a natural number below 10000.

  Each jnp.all is a reduce by "and" into the scalar shape from the constant 1; when it is 1 every element of its operand is 1.
  An element of the float operands is the comparison max x (-x) < (the word 0x7F800000, which denotes +∞); an element of the
  integer operands is a signed comparison of 32-bit words.
-/
import proofs.«181230_j19834158973077_2_alg».proof.Pre_finite_inputs
import proofs.«181230_j19834158973077_2_alg».proof.Proof.Gen.Pre_finite_inputs
import proofs.«181230_j19834158973077_2_alg».proof.Proof.LibRealEntries
import Idealize.ShloMosaic.Lib.ReduceAll
import Idealize.ShloMosaic.Lib.ValueIdx
import Idealize.ShloMosaic.PureOps.Ideal

noncomputable section

namespace Cert.PreFacts

open Idealize.ShloMosaic Idealize.ShloMosaic.ValueIdx
open Cert.Lib (IsReal)

/-- The scalar shape has one index. -/
instance subsingleton_scalar_idx : Subsingleton (⟨0, ![]⟩ : Shape).Idx := ⟨fun a b => funext fun d => d.elim0⟩

/-- The word 0x7F800000 denotes +∞. -/
theorem inf_word : Ideal.ofBits .f32 0x7F800000#32 = (⊤ : EReal) := by simp [Ideal.ofBits, Ideal.ieee]

/-- An extended real whose absolute value max x (-x) is strictly below +∞ is a real number:
    at x = +∞ the maximum is +∞, and at x = -∞ so is -x. -/
theorem real_of_abs_lt_inf (x : EReal)
    (h : Ideal.cmp .olt (max x (-x)) (Ideal.ofBits .f32 0x7F800000#32) = 1#1) : IsReal x := by
  rw [inf_word] at h
  have h' : max x (-x) < ⊤ := by
    by_contra hn
    have e : Ideal.cmp .olt (max x (-x)) ⊤ = 0#1 := by
      show BitVec.ofBool (decide (max x (-x) < ⊤)) = 0#1
      rw [decide_eq_false hn]; rfl
    rw [e] at h; exact absurd h (by decide)
  induction x using EReal.rec with
  | bot => simp at h'
  | coe r => exact ⟨r, rfl⟩
  | top => simp at h'

section Reductions
variable {s : Shape} {axes : List (Fin s.rank)}

/-- jnp.all(|a| < +inf) = 1 says every entry of a is a real number. -/
theorem all_real (hb : (⟨0, ![]⟩ : Shape).BroadcastsInDim s (![] : Fin 0 → Fin s.rank)) (hr : s.ReducesTo axes ⟨0, ![]⟩)
    (hu : 0 < (⟨0, ![]⟩ : Shape).numel) (a : FVec Ideal s .f32)
    (h : Host.reduce IntOp.andi (cmpf .olt (Host.absf a) (broadcastInDim s ![] hb (constant (F := Ideal) ⟨0, ![]⟩ .f32 0x7F800000#32)))
        (constantI ⟨0, ![]⟩ 1 1#1) hr hu ix0 = 1#1) :
    ∀ i, IsReal (a i) := fun i =>
  real_of_abs_lt_inf (a i) (Host.reduce_andi_all _ _ hr hu ix0 h i)

/-- jnp.all(a >= k) = 1, signed, says every word of a is at least k. -/
theorem all_sge (hb : (⟨0, ![]⟩ : Shape).BroadcastsInDim s (![] : Fin 0 → Fin s.rank)) (hr : s.ReducesTo axes ⟨0, ![]⟩)
    (hu : 0 < (⟨0, ![]⟩ : Shape).numel) (a : IVec s 32) (k : BitVec 32)
    (h : Host.reduce IntOp.andi (cmpi .sge a (broadcastInDim s ![] hb (constantI ⟨0, ![]⟩ 32 k)))
        (constantI ⟨0, ![]⟩ 1 1#1) hr hu ix0 = 1#1) :
    ∀ i, k.toInt ≤ (a i).toInt := fun i =>
  IntOp.cmpi_sge.1 (Host.reduce_andi_all _ _ hr hu ix0 h i)

/-- jnp.all(a < k) = 1, signed, says every word of a is below k. -/
theorem all_slt (hb : (⟨0, ![]⟩ : Shape).BroadcastsInDim s (![] : Fin 0 → Fin s.rank)) (hr : s.ReducesTo axes ⟨0, ![]⟩)
    (hu : 0 < (⟨0, ![]⟩ : Shape).numel) (a : IVec s 32) (k : BitVec 32)
    (h : Host.reduce IntOp.andi (cmpi .slt a (broadcastInDim s ![] hb (constantI ⟨0, ![]⟩ 32 k)))
        (constantI ⟨0, ![]⟩ 1 1#1) hr hu ix0 = 1#1) :
    ∀ i, (a i).toInt < k.toInt := fun i =>
  IntOp.cmpi_slt.1 (Host.reduce_andi_all _ _ hr hu ix0 h i)

/-- A conjunction of two one-bit arrays read at an index is the conjunction of the two bits. -/
theorem andi_at (x y : IVec s 1) (i : s.Idx) : andi x y i = IntOp.andi (x i) (y i) := rfl

end Reductions

/-- A 32-bit word that, read signed, lies in [0, 10000) is the word of a natural number below 10000
    (a nonnegative signed reading is the unsigned one). -/
theorem word_of_range (w : BitVec 32) (h0 : 0 ≤ w.toInt) (h1 : w.toInt < 10000) :
    ∃ n : Fin 10000, w = BitVec.ofNat 32 n.val := by
  have hlt := w.isLt
  have e := BitVec.toInt_eq_toNat_cond w
  have hn : w.toNat < 10000 := by
    split at e <;> omega
  exact ⟨⟨w.toNat, hn⟩, by simp⟩

open Cert.Pre_finite_inputs in
/-- THE PRECONDITION DECODED, signed-range form: the precondition's bit is 1 only if every entry of the eight float arguments
    is a real number and every word of the integer argument is, read signed, in [0, 10000). -/
theorem facts_of_pre_range [Cert.Pre_finite_inputs.Facts]
    (a0 : FVec Ideal S10000x128 .f32) (a1 : IVec S2x160000 32) (a2 : FVec Ideal S160000 .f32)
    (a3 : FVec Ideal S128x1000 .f32) (a4 : FVec Ideal S1000 .f32) (a5 : FVec Ideal S5x1000x1000 .f32)
    (a6 : FVec Ideal S5x1000 .f32) (a7 : FVec Ideal S1000x256 .f32) (a8 : FVec Ideal S256 .f32)
    (h : Cert.Pre_finite_inputs.fn (F := Ideal) a0 a1 a2 a3 a4 a5 a6 a7 a8 = (fun _ => 1#1)) :
    (∀ i, IsReal (a0 i)) ∧ (∀ i, IsReal (a2 i)) ∧ (∀ i, IsReal (a3 i)) ∧ (∀ i, IsReal (a4 i)) ∧ (∀ i, IsReal (a5 i))
      ∧ (∀ i, IsReal (a6 i)) ∧ (∀ i, IsReal (a7 i)) ∧ (∀ i, IsReal (a8 i))
      ∧ (∀ i, 0 ≤ (a1 i).toInt ∧ (a1 i).toInt < 10000) := by
  have e := congrFun h ix0
  dsimp only [Cert.Pre_finite_inputs.fn, Cert.Pre_finite_inputs.fn_part1, Cert.Pre_finite_inputs.fn_part2] at e
  simp only [andi_at, IntOp.andi_eq_one] at e
  obtain ⟨⟨⟨⟨⟨⟨⟨⟨⟨h0, h2⟩, h3⟩, h4⟩, h5⟩, h6⟩, h7⟩, h8⟩, hge⟩, hlt⟩ := e
  refine ⟨all_real _ _ _ a0 h0, all_real _ _ _ a2 h2, all_real _ _ _ a3 h3, all_real _ _ _ a4 h4, all_real _ _ _ a5 h5,
    all_real _ _ _ a6 h6, all_real _ _ _ a7 h7, all_real _ _ _ a8 h8, fun i => ⟨?_, ?_⟩⟩
  · exact all_sge _ _ _ a1 0#32 hge i
  · exact all_slt _ _ _ a1 10000#32 hlt i

/-- THE PRECONDITION DECODED: every entry of the eight float arguments is a real number, and every word of the integer
    argument is the word of a natural number below 10000. -/
theorem facts_of_pre [Cert.Pre_finite_inputs.Facts]
    (a0 : FVec Ideal Cert.Pre_finite_inputs.S10000x128 .f32) (a1 : IVec Cert.Pre_finite_inputs.S2x160000 32)
    (a2 : FVec Ideal Cert.Pre_finite_inputs.S160000 .f32) (a3 : FVec Ideal Cert.Pre_finite_inputs.S128x1000 .f32)
    (a4 : FVec Ideal Cert.Pre_finite_inputs.S1000 .f32) (a5 : FVec Ideal Cert.Pre_finite_inputs.S5x1000x1000 .f32)
    (a6 : FVec Ideal Cert.Pre_finite_inputs.S5x1000 .f32) (a7 : FVec Ideal Cert.Pre_finite_inputs.S1000x256 .f32)
    (a8 : FVec Ideal Cert.Pre_finite_inputs.S256 .f32)
    (h : Cert.Pre_finite_inputs.fn (F := Ideal) a0 a1 a2 a3 a4 a5 a6 a7 a8 = (fun _ => 1#1)) :
    (∀ i, IsReal (a0 i)) ∧ (∀ i, IsReal (a2 i)) ∧ (∀ i, IsReal (a3 i)) ∧ (∀ i, IsReal (a4 i)) ∧ (∀ i, IsReal (a5 i))
      ∧ (∀ i, IsReal (a6 i)) ∧ (∀ i, IsReal (a7 i)) ∧ (∀ i, IsReal (a8 i))
      ∧ (∀ i, ∃ n : Fin 10000, a1 i = BitVec.ofNat 32 n.val) := by
  obtain ⟨r0, r2, r3, r4, r5, r6, r7, r8, ri⟩ := facts_of_pre_range a0 a1 a2 a3 a4 a5 a6 a7 a8 h
  exact ⟨r0, r2, r3, r4, r5, r6, r7, r8, fun i => word_of_range (a1 i) (ri i).1 (ri i).2⟩

end Cert.PreFacts

end
-- ==== Proof.RefTerms.lean ====
/-
  The building blocks of one graph-convolution layer as the reference program spells it, read at an index.

  `convTerm` is the layer after its matrix product M = h · W: every entry e takes M's row at its source node (a gather
  through an index array in which a negative id would have the node count added), multiplies it by the entry's
  coefficient, the products are added up by target node from zero (a scatter-add), and the bias is added to every row.
  At element (i, c) this is  (∑ over the entries e with target i of coefficient e * M (source e, c)) + bias c
  (`convTerm_apply`), which is the specification's `conv` once M is the specification's matrix product
  (`convTerm_spec`). `reluTerm` is the elementwise maximum with zero. `midW_apply` / `midB_apply` read layer l's
  weight matrix and bias out of the stacked middle-layer parameters (a slice on the leading axis, then that unit axis
  dropped).
-/
import proofs.«181230_j19834158973077_2_alg».proof.Proof.Spec
import proofs.«181230_j19834158973077_2_alg».proof.Proof.Norm
import proofs.«181230_j19834158973077_2_alg».proof.Proof.RefOps
import Idealize.ShloMosaic.Lib.Pipeline.Value
import Idealize.ShloMosaic.PureOps.Ideal.Laws

noncomputable section

open scoped BigOperators

namespace Cert.RefRead

open Idealize.ShloMosaic Idealize.ShloMosaic.ValueIdx Cert.Norm Cert.RefOps

/-! ## Argument arrays as functions of their coordinates -/

/-- A rank-2 array as a function of its two coordinates. -/
abbrev mat {m n : Nat} (x : (⟨2, ![m, n]⟩ : Shape).Idx → EReal) : Fin m → Fin n → EReal := fun a b => x (ix2 a b)
/-- A rank-1 array as a function of its coordinate. -/
abbrev vec {n : Nat} (x : (⟨1, ![n]⟩ : Shape).Idx → EReal) : Fin n → EReal := fun a => x (ix1 a)
/-- A rank-3 array as a function of its three coordinates. -/
abbrev ten {l m n : Nat} (x : (⟨3, ![l, m, n]⟩ : Shape).Idx → EReal) : Fin l → Fin m → Fin n → EReal :=
  fun i a b => x (ix3 i a b)

/-! ## Broadcasts read at an index -/

section Broadcasts
variable {α : Type}

/-- A scalar broadcast to any shape reads the scalar. -/
theorem bcastScalar_apply {S : Shape} (h : SScalar.BroadcastsInDim S (![] : Fin 0 → Fin S.rank)) (y : SScalar.Idx → α)
    (j : S.Idx) : broadcastInDim S ![] h y j = y ix0 :=
  broadcastInDim_apply _ h y j ix0 (fun a => a.elim0)

/-- A per-entry vector viewed as a one-column array reads the entry's element. -/
theorem bcastCol_apply (h : SEntries.BroadcastsInDim SEntriesCol (![0] : Fin 1 → Fin SEntriesCol.rank))
    (y : SEntries.Idx → α) (e : Fin 170000) (z : Fin 1) :
    broadcastInDim SEntriesCol ![0] h y (ix2 e z) = y (ix1 e) :=
  broadcastInDim_apply _ h y (ix2 e z) (ix1 e) (fun a => match a with
    | ⟨0, _⟩ => by show e.val = if (170000 : Nat) = 1 then 0 else e.val; rw [if_neg (by decide)])

/-- A one-column array repeated along D columns reads its row's element. -/
theorem bcastWide_apply {D : Nat}
    (h : SEntriesCol.BroadcastsInDim (⟨2, ![170000, D]⟩ : Shape) (![0, 1] : Fin 2 → Fin 2))
    (y : SEntriesCol.Idx → α) (e : Fin 170000) (c : Fin D) :
    broadcastInDim (⟨2, ![170000, D]⟩ : Shape) ![0, 1] h y (ix2 e c) = y (ix2 e ⟨0, Nat.one_pos⟩) :=
  broadcastInDim_apply _ h y (ix2 e c) (ix2 e ⟨0, Nat.one_pos⟩) (fun a => match a with
    | ⟨0, _⟩ => by show e.val = if (170000 : Nat) = 1 then 0 else e.val; rw [if_neg (by decide)]
    | ⟨1, _⟩ => by show 0 = if (1 : Nat) = 1 then 0 else c.val; rw [if_pos rfl])

/-- A bias vector viewed as one row and repeated along the rows reads the column's element. -/
theorem bcastBias_apply {N D : Nat}
    (h1 : (⟨1, ![D]⟩ : Shape).BroadcastsInDim (⟨2, ![1, D]⟩ : Shape) (![1] : Fin 1 → Fin 2))
    (h2 : (⟨2, ![1, D]⟩ : Shape).BroadcastsInDim (⟨2, ![N, D]⟩ : Shape) (![0, 1] : Fin 2 → Fin 2))
    (b : (⟨1, ![D]⟩ : Shape).Idx → α) (i : Fin N) (c : Fin D) :
    broadcastInDim (⟨2, ![N, D]⟩ : Shape) ![0, 1] h2 (broadcastInDim (⟨2, ![1, D]⟩ : Shape) ![1] h1 b) (ix2 i c) = b (ix1 c) := by
  have hc := c.isLt
  rw [broadcastInDim_apply _ h2 _ (ix2 i c) (ix2 (⟨0, Nat.one_pos⟩ : Fin 1) c) (fun a => match a with
    | ⟨0, _⟩ => by show 0 = if (1 : Nat) = 1 then 0 else i.val; rw [if_pos rfl]
    | ⟨1, _⟩ => by show c.val = if D = 1 then 0 else c.val; split <;> omega)]
  exact broadcastInDim_apply _ h1 b (ix2 (⟨0, Nat.one_pos⟩ : Fin 1) c) (ix1 c) (fun a => match a with
    | ⟨0, _⟩ => by show c.val = if D = 1 then 0 else c.val; split <;> omega)

end Broadcasts

/-! ## One layer after its matrix product -/

section Conv
variable {D : Nat}
  (hcol1 : SEntries.BroadcastsInDim SEntriesCol (![0] : Fin 1 → Fin SEntriesCol.rank))
  (hwide : SEntriesCol.BroadcastsInDim (⟨2, ![170000, D]⟩ : Shape) (![0, 1] : Fin 2 → Fin 2))
  (hzero : SScalar.BroadcastsInDim (⟨2, ![10000, D]⟩ : Shape) (![] : Fin 0 → Fin 2))
  (hb1 : (⟨1, ![D]⟩ : Shape).BroadcastsInDim (⟨2, ![1, D]⟩ : Shape) (![1] : Fin 1 → Fin 2))
  (hb2 : (⟨2, ![1, D]⟩ : Shape).BroadcastsInDim (⟨2, ![10000, D]⟩ : Shape) (![0, 1] : Fin 2 → Fin 2))
  (wfg : GatherDims.WF ⟨2, ![10000, D]⟩ ⟨2, ![170000, 1]⟩ ⟨2, ![170000, D]⟩ [1] [0] [] [0] [] 1 ![1, D])
  (wfs : ScatterDims.WF ⟨2, ![10000, D]⟩ ⟨2, ![170000, 1]⟩ ⟨2, ![170000, D]⟩ [1] [0] [0] 1)

/-- The layer after its matrix product `M`: gather by source, scale by coefficient, add up by target, add the bias. -/
def convTerm (M : FVec Ideal ⟨2, ![10000, D]⟩ .f32) (rowA colA : IVec SEntries 32) (nrm : FVec Ideal SEntries .f32)
    (b : FVec Ideal ⟨1, ![D]⟩ .f32) : FVec Ideal ⟨2, ![10000, D]⟩ .f32 :=
  addf
    (Host.scatterAdd (rowScatter 10000 170000 D wfs)
      (broadcastInDim (⟨2, ![10000, D]⟩ : Shape) ![] hzero (constant (F := Ideal) SScalar .f32 0x00000000#32))
      (broadcastInDim SEntriesCol ![0] hcol1 colA)
      (mulf (broadcastInDim (⟨2, ![170000, D]⟩ : Shape) ![0, 1] hwide (broadcastInDim SEntriesCol ![0] hcol1 nrm))
        (Host.gather (rowGather 10000 170000 D wfg) M (broadcastInDim SEntriesCol ![0] hcol1 (wrapIdx rowA)))))
    (broadcastInDim (⟨2, ![10000, D]⟩ : Shape) ![0, 1] hb2 (broadcastInDim (⟨2, ![1, D]⟩ : Shape) ![1] hb1 b))

/-- Element (i, c) of the layer: the sum over the entries with target i of coefficient times M at (source, c), plus
    the bias. -/
theorem convTerm_apply (M : FVec Ideal ⟨2, ![10000, D]⟩ .f32) (rowA colA : IVec SEntries 32)
    (nrm : FVec Ideal SEntries .f32) (b : FVec Ideal ⟨1, ![D]⟩ .f32) (row col : Fin 170000 → Fin 10000)
    (hrow : ∀ e, rowA (ix1 e) = BitVec.ofNat 32 (row e).val) (hcol : ∀ e, colA (ix1 e) = BitVec.ofNat 32 (col e).val)
    (i : Fin 10000) (c : Fin D) :
    convTerm hcol1 hwide hzero hb1 hb2 wfg wfs M rowA colA nrm b (ix2 i c)
      = (∑ e ∈ Finset.univ.filter (fun e => col e = i), nrm (ix1 e) * M (ix2 (row e) c)) + b (ix1 c) := by
  unfold convTerm
  show Host.scatterAdd _ _ _ _ (ix2 i c) + broadcastInDim _ _ hb2 (broadcastInDim _ _ hb1 b) (ix2 i c) = _
  rw [bcastBias_apply hb1 hb2 b i c]
  refine congrArg (· + b (ix1 c)) ?_
  refine rowAggregate_apply (by decide) (by decide) wfg wfs M _ _ _ _ row col (fun e => nrm (ix1 e)) ?_ ?_ ?_ ?_ i c
  · intro e
    rw [bcastCol_apply hcol1]
    exact wrapIdx_apply rowA (ix1 e) _ (row e).isLt (hrow e)
  · intro e
    rw [bcastCol_apply hcol1]
    exact hcol e
  · intro e c'
    rw [bcastWide_apply hwide, bcastCol_apply hcol1]
  · intro i' c'
    rw [bcastScalar_apply hzero]
    exact Ideal.ofBits_zero_f32

/-- With `M` the product h · W and the coefficients `w`, the layer is the specification's convolution. -/
theorem convTerm_spec {K : Nat} (M : FVec Ideal ⟨2, ![10000, D]⟩ .f32) (rowA colA : IVec SEntries 32)
    (nrm : FVec Ideal SEntries .f32) (b : FVec Ideal ⟨1, ![D]⟩ .f32) (row col : Fin 170000 → Fin 10000)
    (hrow : ∀ e, rowA (ix1 e) = BitVec.ofNat 32 (row e).val) (hcol : ∀ e, colA (ix1 e) = BitVec.ofNat 32 (col e).val)
    (w : Fin 170000 → EReal) (hw : ∀ e, nrm (ix1 e) = w e)
    (h : Fin 10000 → Fin K → EReal) (W : Fin K → Fin D → EReal)
    (hM : ∀ p c, M (ix2 p c) = Cert.Spec.matMul h W p c) (i : Fin 10000) (c : Fin D) :
    convTerm hcol1 hwide hzero hb1 hb2 wfg wfs M rowA colA nrm b (ix2 i c) = Cert.Spec.conv row col w h W (vec b) i c := by
  rw [convTerm_apply hcol1 hwide hzero hb1 hb2 wfg wfs M rowA colA nrm b row col hrow hcol i c]
  unfold Cert.Spec.conv Cert.Spec.agg
  refine congrArg (· + b (ix1 c)) (Finset.sum_congr rfl fun e _ => ?_)
  rw [hw e, hM]

/-- The elementwise maximum with zero. -/
def reluTerm (X : FVec Ideal ⟨2, ![10000, D]⟩ .f32) : FVec Ideal ⟨2, ![10000, D]⟩ .f32 :=
  maximumf X (broadcastInDim (⟨2, ![10000, D]⟩ : Shape) ![] hzero (constant (F := Ideal) SScalar .f32 0x00000000#32))

theorem reluTerm_apply (X : FVec Ideal ⟨2, ![10000, D]⟩ .f32) (i : Fin 10000) (c : Fin D) :
    reluTerm hzero X (ix2 i c) = Cert.Spec.relu (X (ix2 i c)) := by
  unfold reluTerm Cert.Spec.relu
  show max (X (ix2 i c)) (broadcastInDim _ _ hzero _ (ix2 i c)) = _
  rw [bcastScalar_apply hzero]
  exact congrArg (max (X (ix2 i c))) Ideal.ofBits_zero_f32

end Conv

/-! ## The stacked middle-layer parameters read at an index -/

section Mid

abbrev SMidW : Shape := ⟨3, ![5, 1000, 1000]⟩
abbrev SMidW1 : Shape := ⟨3, ![1, 1000, 1000]⟩
abbrev SHid2 : Shape := ⟨2, ![1000, 1000]⟩
abbrev SMidB : Shape := ⟨2, ![5, 1000]⟩
abbrev SMidB1 : Shape := ⟨2, ![1, 1000]⟩
abbrev SHid1 : Shape := ⟨1, ![1000]⟩

/-- Layer l's weight matrix: the slice at l on the leading axis, that unit axis dropped. -/
theorem midW_apply {α : Type} (l : Fin 5) (off : Fin SMidW.rank → Nat) (hs : SMidW.Slices off SMidW1)
    (hc : SMidW1.ShapeCasts SHid2) (h0 : off 0 = l.val) (h1 : off 1 = 0) (h2 : off 2 = 0)
    (x : SMidW.Idx → α) (k c : Fin 1000) :
    shapeCast SHid2 (extractStridedSlice SMidW1 off x hs) hc (ix2 k c) = x (ix3 l k c) := by
  have hk := k.isLt
  have hcl := c.isLt
  rw [shapeCast_apply _ hc (ix2 k c) (ix3 (⟨0, Nat.one_pos⟩ : Fin 1) k c)
    (by rewrite [Shape.rowMajor_val_three, Shape.rowMajor_val_two]; show (0 * 1000 + k.val) * 1000 + c.val = k.val * 1000 + c.val; omega)]
  exact extractStridedSlice_apply off x hs _ (ix3 l k c) (fun a => match a with
    | ⟨0, _⟩ => by show l.val = off 0 + 0; omega
    | ⟨1, _⟩ => by show k.val = off 1 + k.val; omega
    | ⟨2, _⟩ => by show c.val = off 2 + c.val; omega)

/-- Layer l's bias: the slice at l on the leading axis, that unit axis dropped. -/
theorem midB_apply {α : Type} (l : Fin 5) (off : Fin SMidB.rank → Nat) (hs : SMidB.Slices off SMidB1)
    (hc : SMidB1.ShapeCasts SHid1) (h0 : off 0 = l.val) (h1 : off 1 = 0)
    (x : SMidB.Idx → α) (c : Fin 1000) :
    shapeCast SHid1 (extractStridedSlice SMidB1 off x hs) hc (ix1 c) = x (ix2 l c) := by
  have hcl := c.isLt
  rw [shapeCast_apply _ hc (ix1 c) (ix2 (⟨0, Nat.one_pos⟩ : Fin 1) c)
    (by rewrite [Shape.rowMajor_val_two, Shape.rowMajor_val_one]; show 0 * 1000 + c.val = c.val; omega)]
  exact extractStridedSlice_apply off x hs _ (ix2 l c) (fun a => match a with
    | ⟨0, _⟩ => by show l.val = off 0 + 0; omega
    | ⟨1, _⟩ => by show c.val = off 1 + c.val; omega)

end Mid

end Cert.RefRead

end
-- ==== Proof.RefRead.lean ====
/-
  The reference program's result, element by element, is the specification's network.

  The generated read module names every operation's value as a stage. Each of the seven layers is, after its matrix
  product, the composed term `convTerm` of the stages it reads (by unfolding the stages' definitions), and the first
  six are followed by the maximum with zero, `reluTerm`. The source and target index arrays hold the entries'
  endpoints as numbers (`row3`, `col6`, from the index-range hypothesis), the coefficient array is the shared
  normalisation term, and a matrix product read at an index is the sum over the contracted axis. Layer by layer the
  stage's element is the specification's: `hid0` … `hid5`, then `ref_result_weight` for the last layer, which has no
  maximum.
-/
import proofs.«181230_j19834158973077_2_alg».proof.Proof.RefImports
import proofs.«181230_j19834158973077_2_alg».proof.Proof.RefTerms

noncomputable section

open scoped BigOperators

namespace Cert.RefRead

open Cert.ReferenceIdeal Cert.ReferenceIdeal.Gen Cert.ReferenceIdeal.Read
open Idealize.ShloMosaic Idealize.ShloMosaic.ValueIdx Cert.Norm Cert.RefOps

section
variable (x0 : FVec Ideal S10000x128 .f32) (x1 : IVec S2x160000 32) (x2 : FVec Ideal S160000 .f32)
  (x3 : FVec Ideal S128x1000 .f32) (x4 : FVec Ideal S1000 .f32) (x5 : FVec Ideal S5x1000x1000 .f32)
  (x6 : FVec Ideal S5x1000 .f32) (x7 : FVec Ideal S1000x256 .f32) (x8 : FVec Ideal S256 .f32)

/-! ## The shared prefix: endpoints and coefficients -/

theorem row_eq : val_main_v3 (F := Ideal) x1 = rowArr x1 := rfl
theorem col_eq : val_main_v6 (F := Ideal) x1 = colArr x1 := rfl
theorem norm_eq : val_main_v31 (F := Ideal) x1 x2 = normOf x1 x2 := rfl

theorem row3 (hin : InRange x1) (e : Fin 170000) :
    val_main_v3 (F := Ideal) x1 (ix1 e) = BitVec.ofNat 32 (rowOf x1 e).val := by
  rw [row_eq]; exact rowArr_apply x1 hin e

theorem col6 (hin : InRange x1) (e : Fin 170000) :
    val_main_v6 (F := Ideal) x1 (ix1 e) = BitVec.ofNat 32 (colOf x1 e).val := by
  rw [col_eq]; exact colArr_apply x1 hin e

theorem w31 (e : Fin 170000) : val_main_v31 (F := Ideal) x1 x2 (ix1 e) = weightOf x1 x2 e := by
  rw [norm_eq]; rfl

/-! ## The layers -/

/-! ### The first layer -/

/-- Its matrix product is the specification's product of the features and the first weight matrix. -/
theorem dot_first (p : Fin 10000) (c : Fin 1000) :
    val_main_v32 (F := Ideal) x0 x3 (ix2 p c) = Cert.Spec.matMul (mat x0) (mat x3) p c := by
  rw [val_main_v32_apply]
  unfold Cert.Spec.matMul
  refine Finset.sum_congr rfl fun k _ => ?_
  have el : lidx_main_v32 (ix2 p c) k = ix2 p k := funext fun a => by match a with | ⟨0, _⟩ => rfl | ⟨1, _⟩ => rfl
  have er : ridx_main_v32 (ix2 p c) k = ix2 k c := funext fun a => by match a with | ⟨0, _⟩ => rfl | ⟨1, _⟩ => rfl
  rw [el, er]

theorem pre_term0 : val_main_v48 (F := Ideal) x0 x1 x2 x3 x4
    = convTerm bcast_S170000_S170000x1_0 bcast_S170000x1_S170000x1000_0_1 bcast_S_S10000x1000 bcast_S1000_S1x1000_1 bcast_S1x1000_S10000x1000_0_1
      gather_S10000x1000_S170000x1_S170000x1000_1_0_n_n_0_1_11000_wf scatter_S10000x1000_S170000x1_S170000x1000_1_0_0_1_wf
      (val_main_v32 (F := Ideal) x0 x3) (val_main_v3 (F := Ideal) x1) (val_main_v6 (F := Ideal) x1)
      (val_main_v31 (F := Ideal) x1 x2) x4 := rfl

theorem hid_term0 : val_main_v49 (F := Ideal) x0 x1 x2 x3 x4
    = reluTerm bcast_S_S10000x1000 (val_main_v48 (F := Ideal) x0 x1 x2 x3 x4) := rfl

/-- Its activations are the specification's hidden activations 0. -/
theorem hid0 (hin : InRange x1) (i : Fin 10000) (c : Fin 1000) :
    val_main_v49 (F := Ideal) x0 x1 x2 x3 x4 (ix2 i c) = Cert.Spec.refHidden (rowOf x1) (colOf x1) (weightOf x1 x2) (mat x0) (mat x3) (vec x4) (ten x5) (mat x6) 0 i c := by
  rw [Cert.Spec.refHidden_zero, hid_term0, reluTerm_apply, pre_term0]
  unfold Cert.Spec.reluConv Cert.Spec.reluAll
  refine congrArg Cert.Spec.relu ?_
  exact convTerm_spec _ _ _ _ _ _ _ _ _ _ _ _ (rowOf x1) (colOf x1) (row3 x1 hin) (col6 x1 hin) (weightOf x1 x2) (w31 x1 x2)
    _ _ (dot_first x0 x3) i c

/-! ### The second layer (middle parameters 0) -/

/-- Its matrix product is the specification's product of the previous hidden activations and weight matrix 0. -/
theorem dot_mid0 (hin : InRange x1) (p : Fin 10000) (c : Fin 1000) :
    val_main_v54 (F := Ideal) x0 x1 x2 x3 x4 x5 (ix2 p c)
      = Cert.Spec.matMul (Cert.Spec.refHidden (rowOf x1) (colOf x1) (weightOf x1 x2) (mat x0) (mat x3) (vec x4) (ten x5) (mat x6) 0) (ten x5 ⟨0, by decide⟩) p c := by
  rw [val_main_v54_apply]
  unfold Cert.Spec.matMul
  refine Finset.sum_congr rfl fun k _ => ?_
  have el : lidx_main_v54 (ix2 p c) k = ix2 p k := funext fun a => by match a with | ⟨0, _⟩ => rfl | ⟨1, _⟩ => rfl
  have er : ridx_main_v54 (ix2 p c) k = ix2 k c := funext fun a => by match a with | ⟨0, _⟩ => rfl | ⟨1, _⟩ => rfl
  have hW : val_main_v51 (F := Ideal) x5 (ix2 k c) = ten x5 ⟨0, by decide⟩ k c :=
    midW_apply ⟨0, by decide⟩ ![0, 0, 0] _ _ rfl rfl rfl x5 k c
  rw [el, er, hid0 x0 x1 x2 x3 x4 x5 x6 hin p k, hW]

theorem pre_term1 : val_main_v70 (F := Ideal) x0 x1 x2 x3 x4 x5 x6
    = convTerm bcast_S170000_S170000x1_0 bcast_S170000x1_S170000x1000_0_1 bcast_S_S10000x1000 bcast_S1000_S1x1000_1 bcast_S1x1000_S10000x1000_0_1
      gather_S10000x1000_S170000x1_S170000x1000_1_0_n_n_0_1_11000_wf scatter_S10000x1000_S170000x1_S170000x1000_1_0_0_1_wf
      (val_main_v54 (F := Ideal) x0 x1 x2 x3 x4 x5) (val_main_v3 (F := Ideal) x1) (val_main_v6 (F := Ideal) x1)
      (val_main_v31 (F := Ideal) x1 x2) (val_main_v53 (F := Ideal) x6) := rfl

theorem hid_term1 : val_main_v71 (F := Ideal) x0 x1 x2 x3 x4 x5 x6
    = reluTerm bcast_S_S10000x1000 (val_main_v70 (F := Ideal) x0 x1 x2 x3 x4 x5 x6) := rfl

/-- Its activations are the specification's hidden activations 1. -/
theorem hid1 (hin : InRange x1) (i : Fin 10000) (c : Fin 1000) :
    val_main_v71 (F := Ideal) x0 x1 x2 x3 x4 x5 x6 (ix2 i c) = Cert.Spec.refHidden (rowOf x1) (colOf x1) (weightOf x1 x2) (mat x0) (mat x3) (vec x4) (ten x5) (mat x6) 1 i c := by
  show _ = Cert.Spec.refHidden (rowOf x1) (colOf x1) (weightOf x1 x2) (mat x0) (mat x3) (vec x4) (ten x5) (mat x6) (0 + 1) i c
  rw [Cert.Spec.refHidden_succ _ _ _ _ _ _ _ _ 0 (by decide), hid_term1, reluTerm_apply, pre_term1]
  unfold Cert.Spec.reluConv Cert.Spec.reluAll
  refine congrArg Cert.Spec.relu ?_
  refine (convTerm_spec _ _ _ _ _ _ _ _ _ _ _ _ (rowOf x1) (colOf x1) (row3 x1 hin) (col6 x1 hin) (weightOf x1 x2) (w31 x1 x2)
    _ _ (dot_mid0 x0 x1 x2 x3 x4 x5 x6 hin) i c).trans ?_
  have hB : vec (val_main_v53 (F := Ideal) x6) = mat x6 ⟨0, by decide⟩ :=
    funext fun c' => midB_apply ⟨0, by decide⟩ ![0, 0] _ _ rfl rfl x6 c'
  rw [hB]

/-! ### The third layer (middle parameters 1) -/

/-- Its matrix product is the specification's product of the previous hidden activations and weight matrix 1. -/
theorem dot_mid1 (hin : InRange x1) (p : Fin 10000) (c : Fin 1000) :
    val_main_v76 (F := Ideal) x0 x1 x2 x3 x4 x5 x6 (ix2 p c)
      = Cert.Spec.matMul (Cert.Spec.refHidden (rowOf x1) (colOf x1) (weightOf x1 x2) (mat x0) (mat x3) (vec x4) (ten x5) (mat x6) 1) (ten x5 ⟨1, by decide⟩) p c := by
  rw [val_main_v76_apply]
  unfold Cert.Spec.matMul
  refine Finset.sum_congr rfl fun k _ => ?_
  have el : lidx_main_v76 (ix2 p c) k = ix2 p k := funext fun a => by match a with | ⟨0, _⟩ => rfl | ⟨1, _⟩ => rfl
  have er : ridx_main_v76 (ix2 p c) k = ix2 k c := funext fun a => by match a with | ⟨0, _⟩ => rfl | ⟨1, _⟩ => rfl
  have hW : val_main_v73 (F := Ideal) x5 (ix2 k c) = ten x5 ⟨1, by decide⟩ k c :=
    midW_apply ⟨1, by decide⟩ ![1, 0, 0] _ _ rfl rfl rfl x5 k c
  rw [el, er, hid1 x0 x1 x2 x3 x4 x5 x6 hin p k, hW]

theorem pre_term2 : val_main_v92 (F := Ideal) x0 x1 x2 x3 x4 x5 x6
    = convTerm bcast_S170000_S170000x1_0 bcast_S170000x1_S170000x1000_0_1 bcast_S_S10000x1000 bcast_S1000_S1x1000_1 bcast_S1x1000_S10000x1000_0_1
      gather_S10000x1000_S170000x1_S170000x1000_1_0_n_n_0_1_11000_wf scatter_S10000x1000_S170000x1_S170000x1000_1_0_0_1_wf
      (val_main_v76 (F := Ideal) x0 x1 x2 x3 x4 x5 x6) (val_main_v3 (F := Ideal) x1) (val_main_v6 (F := Ideal) x1)
      (val_main_v31 (F := Ideal) x1 x2) (val_main_v75 (F := Ideal) x6) := rfl

theorem hid_term2 : val_main_v93 (F := Ideal) x0 x1 x2 x3 x4 x5 x6
    = reluTerm bcast_S_S10000x1000 (val_main_v92 (F := Ideal) x0 x1 x2 x3 x4 x5 x6) := rfl

/-- Its activations are the specification's hidden activations 2. -/
theorem hid2 (hin : InRange x1) (i : Fin 10000) (c : Fin 1000) :
    val_main_v93 (F := Ideal) x0 x1 x2 x3 x4 x5 x6 (ix2 i c) = Cert.Spec.refHidden (rowOf x1) (colOf x1) (weightOf x1 x2) (mat x0) (mat x3) (vec x4) (ten x5) (mat x6) 2 i c := by
  show _ = Cert.Spec.refHidden (rowOf x1) (colOf x1) (weightOf x1 x2) (mat x0) (mat x3) (vec x4) (ten x5) (mat x6) (1 + 1) i c
  rw [Cert.Spec.refHidden_succ _ _ _ _ _ _ _ _ 1 (by decide), hid_term2, reluTerm_apply, pre_term2]
  unfold Cert.Spec.reluConv Cert.Spec.reluAll
  refine congrArg Cert.Spec.relu ?_
  refine (convTerm_spec _ _ _ _ _ _ _ _ _ _ _ _ (rowOf x1) (colOf x1) (row3 x1 hin) (col6 x1 hin) (weightOf x1 x2) (w31 x1 x2)
    _ _ (dot_mid1 x0 x1 x2 x3 x4 x5 x6 hin) i c).trans ?_
  have hB : vec (val_main_v75 (F := Ideal) x6) = mat x6 ⟨1, by decide⟩ :=
    funext fun c' => midB_apply ⟨1, by decide⟩ ![1, 0] _ _ rfl rfl x6 c'
  rw [hB]

/-! ### The fourth layer (middle parameters 2) -/

/-- Its matrix product is the specification's product of the previous hidden activations and weight matrix 2. -/
theorem dot_mid2 (hin : InRange x1) (p : Fin 10000) (c : Fin 1000) :
    val_main_v98 (F := Ideal) x0 x1 x2 x3 x4 x5 x6 (ix2 p c)
      = Cert.Spec.matMul (Cert.Spec.refHidden (rowOf x1) (colOf x1) (weightOf x1 x2) (mat x0) (mat x3) (vec x4) (ten x5) (mat x6) 2) (ten x5 ⟨2, by decide⟩) p c := by
  rw [val_main_v98_apply]
  unfold Cert.Spec.matMul
  refine Finset.sum_congr rfl fun k _ => ?_
  have el : lidx_main_v98 (ix2 p c) k = ix2 p k := funext fun a => by match a with | ⟨0, _⟩ => rfl | ⟨1, _⟩ => rfl
  have er : ridx_main_v98 (ix2 p c) k = ix2 k c := funext fun a => by match a with | ⟨0, _⟩ => rfl | ⟨1, _⟩ => rfl
  have hW : val_main_v95 (F := Ideal) x5 (ix2 k c) = ten x5 ⟨2, by decide⟩ k c :=
    midW_apply ⟨2, by decide⟩ ![2, 0, 0] _ _ rfl rfl rfl x5 k c
  rw [el, er, hid2 x0 x1 x2 x3 x4 x5 x6 hin p k, hW]

theorem pre_term3 : val_main_v114 (F := Ideal) x0 x1 x2 x3 x4 x5 x6
    = convTerm bcast_S170000_S170000x1_0 bcast_S170000x1_S170000x1000_0_1 bcast_S_S10000x1000 bcast_S1000_S1x1000_1 bcast_S1x1000_S10000x1000_0_1
      gather_S10000x1000_S170000x1_S170000x1000_1_0_n_n_0_1_11000_wf scatter_S10000x1000_S170000x1_S170000x1000_1_0_0_1_wf
      (val_main_v98 (F := Ideal) x0 x1 x2 x3 x4 x5 x6) (val_main_v3 (F := Ideal) x1) (val_main_v6 (F := Ideal) x1)
      (val_main_v31 (F := Ideal) x1 x2) (val_main_v97 (F := Ideal) x6) := rfl

theorem hid_term3 : val_main_v115 (F := Ideal) x0 x1 x2 x3 x4 x5 x6
    = reluTerm bcast_S_S10000x1000 (val_main_v114 (F := Ideal) x0 x1 x2 x3 x4 x5 x6) := rfl

/-- Its activations are the specification's hidden activations 3. -/
theorem hid3 (hin : InRange x1) (i : Fin 10000) (c : Fin 1000) :
    val_main_v115 (F := Ideal) x0 x1 x2 x3 x4 x5 x6 (ix2 i c) = Cert.Spec.refHidden (rowOf x1) (colOf x1) (weightOf x1 x2) (mat x0) (mat x3) (vec x4) (ten x5) (mat x6) 3 i c := by
  show _ = Cert.Spec.refHidden (rowOf x1) (colOf x1) (weightOf x1 x2) (mat x0) (mat x3) (vec x4) (ten x5) (mat x6) (2 + 1) i c
  rw [Cert.Spec.refHidden_succ _ _ _ _ _ _ _ _ 2 (by decide), hid_term3, reluTerm_apply, pre_term3]
  unfold Cert.Spec.reluConv Cert.Spec.reluAll
  refine congrArg Cert.Spec.relu ?_
  refine (convTerm_spec _ _ _ _ _ _ _ _ _ _ _ _ (rowOf x1) (colOf x1) (row3 x1 hin) (col6 x1 hin) (weightOf x1 x2) (w31 x1 x2)
    _ _ (dot_mid2 x0 x1 x2 x3 x4 x5 x6 hin) i c).trans ?_
  have hB : vec (val_main_v97 (F := Ideal) x6) = mat x6 ⟨2, by decide⟩ :=
    funext fun c' => midB_apply ⟨2, by decide⟩ ![2, 0] _ _ rfl rfl x6 c'
  rw [hB]

/-! ### The fifth layer (middle parameters 3) -/

/-- Its matrix product is the specification's product of the previous hidden activations and weight matrix 3. -/
theorem dot_mid3 (hin : InRange x1) (p : Fin 10000) (c : Fin 1000) :
    val_main_v120 (F := Ideal) x0 x1 x2 x3 x4 x5 x6 (ix2 p c)
      = Cert.Spec.matMul (Cert.Spec.refHidden (rowOf x1) (colOf x1) (weightOf x1 x2) (mat x0) (mat x3) (vec x4) (ten x5) (mat x6) 3) (ten x5 ⟨3, by decide⟩) p c := by
  rw [val_main_v120_apply]
  unfold Cert.Spec.matMul
  refine Finset.sum_congr rfl fun k _ => ?_
  have el : lidx_main_v120 (ix2 p c) k = ix2 p k := funext fun a => by match a with | ⟨0, _⟩ => rfl | ⟨1, _⟩ => rfl
  have er : ridx_main_v120 (ix2 p c) k = ix2 k c := funext fun a => by match a with | ⟨0, _⟩ => rfl | ⟨1, _⟩ => rfl
  have hW : val_main_v117 (F := Ideal) x5 (ix2 k c) = ten x5 ⟨3, by decide⟩ k c :=
    midW_apply ⟨3, by decide⟩ ![3, 0, 0] _ _ rfl rfl rfl x5 k c
  rw [el, er, hid3 x0 x1 x2 x3 x4 x5 x6 hin p k, hW]

theorem pre_term4 : val_main_v136 (F := Ideal) x0 x1 x2 x3 x4 x5 x6
    = convTerm bcast_S170000_S170000x1_0 bcast_S170000x1_S170000x1000_0_1 bcast_S_S10000x1000 bcast_S1000_S1x1000_1 bcast_S1x1000_S10000x1000_0_1
      gather_S10000x1000_S170000x1_S170000x1000_1_0_n_n_0_1_11000_wf scatter_S10000x1000_S170000x1_S170000x1000_1_0_0_1_wf
      (val_main_v120 (F := Ideal) x0 x1 x2 x3 x4 x5 x6) (val_main_v3 (F := Ideal) x1) (val_main_v6 (F := Ideal) x1)
      (val_main_v31 (F := Ideal) x1 x2) (val_main_v119 (F := Ideal) x6) := rfl

theorem hid_term4 : val_main_v137 (F := Ideal) x0 x1 x2 x3 x4 x5 x6
    = reluTerm bcast_S_S10000x1000 (val_main_v136 (F := Ideal) x0 x1 x2 x3 x4 x5 x6) := rfl

/-- Its activations are the specification's hidden activations 4. -/
theorem hid4 (hin : InRange x1) (i : Fin 10000) (c : Fin 1000) :
    val_main_v137 (F := Ideal) x0 x1 x2 x3 x4 x5 x6 (ix2 i c) = Cert.Spec.refHidden (rowOf x1) (colOf x1) (weightOf x1 x2) (mat x0) (mat x3) (vec x4) (ten x5) (mat x6) 4 i c := by
  show _ = Cert.Spec.refHidden (rowOf x1) (colOf x1) (weightOf x1 x2) (mat x0) (mat x3) (vec x4) (ten x5) (mat x6) (3 + 1) i c
  rw [Cert.Spec.refHidden_succ _ _ _ _ _ _ _ _ 3 (by decide), hid_term4, reluTerm_apply, pre_term4]
  unfold Cert.Spec.reluConv Cert.Spec.reluAll
  refine congrArg Cert.Spec.relu ?_
  refine (convTerm_spec _ _ _ _ _ _ _ _ _ _ _ _ (rowOf x1) (colOf x1) (row3 x1 hin) (col6 x1 hin) (weightOf x1 x2) (w31 x1 x2)
    _ _ (dot_mid3 x0 x1 x2 x3 x4 x5 x6 hin) i c).trans ?_
  have hB : vec (val_main_v119 (F := Ideal) x6) = mat x6 ⟨3, by decide⟩ :=
    funext fun c' => midB_apply ⟨3, by decide⟩ ![3, 0] _ _ rfl rfl x6 c'
  rw [hB]

/-! ### The sixth layer (middle parameters 4) -/

/-- Its matrix product is the specification's product of the previous hidden activations and weight matrix 4. -/
theorem dot_mid4 (hin : InRange x1) (p : Fin 10000) (c : Fin 1000) :
    val_main_v142 (F := Ideal) x0 x1 x2 x3 x4 x5 x6 (ix2 p c)
      = Cert.Spec.matMul (Cert.Spec.refHidden (rowOf x1) (colOf x1) (weightOf x1 x2) (mat x0) (mat x3) (vec x4) (ten x5) (mat x6) 4) (ten x5 ⟨4, by decide⟩) p c := by
  rw [val_main_v142_apply]
  unfold Cert.Spec.matMul
  refine Finset.sum_congr rfl fun k _ => ?_
  have el : lidx_main_v142 (ix2 p c) k = ix2 p k := funext fun a => by match a with | ⟨0, _⟩ => rfl | ⟨1, _⟩ => rfl
  have er : ridx_main_v142 (ix2 p c) k = ix2 k c := funext fun a => by match a with | ⟨0, _⟩ => rfl | ⟨1, _⟩ => rfl
  have hW : val_main_v139 (F := Ideal) x5 (ix2 k c) = ten x5 ⟨4, by decide⟩ k c :=
    midW_apply ⟨4, by decide⟩ ![4, 0, 0] _ _ rfl rfl rfl x5 k c
  rw [el, er, hid4 x0 x1 x2 x3 x4 x5 x6 hin p k, hW]

theorem pre_term5 : val_main_v158 (F := Ideal) x0 x1 x2 x3 x4 x5 x6
    = convTerm bcast_S170000_S170000x1_0 bcast_S170000x1_S170000x1000_0_1 bcast_S_S10000x1000 bcast_S1000_S1x1000_1 bcast_S1x1000_S10000x1000_0_1
      gather_S10000x1000_S170000x1_S170000x1000_1_0_n_n_0_1_11000_wf scatter_S10000x1000_S170000x1_S170000x1000_1_0_0_1_wf
      (val_main_v142 (F := Ideal) x0 x1 x2 x3 x4 x5 x6) (val_main_v3 (F := Ideal) x1) (val_main_v6 (F := Ideal) x1)
      (val_main_v31 (F := Ideal) x1 x2) (val_main_v141 (F := Ideal) x6) := rfl

theorem hid_term5 : val_main_v159 (F := Ideal) x0 x1 x2 x3 x4 x5 x6
    = reluTerm bcast_S_S10000x1000 (val_main_v158 (F := Ideal) x0 x1 x2 x3 x4 x5 x6) := rfl

/-- Its activations are the specification's hidden activations 5. -/
theorem hid5 (hin : InRange x1) (i : Fin 10000) (c : Fin 1000) :
    val_main_v159 (F := Ideal) x0 x1 x2 x3 x4 x5 x6 (ix2 i c) = Cert.Spec.refHidden (rowOf x1) (colOf x1) (weightOf x1 x2) (mat x0) (mat x3) (vec x4) (ten x5) (mat x6) 5 i c := by
  show _ = Cert.Spec.refHidden (rowOf x1) (colOf x1) (weightOf x1 x2) (mat x0) (mat x3) (vec x4) (ten x5) (mat x6) (4 + 1) i c
  rw [Cert.Spec.refHidden_succ _ _ _ _ _ _ _ _ 4 (by decide), hid_term5, reluTerm_apply, pre_term5]
  unfold Cert.Spec.reluConv Cert.Spec.reluAll
  refine congrArg Cert.Spec.relu ?_
  refine (convTerm_spec _ _ _ _ _ _ _ _ _ _ _ _ (rowOf x1) (colOf x1) (row3 x1 hin) (col6 x1 hin) (weightOf x1 x2) (w31 x1 x2)
    _ _ (dot_mid4 x0 x1 x2 x3 x4 x5 x6 hin) i c).trans ?_
  have hB : vec (val_main_v141 (F := Ideal) x6) = mat x6 ⟨4, by decide⟩ :=
    funext fun c' => midB_apply ⟨4, by decide⟩ ![4, 0] _ _ rfl rfl x6 c'
  rw [hB]

/-! ### The last layer -/

/-- Its matrix product is the specification's product of hidden activations 5 and the last weight matrix. -/
theorem dot_last (hin : InRange x1) (p : Fin 10000) (q : Fin 256) :
    val_main_v160 (F := Ideal) x0 x1 x2 x3 x4 x5 x6 x7 (ix2 p q)
      = Cert.Spec.matMul (Cert.Spec.refHidden (rowOf x1) (colOf x1) (weightOf x1 x2) (mat x0) (mat x3) (vec x4) (ten x5) (mat x6) 5) (mat x7) p q := by
  rw [val_main_v160_apply]
  unfold Cert.Spec.matMul
  refine Finset.sum_congr rfl fun k _ => ?_
  have el : lidx_main_v160 (ix2 p q) k = ix2 p k := funext fun a => by match a with | ⟨0, _⟩ => rfl | ⟨1, _⟩ => rfl
  have er : ridx_main_v160 (ix2 p q) k = ix2 k q := funext fun a => by match a with | ⟨0, _⟩ => rfl | ⟨1, _⟩ => rfl
  rw [el, er, hid5 x0 x1 x2 x3 x4 x5 x6 hin p k]

theorem pre_term6 : val_main_v176 (F := Ideal) x0 x1 x2 x3 x4 x5 x6 x7 x8
    = convTerm bcast_S170000_S170000x1_0 bcast_S170000x1_S170000x256_0_1 bcast_S_S10000x256 bcast_S256_S1x256_1 bcast_S1x256_S10000x256_0_1
      gather_S10000x256_S170000x1_S170000x256_1_0_n_n_0_1_1256_wf scatter_S10000x256_S170000x1_S170000x256_1_0_0_1_wf
      (val_main_v160 (F := Ideal) x0 x1 x2 x3 x4 x5 x6 x7) (val_main_v3 (F := Ideal) x1) (val_main_v6 (F := Ideal) x1)
      (val_main_v31 (F := Ideal) x1 x2) x8 := rfl

/-- THE REFERENCE'S RESULT at (p, q) is the specification's network over the entries' endpoints, the shared
    normalisation term as the coefficients, and the argument arrays read by their coordinates. -/
theorem ref_result_weight (hin : InRange x1) (p : Fin 10000) (q : Fin 256) :
    val_main_v176 (F := Ideal) x0 x1 x2 x3 x4 x5 x6 x7 x8 (ix2 p q)
      = Cert.Spec.refNet (rowOf x1) (colOf x1) (weightOf x1 x2) (mat x0) (mat x3) (vec x4) (ten x5) (mat x6) (mat x7) (vec x8) p q := by
  rw [pre_term6]
  unfold Cert.Spec.refNet
  exact convTerm_spec _ _ _ _ _ _ _ _ _ _ _ _ (rowOf x1) (colOf x1) (row3 x1 hin) (col6 x1 hin) (weightOf x1 x2) (w31 x1 x2)
    _ _ (dot_last x0 x1 x2 x3 x4 x5 x6 x7 hin) p q

end

end Cert.RefRead

end
-- ==== Proof.RefOpsVec.lean ====
/-
  The one-element-per-entry forms of the two indexed host operations, read at an index.

  * A gather of single elements: operand [N], one start index per result element held in an [E, 1] integer array;
    result element e is the operand at that start index, read signed and clamped into [0, N - 1].
  * A scatter-add of single elements: operand [N], one target per update held in an [E, 1] integer array, updates
    [E]; at the extended reals, result element i is the operand's element plus the sum of the updates e whose
    target, read signed, is i.
-/
import Idealize.ShloMosaic.PureOps
import Idealize.ShloMosaic.Lib.ValueIdx

noncomputable section

open scoped BigOperators

namespace Cert.RefOps

open Idealize.ShloMosaic Idealize.ShloMosaic.ValueIdx

/-- A rank-1 index set is its coordinate's range … -/
def idxEquiv1 {n : Nat} : (⟨1, ![n]⟩ : Shape).Idx ≃ Fin n where
  toFun i := i 0
  invFun a := ix1 a
  left_inv i := (eq_ix1 i).symm
  right_inv _ := rfl

/-- … so a sum over it is the sum over the coordinate. -/
theorem sum_idx1 {M : Type*} [AddCommMonoid M] {n : Nat} (f : (⟨1, ![n]⟩ : Shape).Idx → M) :
    ∑ i, f i = ∑ a : Fin n, f (ix1 a) :=
  (Equiv.sum_comp (idxEquiv1 (n := n)).symm f).symm

/-! ## Gather of elements -/

section GatherVec
variable {α : Type}

abbrev vecGather (N E : Nat)
    (wf : GatherDims.WF ⟨1, ![N]⟩ ⟨2, ![E, 1]⟩ ⟨1, ![E]⟩ [] [0] [] [0] [] 1 ![1]) :
    GatherDims ⟨1, ![N]⟩ ⟨2, ![E, 1]⟩ ⟨1, ![E]⟩ where
  offsetDims := []
  collapsedSliceDims := [0]
  operandBatchingDims := []
  startIndicesBatchingDims := []
  startIndexMap := [0]
  indexVectorDim := 1
  sliceSizes := ![1]
  wf := wf

/-- Result element e is the operand at e's start index, read signed and clamped. -/
theorem vecGather_apply {N E w : Nat} (hN : 0 < N)
    (wf : GatherDims.WF ⟨1, ![N]⟩ ⟨2, ![E, 1]⟩ ⟨1, ![E]⟩ [] [0] [] [0] [] 1 ![1])
    (x : (⟨1, ![N]⟩ : Shape).Idx → α) (idx : IVec ⟨2, ![E, 1]⟩ w) (e : Fin E) :
    Host.gather (vecGather N E wf) x idx (ix1 e)
      = x (ix1 ⟨min (idx (ix2 e ⟨0, Nat.one_pos⟩)).toInt.toNat (N - 1), by omega⟩) := by
  unfold Host.gather
  congr 1
  funext a
  obtain rfl : a = 0 := Subsingleton.elim _ _
  refine Fin.ext ?_
  show (vecGather N E wf).start (ix1 e) idx 0 + (vecGather N E wf).batchCoord (ix1 e) 0 + (vecGather N E wf).offCoord (ix1 e) 0 = _
  rw [GatherDims.batchCoord_eq_zero _ _ _ List.not_mem_nil,
    GatherDims.offCoord_eq_zero _ _ _ (fun h => ((GatherDims.mem_sKept _ _).mp h).1 (List.mem_singleton.mpr rfl))]
  simp only [Nat.add_zero]
  unfold GatherDims.start
  rw [dif_pos (show (0 : Fin 1) ∈ (vecGather N E wf).startIndexMap from List.mem_singleton.mpr rfl)]
  have hsi : (vecGather N E wf).siIdx (ix1 e) ⟨List.idxOf (0 : Fin 1) (vecGather N E wf).startIndexMap,
      List.idxOf_lt_length_iff.2 (List.mem_singleton.mpr rfl)⟩ = ix2 e ⟨0, Nat.one_pos⟩ := by
    funext b; refine Fin.ext ?_
    match b with
    | ⟨0, _⟩ => rfl
    | ⟨1, _⟩ => rfl
  rw [hsi]
  rfl

end GatherVec

/-! ## Scatter-add of elements -/

section ScatterVec

abbrev vecScatter (N E : Nat)
    (wf : ScatterDims.WF ⟨1, ![N]⟩ ⟨2, ![E, 1]⟩ ⟨1, ![E]⟩ [] [0] [0] 1) :
    ScatterDims ⟨1, ![N]⟩ ⟨2, ![E, 1]⟩ ⟨1, ![E]⟩ where
  updateWindowDims := []
  insertedWindowDims := [0]
  scatterDimsToOperandDims := [0]
  indexVectorDim := 1
  wf := wf

variable {N E w : Nat} (wf : ScatterDims.WF ⟨1, ![N]⟩ ⟨2, ![E, 1]⟩ ⟨1, ![E]⟩ [] [0] [0] 1)

theorem vecScatter_start0 (e : Fin E) (idx : IVec ⟨2, ![E, 1]⟩ w) :
    (vecScatter N E wf).start (ix1 e) idx (0 : Fin 1) = (idx (ix2 e ⟨0, Nat.one_pos⟩)).toInt := by
  unfold ScatterDims.start
  rw [dif_pos (show (0 : Fin 1) ∈ (vecScatter N E wf).scatterDimsToOperandDims from List.mem_singleton.mpr rfl)]
  have hsi : (vecScatter N E wf).siIdx (ix1 e) ⟨List.idxOf (0 : Fin 1) (vecScatter N E wf).scatterDimsToOperandDims,
      List.idxOf_lt_length_iff.2 (List.mem_singleton.mpr rfl)⟩ = ix2 e ⟨0, Nat.one_pos⟩ := by
    funext b; refine Fin.ext ?_
    match b with
    | ⟨0, _⟩ => rfl
    | ⟨1, _⟩ => rfl
  rw [hsi]

theorem vecScatter_window0 (e : Fin E) : (vecScatter N E wf).window (ix1 e) (0 : Fin 1) = 0 := by
  unfold ScatterDims.window
  rw [dif_neg]
  intro h
  have := (List.mem_filter.mp h).2
  simp at this

/-- Update e lands on element i exactly when its target, read signed, is i. -/
theorem vecScatter_resultIdx?_eq_some (idx : IVec ⟨2, ![E, 1]⟩ w) (e : Fin E) (i : Fin N) :
    (vecScatter N E wf).resultIdx? (ix1 e) idx = some (ix1 i)
      ↔ (idx (ix2 e ⟨0, Nat.one_pos⟩)).toInt = (i.val : Int) := by
  have s0 := vecScatter_start0 wf e idx
  have w0 := vecScatter_window0 wf e
  unfold ScatterDims.resultIdx?
  split
  next h =>
    have h0 := h (0 : Fin 1)
    rw [s0, w0] at h0
    constructor
    · intro hsome
      have hf := Option.some.inj hsome
      have e0 := congrArg (fun f => (f (0 : Fin 1)).val) hf
      simp only [s0, w0] at e0
      have e0' : ((idx (ix2 e ⟨0, Nat.one_pos⟩)).toInt + ((0 : Nat) : Int)).toNat = i.val := e0
      omega
    · intro ht
      refine congrArg some (funext fun a => Fin.ext ?_)
      obtain rfl : a = 0 := Subsingleton.elim _ _
      show ((vecScatter N E wf).start (ix1 e) idx (0 : Fin 1) + ((vecScatter N E wf).window (ix1 e) (0 : Fin 1) : Int)).toNat = i.val
      rw [s0, w0]; omega
  next h =>
    constructor
    · intro hn; exact absurd hn (by simp)
    · intro ht
      exfalso
      apply h
      intro a
      obtain rfl : a = 0 := Subsingleton.elim _ _
      show 0 ≤ (vecScatter N E wf).start (ix1 e) idx (0 : Fin 1) + ((vecScatter N E wf).window (ix1 e) (0 : Fin 1) : Int)
        ∧ (vecScatter N E wf).start (ix1 e) idx (0 : Fin 1) + ((vecScatter N E wf).window (ix1 e) (0 : Fin 1) : Int) < (N : Int)
      rw [s0, w0]
      have := i.isLt
      omega

/-- At the extended reals, element i of an element scatter-add is the operand's element plus the sum of the updates
    whose target, read signed, is i. -/
theorem vecScatterAdd_apply {φ : FTy} (x : FVec Ideal ⟨1, ![N]⟩ φ) (idx : IVec ⟨2, ![E, 1]⟩ w)
    (upd : FVec Ideal ⟨1, ![E]⟩ φ) (i : Fin N) :
    Host.scatterAdd (vecScatter N E wf) x idx upd (ix1 i)
      = x (ix1 i) + ∑ e ∈ Finset.univ.filter (fun e : Fin E => (idx (ix2 e ⟨0, Nat.one_pos⟩)).toInt = (i.val : Int)),
          upd (ix1 e) := by
  show Ideal.hostScatterAdd (vecScatter N E wf) x idx upd (ix1 i) = _
  unfold Ideal.hostScatterAdd
  refine congrArg (x (ix1 i) + ·) ?_
  rw [Finset.sum_filter, sum_idx1, Finset.sum_filter]
  refine Finset.sum_congr rfl fun e _ => ?_
  simp only [vecScatter_resultIdx?_eq_some wf idx e i]

end ScatterVec

end Cert.RefOps

end
-- ==== Proof.RealLaws.lean ====
/-
  The laws of the reals, for extended reals that are real numbers.

  On the extended reals multiplication does not distribute over addition (at the infinities). It does as soon as the
  three numbers are reals; hence a real factor moves in and out of a finite sum of reals. The larger of two reals is a real.
-/
import proofs.«181230_j19834158973077_2_alg».proof.Proof.LibRealEntries

namespace Cert.Spec

open Cert.Lib Finset

/-- Multiplication by a real distributes over a sum of two reals. -/
theorem real_mul_add {a b c : EReal} (ha : IsReal a) (hb : IsReal b) (hc : IsReal c) : a * (b + c) = a * b + a * c := by
  obtain ⟨a, rfl⟩ := ha; obtain ⟨b, rfl⟩ := hb; obtain ⟨c, rfl⟩ := hc
  rw [← EReal.coe_add, ← EReal.coe_mul, ← EReal.coe_mul, ← EReal.coe_mul, ← EReal.coe_add, mul_add]

/-- A real factor moves into a finite sum of reals. -/
theorem real_mul_sum {ι : Type*} (s : Finset ι) {a : EReal} (f : ι → EReal) (ha : IsReal a)
    (hf : ∀ i ∈ s, IsReal (f i)) : a * ∑ i ∈ s, f i = ∑ i ∈ s, a * f i := by
  classical
  induction s using Finset.induction_on with
  | empty => simp
  | insert i t hi ih =>
    have ht : ∀ j ∈ t, IsReal (f j) := fun j hj => hf j (Finset.mem_insert_of_mem hj)
    rw [Finset.sum_insert hi, Finset.sum_insert hi,
      real_mul_add ha (hf i (Finset.mem_insert_self i t)) (IsReal.sum t f ht), ih ht]

/-- A real factor moves into a finite sum of reals, from the right. -/
theorem real_sum_mul {ι : Type*} (s : Finset ι) {a : EReal} (f : ι → EReal) (ha : IsReal a)
    (hf : ∀ i ∈ s, IsReal (f i)) : (∑ i ∈ s, f i) * a = ∑ i ∈ s, f i * a := by
  rw [mul_comm, real_mul_sum s f ha hf]
  exact Finset.sum_congr rfl fun i _ => mul_comm _ _

/-- The larger of two reals is a real: it is one of them. -/
theorem isReal_max {x y : EReal} (hx : IsReal x) (hy : IsReal y) : IsReal (max x y) := by
  rcases max_choice x y with h | h <;> rw [h] <;> assumption

end Cert.Spec
-- ==== Proof.NormReal.lean ====
/-
  The symmetric normalisation of real edge weights is real.

  The degree of a node is the sum of the weights of the entries that point at it: a finite sum of reals, so a real. The
  reciprocal square root is taken only where the degree is positive, and there it is the real `1 / √deg`; elsewhere zero is
  taken. The normalised weight of an entry is the product of two such factors and the entry's weight: a real.
-/
import proofs.«181230_j19834158973077_2_alg».proof.Proof.RealLaws

namespace Cert.Spec

open Cert.Lib Finset Idealize.ShloMosaic

/-- The reciprocal square root of a positive real is a real. -/
theorem isReal_rsqrt_of_pos {x : EReal} (hx : IsReal x) (hpos : 0 < x) : IsReal (Ideal.rsqrt x) := by
  obtain ⟨r, rfl⟩ := hx
  have hr : 0 < r := EReal.coe_pos.1 hpos
  rw [Ideal.rsqrt_coe, if_neg (not_lt.2 hr.le), if_neg hr.ne']
  exact IsReal.coe _

/-- The guarded reciprocal square root of a real — `1 / √d` where `d` is positive, zero elsewhere — is a real. -/
theorem isReal_guarded_rsqrt {d : EReal} (hd : IsReal d) : IsReal (if 0 < d then Ideal.rsqrt d else 0) := by
  split
  · exact isReal_rsqrt_of_pos hd ‹_›
  · exact IsReal.zero

section

variable (row col : Fin 170000 → Fin 10000) (ew : Fin 170000 → EReal)

/-- The degree of node `i`: the sum of the weights of the entries that point at it. -/
noncomputable def degOf (i : Fin 10000) : EReal := ∑ e ∈ univ.filter (fun e => col e = i), ew e

/-- The guarded reciprocal square root of the degree. -/
noncomputable def disOf (i : Fin 10000) : EReal := if 0 < degOf col ew i then Ideal.rsqrt (degOf col ew i) else 0

/-- The normalised weight of entry `e`. -/
noncomputable def normOf (e : Fin 170000) : EReal := disOf col ew (row e) * ew e * disOf col ew (col e)

variable {row col ew}

theorem isReal_degOf (hew : ∀ e, IsReal (ew e)) (i : Fin 10000) : IsReal (degOf col ew i) :=
  IsReal.sum _ _ fun e _ => hew e

theorem isReal_disOf (hew : ∀ e, IsReal (ew e)) (i : Fin 10000) : IsReal (disOf col ew i) :=
  isReal_guarded_rsqrt (isReal_degOf hew i)

theorem isReal_normOf (hew : ∀ e, IsReal (ew e)) (e : Fin 170000) : IsReal (normOf row col ew e) :=
  IsReal.mul (IsReal.mul (isReal_disOf hew (row e)) (hew e)) (isReal_disOf hew (col e))

end

end Cert.Spec
-- ==== Proof.NormRead.lean ====
/-
  The shared normalisation term, read entry by entry, is the symmetric normalisation of the entries' weights.

  With every edge-index word a node id: the weight array holds the edge weights followed by ones (`weightArr_apply`);
  the degree array is, node by node, the sum of the weights of the entries that point at the node (`degOf_apply`: the
  scatter-add from zero, an entry landing on node i exactly when its target is i); the guarded inverse square root is
  the specification's (`disOf_apply`: the comparison with zero decides the selection); and an entry's coefficient is
  dis[source] * weight * dis[target], each gather reading the node the index array names (`weightOf_eq`).
-/
import proofs.«181230_j19834158973077_2_alg».proof.Proof.RefTerms
import proofs.«181230_j19834158973077_2_alg».proof.Proof.RefOpsVec
import proofs.«181230_j19834158973077_2_alg».proof.Proof.NormReal
import Idealize.ShloMosaic.Lib.IdealHost

noncomputable section

open scoped BigOperators

namespace Cert.Norm

open Idealize.ShloMosaic Idealize.ShloMosaic.ValueIdx Cert.RefOps Cert.RefRead

/-- The entries' weights as numbers: the edge weight for an edge, one for a self loop. -/
def ewOf (ew : FVec Ideal SEdges .f32) : Fin 170000 → EReal :=
  fun e => if h : e.val < 160000 then ew (ix1 ⟨e.val, h⟩) else 1

theorem weightArr_apply (ew : FVec Ideal SEdges .f32) (e : Fin 170000) : weightArr ew (ix1 e) = ewOf ew e := by
  unfold weightArr ewOf
  by_cases he : e.val < 160000
  · rw [dif_pos he]
    exact concatenate_pair_apply_left (s₁ := SEdges) (s₂ := SNodes) (t := SEntries) (0 : Fin 1) _ _ joinEntries (ix1 e) rfl
      (ix1 (⟨e.val, he⟩ : Fin 160000)) (fun b => by obtain rfl : b = 0 := Subsingleton.elim _ _; rfl)
  · rw [dif_neg he]
    have hlt := e.isLt
    rw [concatenate_pair_apply_right (s₁ := SEdges) (s₂ := SNodes) (t := SEntries) (0 : Fin 1) _ _ joinEntries (ix1 e) rfl rfl
      (ix1 (⟨e.val - 160000, by omega⟩ : Fin 10000))
      (fun b hb => absurd (Subsingleton.elim _ _) hb) (by show e.val - 160000 + 160000 = e.val; omega)]
    rw [bcastScalar_apply splatNodes]
    exact Ideal.ofBits_one_f32

/-- A per-node array gathered through an index array whose entry e names node n reads node n. -/
theorem gather_node (x : FVec Ideal SNodes .f32) (v : IVec SEntries 32) (e : Fin 170000) (n : Fin 10000)
    (hv : v (ix1 e) = BitVec.ofNat 32 n.val) :
    Host.gather nodeGather x (broadcastInDim SEntriesCol ![0] colEntries (wrapIdx v)) (ix1 e) = x (ix1 n) := by
  show Host.gather (vecGather 10000 170000 nodeGather.wf) x _ (ix1 e) = _
  rw [vecGather_apply (by decide) nodeGather.wf x _ e]
  have hn := n.isLt
  have hidx : (broadcastInDim SEntriesCol ![0] colEntries (wrapIdx v)) (ix2 e ⟨0, Nat.one_pos⟩) = BitVec.ofNat 32 n.val := by
    rw [bcastCol_apply colEntries]; exact wrapIdx_apply v (ix1 e) n.val n.isLt hv
  have hr : (⟨min ((broadcastInDim SEntriesCol ![0] colEntries (wrapIdx v)) (ix2 e ⟨0, Nat.one_pos⟩)).toInt.toNat (10000 - 1),
      by omega⟩ : Fin 10000) = n := by
    refine Fin.ext ?_
    show min ((broadcastInDim SEntriesCol ![0] colEntries (wrapIdx v)) (ix2 e ⟨0, Nat.one_pos⟩)).toInt.toNat (10000 - 1) = n.val
    rw [hidx, toInt_ofNat_small _ (by omega)]
    simp only [Int.toNat_natCast]
    omega
  rw [hr]

/-- The guarded inverse square root read at a node: the comparison with zero decides the selection. -/
theorem disOf_read (d : FVec Ideal SNodes .f32) (i : SNodes.Idx) :
    (select (cmpf .ogt d (broadcastInDim SNodes ![] splatNodes (constant (F := Ideal) SScalar .f32 0x00000000#32))) (Host.rsqrt d)
      (broadcastInDim SNodes ![] splatNodes (id (constant (F := Ideal) SScalar .f32 0x00000000#32)))) i
      = if 0 < d i then Ideal.rsqrt (d i) else 0 := by
  rw [select_apply, cmpf_apply, bcastScalar_apply splatNodes, bcastScalar_apply splatNodes]
  have h1 : (constant (F := Ideal) SScalar .f32 0x00000000#32) ix0 = (0 : EReal) := Ideal.ofBits_zero_f32
  have h2 : (id (constant (F := Ideal) SScalar .f32 0x00000000#32)) ix0 = (0 : EReal) := Ideal.ofBits_zero_f32
  have h3 : Host.rsqrt (F := Ideal) d i = Ideal.rsqrt (d i) := rfl
  rw [h1, h2, h3]
  have h4 : ∀ y : EReal, FloatOps.cmpf (F := Ideal) (φ := .f32) .ogt y (0 : EReal) = BitVec.ofBool (decide ((0 : EReal) < y)) :=
    fun y => rfl
  rw [h4]
  by_cases hpos : 0 < d i
  · rw [if_pos hpos, decide_eq_true hpos]; exact select_one _ _
  · rw [if_neg hpos, decide_eq_false hpos]; exact select_zero _ _

section
variable (ei : IVec SEdgeIndex 32) (ew : FVec Ideal SEdges .f32) (hin : InRange ei)
include hin

theorem degOf_apply (i : Fin 10000) : degOf ei ew (ix1 i) = Cert.Spec.degOf (colOf ei) (ewOf ew) i := by
  unfold degOf Cert.Spec.degOf
  show Host.scatterAdd (vecScatter 10000 170000 degScatter.wf) _ _ _ (ix1 i) = _
  rw [vecScatterAdd_apply degScatter.wf _ _ _ i, bcastScalar_apply splatNodes]
  show Ideal.ofBits .f32 0x00000000#32 + _ = _
  rw [Ideal.ofBits_zero_f32, zero_add]
  have hf : (Finset.univ.filter fun e : Fin 170000 =>
        ((broadcastInDim SEntriesCol ![0] colEntries (colArr ei)) (ix2 e ⟨0, Nat.one_pos⟩)).toInt = (i.val : Int))
      = Finset.univ.filter (fun e => colOf ei e = i) := by
    ext e
    simp only [Finset.mem_filter, Finset.mem_univ, true_and]
    rw [bcastCol_apply colEntries, colArr_apply ei hin e, toInt_ofNat_small _ (by have := (colOf ei e).isLt; omega)]
    constructor
    · intro h; exact Fin.ext (by exact_mod_cast h)
    · rintro rfl; rfl
  rw [hf]
  exact Finset.sum_congr rfl fun e _ => weightArr_apply ew e

theorem disOf_apply (i : Fin 10000) : disOf ei ew (ix1 i) = Cert.Spec.disOf (colOf ei) (ewOf ew) i := by
  refine (disOf_read (degOf ei ew) (ix1 i)).trans ?_
  unfold Cert.Spec.disOf
  rw [degOf_apply ei ew hin i]

/-- THE COEFFICIENTS are the symmetric normalisation of the entries' weights over the entries' endpoints. -/
theorem weightOf_eq (e : Fin 170000) :
    weightOf ei ew e = Cert.Spec.normOf (rowOf ei) (colOf ei) (ewOf ew) e := by
  unfold weightOf normOf Cert.Spec.normOf
  show Host.gather nodeGather _ _ (ix1 e) * weightArr ew (ix1 e) * Host.gather nodeGather _ _ (ix1 e) = _
  rw [gather_node _ (rowArr ei) e (rowOf ei e) (rowArr_apply ei hin e),
    gather_node _ (colArr ei) e (colOf ei e) (colArr_apply ei hin e), weightArr_apply,
    disOf_apply ei ew hin, disOf_apply ei ew hin]

theorem weightOf_eq_fun : weightOf ei ew = Cert.Spec.normOf (rowOf ei) (colOf ei) (ewOf ew) :=
  funext (weightOf_eq ei ew hin)

end

/-- The entries' weights are real when the edge weights are. -/
theorem isReal_ewOf {ew : FVec Ideal SEdges .f32} (hew : ∀ i, Cert.Lib.IsReal (ew i)) (e : Fin 170000) :
    Cert.Lib.IsReal (ewOf ew e) := by
  unfold ewOf
  split
  · exact hew _
  · exact Cert.Lib.IsReal.one

/-- The coefficients are real when the edge weights are (and the edge-index words are node ids). -/
theorem isReal_weightOf (ei : IVec SEdgeIndex 32) (ew : FVec Ideal SEdges .f32) (hew : ∀ i, Cert.Lib.IsReal (ew i))
    (hin : InRange ei) (e : Fin 170000) : Cert.Lib.IsReal (weightOf ei ew e) := by
  rw [weightOf_eq ei ew hin e]
  exact Cert.Spec.isReal_normOf (fun e => isReal_ewOf hew e) e

/-- The index-range hypothesis in the shape the precondition's consequences give it. -/
theorem inRange_of_words {ei : IVec SEdgeIndex 32} (h : ∀ i, ∃ n : Fin 10000, ei i = BitVec.ofNat 32 n.val) : InRange ei := h

end Cert.Norm

end
-- ==== Proof.RefResult.lean ====
/-
  The reference program's result is the specification's network over the symmetric normalisation of the entries'
  weights: the element-by-element reading with the shared normalisation term as the coefficients, and that term read as
  the normalisation (both under the index-range hypothesis). Stated at an element (`ref_result`), as a whole array
  (`ref_result_fun`), and of the term the generated run leaves in the result buffer (`ref_result_run`).
-/
import proofs.«181230_j19834158973077_2_alg».proof.Proof.RefRead
import proofs.«181230_j19834158973077_2_alg».proof.Proof.NormRead

noncomputable section

open scoped BigOperators

namespace Cert.RefRead

open Cert.ReferenceIdeal Cert.ReferenceIdeal.Gen Cert.ReferenceIdeal.Read
open Idealize.ShloMosaic Idealize.ShloMosaic.TcCoe Idealize.SL.Sem Idealize.ShloMosaic.ValueIdx Cert.Norm Cert.RefOps

section
variable (x0 : FVec Ideal S10000x128 .f32) (x1 : IVec S2x160000 32) (x2 : FVec Ideal S160000 .f32)
  (x3 : FVec Ideal S128x1000 .f32) (x4 : FVec Ideal S1000 .f32) (x5 : FVec Ideal S5x1000x1000 .f32)
  (x6 : FVec Ideal S5x1000 .f32) (x7 : FVec Ideal S1000x256 .f32) (x8 : FVec Ideal S256 .f32)

/-- The specification's network over the argument arrays: endpoints and weights read off the edge arrays, every other
    array read by its coordinates. -/
abbrev refSpec : Fin 10000 → Fin 256 → EReal :=
  Cert.Spec.refNet (rowOf x1) (colOf x1) (Cert.Spec.normOf (rowOf x1) (colOf x1) (ewOf x2))
    (mat x0) (mat x3) (vec x4) (ten x5) (mat x6) (mat x7) (vec x8)

/-- THE REFERENCE'S RESULT at (p, q). -/
theorem ref_result (hin : InRange x1) (p : Fin 10000) (q : Fin 256) :
    val_main_v176 (F := Ideal) x0 x1 x2 x3 x4 x5 x6 x7 x8 (ix2 p q) = refSpec x0 x1 x2 x3 x4 x5 x6 x7 x8 p q := by
  rw [ref_result_weight x0 x1 x2 x3 x4 x5 x6 x7 x8 hin p q, weightOf_eq_fun x1 x2 hin]

/-- The reference's result as a whole array. -/
theorem ref_result_fun (hin : InRange x1) :
    val_main_v176 (F := Ideal) x0 x1 x2 x3 x4 x5 x6 x7 x8 = fun j => refSpec x0 x1 x2 x3 x4 x5 x6 x7 x8 (j 0) (j 1) := by
  funext j
  obtain ⟨a, b, rfl⟩ : ∃ a b, j = ix2 a b := ⟨j 0, j 1, eq_ix2 j⟩
  exact ref_result x0 x1 x2 x3 x4 x5 x6 x7 x8 hin a b

end

/-- The term the generated run leaves in the result buffer, for a memory whose edge-index argument is in range. -/
theorem ref_result_run (m : (ℓ : Loc nD τ sig) → Buf (Elt Ideal) ℓ) (c : Dev nD)
    (hin : InRange (m ((c.tc : Thread nD τ).loc main_arg1))) :
    Cert.ReferenceIdeal.Value.res_main_v176 (F := Ideal) m c
      = fun j => refSpec (m ((c.tc : Thread nD τ).loc main_arg0)) (m ((c.tc : Thread nD τ).loc main_arg1))
          (m ((c.tc : Thread nD τ).loc main_arg2)) (m ((c.tc : Thread nD τ).loc main_arg3))
          (m ((c.tc : Thread nD τ).loc main_arg4)) (m ((c.tc : Thread nD τ).loc main_arg5))
          (m ((c.tc : Thread nD τ).loc main_arg6)) (m ((c.tc : Thread nD τ).loc main_arg7))
          (m ((c.tc : Thread nD τ).loc main_arg8)) (j 0) (j 1) :=
  (val_main_v176_eq m c).trans (ref_result_fun _ _ _ _ _ _ _ _ _ hin)

end Cert.RefRead

end
-- ==== Proof.SpecReal.lean ====
/-
  Every entry of the dense padded network is a real number as soon as every entry of its data is.

  Sums, products, the larger of two numbers, zero padding and case distinctions keep the reals inside the extended reals.
-/
import proofs.«181230_j19834158973077_2_alg».proof.Proof.Spec
import proofs.«181230_j19834158973077_2_alg».proof.Proof.RealLaws

namespace Cert.Spec

open Cert.Lib Finset

theorem isReal_relu {x : EReal} (hx : IsReal x) : IsReal (relu x) := isReal_max hx IsReal.zero

theorem isReal_matMul {M K D : ℕ} {X : Fin M → Fin K → EReal} {W : Fin K → Fin D → EReal}
    (hX : ∀ p k, IsReal (X p k)) (hW : ∀ k q, IsReal (W k q)) (p : Fin M) (q : Fin D) : IsReal (matMul X W p q) :=
  IsReal.sum _ _ fun k _ => IsReal.mul (hX p k) (hW k q)

theorem isReal_affine {M K D : ℕ} {X : Fin M → Fin K → EReal} {W : Fin K → Fin D → EReal} {b : Fin D → EReal}
    (hX : ∀ p k, IsReal (X p k)) (hW : ∀ k q, IsReal (W k q)) (hb : ∀ q, IsReal (b q)) (p : Fin M) (q : Fin D) :
    IsReal (affine X W b p q) :=
  IsReal.add (isReal_matMul hX hW p q) (hb q)

theorem isReal_reluAll {M D : ℕ} {X : Fin M → Fin D → EReal} (hX : ∀ p q, IsReal (X p q)) (p : Fin M) (q : Fin D) :
    IsReal (reluAll X p q) :=
  isReal_relu (hX p q)

theorem isReal_zeroBias (D : ℕ) (q : Fin D) : IsReal (zeroBias D q) := IsReal.zero

theorem isReal_padMat {m n : ℕ} (M N : ℕ) {A : Fin m → Fin n → EReal} (hA : ∀ i j, IsReal (A i j))
    (i : Fin M) (j : Fin N) : IsReal (padMat M N A i j) := by
  unfold padMat
  split
  · exact hA _ _
  · exact IsReal.zero

theorem isReal_padVec {n : ℕ} (N : ℕ) {b : Fin n → EReal} (hb : ∀ j, IsReal (b j)) (j : Fin N) :
    IsReal (padVec N b j) := by
  unfold padVec
  split
  · exact hb _
  · exact IsReal.zero

section

variable {row col : Fin 170000 → Fin 10000} {w : Fin 170000 → EReal}

/-- The dense adjacency matrix of real weights is real: each entry is a finite sum of weights. -/
theorem isReal_adj (hw : ∀ e, IsReal (w e)) (i j : Fin 10240) : IsReal (adj row col w i j) :=
  IsReal.sum _ _ fun e _ => hw e

theorem isReal_denseConv (hw : ∀ e, IsReal (w e)) {K D : ℕ} {H : Fin 10240 → Fin K → EReal}
    {W : Fin K → Fin D → EReal} {b : Fin D → EReal} (hH : ∀ j k, IsReal (H j k)) (hW : ∀ k q, IsReal (W k q))
    (hb : ∀ q, IsReal (b q)) (i : Fin 10240) (q : Fin D) : IsReal (denseConv row col w H W b i q) :=
  isReal_affine (isReal_adj hw) (isReal_affine hH hW (isReal_zeroBias D)) hb i q

variable {x : Fin 10000 → Fin 128 → EReal} {W1 : Fin 128 → Fin 1000 → EReal} {b1 : Fin 1000 → EReal}
  {Wmid : Fin 5 → Fin 1000 → Fin 1000 → EReal} {bmid : Fin 5 → Fin 1000 → EReal}

theorem isReal_kerFirst (hw : ∀ e, IsReal (w e)) (hx : ∀ i k, IsReal (x i k)) (hW1 : ∀ k q, IsReal (W1 k q))
    (hb1 : ∀ q, IsReal (b1 q)) (i : Fin 10240) (q : Fin 1024) : IsReal (kerFirst row col w x W1 b1 i q) :=
  isReal_reluAll
    (isReal_affine (isReal_affine (isReal_adj hw) (isReal_padMat 10240 128 hx) (isReal_zeroBias 128))
      (isReal_padMat 128 1024 hW1) (isReal_padVec 1024 hb1)) i q

/-- Every entry of the padded hidden features is real, after every layer. -/
theorem isReal_kerHidden (hw : ∀ e, IsReal (w e)) (hx : ∀ i k, IsReal (x i k)) (hW1 : ∀ k q, IsReal (W1 k q))
    (hb1 : ∀ q, IsReal (b1 q)) (hWmid : ∀ l k q, IsReal (Wmid l k q)) (hbmid : ∀ l q, IsReal (bmid l q)) (n : ℕ) :
    ∀ (i : Fin 10240) (q : Fin 1024), IsReal (kerHidden row col w x W1 b1 Wmid bmid n i q) := by
  induction n with
  | zero => exact isReal_kerFirst hw hx hW1 hb1
  | succ n ih =>
    by_cases h : n < 5
    · rw [kerHidden_succ row col w x W1 b1 Wmid bmid n h]
      exact isReal_reluAll
        (isReal_denseConv hw ih (isReal_padMat 1024 1024 (hWmid ⟨n, h⟩)) (isReal_padVec 1024 (hbmid ⟨n, h⟩)))
    · rw [kerHidden, dif_neg h]
      exact ih

end

end Cert.Spec
-- ==== Proof.PadSums.lean ====
/-
  Zero padding and sums.

  A sum whose terms vanish past the first `n` indices is the sum over those `n` indices. Hence a product with a matrix
  whose rows past the `n`-th are zero only sees the first `n` columns of the left factor.
-/
import proofs.«181230_j19834158973077_2_alg».proof.Proof.Spec

namespace Cert.Spec

open Finset

/-- A sum over `N` indices of terms that vanish from index `n` on is the sum over the first `n` indices. -/
theorem sum_zero_tail {β : Type*} [AddCommMonoid β] {n N : ℕ} (hn : n ≤ N) (F : Fin n → β) :
    ∑ k : Fin N, (if h : k.val < n then F ⟨k.val, h⟩ else 0) = ∑ k : Fin n, F k := by
  let f : ℕ → β := fun m => if h : m < n then F ⟨m, h⟩ else 0
  have hF : ∀ k : Fin n, F k = f k.val := fun k => by simp only [f, dif_pos k.isLt]
  rw [Finset.sum_congr rfl fun k _ => hF k, Fin.sum_univ_eq_sum_range f n]
  have h1 : ∑ k : Fin N, (if h : k.val < n then F ⟨k.val, h⟩ else 0) = ∑ k : Fin N, f k.val := rfl
  rw [h1, Fin.sum_univ_eq_sum_range f N]
  refine (Finset.sum_subset (Finset.range_mono hn) fun k _ hk => ?_).symm
  have hk' : ¬ k < n := fun h => hk (Finset.mem_range.2 h)
  simp only [f, dif_neg hk']

theorem padMat_apply_lt {m n : ℕ} (M N : ℕ) (A : Fin m → Fin n → EReal) (i : Fin M) (j : Fin N)
    (hi : i.val < m) (hj : j.val < n) : padMat M N A i j = A ⟨i.val, hi⟩ ⟨j.val, hj⟩ := by
  unfold padMat
  rw [dif_pos ⟨hi, hj⟩]

theorem padVec_apply_lt {n : ℕ} (N : ℕ) (b : Fin n → EReal) (j : Fin N) (hj : j.val < n) :
    padVec N b j = b ⟨j.val, hj⟩ := by
  unfold padVec
  rw [dif_pos hj]

/-- A product with zero-padded weights and a zero bias, read at one of the unpadded columns, is the product with the
    unpadded weights of the first columns of the left factor: the padded rows of the weights are zero. -/
theorem affine_padMat {M n N d D : ℕ} (hn : n ≤ N) (hd : d ≤ D) (X : Fin M → Fin N → EReal)
    (W : Fin n → Fin d → EReal) (p : Fin M) (q : Fin d) :
    affine X (padMat N D W) (zeroBias D) p (Fin.castLE hd q) = ∑ k : Fin n, X p (Fin.castLE hn k) * W k q := by
  unfold affine matMul zeroBias
  rw [add_zero, ← sum_zero_tail hn fun k : Fin n => X p (Fin.castLE hn k) * W k q]
  refine Finset.sum_congr rfl fun k _ => ?_
  by_cases h : k.val < n
  · rw [dif_pos h, padMat_apply_lt N D W k (Fin.castLE hd q) h q.isLt]
    rfl
  · rw [dif_neg h]
    unfold padMat
    rw [dif_neg fun h' => h h'.1, mul_zero]

end Cert.Spec
-- ==== Proof.DenseAgg.lean ====
/-
  The dense product with the adjacency matrix is the gather / scatter-add over the entries.

  Entry `(i, j)` of the adjacency matrix is the sum of the weights of the entries from node `j` to node `i`. For real
  weights and real features, `∑ j, adj i j * H j c` is therefore the sum, over the entries `e` that point at node `i`, of
  `w e * H (row e) c`: distribute `H j c` over the entries from `j` to `i`, then collect the entries by their source `j`.
  Only the first 10000 rows of `H` are met: no entry has a source past them.

  For a second product on the right, `∑ k, (∑ e, w e * h (row e) k) * W k c = ∑ e, w e * ∑ k, h (row e) k * W k c`: the
  two orders of aggregating and transforming agree (associativity of the product of real matrices).
-/
import proofs.«181230_j19834158973077_2_alg».proof.Proof.Spec
import proofs.«181230_j19834158973077_2_alg».proof.Proof.RealLaws

namespace Cert.Spec

open Cert.Lib Finset

/-- Node `r` among the 10240 padded nodes. -/
def nodeEmb (r : Fin 10000) : Fin 10240 := Fin.castLE (by norm_num) r

theorem nodeEmb_val (r : Fin 10000) : (nodeEmb r).val = r.val := rfl

section

variable {row col : Fin 170000 → Fin 10000} {w : Fin 170000 → EReal}

/-- The dense product with the adjacency matrix, at one of the 10000 nodes, is the aggregation over the entries. -/
theorem adj_matMul (hw : ∀ e, IsReal (w e)) {D : ℕ} (H : Fin 10240 → Fin D → EReal) (hH : ∀ j c, IsReal (H j c))
    (i : Fin 10000) (c : Fin D) :
    matMul (adj row col w) H (nodeEmb i) c = agg row col w (fun r c => H (nodeEmb r) c) i c := by
  have step1 : ∀ j : Fin 10240, adj row col w (nodeEmb i) j * H j c
      = ∑ e, if col e = i ∧ (row e).val = j.val then w e * H j c else 0 := by
    intro j
    unfold adj
    rw [real_sum_mul _ _ (hH j c) (fun e _ => hw e), Finset.sum_filter]
    refine Finset.sum_congr rfl fun e _ => ?_
    have hiff : ((col e).val = (nodeEmb i).val ∧ (row e).val = j.val) ↔ (col e = i ∧ (row e).val = j.val) := by
      rw [nodeEmb_val, Fin.val_eq_val]
    exact if_congr hiff rfl rfl
  have step2 : ∀ e : Fin 170000, (∑ j : Fin 10240, if col e = i ∧ (row e).val = j.val then w e * H j c else 0)
      = if col e = i then w e * H (nodeEmb (row e)) c else 0 := by
    intro e
    by_cases hc : col e = i
    · rw [if_pos hc, Finset.sum_eq_single (nodeEmb (row e))]
      · rw [if_pos ⟨hc, (nodeEmb_val (row e)).symm⟩]
      · intro j _ hj
        rw [if_neg]
        intro h
        exact hj (Fin.ext (by rw [nodeEmb_val]; exact h.2.symm))
      · intro h
        exact absurd (Finset.mem_univ _) h
    · rw [if_neg hc]
      exact Finset.sum_eq_zero fun j _ => if_neg fun h => hc h.1
  unfold matMul agg
  rw [Finset.sum_congr rfl fun j _ => step1 j, Finset.sum_comm, Finset.sum_filter]
  exact Finset.sum_congr rfl fun e _ => step2 e

/-- Aggregating and then transforming is transforming and then aggregating. -/
theorem agg_matMul (hw : ∀ e, IsReal (w e)) {K D : ℕ} (h : Fin 10000 → Fin K → EReal) (hh : ∀ r k, IsReal (h r k))
    (W : Fin K → Fin D → EReal) (hW : ∀ k q, IsReal (W k q)) (i : Fin 10000) (c : Fin D) :
    matMul (agg row col w h) W i c = agg row col w (matMul h W) i c := by
  unfold matMul agg
  have step1 : ∀ k : Fin K, (∑ e ∈ univ.filter (fun e => col e = i), w e * h (row e) k) * W k c
      = ∑ e ∈ univ.filter (fun e => col e = i), w e * (h (row e) k * W k c) := by
    intro k
    rw [real_sum_mul _ _ (hW k c) fun e _ => IsReal.mul (hw e) (hh (row e) k)]
    exact Finset.sum_congr rfl fun e _ => mul_assoc _ _ _
  rw [Finset.sum_congr rfl fun k _ => step1 k, Finset.sum_comm]
  refine Finset.sum_congr rfl fun e _ => ?_
  rw [real_mul_sum _ _ (hw e) fun k _ => IsReal.mul (hh (row e) k) (hW k c)]

end

end Cert.Spec
-- ==== Proof.SpecAlgebra.lean ====
/-
  The dense padded network equals the reference network, for real data.

  Invariant carried through the layers: every entry of the padded hidden features is a real number, and on the first
  10000 rows and the first 1000 columns the padded hidden features are the reference's hidden features.

  One padded layer, at such a row and at an unpadded column: the dense product with the adjacency matrix is the
  aggregation over the entries; inside it, the product with the padded weights only sees the first 1000 hidden columns,
  where the two sides agree; the padded bias is the bias there. The first layer aggregates before it transforms, which
  is the same by associativity. The rectifier is the same function on both sides.
-/
import proofs.«181230_j19834158973077_2_alg».proof.Proof.SpecReal
import proofs.«181230_j19834158973077_2_alg».proof.Proof.PadSums
import proofs.«181230_j19834158973077_2_alg».proof.Proof.DenseAgg

namespace Cert.Spec

open Cert.Lib Finset

/-- Hidden column `k` among the 1024 padded columns. -/
def hidEmb (k : Fin 1000) : Fin 1024 := Fin.castLE (by norm_num) k

section

variable {row col : Fin 170000 → Fin 10000} {w : Fin 170000 → EReal}

/-- One padded layer before its rectifier, at one of the 10000 nodes and at an unpadded column, is the reference's
    convolution of the reference's hidden features. -/
theorem denseConv_eq_conv (hw : ∀ e, IsReal (w e)) {d D : ℕ} (hd : d ≤ D)
    (H : Fin 10240 → Fin 1024 → EReal) (hH : ∀ j k, IsReal (H j k))
    (h : Fin 10000 → Fin 1000 → EReal) (hHh : ∀ r k, H (nodeEmb r) (hidEmb k) = h r k)
    (W : Fin 1000 → Fin d → EReal) (hW : ∀ k q, IsReal (W k q))
    (bp : Fin D → EReal) (b : Fin d → EReal) (hb : ∀ q : Fin d, bp (Fin.castLE hd q) = b q)
    (i : Fin 10000) (q : Fin d) :
    denseConv row col w H (padMat 1024 D W) bp (nodeEmb i) (Fin.castLE hd q) = conv row col w h W b i q := by
  have hT : ∀ j c, IsReal (affine H (padMat 1024 D W) (zeroBias D) j c) :=
    isReal_affine hH (isReal_padMat 1024 D hW) (isReal_zeroBias D)
  have hinner : ∀ r : Fin 10000, affine H (padMat 1024 D W) (zeroBias D) (nodeEmb r) (Fin.castLE hd q)
      = matMul h W r q := by
    intro r
    rw [affine_padMat (by norm_num : 1000 ≤ 1024) hd H W (nodeEmb r) q]
    exact Finset.sum_congr rfl fun k _ => by rw [← hHh r k]; rfl
  unfold denseConv conv
  show matMul (adj row col w) (affine H (padMat 1024 D W) (zeroBias D)) (nodeEmb i) (Fin.castLE hd q)
      + bp (Fin.castLE hd q) = _
  rw [adj_matMul hw _ hT i (Fin.castLE hd q), hb q]
  refine congrArg (· + b q) ?_
  unfold agg
  exact Finset.sum_congr rfl fun e _ => congrArg (w e * ·) (hinner (row e))

variable {x : Fin 10000 → Fin 128 → EReal} {W1 : Fin 128 → Fin 1000 → EReal} {b1 : Fin 1000 → EReal}

/-- The first padded layer, which aggregates before it transforms, is the reference's first layer. -/
theorem kerFirst_eq (hw : ∀ e, IsReal (w e)) (hx : ∀ i k, IsReal (x i k)) (hW1 : ∀ k q, IsReal (W1 k q))
    (i : Fin 10000) (q : Fin 1000) :
    kerFirst row col w x W1 b1 (nodeEmb i) (hidEmb q) = reluConv row col w x W1 b1 i q := by
  have hX : ∀ j k, IsReal (padMat 10240 128 x j k) := isReal_padMat 10240 128 hx
  have hxe : (fun (r : Fin 10000) (c : Fin 128) => padMat 10240 128 x (nodeEmb r) c) = x := by
    funext r c
    exact padMat_apply_lt 10240 128 x (nodeEmb r) c r.isLt c.isLt
  have hG : ∀ k : Fin 128, affine (adj row col w) (padMat 10240 128 x) (zeroBias 128) (nodeEmb i) k
      = agg row col w x i k := by
    intro k
    unfold affine zeroBias
    rw [add_zero, adj_matMul hw _ hX i k, hxe]
  unfold kerFirst reluConv reluAll
  refine congrArg relu ?_
  unfold conv
  rw [← agg_matMul hw x hx W1 hW1 i q]
  unfold affine
  have hbias : padVec 1024 b1 (hidEmb q) = b1 q := padVec_apply_lt 1024 b1 (hidEmb q) q.isLt
  rw [hbias]
  refine congrArg (· + b1 q) ?_
  unfold matMul
  refine Finset.sum_congr rfl fun k _ => ?_
  have hWk : padMat 128 1024 W1 k (hidEmb q) = W1 k q := padMat_apply_lt 128 1024 W1 k (hidEmb q) k.isLt q.isLt
  rw [hWk]
  exact congrArg (· * W1 k q) (hG k)

variable {Wmid : Fin 5 → Fin 1000 → Fin 1000 → EReal} {bmid : Fin 5 → Fin 1000 → EReal}

/-- After every layer the padded hidden features are the reference's on the 10000 nodes and the 1000 hidden columns. -/
theorem kerHidden_eq (hw : ∀ e, IsReal (w e)) (hx : ∀ i k, IsReal (x i k)) (hW1 : ∀ k q, IsReal (W1 k q))
    (hb1 : ∀ q, IsReal (b1 q)) (hWmid : ∀ l k q, IsReal (Wmid l k q)) (hbmid : ∀ l q, IsReal (bmid l q)) (n : ℕ) :
    ∀ (i : Fin 10000) (q : Fin 1000),
      kerHidden row col w x W1 b1 Wmid bmid n (nodeEmb i) (hidEmb q) = refHidden row col w x W1 b1 Wmid bmid n i q := by
  induction n with
  | zero => exact kerFirst_eq hw hx hW1
  | succ n ih =>
    intro i q
    by_cases h : n < 5
    · rw [kerHidden_succ row col w x W1 b1 Wmid bmid n h, refHidden_succ row col w x W1 b1 Wmid bmid n h]
      unfold reluConv reluAll
      refine congrArg relu ?_
      exact denseConv_eq_conv hw (by norm_num : 1000 ≤ 1024) _
        (isReal_kerHidden hw hx hW1 hb1 hWmid hbmid n) _ ih (Wmid ⟨n, h⟩) (hWmid ⟨n, h⟩)
        (padVec 1024 (bmid ⟨n, h⟩)) (bmid ⟨n, h⟩)
        (fun c => padVec_apply_lt 1024 (bmid ⟨n, h⟩) (hidEmb c) c.isLt) i q
    · rw [kerHidden, dif_neg h, refHidden, dif_neg h]
      exact ih i q

variable {W7 : Fin 1000 → Fin 256 → EReal} {b7 : Fin 256 → EReal}

/-- The dense padded network is the reference network, entry by entry, as soon as every entry of the data is real. -/
theorem kerNet_eq_refNet (hw : ∀ e, IsReal (w e)) (hx : ∀ i k, IsReal (x i k)) (hW1 : ∀ k q, IsReal (W1 k q))
    (hb1 : ∀ q, IsReal (b1 q)) (hWmid : ∀ l k q, IsReal (Wmid l k q)) (hbmid : ∀ l q, IsReal (bmid l q))
    (hW7 : ∀ k q, IsReal (W7 k q)) (i : Fin 10000) (c : Fin 256) :
    kerNet row col w x W1 b1 Wmid bmid W7 b7 i c = refNet row col w x W1 b1 Wmid bmid W7 b7 i c := by
  unfold kerNet kerFull refNet
  exact denseConv_eq_conv hw (le_refl 256) _ (isReal_kerHidden hw hx hW1 hb1 hWmid hbmid 5) _
    (kerHidden_eq hw hx hW1 hb1 hWmid hbmid 5) W7 hW7 b7 b7 (fun _ => rfl) i c

end

end Cert.Spec
-- ==== Proof.Join.lean ====
/-
  The two programs' results agree.

  The reference's result array is the gather / scatter-add network of its nine argument arrays; the dense program's
  result array is the dense padded network of its nine argument arrays; and the dense padded network equals the
  gather / scatter-add network, entry by entry, as soon as every entry of the data is a real number (distributivity,
  used to move the adjacency sum across the products, fails at infinities). The precondition says that every entry of
  the eight real arguments is a real number and that every edge-index word is a node number below 10000; the
  normalised weights — a product of two guarded reciprocal square roots of finite positive degree sums and one edge
  weight — are then real too. With the two programs started on the same arguments, the two result arrays are equal.
-/
import proofs.«181230_j19834158973077_2_alg».proof.Defs
import proofs.«181230_j19834158973077_2_alg».proof.Proof.PreFacts
import proofs.«181230_j19834158973077_2_alg».proof.Proof.RefResult
import proofs.«181230_j19834158973077_2_alg».proof.Proof.KI.Result
import proofs.«181230_j19834158973077_2_alg».proof.Proof.SpecAlgebra

set_option maxRecDepth 16384

noncomputable section

namespace Cert.Join

open Idealize.ShloMosaic Idealize.ShloMosaic.TcCoe Idealize.SL.Sem Idealize.ShloMosaic.ValueIdx
open Cert.Norm Cert.RefRead Cert.KernelIdeal.Rg
open Cert.Lib (IsReal)

/-- Entry (p, q) of the two result arrays, for the two programs started on the same nine arguments of which the
    precondition holds, given what each of the dense program's fourteen regions computes. -/
theorem result_at [hPre : Cert.Pre_finite_inputs.Facts] (H : Cert.KernelIdeal.Rg.RegionValues)
    (m : (ℓ : Loc Cert.KernelIdeal.nD Cert.KernelIdeal.τ Cert.KernelIdeal.sig) → Buf (Elt Ideal) ℓ)
    (m' : (ℓ : Loc Cert.ReferenceIdeal.nD Cert.ReferenceIdeal.τ Cert.ReferenceIdeal.sig) → Buf (Elt Ideal) ℓ)
    (hpre : Cert.Pre_KernelIdeal m)
    (hagree : ∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)
      ∧ m' ((c.tc : Thread Cert.ReferenceIdeal.nD Cert.ReferenceIdeal.τ).loc Cert.ReferenceIdeal.main_arg8) = m ((c.tc : Thread Cert.KernelIdeal.nD Cert.KernelIdeal.τ).loc Cert.KernelIdeal.main_arg8))
    (c : Dev Cert.KernelIdeal.nD) (p : Fin 10000) (q : Fin 256) :
    (Cert.ReferenceIdeal.Value.res_main_v176 (F := Ideal) m' c : (⟨2, ![10000, 256]⟩ : Shape).Idx → EReal) (ix2 p q)
      = (W43 m c Cert.KernelIdeal.main_v113 : (⟨2, ![10000, 256]⟩ : Shape).Idx → EReal) (ix2 p q) := by
  obtain ⟨h0, h1, h2, h3, h4, h5, h6, h7, h8⟩ := hagree c
  -- the precondition, decoded: real entries, node numbers
  obtain ⟨r0, r2, r3, r4, r5, r6, r7, r8, rwords⟩ := Cert.PreFacts.facts_of_pre _ _ _ _ _ _ _ _ _ (hpre c)
  have hin : InRange (m ((c.tc : Thread Cert.KernelIdeal.nD Cert.KernelIdeal.τ).loc Cert.KernelIdeal.main_arg1)) := inRange_of_words rwords
  have hinR : InRange (m' ((c.tc : Thread Cert.ReferenceIdeal.nD Cert.ReferenceIdeal.τ).loc Cert.ReferenceIdeal.main_arg1)) := by rw [h1]; exact hin
  -- the reference's result is the gather / scatter-add network of its arguments, which are the dense program's
  rw [ref_result_run m' c hinR, h0, h1, h2, h3, h4, h5, h6, h7, h8]
  -- the dense program's result is the dense padded network of its arguments
  refine Eq.trans ?_ (ker_result_of m H c hin p q).symm
  -- the dense program's arguments, read by coordinates: the same arrays as on the reference's side
  show refSpec (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) p q
    = Cert.Spec.kerNet (rowOf (m ((c.tc : Thread Cert.KernelIdeal.nD Cert.KernelIdeal.τ).loc Cert.KernelIdeal.main_arg1))) (colOf (m ((c.tc : Thread Cert.KernelIdeal.nD Cert.KernelIdeal.τ).loc Cert.KernelIdeal.main_arg1))) (weightOf (m ((c.tc : Thread Cert.KernelIdeal.nD Cert.KernelIdeal.τ).loc Cert.KernelIdeal.main_arg1)) (m ((c.tc : Thread Cert.KernelIdeal.nD Cert.KernelIdeal.τ).loc Cert.KernelIdeal.main_arg2)))
        (mat (m ((c.tc : Thread Cert.KernelIdeal.nD Cert.KernelIdeal.τ).loc Cert.KernelIdeal.main_arg0))) (mat (m ((c.tc : Thread Cert.KernelIdeal.nD Cert.KernelIdeal.τ).loc Cert.KernelIdeal.main_arg3))) (vec (m ((c.tc : Thread Cert.KernelIdeal.nD Cert.KernelIdeal.τ).loc Cert.KernelIdeal.main_arg4))) (ten (m ((c.tc : Thread Cert.KernelIdeal.nD Cert.KernelIdeal.τ).loc Cert.KernelIdeal.main_arg5))) (mat (m ((c.tc : Thread Cert.KernelIdeal.nD Cert.KernelIdeal.τ).loc Cert.KernelIdeal.main_arg6))) (mat (m ((c.tc : Thread Cert.KernelIdeal.nD Cert.KernelIdeal.τ).loc Cert.KernelIdeal.main_arg7))) (vec (m ((c.tc : Thread Cert.KernelIdeal.nD Cert.KernelIdeal.τ).loc Cert.KernelIdeal.main_arg8))) p q
  -- the two networks agree on real data; the coefficients are the normalised weights, real because the degrees are
  have hw : ∀ e, IsReal (weightOf (m ((c.tc : Thread Cert.KernelIdeal.nD Cert.KernelIdeal.τ).loc Cert.KernelIdeal.main_arg1)) (m ((c.tc : Thread Cert.KernelIdeal.nD Cert.KernelIdeal.τ).loc Cert.KernelIdeal.main_arg2)) e) := isReal_weightOf _ _ r2 hin
  refine ((Cert.Spec.kerNet_eq_refNet hw (fun i k => r0 (ix2 i k)) (fun k q => r3 (ix2 k q)) (fun q => r4 (ix1 q))
    (fun l k q => r5 (ix3 l k q)) (fun l q => r6 (ix2 l q)) (fun k q => r7 (ix2 k q)) p q).trans ?_).symm
  rw [weightOf_eq_fun _ _ hin]

/-- The two result arrays are equal. -/
theorem result_eq [hPre : Cert.Pre_finite_inputs.Facts] (H : Cert.KernelIdeal.Rg.RegionValues)
    (m : (ℓ : Loc Cert.KernelIdeal.nD Cert.KernelIdeal.τ Cert.KernelIdeal.sig) → Buf (Elt Ideal) ℓ)
    (m' : (ℓ : Loc Cert.ReferenceIdeal.nD Cert.ReferenceIdeal.τ Cert.ReferenceIdeal.sig) → Buf (Elt Ideal) ℓ)
    (hpre : Cert.Pre_KernelIdeal m)
    (hagree : ∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)
      ∧ m' ((c.tc : Thread Cert.ReferenceIdeal.nD Cert.ReferenceIdeal.τ).loc Cert.ReferenceIdeal.main_arg8) = m ((c.tc : Thread Cert.KernelIdeal.nD Cert.KernelIdeal.τ).loc Cert.KernelIdeal.main_arg8))
    (c : Dev Cert.KernelIdeal.nD) :
    Cert.ReferenceIdeal.Value.res_main_v176 (F := Ideal) m' c = W43 m c Cert.KernelIdeal.main_v113 := by
  funext j
  obtain ⟨p, q, rfl⟩ : ∃ (p : Fin 10000) (q : Fin 256), j = ix2 p q := ⟨j 0, j 1, eq_ix2 j⟩
  exact result_at H m m' hpre hagree c p q

end Cert.Join

end
-- ==== Proof.lean ====
/- The certificate of a seven-layer graph convolution encoder computed as fourteen dense, tiled matrix products against its
   gather / scatter-add reference.

   The kernel's program builds, on the host, the dense normalized adjacency A (10240 × 10240, zero outside the 10000 real nodes: entry
   (i, j) is the sum of the normalization coefficients of the edges from j to i), pads the features, weights and biases with zeros to
   multiples of 128, and then alternates two kinds of regions: X·W + b (optionally max · 0) over row blocks, and A·H + b (optionally
   max · 0) as ten tiles of 1024 accumulated in a scratch that is zeroed at the first tile and flushed at the last; the first layer
   aggregates before it transforms. The reference gathers the transformed rows of the source nodes, scales them by the same
   coefficients and scatter-adds them to the target nodes.

   At the exact instance the two agree on inputs whose float entries are real and whose edge indices lie in [0, 10000): every
   intermediate is then a real number, so the dense product is the gather / scatter-add (the sum over j of A i j · H j c regroups as the
   sum over the edges into i), (A·x)·W = A·(x·W), ten tiles regroup one finite sum, and zero padding contributes nothing.

   The frames: each of the 14 regions is a segment of @main with its own body obligation (a carried accumulator for the A·H regions),
   entered from and left at named buffer contents; the run of @main through its 43 segments gives the frame of both kernel programs and
   names the result buffer of the idealized one. The reference's frame is its generated run. -/
import proofs.«181230_j19834158973077_2_alg».proof.Defs
import proofs.«181230_j19834158973077_2_alg».proof.Proof.Gen.Kernel
import proofs.«181230_j19834158973077_2_alg».proof.Proof.Gen.KernelIdeal
import proofs.«181230_j19834158973077_2_alg».proof.Proof.Gen.ReferenceIdeal
import proofs.«181230_j19834158973077_2_alg».proof.Proof.Gen.Pre_finite_inputs
import proofs.«181230_j19834158973077_2_alg».proof.Proof.RefImports
import proofs.«181230_j19834158973077_2_alg».proof.Proof.KB.Run
import proofs.«181230_j19834158973077_2_alg».proof.Proof.KI.Run
import proofs.«181230_j19834158973077_2_alg».proof.Proof.KI.Values
import proofs.«181230_j19834158973077_2_alg».proof.Proof.Join
import Idealize.ShloMosaic.Adequacy
import Idealize.ShloMosaic.Init

noncomputable section

namespace Cert.Proof

open Idealize.ShloMosaic Idealize.ShloMosaic.TcCoe Idealize.SL.Sem

/-- The word-level kernel runs to the end, faults nowhere and leaves its arguments as launched. -/
theorem frame_kernel : Cert.frame_Kernel :=
  fun m ρ _ => Cert.Kernel.Rg.run_main (F := Bits) m ρ

/-- So does the idealized kernel (its run also names the result, which the frame drops). -/
theorem frame_kernelIdeal : Cert.frame_KernelIdeal :=
  fun m ρ _ => (θ_run Cert.KernelIdeal.defs _ _).mono (fun _ h c => (h c).2) (Cert.KernelIdeal.Rg.run_main (F := Ideal) m ρ)

/-- The reference's frame is its run with the result dropped. -/
theorem frame_referenceIdeal : Cert.frame_ReferenceIdeal :=
  fun m ρ _ => (θ_run Cert.ReferenceIdeal.defs _ _).mono (fun _ h c => (h c).2) (Cert.ReferenceIdeal.Value.run (F := Ideal) m ρ)

/-- The idealization rewrote nothing. -/
theorem preserves : Cert.preserves_Kernel_KernelIdeal := trivial

/-- From memories that agree on the arguments both idealized programs run, and the reference's result is the kernel's: the named
    result of the kernel's run, against the reference's run read back and joined to it. -/
theorem algebraic : Cert.algebraic_KernelIdeal_ReferenceIdeal := by
  intro m ρ m' ρ' hpre hagree
  refine ⟨fun c => Cert.KernelIdeal.Rg.W43 m c Cert.KernelIdeal.main_v113, Cert.KernelIdeal.Rg.run_main (F := Ideal) m ρ, ?_⟩
  exact (θ_run Cert.ReferenceIdeal.defs _ _).mono (fun _ h c => ⟨(h c).1.trans (Cert.Join.result_eq Cert.KernelIdeal.Rg.regionValues m m' hpre hagree c), (h c).2⟩)
    (Cert.ReferenceIdeal.Value.run (F := Ideal) m' ρ')

theorem claim : Cert.Claim := ⟨Cert.Kernel.Gen.facts, Cert.KernelIdeal.Gen.facts, Cert.ReferenceIdeal.Gen.facts, Cert.Pre_finite_inputs.Gen.facts,
  frame_kernel, frame_kernelIdeal, frame_referenceIdeal, preserves, algebraic⟩

end Cert.Proof

end
